-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v211)) (v1 : (c : Dev Cert.KernelIdeal.nD) → Buf (Elt Ideal) ((c.tc : Thread Cert.KernelIdeal.nD Cert.KernelIdeal.τ).loc Cert.KernelIdeal.main_v210_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v211) = v0 c
          ∧ r.2.mem ((c.tc : Thread Cert.KernelIdeal.nD Cert.KernelIdeal.τ).loc Cert.KernelIdeal.main_v210_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v293) = v0 c
          ∧ r.2.mem ((c.tc : Thread Cert.ReferenceIdeal.nD Cert.ReferenceIdeal.τ).loc Cert.ReferenceIdeal.main_v277) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S50000x48 : Shape := ⟨2, ![50000, 48]⟩
abbrev S2x600000 : Shape := ⟨2, ![2, 600000]⟩
abbrev S600000x11 : Shape := ⟨2, ![600000, 11]⟩
abbrev S600000 : Shape := ⟨1, ![600000]⟩
abbrev S48x128 : Shape := ⟨2, ![48, 128]⟩
abbrev S128 : Shape := ⟨1, ![128]⟩
abbrev S11x128 : Shape := ⟨2, ![11, 128]⟩
abbrev S5x128x128 : Shape := ⟨3, ![5, 128, 128]⟩
abbrev S5x128 : Shape := ⟨2, ![5, 128]⟩
abbrev S_ : Shape := ⟨0, ![]⟩

class Facts : Prop where
  bcast_S_S50000x48 : S_.BroadcastsInDim S50000x48 (![] : Fin 0 → Fin S50000x48.rank)
  reducesTo_S50000x48_S_d0_1 : S50000x48.ReducesTo [0, 1] S_
  h_S_ : 0 < S_.numel
  bcast_S_S600000x11 : S_.BroadcastsInDim S600000x11 (![] : Fin 0 → Fin S600000x11.rank)
  reducesTo_S600000x11_S_d0_1 : S600000x11.ReducesTo [0, 1] S_
  bcast_S_S600000 : S_.BroadcastsInDim S600000 (![] : Fin 0 → Fin S600000.rank)
  reducesTo_S600000_S_d0 : S600000.ReducesTo [0] S_
  bcast_S_S48x128 : S_.BroadcastsInDim S48x128 (![] : Fin 0 → Fin S48x128.rank)
  reducesTo_S48x128_S_d0_1 : S48x128.ReducesTo [0, 1] S_
  bcast_S_S128 : S_.BroadcastsInDim S128 (![] : Fin 0 → Fin S128.rank)
  reducesTo_S128_S_d0 : S128.ReducesTo [0] S_
  bcast_S_S11x128 : S_.BroadcastsInDim S11x128 (![] : Fin 0 → Fin S11x128.rank)
  reducesTo_S11x128_S_d0_1 : S11x128.ReducesTo [0, 1] S_
  bcast_S_S5x128x128 : S_.BroadcastsInDim S5x128x128 (![] : Fin 0 → Fin S5x128x128.rank)
  reducesTo_S5x128x128_S_d0_1_2 : S5x128x128.ReducesTo [0, 1, 2] S_
  bcast_S_S5x128 : S_.BroadcastsInDim S5x128 (![] : Fin 0 → Fin S5x128.rank)
  reducesTo_S5x128_S_d0_1 : S5x128.ReducesTo [0, 1] S_

variable [Facts]

def fn_part3 {F : FTy → Type} [FloatOps F] (main_arg13 : FVec F S5x128 .f32) (main_v48 : IVec S_ 1) (main_v49 : FVec F S5x128 .f32) (main_v50 : FVec F S5x128 .f32) : IVec S_ 1 :=
  let main_v51 : IVec S5x128 1 := cmpf .olt main_v49 main_v50
  let main_c_19 : IVec S_ 1 := constantI S_ 1 1#1
  let main_v52 : IVec S_ 1 := (fun x v => Host.reduce IntOp.andi x v reducesTo_S5x128_S_d0_1 h_S_) main_v51 main_c_19
  let main_v53 : IVec S_ 1 := andi main_v48 main_v52
  let main_v54 : FVec F S5x128 .f32 := Host.absf main_arg13
  let main_cst_20 : FVec F S_ .f32 := constant S_ .f32 0x7F800000#32
  let main_v55 : FVec F S5x128 .f32 := broadcastInDim S5x128 ![] bcast_S_S5x128 main_cst_20
  let main_v56 : IVec S5x128 1 := cmpf .olt main_v54 main_v55
  let main_c_21 : IVec S_ 1 := constantI S_ 1 1#1
  let main_v57 : IVec S_ 1 := (fun x v => Host.reduce IntOp.andi x v reducesTo_S5x128_S_d0_1 h_S_) main_v56 main_c_21
  let main_v58 : IVec S_ 1 := andi main_v53 main_v57
  main_v58

def fn_part2 {F : FTy → Type} [FloatOps F] (main_arg9 : FVec F S5x128x128 .f32) (main_arg10 : FVec F S5x128 .f32) (main_arg11 : FVec F S5x128x128 .f32) (main_arg12 : FVec F S5x128 .f32) (main_arg13 : FVec F S5x128 .f32) (main_v33 : IVec S_ 1) : IVec S_ 1 :=
  let main_v34 : FVec F S5x128x128 .f32 := Host.absf main_arg9
  let main_cst_12 : FVec F S_ .f32 := constant S_ .f32 0x7F800000#32
  let main_v35 : FVec F S5x128x128 .f32 := broadcastInDim S5x128x128 ![] bcast_S_S5x128x128 main_cst_12
  let main_v36 : IVec S5x128x128 1 := cmpf .olt main_v34 main_v35
  let main_c_13 : IVec S_ 1 := constantI S_ 1 1#1
  let main_v37 : IVec S_ 1 := (fun x v => Host.reduce IntOp.andi x v reducesTo_S5x128x128_S_d0_1_2 h_S_) main_v36 main_c_13
  let main_v38 : IVec S_ 1 := andi main_v33 main_v37
  let main_v39 : FVec F S5x128 .f32 := Host.absf main_arg10
  let main_cst_14 : FVec F S_ .f32 := constant S_ .f32 0x7F800000#32
  let main_v40 : FVec F S5x128 .f32 := broadcastInDim S5x128 ![] bcast_S_S5x128 main_cst_14
  let main_v41 : IVec S5x128 1 := cmpf .olt main_v39 main_v40
  let main_c_15 : IVec S_ 1 := constantI S_ 1 1#1
  let main_v42 : IVec S_ 1 := (fun x v => Host.reduce IntOp.andi x v reducesTo_S5x128_S_d0_1 h_S_) main_v41 main_c_15
  let main_v43 : IVec S_ 1 := andi main_v38 main_v42
  let main_v44 : FVec F S5x128x128 .f32 := Host.absf main_arg11
  let main_cst_16 : FVec F S_ .f32 := constant S_ .f32 0x7F800000#32
  let main_v45 : FVec F S5x128x128 .f32 := broadcastInDim S5x128x128 ![] bcast_S_S5x128x128 main_cst_16
  let main_v46 : IVec S5x128x128 1 := cmpf .olt main_v44 main_v45
  let main_c_17 : IVec S_ 1 := constantI S_ 1 1#1
  let main_v47 : IVec S_ 1 := (fun x v => Host.reduce IntOp.andi x v reducesTo_S5x128x128_S_d0_1_2 h_S_) main_v46 main_c_17
  let main_v48 : IVec S_ 1 := andi main_v43 main_v47
  let main_v49 : FVec F S5x128 .f32 := Host.absf main_arg12
  let main_cst_18 : FVec F S_ .f32 := constant S_ .f32 0x7F800000#32
  let main_v50 : FVec F S5x128 .f32 := broadcastInDim S5x128 ![] bcast_S_S5x128 main_cst_18
  fn_part3 (F := F) main_arg13 main_v48 main_v49 main_v50

def fn_part1 {F : FTy → Type} [FloatOps F] (main_arg6 : FVec F S128 .f32) (main_arg7 : FVec F S11x128 .f32) (main_arg8 : FVec F S128 .f32) (main_arg9 : FVec F S5x128x128 .f32) (main_arg10 : FVec F S5x128 .f32) (main_arg11 : FVec F S5x128x128 .f32) (main_arg12 : FVec F S5x128 .f32) (main_arg13 : FVec F S5x128 .f32) (main_v13 : IVec S_ 1) (main_v16 : IVec S48x128 1) : IVec S_ 1 :=
  let main_c_5 : IVec S_ 1 := constantI S_ 1 1#1
  let main_v17 : IVec S_ 1 := (fun x v => Host.reduce IntOp.andi x v reducesTo_S48x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S11x128 .f32 := Host.absf main_arg7
  let main_cst_8 : FVec F S_ .f32 := constant S_ .f32 0x7F800000#32
  let main_v25 : FVec F S11x128 .f32 := broadcastInDim S11x128 ![] bcast_S_S11x128 main_cst_8
  let main_v26 : IVec S11x128 1 := cmpf .olt main_v24 main_v25
  let main_c_9 : IVec S_ 1 := constantI S_ 1 1#1
  let main_v27 : IVec S_ 1 := (fun x v => Host.reduce IntOp.andi x v reducesTo_S11x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_v33

def fn {F : FTy → Type} [FloatOps F] (main_arg0 : IVec S50000 32) (main_arg1 : FVec F S50000x48 .f32) (main_arg2 : IVec S2x600000 32) (main_arg3 : FVec F S600000x11 .f32) (main_arg4 : FVec F S600000 .f32) (main_arg5 : FVec F S48x128 .f32) (main_arg6 : FVec F S128 .f32) (main_arg7 : FVec F S11x128 .f32) (main_arg8 : FVec F S128 .f32) (main_arg9 : FVec F S5x128x128 .f32) (main_arg10 : FVec F S5x128 .f32) (main_arg11 : FVec F S5x128x128 .f32) (main_arg12 : FVec F S5x128 .f32) (main_arg13 : FVec F S5x128 .f32) : IVec S_ 1 :=
  let main_v0 : FVec F S50000x48 .f32 := Host.absf main_arg1
  let main_cst : FVec F S_ .f32 := constant S_ .f32 0x7F800000#32
  let main_v1 : FVec F S50000x48 .f32 := broadcastInDim S50000x48 ![] bcast_S_S50000x48 main_cst
  let main_v2 : IVec S50000x48 1 := cmpf .olt main_v0 main_v1
  let main_c : IVec S_ 1 := constantI S_ 1 1#1
  let main_v3 : IVec S_ 1 := (fun x v => Host.reduce IntOp.andi x v reducesTo_S50000x48_S_d0_1 h_S_) main_v2 main_c
  let main_v4 : FVec F S600000x11 .f32 := Host.absf main_arg3
  let main_cst_0 : FVec F S_ .f32 := constant S_ .f32 0x7F800000#32
  let main_v5 : FVec F S600000x11 .f32 := broadcastInDim S600000x11 ![] bcast_S_S600000x11 main_cst_0
  let main_v6 : IVec S600000x11 1 := cmpf .olt main_v4 main_v5
  let main_c_1 : IVec S_ 1 := constantI S_ 1 1#1
  let main_v7 : IVec S_ 1 := (fun x v => Host.reduce IntOp.andi x v reducesTo_S600000x11_S_d0_1 h_S_) main_v6 main_c_1
  let main_v8 : IVec S_ 1 := andi main_v3 main_v7
  let main_v9 : FVec F S600000 .f32 := Host.absf main_arg4
  let main_cst_2 : FVec F S_ .f32 := constant S_ .f32 0x7F800000#32
  let main_v10 : FVec F S600000 .f32 := broadcastInDim S600000 ![] bcast_S_S600000 main_cst_2
  let main_v11 : IVec S600000 1 := cmpf .olt main_v9 main_v10
  let main_c_3 : IVec S_ 1 := constantI S_ 1 1#1
  let main_v12 : IVec S_ 1 := (fun x v => Host.reduce IntOp.andi x v reducesTo_S600000_S_d0 h_S_) main_v11 main_c_3
  let main_v13 : IVec S_ 1 := andi main_v8 main_v12
  let main_v14 : FVec F S48x128 .f32 := Host.absf main_arg5
  let main_cst_4 : FVec F S_ .f32 := constant S_ .f32 0x7F800000#32
  let main_v15 : FVec F S48x128 .f32 := broadcastInDim S48x128 ![] bcast_S_S48x128 main_cst_4
  let main_v16 : IVec S48x128 1 := cmpf .olt main_v14 main_v15
  fn_part1 (F := F) main_arg6 main_arg7 main_arg8 main_arg9 main_arg10 main_arg11 main_arg12 main_arg13 main_v13 main_v16
-- ==== Kernel.lean ====
abbrev S50000 : Shape := ⟨1, ![50000]⟩
abbrev S50000x48 : Shape := ⟨2, ![50000, 48]⟩
abbrev S2x600000 : Shape := ⟨2, ![2, 600000]⟩
abbrev S600000x11 : Shape := ⟨2, ![600000, 11]⟩
abbrev S600000 : Shape := ⟨1, ![600000]⟩
abbrev S48x128 : Shape := ⟨2, ![48, 128]⟩
abbrev S128 : Shape := ⟨1, ![128]⟩
abbrev S11x128 : Shape := ⟨2, ![11, 128]⟩
abbrev S5x128x128 : Shape := ⟨3, ![5, 128, 128]⟩
abbrev S5x128 : Shape := ⟨2, ![5, 128]⟩
abbrev S1x600000 : Shape := ⟨2, ![1, 600000]⟩
abbrev S1x128 : Shape := ⟨2, ![1, 128]⟩
abbrev S50000x128 : Shape := ⟨2, ![50000, 128]⟩
abbrev S5000x48 : Shape := ⟨2, ![5000, 48]⟩
abbrev S5000x128 : Shape := ⟨2, ![5000, 128]⟩
abbrev S_ : Shape := ⟨0, ![]⟩
abbrev S600000x1 : Shape := ⟨2, ![600000, 1]⟩
abbrev S50000x1 : Shape := ⟨2, ![50000, 1]⟩
abbrev S50000x11 : Shape := ⟨2, ![50000, 11]⟩
abbrev S5000x11 : Shape := ⟨2, ![5000, 11]⟩
abbrev S5000x1 : Shape := ⟨2, ![5000, 1]⟩
abbrev S600000x128 : Shape := ⟨2, ![600000, 128]⟩
abbrev S1x128x128 : Shape := ⟨3, ![1, 128, 128]⟩
abbrev S128x128 : Shape := ⟨2, ![128, 128]⟩
abbrev S128x640 : Shape := ⟨2, ![128, 640]⟩

abbrev nBuf : Space → Nat
  | .hbm => 271
  | .vmem => 126
  | .smem => 0
  | _ => 0

abbrev hbmTy0_0 (i : Nat) : BufTy := match i % 128 with
  | 0 => ⟨S50000, .i32⟩
  | 1 => ⟨S50000x48, .f32⟩
  | 2 => ⟨S2x600000, .i32⟩
  | 3 => ⟨S600000x11, .f32⟩
  | 4 => ⟨S600000, .f32⟩
  | 5 => ⟨S48x128, .f32⟩
  | 6 => ⟨S128, .f32⟩
  | 7 => ⟨S11x128, .f32⟩
  | 8 => ⟨S128, .f32⟩
  | 9 => ⟨S5x128x128, .f32⟩
  | 10 => ⟨S5x128, .f32⟩
  | 11 => ⟨S5x128x128, .f32⟩
  | 12 => ⟨S5x128, .f32⟩
  | 13 => ⟨S5x128, .f32⟩
  | 14 => ⟨S1x600000, .i32⟩
  | 15 => ⟨S600000, .i32⟩
  | 16 => ⟨S1x600000, .i32⟩
  | 17 => ⟨S600000, .i32⟩
  | 18 => ⟨S1x128, .f32⟩
  | 19 => ⟨S50000x128, .f32⟩
  | 20 => ⟨S_, .f32⟩
  | 21 => ⟨S600000, .f32⟩
  | 22 => ⟨S_, .f32⟩
  | 23 => ⟨S50000, .f32⟩
  | 24 => ⟨S600000x1, .i32⟩
  | 25 => ⟨S50000, .f32⟩
  | 26 => ⟨S_, .f32⟩
  | 27 => ⟨S50000, .f32⟩
  | 28 => ⟨S50000, .f32⟩
  | 29 => ⟨S50000x1, .f32⟩
  | 30 => ⟨S_, .f32⟩
  | 31 => ⟨S50000, .f32⟩
  | 32 => ⟨S600000x1, .i32⟩
  | 33 => ⟨S50000, .f32⟩
  | 34 => ⟨S50000x1, .f32⟩
  | 35 => ⟨S600000x1, .f32⟩
  | 36 => ⟨S600000x11, .f32⟩
  | 37 => ⟨S600000x11, .f32⟩
  | 38 => ⟨S_, .f32⟩
  | 39 => ⟨S50000x11, .f32⟩
  | 40 => ⟨S600000x1, .i32⟩
  | 41 => ⟨S50000x11, .f32⟩
  | 42 => ⟨S1x128, .f32⟩
  | 43 => ⟨S50000x128, .f32⟩
  | 44 => ⟨S50000x1, .i32⟩
  | 45 => ⟨S_, .i32⟩
  | 46 => ⟨S600000, .i32⟩
  | 47 => ⟨S600000, .i1⟩
  | 48 => ⟨S_, .i32⟩
  | 49 => ⟨S600000, .i32⟩
  | 50 => ⟨S600000, .i32⟩
  | 51 => ⟨S600000, .i32⟩
  | 52 => ⟨S600000x1, .i32⟩
  | 53 => ⟨S600000x128, .f32⟩
  | 54 => ⟨S600000x1, .f32⟩
  | 55 => ⟨S600000x128, .f32⟩
  | 56 => ⟨S600000x128, .f32⟩
  | 57 => ⟨S_, .f32⟩
  | 58 => ⟨S50000x128, .f32⟩
  | 59 => ⟨S600000x1, .i32⟩
  | 60 => ⟨S50000x128, .f32⟩
  | 61 => ⟨S50000x128, .f32⟩
  | 62 => ⟨S50000x128, .f32⟩
  | 63 => ⟨S50000x128, .f32⟩
  | 64 => ⟨S1x128x128, .f32⟩
  | 65 => ⟨S128x128, .f32⟩
  | 66 => ⟨S1x128x128, .f32⟩
  | 67 => ⟨S128x128, .f32⟩
  | 68 => ⟨S1x128, .f32⟩
  | 69 => ⟨S128, .f32⟩
  | 70 => ⟨S1x128, .f32⟩
  | 71 => ⟨S50000x128, .f32⟩
  | 72 => ⟨S1x128, .f32⟩
  | 73 => ⟨S1x128, .f32⟩
  | 74 => ⟨S_, .f32⟩
  | 75 => ⟨S1x128, .f32⟩
  | 76 => ⟨S1x128, .f32⟩
  | 77 => ⟨S_, .f32⟩
  | 78 => ⟨S1x128, .f32⟩
  | 79 => ⟨S1x128, .f32⟩
  | 80 => ⟨S1x128, .f32⟩
  | 81 => ⟨S1x128, .f32⟩
  | 82 => ⟨S1x128, .f32⟩
  | 83 => ⟨S128, .f32⟩
  | 84 => ⟨S1x128, .f32⟩
  | 85 => ⟨S128, .f32⟩
  | 86 => ⟨S1x128, .f32⟩
  | 87 => ⟨S1x128, .f32⟩
  | 88 => ⟨S50000x128, .f32⟩
  | 89 => ⟨S128x128, .f32⟩
  | 90 => ⟨S_, .i32⟩
  | 91 => ⟨S600000, .i32⟩
  | 92 => ⟨S600000, .i1⟩
  | 93 => ⟨S_, .i32⟩
  | 94 => ⟨S600000, .i32⟩
  | 95 => ⟨S600000, .i32⟩
  | 96 => ⟨S600000, .i32⟩
  | 97 => ⟨S600000x1, .i32⟩
  | 98 => ⟨S600000x128, .f32⟩
  | 99 => ⟨S600000x1, .f32⟩
  | 100 => ⟨S600000x128, .f32⟩
  | 101 => ⟨S600000x128, .f32⟩
  | 102 => ⟨S_, .f32⟩
  | 103 => ⟨S50000x128, .f32⟩
  | 104 => ⟨S600000x1, .i32⟩
  | 105 => ⟨S50000x128, .f32⟩
  | 106 => ⟨S50000x128, .f32⟩
  | 107 => ⟨S50000x128, .f32⟩
  | 108 => ⟨S50000x128, .f32⟩
  | 109 => ⟨S1x128x128, .f32⟩
  | 110 => ⟨S128x128, .f32⟩
  | 111 => ⟨S1x128x128, .f32⟩
  | 112 => ⟨S128x128, .f32⟩
  | 113 => ⟨S1x128, .f32⟩
  | 114 => ⟨S128, .f32⟩
  | 115 => ⟨S1x128, .f32⟩
  | 116 => ⟨S50000x128, .f32⟩
  | 117 => ⟨S1x128, .f32⟩
  | 118 => ⟨S1x128, .f32⟩
  | 119 => ⟨S_, .f32⟩
  | 120 => ⟨S1x128, .f32⟩
  | 121 => ⟨S1x128, .f32⟩
  | 122 => ⟨S_, .f32⟩
  | 123 => ⟨S1x128, .f32⟩
  | 124 => ⟨S1x128, .f32⟩
  | 125 => ⟨S1x128, .f32⟩
  | 126 => ⟨S1x128, .f32⟩
  | 127 => ⟨S1x128, .f32⟩
  | _ => ⟨S50000, .i32⟩

abbrev hbmTy0_1 (i : Nat) : BufTy := match i % 128 with
  | 0 => ⟨S128, .f32⟩
  | 1 => ⟨S1x128, .f32⟩
  | 2 => ⟨S128, .f32⟩
  | 3 => ⟨S1x128, .f32⟩
  | 4 => ⟨S1x128, .f32⟩
  | 5 => ⟨S50000x128, .f32⟩
  | 6 => ⟨S128x128, .f32⟩
  | 7 => ⟨S_, .i32⟩
  | 8 => ⟨S600000, .i32⟩
  | 9 => ⟨S600000, .i1⟩
  | 10 => ⟨S_, .i32⟩
  | 11 => ⟨S600000, .i32⟩
  | 12 => ⟨S600000, .i32⟩
  | 13 => ⟨S600000, .i32⟩
  | 14 => ⟨S600000x1, .i32⟩
  | 15 => ⟨S600000x128, .f32⟩
  | 16 => ⟨S600000x1, .f32⟩
  | 17 => ⟨S600000x128, .f32⟩
  | 18 => ⟨S600000x128, .f32⟩
  | 19 => ⟨S_, .f32⟩
  | 20 => ⟨S50000x128, .f32⟩
  | 21 => ⟨S600000x1, .i32⟩
  | 22 => ⟨S50000x128, .f32⟩
  | 23 => ⟨S50000x128, .f32⟩
  | 24 => ⟨S50000x128, .f32⟩
  | 25 => ⟨S50000x128, .f32⟩
  | 26 => ⟨S1x128x128, .f32⟩
  | 27 => ⟨S128x128, .f32⟩
  | 28 => ⟨S1x128x128, .f32⟩
  | 29 => ⟨S128x128, .f32⟩
  | 30 => ⟨S1x128, .f32⟩
  | 31 => ⟨S128, .f32⟩
  | 32 => ⟨S1x128, .f32⟩
  | 33 => ⟨S50000x128, .f32⟩
  | 34 => ⟨S1x128, .f32⟩
  | 35 => ⟨S1x128, .f32⟩
  | 36 => ⟨S_, .f32⟩
  | 37 => ⟨S1x128, .f32⟩
  | 38 => ⟨S1x128, .f32⟩
  | 39 => ⟨S_, .f32⟩
  | 40 => ⟨S1x128, .f32⟩
  | 41 => ⟨S1x128, .f32⟩
  | 42 => ⟨S1x128, .f32⟩
  | 43 => ⟨S1x128, .f32⟩
  | 44 => ⟨S1x128, .f32⟩
  | 45 => ⟨S128, .f32⟩
  | 46 => ⟨S1x128, .f32⟩
  | 47 => ⟨S128, .f32⟩
  | 48 => ⟨S1x128, .f32⟩
  | 49 => ⟨S1x128, .f32⟩
  | 50 => ⟨S50000x128, .f32⟩
  | 51 => ⟨S128x128, .f32⟩
  | 52 => ⟨S_, .i32⟩
  | 53 => ⟨S600000, .i32⟩
  | 54 => ⟨S600000, .i1⟩
  | 55 => ⟨S_, .i32⟩
  | 56 => ⟨S600000, .i32⟩
  | 57 => ⟨S600000, .i32⟩
  | 58 => ⟨S600000, .i32⟩
  | 59 => ⟨S600000x1, .i32⟩
  | 60 => ⟨S600000x128, .f32⟩
  | 61 => ⟨S600000x1, .f32⟩
  | 62 => ⟨S600000x128, .f32⟩
  | 63 => ⟨S600000x128, .f32⟩
  | 64 => ⟨S_, .f32⟩
  | 65 => ⟨S50000x128, .f32⟩
  | 66 => ⟨S600000x1, .i32⟩
  | 67 => ⟨S50000x128, .f32⟩
  | 68 => ⟨S50000x128, .f32⟩
  | 69 => ⟨S50000x128, .f32⟩
  | 70 => ⟨S50000x128, .f32⟩
  | 71 => ⟨S1x128x128, .f32⟩
  | 72 => ⟨S128x128, .f32⟩
  | 73 => ⟨S1x128x128, .f32⟩
  | 74 => ⟨S128x128, .f32⟩
  | 75 => ⟨S1x128, .f32⟩
  | 76 => ⟨S128, .f32⟩
  | 77 => ⟨S1x128, .f32⟩
  | 78 => ⟨S50000x128, .f32⟩
  | 79 => ⟨S1x128, .f32⟩
  | 80 => ⟨S1x128, .f32⟩
  | 81 => ⟨S_, .f32⟩
  | 82 => ⟨S1x128, .f32⟩
  | 83 => ⟨S1x128, .f32⟩
  | 84 => ⟨S_, .f32⟩
  | 85 => ⟨S1x128, .f32⟩
  | 86 => ⟨S1x128, .f32⟩
  | 87 => ⟨S1x128, .f32⟩
  | 88 => ⟨S1x128, .f32⟩
  | 89 => ⟨S1x128, .f32⟩
  | 90 => ⟨S128, .f32⟩
  | 91 => ⟨S1x128, .f32⟩
  | 92 => ⟨S128, .f32⟩
  | 93 => ⟨S1x128, .f32⟩
  | 94 => ⟨S1x128, .f32⟩
  | 95 => ⟨S50000x128, .f32⟩
  | 96 => ⟨S128x128, .f32⟩
  | 97 => ⟨S_, .i32⟩
  | 98 => ⟨S600000, .i32⟩
  | 99 => ⟨S600000, .i1⟩
  | 100 => ⟨S_, .i32⟩
  | 101 => ⟨S600000, .i32⟩
  | 102 => ⟨S600000, .i32⟩
  | 103 => ⟨S600000, .i32⟩
  | 104 => ⟨S600000x1, .i32⟩
  | 105 => ⟨S600000x128, .f32⟩
  | 106 => ⟨S600000x1, .f32⟩
  | 107 => ⟨S600000x128, .f32⟩
  | 108 => ⟨S600000x128, .f32⟩
  | 109 => ⟨S_, .f32⟩
  | 110 => ⟨S50000x128, .f32⟩
  | 111 => ⟨S600000x1, .i32⟩
  | 112 => ⟨S50000x128, .f32⟩
  | 113 => ⟨S50000x128, .f32⟩
  | 114 => ⟨S50000x128, .f32⟩
  | 115 => ⟨S50000x128, .f32⟩
  | 116 => ⟨S1x128x128, .f32⟩
  | 117 => ⟨S128x128, .f32⟩
  | 118 => ⟨S1x128x128, .f32⟩
  | 119 => ⟨S128x128, .f32⟩
  | 120 => ⟨S1x128, .f32⟩
  | 121 => ⟨S128, .f32⟩
  | 122 => ⟨S1x128, .f32⟩
  | 123 => ⟨S50000x128, .f32⟩
  | 124 => ⟨S1x128, .f32⟩
  | 125 => ⟨S1x128, .f32⟩
  | 126 => ⟨S_, .f32⟩
  | 127 => ⟨S1x128, .f32⟩
  | _ => ⟨S50000, .i32⟩

abbrev hbmTy0_2 (i : Nat) : BufTy := match i % 128 with
  | 0 => ⟨S1x128, .f32⟩
  | 1 => ⟨S_, .f32⟩
  | 2 => ⟨S1x128, .f32⟩
  | 3 => ⟨S1x128, .f32⟩
  | 4 => ⟨S1x128, .f32⟩
  | 5 => ⟨S1x128, .f32⟩
  | 6 => ⟨S1x128, .f32⟩
  | 7 => ⟨S128, .f32⟩
  | 8 => ⟨S1x128, .f32⟩
  | 9 => ⟨S128, .f32⟩
  | 10 => ⟨S1x128, .f32⟩
  | 11 => ⟨S1x128, .f32⟩
  | 12 => ⟨S50000x128, .f32⟩
  | 13 => ⟨S128x128, .f32⟩
  | 14 => ⟨S128x640, .f32⟩
  | _ => ⟨S50000, .i32⟩

abbrev hbmTy (i : Nat) : BufTy := match i / 128 with
  | 0 => hbmTy0_0 i
  | 1 => hbmTy0_1 i
  | 2 => hbmTy0_2 i
  | _ => ⟨S50000, .i32⟩

abbrev bufTy : (tb : Table) → Fin (tcTables nBuf tb) → BufTy
  | .hbm, ⟨i, _⟩ => hbmTy i
  | .local _ .vmem, ⟨0, _⟩ => ⟨S5000x48, .f32⟩
  | .local _ .vmem, ⟨1, _⟩ => ⟨S5000x48, .f32⟩
  | .local _ .vmem, ⟨2, _⟩ => ⟨S48x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x11, .f32⟩
  | .local _ .vmem, ⟨7, _⟩ => ⟨S5000x11, .f32⟩
  | .local _ .vmem, ⟨8, _⟩ => ⟨S11x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x1, .f32⟩
  | .local _ .vmem, ⟨13, _⟩ => ⟨S5000x1, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S128x128, .f32⟩
  | .local _ .vmem, ⟨21, _⟩ => ⟨S128x128, .f32⟩
  | .local _ .vmem, ⟨22, _⟩ => ⟨S1x128, .f32⟩
  | .local _ .vmem, ⟨23, _⟩ => ⟨S5000x128, .f32⟩
  | .local _ .vmem, ⟨24, _⟩ => ⟨S5000x128, .f32⟩
  | .local _ .vmem, ⟨25, _⟩ => ⟨S1x128, .f32⟩
  | .local _ .vmem, ⟨26, _⟩ => ⟨S1x128, .f32⟩
  | .local _ .vmem, ⟨27, _⟩ => ⟨S5000x128, .f32⟩
  | .local _ .vmem, ⟨28, _⟩ => ⟨S5000x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S5000x1, .i32⟩
  | .local _ .vmem, ⟨34, _⟩ => ⟨S5000x1, .i32⟩
  | .local _ .vmem, ⟨35, _⟩ => ⟨S5000x128, .f32⟩
  | .local _ .vmem, ⟨36, _⟩ => ⟨S5000x128, .f32⟩
  | .local _ .vmem, ⟨37, _⟩ => ⟨S128x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S128x128, .f32⟩
  | .local _ .vmem, ⟨43, _⟩ => ⟨S128x128, .f32⟩
  | .local _ .vmem, ⟨44, _⟩ => ⟨S1x128, .f32⟩
  | .local _ .vmem, ⟨45, _⟩ => ⟨S5000x128, .f32⟩
  | .local _ .vmem, ⟨46, _⟩ => ⟨S5000x128, .f32⟩
  | .local _ .vmem, ⟨47, _⟩ => ⟨S1x128, .f32⟩
  | .local _ .vmem, ⟨48, _⟩ => ⟨S1x128, .f32⟩
  | .local _ .vmem, ⟨49, _⟩ => ⟨S5000x128, .f32⟩
  | .local _ .vmem, ⟨50, _⟩ => ⟨S5000x128, .f32⟩
  | .local _ .vmem, ⟨51, _⟩ => ⟨S1x128, .f32⟩
  | .local _ .vmem, ⟨52, _⟩ => ⟨S1x128, .f32⟩
  | .local _ .vmem, ⟨53, _⟩ => ⟨S1x128, .f32⟩
  | .local _ .vmem, ⟨54, _⟩ => ⟨S1x128, .f32⟩
  | .local _ .vmem, ⟨55, _⟩ => ⟨S5000x1, .i32⟩
  | .local _ .vmem, ⟨56, _⟩ => ⟨S5000x1, .i32⟩
  | .local _ .vmem, ⟨57, _⟩ => ⟨S5000x128, .f32⟩
  | .local _ .vmem, ⟨58, _⟩ => ⟨S5000x128, .f32⟩
  | .local _ .vmem, ⟨59, _⟩ => ⟨S128x128, .f32⟩
  | .local _ .vmem, ⟨60, _⟩ => ⟨S5000x128, .f32⟩
  | .local _ .vmem, ⟨61, _⟩ => ⟨S5000x128, .f32⟩
  | .local _ .vmem, ⟨62, _⟩ => ⟨S5000x128, .f32⟩
  | .local _ .vmem, ⟨63, _⟩ => ⟨S5000x128, .f32⟩
  | .local _ .vmem, ⟨64, _⟩ => ⟨S128x128, .f32⟩
  | .local _ .vmem, ⟨65, _⟩ => ⟨S128x128, .f32⟩
  | .local _ .vmem, ⟨66, _⟩ => ⟨S1x128, .f32⟩
  | .local _ .vmem, ⟨67, _⟩ => ⟨S5000x128, .f32⟩
  | .local _ .vmem, ⟨68, _⟩ => ⟨S5000x128, .f32⟩
  | .local _ .vmem, ⟨69, _⟩ => ⟨S1x128, .f32⟩
  | .local _ .vmem, ⟨70, _⟩ => ⟨S1x128, .f32⟩
  | .local _ .vmem, ⟨71, _⟩ => ⟨S5000x128, .f32⟩
  | .local _ .vmem, ⟨72, _⟩ => ⟨S5000x128, .f32⟩
  | .local _ .vmem, ⟨73, _⟩ => ⟨S1x128, .f32⟩
  | .local _ .vmem, ⟨74, _⟩ => ⟨S1x128, .f32⟩
  | .local _ .vmem, ⟨75, _⟩ => ⟨S1x128, .f32⟩
  | .local _ .vmem, ⟨76, _⟩ => ⟨S1x128, .f32⟩
  | .local _ .vmem, ⟨77, _⟩ => ⟨S5000x1, .i32⟩
  | .local _ .vmem, ⟨78, _⟩ => ⟨S5000x1, .i32⟩
  | .local _ .vmem, ⟨79, _⟩ => ⟨S5000x128, .f32⟩
  | .local _ .vmem, ⟨80, _⟩ => ⟨S5000x128, .f32⟩
  | .local _ .vmem, ⟨81, _⟩ => ⟨S128x128, .f32⟩
  | .local _ .vmem, ⟨82, _⟩ => ⟨S5000x128, .f32⟩
  | .local _ .vmem, ⟨83, _⟩ => ⟨S5000x128, .f32⟩
  | .local _ .vmem, ⟨84, _⟩ => ⟨S5000x128, .f32⟩
  | .local _ .vmem, ⟨85, _⟩ => ⟨S5000x128, .f32⟩
  | .local _ .vmem, ⟨86, _⟩ => ⟨S128x128, .f32⟩
  | .local _ .vmem, ⟨87, _⟩ => ⟨S128x128, .f32⟩
  | .local _ .vmem, ⟨88, _⟩ => ⟨S1x128, .f32⟩
  | .local _ .vmem, ⟨89, _⟩ => ⟨S5000x128, .f32⟩
  | .local _ .vmem, ⟨90, _⟩ => ⟨S5000x128, .f32⟩
  | .local _ .vmem, ⟨91, _⟩ => ⟨S1x128, .f32⟩
  | .local _ .vmem, ⟨92, _⟩ => ⟨S1x128, .f32⟩
  | .local _ .vmem, ⟨93, _⟩ => ⟨S5000x128, .f32⟩
  | .local _ .vmem, ⟨94, _⟩ => ⟨S5000x128, .f32⟩
  | .local _ .vmem, ⟨95, _⟩ => ⟨S1x128, .f32⟩
  | .local _ .vmem, ⟨96, _⟩ => ⟨S1x128, .f32⟩
  | .local _ .vmem, ⟨97, _⟩ => ⟨S1x128, .f32⟩
  | .local _ .vmem, ⟨98, _⟩ => ⟨S1x128, .f32⟩
  | .local _ .vmem, ⟨99, _⟩ => ⟨S5000x1, .i32⟩
  | .local _ .vmem, ⟨100, _⟩ => ⟨S5000x1, .i32⟩
  | .local _ .vmem, ⟨101, _⟩ => ⟨S5000x128, .f32⟩
  | .local _ .vmem, ⟨102, _⟩ => ⟨S5000x128, .f32⟩
  | .local _ .vmem, ⟨103, _⟩ => ⟨S128x128, .f32⟩
  | .local _ .vmem, ⟨104, _⟩ => ⟨S5000x128, .f32⟩
  | .local _ .vmem, ⟨105, _⟩ => ⟨S5000x128, .f32⟩
  | .local _ .vmem, ⟨106, _⟩ => ⟨S5000x128, .f32⟩
  | .local _ .vmem, ⟨107, _⟩ => ⟨S5000x128, .f32⟩
  | .local _ .vmem, ⟨108, _⟩ => ⟨S128x128, .f32⟩
  | .local _ .vmem, ⟨109, _⟩ => ⟨S128x128, .f32⟩
  | .local _ .vmem, ⟨110, _⟩ => ⟨S1x128, .f32⟩
  | .local _ .vmem, ⟨111, _⟩ => ⟨S5000x128, .f32⟩
  | .local _ .vmem, ⟨112, _⟩ => ⟨S5000x128, .f32⟩
  | .local _ .vmem, ⟨113, _⟩ => ⟨S1x128, .f32⟩
  | .local _ .vmem, ⟨114, _⟩ => ⟨S1x128, .f32⟩
  | .local _ .vmem, ⟨115, _⟩ => ⟨S5000x128, .f32⟩
  | .local _ .vmem, ⟨116, _⟩ => ⟨S5000x128, .f32⟩
  | .local _ .vmem, ⟨117, _⟩ => ⟨S1x128, .f32⟩
  | .local _ .vmem, ⟨118, _⟩ => ⟨S1x128, .f32⟩
  | .local _ .vmem, ⟨119, _⟩ => ⟨S1x128, .f32⟩
  | .local _ .vmem, ⟨120, _⟩ => ⟨S1x128, .f32⟩
  | .local _ .vmem, ⟨121, _⟩ => ⟨S5000x1, .i32⟩
  | .local _ .vmem, ⟨122, _⟩ => ⟨S5000x1, .i32⟩
  | .local _ .vmem, ⟨123, _⟩ => ⟨S5000x128, .f32⟩
  | .local _ .vmem, ⟨124, _⟩ => ⟨S5000x128, .f32⟩
  | .local _ .vmem, ⟨125, _⟩ => ⟨S128x128, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | .vmem, ⟨116, _⟩ => true
  | .vmem, ⟨117, _⟩ => true
  | .vmem, ⟨118, _⟩ => true
  | .vmem, ⟨119, _⟩ => true
  | .vmem, ⟨120, _⟩ => true
  | .vmem, ⟨121, _⟩ => true
  | .vmem, ⟨122, _⟩ => true
  | .vmem, ⟨123, _⟩ => true
  | .vmem, ⟨124, _⟩ => true
  | .vmem, ⟨125, _⟩ => true
  | _, _ => false

abbrev semScoped : Fin 0 → Bool
  | ⟨_, h⟩ => absurd h (Nat.not_lt_zero _)

abbrev dmaSemScoped : Fin 126 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | ⟨124, _⟩ => true
  | ⟨125, _⟩ => true
  | _ => false

abbrev sig : RefSig :=
  ofTc nBuf bufTy 0 126 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_3 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c : Ref sig .tc := ⟨.hbm, 45, rfl⟩
abbrev main_v26 : Ref sig .tc := ⟨.hbm, 46, rfl⟩
abbrev main_v27 : Ref sig .tc := ⟨.hbm, 47, rfl⟩
abbrev main_c_4 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_5 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49_0 : Ref sig .tc := ⟨.hbm, 71, rfl⟩
abbrev main_v49_1 : Ref sig .tc := ⟨.hbm, 72, rfl⟩
abbrev main_v49_2 : Ref sig .tc := ⟨.hbm, 73, rfl⟩
abbrev main_cst_6 : Ref sig .tc := ⟨.hbm, 74, rfl⟩
abbrev main_v50 : Ref sig .tc := ⟨.hbm, 75, rfl⟩
abbrev main_v51 : Ref sig .tc := ⟨.hbm, 76, rfl⟩
abbrev main_cst_7 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62_0 : Ref sig .tc := ⟨.hbm, 88, rfl⟩
abbrev main_v62_1 : Ref sig .tc := ⟨.hbm, 89, rfl⟩
abbrev main_c_8 : Ref sig .tc := ⟨.hbm, 90, rfl⟩
abbrev main_v63 : Ref sig .tc := ⟨.hbm, 91, rfl⟩
abbrev main_v64 : Ref sig .tc := ⟨.hbm, 92, rfl⟩
abbrev main_c_9 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_10 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86_0 : Ref sig .tc := ⟨.hbm, 116, rfl⟩
abbrev main_v86_1 : Ref sig .tc := ⟨.hbm, 117, rfl⟩
abbrev main_v86_2 : Ref sig .tc := ⟨.hbm, 118, rfl⟩
abbrev main_cst_11 : Ref sig .tc := ⟨.hbm, 119, rfl⟩
abbrev main_v87 : Ref sig .tc := ⟨.hbm, 120, rfl⟩
abbrev main_v88 : Ref sig .tc := ⟨.hbm, 121, rfl⟩
abbrev main_cst_12 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99_0 : Ref sig .tc := ⟨.hbm, 133, rfl⟩
abbrev main_v99_1 : Ref sig .tc := ⟨.hbm, 134, rfl⟩
abbrev main_c_13 : Ref sig .tc := ⟨.hbm, 135, rfl⟩
abbrev main_v100 : Ref sig .tc := ⟨.hbm, 136, rfl⟩
abbrev main_v101 : Ref sig .tc := ⟨.hbm, 137, rfl⟩
abbrev main_c_14 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_cst_15 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123_0 : Ref sig .tc := ⟨.hbm, 161, rfl⟩
abbrev main_v123_1 : Ref sig .tc := ⟨.hbm, 162, rfl⟩
abbrev main_v123_2 : Ref sig .tc := ⟨.hbm, 163, rfl⟩
abbrev main_cst_16 : Ref sig .tc := ⟨.hbm, 164, rfl⟩
abbrev main_v124 : Ref sig .tc := ⟨.hbm, 165, rfl⟩
abbrev main_v125 : Ref sig .tc := ⟨.hbm, 166, rfl⟩
abbrev main_cst_17 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136_0 : Ref sig .tc := ⟨.hbm, 178, rfl⟩
abbrev main_v136_1 : Ref sig .tc := ⟨.hbm, 179, rfl⟩
abbrev main_c_18 : Ref sig .tc := ⟨.hbm, 180, rfl⟩
abbrev main_v137 : Ref sig .tc := ⟨.hbm, 181, rfl⟩
abbrev main_v138 : Ref sig .tc := ⟨.hbm, 182, rfl⟩
abbrev main_c_19 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_cst_20 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160_0 : Ref sig .tc := ⟨.hbm, 206, rfl⟩
abbrev main_v160_1 : Ref sig .tc := ⟨.hbm, 207, rfl⟩
abbrev main_v160_2 : Ref sig .tc := ⟨.hbm, 208, rfl⟩
abbrev main_cst_21 : Ref sig .tc := ⟨.hbm, 209, rfl⟩
abbrev main_v161 : Ref sig .tc := ⟨.hbm, 210, rfl⟩
abbrev main_v162 : Ref sig .tc := ⟨.hbm, 211, rfl⟩
abbrev main_cst_22 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_v168 : Ref sig .tc := ⟨.hbm, 218, rfl⟩
abbrev main_v169 : Ref sig .tc := ⟨.hbm, 219, rfl⟩
abbrev main_v170 : Ref sig .tc := ⟨.hbm, 220, rfl⟩
abbrev main_v171 : Ref sig .tc := ⟨.hbm, 221, rfl⟩
abbrev main_v172 : Ref sig .tc := ⟨.hbm, 222, rfl⟩
abbrev main_v173_0 : Ref sig .tc := ⟨.hbm, 223, rfl⟩
abbrev main_v173_1 : Ref sig .tc := ⟨.hbm, 224, rfl⟩
abbrev main_c_23 : Ref sig .tc := ⟨.hbm, 225, rfl⟩
abbrev main_v174 : Ref sig .tc := ⟨.hbm, 226, rfl⟩
abbrev main_v175 : Ref sig .tc := ⟨.hbm, 227, rfl⟩
abbrev main_c_24 : Ref sig .tc := ⟨.hbm, 228, rfl⟩
abbrev main_v176 : Ref sig .tc := ⟨.hbm, 229, rfl⟩
abbrev main_v177 : Ref sig .tc := ⟨.hbm, 230, rfl⟩
abbrev main_v178 : Ref sig .tc := ⟨.hbm, 231, rfl⟩
abbrev main_v179 : Ref sig .tc := ⟨.hbm, 232, rfl⟩
abbrev main_v180 : Ref sig .tc := ⟨.hbm, 233, rfl⟩
abbrev main_v181 : Ref sig .tc := ⟨.hbm, 234, rfl⟩
abbrev main_v182 : Ref sig .tc := ⟨.hbm, 235, rfl⟩
abbrev main_v183 : Ref sig .tc := ⟨.hbm, 236, rfl⟩
abbrev main_cst_25 : Ref sig .tc := ⟨.hbm, 237, rfl⟩
abbrev main_v184 : Ref sig .tc := ⟨.hbm, 238, rfl⟩
abbrev main_v185 : Ref sig .tc := ⟨.hbm, 239, rfl⟩
abbrev main_v186 : Ref sig .tc := ⟨.hbm, 240, rfl⟩
abbrev main_v187 : Ref sig .tc := ⟨.hbm, 241, rfl⟩
abbrev main_v188 : Ref sig .tc := ⟨.hbm, 242, rfl⟩
abbrev main_v189 : Ref sig .tc := ⟨.hbm, 243, rfl⟩
abbrev main_v190 : Ref sig .tc := ⟨.hbm, 244, rfl⟩
abbrev main_v191 : Ref sig .tc := ⟨.hbm, 245, rfl⟩
abbrev main_v192 : Ref sig .tc := ⟨.hbm, 246, rfl⟩
abbrev main_v193 : Ref sig .tc := ⟨.hbm, 247, rfl⟩
abbrev main_v194 : Ref sig .tc := ⟨.hbm, 248, rfl⟩
abbrev main_v195 : Ref sig .tc := ⟨.hbm, 249, rfl⟩
abbrev main_v196 : Ref sig .tc := ⟨.hbm, 250, rfl⟩
abbrev main_v197_0 : Ref sig .tc := ⟨.hbm, 251, rfl⟩
abbrev main_v197_1 : Ref sig .tc := ⟨.hbm, 252, rfl⟩
abbrev main_v197_2 : Ref sig .tc := ⟨.hbm, 253, rfl⟩
abbrev main_cst_26 : Ref sig .tc := ⟨.hbm, 254, rfl⟩
abbrev main_v198 : Ref sig .tc := ⟨.hbm, 255, rfl⟩
abbrev main_v199 : Ref sig .tc := ⟨.hbm, 256, rfl⟩
abbrev main_cst_27 : Ref sig .tc := ⟨.hbm, 257, rfl⟩
abbrev main_v200 : Ref sig .tc := ⟨.hbm, 258, rfl⟩
abbrev main_v201 : Ref sig .tc := ⟨.hbm, 259, rfl⟩
abbrev main_v202 : Ref sig .tc := ⟨.hbm, 260, rfl⟩
abbrev main_v203 : Ref sig .tc := ⟨.hbm, 261, rfl⟩
abbrev main_v204 : Ref sig .tc := ⟨.hbm, 262, rfl⟩
abbrev main_v205 : Ref sig .tc := ⟨.hbm, 263, rfl⟩
abbrev main_v206 : Ref sig .tc := ⟨.hbm, 264, rfl⟩
abbrev main_v207 : Ref sig .tc := ⟨.hbm, 265, rfl⟩
abbrev main_v208 : Ref sig .tc := ⟨.hbm, 266, rfl⟩
abbrev main_v209 : Ref sig .tc := ⟨.hbm, 267, rfl⟩
abbrev main_v210_0 : Ref sig .tc := ⟨.hbm, 268, rfl⟩
abbrev main_v210_1 : Ref sig .tc := ⟨.hbm, 269, rfl⟩
abbrev main_v211 : Ref sig .tc := ⟨.hbm, 270, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg5_1 : Ref sig .tc := ⟨.vmem, 24, rfl⟩
abbrev cc2_stg6_0 : Ref sig .tc := ⟨.vmem, 25, rfl⟩
abbrev cc2_stg7_0 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg5_1 : Ref sig .tc := ⟨.vmem, 34, rfl⟩
abbrev cc3_stg6_0 : Ref sig .tc := ⟨.vmem, 35, rfl⟩
abbrev cc3_stg6_1 : Ref sig .tc := ⟨.vmem, 36, rfl⟩
abbrev cc3_stg7_0 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg1_1 : Ref sig .tc := ⟨.vmem, 41, rfl⟩
abbrev cc4_stg2_0 : Ref sig .tc := ⟨.vmem, 42, rfl⟩
abbrev cc4_stg3_0 : Ref sig .tc := ⟨.vmem, 43, rfl⟩
abbrev cc4_stg4_0 : Ref sig .tc := ⟨.vmem, 44, rfl⟩
abbrev cc4_stg5_0 : Ref sig .tc := ⟨.vmem, 45, rfl⟩
abbrev cc4_stg5_1 : Ref sig .tc := ⟨.vmem, 46, rfl⟩
abbrev cc4_stg6_0 : Ref sig .tc := ⟨.vmem, 47, rfl⟩
abbrev cc4_stg7_0 : Ref sig .tc := ⟨.vmem, 48, rfl⟩
abbrev cc5_stg0_0 : Ref sig .tc := ⟨.vmem, 49, rfl⟩
abbrev cc5_stg0_1 : Ref sig .tc := ⟨.vmem, 50, rfl⟩
abbrev cc5_stg1_0 : Ref sig .tc := ⟨.vmem, 51, rfl⟩
abbrev cc5_stg2_0 : Ref sig .tc := ⟨.vmem, 52, rfl⟩
abbrev cc5_stg3_0 : Ref sig .tc := ⟨.vmem, 53, rfl⟩
abbrev cc5_stg4_0 : Ref sig .tc := ⟨.vmem, 54, rfl⟩
abbrev cc5_stg5_0 : Ref sig .tc := ⟨.vmem, 55, rfl⟩
abbrev cc5_stg5_1 : Ref sig .tc := ⟨.vmem, 56, rfl⟩
abbrev cc5_stg6_0 : Ref sig .tc := ⟨.vmem, 57, rfl⟩
abbrev cc5_stg6_1 : Ref sig .tc := ⟨.vmem, 58, rfl⟩
abbrev cc5_stg7_0 : Ref sig .tc := ⟨.vmem, 59, rfl⟩
abbrev cc6_stg0_0 : Ref sig .tc := ⟨.vmem, 60, rfl⟩
abbrev cc6_stg0_1 : Ref sig .tc := ⟨.vmem, 61, rfl⟩
abbrev cc6_stg1_0 : Ref sig .tc := ⟨.vmem, 62, rfl⟩
abbrev cc6_stg1_1 : Ref sig .tc := ⟨.vmem, 63, rfl⟩
abbrev cc6_stg2_0 : Ref sig .tc := ⟨.vmem, 64, rfl⟩
abbrev cc6_stg3_0 : Ref sig .tc := ⟨.vmem, 65, rfl⟩
abbrev cc6_stg4_0 : Ref sig .tc := ⟨.vmem, 66, rfl⟩
abbrev cc6_stg5_0 : Ref sig .tc := ⟨.vmem, 67, rfl⟩
abbrev cc6_stg5_1 : Ref sig .tc := ⟨.vmem, 68, rfl⟩
abbrev cc6_stg6_0 : Ref sig .tc := ⟨.vmem, 69, rfl⟩
abbrev cc6_stg7_0 : Ref sig .tc := ⟨.vmem, 70, rfl⟩
abbrev cc7_stg0_0 : Ref sig .tc := ⟨.vmem, 71, rfl⟩
abbrev cc7_stg0_1 : Ref sig .tc := ⟨.vmem, 72, rfl⟩
abbrev cc7_stg1_0 : Ref sig .tc := ⟨.vmem, 73, rfl⟩
abbrev cc7_stg2_0 : Ref sig .tc := ⟨.vmem, 74, rfl⟩
abbrev cc7_stg3_0 : Ref sig .tc := ⟨.vmem, 75, rfl⟩
abbrev cc7_stg4_0 : Ref sig .tc := ⟨.vmem, 76, rfl⟩
abbrev cc7_stg5_0 : Ref sig .tc := ⟨.vmem, 77, rfl⟩
abbrev cc7_stg5_1 : Ref sig .tc := ⟨.vmem, 78, rfl⟩
abbrev cc7_stg6_0 : Ref sig .tc := ⟨.vmem, 79, rfl⟩
abbrev cc7_stg6_1 : Ref sig .tc := ⟨.vmem, 80, rfl⟩
abbrev cc7_stg7_0 : Ref sig .tc := ⟨.vmem, 81, rfl⟩
abbrev cc8_stg0_0 : Ref sig .tc := ⟨.vmem, 82, rfl⟩
abbrev cc8_stg0_1 : Ref sig .tc := ⟨.vmem, 83, rfl⟩
abbrev cc8_stg1_0 : Ref sig .tc := ⟨.vmem, 84, rfl⟩
abbrev cc8_stg1_1 : Ref sig .tc := ⟨.vmem, 85, rfl⟩
abbrev cc8_stg2_0 : Ref sig .tc := ⟨.vmem, 86, rfl⟩
abbrev cc8_stg3_0 : Ref sig .tc := ⟨.vmem, 87, rfl⟩
abbrev cc8_stg4_0 : Ref sig .tc := ⟨.vmem, 88, rfl⟩
abbrev cc8_stg5_0 : Ref sig .tc := ⟨.vmem, 89, rfl⟩
abbrev cc8_stg5_1 : Ref sig .tc := ⟨.vmem, 90, rfl⟩
abbrev cc8_stg6_0 : Ref sig .tc := ⟨.vmem, 91, rfl⟩
abbrev cc8_stg7_0 : Ref sig .tc := ⟨.vmem, 92, rfl⟩
abbrev cc9_stg0_0 : Ref sig .tc := ⟨.vmem, 93, rfl⟩
abbrev cc9_stg0_1 : Ref sig .tc := ⟨.vmem, 94, rfl⟩
abbrev cc9_stg1_0 : Ref sig .tc := ⟨.vmem, 95, rfl⟩
abbrev cc9_stg2_0 : Ref sig .tc := ⟨.vmem, 96, rfl⟩
abbrev cc9_stg3_0 : Ref sig .tc := ⟨.vmem, 97, rfl⟩
abbrev cc9_stg4_0 : Ref sig .tc := ⟨.vmem, 98, rfl⟩
abbrev cc9_stg5_0 : Ref sig .tc := ⟨.vmem, 99, rfl⟩
abbrev cc9_stg5_1 : Ref sig .tc := ⟨.vmem, 100, rfl⟩
abbrev cc9_stg6_0 : Ref sig .tc := ⟨.vmem, 101, rfl⟩
abbrev cc9_stg6_1 : Ref sig .tc := ⟨.vmem, 102, rfl⟩
abbrev cc9_stg7_0 : Ref sig .tc := ⟨.vmem, 103, rfl⟩
abbrev cc10_stg0_0 : Ref sig .tc := ⟨.vmem, 104, rfl⟩
abbrev cc10_stg0_1 : Ref sig .tc := ⟨.vmem, 105, rfl⟩
abbrev cc10_stg1_0 : Ref sig .tc := ⟨.vmem, 106, rfl⟩
abbrev cc10_stg1_1 : Ref sig .tc := ⟨.vmem, 107, rfl⟩
abbrev cc10_stg2_0 : Ref sig .tc := ⟨.vmem, 108, rfl⟩
abbrev cc10_stg3_0 : Ref sig .tc := ⟨.vmem, 109, rfl⟩
abbrev cc10_stg4_0 : Ref sig .tc := ⟨.vmem, 110, rfl⟩
abbrev cc10_stg5_0 : Ref sig .tc := ⟨.vmem, 111, rfl⟩
abbrev cc10_stg5_1 : Ref sig .tc := ⟨.vmem, 112, rfl⟩
abbrev cc10_stg6_0 : Ref sig .tc := ⟨.vmem, 113, rfl⟩
abbrev cc10_stg7_0 : Ref sig .tc := ⟨.vmem, 114, rfl⟩
abbrev cc11_stg0_0 : Ref sig .tc := ⟨.vmem, 115, rfl⟩
abbrev cc11_stg0_1 : Ref sig .tc := ⟨.vmem, 116, rfl⟩
abbrev cc11_stg1_0 : Ref sig .tc := ⟨.vmem, 117, rfl⟩
abbrev cc11_stg2_0 : Ref sig .tc := ⟨.vmem, 118, rfl⟩
abbrev cc11_stg3_0 : Ref sig .tc := ⟨.vmem, 119, rfl⟩
abbrev cc11_stg4_0 : Ref sig .tc := ⟨.vmem, 120, rfl⟩
abbrev cc11_stg5_0 : Ref sig .tc := ⟨.vmem, 121, rfl⟩
abbrev cc11_stg5_1 : Ref sig .tc := ⟨.vmem, 122, rfl⟩
abbrev cc11_stg6_0 : Ref sig .tc := ⟨.vmem, 123, rfl⟩
abbrev cc11_stg6_1 : Ref sig .tc := ⟨.vmem, 124, rfl⟩
abbrev cc11_stg7_0 : Ref sig .tc := ⟨.vmem, 125, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem5_1 : DmaSem sig := 24
abbrev cc2_sem6_0 : DmaSem sig := 25
abbrev cc2_sem7_0 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem5_1 : DmaSem sig := 34
abbrev cc3_sem6_0 : DmaSem sig := 35
abbrev cc3_sem6_1 : DmaSem sig := 36
abbrev cc3_sem7_0 : DmaSem sig := 37
abbrev cc4_sem0_0 : DmaSem sig := 38
abbrev cc4_sem0_1 : DmaSem sig := 39
abbrev cc4_sem1_0 : DmaSem sig := 40
abbrev cc4_sem1_1 : DmaSem sig := 41
abbrev cc4_sem2_0 : DmaSem sig := 42
abbrev cc4_sem3_0 : DmaSem sig := 43
abbrev cc4_sem4_0 : DmaSem sig := 44
abbrev cc4_sem5_0 : DmaSem sig := 45
abbrev cc4_sem5_1 : DmaSem sig := 46
abbrev cc4_sem6_0 : DmaSem sig := 47
abbrev cc4_sem7_0 : DmaSem sig := 48
abbrev cc5_sem0_0 : DmaSem sig := 49
abbrev cc5_sem0_1 : DmaSem sig := 50
abbrev cc5_sem1_0 : DmaSem sig := 51
abbrev cc5_sem2_0 : DmaSem sig := 52
abbrev cc5_sem3_0 : DmaSem sig := 53
abbrev cc5_sem4_0 : DmaSem sig := 54
abbrev cc5_sem5_0 : DmaSem sig := 55
abbrev cc5_sem5_1 : DmaSem sig := 56
abbrev cc5_sem6_0 : DmaSem sig := 57
abbrev cc5_sem6_1 : DmaSem sig := 58
abbrev cc5_sem7_0 : DmaSem sig := 59
abbrev cc6_sem0_0 : DmaSem sig := 60
abbrev cc6_sem0_1 : DmaSem sig := 61
abbrev cc6_sem1_0 : DmaSem sig := 62
abbrev cc6_sem1_1 : DmaSem sig := 63
abbrev cc6_sem2_0 : DmaSem sig := 64
abbrev cc6_sem3_0 : DmaSem sig := 65
abbrev cc6_sem4_0 : DmaSem sig := 66
abbrev cc6_sem5_0 : DmaSem sig := 67
abbrev cc6_sem5_1 : DmaSem sig := 68
abbrev cc6_sem6_0 : DmaSem sig := 69
abbrev cc6_sem7_0 : DmaSem sig := 70
abbrev cc7_sem0_0 : DmaSem sig := 71
abbrev cc7_sem0_1 : DmaSem sig := 72
abbrev cc7_sem1_0 : DmaSem sig := 73
abbrev cc7_sem2_0 : DmaSem sig := 74
abbrev cc7_sem3_0 : DmaSem sig := 75
abbrev cc7_sem4_0 : DmaSem sig := 76
abbrev cc7_sem5_0 : DmaSem sig := 77
abbrev cc7_sem5_1 : DmaSem sig := 78
abbrev cc7_sem6_0 : DmaSem sig := 79
abbrev cc7_sem6_1 : DmaSem sig := 80
abbrev cc7_sem7_0 : DmaSem sig := 81
abbrev cc8_sem0_0 : DmaSem sig := 82
abbrev cc8_sem0_1 : DmaSem sig := 83
abbrev cc8_sem1_0 : DmaSem sig := 84
abbrev cc8_sem1_1 : DmaSem sig := 85
abbrev cc8_sem2_0 : DmaSem sig := 86
abbrev cc8_sem3_0 : DmaSem sig := 87
abbrev cc8_sem4_0 : DmaSem sig := 88
abbrev cc8_sem5_0 : DmaSem sig := 89
abbrev cc8_sem5_1 : DmaSem sig := 90
abbrev cc8_sem6_0 : DmaSem sig := 91
abbrev cc8_sem7_0 : DmaSem sig := 92
abbrev cc9_sem0_0 : DmaSem sig := 93
abbrev cc9_sem0_1 : DmaSem sig := 94
abbrev cc9_sem1_0 : DmaSem sig := 95
abbrev cc9_sem2_0 : DmaSem sig := 96
abbrev cc9_sem3_0 : DmaSem sig := 97
abbrev cc9_sem4_0 : DmaSem sig := 98
abbrev cc9_sem5_0 : DmaSem sig := 99
abbrev cc9_sem5_1 : DmaSem sig := 100
abbrev cc9_sem6_0 : DmaSem sig := 101
abbrev cc9_sem6_1 : DmaSem sig := 102
abbrev cc9_sem7_0 : DmaSem sig := 103
abbrev cc10_sem0_0 : DmaSem sig := 104
abbrev cc10_sem0_1 : DmaSem sig := 105
abbrev cc10_sem1_0 : DmaSem sig := 106
abbrev cc10_sem1_1 : DmaSem sig := 107
abbrev cc10_sem2_0 : DmaSem sig := 108
abbrev cc10_sem3_0 : DmaSem sig := 109
abbrev cc10_sem4_0 : DmaSem sig := 110
abbrev cc10_sem5_0 : DmaSem sig := 111
abbrev cc10_sem5_1 : DmaSem sig := 112
abbrev cc10_sem6_0 : DmaSem sig := 113
abbrev cc10_sem7_0 : DmaSem sig := 114
abbrev cc11_sem0_0 : DmaSem sig := 115
abbrev cc11_sem0_1 : DmaSem sig := 116
abbrev cc11_sem1_0 : DmaSem sig := 117
abbrev cc11_sem2_0 : DmaSem sig := 118
abbrev cc11_sem3_0 : DmaSem sig := 119
abbrev cc11_sem4_0 : DmaSem sig := 120
abbrev cc11_sem5_0 : DmaSem sig := 121
abbrev cc11_sem5_1 : DmaSem sig := 122
abbrev cc11_sem6_0 : DmaSem sig := 123
abbrev cc11_sem6_1 : DmaSem sig := 124
abbrev cc11_sem7_0 : DmaSem sig := 125

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x48 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S48x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x11 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S11x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x1 .i32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 1 → Memref sig .tc .vmem S128x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x1 .i32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S5000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev stage5_7 : Fin 1 → Memref sig .tc .vmem S128x128 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 1 → Memref sig .tc .vmem S1x128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S1x128 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S5000x1 .i32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev stage7_6 : Fin 2 → Memref sig .tc .vmem S5000x128 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev stage7_7 : Fin 1 → Memref sig .tc .vmem S128x128 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S128x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S128x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S5000x128 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev stage8_6 : Fin 1 → Memref sig .tc .vmem S1x128 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 1 → Memref sig .tc .vmem S1x128 .f32 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![false]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_6 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_7 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S5000x1 .i32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev stage9_6 : Fin 2 → Memref sig .tc .vmem S5000x128 .f32 := fun | 0 => Memref.whole cc9_stg6_0 | 1 => Memref.whole cc9_stg6_1 | ⟨_ + 2, h⟩ => absurd h (Nat.not_lt.2 (Nat.le_add_left _ _))
abbrev sem9_6 : Fin 2 → DmaSem sig := fun | 0 => cc9_sem6_0 | 1 => cc9_sem6_1 | ⟨_ + 2, h⟩ => absurd h (Nat.not_lt.2 (Nat.le_add_left _ _))
abbrev reads9_6 : Fin grid9.rank → Bool := ![true]

abbrev stage9_7 : Fin 1 → Memref sig .tc .vmem S128x128 .f32 := fun | 0 => Memref.whole cc9_stg7_0 | ⟨_ + 1, h⟩ => absurd h (Nat.not_lt.2 (Nat.le_add_left _ _))
abbrev sem9_7 : Fin 1 → DmaSem sig := fun | 0 => cc9_sem7_0 | ⟨_ + 1, h⟩ => absurd h (Nat.not_lt.2 (Nat.le_add_left _ _))
abbrev reads9_7 : Fin grid9.rank → Bool := ![false]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_6 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_7 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S5000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S5000x128 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S128x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S128x128 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x128 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 2 → Memref sig .tc .vmem S5000x128 .f32 := fun | 0 => Memref.whole cc10_stg5_0 | 1 => Memref.whole cc10_stg5_1 | ⟨_ + 2, h⟩ => absurd h (Nat.not_lt.2 (Nat.le_add_left _ _))
abbrev sem10_5 : Fin 2 → DmaSem sig := fun | 0 => cc10_sem5_0 | 1 => cc10_sem5_1 | ⟨_ + 2, h⟩ => absurd h (Nat.not_lt.2 (Nat.le_add_left _ _))
abbrev reads10_5 : Fin grid10.rank → Bool := ![true]

abbrev stage10_6 : Fin 1 → Memref sig .tc .vmem S1x128 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![false]

abbrev stage10_7 : Fin 1 → Memref sig .tc .vmem S1x128 .f32 := fun | 0 => Memref.whole cc10_stg7_0 | ⟨_ + 1, h⟩ => absurd h (Nat.not_lt.2 (Nat.le_add_left _ _))
abbrev sem10_7 : Fin 1 → DmaSem sig := fun | 0 => cc10_sem7_0 | ⟨_ + 1, h⟩ => absurd h (Nat.not_lt.2 (Nat.le_add_left _ _))
abbrev reads10_7 : Fin grid10.rank → Bool := ![false]

abbrev grid11 : Pipeline.Grid := ⟨1, ![10], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_6 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_7 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage11_0 : Fin 2 → Memref sig .tc .vmem S5000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x128 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x128 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 2 → Memref sig .tc .vmem S5000x1 .i32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev stage11_6 : Fin 2 → Memref sig .tc .vmem S5000x128 .f32 := fun | 0 => Memref.whole cc11_stg6_0 | 1 => Memref.whole cc11_stg6_1 | ⟨_ + 2, h⟩ => absurd h (Nat.not_lt.2 (Nat.le_add_left _ _))
abbrev sem11_6 : Fin 2 → DmaSem sig := fun | 0 => cc11_sem6_0 | 1 => cc11_sem6_1 | ⟨_ + 2, h⟩ => absurd h (Nat.not_lt.2 (Nat.le_add_left _ _))
abbrev reads11_6 : Fin grid11.rank → Bool := ![true]

abbrev stage11_7 : Fin 1 → Memref sig .tc .vmem S128x128 .f32 := fun | 0 => Memref.whole cc11_stg7_0 | ⟨_ + 1, h⟩ => absurd h (Nat.not_lt.2 (Nat.le_add_left _ _))
abbrev sem11_7 : Fin 1 → DmaSem sig := fun | 0 => cc11_sem7_0 | ⟨_ + 1, h⟩ => absurd h (Nat.not_lt.2 (Nat.le_add_left _ _))
abbrev reads11_7 : Fin grid11.rank → Bool := ![false]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  shapeCasts_S128_S1x128 : S128.ShapeCasts S1x128
  inb_S5000x48_S5000x48_0_0 : ∀ a, (![0, 0] : Fin 2 → Nat) a + S5000x48.size a ≤ S5000x48.size a
  h_S5000x48 : 0 < S5000x48.numel
  bitsLt_bf16_f32 : FTy.bits .bf16 < FTy.bits .f32
  inb_S48x128_S48x128_0_0 : ∀ a, (![0, 0] : Fin 2 → Nat) a + S48x128.size a ≤ S48x128.size a
  h_S48x128 : 0 < S48x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  shapeCasts_S50000_S50000x1 : S50000.ShapeCasts S50000x1
  bcast_S600000x1_S600000x11_0_1 : S600000x1.BroadcastsInDim S600000x11 (![0, 1] : Fin 2 → Fin S600000x11.rank)
  bcast_S_S50000x11 : S_.BroadcastsInDim S50000x11 (![] : Fin 0 → Fin S50000x11.rank)
  inb_S5000x11_S5000x11_0_0 : ∀ a, (![0, 0] : Fin 2 → Nat) a + S5000x11.size a ≤ S5000x11.size a
  h_S5000x11 : 0 < S5000x11.numel
  shapeCasts_S5000x11_S5000x11 : S5000x11.ShapeCasts S5000x11
  inb_S11x128_S11x128_0_0 : ∀ a, (![0, 0] : Fin 2 → Nat) a + S11x128.size a ≤ S11x128.size a
  h_S11x128 : 0 < S11x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  slices_S5x128x128_S1x128x128_0_0_0 : S5x128x128.Slices ![0, 0, 0] S1x128x128
  shapeCasts_S1x128x128_S128x128 : S1x128x128.ShapeCasts S128x128
  slices_S5x128_S1x128_0_0 : S5x128.Slices ![0, 0] S1x128
  shapeCasts_S1x128_S128 : S1x128.ShapeCasts S128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  reduces_S5000x128_S128 : S5000x128.Reduces [0] S128
  bcast_S_S1x128 : S_.BroadcastsInDim S1x128 (![] : Fin 0 → Fin S1x128.rank)
  iota_S5000x128_d1_w32 : S5000x128.Iotas .tc 32 [1]
  natLt_1_32 : 1 < 32
  slices_S5x128x128_S1x128x128_1_0_0 : S5x128x128.Slices ![1, 0, 0] S1x128x128
  slices_S5x128_S1x128_1_0 : S5x128.Slices ![1, 0] S1x128
  slices_S5x128x128_S1x128x128_2_0_0 : S5x128x128.Slices ![2, 0, 0] S1x128x128
  slices_S5x128_S1x128_2_0 : S5x128.Slices ![2, 0] S1x128
  slices_S5x128x128_S1x128x128_3_0_0 : S5x128x128.Slices ![3, 0, 0] S1x128x128
  slices_S5x128_S1x128_3_0 : S5x128.Slices ![3, 0] S1x128
  slices_S5x128x128_S1x128x128_4_0_0 : S5x128x128.Slices ![4, 0, 0] S1x128x128
  slices_S5x128_S1x128_4_0 : S5x128.Slices ![4, 0] S1x128
  concatenates_S128x128_S128x128_S128x128_S128x128_S128x128_S128x640_d1 : Shape.Concatenates [S128x128, S128x128, S128x128, S128x128, S128x128] S128x640 1
  dot_S5000x48_S48x128_S5000x128_1_0_0_1_n_n_wf : DotDims.WF S5000x48 S48x128 S5000x128 [1] [0] [0] [1] [] []
  scatter_S50000_S600000x1_S600000_n_0_0_1_wf : ScatterDims.WF S50000 S600000x1 S600000 [] [0] [0] 1
  scatter_S50000x11_S600000x1_S600000x11_1_0_0_1_wf : ScatterDims.WF S50000x11 S600000x1 S600000x11 [1] [0] [0] 1
  dot_S5000x11_S11x128_S5000x128_1_0_0_1_n_n_wf : DotDims.WF S5000x11 S11x128 S5000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  dot_S5000x128_S5000x128_S128x128_0_0_1_1_n_n_wf : DotDims.WF S5000x128 S5000x128 S128x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x48.size a ≤ S50000x48.size a
  hwx0_0 : ∀ i : grid0.Coords, EltTy.bits .f32 = 32 ∨ (Rect.block (s := S50000x48) S5000x48.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S48x128.size a ≤ S48x128.size a
  hwx0_1 : ∀ i : grid0.Coords, EltTy.bits .f32 = 32 ∨ (Rect.block (s := S48x128) S48x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x11.size a ≤ S50000x11.size a
  hwx1_0 : ∀ i : grid1.Coords, EltTy.bits .f32 = 32 ∨ (Rect.block (s := S50000x11) S5000x11.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S11x128.size a ≤ S11x128.size a
  hwx1_1 : ∀ i : grid1.Coords, EltTy.bits .f32 = 32 ∨ (Rect.block (s := S11x128) S11x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x1.size a ≤ S50000x1.size a
  hwx1_4 : ∀ i : grid1.Coords, EltTy.bits .f32 = 32 ∨ (Rect.block (s := S50000x1) S5000x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x1.size a ≤ S50000x1.size a
  hwx3_5 : ∀ i : grid3.Coords, EltTy.bits .i32 = 32 ∨ (Rect.block (s := S50000x1) S5000x1.size (cc3_transform_5 i) (hinb3_5 i)).WholeWords (EltTy.packing .i32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S50000x128.size a
  hwx3_6 : ∀ i : grid3.Coords, EltTy.bits .f32 = 32 ∨ (Rect.block (s := S50000x128) S5000x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S128x128.size a ≤ S128x128.size a
  hwx3_7 : ∀ i : grid3.Coords, EltTy.bits .f32 = 32 ∨ (Rect.block (s := S128x128) S128x128.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S50000x128.size a
  hwx4_5 : ∀ i : grid4.Coords, EltTy.bits .f32 = 32 ∨ (Rect.block (s := S50000x128) S5000x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x128.size a ≤ S1x128.size a
  hwx4_7 : ∀ i : grid4.Coords, EltTy.bits .f32 = 32 ∨ (Rect.block (s := S1x128) S1x128.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x1.size a ≤ S50000x1.size a
  hwx5_5 : ∀ i : grid5.Coords, EltTy.bits .i32 = 32 ∨ (Rect.block (s := S50000x1) S5000x1.size (cc5_transform_5 i) (hinb5_5 i)).WholeWords (EltTy.packing .i32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x128.size a ≤ S50000x128.size a
  hwx5_6 : ∀ i : grid5.Coords, EltTy.bits .f32 = 32 ∨ (Rect.block (s := S50000x128) S5000x128.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S128x128.size a ≤ S128x128.size a
  hwx5_7 : ∀ i : grid5.Coords, EltTy.bits .f32 = 32 ∨ (Rect.block (s := S128x128) S128x128.size (cc5_transform_7 i) (hinb5_7 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S50000x128.size a
  hwx6_1 : ∀ i : grid6.Coords, EltTy.bits .f32 = 32 ∨ (Rect.block (s := S50000x128) S5000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x128.size a ≤ S128x128.size a
  hwx6_2 : ∀ i : grid6.Coords, EltTy.bits .f32 = 32 ∨ (Rect.block (s := S128x128) S128x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x128.size a ≤ S128x128.size a
  hwx6_3 : ∀ i : grid6.Coords, EltTy.bits .f32 = 32 ∨ (Rect.block (s := S128x128) S128x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x128.size a ≤ S50000x128.size a
  hwx6_5 : ∀ i : grid6.Coords, EltTy.bits .f32 = 32 ∨ (Rect.block (s := S50000x128) S5000x128.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x128.size a ≤ S1x128.size a
  hwx6_6 : ∀ i : grid6.Coords, EltTy.bits .f32 = 32 ∨ (Rect.block (s := S1x128) S1x128.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S1x128.size a ≤ S1x128.size a
  hwx6_7 : ∀ i : grid6.Coords, EltTy.bits .f32 = 32 ∨ (Rect.block (s := S1x128) S1x128.size (cc6_transform_7 i) (hinb6_7 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x1.size a ≤ S50000x1.size a
  hwx7_5 : ∀ i : grid7.Coords, EltTy.bits .i32 = 32 ∨ (Rect.block (s := S50000x1) S5000x1.size (cc7_transform_5 i) (hinb7_5 i)).WholeWords (EltTy.packing .i32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S5000x128.size a ≤ S50000x128.size a
  hwx7_6 : ∀ i : grid7.Coords, EltTy.bits .f32 = 32 ∨ (Rect.block (s := S50000x128) S5000x128.size (cc7_transform_6 i) (hinb7_6 i)).WholeWords (EltTy.packing .f32)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S128x128.size a ≤ S128x128.size a
  hwx7_7 : ∀ i : grid7.Coords, EltTy.bits .f32 = 32 ∨ (Rect.block (s := S128x128) S128x128.size (cc7_transform_7 i) (hinb7_7 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x128.size a ≤ S50000x128.size a
  hwx8_1 : ∀ i : grid8.Coords, EltTy.bits .f32 = 32 ∨ (Rect.block (s := S50000x128) S5000x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S128x128.size a ≤ S128x128.size a
  hwx8_2 : ∀ i : grid8.Coords, EltTy.bits .f32 = 32 ∨ (Rect.block (s := S128x128) S128x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S128x128.size a ≤ S128x128.size a
  hwx8_3 : ∀ i : grid8.Coords, EltTy.bits .f32 = 32 ∨ (Rect.block (s := S128x128) S128x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S5000x128.size a ≤ S50000x128.size a
  hwx8_5 : ∀ i : grid8.Coords, EltTy.bits .f32 = 32 ∨ (Rect.block (s := S50000x128) S5000x128.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S1x128.size a ≤ S1x128.size a
  hwx8_6 : ∀ i : grid8.Coords, EltTy.bits .f32 = 32 ∨ (Rect.block (s := S1x128) S1x128.size (cc8_transform_6 i) (hinb8_6 i)).WholeWords (EltTy.packing .f32)
  hstage8_7 : ∀ j, (stage8_7 j).IsWhole
  nbuf8_7 : grid8.bufCount reads8_7 true = 1
  hreads8_7 : ∀ i i' : grid8.Coords, (∀ a, reads8_7 a = true → i a = i' a) → cc8_transform_7 i = cc8_transform_7 i'
  hinb8_7 : ∀ (i : grid8.Coords) a, (cc8_transform_7 i a + 1) * S1x128.size a ≤ S1x128.size a
  hwx8_7 : ∀ i : grid8.Coords, EltTy.bits .f32 = 32 ∨ (Rect.block (s := S1x128) S1x128.size (cc8_transform_7 i) (hinb8_7 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S50000x128.size a
  hwx9_0 : ∀ i : grid9.Coords, EltTy.bits .f32 = 32 ∨ (Rect.block (s := S50000x128) S5000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x128.size a ≤ S1x128.size a
  hwx9_1 : ∀ i : grid9.Coords, EltTy.bits .f32 = 32 ∨ (Rect.block (s := S1x128) S1x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x128.size a ≤ S1x128.size a
  hwx9_3 : ∀ i : grid9.Coords, EltTy.bits .f32 = 32 ∨ (Rect.block (s := S1x128) S1x128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x128.size a ≤ S1x128.size a
  hwx9_4 : ∀ i : grid9.Coords, EltTy.bits .f32 = 32 ∨ (Rect.block (s := S1x128) S1x128.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S5000x1.size a ≤ S50000x1.size a
  hwx9_5 : ∀ i : grid9.Coords, EltTy.bits .i32 = 32 ∨ (Rect.block (s := S50000x1) S5000x1.size (cc9_transform_5 i) (hinb9_5 i)).WholeWords (EltTy.packing .i32)
  hstage9_6 : ∀ j, (stage9_6 j).IsWhole
  nbuf9_6 : grid9.bufCount reads9_6 false = 2
  hreads9_6 : ∀ i i' : grid9.Coords, (∀ a, reads9_6 a = true → i a = i' a) → cc9_transform_6 i = cc9_transform_6 i'
  hinb9_6 : ∀ (i : grid9.Coords) a, (cc9_transform_6 i a + 1) * S5000x128.size a ≤ S50000x128.size a
  hwx9_6 : ∀ i : grid9.Coords, EltTy.bits .f32 = 32 ∨ (Rect.block (s := S50000x128) S5000x128.size (cc9_transform_6 i) (hinb9_6 i)).WholeWords (EltTy.packing .f32)
  hstage9_7 : ∀ j, (stage9_7 j).IsWhole
  nbuf9_7 : grid9.bufCount reads9_7 true = 1
  hreads9_7 : ∀ i i' : grid9.Coords, (∀ a, reads9_7 a = true → i a = i' a) → cc9_transform_7 i = cc9_transform_7 i'
  hinb9_7 : ∀ (i : grid9.Coords) a, (cc9_transform_7 i a + 1) * S128x128.size a ≤ S128x128.size a
  hwx9_7 : ∀ i : grid9.Coords, EltTy.bits .f32 = 32 ∨ (Rect.block (s := S128x128) S128x128.size (cc9_transform_7 i) (hinb9_7 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x128.size a ≤ S50000x128.size a
  hwx10_0 : ∀ i : grid10.Coords, EltTy.bits .f32 = 32 ∨ (Rect.block (s := S50000x128) S5000x128.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S5000x128.size a ≤ S50000x128.size a
  hwx10_1 : ∀ i : grid10.Coords, EltTy.bits .f32 = 32 ∨ (Rect.block (s := S50000x128) S5000x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S128x128.size a ≤ S128x128.size a
  hwx10_2 : ∀ i : grid10.Coords, EltTy.bits .f32 = 32 ∨ (Rect.block (s := S128x128) S128x128.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S128x128.size a ≤ S128x128.size a
  hwx10_3 : ∀ i : grid10.Coords, EltTy.bits .f32 = 32 ∨ (Rect.block (s := S128x128) S128x128.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x128.size a ≤ S1x128.size a
  hwx10_4 : ∀ i : grid10.Coords, EltTy.bits .f32 = 32 ∨ (Rect.block (s := S1x128) S1x128.size (cc10_transform_4 i) (hinb10_4 i)).WholeWords (EltTy.packing .f32)
  hstage10_5 : ∀ j, (stage10_5 j).IsWhole
  nbuf10_5 : grid10.bufCount reads10_5 false = 2
  hreads10_5 : ∀ i i' : grid10.Coords, (∀ a, reads10_5 a = true → i a = i' a) → cc10_transform_5 i = cc10_transform_5 i'
  hinb10_5 : ∀ (i : grid10.Coords) a, (cc10_transform_5 i a + 1) * S5000x128.size a ≤ S50000x128.size a
  hwx10_5 : ∀ i : grid10.Coords, EltTy.bits .f32 = 32 ∨ (Rect.block (s := S50000x128) S5000x128.size (cc10_transform_5 i) (hinb10_5 i)).WholeWords (EltTy.packing .f32)
  hstage10_6 : ∀ j, (stage10_6 j).IsWhole
  nbuf10_6 : grid10.bufCount reads10_6 true = 1
  hreads10_6 : ∀ i i' : grid10.Coords, (∀ a, reads10_6 a = true → i a = i' a) → cc10_transform_6 i = cc10_transform_6 i'
  hinb10_6 : ∀ (i : grid10.Coords) a, (cc10_transform_6 i a + 1) * S1x128.size a ≤ S1x128.size a
  hwx10_6 : ∀ i : grid10.Coords, EltTy.bits .f32 = 32 ∨ (Rect.block (s := S1x128) S1x128.size (cc10_transform_6 i) (hinb10_6 i)).WholeWords (EltTy.packing .f32)
  hstage10_7 : ∀ j, (stage10_7 j).IsWhole
  nbuf10_7 : grid10.bufCount reads10_7 true = 1
  hreads10_7 : ∀ i i' : grid10.Coords, (∀ a, reads10_7 a = true → i a = i' a) → cc10_transform_7 i = cc10_transform_7 i'
  hinb10_7 : ∀ (i : grid10.Coords) a, (cc10_transform_7 i a + 1) * S1x128.size a ≤ S1x128.size a
  hwx10_7 : ∀ i : grid10.Coords, EltTy.bits .f32 = 32 ∨ (Rect.block (s := S1x128) S1x128.size (cc10_transform_7 i) (hinb10_7 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x128.size a ≤ S50000x128.size a
  hwx11_0 : ∀ i : grid11.Coords, EltTy.bits .f32 = 32 ∨ (Rect.block (s := S50000x128) S5000x128.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x128.size a ≤ S1x128.size a
  hwx11_1 : ∀ i : grid11.Coords, EltTy.bits .f32 = 32 ∨ (Rect.block (s := S1x128) S1x128.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x128.size a ≤ S1x128.size a
  hwx11_2 : ∀ i : grid11.Coords, EltTy.bits .f32 = 32 ∨ (Rect.block (s := S1x128) S1x128.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x128.size a ≤ S1x128.size a
  hwx11_3 : ∀ i : grid11.Coords, EltTy.bits .f32 = 32 ∨ (Rect.block (s := S1x128) S1x128.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x128.size a ≤ S1x128.size a
  hwx11_4 : ∀ i : grid11.Coords, EltTy.bits .f32 = 32 ∨ (Rect.block (s := S1x128) S1x128.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S5000x1.size a ≤ S50000x1.size a
  hwx11_5 : ∀ i : grid11.Coords, EltTy.bits .i32 = 32 ∨ (Rect.block (s := S50000x1) S5000x1.size (cc11_transform_5 i) (hinb11_5 i)).WholeWords (EltTy.packing .i32)
  hstage11_6 : ∀ j, (stage11_6 j).IsWhole
  nbuf11_6 : grid11.bufCount reads11_6 false = 2
  hreads11_6 : ∀ i i' : grid11.Coords, (∀ a, reads11_6 a = true → i a = i' a) → cc11_transform_6 i = cc11_transform_6 i'
  hinb11_6 : ∀ (i : grid11.Coords) a, (cc11_transform_6 i a + 1) * S5000x128.size a ≤ S50000x128.size a
  hwx11_6 : ∀ i : grid11.Coords, EltTy.bits .f32 = 32 ∨ (Rect.block (s := S50000x128) S5000x128.size (cc11_transform_6 i) (hinb11_6 i)).WholeWords (EltTy.packing .f32)
  hstage11_7 : ∀ j, (stage11_7 j).IsWhole
  nbuf11_7 : grid11.bufCount reads11_7 true = 1
  hreads11_7 : ∀ i i' : grid11.Coords, (∀ a, reads11_7 a = true → i a = i' a) → cc11_transform_7 i = cc11_transform_7 i'
  hinb11_7 : ∀ (i : grid11.Coords) a, (cc11_transform_7 i a + 1) * S128x128.size a ≤ S128x128.size a
  hwx11_7 : ∀ i : grid11.Coords, EltTy.bits .f32 = 32 ∨ (Rect.block (s := S128x128) S128x128.size (cc11_transform_7 i) (hinb11_7 i)).WholeWords (EltTy.packing .f32)

variable [Facts₀]

def dot_S5000x48_S48x128_S5000x128_1_0_0_1_n_n : DotDims S5000x48 S48x128 S5000x128 where
  lhsContracting := [1]
  rhsContracting := [0]
  lhsNonContracting := [0]
  rhsNonContracting := [1]
  lhsBatch := []
  rhsBatch := []
  wf := dot_S5000x48_S48x128_S5000x128_1_0_0_1_n_n_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def scatter_S50000x11_S600000x1_S600000x11_1_0_0_1 : ScatterDims S50000x11 S600000x1 S600000x11 where
  updateWindowDims := [1]
  insertedWindowDims := [0]
  scatterDimsToOperandDims := [0]
  indexVectorDim := 1
  wf := scatter_S50000x11_S600000x1_S600000x11_1_0_0_1_wf
def dot_S5000x11_S11x128_S5000x128_1_0_0_1_n_n : DotDims S5000x11 S11x128 S5000x128 where
  lhsContracting := [1]
  rhsContracting := [0]
  lhsNonContracting := [0]
  rhsNonContracting := [1]
  lhsBatch := []
  rhsBatch := []
  wf := dot_S5000x11_S11x128_S5000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S5000x128_S128x128_0_0_1_1_n_n : DotDims S5000x128 S5000x128 S128x128 where
  lhsContracting := [0]
  rhsContracting := [0]
  lhsNonContracting := [1]
  rhsNonContracting := [1]
  lhsBatch := []
  rhsBatch := []
  wf := dot_S5000x128_S5000x128_S128x128_0_0_1_1_n_n_wf

abbrev win0_0 : Pipeline.Window sig grid0 :=
  Pipeline.Window.ofSpec (Memref.whole main_arg1) S5000x48.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S48x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v22) S5000x11.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S11x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v16) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v23) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v12) S5000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v24) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v41) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v43) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v45) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v48) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v49_0) S5000x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v49_1) S1x128.size cc2_transform_6 reads2_6 true true 1 stage2_6 sem2_6
    hrank2 hreads2_6 hinb2_6 nbuf2_6 (Memref.isWhole_whole _) hwx2_6 hstage2_6

abbrev win2_7 : Pipeline.Window sig grid2 :=
  Pipeline.Window.ofSpec (Memref.whole main_v49_2) S1x128.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v49_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v51) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v55) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v60) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v61) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v25) S5000x1.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v62_0) S5000x128.size cc3_transform_6 reads3_6 true false 2 stage3_6 sem3_6
    hrank3 hreads3_6 hinb3_6 nbuf3_6 (Memref.isWhole_whole _) hwx3_6 hstage3_6

abbrev win3_7 : Pipeline.Window sig grid3 :=
  Pipeline.Window.ofSpec (Memref.whole main_v62_1) S128x128.size cc3_transform_7 reads3_7 true true 1 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v78) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v62_0) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v80) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v82) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v85) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v86_0) S5000x128.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v86_1) S1x128.size cc4_transform_6 reads4_6 true true 1 stage4_6 sem4_6
    hrank4 hreads4_6 hinb4_6 nbuf4_6 (Memref.isWhole_whole _) hwx4_6 hstage4_6

abbrev win4_7 : Pipeline.Window sig grid4 :=
  Pipeline.Window.ofSpec (Memref.whole main_v86_2) S1x128.size cc4_transform_7 reads4_7 true true 1 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v86_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v88) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v92) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v97) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v98) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v25) S5000x1.size cc5_transform_5 reads5_5 false false 2 stage5_5 sem5_5
    hrank5 hreads5_5 hinb5_5 nbuf5_5 (Memref.isWhole_whole _) hwx5_5 hstage5_5

abbrev win5_6 : Pipeline.Window sig grid5 :=
  Pipeline.Window.ofSpec (Memref.whole main_v99_0) S5000x128.size cc5_transform_6 reads5_6 true false 2 stage5_6 sem5_6
    hrank5 hreads5_6 hinb5_6 nbuf5_6 (Memref.isWhole_whole _) hwx5_6 hstage5_6

abbrev win5_7 : Pipeline.Window sig grid5 :=
  Pipeline.Window.ofSpec (Memref.whole main_v99_1) S128x128.size cc5_transform_7 reads5_7 true true 1 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v115) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v99_0) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v117) S128x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v119) S128x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v122) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v123_0) S5000x128.size cc6_transform_5 reads6_5 true false 2 stage6_5 sem6_5
    hrank6 hreads6_5 hinb6_5 nbuf6_5 (Memref.isWhole_whole _) hwx6_5 hstage6_5

abbrev win6_6 : Pipeline.Window sig grid6 :=
  Pipeline.Window.ofSpec (Memref.whole main_v123_1) S1x128.size cc6_transform_6 reads6_6 true true 1 stage6_6 sem6_6
    hrank6 hreads6_6 hinb6_6 nbuf6_6 (Memref.isWhole_whole _) hwx6_6 hstage6_6

abbrev win6_7 : Pipeline.Window sig grid6 :=
  Pipeline.Window.ofSpec (Memref.whole main_v123_2) S1x128.size cc6_transform_7 reads6_7 true true 1 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

abbrev win7_0 : Pipeline.Window sig grid7 :=
  Pipeline.Window.ofSpec (Memref.whole main_v123_0) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v125) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v129) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v134) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v135) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v25) S5000x1.size cc7_transform_5 reads7_5 false false 2 stage7_5 sem7_5
    hrank7 hreads7_5 hinb7_5 nbuf7_5 (Memref.isWhole_whole _) hwx7_5 hstage7_5

abbrev win7_6 : Pipeline.Window sig grid7 :=
  Pipeline.Window.ofSpec (Memref.whole main_v136_0) S5000x128.size cc7_transform_6 reads7_6 true false 2 stage7_6 sem7_6
    hrank7 hreads7_6 hinb7_6 nbuf7_6 (Memref.isWhole_whole _) hwx7_6 hstage7_6

abbrev win7_7 : Pipeline.Window sig grid7 :=
  Pipeline.Window.ofSpec (Memref.whole main_v136_1) S128x128.size cc7_transform_7 reads7_7 true true 1 stage7_7 sem7_7
    hrank7 hreads7_7 hinb7_7 nbuf7_7 (Memref.isWhole_whole _) hwx7_7 hstage7_7

abbrev win7 : Fin 8 → Pipeline.Window sig grid7 := fun | 0 => win7_0 | 1 => win7_1 | 2 => win7_2 | 3 => win7_3 | 4 => win7_4 | 5 => win7_5 | 6 => win7_6 | 7 => win7_7 | ⟨_ + 8, h⟩ => absurd h (Nat.not_lt.2 (Nat.le_add_left _ _))
abbrev spec7 : Fin 8 → Pipeline.WinSpec sig grid7.rank := fun w => (win7 w).toWinSpec

abbrev win8_0 : Pipeline.Window sig grid8 :=
  Pipeline.Window.ofSpec (Memref.whole main_v152) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v136_0) S5000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v154) S128x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v156) S128x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v159) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v160_0) S5000x128.size cc8_transform_5 reads8_5 true false 2 stage8_5 sem8_5
    hrank8 hreads8_5 hinb8_5 nbuf8_5 (Memref.isWhole_whole _) hwx8_5 hstage8_5

abbrev win8_6 : Pipeline.Window sig grid8 :=
  Pipeline.Window.ofSpec (Memref.whole main_v160_1) S1x128.size cc8_transform_6 reads8_6 true true 1 stage8_6 sem8_6
    hrank8 hreads8_6 hinb8_6 nbuf8_6 (Memref.isWhole_whole _) hwx8_6 hstage8_6

abbrev win8_7 : Pipeline.Window sig grid8 :=
  Pipeline.Window.ofSpec (Memref.whole main_v160_2) S1x128.size cc8_transform_7 reads8_7 true true 1 stage8_7 sem8_7
    hrank8 hreads8_7 hinb8_7 nbuf8_7 (Memref.isWhole_whole _) hwx8_7 hstage8_7

abbrev win8 : Fin 8 → Pipeline.Window sig grid8 := fun | 0 => win8_0 | 1 => win8_1 | 2 => win8_2 | 3 => win8_3 | 4 => win8_4 | 5 => win8_5 | 6 => win8_6 | 7 => win8_7 | ⟨_ + 8, h⟩ => absurd h (Nat.not_lt.2 (Nat.le_add_left _ _))
abbrev spec8 : Fin 8 → Pipeline.WinSpec sig grid8.rank := fun w => (win8 w).toWinSpec

abbrev win9_0 : Pipeline.Window sig grid9 :=
  Pipeline.Window.ofSpec (Memref.whole main_v160_0) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v162) S1x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v166) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v171) S1x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v172) S1x128.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v25) S5000x1.size cc9_transform_5 reads9_5 false false 2 stage9_5 sem9_5
    hrank9 hreads9_5 hinb9_5 nbuf9_5 (Memref.isWhole_whole _) hwx9_5 hstage9_5

abbrev win9_6 : Pipeline.Window sig grid9 :=
  Pipeline.Window.ofSpec (Memref.whole main_v173_0) S5000x128.size cc9_transform_6 reads9_6 true false 2 stage9_6 sem9_6
    hrank9 hreads9_6 hinb9_6 nbuf9_6 (Memref.isWhole_whole _) hwx9_6 hstage9_6

abbrev win9_7 : Pipeline.Window sig grid9 :=
  Pipeline.Window.ofSpec (Memref.whole main_v173_1) S128x128.size cc9_transform_7 reads9_7 true true 1 stage9_7 sem9_7
    hrank9 hreads9_7 hinb9_7 nbuf9_7 (Memref.isWhole_whole _) hwx9_7 hstage9_7

abbrev win9 : Fin 8 → Pipeline.Window sig grid9 := fun | 0 => win9_0 | 1 => win9_1 | 2 => win9_2 | 3 => win9_3 | 4 => win9_4 | 5 => win9_5 | 6 => win9_6 | 7 => win9_7 | ⟨_ + 8, h⟩ => absurd h (Nat.not_lt.2 (Nat.le_add_left _ _))
abbrev spec9 : Fin 8 → Pipeline.WinSpec sig grid9.rank := fun w => (win9 w).toWinSpec

abbrev win10_0 : Pipeline.Window sig grid10 :=
  Pipeline.Window.ofSpec (Memref.whole main_v189) S5000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v173_0) S5000x128.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v191) S128x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v193) S128x128.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v196) S1x128.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v197_0) S5000x128.size cc10_transform_5 reads10_5 true false 2 stage10_5 sem10_5
    hrank10 hreads10_5 hinb10_5 nbuf10_5 (Memref.isWhole_whole _) hwx10_5 hstage10_5

abbrev win10_6 : Pipeline.Window sig grid10 :=
  Pipeline.Window.ofSpec (Memref.whole main_v197_1) S1x128.size cc10_transform_6 reads10_6 true true 1 stage10_6 sem10_6
    hrank10 hreads10_6 hinb10_6 nbuf10_6 (Memref.isWhole_whole _) hwx10_6 hstage10_6

abbrev win10_7 : Pipeline.Window sig grid10 :=
  Pipeline.Window.ofSpec (Memref.whole main_v197_2) S1x128.size cc10_transform_7 reads10_7 true true 1 stage10_7 sem10_7
    hrank10 hreads10_7 hinb10_7 nbuf10_7 (Memref.isWhole_whole _) hwx10_7 hstage10_7

abbrev win10 : Fin 8 → Pipeline.Window sig grid10 := fun | 0 => win10_0 | 1 => win10_1 | 2 => win10_2 | 3 => win10_3 | 4 => win10_4 | 5 => win10_5 | 6 => win10_6 | 7 => win10_7 | ⟨_ + 8, h⟩ => absurd h (Nat.not_lt.2 (Nat.le_add_left _ _))
abbrev spec10 : Fin 8 → Pipeline.WinSpec sig grid10.rank := fun w => (win10 w).toWinSpec

abbrev win11_0 : Pipeline.Window sig grid11 :=
  Pipeline.Window.ofSpec (Memref.whole main_v197_0) S5000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v199) S1x128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v203) S1x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v208) S1x128.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v209) S1x128.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v25) S5000x1.size cc11_transform_5 reads11_5 false false 2 stage11_5 sem11_5
    hrank11 hreads11_5 hinb11_5 nbuf11_5 (Memref.isWhole_whole _) hwx11_5 hstage11_5

abbrev win11_6 : Pipeline.Window sig grid11 :=
  Pipeline.Window.ofSpec (Memref.whole main_v210_0) S5000x128.size cc11_transform_6 reads11_6 true false 2 stage11_6 sem11_6
    hrank11 hreads11_6 hinb11_6 nbuf11_6 (Memref.isWhole_whole _) hwx11_6 hstage11_6

abbrev win11_7 : Pipeline.Window sig grid11 :=
  Pipeline.Window.ofSpec (Memref.whole main_v210_1) S128x128.size cc11_transform_7 reads11_7 true true 1 stage11_7 sem11_7
    hrank11 hreads11_7 hinb11_7 nbuf11_7 (Memref.isWhole_whole _) hwx11_7 hstage11_7

abbrev win11 : Fin 8 → Pipeline.Window sig grid11 := fun | 0 => win11_0 | 1 => win11_1 | 2 => win11_2 | 3 => win11_3 | 4 => win11_4 | 5 => win11_5 | 6 => win11_6 | 7 => win11_7 | ⟨_ + 8, h⟩ => absurd h (Nat.not_lt.2 (Nat.le_add_left _ _))
abbrev spec11 : Fin 8 → Pipeline.WinSpec sig grid11.rank := fun w => (win11 w).toWinSpec

class Facts : Prop extends Facts₀ where

variable [Facts]
-- ==== ReferenceIdeal.lean ====
abbrev S50000 : Shape := ⟨1, ![50000]⟩
abbrev S50000x48 : Shape := ⟨2, ![50000, 48]⟩
abbrev S2x600000 : Shape := ⟨2, ![2, 600000]⟩
abbrev S600000x11 : Shape := ⟨2, ![600000, 11]⟩
abbrev S600000 : Shape := ⟨1, ![600000]⟩
abbrev S48x128 : Shape := ⟨2, ![48, 128]⟩
abbrev S128 : Shape := ⟨1, ![128]⟩
abbrev S11x128 : Shape := ⟨2, ![11, 128]⟩
abbrev S5x128x128 : Shape := ⟨3, ![5, 128, 128]⟩
abbrev S5x128 : Shape := ⟨2, ![5, 128]⟩
abbrev S1x600000 : Shape := ⟨2, ![1, 600000]⟩
abbrev S50000x128 : Shape := ⟨2, ![50000, 128]⟩
abbrev S1x128 : Shape := ⟨2, ![1, 128]⟩
abbrev S600000x128 : Shape := ⟨2, ![600000, 128]⟩
abbrev S_ : Shape := ⟨0, ![]⟩
abbrev S600000x1 : Shape := ⟨2, ![600000, 1]⟩
abbrev S50000x1 : Shape := ⟨2, ![50000, 1]⟩
abbrev S1x128x128 : Shape := ⟨3, ![1, 128, 128]⟩
abbrev S128x128 : Shape := ⟨2, ![128, 128]⟩
abbrev S128x640 : Shape := ⟨2, ![128, 640]⟩

abbrev nBuf : Space → Nat
  | .hbm => 464
  | .vmem => 0
  | .smem => 0
  | _ => 0

abbrev hbmTy0_0 (i : Nat) : BufTy := match i % 128 with
  | 0 => ⟨S50000, .i32⟩
  | 1 => ⟨S50000x48, .f32⟩
  | 2 => ⟨S2x600000, .i32⟩
  | 3 => ⟨S600000x11, .f32⟩
  | 4 => ⟨S600000, .f32⟩
  | 5 => ⟨S48x128, .f32⟩
  | 6 => ⟨S128, .f32⟩
  | 7 => ⟨S11x128, .f32⟩
  | 8 => ⟨S128, .f32⟩
  | 9 => ⟨S5x128x128, .f32⟩
  | 10 => ⟨S5x128, .f32⟩
  | 11 => ⟨S5x128x128, .f32⟩
  | 12 => ⟨S5x128, .f32⟩
  | 13 => ⟨S5x128, .f32⟩
  | 14 => ⟨S1x600000, .i32⟩
  | 15 => ⟨S600000, .i32⟩
  | 16 => ⟨S1x600000, .i32⟩
  | 17 => ⟨S600000, .i32⟩
  | 18 => ⟨S50000x128, .f32⟩
  | 19 => ⟨S1x128, .f32⟩
  | 20 => ⟨S50000x128, .f32⟩
  | 21 => ⟨S50000x128, .f32⟩
  | 22 => ⟨S600000x128, .f32⟩
  | 23 => ⟨S1x128, .f32⟩
  | 24 => ⟨S600000x128, .f32⟩
  | 25 => ⟨S600000x128, .f32⟩
  | 26 => ⟨S_, .f32⟩
  | 27 => ⟨S600000, .f32⟩
  | 28 => ⟨S_, .f32⟩
  | 29 => ⟨S50000, .f32⟩
  | 30 => ⟨S600000x1, .i32⟩
  | 31 => ⟨S50000, .f32⟩
  | 32 => ⟨S_, .f32⟩
  | 33 => ⟨S50000, .f32⟩
  | 34 => ⟨S50000, .f32⟩
  | 35 => ⟨S50000x1, .f32⟩
  | 36 => ⟨S_, .i32⟩
  | 37 => ⟨S600000, .i32⟩
  | 38 => ⟨S600000, .i1⟩
  | 39 => ⟨S_, .i32⟩
  | 40 => ⟨S600000, .i32⟩
  | 41 => ⟨S600000, .i32⟩
  | 42 => ⟨S600000, .i32⟩
  | 43 => ⟨S600000x1, .i32⟩
  | 44 => ⟨S600000x128, .f32⟩
  | 45 => ⟨S600000x128, .f32⟩
  | 46 => ⟨S600000x1, .f32⟩
  | 47 => ⟨S600000x128, .f32⟩
  | 48 => ⟨S600000x128, .f32⟩
  | 49 => ⟨S_, .f32⟩
  | 50 => ⟨S50000x128, .f32⟩
  | 51 => ⟨S600000x1, .i32⟩
  | 52 => ⟨S50000x128, .f32⟩
  | 53 => ⟨S50000x128, .f32⟩
  | 54 => ⟨S50000x128, .f32⟩
  | 55 => ⟨S1x128x128, .f32⟩
  | 56 => ⟨S128x128, .f32⟩
  | 57 => ⟨S50000x128, .f32⟩
  | 58 => ⟨S1x128, .f32⟩
  | 59 => ⟨S128, .f32⟩
  | 60 => ⟨S1x128, .f32⟩
  | 61 => ⟨S50000x128, .f32⟩
  | 62 => ⟨S50000x128, .f32⟩
  | 63 => ⟨S1x128x128, .f32⟩
  | 64 => ⟨S128x128, .f32⟩
  | 65 => ⟨S50000x128, .f32⟩
  | 66 => ⟨S50000x128, .f32⟩
  | 67 => ⟨S_, .f32⟩
  | 68 => ⟨S128, .f32⟩
  | 69 => ⟨S_, .f32⟩
  | 70 => ⟨S128, .f32⟩
  | 71 => ⟨S128, .f32⟩
  | 72 => ⟨S_, .i32⟩
  | 73 => ⟨S_, .f32⟩
  | 74 => ⟨S128, .f32⟩
  | 75 => ⟨S1x128, .f32⟩
  | 76 => ⟨S_, .f32⟩
  | 77 => ⟨S1x128, .f32⟩
  | 78 => ⟨S1x128, .f32⟩
  | 79 => ⟨S50000x128, .f32⟩
  | 80 => ⟨S50000x128, .f32⟩
  | 81 => ⟨S50000x128, .f32⟩
  | 82 => ⟨S_, .f32⟩
  | 83 => ⟨S_, .f32⟩
  | 84 => ⟨S_, .f32⟩
  | 85 => ⟨S_, .f32⟩
  | 86 => ⟨S128, .f32⟩
  | 87 => ⟨S128, .f32⟩
  | 88 => ⟨S128, .f32⟩
  | 89 => ⟨S_, .f32⟩
  | 90 => ⟨S_, .i1⟩
  | 91 => ⟨S_, .f32⟩
  | 92 => ⟨S_, .f32⟩
  | 93 => ⟨S128, .f32⟩
  | 94 => ⟨S128, .f32⟩
  | 95 => ⟨S1x128, .f32⟩
  | 96 => ⟨S128, .f32⟩
  | 97 => ⟨S1x128, .f32⟩
  | 98 => ⟨S50000x128, .f32⟩
  | 99 => ⟨S50000x128, .f32⟩
  | 100 => ⟨S1x128, .f32⟩
  | 101 => ⟨S50000x128, .f32⟩
  | 102 => ⟨S50000x128, .f32⟩
  | 103 => ⟨S_, .f32⟩
  | 104 => ⟨S128, .f32⟩
  | 105 => ⟨S128, .f32⟩
  | 106 => ⟨S128, .f32⟩
  | 107 => ⟨S1x128, .f32⟩
  | 108 => ⟨S50000x128, .f32⟩
  | 109 => ⟨S50000x128, .f32⟩
  | 110 => ⟨S1x128, .f32⟩
  | 111 => ⟨S128, .f32⟩
  | 112 => ⟨S1x128, .f32⟩
  | 113 => ⟨S50000x128, .f32⟩
  | 114 => ⟨S50000x128, .f32⟩
  | 115 => ⟨S_, .f32⟩
  | 116 => ⟨S50000x128, .f32⟩
  | 117 => ⟨S50000x128, .f32⟩
  | 118 => ⟨S_, .i32⟩
  | 119 => ⟨S600000, .i32⟩
  | 120 => ⟨S600000, .i1⟩
  | 121 => ⟨S_, .i32⟩
  | 122 => ⟨S600000, .i32⟩
  | 123 => ⟨S600000, .i32⟩
  | 124 => ⟨S600000, .i32⟩
  | 125 => ⟨S600000x1, .i32⟩
  | 126 => ⟨S600000x128, .f32⟩
  | 127 => ⟨S600000x128, .f32⟩
  | _ => ⟨S50000, .i32⟩

abbrev hbmTy0_1 (i : Nat) : BufTy := match i % 128 with
  | 0 => ⟨S600000x1, .f32⟩
  | 1 => ⟨S600000x128, .f32⟩
  | 2 => ⟨S600000x128, .f32⟩
  | 3 => ⟨S_, .f32⟩
  | 4 => ⟨S50000x128, .f32⟩
  | 5 => ⟨S600000x1, .i32⟩
  | 6 => ⟨S50000x128, .f32⟩
  | 7 => ⟨S50000x128, .f32⟩
  | 8 => ⟨S50000x128, .f32⟩
  | 9 => ⟨S1x128x128, .f32⟩
  | 10 => ⟨S128x128, .f32⟩
  | 11 => ⟨S50000x128, .f32⟩
  | 12 => ⟨S1x128, .f32⟩
  | 13 => ⟨S128, .f32⟩
  | 14 => ⟨S1x128, .f32⟩
  | 15 => ⟨S50000x128, .f32⟩
  | 16 => ⟨S50000x128, .f32⟩
  | 17 => ⟨S1x128x128, .f32⟩
  | 18 => ⟨S128x128, .f32⟩
  | 19 => ⟨S50000x128, .f32⟩
  | 20 => ⟨S50000x128, .f32⟩
  | 21 => ⟨S_, .f32⟩
  | 22 => ⟨S128, .f32⟩
  | 23 => ⟨S_, .f32⟩
  | 24 => ⟨S128, .f32⟩
  | 25 => ⟨S128, .f32⟩
  | 26 => ⟨S_, .i32⟩
  | 27 => ⟨S_, .f32⟩
  | 28 => ⟨S128, .f32⟩
  | 29 => ⟨S1x128, .f32⟩
  | 30 => ⟨S_, .f32⟩
  | 31 => ⟨S1x128, .f32⟩
  | 32 => ⟨S1x128, .f32⟩
  | 33 => ⟨S50000x128, .f32⟩
  | 34 => ⟨S50000x128, .f32⟩
  | 35 => ⟨S50000x128, .f32⟩
  | 36 => ⟨S_, .f32⟩
  | 37 => ⟨S_, .f32⟩
  | 38 => ⟨S_, .f32⟩
  | 39 => ⟨S_, .f32⟩
  | 40 => ⟨S128, .f32⟩
  | 41 => ⟨S128, .f32⟩
  | 42 => ⟨S128, .f32⟩
  | 43 => ⟨S_, .f32⟩
  | 44 => ⟨S_, .i1⟩
  | 45 => ⟨S_, .f32⟩
  | 46 => ⟨S_, .f32⟩
  | 47 => ⟨S128, .f32⟩
  | 48 => ⟨S128, .f32⟩
  | 49 => ⟨S1x128, .f32⟩
  | 50 => ⟨S128, .f32⟩
  | 51 => ⟨S1x128, .f32⟩
  | 52 => ⟨S50000x128, .f32⟩
  | 53 => ⟨S50000x128, .f32⟩
  | 54 => ⟨S1x128, .f32⟩
  | 55 => ⟨S50000x128, .f32⟩
  | 56 => ⟨S50000x128, .f32⟩
  | 57 => ⟨S_, .f32⟩
  | 58 => ⟨S128, .f32⟩
  | 59 => ⟨S128, .f32⟩
  | 60 => ⟨S128, .f32⟩
  | 61 => ⟨S1x128, .f32⟩
  | 62 => ⟨S50000x128, .f32⟩
  | 63 => ⟨S50000x128, .f32⟩
  | 64 => ⟨S1x128, .f32⟩
  | 65 => ⟨S128, .f32⟩
  | 66 => ⟨S1x128, .f32⟩
  | 67 => ⟨S50000x128, .f32⟩
  | 68 => ⟨S50000x128, .f32⟩
  | 69 => ⟨S_, .f32⟩
  | 70 => ⟨S50000x128, .f32⟩
  | 71 => ⟨S50000x128, .f32⟩
  | 72 => ⟨S_, .i32⟩
  | 73 => ⟨S600000, .i32⟩
  | 74 => ⟨S600000, .i1⟩
  | 75 => ⟨S_, .i32⟩
  | 76 => ⟨S600000, .i32⟩
  | 77 => ⟨S600000, .i32⟩
  | 78 => ⟨S600000, .i32⟩
  | 79 => ⟨S600000x1, .i32⟩
  | 80 => ⟨S600000x128, .f32⟩
  | 81 => ⟨S600000x128, .f32⟩
  | 82 => ⟨S600000x1, .f32⟩
  | 83 => ⟨S600000x128, .f32⟩
  | 84 => ⟨S600000x128, .f32⟩
  | 85 => ⟨S_, .f32⟩
  | 86 => ⟨S50000x128, .f32⟩
  | 87 => ⟨S600000x1, .i32⟩
  | 88 => ⟨S50000x128, .f32⟩
  | 89 => ⟨S50000x128, .f32⟩
  | 90 => ⟨S50000x128, .f32⟩
  | 91 => ⟨S1x128x128, .f32⟩
  | 92 => ⟨S128x128, .f32⟩
  | 93 => ⟨S50000x128, .f32⟩
  | 94 => ⟨S1x128, .f32⟩
  | 95 => ⟨S128, .f32⟩
  | 96 => ⟨S1x128, .f32⟩
  | 97 => ⟨S50000x128, .f32⟩
  | 98 => ⟨S50000x128, .f32⟩
  | 99 => ⟨S1x128x128, .f32⟩
  | 100 => ⟨S128x128, .f32⟩
  | 101 => ⟨S50000x128, .f32⟩
  | 102 => ⟨S50000x128, .f32⟩
  | 103 => ⟨S_, .f32⟩
  | 104 => ⟨S128, .f32⟩
  | 105 => ⟨S_, .f32⟩
  | 106 => ⟨S128, .f32⟩
  | 107 => ⟨S128, .f32⟩
  | 108 => ⟨S_, .i32⟩
  | 109 => ⟨S_, .f32⟩
  | 110 => ⟨S128, .f32⟩
  | 111 => ⟨S1x128, .f32⟩
  | 112 => ⟨S_, .f32⟩
  | 113 => ⟨S1x128, .f32⟩
  | 114 => ⟨S1x128, .f32⟩
  | 115 => ⟨S50000x128, .f32⟩
  | 116 => ⟨S50000x128, .f32⟩
  | 117 => ⟨S50000x128, .f32⟩
  | 118 => ⟨S_, .f32⟩
  | 119 => ⟨S_, .f32⟩
  | 120 => ⟨S_, .f32⟩
  | 121 => ⟨S_, .f32⟩
  | 122 => ⟨S128, .f32⟩
  | 123 => ⟨S128, .f32⟩
  | 124 => ⟨S128, .f32⟩
  | 125 => ⟨S_, .f32⟩
  | 126 => ⟨S_, .i1⟩
  | 127 => ⟨S_, .f32⟩
  | _ => ⟨S50000, .i32⟩

abbrev hbmTy0_2 (i : Nat) : BufTy := match i % 128 with
  | 0 => ⟨S_, .f32⟩
  | 1 => ⟨S128, .f32⟩
  | 2 => ⟨S128, .f32⟩
  | 3 => ⟨S1x128, .f32⟩
  | 4 => ⟨S128, .f32⟩
  | 5 => ⟨S1x128, .f32⟩
  | 6 => ⟨S50000x128, .f32⟩
  | 7 => ⟨S50000x128, .f32⟩
  | 8 => ⟨S1x128, .f32⟩
  | 9 => ⟨S50000x128, .f32⟩
  | 10 => ⟨S50000x128, .f32⟩
  | 11 => ⟨S_, .f32⟩
  | 12 => ⟨S128, .f32⟩
  | 13 => ⟨S128, .f32⟩
  | 14 => ⟨S128, .f32⟩
  | 15 => ⟨S1x128, .f32⟩
  | 16 => ⟨S50000x128, .f32⟩
  | 17 => ⟨S50000x128, .f32⟩
  | 18 => ⟨S1x128, .f32⟩
  | 19 => ⟨S128, .f32⟩
  | 20 => ⟨S1x128, .f32⟩
  | 21 => ⟨S50000x128, .f32⟩
  | 22 => ⟨S50000x128, .f32⟩
  | 23 => ⟨S_, .f32⟩
  | 24 => ⟨S50000x128, .f32⟩
  | 25 => ⟨S50000x128, .f32⟩
  | 26 => ⟨S_, .i32⟩
  | 27 => ⟨S600000, .i32⟩
  | 28 => ⟨S600000, .i1⟩
  | 29 => ⟨S_, .i32⟩
  | 30 => ⟨S600000, .i32⟩
  | 31 => ⟨S600000, .i32⟩
  | 32 => ⟨S600000, .i32⟩
  | 33 => ⟨S600000x1, .i32⟩
  | 34 => ⟨S600000x128, .f32⟩
  | 35 => ⟨S600000x128, .f32⟩
  | 36 => ⟨S600000x1, .f32⟩
  | 37 => ⟨S600000x128, .f32⟩
  | 38 => ⟨S600000x128, .f32⟩
  | 39 => ⟨S_, .f32⟩
  | 40 => ⟨S50000x128, .f32⟩
  | 41 => ⟨S600000x1, .i32⟩
  | 42 => ⟨S50000x128, .f32⟩
  | 43 => ⟨S50000x128, .f32⟩
  | 44 => ⟨S50000x128, .f32⟩
  | 45 => ⟨S1x128x128, .f32⟩
  | 46 => ⟨S128x128, .f32⟩
  | 47 => ⟨S50000x128, .f32⟩
  | 48 => ⟨S1x128, .f32⟩
  | 49 => ⟨S128, .f32⟩
  | 50 => ⟨S1x128, .f32⟩
  | 51 => ⟨S50000x128, .f32⟩
  | 52 => ⟨S50000x128, .f32⟩
  | 53 => ⟨S1x128x128, .f32⟩
  | 54 => ⟨S128x128, .f32⟩
  | 55 => ⟨S50000x128, .f32⟩
  | 56 => ⟨S50000x128, .f32⟩
  | 57 => ⟨S_, .f32⟩
  | 58 => ⟨S128, .f32⟩
  | 59 => ⟨S_, .f32⟩
  | 60 => ⟨S128, .f32⟩
  | 61 => ⟨S128, .f32⟩
  | 62 => ⟨S_, .i32⟩
  | 63 => ⟨S_, .f32⟩
  | 64 => ⟨S128, .f32⟩
  | 65 => ⟨S1x128, .f32⟩
  | 66 => ⟨S_, .f32⟩
  | 67 => ⟨S1x128, .f32⟩
  | 68 => ⟨S1x128, .f32⟩
  | 69 => ⟨S50000x128, .f32⟩
  | 70 => ⟨S50000x128, .f32⟩
  | 71 => ⟨S50000x128, .f32⟩
  | 72 => ⟨S_, .f32⟩
  | 73 => ⟨S_, .f32⟩
  | 74 => ⟨S_, .f32⟩
  | 75 => ⟨S_, .f32⟩
  | 76 => ⟨S128, .f32⟩
  | 77 => ⟨S128, .f32⟩
  | 78 => ⟨S128, .f32⟩
  | 79 => ⟨S_, .f32⟩
  | 80 => ⟨S_, .i1⟩
  | 81 => ⟨S_, .f32⟩
  | 82 => ⟨S_, .f32⟩
  | 83 => ⟨S128, .f32⟩
  | 84 => ⟨S128, .f32⟩
  | 85 => ⟨S1x128, .f32⟩
  | 86 => ⟨S128, .f32⟩
  | 87 => ⟨S1x128, .f32⟩
  | 88 => ⟨S50000x128, .f32⟩
  | 89 => ⟨S50000x128, .f32⟩
  | 90 => ⟨S1x128, .f32⟩
  | 91 => ⟨S50000x128, .f32⟩
  | 92 => ⟨S50000x128, .f32⟩
  | 93 => ⟨S_, .f32⟩
  | 94 => ⟨S128, .f32⟩
  | 95 => ⟨S128, .f32⟩
  | 96 => ⟨S128, .f32⟩
  | 97 => ⟨S1x128, .f32⟩
  | 98 => ⟨S50000x128, .f32⟩
  | 99 => ⟨S50000x128, .f32⟩
  | 100 => ⟨S1x128, .f32⟩
  | 101 => ⟨S128, .f32⟩
  | 102 => ⟨S1x128, .f32⟩
  | 103 => ⟨S50000x128, .f32⟩
  | 104 => ⟨S50000x128, .f32⟩
  | 105 => ⟨S_, .f32⟩
  | 106 => ⟨S50000x128, .f32⟩
  | 107 => ⟨S50000x128, .f32⟩
  | 108 => ⟨S_, .i32⟩
  | 109 => ⟨S600000, .i32⟩
  | 110 => ⟨S600000, .i1⟩
  | 111 => ⟨S_, .i32⟩
  | 112 => ⟨S600000, .i32⟩
  | 113 => ⟨S600000, .i32⟩
  | 114 => ⟨S600000, .i32⟩
  | 115 => ⟨S600000x1, .i32⟩
  | 116 => ⟨S600000x128, .f32⟩
  | 117 => ⟨S600000x128, .f32⟩
  | 118 => ⟨S600000x1, .f32⟩
  | 119 => ⟨S600000x128, .f32⟩
  | 120 => ⟨S600000x128, .f32⟩
  | 121 => ⟨S_, .f32⟩
  | 122 => ⟨S50000x128, .f32⟩
  | 123 => ⟨S600000x1, .i32⟩
  | 124 => ⟨S50000x128, .f32⟩
  | 125 => ⟨S50000x128, .f32⟩
  | 126 => ⟨S50000x128, .f32⟩
  | 127 => ⟨S1x128x128, .f32⟩
  | _ => ⟨S50000, .i32⟩

abbrev hbmTy0_3 (i : Nat) : BufTy := match i % 128 with
  | 0 => ⟨S128x128, .f32⟩
  | 1 => ⟨S50000x128, .f32⟩
  | 2 => ⟨S1x128, .f32⟩
  | 3 => ⟨S128, .f32⟩
  | 4 => ⟨S1x128, .f32⟩
  | 5 => ⟨S50000x128, .f32⟩
  | 6 => ⟨S50000x128, .f32⟩
  | 7 => ⟨S1x128x128, .f32⟩
  | 8 => ⟨S128x128, .f32⟩
  | 9 => ⟨S50000x128, .f32⟩
  | 10 => ⟨S50000x128, .f32⟩
  | 11 => ⟨S_, .f32⟩
  | 12 => ⟨S128, .f32⟩
  | 13 => ⟨S_, .f32⟩
  | 14 => ⟨S128, .f32⟩
  | 15 => ⟨S128, .f32⟩
  | 16 => ⟨S_, .i32⟩
  | 17 => ⟨S_, .f32⟩
  | 18 => ⟨S128, .f32⟩
  | 19 => ⟨S1x128, .f32⟩
  | 20 => ⟨S_, .f32⟩
  | 21 => ⟨S1x128, .f32⟩
  | 22 => ⟨S1x128, .f32⟩
  | 23 => ⟨S50000x128, .f32⟩
  | 24 => ⟨S50000x128, .f32⟩
  | 25 => ⟨S50000x128, .f32⟩
  | 26 => ⟨S_, .f32⟩
  | 27 => ⟨S_, .f32⟩
  | 28 => ⟨S_, .f32⟩
  | 29 => ⟨S_, .f32⟩
  | 30 => ⟨S128, .f32⟩
  | 31 => ⟨S128, .f32⟩
  | 32 => ⟨S128, .f32⟩
  | 33 => ⟨S_, .f32⟩
  | 34 => ⟨S_, .i1⟩
  | 35 => ⟨S_, .f32⟩
  | 36 => ⟨S_, .f32⟩
  | 37 => ⟨S128, .f32⟩
  | 38 => ⟨S128, .f32⟩
  | 39 => ⟨S1x128, .f32⟩
  | 40 => ⟨S128, .f32⟩
  | 41 => ⟨S1x128, .f32⟩
  | 42 => ⟨S50000x128, .f32⟩
  | 43 => ⟨S50000x128, .f32⟩
  | 44 => ⟨S1x128, .f32⟩
  | 45 => ⟨S50000x128, .f32⟩
  | 46 => ⟨S50000x128, .f32⟩
  | 47 => ⟨S_, .f32⟩
  | 48 => ⟨S128, .f32⟩
  | 49 => ⟨S128, .f32⟩
  | 50 => ⟨S128, .f32⟩
  | 51 => ⟨S1x128, .f32⟩
  | 52 => ⟨S50000x128, .f32⟩
  | 53 => ⟨S50000x128, .f32⟩
  | 54 => ⟨S1x128, .f32⟩
  | 55 => ⟨S128, .f32⟩
  | 56 => ⟨S1x128, .f32⟩
  | 57 => ⟨S50000x128, .f32⟩
  | 58 => ⟨S50000x128, .f32⟩
  | 59 => ⟨S_, .f32⟩
  | 60 => ⟨S128x128, .f32⟩
  | 61 => ⟨S50000x1, .i32⟩
  | 62 => ⟨S128x128, .f32⟩
  | 63 => ⟨S_, .f32⟩
  | 64 => ⟨S128x128, .f32⟩
  | 65 => ⟨S50000x1, .i32⟩
  | 66 => ⟨S128x128, .f32⟩
  | 67 => ⟨S_, .f32⟩
  | 68 => ⟨S128x128, .f32⟩
  | 69 => ⟨S50000x1, .i32⟩
  | 70 => ⟨S128x128, .f32⟩
  | 71 => ⟨S_, .f32⟩
  | 72 => ⟨S128x128, .f32⟩
  | 73 => ⟨S50000x1, .i32⟩
  | 74 => ⟨S128x128, .f32⟩
  | 75 => ⟨S_, .f32⟩
  | 76 => ⟨S128x128, .f32⟩
  | 77 => ⟨S50000x1, .i32⟩
  | 78 => ⟨S128x128, .f32⟩
  | 79 => ⟨S128x640, .f32⟩
  | _ => ⟨S50000, .i32⟩

abbrev hbmTy (i : Nat) : BufTy := match i / 128 with
  | 0 => hbmTy0_0 i
  | 1 => hbmTy0_1 i
  | 2 => hbmTy0_2 i
  | 3 => hbmTy0_3 i
  | _ => ⟨S50000, .i32⟩

abbrev bufTy : (tb : Table) → Fin (tcTables nBuf tb) → BufTy
  | .hbm, ⟨i, _⟩ => hbmTy i
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_cst_0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_1 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c : Ref sig .tc := ⟨.hbm, 36, rfl⟩
abbrev main_v19 : Ref sig .tc := ⟨.hbm, 37, rfl⟩
abbrev main_v20 : Ref sig .tc := ⟨.hbm, 38, rfl⟩
abbrev main_c_2 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_3 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_4 : Ref sig .tc := ⟨.hbm, 67, rfl⟩
abbrev main_v47 : Ref sig .tc := ⟨.hbm, 68, rfl⟩
abbrev main_cst_5 : Ref sig .tc := ⟨.hbm, 69, rfl⟩
abbrev main_v48 : Ref sig .tc := ⟨.hbm, 70, rfl⟩
abbrev main_v49 : Ref sig .tc := ⟨.hbm, 71, rfl⟩
abbrev main_c_6 : Ref sig .tc := ⟨.hbm, 72, rfl⟩
abbrev main_call0_cst : Ref sig .tc := ⟨.hbm, 73, rfl⟩
abbrev main_call0_v0 : Ref sig .tc := ⟨.hbm, 74, rfl⟩
abbrev main_call0_v1 : Ref sig .tc := ⟨.hbm, 75, rfl⟩
abbrev main_call0_cst_0 : Ref sig .tc := ⟨.hbm, 76, rfl⟩
abbrev main_call0_v2 : Ref sig .tc := ⟨.hbm, 77, rfl⟩
abbrev main_call0_v3 : Ref sig .tc := ⟨.hbm, 78, rfl⟩
abbrev main_call0_v4 : Ref sig .tc := ⟨.hbm, 79, rfl⟩
abbrev main_call0_v5 : Ref sig .tc := ⟨.hbm, 80, rfl⟩
abbrev main_call0_v6 : Ref sig .tc := ⟨.hbm, 81, rfl⟩
abbrev main_call0_v7 : Ref sig .tc := ⟨.hbm, 82, rfl⟩
abbrev main_call0_cst_1 : Ref sig .tc := ⟨.hbm, 83, rfl⟩
abbrev main_call0_v8 : Ref sig .tc := ⟨.hbm, 84, rfl⟩
abbrev main_call0_cst_2 : Ref sig .tc := ⟨.hbm, 85, rfl⟩
abbrev main_call0_v9 : Ref sig .tc := ⟨.hbm, 86, rfl⟩
abbrev main_call0_v10 : Ref sig .tc := ⟨.hbm, 87, rfl⟩
abbrev main_call0_v11 : Ref sig .tc := ⟨.hbm, 88, rfl⟩
abbrev main_call0_cst_3 : Ref sig .tc := ⟨.hbm, 89, rfl⟩
abbrev main_call0_v12 : Ref sig .tc := ⟨.hbm, 90, rfl⟩
abbrev main_call0_cst_4 : Ref sig .tc := ⟨.hbm, 91, rfl⟩
abbrev main_call0_call0_v0 : Ref sig .tc := ⟨.hbm, 92, rfl⟩
abbrev main_call0_call0_v1 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_cst_7 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_call1_cst : Ref sig .tc := ⟨.hbm, 115, rfl⟩
abbrev main_call1_v0 : Ref sig .tc := ⟨.hbm, 116, rfl⟩
abbrev main_v70 : Ref sig .tc := ⟨.hbm, 117, rfl⟩
abbrev main_c_8 : Ref sig .tc := ⟨.hbm, 118, rfl⟩
abbrev main_v71 : Ref sig .tc := ⟨.hbm, 119, rfl⟩
abbrev main_v72 : Ref sig .tc := ⟨.hbm, 120, rfl⟩
abbrev main_c_9 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_cst_10 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_cst_11 : Ref sig .tc := ⟨.hbm, 149, rfl⟩
abbrev main_v99 : Ref sig .tc := ⟨.hbm, 150, rfl⟩
abbrev main_cst_12 : Ref sig .tc := ⟨.hbm, 151, rfl⟩
abbrev main_v100 : Ref sig .tc := ⟨.hbm, 152, rfl⟩
abbrev main_v101 : Ref sig .tc := ⟨.hbm, 153, rfl⟩
abbrev main_c_13 : Ref sig .tc := ⟨.hbm, 154, rfl⟩
abbrev main_call2_cst : Ref sig .tc := ⟨.hbm, 155, rfl⟩
abbrev main_call2_v0 : Ref sig .tc := ⟨.hbm, 156, rfl⟩
abbrev main_call2_v1 : Ref sig .tc := ⟨.hbm, 157, rfl⟩
abbrev main_call2_cst_0 : Ref sig .tc := ⟨.hbm, 158, rfl⟩
abbrev main_call2_v2 : Ref sig .tc := ⟨.hbm, 159, rfl⟩
abbrev main_call2_v3 : Ref sig .tc := ⟨.hbm, 160, rfl⟩
abbrev main_call2_v4 : Ref sig .tc := ⟨.hbm, 161, rfl⟩
abbrev main_call2_v5 : Ref sig .tc := ⟨.hbm, 162, rfl⟩
abbrev main_call2_v6 : Ref sig .tc := ⟨.hbm, 163, rfl⟩
abbrev main_call2_v7 : Ref sig .tc := ⟨.hbm, 164, rfl⟩
abbrev main_call2_cst_1 : Ref sig .tc := ⟨.hbm, 165, rfl⟩
abbrev main_call2_v8 : Ref sig .tc := ⟨.hbm, 166, rfl⟩
abbrev main_call2_cst_2 : Ref sig .tc := ⟨.hbm, 167, rfl⟩
abbrev main_call2_v9 : Ref sig .tc := ⟨.hbm, 168, rfl⟩
abbrev main_call2_v10 : Ref sig .tc := ⟨.hbm, 169, rfl⟩
abbrev main_call2_v11 : Ref sig .tc := ⟨.hbm, 170, rfl⟩
abbrev main_call2_cst_3 : Ref sig .tc := ⟨.hbm, 171, rfl⟩
abbrev main_call2_v12 : Ref sig .tc := ⟨.hbm, 172, rfl⟩
abbrev main_call2_cst_4 : Ref sig .tc := ⟨.hbm, 173, rfl⟩
abbrev main_call2_call0_v0 : Ref sig .tc := ⟨.hbm, 174, rfl⟩
abbrev main_call2_call0_v1 : Ref sig .tc := ⟨.hbm, 175, rfl⟩
abbrev main_v102 : Ref sig .tc := ⟨.hbm, 176, rfl⟩
abbrev main_v103 : Ref sig .tc := ⟨.hbm, 177, rfl⟩
abbrev main_v104 : Ref sig .tc := ⟨.hbm, 178, rfl⟩
abbrev main_v105 : Ref sig .tc := ⟨.hbm, 179, rfl⟩
abbrev main_v106 : Ref sig .tc := ⟨.hbm, 180, rfl⟩
abbrev main_v107 : Ref sig .tc := ⟨.hbm, 181, rfl⟩
abbrev main_v108 : Ref sig .tc := ⟨.hbm, 182, rfl⟩
abbrev main_v109 : Ref sig .tc := ⟨.hbm, 183, rfl⟩
abbrev main_v110 : Ref sig .tc := ⟨.hbm, 184, rfl⟩
abbrev main_cst_14 : Ref sig .tc := ⟨.hbm, 185, rfl⟩
abbrev main_v111 : Ref sig .tc := ⟨.hbm, 186, rfl⟩
abbrev main_v112 : Ref sig .tc := ⟨.hbm, 187, rfl⟩
abbrev main_v113 : Ref sig .tc := ⟨.hbm, 188, rfl⟩
abbrev main_v114 : Ref sig .tc := ⟨.hbm, 189, rfl⟩
abbrev main_v115 : Ref sig .tc := ⟨.hbm, 190, rfl⟩
abbrev main_v116 : Ref sig .tc := ⟨.hbm, 191, rfl⟩
abbrev main_v117 : Ref sig .tc := ⟨.hbm, 192, rfl⟩
abbrev main_v118 : Ref sig .tc := ⟨.hbm, 193, rfl⟩
abbrev main_v119 : Ref sig .tc := ⟨.hbm, 194, rfl⟩
abbrev main_v120 : Ref sig .tc := ⟨.hbm, 195, rfl⟩
abbrev main_v121 : Ref sig .tc := ⟨.hbm, 196, rfl⟩
abbrev main_call3_cst : Ref sig .tc := ⟨.hbm, 197, rfl⟩
abbrev main_call3_v0 : Ref sig .tc := ⟨.hbm, 198, rfl⟩
abbrev main_v122 : Ref sig .tc := ⟨.hbm, 199, rfl⟩
abbrev main_c_15 : Ref sig .tc := ⟨.hbm, 200, rfl⟩
abbrev main_v123 : Ref sig .tc := ⟨.hbm, 201, rfl⟩
abbrev main_v124 : Ref sig .tc := ⟨.hbm, 202, rfl⟩
abbrev main_c_16 : Ref sig .tc := ⟨.hbm, 203, rfl⟩
abbrev main_v125 : Ref sig .tc := ⟨.hbm, 204, rfl⟩
abbrev main_v126 : Ref sig .tc := ⟨.hbm, 205, rfl⟩
abbrev main_v127 : Ref sig .tc := ⟨.hbm, 206, rfl⟩
abbrev main_v128 : Ref sig .tc := ⟨.hbm, 207, rfl⟩
abbrev main_v129 : Ref sig .tc := ⟨.hbm, 208, rfl⟩
abbrev main_v130 : Ref sig .tc := ⟨.hbm, 209, rfl⟩
abbrev main_v131 : Ref sig .tc := ⟨.hbm, 210, rfl⟩
abbrev main_v132 : Ref sig .tc := ⟨.hbm, 211, rfl⟩
abbrev main_v133 : Ref sig .tc := ⟨.hbm, 212, rfl⟩
abbrev main_cst_17 : Ref sig .tc := ⟨.hbm, 213, rfl⟩
abbrev main_v134 : Ref sig .tc := ⟨.hbm, 214, rfl⟩
abbrev main_v135 : Ref sig .tc := ⟨.hbm, 215, rfl⟩
abbrev main_v136 : Ref sig .tc := ⟨.hbm, 216, rfl⟩
abbrev main_v137 : Ref sig .tc := ⟨.hbm, 217, rfl⟩
abbrev main_v138 : Ref sig .tc := ⟨.hbm, 218, rfl⟩
abbrev main_v139 : Ref sig .tc := ⟨.hbm, 219, rfl⟩
abbrev main_v140 : Ref sig .tc := ⟨.hbm, 220, rfl⟩
abbrev main_v141 : Ref sig .tc := ⟨.hbm, 221, rfl⟩
abbrev main_v142 : Ref sig .tc := ⟨.hbm, 222, rfl⟩
abbrev main_v143 : Ref sig .tc := ⟨.hbm, 223, rfl⟩
abbrev main_v144 : Ref sig .tc := ⟨.hbm, 224, rfl⟩
abbrev main_v145 : Ref sig .tc := ⟨.hbm, 225, rfl⟩
abbrev main_v146 : Ref sig .tc := ⟨.hbm, 226, rfl⟩
abbrev main_v147 : Ref sig .tc := ⟨.hbm, 227, rfl⟩
abbrev main_v148 : Ref sig .tc := ⟨.hbm, 228, rfl⟩
abbrev main_v149 : Ref sig .tc := ⟨.hbm, 229, rfl⟩
abbrev main_v150 : Ref sig .tc := ⟨.hbm, 230, rfl⟩
abbrev main_cst_18 : Ref sig .tc := ⟨.hbm, 231, rfl⟩
abbrev main_v151 : Ref sig .tc := ⟨.hbm, 232, rfl⟩
abbrev main_cst_19 : Ref sig .tc := ⟨.hbm, 233, rfl⟩
abbrev main_v152 : Ref sig .tc := ⟨.hbm, 234, rfl⟩
abbrev main_v153 : Ref sig .tc := ⟨.hbm, 235, rfl⟩
abbrev main_c_20 : Ref sig .tc := ⟨.hbm, 236, rfl⟩
abbrev main_call4_cst : Ref sig .tc := ⟨.hbm, 237, rfl⟩
abbrev main_call4_v0 : Ref sig .tc := ⟨.hbm, 238, rfl⟩
abbrev main_call4_v1 : Ref sig .tc := ⟨.hbm, 239, rfl⟩
abbrev main_call4_cst_0 : Ref sig .tc := ⟨.hbm, 240, rfl⟩
abbrev main_call4_v2 : Ref sig .tc := ⟨.hbm, 241, rfl⟩
abbrev main_call4_v3 : Ref sig .tc := ⟨.hbm, 242, rfl⟩
abbrev main_call4_v4 : Ref sig .tc := ⟨.hbm, 243, rfl⟩
abbrev main_call4_v5 : Ref sig .tc := ⟨.hbm, 244, rfl⟩
abbrev main_call4_v6 : Ref sig .tc := ⟨.hbm, 245, rfl⟩
abbrev main_call4_v7 : Ref sig .tc := ⟨.hbm, 246, rfl⟩
abbrev main_call4_cst_1 : Ref sig .tc := ⟨.hbm, 247, rfl⟩
abbrev main_call4_v8 : Ref sig .tc := ⟨.hbm, 248, rfl⟩
abbrev main_call4_cst_2 : Ref sig .tc := ⟨.hbm, 249, rfl⟩
abbrev main_call4_v9 : Ref sig .tc := ⟨.hbm, 250, rfl⟩
abbrev main_call4_v10 : Ref sig .tc := ⟨.hbm, 251, rfl⟩
abbrev main_call4_v11 : Ref sig .tc := ⟨.hbm, 252, rfl⟩
abbrev main_call4_cst_3 : Ref sig .tc := ⟨.hbm, 253, rfl⟩
abbrev main_call4_v12 : Ref sig .tc := ⟨.hbm, 254, rfl⟩
abbrev main_call4_cst_4 : Ref sig .tc := ⟨.hbm, 255, rfl⟩
abbrev main_call4_call0_v0 : Ref sig .tc := ⟨.hbm, 256, rfl⟩
abbrev main_call4_call0_v1 : Ref sig .tc := ⟨.hbm, 257, rfl⟩
abbrev main_v154 : Ref sig .tc := ⟨.hbm, 258, rfl⟩
abbrev main_v155 : Ref sig .tc := ⟨.hbm, 259, rfl⟩
abbrev main_v156 : Ref sig .tc := ⟨.hbm, 260, rfl⟩
abbrev main_v157 : Ref sig .tc := ⟨.hbm, 261, rfl⟩
abbrev main_v158 : Ref sig .tc := ⟨.hbm, 262, rfl⟩
abbrev main_v159 : Ref sig .tc := ⟨.hbm, 263, rfl⟩
abbrev main_v160 : Ref sig .tc := ⟨.hbm, 264, rfl⟩
abbrev main_v161 : Ref sig .tc := ⟨.hbm, 265, rfl⟩
abbrev main_v162 : Ref sig .tc := ⟨.hbm, 266, rfl⟩
abbrev main_cst_21 : Ref sig .tc := ⟨.hbm, 267, rfl⟩
abbrev main_v163 : Ref sig .tc := ⟨.hbm, 268, rfl⟩
abbrev main_v164 : Ref sig .tc := ⟨.hbm, 269, rfl⟩
abbrev main_v165 : Ref sig .tc := ⟨.hbm, 270, rfl⟩
abbrev main_v166 : Ref sig .tc := ⟨.hbm, 271, rfl⟩
abbrev main_v167 : Ref sig .tc := ⟨.hbm, 272, rfl⟩
abbrev main_v168 : Ref sig .tc := ⟨.hbm, 273, rfl⟩
abbrev main_v169 : Ref sig .tc := ⟨.hbm, 274, rfl⟩
abbrev main_v170 : Ref sig .tc := ⟨.hbm, 275, rfl⟩
abbrev main_v171 : Ref sig .tc := ⟨.hbm, 276, rfl⟩
abbrev main_v172 : Ref sig .tc := ⟨.hbm, 277, rfl⟩
abbrev main_v173 : Ref sig .tc := ⟨.hbm, 278, rfl⟩
abbrev main_call5_cst : Ref sig .tc := ⟨.hbm, 279, rfl⟩
abbrev main_call5_v0 : Ref sig .tc := ⟨.hbm, 280, rfl⟩
abbrev main_v174 : Ref sig .tc := ⟨.hbm, 281, rfl⟩
abbrev main_c_22 : Ref sig .tc := ⟨.hbm, 282, rfl⟩
abbrev main_v175 : Ref sig .tc := ⟨.hbm, 283, rfl⟩
abbrev main_v176 : Ref sig .tc := ⟨.hbm, 284, rfl⟩
abbrev main_c_23 : Ref sig .tc := ⟨.hbm, 285, rfl⟩
abbrev main_v177 : Ref sig .tc := ⟨.hbm, 286, rfl⟩
abbrev main_v178 : Ref sig .tc := ⟨.hbm, 287, rfl⟩
abbrev main_v179 : Ref sig .tc := ⟨.hbm, 288, rfl⟩
abbrev main_v180 : Ref sig .tc := ⟨.hbm, 289, rfl⟩
abbrev main_v181 : Ref sig .tc := ⟨.hbm, 290, rfl⟩
abbrev main_v182 : Ref sig .tc := ⟨.hbm, 291, rfl⟩
abbrev main_v183 : Ref sig .tc := ⟨.hbm, 292, rfl⟩
abbrev main_v184 : Ref sig .tc := ⟨.hbm, 293, rfl⟩
abbrev main_v185 : Ref sig .tc := ⟨.hbm, 294, rfl⟩
abbrev main_cst_24 : Ref sig .tc := ⟨.hbm, 295, rfl⟩
abbrev main_v186 : Ref sig .tc := ⟨.hbm, 296, rfl⟩
abbrev main_v187 : Ref sig .tc := ⟨.hbm, 297, rfl⟩
abbrev main_v188 : Ref sig .tc := ⟨.hbm, 298, rfl⟩
abbrev main_v189 : Ref sig .tc := ⟨.hbm, 299, rfl⟩
abbrev main_v190 : Ref sig .tc := ⟨.hbm, 300, rfl⟩
abbrev main_v191 : Ref sig .tc := ⟨.hbm, 301, rfl⟩
abbrev main_v192 : Ref sig .tc := ⟨.hbm, 302, rfl⟩
abbrev main_v193 : Ref sig .tc := ⟨.hbm, 303, rfl⟩
abbrev main_v194 : Ref sig .tc := ⟨.hbm, 304, rfl⟩
abbrev main_v195 : Ref sig .tc := ⟨.hbm, 305, rfl⟩
abbrev main_v196 : Ref sig .tc := ⟨.hbm, 306, rfl⟩
abbrev main_v197 : Ref sig .tc := ⟨.hbm, 307, rfl⟩
abbrev main_v198 : Ref sig .tc := ⟨.hbm, 308, rfl⟩
abbrev main_v199 : Ref sig .tc := ⟨.hbm, 309, rfl⟩
abbrev main_v200 : Ref sig .tc := ⟨.hbm, 310, rfl⟩
abbrev main_v201 : Ref sig .tc := ⟨.hbm, 311, rfl⟩
abbrev main_v202 : Ref sig .tc := ⟨.hbm, 312, rfl⟩
abbrev main_cst_25 : Ref sig .tc := ⟨.hbm, 313, rfl⟩
abbrev main_v203 : Ref sig .tc := ⟨.hbm, 314, rfl⟩
abbrev main_cst_26 : Ref sig .tc := ⟨.hbm, 315, rfl⟩
abbrev main_v204 : Ref sig .tc := ⟨.hbm, 316, rfl⟩
abbrev main_v205 : Ref sig .tc := ⟨.hbm, 317, rfl⟩
abbrev main_c_27 : Ref sig .tc := ⟨.hbm, 318, rfl⟩
abbrev main_call6_cst : Ref sig .tc := ⟨.hbm, 319, rfl⟩
abbrev main_call6_v0 : Ref sig .tc := ⟨.hbm, 320, rfl⟩
abbrev main_call6_v1 : Ref sig .tc := ⟨.hbm, 321, rfl⟩
abbrev main_call6_cst_0 : Ref sig .tc := ⟨.hbm, 322, rfl⟩
abbrev main_call6_v2 : Ref sig .tc := ⟨.hbm, 323, rfl⟩
abbrev main_call6_v3 : Ref sig .tc := ⟨.hbm, 324, rfl⟩
abbrev main_call6_v4 : Ref sig .tc := ⟨.hbm, 325, rfl⟩
abbrev main_call6_v5 : Ref sig .tc := ⟨.hbm, 326, rfl⟩
abbrev main_call6_v6 : Ref sig .tc := ⟨.hbm, 327, rfl⟩
abbrev main_call6_v7 : Ref sig .tc := ⟨.hbm, 328, rfl⟩
abbrev main_call6_cst_1 : Ref sig .tc := ⟨.hbm, 329, rfl⟩
abbrev main_call6_v8 : Ref sig .tc := ⟨.hbm, 330, rfl⟩
abbrev main_call6_cst_2 : Ref sig .tc := ⟨.hbm, 331, rfl⟩
abbrev main_call6_v9 : Ref sig .tc := ⟨.hbm, 332, rfl⟩
abbrev main_call6_v10 : Ref sig .tc := ⟨.hbm, 333, rfl⟩
abbrev main_call6_v11 : Ref sig .tc := ⟨.hbm, 334, rfl⟩
abbrev main_call6_cst_3 : Ref sig .tc := ⟨.hbm, 335, rfl⟩
abbrev main_call6_v12 : Ref sig .tc := ⟨.hbm, 336, rfl⟩
abbrev main_call6_cst_4 : Ref sig .tc := ⟨.hbm, 337, rfl⟩
abbrev main_call6_call0_v0 : Ref sig .tc := ⟨.hbm, 338, rfl⟩
abbrev main_call6_call0_v1 : Ref sig .tc := ⟨.hbm, 339, rfl⟩
abbrev main_v206 : Ref sig .tc := ⟨.hbm, 340, rfl⟩
abbrev main_v207 : Ref sig .tc := ⟨.hbm, 341, rfl⟩
abbrev main_v208 : Ref sig .tc := ⟨.hbm, 342, rfl⟩
abbrev main_v209 : Ref sig .tc := ⟨.hbm, 343, rfl⟩
abbrev main_v210 : Ref sig .tc := ⟨.hbm, 344, rfl⟩
abbrev main_v211 : Ref sig .tc := ⟨.hbm, 345, rfl⟩
abbrev main_v212 : Ref sig .tc := ⟨.hbm, 346, rfl⟩
abbrev main_v213 : Ref sig .tc := ⟨.hbm, 347, rfl⟩
abbrev main_v214 : Ref sig .tc := ⟨.hbm, 348, rfl⟩
abbrev main_cst_28 : Ref sig .tc := ⟨.hbm, 349, rfl⟩
abbrev main_v215 : Ref sig .tc := ⟨.hbm, 350, rfl⟩
abbrev main_v216 : Ref sig .tc := ⟨.hbm, 351, rfl⟩
abbrev main_v217 : Ref sig .tc := ⟨.hbm, 352, rfl⟩
abbrev main_v218 : Ref sig .tc := ⟨.hbm, 353, rfl⟩
abbrev main_v219 : Ref sig .tc := ⟨.hbm, 354, rfl⟩
abbrev main_v220 : Ref sig .tc := ⟨.hbm, 355, rfl⟩
abbrev main_v221 : Ref sig .tc := ⟨.hbm, 356, rfl⟩
abbrev main_v222 : Ref sig .tc := ⟨.hbm, 357, rfl⟩
abbrev main_v223 : Ref sig .tc := ⟨.hbm, 358, rfl⟩
abbrev main_v224 : Ref sig .tc := ⟨.hbm, 359, rfl⟩
abbrev main_v225 : Ref sig .tc := ⟨.hbm, 360, rfl⟩
abbrev main_call7_cst : Ref sig .tc := ⟨.hbm, 361, rfl⟩
abbrev main_call7_v0 : Ref sig .tc := ⟨.hbm, 362, rfl⟩
abbrev main_v226 : Ref sig .tc := ⟨.hbm, 363, rfl⟩
abbrev main_c_29 : Ref sig .tc := ⟨.hbm, 364, rfl⟩
abbrev main_v227 : Ref sig .tc := ⟨.hbm, 365, rfl⟩
abbrev main_v228 : Ref sig .tc := ⟨.hbm, 366, rfl⟩
abbrev main_c_30 : Ref sig .tc := ⟨.hbm, 367, rfl⟩
abbrev main_v229 : Ref sig .tc := ⟨.hbm, 368, rfl⟩
abbrev main_v230 : Ref sig .tc := ⟨.hbm, 369, rfl⟩
abbrev main_v231 : Ref sig .tc := ⟨.hbm, 370, rfl⟩
abbrev main_v232 : Ref sig .tc := ⟨.hbm, 371, rfl⟩
abbrev main_v233 : Ref sig .tc := ⟨.hbm, 372, rfl⟩
abbrev main_v234 : Ref sig .tc := ⟨.hbm, 373, rfl⟩
abbrev main_v235 : Ref sig .tc := ⟨.hbm, 374, rfl⟩
abbrev main_v236 : Ref sig .tc := ⟨.hbm, 375, rfl⟩
abbrev main_v237 : Ref sig .tc := ⟨.hbm, 376, rfl⟩
abbrev main_cst_31 : Ref sig .tc := ⟨.hbm, 377, rfl⟩
abbrev main_v238 : Ref sig .tc := ⟨.hbm, 378, rfl⟩
abbrev main_v239 : Ref sig .tc := ⟨.hbm, 379, rfl⟩
abbrev main_v240 : Ref sig .tc := ⟨.hbm, 380, rfl⟩
abbrev main_v241 : Ref sig .tc := ⟨.hbm, 381, rfl⟩
abbrev main_v242 : Ref sig .tc := ⟨.hbm, 382, rfl⟩
abbrev main_v243 : Ref sig .tc := ⟨.hbm, 383, rfl⟩
abbrev main_v244 : Ref sig .tc := ⟨.hbm, 384, rfl⟩
abbrev main_v245 : Ref sig .tc := ⟨.hbm, 385, rfl⟩
abbrev main_v246 : Ref sig .tc := ⟨.hbm, 386, rfl⟩
abbrev main_v247 : Ref sig .tc := ⟨.hbm, 387, rfl⟩
abbrev main_v248 : Ref sig .tc := ⟨.hbm, 388, rfl⟩
abbrev main_v249 : Ref sig .tc := ⟨.hbm, 389, rfl⟩
abbrev main_v250 : Ref sig .tc := ⟨.hbm, 390, rfl⟩
abbrev main_v251 : Ref sig .tc := ⟨.hbm, 391, rfl⟩
abbrev main_v252 : Ref sig .tc := ⟨.hbm, 392, rfl⟩
abbrev main_v253 : Ref sig .tc := ⟨.hbm, 393, rfl⟩
abbrev main_v254 : Ref sig .tc := ⟨.hbm, 394, rfl⟩
abbrev main_cst_32 : Ref sig .tc := ⟨.hbm, 395, rfl⟩
abbrev main_v255 : Ref sig .tc := ⟨.hbm, 396, rfl⟩
abbrev main_cst_33 : Ref sig .tc := ⟨.hbm, 397, rfl⟩
abbrev main_v256 : Ref sig .tc := ⟨.hbm, 398, rfl⟩
abbrev main_v257 : Ref sig .tc := ⟨.hbm, 399, rfl⟩
abbrev main_c_34 : Ref sig .tc := ⟨.hbm, 400, rfl⟩
abbrev main_call8_cst : Ref sig .tc := ⟨.hbm, 401, rfl⟩
abbrev main_call8_v0 : Ref sig .tc := ⟨.hbm, 402, rfl⟩
abbrev main_call8_v1 : Ref sig .tc := ⟨.hbm, 403, rfl⟩
abbrev main_call8_cst_0 : Ref sig .tc := ⟨.hbm, 404, rfl⟩
abbrev main_call8_v2 : Ref sig .tc := ⟨.hbm, 405, rfl⟩
abbrev main_call8_v3 : Ref sig .tc := ⟨.hbm, 406, rfl⟩
abbrev main_call8_v4 : Ref sig .tc := ⟨.hbm, 407, rfl⟩
abbrev main_call8_v5 : Ref sig .tc := ⟨.hbm, 408, rfl⟩
abbrev main_call8_v6 : Ref sig .tc := ⟨.hbm, 409, rfl⟩
abbrev main_call8_v7 : Ref sig .tc := ⟨.hbm, 410, rfl⟩
abbrev main_call8_cst_1 : Ref sig .tc := ⟨.hbm, 411, rfl⟩
abbrev main_call8_v8 : Ref sig .tc := ⟨.hbm, 412, rfl⟩
abbrev main_call8_cst_2 : Ref sig .tc := ⟨.hbm, 413, rfl⟩
abbrev main_call8_v9 : Ref sig .tc := ⟨.hbm, 414, rfl⟩
abbrev main_call8_v10 : Ref sig .tc := ⟨.hbm, 415, rfl⟩
abbrev main_call8_v11 : Ref sig .tc := ⟨.hbm, 416, rfl⟩
abbrev main_call8_cst_3 : Ref sig .tc := ⟨.hbm, 417, rfl⟩
abbrev main_call8_v12 : Ref sig .tc := ⟨.hbm, 418, rfl⟩
abbrev main_call8_cst_4 : Ref sig .tc := ⟨.hbm, 419, rfl⟩
abbrev main_call8_call0_v0 : Ref sig .tc := ⟨.hbm, 420, rfl⟩
abbrev main_call8_call0_v1 : Ref sig .tc := ⟨.hbm, 421, rfl⟩
abbrev main_v258 : Ref sig .tc := ⟨.hbm, 422, rfl⟩
abbrev main_v259 : Ref sig .tc := ⟨.hbm, 423, rfl⟩
abbrev main_v260 : Ref sig .tc := ⟨.hbm, 424, rfl⟩
abbrev main_v261 : Ref sig .tc := ⟨.hbm, 425, rfl⟩
abbrev main_v262 : Ref sig .tc := ⟨.hbm, 426, rfl⟩
abbrev main_v263 : Ref sig .tc := ⟨.hbm, 427, rfl⟩
abbrev main_v264 : Ref sig .tc := ⟨.hbm, 428, rfl⟩
abbrev main_v265 : Ref sig .tc := ⟨.hbm, 429, rfl⟩
abbrev main_v266 : Ref sig .tc := ⟨.hbm, 430, rfl⟩
abbrev main_cst_35 : Ref sig .tc := ⟨.hbm, 431, rfl⟩
abbrev main_v267 : Ref sig .tc := ⟨.hbm, 432, rfl⟩
abbrev main_v268 : Ref sig .tc := ⟨.hbm, 433, rfl⟩
abbrev main_v269 : Ref sig .tc := ⟨.hbm, 434, rfl⟩
abbrev main_v270 : Ref sig .tc := ⟨.hbm, 435, rfl⟩
abbrev main_v271 : Ref sig .tc := ⟨.hbm, 436, rfl⟩
abbrev main_v272 : Ref sig .tc := ⟨.hbm, 437, rfl⟩
abbrev main_v273 : Ref sig .tc := ⟨.hbm, 438, rfl⟩
abbrev main_v274 : Ref sig .tc := ⟨.hbm, 439, rfl⟩
abbrev main_v275 : Ref sig .tc := ⟨.hbm, 440, rfl⟩
abbrev main_v276 : Ref sig .tc := ⟨.hbm, 441, rfl⟩
abbrev main_v277 : Ref sig .tc := ⟨.hbm, 442, rfl⟩
abbrev main_cst_36 : Ref sig .tc := ⟨.hbm, 443, rfl⟩
abbrev main_v278 : Ref sig .tc := ⟨.hbm, 444, rfl⟩
abbrev main_v279 : Ref sig .tc := ⟨.hbm, 445, rfl⟩
abbrev main_v280 : Ref sig .tc := ⟨.hbm, 446, rfl⟩
abbrev main_cst_37 : Ref sig .tc := ⟨.hbm, 447, rfl⟩
abbrev main_v281 : Ref sig .tc := ⟨.hbm, 448, rfl⟩
abbrev main_v282 : Ref sig .tc := ⟨.hbm, 449, rfl⟩
abbrev main_v283 : Ref sig .tc := ⟨.hbm, 450, rfl⟩
abbrev main_cst_38 : Ref sig .tc := ⟨.hbm, 451, rfl⟩
abbrev main_v284 : Ref sig .tc := ⟨.hbm, 452, rfl⟩
abbrev main_v285 : Ref sig .tc := ⟨.hbm, 453, rfl⟩
abbrev main_v286 : Ref sig .tc := ⟨.hbm, 454, rfl⟩
abbrev main_cst_39 : Ref sig .tc := ⟨.hbm, 455, rfl⟩
abbrev main_v287 : Ref sig .tc := ⟨.hbm, 456, rfl⟩
abbrev main_v288 : Ref sig .tc := ⟨.hbm, 457, rfl⟩
abbrev main_v289 : Ref sig .tc := ⟨.hbm, 458, rfl⟩
abbrev main_cst_40 : Ref sig .tc := ⟨.hbm, 459, rfl⟩
abbrev main_v290 : Ref sig .tc := ⟨.hbm, 460, rfl⟩
abbrev main_v291 : Ref sig .tc := ⟨.hbm, 461, rfl⟩
abbrev main_v292 : Ref sig .tc := ⟨.hbm, 462, rfl⟩
abbrev main_v293 : Ref sig .tc := ⟨.hbm, 463, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1x128_S600000x128_0_1 : S1x128.BroadcastsInDim S600000x128 (![0, 1] : Fin 2 → Fin S600000x128.rank)
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  slices_S5x128x128_S1x128x128_0_0_0 : S5x128x128.Slices ![0, 0, 0] S1x128x128
  shapeCasts_S1x128x128_S128x128 : S1x128x128.ShapeCasts S128x128
  slices_S5x128_S1x128_0_0 : S5x128.Slices ![0, 0] S1x128
  shapeCasts_S1x128_S128 : S1x128.ShapeCasts S128
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S5x128x128_S1x128x128_1_0_0 : S5x128x128.Slices ![1, 0, 0] S1x128x128
  slices_S5x128_S1x128_1_0 : S5x128.Slices ![1, 0] S1x128
  slices_S5x128x128_S1x128x128_2_0_0 : S5x128x128.Slices ![2, 0, 0] S1x128x128
  slices_S5x128_S1x128_2_0 : S5x128.Slices ![2, 0] S1x128
  slices_S5x128x128_S1x128x128_3_0_0 : S5x128x128.Slices ![3, 0, 0] S1x128x128
  slices_S5x128_S1x128_3_0 : S5x128.Slices ![3, 0] S1x128
  slices_S5x128x128_S1x128x128_4_0_0 : S5x128x128.Slices ![4, 0, 0] S1x128x128
  slices_S5x128_S1x128_4_0 : S5x128.Slices ![4, 0] S1x128
  bcast_S_S128x128 : S_.BroadcastsInDim S128x128 (![] : Fin 0 → Fin S128x128.rank)
  concatenates_S128x128_S128x128_S128x128_S128x128_S128x128_S128x640_d1 : Shape.Concatenates [S128x128, S128x128, S128x128, S128x128, S128x128] S128x640 1
  dot_S50000x48_S48x128_S50000x128_1_0_0_1_n_n_wf : DotDims.WF S50000x48 S48x128 S50000x128 [1] [0] [0] [1] [] []
  dot_S600000x11_S11x128_S600000x128_1_0_0_1_n_n_wf : DotDims.WF S600000x11 S11x128 S600000x128 [1] [0] [0] [1] [] []
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []
  scatter_S128x128_S50000x1_S50000x128_1_0_0_1_wf : ScatterDims.WF S128x128 S50000x1 S50000x128 [1] [0] [0] 1

variable [Facts₀]

def dot_S50000x48_S48x128_S50000x128_1_0_0_1_n_n : DotDims S50000x48 S48x128 S50000x128 where
  lhsContracting := [1]
  rhsContracting := [0]
  lhsNonContracting := [0]
  rhsNonContracting := [1]
  lhsBatch := []
  rhsBatch := []
  wf := dot_S50000x48_S48x128_S50000x128_1_0_0_1_n_n_wf
def dot_S600000x11_S11x128_S600000x128_1_0_0_1_n_n : DotDims S600000x11 S11x128 S600000x128 where
  lhsContracting := [1]
  rhsContracting := [0]
  lhsNonContracting := [0]
  rhsNonContracting := [1]
  lhsBatch := []
  rhsBatch := []
  wf := dot_S600000x11_S11x128_S600000x128_1_0_0_1_n_n_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf

class Facts : Prop extends Facts₀ where

variable [Facts]
-- ==== Proof.RefOps.lean ====
/- The reference program's @main as lists of host operations, one list per window of its text, in the text's order: each
   operation reads the buffers named before its function and writes the one named last; an outlined function's operations
   stand at its call, over that call's own buffers. The lists are @main (main_eq), every operation stays inside the
   device's references, and the buffers each window writes are listed, so a buffer outside a list is unchanged by it. -/
import proofs.«144276_j65051574665788_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window 0 of @main's text (81 of them, from operation 1 on). -/
abbrev ops_part0 : List (HloOp τ sig (Elt F)) :=
  [ unary main_arg2 main_v0 ((extractStridedSlice S1x600000 ![0, 0] · slices_S2x600000_S1x600000_0_0) : (⟨S2x600000, .i32⟩ : BufTy).Contents (Elt F) → (⟨S1x600000, .i32⟩ : BufTy).Contents (Elt F)),
    reshape main_v0 main_v1 rfl shapeCasts_S1x600000_S600000,
    unary main_arg2 main_v2 ((extractStridedSlice S1x600000 ![1, 0] · slices_S2x600000_S1x600000_1_0) : (⟨S2x600000, .i32⟩ : BufTy).Contents (Elt F) → (⟨S1x600000, .i32⟩ : BufTy).Contents (Elt F)),
    reshape main_v2 main_v3 rfl shapeCasts_S1x600000_S600000,
    binary main_arg1 main_arg5 main_v4 ((fun l r => Host.dotGeneral dot_S50000x48_S48x128_S50000x128_1_0_0_1_n_n none l r) : (⟨S50000x48, .f32⟩ : BufTy).Contents (Elt F) → (⟨S48x128, .f32⟩ : BufTy).Contents (Elt F) → (⟨S50000x128, .f32⟩ : BufTy).Contents (Elt F)),
    unary main_arg6 main_v5 (broadcastInDim S1x128 ![1] bcast_S128_S1x128_1 : (⟨S128, .f32⟩ : BufTy).Contents (Elt F) → (⟨S1x128, .f32⟩ : BufTy).Contents (Elt F)),
    unary main_v5 main_v6 (broadcastInDim S50000x128 ![0, 1] bcast_S1x128_S50000x128_0_1 : (⟨S1x128, .f32⟩ : BufTy).Contents (Elt F) → (⟨S50000x128, .f32⟩ : BufTy).Contents (Elt F)),
    binary main_v4 main_v6 main_v7 (addf : (⟨S50000x128, .f32⟩ : BufTy).Contents (Elt F) → (⟨S50000x128, .f32⟩ : BufTy).Contents (Elt F) → (⟨S50000x128, .f32⟩ : BufTy).Contents (Elt F)),
    binary main_arg3 main_arg7 main_v8 ((fun l r => Host.dotGeneral dot_S600000x11_S11x128_S600000x128_1_0_0_1_n_n none l r) : (⟨S600000x11, .f32⟩ : BufTy).Contents (Elt F) → (⟨S11x128, .f32⟩ : BufTy).Contents (Elt F) → (⟨S600000x128, .f32⟩ : BufTy).Contents (Elt F)),
    unary main_arg8 main_v9 (broadcastInDim S1x128 ![1] bcast_S128_S1x128_1 : (⟨S128, .f32⟩ : BufTy).Contents (Elt F) → (⟨S1x128, .f32⟩ : BufTy).Contents (Elt F)),
    unary main_v9 main_v10 (broadcastInDim S600000x128 ![0, 1] bcast_S1x128_S600000x128_0_1 : (⟨S1x128, .f32⟩ : BufTy).Contents (Elt F) → (⟨S600000x128, .f32⟩ : BufTy).Contents (Elt F)),
    binary main_v8 main_v10 main_v11 (addf : (⟨S600000x128, .f32⟩ : BufTy).Contents (Elt F) → (⟨S600000x128, .f32⟩ : BufTy).Contents (Elt F) → (⟨S600000x128, .f32⟩ : BufTy).Contents (Elt F)),
    nullary main_cst (constant S_ .f32 0x3F800000#32),
    unary main_cst main_v12 (broadcastInDim S600000 ![] bcast_S_S600000 : (⟨S_, .f32⟩ : BufTy).Contents (Elt F) → (⟨S600000, .f32⟩ : BufTy).Contents (Elt F)),
    nullary main_cst_0 (constant S_ .f32 0x00000000#32),
    unary main_cst_0 main_v13 (broadcastInDim S50000 ![] bcast_S_S50000 : (⟨S_, .f32⟩ : BufTy).Contents (Elt F) → (⟨S50000, .f32⟩ : BufTy).Contents (Elt F)),
    unary main_v3 main_v14 (broadcastInDim S600000x1 ![0] bcast_S600000_S600000x1_0 : (⟨S600000, .i32⟩ : BufTy).Contents (Elt F) → (⟨S600000x1, .i32⟩ : BufTy).Contents (Elt F)),
    ternary main_v13 main_v14 main_v12 main_v15 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    nullary main_cst_1 (constant S_ .f32 0x3F800000#32),
    unary main_cst_1 main_v16 (broadcastInDim S50000 ![] bcast_S_S50000 : (⟨S_, .f32⟩ : BufTy).Contents (Elt F) → (⟨S50000, .f32⟩ : BufTy).Contents (Elt F)),
    binary main_v15 main_v16 main_v17 (maximumf : (⟨S50000, .f32⟩ : BufTy).Contents (Elt F) → (⟨S50000, .f32⟩ : BufTy).Contents (Elt F) → (⟨S50000, .f32⟩ : BufTy).Contents (Elt F)),
    unary main_v17 main_v18 (broadcastInDim S50000x1 ![0] bcast_S50000_S50000x1_0 : (⟨S50000, .f32⟩ : BufTy).Contents (Elt F) → (⟨S50000x1, .f32⟩ : BufTy).Contents (Elt F)),
    nullary main_c (constantI S_ 32 0#32),
    unary main_c main_v19 (broadcastInDim S600000 ![] bcast_S_S600000 : (⟨S_, .i32⟩ : BufTy).Contents (Elt F) → (⟨S600000, .i32⟩ : BufTy).Contents (Elt F)),
    binary main_v1 main_v19 main_v20 (cmpi .slt : (⟨S600000, .i32⟩ : BufTy).Contents (Elt F) → (⟨S600000, .i32⟩ : BufTy).Contents (Elt F) → (⟨S600000, .i1⟩ : BufTy).Contents (Elt F)),
    nullary main_c_2 (constantI S_ 32 50000#32),
    unary main_c_2 main_v21 (broadcastInDim S600000 ![] bcast_S_S600000 : (⟨S_, .i32⟩ : BufTy).Contents (Elt F) → (⟨S600000, .i32⟩ : BufTy).Contents (Elt F)),
    binary main_v1 main_v21 main_v22 (addi : (⟨S600000, .i32⟩ : BufTy).Contents (Elt F) → (⟨S600000, .i32⟩ : BufTy).Contents (Elt F) → (⟨S600000, .i32⟩ : BufTy).Contents (Elt F)),
    ternary main_v20 main_v22 main_v1 main_v23 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v23 main_v24 (broadcastInDim S600000x1 ![0] bcast_S600000_S600000x1_0 : (⟨S600000, .i32⟩ : BufTy).Contents (Elt F) → (⟨S600000x1, .i32⟩ : BufTy).Contents (Elt F)),
    binary main_v7 main_v24 main_v25 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    binary main_v25 main_v11 main_v26 (addf : (⟨S600000x128, .f32⟩ : BufTy).Contents (Elt F) → (⟨S600000x128, .f32⟩ : BufTy).Contents (Elt F) → (⟨S600000x128, .f32⟩ : BufTy).Contents (Elt F)),
    unary main_arg4 main_v27 (broadcastInDim S600000x1 ![0] bcast_S600000_S600000x1_0 : (⟨S600000, .f32⟩ : BufTy).Contents (Elt F) → (⟨S600000x1, .f32⟩ : BufTy).Contents (Elt F)),
    unary main_v27 main_v28 (broadcastInDim S600000x128 ![0, 1] bcast_S600000x1_S600000x128_0_1 : (⟨S600000x1, .f32⟩ : BufTy).Contents (Elt F) → (⟨S600000x128, .f32⟩ : BufTy).Contents (Elt F)),
    binary main_v26 main_v28 main_v29 (mulf : (⟨S600000x128, .f32⟩ : BufTy).Contents (Elt F) → (⟨S600000x128, .f32⟩ : BufTy).Contents (Elt F) → (⟨S600000x128, .f32⟩ : BufTy).Contents (Elt F)),
    nullary main_cst_3 (constant S_ .f32 0x00000000#32),
    unary main_cst_3 main_v30 (broadcastInDim S50000x128 ![] bcast_S_S50000x128 : (⟨S_, .f32⟩ : BufTy).Contents (Elt F) → (⟨S50000x128, .f32⟩ : BufTy).Contents (Elt F)),
    unary main_v3 main_v31 (broadcastInDim S600000x1 ![0] bcast_S600000_S600000x1_0 : (⟨S600000, .i32⟩ : BufTy).Contents (Elt F) → (⟨S600000x1, .i32⟩ : BufTy).Contents (Elt F)),
    ternary main_v30 main_v31 main_v29 main_v32 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    unary main_v18 main_v33 (broadcastInDim S50000x128 ![0, 1] bcast_S50000x1_S50000x128_0_1 : (⟨S50000x1, .f32⟩ : BufTy).Contents (Elt F) → (⟨S50000x128, .f32⟩ : BufTy).Contents (Elt F)),
    binary main_v32 main_v33 main_v34 (Host.divf : (⟨S50000x128, .f32⟩ : BufTy).Contents (Elt F) → (⟨S50000x128, .f32⟩ : BufTy).Contents (Elt F) → (⟨S50000x128, .f32⟩ : BufTy).Contents (Elt F)),
    unary main_arg9 main_v35 ((extractStridedSlice S1x128x128 ![0, 0, 0] · slices_S5x128x128_S1x128x128_0_0_0) : (⟨S5x128x128, .f32⟩ : BufTy).Contents (Elt F) → (⟨S1x128x128, .f32⟩ : BufTy).Contents (Elt F)),
    reshape main_v35 main_v36 rfl shapeCasts_S1x128x128_S128x128,
    binary main_v34 main_v36 main_v37 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg10 main_v38 ((extractStridedSlice S1x128 ![0, 0] · slices_S5x128_S1x128_0_0) : (⟨S5x128, .f32⟩ : BufTy).Contents (Elt F) → (⟨S1x128, .f32⟩ : BufTy).Contents (Elt F)),
    reshape main_v38 main_v39 rfl shapeCasts_S1x128_S128,
    unary main_v39 main_v40 (broadcastInDim S1x128 ![1] bcast_S128_S1x128_1 : (⟨S128, .f32⟩ : BufTy).Contents (Elt F) → (⟨S1x128, .f32⟩ : BufTy).Contents (Elt F)),
    unary main_v40 main_v41 (broadcastInDim S50000x128 ![0, 1] bcast_S1x128_S50000x128_0_1 : (⟨S1x128, .f32⟩ : BufTy).Contents (Elt F) → (⟨S50000x128, .f32⟩ : BufTy).Contents (Elt F)),
    binary main_v37 main_v41 main_v42 (addf : (⟨S50000x128, .f32⟩ : BufTy).Contents (Elt F) → (⟨S50000x128, .f32⟩ : BufTy).Contents (Elt F) → (⟨S50000x128, .f32⟩ : BufTy).Contents (Elt F)),
    unary main_arg11 main_v43 ((extractStridedSlice S1x128x128 ![0, 0, 0] · slices_S5x128x128_S1x128x128_0_0_0) : (⟨S5x128x128, .f32⟩ : BufTy).Contents (Elt F) → (⟨S1x128x128, .f32⟩ : BufTy).Contents (Elt F)),
    reshape main_v43 main_v44 rfl shapeCasts_S1x128x128_S128x128,
    binary main_v7 main_v44 main_v45 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v42 main_v45 main_v46 (addf : (⟨S50000x128, .f32⟩ : BufTy).Contents (Elt F) → (⟨S50000x128, .f32⟩ : BufTy).Contents (Elt F) → (⟨S50000x128, .f32⟩ : BufTy).Contents (Elt F)),
    nullary main_cst_4 (constant S_ .f32 0x00000000#32),
    binary main_v46 main_cst_4 main_v47 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_5 (constant S_ .f32 0x47435000#32),
    unary main_cst_5 main_v48 (broadcastInDim S128 ![] bcast_S_S128 : (⟨S_, .f32⟩ : BufTy).Contents (Elt F) → (⟨S128, .f32⟩ : BufTy).Contents (Elt F)),
    binary main_v47 main_v48 main_v49 (Host.divf : (⟨S128, .f32⟩ : BufTy).Contents (Elt F) → (⟨S128, .f32⟩ : BufTy).Contents (Elt F) → (⟨S128, .f32⟩ : BufTy).Contents (Elt F)),
    nullary main_c_6 (constantI S_ 32 0#32),
    TRef.nullary main_call0.cst (constant S_ .f32 0x00000000#32),
    TRef.binary (.of main_v46) main_call0.cst main_call0.v0 (fun x v => Host.reduceAdd x v reducesTo_S50000x128_S128_d0 h_S_),
    TRef.unary main_call0.v0 main_call0.v1 (broadcastInDim S1x128 ![1] bcast_S128_S1x128_1),
    TRef.nullary main_call0.cst_0 (constant S_ .f32 0x47435000#32),
    TRef.unary main_call0.cst_0 main_call0.v2 (broadcastInDim S1x128 ![] bcast_S_S1x128),
    TRef.binary main_call0.v1 main_call0.v2 main_call0.v3 Host.divf,
    TRef.unary main_call0.v3 main_call0.v4 (broadcastInDim S50000x128 ![0, 1] bcast_S1x128_S50000x128_0_1),
    TRef.binary (.of main_v46) main_call0.v4 main_call0.v5 subf,
    TRef.binary main_call0.v5 main_call0.v5 main_call0.v6 mulf,
    TRef.unary (.of main_c_6) main_call0.v7 (sitofp .f32),
    TRef.nullary main_call0.cst_1 (constant S_ .f32 0x47435000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S50000x128_S128_d0 h_S_),
    TRef.unary main_call0.v8 main_call0.v10 (broadcastInDim S128 ![] bcast_S_S128),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S128 ![] bcast_S_S128),
    TRef.ternary main_call0.v12 main_call0.v11 main_call0.call0.v1 main_call0.call0.v2 (fun p a b => select (broadcastInDim S128 ![] bcast_S_S128 p) a b) ]

/-- The operations of window 1 of @main's text (83 of them, from operation 82 on). -/
abbrev ops_part1 : List (HloOp τ sig (Elt F)) :=
  [ unary main_arg12 main_v51 ((extractStridedSlice S1x128 ![0, 0] · slices_S5x128_S1x128_0_0) : (⟨S5x128, .f32⟩ : BufTy).Contents (Elt F) → (⟨S1x128, .f32⟩ : BufTy).Contents (Elt F)),
    reshape main_v51 main_v52 rfl shapeCasts_S1x128_S128,
    unary main_v49 main_v53 (broadcastInDim S1x128 ![1] bcast_S128_S1x128_1 : (⟨S128, .f32⟩ : BufTy).Contents (Elt F) → (⟨S1x128, .f32⟩ : BufTy).Contents (Elt F)),
    unary main_v53 main_v54 (broadcastInDim S50000x128 ![0, 1] bcast_S1x128_S50000x128_0_1 : (⟨S1x128, .f32⟩ : BufTy).Contents (Elt F) → (⟨S50000x128, .f32⟩ : BufTy).Contents (Elt F)),
    binary main_v46 main_v54 main_v55 (subf : (⟨S50000x128, .f32⟩ : BufTy).Contents (Elt F) → (⟨S50000x128, .f32⟩ : BufTy).Contents (Elt F) → (⟨S50000x128, .f32⟩ : BufTy).Contents (Elt F)),
    unary main_v52 main_v56 (broadcastInDim S1x128 ![1] bcast_S128_S1x128_1 : (⟨S128, .f32⟩ : BufTy).Contents (Elt F) → (⟨S1x128, .f32⟩ : BufTy).Contents (Elt F)),
    unary main_v56 main_v57 (broadcastInDim S50000x128 ![0, 1] bcast_S1x128_S50000x128_0_1 : (⟨S1x128, .f32⟩ : BufTy).Contents (Elt F) → (⟨S50000x128, .f32⟩ : BufTy).Contents (Elt F)),
    binary main_v57 main_v55 main_v58 (mulf : (⟨S50000x128, .f32⟩ : BufTy).Contents (Elt F) → (⟨S50000x128, .f32⟩ : BufTy).Contents (Elt F) → (⟨S50000x128, .f32⟩ : BufTy).Contents (Elt F)),
    nullary main_cst_7 (constant S_ .f32 0x3727C5AC#32),
    unary main_cst_7 main_v59 (broadcastInDim S128 ![] bcast_S_S128 : (⟨S_, .f32⟩ : BufTy).Contents (Elt F) → (⟨S128, .f32⟩ : BufTy).Contents (Elt F)),
    binary main_v50 main_v59 main_v60 (addf : (⟨S128, .f32⟩ : BufTy).Contents (Elt F) → (⟨S128, .f32⟩ : BufTy).Contents (Elt F) → (⟨S128, .f32⟩ : BufTy).Contents (Elt F)),
    unary main_v60 main_v61 (Host.rsqrt : (⟨S128, .f32⟩ : BufTy).Contents (Elt F) → (⟨S128, .f32⟩ : BufTy).Contents (Elt F)),
    unary main_v61 main_v62 (broadcastInDim S1x128 ![1] bcast_S128_S1x128_1 : (⟨S128, .f32⟩ : BufTy).Contents (Elt F) → (⟨S1x128, .f32⟩ : BufTy).Contents (Elt F)),
    unary main_v62 main_v63 (broadcastInDim S50000x128 ![0, 1] bcast_S1x128_S50000x128_0_1 : (⟨S1x128, .f32⟩ : BufTy).Contents (Elt F) → (⟨S50000x128, .f32⟩ : BufTy).Contents (Elt F)),
    binary main_v58 main_v63 main_v64 (mulf : (⟨S50000x128, .f32⟩ : BufTy).Contents (Elt F) → (⟨S50000x128, .f32⟩ : BufTy).Contents (Elt F) → (⟨S50000x128, .f32⟩ : BufTy).Contents (Elt F)),
    unary main_arg13 main_v65 ((extractStridedSlice S1x128 ![0, 0] · slices_S5x128_S1x128_0_0) : (⟨S5x128, .f32⟩ : BufTy).Contents (Elt F) → (⟨S1x128, .f32⟩ : BufTy).Contents (Elt F)),
    reshape main_v65 main_v66 rfl shapeCasts_S1x128_S128,
    unary main_v66 main_v67 (broadcastInDim S1x128 ![1] bcast_S128_S1x128_1 : (⟨S128, .f32⟩ : BufTy).Contents (Elt F) → (⟨S1x128, .f32⟩ : BufTy).Contents (Elt F)),
    unary main_v67 main_v68 (broadcastInDim S50000x128 ![0, 1] bcast_S1x128_S50000x128_0_1 : (⟨S1x128, .f32⟩ : BufTy).Contents (Elt F) → (⟨S50000x128, .f32⟩ : BufTy).Contents (Elt F)),
    binary main_v64 main_v68 main_v69 (addf : (⟨S50000x128, .f32⟩ : BufTy).Contents (Elt F) → (⟨S50000x128, .f32⟩ : BufTy).Contents (Elt F) → (⟨S50000x128, .f32⟩ : BufTy).Contents (Elt F)),
    TRef.nullary main_call1.cst (constant S_ .f32 0x00000000#32),
    TRef.unary main_call1.cst main_call1.v0 (broadcastInDim S50000x128 ![] bcast_S_S50000x128),
    TRef.binary (.of main_v69) main_call1.v0 main_call1.v1 maximumf,
    nullary main_c_8 (constantI S_ 32 0#32),
    unary main_c_8 main_v71 (broadcastInDim S600000 ![] bcast_S_S600000 : (⟨S_, .i32⟩ : BufTy).Contents (Elt F) → (⟨S600000, .i32⟩ : BufTy).Contents (Elt F)),
    binary main_v1 main_v71 main_v72 (cmpi .slt : (⟨S600000, .i32⟩ : BufTy).Contents (Elt F) → (⟨S600000, .i32⟩ : BufTy).Contents (Elt F) → (⟨S600000, .i1⟩ : BufTy).Contents (Elt F)),
    nullary main_c_9 (constantI S_ 32 50000#32),
    unary main_c_9 main_v73 (broadcastInDim S600000 ![] bcast_S_S600000 : (⟨S_, .i32⟩ : BufTy).Contents (Elt F) → (⟨S600000, .i32⟩ : BufTy).Contents (Elt F)),
    binary main_v1 main_v73 main_v74 (addi : (⟨S600000, .i32⟩ : BufTy).Contents (Elt F) → (⟨S600000, .i32⟩ : BufTy).Contents (Elt F) → (⟨S600000, .i32⟩ : BufTy).Contents (Elt F)),
    ternary main_v72 main_v74 main_v1 main_v75 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v75 main_v76 (broadcastInDim S600000x1 ![0] bcast_S600000_S600000x1_0 : (⟨S600000, .i32⟩ : BufTy).Contents (Elt F) → (⟨S600000x1, .i32⟩ : BufTy).Contents (Elt F)),
    binary main_v70 main_v76 main_v77 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    binary main_v77 main_v11 main_v78 (addf : (⟨S600000x128, .f32⟩ : BufTy).Contents (Elt F) → (⟨S600000x128, .f32⟩ : BufTy).Contents (Elt F) → (⟨S600000x128, .f32⟩ : BufTy).Contents (Elt F)),
    unary main_arg4 main_v79 (broadcastInDim S600000x1 ![0] bcast_S600000_S600000x1_0 : (⟨S600000, .f32⟩ : BufTy).Contents (Elt F) → (⟨S600000x1, .f32⟩ : BufTy).Contents (Elt F)),
    unary main_v79 main_v80 (broadcastInDim S600000x128 ![0, 1] bcast_S600000x1_S600000x128_0_1 : (⟨S600000x1, .f32⟩ : BufTy).Contents (Elt F) → (⟨S600000x128, .f32⟩ : BufTy).Contents (Elt F)),
    binary main_v78 main_v80 main_v81 (mulf : (⟨S600000x128, .f32⟩ : BufTy).Contents (Elt F) → (⟨S600000x128, .f32⟩ : BufTy).Contents (Elt F) → (⟨S600000x128, .f32⟩ : BufTy).Contents (Elt F)),
    nullary main_cst_10 (constant S_ .f32 0x00000000#32),
    unary main_cst_10 main_v82 (broadcastInDim S50000x128 ![] bcast_S_S50000x128 : (⟨S_, .f32⟩ : BufTy).Contents (Elt F) → (⟨S50000x128, .f32⟩ : BufTy).Contents (Elt F)),
    unary main_v3 main_v83 (broadcastInDim S600000x1 ![0] bcast_S600000_S600000x1_0 : (⟨S600000, .i32⟩ : BufTy).Contents (Elt F) → (⟨S600000x1, .i32⟩ : BufTy).Contents (Elt F)),
    ternary main_v82 main_v83 main_v81 main_v84 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    unary main_v18 main_v85 (broadcastInDim S50000x128 ![0, 1] bcast_S50000x1_S50000x128_0_1 : (⟨S50000x1, .f32⟩ : BufTy).Contents (Elt F) → (⟨S50000x128, .f32⟩ : BufTy).Contents (Elt F)),
    binary main_v84 main_v85 main_v86 (Host.divf : (⟨S50000x128, .f32⟩ : BufTy).Contents (Elt F) → (⟨S50000x128, .f32⟩ : BufTy).Contents (Elt F) → (⟨S50000x128, .f32⟩ : BufTy).Contents (Elt F)),
    unary main_arg9 main_v87 ((extractStridedSlice S1x128x128 ![1, 0, 0] · slices_S5x128x128_S1x128x128_1_0_0) : (⟨S5x128x128, .f32⟩ : BufTy).Contents (Elt F) → (⟨S1x128x128, .f32⟩ : BufTy).Contents (Elt F)),
    reshape main_v87 main_v88 rfl shapeCasts_S1x128x128_S128x128,
    binary main_v86 main_v88 main_v89 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg10 main_v90 ((extractStridedSlice S1x128 ![1, 0] · slices_S5x128_S1x128_1_0) : (⟨S5x128, .f32⟩ : BufTy).Contents (Elt F) → (⟨S1x128, .f32⟩ : BufTy).Contents (Elt F)),
    reshape main_v90 main_v91 rfl shapeCasts_S1x128_S128,
    unary main_v91 main_v92 (broadcastInDim S1x128 ![1] bcast_S128_S1x128_1 : (⟨S128, .f32⟩ : BufTy).Contents (Elt F) → (⟨S1x128, .f32⟩ : BufTy).Contents (Elt F)),
    unary main_v92 main_v93 (broadcastInDim S50000x128 ![0, 1] bcast_S1x128_S50000x128_0_1 : (⟨S1x128, .f32⟩ : BufTy).Contents (Elt F) → (⟨S50000x128, .f32⟩ : BufTy).Contents (Elt F)),
    binary main_v89 main_v93 main_v94 (addf : (⟨S50000x128, .f32⟩ : BufTy).Contents (Elt F) → (⟨S50000x128, .f32⟩ : BufTy).Contents (Elt F) → (⟨S50000x128, .f32⟩ : BufTy).Contents (Elt F)),
    unary main_arg11 main_v95 ((extractStridedSlice S1x128x128 ![1, 0, 0] · slices_S5x128x128_S1x128x128_1_0_0) : (⟨S5x128x128, .f32⟩ : BufTy).Contents (Elt F) → (⟨S1x128x128, .f32⟩ : BufTy).Contents (Elt F)),
    reshape main_v95 main_v96 rfl shapeCasts_S1x128x128_S128x128,
    binary main_v70 main_v96 main_v97 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v94 main_v97 main_v98 (addf : (⟨S50000x128, .f32⟩ : BufTy).Contents (Elt F) → (⟨S50000x128, .f32⟩ : BufTy).Contents (Elt F) → (⟨S50000x128, .f32⟩ : BufTy).Contents (Elt F)),
    nullary main_cst_11 (constant S_ .f32 0x00000000#32),
    binary main_v98 main_cst_11 main_v99 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_12 (constant S_ .f32 0x47435000#32),
    unary main_cst_12 main_v100 (broadcastInDim S128 ![] bcast_S_S128 : (⟨S_, .f32⟩ : BufTy).Contents (Elt F) → (⟨S128, .f32⟩ : BufTy).Contents (Elt F)),
    binary main_v99 main_v100 main_v101 (Host.divf : (⟨S128, .f32⟩ : BufTy).Contents (Elt F) → (⟨S128, .f32⟩ : BufTy).Contents (Elt F) → (⟨S128, .f32⟩ : BufTy).Contents (Elt F)),
    nullary main_c_13 (constantI S_ 32 0#32),
    TRef.nullary main_call2.cst (constant S_ .f32 0x00000000#32),
    TRef.binary (.of main_v98) main_call2.cst main_call2.v0 (fun x v => Host.reduceAdd x v reducesTo_S50000x128_S128_d0 h_S_),
    TRef.unary main_call2.v0 main_call2.v1 (broadcastInDim S1x128 ![1] bcast_S128_S1x128_1),
    TRef.nullary main_call2.cst_0 (constant S_ .f32 0x47435000#32),
    TRef.unary main_call2.cst_0 main_call2.v2 (broadcastInDim S1x128 ![] bcast_S_S1x128),
    TRef.binary main_call2.v1 main_call2.v2 main_call2.v3 Host.divf,
    TRef.unary main_call2.v3 main_call2.v4 (broadcastInDim S50000x128 ![0, 1] bcast_S1x128_S50000x128_0_1),
    TRef.binary (.of main_v98) main_call2.v4 main_call2.v5 subf,
    TRef.binary main_call2.v5 main_call2.v5 main_call2.v6 mulf,
    TRef.unary (.of main_c_13) main_call2.v7 (sitofp .f32),
    TRef.nullary main_call2.cst_1 (constant S_ .f32 0x47435000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S50000x128_S128_d0 h_S_),
    TRef.unary main_call2.v8 main_call2.v10 (broadcastInDim S128 ![] bcast_S_S128),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S128 ![] bcast_S_S128),
    TRef.ternary main_call2.v12 main_call2.v11 main_call2.call0.v1 main_call2.call0.v2 (fun p a b => select (broadcastInDim S128 ![] bcast_S_S128 p) a b),
    unary main_arg12 main_v103 ((extractStridedSlice S1x128 ![1, 0] · slices_S5x128_S1x128_1_0) : (⟨S5x128, .f32⟩ : BufTy).Contents (Elt F) → (⟨S1x128, .f32⟩ : BufTy).Contents (Elt F)) ]

/-- The operations of window 2 of @main's text (83 of them, from operation 165 on). -/
abbrev ops_part2 : List (HloOp τ sig (Elt F)) :=
  [ reshape main_v103 main_v104 rfl shapeCasts_S1x128_S128,
    unary main_v101 main_v105 (broadcastInDim S1x128 ![1] bcast_S128_S1x128_1 : (⟨S128, .f32⟩ : BufTy).Contents (Elt F) → (⟨S1x128, .f32⟩ : BufTy).Contents (Elt F)),
    unary main_v105 main_v106 (broadcastInDim S50000x128 ![0, 1] bcast_S1x128_S50000x128_0_1 : (⟨S1x128, .f32⟩ : BufTy).Contents (Elt F) → (⟨S50000x128, .f32⟩ : BufTy).Contents (Elt F)),
    binary main_v98 main_v106 main_v107 (subf : (⟨S50000x128, .f32⟩ : BufTy).Contents (Elt F) → (⟨S50000x128, .f32⟩ : BufTy).Contents (Elt F) → (⟨S50000x128, .f32⟩ : BufTy).Contents (Elt F)),
    unary main_v104 main_v108 (broadcastInDim S1x128 ![1] bcast_S128_S1x128_1 : (⟨S128, .f32⟩ : BufTy).Contents (Elt F) → (⟨S1x128, .f32⟩ : BufTy).Contents (Elt F)),
    unary main_v108 main_v109 (broadcastInDim S50000x128 ![0, 1] bcast_S1x128_S50000x128_0_1 : (⟨S1x128, .f32⟩ : BufTy).Contents (Elt F) → (⟨S50000x128, .f32⟩ : BufTy).Contents (Elt F)),
    binary main_v109 main_v107 main_v110 (mulf : (⟨S50000x128, .f32⟩ : BufTy).Contents (Elt F) → (⟨S50000x128, .f32⟩ : BufTy).Contents (Elt F) → (⟨S50000x128, .f32⟩ : BufTy).Contents (Elt F)),
    nullary main_cst_14 (constant S_ .f32 0x3727C5AC#32),
    unary main_cst_14 main_v111 (broadcastInDim S128 ![] bcast_S_S128 : (⟨S_, .f32⟩ : BufTy).Contents (Elt F) → (⟨S128, .f32⟩ : BufTy).Contents (Elt F)),
    binary main_v102 main_v111 main_v112 (addf : (⟨S128, .f32⟩ : BufTy).Contents (Elt F) → (⟨S128, .f32⟩ : BufTy).Contents (Elt F) → (⟨S128, .f32⟩ : BufTy).Contents (Elt F)),
    unary main_v112 main_v113 (Host.rsqrt : (⟨S128, .f32⟩ : BufTy).Contents (Elt F) → (⟨S128, .f32⟩ : BufTy).Contents (Elt F)),
    unary main_v113 main_v114 (broadcastInDim S1x128 ![1] bcast_S128_S1x128_1 : (⟨S128, .f32⟩ : BufTy).Contents (Elt F) → (⟨S1x128, .f32⟩ : BufTy).Contents (Elt F)),
    unary main_v114 main_v115 (broadcastInDim S50000x128 ![0, 1] bcast_S1x128_S50000x128_0_1 : (⟨S1x128, .f32⟩ : BufTy).Contents (Elt F) → (⟨S50000x128, .f32⟩ : BufTy).Contents (Elt F)),
    binary main_v110 main_v115 main_v116 (mulf : (⟨S50000x128, .f32⟩ : BufTy).Contents (Elt F) → (⟨S50000x128, .f32⟩ : BufTy).Contents (Elt F) → (⟨S50000x128, .f32⟩ : BufTy).Contents (Elt F)),
    unary main_arg13 main_v117 ((extractStridedSlice S1x128 ![1, 0] · slices_S5x128_S1x128_1_0) : (⟨S5x128, .f32⟩ : BufTy).Contents (Elt F) → (⟨S1x128, .f32⟩ : BufTy).Contents (Elt F)),
    reshape main_v117 main_v118 rfl shapeCasts_S1x128_S128,
    unary main_v118 main_v119 (broadcastInDim S1x128 ![1] bcast_S128_S1x128_1 : (⟨S128, .f32⟩ : BufTy).Contents (Elt F) → (⟨S1x128, .f32⟩ : BufTy).Contents (Elt F)),
    unary main_v119 main_v120 (broadcastInDim S50000x128 ![0, 1] bcast_S1x128_S50000x128_0_1 : (⟨S1x128, .f32⟩ : BufTy).Contents (Elt F) → (⟨S50000x128, .f32⟩ : BufTy).Contents (Elt F)),
    binary main_v116 main_v120 main_v121 (addf : (⟨S50000x128, .f32⟩ : BufTy).Contents (Elt F) → (⟨S50000x128, .f32⟩ : BufTy).Contents (Elt F) → (⟨S50000x128, .f32⟩ : BufTy).Contents (Elt F)),
    TRef.nullary main_call3.cst (constant S_ .f32 0x00000000#32),
    TRef.unary main_call3.cst main_call3.v0 (broadcastInDim S50000x128 ![] bcast_S_S50000x128),
    TRef.binary (.of main_v121) main_call3.v0 main_call3.v1 maximumf,
    nullary main_c_15 (constantI S_ 32 0#32),
    unary main_c_15 main_v123 (broadcastInDim S600000 ![] bcast_S_S600000 : (⟨S_, .i32⟩ : BufTy).Contents (Elt F) → (⟨S600000, .i32⟩ : BufTy).Contents (Elt F)),
    binary main_v1 main_v123 main_v124 (cmpi .slt : (⟨S600000, .i32⟩ : BufTy).Contents (Elt F) → (⟨S600000, .i32⟩ : BufTy).Contents (Elt F) → (⟨S600000, .i1⟩ : BufTy).Contents (Elt F)),
    nullary main_c_16 (constantI S_ 32 50000#32),
    unary main_c_16 main_v125 (broadcastInDim S600000 ![] bcast_S_S600000 : (⟨S_, .i32⟩ : BufTy).Contents (Elt F) → (⟨S600000, .i32⟩ : BufTy).Contents (Elt F)),
    binary main_v1 main_v125 main_v126 (addi : (⟨S600000, .i32⟩ : BufTy).Contents (Elt F) → (⟨S600000, .i32⟩ : BufTy).Contents (Elt F) → (⟨S600000, .i32⟩ : BufTy).Contents (Elt F)),
    ternary main_v124 main_v126 main_v1 main_v127 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v127 main_v128 (broadcastInDim S600000x1 ![0] bcast_S600000_S600000x1_0 : (⟨S600000, .i32⟩ : BufTy).Contents (Elt F) → (⟨S600000x1, .i32⟩ : BufTy).Contents (Elt F)),
    binary main_v122 main_v128 main_v129 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    binary main_v129 main_v11 main_v130 (addf : (⟨S600000x128, .f32⟩ : BufTy).Contents (Elt F) → (⟨S600000x128, .f32⟩ : BufTy).Contents (Elt F) → (⟨S600000x128, .f32⟩ : BufTy).Contents (Elt F)),
    unary main_arg4 main_v131 (broadcastInDim S600000x1 ![0] bcast_S600000_S600000x1_0 : (⟨S600000, .f32⟩ : BufTy).Contents (Elt F) → (⟨S600000x1, .f32⟩ : BufTy).Contents (Elt F)),
    unary main_v131 main_v132 (broadcastInDim S600000x128 ![0, 1] bcast_S600000x1_S600000x128_0_1 : (⟨S600000x1, .f32⟩ : BufTy).Contents (Elt F) → (⟨S600000x128, .f32⟩ : BufTy).Contents (Elt F)),
    binary main_v130 main_v132 main_v133 (mulf : (⟨S600000x128, .f32⟩ : BufTy).Contents (Elt F) → (⟨S600000x128, .f32⟩ : BufTy).Contents (Elt F) → (⟨S600000x128, .f32⟩ : BufTy).Contents (Elt F)),
    nullary main_cst_17 (constant S_ .f32 0x00000000#32),
    unary main_cst_17 main_v134 (broadcastInDim S50000x128 ![] bcast_S_S50000x128 : (⟨S_, .f32⟩ : BufTy).Contents (Elt F) → (⟨S50000x128, .f32⟩ : BufTy).Contents (Elt F)),
    unary main_v3 main_v135 (broadcastInDim S600000x1 ![0] bcast_S600000_S600000x1_0 : (⟨S600000, .i32⟩ : BufTy).Contents (Elt F) → (⟨S600000x1, .i32⟩ : BufTy).Contents (Elt F)),
    ternary main_v134 main_v135 main_v133 main_v136 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    unary main_v18 main_v137 (broadcastInDim S50000x128 ![0, 1] bcast_S50000x1_S50000x128_0_1 : (⟨S50000x1, .f32⟩ : BufTy).Contents (Elt F) → (⟨S50000x128, .f32⟩ : BufTy).Contents (Elt F)),
    binary main_v136 main_v137 main_v138 (Host.divf : (⟨S50000x128, .f32⟩ : BufTy).Contents (Elt F) → (⟨S50000x128, .f32⟩ : BufTy).Contents (Elt F) → (⟨S50000x128, .f32⟩ : BufTy).Contents (Elt F)),
    unary main_arg9 main_v139 ((extractStridedSlice S1x128x128 ![2, 0, 0] · slices_S5x128x128_S1x128x128_2_0_0) : (⟨S5x128x128, .f32⟩ : BufTy).Contents (Elt F) → (⟨S1x128x128, .f32⟩ : BufTy).Contents (Elt F)),
    reshape main_v139 main_v140 rfl shapeCasts_S1x128x128_S128x128,
    binary main_v138 main_v140 main_v141 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg10 main_v142 ((extractStridedSlice S1x128 ![2, 0] · slices_S5x128_S1x128_2_0) : (⟨S5x128, .f32⟩ : BufTy).Contents (Elt F) → (⟨S1x128, .f32⟩ : BufTy).Contents (Elt F)),
    reshape main_v142 main_v143 rfl shapeCasts_S1x128_S128,
    unary main_v143 main_v144 (broadcastInDim S1x128 ![1] bcast_S128_S1x128_1 : (⟨S128, .f32⟩ : BufTy).Contents (Elt F) → (⟨S1x128, .f32⟩ : BufTy).Contents (Elt F)),
    unary main_v144 main_v145 (broadcastInDim S50000x128 ![0, 1] bcast_S1x128_S50000x128_0_1 : (⟨S1x128, .f32⟩ : BufTy).Contents (Elt F) → (⟨S50000x128, .f32⟩ : BufTy).Contents (Elt F)),
    binary main_v141 main_v145 main_v146 (addf : (⟨S50000x128, .f32⟩ : BufTy).Contents (Elt F) → (⟨S50000x128, .f32⟩ : BufTy).Contents (Elt F) → (⟨S50000x128, .f32⟩ : BufTy).Contents (Elt F)),
    unary main_arg11 main_v147 ((extractStridedSlice S1x128x128 ![2, 0, 0] · slices_S5x128x128_S1x128x128_2_0_0) : (⟨S5x128x128, .f32⟩ : BufTy).Contents (Elt F) → (⟨S1x128x128, .f32⟩ : BufTy).Contents (Elt F)),
    reshape main_v147 main_v148 rfl shapeCasts_S1x128x128_S128x128,
    binary main_v122 main_v148 main_v149 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v146 main_v149 main_v150 (addf : (⟨S50000x128, .f32⟩ : BufTy).Contents (Elt F) → (⟨S50000x128, .f32⟩ : BufTy).Contents (Elt F) → (⟨S50000x128, .f32⟩ : BufTy).Contents (Elt F)),
    nullary main_cst_18 (constant S_ .f32 0x00000000#32),
    binary main_v150 main_cst_18 main_v151 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_19 (constant S_ .f32 0x47435000#32),
    unary main_cst_19 main_v152 (broadcastInDim S128 ![] bcast_S_S128 : (⟨S_, .f32⟩ : BufTy).Contents (Elt F) → (⟨S128, .f32⟩ : BufTy).Contents (Elt F)),
    binary main_v151 main_v152 main_v153 (Host.divf : (⟨S128, .f32⟩ : BufTy).Contents (Elt F) → (⟨S128, .f32⟩ : BufTy).Contents (Elt F) → (⟨S128, .f32⟩ : BufTy).Contents (Elt F)),
    nullary main_c_20 (constantI S_ 32 0#32),
    TRef.nullary main_call4.cst (constant S_ .f32 0x00000000#32),
    TRef.binary (.of main_v150) main_call4.cst main_call4.v0 (fun x v => Host.reduceAdd x v reducesTo_S50000x128_S128_d0 h_S_),
    TRef.unary main_call4.v0 main_call4.v1 (broadcastInDim S1x128 ![1] bcast_S128_S1x128_1),
    TRef.nullary main_call4.cst_0 (constant S_ .f32 0x47435000#32),
    TRef.unary main_call4.cst_0 main_call4.v2 (broadcastInDim S1x128 ![] bcast_S_S1x128),
    TRef.binary main_call4.v1 main_call4.v2 main_call4.v3 Host.divf,
    TRef.unary main_call4.v3 main_call4.v4 (broadcastInDim S50000x128 ![0, 1] bcast_S1x128_S50000x128_0_1),
    TRef.binary (.of main_v150) main_call4.v4 main_call4.v5 subf,
    TRef.binary main_call4.v5 main_call4.v5 main_call4.v6 mulf,
    TRef.unary (.of main_c_20) main_call4.v7 (sitofp .f32),
    TRef.nullary main_call4.cst_1 (constant S_ .f32 0x47435000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S50000x128_S128_d0 h_S_),
    TRef.unary main_call4.v8 main_call4.v10 (broadcastInDim S128 ![] bcast_S_S128),
    TRef.binary main_call4.v9 main_call4.v10 main_call4.v11 Host.divf,
    TRef.nullary main_call4.cst_3 (constant S_ .f32 0x00000000#32),
    TRef.binary main_call4.v8 main_call4.cst_3 main_call4.v12 (cmpf .ogt),
    TRef.nullary main_call4.cst_4 (constant S_ .f32 0x7FC00000#32),
    TRef.unary main_call4.cst_4 main_call4.call0.v0 id,
    TRef.unary main_call4.call0.v0 main_call4.call0.v1 (broadcastInDim S128 ![] bcast_S_S128),
    TRef.ternary main_call4.v12 main_call4.v11 main_call4.call0.v1 main_call4.call0.v2 (fun p a b => select (broadcastInDim S128 ![] bcast_S_S128 p) a b),
    unary main_arg12 main_v155 ((extractStridedSlice S1x128 ![2, 0] · slices_S5x128_S1x128_2_0) : (⟨S5x128, .f32⟩ : BufTy).Contents (Elt F) → (⟨S1x128, .f32⟩ : BufTy).Contents (Elt F)),
    reshape main_v155 main_v156 rfl shapeCasts_S1x128_S128 ]

/-- The operations of window 3 of @main's text (83 of them, from operation 248 on). -/
abbrev ops_part3 : List (HloOp τ sig (Elt F)) :=
  [ unary main_v153 main_v157 (broadcastInDim S1x128 ![1] bcast_S128_S1x128_1 : (⟨S128, .f32⟩ : BufTy).Contents (Elt F) → (⟨S1x128, .f32⟩ : BufTy).Contents (Elt F)),
    unary main_v157 main_v158 (broadcastInDim S50000x128 ![0, 1] bcast_S1x128_S50000x128_0_1 : (⟨S1x128, .f32⟩ : BufTy).Contents (Elt F) → (⟨S50000x128, .f32⟩ : BufTy).Contents (Elt F)),
    binary main_v150 main_v158 main_v159 (subf : (⟨S50000x128, .f32⟩ : BufTy).Contents (Elt F) → (⟨S50000x128, .f32⟩ : BufTy).Contents (Elt F) → (⟨S50000x128, .f32⟩ : BufTy).Contents (Elt F)),
    unary main_v156 main_v160 (broadcastInDim S1x128 ![1] bcast_S128_S1x128_1 : (⟨S128, .f32⟩ : BufTy).Contents (Elt F) → (⟨S1x128, .f32⟩ : BufTy).Contents (Elt F)),
    unary main_v160 main_v161 (broadcastInDim S50000x128 ![0, 1] bcast_S1x128_S50000x128_0_1 : (⟨S1x128, .f32⟩ : BufTy).Contents (Elt F) → (⟨S50000x128, .f32⟩ : BufTy).Contents (Elt F)),
    binary main_v161 main_v159 main_v162 (mulf : (⟨S50000x128, .f32⟩ : BufTy).Contents (Elt F) → (⟨S50000x128, .f32⟩ : BufTy).Contents (Elt F) → (⟨S50000x128, .f32⟩ : BufTy).Contents (Elt F)),
    nullary main_cst_21 (constant S_ .f32 0x3727C5AC#32),
    unary main_cst_21 main_v163 (broadcastInDim S128 ![] bcast_S_S128 : (⟨S_, .f32⟩ : BufTy).Contents (Elt F) → (⟨S128, .f32⟩ : BufTy).Contents (Elt F)),
    binary main_v154 main_v163 main_v164 (addf : (⟨S128, .f32⟩ : BufTy).Contents (Elt F) → (⟨S128, .f32⟩ : BufTy).Contents (Elt F) → (⟨S128, .f32⟩ : BufTy).Contents (Elt F)),
    unary main_v164 main_v165 (Host.rsqrt : (⟨S128, .f32⟩ : BufTy).Contents (Elt F) → (⟨S128, .f32⟩ : BufTy).Contents (Elt F)),
    unary main_v165 main_v166 (broadcastInDim S1x128 ![1] bcast_S128_S1x128_1 : (⟨S128, .f32⟩ : BufTy).Contents (Elt F) → (⟨S1x128, .f32⟩ : BufTy).Contents (Elt F)),
    unary main_v166 main_v167 (broadcastInDim S50000x128 ![0, 1] bcast_S1x128_S50000x128_0_1 : (⟨S1x128, .f32⟩ : BufTy).Contents (Elt F) → (⟨S50000x128, .f32⟩ : BufTy).Contents (Elt F)),
    binary main_v162 main_v167 main_v168 (mulf : (⟨S50000x128, .f32⟩ : BufTy).Contents (Elt F) → (⟨S50000x128, .f32⟩ : BufTy).Contents (Elt F) → (⟨S50000x128, .f32⟩ : BufTy).Contents (Elt F)),
    unary main_arg13 main_v169 ((extractStridedSlice S1x128 ![2, 0] · slices_S5x128_S1x128_2_0) : (⟨S5x128, .f32⟩ : BufTy).Contents (Elt F) → (⟨S1x128, .f32⟩ : BufTy).Contents (Elt F)),
    reshape main_v169 main_v170 rfl shapeCasts_S1x128_S128,
    unary main_v170 main_v171 (broadcastInDim S1x128 ![1] bcast_S128_S1x128_1 : (⟨S128, .f32⟩ : BufTy).Contents (Elt F) → (⟨S1x128, .f32⟩ : BufTy).Contents (Elt F)),
    unary main_v171 main_v172 (broadcastInDim S50000x128 ![0, 1] bcast_S1x128_S50000x128_0_1 : (⟨S1x128, .f32⟩ : BufTy).Contents (Elt F) → (⟨S50000x128, .f32⟩ : BufTy).Contents (Elt F)),
    binary main_v168 main_v172 main_v173 (addf : (⟨S50000x128, .f32⟩ : BufTy).Contents (Elt F) → (⟨S50000x128, .f32⟩ : BufTy).Contents (Elt F) → (⟨S50000x128, .f32⟩ : BufTy).Contents (Elt F)),
    TRef.nullary main_call5.cst (constant S_ .f32 0x00000000#32),
    TRef.unary main_call5.cst main_call5.v0 (broadcastInDim S50000x128 ![] bcast_S_S50000x128),
    TRef.binary (.of main_v173) main_call5.v0 main_call5.v1 maximumf,
    nullary main_c_22 (constantI S_ 32 0#32),
    unary main_c_22 main_v175 (broadcastInDim S600000 ![] bcast_S_S600000 : (⟨S_, .i32⟩ : BufTy).Contents (Elt F) → (⟨S600000, .i32⟩ : BufTy).Contents (Elt F)),
    binary main_v1 main_v175 main_v176 (cmpi .slt : (⟨S600000, .i32⟩ : BufTy).Contents (Elt F) → (⟨S600000, .i32⟩ : BufTy).Contents (Elt F) → (⟨S600000, .i1⟩ : BufTy).Contents (Elt F)),
    nullary main_c_23 (constantI S_ 32 50000#32),
    unary main_c_23 main_v177 (broadcastInDim S600000 ![] bcast_S_S600000 : (⟨S_, .i32⟩ : BufTy).Contents (Elt F) → (⟨S600000, .i32⟩ : BufTy).Contents (Elt F)),
    binary main_v1 main_v177 main_v178 (addi : (⟨S600000, .i32⟩ : BufTy).Contents (Elt F) → (⟨S600000, .i32⟩ : BufTy).Contents (Elt F) → (⟨S600000, .i32⟩ : BufTy).Contents (Elt F)),
    ternary main_v176 main_v178 main_v1 main_v179 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v179 main_v180 (broadcastInDim S600000x1 ![0] bcast_S600000_S600000x1_0 : (⟨S600000, .i32⟩ : BufTy).Contents (Elt F) → (⟨S600000x1, .i32⟩ : BufTy).Contents (Elt F)),
    binary main_v174 main_v180 main_v181 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    binary main_v181 main_v11 main_v182 (addf : (⟨S600000x128, .f32⟩ : BufTy).Contents (Elt F) → (⟨S600000x128, .f32⟩ : BufTy).Contents (Elt F) → (⟨S600000x128, .f32⟩ : BufTy).Contents (Elt F)),
    unary main_arg4 main_v183 (broadcastInDim S600000x1 ![0] bcast_S600000_S600000x1_0 : (⟨S600000, .f32⟩ : BufTy).Contents (Elt F) → (⟨S600000x1, .f32⟩ : BufTy).Contents (Elt F)),
    unary main_v183 main_v184 (broadcastInDim S600000x128 ![0, 1] bcast_S600000x1_S600000x128_0_1 : (⟨S600000x1, .f32⟩ : BufTy).Contents (Elt F) → (⟨S600000x128, .f32⟩ : BufTy).Contents (Elt F)),
    binary main_v182 main_v184 main_v185 (mulf : (⟨S600000x128, .f32⟩ : BufTy).Contents (Elt F) → (⟨S600000x128, .f32⟩ : BufTy).Contents (Elt F) → (⟨S600000x128, .f32⟩ : BufTy).Contents (Elt F)),
    nullary main_cst_24 (constant S_ .f32 0x00000000#32),
    unary main_cst_24 main_v186 (broadcastInDim S50000x128 ![] bcast_S_S50000x128 : (⟨S_, .f32⟩ : BufTy).Contents (Elt F) → (⟨S50000x128, .f32⟩ : BufTy).Contents (Elt F)),
    unary main_v3 main_v187 (broadcastInDim S600000x1 ![0] bcast_S600000_S600000x1_0 : (⟨S600000, .i32⟩ : BufTy).Contents (Elt F) → (⟨S600000x1, .i32⟩ : BufTy).Contents (Elt F)),
    ternary main_v186 main_v187 main_v185 main_v188 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    unary main_v18 main_v189 (broadcastInDim S50000x128 ![0, 1] bcast_S50000x1_S50000x128_0_1 : (⟨S50000x1, .f32⟩ : BufTy).Contents (Elt F) → (⟨S50000x128, .f32⟩ : BufTy).Contents (Elt F)),
    binary main_v188 main_v189 main_v190 (Host.divf : (⟨S50000x128, .f32⟩ : BufTy).Contents (Elt F) → (⟨S50000x128, .f32⟩ : BufTy).Contents (Elt F) → (⟨S50000x128, .f32⟩ : BufTy).Contents (Elt F)),
    unary main_arg9 main_v191 ((extractStridedSlice S1x128x128 ![3, 0, 0] · slices_S5x128x128_S1x128x128_3_0_0) : (⟨S5x128x128, .f32⟩ : BufTy).Contents (Elt F) → (⟨S1x128x128, .f32⟩ : BufTy).Contents (Elt F)),
    reshape main_v191 main_v192 rfl shapeCasts_S1x128x128_S128x128,
    binary main_v190 main_v192 main_v193 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg10 main_v194 ((extractStridedSlice S1x128 ![3, 0] · slices_S5x128_S1x128_3_0) : (⟨S5x128, .f32⟩ : BufTy).Contents (Elt F) → (⟨S1x128, .f32⟩ : BufTy).Contents (Elt F)),
    reshape main_v194 main_v195 rfl shapeCasts_S1x128_S128,
    unary main_v195 main_v196 (broadcastInDim S1x128 ![1] bcast_S128_S1x128_1 : (⟨S128, .f32⟩ : BufTy).Contents (Elt F) → (⟨S1x128, .f32⟩ : BufTy).Contents (Elt F)),
    unary main_v196 main_v197 (broadcastInDim S50000x128 ![0, 1] bcast_S1x128_S50000x128_0_1 : (⟨S1x128, .f32⟩ : BufTy).Contents (Elt F) → (⟨S50000x128, .f32⟩ : BufTy).Contents (Elt F)),
    binary main_v193 main_v197 main_v198 (addf : (⟨S50000x128, .f32⟩ : BufTy).Contents (Elt F) → (⟨S50000x128, .f32⟩ : BufTy).Contents (Elt F) → (⟨S50000x128, .f32⟩ : BufTy).Contents (Elt F)),
    unary main_arg11 main_v199 ((extractStridedSlice S1x128x128 ![3, 0, 0] · slices_S5x128x128_S1x128x128_3_0_0) : (⟨S5x128x128, .f32⟩ : BufTy).Contents (Elt F) → (⟨S1x128x128, .f32⟩ : BufTy).Contents (Elt F)),
    reshape main_v199 main_v200 rfl shapeCasts_S1x128x128_S128x128,
    binary main_v174 main_v200 main_v201 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v198 main_v201 main_v202 (addf : (⟨S50000x128, .f32⟩ : BufTy).Contents (Elt F) → (⟨S50000x128, .f32⟩ : BufTy).Contents (Elt F) → (⟨S50000x128, .f32⟩ : BufTy).Contents (Elt F)),
    nullary main_cst_25 (constant S_ .f32 0x00000000#32),
    binary main_v202 main_cst_25 main_v203 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_26 (constant S_ .f32 0x47435000#32),
    unary main_cst_26 main_v204 (broadcastInDim S128 ![] bcast_S_S128 : (⟨S_, .f32⟩ : BufTy).Contents (Elt F) → (⟨S128, .f32⟩ : BufTy).Contents (Elt F)),
    binary main_v203 main_v204 main_v205 (Host.divf : (⟨S128, .f32⟩ : BufTy).Contents (Elt F) → (⟨S128, .f32⟩ : BufTy).Contents (Elt F) → (⟨S128, .f32⟩ : BufTy).Contents (Elt F)),
    nullary main_c_27 (constantI S_ 32 0#32),
    TRef.nullary main_call6.cst (constant S_ .f32 0x00000000#32),
    TRef.binary (.of main_v202) main_call6.cst main_call6.v0 (fun x v => Host.reduceAdd x v reducesTo_S50000x128_S128_d0 h_S_),
    TRef.unary main_call6.v0 main_call6.v1 (broadcastInDim S1x128 ![1] bcast_S128_S1x128_1),
    TRef.nullary main_call6.cst_0 (constant S_ .f32 0x47435000#32),
    TRef.unary main_call6.cst_0 main_call6.v2 (broadcastInDim S1x128 ![] bcast_S_S1x128),
    TRef.binary main_call6.v1 main_call6.v2 main_call6.v3 Host.divf,
    TRef.unary main_call6.v3 main_call6.v4 (broadcastInDim S50000x128 ![0, 1] bcast_S1x128_S50000x128_0_1),
    TRef.binary (.of main_v202) main_call6.v4 main_call6.v5 subf,
    TRef.binary main_call6.v5 main_call6.v5 main_call6.v6 mulf,
    TRef.unary (.of main_c_27) main_call6.v7 (sitofp .f32),
    TRef.nullary main_call6.cst_1 (constant S_ .f32 0x47435000#32),
    TRef.binary main_call6.cst_1 main_call6.v7 main_call6.v8 subf,
    TRef.nullary main_call6.cst_2 (constant S_ .f32 0x00000000#32),
    TRef.binary main_call6.v6 main_call6.cst_2 main_call6.v9 (fun x v => Host.reduceAdd x v reducesTo_S50000x128_S128_d0 h_S_),
    TRef.unary main_call6.v8 main_call6.v10 (broadcastInDim S128 ![] bcast_S_S128),
    TRef.binary main_call6.v9 main_call6.v10 main_call6.v11 Host.divf,
    TRef.nullary main_call6.cst_3 (constant S_ .f32 0x00000000#32),
    TRef.binary main_call6.v8 main_call6.cst_3 main_call6.v12 (cmpf .ogt),
    TRef.nullary main_call6.cst_4 (constant S_ .f32 0x7FC00000#32),
    TRef.unary main_call6.cst_4 main_call6.call0.v0 id,
    TRef.unary main_call6.call0.v0 main_call6.call0.v1 (broadcastInDim S128 ![] bcast_S_S128),
    TRef.ternary main_call6.v12 main_call6.v11 main_call6.call0.v1 main_call6.call0.v2 (fun p a b => select (broadcastInDim S128 ![] bcast_S_S128 p) a b),
    unary main_arg12 main_v207 ((extractStridedSlice S1x128 ![3, 0] · slices_S5x128_S1x128_3_0) : (⟨S5x128, .f32⟩ : BufTy).Contents (Elt F) → (⟨S1x128, .f32⟩ : BufTy).Contents (Elt F)),
    reshape main_v207 main_v208 rfl shapeCasts_S1x128_S128,
    unary main_v205 main_v209 (broadcastInDim S1x128 ![1] bcast_S128_S1x128_1 : (⟨S128, .f32⟩ : BufTy).Contents (Elt F) → (⟨S1x128, .f32⟩ : BufTy).Contents (Elt F)) ]

/-- The operations of window 4 of @main's text (83 of them, from operation 331 on). -/
abbrev ops_part4 : List (HloOp τ sig (Elt F)) :=
  [ unary main_v209 main_v210 (broadcastInDim S50000x128 ![0, 1] bcast_S1x128_S50000x128_0_1 : (⟨S1x128, .f32⟩ : BufTy).Contents (Elt F) → (⟨S50000x128, .f32⟩ : BufTy).Contents (Elt F)),
    binary main_v202 main_v210 main_v211 (subf : (⟨S50000x128, .f32⟩ : BufTy).Contents (Elt F) → (⟨S50000x128, .f32⟩ : BufTy).Contents (Elt F) → (⟨S50000x128, .f32⟩ : BufTy).Contents (Elt F)),
    unary main_v208 main_v212 (broadcastInDim S1x128 ![1] bcast_S128_S1x128_1 : (⟨S128, .f32⟩ : BufTy).Contents (Elt F) → (⟨S1x128, .f32⟩ : BufTy).Contents (Elt F)),
    unary main_v212 main_v213 (broadcastInDim S50000x128 ![0, 1] bcast_S1x128_S50000x128_0_1 : (⟨S1x128, .f32⟩ : BufTy).Contents (Elt F) → (⟨S50000x128, .f32⟩ : BufTy).Contents (Elt F)),
    binary main_v213 main_v211 main_v214 (mulf : (⟨S50000x128, .f32⟩ : BufTy).Contents (Elt F) → (⟨S50000x128, .f32⟩ : BufTy).Contents (Elt F) → (⟨S50000x128, .f32⟩ : BufTy).Contents (Elt F)),
    nullary main_cst_28 (constant S_ .f32 0x3727C5AC#32),
    unary main_cst_28 main_v215 (broadcastInDim S128 ![] bcast_S_S128 : (⟨S_, .f32⟩ : BufTy).Contents (Elt F) → (⟨S128, .f32⟩ : BufTy).Contents (Elt F)),
    binary main_v206 main_v215 main_v216 (addf : (⟨S128, .f32⟩ : BufTy).Contents (Elt F) → (⟨S128, .f32⟩ : BufTy).Contents (Elt F) → (⟨S128, .f32⟩ : BufTy).Contents (Elt F)),
    unary main_v216 main_v217 (Host.rsqrt : (⟨S128, .f32⟩ : BufTy).Contents (Elt F) → (⟨S128, .f32⟩ : BufTy).Contents (Elt F)),
    unary main_v217 main_v218 (broadcastInDim S1x128 ![1] bcast_S128_S1x128_1 : (⟨S128, .f32⟩ : BufTy).Contents (Elt F) → (⟨S1x128, .f32⟩ : BufTy).Contents (Elt F)),
    unary main_v218 main_v219 (broadcastInDim S50000x128 ![0, 1] bcast_S1x128_S50000x128_0_1 : (⟨S1x128, .f32⟩ : BufTy).Contents (Elt F) → (⟨S50000x128, .f32⟩ : BufTy).Contents (Elt F)),
    binary main_v214 main_v219 main_v220 (mulf : (⟨S50000x128, .f32⟩ : BufTy).Contents (Elt F) → (⟨S50000x128, .f32⟩ : BufTy).Contents (Elt F) → (⟨S50000x128, .f32⟩ : BufTy).Contents (Elt F)),
    unary main_arg13 main_v221 ((extractStridedSlice S1x128 ![3, 0] · slices_S5x128_S1x128_3_0) : (⟨S5x128, .f32⟩ : BufTy).Contents (Elt F) → (⟨S1x128, .f32⟩ : BufTy).Contents (Elt F)),
    reshape main_v221 main_v222 rfl shapeCasts_S1x128_S128,
    unary main_v222 main_v223 (broadcastInDim S1x128 ![1] bcast_S128_S1x128_1 : (⟨S128, .f32⟩ : BufTy).Contents (Elt F) → (⟨S1x128, .f32⟩ : BufTy).Contents (Elt F)),
    unary main_v223 main_v224 (broadcastInDim S50000x128 ![0, 1] bcast_S1x128_S50000x128_0_1 : (⟨S1x128, .f32⟩ : BufTy).Contents (Elt F) → (⟨S50000x128, .f32⟩ : BufTy).Contents (Elt F)),
    binary main_v220 main_v224 main_v225 (addf : (⟨S50000x128, .f32⟩ : BufTy).Contents (Elt F) → (⟨S50000x128, .f32⟩ : BufTy).Contents (Elt F) → (⟨S50000x128, .f32⟩ : BufTy).Contents (Elt F)),
    TRef.nullary main_call7.cst (constant S_ .f32 0x00000000#32),
    TRef.unary main_call7.cst main_call7.v0 (broadcastInDim S50000x128 ![] bcast_S_S50000x128),
    TRef.binary (.of main_v225) main_call7.v0 main_call7.v1 maximumf,
    nullary main_c_29 (constantI S_ 32 0#32),
    unary main_c_29 main_v227 (broadcastInDim S600000 ![] bcast_S_S600000 : (⟨S_, .i32⟩ : BufTy).Contents (Elt F) → (⟨S600000, .i32⟩ : BufTy).Contents (Elt F)),
    binary main_v1 main_v227 main_v228 (cmpi .slt : (⟨S600000, .i32⟩ : BufTy).Contents (Elt F) → (⟨S600000, .i32⟩ : BufTy).Contents (Elt F) → (⟨S600000, .i1⟩ : BufTy).Contents (Elt F)),
    nullary main_c_30 (constantI S_ 32 50000#32),
    unary main_c_30 main_v229 (broadcastInDim S600000 ![] bcast_S_S600000 : (⟨S_, .i32⟩ : BufTy).Contents (Elt F) → (⟨S600000, .i32⟩ : BufTy).Contents (Elt F)),
    binary main_v1 main_v229 main_v230 (addi : (⟨S600000, .i32⟩ : BufTy).Contents (Elt F) → (⟨S600000, .i32⟩ : BufTy).Contents (Elt F) → (⟨S600000, .i32⟩ : BufTy).Contents (Elt F)),
    ternary main_v228 main_v230 main_v1 main_v231 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v231 main_v232 (broadcastInDim S600000x1 ![0] bcast_S600000_S600000x1_0 : (⟨S600000, .i32⟩ : BufTy).Contents (Elt F) → (⟨S600000x1, .i32⟩ : BufTy).Contents (Elt F)),
    binary main_v226 main_v232 main_v233 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    binary main_v233 main_v11 main_v234 (addf : (⟨S600000x128, .f32⟩ : BufTy).Contents (Elt F) → (⟨S600000x128, .f32⟩ : BufTy).Contents (Elt F) → (⟨S600000x128, .f32⟩ : BufTy).Contents (Elt F)),
    unary main_arg4 main_v235 (broadcastInDim S600000x1 ![0] bcast_S600000_S600000x1_0 : (⟨S600000, .f32⟩ : BufTy).Contents (Elt F) → (⟨S600000x1, .f32⟩ : BufTy).Contents (Elt F)),
    unary main_v235 main_v236 (broadcastInDim S600000x128 ![0, 1] bcast_S600000x1_S600000x128_0_1 : (⟨S600000x1, .f32⟩ : BufTy).Contents (Elt F) → (⟨S600000x128, .f32⟩ : BufTy).Contents (Elt F)),
    binary main_v234 main_v236 main_v237 (mulf : (⟨S600000x128, .f32⟩ : BufTy).Contents (Elt F) → (⟨S600000x128, .f32⟩ : BufTy).Contents (Elt F) → (⟨S600000x128, .f32⟩ : BufTy).Contents (Elt F)),
    nullary main_cst_31 (constant S_ .f32 0x00000000#32),
    unary main_cst_31 main_v238 (broadcastInDim S50000x128 ![] bcast_S_S50000x128 : (⟨S_, .f32⟩ : BufTy).Contents (Elt F) → (⟨S50000x128, .f32⟩ : BufTy).Contents (Elt F)),
    unary main_v3 main_v239 (broadcastInDim S600000x1 ![0] bcast_S600000_S600000x1_0 : (⟨S600000, .i32⟩ : BufTy).Contents (Elt F) → (⟨S600000x1, .i32⟩ : BufTy).Contents (Elt F)),
    ternary main_v238 main_v239 main_v237 main_v240 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    unary main_v18 main_v241 (broadcastInDim S50000x128 ![0, 1] bcast_S50000x1_S50000x128_0_1 : (⟨S50000x1, .f32⟩ : BufTy).Contents (Elt F) → (⟨S50000x128, .f32⟩ : BufTy).Contents (Elt F)),
    binary main_v240 main_v241 main_v242 (Host.divf : (⟨S50000x128, .f32⟩ : BufTy).Contents (Elt F) → (⟨S50000x128, .f32⟩ : BufTy).Contents (Elt F) → (⟨S50000x128, .f32⟩ : BufTy).Contents (Elt F)),
    unary main_arg9 main_v243 ((extractStridedSlice S1x128x128 ![4, 0, 0] · slices_S5x128x128_S1x128x128_4_0_0) : (⟨S5x128x128, .f32⟩ : BufTy).Contents (Elt F) → (⟨S1x128x128, .f32⟩ : BufTy).Contents (Elt F)),
    reshape main_v243 main_v244 rfl shapeCasts_S1x128x128_S128x128,
    binary main_v242 main_v244 main_v245 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg10 main_v246 ((extractStridedSlice S1x128 ![4, 0] · slices_S5x128_S1x128_4_0) : (⟨S5x128, .f32⟩ : BufTy).Contents (Elt F) → (⟨S1x128, .f32⟩ : BufTy).Contents (Elt F)),
    reshape main_v246 main_v247 rfl shapeCasts_S1x128_S128,
    unary main_v247 main_v248 (broadcastInDim S1x128 ![1] bcast_S128_S1x128_1 : (⟨S128, .f32⟩ : BufTy).Contents (Elt F) → (⟨S1x128, .f32⟩ : BufTy).Contents (Elt F)),
    unary main_v248 main_v249 (broadcastInDim S50000x128 ![0, 1] bcast_S1x128_S50000x128_0_1 : (⟨S1x128, .f32⟩ : BufTy).Contents (Elt F) → (⟨S50000x128, .f32⟩ : BufTy).Contents (Elt F)),
    binary main_v245 main_v249 main_v250 (addf : (⟨S50000x128, .f32⟩ : BufTy).Contents (Elt F) → (⟨S50000x128, .f32⟩ : BufTy).Contents (Elt F) → (⟨S50000x128, .f32⟩ : BufTy).Contents (Elt F)),
    unary main_arg11 main_v251 ((extractStridedSlice S1x128x128 ![4, 0, 0] · slices_S5x128x128_S1x128x128_4_0_0) : (⟨S5x128x128, .f32⟩ : BufTy).Contents (Elt F) → (⟨S1x128x128, .f32⟩ : BufTy).Contents (Elt F)),
    reshape main_v251 main_v252 rfl shapeCasts_S1x128x128_S128x128,
    binary main_v226 main_v252 main_v253 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v250 main_v253 main_v254 (addf : (⟨S50000x128, .f32⟩ : BufTy).Contents (Elt F) → (⟨S50000x128, .f32⟩ : BufTy).Contents (Elt F) → (⟨S50000x128, .f32⟩ : BufTy).Contents (Elt F)),
    nullary main_cst_32 (constant S_ .f32 0x00000000#32),
    binary main_v254 main_cst_32 main_v255 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_33 (constant S_ .f32 0x47435000#32),
    unary main_cst_33 main_v256 (broadcastInDim S128 ![] bcast_S_S128 : (⟨S_, .f32⟩ : BufTy).Contents (Elt F) → (⟨S128, .f32⟩ : BufTy).Contents (Elt F)),
    binary main_v255 main_v256 main_v257 (Host.divf : (⟨S128, .f32⟩ : BufTy).Contents (Elt F) → (⟨S128, .f32⟩ : BufTy).Contents (Elt F) → (⟨S128, .f32⟩ : BufTy).Contents (Elt F)),
    nullary main_c_34 (constantI S_ 32 0#32),
    TRef.nullary main_call8.cst (constant S_ .f32 0x00000000#32),
    TRef.binary (.of main_v254) main_call8.cst main_call8.v0 (fun x v => Host.reduceAdd x v reducesTo_S50000x128_S128_d0 h_S_),
    TRef.unary main_call8.v0 main_call8.v1 (broadcastInDim S1x128 ![1] bcast_S128_S1x128_1),
    TRef.nullary main_call8.cst_0 (constant S_ .f32 0x47435000#32),
    TRef.unary main_call8.cst_0 main_call8.v2 (broadcastInDim S1x128 ![] bcast_S_S1x128),
    TRef.binary main_call8.v1 main_call8.v2 main_call8.v3 Host.divf,
    TRef.unary main_call8.v3 main_call8.v4 (broadcastInDim S50000x128 ![0, 1] bcast_S1x128_S50000x128_0_1),
    TRef.binary (.of main_v254) main_call8.v4 main_call8.v5 subf,
    TRef.binary main_call8.v5 main_call8.v5 main_call8.v6 mulf,
    TRef.unary (.of main_c_34) main_call8.v7 (sitofp .f32),
    TRef.nullary main_call8.cst_1 (constant S_ .f32 0x47435000#32),
    TRef.binary main_call8.cst_1 main_call8.v7 main_call8.v8 subf,
    TRef.nullary main_call8.cst_2 (constant S_ .f32 0x00000000#32),
    TRef.binary main_call8.v6 main_call8.cst_2 main_call8.v9 (fun x v => Host.reduceAdd x v reducesTo_S50000x128_S128_d0 h_S_),
    TRef.unary main_call8.v8 main_call8.v10 (broadcastInDim S128 ![] bcast_S_S128),
    TRef.binary main_call8.v9 main_call8.v10 main_call8.v11 Host.divf,
    TRef.nullary main_call8.cst_3 (constant S_ .f32 0x00000000#32),
    TRef.binary main_call8.v8 main_call8.cst_3 main_call8.v12 (cmpf .ogt),
    TRef.nullary main_call8.cst_4 (constant S_ .f32 0x7FC00000#32),
    TRef.unary main_call8.cst_4 main_call8.call0.v0 id,
    TRef.unary main_call8.call0.v0 main_call8.call0.v1 (broadcastInDim S128 ![] bcast_S_S128),
    TRef.ternary main_call8.v12 main_call8.v11 main_call8.call0.v1 main_call8.call0.v2 (fun p a b => select (broadcastInDim S128 ![] bcast_S_S128 p) a b),
    unary main_arg12 main_v259 ((extractStridedSlice S1x128 ![4, 0] · slices_S5x128_S1x128_4_0) : (⟨S5x128, .f32⟩ : BufTy).Contents (Elt F) → (⟨S1x128, .f32⟩ : BufTy).Contents (Elt F)),
    reshape main_v259 main_v260 rfl shapeCasts_S1x128_S128,
    unary main_v257 main_v261 (broadcastInDim S1x128 ![1] bcast_S128_S1x128_1 : (⟨S128, .f32⟩ : BufTy).Contents (Elt F) → (⟨S1x128, .f32⟩ : BufTy).Contents (Elt F)),
    unary main_v261 main_v262 (broadcastInDim S50000x128 ![0, 1] bcast_S1x128_S50000x128_0_1 : (⟨S1x128, .f32⟩ : BufTy).Contents (Elt F) → (⟨S50000x128, .f32⟩ : BufTy).Contents (Elt F)) ]

/-- The operations of window 5 of @main's text (37 of them, from operation 414 on). -/
abbrev ops_part5 : List (HloOp τ sig (Elt F)) :=
  [ binary main_v254 main_v262 main_v263 (subf : (⟨S50000x128, .f32⟩ : BufTy).Contents (Elt F) → (⟨S50000x128, .f32⟩ : BufTy).Contents (Elt F) → (⟨S50000x128, .f32⟩ : BufTy).Contents (Elt F)),
    unary main_v260 main_v264 (broadcastInDim S1x128 ![1] bcast_S128_S1x128_1 : (⟨S128, .f32⟩ : BufTy).Contents (Elt F) → (⟨S1x128, .f32⟩ : BufTy).Contents (Elt F)),
    unary main_v264 main_v265 (broadcastInDim S50000x128 ![0, 1] bcast_S1x128_S50000x128_0_1 : (⟨S1x128, .f32⟩ : BufTy).Contents (Elt F) → (⟨S50000x128, .f32⟩ : BufTy).Contents (Elt F)),
    binary main_v265 main_v263 main_v266 (mulf : (⟨S50000x128, .f32⟩ : BufTy).Contents (Elt F) → (⟨S50000x128, .f32⟩ : BufTy).Contents (Elt F) → (⟨S50000x128, .f32⟩ : BufTy).Contents (Elt F)),
    nullary main_cst_35 (constant S_ .f32 0x3727C5AC#32),
    unary main_cst_35 main_v267 (broadcastInDim S128 ![] bcast_S_S128 : (⟨S_, .f32⟩ : BufTy).Contents (Elt F) → (⟨S128, .f32⟩ : BufTy).Contents (Elt F)),
    binary main_v258 main_v267 main_v268 (addf : (⟨S128, .f32⟩ : BufTy).Contents (Elt F) → (⟨S128, .f32⟩ : BufTy).Contents (Elt F) → (⟨S128, .f32⟩ : BufTy).Contents (Elt F)),
    unary main_v268 main_v269 (Host.rsqrt : (⟨S128, .f32⟩ : BufTy).Contents (Elt F) → (⟨S128, .f32⟩ : BufTy).Contents (Elt F)),
    unary main_v269 main_v270 (broadcastInDim S1x128 ![1] bcast_S128_S1x128_1 : (⟨S128, .f32⟩ : BufTy).Contents (Elt F) → (⟨S1x128, .f32⟩ : BufTy).Contents (Elt F)),
    unary main_v270 main_v271 (broadcastInDim S50000x128 ![0, 1] bcast_S1x128_S50000x128_0_1 : (⟨S1x128, .f32⟩ : BufTy).Contents (Elt F) → (⟨S50000x128, .f32⟩ : BufTy).Contents (Elt F)),
    binary main_v266 main_v271 main_v272 (mulf : (⟨S50000x128, .f32⟩ : BufTy).Contents (Elt F) → (⟨S50000x128, .f32⟩ : BufTy).Contents (Elt F) → (⟨S50000x128, .f32⟩ : BufTy).Contents (Elt F)),
    unary main_arg13 main_v273 ((extractStridedSlice S1x128 ![4, 0] · slices_S5x128_S1x128_4_0) : (⟨S5x128, .f32⟩ : BufTy).Contents (Elt F) → (⟨S1x128, .f32⟩ : BufTy).Contents (Elt F)),
    reshape main_v273 main_v274 rfl shapeCasts_S1x128_S128,
    unary main_v274 main_v275 (broadcastInDim S1x128 ![1] bcast_S128_S1x128_1 : (⟨S128, .f32⟩ : BufTy).Contents (Elt F) → (⟨S1x128, .f32⟩ : BufTy).Contents (Elt F)),
    unary main_v275 main_v276 (broadcastInDim S50000x128 ![0, 1] bcast_S1x128_S50000x128_0_1 : (⟨S1x128, .f32⟩ : BufTy).Contents (Elt F) → (⟨S50000x128, .f32⟩ : BufTy).Contents (Elt F)),
    binary main_v272 main_v276 main_v277 (addf : (⟨S50000x128, .f32⟩ : BufTy).Contents (Elt F) → (⟨S50000x128, .f32⟩ : BufTy).Contents (Elt F) → (⟨S50000x128, .f32⟩ : BufTy).Contents (Elt F)),
    nullary main_cst_36 (constant S_ .f32 0x00000000#32),
    unary main_cst_36 main_v278 (broadcastInDim S128x128 ![] bcast_S_S128x128 : (⟨S_, .f32⟩ : BufTy).Contents (Elt F) → (⟨S128x128, .f32⟩ : BufTy).Contents (Elt F)),
    unary main_arg0 main_v279 (broadcastInDim S50000x1 ![0] bcast_S50000_S50000x1_0 : (⟨S50000, .i32⟩ : BufTy).Contents (Elt F) → (⟨S50000x1, .i32⟩ : BufTy).Contents (Elt F)),
    ternary main_v278 main_v279 main_v70 main_v280 ((fun x i u => Host.scatterAdd scatter_S128x128_S50000x1_S50000x128_1_0_0_1 x i u) : (⟨S128x128, .f32⟩ : BufTy).Contents (Elt F) → (⟨S50000x1, .i32⟩ : BufTy).Contents (Elt F) → (⟨S50000x128, .f32⟩ : BufTy).Contents (Elt F) → (⟨S128x128, .f32⟩ : BufTy).Contents (Elt F)),
    nullary main_cst_37 (constant S_ .f32 0x00000000#32),
    unary main_cst_37 main_v281 (broadcastInDim S128x128 ![] bcast_S_S128x128 : (⟨S_, .f32⟩ : BufTy).Contents (Elt F) → (⟨S128x128, .f32⟩ : BufTy).Contents (Elt F)),
    unary main_arg0 main_v282 (broadcastInDim S50000x1 ![0] bcast_S50000_S50000x1_0 : (⟨S50000, .i32⟩ : BufTy).Contents (Elt F) → (⟨S50000x1, .i32⟩ : BufTy).Contents (Elt F)),
    ternary main_v281 main_v282 main_v122 main_v283 ((fun x i u => Host.scatterAdd scatter_S128x128_S50000x1_S50000x128_1_0_0_1 x i u) : (⟨S128x128, .f32⟩ : BufTy).Contents (Elt F) → (⟨S50000x1, .i32⟩ : BufTy).Contents (Elt F) → (⟨S50000x128, .f32⟩ : BufTy).Contents (Elt F) → (⟨S128x128, .f32⟩ : BufTy).Contents (Elt F)),
    nullary main_cst_38 (constant S_ .f32 0x00000000#32),
    unary main_cst_38 main_v284 (broadcastInDim S128x128 ![] bcast_S_S128x128 : (⟨S_, .f32⟩ : BufTy).Contents (Elt F) → (⟨S128x128, .f32⟩ : BufTy).Contents (Elt F)),
    unary main_arg0 main_v285 (broadcastInDim S50000x1 ![0] bcast_S50000_S50000x1_0 : (⟨S50000, .i32⟩ : BufTy).Contents (Elt F) → (⟨S50000x1, .i32⟩ : BufTy).Contents (Elt F)),
    ternary main_v284 main_v285 main_v174 main_v286 ((fun x i u => Host.scatterAdd scatter_S128x128_S50000x1_S50000x128_1_0_0_1 x i u) : (⟨S128x128, .f32⟩ : BufTy).Contents (Elt F) → (⟨S50000x1, .i32⟩ : BufTy).Contents (Elt F) → (⟨S50000x128, .f32⟩ : BufTy).Contents (Elt F) → (⟨S128x128, .f32⟩ : BufTy).Contents (Elt F)),
    nullary main_cst_39 (constant S_ .f32 0x00000000#32),
    unary main_cst_39 main_v287 (broadcastInDim S128x128 ![] bcast_S_S128x128 : (⟨S_, .f32⟩ : BufTy).Contents (Elt F) → (⟨S128x128, .f32⟩ : BufTy).Contents (Elt F)),
    unary main_arg0 main_v288 (broadcastInDim S50000x1 ![0] bcast_S50000_S50000x1_0 : (⟨S50000, .i32⟩ : BufTy).Contents (Elt F) → (⟨S50000x1, .i32⟩ : BufTy).Contents (Elt F)),
    ternary main_v287 main_v288 main_v226 main_v289 ((fun x i u => Host.scatterAdd scatter_S128x128_S50000x1_S50000x128_1_0_0_1 x i u) : (⟨S128x128, .f32⟩ : BufTy).Contents (Elt F) → (⟨S50000x1, .i32⟩ : BufTy).Contents (Elt F) → (⟨S50000x128, .f32⟩ : BufTy).Contents (Elt F) → (⟨S128x128, .f32⟩ : BufTy).Contents (Elt F)),
    nullary main_cst_40 (constant S_ .f32 0x00000000#32),
    unary main_cst_40 main_v290 (broadcastInDim S128x128 ![] bcast_S_S128x128 : (⟨S_, .f32⟩ : BufTy).Contents (Elt F) → (⟨S128x128, .f32⟩ : BufTy).Contents (Elt F)),
    unary main_arg0 main_v291 (broadcastInDim S50000x1 ![0] bcast_S50000_S50000x1_0 : (⟨S50000, .i32⟩ : BufTy).Contents (Elt F) → (⟨S50000x1, .i32⟩ : BufTy).Contents (Elt F)),
    ternary main_v290 main_v291 main_v277 main_v292 ((fun x i u => Host.scatterAdd scatter_S128x128_S50000x1_S50000x128_1_0_0_1 x i u) : (⟨S128x128, .f32⟩ : BufTy).Contents (Elt F) → (⟨S50000x1, .i32⟩ : BufTy).Contents (Elt F) → (⟨S50000x128, .f32⟩ : BufTy).Contents (Elt F) → (⟨S128x128, .f32⟩ : BufTy).Contents (Elt F)),
    nary ![main_v280, main_v283, main_v286, main_v289, main_v292] main_v293 (fun u => concatenate S128x640 1 [⟨S128x128, u 0⟩, ⟨S128x128, u 1⟩, ⟨S128x128, u 2⟩, ⟨S128x128, u 3⟩, ⟨S128x128, u 4⟩] concatenates_S128x128_S128x128_S128x128_S128x128_S128x128_S128x640_d1) ]

/-- All 450 operations of @main, in order. -/
abbrev ops : List (HloOp τ sig (Elt F)) :=
  ops_part0 ++ (ops_part1 ++ (ops_part2 ++ (ops_part3 ++ (ops_part4 ++ (ops_part5)))))

set_option maxRecDepth 16384 in
theorem main_part0_eq (c : Dev nD) : main_part0 (F := F) c = seq ops_part0 := by
  simp only [main_part0, fn_var.body, fn_where.body, fn_relu.body, seq, bind_assoc, pure_bind]
  all_goals rfl
set_option maxRecDepth 16384 in
theorem main_part1_eq (c : Dev nD) : main_part1 (F := F) c = seq ops_part1 := by
  simp only [main_part1, fn_var.body, fn_where.body, fn_relu.body, seq, bind_assoc, pure_bind]
  all_goals rfl
set_option maxRecDepth 16384 in
theorem main_part2_eq (c : Dev nD) : main_part2 (F := F) c = seq ops_part2 := by
  simp only [main_part2, fn_var.body, fn_where.body, fn_relu.body, seq, bind_assoc, pure_bind]
  all_goals rfl
set_option maxRecDepth 16384 in
theorem main_part3_eq (c : Dev nD) : main_part3 (F := F) c = seq ops_part3 := by
  simp only [main_part3, fn_var.body, fn_where.body, fn_relu.body, seq, bind_assoc, pure_bind]
  all_goals rfl
set_option maxRecDepth 16384 in
theorem main_part4_eq (c : Dev nD) : main_part4 (F := F) c = seq ops_part4 := by
  simp only [main_part4, fn_var.body, fn_where.body, fn_relu.body, seq, bind_assoc, pure_bind]
  all_goals rfl
set_option maxRecDepth 16384 in
theorem main_part5_eq (c : Dev nD) : main_part5 (F := F) c = seq ops_part5 := by
  simp only [main_part5, fn_var.body, fn_where.body, fn_relu.body, seq, bind_assoc, pure_bind]
  all_goals rfl
set_option maxRecDepth 16384 in
theorem main_eq (c : Dev nD) : main (F := F) c = seq ops := by
  simp only [ops, seq_append, ← main_part0_eq c, ← main_part1_eq c, ← main_part2_eq c, ← main_part3_eq c, ← main_part4_eq c, ← main_part5_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 16384 in
theorem ops_part0_sub : (ops_part0 : List (HloOp τ sig (Elt F))).Forall fun op => op.bufs ⊆ tcRefs τ sig :=
  ⟨unary_bufs_sub .., reshape_bufs_sub .., unary_bufs_sub .., reshape_bufs_sub .., binary_bufs_sub .., unary_bufs_sub .., unary_bufs_sub .., binary_bufs_sub .., binary_bufs_sub .., unary_bufs_sub .., unary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., nullary_bufs_sub .., unary_bufs_sub .., unary_bufs_sub .., ternary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
set_option maxRecDepth 16384 in
theorem ops_part1_sub : (ops_part1 : List (HloOp τ sig (Elt F))).Forall fun op => op.bufs ⊆ tcRefs τ sig :=
  ⟨unary_bufs_sub .., reshape_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., nullary_bufs_sub .., unary_bufs_sub .., unary_bufs_sub .., ternary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub ..⟩
set_option maxRecDepth 16384 in
theorem ops_part2_sub : (ops_part2 : List (HloOp τ sig (Elt F))).Forall fun op => op.bufs ⊆ tcRefs τ sig :=
  ⟨reshape_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., nullary_bufs_sub .., unary_bufs_sub .., unary_bufs_sub .., ternary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., reshape_bufs_sub ..⟩
set_option maxRecDepth 16384 in
theorem ops_part3_sub : (ops_part3 : List (HloOp τ sig (Elt F))).Forall fun op => op.bufs ⊆ tcRefs τ sig :=
  ⟨unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., nullary_bufs_sub .., unary_bufs_sub .., unary_bufs_sub .., ternary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., reshape_bufs_sub .., unary_bufs_sub ..⟩
set_option maxRecDepth 16384 in
theorem ops_part4_sub : (ops_part4 : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., nullary_bufs_sub .., unary_bufs_sub .., unary_bufs_sub .., ternary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., reshape_bufs_sub .., unary_bufs_sub .., unary_bufs_sub ..⟩
set_option maxRecDepth 16384 in
theorem ops_part5_sub : (ops_part5 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., unary_bufs_sub .., ternary_bufs_sub .., nary_bufs_sub ..⟩
theorem ops_sub : (ops : List (HloOp τ sig (Elt F))).Forall fun op => op.bufs ⊆ tcRefs τ sig :=
  List.forall_iff_forall_mem.mpr fun op h => by
    simp only [ops, List.mem_append] at h
    rcases h with h | h | h | h | h | h
    exacts [List.forall_iff_forall_mem.mp ops_part0_sub op h, List.forall_iff_forall_mem.mp ops_part1_sub op h, List.forall_iff_forall_mem.mp ops_part2_sub op h, List.forall_iff_forall_mem.mp ops_part3_sub op h, List.forall_iff_forall_mem.mp ops_part4_sub op h, List.forall_iff_forall_mem.mp ops_part5_sub op h]

/-- The buffers window 0's operations write. -/
abbrev ops_part0_W : List (Ref sig .tc) := [main_v0, main_v1, main_v2, main_v3, main_v4, main_v5, main_v6, main_v7, main_v8, main_v9, main_v10, main_v11, main_cst, main_v12, main_cst_0, main_v13, main_v14, main_v15, main_cst_1, main_v16, main_v17, main_v18, main_c, main_v19, main_v20, main_c_2, main_v21, main_v22, main_v23, main_v24, main_v25, main_v26, main_v27, main_v28, main_v29, main_cst_3, main_v30, main_v31, main_v32, main_v33, main_v34, main_v35, main_v36, main_v37, main_v38, main_v39, main_v40, main_v41, main_v42, main_v43, main_v44, main_v45, main_v46, main_cst_4, main_v47, main_cst_5, main_v48, main_v49, main_c_6, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v50]
/-- The buffers window 1's operations write. -/
abbrev ops_part1_W : List (Ref sig .tc) := [main_v51, main_v52, main_v53, main_v54, main_v55, main_v56, main_v57, main_v58, main_cst_7, main_v59, main_v60, main_v61, main_v62, main_v63, main_v64, main_v65, main_v66, main_v67, main_v68, main_v69, main_call1_cst, main_call1_v0, main_v70, main_c_8, main_v71, main_v72, main_c_9, main_v73, main_v74, main_v75, main_v76, main_v77, main_v78, main_v79, main_v80, main_v81, main_cst_10, main_v82, main_v83, main_v84, main_v85, main_v86, main_v87, main_v88, main_v89, main_v90, main_v91, main_v92, main_v93, main_v94, main_v95, main_v96, main_v97, main_v98, main_cst_11, main_v99, main_cst_12, main_v100, main_v101, main_c_13, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v102, main_v103]
/-- The buffers window 2's operations write. -/
abbrev ops_part2_W : List (Ref sig .tc) := [main_v104, main_v105, main_v106, main_v107, main_v108, main_v109, main_v110, main_cst_14, main_v111, main_v112, main_v113, main_v114, main_v115, main_v116, main_v117, main_v118, main_v119, main_v120, main_v121, main_call3_cst, main_call3_v0, main_v122, main_c_15, main_v123, main_v124, main_c_16, main_v125, main_v126, main_v127, main_v128, main_v129, main_v130, main_v131, main_v132, main_v133, main_cst_17, main_v134, main_v135, main_v136, main_v137, main_v138, main_v139, main_v140, main_v141, main_v142, main_v143, main_v144, main_v145, main_v146, main_v147, main_v148, main_v149, main_v150, main_cst_18, main_v151, main_cst_19, main_v152, main_v153, main_c_20, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v154, main_v155, main_v156]
/-- The buffers window 3's operations write. -/
abbrev ops_part3_W : List (Ref sig .tc) := [main_v157, main_v158, main_v159, main_v160, main_v161, main_v162, main_cst_21, main_v163, main_v164, main_v165, main_v166, main_v167, main_v168, main_v169, main_v170, main_v171, main_v172, main_v173, main_call5_cst, main_call5_v0, main_v174, main_c_22, main_v175, main_v176, main_c_23, main_v177, main_v178, main_v179, main_v180, main_v181, main_v182, main_v183, main_v184, main_v185, main_cst_24, main_v186, main_v187, main_v188, main_v189, main_v190, main_v191, main_v192, main_v193, main_v194, main_v195, main_v196, main_v197, main_v198, main_v199, main_v200, main_v201, main_v202, main_cst_25, main_v203, main_cst_26, main_v204, main_v205, main_c_27, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v206, main_v207, main_v208, main_v209]
/-- The buffers window 4's operations write. -/
abbrev ops_part4_W : List (Ref sig .tc) := [main_v210, main_v211, main_v212, main_v213, main_v214, main_cst_28, main_v215, main_v216, main_v217, main_v218, main_v219, main_v220, main_v221, main_v222, main_v223, main_v224, main_v225, main_call7_cst, main_call7_v0, main_v226, main_c_29, main_v227, main_v228, main_c_30, main_v229, main_v230, main_v231, main_v232, main_v233, main_v234, main_v235, main_v236, main_v237, main_cst_31, main_v238, main_v239, main_v240, main_v241, main_v242, main_v243, main_v244, main_v245, main_v246, main_v247, main_v248, main_v249, main_v250, main_v251, main_v252, main_v253, main_v254, main_cst_32, main_v255, main_cst_33, main_v256, main_v257, main_c_34, main_call8_cst, main_call8_v0, main_call8_v1, main_call8_cst_0, main_call8_v2, main_call8_v3, main_call8_v4, main_call8_v5, main_call8_v6, main_call8_v7, main_call8_cst_1, main_call8_v8, main_call8_cst_2, main_call8_v9, main_call8_v10, main_call8_v11, main_call8_cst_3, main_call8_v12, main_call8_cst_4, main_call8_call0_v0, main_call8_call0_v1, main_v258, main_v259, main_v260, main_v261, main_v262]
/-- The buffers window 5's operations write. -/
abbrev ops_part5_W : List (Ref sig .tc) := [main_v263, main_v264, main_v265, main_v266, main_cst_35, main_v267, main_v268, main_v269, main_v270, main_v271, main_v272, main_v273, main_v274, main_v275, main_v276, main_v277, main_cst_36, main_v278, main_v279, main_v280, main_cst_37, main_v281, main_v282, main_v283, main_cst_38, main_v284, main_v285, main_v286, main_cst_39, main_v287, main_v288, main_v289, main_cst_40, main_v290, main_v291, main_v292, main_v293]

end Cert.ReferenceIdeal.RefRun

end
-- ==== Proof.RefRun.lean ====
/- The reference's run. Its @main is a straight line of 450 host operations (the lists of RefOps), so every weakly fair
   execution ends with each buffer holding the fold of those operations over the launch contents. None of the operations
   writes an argument buffer: each window's operations write only the buffers listed for it, and no argument is in a list;
   hence the fourteen arguments end as they were launched, which is the reference's frame. -/
import proofs.«144276_j65051574665788_2_alg».proof.Proof.RefOps
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- One operation's written buffer is a member of the window's list. -/
local macro "written_is_listed" : tactic =>
  `(tactic| (simp only [nullary_writes, unary_writes, binary_writes, ternary_writes, reshape_writes, nary_writes,
      Finset.singleton_subset_iff, List.mem_toFinset]; exact List.mem_map_of_mem (by decide)))

set_option maxRecDepth 16384 in
theorem ops_part0_writes : (ops_part0 : List (HloOp τ sig (Elt F))).Forall fun op =>
    op.writes ⊆ (ops_part0_W.map (Proc.devRef (τ := τ) .tc)).toFinset := by
  simp only [List.Forall]; repeat' constructor
  all_goals written_is_listed
set_option maxRecDepth 16384 in
theorem ops_part1_writes : (ops_part1 : List (HloOp τ sig (Elt F))).Forall fun op =>
    op.writes ⊆ (ops_part1_W.map (Proc.devRef (τ := τ) .tc)).toFinset := by
  simp only [List.Forall]; repeat' constructor
  all_goals written_is_listed
set_option maxRecDepth 16384 in
theorem ops_part2_writes : (ops_part2 : List (HloOp τ sig (Elt F))).Forall fun op =>
    op.writes ⊆ (ops_part2_W.map (Proc.devRef (τ := τ) .tc)).toFinset := by
  simp only [List.Forall]; repeat' constructor
  all_goals written_is_listed
set_option maxRecDepth 16384 in
theorem ops_part3_writes : (ops_part3 : List (HloOp τ sig (Elt F))).Forall fun op =>
    op.writes ⊆ (ops_part3_W.map (Proc.devRef (τ := τ) .tc)).toFinset := by
  simp only [List.Forall]; repeat' constructor
  all_goals written_is_listed
set_option maxRecDepth 16384 in
theorem ops_part4_writes : (ops_part4 : List (HloOp τ sig (Elt F))).Forall fun op =>
    op.writes ⊆ (ops_part4_W.map (Proc.devRef (τ := τ) .tc)).toFinset := by
  simp only [List.Forall]; repeat' constructor
  all_goals written_is_listed
set_option maxRecDepth 16384 in
theorem ops_part5_writes : (ops_part5 : List (HloOp τ sig (Elt F))).Forall fun op =>
    op.writes ⊆ (ops_part5_W.map (Proc.devRef (τ := τ) .tc)).toFinset := by
  simp only [List.Forall]; repeat' constructor
  all_goals written_is_listed

/-- A buffer in none of the six lists holds after all of @main what it held before. -/
theorem kept (V : Valuation τ sig (Elt F)) (r : Ref sig .tc)
    (h0 : r ∉ ops_part0_W) (h1 : r ∉ ops_part1_W) (h2 : r ∉ ops_part2_W) (h3 : r ∉ ops_part3_W)
    (h4 : r ∉ ops_part4_W) (h5 : r ∉ ops_part5_W) :
    after ops V (Proc.devRef .tc r) = V (Proc.devRef .tc r) := by
  simp only [ops, StableHlo.after_append]
  rw [after_of_writes_sub ops_part5 _ ops_part5_writes h5, after_of_writes_sub ops_part4 _ ops_part4_writes h4,
    after_of_writes_sub ops_part3 _ ops_part3_writes h3, after_of_writes_sub ops_part2 _ ops_part2_writes h2,
    after_of_writes_sub ops_part1 _ ops_part1_writes h1, after_of_writes_sub ops_part0 _ ops_part0_writes h0]

/-- On every device, from any memory with zero counters, every weakly fair execution of @main terminates, and each
    buffer ends at the fold of the 450 operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

/-- The reference's frame: the run ends, and every argument buffer holds its launch contents. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c =>
    ⟨(h c main_arg0).trans (kept _ main_arg0 (by decide) (by decide) (by decide) (by decide) (by decide) (by decide)),
     (h c main_arg1).trans (kept _ main_arg1 (by decide) (by decide) (by decide) (by decide) (by decide) (by decide)),
     (h c main_arg2).trans (kept _ main_arg2 (by decide) (by decide) (by decide) (by decide) (by decide) (by decide)),
     (h c main_arg3).trans (kept _ main_arg3 (by decide) (by decide) (by decide) (by decide) (by decide) (by decide)),
     (h c main_arg4).trans (kept _ main_arg4 (by decide) (by decide) (by decide) (by decide) (by decide) (by decide)),
     (h c main_arg5).trans (kept _ main_arg5 (by decide) (by decide) (by decide) (by decide) (by decide) (by decide)),
     (h c main_arg6).trans (kept _ main_arg6 (by decide) (by decide) (by decide) (by decide) (by decide) (by decide)),
     (h c main_arg7).trans (kept _ main_arg7 (by decide) (by decide) (by decide) (by decide) (by decide) (by decide)),
     (h c main_arg8).trans (kept _ main_arg8 (by decide) (by decide) (by decide) (by decide) (by decide) (by decide)),
     (h c main_arg9).trans (kept _ main_arg9 (by decide) (by decide) (by decide) (by decide) (by decide) (by decide)),
     (h c main_arg10).trans (kept _ main_arg10 (by decide) (by decide) (by decide) (by decide) (by decide) (by decide)),
     (h c main_arg11).trans (kept _ main_arg11 (by decide) (by decide) (by decide) (by decide) (by decide) (by decide)),
     (h c main_arg12).trans (kept _ main_arg12 (by decide) (by decide) (by decide) (by decide) (by decide) (by decide)),
     (h c main_arg13).trans (kept _ main_arg13 (by decide) (by decide) (by decide) (by decide) (by decide) (by decide))⟩)
    (run_main m ρ)

end Cert.ReferenceIdeal.RefRun

end
-- ==== Proof.RefLayers.lean ====
/- The reference's 450 operations cut where its mathematics cuts: a prelude (the two index rows, the encoded nodes
   `x · W_atom + b_atom`, the encoded edges `edge_attr · W_bond + b_bond`, the in-degree and the denominator
   `max(degree, 1)`), five layers (gather, add, weight, scatter-add, divide; the two products and the bias; the column
   means and variances; the normalisation; on all but the last a relu), and the five per-graph sums joined side by side.
   Then stretches of it as single composed terms over the buffers they read from outside the stretch. -/
import proofs.«144276_j65051574665788_2_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1 to 22 of @main. -/
abbrev opsPre : List (HloOp τ sig (Elt F)) :=
  [ unary main_arg2 main_v0 ((extractStridedSlice S1x600000 ![0, 0] · slices_S2x600000_S1x600000_0_0) : (⟨S2x600000, .i32⟩ : BufTy).Contents (Elt F) → (⟨S1x600000, .i32⟩ : BufTy).Contents (Elt F)),
    reshape main_v0 main_v1 rfl shapeCasts_S1x600000_S600000,
    unary main_arg2 main_v2 ((extractStridedSlice S1x600000 ![1, 0] · slices_S2x600000_S1x600000_1_0) : (⟨S2x600000, .i32⟩ : BufTy).Contents (Elt F) → (⟨S1x600000, .i32⟩ : BufTy).Contents (Elt F)),
    reshape main_v2 main_v3 rfl shapeCasts_S1x600000_S600000,
    binary main_arg1 main_arg5 main_v4 ((fun l r => Host.dotGeneral dot_S50000x48_S48x128_S50000x128_1_0_0_1_n_n none l r) : (⟨S50000x48, .f32⟩ : BufTy).Contents (Elt F) → (⟨S48x128, .f32⟩ : BufTy).Contents (Elt F) → (⟨S50000x128, .f32⟩ : BufTy).Contents (Elt F)),
    unary main_arg6 main_v5 (broadcastInDim S1x128 ![1] bcast_S128_S1x128_1 : (⟨S128, .f32⟩ : BufTy).Contents (Elt F) → (⟨S1x128, .f32⟩ : BufTy).Contents (Elt F)),
    unary main_v5 main_v6 (broadcastInDim S50000x128 ![0, 1] bcast_S1x128_S50000x128_0_1 : (⟨S1x128, .f32⟩ : BufTy).Contents (Elt F) → (⟨S50000x128, .f32⟩ : BufTy).Contents (Elt F)),
    binary main_v4 main_v6 main_v7 (addf : (⟨S50000x128, .f32⟩ : BufTy).Contents (Elt F) → (⟨S50000x128, .f32⟩ : BufTy).Contents (Elt F) → (⟨S50000x128, .f32⟩ : BufTy).Contents (Elt F)),
    binary main_arg3 main_arg7 main_v8 ((fun l r => Host.dotGeneral dot_S600000x11_S11x128_S600000x128_1_0_0_1_n_n none l r) : (⟨S600000x11, .f32⟩ : BufTy).Contents (Elt F) → (⟨S11x128, .f32⟩ : BufTy).Contents (Elt F) → (⟨S600000x128, .f32⟩ : BufTy).Contents (Elt F)),
    unary main_arg8 main_v9 (broadcastInDim S1x128 ![1] bcast_S128_S1x128_1 : (⟨S128, .f32⟩ : BufTy).Contents (Elt F) → (⟨S1x128, .f32⟩ : BufTy).Contents (Elt F)),
    unary main_v9 main_v10 (broadcastInDim S600000x128 ![0, 1] bcast_S1x128_S600000x128_0_1 : (⟨S1x128, .f32⟩ : BufTy).Contents (Elt F) → (⟨S600000x128, .f32⟩ : BufTy).Contents (Elt F)),
    binary main_v8 main_v10 main_v11 (addf : (⟨S600000x128, .f32⟩ : BufTy).Contents (Elt F) → (⟨S600000x128, .f32⟩ : BufTy).Contents (Elt F) → (⟨S600000x128, .f32⟩ : BufTy).Contents (Elt F)),
    nullary main_cst (constant S_ .f32 0x3F800000#32),
    unary main_cst main_v12 (broadcastInDim S600000 ![] bcast_S_S600000 : (⟨S_, .f32⟩ : BufTy).Contents (Elt F) → (⟨S600000, .f32⟩ : BufTy).Contents (Elt F)),
    nullary main_cst_0 (constant S_ .f32 0x00000000#32),
    unary main_cst_0 main_v13 (broadcastInDim S50000 ![] bcast_S_S50000 : (⟨S_, .f32⟩ : BufTy).Contents (Elt F) → (⟨S50000, .f32⟩ : BufTy).Contents (Elt F)),
    unary main_v3 main_v14 (broadcastInDim S600000x1 ![0] bcast_S600000_S600000x1_0 : (⟨S600000, .i32⟩ : BufTy).Contents (Elt F) → (⟨S600000x1, .i32⟩ : BufTy).Contents (Elt F)),
    ternary main_v13 main_v14 main_v12 main_v15 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    nullary main_cst_1 (constant S_ .f32 0x3F800000#32),
    unary main_cst_1 main_v16 (broadcastInDim S50000 ![] bcast_S_S50000 : (⟨S_, .f32⟩ : BufTy).Contents (Elt F) → (⟨S50000, .f32⟩ : BufTy).Contents (Elt F)),
    binary main_v15 main_v16 main_v17 (maximumf : (⟨S50000, .f32⟩ : BufTy).Contents (Elt F) → (⟨S50000, .f32⟩ : BufTy).Contents (Elt F) → (⟨S50000, .f32⟩ : BufTy).Contents (Elt F)),
    unary main_v17 main_v18 (broadcastInDim S50000x1 ![0] bcast_S50000_S50000x1_0 : (⟨S50000, .f32⟩ : BufTy).Contents (Elt F) → (⟨S50000x1, .f32⟩ : BufTy).Contents (Elt F)) ]

/-- The buffers opsPre writes. -/
abbrev opsPre_W : List (Ref sig .tc) := [main_v0, main_v1, main_v2, main_v3, main_v4, main_v5, main_v6, main_v7, main_v8, main_v9, main_v10, main_v11, main_cst, main_v12, main_cst_0, main_v13, main_v14, main_v15, main_cst_1, main_v16, main_v17, main_v18]

/-- Operations 23 to 104 of @main. -/
abbrev opsL0 : List (HloOp τ sig (Elt F)) :=
  [ nullary main_c (constantI S_ 32 0#32),
    unary main_c main_v19 (broadcastInDim S600000 ![] bcast_S_S600000 : (⟨S_, .i32⟩ : BufTy).Contents (Elt F) → (⟨S600000, .i32⟩ : BufTy).Contents (Elt F)),
    binary main_v1 main_v19 main_v20 (cmpi .slt : (⟨S600000, .i32⟩ : BufTy).Contents (Elt F) → (⟨S600000, .i32⟩ : BufTy).Contents (Elt F) → (⟨S600000, .i1⟩ : BufTy).Contents (Elt F)),
    nullary main_c_2 (constantI S_ 32 50000#32),
    unary main_c_2 main_v21 (broadcastInDim S600000 ![] bcast_S_S600000 : (⟨S_, .i32⟩ : BufTy).Contents (Elt F) → (⟨S600000, .i32⟩ : BufTy).Contents (Elt F)),
    binary main_v1 main_v21 main_v22 (addi : (⟨S600000, .i32⟩ : BufTy).Contents (Elt F) → (⟨S600000, .i32⟩ : BufTy).Contents (Elt F) → (⟨S600000, .i32⟩ : BufTy).Contents (Elt F)),
    ternary main_v20 main_v22 main_v1 main_v23 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v23 main_v24 (broadcastInDim S600000x1 ![0] bcast_S600000_S600000x1_0 : (⟨S600000, .i32⟩ : BufTy).Contents (Elt F) → (⟨S600000x1, .i32⟩ : BufTy).Contents (Elt F)),
    binary main_v7 main_v24 main_v25 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    binary main_v25 main_v11 main_v26 (addf : (⟨S600000x128, .f32⟩ : BufTy).Contents (Elt F) → (⟨S600000x128, .f32⟩ : BufTy).Contents (Elt F) → (⟨S600000x128, .f32⟩ : BufTy).Contents (Elt F)),
    unary main_arg4 main_v27 (broadcastInDim S600000x1 ![0] bcast_S600000_S600000x1_0 : (⟨S600000, .f32⟩ : BufTy).Contents (Elt F) → (⟨S600000x1, .f32⟩ : BufTy).Contents (Elt F)),
    unary main_v27 main_v28 (broadcastInDim S600000x128 ![0, 1] bcast_S600000x1_S600000x128_0_1 : (⟨S600000x1, .f32⟩ : BufTy).Contents (Elt F) → (⟨S600000x128, .f32⟩ : BufTy).Contents (Elt F)),
    binary main_v26 main_v28 main_v29 (mulf : (⟨S600000x128, .f32⟩ : BufTy).Contents (Elt F) → (⟨S600000x128, .f32⟩ : BufTy).Contents (Elt F) → (⟨S600000x128, .f32⟩ : BufTy).Contents (Elt F)),
    nullary main_cst_3 (constant S_ .f32 0x00000000#32),
    unary main_cst_3 main_v30 (broadcastInDim S50000x128 ![] bcast_S_S50000x128 : (⟨S_, .f32⟩ : BufTy).Contents (Elt F) → (⟨S50000x128, .f32⟩ : BufTy).Contents (Elt F)),
    unary main_v3 main_v31 (broadcastInDim S600000x1 ![0] bcast_S600000_S600000x1_0 : (⟨S600000, .i32⟩ : BufTy).Contents (Elt F) → (⟨S600000x1, .i32⟩ : BufTy).Contents (Elt F)),
    ternary main_v30 main_v31 main_v29 main_v32 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    unary main_v18 main_v33 (broadcastInDim S50000x128 ![0, 1] bcast_S50000x1_S50000x128_0_1 : (⟨S50000x1, .f32⟩ : BufTy).Contents (Elt F) → (⟨S50000x128, .f32⟩ : BufTy).Contents (Elt F)),
    binary main_v32 main_v33 main_v34 (Host.divf : (⟨S50000x128, .f32⟩ : BufTy).Contents (Elt F) → (⟨S50000x128, .f32⟩ : BufTy).Contents (Elt F) → (⟨S50000x128, .f32⟩ : BufTy).Contents (Elt F)),
    unary main_arg9 main_v35 ((extractStridedSlice S1x128x128 ![0, 0, 0] · slices_S5x128x128_S1x128x128_0_0_0) : (⟨S5x128x128, .f32⟩ : BufTy).Contents (Elt F) → (⟨S1x128x128, .f32⟩ : BufTy).Contents (Elt F)),
    reshape main_v35 main_v36 rfl shapeCasts_S1x128x128_S128x128,
    binary main_v34 main_v36 main_v37 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg10 main_v38 ((extractStridedSlice S1x128 ![0, 0] · slices_S5x128_S1x128_0_0) : (⟨S5x128, .f32⟩ : BufTy).Contents (Elt F) → (⟨S1x128, .f32⟩ : BufTy).Contents (Elt F)),
    reshape main_v38 main_v39 rfl shapeCasts_S1x128_S128,
    unary main_v39 main_v40 (broadcastInDim S1x128 ![1] bcast_S128_S1x128_1 : (⟨S128, .f32⟩ : BufTy).Contents (Elt F) → (⟨S1x128, .f32⟩ : BufTy).Contents (Elt F)),
    unary main_v40 main_v41 (broadcastInDim S50000x128 ![0, 1] bcast_S1x128_S50000x128_0_1 : (⟨S1x128, .f32⟩ : BufTy).Contents (Elt F) → (⟨S50000x128, .f32⟩ : BufTy).Contents (Elt F)),
    binary main_v37 main_v41 main_v42 (addf : (⟨S50000x128, .f32⟩ : BufTy).Contents (Elt F) → (⟨S50000x128, .f32⟩ : BufTy).Contents (Elt F) → (⟨S50000x128, .f32⟩ : BufTy).Contents (Elt F)),
    unary main_arg11 main_v43 ((extractStridedSlice S1x128x128 ![0, 0, 0] · slices_S5x128x128_S1x128x128_0_0_0) : (⟨S5x128x128, .f32⟩ : BufTy).Contents (Elt F) → (⟨S1x128x128, .f32⟩ : BufTy).Contents (Elt F)),
    reshape main_v43 main_v44 rfl shapeCasts_S1x128x128_S128x128,
    binary main_v7 main_v44 main_v45 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v42 main_v45 main_v46 (addf : (⟨S50000x128, .f32⟩ : BufTy).Contents (Elt F) → (⟨S50000x128, .f32⟩ : BufTy).Contents (Elt F) → (⟨S50000x128, .f32⟩ : BufTy).Contents (Elt F)),
    nullary main_cst_4 (constant S_ .f32 0x00000000#32),
    binary main_v46 main_cst_4 main_v47 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_5 (constant S_ .f32 0x47435000#32),
    unary main_cst_5 main_v48 (broadcastInDim S128 ![] bcast_S_S128 : (⟨S_, .f32⟩ : BufTy).Contents (Elt F) → (⟨S128, .f32⟩ : BufTy).Contents (Elt F)),
    binary main_v47 main_v48 main_v49 (Host.divf : (⟨S128, .f32⟩ : BufTy).Contents (Elt F) → (⟨S128, .f32⟩ : BufTy).Contents (Elt F) → (⟨S128, .f32⟩ : BufTy).Contents (Elt F)),
    nullary main_c_6 (constantI S_ 32 0#32),
    TRef.nullary main_call0.cst (constant S_ .f32 0x00000000#32),
    TRef.binary (.of main_v46) main_call0.cst main_call0.v0 (fun x v => Host.reduceAdd x v reducesTo_S50000x128_S128_d0 h_S_),
    TRef.unary main_call0.v0 main_call0.v1 (broadcastInDim S1x128 ![1] bcast_S128_S1x128_1),
    TRef.nullary main_call0.cst_0 (constant S_ .f32 0x47435000#32),
    TRef.unary main_call0.cst_0 main_call0.v2 (broadcastInDim S1x128 ![] bcast_S_S1x128),
    TRef.binary main_call0.v1 main_call0.v2 main_call0.v3 Host.divf,
    TRef.unary main_call0.v3 main_call0.v4 (broadcastInDim S50000x128 ![0, 1] bcast_S1x128_S50000x128_0_1),
    TRef.binary (.of main_v46) main_call0.v4 main_call0.v5 subf,
    TRef.binary main_call0.v5 main_call0.v5 main_call0.v6 mulf,
    TRef.unary (.of main_c_6) main_call0.v7 (sitofp .f32),
    TRef.nullary main_call0.cst_1 (constant S_ .f32 0x47435000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S50000x128_S128_d0 h_S_),
    TRef.unary main_call0.v8 main_call0.v10 (broadcastInDim S128 ![] bcast_S_S128),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S128 ![] bcast_S_S128),
    TRef.ternary main_call0.v12 main_call0.v11 main_call0.call0.v1 main_call0.call0.v2 (fun p a b => select (broadcastInDim S128 ![] bcast_S_S128 p) a b),
    unary main_arg12 main_v51 ((extractStridedSlice S1x128 ![0, 0] · slices_S5x128_S1x128_0_0) : (⟨S5x128, .f32⟩ : BufTy).Contents (Elt F) → (⟨S1x128, .f32⟩ : BufTy).Contents (Elt F)),
    reshape main_v51 main_v52 rfl shapeCasts_S1x128_S128,
    unary main_v49 main_v53 (broadcastInDim S1x128 ![1] bcast_S128_S1x128_1 : (⟨S128, .f32⟩ : BufTy).Contents (Elt F) → (⟨S1x128, .f32⟩ : BufTy).Contents (Elt F)),
    unary main_v53 main_v54 (broadcastInDim S50000x128 ![0, 1] bcast_S1x128_S50000x128_0_1 : (⟨S1x128, .f32⟩ : BufTy).Contents (Elt F) → (⟨S50000x128, .f32⟩ : BufTy).Contents (Elt F)),
    binary main_v46 main_v54 main_v55 (subf : (⟨S50000x128, .f32⟩ : BufTy).Contents (Elt F) → (⟨S50000x128, .f32⟩ : BufTy).Contents (Elt F) → (⟨S50000x128, .f32⟩ : BufTy).Contents (Elt F)),
    unary main_v52 main_v56 (broadcastInDim S1x128 ![1] bcast_S128_S1x128_1 : (⟨S128, .f32⟩ : BufTy).Contents (Elt F) → (⟨S1x128, .f32⟩ : BufTy).Contents (Elt F)),
    unary main_v56 main_v57 (broadcastInDim S50000x128 ![0, 1] bcast_S1x128_S50000x128_0_1 : (⟨S1x128, .f32⟩ : BufTy).Contents (Elt F) → (⟨S50000x128, .f32⟩ : BufTy).Contents (Elt F)),
    binary main_v57 main_v55 main_v58 (mulf : (⟨S50000x128, .f32⟩ : BufTy).Contents (Elt F) → (⟨S50000x128, .f32⟩ : BufTy).Contents (Elt F) → (⟨S50000x128, .f32⟩ : BufTy).Contents (Elt F)),
    nullary main_cst_7 (constant S_ .f32 0x3727C5AC#32),
    unary main_cst_7 main_v59 (broadcastInDim S128 ![] bcast_S_S128 : (⟨S_, .f32⟩ : BufTy).Contents (Elt F) → (⟨S128, .f32⟩ : BufTy).Contents (Elt F)),
    binary main_v50 main_v59 main_v60 (addf : (⟨S128, .f32⟩ : BufTy).Contents (Elt F) → (⟨S128, .f32⟩ : BufTy).Contents (Elt F) → (⟨S128, .f32⟩ : BufTy).Contents (Elt F)),
    unary main_v60 main_v61 (Host.rsqrt : (⟨S128, .f32⟩ : BufTy).Contents (Elt F) → (⟨S128, .f32⟩ : BufTy).Contents (Elt F)),
    unary main_v61 main_v62 (broadcastInDim S1x128 ![1] bcast_S128_S1x128_1 : (⟨S128, .f32⟩ : BufTy).Contents (Elt F) → (⟨S1x128, .f32⟩ : BufTy).Contents (Elt F)),
    unary main_v62 main_v63 (broadcastInDim S50000x128 ![0, 1] bcast_S1x128_S50000x128_0_1 : (⟨S1x128, .f32⟩ : BufTy).Contents (Elt F) → (⟨S50000x128, .f32⟩ : BufTy).Contents (Elt F)),
    binary main_v58 main_v63 main_v64 (mulf : (⟨S50000x128, .f32⟩ : BufTy).Contents (Elt F) → (⟨S50000x128, .f32⟩ : BufTy).Contents (Elt F) → (⟨S50000x128, .f32⟩ : BufTy).Contents (Elt F)),
    unary main_arg13 main_v65 ((extractStridedSlice S1x128 ![0, 0] · slices_S5x128_S1x128_0_0) : (⟨S5x128, .f32⟩ : BufTy).Contents (Elt F) → (⟨S1x128, .f32⟩ : BufTy).Contents (Elt F)),
    reshape main_v65 main_v66 rfl shapeCasts_S1x128_S128,
    unary main_v66 main_v67 (broadcastInDim S1x128 ![1] bcast_S128_S1x128_1 : (⟨S128, .f32⟩ : BufTy).Contents (Elt F) → (⟨S1x128, .f32⟩ : BufTy).Contents (Elt F)),
    unary main_v67 main_v68 (broadcastInDim S50000x128 ![0, 1] bcast_S1x128_S50000x128_0_1 : (⟨S1x128, .f32⟩ : BufTy).Contents (Elt F) → (⟨S50000x128, .f32⟩ : BufTy).Contents (Elt F)),
    binary main_v64 main_v68 main_v69 (addf : (⟨S50000x128, .f32⟩ : BufTy).Contents (Elt F) → (⟨S50000x128, .f32⟩ : BufTy).Contents (Elt F) → (⟨S50000x128, .f32⟩ : BufTy).Contents (Elt F)),
    TRef.nullary main_call1.cst (constant S_ .f32 0x00000000#32),
    TRef.unary main_call1.cst main_call1.v0 (broadcastInDim S50000x128 ![] bcast_S_S50000x128),
    TRef.binary (.of main_v69) main_call1.v0 main_call1.v1 maximumf ]

/-- The buffers opsL0 writes. -/
abbrev opsL0_W : List (Ref sig .tc) := [main_c, main_v19, main_v20, main_c_2, main_v21, main_v22, main_v23, main_v24, main_v25, main_v26, main_v27, main_v28, main_v29, main_cst_3, main_v30, main_v31, main_v32, main_v33, main_v34, main_v35, main_v36, main_v37, main_v38, main_v39, main_v40, main_v41, main_v42, main_v43, main_v44, main_v45, main_v46, main_cst_4, main_v47, main_cst_5, main_v48, main_v49, main_c_6, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v50, main_v51, main_v52, main_v53, main_v54, main_v55, main_v56, main_v57, main_v58, main_cst_7, main_v59, main_v60, main_v61, main_v62, main_v63, main_v64, main_v65, main_v66, main_v67, main_v68, main_v69, main_call1_cst, main_call1_v0, main_v70]

/-- Operations 105 to 186 of @main. -/
abbrev opsL1 : List (HloOp τ sig (Elt F)) :=
  [ nullary main_c_8 (constantI S_ 32 0#32),
    unary main_c_8 main_v71 (broadcastInDim S600000 ![] bcast_S_S600000 : (⟨S_, .i32⟩ : BufTy).Contents (Elt F) → (⟨S600000, .i32⟩ : BufTy).Contents (Elt F)),
    binary main_v1 main_v71 main_v72 (cmpi .slt : (⟨S600000, .i32⟩ : BufTy).Contents (Elt F) → (⟨S600000, .i32⟩ : BufTy).Contents (Elt F) → (⟨S600000, .i1⟩ : BufTy).Contents (Elt F)),
    nullary main_c_9 (constantI S_ 32 50000#32),
    unary main_c_9 main_v73 (broadcastInDim S600000 ![] bcast_S_S600000 : (⟨S_, .i32⟩ : BufTy).Contents (Elt F) → (⟨S600000, .i32⟩ : BufTy).Contents (Elt F)),
    binary main_v1 main_v73 main_v74 (addi : (⟨S600000, .i32⟩ : BufTy).Contents (Elt F) → (⟨S600000, .i32⟩ : BufTy).Contents (Elt F) → (⟨S600000, .i32⟩ : BufTy).Contents (Elt F)),
    ternary main_v72 main_v74 main_v1 main_v75 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v75 main_v76 (broadcastInDim S600000x1 ![0] bcast_S600000_S600000x1_0 : (⟨S600000, .i32⟩ : BufTy).Contents (Elt F) → (⟨S600000x1, .i32⟩ : BufTy).Contents (Elt F)),
    binary main_v70 main_v76 main_v77 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    binary main_v77 main_v11 main_v78 (addf : (⟨S600000x128, .f32⟩ : BufTy).Contents (Elt F) → (⟨S600000x128, .f32⟩ : BufTy).Contents (Elt F) → (⟨S600000x128, .f32⟩ : BufTy).Contents (Elt F)),
    unary main_arg4 main_v79 (broadcastInDim S600000x1 ![0] bcast_S600000_S600000x1_0 : (⟨S600000, .f32⟩ : BufTy).Contents (Elt F) → (⟨S600000x1, .f32⟩ : BufTy).Contents (Elt F)),
    unary main_v79 main_v80 (broadcastInDim S600000x128 ![0, 1] bcast_S600000x1_S600000x128_0_1 : (⟨S600000x1, .f32⟩ : BufTy).Contents (Elt F) → (⟨S600000x128, .f32⟩ : BufTy).Contents (Elt F)),
    binary main_v78 main_v80 main_v81 (mulf : (⟨S600000x128, .f32⟩ : BufTy).Contents (Elt F) → (⟨S600000x128, .f32⟩ : BufTy).Contents (Elt F) → (⟨S600000x128, .f32⟩ : BufTy).Contents (Elt F)),
    nullary main_cst_10 (constant S_ .f32 0x00000000#32),
    unary main_cst_10 main_v82 (broadcastInDim S50000x128 ![] bcast_S_S50000x128 : (⟨S_, .f32⟩ : BufTy).Contents (Elt F) → (⟨S50000x128, .f32⟩ : BufTy).Contents (Elt F)),
    unary main_v3 main_v83 (broadcastInDim S600000x1 ![0] bcast_S600000_S600000x1_0 : (⟨S600000, .i32⟩ : BufTy).Contents (Elt F) → (⟨S600000x1, .i32⟩ : BufTy).Contents (Elt F)),
    ternary main_v82 main_v83 main_v81 main_v84 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    unary main_v18 main_v85 (broadcastInDim S50000x128 ![0, 1] bcast_S50000x1_S50000x128_0_1 : (⟨S50000x1, .f32⟩ : BufTy).Contents (Elt F) → (⟨S50000x128, .f32⟩ : BufTy).Contents (Elt F)),
    binary main_v84 main_v85 main_v86 (Host.divf : (⟨S50000x128, .f32⟩ : BufTy).Contents (Elt F) → (⟨S50000x128, .f32⟩ : BufTy).Contents (Elt F) → (⟨S50000x128, .f32⟩ : BufTy).Contents (Elt F)),
    unary main_arg9 main_v87 ((extractStridedSlice S1x128x128 ![1, 0, 0] · slices_S5x128x128_S1x128x128_1_0_0) : (⟨S5x128x128, .f32⟩ : BufTy).Contents (Elt F) → (⟨S1x128x128, .f32⟩ : BufTy).Contents (Elt F)),
    reshape main_v87 main_v88 rfl shapeCasts_S1x128x128_S128x128,
    binary main_v86 main_v88 main_v89 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg10 main_v90 ((extractStridedSlice S1x128 ![1, 0] · slices_S5x128_S1x128_1_0) : (⟨S5x128, .f32⟩ : BufTy).Contents (Elt F) → (⟨S1x128, .f32⟩ : BufTy).Contents (Elt F)),
    reshape main_v90 main_v91 rfl shapeCasts_S1x128_S128,
    unary main_v91 main_v92 (broadcastInDim S1x128 ![1] bcast_S128_S1x128_1 : (⟨S128, .f32⟩ : BufTy).Contents (Elt F) → (⟨S1x128, .f32⟩ : BufTy).Contents (Elt F)),
    unary main_v92 main_v93 (broadcastInDim S50000x128 ![0, 1] bcast_S1x128_S50000x128_0_1 : (⟨S1x128, .f32⟩ : BufTy).Contents (Elt F) → (⟨S50000x128, .f32⟩ : BufTy).Contents (Elt F)),
    binary main_v89 main_v93 main_v94 (addf : (⟨S50000x128, .f32⟩ : BufTy).Contents (Elt F) → (⟨S50000x128, .f32⟩ : BufTy).Contents (Elt F) → (⟨S50000x128, .f32⟩ : BufTy).Contents (Elt F)),
    unary main_arg11 main_v95 ((extractStridedSlice S1x128x128 ![1, 0, 0] · slices_S5x128x128_S1x128x128_1_0_0) : (⟨S5x128x128, .f32⟩ : BufTy).Contents (Elt F) → (⟨S1x128x128, .f32⟩ : BufTy).Contents (Elt F)),
    reshape main_v95 main_v96 rfl shapeCasts_S1x128x128_S128x128,
    binary main_v70 main_v96 main_v97 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v94 main_v97 main_v98 (addf : (⟨S50000x128, .f32⟩ : BufTy).Contents (Elt F) → (⟨S50000x128, .f32⟩ : BufTy).Contents (Elt F) → (⟨S50000x128, .f32⟩ : BufTy).Contents (Elt F)),
    nullary main_cst_11 (constant S_ .f32 0x00000000#32),
    binary main_v98 main_cst_11 main_v99 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_12 (constant S_ .f32 0x47435000#32),
    unary main_cst_12 main_v100 (broadcastInDim S128 ![] bcast_S_S128 : (⟨S_, .f32⟩ : BufTy).Contents (Elt F) → (⟨S128, .f32⟩ : BufTy).Contents (Elt F)),
    binary main_v99 main_v100 main_v101 (Host.divf : (⟨S128, .f32⟩ : BufTy).Contents (Elt F) → (⟨S128, .f32⟩ : BufTy).Contents (Elt F) → (⟨S128, .f32⟩ : BufTy).Contents (Elt F)),
    nullary main_c_13 (constantI S_ 32 0#32),
    TRef.nullary main_call2.cst (constant S_ .f32 0x00000000#32),
    TRef.binary (.of main_v98) main_call2.cst main_call2.v0 (fun x v => Host.reduceAdd x v reducesTo_S50000x128_S128_d0 h_S_),
    TRef.unary main_call2.v0 main_call2.v1 (broadcastInDim S1x128 ![1] bcast_S128_S1x128_1),
    TRef.nullary main_call2.cst_0 (constant S_ .f32 0x47435000#32),
    TRef.unary main_call2.cst_0 main_call2.v2 (broadcastInDim S1x128 ![] bcast_S_S1x128),
    TRef.binary main_call2.v1 main_call2.v2 main_call2.v3 Host.divf,
    TRef.unary main_call2.v3 main_call2.v4 (broadcastInDim S50000x128 ![0, 1] bcast_S1x128_S50000x128_0_1),
    TRef.binary (.of main_v98) main_call2.v4 main_call2.v5 subf,
    TRef.binary main_call2.v5 main_call2.v5 main_call2.v6 mulf,
    TRef.unary (.of main_c_13) main_call2.v7 (sitofp .f32),
    TRef.nullary main_call2.cst_1 (constant S_ .f32 0x47435000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S50000x128_S128_d0 h_S_),
    TRef.unary main_call2.v8 main_call2.v10 (broadcastInDim S128 ![] bcast_S_S128),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S128 ![] bcast_S_S128),
    TRef.ternary main_call2.v12 main_call2.v11 main_call2.call0.v1 main_call2.call0.v2 (fun p a b => select (broadcastInDim S128 ![] bcast_S_S128 p) a b),
    unary main_arg12 main_v103 ((extractStridedSlice S1x128 ![1, 0] · slices_S5x128_S1x128_1_0) : (⟨S5x128, .f32⟩ : BufTy).Contents (Elt F) → (⟨S1x128, .f32⟩ : BufTy).Contents (Elt F)),
    reshape main_v103 main_v104 rfl shapeCasts_S1x128_S128,
    unary main_v101 main_v105 (broadcastInDim S1x128 ![1] bcast_S128_S1x128_1 : (⟨S128, .f32⟩ : BufTy).Contents (Elt F) → (⟨S1x128, .f32⟩ : BufTy).Contents (Elt F)),
    unary main_v105 main_v106 (broadcastInDim S50000x128 ![0, 1] bcast_S1x128_S50000x128_0_1 : (⟨S1x128, .f32⟩ : BufTy).Contents (Elt F) → (⟨S50000x128, .f32⟩ : BufTy).Contents (Elt F)),
    binary main_v98 main_v106 main_v107 (subf : (⟨S50000x128, .f32⟩ : BufTy).Contents (Elt F) → (⟨S50000x128, .f32⟩ : BufTy).Contents (Elt F) → (⟨S50000x128, .f32⟩ : BufTy).Contents (Elt F)),
    unary main_v104 main_v108 (broadcastInDim S1x128 ![1] bcast_S128_S1x128_1 : (⟨S128, .f32⟩ : BufTy).Contents (Elt F) → (⟨S1x128, .f32⟩ : BufTy).Contents (Elt F)),
    unary main_v108 main_v109 (broadcastInDim S50000x128 ![0, 1] bcast_S1x128_S50000x128_0_1 : (⟨S1x128, .f32⟩ : BufTy).Contents (Elt F) → (⟨S50000x128, .f32⟩ : BufTy).Contents (Elt F)),
    binary main_v109 main_v107 main_v110 (mulf : (⟨S50000x128, .f32⟩ : BufTy).Contents (Elt F) → (⟨S50000x128, .f32⟩ : BufTy).Contents (Elt F) → (⟨S50000x128, .f32⟩ : BufTy).Contents (Elt F)),
    nullary main_cst_14 (constant S_ .f32 0x3727C5AC#32),
    unary main_cst_14 main_v111 (broadcastInDim S128 ![] bcast_S_S128 : (⟨S_, .f32⟩ : BufTy).Contents (Elt F) → (⟨S128, .f32⟩ : BufTy).Contents (Elt F)),
    binary main_v102 main_v111 main_v112 (addf : (⟨S128, .f32⟩ : BufTy).Contents (Elt F) → (⟨S128, .f32⟩ : BufTy).Contents (Elt F) → (⟨S128, .f32⟩ : BufTy).Contents (Elt F)),
    unary main_v112 main_v113 (Host.rsqrt : (⟨S128, .f32⟩ : BufTy).Contents (Elt F) → (⟨S128, .f32⟩ : BufTy).Contents (Elt F)),
    unary main_v113 main_v114 (broadcastInDim S1x128 ![1] bcast_S128_S1x128_1 : (⟨S128, .f32⟩ : BufTy).Contents (Elt F) → (⟨S1x128, .f32⟩ : BufTy).Contents (Elt F)),
    unary main_v114 main_v115 (broadcastInDim S50000x128 ![0, 1] bcast_S1x128_S50000x128_0_1 : (⟨S1x128, .f32⟩ : BufTy).Contents (Elt F) → (⟨S50000x128, .f32⟩ : BufTy).Contents (Elt F)),
    binary main_v110 main_v115 main_v116 (mulf : (⟨S50000x128, .f32⟩ : BufTy).Contents (Elt F) → (⟨S50000x128, .f32⟩ : BufTy).Contents (Elt F) → (⟨S50000x128, .f32⟩ : BufTy).Contents (Elt F)),
    unary main_arg13 main_v117 ((extractStridedSlice S1x128 ![1, 0] · slices_S5x128_S1x128_1_0) : (⟨S5x128, .f32⟩ : BufTy).Contents (Elt F) → (⟨S1x128, .f32⟩ : BufTy).Contents (Elt F)),
    reshape main_v117 main_v118 rfl shapeCasts_S1x128_S128,
    unary main_v118 main_v119 (broadcastInDim S1x128 ![1] bcast_S128_S1x128_1 : (⟨S128, .f32⟩ : BufTy).Contents (Elt F) → (⟨S1x128, .f32⟩ : BufTy).Contents (Elt F)),
    unary main_v119 main_v120 (broadcastInDim S50000x128 ![0, 1] bcast_S1x128_S50000x128_0_1 : (⟨S1x128, .f32⟩ : BufTy).Contents (Elt F) → (⟨S50000x128, .f32⟩ : BufTy).Contents (Elt F)),
    binary main_v116 main_v120 main_v121 (addf : (⟨S50000x128, .f32⟩ : BufTy).Contents (Elt F) → (⟨S50000x128, .f32⟩ : BufTy).Contents (Elt F) → (⟨S50000x128, .f32⟩ : BufTy).Contents (Elt F)),
    TRef.nullary main_call3.cst (constant S_ .f32 0x00000000#32),
    TRef.unary main_call3.cst main_call3.v0 (broadcastInDim S50000x128 ![] bcast_S_S50000x128),
    TRef.binary (.of main_v121) main_call3.v0 main_call3.v1 maximumf ]

/-- The buffers opsL1 writes. -/
abbrev opsL1_W : List (Ref sig .tc) := [main_c_8, main_v71, main_v72, main_c_9, main_v73, main_v74, main_v75, main_v76, main_v77, main_v78, main_v79, main_v80, main_v81, main_cst_10, main_v82, main_v83, main_v84, main_v85, main_v86, main_v87, main_v88, main_v89, main_v90, main_v91, main_v92, main_v93, main_v94, main_v95, main_v96, main_v97, main_v98, main_cst_11, main_v99, main_cst_12, main_v100, main_v101, main_c_13, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v102, main_v103, main_v104, main_v105, main_v106, main_v107, main_v108, main_v109, main_v110, main_cst_14, main_v111, main_v112, main_v113, main_v114, main_v115, main_v116, main_v117, main_v118, main_v119, main_v120, main_v121, main_call3_cst, main_call3_v0, main_v122]

/-- Operations 187 to 268 of @main. -/
abbrev opsL2 : List (HloOp τ sig (Elt F)) :=
  [ nullary main_c_15 (constantI S_ 32 0#32),
    unary main_c_15 main_v123 (broadcastInDim S600000 ![] bcast_S_S600000 : (⟨S_, .i32⟩ : BufTy).Contents (Elt F) → (⟨S600000, .i32⟩ : BufTy).Contents (Elt F)),
    binary main_v1 main_v123 main_v124 (cmpi .slt : (⟨S600000, .i32⟩ : BufTy).Contents (Elt F) → (⟨S600000, .i32⟩ : BufTy).Contents (Elt F) → (⟨S600000, .i1⟩ : BufTy).Contents (Elt F)),
    nullary main_c_16 (constantI S_ 32 50000#32),
    unary main_c_16 main_v125 (broadcastInDim S600000 ![] bcast_S_S600000 : (⟨S_, .i32⟩ : BufTy).Contents (Elt F) → (⟨S600000, .i32⟩ : BufTy).Contents (Elt F)),
    binary main_v1 main_v125 main_v126 (addi : (⟨S600000, .i32⟩ : BufTy).Contents (Elt F) → (⟨S600000, .i32⟩ : BufTy).Contents (Elt F) → (⟨S600000, .i32⟩ : BufTy).Contents (Elt F)),
    ternary main_v124 main_v126 main_v1 main_v127 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v127 main_v128 (broadcastInDim S600000x1 ![0] bcast_S600000_S600000x1_0 : (⟨S600000, .i32⟩ : BufTy).Contents (Elt F) → (⟨S600000x1, .i32⟩ : BufTy).Contents (Elt F)),
    binary main_v122 main_v128 main_v129 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    binary main_v129 main_v11 main_v130 (addf : (⟨S600000x128, .f32⟩ : BufTy).Contents (Elt F) → (⟨S600000x128, .f32⟩ : BufTy).Contents (Elt F) → (⟨S600000x128, .f32⟩ : BufTy).Contents (Elt F)),
    unary main_arg4 main_v131 (broadcastInDim S600000x1 ![0] bcast_S600000_S600000x1_0 : (⟨S600000, .f32⟩ : BufTy).Contents (Elt F) → (⟨S600000x1, .f32⟩ : BufTy).Contents (Elt F)),
    unary main_v131 main_v132 (broadcastInDim S600000x128 ![0, 1] bcast_S600000x1_S600000x128_0_1 : (⟨S600000x1, .f32⟩ : BufTy).Contents (Elt F) → (⟨S600000x128, .f32⟩ : BufTy).Contents (Elt F)),
    binary main_v130 main_v132 main_v133 (mulf : (⟨S600000x128, .f32⟩ : BufTy).Contents (Elt F) → (⟨S600000x128, .f32⟩ : BufTy).Contents (Elt F) → (⟨S600000x128, .f32⟩ : BufTy).Contents (Elt F)),
    nullary main_cst_17 (constant S_ .f32 0x00000000#32),
    unary main_cst_17 main_v134 (broadcastInDim S50000x128 ![] bcast_S_S50000x128 : (⟨S_, .f32⟩ : BufTy).Contents (Elt F) → (⟨S50000x128, .f32⟩ : BufTy).Contents (Elt F)),
    unary main_v3 main_v135 (broadcastInDim S600000x1 ![0] bcast_S600000_S600000x1_0 : (⟨S600000, .i32⟩ : BufTy).Contents (Elt F) → (⟨S600000x1, .i32⟩ : BufTy).Contents (Elt F)),
    ternary main_v134 main_v135 main_v133 main_v136 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    unary main_v18 main_v137 (broadcastInDim S50000x128 ![0, 1] bcast_S50000x1_S50000x128_0_1 : (⟨S50000x1, .f32⟩ : BufTy).Contents (Elt F) → (⟨S50000x128, .f32⟩ : BufTy).Contents (Elt F)),
    binary main_v136 main_v137 main_v138 (Host.divf : (⟨S50000x128, .f32⟩ : BufTy).Contents (Elt F) → (⟨S50000x128, .f32⟩ : BufTy).Contents (Elt F) → (⟨S50000x128, .f32⟩ : BufTy).Contents (Elt F)),
    unary main_arg9 main_v139 ((extractStridedSlice S1x128x128 ![2, 0, 0] · slices_S5x128x128_S1x128x128_2_0_0) : (⟨S5x128x128, .f32⟩ : BufTy).Contents (Elt F) → (⟨S1x128x128, .f32⟩ : BufTy).Contents (Elt F)),
    reshape main_v139 main_v140 rfl shapeCasts_S1x128x128_S128x128,
    binary main_v138 main_v140 main_v141 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg10 main_v142 ((extractStridedSlice S1x128 ![2, 0] · slices_S5x128_S1x128_2_0) : (⟨S5x128, .f32⟩ : BufTy).Contents (Elt F) → (⟨S1x128, .f32⟩ : BufTy).Contents (Elt F)),
    reshape main_v142 main_v143 rfl shapeCasts_S1x128_S128,
    unary main_v143 main_v144 (broadcastInDim S1x128 ![1] bcast_S128_S1x128_1 : (⟨S128, .f32⟩ : BufTy).Contents (Elt F) → (⟨S1x128, .f32⟩ : BufTy).Contents (Elt F)),
    unary main_v144 main_v145 (broadcastInDim S50000x128 ![0, 1] bcast_S1x128_S50000x128_0_1 : (⟨S1x128, .f32⟩ : BufTy).Contents (Elt F) → (⟨S50000x128, .f32⟩ : BufTy).Contents (Elt F)),
    binary main_v141 main_v145 main_v146 (addf : (⟨S50000x128, .f32⟩ : BufTy).Contents (Elt F) → (⟨S50000x128, .f32⟩ : BufTy).Contents (Elt F) → (⟨S50000x128, .f32⟩ : BufTy).Contents (Elt F)),
    unary main_arg11 main_v147 ((extractStridedSlice S1x128x128 ![2, 0, 0] · slices_S5x128x128_S1x128x128_2_0_0) : (⟨S5x128x128, .f32⟩ : BufTy).Contents (Elt F) → (⟨S1x128x128, .f32⟩ : BufTy).Contents (Elt F)),
    reshape main_v147 main_v148 rfl shapeCasts_S1x128x128_S128x128,
    binary main_v122 main_v148 main_v149 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v146 main_v149 main_v150 (addf : (⟨S50000x128, .f32⟩ : BufTy).Contents (Elt F) → (⟨S50000x128, .f32⟩ : BufTy).Contents (Elt F) → (⟨S50000x128, .f32⟩ : BufTy).Contents (Elt F)),
    nullary main_cst_18 (constant S_ .f32 0x00000000#32),
    binary main_v150 main_cst_18 main_v151 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_19 (constant S_ .f32 0x47435000#32),
    unary main_cst_19 main_v152 (broadcastInDim S128 ![] bcast_S_S128 : (⟨S_, .f32⟩ : BufTy).Contents (Elt F) → (⟨S128, .f32⟩ : BufTy).Contents (Elt F)),
    binary main_v151 main_v152 main_v153 (Host.divf : (⟨S128, .f32⟩ : BufTy).Contents (Elt F) → (⟨S128, .f32⟩ : BufTy).Contents (Elt F) → (⟨S128, .f32⟩ : BufTy).Contents (Elt F)),
    nullary main_c_20 (constantI S_ 32 0#32),
    TRef.nullary main_call4.cst (constant S_ .f32 0x00000000#32),
    TRef.binary (.of main_v150) main_call4.cst main_call4.v0 (fun x v => Host.reduceAdd x v reducesTo_S50000x128_S128_d0 h_S_),
    TRef.unary main_call4.v0 main_call4.v1 (broadcastInDim S1x128 ![1] bcast_S128_S1x128_1),
    TRef.nullary main_call4.cst_0 (constant S_ .f32 0x47435000#32),
    TRef.unary main_call4.cst_0 main_call4.v2 (broadcastInDim S1x128 ![] bcast_S_S1x128),
    TRef.binary main_call4.v1 main_call4.v2 main_call4.v3 Host.divf,
    TRef.unary main_call4.v3 main_call4.v4 (broadcastInDim S50000x128 ![0, 1] bcast_S1x128_S50000x128_0_1),
    TRef.binary (.of main_v150) main_call4.v4 main_call4.v5 subf,
    TRef.binary main_call4.v5 main_call4.v5 main_call4.v6 mulf,
    TRef.unary (.of main_c_20) main_call4.v7 (sitofp .f32),
    TRef.nullary main_call4.cst_1 (constant S_ .f32 0x47435000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S50000x128_S128_d0 h_S_),
    TRef.unary main_call4.v8 main_call4.v10 (broadcastInDim S128 ![] bcast_S_S128),
    TRef.binary main_call4.v9 main_call4.v10 main_call4.v11 Host.divf,
    TRef.nullary main_call4.cst_3 (constant S_ .f32 0x00000000#32),
    TRef.binary main_call4.v8 main_call4.cst_3 main_call4.v12 (cmpf .ogt),
    TRef.nullary main_call4.cst_4 (constant S_ .f32 0x7FC00000#32),
    TRef.unary main_call4.cst_4 main_call4.call0.v0 id,
    TRef.unary main_call4.call0.v0 main_call4.call0.v1 (broadcastInDim S128 ![] bcast_S_S128),
    TRef.ternary main_call4.v12 main_call4.v11 main_call4.call0.v1 main_call4.call0.v2 (fun p a b => select (broadcastInDim S128 ![] bcast_S_S128 p) a b),
    unary main_arg12 main_v155 ((extractStridedSlice S1x128 ![2, 0] · slices_S5x128_S1x128_2_0) : (⟨S5x128, .f32⟩ : BufTy).Contents (Elt F) → (⟨S1x128, .f32⟩ : BufTy).Contents (Elt F)),
    reshape main_v155 main_v156 rfl shapeCasts_S1x128_S128,
    unary main_v153 main_v157 (broadcastInDim S1x128 ![1] bcast_S128_S1x128_1 : (⟨S128, .f32⟩ : BufTy).Contents (Elt F) → (⟨S1x128, .f32⟩ : BufTy).Contents (Elt F)),
    unary main_v157 main_v158 (broadcastInDim S50000x128 ![0, 1] bcast_S1x128_S50000x128_0_1 : (⟨S1x128, .f32⟩ : BufTy).Contents (Elt F) → (⟨S50000x128, .f32⟩ : BufTy).Contents (Elt F)),
    binary main_v150 main_v158 main_v159 (subf : (⟨S50000x128, .f32⟩ : BufTy).Contents (Elt F) → (⟨S50000x128, .f32⟩ : BufTy).Contents (Elt F) → (⟨S50000x128, .f32⟩ : BufTy).Contents (Elt F)),
    unary main_v156 main_v160 (broadcastInDim S1x128 ![1] bcast_S128_S1x128_1 : (⟨S128, .f32⟩ : BufTy).Contents (Elt F) → (⟨S1x128, .f32⟩ : BufTy).Contents (Elt F)),
    unary main_v160 main_v161 (broadcastInDim S50000x128 ![0, 1] bcast_S1x128_S50000x128_0_1 : (⟨S1x128, .f32⟩ : BufTy).Contents (Elt F) → (⟨S50000x128, .f32⟩ : BufTy).Contents (Elt F)),
    binary main_v161 main_v159 main_v162 (mulf : (⟨S50000x128, .f32⟩ : BufTy).Contents (Elt F) → (⟨S50000x128, .f32⟩ : BufTy).Contents (Elt F) → (⟨S50000x128, .f32⟩ : BufTy).Contents (Elt F)),
    nullary main_cst_21 (constant S_ .f32 0x3727C5AC#32),
    unary main_cst_21 main_v163 (broadcastInDim S128 ![] bcast_S_S128 : (⟨S_, .f32⟩ : BufTy).Contents (Elt F) → (⟨S128, .f32⟩ : BufTy).Contents (Elt F)),
    binary main_v154 main_v163 main_v164 (addf : (⟨S128, .f32⟩ : BufTy).Contents (Elt F) → (⟨S128, .f32⟩ : BufTy).Contents (Elt F) → (⟨S128, .f32⟩ : BufTy).Contents (Elt F)),
    unary main_v164 main_v165 (Host.rsqrt : (⟨S128, .f32⟩ : BufTy).Contents (Elt F) → (⟨S128, .f32⟩ : BufTy).Contents (Elt F)),
    unary main_v165 main_v166 (broadcastInDim S1x128 ![1] bcast_S128_S1x128_1 : (⟨S128, .f32⟩ : BufTy).Contents (Elt F) → (⟨S1x128, .f32⟩ : BufTy).Contents (Elt F)),
    unary main_v166 main_v167 (broadcastInDim S50000x128 ![0, 1] bcast_S1x128_S50000x128_0_1 : (⟨S1x128, .f32⟩ : BufTy).Contents (Elt F) → (⟨S50000x128, .f32⟩ : BufTy).Contents (Elt F)),
    binary main_v162 main_v167 main_v168 (mulf : (⟨S50000x128, .f32⟩ : BufTy).Contents (Elt F) → (⟨S50000x128, .f32⟩ : BufTy).Contents (Elt F) → (⟨S50000x128, .f32⟩ : BufTy).Contents (Elt F)),
    unary main_arg13 main_v169 ((extractStridedSlice S1x128 ![2, 0] · slices_S5x128_S1x128_2_0) : (⟨S5x128, .f32⟩ : BufTy).Contents (Elt F) → (⟨S1x128, .f32⟩ : BufTy).Contents (Elt F)),
    reshape main_v169 main_v170 rfl shapeCasts_S1x128_S128,
    unary main_v170 main_v171 (broadcastInDim S1x128 ![1] bcast_S128_S1x128_1 : (⟨S128, .f32⟩ : BufTy).Contents (Elt F) → (⟨S1x128, .f32⟩ : BufTy).Contents (Elt F)),
    unary main_v171 main_v172 (broadcastInDim S50000x128 ![0, 1] bcast_S1x128_S50000x128_0_1 : (⟨S1x128, .f32⟩ : BufTy).Contents (Elt F) → (⟨S50000x128, .f32⟩ : BufTy).Contents (Elt F)),
    binary main_v168 main_v172 main_v173 (addf : (⟨S50000x128, .f32⟩ : BufTy).Contents (Elt F) → (⟨S50000x128, .f32⟩ : BufTy).Contents (Elt F) → (⟨S50000x128, .f32⟩ : BufTy).Contents (Elt F)),
    TRef.nullary main_call5.cst (constant S_ .f32 0x00000000#32),
    TRef.unary main_call5.cst main_call5.v0 (broadcastInDim S50000x128 ![] bcast_S_S50000x128),
    TRef.binary (.of main_v173) main_call5.v0 main_call5.v1 maximumf ]

/-- The buffers opsL2 writes. -/
abbrev opsL2_W : List (Ref sig .tc) := [main_c_15, main_v123, main_v124, main_c_16, main_v125, main_v126, main_v127, main_v128, main_v129, main_v130, main_v131, main_v132, main_v133, main_cst_17, main_v134, main_v135, main_v136, main_v137, main_v138, main_v139, main_v140, main_v141, main_v142, main_v143, main_v144, main_v145, main_v146, main_v147, main_v148, main_v149, main_v150, main_cst_18, main_v151, main_cst_19, main_v152, main_v153, main_c_20, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v154, main_v155, main_v156, main_v157, main_v158, main_v159, main_v160, main_v161, main_v162, main_cst_21, main_v163, main_v164, main_v165, main_v166, main_v167, main_v168, main_v169, main_v170, main_v171, main_v172, main_v173, main_call5_cst, main_call5_v0, main_v174]

/-- Operations 269 to 350 of @main. -/
abbrev opsL3 : List (HloOp τ sig (Elt F)) :=
  [ nullary main_c_22 (constantI S_ 32 0#32),
    unary main_c_22 main_v175 (broadcastInDim S600000 ![] bcast_S_S600000 : (⟨S_, .i32⟩ : BufTy).Contents (Elt F) → (⟨S600000, .i32⟩ : BufTy).Contents (Elt F)),
    binary main_v1 main_v175 main_v176 (cmpi .slt : (⟨S600000, .i32⟩ : BufTy).Contents (Elt F) → (⟨S600000, .i32⟩ : BufTy).Contents (Elt F) → (⟨S600000, .i1⟩ : BufTy).Contents (Elt F)),
    nullary main_c_23 (constantI S_ 32 50000#32),
    unary main_c_23 main_v177 (broadcastInDim S600000 ![] bcast_S_S600000 : (⟨S_, .i32⟩ : BufTy).Contents (Elt F) → (⟨S600000, .i32⟩ : BufTy).Contents (Elt F)),
    binary main_v1 main_v177 main_v178 (addi : (⟨S600000, .i32⟩ : BufTy).Contents (Elt F) → (⟨S600000, .i32⟩ : BufTy).Contents (Elt F) → (⟨S600000, .i32⟩ : BufTy).Contents (Elt F)),
    ternary main_v176 main_v178 main_v1 main_v179 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v179 main_v180 (broadcastInDim S600000x1 ![0] bcast_S600000_S600000x1_0 : (⟨S600000, .i32⟩ : BufTy).Contents (Elt F) → (⟨S600000x1, .i32⟩ : BufTy).Contents (Elt F)),
    binary main_v174 main_v180 main_v181 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    binary main_v181 main_v11 main_v182 (addf : (⟨S600000x128, .f32⟩ : BufTy).Contents (Elt F) → (⟨S600000x128, .f32⟩ : BufTy).Contents (Elt F) → (⟨S600000x128, .f32⟩ : BufTy).Contents (Elt F)),
    unary main_arg4 main_v183 (broadcastInDim S600000x1 ![0] bcast_S600000_S600000x1_0 : (⟨S600000, .f32⟩ : BufTy).Contents (Elt F) → (⟨S600000x1, .f32⟩ : BufTy).Contents (Elt F)),
    unary main_v183 main_v184 (broadcastInDim S600000x128 ![0, 1] bcast_S600000x1_S600000x128_0_1 : (⟨S600000x1, .f32⟩ : BufTy).Contents (Elt F) → (⟨S600000x128, .f32⟩ : BufTy).Contents (Elt F)),
    binary main_v182 main_v184 main_v185 (mulf : (⟨S600000x128, .f32⟩ : BufTy).Contents (Elt F) → (⟨S600000x128, .f32⟩ : BufTy).Contents (Elt F) → (⟨S600000x128, .f32⟩ : BufTy).Contents (Elt F)),
    nullary main_cst_24 (constant S_ .f32 0x00000000#32),
    unary main_cst_24 main_v186 (broadcastInDim S50000x128 ![] bcast_S_S50000x128 : (⟨S_, .f32⟩ : BufTy).Contents (Elt F) → (⟨S50000x128, .f32⟩ : BufTy).Contents (Elt F)),
    unary main_v3 main_v187 (broadcastInDim S600000x1 ![0] bcast_S600000_S600000x1_0 : (⟨S600000, .i32⟩ : BufTy).Contents (Elt F) → (⟨S600000x1, .i32⟩ : BufTy).Contents (Elt F)),
    ternary main_v186 main_v187 main_v185 main_v188 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    unary main_v18 main_v189 (broadcastInDim S50000x128 ![0, 1] bcast_S50000x1_S50000x128_0_1 : (⟨S50000x1, .f32⟩ : BufTy).Contents (Elt F) → (⟨S50000x128, .f32⟩ : BufTy).Contents (Elt F)),
    binary main_v188 main_v189 main_v190 (Host.divf : (⟨S50000x128, .f32⟩ : BufTy).Contents (Elt F) → (⟨S50000x128, .f32⟩ : BufTy).Contents (Elt F) → (⟨S50000x128, .f32⟩ : BufTy).Contents (Elt F)),
    unary main_arg9 main_v191 ((extractStridedSlice S1x128x128 ![3, 0, 0] · slices_S5x128x128_S1x128x128_3_0_0) : (⟨S5x128x128, .f32⟩ : BufTy).Contents (Elt F) → (⟨S1x128x128, .f32⟩ : BufTy).Contents (Elt F)),
    reshape main_v191 main_v192 rfl shapeCasts_S1x128x128_S128x128,
    binary main_v190 main_v192 main_v193 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg10 main_v194 ((extractStridedSlice S1x128 ![3, 0] · slices_S5x128_S1x128_3_0) : (⟨S5x128, .f32⟩ : BufTy).Contents (Elt F) → (⟨S1x128, .f32⟩ : BufTy).Contents (Elt F)),
    reshape main_v194 main_v195 rfl shapeCasts_S1x128_S128,
    unary main_v195 main_v196 (broadcastInDim S1x128 ![1] bcast_S128_S1x128_1 : (⟨S128, .f32⟩ : BufTy).Contents (Elt F) → (⟨S1x128, .f32⟩ : BufTy).Contents (Elt F)),
    unary main_v196 main_v197 (broadcastInDim S50000x128 ![0, 1] bcast_S1x128_S50000x128_0_1 : (⟨S1x128, .f32⟩ : BufTy).Contents (Elt F) → (⟨S50000x128, .f32⟩ : BufTy).Contents (Elt F)),
    binary main_v193 main_v197 main_v198 (addf : (⟨S50000x128, .f32⟩ : BufTy).Contents (Elt F) → (⟨S50000x128, .f32⟩ : BufTy).Contents (Elt F) → (⟨S50000x128, .f32⟩ : BufTy).Contents (Elt F)),
    unary main_arg11 main_v199 ((extractStridedSlice S1x128x128 ![3, 0, 0] · slices_S5x128x128_S1x128x128_3_0_0) : (⟨S5x128x128, .f32⟩ : BufTy).Contents (Elt F) → (⟨S1x128x128, .f32⟩ : BufTy).Contents (Elt F)),
    reshape main_v199 main_v200 rfl shapeCasts_S1x128x128_S128x128,
    binary main_v174 main_v200 main_v201 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v198 main_v201 main_v202 (addf : (⟨S50000x128, .f32⟩ : BufTy).Contents (Elt F) → (⟨S50000x128, .f32⟩ : BufTy).Contents (Elt F) → (⟨S50000x128, .f32⟩ : BufTy).Contents (Elt F)),
    nullary main_cst_25 (constant S_ .f32 0x00000000#32),
    binary main_v202 main_cst_25 main_v203 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_26 (constant S_ .f32 0x47435000#32),
    unary main_cst_26 main_v204 (broadcastInDim S128 ![] bcast_S_S128 : (⟨S_, .f32⟩ : BufTy).Contents (Elt F) → (⟨S128, .f32⟩ : BufTy).Contents (Elt F)),
    binary main_v203 main_v204 main_v205 (Host.divf : (⟨S128, .f32⟩ : BufTy).Contents (Elt F) → (⟨S128, .f32⟩ : BufTy).Contents (Elt F) → (⟨S128, .f32⟩ : BufTy).Contents (Elt F)),
    nullary main_c_27 (constantI S_ 32 0#32),
    TRef.nullary main_call6.cst (constant S_ .f32 0x00000000#32),
    TRef.binary (.of main_v202) main_call6.cst main_call6.v0 (fun x v => Host.reduceAdd x v reducesTo_S50000x128_S128_d0 h_S_),
    TRef.unary main_call6.v0 main_call6.v1 (broadcastInDim S1x128 ![1] bcast_S128_S1x128_1),
    TRef.nullary main_call6.cst_0 (constant S_ .f32 0x47435000#32),
    TRef.unary main_call6.cst_0 main_call6.v2 (broadcastInDim S1x128 ![] bcast_S_S1x128),
    TRef.binary main_call6.v1 main_call6.v2 main_call6.v3 Host.divf,
    TRef.unary main_call6.v3 main_call6.v4 (broadcastInDim S50000x128 ![0, 1] bcast_S1x128_S50000x128_0_1),
    TRef.binary (.of main_v202) main_call6.v4 main_call6.v5 subf,
    TRef.binary main_call6.v5 main_call6.v5 main_call6.v6 mulf,
    TRef.unary (.of main_c_27) main_call6.v7 (sitofp .f32),
    TRef.nullary main_call6.cst_1 (constant S_ .f32 0x47435000#32),
    TRef.binary main_call6.cst_1 main_call6.v7 main_call6.v8 subf,
    TRef.nullary main_call6.cst_2 (constant S_ .f32 0x00000000#32),
    TRef.binary main_call6.v6 main_call6.cst_2 main_call6.v9 (fun x v => Host.reduceAdd x v reducesTo_S50000x128_S128_d0 h_S_),
    TRef.unary main_call6.v8 main_call6.v10 (broadcastInDim S128 ![] bcast_S_S128),
    TRef.binary main_call6.v9 main_call6.v10 main_call6.v11 Host.divf,
    TRef.nullary main_call6.cst_3 (constant S_ .f32 0x00000000#32),
    TRef.binary main_call6.v8 main_call6.cst_3 main_call6.v12 (cmpf .ogt),
    TRef.nullary main_call6.cst_4 (constant S_ .f32 0x7FC00000#32),
    TRef.unary main_call6.cst_4 main_call6.call0.v0 id,
    TRef.unary main_call6.call0.v0 main_call6.call0.v1 (broadcastInDim S128 ![] bcast_S_S128),
    TRef.ternary main_call6.v12 main_call6.v11 main_call6.call0.v1 main_call6.call0.v2 (fun p a b => select (broadcastInDim S128 ![] bcast_S_S128 p) a b),
    unary main_arg12 main_v207 ((extractStridedSlice S1x128 ![3, 0] · slices_S5x128_S1x128_3_0) : (⟨S5x128, .f32⟩ : BufTy).Contents (Elt F) → (⟨S1x128, .f32⟩ : BufTy).Contents (Elt F)),
    reshape main_v207 main_v208 rfl shapeCasts_S1x128_S128,
    unary main_v205 main_v209 (broadcastInDim S1x128 ![1] bcast_S128_S1x128_1 : (⟨S128, .f32⟩ : BufTy).Contents (Elt F) → (⟨S1x128, .f32⟩ : BufTy).Contents (Elt F)),
    unary main_v209 main_v210 (broadcastInDim S50000x128 ![0, 1] bcast_S1x128_S50000x128_0_1 : (⟨S1x128, .f32⟩ : BufTy).Contents (Elt F) → (⟨S50000x128, .f32⟩ : BufTy).Contents (Elt F)),
    binary main_v202 main_v210 main_v211 (subf : (⟨S50000x128, .f32⟩ : BufTy).Contents (Elt F) → (⟨S50000x128, .f32⟩ : BufTy).Contents (Elt F) → (⟨S50000x128, .f32⟩ : BufTy).Contents (Elt F)),
    unary main_v208 main_v212 (broadcastInDim S1x128 ![1] bcast_S128_S1x128_1 : (⟨S128, .f32⟩ : BufTy).Contents (Elt F) → (⟨S1x128, .f32⟩ : BufTy).Contents (Elt F)),
    unary main_v212 main_v213 (broadcastInDim S50000x128 ![0, 1] bcast_S1x128_S50000x128_0_1 : (⟨S1x128, .f32⟩ : BufTy).Contents (Elt F) → (⟨S50000x128, .f32⟩ : BufTy).Contents (Elt F)),
    binary main_v213 main_v211 main_v214 (mulf : (⟨S50000x128, .f32⟩ : BufTy).Contents (Elt F) → (⟨S50000x128, .f32⟩ : BufTy).Contents (Elt F) → (⟨S50000x128, .f32⟩ : BufTy).Contents (Elt F)),
    nullary main_cst_28 (constant S_ .f32 0x3727C5AC#32),
    unary main_cst_28 main_v215 (broadcastInDim S128 ![] bcast_S_S128 : (⟨S_, .f32⟩ : BufTy).Contents (Elt F) → (⟨S128, .f32⟩ : BufTy).Contents (Elt F)),
    binary main_v206 main_v215 main_v216 (addf : (⟨S128, .f32⟩ : BufTy).Contents (Elt F) → (⟨S128, .f32⟩ : BufTy).Contents (Elt F) → (⟨S128, .f32⟩ : BufTy).Contents (Elt F)),
    unary main_v216 main_v217 (Host.rsqrt : (⟨S128, .f32⟩ : BufTy).Contents (Elt F) → (⟨S128, .f32⟩ : BufTy).Contents (Elt F)),
    unary main_v217 main_v218 (broadcastInDim S1x128 ![1] bcast_S128_S1x128_1 : (⟨S128, .f32⟩ : BufTy).Contents (Elt F) → (⟨S1x128, .f32⟩ : BufTy).Contents (Elt F)),
    unary main_v218 main_v219 (broadcastInDim S50000x128 ![0, 1] bcast_S1x128_S50000x128_0_1 : (⟨S1x128, .f32⟩ : BufTy).Contents (Elt F) → (⟨S50000x128, .f32⟩ : BufTy).Contents (Elt F)),
    binary main_v214 main_v219 main_v220 (mulf : (⟨S50000x128, .f32⟩ : BufTy).Contents (Elt F) → (⟨S50000x128, .f32⟩ : BufTy).Contents (Elt F) → (⟨S50000x128, .f32⟩ : BufTy).Contents (Elt F)),
    unary main_arg13 main_v221 ((extractStridedSlice S1x128 ![3, 0] · slices_S5x128_S1x128_3_0) : (⟨S5x128, .f32⟩ : BufTy).Contents (Elt F) → (⟨S1x128, .f32⟩ : BufTy).Contents (Elt F)),
    reshape main_v221 main_v222 rfl shapeCasts_S1x128_S128,
    unary main_v222 main_v223 (broadcastInDim S1x128 ![1] bcast_S128_S1x128_1 : (⟨S128, .f32⟩ : BufTy).Contents (Elt F) → (⟨S1x128, .f32⟩ : BufTy).Contents (Elt F)),
    unary main_v223 main_v224 (broadcastInDim S50000x128 ![0, 1] bcast_S1x128_S50000x128_0_1 : (⟨S1x128, .f32⟩ : BufTy).Contents (Elt F) → (⟨S50000x128, .f32⟩ : BufTy).Contents (Elt F)),
    binary main_v220 main_v224 main_v225 (addf : (⟨S50000x128, .f32⟩ : BufTy).Contents (Elt F) → (⟨S50000x128, .f32⟩ : BufTy).Contents (Elt F) → (⟨S50000x128, .f32⟩ : BufTy).Contents (Elt F)),
    TRef.nullary main_call7.cst (constant S_ .f32 0x00000000#32),
    TRef.unary main_call7.cst main_call7.v0 (broadcastInDim S50000x128 ![] bcast_S_S50000x128),
    TRef.binary (.of main_v225) main_call7.v0 main_call7.v1 maximumf ]

/-- The buffers opsL3 writes. -/
abbrev opsL3_W : List (Ref sig .tc) := [main_c_22, main_v175, main_v176, main_c_23, main_v177, main_v178, main_v179, main_v180, main_v181, main_v182, main_v183, main_v184, main_v185, main_cst_24, main_v186, main_v187, main_v188, main_v189, main_v190, main_v191, main_v192, main_v193, main_v194, main_v195, main_v196, main_v197, main_v198, main_v199, main_v200, main_v201, main_v202, main_cst_25, main_v203, main_cst_26, main_v204, main_v205, main_c_27, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v206, main_v207, main_v208, main_v209, main_v210, main_v211, main_v212, main_v213, main_v214, main_cst_28, main_v215, main_v216, main_v217, main_v218, main_v219, main_v220, main_v221, main_v222, main_v223, main_v224, main_v225, main_call7_cst, main_call7_v0, main_v226]

/-- Operations 351 to 429 of @main. -/
abbrev opsL4 : List (HloOp τ sig (Elt F)) :=
  [ nullary main_c_29 (constantI S_ 32 0#32),
    unary main_c_29 main_v227 (broadcastInDim S600000 ![] bcast_S_S600000 : (⟨S_, .i32⟩ : BufTy).Contents (Elt F) → (⟨S600000, .i32⟩ : BufTy).Contents (Elt F)),
    binary main_v1 main_v227 main_v228 (cmpi .slt : (⟨S600000, .i32⟩ : BufTy).Contents (Elt F) → (⟨S600000, .i32⟩ : BufTy).Contents (Elt F) → (⟨S600000, .i1⟩ : BufTy).Contents (Elt F)),
    nullary main_c_30 (constantI S_ 32 50000#32),
    unary main_c_30 main_v229 (broadcastInDim S600000 ![] bcast_S_S600000 : (⟨S_, .i32⟩ : BufTy).Contents (Elt F) → (⟨S600000, .i32⟩ : BufTy).Contents (Elt F)),
    binary main_v1 main_v229 main_v230 (addi : (⟨S600000, .i32⟩ : BufTy).Contents (Elt F) → (⟨S600000, .i32⟩ : BufTy).Contents (Elt F) → (⟨S600000, .i32⟩ : BufTy).Contents (Elt F)),
    ternary main_v228 main_v230 main_v1 main_v231 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v231 main_v232 (broadcastInDim S600000x1 ![0] bcast_S600000_S600000x1_0 : (⟨S600000, .i32⟩ : BufTy).Contents (Elt F) → (⟨S600000x1, .i32⟩ : BufTy).Contents (Elt F)),
    binary main_v226 main_v232 main_v233 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    binary main_v233 main_v11 main_v234 (addf : (⟨S600000x128, .f32⟩ : BufTy).Contents (Elt F) → (⟨S600000x128, .f32⟩ : BufTy).Contents (Elt F) → (⟨S600000x128, .f32⟩ : BufTy).Contents (Elt F)),
    unary main_arg4 main_v235 (broadcastInDim S600000x1 ![0] bcast_S600000_S600000x1_0 : (⟨S600000, .f32⟩ : BufTy).Contents (Elt F) → (⟨S600000x1, .f32⟩ : BufTy).Contents (Elt F)),
    unary main_v235 main_v236 (broadcastInDim S600000x128 ![0, 1] bcast_S600000x1_S600000x128_0_1 : (⟨S600000x1, .f32⟩ : BufTy).Contents (Elt F) → (⟨S600000x128, .f32⟩ : BufTy).Contents (Elt F)),
    binary main_v234 main_v236 main_v237 (mulf : (⟨S600000x128, .f32⟩ : BufTy).Contents (Elt F) → (⟨S600000x128, .f32⟩ : BufTy).Contents (Elt F) → (⟨S600000x128, .f32⟩ : BufTy).Contents (Elt F)),
    nullary main_cst_31 (constant S_ .f32 0x00000000#32),
    unary main_cst_31 main_v238 (broadcastInDim S50000x128 ![] bcast_S_S50000x128 : (⟨S_, .f32⟩ : BufTy).Contents (Elt F) → (⟨S50000x128, .f32⟩ : BufTy).Contents (Elt F)),
    unary main_v3 main_v239 (broadcastInDim S600000x1 ![0] bcast_S600000_S600000x1_0 : (⟨S600000, .i32⟩ : BufTy).Contents (Elt F) → (⟨S600000x1, .i32⟩ : BufTy).Contents (Elt F)),
    ternary main_v238 main_v239 main_v237 main_v240 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    unary main_v18 main_v241 (broadcastInDim S50000x128 ![0, 1] bcast_S50000x1_S50000x128_0_1 : (⟨S50000x1, .f32⟩ : BufTy).Contents (Elt F) → (⟨S50000x128, .f32⟩ : BufTy).Contents (Elt F)),
    binary main_v240 main_v241 main_v242 (Host.divf : (⟨S50000x128, .f32⟩ : BufTy).Contents (Elt F) → (⟨S50000x128, .f32⟩ : BufTy).Contents (Elt F) → (⟨S50000x128, .f32⟩ : BufTy).Contents (Elt F)),
    unary main_arg9 main_v243 ((extractStridedSlice S1x128x128 ![4, 0, 0] · slices_S5x128x128_S1x128x128_4_0_0) : (⟨S5x128x128, .f32⟩ : BufTy).Contents (Elt F) → (⟨S1x128x128, .f32⟩ : BufTy).Contents (Elt F)),
    reshape main_v243 main_v244 rfl shapeCasts_S1x128x128_S128x128,
    binary main_v242 main_v244 main_v245 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg10 main_v246 ((extractStridedSlice S1x128 ![4, 0] · slices_S5x128_S1x128_4_0) : (⟨S5x128, .f32⟩ : BufTy).Contents (Elt F) → (⟨S1x128, .f32⟩ : BufTy).Contents (Elt F)),
    reshape main_v246 main_v247 rfl shapeCasts_S1x128_S128,
    unary main_v247 main_v248 (broadcastInDim S1x128 ![1] bcast_S128_S1x128_1 : (⟨S128, .f32⟩ : BufTy).Contents (Elt F) → (⟨S1x128, .f32⟩ : BufTy).Contents (Elt F)),
    unary main_v248 main_v249 (broadcastInDim S50000x128 ![0, 1] bcast_S1x128_S50000x128_0_1 : (⟨S1x128, .f32⟩ : BufTy).Contents (Elt F) → (⟨S50000x128, .f32⟩ : BufTy).Contents (Elt F)),
    binary main_v245 main_v249 main_v250 (addf : (⟨S50000x128, .f32⟩ : BufTy).Contents (Elt F) → (⟨S50000x128, .f32⟩ : BufTy).Contents (Elt F) → (⟨S50000x128, .f32⟩ : BufTy).Contents (Elt F)),
    unary main_arg11 main_v251 ((extractStridedSlice S1x128x128 ![4, 0, 0] · slices_S5x128x128_S1x128x128_4_0_0) : (⟨S5x128x128, .f32⟩ : BufTy).Contents (Elt F) → (⟨S1x128x128, .f32⟩ : BufTy).Contents (Elt F)),
    reshape main_v251 main_v252 rfl shapeCasts_S1x128x128_S128x128,
    binary main_v226 main_v252 main_v253 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v250 main_v253 main_v254 (addf : (⟨S50000x128, .f32⟩ : BufTy).Contents (Elt F) → (⟨S50000x128, .f32⟩ : BufTy).Contents (Elt F) → (⟨S50000x128, .f32⟩ : BufTy).Contents (Elt F)),
    nullary main_cst_32 (constant S_ .f32 0x00000000#32),
    binary main_v254 main_cst_32 main_v255 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_33 (constant S_ .f32 0x47435000#32),
    unary main_cst_33 main_v256 (broadcastInDim S128 ![] bcast_S_S128 : (⟨S_, .f32⟩ : BufTy).Contents (Elt F) → (⟨S128, .f32⟩ : BufTy).Contents (Elt F)),
    binary main_v255 main_v256 main_v257 (Host.divf : (⟨S128, .f32⟩ : BufTy).Contents (Elt F) → (⟨S128, .f32⟩ : BufTy).Contents (Elt F) → (⟨S128, .f32⟩ : BufTy).Contents (Elt F)),
    nullary main_c_34 (constantI S_ 32 0#32),
    TRef.nullary main_call8.cst (constant S_ .f32 0x00000000#32),
    TRef.binary (.of main_v254) main_call8.cst main_call8.v0 (fun x v => Host.reduceAdd x v reducesTo_S50000x128_S128_d0 h_S_),
    TRef.unary main_call8.v0 main_call8.v1 (broadcastInDim S1x128 ![1] bcast_S128_S1x128_1),
    TRef.nullary main_call8.cst_0 (constant S_ .f32 0x47435000#32),
    TRef.unary main_call8.cst_0 main_call8.v2 (broadcastInDim S1x128 ![] bcast_S_S1x128),
    TRef.binary main_call8.v1 main_call8.v2 main_call8.v3 Host.divf,
    TRef.unary main_call8.v3 main_call8.v4 (broadcastInDim S50000x128 ![0, 1] bcast_S1x128_S50000x128_0_1),
    TRef.binary (.of main_v254) main_call8.v4 main_call8.v5 subf,
    TRef.binary main_call8.v5 main_call8.v5 main_call8.v6 mulf,
    TRef.unary (.of main_c_34) main_call8.v7 (sitofp .f32),
    TRef.nullary main_call8.cst_1 (constant S_ .f32 0x47435000#32),
    TRef.binary main_call8.cst_1 main_call8.v7 main_call8.v8 subf,
    TRef.nullary main_call8.cst_2 (constant S_ .f32 0x00000000#32),
    TRef.binary main_call8.v6 main_call8.cst_2 main_call8.v9 (fun x v => Host.reduceAdd x v reducesTo_S50000x128_S128_d0 h_S_),
    TRef.unary main_call8.v8 main_call8.v10 (broadcastInDim S128 ![] bcast_S_S128),
    TRef.binary main_call8.v9 main_call8.v10 main_call8.v11 Host.divf,
    TRef.nullary main_call8.cst_3 (constant S_ .f32 0x00000000#32),
    TRef.binary main_call8.v8 main_call8.cst_3 main_call8.v12 (cmpf .ogt),
    TRef.nullary main_call8.cst_4 (constant S_ .f32 0x7FC00000#32),
    TRef.unary main_call8.cst_4 main_call8.call0.v0 id,
    TRef.unary main_call8.call0.v0 main_call8.call0.v1 (broadcastInDim S128 ![] bcast_S_S128),
    TRef.ternary main_call8.v12 main_call8.v11 main_call8.call0.v1 main_call8.call0.v2 (fun p a b => select (broadcastInDim S128 ![] bcast_S_S128 p) a b),
    unary main_arg12 main_v259 ((extractStridedSlice S1x128 ![4, 0] · slices_S5x128_S1x128_4_0) : (⟨S5x128, .f32⟩ : BufTy).Contents (Elt F) → (⟨S1x128, .f32⟩ : BufTy).Contents (Elt F)),
    reshape main_v259 main_v260 rfl shapeCasts_S1x128_S128,
    unary main_v257 main_v261 (broadcastInDim S1x128 ![1] bcast_S128_S1x128_1 : (⟨S128, .f32⟩ : BufTy).Contents (Elt F) → (⟨S1x128, .f32⟩ : BufTy).Contents (Elt F)),
    unary main_v261 main_v262 (broadcastInDim S50000x128 ![0, 1] bcast_S1x128_S50000x128_0_1 : (⟨S1x128, .f32⟩ : BufTy).Contents (Elt F) → (⟨S50000x128, .f32⟩ : BufTy).Contents (Elt F)),
    binary main_v254 main_v262 main_v263 (subf : (⟨S50000x128, .f32⟩ : BufTy).Contents (Elt F) → (⟨S50000x128, .f32⟩ : BufTy).Contents (Elt F) → (⟨S50000x128, .f32⟩ : BufTy).Contents (Elt F)),
    unary main_v260 main_v264 (broadcastInDim S1x128 ![1] bcast_S128_S1x128_1 : (⟨S128, .f32⟩ : BufTy).Contents (Elt F) → (⟨S1x128, .f32⟩ : BufTy).Contents (Elt F)),
    unary main_v264 main_v265 (broadcastInDim S50000x128 ![0, 1] bcast_S1x128_S50000x128_0_1 : (⟨S1x128, .f32⟩ : BufTy).Contents (Elt F) → (⟨S50000x128, .f32⟩ : BufTy).Contents (Elt F)),
    binary main_v265 main_v263 main_v266 (mulf : (⟨S50000x128, .f32⟩ : BufTy).Contents (Elt F) → (⟨S50000x128, .f32⟩ : BufTy).Contents (Elt F) → (⟨S50000x128, .f32⟩ : BufTy).Contents (Elt F)),
    nullary main_cst_35 (constant S_ .f32 0x3727C5AC#32),
    unary main_cst_35 main_v267 (broadcastInDim S128 ![] bcast_S_S128 : (⟨S_, .f32⟩ : BufTy).Contents (Elt F) → (⟨S128, .f32⟩ : BufTy).Contents (Elt F)),
    binary main_v258 main_v267 main_v268 (addf : (⟨S128, .f32⟩ : BufTy).Contents (Elt F) → (⟨S128, .f32⟩ : BufTy).Contents (Elt F) → (⟨S128, .f32⟩ : BufTy).Contents (Elt F)),
    unary main_v268 main_v269 (Host.rsqrt : (⟨S128, .f32⟩ : BufTy).Contents (Elt F) → (⟨S128, .f32⟩ : BufTy).Contents (Elt F)),
    unary main_v269 main_v270 (broadcastInDim S1x128 ![1] bcast_S128_S1x128_1 : (⟨S128, .f32⟩ : BufTy).Contents (Elt F) → (⟨S1x128, .f32⟩ : BufTy).Contents (Elt F)),
    unary main_v270 main_v271 (broadcastInDim S50000x128 ![0, 1] bcast_S1x128_S50000x128_0_1 : (⟨S1x128, .f32⟩ : BufTy).Contents (Elt F) → (⟨S50000x128, .f32⟩ : BufTy).Contents (Elt F)),
    binary main_v266 main_v271 main_v272 (mulf : (⟨S50000x128, .f32⟩ : BufTy).Contents (Elt F) → (⟨S50000x128, .f32⟩ : BufTy).Contents (Elt F) → (⟨S50000x128, .f32⟩ : BufTy).Contents (Elt F)),
    unary main_arg13 main_v273 ((extractStridedSlice S1x128 ![4, 0] · slices_S5x128_S1x128_4_0) : (⟨S5x128, .f32⟩ : BufTy).Contents (Elt F) → (⟨S1x128, .f32⟩ : BufTy).Contents (Elt F)),
    reshape main_v273 main_v274 rfl shapeCasts_S1x128_S128,
    unary main_v274 main_v275 (broadcastInDim S1x128 ![1] bcast_S128_S1x128_1 : (⟨S128, .f32⟩ : BufTy).Contents (Elt F) → (⟨S1x128, .f32⟩ : BufTy).Contents (Elt F)),
    unary main_v275 main_v276 (broadcastInDim S50000x128 ![0, 1] bcast_S1x128_S50000x128_0_1 : (⟨S1x128, .f32⟩ : BufTy).Contents (Elt F) → (⟨S50000x128, .f32⟩ : BufTy).Contents (Elt F)),
    binary main_v272 main_v276 main_v277 (addf : (⟨S50000x128, .f32⟩ : BufTy).Contents (Elt F) → (⟨S50000x128, .f32⟩ : BufTy).Contents (Elt F) → (⟨S50000x128, .f32⟩ : BufTy).Contents (Elt F)) ]

/-- The buffers opsL4 writes. -/
abbrev opsL4_W : List (Ref sig .tc) := [main_c_29, main_v227, main_v228, main_c_30, main_v229, main_v230, main_v231, main_v232, main_v233, main_v234, main_v235, main_v236, main_v237, main_cst_31, main_v238, main_v239, main_v240, main_v241, main_v242, main_v243, main_v244, main_v245, main_v246, main_v247, main_v248, main_v249, main_v250, main_v251, main_v252, main_v253, main_v254, main_cst_32, main_v255, main_cst_33, main_v256, main_v257, main_c_34, main_call8_cst, main_call8_v0, main_call8_v1, main_call8_cst_0, main_call8_v2, main_call8_v3, main_call8_v4, main_call8_v5, main_call8_v6, main_call8_v7, main_call8_cst_1, main_call8_v8, main_call8_cst_2, main_call8_v9, main_call8_v10, main_call8_v11, main_call8_cst_3, main_call8_v12, main_call8_cst_4, main_call8_call0_v0, main_call8_call0_v1, main_v258, main_v259, main_v260, main_v261, main_v262, main_v263, main_v264, main_v265, main_v266, main_cst_35, main_v267, main_v268, main_v269, main_v270, main_v271, main_v272, main_v273, main_v274, main_v275, main_v276, main_v277]

/-- Operations 430 to 450 of @main. -/
abbrev opsTail : List (HloOp τ sig (Elt F)) :=
  [ nullary main_cst_36 (constant S_ .f32 0x00000000#32),
    unary main_cst_36 main_v278 (broadcastInDim S128x128 ![] bcast_S_S128x128 : (⟨S_, .f32⟩ : BufTy).Contents (Elt F) → (⟨S128x128, .f32⟩ : BufTy).Contents (Elt F)),
    unary main_arg0 main_v279 (broadcastInDim S50000x1 ![0] bcast_S50000_S50000x1_0 : (⟨S50000, .i32⟩ : BufTy).Contents (Elt F) → (⟨S50000x1, .i32⟩ : BufTy).Contents (Elt F)),
    ternary main_v278 main_v279 main_v70 main_v280 ((fun x i u => Host.scatterAdd scatter_S128x128_S50000x1_S50000x128_1_0_0_1 x i u) : (⟨S128x128, .f32⟩ : BufTy).Contents (Elt F) → (⟨S50000x1, .i32⟩ : BufTy).Contents (Elt F) → (⟨S50000x128, .f32⟩ : BufTy).Contents (Elt F) → (⟨S128x128, .f32⟩ : BufTy).Contents (Elt F)),
    nullary main_cst_37 (constant S_ .f32 0x00000000#32),
    unary main_cst_37 main_v281 (broadcastInDim S128x128 ![] bcast_S_S128x128 : (⟨S_, .f32⟩ : BufTy).Contents (Elt F) → (⟨S128x128, .f32⟩ : BufTy).Contents (Elt F)),
    unary main_arg0 main_v282 (broadcastInDim S50000x1 ![0] bcast_S50000_S50000x1_0 : (⟨S50000, .i32⟩ : BufTy).Contents (Elt F) → (⟨S50000x1, .i32⟩ : BufTy).Contents (Elt F)),
    ternary main_v281 main_v282 main_v122 main_v283 ((fun x i u => Host.scatterAdd scatter_S128x128_S50000x1_S50000x128_1_0_0_1 x i u) : (⟨S128x128, .f32⟩ : BufTy).Contents (Elt F) → (⟨S50000x1, .i32⟩ : BufTy).Contents (Elt F) → (⟨S50000x128, .f32⟩ : BufTy).Contents (Elt F) → (⟨S128x128, .f32⟩ : BufTy).Contents (Elt F)),
    nullary main_cst_38 (constant S_ .f32 0x00000000#32),
    unary main_cst_38 main_v284 (broadcastInDim S128x128 ![] bcast_S_S128x128 : (⟨S_, .f32⟩ : BufTy).Contents (Elt F) → (⟨S128x128, .f32⟩ : BufTy).Contents (Elt F)),
    unary main_arg0 main_v285 (broadcastInDim S50000x1 ![0] bcast_S50000_S50000x1_0 : (⟨S50000, .i32⟩ : BufTy).Contents (Elt F) → (⟨S50000x1, .i32⟩ : BufTy).Contents (Elt F)),
    ternary main_v284 main_v285 main_v174 main_v286 ((fun x i u => Host.scatterAdd scatter_S128x128_S50000x1_S50000x128_1_0_0_1 x i u) : (⟨S128x128, .f32⟩ : BufTy).Contents (Elt F) → (⟨S50000x1, .i32⟩ : BufTy).Contents (Elt F) → (⟨S50000x128, .f32⟩ : BufTy).Contents (Elt F) → (⟨S128x128, .f32⟩ : BufTy).Contents (Elt F)),
    nullary main_cst_39 (constant S_ .f32 0x00000000#32),
    unary main_cst_39 main_v287 (broadcastInDim S128x128 ![] bcast_S_S128x128 : (⟨S_, .f32⟩ : BufTy).Contents (Elt F) → (⟨S128x128, .f32⟩ : BufTy).Contents (Elt F)),
    unary main_arg0 main_v288 (broadcastInDim S50000x1 ![0] bcast_S50000_S50000x1_0 : (⟨S50000, .i32⟩ : BufTy).Contents (Elt F) → (⟨S50000x1, .i32⟩ : BufTy).Contents (Elt F)),
    ternary main_v287 main_v288 main_v226 main_v289 ((fun x i u => Host.scatterAdd scatter_S128x128_S50000x1_S50000x128_1_0_0_1 x i u) : (⟨S128x128, .f32⟩ : BufTy).Contents (Elt F) → (⟨S50000x1, .i32⟩ : BufTy).Contents (Elt F) → (⟨S50000x128, .f32⟩ : BufTy).Contents (Elt F) → (⟨S128x128, .f32⟩ : BufTy).Contents (Elt F)),
    nullary main_cst_40 (constant S_ .f32 0x00000000#32),
    unary main_cst_40 main_v290 (broadcastInDim S128x128 ![] bcast_S_S128x128 : (⟨S_, .f32⟩ : BufTy).Contents (Elt F) → (⟨S128x128, .f32⟩ : BufTy).Contents (Elt F)),
    unary main_arg0 main_v291 (broadcastInDim S50000x1 ![0] bcast_S50000_S50000x1_0 : (⟨S50000, .i32⟩ : BufTy).Contents (Elt F) → (⟨S50000x1, .i32⟩ : BufTy).Contents (Elt F)),
    ternary main_v290 main_v291 main_v277 main_v292 ((fun x i u => Host.scatterAdd scatter_S128x128_S50000x1_S50000x128_1_0_0_1 x i u) : (⟨S128x128, .f32⟩ : BufTy).Contents (Elt F) → (⟨S50000x1, .i32⟩ : BufTy).Contents (Elt F) → (⟨S50000x128, .f32⟩ : BufTy).Contents (Elt F) → (⟨S128x128, .f32⟩ : BufTy).Contents (Elt F)),
    nary ![main_v280, main_v283, main_v286, main_v289, main_v292] main_v293 (fun u => concatenate S128x640 1 [⟨S128x128, u 0⟩, ⟨S128x128, u 1⟩, ⟨S128x128, u 2⟩, ⟨S128x128, u 3⟩, ⟨S128x128, u 4⟩] concatenates_S128x128_S128x128_S128x128_S128x128_S128x128_S128x640_d1) ]

/-- The buffers opsTail writes. -/
abbrev opsTail_W : List (Ref sig .tc) := [main_cst_36, main_v278, main_v279, main_v280, main_cst_37, main_v281, main_v282, main_v283, main_cst_38, main_v284, main_v285, main_v286, main_cst_39, main_v287, main_v288, main_v289, main_cst_40, main_v290, main_v291, main_v292, main_v293]

/-- @main's operations are the seven stretches, in order. -/
theorem ops_split : (ops : List (HloOp τ sig (Elt F))) = opsPre ++ (opsL0 ++ (opsL1 ++ (opsL2 ++ (opsL3 ++ (opsL4 ++ (opsTail)))))) := rfl

/-- The source row of the edge list. -/
def preSrc (ei : (main_arg2 : Ref sig .tc).ty.Contents (Elt F)) :
    (main_v1 : Ref sig .tc).ty.Contents (Elt F) :=
  let v0 : (main_v0 : Ref sig .tc).ty.Contents (Elt F) := (((extractStridedSlice S1x600000 ![0, 0] · slices_S2x600000_S1x600000_0_0) : (⟨S2x600000, .i32⟩ : BufTy).Contents (Elt F) → (⟨S1x600000, .i32⟩ : BufTy).Contents (Elt F))) ei
  let v1 : (main_v1 : Ref sig .tc).ty.Contents (Elt F) := shapeCast (main_v1 : Ref sig .tc).ty.shape v0 shapeCasts_S1x600000_S600000
  v1

/-- The destination row of the edge list. -/
def preDst (ei : (main_arg2 : Ref sig .tc).ty.Contents (Elt F)) :
    (main_v3 : Ref sig .tc).ty.Contents (Elt F) :=
  let v2 : (main_v2 : Ref sig .tc).ty.Contents (Elt F) := (((extractStridedSlice S1x600000 ![1, 0] · slices_S2x600000_S1x600000_1_0) : (⟨S2x600000, .i32⟩ : BufTy).Contents (Elt F) → (⟨S1x600000, .i32⟩ : BufTy).Contents (Elt F))) ei
  let v3 : (main_v3 : Ref sig .tc).ty.Contents (Elt F) := shapeCast (main_v3 : Ref sig .tc).ty.shape v2 shapeCasts_S1x600000_S600000
  v3

/-- The encoded nodes: x · W_atom + b_atom. -/
def preH0 (x : (main_arg1 : Ref sig .tc).ty.Contents (Elt F)) (Watom : (main_arg5 : Ref sig .tc).ty.Contents (Elt F)) (batom : (main_arg6 : Ref sig .tc).ty.Contents (Elt F)) :
    (main_v7 : Ref sig .tc).ty.Contents (Elt F) :=
  let v4 : (main_v4 : Ref sig .tc).ty.Contents (Elt F) := (((fun l r => Host.dotGeneral dot_S50000x48_S48x128_S50000x128_1_0_0_1_n_n none l r) : (⟨S50000x48, .f32⟩ : BufTy).Contents (Elt F) → (⟨S48x128, .f32⟩ : BufTy).Contents (Elt F) → (⟨S50000x128, .f32⟩ : BufTy).Contents (Elt F))) x Watom
  let v5 : (main_v5 : Ref sig .tc).ty.Contents (Elt F) := ((broadcastInDim S1x128 ![1] bcast_S128_S1x128_1 : (⟨S128, .f32⟩ : BufTy).Contents (Elt F) → (⟨S1x128, .f32⟩ : BufTy).Contents (Elt F))) batom
  let v6 : (main_v6 : Ref sig .tc).ty.Contents (Elt F) := ((broadcastInDim S50000x128 ![0, 1] bcast_S1x128_S50000x128_0_1 : (⟨S1x128, .f32⟩ : BufTy).Contents (Elt F) → (⟨S50000x128, .f32⟩ : BufTy).Contents (Elt F))) v5
  let v7 : (main_v7 : Ref sig .tc).ty.Contents (Elt F) := ((addf : (⟨S50000x128, .f32⟩ : BufTy).Contents (Elt F) → (⟨S50000x128, .f32⟩ : BufTy).Contents (Elt F) → (⟨S50000x128, .f32⟩ : BufTy).Contents (Elt F))) v4 v6
  v7

/-- The encoded edges: edge_attr · W_bond + b_bond. -/
def preEa (eattr : (main_arg3 : Ref sig .tc).ty.Contents (Elt F)) (Wbond : (main_arg7 : Ref sig .tc).ty.Contents (Elt F)) (bbond : (main_arg8 : Ref sig .tc).ty.Contents (Elt F)) :
    (main_v11 : Ref sig .tc).ty.Contents (Elt F) :=
  let v8 : (main_v8 : Ref sig .tc).ty.Contents (Elt F) := (((fun l r => Host.dotGeneral dot_S600000x11_S11x128_S600000x128_1_0_0_1_n_n none l r) : (⟨S600000x11, .f32⟩ : BufTy).Contents (Elt F) → (⟨S11x128, .f32⟩ : BufTy).Contents (Elt F) → (⟨S600000x128, .f32⟩ : BufTy).Contents (Elt F))) eattr Wbond
  let v9 : (main_v9 : Ref sig .tc).ty.Contents (Elt F) := ((broadcastInDim S1x128 ![1] bcast_S128_S1x128_1 : (⟨S128, .f32⟩ : BufTy).Contents (Elt F) → (⟨S1x128, .f32⟩ : BufTy).Contents (Elt F))) bbond
  let v10 : (main_v10 : Ref sig .tc).ty.Contents (Elt F) := ((broadcastInDim S600000x128 ![0, 1] bcast_S1x128_S600000x128_0_1 : (⟨S1x128, .f32⟩ : BufTy).Contents (Elt F) → (⟨S600000x128, .f32⟩ : BufTy).Contents (Elt F))) v9
  let v11 : (main_v11 : Ref sig .tc).ty.Contents (Elt F) := ((addf : (⟨S600000x128, .f32⟩ : BufTy).Contents (Elt F) → (⟨S600000x128, .f32⟩ : BufTy).Contents (Elt F) → (⟨S600000x128, .f32⟩ : BufTy).Contents (Elt F))) v8 v10
  v11

/-- The denominator column: the in-degree (a scatter-add of ones by destination), at least 1. -/
def preDenom (dst : (main_v3 : Ref sig .tc).ty.Contents (Elt F)) :
    (main_v18 : Ref sig .tc).ty.Contents (Elt F) :=
  let cst : (main_cst : Ref sig .tc).ty.Contents (Elt F) := (constant S_ .f32 0x3F800000#32)
  let v12 : (main_v12 : Ref sig .tc).ty.Contents (Elt F) := ((broadcastInDim S600000 ![] bcast_S_S600000 : (⟨S_, .f32⟩ : BufTy).Contents (Elt F) → (⟨S600000, .f32⟩ : BufTy).Contents (Elt F))) cst
  let cst_0 : (main_cst_0 : Ref sig .tc).ty.Contents (Elt F) := (constant S_ .f32 0x00000000#32)
  let v13 : (main_v13 : Ref sig .tc).ty.Contents (Elt F) := ((broadcastInDim S50000 ![] bcast_S_S50000 : (⟨S_, .f32⟩ : BufTy).Contents (Elt F) → (⟨S50000, .f32⟩ : BufTy).Contents (Elt F))) cst_0
  let v14 : (main_v14 : Ref sig .tc).ty.Contents (Elt F) := ((broadcastInDim S600000x1 ![0] bcast_S600000_S600000x1_0 : (⟨S600000, .i32⟩ : BufTy).Contents (Elt F) → (⟨S600000x1, .i32⟩ : BufTy).Contents (Elt F))) dst
  let v15 : (main_v15 : Ref sig .tc).ty.Contents (Elt F) := (((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F))) v13 v14 v12
  let cst_1 : (main_cst_1 : Ref sig .tc).ty.Contents (Elt F) := (constant S_ .f32 0x3F800000#32)
  let v16 : (main_v16 : Ref sig .tc).ty.Contents (Elt F) := ((broadcastInDim S50000 ![] bcast_S_S50000 : (⟨S_, .f32⟩ : BufTy).Contents (Elt F) → (⟨S50000, .f32⟩ : BufTy).Contents (Elt F))) cst_1
  let v17 : (main_v17 : Ref sig .tc).ty.Contents (Elt F) := ((maximumf : (⟨S50000, .f32⟩ : BufTy).Contents (Elt F) → (⟨S50000, .f32⟩ : BufTy).Contents (Elt F) → (⟨S50000, .f32⟩ : BufTy).Contents (Elt F))) v15 v16
  let v18 : (main_v18 : Ref sig .tc).ty.Contents (Elt F) := ((broadcastInDim S50000x1 ![0] bcast_S50000_S50000x1_0 : (⟨S50000, .f32⟩ : BufTy).Contents (Elt F) → (⟨S50000x1, .f32⟩ : BufTy).Contents (Elt F))) v17
  v18

/-- One layer up to its batch-norm output, over the layer's input h, the encoded edges, the edge weights, the two index rows, the denominator column and the layer's five parameter slices. -/
def layerCore (h : (main_v7 : Ref sig .tc).ty.Contents (Elt F)) (ea : (main_v11 : Ref sig .tc).ty.Contents (Elt F)) (ew : (main_arg4 : Ref sig .tc).ty.Contents (Elt F)) (src : (main_v1 : Ref sig .tc).ty.Contents (Elt F)) (dst : (main_v3 : Ref sig .tc).ty.Contents (Elt F)) (denom : (main_v18 : Ref sig .tc).ty.Contents (Elt F)) (WlS : (main_v35 : Ref sig .tc).ty.Contents (Elt F)) (blS : (main_v38 : Ref sig .tc).ty.Contents (Elt F)) (WrS : (main_v43 : Ref sig .tc).ty.Contents (Elt F)) (gS : (main_v51 : Ref sig .tc).ty.Contents (Elt F)) (bS : (main_v65 : Ref sig .tc).ty.Contents (Elt F)) :
    (main_v69 : Ref sig .tc).ty.Contents (Elt F) :=
  let c : (main_c : Ref sig .tc).ty.Contents (Elt F) := (constantI S_ 32 0#32)
  let v19 : (main_v19 : Ref sig .tc).ty.Contents (Elt F) := ((broadcastInDim S600000 ![] bcast_S_S600000 : (⟨S_, .i32⟩ : BufTy).Contents (Elt F) → (⟨S600000, .i32⟩ : BufTy).Contents (Elt F))) c
  let v20 : (main_v20 : Ref sig .tc).ty.Contents (Elt F) := ((cmpi .slt : (⟨S600000, .i32⟩ : BufTy).Contents (Elt F) → (⟨S600000, .i32⟩ : BufTy).Contents (Elt F) → (⟨S600000, .i1⟩ : BufTy).Contents (Elt F))) src v19
  let c_2 : (main_c_2 : Ref sig .tc).ty.Contents (Elt F) := (constantI S_ 32 50000#32)
  let v21 : (main_v21 : Ref sig .tc).ty.Contents (Elt F) := ((broadcastInDim S600000 ![] bcast_S_S600000 : (⟨S_, .i32⟩ : BufTy).Contents (Elt F) → (⟨S600000, .i32⟩ : BufTy).Contents (Elt F))) c_2
  let v22 : (main_v22 : Ref sig .tc).ty.Contents (Elt F) := ((addi : (⟨S600000, .i32⟩ : BufTy).Contents (Elt F) → (⟨S600000, .i32⟩ : BufTy).Contents (Elt F) → (⟨S600000, .i32⟩ : BufTy).Contents (Elt F))) src v21
  let v23 : (main_v23 : Ref sig .tc).ty.Contents (Elt F) := ((select : (⟨S600000, .i1⟩ : BufTy).Contents (Elt F) → (⟨S600000, .i32⟩ : BufTy).Contents (Elt F) → (⟨S600000, .i32⟩ : BufTy).Contents (Elt F) → (⟨S600000, .i32⟩ : BufTy).Contents (Elt F))) v20 v22 src
  let v24 : (main_v24 : Ref sig .tc).ty.Contents (Elt F) := ((broadcastInDim S600000x1 ![0] bcast_S600000_S600000x1_0 : (⟨S600000, .i32⟩ : BufTy).Contents (Elt F) → (⟨S600000x1, .i32⟩ : BufTy).Contents (Elt F))) v23
  let v25 : (main_v25 : Ref sig .tc).ty.Contents (Elt F) := (((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F))) h v24
  let v26 : (main_v26 : Ref sig .tc).ty.Contents (Elt F) := ((addf : (⟨S600000x128, .f32⟩ : BufTy).Contents (Elt F) → (⟨S600000x128, .f32⟩ : BufTy).Contents (Elt F) → (⟨S600000x128, .f32⟩ : BufTy).Contents (Elt F))) v25 ea
  let v27 : (main_v27 : Ref sig .tc).ty.Contents (Elt F) := ((broadcastInDim S600000x1 ![0] bcast_S600000_S600000x1_0 : (⟨S600000, .f32⟩ : BufTy).Contents (Elt F) → (⟨S600000x1, .f32⟩ : BufTy).Contents (Elt F))) ew
  let v28 : (main_v28 : Ref sig .tc).ty.Contents (Elt F) := ((broadcastInDim S600000x128 ![0, 1] bcast_S600000x1_S600000x128_0_1 : (⟨S600000x1, .f32⟩ : BufTy).Contents (Elt F) → (⟨S600000x128, .f32⟩ : BufTy).Contents (Elt F))) v27
  let v29 : (main_v29 : Ref sig .tc).ty.Contents (Elt F) := ((mulf : (⟨S600000x128, .f32⟩ : BufTy).Contents (Elt F) → (⟨S600000x128, .f32⟩ : BufTy).Contents (Elt F) → (⟨S600000x128, .f32⟩ : BufTy).Contents (Elt F))) v26 v28
  let cst_3 : (main_cst_3 : Ref sig .tc).ty.Contents (Elt F) := (constant S_ .f32 0x00000000#32)
  let v30 : (main_v30 : Ref sig .tc).ty.Contents (Elt F) := ((broadcastInDim S50000x128 ![] bcast_S_S50000x128 : (⟨S_, .f32⟩ : BufTy).Contents (Elt F) → (⟨S50000x128, .f32⟩ : BufTy).Contents (Elt F))) cst_3
  let v31 : (main_v31 : Ref sig .tc).ty.Contents (Elt F) := ((broadcastInDim S600000x1 ![0] bcast_S600000_S600000x1_0 : (⟨S600000, .i32⟩ : BufTy).Contents (Elt F) → (⟨S600000x1, .i32⟩ : BufTy).Contents (Elt F))) dst
  let v32 : (main_v32 : Ref sig .tc).ty.Contents (Elt F) := (((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F))) v30 v31 v29
  let v33 : (main_v33 : Ref sig .tc).ty.Contents (Elt F) := ((broadcastInDim S50000x128 ![0, 1] bcast_S50000x1_S50000x128_0_1 : (⟨S50000x1, .f32⟩ : BufTy).Contents (Elt F) → (⟨S50000x128, .f32⟩ : BufTy).Contents (Elt F))) denom
  let v34 : (main_v34 : Ref sig .tc).ty.Contents (Elt F) := ((Host.divf : (⟨S50000x128, .f32⟩ : BufTy).Contents (Elt F) → (⟨S50000x128, .f32⟩ : BufTy).Contents (Elt F) → (⟨S50000x128, .f32⟩ : BufTy).Contents (Elt F))) v32 v33
  let v36 : (main_v36 : Ref sig .tc).ty.Contents (Elt F) := shapeCast (main_v36 : Ref sig .tc).ty.shape WlS shapeCasts_S1x128x128_S128x128
  let v37 : (main_v37 : Ref sig .tc).ty.Contents (Elt F) := (((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))) v34 v36
  let v39 : (main_v39 : Ref sig .tc).ty.Contents (Elt F) := shapeCast (main_v39 : Ref sig .tc).ty.shape blS shapeCasts_S1x128_S128
  let v40 : (main_v40 : Ref sig .tc).ty.Contents (Elt F) := ((broadcastInDim S1x128 ![1] bcast_S128_S1x128_1 : (⟨S128, .f32⟩ : BufTy).Contents (Elt F) → (⟨S1x128, .f32⟩ : BufTy).Contents (Elt F))) v39
  let v41 : (main_v41 : Ref sig .tc).ty.Contents (Elt F) := ((broadcastInDim S50000x128 ![0, 1] bcast_S1x128_S50000x128_0_1 : (⟨S1x128, .f32⟩ : BufTy).Contents (Elt F) → (⟨S50000x128, .f32⟩ : BufTy).Contents (Elt F))) v40
  let v42 : (main_v42 : Ref sig .tc).ty.Contents (Elt F) := ((addf : (⟨S50000x128, .f32⟩ : BufTy).Contents (Elt F) → (⟨S50000x128, .f32⟩ : BufTy).Contents (Elt F) → (⟨S50000x128, .f32⟩ : BufTy).Contents (Elt F))) v37 v41
  let v44 : (main_v44 : Ref sig .tc).ty.Contents (Elt F) := shapeCast (main_v44 : Ref sig .tc).ty.shape WrS shapeCasts_S1x128x128_S128x128
  let v45 : (main_v45 : Ref sig .tc).ty.Contents (Elt F) := (((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))) h v44
  let v46 : (main_v46 : Ref sig .tc).ty.Contents (Elt F) := ((addf : (⟨S50000x128, .f32⟩ : BufTy).Contents (Elt F) → (⟨S50000x128, .f32⟩ : BufTy).Contents (Elt F) → (⟨S50000x128, .f32⟩ : BufTy).Contents (Elt F))) v42 v45
  let cst_4 : (main_cst_4 : Ref sig .tc).ty.Contents (Elt F) := (constant S_ .f32 0x00000000#32)
  let v47 : (main_v47 : Ref sig .tc).ty.Contents (Elt F) := (((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F))) v46 cst_4
  let cst_5 : (main_cst_5 : Ref sig .tc).ty.Contents (Elt F) := (constant S_ .f32 0x47435000#32)
  let v48 : (main_v48 : Ref sig .tc).ty.Contents (Elt F) := ((broadcastInDim S128 ![] bcast_S_S128 : (⟨S_, .f32⟩ : BufTy).Contents (Elt F) → (⟨S128, .f32⟩ : BufTy).Contents (Elt F))) cst_5
  let v49 : (main_v49 : Ref sig .tc).ty.Contents (Elt F) := ((Host.divf : (⟨S128, .f32⟩ : BufTy).Contents (Elt F) → (⟨S128, .f32⟩ : BufTy).Contents (Elt F) → (⟨S128, .f32⟩ : BufTy).Contents (Elt F))) v47 v48
  let c_6 : (main_c_6 : Ref sig .tc).ty.Contents (Elt F) := (constantI S_ 32 0#32)
  let call0_cst : (main_call0_cst : Ref sig .tc).ty.Contents (Elt F) := (constant S_ .f32 0x00000000#32)
  let call0_v0 : (main_call0_v0 : Ref sig .tc).ty.Contents (Elt F) := ((fun x v => Host.reduceAdd x v reducesTo_S50000x128_S128_d0 h_S_)) v46 call0_cst
  let call0_v1 : (main_call0_v1 : Ref sig .tc).ty.Contents (Elt F) := ((broadcastInDim S1x128 ![1] bcast_S128_S1x128_1)) call0_v0
  let call0_cst_0 : (main_call0_cst_0 : Ref sig .tc).ty.Contents (Elt F) := (constant S_ .f32 0x47435000#32)
  let call0_v2 : (main_call0_v2 : Ref sig .tc).ty.Contents (Elt F) := ((broadcastInDim S1x128 ![] bcast_S_S1x128)) call0_cst_0
  let call0_v3 : (main_call0_v3 : Ref sig .tc).ty.Contents (Elt F) := (Host.divf) call0_v1 call0_v2
  let call0_v4 : (main_call0_v4 : Ref sig .tc).ty.Contents (Elt F) := ((broadcastInDim S50000x128 ![0, 1] bcast_S1x128_S50000x128_0_1)) call0_v3
  let call0_v5 : (main_call0_v5 : Ref sig .tc).ty.Contents (Elt F) := (subf) v46 call0_v4
  let call0_v6 : (main_call0_v6 : Ref sig .tc).ty.Contents (Elt F) := (mulf) call0_v5 call0_v5
  let call0_v7 : (main_call0_v7 : Ref sig .tc).ty.Contents (Elt F) := ((sitofp .f32)) c_6
  let call0_cst_1 : (main_call0_cst_1 : Ref sig .tc).ty.Contents (Elt F) := (constant S_ .f32 0x47435000#32)
  let call0_v8 : (main_call0_v8 : Ref sig .tc).ty.Contents (Elt F) := (subf) call0_cst_1 call0_v7
  let call0_cst_2 : (main_call0_cst_2 : Ref sig .tc).ty.Contents (Elt F) := (constant S_ .f32 0x00000000#32)
  let call0_v9 : (main_call0_v9 : Ref sig .tc).ty.Contents (Elt F) := ((fun x v => Host.reduceAdd x v reducesTo_S50000x128_S128_d0 h_S_)) call0_v6 call0_cst_2
  let call0_v10 : (main_call0_v10 : Ref sig .tc).ty.Contents (Elt F) := ((broadcastInDim S128 ![] bcast_S_S128)) call0_v8
  let call0_v11 : (main_call0_v11 : Ref sig .tc).ty.Contents (Elt F) := (Host.divf) call0_v9 call0_v10
  let call0_cst_3 : (main_call0_cst_3 : Ref sig .tc).ty.Contents (Elt F) := (constant S_ .f32 0x00000000#32)
  let call0_v12 : (main_call0_v12 : Ref sig .tc).ty.Contents (Elt F) := ((cmpf .ogt)) call0_v8 call0_cst_3
  let call0_cst_4 : (main_call0_cst_4 : Ref sig .tc).ty.Contents (Elt F) := (constant S_ .f32 0x7FC00000#32)
  let call0_call0_v0 : (main_call0_call0_v0 : Ref sig .tc).ty.Contents (Elt F) := (id) call0_cst_4
  let call0_call0_v1 : (main_call0_call0_v1 : Ref sig .tc).ty.Contents (Elt F) := ((broadcastInDim S128 ![] bcast_S_S128)) call0_call0_v0
  let v50 : (main_v50 : Ref sig .tc).ty.Contents (Elt F) := ((fun p a b => select (broadcastInDim S128 ![] bcast_S_S128 p) a b)) call0_v12 call0_v11 call0_call0_v1
  let v52 : (main_v52 : Ref sig .tc).ty.Contents (Elt F) := shapeCast (main_v52 : Ref sig .tc).ty.shape gS shapeCasts_S1x128_S128
  let v53 : (main_v53 : Ref sig .tc).ty.Contents (Elt F) := ((broadcastInDim S1x128 ![1] bcast_S128_S1x128_1 : (⟨S128, .f32⟩ : BufTy).Contents (Elt F) → (⟨S1x128, .f32⟩ : BufTy).Contents (Elt F))) v49
  let v54 : (main_v54 : Ref sig .tc).ty.Contents (Elt F) := ((broadcastInDim S50000x128 ![0, 1] bcast_S1x128_S50000x128_0_1 : (⟨S1x128, .f32⟩ : BufTy).Contents (Elt F) → (⟨S50000x128, .f32⟩ : BufTy).Contents (Elt F))) v53
  let v55 : (main_v55 : Ref sig .tc).ty.Contents (Elt F) := ((subf : (⟨S50000x128, .f32⟩ : BufTy).Contents (Elt F) → (⟨S50000x128, .f32⟩ : BufTy).Contents (Elt F) → (⟨S50000x128, .f32⟩ : BufTy).Contents (Elt F))) v46 v54
  let v56 : (main_v56 : Ref sig .tc).ty.Contents (Elt F) := ((broadcastInDim S1x128 ![1] bcast_S128_S1x128_1 : (⟨S128, .f32⟩ : BufTy).Contents (Elt F) → (⟨S1x128, .f32⟩ : BufTy).Contents (Elt F))) v52
  let v57 : (main_v57 : Ref sig .tc).ty.Contents (Elt F) := ((broadcastInDim S50000x128 ![0, 1] bcast_S1x128_S50000x128_0_1 : (⟨S1x128, .f32⟩ : BufTy).Contents (Elt F) → (⟨S50000x128, .f32⟩ : BufTy).Contents (Elt F))) v56
  let v58 : (main_v58 : Ref sig .tc).ty.Contents (Elt F) := ((mulf : (⟨S50000x128, .f32⟩ : BufTy).Contents (Elt F) → (⟨S50000x128, .f32⟩ : BufTy).Contents (Elt F) → (⟨S50000x128, .f32⟩ : BufTy).Contents (Elt F))) v57 v55
  let cst_7 : (main_cst_7 : Ref sig .tc).ty.Contents (Elt F) := (constant S_ .f32 0x3727C5AC#32)
  let v59 : (main_v59 : Ref sig .tc).ty.Contents (Elt F) := ((broadcastInDim S128 ![] bcast_S_S128 : (⟨S_, .f32⟩ : BufTy).Contents (Elt F) → (⟨S128, .f32⟩ : BufTy).Contents (Elt F))) cst_7
  let v60 : (main_v60 : Ref sig .tc).ty.Contents (Elt F) := ((addf : (⟨S128, .f32⟩ : BufTy).Contents (Elt F) → (⟨S128, .f32⟩ : BufTy).Contents (Elt F) → (⟨S128, .f32⟩ : BufTy).Contents (Elt F))) v50 v59
  let v61 : (main_v61 : Ref sig .tc).ty.Contents (Elt F) := ((Host.rsqrt : (⟨S128, .f32⟩ : BufTy).Contents (Elt F) → (⟨S128, .f32⟩ : BufTy).Contents (Elt F))) v60
  let v62 : (main_v62 : Ref sig .tc).ty.Contents (Elt F) := ((broadcastInDim S1x128 ![1] bcast_S128_S1x128_1 : (⟨S128, .f32⟩ : BufTy).Contents (Elt F) → (⟨S1x128, .f32⟩ : BufTy).Contents (Elt F))) v61
  let v63 : (main_v63 : Ref sig .tc).ty.Contents (Elt F) := ((broadcastInDim S50000x128 ![0, 1] bcast_S1x128_S50000x128_0_1 : (⟨S1x128, .f32⟩ : BufTy).Contents (Elt F) → (⟨S50000x128, .f32⟩ : BufTy).Contents (Elt F))) v62
  let v64 : (main_v64 : Ref sig .tc).ty.Contents (Elt F) := ((mulf : (⟨S50000x128, .f32⟩ : BufTy).Contents (Elt F) → (⟨S50000x128, .f32⟩ : BufTy).Contents (Elt F) → (⟨S50000x128, .f32⟩ : BufTy).Contents (Elt F))) v58 v63
  let v66 : (main_v66 : Ref sig .tc).ty.Contents (Elt F) := shapeCast (main_v66 : Ref sig .tc).ty.shape bS shapeCasts_S1x128_S128
  let v67 : (main_v67 : Ref sig .tc).ty.Contents (Elt F) := ((broadcastInDim S1x128 ![1] bcast_S128_S1x128_1 : (⟨S128, .f32⟩ : BufTy).Contents (Elt F) → (⟨S1x128, .f32⟩ : BufTy).Contents (Elt F))) v66
  let v68 : (main_v68 : Ref sig .tc).ty.Contents (Elt F) := ((broadcastInDim S50000x128 ![0, 1] bcast_S1x128_S50000x128_0_1 : (⟨S1x128, .f32⟩ : BufTy).Contents (Elt F) → (⟨S50000x128, .f32⟩ : BufTy).Contents (Elt F))) v67
  let v69 : (main_v69 : Ref sig .tc).ty.Contents (Elt F) := ((addf : (⟨S50000x128, .f32⟩ : BufTy).Contents (Elt F) → (⟨S50000x128, .f32⟩ : BufTy).Contents (Elt F) → (⟨S50000x128, .f32⟩ : BufTy).Contents (Elt F))) v64 v68
  v69

/-- The relu that follows every layer but the last. -/
def layerRelu (y : (main_v69 : Ref sig .tc).ty.Contents (Elt F)) :
    (main_v70 : Ref sig .tc).ty.Contents (Elt F) :=
  let call1_cst : (main_call1_cst : Ref sig .tc).ty.Contents (Elt F) := (constant S_ .f32 0x00000000#32)
  let call1_v0 : (main_call1_v0 : Ref sig .tc).ty.Contents (Elt F) := ((broadcastInDim S50000x128 ![] bcast_S_S50000x128)) call1_cst
  let v70 : (main_v70 : Ref sig .tc).ty.Contents (Elt F) := (maximumf) y call1_v0
  v70

/-- One layer's per-graph sums: its output scatter-added by graph number into zeros. -/
def poolOf (batch : (main_arg0 : Ref sig .tc).ty.Contents (Elt F)) (y : (main_v70 : Ref sig .tc).ty.Contents (Elt F)) :
    (main_v280 : Ref sig .tc).ty.Contents (Elt F) :=
  let cst_36 : (main_cst_36 : Ref sig .tc).ty.Contents (Elt F) := (constant S_ .f32 0x00000000#32)
  let v278 : (main_v278 : Ref sig .tc).ty.Contents (Elt F) := ((broadcastInDim S128x128 ![] bcast_S_S128x128 : (⟨S_, .f32⟩ : BufTy).Contents (Elt F) → (⟨S128x128, .f32⟩ : BufTy).Contents (Elt F))) cst_36
  let v279 : (main_v279 : Ref sig .tc).ty.Contents (Elt F) := ((broadcastInDim S50000x1 ![0] bcast_S50000_S50000x1_0 : (⟨S50000, .i32⟩ : BufTy).Contents (Elt F) → (⟨S50000x1, .i32⟩ : BufTy).Contents (Elt F))) batch
  let v280 : (main_v280 : Ref sig .tc).ty.Contents (Elt F) := (((fun x i u => Host.scatterAdd scatter_S128x128_S50000x1_S50000x128_1_0_0_1 x i u) : (⟨S128x128, .f32⟩ : BufTy).Contents (Elt F) → (⟨S50000x1, .i32⟩ : BufTy).Contents (Elt F) → (⟨S50000x128, .f32⟩ : BufTy).Contents (Elt F) → (⟨S128x128, .f32⟩ : BufTy).Contents (Elt F))) v278 v279 y
  v280

end Cert.ReferenceIdeal.RefRun

end
-- ==== Proof.RefStages.lean ====
/- One layer cut at its aggregated message: the stage that gathers the source rows, adds the encoded edges, weights,
   scatter-adds by destination and divides by the denominator column; and the rest of the layer over that stage's result. -/
import proofs.«144276_j65051574665788_2_alg».proof.Proof.RefLayers

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The source row numbers as the gather reads them: a negative number counted from the end, in a column. -/
def srcRows (src : (main_v1 : Ref sig .tc).ty.Contents (Elt F)) :
    (main_v24 : Ref sig .tc).ty.Contents (Elt F) :=
  let c : (main_c : Ref sig .tc).ty.Contents (Elt F) := (constantI S_ 32 0#32)
  let v19 : (main_v19 : Ref sig .tc).ty.Contents (Elt F) := ((broadcastInDim S600000 ![] bcast_S_S600000 : (⟨S_, .i32⟩ : BufTy).Contents (Elt F) → (⟨S600000, .i32⟩ : BufTy).Contents (Elt F))) c
  let v20 : (main_v20 : Ref sig .tc).ty.Contents (Elt F) := ((cmpi .slt : (⟨S600000, .i32⟩ : BufTy).Contents (Elt F) → (⟨S600000, .i32⟩ : BufTy).Contents (Elt F) → (⟨S600000, .i1⟩ : BufTy).Contents (Elt F))) src v19
  let c_2 : (main_c_2 : Ref sig .tc).ty.Contents (Elt F) := (constantI S_ 32 50000#32)
  let v21 : (main_v21 : Ref sig .tc).ty.Contents (Elt F) := ((broadcastInDim S600000 ![] bcast_S_S600000 : (⟨S_, .i32⟩ : BufTy).Contents (Elt F) → (⟨S600000, .i32⟩ : BufTy).Contents (Elt F))) c_2
  let v22 : (main_v22 : Ref sig .tc).ty.Contents (Elt F) := ((addi : (⟨S600000, .i32⟩ : BufTy).Contents (Elt F) → (⟨S600000, .i32⟩ : BufTy).Contents (Elt F) → (⟨S600000, .i32⟩ : BufTy).Contents (Elt F))) src v21
  let v23 : (main_v23 : Ref sig .tc).ty.Contents (Elt F) := ((select : (⟨S600000, .i1⟩ : BufTy).Contents (Elt F) → (⟨S600000, .i32⟩ : BufTy).Contents (Elt F) → (⟨S600000, .i32⟩ : BufTy).Contents (Elt F) → (⟨S600000, .i32⟩ : BufTy).Contents (Elt F))) v20 v22 src
  let v24 : (main_v24 : Ref sig .tc).ty.Contents (Elt F) := ((broadcastInDim S600000x1 ![0] bcast_S600000_S600000x1_0 : (⟨S600000, .i32⟩ : BufTy).Contents (Elt F) → (⟨S600000x1, .i32⟩ : BufTy).Contents (Elt F))) v23
  v24

/-- The aggregated message: gather the source rows, add the encoded edges, weight, scatter-add by destination, divide by the denominator column. -/
def aggStage (h : (main_v7 : Ref sig .tc).ty.Contents (Elt F)) (ea : (main_v11 : Ref sig .tc).ty.Contents (Elt F)) (ew : (main_arg4 : Ref sig .tc).ty.Contents (Elt F)) (src : (main_v1 : Ref sig .tc).ty.Contents (Elt F)) (dst : (main_v3 : Ref sig .tc).ty.Contents (Elt F)) (denom : (main_v18 : Ref sig .tc).ty.Contents (Elt F)) :
    (main_v34 : Ref sig .tc).ty.Contents (Elt F) :=
  let c : (main_c : Ref sig .tc).ty.Contents (Elt F) := (constantI S_ 32 0#32)
  let v19 : (main_v19 : Ref sig .tc).ty.Contents (Elt F) := ((broadcastInDim S600000 ![] bcast_S_S600000 : (⟨S_, .i32⟩ : BufTy).Contents (Elt F) → (⟨S600000, .i32⟩ : BufTy).Contents (Elt F))) c
  let v20 : (main_v20 : Ref sig .tc).ty.Contents (Elt F) := ((cmpi .slt : (⟨S600000, .i32⟩ : BufTy).Contents (Elt F) → (⟨S600000, .i32⟩ : BufTy).Contents (Elt F) → (⟨S600000, .i1⟩ : BufTy).Contents (Elt F))) src v19
  let c_2 : (main_c_2 : Ref sig .tc).ty.Contents (Elt F) := (constantI S_ 32 50000#32)
  let v21 : (main_v21 : Ref sig .tc).ty.Contents (Elt F) := ((broadcastInDim S600000 ![] bcast_S_S600000 : (⟨S_, .i32⟩ : BufTy).Contents (Elt F) → (⟨S600000, .i32⟩ : BufTy).Contents (Elt F))) c_2
  let v22 : (main_v22 : Ref sig .tc).ty.Contents (Elt F) := ((addi : (⟨S600000, .i32⟩ : BufTy).Contents (Elt F) → (⟨S600000, .i32⟩ : BufTy).Contents (Elt F) → (⟨S600000, .i32⟩ : BufTy).Contents (Elt F))) src v21
  let v23 : (main_v23 : Ref sig .tc).ty.Contents (Elt F) := ((select : (⟨S600000, .i1⟩ : BufTy).Contents (Elt F) → (⟨S600000, .i32⟩ : BufTy).Contents (Elt F) → (⟨S600000, .i32⟩ : BufTy).Contents (Elt F) → (⟨S600000, .i32⟩ : BufTy).Contents (Elt F))) v20 v22 src
  let v24 : (main_v24 : Ref sig .tc).ty.Contents (Elt F) := ((broadcastInDim S600000x1 ![0] bcast_S600000_S600000x1_0 : (⟨S600000, .i32⟩ : BufTy).Contents (Elt F) → (⟨S600000x1, .i32⟩ : BufTy).Contents (Elt F))) v23
  let v25 : (main_v25 : Ref sig .tc).ty.Contents (Elt F) := (((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F))) h v24
  let v26 : (main_v26 : Ref sig .tc).ty.Contents (Elt F) := ((addf : (⟨S600000x128, .f32⟩ : BufTy).Contents (Elt F) → (⟨S600000x128, .f32⟩ : BufTy).Contents (Elt F) → (⟨S600000x128, .f32⟩ : BufTy).Contents (Elt F))) v25 ea
  let v27 : (main_v27 : Ref sig .tc).ty.Contents (Elt F) := ((broadcastInDim S600000x1 ![0] bcast_S600000_S600000x1_0 : (⟨S600000, .f32⟩ : BufTy).Contents (Elt F) → (⟨S600000x1, .f32⟩ : BufTy).Contents (Elt F))) ew
  let v28 : (main_v28 : Ref sig .tc).ty.Contents (Elt F) := ((broadcastInDim S600000x128 ![0, 1] bcast_S600000x1_S600000x128_0_1 : (⟨S600000x1, .f32⟩ : BufTy).Contents (Elt F) → (⟨S600000x128, .f32⟩ : BufTy).Contents (Elt F))) v27
  let v29 : (main_v29 : Ref sig .tc).ty.Contents (Elt F) := ((mulf : (⟨S600000x128, .f32⟩ : BufTy).Contents (Elt F) → (⟨S600000x128, .f32⟩ : BufTy).Contents (Elt F) → (⟨S600000x128, .f32⟩ : BufTy).Contents (Elt F))) v26 v28
  let cst_3 : (main_cst_3 : Ref sig .tc).ty.Contents (Elt F) := (constant S_ .f32 0x00000000#32)
  let v30 : (main_v30 : Ref sig .tc).ty.Contents (Elt F) := ((broadcastInDim S50000x128 ![] bcast_S_S50000x128 : (⟨S_, .f32⟩ : BufTy).Contents (Elt F) → (⟨S50000x128, .f32⟩ : BufTy).Contents (Elt F))) cst_3
  let v31 : (main_v31 : Ref sig .tc).ty.Contents (Elt F) := ((broadcastInDim S600000x1 ![0] bcast_S600000_S600000x1_0 : (⟨S600000, .i32⟩ : BufTy).Contents (Elt F) → (⟨S600000x1, .i32⟩ : BufTy).Contents (Elt F))) dst
  let v32 : (main_v32 : Ref sig .tc).ty.Contents (Elt F) := (((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F))) v30 v31 v29
  let v33 : (main_v33 : Ref sig .tc).ty.Contents (Elt F) := ((broadcastInDim S50000x128 ![0, 1] bcast_S50000x1_S50000x128_0_1 : (⟨S50000x1, .f32⟩ : BufTy).Contents (Elt F) → (⟨S50000x128, .f32⟩ : BufTy).Contents (Elt F))) denom
  let v34 : (main_v34 : Ref sig .tc).ty.Contents (Elt F) := ((Host.divf : (⟨S50000x128, .f32⟩ : BufTy).Contents (Elt F) → (⟨S50000x128, .f32⟩ : BufTy).Contents (Elt F) → (⟨S50000x128, .f32⟩ : BufTy).Contents (Elt F))) v32 v33
  v34

/-- The rest of a layer over its aggregated message: the two products and the bias, the column statistics, the normalisation. -/
def layerRest (agg : (main_v34 : Ref sig .tc).ty.Contents (Elt F)) (h : (main_v7 : Ref sig .tc).ty.Contents (Elt F)) (WlS : (main_v35 : Ref sig .tc).ty.Contents (Elt F)) (blS : (main_v38 : Ref sig .tc).ty.Contents (Elt F)) (WrS : (main_v43 : Ref sig .tc).ty.Contents (Elt F)) (gS : (main_v51 : Ref sig .tc).ty.Contents (Elt F)) (bS : (main_v65 : Ref sig .tc).ty.Contents (Elt F)) :
    (main_v69 : Ref sig .tc).ty.Contents (Elt F) :=
  let v36 : (main_v36 : Ref sig .tc).ty.Contents (Elt F) := shapeCast (main_v36 : Ref sig .tc).ty.shape WlS shapeCasts_S1x128x128_S128x128
  let v37 : (main_v37 : Ref sig .tc).ty.Contents (Elt F) := (((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))) agg v36
  let v39 : (main_v39 : Ref sig .tc).ty.Contents (Elt F) := shapeCast (main_v39 : Ref sig .tc).ty.shape blS shapeCasts_S1x128_S128
  let v40 : (main_v40 : Ref sig .tc).ty.Contents (Elt F) := ((broadcastInDim S1x128 ![1] bcast_S128_S1x128_1 : (⟨S128, .f32⟩ : BufTy).Contents (Elt F) → (⟨S1x128, .f32⟩ : BufTy).Contents (Elt F))) v39
  let v41 : (main_v41 : Ref sig .tc).ty.Contents (Elt F) := ((broadcastInDim S50000x128 ![0, 1] bcast_S1x128_S50000x128_0_1 : (⟨S1x128, .f32⟩ : BufTy).Contents (Elt F) → (⟨S50000x128, .f32⟩ : BufTy).Contents (Elt F))) v40
  let v42 : (main_v42 : Ref sig .tc).ty.Contents (Elt F) := ((addf : (⟨S50000x128, .f32⟩ : BufTy).Contents (Elt F) → (⟨S50000x128, .f32⟩ : BufTy).Contents (Elt F) → (⟨S50000x128, .f32⟩ : BufTy).Contents (Elt F))) v37 v41
  let v44 : (main_v44 : Ref sig .tc).ty.Contents (Elt F) := shapeCast (main_v44 : Ref sig .tc).ty.shape WrS shapeCasts_S1x128x128_S128x128
  let v45 : (main_v45 : Ref sig .tc).ty.Contents (Elt F) := (((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))) h v44
  let v46 : (main_v46 : Ref sig .tc).ty.Contents (Elt F) := ((addf : (⟨S50000x128, .f32⟩ : BufTy).Contents (Elt F) → (⟨S50000x128, .f32⟩ : BufTy).Contents (Elt F) → (⟨S50000x128, .f32⟩ : BufTy).Contents (Elt F))) v42 v45
  let cst_4 : (main_cst_4 : Ref sig .tc).ty.Contents (Elt F) := (constant S_ .f32 0x00000000#32)
  let v47 : (main_v47 : Ref sig .tc).ty.Contents (Elt F) := (((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F))) v46 cst_4
  let cst_5 : (main_cst_5 : Ref sig .tc).ty.Contents (Elt F) := (constant S_ .f32 0x47435000#32)
  let v48 : (main_v48 : Ref sig .tc).ty.Contents (Elt F) := ((broadcastInDim S128 ![] bcast_S_S128 : (⟨S_, .f32⟩ : BufTy).Contents (Elt F) → (⟨S128, .f32⟩ : BufTy).Contents (Elt F))) cst_5
  let v49 : (main_v49 : Ref sig .tc).ty.Contents (Elt F) := ((Host.divf : (⟨S128, .f32⟩ : BufTy).Contents (Elt F) → (⟨S128, .f32⟩ : BufTy).Contents (Elt F) → (⟨S128, .f32⟩ : BufTy).Contents (Elt F))) v47 v48
  let c_6 : (main_c_6 : Ref sig .tc).ty.Contents (Elt F) := (constantI S_ 32 0#32)
  let call0_cst : (main_call0_cst : Ref sig .tc).ty.Contents (Elt F) := (constant S_ .f32 0x00000000#32)
  let call0_v0 : (main_call0_v0 : Ref sig .tc).ty.Contents (Elt F) := ((fun x v => Host.reduceAdd x v reducesTo_S50000x128_S128_d0 h_S_)) v46 call0_cst
  let call0_v1 : (main_call0_v1 : Ref sig .tc).ty.Contents (Elt F) := ((broadcastInDim S1x128 ![1] bcast_S128_S1x128_1)) call0_v0
  let call0_cst_0 : (main_call0_cst_0 : Ref sig .tc).ty.Contents (Elt F) := (constant S_ .f32 0x47435000#32)
  let call0_v2 : (main_call0_v2 : Ref sig .tc).ty.Contents (Elt F) := ((broadcastInDim S1x128 ![] bcast_S_S1x128)) call0_cst_0
  let call0_v3 : (main_call0_v3 : Ref sig .tc).ty.Contents (Elt F) := (Host.divf) call0_v1 call0_v2
  let call0_v4 : (main_call0_v4 : Ref sig .tc).ty.Contents (Elt F) := ((broadcastInDim S50000x128 ![0, 1] bcast_S1x128_S50000x128_0_1)) call0_v3
  let call0_v5 : (main_call0_v5 : Ref sig .tc).ty.Contents (Elt F) := (subf) v46 call0_v4
  let call0_v6 : (main_call0_v6 : Ref sig .tc).ty.Contents (Elt F) := (mulf) call0_v5 call0_v5
  let call0_v7 : (main_call0_v7 : Ref sig .tc).ty.Contents (Elt F) := ((sitofp .f32)) c_6
  let call0_cst_1 : (main_call0_cst_1 : Ref sig .tc).ty.Contents (Elt F) := (constant S_ .f32 0x47435000#32)
  let call0_v8 : (main_call0_v8 : Ref sig .tc).ty.Contents (Elt F) := (subf) call0_cst_1 call0_v7
  let call0_cst_2 : (main_call0_cst_2 : Ref sig .tc).ty.Contents (Elt F) := (constant S_ .f32 0x00000000#32)
  let call0_v9 : (main_call0_v9 : Ref sig .tc).ty.Contents (Elt F) := ((fun x v => Host.reduceAdd x v reducesTo_S50000x128_S128_d0 h_S_)) call0_v6 call0_cst_2
  let call0_v10 : (main_call0_v10 : Ref sig .tc).ty.Contents (Elt F) := ((broadcastInDim S128 ![] bcast_S_S128)) call0_v8
  let call0_v11 : (main_call0_v11 : Ref sig .tc).ty.Contents (Elt F) := (Host.divf) call0_v9 call0_v10
  let call0_cst_3 : (main_call0_cst_3 : Ref sig .tc).ty.Contents (Elt F) := (constant S_ .f32 0x00000000#32)
  let call0_v12 : (main_call0_v12 : Ref sig .tc).ty.Contents (Elt F) := ((cmpf .ogt)) call0_v8 call0_cst_3
  let call0_cst_4 : (main_call0_cst_4 : Ref sig .tc).ty.Contents (Elt F) := (constant S_ .f32 0x7FC00000#32)
  let call0_call0_v0 : (main_call0_call0_v0 : Ref sig .tc).ty.Contents (Elt F) := (id) call0_cst_4
  let call0_call0_v1 : (main_call0_call0_v1 : Ref sig .tc).ty.Contents (Elt F) := ((broadcastInDim S128 ![] bcast_S_S128)) call0_call0_v0
  let v50 : (main_v50 : Ref sig .tc).ty.Contents (Elt F) := ((fun p a b => select (broadcastInDim S128 ![] bcast_S_S128 p) a b)) call0_v12 call0_v11 call0_call0_v1
  let v52 : (main_v52 : Ref sig .tc).ty.Contents (Elt F) := shapeCast (main_v52 : Ref sig .tc).ty.shape gS shapeCasts_S1x128_S128
  let v53 : (main_v53 : Ref sig .tc).ty.Contents (Elt F) := ((broadcastInDim S1x128 ![1] bcast_S128_S1x128_1 : (⟨S128, .f32⟩ : BufTy).Contents (Elt F) → (⟨S1x128, .f32⟩ : BufTy).Contents (Elt F))) v49
  let v54 : (main_v54 : Ref sig .tc).ty.Contents (Elt F) := ((broadcastInDim S50000x128 ![0, 1] bcast_S1x128_S50000x128_0_1 : (⟨S1x128, .f32⟩ : BufTy).Contents (Elt F) → (⟨S50000x128, .f32⟩ : BufTy).Contents (Elt F))) v53
  let v55 : (main_v55 : Ref sig .tc).ty.Contents (Elt F) := ((subf : (⟨S50000x128, .f32⟩ : BufTy).Contents (Elt F) → (⟨S50000x128, .f32⟩ : BufTy).Contents (Elt F) → (⟨S50000x128, .f32⟩ : BufTy).Contents (Elt F))) v46 v54
  let v56 : (main_v56 : Ref sig .tc).ty.Contents (Elt F) := ((broadcastInDim S1x128 ![1] bcast_S128_S1x128_1 : (⟨S128, .f32⟩ : BufTy).Contents (Elt F) → (⟨S1x128, .f32⟩ : BufTy).Contents (Elt F))) v52
  let v57 : (main_v57 : Ref sig .tc).ty.Contents (Elt F) := ((broadcastInDim S50000x128 ![0, 1] bcast_S1x128_S50000x128_0_1 : (⟨S1x128, .f32⟩ : BufTy).Contents (Elt F) → (⟨S50000x128, .f32⟩ : BufTy).Contents (Elt F))) v56
  let v58 : (main_v58 : Ref sig .tc).ty.Contents (Elt F) := ((mulf : (⟨S50000x128, .f32⟩ : BufTy).Contents (Elt F) → (⟨S50000x128, .f32⟩ : BufTy).Contents (Elt F) → (⟨S50000x128, .f32⟩ : BufTy).Contents (Elt F))) v57 v55
  let cst_7 : (main_cst_7 : Ref sig .tc).ty.Contents (Elt F) := (constant S_ .f32 0x3727C5AC#32)
  let v59 : (main_v59 : Ref sig .tc).ty.Contents (Elt F) := ((broadcastInDim S128 ![] bcast_S_S128 : (⟨S_, .f32⟩ : BufTy).Contents (Elt F) → (⟨S128, .f32⟩ : BufTy).Contents (Elt F))) cst_7
  let v60 : (main_v60 : Ref sig .tc).ty.Contents (Elt F) := ((addf : (⟨S128, .f32⟩ : BufTy).Contents (Elt F) → (⟨S128, .f32⟩ : BufTy).Contents (Elt F) → (⟨S128, .f32⟩ : BufTy).Contents (Elt F))) v50 v59
  let v61 : (main_v61 : Ref sig .tc).ty.Contents (Elt F) := ((Host.rsqrt : (⟨S128, .f32⟩ : BufTy).Contents (Elt F) → (⟨S128, .f32⟩ : BufTy).Contents (Elt F))) v60
  let v62 : (main_v62 : Ref sig .tc).ty.Contents (Elt F) := ((broadcastInDim S1x128 ![1] bcast_S128_S1x128_1 : (⟨S128, .f32⟩ : BufTy).Contents (Elt F) → (⟨S1x128, .f32⟩ : BufTy).Contents (Elt F))) v61
  let v63 : (main_v63 : Ref sig .tc).ty.Contents (Elt F) := ((broadcastInDim S50000x128 ![0, 1] bcast_S1x128_S50000x128_0_1 : (⟨S1x128, .f32⟩ : BufTy).Contents (Elt F) → (⟨S50000x128, .f32⟩ : BufTy).Contents (Elt F))) v62
  let v64 : (main_v64 : Ref sig .tc).ty.Contents (Elt F) := ((mulf : (⟨S50000x128, .f32⟩ : BufTy).Contents (Elt F) → (⟨S50000x128, .f32⟩ : BufTy).Contents (Elt F) → (⟨S50000x128, .f32⟩ : BufTy).Contents (Elt F))) v58 v63
  let v66 : (main_v66 : Ref sig .tc).ty.Contents (Elt F) := shapeCast (main_v66 : Ref sig .tc).ty.shape bS shapeCasts_S1x128_S128
  let v67 : (main_v67 : Ref sig .tc).ty.Contents (Elt F) := ((broadcastInDim S1x128 ![1] bcast_S128_S1x128_1 : (⟨S128, .f32⟩ : BufTy).Contents (Elt F) → (⟨S1x128, .f32⟩ : BufTy).Contents (Elt F))) v66
  let v68 : (main_v68 : Ref sig .tc).ty.Contents (Elt F) := ((broadcastInDim S50000x128 ![0, 1] bcast_S1x128_S50000x128_0_1 : (⟨S1x128, .f32⟩ : BufTy).Contents (Elt F) → (⟨S50000x128, .f32⟩ : BufTy).Contents (Elt F))) v67
  let v69 : (main_v69 : Ref sig .tc).ty.Contents (Elt F) := ((addf : (⟨S50000x128, .f32⟩ : BufTy).Contents (Elt F) → (⟨S50000x128, .f32⟩ : BufTy).Contents (Elt F) → (⟨S50000x128, .f32⟩ : BufTy).Contents (Elt F))) v64 v68
  v69

/-- A layer's node array before the batch norm: agg · Wl + bl + h · Wr. -/
def preBN (agg : (main_v34 : Ref sig .tc).ty.Contents (Elt F)) (h : (main_v7 : Ref sig .tc).ty.Contents (Elt F)) (WlS : (main_v35 : Ref sig .tc).ty.Contents (Elt F)) (blS : (main_v38 : Ref sig .tc).ty.Contents (Elt F)) (WrS : (main_v43 : Ref sig .tc).ty.Contents (Elt F)) :
    (main_v46 : Ref sig .tc).ty.Contents (Elt F) :=
  let v36 : (main_v36 : Ref sig .tc).ty.Contents (Elt F) := shapeCast (main_v36 : Ref sig .tc).ty.shape WlS shapeCasts_S1x128x128_S128x128
  let v37 : (main_v37 : Ref sig .tc).ty.Contents (Elt F) := (((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))) agg v36
  let v39 : (main_v39 : Ref sig .tc).ty.Contents (Elt F) := shapeCast (main_v39 : Ref sig .tc).ty.shape blS shapeCasts_S1x128_S128
  let v40 : (main_v40 : Ref sig .tc).ty.Contents (Elt F) := ((broadcastInDim S1x128 ![1] bcast_S128_S1x128_1 : (⟨S128, .f32⟩ : BufTy).Contents (Elt F) → (⟨S1x128, .f32⟩ : BufTy).Contents (Elt F))) v39
  let v41 : (main_v41 : Ref sig .tc).ty.Contents (Elt F) := ((broadcastInDim S50000x128 ![0, 1] bcast_S1x128_S50000x128_0_1 : (⟨S1x128, .f32⟩ : BufTy).Contents (Elt F) → (⟨S50000x128, .f32⟩ : BufTy).Contents (Elt F))) v40
  let v42 : (main_v42 : Ref sig .tc).ty.Contents (Elt F) := ((addf : (⟨S50000x128, .f32⟩ : BufTy).Contents (Elt F) → (⟨S50000x128, .f32⟩ : BufTy).Contents (Elt F) → (⟨S50000x128, .f32⟩ : BufTy).Contents (Elt F))) v37 v41
  let v44 : (main_v44 : Ref sig .tc).ty.Contents (Elt F) := shapeCast (main_v44 : Ref sig .tc).ty.shape WrS shapeCasts_S1x128x128_S128x128
  let v45 : (main_v45 : Ref sig .tc).ty.Contents (Elt F) := (((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))) h v44
  let v46 : (main_v46 : Ref sig .tc).ty.Contents (Elt F) := ((addf : (⟨S50000x128, .f32⟩ : BufTy).Contents (Elt F) → (⟨S50000x128, .f32⟩ : BufTy).Contents (Elt F) → (⟨S50000x128, .f32⟩ : BufTy).Contents (Elt F))) v42 v45
  v46

/-- The column means of a node array: the column sums divided by 50000. -/
def colMean (z : (main_v46 : Ref sig .tc).ty.Contents (Elt F)) :
    (main_v49 : Ref sig .tc).ty.Contents (Elt F) :=
  let cst_4 : (main_cst_4 : Ref sig .tc).ty.Contents (Elt F) := (constant S_ .f32 0x00000000#32)
  let v47 : (main_v47 : Ref sig .tc).ty.Contents (Elt F) := (((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F))) z cst_4
  let cst_5 : (main_cst_5 : Ref sig .tc).ty.Contents (Elt F) := (constant S_ .f32 0x47435000#32)
  let v48 : (main_v48 : Ref sig .tc).ty.Contents (Elt F) := ((broadcastInDim S128 ![] bcast_S_S128 : (⟨S_, .f32⟩ : BufTy).Contents (Elt F) → (⟨S128, .f32⟩ : BufTy).Contents (Elt F))) cst_5
  let v49 : (main_v49 : Ref sig .tc).ty.Contents (Elt F) := ((Host.divf : (⟨S128, .f32⟩ : BufTy).Contents (Elt F) → (⟨S128, .f32⟩ : BufTy).Contents (Elt F) → (⟨S128, .f32⟩ : BufTy).Contents (Elt F))) v47 v48
  v49

/-- The column variances of a node array as the reference takes them: the mean squared deviation from the column mean. -/
def colVar (z : (main_v46 : Ref sig .tc).ty.Contents (Elt F)) :
    (main_v50 : Ref sig .tc).ty.Contents (Elt F) :=
  let c_6 : (main_c_6 : Ref sig .tc).ty.Contents (Elt F) := (constantI S_ 32 0#32)
  let call0_cst : (main_call0_cst : Ref sig .tc).ty.Contents (Elt F) := (constant S_ .f32 0x00000000#32)
  let call0_v0 : (main_call0_v0 : Ref sig .tc).ty.Contents (Elt F) := ((fun x v => Host.reduceAdd x v reducesTo_S50000x128_S128_d0 h_S_)) z call0_cst
  let call0_v1 : (main_call0_v1 : Ref sig .tc).ty.Contents (Elt F) := ((broadcastInDim S1x128 ![1] bcast_S128_S1x128_1)) call0_v0
  let call0_cst_0 : (main_call0_cst_0 : Ref sig .tc).ty.Contents (Elt F) := (constant S_ .f32 0x47435000#32)
  let call0_v2 : (main_call0_v2 : Ref sig .tc).ty.Contents (Elt F) := ((broadcastInDim S1x128 ![] bcast_S_S1x128)) call0_cst_0
  let call0_v3 : (main_call0_v3 : Ref sig .tc).ty.Contents (Elt F) := (Host.divf) call0_v1 call0_v2
  let call0_v4 : (main_call0_v4 : Ref sig .tc).ty.Contents (Elt F) := ((broadcastInDim S50000x128 ![0, 1] bcast_S1x128_S50000x128_0_1)) call0_v3
  let call0_v5 : (main_call0_v5 : Ref sig .tc).ty.Contents (Elt F) := (subf) z call0_v4
  let call0_v6 : (main_call0_v6 : Ref sig .tc).ty.Contents (Elt F) := (mulf) call0_v5 call0_v5
  let call0_v7 : (main_call0_v7 : Ref sig .tc).ty.Contents (Elt F) := ((sitofp .f32)) c_6
  let call0_cst_1 : (main_call0_cst_1 : Ref sig .tc).ty.Contents (Elt F) := (constant S_ .f32 0x47435000#32)
  let call0_v8 : (main_call0_v8 : Ref sig .tc).ty.Contents (Elt F) := (subf) call0_cst_1 call0_v7
  let call0_cst_2 : (main_call0_cst_2 : Ref sig .tc).ty.Contents (Elt F) := (constant S_ .f32 0x00000000#32)
  let call0_v9 : (main_call0_v9 : Ref sig .tc).ty.Contents (Elt F) := ((fun x v => Host.reduceAdd x v reducesTo_S50000x128_S128_d0 h_S_)) call0_v6 call0_cst_2
  let call0_v10 : (main_call0_v10 : Ref sig .tc).ty.Contents (Elt F) := ((broadcastInDim S128 ![] bcast_S_S128)) call0_v8
  let call0_v11 : (main_call0_v11 : Ref sig .tc).ty.Contents (Elt F) := (Host.divf) call0_v9 call0_v10
  let call0_cst_3 : (main_call0_cst_3 : Ref sig .tc).ty.Contents (Elt F) := (constant S_ .f32 0x00000000#32)
  let call0_v12 : (main_call0_v12 : Ref sig .tc).ty.Contents (Elt F) := ((cmpf .ogt)) call0_v8 call0_cst_3
  let call0_cst_4 : (main_call0_cst_4 : Ref sig .tc).ty.Contents (Elt F) := (constant S_ .f32 0x7FC00000#32)
  let call0_call0_v0 : (main_call0_call0_v0 : Ref sig .tc).ty.Contents (Elt F) := (id) call0_cst_4
  let call0_call0_v1 : (main_call0_call0_v1 : Ref sig .tc).ty.Contents (Elt F) := ((broadcastInDim S128 ![] bcast_S_S128)) call0_call0_v0
  let v50 : (main_v50 : Ref sig .tc).ty.Contents (Elt F) := ((fun p a b => select (broadcastInDim S128 ![] bcast_S_S128 p) a b)) call0_v12 call0_v11 call0_call0_v1
  v50

/-- The batch norm's output from a node array, its column means and variances, and the layer's gamma and beta slices. -/
def normalise (z : (main_v46 : Ref sig .tc).ty.Contents (Elt F)) (mu : (main_v49 : Ref sig .tc).ty.Contents (Elt F)) (var : (main_v50 : Ref sig .tc).ty.Contents (Elt F)) (gS : (main_v51 : Ref sig .tc).ty.Contents (Elt F)) (bS : (main_v65 : Ref sig .tc).ty.Contents (Elt F)) :
    (main_v69 : Ref sig .tc).ty.Contents (Elt F) :=
  let v52 : (main_v52 : Ref sig .tc).ty.Contents (Elt F) := shapeCast (main_v52 : Ref sig .tc).ty.shape gS shapeCasts_S1x128_S128
  let v53 : (main_v53 : Ref sig .tc).ty.Contents (Elt F) := ((broadcastInDim S1x128 ![1] bcast_S128_S1x128_1 : (⟨S128, .f32⟩ : BufTy).Contents (Elt F) → (⟨S1x128, .f32⟩ : BufTy).Contents (Elt F))) mu
  let v54 : (main_v54 : Ref sig .tc).ty.Contents (Elt F) := ((broadcastInDim S50000x128 ![0, 1] bcast_S1x128_S50000x128_0_1 : (⟨S1x128, .f32⟩ : BufTy).Contents (Elt F) → (⟨S50000x128, .f32⟩ : BufTy).Contents (Elt F))) v53
  let v55 : (main_v55 : Ref sig .tc).ty.Contents (Elt F) := ((subf : (⟨S50000x128, .f32⟩ : BufTy).Contents (Elt F) → (⟨S50000x128, .f32⟩ : BufTy).Contents (Elt F) → (⟨S50000x128, .f32⟩ : BufTy).Contents (Elt F))) z v54
  let v56 : (main_v56 : Ref sig .tc).ty.Contents (Elt F) := ((broadcastInDim S1x128 ![1] bcast_S128_S1x128_1 : (⟨S128, .f32⟩ : BufTy).Contents (Elt F) → (⟨S1x128, .f32⟩ : BufTy).Contents (Elt F))) v52
  let v57 : (main_v57 : Ref sig .tc).ty.Contents (Elt F) := ((broadcastInDim S50000x128 ![0, 1] bcast_S1x128_S50000x128_0_1 : (⟨S1x128, .f32⟩ : BufTy).Contents (Elt F) → (⟨S50000x128, .f32⟩ : BufTy).Contents (Elt F))) v56
  let v58 : (main_v58 : Ref sig .tc).ty.Contents (Elt F) := ((mulf : (⟨S50000x128, .f32⟩ : BufTy).Contents (Elt F) → (⟨S50000x128, .f32⟩ : BufTy).Contents (Elt F) → (⟨S50000x128, .f32⟩ : BufTy).Contents (Elt F))) v57 v55
  let cst_7 : (main_cst_7 : Ref sig .tc).ty.Contents (Elt F) := (constant S_ .f32 0x3727C5AC#32)
  let v59 : (main_v59 : Ref sig .tc).ty.Contents (Elt F) := ((broadcastInDim S128 ![] bcast_S_S128 : (⟨S_, .f32⟩ : BufTy).Contents (Elt F) → (⟨S128, .f32⟩ : BufTy).Contents (Elt F))) cst_7
  let v60 : (main_v60 : Ref sig .tc).ty.Contents (Elt F) := ((addf : (⟨S128, .f32⟩ : BufTy).Contents (Elt F) → (⟨S128, .f32⟩ : BufTy).Contents (Elt F) → (⟨S128, .f32⟩ : BufTy).Contents (Elt F))) var v59
  let v61 : (main_v61 : Ref sig .tc).ty.Contents (Elt F) := ((Host.rsqrt : (⟨S128, .f32⟩ : BufTy).Contents (Elt F) → (⟨S128, .f32⟩ : BufTy).Contents (Elt F))) v60
  let v62 : (main_v62 : Ref sig .tc).ty.Contents (Elt F) := ((broadcastInDim S1x128 ![1] bcast_S128_S1x128_1 : (⟨S128, .f32⟩ : BufTy).Contents (Elt F) → (⟨S1x128, .f32⟩ : BufTy).Contents (Elt F))) v61
  let v63 : (main_v63 : Ref sig .tc).ty.Contents (Elt F) := ((broadcastInDim S50000x128 ![0, 1] bcast_S1x128_S50000x128_0_1 : (⟨S1x128, .f32⟩ : BufTy).Contents (Elt F) → (⟨S50000x128, .f32⟩ : BufTy).Contents (Elt F))) v62
  let v64 : (main_v64 : Ref sig .tc).ty.Contents (Elt F) := ((mulf : (⟨S50000x128, .f32⟩ : BufTy).Contents (Elt F) → (⟨S50000x128, .f32⟩ : BufTy).Contents (Elt F) → (⟨S50000x128, .f32⟩ : BufTy).Contents (Elt F))) v58 v63
  let v66 : (main_v66 : Ref sig .tc).ty.Contents (Elt F) := shapeCast (main_v66 : Ref sig .tc).ty.shape bS shapeCasts_S1x128_S128
  let v67 : (main_v67 : Ref sig .tc).ty.Contents (Elt F) := ((broadcastInDim S1x128 ![1] bcast_S128_S1x128_1 : (⟨S128, .f32⟩ : BufTy).Contents (Elt F) → (⟨S1x128, .f32⟩ : BufTy).Contents (Elt F))) v66
  let v68 : (main_v68 : Ref sig .tc).ty.Contents (Elt F) := ((broadcastInDim S50000x128 ![0, 1] bcast_S1x128_S50000x128_0_1 : (⟨S1x128, .f32⟩ : BufTy).Contents (Elt F) → (⟨S50000x128, .f32⟩ : BufTy).Contents (Elt F))) v67
  let v69 : (main_v69 : Ref sig .tc).ty.Contents (Elt F) := ((addf : (⟨S50000x128, .f32⟩ : BufTy).Contents (Elt F) → (⟨S50000x128, .f32⟩ : BufTy).Contents (Elt F) → (⟨S50000x128, .f32⟩ : BufTy).Contents (Elt F))) v64 v68
  v69

end Cert.ReferenceIdeal.RefRun

end
-- ==== Proof.LibRowGatherScatter.lean ====
/-
  Rows selected by a column of integer start indices: a gather of whole rows, a gather of single entries, and the
  accumulating scatter of rows, each read at an index.

  Given an array with N rows and a column `idx` of R integer words, entry `e` of the column names row
  `min (toNat (toInt idx[e])) (N - 1)` for a gather (the word read signed and clamped into the array), while a scatter
  does not clamp: update row `e` lands on row `toInt idx[e]` when that is in `[0, N)`, and is dropped otherwise.
-/
import Idealize.ShloMosaic.PureOps.Ideal.Laws
import Idealize.ShloMosaic.Lib.ValueIdx

noncomputable section

namespace Cert.LibRowGatherScatter

open Idealize.ShloMosaic Idealize.ShloMosaic.ValueIdx

variable {α : Type}

/-- The row of an N-row array that a start-index word selects in a gather: the word as a signed integer, negative values
    at 0, large ones at the last row. -/
def clampRow (N : Nat) (hN : 0 < N) {w : Nat} (b : BitVec w) : Fin N := ⟨min b.toInt.toNat (N - 1), by omega⟩

/-- The dimension numbers of a gather of whole rows: operand `[N, C]`, start indices `[R, 1]` (one row number each),
    result `[R, C]`; the row axis is collapsed, the column axis is the offset axis with the full slice. -/
abbrev rowsDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- A gather of whole rows read at `(e, f)`: the operand at the clamped row named by `idx[e, 0]`, column `f`. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (f : Fin C) :
    Host.gather (rowsDims N R C wf) x idx (ix2 e f) = x (ix2 (clampRow N hN (idx (ix2 e 0))) f) := by
  unfold Host.gather
  congr 1
  funext a
  refine Fin.ext ?_
  show (rowsDims N R C wf).start (ix2 e f) idx a + (rowsDims N R C wf).batchCoord (ix2 e f) a
      + (rowsDims N R C wf).offCoord (ix2 e f) a = _
  rw [GatherDims.batchCoord_eq_zero _ _ _ List.not_mem_nil]
  have h0 : (rowsDims N R C wf).start (ix2 e f) idx (0 : Fin 2) + 0 + (rowsDims N R C wf).offCoord (ix2 e f) (0 : Fin 2)
      = ((ix2 (clampRow N hN (idx (ix2 e 0))) f : (⟨2, ![N, C]⟩ : Shape).Idx) (0 : Fin 2)).val := by
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N R C wf).startIndexMap from List.mem_singleton.mpr rfl)]
    have hsi : (rowsDims N R C wf).siIdx (ix2 e f) ⟨List.idxOf (0 : Fin 2) (rowsDims N R C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  have h1 : (rowsDims N R C wf).start (ix2 e f) idx (1 : Fin 2) + 0 + (rowsDims N R C wf).offCoord (ix2 e f) (1 : Fin 2)
      = ((ix2 (clampRow N hN (idx (ix2 e 0))) f : (⟨2, ![N, C]⟩ : Shape).Idx) (1 : Fin 2)).val := by
    have hn : (1 : Fin 2) ∉ (rowsDims N R C wf).startIndexMap :=
      fun h => absurd (congrArg Fin.val (List.mem_singleton.mp h)) Nat.one_ne_zero
    unfold GatherDims.start
    rw [dif_neg hn]
    unfold GatherDims.offCoord
    rw [dif_pos (show (1 : Fin 2) ∈ (rowsDims N R C wf).sKept from (GatherDims.mem_sKept _ _).mpr
      ⟨fun h => absurd (congrArg Fin.val (List.mem_singleton.mp h)) Nat.one_ne_zero, List.not_mem_nil⟩)]
    simp only [Nat.zero_add]
    rfl
  match a with
  | ⟨0, _⟩ => exact h0
  | ⟨1, _⟩ => exact h1

/-- The dimension numbers of a gather of single entries: operand `[N]`, start indices `[R, 1]`, result `[R]`. -/
abbrev eltsDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- A gather of single entries read at `e`: the operand at the clamped row named by `idx[e, 0]`. -/
theorem gather_elts_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (eltsDims N R wf) x idx (ix1 e) = x (ix1 (clampRow N hN (idx (ix2 e 0)))) := by
  unfold Host.gather
  congr 1
  funext a
  obtain rfl : a = 0 := Subsingleton.elim _ _
  refine Fin.ext ?_
  show (eltsDims N R wf).start (ix1 e) idx 0 + (eltsDims N R wf).batchCoord (ix1 e) 0 + (eltsDims N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (eltsDims N R wf).startIndexMap from List.mem_singleton.mpr rfl)]
  have hsi : (eltsDims N R wf).siIdx (ix1 e) ⟨List.idxOf (0 : Fin 1) (eltsDims N R wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- The dimension numbers of a scatter of whole rows: operand `[N, C]`, scatter indices `[R, 1]`, updates `[R, C]`. -/
abbrev rowsScatter (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- Where a scatter of whole rows puts update entry `(e, f)`: if it lands on the operand's index `i`, then the word
    `idx[e, 0]`, read signed, IS `i`'s row number (it is not clamped: it lies in `[0, N)`). -/
theorem scatter_rows_row {N R C w : Nat}
    (wf : ScatterDims.WF ⟨2, ![N, C]⟩ ⟨2, ![R, 1]⟩ ⟨2, ![R, C]⟩ [1] [0] [0] 1)
    (idx : IVec ⟨2, ![R, 1]⟩ w) (e : Fin R) (f : Fin C) (i : (⟨2, ![N, C]⟩ : Shape).Idx)
    (h : (rowsScatter N R C wf).resultIdx? (ix2 e f) idx = some i) :
    (idx (ix2 e 0)).toInt = ((i 0).val : Int) := by
  unfold ScatterDims.resultIdx? at h
  split at h
  · rename_i hall
    have hi := Option.some.inj h
    have h0 : ((rowsScatter N R C wf).start (ix2 e f) idx (0 : Fin 2) + ((rowsScatter N R C wf).window (ix2 e f) (0 : Fin 2) : Int)).toNat
        = (i 0).val := congrArg (fun g => (g (0 : Fin 2)).val) hi
    have hs : (rowsScatter N R C wf).start (ix2 e f) idx (0 : Fin 2) = (idx (ix2 e 0)).toInt := by
      unfold ScatterDims.start
      rw [dif_pos (show (0 : Fin 2) ∈ (rowsScatter N R C wf).scatterDimsToOperandDims from List.mem_singleton.mpr rfl)]
      have hsi : (rowsScatter N R C wf).siIdx (ix2 e f) ⟨List.idxOf (0 : Fin 2) (rowsScatter N R C wf).scatterDimsToOperandDims,
          List.idxOf_lt_length_iff.2 (List.mem_singleton.mpr rfl)⟩ = ix2 e 0 := by
        funext b; refine Fin.ext ?_
        match b with
        | ⟨0, _⟩ => rfl
        | ⟨1, _⟩ => rfl
      rw [hsi]
    have hw : (rowsScatter N R C wf).window (ix2 e f) (0 : Fin 2) = 0 := by
      unfold ScatterDims.window
      rw [dif_neg]
      simp [ScatterDims.sKept, Shape.kept]
    have hge := (hall (0 : Fin 2)).1
    rw [hs, hw] at h0 hge
    simp only [Nat.cast_zero, add_zero] at h0 hge
    omega
  · exact absurd h (by simp)

end Cert.LibRowGatherScatter

end
-- ==== Proof.LibRowScatterSum.lean ====
/- A scatter-add of whole rows, read at an index, as a sum over the update rows that land there.

   Update entry `(e, f)` of an `[R, C]` array of updates, sent by the column `idx` of `R` integer words into an `[N, C]`
   operand, lands on operand index `(n, f')` exactly when the word `idx[e]`, read signed, is `n` and `f = f'`: on the
   row axis the start is the word and the window coordinate is 0, on the column axis the start is 0 and the window
   coordinate is `f`; an entry whose word is outside `[0, N)` lands nowhere. So, over the extended reals, the scattered
   array at `(n, f)` is the operand there plus the sum of `upd (e, f)` over the rows `e` whose word is `n`. -/
import proofs.«144276_j65051574665788_2_alg».proof.Proof.LibRowGatherScatter

noncomputable section

namespace Cert.LibRowScatterSum

open Idealize.ShloMosaic Idealize.ShloMosaic.ValueIdx Cert.LibRowGatherScatter

variable {N R C w : Nat}

/-- On the row axis the window starts at the index word, read signed. -/
theorem start_row (wf : ScatterDims.WF ⟨2, ![N, C]⟩ ⟨2, ![R, 1]⟩ ⟨2, ![R, C]⟩ [1] [0] [0] 1)
    (idx : IVec ⟨2, ![R, 1]⟩ w) (e : Fin R) (f : Fin C) :
    (rowsScatter N R C wf).start (ix2 e f) idx (0 : Fin 2) = (idx (ix2 e 0)).toInt := by
  unfold ScatterDims.start
  rw [dif_pos (show (0 : Fin 2) ∈ (rowsScatter N R C wf).scatterDimsToOperandDims from List.mem_singleton.mpr rfl)]
  have hsi : (rowsScatter N R C wf).siIdx (ix2 e f) ⟨List.idxOf (0 : Fin 2) (rowsScatter N R C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- On the row axis the window coordinate is 0 (the row axis is inserted). -/
theorem window_row (wf : ScatterDims.WF ⟨2, ![N, C]⟩ ⟨2, ![R, 1]⟩ ⟨2, ![R, C]⟩ [1] [0] [0] 1) (e : Fin R) (f : Fin C) :
    (rowsScatter N R C wf).window (ix2 e f) (0 : Fin 2) = 0 := by
  unfold ScatterDims.window
  rw [dif_neg]
  simp [ScatterDims.sKept, Shape.kept]

/-- On the column axis the window starts at 0 (no index word names it). -/
theorem start_col (wf : ScatterDims.WF ⟨2, ![N, C]⟩ ⟨2, ![R, 1]⟩ ⟨2, ![R, C]⟩ [1] [0] [0] 1)
    (idx : IVec ⟨2, ![R, 1]⟩ w) (e : Fin R) (f : Fin C) :
    (rowsScatter N R C wf).start (ix2 e f) idx (1 : Fin 2) = 0 := by
  unfold ScatterDims.start
  rw [dif_neg]
  exact fun h => absurd (congrArg Fin.val (List.mem_singleton.mp h)) Nat.one_ne_zero

/-- On the column axis the window coordinate is the update's column. -/
theorem window_col (wf : ScatterDims.WF ⟨2, ![N, C]⟩ ⟨2, ![R, 1]⟩ ⟨2, ![R, C]⟩ [1] [0] [0] 1) (e : Fin R) (f : Fin C) :
    (rowsScatter N R C wf).window (ix2 e f) (1 : Fin 2) = f.val := by
  unfold ScatterDims.window
  rw [dif_pos (show (1 : Fin 2) ∈ (rowsScatter N R C wf).sKept by simp [ScatterDims.sKept, Shape.kept])]
  rfl

/-- Update entry `(e, f)` lands on `(n, f')` exactly when its index word is `n` and `f = f'`. -/
theorem lands_iff (wf : ScatterDims.WF ⟨2, ![N, C]⟩ ⟨2, ![R, 1]⟩ ⟨2, ![R, C]⟩ [1] [0] [0] 1)
    (idx : IVec ⟨2, ![R, 1]⟩ w) (e : Fin R) (f : Fin C) (n : Fin N) (f' : Fin C) :
    (rowsScatter N R C wf).resultIdx? (ix2 e f) idx = some (ix2 n f')
      ↔ (idx (ix2 e 0)).toInt = (n.val : Int) ∧ f = f' := by
  have hn0 : ((ix2 n f' : (⟨2, ![N, C]⟩ : Shape).Idx) (0 : Fin 2)).val = n.val := rfl
  have hn1 : ((ix2 n f' : (⟨2, ![N, C]⟩ : Shape).Idx) (1 : Fin 2)).val = f'.val := rfl
  have hs0 : (⟨2, ![N, C]⟩ : Shape).size (0 : Fin 2) = N := rfl
  have hs1 : (⟨2, ![N, C]⟩ : Shape).size (1 : Fin 2) = C := rfl
  unfold ScatterDims.resultIdx?
  constructor
  · intro h
    split at h
    · rename_i hall
      have hi := Option.some.inj h
      have h0 : ((rowsScatter N R C wf).start (ix2 e f) idx (0 : Fin 2) + ((rowsScatter N R C wf).window (ix2 e f) (0 : Fin 2) : Int)).toNat
          = ((ix2 n f' : (⟨2, ![N, C]⟩ : Shape).Idx) (0 : Fin 2)).val := congrArg (fun g => (g (0 : Fin 2)).val) hi
      have h1 : ((rowsScatter N R C wf).start (ix2 e f) idx (1 : Fin 2) + ((rowsScatter N R C wf).window (ix2 e f) (1 : Fin 2) : Int)).toNat
          = ((ix2 n f' : (⟨2, ![N, C]⟩ : Shape).Idx) (1 : Fin 2)).val := congrArg (fun g => (g (1 : Fin 2)).val) hi
      have hge := (hall (0 : Fin 2)).1
      rw [start_row, window_row] at h0 hge
      rw [start_col, window_col] at h1
      rw [hn0] at h0
      rw [hn1] at h1
      simp only [Nat.cast_zero, add_zero, zero_add] at h0 h1 hge
      exact ⟨by omega, Fin.ext (by omega)⟩
    · exact absurd h (by simp)
  · rintro ⟨hr, rfl⟩
    have hall : ∀ a : Fin 2, 0 ≤ (rowsScatter N R C wf).start (ix2 e f) idx a + ((rowsScatter N R C wf).window (ix2 e f) a : Int)
        ∧ (rowsScatter N R C wf).start (ix2 e f) idx a + ((rowsScatter N R C wf).window (ix2 e f) a : Int) < (((⟨2, ![N, C]⟩ : Shape).size a : Nat) : Int) := by
      intro a
      match a with
      | ⟨0, _⟩ =>
        show 0 ≤ (rowsScatter N R C wf).start (ix2 e f) idx (0 : Fin 2) + ((rowsScatter N R C wf).window (ix2 e f) (0 : Fin 2) : Int)
          ∧ (rowsScatter N R C wf).start (ix2 e f) idx (0 : Fin 2) + ((rowsScatter N R C wf).window (ix2 e f) (0 : Fin 2) : Int) < (((⟨2, ![N, C]⟩ : Shape).size (0 : Fin 2) : Nat) : Int)
        rw [start_row, window_row, hs0, hr]
        have := n.isLt
        constructor <;> omega
      | ⟨1, _⟩ =>
        show 0 ≤ (rowsScatter N R C wf).start (ix2 e f) idx (1 : Fin 2) + ((rowsScatter N R C wf).window (ix2 e f) (1 : Fin 2) : Int)
          ∧ (rowsScatter N R C wf).start (ix2 e f) idx (1 : Fin 2) + ((rowsScatter N R C wf).window (ix2 e f) (1 : Fin 2) : Int) < (((⟨2, ![N, C]⟩ : Shape).size (1 : Fin 2) : Nat) : Int)
        rw [start_col, window_col, hs1]
        have := f.isLt
        constructor <;> omega
    rw [dif_pos hall]
    refine congrArg some (funext fun a => Fin.ext ?_)
    match a with
    | ⟨0, _⟩ =>
      show ((rowsScatter N R C wf).start (ix2 e f) idx (0 : Fin 2) + ((rowsScatter N R C wf).window (ix2 e f) (0 : Fin 2) : Int)).toNat = _
      rw [start_row, window_row, hr]
      show ((n.val : Int) + ((0 : Nat) : Int)).toNat = n.val
      omega
    | ⟨1, _⟩ =>
      show ((rowsScatter N R C wf).start (ix2 e f) idx (1 : Fin 2) + ((rowsScatter N R C wf).window (ix2 e f) (1 : Fin 2) : Int)).toNat = _
      rw [start_col, window_col]
      show ((0 : Int) + ((f.val : Nat) : Int)).toNat = f.val
      omega

/-- The rows whose index word, read signed, is `n`: the update rows a scatter sends to row `n`. -/
def landing (N : Nat) (idx : IVec ⟨2, ![R, 1]⟩ w) (n : Fin N) : Finset (Fin R) :=
  Finset.univ.filter fun e => (idx (ix2 e 0)).toInt = (n.val : Int)

/-- A scatter-add of whole rows over the extended reals, read at `(n, f)`: the operand there plus the sum of column `f` of
    the update rows that land on row `n`. -/
theorem scatterAdd_rows_apply (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (n : Fin N) (f : Fin C) :
    Ideal.hostScatterAdd (rowsScatter N R C wf) x idx upd (ix2 n f) = x (ix2 n f) + ∑ e ∈ landing N idx n, upd (ix2 e f) := by
  unfold Ideal.hostScatterAdd landing
  congr 1
  rw [Finset.sum_filter, sum_idx2, Finset.sum_filter]
  refine Finset.sum_congr rfl fun e _ => ?_
  by_cases he : (idx (ix2 e 0)).toInt = (n.val : Int)
  · rw [if_pos he]
    rw [Finset.sum_eq_single f]
    · rw [if_pos ((lands_iff wf idx e f n f).mpr ⟨he, rfl⟩)]
    · intro f'' _ hne
      rw [if_neg fun h => hne ((lands_iff wf idx e f'' n f).mp h).2]
    · intro h; exact absurd (Finset.mem_univ f) h
  · rw [if_neg he]
    exact Finset.sum_eq_zero fun f'' _ => if_neg fun h => he ((lands_iff wf idx e f'' n f).mp h).1

/-! ## The scatter of single entries -/

/-- A rank-1 index set is its one coordinate's range. -/
def idxEquiv1 {n : Nat} : (⟨1, ![n]⟩ : Shape).Idx ≃ Fin n where
  toFun j := j 0
  invFun a := ix1 a
  left_inv j := (eq_ix1 j).symm
  right_inv _ := rfl

/-- A sum over a rank-1 index set is the sum over its coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of a scatter of single entries: operand `[N]`, scatter indices `[R, 1]`, updates `[R]`. -/
abbrev eltsScatter (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- The one axis's window starts at the index word, read signed. -/
theorem start_elt (wf : ScatterDims.WF ⟨1, ![N]⟩ ⟨2, ![R, 1]⟩ ⟨1, ![R]⟩ [] [0] [0] 1)
    (idx : IVec ⟨2, ![R, 1]⟩ w) (e : Fin R) :
    (eltsScatter N R wf).start (ix1 e) idx (0 : Fin 1) = (idx (ix2 e 0)).toInt := by
  unfold ScatterDims.start
  rw [dif_pos (show (0 : Fin 1) ∈ (eltsScatter N R wf).scatterDimsToOperandDims from List.mem_singleton.mpr rfl)]
  have hsi : (eltsScatter N R wf).siIdx (ix1 e) ⟨List.idxOf (0 : Fin 1) (eltsScatter N R wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- The one axis is inserted: its window coordinate is 0. -/
theorem window_elt (wf : ScatterDims.WF ⟨1, ![N]⟩ ⟨2, ![R, 1]⟩ ⟨1, ![R]⟩ [] [0] [0] 1) (e : Fin R) :
    (eltsScatter N R wf).window (ix1 e) (0 : Fin 1) = 0 := by
  unfold ScatterDims.window
  rw [dif_neg]
  simp [ScatterDims.sKept, Shape.kept]

/-- Update entry `e` lands on `n` exactly when its index word is `n`. -/
theorem lands_elt_iff (wf : ScatterDims.WF ⟨1, ![N]⟩ ⟨2, ![R, 1]⟩ ⟨1, ![R]⟩ [] [0] [0] 1)
    (idx : IVec ⟨2, ![R, 1]⟩ w) (e : Fin R) (n : Fin N) :
    (eltsScatter N R wf).resultIdx? (ix1 e) idx = some (ix1 n) ↔ (idx (ix2 e 0)).toInt = (n.val : Int) := by
  have hn0 : ((ix1 n : (⟨1, ![N]⟩ : Shape).Idx) (0 : Fin 1)).val = n.val := rfl
  have hs0 : (⟨1, ![N]⟩ : Shape).size (0 : Fin 1) = N := rfl
  unfold ScatterDims.resultIdx?
  constructor
  · intro h
    split at h
    · rename_i hall
      have hi := Option.some.inj h
      have h0 : ((eltsScatter N R wf).start (ix1 e) idx (0 : Fin 1) + ((eltsScatter N R wf).window (ix1 e) (0 : Fin 1) : Int)).toNat
          = ((ix1 n : (⟨1, ![N]⟩ : Shape).Idx) (0 : Fin 1)).val := congrArg (fun g => (g (0 : Fin 1)).val) hi
      have hge := (hall (0 : Fin 1)).1
      rw [start_elt, window_elt] at h0 hge
      rw [hn0] at h0
      simp only [Nat.cast_zero, add_zero] at h0 hge
      omega
    · exact absurd h (by simp)
  · intro hr
    have hall : ∀ a : Fin 1, 0 ≤ (eltsScatter N R wf).start (ix1 e) idx a + ((eltsScatter N R wf).window (ix1 e) a : Int)
        ∧ (eltsScatter N R wf).start (ix1 e) idx a + ((eltsScatter N R wf).window (ix1 e) a : Int) < (((⟨1, ![N]⟩ : Shape).size a : Nat) : Int) := by
      intro a
      obtain rfl : a = 0 := Subsingleton.elim _ _
      rw [start_elt, window_elt, hs0, hr]
      have := n.isLt
      constructor <;> omega
    rw [dif_pos hall]
    refine congrArg some (funext fun a => Fin.ext ?_)
    obtain rfl : a = 0 := Subsingleton.elim _ _
    show ((eltsScatter N R wf).start (ix1 e) idx (0 : Fin 1) + ((eltsScatter N R wf).window (ix1 e) (0 : Fin 1) : Int)).toNat = _
    rw [start_elt, window_elt, hr]
    show ((n.val : Int) + ((0 : Nat) : Int)).toNat = n.val
    omega

/-- A scatter-add of single entries over the extended reals, read at `n`: the operand there plus the sum of the update
    entries that land on `n`. -/
theorem scatterAdd_elts_apply (wf : ScatterDims.WF ⟨1, ![N]⟩ ⟨2, ![R, 1]⟩ ⟨1, ![R]⟩ [] [0] [0] 1)
    (x : (⟨1, ![N]⟩ : Shape).Idx → EReal) (idx : IVec ⟨2, ![R, 1]⟩ w) (upd : (⟨1, ![R]⟩ : Shape).Idx → EReal) (n : Fin N) :
    Ideal.hostScatterAdd (eltsScatter N R wf) x idx upd (ix1 n) = x (ix1 n) + ∑ e ∈ landing N idx n, upd (ix1 e) := by
  unfold Ideal.hostScatterAdd landing
  congr 1
  rw [Finset.sum_filter, sum_idx1, Finset.sum_filter]
  exact Finset.sum_congr rfl fun e _ => if_congr (lands_elt_iff wf idx e n) rfl rfl

end Cert.LibRowScatterSum

end
-- ==== Proof.LibColumnLayout.lean ====
/-
  Column vectors read at an index: a column `[a, 1]` spread over the columns of `[a, b]`, and a vector `[a]` made a
  column `[a, 1]` (by a shape cast, or by the host's broadcast along a new trailing unit axis).
-/
import Idealize.ShloMosaic.Lib.Pipeline.Value
import Idealize.ShloMosaic.Lib.ValueIdx
import Idealize.ShloMosaic.Lib.ValueLayout

noncomputable section

namespace Cert.LibColumnLayout

open Idealize.ShloMosaic Idealize.ShloMosaic.ValueIdx

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to the column `[a, 1]` reads, at `(p, u)`, the vector at `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The host's broadcast of an `[a]` vector along a new trailing unit axis reads, at `(p, u)`, the vector at `p`. -/
theorem broadcastInDim_a_a1_apply {a : ℕ} (dims : Fin 1 → Fin 2) (hdims : dims 0 = 0)
    (h : (⟨1, ![a]⟩ : Shape).BroadcastsInDim ⟨2, ![a, 1]⟩ dims) (x : (⟨1, ![a]⟩ : Shape).Idx → α) (p : Fin a) (u : Fin 1) :
    broadcastInDim ⟨2, ![a, 1]⟩ dims h x (ix2 p u) = x (ix1 p) := by
  refine broadcastInDim_apply dims h x (ix2 p u) (ix1 p) fun ax => ?_
  match ax with
  | ⟨0, _⟩ =>
    show p.val = if a = 1 then 0 else ((ix2 p u : (⟨2, ![a, 1]⟩ : Shape).Idx) (dims 0)).val
    rw [hdims]
    split
    · have := p.isLt; omega
    · rfl

end Cert.LibColumnLayout

end
-- ==== Proof.LibColumnHost.lean ====
/-
  The host's broadcast of a column `[a, 1]` over the columns of `[a, b]`, read at an index.
-/
import Idealize.ShloMosaic.Lib.Pipeline.Value
import Idealize.ShloMosaic.Lib.ValueIdx

noncomputable section

namespace Cert.LibColumnHost

open Idealize.ShloMosaic Idealize.ShloMosaic.ValueIdx

variable {α : Type}

/-- The host's broadcast of an `[a, 1]` column over the columns of `[a, b]` reads, at `(p, c)`, the column at `p`. -/
theorem broadcastInDim_a1_ab_apply {a b : ℕ} (dims : Fin 2 → Fin 2) (hd0 : dims 0 = 0) (hd1 : dims 1 = 1)
    (h : (⟨2, ![a, 1]⟩ : Shape).BroadcastsInDim ⟨2, ![a, b]⟩ dims) (x : (⟨2, ![a, 1]⟩ : Shape).Idx → α) (p : Fin a) (c : Fin b) :
    broadcastInDim ⟨2, ![a, b]⟩ dims h x (ix2 p c) = x (ix2 p (0 : Fin 1)) := by
  refine broadcastInDim_apply dims h x (ix2 p c) (ix2 p (0 : Fin 1)) fun ax => ?_
  match ax with
  | ⟨0, _⟩ =>
    show p.val = if a = 1 then 0 else ((ix2 p c : (⟨2, ![a, b]⟩ : Shape).Idx) (dims 0)).val
    rw [hd0]
    split
    · have := p.isLt; omega
    · rfl
  | ⟨1, _⟩ =>
    show 0 = if (1 : ℕ) = 1 then 0 else ((ix2 p c : (⟨2, ![a, b]⟩ : Shape).Idx) (dims 1)).val
    rw [if_pos rfl]

end Cert.LibColumnHost

end
-- ==== Proof.LibRowBroadcast.lean ====
/- Row and scalar broadcasts read at an index: a vector `[b]` as a one-row array `[1, b]`, a one-row array repeated down
   `a` rows, and a scalar splat to any shape. Each is the operand at the index with the new or size-one axes dropped. -/
import Idealize.ShloMosaic.Lib.Pipeline.Value
import Idealize.ShloMosaic.Lib.ValueIdx

noncomputable section

namespace Cert.LibRowBroadcast

open Idealize.ShloMosaic Idealize.ShloMosaic.ValueIdx

variable {α : Type}

/-- A vector laid as the one row of a `[1, b]` array, read at `(u, q)`: the vector at `q`. -/
theorem broadcastInDim_b_1b_apply {b : ℕ} (dims : Fin 1 → Fin 2) (hdims : dims 0 = 1)
    (h : (⟨1, ![b]⟩ : Shape).BroadcastsInDim ⟨2, ![1, b]⟩ dims) (x : (⟨1, ![b]⟩ : Shape).Idx → α) (u : Fin 1) (q : Fin b) :
    broadcastInDim ⟨2, ![1, b]⟩ dims h x (ix2 u q) = x (ix1 q) := by
  refine broadcastInDim_apply dims h x (ix2 u q) (ix1 q) fun ax => ?_
  match ax with
  | ⟨0, _⟩ =>
    show q.val = if b = 1 then 0 else ((ix2 u q : (⟨2, ![1, b]⟩ : Shape).Idx) (dims 0)).val
    rw [hdims]
    split
    · have := q.isLt; omega
    · rfl

/-- A one-row array repeated down `a` rows, read at `(p, q)`: the row at `q`. -/
theorem broadcastInDim_1b_ab_apply {a b : ℕ} (dims : Fin 2 → Fin 2) (hd0 : dims 0 = 0) (hd1 : dims 1 = 1)
    (h : (⟨2, ![1, b]⟩ : Shape).BroadcastsInDim ⟨2, ![a, b]⟩ dims) (x : (⟨2, ![1, b]⟩ : Shape).Idx → α) (p : Fin a) (q : Fin b) :
    broadcastInDim ⟨2, ![a, b]⟩ dims h x (ix2 p q) = x (ix2 (0 : Fin 1) q) := by
  refine broadcastInDim_apply dims h x (ix2 p q) (ix2 (0 : Fin 1) q) fun ax => ?_
  match ax with
  | ⟨0, _⟩ =>
    show 0 = if (1 : ℕ) = 1 then 0 else ((ix2 p q : (⟨2, ![a, b]⟩ : Shape).Idx) (dims 0)).val
    rw [if_pos rfl]
  | ⟨1, _⟩ =>
    show q.val = if b = 1 then 0 else ((ix2 p q : (⟨2, ![a, b]⟩ : Shape).Idx) (dims 1)).val
    rw [hd1]
    split
    · have := q.isLt; omega
    · rfl

/-- A scalar splat to any shape, read anywhere: the scalar. -/
theorem broadcastInDim_scalar_apply {t : Shape} (dims : Fin 0 → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 fun ax => ax.elim0

end Cert.LibRowBroadcast

end
-- ==== Proof.LibDotNN.lean ====
/-
  A host matrix product read at an entry, over the extended reals.

  For an M×K array `a` and a K×N array `w`, the host's general dot product contracting `a`'s second axis with
  `w`'s first and batching nothing has at entry (p, n) the value  Σ_{k < K} a[p, k] · w[k, n]:  a finite sum of
  products of extended reals, whatever precision or schedule the operation names.
-/
import Idealize.ShloMosaic.PureOps.Ideal.Laws
import Idealize.ShloMosaic.Lib.ValueIdx

noncomputable section

namespace Cert.LibDotNN

open Idealize.ShloMosaic Idealize.ShloMosaic.ValueIdx

/-- At the ideal values, a host `dot_general` of an M×K by a K×N array whose dimension numbers are the plain ones
    (contract the left operand's axis 1 with the right operand's axis 0, no batch axis), read at entry `(p, n)`,
    is the sum over `k` of `a[p, k] * w[k, n]`.  The dimension record is any one equal to `DotDims.plain M K N`
    (a printed program's own record is, by `rfl`). -/
theorem dotGeneral_apply {M K N : Nat} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (n : Fin N) :
    Host.dotGeneral D prec a w (ix2 p n) = ∑ k : Fin K, a (ix2 p k) * w (ix2 k n) := by
  subst hD
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p n) ((contrEquiv1 (DotDims.plain M K N) K rfl rfl).symm k) = ix2 p k :=
    funext fun ax => Fin.ext (by
      match ax with
      | ⟨0, _⟩ => rfl
      | ⟨1, _⟩ => exact ((DotDims.plain M K N).lhsIdx_val_of_single rfl _ _).trans hk)
  have er : (DotDims.plain M K N).rhsIdx (ix2 p n) ((contrEquiv1 (DotDims.plain M K N) K rfl rfl).symm k) = ix2 k n :=
    funext fun ax => Fin.ext (by
      match ax with
      | ⟨0, _⟩ => exact ((DotDims.plain M K N).rhsIdx_val_of_single rfl _ _).trans hk
      | ⟨1, _⟩ => rfl)
  rw [el, er]

end Cert.LibDotNN

end
-- ==== Proof.LibEdgeSumLinear.lean ====
/- Sums over the edges that land on one node are linear in what is summed. If every edge `e` of a finite set carries
   `(g e + (∑ k, a e k * W k + b)) * w e` — a gathered value plus an affine image of the edge's own attributes, times the
   edge's weight — then the sum over the set is the sum of `g e * w e`, plus the affine image of the SUMMED weighted
   attributes, the bias counted with the summed weights. Over the reals this is distributivity and an exchange of two
   finite sums; over the extended reals it holds when every operand is a real number, by pushing the coercion outwards. -/
import Idealize.ShloMosaic.PureOps.Ideal

open Finset

namespace Cert.Lib

/-- The coercion of the reals into the extended reals commutes with a finite sum. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- Linearity of a weighted edge sum, over the reals. -/
theorem edge_sum_linear {E K : Type*} [Fintype K] (s : Finset E) (g w : E → ℝ) (a : E → K → ℝ) (W : K → ℝ) (b : ℝ) :
    ∑ e ∈ s, (g e + (∑ k, a e k * W k + b)) * w e
      = ∑ e ∈ s, g e * w e + (∑ k, (∑ e ∈ s, a e k * w e) * W k + (∑ e ∈ s, w e) * b) := by
  have h1 : ∀ e ∈ s, (g e + (∑ k, a e k * W k + b)) * w e = g e * w e + (∑ k, a e k * w e * W k + w e * b) := by
    intro e _
    rw [add_mul, add_mul, Finset.sum_mul]
    congr 2
    · exact Finset.sum_congr rfl fun k _ => by ring
    · ring
  rw [Finset.sum_congr rfl h1, Finset.sum_add_distrib, Finset.sum_add_distrib, Finset.sum_comm, Finset.sum_mul]
  congr 2
  exact Finset.sum_congr rfl fun k _ => (Finset.sum_mul _ _ _).symm

/-- Linearity of a weighted edge sum, over extended reals that are real numbers. -/
theorem edge_sum_linear_coe {E K : Type*} [Fintype K] (s : Finset E) (g w : E → ℝ) (a : E → K → ℝ) (W : K → ℝ) (b : ℝ) :
    ∑ e ∈ s, ((g e : EReal) + (∑ k, (a e k : EReal) * (W k : EReal) + (b : EReal))) * (w e : EReal)
      = ∑ e ∈ s, (g e : EReal) * (w e : EReal)
        + (∑ k, (∑ e ∈ s, (a e k : EReal) * (w e : EReal)) * (W k : EReal) + (∑ e ∈ s, (w e : EReal)) * (b : EReal)) := by
  simp only [← EReal.coe_mul, ← coe_sum, ← EReal.coe_add]
  exact congrArg _ (edge_sum_linear s g w a W b)

end Cert.Lib
-- ==== Proof.LibScatterHoist.lean ====
/- Hoisting an affine map of edge attributes out of a scatter-add.

   Every edge `e` carries `(g e + (a e · W + b)) · wgt e`: a gathered row, plus an affine image of the edge's own
   attributes, times the edge's weight. Scatter-adding these rows into the nodes gives, at node `n` and column `f`, the
   same real number as scatter-adding `g e · wgt e`, and adding `(∑ₖ A n k · W k f) + ω n · b f`, where `A` is the
   scatter-add of the weighted attributes `a e · wgt e` and `ω` the scatter-add of the weights: each scatter-add at a node
   is a sum over the same set of edges, the ones landing on that node (Proof/LibRowScatterSum.lean), and a sum over a
   fixed set of edges is linear (Proof/LibEdgeSumLinear.lean). All operands are real numbers; the zero operand is `0`. -/
import proofs.«144276_j65051574665788_2_alg».proof.Proof.LibRowScatterSum
import proofs.«144276_j65051574665788_2_alg».proof.Proof.LibEdgeSumLinear

noncomputable section

namespace Cert.LibScatterHoist

open Idealize.ShloMosaic Idealize.ShloMosaic.ValueIdx Cert.LibRowGatherScatter Cert.LibRowScatterSum Cert.Lib

variable {N R C K w : Nat}

/-- The per-edge form and the hoisted form of the aggregated message agree at every node and column. -/
theorem scatter_hoist
    (wfC : ScatterDims.WF ⟨2, ![N, C]⟩ ⟨2, ![R, 1]⟩ ⟨2, ![R, C]⟩ [1] [0] [0] 1)
    (wfK : ScatterDims.WF ⟨2, ![N, K]⟩ ⟨2, ![R, 1]⟩ ⟨2, ![R, K]⟩ [1] [0] [0] 1)
    (wf1 : ScatterDims.WF ⟨1, ![N]⟩ ⟨2, ![R, 1]⟩ ⟨1, ![R]⟩ [] [0] [0] 1)
    (idx : IVec ⟨2, ![R, 1]⟩ w) (g : Fin R → Fin C → ℝ) (a : Fin R → Fin K → ℝ) (W : Fin K → Fin C → ℝ) (b : Fin C → ℝ)
    (wgt : Fin R → ℝ) (n : Fin N) (f : Fin C) :
    Ideal.hostScatterAdd (rowsScatter N R C wfC) (fun _ => 0) idx
        (fun j => ((g (j 0) (j 1) : EReal) + (∑ k, (a (j 0) k : EReal) * (W k (j 1) : EReal) + (b (j 1) : EReal))) * (wgt (j 0) : EReal))
        (ix2 n f)
      = Ideal.hostScatterAdd (rowsScatter N R C wfC) (fun _ => 0) idx (fun j => (g (j 0) (j 1) : EReal) * (wgt (j 0) : EReal)) (ix2 n f)
        + (∑ k, Ideal.hostScatterAdd (rowsScatter N R K wfK) (fun _ => 0) idx (fun j => (a (j 0) (j 1) : EReal) * (wgt (j 0) : EReal)) (ix2 n k)
              * (W k f : EReal)
          + Ideal.hostScatterAdd (eltsScatter N R wf1) (fun _ => 0) idx (fun j => (wgt (j 0) : EReal)) (ix1 n) * (b f : EReal)) := by
  simp only [scatterAdd_rows_apply, scatterAdd_elts_apply, zero_add]
  exact edge_sum_linear_coe (landing N idx n) (fun e => g e f) wgt a (fun k => W k f) (b f)

/-- A row scatter-add of real entries into zeros is the real sum over the landing rows. -/
theorem scatterAdd_rows_coe (wf : ScatterDims.WF ⟨2, ![N, C]⟩ ⟨2, ![R, 1]⟩ ⟨2, ![R, C]⟩ [1] [0] [0] 1)
    (idx : IVec ⟨2, ![R, 1]⟩ w) (u : (⟨2, ![R, C]⟩ : Shape).Idx → ℝ) (n : Fin N) (f : Fin C) :
    Ideal.hostScatterAdd (rowsScatter N R C wf) (fun _ => 0) idx (fun j => ((u j : ℝ) : EReal)) (ix2 n f)
      = ((∑ e ∈ landing N idx n, u (ix2 e f) : ℝ) : EReal) := by
  rw [scatterAdd_rows_apply, zero_add, coe_sum]

/-- A scatter-add of real single entries into zeros is the real sum over the landing entries. -/
theorem scatterAdd_elts_coe (wf : ScatterDims.WF ⟨1, ![N]⟩ ⟨2, ![R, 1]⟩ ⟨1, ![R]⟩ [] [0] [0] 1)
    (idx : IVec ⟨2, ![R, 1]⟩ w) (u : (⟨1, ![R]⟩ : Shape).Idx → ℝ) (n : Fin N) :
    Ideal.hostScatterAdd (eltsScatter N R wf) (fun _ => 0) idx (fun j => ((u j : ℝ) : EReal)) (ix1 n)
      = ((∑ e ∈ landing N idx n, u (ix1 e) : ℝ) : EReal) := by
  rw [scatterAdd_elts_apply, zero_add, coe_sum]

/-- Division by a nonzero real number distributes over a sum of two real numbers, on the extended reals. -/
theorem div_add_coe (x y d : ℝ) (hd : d ≠ 0) :
    Ideal.div ((x : EReal) + (y : EReal)) (d : EReal) = Ideal.div (x : EReal) (d : EReal) + Ideal.div (y : EReal) (d : EReal) := by
  rw [Ideal.div_coe hd, Ideal.div_coe hd, Ideal.div_coe hd, ← EReal.coe_add, ← EReal.coe_mul, ← EReal.coe_mul, ← EReal.coe_mul,
    ← EReal.coe_add, add_mul]

/-- The aggregation law. The mean over a node's incoming edges of `(g + (a · W + b)) · wgt` — the per-edge form divided by the
    node's denominator `d n` — is the mean of `g · wgt` plus the quotient, by the same denominator, of the affine map applied
    once to the node's summed weighted attributes and summed weights. -/
theorem agg_law
    (wfC : ScatterDims.WF ⟨2, ![N, C]⟩ ⟨2, ![R, 1]⟩ ⟨2, ![R, C]⟩ [1] [0] [0] 1)
    (wfK : ScatterDims.WF ⟨2, ![N, K]⟩ ⟨2, ![R, 1]⟩ ⟨2, ![R, K]⟩ [1] [0] [0] 1)
    (wf1 : ScatterDims.WF ⟨1, ![N]⟩ ⟨2, ![R, 1]⟩ ⟨1, ![R]⟩ [] [0] [0] 1)
    (idx : IVec ⟨2, ![R, 1]⟩ w) (g : Fin R → Fin C → ℝ) (a : Fin R → Fin K → ℝ) (W : Fin K → Fin C → ℝ) (b : Fin C → ℝ)
    (wgt : Fin R → ℝ) (d : Fin N → ℝ) (hd : ∀ n, d n ≠ 0) (n : Fin N) (f : Fin C) :
    Ideal.div
        (Ideal.hostScatterAdd (rowsScatter N R C wfC) (fun _ => 0) idx
          (fun j => ((g (j 0) (j 1) : EReal) + (∑ k, (a (j 0) k : EReal) * (W k (j 1) : EReal) + (b (j 1) : EReal))) * (wgt (j 0) : EReal))
          (ix2 n f))
        (d n : EReal)
      = Ideal.div (Ideal.hostScatterAdd (rowsScatter N R C wfC) (fun _ => 0) idx (fun j => (g (j 0) (j 1) : EReal) * (wgt (j 0) : EReal)) (ix2 n f))
          (d n : EReal)
        + Ideal.div
            (∑ k, Ideal.hostScatterAdd (rowsScatter N R K wfK) (fun _ => 0) idx (fun j => (a (j 0) (j 1) : EReal) * (wgt (j 0) : EReal)) (ix2 n k)
                * (W k f : EReal)
              + Ideal.hostScatterAdd (eltsScatter N R wf1) (fun _ => 0) idx (fun j => (wgt (j 0) : EReal)) (ix1 n) * (b f : EReal))
            (d n : EReal) := by
  rw [scatter_hoist wfC wfK wf1]
  simp only [← EReal.coe_mul, scatterAdd_rows_coe, scatterAdd_elts_coe, ← coe_sum, ← EReal.coe_add]
  exact div_add_coe _ _ _ (hd n)

end Cert.LibScatterHoist

end
-- ==== Proof.AggRead.lean ====
/- The reference's aggregated message read at an index. At node `n` and column `f`, the stage that gathers the source rows of
   `h`, adds the encoded edges, multiplies by the edge weights, scatter-adds by destination and divides by the denominator
   column is the quotient, by the node's denominator, of the exact scatter-add of the per-edge messages
   `(h[src e, f] + ea(e, f)) · ew(e)` — the source row read signed, wrapped when negative and clamped into the array as the
   gather does, the destination read signed and not clamped as the scatter does. -/
import proofs.«144276_j65051574665788_2_alg».proof.Proof.RefStages
import proofs.«144276_j65051574665788_2_alg».proof.Proof.LibRowScatterSum
import proofs.«144276_j65051574665788_2_alg».proof.Proof.LibColumnLayout
import proofs.«144276_j65051574665788_2_alg».proof.Proof.LibColumnHost
import proofs.«144276_j65051574665788_2_alg».proof.Proof.LibRowBroadcast
import proofs.«144276_j65051574665788_2_alg».proof.Proof.LibDotNN
import proofs.«144276_j65051574665788_2_alg».proof.Proof.LibScatterHoist
import Idealize.ShloMosaic.PureOps.Ideal.Laws

noncomputable section

namespace Cert.ReferenceIdeal.AggRead

open Cert.ReferenceIdeal Cert.ReferenceIdeal.Gen Cert.ReferenceIdeal.RefRun Idealize.ShloMosaic Idealize.ShloMosaic.TcCoe
open Idealize.ShloMosaic.ValueIdx Cert.LibRowGatherScatter Cert.LibRowScatterSum Cert.LibColumnLayout Cert.LibColumnHost Cert.LibRowBroadcast
open Cert.LibScatterHoist Cert.Lib

/-- The program's row scatter, gather and single-entry scatter are the general ones at its extents. -/
theorem scatter128_eq : scatter_S50000x128_S600000x1_S600000x128_1_0_0_1
    = rowsScatter 50000 600000 128 scatter_S50000x128_S600000x1_S600000x128_1_0_0_1_wf := rfl
theorem scatter1_eq : scatter_S50000_S600000x1_S600000_n_0_0_1
    = eltsScatter 50000 600000 scatter_S50000_S600000x1_S600000_n_0_0_1_wf := rfl
theorem gather128_eq : gather_S50000x128_S600000x1_S600000x128_1_0_n_n_0_1_1128
    = rowsDims 50000 600000 128 gather_S50000x128_S600000x1_S600000x128_1_0_n_n_0_1_1128_wf := rfl

/-- The destination numbers as the column the scatters read. -/
abbrev dstCol (dst : IVec S600000 32) : IVec S600000x1 32 := broadcastInDim S600000x1 ![0] bcast_S600000_S600000x1_0 dst

/-- The row of `h` edge `e` gathers: its source number wrapped when negative, read signed, clamped into the 50000 rows. -/
def srcRow (src : IVec S600000 32) (e : Fin 600000) : Fin 50000 :=
  clampRow 50000 (by norm_num) ((srcRows (F := Ideal) src : IVec S600000x1 32) (ix2 e 0))

/-- The per-edge message at `(e, f)`. -/
theorem msg_apply (h : FVec Ideal S50000x128 .f32) (ea : FVec Ideal S600000x128 .f32) (ew : FVec Ideal S600000 .f32)
    (src : IVec S600000 32) (e : Fin 600000) (f : Fin 128) :
    mulf (addf (Host.gather gather_S50000x128_S600000x1_S600000x128_1_0_n_n_0_1_1128 h (srcRows (F := Ideal) src)) ea)
        (broadcastInDim S600000x128 ![0, 1] bcast_S600000x1_S600000x128_0_1 (broadcastInDim S600000x1 ![0] bcast_S600000_S600000x1_0 ew))
        (ix2 e f)
      = (h (ix2 (srcRow src e) f) + ea (ix2 e f)) * ew (ix1 e) := by
  rw [mulf_apply, addf_apply, gather128_eq, gather_rows_apply (by norm_num), broadcastInDim_a1_ab_apply _ rfl rfl,
    broadcastInDim_a_a1_apply _ rfl]
  rfl

/-- The scatter-adds' zero operand is zero everywhere. -/
theorem zeros128_apply (i : S50000x128.Idx) :
    broadcastInDim S50000x128 ![] bcast_S_S50000x128 (constant (F := Ideal) S_ .f32 0x00000000#32) i = 0 := by
  rw [broadcastInDim_scalar_apply, constant_apply]
  exact Ideal.ofBits_zero_f32

/-- The aggregated message at `(n, f)`: the exact scatter-add of the per-edge messages over the edges landing on `n`, divided
    by the node's denominator. -/
theorem aggStage_apply (h : FVec Ideal S50000x128 .f32) (ea : FVec Ideal S600000x128 .f32) (ew : FVec Ideal S600000 .f32)
    (src dst : IVec S600000 32) (denom : FVec Ideal S50000x1 .f32) (n : Fin 50000) (f : Fin 128) :
    aggStage (F := Ideal) h ea ew src dst denom (ix2 n f)
      = Ideal.div
          (Ideal.hostScatterAdd (rowsScatter 50000 600000 128 scatter_S50000x128_S600000x1_S600000x128_1_0_0_1_wf) (fun _ => 0) (dstCol dst)
            (fun j => (h (ix2 (srcRow src (j 0)) (j 1)) + ea j) * ew (ix1 (j 0))) (ix2 n f))
          (denom (ix2 n 0)) := by
  show Host.divf
      (Host.scatterAdd scatter_S50000x128_S600000x1_S600000x128_1_0_0_1
        (broadcastInDim S50000x128 ![] bcast_S_S50000x128 (constant (F := Ideal) S_ .f32 0x00000000#32)) (dstCol dst)
        (mulf (addf (Host.gather gather_S50000x128_S600000x1_S600000x128_1_0_n_n_0_1_1128 h (srcRows (F := Ideal) src)) ea)
          (broadcastInDim S600000x128 ![0, 1] bcast_S600000x1_S600000x128_0_1 (broadcastInDim S600000x1 ![0] bcast_S600000_S600000x1_0 ew))))
      (broadcastInDim S50000x128 ![0, 1] bcast_S50000x1_S50000x128_0_1 denom) (ix2 n f) = _
  have hz : (broadcastInDim S50000x128 ![] bcast_S_S50000x128 (constant (F := Ideal) S_ .f32 0x00000000#32) : S50000x128.Idx → EReal)
      = fun _ => 0 := funext zeros128_apply
  have hm : (mulf (addf (Host.gather gather_S50000x128_S600000x1_S600000x128_1_0_n_n_0_1_1128 h (srcRows (F := Ideal) src)) ea)
        (broadcastInDim S600000x128 ![0, 1] bcast_S600000x1_S600000x128_0_1 (broadcastInDim S600000x1 ![0] bcast_S600000_S600000x1_0 ew))
        : S600000x128.Idx → EReal)
      = fun j => (h (ix2 (srcRow src (j 0)) (j 1)) + ea j) * ew (ix1 (j 0)) := by
    funext j
    obtain ⟨e, q, rfl⟩ : ∃ (e : Fin 600000) (q : Fin 128), j = ix2 e q := ⟨j 0, j 1, eq_ix2 j⟩
    exact msg_apply h ea ew src e q
  show Ideal.div
      (Ideal.hostScatterAdd scatter_S50000x128_S600000x1_S600000x128_1_0_0_1 _ (dstCol dst) _ (ix2 n f))
      (broadcastInDim S50000x128 ![0, 1] bcast_S50000x1_S50000x128_0_1 denom (ix2 n f)) = _
  rw [hz, hm, broadcastInDim_a1_ab_apply _ rfl rfl, scatter128_eq]

/-! ## The encoded edges and the denominators -/

/-- The edge encoder's product has the plain dimension numbers. -/
theorem dot11_eq : dot_S600000x11_S11x128_S600000x128_1_0_0_1_n_n = DotDims.plain 600000 11 128 := rfl

/-- The encoded edges at `(e, f)`: the edge's attributes against column `f` of `W_bond`, plus `b_bond f`. -/
theorem preEa_apply (eattr : FVec Ideal S600000x11 .f32) (Wbond : FVec Ideal S11x128 .f32) (bbond : FVec Ideal S128 .f32)
    (e : Fin 600000) (f : Fin 128) :
    preEa (F := Ideal) eattr Wbond bbond (ix2 e f) = ∑ k : Fin 11, eattr (ix2 e k) * Wbond (ix2 k f) + bbond (ix1 f) := by
  show addf (Host.dotGeneral dot_S600000x11_S11x128_S600000x128_1_0_0_1_n_n none eattr Wbond)
      (broadcastInDim S600000x128 ![0, 1] bcast_S1x128_S600000x128_0_1 (broadcastInDim S1x128 ![1] bcast_S128_S1x128_1 bbond)) (ix2 e f) = _
  rw [addf_apply, Cert.LibDotNN.dotGeneral_apply _ dot11_eq, broadcastInDim_1b_ab_apply _ rfl rfl, broadcastInDim_b_1b_apply _ rfl]

/-- The word `1.0` denotes the real number 1. -/
theorem ofBits_one : Ideal.ofBits .f32 0x3F800000#32 = 1 := by
  simp [Ideal.ofBits, Ideal.ieee, -EReal.coe_mul]; norm_num

/-- The real denominator of node `n`: the number of edges landing on it, at least 1. -/
def denomR (dst : IVec S600000 32) (n : Fin 50000) : ℝ := max ((landing 50000 (dstCol dst) n).card : ℝ) 1

theorem denomR_ne_zero (dst : IVec S600000 32) (n : Fin 50000) : denomR dst n ≠ 0 :=
  ne_of_gt (lt_of_lt_of_le one_pos (le_max_right _ _))

/-- The denominator column at node `n` is that real number. -/
theorem preDenom_apply (dst : IVec S600000 32) (n : Fin 50000) :
    preDenom (F := Ideal) dst (ix2 n 0) = ((denomR dst n : ℝ) : EReal) := by
  show broadcastInDim S50000x1 ![0] bcast_S50000_S50000x1_0
      (maximumf
        (Host.scatterAdd scatter_S50000_S600000x1_S600000_n_0_0_1
          (broadcastInDim S50000 ![] bcast_S_S50000 (constant (F := Ideal) S_ .f32 0x00000000#32)) (dstCol dst)
          (broadcastInDim S600000 ![] bcast_S_S600000 (constant (F := Ideal) S_ .f32 0x3F800000#32)))
        (broadcastInDim S50000 ![] bcast_S_S50000 (constant (F := Ideal) S_ .f32 0x3F800000#32))) (ix2 n 0) = _
  rw [broadcastInDim_a_a1_apply _ rfl, maximumf_apply, broadcastInDim_scalar_apply, constant_apply, ofBits_one]
  show max (Ideal.hostScatterAdd scatter_S50000_S600000x1_S600000_n_0_0_1 _ (dstCol dst) _ (ix1 n)) 1 = _
  rw [scatter1_eq, scatterAdd_elts_apply, broadcastInDim_scalar_apply, constant_apply, Ideal.ofBits_zero_f32, zero_add]
  have hs : ∑ e ∈ landing 50000 (dstCol dst) n,
      broadcastInDim S600000 ![] bcast_S_S600000 (constant (F := Ideal) S_ .f32 0x3F800000#32) (ix1 e)
        = (((landing 50000 (dstCol dst) n).card : ℝ) : EReal) := by
    rw [Finset.sum_congr rfl fun e _ => by rw [broadcastInDim_scalar_apply, constant_apply, ofBits_one]]
    rw [Finset.sum_const, nsmul_one]
    norm_cast
  rw [hs]
  unfold denomR
  rw [← EReal.coe_one]
  exact (EReal.coe_strictMono.monotone.map_max).symm

/-! ## The reference's aggregated message in the hoisted arrangement -/

/-- For real node features, edge attributes, encoder weights and edge weights, the reference's aggregated message at
    `(n, f)` — per-edge messages `(h[src e] + (edge_attr e · W_bond + b_bond)) · ew e` scatter-added by destination and divided
    by the node's denominator — is the mean of `h[src e] · ew e` plus the quotient, by the same denominator, of the edge
    encoder applied once to the node's scatter-added weighted attributes and scatter-added weights. -/
theorem agg_hoisted
    (wf11 : ScatterDims.WF ⟨2, ![50000, 11]⟩ ⟨2, ![600000, 1]⟩ ⟨2, ![600000, 11]⟩ [1] [0] [0] 1)
    (hR : Fin 50000 → Fin 128 → ℝ) (aR : Fin 600000 → Fin 11 → ℝ) (WR : Fin 11 → Fin 128 → ℝ) (bR : Fin 128 → ℝ)
    (wR : Fin 600000 → ℝ) (src dst : IVec S600000 32) (n : Fin 50000) (f : Fin 128) :
    aggStage (F := Ideal) (fun i => ((hR (i 0) (i 1) : ℝ) : EReal))
        (preEa (F := Ideal) (fun i => ((aR (i 0) (i 1) : ℝ) : EReal)) (fun i => ((WR (i 0) (i 1) : ℝ) : EReal)) (fun i => ((bR (i 0) : ℝ) : EReal)))
        (fun i => ((wR (i 0) : ℝ) : EReal)) src dst (preDenom (F := Ideal) dst) (ix2 n f)
      = Ideal.div
          (Ideal.hostScatterAdd (rowsScatter 50000 600000 128 scatter_S50000x128_S600000x1_S600000x128_1_0_0_1_wf) (fun _ => 0) (dstCol dst)
            (fun j => ((hR (srcRow src (j 0)) (j 1) : ℝ) : EReal) * ((wR (j 0) : ℝ) : EReal)) (ix2 n f))
          ((denomR dst n : ℝ) : EReal)
        + Ideal.div
            (∑ k : Fin 11, Ideal.hostScatterAdd (rowsScatter 50000 600000 11 wf11) (fun _ => 0) (dstCol dst)
                  (fun j => ((aR (j 0) (j 1) : ℝ) : EReal) * ((wR (j 0) : ℝ) : EReal)) (ix2 n k) * ((WR k f : ℝ) : EReal)
              + Ideal.hostScatterAdd (eltsScatter 50000 600000 scatter_S50000_S600000x1_S600000_n_0_0_1_wf) (fun _ => 0) (dstCol dst)
                  (fun j => ((wR (j 0) : ℝ) : EReal)) (ix1 n) * ((bR f : ℝ) : EReal))
            ((denomR dst n : ℝ) : EReal) := by
  rw [aggStage_apply, preDenom_apply]
  have hm : (fun j : S600000x128.Idx =>
        (((hR ((ix2 (srcRow src (j 0)) (j 1) : S50000x128.Idx) 0) ((ix2 (srcRow src (j 0)) (j 1) : S50000x128.Idx) 1) : ℝ) : EReal)
          + preEa (F := Ideal) (fun i => ((aR (i 0) (i 1) : ℝ) : EReal)) (fun i => ((WR (i 0) (i 1) : ℝ) : EReal)) (fun i => ((bR (i 0) : ℝ) : EReal)) j)
          * ((wR ((ix1 (j 0) : S600000.Idx) 0) : ℝ) : EReal))
      = fun j => (((hR (srcRow src (j 0)) (j 1) : ℝ) : EReal)
          + (∑ k : Fin 11, ((aR (j 0) k : ℝ) : EReal) * ((WR k (j 1) : ℝ) : EReal) + ((bR (j 1) : ℝ) : EReal))) * ((wR (j 0) : ℝ) : EReal) := by
    funext j
    obtain ⟨e, q, rfl⟩ : ∃ (e : Fin 600000) (q : Fin 128), j = ix2 e q := ⟨j 0, j 1, eq_ix2 j⟩
    rw [preEa_apply]
    rfl
  exact (congrArg (fun u : S600000x128.Idx → EReal =>
      Ideal.div (Ideal.hostScatterAdd (rowsScatter 50000 600000 128 scatter_S50000x128_S600000x1_S600000x128_1_0_0_1_wf) (fun _ => 0) (dstCol dst) u (ix2 n f))
        ((denomR dst n : ℝ) : EReal)) hm).trans
    (agg_law scatter_S50000x128_S600000x1_S600000x128_1_0_0_1_wf wf11 scatter_S50000_S600000x1_S600000_n_0_0_1_wf (dstCol dst)
      (fun e q => hR (srcRow src e) q) aR WR bR wR (denomR dst) (denomR_ne_zero dst) n f)

end Cert.ReferenceIdeal.AggRead

end
-- ==== Proof.LibVariance.lean ====
/- The mean of the squares minus the square of the mean is the mean of the squared deviations. With `c` the reciprocal of
   the number of entries (`card · c = 1`), `S = ∑ x` and `μ = S · c`:
   `(∑ xᵢ²) · c − μ · μ = (∑ (xᵢ − μ)²) · c`, because `∑ (xᵢ − μ)² = ∑ xᵢ² − 2 μ S + card · μ²` and `card · μ² · c = μ²`.
   Stated with a product by `c` because a quotient by a nonzero real constant is that product on the extended reals. The
   second form is the same identity between extended reals that are real numbers. -/
import proofs.«144276_j65051574665788_2_alg».proof.Proof.LibEdgeSumLinear

open Finset

namespace Cert.Lib

/-- Mean of squares minus squared mean equals the mean squared deviation, over the reals. -/
theorem mean_sq_sub_sq_mean {I : Type*} [Fintype I] (x : I → ℝ) (c : ℝ) (hc : (Fintype.card I : ℝ) * c = 1) :
    (∑ i, x i * x i) * c - (∑ i, x i) * c * ((∑ i, x i) * c)
      = (∑ i, (x i - (∑ j, x j) * c) * (x i - (∑ j, x j) * c)) * c := by
  generalize hS : ∑ j, x j = S
  have h : ∀ i, (x i - S * c) * (x i - S * c) = x i * x i - 2 * (S * c) * x i + S * c * (S * c) := fun i => by ring
  simp only [h, Finset.sum_add_distrib, Finset.sum_sub_distrib, ← Finset.mul_sum, Finset.sum_const, Finset.card_univ,
    nsmul_eq_mul, hS]
  have hk : (Fintype.card I : ℝ) * (S * c * (S * c)) * c = S * c * (S * c) := by
    calc (Fintype.card I : ℝ) * (S * c * (S * c)) * c = (Fintype.card I * c) * (S * c * (S * c)) := by ring
      _ = S * c * (S * c) := by rw [hc, one_mul]
  linear_combination (-1 : ℝ) * hk

/-- The same identity between extended reals that are real numbers. -/
theorem mean_sq_sub_sq_mean_coe {I : Type*} [Fintype I] (x : I → ℝ) (c : ℝ) (hc : (Fintype.card I : ℝ) * c = 1) :
    (∑ i, (x i : EReal) * (x i : EReal)) * (c : EReal) - (∑ i, (x i : EReal)) * (c : EReal) * ((∑ i, (x i : EReal)) * (c : EReal))
      = (∑ i, ((x i : EReal) - (∑ j, (x j : EReal)) * (c : EReal)) * ((x i : EReal) - (∑ j, (x j : EReal)) * (c : EReal))) * (c : EReal) := by
  simp only [← coe_sum, ← EReal.coe_mul, ← EReal.coe_sub]
  exact congrArg _ (mean_sq_sub_sq_mean x c hc)

open Idealize.ShloMosaic in
/-- The variance law with the quotients as the programs take them: dividing by the number `d` of entries, the mean of the
    squares minus the squared mean is the mean of the squared deviations from the mean. -/
theorem var_law {I : Type*} [Fintype I] (x : I → ℝ) (d : ℝ) (hd : d ≠ 0) (hcard : (Fintype.card I : ℝ) = d) :
    Ideal.div (∑ i, (x i : EReal) * (x i : EReal)) (d : EReal)
        - Ideal.div (∑ i, (x i : EReal)) (d : EReal) * Ideal.div (∑ i, (x i : EReal)) (d : EReal)
      = Ideal.div (∑ i, ((x i : EReal) - Ideal.div (∑ j, (x j : EReal)) (d : EReal))
          * ((x i : EReal) - Ideal.div (∑ j, (x j : EReal)) (d : EReal))) (d : EReal) := by
  simp only [Ideal.div_coe hd]
  exact mean_sq_sub_sq_mean_coe x (1 / d) (by rw [hcard]; field_simp)

end Cert.Lib
-- ==== Proof.BnRead.lean ====
/- The reference's batch-norm statistics read at a column, and the variance in the kernel's form. For a node array `z`, the
   column mean at `f` is the column's sum divided by 50000; the variance is taken by a function of its own, which recomputes
   the mean as a one-row array, subtracts it from every node, squares, sums the column, divides by `50000 − 0` (the zero an
   integer converted), and returns that quotient because `50000 − 0 > 0`. So the variance is the mean squared deviation;
   for a column of real numbers that is the mean of the squares minus the squared mean (Proof/LibVariance.lean). -/
import proofs.«144276_j65051574665788_2_alg».proof.Proof.RefStages
import proofs.«144276_j65051574665788_2_alg».proof.Proof.LibRowBroadcast
import proofs.«144276_j65051574665788_2_alg».proof.Proof.LibVariance
import Idealize.ShloMosaic.PureOps.Ideal.Laws

noncomputable section

namespace Cert.ReferenceIdeal.BnRead

open Cert.ReferenceIdeal Cert.ReferenceIdeal.Gen Cert.ReferenceIdeal.RefRun Idealize.ShloMosaic Idealize.ShloMosaic.TcCoe
open Idealize.ShloMosaic.ValueIdx Cert.LibRowBroadcast Cert.Lib

/-- The word `50000.0` denotes the real number 50000. -/
theorem ofBits_50000 : Ideal.ofBits .f32 0x47435000#32 = ((50000 : ℝ) : EReal) := by
  simp [Ideal.ofBits, Ideal.ieee, -EReal.coe_mul]; norm_num

/-- The node axis reduces away, leaving the columns. -/
theorem red : S50000x128.Reduces [0] S128 := by decide

/-- A column sum: the host's sum along the node axis from an initial scalar, read at column `f`. -/
theorem reduceAdd_col (z : FVec Ideal S50000x128 .f32) (init : FVec Ideal S_ .f32) (f : Fin 128) :
    Host.reduceAdd z init reducesTo_S50000x128_S128_d0 h_S_ (ix1 f) = init ix0 + ∑ k : Fin 50000, z (ix2 k f) := by
  show Ideal.hostReduceAdd reducesTo_S50000x128_S128_d0 z (init (Shape.Idx.first h_S_)) (ix1 f) = _
  rw [Ideal.hostReduceAdd_single _ red]
  refine congrArg₂ (· + ·) (congrArg init (eq_ix0 _)) (Finset.sum_congr rfl fun k _ => congrArg z ?_)
  funext a
  refine Fin.ext ?_
  match a with
  | ⟨0, _⟩ => rfl
  | ⟨1, _⟩ => rfl

/-- The column sum from zero. -/
theorem colSum_apply (z : FVec Ideal S50000x128 .f32) (f : Fin 128) :
    Host.reduceAdd z (constant (F := Ideal) S_ .f32 0x00000000#32) reducesTo_S50000x128_S128_d0 h_S_ (ix1 f)
      = ∑ k : Fin 50000, z (ix2 k f) := by
  rw [reduceAdd_col, constant_apply, Ideal.ofBits_zero_f32, zero_add]

/-- The column mean at `f`: the column's sum divided by 50000. -/
theorem colMean_apply (z : FVec Ideal S50000x128 .f32) (f : Fin 128) :
    colMean (F := Ideal) z (ix1 f) = Ideal.div (∑ k : Fin 50000, z (ix2 k f)) ((50000 : ℝ) : EReal) := by
  show Ideal.div (Host.reduceAdd z (constant (F := Ideal) S_ .f32 0x00000000#32) reducesTo_S50000x128_S128_d0 h_S_ (ix1 f))
      (broadcastInDim S128 ![] bcast_S_S128 (constant (F := Ideal) S_ .f32 0x47435000#32) (ix1 f)) = _
  rw [colSum_apply, broadcastInDim_scalar_apply, constant_apply, ofBits_50000]

/-- The count the variance divides by, `50000 − 0`, is 50000. -/
theorem count_eq : Ideal.ofBits .f32 0x47435000#32 - FloatOps.sitofp (F := Ideal) .f32 (0#32 : BitVec 32) = ((50000 : ℝ) : EReal) := by
  rw [ofBits_50000]
  show ((50000 : ℝ) : EReal) - (((0#32 : BitVec 32).toInt : ℝ) : EReal) = _
  simp

/-- The guard `50000 − 0 > 0` holds. -/
theorem guard_eq : FloatOps.cmpf (F := Ideal) .ogt
    (Ideal.ofBits .f32 0x47435000#32 - FloatOps.sitofp (F := Ideal) .f32 (0#32 : BitVec 32)) (Ideal.ofBits .f32 0x00000000#32) = 1#1 := by
  rw [count_eq, Ideal.ofBits_zero_f32]
  show BitVec.ofBool (decide ((0 : EReal) < ((50000 : ℝ) : EReal))) = 1#1
  rw [decide_eq_true (by exact_mod_cast (by norm_num : (0 : ℝ) < 50000))]
  rfl

/-- The column variance at `f` as the reference takes it: the mean squared deviation from the column mean. -/
theorem colVar_apply (z : FVec Ideal S50000x128 .f32) (f : Fin 128) :
    colVar (F := Ideal) z (ix1 f)
      = Ideal.div (∑ k : Fin 50000, (z (ix2 k f) - Ideal.div (∑ k' : Fin 50000, z (ix2 k' f)) ((50000 : ℝ) : EReal))
            * (z (ix2 k f) - Ideal.div (∑ k' : Fin 50000, z (ix2 k' f)) ((50000 : ℝ) : EReal))) ((50000 : ℝ) : EReal) := by
  -- the one-row mean the function recomputes, and the deviations from it
  have hrow : ∀ q : Fin 128,
      Host.divf (broadcastInDim S1x128 ![1] bcast_S128_S1x128_1
            (Host.reduceAdd z (constant (F := Ideal) S_ .f32 0x00000000#32) reducesTo_S50000x128_S128_d0 h_S_))
          (broadcastInDim S1x128 ![] bcast_S_S1x128 (constant (F := Ideal) S_ .f32 0x47435000#32)) (ix2 (0 : Fin 1) q)
        = Ideal.div (∑ k' : Fin 50000, z (ix2 k' q)) ((50000 : ℝ) : EReal) := by
    intro q
    show Ideal.div (broadcastInDim S1x128 ![1] bcast_S128_S1x128_1
          (Host.reduceAdd z (constant (F := Ideal) S_ .f32 0x00000000#32) reducesTo_S50000x128_S128_d0 h_S_) (ix2 (0 : Fin 1) q))
        (broadcastInDim S1x128 ![] bcast_S_S1x128 (constant (F := Ideal) S_ .f32 0x47435000#32) (ix2 (0 : Fin 1) q)) = _
    rw [broadcastInDim_b_1b_apply _ rfl, colSum_apply, broadcastInDim_scalar_apply, constant_apply, ofBits_50000]
  show select (broadcastInDim S128 ![] bcast_S_S128
        (cmpf .ogt (subf (constant (F := Ideal) S_ .f32 0x47435000#32) (sitofp .f32 (constantI S_ 32 0#32)))
          (constant (F := Ideal) S_ .f32 0x00000000#32)))
      (Host.divf
        (Host.reduceAdd
          (mulf
            (subf z (broadcastInDim S50000x128 ![0, 1] bcast_S1x128_S50000x128_0_1
              (Host.divf (broadcastInDim S1x128 ![1] bcast_S128_S1x128_1
                  (Host.reduceAdd z (constant (F := Ideal) S_ .f32 0x00000000#32) reducesTo_S50000x128_S128_d0 h_S_))
                (broadcastInDim S1x128 ![] bcast_S_S1x128 (constant (F := Ideal) S_ .f32 0x47435000#32)))))
            (subf z (broadcastInDim S50000x128 ![0, 1] bcast_S1x128_S50000x128_0_1
              (Host.divf (broadcastInDim S1x128 ![1] bcast_S128_S1x128_1
                  (Host.reduceAdd z (constant (F := Ideal) S_ .f32 0x00000000#32) reducesTo_S50000x128_S128_d0 h_S_))
                (broadcastInDim S1x128 ![] bcast_S_S1x128 (constant (F := Ideal) S_ .f32 0x47435000#32))))))
          (constant (F := Ideal) S_ .f32 0x00000000#32) reducesTo_S50000x128_S128_d0 h_S_)
        (broadcastInDim S128 ![] bcast_S_S128
          (subf (constant (F := Ideal) S_ .f32 0x47435000#32) (sitofp .f32 (constantI S_ 32 0#32)))))
      (broadcastInDim S128 ![] bcast_S_S128 (id (constant (F := Ideal) S_ .f32 0x7FC00000#32))) (ix1 f) = _
  rw [select_apply, broadcastInDim_scalar_apply, cmpf_apply, subf_apply, constant_apply, constant_apply, sitofp_apply]
  show Scalar.select (FloatOps.cmpf (F := Ideal) .ogt
      (Ideal.ofBits .f32 0x47435000#32 - FloatOps.sitofp (F := Ideal) .f32 (0#32 : BitVec 32)) (Ideal.ofBits .f32 0x00000000#32)) _ _ = _
  rw [guard_eq, select_one]
  show Ideal.div (Host.reduceAdd _ (constant (F := Ideal) S_ .f32 0x00000000#32) reducesTo_S50000x128_S128_d0 h_S_ (ix1 f))
      (broadcastInDim S128 ![] bcast_S_S128
        (subf (constant (F := Ideal) S_ .f32 0x47435000#32) (sitofp .f32 (constantI S_ 32 0#32))) (ix1 f)) = _
  rw [colSum_apply, broadcastInDim_scalar_apply, subf_apply, constant_apply, sitofp_apply]
  show Ideal.div _ (Ideal.ofBits .f32 0x47435000#32 - FloatOps.sitofp (F := Ideal) .f32 (0#32 : BitVec 32)) = _
  rw [count_eq]
  refine congrArg (fun s => Ideal.div s ((50000 : ℝ) : EReal)) (Finset.sum_congr rfl fun k _ => ?_)
  rw [mulf_apply, subf_apply, broadcastInDim_1b_ab_apply _ rfl rfl, hrow]

/-- For a column of real numbers the reference's variance is the mean of the squares minus the squared mean: the form in
    which the kernel takes it from its accumulated sums (the mean being the column's sum divided by 50000, `colMean_apply`). -/
theorem colVar_real (zR : Fin 50000 → Fin 128 → ℝ) (f : Fin 128) :
    colVar (F := Ideal) (fun i => ((zR (i 0) (i 1) : ℝ) : EReal)) (ix1 f)
      = Ideal.div (∑ k : Fin 50000, ((zR k f : ℝ) : EReal) * ((zR k f : ℝ) : EReal)) ((50000 : ℝ) : EReal)
        - Ideal.div (∑ k : Fin 50000, ((zR k f : ℝ) : EReal)) ((50000 : ℝ) : EReal)
          * Ideal.div (∑ k : Fin 50000, ((zR k f : ℝ) : EReal)) ((50000 : ℝ) : EReal) := by
  rw [colVar_apply]
  exact (var_law (fun k : Fin 50000 => zR k f) 50000 (by norm_num) (by simp)).symm

end Cert.ReferenceIdeal.BnRead

end
-- ==== Proof.LayerSplit.lean ====
/- A layer is its stages composed: the aggregated message; the node array before the batch norm, `agg · Wl + bl + h · Wr`;
   that array's column means and variances; and the normalisation. The stage terms are cut from the same operations the
   layer's term was transcribed from, so the equation is definitional. -/
import proofs.«144276_j65051574665788_2_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- A layer's node array before its batch norm, from the layer's input. -/
def layerZ (h : (main_v7 : Ref sig .tc).ty.Contents (Elt F)) (ea : (main_v11 : Ref sig .tc).ty.Contents (Elt F)) (ew : (main_arg4 : Ref sig .tc).ty.Contents (Elt F)) (src : (main_v1 : Ref sig .tc).ty.Contents (Elt F)) (dst : (main_v3 : Ref sig .tc).ty.Contents (Elt F))
    (denom : (main_v18 : Ref sig .tc).ty.Contents (Elt F)) (WlS : (main_v35 : Ref sig .tc).ty.Contents (Elt F)) (blS : (main_v38 : Ref sig .tc).ty.Contents (Elt F)) (WrS : (main_v43 : Ref sig .tc).ty.Contents (Elt F)) : (main_v46 : Ref sig .tc).ty.Contents (Elt F) :=
  preBN (aggStage h ea ew src dst denom) h WlS blS WrS

set_option maxRecDepth 16384 in
/-- The layer's term is the normalisation of that array by its own column statistics. -/
theorem layerCore_split (h : (main_v7 : Ref sig .tc).ty.Contents (Elt F)) (ea : (main_v11 : Ref sig .tc).ty.Contents (Elt F)) (ew : (main_arg4 : Ref sig .tc).ty.Contents (Elt F)) (src : (main_v1 : Ref sig .tc).ty.Contents (Elt F)) (dst : (main_v3 : Ref sig .tc).ty.Contents (Elt F))
    (denom : (main_v18 : Ref sig .tc).ty.Contents (Elt F)) (WlS : (main_v35 : Ref sig .tc).ty.Contents (Elt F)) (blS : (main_v38 : Ref sig .tc).ty.Contents (Elt F)) (WrS : (main_v43 : Ref sig .tc).ty.Contents (Elt F)) (gS : (main_v51 : Ref sig .tc).ty.Contents (Elt F)) (bS : (main_v65 : Ref sig .tc).ty.Contents (Elt F)) :
    layerCore h ea ew src dst denom WlS blS WrS gS bS
      = normalise (layerZ h ea ew src dst denom WlS blS WrS) (colMean (layerZ h ea ew src dst denom WlS blS WrS))
          (colVar (layerZ h ea ew src dst denom WlS blS WrS)) gS bS := rfl

/-- The rest of a layer over its aggregated message is the same composition. -/
theorem layerCore_rest (h : (main_v7 : Ref sig .tc).ty.Contents (Elt F)) (ea : (main_v11 : Ref sig .tc).ty.Contents (Elt F)) (ew : (main_arg4 : Ref sig .tc).ty.Contents (Elt F)) (src : (main_v1 : Ref sig .tc).ty.Contents (Elt F)) (dst : (main_v3 : Ref sig .tc).ty.Contents (Elt F))
    (denom : (main_v18 : Ref sig .tc).ty.Contents (Elt F)) (WlS : (main_v35 : Ref sig .tc).ty.Contents (Elt F)) (blS : (main_v38 : Ref sig .tc).ty.Contents (Elt F)) (WrS : (main_v43 : Ref sig .tc).ty.Contents (Elt F)) (gS : (main_v51 : Ref sig .tc).ty.Contents (Elt F)) (bS : (main_v65 : Ref sig .tc).ty.Contents (Elt F)) :
    layerCore h ea ew src dst denom WlS blS WrS gS bS = layerRest (aggStage h ea ew src dst denom) h WlS blS WrS gS bS := rfl

end Cert.ReferenceIdeal.RefRun

end
-- ==== Proof.NormRead.lean ====
/- The rest of a layer read at an index. The node array before the batch norm is, at node `n` and column `f`,
   `(∑ₖ agg(n,k) · Wl(k,f) + bl(f)) + ∑ₖ h(n,k) · Wr(k,f)` — which is also `(∑ₖ agg · Wl + ∑ₖ h · Wr) + bl`, the order in which the
   kernel adds the three, since addition of extended reals is commutative and associative. The normalisation is
   `gamma(f) · (z(n,f) − mu(f)) · rsqrt(var(f) + ε) + beta(f)`, the same expression in both programs, and the relu is the
   maximum with 0. The parameter slices are the `[1,128,128]` and `[1,128]` arrays cut from `Wl, bl, Wr, gamma, beta`. -/
import proofs.«144276_j65051574665788_2_alg».proof.Proof.RefStages
import proofs.«144276_j65051574665788_2_alg».proof.Proof.LibDotNN
import proofs.«144276_j65051574665788_2_alg».proof.Proof.LibRowBroadcast
import Idealize.ShloMosaic.Lib.ValueLayout
import Idealize.ShloMosaic.PureOps.Ideal.Laws

noncomputable section

namespace Cert.ReferenceIdeal.NormRead

open Cert.ReferenceIdeal Cert.ReferenceIdeal.Gen Cert.ReferenceIdeal.RefRun Idealize.ShloMosaic Idealize.ShloMosaic.TcCoe
open Idealize.ShloMosaic.ValueIdx Cert.LibRowBroadcast

/-- The layers' products have the plain dimension numbers. -/
theorem dot128_eq : dot_S50000x128_S128x128_S50000x128_1_0_0_1_n_n = DotDims.plain 50000 128 128 := rfl

/-- A `[1, 128]` parameter slice, taken as a vector and laid along every node's row, read at `(n, f)`: the slice at `f`. -/
theorem rowParam_apply (p : FVec Ideal S1x128 .f32) (n : Fin 50000) (f : Fin 128) :
    (broadcastInDim S50000x128 ![0, 1] bcast_S1x128_S50000x128_0_1 (broadcastInDim S1x128 ![1] bcast_S128_S1x128_1 (shapeCast S128 p shapeCasts_S1x128_S128))) (ix2 n f) = p (ix2 (0 : Fin 1) f) := by
  rw [broadcastInDim_1b_ab_apply _ rfl rfl, broadcastInDim_b_1b_apply _ rfl, shapeCast_1a_a_apply]

/-- A column vector laid along every node's row, read at `(n, f)`: the vector at `f`. -/
theorem rowVec_apply (v : FVec Ideal S128 .f32) (n : Fin 50000) (f : Fin 128) :
    (broadcastInDim S50000x128 ![0, 1] bcast_S1x128_S50000x128_0_1 (broadcastInDim S1x128 ![1] bcast_S128_S1x128_1 v)) (ix2 n f) = v (ix1 f) := by
  rw [broadcastInDim_1b_ab_apply _ rfl rfl, broadcastInDim_b_1b_apply _ rfl]

/-- The node array before the batch norm at `(n, f)`. -/
theorem preBN_apply (agg h : FVec Ideal S50000x128 .f32) (WlS WrS : FVec Ideal S1x128x128 .f32) (blS : FVec Ideal S1x128 .f32)
    (n : Fin 50000) (f : Fin 128) :
    preBN (F := Ideal) agg h WlS blS WrS (ix2 n f)
      = (∑ k : Fin 128, agg (ix2 n k) * WlS (ix3 (0 : Fin 1) k f) + blS (ix2 (0 : Fin 1) f))
        + ∑ k : Fin 128, h (ix2 n k) * WrS (ix3 (0 : Fin 1) k f) := by
  show addf
      (addf (Host.dotGeneral dot_S50000x128_S128x128_S50000x128_1_0_0_1_n_n none agg (shapeCast S128x128 WlS shapeCasts_S1x128x128_S128x128))
        (broadcastInDim S50000x128 ![0, 1] bcast_S1x128_S50000x128_0_1 (broadcastInDim S1x128 ![1] bcast_S128_S1x128_1 (shapeCast S128 blS shapeCasts_S1x128_S128))))
      (Host.dotGeneral dot_S50000x128_S128x128_S50000x128_1_0_0_1_n_n none h (shapeCast S128x128 WrS shapeCasts_S1x128x128_S128x128))
      (ix2 n f) = _
  rw [addf_apply, addf_apply, Cert.LibDotNN.dotGeneral_apply _ dot128_eq, Cert.LibDotNN.dotGeneral_apply _ dot128_eq, rowParam_apply]
  simp only [shapeCast_1ab_ab_apply]

/-- The same number with the bias added last, as the kernel adds it. -/
theorem preBN_bias_last (agg h : FVec Ideal S50000x128 .f32) (WlS WrS : FVec Ideal S1x128x128 .f32) (blS : FVec Ideal S1x128 .f32)
    (n : Fin 50000) (f : Fin 128) :
    preBN (F := Ideal) agg h WlS blS WrS (ix2 n f)
      = (∑ k : Fin 128, agg (ix2 n k) * WlS (ix3 (0 : Fin 1) k f) + ∑ k : Fin 128, h (ix2 n k) * WrS (ix3 (0 : Fin 1) k f))
        + blS (ix2 (0 : Fin 1) f) := by
  rw [preBN_apply, add_right_comm]

/-- The batch norm's output at `(n, f)`. -/
theorem normalise_apply (z : FVec Ideal S50000x128 .f32) (mu var : FVec Ideal S128 .f32) (gS bS : FVec Ideal S1x128 .f32)
    (n : Fin 50000) (f : Fin 128) :
    normalise (F := Ideal) z mu var gS bS (ix2 n f)
      = gS (ix2 (0 : Fin 1) f) * (z (ix2 n f) - mu (ix1 f)) * Ideal.rsqrt (var (ix1 f) + Ideal.ofBits .f32 0x3727C5AC#32)
        + bS (ix2 (0 : Fin 1) f) := by
  show addf
      (mulf (mulf (broadcastInDim S50000x128 ![0, 1] bcast_S1x128_S50000x128_0_1 (broadcastInDim S1x128 ![1] bcast_S128_S1x128_1 (shapeCast S128 gS shapeCasts_S1x128_S128))) (subf z (broadcastInDim S50000x128 ![0, 1] bcast_S1x128_S50000x128_0_1 (broadcastInDim S1x128 ![1] bcast_S128_S1x128_1 mu))))
        (broadcastInDim S50000x128 ![0, 1] bcast_S1x128_S50000x128_0_1 (broadcastInDim S1x128 ![1] bcast_S128_S1x128_1 (Host.rsqrt (addf var (broadcastInDim S128 ![] bcast_S_S128 (constant (F := Ideal) S_ .f32 0x3727C5AC#32)))))))
      (broadcastInDim S50000x128 ![0, 1] bcast_S1x128_S50000x128_0_1 (broadcastInDim S1x128 ![1] bcast_S128_S1x128_1 (shapeCast S128 bS shapeCasts_S1x128_S128))) (ix2 n f) = _
  rw [addf_apply, mulf_apply, mulf_apply, subf_apply, rowParam_apply, rowParam_apply, rowVec_apply, rowVec_apply]
  show _ * _ * Ideal.rsqrt (addf var (broadcastInDim S128 ![] bcast_S_S128 (constant (F := Ideal) S_ .f32 0x3727C5AC#32)) (ix1 f)) + _ = _
  rw [addf_apply, broadcastInDim_scalar_apply, constant_apply]

/-- The relu at an index: the maximum with 0. -/
theorem layerRelu_apply (y : FVec Ideal S50000x128 .f32) (i : S50000x128.Idx) : layerRelu (F := Ideal) y i = max (y i) 0 := by
  show maximumf y (broadcastInDim S50000x128 ![] bcast_S_S50000x128 (constant (F := Ideal) S_ .f32 0x00000000#32)) i = _
  rw [maximumf_apply, broadcastInDim_scalar_apply, constant_apply, Ideal.ofBits_zero_f32]

end Cert.ReferenceIdeal.NormRead

end
-- ==== Proof.RealLayer.lean ====
/- One layer of the reference over real numbers, in the kernel's arrangement. For real node features, edge data and
   parameters, every stage of the reference's layer is the coercion of a real array: the aggregated message is the mean of
   the gathered weighted rows plus the edge encoder applied once to the node's summed weighted attributes and summed
   weights (the hoisting); the node array before the batch norm has the bias added last; its variance is the mean of the
   squares minus the squared mean (and is not negative, being the mean squared deviation), so `variance + ε` is a positive
   real and its reciprocal square root a real number. Hence the layer's output is the real formula `yR`, and after the
   relu its maximum with 0. -/
import proofs.«144276_j65051574665788_2_alg».proof.Proof.AggRead
import proofs.«144276_j65051574665788_2_alg».proof.Proof.BnRead
import proofs.«144276_j65051574665788_2_alg».proof.Proof.LayerSplit
import proofs.«144276_j65051574665788_2_alg».proof.Proof.NormRead

noncomputable section

namespace Cert.ReferenceIdeal.RealLayer

open Cert.ReferenceIdeal Cert.ReferenceIdeal.Gen Cert.ReferenceIdeal.RefRun Idealize.ShloMosaic Idealize.ShloMosaic.TcCoe
open Idealize.ShloMosaic.ValueIdx Cert.LibRowGatherScatter Cert.LibRowScatterSum Cert.LibScatterHoist Cert.Lib
open Cert.ReferenceIdeal.AggRead Cert.ReferenceIdeal.BnRead

/-- The batch norm's epsilon word denotes a positive real number. -/
def epsR : ℝ := 10995116 / 1099511627776
theorem epsR_pos : 0 < epsR := by unfold epsR; norm_num
theorem ofBits_eps : Ideal.ofBits .f32 0x3727C5AC#32 = ((epsR : ℝ) : EReal) := by
  unfold epsR
  simp [Ideal.ofBits, Ideal.ieee, -EReal.coe_mul]; norm_num

section Agg

variable (hR : Fin 50000 → Fin 128 → ℝ) (aR : Fin 600000 → Fin 11 → ℝ) (WbR : Fin 11 → Fin 128 → ℝ) (bbR : Fin 128 → ℝ)
  (wR : Fin 600000 → ℝ) (src dst : IVec S600000 32)

/-- The mean over a node's incoming edges of the gathered, weighted rows of `h`. -/
def aggHR (n : Fin 50000) (f : Fin 128) : ℝ :=
  (∑ e ∈ landing 50000 (dstCol dst) n, hR (srcRow src e) f * wR e) * (1 / denomR dst n)

/-- The edge encoder applied once to the node's summed weighted attributes and summed weights, over the same denominator. -/
def aggEaR (n : Fin 50000) (f : Fin 128) : ℝ :=
  (∑ k : Fin 11, (∑ e ∈ landing 50000 (dstCol dst) n, aR e k * wR e) * WbR k f
      + (∑ e ∈ landing 50000 (dstCol dst) n, wR e) * bbR f) * (1 / denomR dst n)

/-- The reference's aggregated message over real inputs is the real number the kernel's arrangement gives. -/
theorem aggStage_coe
    (wf11 : ScatterDims.WF ⟨2, ![50000, 11]⟩ ⟨2, ![600000, 1]⟩ ⟨2, ![600000, 11]⟩ [1] [0] [0] 1) (n : Fin 50000) (f : Fin 128) :
    aggStage (F := Ideal) (fun i => ((hR (i 0) (i 1) : ℝ) : EReal))
        (preEa (F := Ideal) (fun i => ((aR (i 0) (i 1) : ℝ) : EReal)) (fun i => ((WbR (i 0) (i 1) : ℝ) : EReal)) (fun i => ((bbR (i 0) : ℝ) : EReal)))
        (fun i => ((wR (i 0) : ℝ) : EReal)) src dst (preDenom (F := Ideal) dst) (ix2 n f)
      = ((aggHR hR wR src dst n f + aggEaR aR WbR bbR wR dst n f : ℝ) : EReal) := by
  rw [agg_hoisted wf11]
  simp only [← EReal.coe_mul, scatterAdd_rows_coe, scatterAdd_elts_coe, ← coe_sum, ← EReal.coe_add, Ideal.div_coe (denomR_ne_zero dst n)]
  rfl

end Agg

section Layer

variable (hR : Fin 50000 → Fin 128 → ℝ) (aR : Fin 600000 → Fin 11 → ℝ) (WbR : Fin 11 → Fin 128 → ℝ) (bbR : Fin 128 → ℝ)
  (wR : Fin 600000 → ℝ) (src dst : IVec S600000 32) (WlR WrR : Fin 128 → Fin 128 → ℝ) (blR gR btR : Fin 128 → ℝ)

/-- The aggregated message in the kernel's arrangement. -/
def aggR (n : Fin 50000) (f : Fin 128) : ℝ := aggHR hR wR src dst n f + aggEaR aR WbR bbR wR dst n f

/-- The node array before the batch norm, the bias added last. -/
def zR (n : Fin 50000) (f : Fin 128) : ℝ :=
  (∑ k : Fin 128, aggR hR aR WbR bbR wR src dst n k * WlR k f + ∑ k : Fin 128, hR n k * WrR k f) + blR f

/-- The column mean, and the variance as the mean of the squares minus the squared mean. -/
def muR (f : Fin 128) : ℝ := (∑ n : Fin 50000, zR hR aR WbR bbR wR src dst WlR WrR blR n f) * (1 / 50000)
def varR (f : Fin 128) : ℝ :=
  (∑ n : Fin 50000, zR hR aR WbR bbR wR src dst WlR WrR blR n f * zR hR aR WbR bbR wR src dst WlR WrR blR n f) * (1 / 50000) - muR hR aR WbR bbR wR src dst WlR WrR blR f * muR hR aR WbR bbR wR src dst WlR WrR blR f

/-- The layer's output before the relu. -/
def yR (n : Fin 50000) (f : Fin 128) : ℝ :=
  gR f * (zR hR aR WbR bbR wR src dst WlR WrR blR n f - muR hR aR WbR bbR wR src dst WlR WrR blR f) * (Real.sqrt (varR hR aR WbR bbR wR src dst WlR WrR blR f + epsR))⁻¹ + btR f

variable (wf11 : ScatterDims.WF ⟨2, ![50000, 11]⟩ ⟨2, ![600000, 1]⟩ ⟨2, ![600000, 11]⟩ [1] [0] [0] 1)
include wf11

/-- The reference's node array before the batch norm is that real array. -/
theorem layerZ_coe :
    layerZ (F := Ideal) (fun i => ((hR (i 0) (i 1) : ℝ) : EReal)) (preEa (F := Ideal) (fun i => ((aR (i 0) (i 1) : ℝ) : EReal)) (fun i => ((WbR (i 0) (i 1) : ℝ) : EReal)) (fun i => ((bbR (i 0) : ℝ) : EReal))) (fun i => ((wR (i 0) : ℝ) : EReal)) src dst (preDenom (F := Ideal) dst) (fun i => ((WlR (i 1) (i 2) : ℝ) : EReal)) (fun i => ((blR (i 1) : ℝ) : EReal)) (fun i => ((WrR (i 1) (i 2) : ℝ) : EReal))
      = fun i => ((zR hR aR WbR bbR wR src dst WlR WrR blR (i 0) (i 1) : ℝ) : EReal) := by
  funext i
  obtain ⟨n, f, rfl⟩ : ∃ (n : Fin 50000) (f : Fin 128), i = ix2 n f := ⟨i 0, i 1, eq_ix2 i⟩
  unfold layerZ
  rw [Cert.ReferenceIdeal.NormRead.preBN_bias_last]
  simp only [aggStage_coe hR aR WbR bbR wR src dst wf11, ← EReal.coe_mul, ← coe_sum, ← EReal.coe_add]
  rfl

/-- Its column mean is the real mean. -/
theorem mean_coe (f : Fin 128) :
    colMean (F := Ideal) (fun i => ((zR hR aR WbR bbR wR src dst WlR WrR blR (i 0) (i 1) : ℝ) : EReal)) (ix1 f) = ((muR hR aR WbR bbR wR src dst WlR WrR blR f : ℝ) : EReal) := by
  rw [colMean_apply, Ideal.div_coe (by norm_num : (50000 : ℝ) ≠ 0)]
  simp only [← coe_sum, ← EReal.coe_mul]
  rfl

/-- Its column variance, as the reference takes it, is the real variance in the kernel's form. -/
theorem var_coe (f : Fin 128) :
    colVar (F := Ideal) (fun i => ((zR hR aR WbR bbR wR src dst WlR WrR blR (i 0) (i 1) : ℝ) : EReal)) (ix1 f) = ((varR hR aR WbR bbR wR src dst WlR WrR blR f : ℝ) : EReal) := by
  rw [colVar_real (zR hR aR WbR bbR wR src dst WlR WrR blR) f, Ideal.div_coe (by norm_num : (50000 : ℝ) ≠ 0), Ideal.div_coe (by norm_num : (50000 : ℝ) ≠ 0)]
  simp only [← coe_sum, ← EReal.coe_mul, ← EReal.coe_sub]
  rfl

omit wf11 in
/-- The variance is not negative: it is the mean of the squared deviations. -/
theorem varR_nonneg (f : Fin 128) : 0 ≤ varR hR aR WbR bbR wR src dst WlR WrR blR f := by
  have h := mean_sq_sub_sq_mean (fun n : Fin 50000 => zR hR aR WbR bbR wR src dst WlR WrR blR n f) (1 / 50000) (by simp)
  have h' : varR hR aR WbR bbR wR src dst WlR WrR blR f
      = (∑ i : Fin 50000, (zR hR aR WbR bbR wR src dst WlR WrR blR i f - (∑ j : Fin 50000, zR hR aR WbR bbR wR src dst WlR WrR blR j f) * (1 / 50000))
          * (zR hR aR WbR bbR wR src dst WlR WrR blR i f - (∑ j : Fin 50000, zR hR aR WbR bbR wR src dst WlR WrR blR j f) * (1 / 50000))) * (1 / 50000) := h
  rw [h']
  exact mul_nonneg (Finset.sum_nonneg fun i _ => mul_self_nonneg _) (by norm_num)

/-- One layer of the reference over real inputs, up to its batch-norm output: at every node and column it is the real
    number the kernel's arrangement gives — the hoisted aggregation, the bias added last, the variance from the sums of
    the array and of its squares, the same normalisation. -/
theorem layerCore_coe (n : Fin 50000) (f : Fin 128) :
    layerCore (F := Ideal) (fun i => ((hR (i 0) (i 1) : ℝ) : EReal)) (preEa (F := Ideal) (fun i => ((aR (i 0) (i 1) : ℝ) : EReal)) (fun i => ((WbR (i 0) (i 1) : ℝ) : EReal)) (fun i => ((bbR (i 0) : ℝ) : EReal))) (fun i => ((wR (i 0) : ℝ) : EReal)) src dst (preDenom (F := Ideal) dst) (fun i => ((WlR (i 1) (i 2) : ℝ) : EReal)) (fun i => ((blR (i 1) : ℝ) : EReal)) (fun i => ((WrR (i 1) (i 2) : ℝ) : EReal)) (fun i => ((gR (i 1) : ℝ) : EReal)) (fun i => ((btR (i 1) : ℝ) : EReal)) (ix2 n f)
      = ((yR hR aR WbR bbR wR src dst WlR WrR blR gR btR n f : ℝ) : EReal) := by
  rw [layerCore_split, layerZ_coe hR aR WbR bbR wR src dst WlR WrR blR wf11, Cert.ReferenceIdeal.NormRead.normalise_apply,
    mean_coe hR aR WbR bbR wR src dst WlR WrR blR wf11, var_coe hR aR WbR bbR wR src dst WlR WrR blR wf11, ofBits_eps]
  have hpos : 0 < varR hR aR WbR bbR wR src dst WlR WrR blR f + epsR := add_pos_of_nonneg_of_pos (varR_nonneg hR aR WbR bbR wR src dst WlR WrR blR f) epsR_pos
  rw [← EReal.coe_add, Ideal.rsqrt_coe, if_neg (not_lt.mpr hpos.le), if_neg hpos.ne']
  simp only [← EReal.coe_sub, ← EReal.coe_mul, ← EReal.coe_add]
  rfl

/-- With the relu: the maximum of that real number with 0. -/
theorem layerRelu_coe (n : Fin 50000) (f : Fin 128) :
    layerRelu (F := Ideal)
        (layerCore (F := Ideal) (fun i => ((hR (i 0) (i 1) : ℝ) : EReal)) (preEa (F := Ideal) (fun i => ((aR (i 0) (i 1) : ℝ) : EReal)) (fun i => ((WbR (i 0) (i 1) : ℝ) : EReal)) (fun i => ((bbR (i 0) : ℝ) : EReal))) (fun i => ((wR (i 0) : ℝ) : EReal)) src dst (preDenom (F := Ideal) dst) (fun i => ((WlR (i 1) (i 2) : ℝ) : EReal)) (fun i => ((blR (i 1) : ℝ) : EReal)) (fun i => ((WrR (i 1) (i 2) : ℝ) : EReal)) (fun i => ((gR (i 1) : ℝ) : EReal)) (fun i => ((btR (i 1) : ℝ) : EReal))) (ix2 n f)
      = ((max (yR hR aR WbR bbR wR src dst WlR WrR blR gR btR n f) 0 : ℝ) : EReal) := by
  rw [Cert.ReferenceIdeal.NormRead.layerRelu_apply, layerCore_coe hR aR WbR bbR wR src dst WlR WrR blR gR btR wf11, ← EReal.coe_zero]
  exact (EReal.coe_strictMono.monotone.map_max).symm

end Layer

end Cert.ReferenceIdeal.RealLayer

end
-- ==== Proof.LibTRefCast.lean ====
/-
  A tensor value's contents carried to its buffer's type and back.

  A called function's operations are stated over typed references: each result is carried to the type of the buffer it is
  written to, and each operand back from it.  Both carriers are casts along the equation between the two types, so one
  after the other is the identity.
-/
import Idealize.ShloMosaic.Lib.StableHlo

noncomputable section

namespace Cert.LibTRefCast

open Idealize.ShloMosaic Idealize.ShloMosaic.StableHlo

/-- Contents carried to a buffer's type and back are unchanged. -/
theorem ofBuf_toBuf {sig : RefSig} {Val : EltTy → Type} {T : BufTy} (x : TRef sig T) (v : T.Contents Val) :
    x.ofBuf (x.toBuf v) = v := by
  unfold TRef.ofBuf TRef.toBuf
  rw [cast_cast]
  exact cast_eq _ _

end Cert.LibTRefCast

end
-- ==== Proof.RefValue.lean ====
/- The reference's stretches read back. For any contents `W` of the buffers before a stretch, what the stretch leaves in the
   buffer it is there to compute is one composed function of the buffers it reads: the prelude leaves the two index rows,
   the encoded nodes and edges and the denominator column as functions of the arguments; each of the five layer
   stretches leaves `relu (core …)` (the last: `core …`) of its input, the encoded edges, the weights, the index rows, the
   denominators and its own slices of the five parameter arrays; the tail leaves each per-graph sum as `poolOf` of the
   graph numbers and a layer's output. A stretch writes only its listed buffers, so every other buffer passes through. -/
import proofs.«144276_j65051574665788_2_alg».proof.Proof.RefLayers
import proofs.«144276_j65051574665788_2_alg».proof.Proof.LibTRefCast
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- One operation's written buffer is a member of the stretch's list. -/
local macro "written_is_listed" : tactic =>
  `(tactic| (simp only [nullary_writes, unary_writes, binary_writes, ternary_writes, reshape_writes, nary_writes,
      Finset.singleton_subset_iff, List.mem_toFinset]; exact List.mem_map_of_mem (by decide)))

set_option maxRecDepth 16384 in
theorem opsPre_writes : (opsPre : List (HloOp τ sig (Elt F))).Forall fun op =>
    op.writes ⊆ (opsPre_W.map (Proc.devRef (τ := τ) .tc)).toFinset := by
  simp only [List.Forall]; repeat' constructor
  all_goals written_is_listed
/-- A buffer opsPre does not write passes through it. -/
theorem opsPre_keep (W : Valuation τ sig (Elt F)) (r : Ref sig .tc) (h : r ∉ opsPre_W) :
    after opsPre W (Proc.devRef .tc r) = W (Proc.devRef .tc r) := after_of_writes_sub opsPre W opsPre_writes h
set_option maxRecDepth 16384 in
theorem opsL0_writes : (opsL0 : List (HloOp τ sig (Elt F))).Forall fun op =>
    op.writes ⊆ (opsL0_W.map (Proc.devRef (τ := τ) .tc)).toFinset := by
  simp only [List.Forall]; repeat' constructor
  all_goals written_is_listed
/-- A buffer opsL0 does not write passes through it. -/
theorem opsL0_keep (W : Valuation τ sig (Elt F)) (r : Ref sig .tc) (h : r ∉ opsL0_W) :
    after opsL0 W (Proc.devRef .tc r) = W (Proc.devRef .tc r) := after_of_writes_sub opsL0 W opsL0_writes h
set_option maxRecDepth 16384 in
theorem opsL1_writes : (opsL1 : List (HloOp τ sig (Elt F))).Forall fun op =>
    op.writes ⊆ (opsL1_W.map (Proc.devRef (τ := τ) .tc)).toFinset := by
  simp only [List.Forall]; repeat' constructor
  all_goals written_is_listed
/-- A buffer opsL1 does not write passes through it. -/
theorem opsL1_keep (W : Valuation τ sig (Elt F)) (r : Ref sig .tc) (h : r ∉ opsL1_W) :
    after opsL1 W (Proc.devRef .tc r) = W (Proc.devRef .tc r) := after_of_writes_sub opsL1 W opsL1_writes h
set_option maxRecDepth 16384 in
theorem opsL2_writes : (opsL2 : List (HloOp τ sig (Elt F))).Forall fun op =>
    op.writes ⊆ (opsL2_W.map (Proc.devRef (τ := τ) .tc)).toFinset := by
  simp only [List.Forall]; repeat' constructor
  all_goals written_is_listed
/-- A buffer opsL2 does not write passes through it. -/
theorem opsL2_keep (W : Valuation τ sig (Elt F)) (r : Ref sig .tc) (h : r ∉ opsL2_W) :
    after opsL2 W (Proc.devRef .tc r) = W (Proc.devRef .tc r) := after_of_writes_sub opsL2 W opsL2_writes h
set_option maxRecDepth 16384 in
theorem opsL3_writes : (opsL3 : List (HloOp τ sig (Elt F))).Forall fun op =>
    op.writes ⊆ (opsL3_W.map (Proc.devRef (τ := τ) .tc)).toFinset := by
  simp only [List.Forall]; repeat' constructor
  all_goals written_is_listed
/-- A buffer opsL3 does not write passes through it. -/
theorem opsL3_keep (W : Valuation τ sig (Elt F)) (r : Ref sig .tc) (h : r ∉ opsL3_W) :
    after opsL3 W (Proc.devRef .tc r) = W (Proc.devRef .tc r) := after_of_writes_sub opsL3 W opsL3_writes h
set_option maxRecDepth 16384 in
theorem opsL4_writes : (opsL4 : List (HloOp τ sig (Elt F))).Forall fun op =>
    op.writes ⊆ (opsL4_W.map (Proc.devRef (τ := τ) .tc)).toFinset := by
  simp only [List.Forall]; repeat' constructor
  all_goals written_is_listed
/-- A buffer opsL4 does not write passes through it. -/
theorem opsL4_keep (W : Valuation τ sig (Elt F)) (r : Ref sig .tc) (h : r ∉ opsL4_W) :
    after opsL4 W (Proc.devRef .tc r) = W (Proc.devRef .tc r) := after_of_writes_sub opsL4 W opsL4_writes h
set_option maxRecDepth 16384 in
theorem opsTail_writes : (opsTail : List (HloOp τ sig (Elt F))).Forall fun op =>
    op.writes ⊆ (opsTail_W.map (Proc.devRef (τ := τ) .tc)).toFinset := by
  simp only [List.Forall]; repeat' constructor
  all_goals written_is_listed
/-- A buffer opsTail does not write passes through it. -/
theorem opsTail_keep (W : Valuation τ sig (Elt F)) (r : Ref sig .tc) (h : r ∉ opsTail_W) :
    after opsTail W (Proc.devRef .tc r) = W (Proc.devRef .tc r) := after_of_writes_sub opsTail W opsTail_writes h

/-! ## The prelude -/

set_option maxRecDepth 16384 in
theorem pre_src (W : Valuation τ sig (Elt F)) : after opsPre W (Proc.devRef .tc main_v1) = preSrc (W (Proc.devRef .tc main_arg2)) := by
  simp only [opsPre]
  after_results_simp
  rfl
set_option maxRecDepth 16384 in
theorem pre_dst (W : Valuation τ sig (Elt F)) : after opsPre W (Proc.devRef .tc main_v3) = preDst (W (Proc.devRef .tc main_arg2)) := by
  simp only [opsPre]
  after_results_simp
  rfl
set_option maxRecDepth 16384 in
theorem pre_h0 (W : Valuation τ sig (Elt F)) :
    after opsPre W (Proc.devRef .tc main_v7) = preH0 (W (Proc.devRef .tc main_arg1)) (W (Proc.devRef .tc main_arg5)) (W (Proc.devRef .tc main_arg6)) := by
  simp only [opsPre]
  after_results_simp
  rfl
set_option maxRecDepth 16384 in
theorem pre_ea (W : Valuation τ sig (Elt F)) :
    after opsPre W (Proc.devRef .tc main_v11) = preEa (W (Proc.devRef .tc main_arg3)) (W (Proc.devRef .tc main_arg7)) (W (Proc.devRef .tc main_arg8)) := by
  simp only [opsPre]
  after_results_simp
  rfl
set_option maxRecDepth 16384 in
theorem pre_denom (W : Valuation τ sig (Elt F)) :
    after opsPre W (Proc.devRef .tc main_v18) = preDenom (preDst (W (Proc.devRef .tc main_arg2))) := by
  simp only [opsPre]
  after_results_simp
  rfl

/-! ## The layers -/

set_option maxRecDepth 16384 in
set_option maxHeartbeats 4000000 in
/-- Layer 1: what its stretch leaves in its output buffer. -/
theorem layer0_out (W : Valuation τ sig (Elt F)) :
    after opsL0 W (Proc.devRef .tc main_v70)
      = layerRelu (layerCore (W (Proc.devRef .tc main_v7)) (W (Proc.devRef .tc main_v11)) (W (Proc.devRef .tc main_arg4)) (W (Proc.devRef .tc main_v1)) (W (Proc.devRef .tc main_v3)) (W (Proc.devRef .tc main_v18))
        (((extractStridedSlice S1x128x128 ![0, 0, 0] · slices_S5x128x128_S1x128x128_0_0_0) : (⟨S5x128x128, .f32⟩ : BufTy).Contents (Elt F) → (⟨S1x128x128, .f32⟩ : BufTy).Contents (Elt F)) (W (Proc.devRef .tc main_arg9)))
        (((extractStridedSlice S1x128 ![0, 0] · slices_S5x128_S1x128_0_0) : (⟨S5x128, .f32⟩ : BufTy).Contents (Elt F) → (⟨S1x128, .f32⟩ : BufTy).Contents (Elt F)) (W (Proc.devRef .tc main_arg10)))
        (((extractStridedSlice S1x128x128 ![0, 0, 0] · slices_S5x128x128_S1x128x128_0_0_0) : (⟨S5x128x128, .f32⟩ : BufTy).Contents (Elt F) → (⟨S1x128x128, .f32⟩ : BufTy).Contents (Elt F)) (W (Proc.devRef .tc main_arg11)))
        (((extractStridedSlice S1x128 ![0, 0] · slices_S5x128_S1x128_0_0) : (⟨S5x128, .f32⟩ : BufTy).Contents (Elt F) → (⟨S1x128, .f32⟩ : BufTy).Contents (Elt F)) (W (Proc.devRef .tc main_arg12)))
        (((extractStridedSlice S1x128 ![0, 0] · slices_S5x128_S1x128_0_0) : (⟨S5x128, .f32⟩ : BufTy).Contents (Elt F) → (⟨S1x128, .f32⟩ : BufTy).Contents (Elt F)) (W (Proc.devRef .tc main_arg13)))) := by
  simp only [opsL0]
  after_results_simp
  simp only [Cert.LibTRefCast.ofBuf_toBuf]
  rfl
set_option maxRecDepth 16384 in
set_option maxHeartbeats 4000000 in
/-- Layer 2: what its stretch leaves in its output buffer. -/
theorem layer1_out (W : Valuation τ sig (Elt F)) :
    after opsL1 W (Proc.devRef .tc main_v122)
      = layerRelu (layerCore (W (Proc.devRef .tc main_v70)) (W (Proc.devRef .tc main_v11)) (W (Proc.devRef .tc main_arg4)) (W (Proc.devRef .tc main_v1)) (W (Proc.devRef .tc main_v3)) (W (Proc.devRef .tc main_v18))
        (((extractStridedSlice S1x128x128 ![1, 0, 0] · slices_S5x128x128_S1x128x128_1_0_0) : (⟨S5x128x128, .f32⟩ : BufTy).Contents (Elt F) → (⟨S1x128x128, .f32⟩ : BufTy).Contents (Elt F)) (W (Proc.devRef .tc main_arg9)))
        (((extractStridedSlice S1x128 ![1, 0] · slices_S5x128_S1x128_1_0) : (⟨S5x128, .f32⟩ : BufTy).Contents (Elt F) → (⟨S1x128, .f32⟩ : BufTy).Contents (Elt F)) (W (Proc.devRef .tc main_arg10)))
        (((extractStridedSlice S1x128x128 ![1, 0, 0] · slices_S5x128x128_S1x128x128_1_0_0) : (⟨S5x128x128, .f32⟩ : BufTy).Contents (Elt F) → (⟨S1x128x128, .f32⟩ : BufTy).Contents (Elt F)) (W (Proc.devRef .tc main_arg11)))
        (((extractStridedSlice S1x128 ![1, 0] · slices_S5x128_S1x128_1_0) : (⟨S5x128, .f32⟩ : BufTy).Contents (Elt F) → (⟨S1x128, .f32⟩ : BufTy).Contents (Elt F)) (W (Proc.devRef .tc main_arg12)))
        (((extractStridedSlice S1x128 ![1, 0] · slices_S5x128_S1x128_1_0) : (⟨S5x128, .f32⟩ : BufTy).Contents (Elt F) → (⟨S1x128, .f32⟩ : BufTy).Contents (Elt F)) (W (Proc.devRef .tc main_arg13)))) := by
  simp only [opsL1]
  after_results_simp
  simp only [Cert.LibTRefCast.ofBuf_toBuf]
  rfl
set_option maxRecDepth 16384 in
set_option maxHeartbeats 4000000 in
/-- Layer 3: what its stretch leaves in its output buffer. -/
theorem layer2_out (W : Valuation τ sig (Elt F)) :
    after opsL2 W (Proc.devRef .tc main_v174)
      = layerRelu (layerCore (W (Proc.devRef .tc main_v122)) (W (Proc.devRef .tc main_v11)) (W (Proc.devRef .tc main_arg4)) (W (Proc.devRef .tc main_v1)) (W (Proc.devRef .tc main_v3)) (W (Proc.devRef .tc main_v18))
        (((extractStridedSlice S1x128x128 ![2, 0, 0] · slices_S5x128x128_S1x128x128_2_0_0) : (⟨S5x128x128, .f32⟩ : BufTy).Contents (Elt F) → (⟨S1x128x128, .f32⟩ : BufTy).Contents (Elt F)) (W (Proc.devRef .tc main_arg9)))
        (((extractStridedSlice S1x128 ![2, 0] · slices_S5x128_S1x128_2_0) : (⟨S5x128, .f32⟩ : BufTy).Contents (Elt F) → (⟨S1x128, .f32⟩ : BufTy).Contents (Elt F)) (W (Proc.devRef .tc main_arg10)))
        (((extractStridedSlice S1x128x128 ![2, 0, 0] · slices_S5x128x128_S1x128x128_2_0_0) : (⟨S5x128x128, .f32⟩ : BufTy).Contents (Elt F) → (⟨S1x128x128, .f32⟩ : BufTy).Contents (Elt F)) (W (Proc.devRef .tc main_arg11)))
        (((extractStridedSlice S1x128 ![2, 0] · slices_S5x128_S1x128_2_0) : (⟨S5x128, .f32⟩ : BufTy).Contents (Elt F) → (⟨S1x128, .f32⟩ : BufTy).Contents (Elt F)) (W (Proc.devRef .tc main_arg12)))
        (((extractStridedSlice S1x128 ![2, 0] · slices_S5x128_S1x128_2_0) : (⟨S5x128, .f32⟩ : BufTy).Contents (Elt F) → (⟨S1x128, .f32⟩ : BufTy).Contents (Elt F)) (W (Proc.devRef .tc main_arg13)))) := by
  simp only [opsL2]
  after_results_simp
  simp only [Cert.LibTRefCast.ofBuf_toBuf]
  rfl
set_option maxRecDepth 16384 in
set_option maxHeartbeats 4000000 in
/-- Layer 4: what its stretch leaves in its output buffer. -/
theorem layer3_out (W : Valuation τ sig (Elt F)) :
    after opsL3 W (Proc.devRef .tc main_v226)
      = layerRelu (layerCore (W (Proc.devRef .tc main_v174)) (W (Proc.devRef .tc main_v11)) (W (Proc.devRef .tc main_arg4)) (W (Proc.devRef .tc main_v1)) (W (Proc.devRef .tc main_v3)) (W (Proc.devRef .tc main_v18))
        (((extractStridedSlice S1x128x128 ![3, 0, 0] · slices_S5x128x128_S1x128x128_3_0_0) : (⟨S5x128x128, .f32⟩ : BufTy).Contents (Elt F) → (⟨S1x128x128, .f32⟩ : BufTy).Contents (Elt F)) (W (Proc.devRef .tc main_arg9)))
        (((extractStridedSlice S1x128 ![3, 0] · slices_S5x128_S1x128_3_0) : (⟨S5x128, .f32⟩ : BufTy).Contents (Elt F) → (⟨S1x128, .f32⟩ : BufTy).Contents (Elt F)) (W (Proc.devRef .tc main_arg10)))
        (((extractStridedSlice S1x128x128 ![3, 0, 0] · slices_S5x128x128_S1x128x128_3_0_0) : (⟨S5x128x128, .f32⟩ : BufTy).Contents (Elt F) → (⟨S1x128x128, .f32⟩ : BufTy).Contents (Elt F)) (W (Proc.devRef .tc main_arg11)))
        (((extractStridedSlice S1x128 ![3, 0] · slices_S5x128_S1x128_3_0) : (⟨S5x128, .f32⟩ : BufTy).Contents (Elt F) → (⟨S1x128, .f32⟩ : BufTy).Contents (Elt F)) (W (Proc.devRef .tc main_arg12)))
        (((extractStridedSlice S1x128 ![3, 0] · slices_S5x128_S1x128_3_0) : (⟨S5x128, .f32⟩ : BufTy).Contents (Elt F) → (⟨S1x128, .f32⟩ : BufTy).Contents (Elt F)) (W (Proc.devRef .tc main_arg13)))) := by
  simp only [opsL3]
  after_results_simp
  simp only [Cert.LibTRefCast.ofBuf_toBuf]
  rfl
set_option maxRecDepth 16384 in
set_option maxHeartbeats 4000000 in
/-- Layer 5: what its stretch leaves in its output buffer. -/
theorem layer4_out (W : Valuation τ sig (Elt F)) :
    after opsL4 W (Proc.devRef .tc main_v277)
      = layerCore (W (Proc.devRef .tc main_v226)) (W (Proc.devRef .tc main_v11)) (W (Proc.devRef .tc main_arg4)) (W (Proc.devRef .tc main_v1)) (W (Proc.devRef .tc main_v3)) (W (Proc.devRef .tc main_v18))
        (((extractStridedSlice S1x128x128 ![4, 0, 0] · slices_S5x128x128_S1x128x128_4_0_0) : (⟨S5x128x128, .f32⟩ : BufTy).Contents (Elt F) → (⟨S1x128x128, .f32⟩ : BufTy).Contents (Elt F)) (W (Proc.devRef .tc main_arg9)))
        (((extractStridedSlice S1x128 ![4, 0] · slices_S5x128_S1x128_4_0) : (⟨S5x128, .f32⟩ : BufTy).Contents (Elt F) → (⟨S1x128, .f32⟩ : BufTy).Contents (Elt F)) (W (Proc.devRef .tc main_arg10)))
        (((extractStridedSlice S1x128x128 ![4, 0, 0] · slices_S5x128x128_S1x128x128_4_0_0) : (⟨S5x128x128, .f32⟩ : BufTy).Contents (Elt F) → (⟨S1x128x128, .f32⟩ : BufTy).Contents (Elt F)) (W (Proc.devRef .tc main_arg11)))
        (((extractStridedSlice S1x128 ![4, 0] · slices_S5x128_S1x128_4_0) : (⟨S5x128, .f32⟩ : BufTy).Contents (Elt F) → (⟨S1x128, .f32⟩ : BufTy).Contents (Elt F)) (W (Proc.devRef .tc main_arg12)))
        (((extractStridedSlice S1x128 ![4, 0] · slices_S5x128_S1x128_4_0) : (⟨S5x128, .f32⟩ : BufTy).Contents (Elt F) → (⟨S1x128, .f32⟩ : BufTy).Contents (Elt F)) (W (Proc.devRef .tc main_arg13))) := by
  simp only [opsL4]
  after_results_simp
  simp only [Cert.LibTRefCast.ofBuf_toBuf]
  rfl

/-! ## The per-graph sums -/

set_option maxRecDepth 16384 in
theorem pool0_out (W : Valuation τ sig (Elt F)) :
    after opsTail W (Proc.devRef .tc main_v280) = poolOf (W (Proc.devRef .tc main_arg0)) (W (Proc.devRef .tc main_v70)) := by
  simp only [opsTail]
  after_results_simp
  rfl
set_option maxRecDepth 16384 in
theorem pool1_out (W : Valuation τ sig (Elt F)) :
    after opsTail W (Proc.devRef .tc main_v283) = poolOf (W (Proc.devRef .tc main_arg0)) (W (Proc.devRef .tc main_v122)) := by
  simp only [opsTail]
  after_results_simp
  rfl
set_option maxRecDepth 16384 in
theorem pool2_out (W : Valuation τ sig (Elt F)) :
    after opsTail W (Proc.devRef .tc main_v286) = poolOf (W (Proc.devRef .tc main_arg0)) (W (Proc.devRef .tc main_v174)) := by
  simp only [opsTail]
  after_results_simp
  rfl
set_option maxRecDepth 16384 in
theorem pool3_out (W : Valuation τ sig (Elt F)) :
    after opsTail W (Proc.devRef .tc main_v289) = poolOf (W (Proc.devRef .tc main_arg0)) (W (Proc.devRef .tc main_v226)) := by
  simp only [opsTail]
  after_results_simp
  rfl
set_option maxRecDepth 16384 in
theorem pool4_out (W : Valuation τ sig (Elt F)) :
    after opsTail W (Proc.devRef .tc main_v292) = poolOf (W (Proc.devRef .tc main_arg0)) (W (Proc.devRef .tc main_v277)) := by
  simp only [opsTail]
  after_results_simp
  rfl

end Cert.ReferenceIdeal.RefRun

end
-- ==== Proof.RefResult.lean ====
/- The reference's results as functions of its arguments. With `V` the buffers' launch contents: the encoded edges, the
   two index rows and the denominator column are functions of the arguments alone; layer `k` maps a node array `h` to
   `core h` over those and its own slices of `Wl, bl, Wr, gamma, beta`; the node arrays are the iterates
   `H₁ = relu (layer₀ H₀)`, …, `H₄ = relu (layer₃ H₃)`, `H₅ = layer₄ H₄` from `H₀ = x · W_atom + b_atom`. The buffers' contents
   are followed stretch by stretch (`S₀` after the prelude, `Sₖ` after layer `k`): every stretch keeps the arguments, the
   index rows, the encoded edges and the denominators, and layer `k` leaves the iterate `Hₖ` in its output buffer, where
   the later stretches leave it. After all 450 operations the second result buffer holds `H₅`. -/
import proofs.«144276_j65051574665788_2_alg».proof.Proof.RefValue
import proofs.«144276_j65051574665788_2_alg».proof.Proof.RefRun

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F] (V : Valuation τ sig (Elt F))

/-- The encoded nodes the first layer starts from. -/
def refH0 : (main_v7 : Ref sig .tc).ty.Contents (Elt F) := preH0 (V (Proc.devRef .tc main_arg1)) (V (Proc.devRef .tc main_arg5)) (V (Proc.devRef .tc main_arg6))
/-- The encoded edges. -/
def refEa : (main_v11 : Ref sig .tc).ty.Contents (Elt F) := preEa (V (Proc.devRef .tc main_arg3)) (V (Proc.devRef .tc main_arg7)) (V (Proc.devRef .tc main_arg8))
/-- The source and destination rows of the edge list, and the denominator column. -/
def refSrc : (main_v1 : Ref sig .tc).ty.Contents (Elt F) := preSrc (V (Proc.devRef .tc main_arg2))
def refDst : (main_v3 : Ref sig .tc).ty.Contents (Elt F) := preDst (V (Proc.devRef .tc main_arg2))
def refDenom : (main_v18 : Ref sig .tc).ty.Contents (Elt F) := preDenom (preDst (V (Proc.devRef .tc main_arg2)))

/-- Layer 1 up to its batch-norm output, as a map of its input node array. -/
def refLayer0 (h : (main_v7 : Ref sig .tc).ty.Contents (Elt F)) : (main_v69 : Ref sig .tc).ty.Contents (Elt F) :=
  layerCore h (refEa V) (V (Proc.devRef .tc main_arg4)) (refSrc V) (refDst V) (refDenom V)
    (((extractStridedSlice S1x128x128 ![0, 0, 0] · slices_S5x128x128_S1x128x128_0_0_0) : (⟨S5x128x128, .f32⟩ : BufTy).Contents (Elt F) → (⟨S1x128x128, .f32⟩ : BufTy).Contents (Elt F)) (V (Proc.devRef .tc main_arg9)))
    (((extractStridedSlice S1x128 ![0, 0] · slices_S5x128_S1x128_0_0) : (⟨S5x128, .f32⟩ : BufTy).Contents (Elt F) → (⟨S1x128, .f32⟩ : BufTy).Contents (Elt F)) (V (Proc.devRef .tc main_arg10)))
    (((extractStridedSlice S1x128x128 ![0, 0, 0] · slices_S5x128x128_S1x128x128_0_0_0) : (⟨S5x128x128, .f32⟩ : BufTy).Contents (Elt F) → (⟨S1x128x128, .f32⟩ : BufTy).Contents (Elt F)) (V (Proc.devRef .tc main_arg11)))
    (((extractStridedSlice S1x128 ![0, 0] · slices_S5x128_S1x128_0_0) : (⟨S5x128, .f32⟩ : BufTy).Contents (Elt F) → (⟨S1x128, .f32⟩ : BufTy).Contents (Elt F)) (V (Proc.devRef .tc main_arg12)))
    (((extractStridedSlice S1x128 ![0, 0] · slices_S5x128_S1x128_0_0) : (⟨S5x128, .f32⟩ : BufTy).Contents (Elt F) → (⟨S1x128, .f32⟩ : BufTy).Contents (Elt F)) (V (Proc.devRef .tc main_arg13)))
/-- Layer 2 up to its batch-norm output, as a map of its input node array. -/
def refLayer1 (h : (main_v7 : Ref sig .tc).ty.Contents (Elt F)) : (main_v69 : Ref sig .tc).ty.Contents (Elt F) :=
  layerCore h (refEa V) (V (Proc.devRef .tc main_arg4)) (refSrc V) (refDst V) (refDenom V)
    (((extractStridedSlice S1x128x128 ![1, 0, 0] · slices_S5x128x128_S1x128x128_1_0_0) : (⟨S5x128x128, .f32⟩ : BufTy).Contents (Elt F) → (⟨S1x128x128, .f32⟩ : BufTy).Contents (Elt F)) (V (Proc.devRef .tc main_arg9)))
    (((extractStridedSlice S1x128 ![1, 0] · slices_S5x128_S1x128_1_0) : (⟨S5x128, .f32⟩ : BufTy).Contents (Elt F) → (⟨S1x128, .f32⟩ : BufTy).Contents (Elt F)) (V (Proc.devRef .tc main_arg10)))
    (((extractStridedSlice S1x128x128 ![1, 0, 0] · slices_S5x128x128_S1x128x128_1_0_0) : (⟨S5x128x128, .f32⟩ : BufTy).Contents (Elt F) → (⟨S1x128x128, .f32⟩ : BufTy).Contents (Elt F)) (V (Proc.devRef .tc main_arg11)))
    (((extractStridedSlice S1x128 ![1, 0] · slices_S5x128_S1x128_1_0) : (⟨S5x128, .f32⟩ : BufTy).Contents (Elt F) → (⟨S1x128, .f32⟩ : BufTy).Contents (Elt F)) (V (Proc.devRef .tc main_arg12)))
    (((extractStridedSlice S1x128 ![1, 0] · slices_S5x128_S1x128_1_0) : (⟨S5x128, .f32⟩ : BufTy).Contents (Elt F) → (⟨S1x128, .f32⟩ : BufTy).Contents (Elt F)) (V (Proc.devRef .tc main_arg13)))
/-- Layer 3 up to its batch-norm output, as a map of its input node array. -/
def refLayer2 (h : (main_v7 : Ref sig .tc).ty.Contents (Elt F)) : (main_v69 : Ref sig .tc).ty.Contents (Elt F) :=
  layerCore h (refEa V) (V (Proc.devRef .tc main_arg4)) (refSrc V) (refDst V) (refDenom V)
    (((extractStridedSlice S1x128x128 ![2, 0, 0] · slices_S5x128x128_S1x128x128_2_0_0) : (⟨S5x128x128, .f32⟩ : BufTy).Contents (Elt F) → (⟨S1x128x128, .f32⟩ : BufTy).Contents (Elt F)) (V (Proc.devRef .tc main_arg9)))
    (((extractStridedSlice S1x128 ![2, 0] · slices_S5x128_S1x128_2_0) : (⟨S5x128, .f32⟩ : BufTy).Contents (Elt F) → (⟨S1x128, .f32⟩ : BufTy).Contents (Elt F)) (V (Proc.devRef .tc main_arg10)))
    (((extractStridedSlice S1x128x128 ![2, 0, 0] · slices_S5x128x128_S1x128x128_2_0_0) : (⟨S5x128x128, .f32⟩ : BufTy).Contents (Elt F) → (⟨S1x128x128, .f32⟩ : BufTy).Contents (Elt F)) (V (Proc.devRef .tc main_arg11)))
    (((extractStridedSlice S1x128 ![2, 0] · slices_S5x128_S1x128_2_0) : (⟨S5x128, .f32⟩ : BufTy).Contents (Elt F) → (⟨S1x128, .f32⟩ : BufTy).Contents (Elt F)) (V (Proc.devRef .tc main_arg12)))
    (((extractStridedSlice S1x128 ![2, 0] · slices_S5x128_S1x128_2_0) : (⟨S5x128, .f32⟩ : BufTy).Contents (Elt F) → (⟨S1x128, .f32⟩ : BufTy).Contents (Elt F)) (V (Proc.devRef .tc main_arg13)))
/-- Layer 4 up to its batch-norm output, as a map of its input node array. -/
def refLayer3 (h : (main_v7 : Ref sig .tc).ty.Contents (Elt F)) : (main_v69 : Ref sig .tc).ty.Contents (Elt F) :=
  layerCore h (refEa V) (V (Proc.devRef .tc main_arg4)) (refSrc V) (refDst V) (refDenom V)
    (((extractStridedSlice S1x128x128 ![3, 0, 0] · slices_S5x128x128_S1x128x128_3_0_0) : (⟨S5x128x128, .f32⟩ : BufTy).Contents (Elt F) → (⟨S1x128x128, .f32⟩ : BufTy).Contents (Elt F)) (V (Proc.devRef .tc main_arg9)))
    (((extractStridedSlice S1x128 ![3, 0] · slices_S5x128_S1x128_3_0) : (⟨S5x128, .f32⟩ : BufTy).Contents (Elt F) → (⟨S1x128, .f32⟩ : BufTy).Contents (Elt F)) (V (Proc.devRef .tc main_arg10)))
    (((extractStridedSlice S1x128x128 ![3, 0, 0] · slices_S5x128x128_S1x128x128_3_0_0) : (⟨S5x128x128, .f32⟩ : BufTy).Contents (Elt F) → (⟨S1x128x128, .f32⟩ : BufTy).Contents (Elt F)) (V (Proc.devRef .tc main_arg11)))
    (((extractStridedSlice S1x128 ![3, 0] · slices_S5x128_S1x128_3_0) : (⟨S5x128, .f32⟩ : BufTy).Contents (Elt F) → (⟨S1x128, .f32⟩ : BufTy).Contents (Elt F)) (V (Proc.devRef .tc main_arg12)))
    (((extractStridedSlice S1x128 ![3, 0] · slices_S5x128_S1x128_3_0) : (⟨S5x128, .f32⟩ : BufTy).Contents (Elt F) → (⟨S1x128, .f32⟩ : BufTy).Contents (Elt F)) (V (Proc.devRef .tc main_arg13)))
/-- Layer 5 up to its batch-norm output, as a map of its input node array. -/
def refLayer4 (h : (main_v7 : Ref sig .tc).ty.Contents (Elt F)) : (main_v69 : Ref sig .tc).ty.Contents (Elt F) :=
  layerCore h (refEa V) (V (Proc.devRef .tc main_arg4)) (refSrc V) (refDst V) (refDenom V)
    (((extractStridedSlice S1x128x128 ![4, 0, 0] · slices_S5x128x128_S1x128x128_4_0_0) : (⟨S5x128x128, .f32⟩ : BufTy).Contents (Elt F) → (⟨S1x128x128, .f32⟩ : BufTy).Contents (Elt F)) (V (Proc.devRef .tc main_arg9)))
    (((extractStridedSlice S1x128 ![4, 0] · slices_S5x128_S1x128_4_0) : (⟨S5x128, .f32⟩ : BufTy).Contents (Elt F) → (⟨S1x128, .f32⟩ : BufTy).Contents (Elt F)) (V (Proc.devRef .tc main_arg10)))
    (((extractStridedSlice S1x128x128 ![4, 0, 0] · slices_S5x128x128_S1x128x128_4_0_0) : (⟨S5x128x128, .f32⟩ : BufTy).Contents (Elt F) → (⟨S1x128x128, .f32⟩ : BufTy).Contents (Elt F)) (V (Proc.devRef .tc main_arg11)))
    (((extractStridedSlice S1x128 ![4, 0] · slices_S5x128_S1x128_4_0) : (⟨S5x128, .f32⟩ : BufTy).Contents (Elt F) → (⟨S1x128, .f32⟩ : BufTy).Contents (Elt F)) (V (Proc.devRef .tc main_arg12)))
    (((extractStridedSlice S1x128 ![4, 0] · slices_S5x128_S1x128_4_0) : (⟨S5x128, .f32⟩ : BufTy).Contents (Elt F) → (⟨S1x128, .f32⟩ : BufTy).Contents (Elt F)) (V (Proc.devRef .tc main_arg13)))

/-- The node arrays after each layer. -/
def refH1 : (main_v70 : Ref sig .tc).ty.Contents (Elt F) := layerRelu (refLayer0 V (refH0 V))
def refH2 : (main_v70 : Ref sig .tc).ty.Contents (Elt F) := layerRelu (refLayer1 V (refH1 V))
def refH3 : (main_v70 : Ref sig .tc).ty.Contents (Elt F) := layerRelu (refLayer2 V (refH2 V))
def refH4 : (main_v70 : Ref sig .tc).ty.Contents (Elt F) := layerRelu (refLayer3 V (refH3 V))
def refH5 : (main_v69 : Ref sig .tc).ty.Contents (Elt F) := refLayer4 V (refH4 V)

/-! ## The contents after each stretch -/

/-- The buffers after the prelude, and after each layer. -/
def S0 : Valuation τ sig (Elt F) := after opsPre V
def S1 : Valuation τ sig (Elt F) := after opsL0 (S0 V)
def S2 : Valuation τ sig (Elt F) := after opsL1 (S1 V)
def S3 : Valuation τ sig (Elt F) := after opsL2 (S2 V)
def S4 : Valuation τ sig (Elt F) := after opsL3 (S3 V)
def S5 : Valuation τ sig (Elt F) := after opsL4 (S4 V)

/-- All of @main is the tail after the five layers after the prelude. -/
theorem after_ops_eq : after ops V = after opsTail (S5 V) := by
  rw [ops_split]
  simp only [StableHlo.after_append]
  rfl

/-- What every stretch from the prelude on leaves alone: the arguments the layers and the tail read, the two index rows,
    the encoded edges and the denominator column. -/
structure Carries (W : Valuation τ sig (Elt F)) : Prop where
  a0 : W (Proc.devRef .tc main_arg0) = V (Proc.devRef .tc main_arg0)
  a4 : W (Proc.devRef .tc main_arg4) = V (Proc.devRef .tc main_arg4)
  a9 : W (Proc.devRef .tc main_arg9) = V (Proc.devRef .tc main_arg9)
  a10 : W (Proc.devRef .tc main_arg10) = V (Proc.devRef .tc main_arg10)
  a11 : W (Proc.devRef .tc main_arg11) = V (Proc.devRef .tc main_arg11)
  a12 : W (Proc.devRef .tc main_arg12) = V (Proc.devRef .tc main_arg12)
  a13 : W (Proc.devRef .tc main_arg13) = V (Proc.devRef .tc main_arg13)
  src : W (Proc.devRef .tc main_v1) = refSrc V
  dst : W (Proc.devRef .tc main_v3) = refDst V
  ea : W (Proc.devRef .tc main_v11) = refEa V
  denom : W (Proc.devRef .tc main_v18) = refDenom V

theorem carries_S0 : Carries V (S0 V) where
  a0 := opsPre_keep V main_arg0 (by decide)
  a4 := opsPre_keep V main_arg4 (by decide)
  a9 := opsPre_keep V main_arg9 (by decide)
  a10 := opsPre_keep V main_arg10 (by decide)
  a11 := opsPre_keep V main_arg11 (by decide)
  a12 := opsPre_keep V main_arg12 (by decide)
  a13 := opsPre_keep V main_arg13 (by decide)
  src := pre_src V
  dst := pre_dst V
  ea := pre_ea V
  denom := pre_denom V

theorem carries_L0 {W : Valuation τ sig (Elt F)} (h : Carries V W) : Carries V (after opsL0 W) where
  a0 := (opsL0_keep W main_arg0 (by decide)).trans h.a0
  a4 := (opsL0_keep W main_arg4 (by decide)).trans h.a4
  a9 := (opsL0_keep W main_arg9 (by decide)).trans h.a9
  a10 := (opsL0_keep W main_arg10 (by decide)).trans h.a10
  a11 := (opsL0_keep W main_arg11 (by decide)).trans h.a11
  a12 := (opsL0_keep W main_arg12 (by decide)).trans h.a12
  a13 := (opsL0_keep W main_arg13 (by decide)).trans h.a13
  src := (opsL0_keep W main_v1 (by decide)).trans h.src
  dst := (opsL0_keep W main_v3 (by decide)).trans h.dst
  ea := (opsL0_keep W main_v11 (by decide)).trans h.ea
  denom := (opsL0_keep W main_v18 (by decide)).trans h.denom
theorem carries_L1 {W : Valuation τ sig (Elt F)} (h : Carries V W) : Carries V (after opsL1 W) where
  a0 := (opsL1_keep W main_arg0 (by decide)).trans h.a0
  a4 := (opsL1_keep W main_arg4 (by decide)).trans h.a4
  a9 := (opsL1_keep W main_arg9 (by decide)).trans h.a9
  a10 := (opsL1_keep W main_arg10 (by decide)).trans h.a10
  a11 := (opsL1_keep W main_arg11 (by decide)).trans h.a11
  a12 := (opsL1_keep W main_arg12 (by decide)).trans h.a12
  a13 := (opsL1_keep W main_arg13 (by decide)).trans h.a13
  src := (opsL1_keep W main_v1 (by decide)).trans h.src
  dst := (opsL1_keep W main_v3 (by decide)).trans h.dst
  ea := (opsL1_keep W main_v11 (by decide)).trans h.ea
  denom := (opsL1_keep W main_v18 (by decide)).trans h.denom
theorem carries_L2 {W : Valuation τ sig (Elt F)} (h : Carries V W) : Carries V (after opsL2 W) where
  a0 := (opsL2_keep W main_arg0 (by decide)).trans h.a0
  a4 := (opsL2_keep W main_arg4 (by decide)).trans h.a4
  a9 := (opsL2_keep W main_arg9 (by decide)).trans h.a9
  a10 := (opsL2_keep W main_arg10 (by decide)).trans h.a10
  a11 := (opsL2_keep W main_arg11 (by decide)).trans h.a11
  a12 := (opsL2_keep W main_arg12 (by decide)).trans h.a12
  a13 := (opsL2_keep W main_arg13 (by decide)).trans h.a13
  src := (opsL2_keep W main_v1 (by decide)).trans h.src
  dst := (opsL2_keep W main_v3 (by decide)).trans h.dst
  ea := (opsL2_keep W main_v11 (by decide)).trans h.ea
  denom := (opsL2_keep W main_v18 (by decide)).trans h.denom
theorem carries_L3 {W : Valuation τ sig (Elt F)} (h : Carries V W) : Carries V (after opsL3 W) where
  a0 := (opsL3_keep W main_arg0 (by decide)).trans h.a0
  a4 := (opsL3_keep W main_arg4 (by decide)).trans h.a4
  a9 := (opsL3_keep W main_arg9 (by decide)).trans h.a9
  a10 := (opsL3_keep W main_arg10 (by decide)).trans h.a10
  a11 := (opsL3_keep W main_arg11 (by decide)).trans h.a11
  a12 := (opsL3_keep W main_arg12 (by decide)).trans h.a12
  a13 := (opsL3_keep W main_arg13 (by decide)).trans h.a13
  src := (opsL3_keep W main_v1 (by decide)).trans h.src
  dst := (opsL3_keep W main_v3 (by decide)).trans h.dst
  ea := (opsL3_keep W main_v11 (by decide)).trans h.ea
  denom := (opsL3_keep W main_v18 (by decide)).trans h.denom
theorem carries_L4 {W : Valuation τ sig (Elt F)} (h : Carries V W) : Carries V (after opsL4 W) where
  a0 := (opsL4_keep W main_arg0 (by decide)).trans h.a0
  a4 := (opsL4_keep W main_arg4 (by decide)).trans h.a4
  a9 := (opsL4_keep W main_arg9 (by decide)).trans h.a9
  a10 := (opsL4_keep W main_arg10 (by decide)).trans h.a10
  a11 := (opsL4_keep W main_arg11 (by decide)).trans h.a11
  a12 := (opsL4_keep W main_arg12 (by decide)).trans h.a12
  a13 := (opsL4_keep W main_arg13 (by decide)).trans h.a13
  src := (opsL4_keep W main_v1 (by decide)).trans h.src
  dst := (opsL4_keep W main_v3 (by decide)).trans h.dst
  ea := (opsL4_keep W main_v11 (by decide)).trans h.ea
  denom := (opsL4_keep W main_v18 (by decide)).trans h.denom

theorem carries_S1 : Carries V (S1 V) := carries_L0 V (carries_S0 V)
theorem carries_S2 : Carries V (S2 V) := carries_L1 V (carries_S1 V)
theorem carries_S3 : Carries V (S3 V) := carries_L2 V (carries_S2 V)
theorem carries_S4 : Carries V (S4 V) := carries_L3 V (carries_S3 V)
theorem carries_S5 : Carries V (S5 V) := carries_L4 V (carries_S4 V)

/-! ## The iterates in their buffers -/

theorem S0_h : S0 V (Proc.devRef .tc main_v7) = refH0 V := pre_h0 V

/-- Layer 1 leaves the iterate `H1` in its output buffer. -/
theorem S1_h : S1 V (Proc.devRef .tc main_v70) = refH1 V := by
  have c := carries_S0 V
  show after opsL0 (S0 V) (Proc.devRef .tc main_v70) = _
  rw [layer0_out, c.ea, c.a4, c.src, c.dst, c.denom, c.a9, c.a10, c.a11, c.a12, c.a13, S0_h]
  rfl
/-- Layer 2 leaves the iterate `H2` in its output buffer. -/
theorem S2_h : S2 V (Proc.devRef .tc main_v122) = refH2 V := by
  have c := carries_S1 V
  show after opsL1 (S1 V) (Proc.devRef .tc main_v122) = _
  rw [layer1_out, c.ea, c.a4, c.src, c.dst, c.denom, c.a9, c.a10, c.a11, c.a12, c.a13, S1_h]
  rfl
/-- Layer 3 leaves the iterate `H3` in its output buffer. -/
theorem S3_h : S3 V (Proc.devRef .tc main_v174) = refH3 V := by
  have c := carries_S2 V
  show after opsL2 (S2 V) (Proc.devRef .tc main_v174) = _
  rw [layer2_out, c.ea, c.a4, c.src, c.dst, c.denom, c.a9, c.a10, c.a11, c.a12, c.a13, S2_h]
  rfl
/-- Layer 4 leaves the iterate `H4` in its output buffer. -/
theorem S4_h : S4 V (Proc.devRef .tc main_v226) = refH4 V := by
  have c := carries_S3 V
  show after opsL3 (S3 V) (Proc.devRef .tc main_v226) = _
  rw [layer3_out, c.ea, c.a4, c.src, c.dst, c.denom, c.a9, c.a10, c.a11, c.a12, c.a13, S3_h]
  rfl
/-- Layer 5 leaves the iterate `H5` in its output buffer. -/
theorem S5_h : S5 V (Proc.devRef .tc main_v277) = refH5 V := by
  have c := carries_S4 V
  show after opsL4 (S4 V) (Proc.devRef .tc main_v277) = _
  rw [layer4_out, c.ea, c.a4, c.src, c.dst, c.denom, c.a9, c.a10, c.a11, c.a12, c.a13, S4_h]
  rfl

/-- The first four iterates are still in their buffers after the last layer. -/
theorem S5_h1 : S5 V (Proc.devRef .tc main_v70) = refH1 V :=
  (opsL4_keep _ main_v70 (by decide)).trans <| (opsL3_keep _ main_v70 (by decide)).trans <| (opsL2_keep _ main_v70 (by decide)).trans <|
    (opsL1_keep _ main_v70 (by decide)).trans (S1_h V)
theorem S5_h2 : S5 V (Proc.devRef .tc main_v122) = refH2 V :=
  (opsL4_keep _ main_v122 (by decide)).trans <| (opsL3_keep _ main_v122 (by decide)).trans <| (opsL2_keep _ main_v122 (by decide)).trans (S2_h V)
theorem S5_h3 : S5 V (Proc.devRef .tc main_v174) = refH3 V :=
  (opsL4_keep _ main_v174 (by decide)).trans <| (opsL3_keep _ main_v174 (by decide)).trans (S3_h V)
theorem S5_h4 : S5 V (Proc.devRef .tc main_v226) = refH4 V := (opsL4_keep _ main_v226 (by decide)).trans (S4_h V)

/-- After @main, the second result buffer holds the fifth iterate. -/
theorem ref_h : after ops V (Proc.devRef .tc main_v277) = refH5 V := by
  rw [after_ops_eq]
  exact (opsTail_keep _ main_v277 (by decide)).trans (S5_h V)

/-- After @main, pooled buffer 1 holds the per-graph sums of the iterate `H1`. -/
theorem ref_pool0 : after ops V (Proc.devRef .tc main_v280) = poolOf (V (Proc.devRef .tc main_arg0)) (refH1 V) := by
  rw [after_ops_eq, pool0_out, (carries_S5 V).a0, S5_h1]
/-- After @main, pooled buffer 2 holds the per-graph sums of the iterate `H2`. -/
theorem ref_pool1 : after ops V (Proc.devRef .tc main_v283) = poolOf (V (Proc.devRef .tc main_arg0)) (refH2 V) := by
  rw [after_ops_eq, pool1_out, (carries_S5 V).a0, S5_h2]
/-- After @main, pooled buffer 3 holds the per-graph sums of the iterate `H3`. -/
theorem ref_pool2 : after ops V (Proc.devRef .tc main_v286) = poolOf (V (Proc.devRef .tc main_arg0)) (refH3 V) := by
  rw [after_ops_eq, pool2_out, (carries_S5 V).a0, S5_h3]
/-- After @main, pooled buffer 4 holds the per-graph sums of the iterate `H4`. -/
theorem ref_pool3 : after ops V (Proc.devRef .tc main_v289) = poolOf (V (Proc.devRef .tc main_arg0)) (refH4 V) := by
  rw [after_ops_eq, pool3_out, (carries_S5 V).a0, S5_h4]
/-- After @main, pooled buffer 5 holds the per-graph sums of the iterate `H5`. -/
theorem ref_pool4 : after ops V (Proc.devRef .tc main_v292) = poolOf (V (Proc.devRef .tc main_arg0)) (refH5 V) := by
  rw [after_ops_eq, pool4_out, (carries_S5 V).a0, S5_h]

end Cert.ReferenceIdeal.RefRun

end
-- ==== Proof.NetRead.lean ====
/- The first node array and the parameter slices read at an index. The encoded nodes are, at node `n` and column `f`,
   `∑ₖ x(n,k) · W_atom(k,f) + b_atom(f)`. Layer `k`'s slice of a `[5, 128, 128]` parameter array, read at `(0, p, q)`, is the
   array at `(k, p, q)`, and its slice of a `[5, 128]` array, read at `(0, q)`, is the array at `(k, q)`: a slice reads the
   operand at the offset plus the index, axis by axis. -/
import proofs.«144276_j65051574665788_2_alg».proof.Proof.RefLayers
import proofs.«144276_j65051574665788_2_alg».proof.Proof.LibDotNN
import proofs.«144276_j65051574665788_2_alg».proof.Proof.LibRowBroadcast
import Idealize.ShloMosaic.Lib.Pipeline.Value
import Idealize.ShloMosaic.PureOps.Ideal.Laws

noncomputable section

namespace Cert.ReferenceIdeal.NetRead

open Cert.ReferenceIdeal Cert.ReferenceIdeal.Gen Cert.ReferenceIdeal.RefRun Idealize.ShloMosaic Idealize.ShloMosaic.TcCoe
open Idealize.ShloMosaic.ValueIdx Cert.LibRowBroadcast

/-- The node encoder's product has the plain dimension numbers. -/
theorem dot48_eq : dot_S50000x48_S48x128_S50000x128_1_0_0_1_n_n = DotDims.plain 50000 48 128 := rfl

/-- The encoded nodes at `(n, f)`. -/
theorem preH0_apply (x : FVec Ideal S50000x48 .f32) (Watom : FVec Ideal S48x128 .f32) (batom : FVec Ideal S128 .f32)
    (n : Fin 50000) (f : Fin 128) :
    preH0 (F := Ideal) x Watom batom (ix2 n f) = ∑ k : Fin 48, x (ix2 n k) * Watom (ix2 k f) + batom (ix1 f) := by
  show addf (Host.dotGeneral dot_S50000x48_S48x128_S50000x128_1_0_0_1_n_n none x Watom)
      (broadcastInDim S50000x128 ![0, 1] bcast_S1x128_S50000x128_0_1 (broadcastInDim S1x128 ![1] bcast_S128_S1x128_1 batom)) (ix2 n f) = _
  rw [addf_apply, Cert.LibDotNN.dotGeneral_apply _ dot48_eq, broadcastInDim_1b_ab_apply _ rfl rfl, broadcastInDim_b_1b_apply _ rfl]

/-- Layer `k`'s slice of a `[5, 128, 128]` array at `(u, p, q)`: the array at `(k, p, q)`. -/
theorem slice3_apply {α : Type} (k : Fin 5) (off : Fin 3 → ℕ) (h0 : off 0 = k.val) (h1 : off 1 = 0) (h2 : off 2 = 0)
    (X : S5x128x128.Idx → α) (w : S5x128x128.Slices off S1x128x128) (u : Fin 1) (p q : Fin 128) :
    extractStridedSlice S1x128x128 off X w (ix3 u p q) = X (ix3 k p q) := by
  refine extractStridedSlice_apply off X w (ix3 u p q) (ix3 k p q) fun a => ?_
  match a with
  | ⟨0, _⟩ =>
    show k.val = off 0 + u.val
    have := u.isLt; omega
  | ⟨1, _⟩ =>
    show p.val = off 1 + p.val
    omega
  | ⟨2, _⟩ =>
    show q.val = off 2 + q.val
    omega

/-- Layer `k`'s slice of a `[5, 128]` array at `(u, q)`: the array at `(k, q)`. -/
theorem slice2_apply {α : Type} (k : Fin 5) (off : Fin 2 → ℕ) (h0 : off 0 = k.val) (h1 : off 1 = 0)
    (X : S5x128.Idx → α) (w : S5x128.Slices off S1x128) (u : Fin 1) (q : Fin 128) :
    extractStridedSlice S1x128 off X w (ix2 u q) = X (ix2 k q) := by
  refine extractStridedSlice_apply off X w (ix2 u q) (ix2 k q) fun a => ?_
  match a with
  | ⟨0, _⟩ =>
    show k.val = off 0 + u.val
    have := u.isLt; omega
  | ⟨1, _⟩ =>
    show q.val = off 1 + q.val
    omega

end Cert.ReferenceIdeal.NetRead

end
-- ==== Proof.LibOneHotPool.lean ====
/- Pooling by a one-hot product. For a predicate `p` on rows, `∑ r, (if p r then 1 else 0) * y r` is the sum of `y` over
   the rows where `p` holds: a matrix product with a one-hot matrix adds up exactly the rows a scatter-add would send to
   that bucket. No finiteness is needed: on the extended reals `1 * y = y` and `0 * y = 0` for every `y`.
   A sum over `a * b` rows is the sum over `a` tiles of the sums over each tile's `b` rows (row `r + b * t` is row `r` of
   tile `t`), which is how a grid of tiles accumulates a whole-array sum. -/
import Idealize.ShloMosaic.PureOps.Ideal

open Finset

namespace Cert.Lib

/-- A sum weighted by a one-hot indicator is the sum over the rows it selects. -/
theorem onehot_sum {R : Type*} [Fintype R] (p : R → Prop) [DecidablePred p] (y : R → EReal) :
    ∑ r, (if p r then (1 : EReal) else 0) * y r = ∑ r ∈ Finset.univ.filter p, y r := by
  rw [Finset.sum_filter]
  exact Finset.sum_congr rfl fun r _ => by split_ifs <;> simp

/-- A sum over `a * b` rows, tile by tile. -/
theorem sum_tiles {M : Type*} [AddCommMonoid M] (a b : ℕ) (f : Fin (a * b) → M) :
    ∑ i, f i = ∑ t : Fin a, ∑ r : Fin b, f (finProdFinEquiv (t, r)) := by
  rw [← finProdFinEquiv.sum_comp, Fintype.sum_prod_type]

/-- Row `r` of tile `t` is row `r + b * t` of the array. -/
theorem tile_row_val (a b : ℕ) (t : Fin a) (r : Fin b) : (finProdFinEquiv (t, r) : Fin (a * b)).val = r.val + b * t.val := rfl

end Cert.Lib
-- ==== Proof.PoolRead.lean ====
/- The reference's per-graph sums read at an index, and the same numbers as the kernel arranges them. A layer's output is
   scatter-added by graph number into a zero `[128, 128]` array: at graph `g` and column `f` that is the sum of `y(r, f)` over
   the nodes `r` whose graph number, read signed, is `g` (a node whose number is outside `[0, 128)` counts nowhere). The same
   number is the product of column `f` of `y` with the one-hot row "node `r` belongs to graph `g`", and, the 50000 nodes being
   10 tiles of 5000, the sum over the tiles of each tile's one-hot product. -/
import proofs.«144276_j65051574665788_2_alg».proof.Proof.RefLayers
import proofs.«144276_j65051574665788_2_alg».proof.Proof.LibRowScatterSum
import proofs.«144276_j65051574665788_2_alg».proof.Proof.LibColumnLayout
import proofs.«144276_j65051574665788_2_alg».proof.Proof.LibRowBroadcast
import proofs.«144276_j65051574665788_2_alg».proof.Proof.LibOneHotPool
import Idealize.ShloMosaic.PureOps.Ideal.Laws

noncomputable section

namespace Cert.ReferenceIdeal.PoolRead

open Cert.ReferenceIdeal Cert.ReferenceIdeal.Gen Cert.ReferenceIdeal.RefRun Idealize.ShloMosaic Idealize.ShloMosaic.TcCoe
open Idealize.ShloMosaic.ValueIdx Cert.LibRowGatherScatter Cert.LibRowScatterSum Cert.LibColumnLayout Cert.LibRowBroadcast Cert.Lib

/-- The program's pooling scatter is the general row scatter at its extents. -/
theorem scatterPool_eq : scatter_S128x128_S50000x1_S50000x128_1_0_0_1
    = rowsScatter 128 50000 128 scatter_S128x128_S50000x1_S50000x128_1_0_0_1_wf := rfl

/-- The graph numbers as the column the scatter reads. -/
abbrev batchCol (batch : IVec S50000 32) : IVec S50000x1 32 := broadcastInDim S50000x1 ![0] bcast_S50000_S50000x1_0 batch

/-- Node `r` belongs to graph `g`: its graph number, read signed, is `g`. -/
def inGraph (batch : IVec S50000 32) (g : Fin 128) (r : Fin 50000) : Prop := (batch (ix1 r)).toInt = (g.val : Int)

instance (batch : IVec S50000 32) (g : Fin 128) : DecidablePred (inGraph batch g) := fun _ => by unfold inGraph; infer_instance

/-- The nodes the scatter sends to graph `g` are the nodes that belong to it. -/
theorem landing_eq (batch : IVec S50000 32) (g : Fin 128) :
    landing 128 (batchCol batch) g = Finset.univ.filter (inGraph batch g) := by
  unfold landing inGraph
  refine Finset.filter_congr fun r _ => ?_
  show (broadcastInDim S50000x1 ![0] bcast_S50000_S50000x1_0 batch (ix2 r 0)).toInt = _ ↔ _
  rw [broadcastInDim_a_a1_apply _ rfl]

/-- The per-graph sums at `(g, f)`: column `f` of the layer's output summed over the nodes of graph `g`. -/
theorem poolOf_apply (batch : IVec S50000 32) (y : FVec Ideal S50000x128 .f32) (g : Fin 128) (f : Fin 128) :
    poolOf (F := Ideal) batch y (ix2 g f) = ∑ r ∈ Finset.univ.filter (inGraph batch g), y (ix2 r f) := by
  show Host.scatterAdd scatter_S128x128_S50000x1_S50000x128_1_0_0_1
      (broadcastInDim S128x128 ![] bcast_S_S128x128 (constant (F := Ideal) S_ .f32 0x00000000#32)) (batchCol batch) y (ix2 g f) = _
  show Ideal.hostScatterAdd scatter_S128x128_S50000x1_S50000x128_1_0_0_1 _ (batchCol batch) y (ix2 g f) = _
  rw [scatterPool_eq, scatterAdd_rows_apply, broadcastInDim_scalar_apply, constant_apply, Ideal.ofBits_zero_f32, zero_add, landing_eq]

/-- The same number as a product with a one-hot row. -/
theorem poolOf_onehot (batch : IVec S50000 32) (y : FVec Ideal S50000x128 .f32) (g : Fin 128) (f : Fin 128) :
    poolOf (F := Ideal) batch y (ix2 g f) = ∑ r : Fin 50000, (if inGraph batch g r then (1 : EReal) else 0) * y (ix2 r f) := by
  rw [poolOf_apply, onehot_sum]

/-- The same number tile by tile: 10 tiles of 5000 nodes, each tile's one-hot product, added up. -/
theorem poolOf_tiles (batch : IVec S50000 32) (y : FVec Ideal S50000x128 .f32) (g : Fin 128) (f : Fin 128) :
    poolOf (F := Ideal) batch y (ix2 g f)
      = ∑ t : Fin 10, ∑ r : Fin 5000,
          (if inGraph batch g (finProdFinEquiv (t, r)) then (1 : EReal) else 0) * y (ix2 (finProdFinEquiv (t, r)) f) := by
  rw [poolOf_onehot]
  exact sum_tiles (M := EReal) 10 5000 _

end Cert.ReferenceIdeal.PoolRead

end
-- ==== Proof.RealNet.lean ====
/- The reference's whole network over real arguments. If the twelve float argument arrays are real-valued, then so is every
   iterate: `H₀` is the real array `x · W_atom + b_atom`, and each layer maps the real array `Hₖ` to the real formula of
   Proof/RealLayer.lean over layer `k`'s slices of the parameters (the kernel's arrangement), followed on all layers but the
   last by the maximum with 0. So the reference's second result is the coercion of the real array `H₅`, and each of its
   per-graph sums is the coercion of a real sum over the graph's nodes. The two integer index rows and the graph numbers
   enter only through which edges land on a node, which row an edge gathers, and which nodes a graph holds. -/
import proofs.«144276_j65051574665788_2_alg».proof.Proof.RealLayer
import proofs.«144276_j65051574665788_2_alg».proof.Proof.RefResult
import proofs.«144276_j65051574665788_2_alg».proof.Proof.NetRead
import proofs.«144276_j65051574665788_2_alg».proof.Proof.PoolRead

noncomputable section

namespace Cert.ReferenceIdeal.RealNet

open Cert.ReferenceIdeal Cert.ReferenceIdeal.Gen Cert.ReferenceIdeal.RefRun Idealize.ShloMosaic Idealize.ShloMosaic.TcCoe
open Idealize.ShloMosaic.ValueIdx Idealize.ShloMosaic.StableHlo Cert.Lib
open Cert.ReferenceIdeal.RealLayer Cert.ReferenceIdeal.NetRead Cert.ReferenceIdeal.PoolRead

variable (V : Valuation τ sig (Elt Ideal))
  (xR : Fin 50000 → Fin 48 → ℝ) (WaR : Fin 48 → Fin 128 → ℝ) (baR : Fin 128 → ℝ)
  (aR : Fin 600000 → Fin 11 → ℝ) (WbR : Fin 11 → Fin 128 → ℝ) (bbR : Fin 128 → ℝ) (wR : Fin 600000 → ℝ)
  (WlAll WrAll : Fin 5 → Fin 128 → Fin 128 → ℝ) (blAll gAll btAll : Fin 5 → Fin 128 → ℝ)

/-- The float arguments held in `V` are these real arrays. -/
structure RealArgs : Prop where
  hx : V (Proc.devRef .tc main_arg1) = (fun i : S50000x48.Idx => ((xR (i 0) (i 1) : ℝ) : EReal))
  ha : V (Proc.devRef .tc main_arg3) = (fun i : S600000x11.Idx => ((aR (i 0) (i 1) : ℝ) : EReal))
  hw : V (Proc.devRef .tc main_arg4) = (fun i : S600000.Idx => ((wR (i 0) : ℝ) : EReal))
  hWa : V (Proc.devRef .tc main_arg5) = (fun i : S48x128.Idx => ((WaR (i 0) (i 1) : ℝ) : EReal))
  hba : V (Proc.devRef .tc main_arg6) = (fun i : S128.Idx => ((baR (i 0) : ℝ) : EReal))
  hWb : V (Proc.devRef .tc main_arg7) = (fun i : S11x128.Idx => ((WbR (i 0) (i 1) : ℝ) : EReal))
  hbb : V (Proc.devRef .tc main_arg8) = (fun i : S128.Idx => ((bbR (i 0) : ℝ) : EReal))
  hWl : V (Proc.devRef .tc main_arg9) = (fun i : S5x128x128.Idx => ((WlAll (i 0) (i 1) (i 2) : ℝ) : EReal))
  hbl : V (Proc.devRef .tc main_arg10) = (fun i : S5x128.Idx => ((blAll (i 0) (i 1) : ℝ) : EReal))
  hWr : V (Proc.devRef .tc main_arg11) = (fun i : S5x128x128.Idx => ((WrAll (i 0) (i 1) (i 2) : ℝ) : EReal))
  hg : V (Proc.devRef .tc main_arg12) = (fun i : S5x128.Idx => ((gAll (i 0) (i 1) : ℝ) : EReal))
  hbt : V (Proc.devRef .tc main_arg13) = (fun i : S5x128.Idx => ((btAll (i 0) (i 1) : ℝ) : EReal))

/-- The real iterates. -/
def H0R (n : Fin 50000) (f : Fin 128) : ℝ := ∑ k : Fin 48, xR n k * WaR k f + baR f
def H1R (n : Fin 50000) (f : Fin 128) : ℝ := max (yR (H0R xR WaR baR) aR WbR bbR wR (refSrc V) (refDst V) (WlAll 0) (WrAll 0) (blAll 0) (gAll 0) (btAll 0) n f) 0
def H2R (n : Fin 50000) (f : Fin 128) : ℝ := max (yR (H1R V xR WaR baR aR WbR bbR wR WlAll WrAll blAll gAll btAll) aR WbR bbR wR (refSrc V) (refDst V) (WlAll 1) (WrAll 1) (blAll 1) (gAll 1) (btAll 1) n f) 0
def H3R (n : Fin 50000) (f : Fin 128) : ℝ := max (yR (H2R V xR WaR baR aR WbR bbR wR WlAll WrAll blAll gAll btAll) aR WbR bbR wR (refSrc V) (refDst V) (WlAll 2) (WrAll 2) (blAll 2) (gAll 2) (btAll 2) n f) 0
def H4R (n : Fin 50000) (f : Fin 128) : ℝ := max (yR (H3R V xR WaR baR aR WbR bbR wR WlAll WrAll blAll gAll btAll) aR WbR bbR wR (refSrc V) (refDst V) (WlAll 3) (WrAll 3) (blAll 3) (gAll 3) (btAll 3) n f) 0
def H5R (n : Fin 50000) (f : Fin 128) : ℝ := yR (H4R V xR WaR baR aR WbR bbR wR WlAll WrAll blAll gAll btAll) aR WbR bbR wR (refSrc V) (refDst V) (WlAll 4) (WrAll 4) (blAll 4) (gAll 4) (btAll 4) n f

variable (wf11 : ScatterDims.WF ⟨2, ![50000, 11]⟩ ⟨2, ![600000, 1]⟩ ⟨2, ![600000, 11]⟩ [1] [0] [0] 1)
  (hV : RealArgs V xR WaR baR aR WbR bbR wR WlAll WrAll blAll gAll btAll)
include hV

/-- The encoded nodes are the real array `H₀`. -/
theorem refH0_real : refH0 V = fun i : S50000x128.Idx => ((H0R xR WaR baR (i 0) (i 1) : ℝ) : EReal) := by
  funext i
  obtain ⟨n, f, rfl⟩ : ∃ (n : Fin 50000) (f : Fin 128), i = ix2 n f := ⟨i 0, i 1, eq_ix2 i⟩
  unfold refH0
  rw [hV.hx, hV.hWa, hV.hba, preH0_apply]
  simp only [← EReal.coe_mul, ← coe_sum, ← EReal.coe_add]
  rfl

/-- The encoded edges are the edge encoder of the real attribute and weight arrays. -/
theorem refEa_real : refEa V = preEa (F := Ideal) (fun i : S600000x11.Idx => ((aR (i 0) (i 1) : ℝ) : EReal)) (fun i : S11x128.Idx => ((WbR (i 0) (i 1) : ℝ) : EReal)) (fun i : S128.Idx => ((bbR (i 0) : ℝ) : EReal)) := by
  unfold refEa
  rw [hV.ha, hV.hWb, hV.hbb]

/-- Layer 1's slices of the parameter arrays are its real parameters. -/
theorem slices0_real :
    ((extractStridedSlice S1x128x128 ![0, 0, 0] · slices_S5x128x128_S1x128x128_0_0_0) : (⟨S5x128x128, .f32⟩ : BufTy).Contents (Elt Ideal) → (⟨S1x128x128, .f32⟩ : BufTy).Contents (Elt Ideal)) (V (Proc.devRef .tc main_arg9)) = (fun i : S1x128x128.Idx => ((WlAll 0 (i 1) (i 2) : ℝ) : EReal))
    ∧ ((extractStridedSlice S1x128 ![0, 0] · slices_S5x128_S1x128_0_0) : (⟨S5x128, .f32⟩ : BufTy).Contents (Elt Ideal) → (⟨S1x128, .f32⟩ : BufTy).Contents (Elt Ideal)) (V (Proc.devRef .tc main_arg10)) = (fun i : S1x128.Idx => ((blAll 0 (i 1) : ℝ) : EReal))
    ∧ ((extractStridedSlice S1x128x128 ![0, 0, 0] · slices_S5x128x128_S1x128x128_0_0_0) : (⟨S5x128x128, .f32⟩ : BufTy).Contents (Elt Ideal) → (⟨S1x128x128, .f32⟩ : BufTy).Contents (Elt Ideal)) (V (Proc.devRef .tc main_arg11)) = (fun i : S1x128x128.Idx => ((WrAll 0 (i 1) (i 2) : ℝ) : EReal))
    ∧ ((extractStridedSlice S1x128 ![0, 0] · slices_S5x128_S1x128_0_0) : (⟨S5x128, .f32⟩ : BufTy).Contents (Elt Ideal) → (⟨S1x128, .f32⟩ : BufTy).Contents (Elt Ideal)) (V (Proc.devRef .tc main_arg12)) = (fun i : S1x128.Idx => ((gAll 0 (i 1) : ℝ) : EReal))
    ∧ ((extractStridedSlice S1x128 ![0, 0] · slices_S5x128_S1x128_0_0) : (⟨S5x128, .f32⟩ : BufTy).Contents (Elt Ideal) → (⟨S1x128, .f32⟩ : BufTy).Contents (Elt Ideal)) (V (Proc.devRef .tc main_arg13)) = (fun i : S1x128.Idx => ((btAll 0 (i 1) : ℝ) : EReal)) := by
  rw [hV.hWl, hV.hbl, hV.hWr, hV.hg, hV.hbt]
  refine ⟨?_, ?_, ?_, ?_, ?_⟩
  · funext i
    obtain ⟨u, p, q, rfl⟩ : ∃ (u : Fin 1) (p q : Fin 128), i = ix3 u p q := ⟨i 0, i 1, i 2, eq_ix3 i⟩
    exact slice3_apply (0 : Fin 5) _ rfl rfl rfl _ _ u p q
  · funext i
    obtain ⟨u, q, rfl⟩ : ∃ (u : Fin 1) (q : Fin 128), i = ix2 u q := ⟨i 0, i 1, eq_ix2 i⟩
    exact slice2_apply (0 : Fin 5) _ rfl rfl _ _ u q
  · funext i
    obtain ⟨u, p, q, rfl⟩ : ∃ (u : Fin 1) (p q : Fin 128), i = ix3 u p q := ⟨i 0, i 1, i 2, eq_ix3 i⟩
    exact slice3_apply (0 : Fin 5) _ rfl rfl rfl _ _ u p q
  · funext i
    obtain ⟨u, q, rfl⟩ : ∃ (u : Fin 1) (q : Fin 128), i = ix2 u q := ⟨i 0, i 1, eq_ix2 i⟩
    exact slice2_apply (0 : Fin 5) _ rfl rfl _ _ u q
  · funext i
    obtain ⟨u, q, rfl⟩ : ∃ (u : Fin 1) (q : Fin 128), i = ix2 u q := ⟨i 0, i 1, eq_ix2 i⟩
    exact slice2_apply (0 : Fin 5) _ rfl rfl _ _ u q
/-- Layer 2's slices of the parameter arrays are its real parameters. -/
theorem slices1_real :
    ((extractStridedSlice S1x128x128 ![1, 0, 0] · slices_S5x128x128_S1x128x128_1_0_0) : (⟨S5x128x128, .f32⟩ : BufTy).Contents (Elt Ideal) → (⟨S1x128x128, .f32⟩ : BufTy).Contents (Elt Ideal)) (V (Proc.devRef .tc main_arg9)) = (fun i : S1x128x128.Idx => ((WlAll 1 (i 1) (i 2) : ℝ) : EReal))
    ∧ ((extractStridedSlice S1x128 ![1, 0] · slices_S5x128_S1x128_1_0) : (⟨S5x128, .f32⟩ : BufTy).Contents (Elt Ideal) → (⟨S1x128, .f32⟩ : BufTy).Contents (Elt Ideal)) (V (Proc.devRef .tc main_arg10)) = (fun i : S1x128.Idx => ((blAll 1 (i 1) : ℝ) : EReal))
    ∧ ((extractStridedSlice S1x128x128 ![1, 0, 0] · slices_S5x128x128_S1x128x128_1_0_0) : (⟨S5x128x128, .f32⟩ : BufTy).Contents (Elt Ideal) → (⟨S1x128x128, .f32⟩ : BufTy).Contents (Elt Ideal)) (V (Proc.devRef .tc main_arg11)) = (fun i : S1x128x128.Idx => ((WrAll 1 (i 1) (i 2) : ℝ) : EReal))
    ∧ ((extractStridedSlice S1x128 ![1, 0] · slices_S5x128_S1x128_1_0) : (⟨S5x128, .f32⟩ : BufTy).Contents (Elt Ideal) → (⟨S1x128, .f32⟩ : BufTy).Contents (Elt Ideal)) (V (Proc.devRef .tc main_arg12)) = (fun i : S1x128.Idx => ((gAll 1 (i 1) : ℝ) : EReal))
    ∧ ((extractStridedSlice S1x128 ![1, 0] · slices_S5x128_S1x128_1_0) : (⟨S5x128, .f32⟩ : BufTy).Contents (Elt Ideal) → (⟨S1x128, .f32⟩ : BufTy).Contents (Elt Ideal)) (V (Proc.devRef .tc main_arg13)) = (fun i : S1x128.Idx => ((btAll 1 (i 1) : ℝ) : EReal)) := by
  rw [hV.hWl, hV.hbl, hV.hWr, hV.hg, hV.hbt]
  refine ⟨?_, ?_, ?_, ?_, ?_⟩
  · funext i
    obtain ⟨u, p, q, rfl⟩ : ∃ (u : Fin 1) (p q : Fin 128), i = ix3 u p q := ⟨i 0, i 1, i 2, eq_ix3 i⟩
    exact slice3_apply (1 : Fin 5) _ rfl rfl rfl _ _ u p q
  · funext i
    obtain ⟨u, q, rfl⟩ : ∃ (u : Fin 1) (q : Fin 128), i = ix2 u q := ⟨i 0, i 1, eq_ix2 i⟩
    exact slice2_apply (1 : Fin 5) _ rfl rfl _ _ u q
  · funext i
    obtain ⟨u, p, q, rfl⟩ : ∃ (u : Fin 1) (p q : Fin 128), i = ix3 u p q := ⟨i 0, i 1, i 2, eq_ix3 i⟩
    exact slice3_apply (1 : Fin 5) _ rfl rfl rfl _ _ u p q
  · funext i
    obtain ⟨u, q, rfl⟩ : ∃ (u : Fin 1) (q : Fin 128), i = ix2 u q := ⟨i 0, i 1, eq_ix2 i⟩
    exact slice2_apply (1 : Fin 5) _ rfl rfl _ _ u q
  · funext i
    obtain ⟨u, q, rfl⟩ : ∃ (u : Fin 1) (q : Fin 128), i = ix2 u q := ⟨i 0, i 1, eq_ix2 i⟩
    exact slice2_apply (1 : Fin 5) _ rfl rfl _ _ u q
/-- Layer 3's slices of the parameter arrays are its real parameters. -/
theorem slices2_real :
    ((extractStridedSlice S1x128x128 ![2, 0, 0] · slices_S5x128x128_S1x128x128_2_0_0) : (⟨S5x128x128, .f32⟩ : BufTy).Contents (Elt Ideal) → (⟨S1x128x128, .f32⟩ : BufTy).Contents (Elt Ideal)) (V (Proc.devRef .tc main_arg9)) = (fun i : S1x128x128.Idx => ((WlAll 2 (i 1) (i 2) : ℝ) : EReal))
    ∧ ((extractStridedSlice S1x128 ![2, 0] · slices_S5x128_S1x128_2_0) : (⟨S5x128, .f32⟩ : BufTy).Contents (Elt Ideal) → (⟨S1x128, .f32⟩ : BufTy).Contents (Elt Ideal)) (V (Proc.devRef .tc main_arg10)) = (fun i : S1x128.Idx => ((blAll 2 (i 1) : ℝ) : EReal))
    ∧ ((extractStridedSlice S1x128x128 ![2, 0, 0] · slices_S5x128x128_S1x128x128_2_0_0) : (⟨S5x128x128, .f32⟩ : BufTy).Contents (Elt Ideal) → (⟨S1x128x128, .f32⟩ : BufTy).Contents (Elt Ideal)) (V (Proc.devRef .tc main_arg11)) = (fun i : S1x128x128.Idx => ((WrAll 2 (i 1) (i 2) : ℝ) : EReal))
    ∧ ((extractStridedSlice S1x128 ![2, 0] · slices_S5x128_S1x128_2_0) : (⟨S5x128, .f32⟩ : BufTy).Contents (Elt Ideal) → (⟨S1x128, .f32⟩ : BufTy).Contents (Elt Ideal)) (V (Proc.devRef .tc main_arg12)) = (fun i : S1x128.Idx => ((gAll 2 (i 1) : ℝ) : EReal))
    ∧ ((extractStridedSlice S1x128 ![2, 0] · slices_S5x128_S1x128_2_0) : (⟨S5x128, .f32⟩ : BufTy).Contents (Elt Ideal) → (⟨S1x128, .f32⟩ : BufTy).Contents (Elt Ideal)) (V (Proc.devRef .tc main_arg13)) = (fun i : S1x128.Idx => ((btAll 2 (i 1) : ℝ) : EReal)) := by
  rw [hV.hWl, hV.hbl, hV.hWr, hV.hg, hV.hbt]
  refine ⟨?_, ?_, ?_, ?_, ?_⟩
  · funext i
    obtain ⟨u, p, q, rfl⟩ : ∃ (u : Fin 1) (p q : Fin 128), i = ix3 u p q := ⟨i 0, i 1, i 2, eq_ix3 i⟩
    exact slice3_apply (2 : Fin 5) _ rfl rfl rfl _ _ u p q
  · funext i
    obtain ⟨u, q, rfl⟩ : ∃ (u : Fin 1) (q : Fin 128), i = ix2 u q := ⟨i 0, i 1, eq_ix2 i⟩
    exact slice2_apply (2 : Fin 5) _ rfl rfl _ _ u q
  · funext i
    obtain ⟨u, p, q, rfl⟩ : ∃ (u : Fin 1) (p q : Fin 128), i = ix3 u p q := ⟨i 0, i 1, i 2, eq_ix3 i⟩
    exact slice3_apply (2 : Fin 5) _ rfl rfl rfl _ _ u p q
  · funext i
    obtain ⟨u, q, rfl⟩ : ∃ (u : Fin 1) (q : Fin 128), i = ix2 u q := ⟨i 0, i 1, eq_ix2 i⟩
    exact slice2_apply (2 : Fin 5) _ rfl rfl _ _ u q
  · funext i
    obtain ⟨u, q, rfl⟩ : ∃ (u : Fin 1) (q : Fin 128), i = ix2 u q := ⟨i 0, i 1, eq_ix2 i⟩
    exact slice2_apply (2 : Fin 5) _ rfl rfl _ _ u q
/-- Layer 4's slices of the parameter arrays are its real parameters. -/
theorem slices3_real :
    ((extractStridedSlice S1x128x128 ![3, 0, 0] · slices_S5x128x128_S1x128x128_3_0_0) : (⟨S5x128x128, .f32⟩ : BufTy).Contents (Elt Ideal) → (⟨S1x128x128, .f32⟩ : BufTy).Contents (Elt Ideal)) (V (Proc.devRef .tc main_arg9)) = (fun i : S1x128x128.Idx => ((WlAll 3 (i 1) (i 2) : ℝ) : EReal))
    ∧ ((extractStridedSlice S1x128 ![3, 0] · slices_S5x128_S1x128_3_0) : (⟨S5x128, .f32⟩ : BufTy).Contents (Elt Ideal) → (⟨S1x128, .f32⟩ : BufTy).Contents (Elt Ideal)) (V (Proc.devRef .tc main_arg10)) = (fun i : S1x128.Idx => ((blAll 3 (i 1) : ℝ) : EReal))
    ∧ ((extractStridedSlice S1x128x128 ![3, 0, 0] · slices_S5x128x128_S1x128x128_3_0_0) : (⟨S5x128x128, .f32⟩ : BufTy).Contents (Elt Ideal) → (⟨S1x128x128, .f32⟩ : BufTy).Contents (Elt Ideal)) (V (Proc.devRef .tc main_arg11)) = (fun i : S1x128x128.Idx => ((WrAll 3 (i 1) (i 2) : ℝ) : EReal))
    ∧ ((extractStridedSlice S1x128 ![3, 0] · slices_S5x128_S1x128_3_0) : (⟨S5x128, .f32⟩ : BufTy).Contents (Elt Ideal) → (⟨S1x128, .f32⟩ : BufTy).Contents (Elt Ideal)) (V (Proc.devRef .tc main_arg12)) = (fun i : S1x128.Idx => ((gAll 3 (i 1) : ℝ) : EReal))
    ∧ ((extractStridedSlice S1x128 ![3, 0] · slices_S5x128_S1x128_3_0) : (⟨S5x128, .f32⟩ : BufTy).Contents (Elt Ideal) → (⟨S1x128, .f32⟩ : BufTy).Contents (Elt Ideal)) (V (Proc.devRef .tc main_arg13)) = (fun i : S1x128.Idx => ((btAll 3 (i 1) : ℝ) : EReal)) := by
  rw [hV.hWl, hV.hbl, hV.hWr, hV.hg, hV.hbt]
  refine ⟨?_, ?_, ?_, ?_, ?_⟩
  · funext i
    obtain ⟨u, p, q, rfl⟩ : ∃ (u : Fin 1) (p q : Fin 128), i = ix3 u p q := ⟨i 0, i 1, i 2, eq_ix3 i⟩
    exact slice3_apply (3 : Fin 5) _ rfl rfl rfl _ _ u p q
  · funext i
    obtain ⟨u, q, rfl⟩ : ∃ (u : Fin 1) (q : Fin 128), i = ix2 u q := ⟨i 0, i 1, eq_ix2 i⟩
    exact slice2_apply (3 : Fin 5) _ rfl rfl _ _ u q
  · funext i
    obtain ⟨u, p, q, rfl⟩ : ∃ (u : Fin 1) (p q : Fin 128), i = ix3 u p q := ⟨i 0, i 1, i 2, eq_ix3 i⟩
    exact slice3_apply (3 : Fin 5) _ rfl rfl rfl _ _ u p q
  · funext i
    obtain ⟨u, q, rfl⟩ : ∃ (u : Fin 1) (q : Fin 128), i = ix2 u q := ⟨i 0, i 1, eq_ix2 i⟩
    exact slice2_apply (3 : Fin 5) _ rfl rfl _ _ u q
  · funext i
    obtain ⟨u, q, rfl⟩ : ∃ (u : Fin 1) (q : Fin 128), i = ix2 u q := ⟨i 0, i 1, eq_ix2 i⟩
    exact slice2_apply (3 : Fin 5) _ rfl rfl _ _ u q
/-- Layer 5's slices of the parameter arrays are its real parameters. -/
theorem slices4_real :
    ((extractStridedSlice S1x128x128 ![4, 0, 0] · slices_S5x128x128_S1x128x128_4_0_0) : (⟨S5x128x128, .f32⟩ : BufTy).Contents (Elt Ideal) → (⟨S1x128x128, .f32⟩ : BufTy).Contents (Elt Ideal)) (V (Proc.devRef .tc main_arg9)) = (fun i : S1x128x128.Idx => ((WlAll 4 (i 1) (i 2) : ℝ) : EReal))
    ∧ ((extractStridedSlice S1x128 ![4, 0] · slices_S5x128_S1x128_4_0) : (⟨S5x128, .f32⟩ : BufTy).Contents (Elt Ideal) → (⟨S1x128, .f32⟩ : BufTy).Contents (Elt Ideal)) (V (Proc.devRef .tc main_arg10)) = (fun i : S1x128.Idx => ((blAll 4 (i 1) : ℝ) : EReal))
    ∧ ((extractStridedSlice S1x128x128 ![4, 0, 0] · slices_S5x128x128_S1x128x128_4_0_0) : (⟨S5x128x128, .f32⟩ : BufTy).Contents (Elt Ideal) → (⟨S1x128x128, .f32⟩ : BufTy).Contents (Elt Ideal)) (V (Proc.devRef .tc main_arg11)) = (fun i : S1x128x128.Idx => ((WrAll 4 (i 1) (i 2) : ℝ) : EReal))
    ∧ ((extractStridedSlice S1x128 ![4, 0] · slices_S5x128_S1x128_4_0) : (⟨S5x128, .f32⟩ : BufTy).Contents (Elt Ideal) → (⟨S1x128, .f32⟩ : BufTy).Contents (Elt Ideal)) (V (Proc.devRef .tc main_arg12)) = (fun i : S1x128.Idx => ((gAll 4 (i 1) : ℝ) : EReal))
    ∧ ((extractStridedSlice S1x128 ![4, 0] · slices_S5x128_S1x128_4_0) : (⟨S5x128, .f32⟩ : BufTy).Contents (Elt Ideal) → (⟨S1x128, .f32⟩ : BufTy).Contents (Elt Ideal)) (V (Proc.devRef .tc main_arg13)) = (fun i : S1x128.Idx => ((btAll 4 (i 1) : ℝ) : EReal)) := by
  rw [hV.hWl, hV.hbl, hV.hWr, hV.hg, hV.hbt]
  refine ⟨?_, ?_, ?_, ?_, ?_⟩
  · funext i
    obtain ⟨u, p, q, rfl⟩ : ∃ (u : Fin 1) (p q : Fin 128), i = ix3 u p q := ⟨i 0, i 1, i 2, eq_ix3 i⟩
    exact slice3_apply (4 : Fin 5) _ rfl rfl rfl _ _ u p q
  · funext i
    obtain ⟨u, q, rfl⟩ : ∃ (u : Fin 1) (q : Fin 128), i = ix2 u q := ⟨i 0, i 1, eq_ix2 i⟩
    exact slice2_apply (4 : Fin 5) _ rfl rfl _ _ u q
  · funext i
    obtain ⟨u, p, q, rfl⟩ : ∃ (u : Fin 1) (p q : Fin 128), i = ix3 u p q := ⟨i 0, i 1, i 2, eq_ix3 i⟩
    exact slice3_apply (4 : Fin 5) _ rfl rfl rfl _ _ u p q
  · funext i
    obtain ⟨u, q, rfl⟩ : ∃ (u : Fin 1) (q : Fin 128), i = ix2 u q := ⟨i 0, i 1, eq_ix2 i⟩
    exact slice2_apply (4 : Fin 5) _ rfl rfl _ _ u q
  · funext i
    obtain ⟨u, q, rfl⟩ : ∃ (u : Fin 1) (q : Fin 128), i = ix2 u q := ⟨i 0, i 1, eq_ix2 i⟩
    exact slice2_apply (4 : Fin 5) _ rfl rfl _ _ u q

include wf11

/-- The iterate `H1` is real: layer 1 of the reference maps the real `H0` to the kernel-arranged real formula, then the maximum with 0. -/
theorem refH1_real : refH1 V = fun i : S50000x128.Idx => ((H1R V xR WaR baR aR WbR bbR wR WlAll WrAll blAll gAll btAll (i 0) (i 1) : ℝ) : EReal) := by
  obtain ⟨hWl, hbl, hWr, hg, hbt⟩ := slices0_real V xR WaR baR aR WbR bbR wR WlAll WrAll blAll gAll btAll hV
  funext i
  obtain ⟨n, f, rfl⟩ : ∃ (n : Fin 50000) (f : Fin 128), i = ix2 n f := ⟨i 0, i 1, eq_ix2 i⟩
  unfold refH1 refLayer0
  rw [refH0_real V xR WaR baR aR WbR bbR wR WlAll WrAll blAll gAll btAll hV, refEa_real V xR WaR baR aR WbR bbR wR WlAll WrAll blAll gAll btAll hV, hV.hw, hWl, hbl, hWr, hg, hbt]
  exact layerRelu_coe (H0R xR WaR baR) aR WbR bbR wR (refSrc V) (refDst V) (WlAll 0) (WrAll 0) (blAll 0) (gAll 0) (btAll 0) wf11 n f
/-- The iterate `H2` is real: layer 2 of the reference maps the real `H1` to the kernel-arranged real formula, then the maximum with 0. -/
theorem refH2_real : refH2 V = fun i : S50000x128.Idx => ((H2R V xR WaR baR aR WbR bbR wR WlAll WrAll blAll gAll btAll (i 0) (i 1) : ℝ) : EReal) := by
  obtain ⟨hWl, hbl, hWr, hg, hbt⟩ := slices1_real V xR WaR baR aR WbR bbR wR WlAll WrAll blAll gAll btAll hV
  funext i
  obtain ⟨n, f, rfl⟩ : ∃ (n : Fin 50000) (f : Fin 128), i = ix2 n f := ⟨i 0, i 1, eq_ix2 i⟩
  unfold refH2 refLayer1
  rw [refH1_real V xR WaR baR aR WbR bbR wR WlAll WrAll blAll gAll btAll wf11 hV, refEa_real V xR WaR baR aR WbR bbR wR WlAll WrAll blAll gAll btAll hV, hV.hw, hWl, hbl, hWr, hg, hbt]
  exact layerRelu_coe (H1R V xR WaR baR aR WbR bbR wR WlAll WrAll blAll gAll btAll) aR WbR bbR wR (refSrc V) (refDst V) (WlAll 1) (WrAll 1) (blAll 1) (gAll 1) (btAll 1) wf11 n f
/-- The iterate `H3` is real: layer 3 of the reference maps the real `H2` to the kernel-arranged real formula, then the maximum with 0. -/
theorem refH3_real : refH3 V = fun i : S50000x128.Idx => ((H3R V xR WaR baR aR WbR bbR wR WlAll WrAll blAll gAll btAll (i 0) (i 1) : ℝ) : EReal) := by
  obtain ⟨hWl, hbl, hWr, hg, hbt⟩ := slices2_real V xR WaR baR aR WbR bbR wR WlAll WrAll blAll gAll btAll hV
  funext i
  obtain ⟨n, f, rfl⟩ : ∃ (n : Fin 50000) (f : Fin 128), i = ix2 n f := ⟨i 0, i 1, eq_ix2 i⟩
  unfold refH3 refLayer2
  rw [refH2_real V xR WaR baR aR WbR bbR wR WlAll WrAll blAll gAll btAll wf11 hV, refEa_real V xR WaR baR aR WbR bbR wR WlAll WrAll blAll gAll btAll hV, hV.hw, hWl, hbl, hWr, hg, hbt]
  exact layerRelu_coe (H2R V xR WaR baR aR WbR bbR wR WlAll WrAll blAll gAll btAll) aR WbR bbR wR (refSrc V) (refDst V) (WlAll 2) (WrAll 2) (blAll 2) (gAll 2) (btAll 2) wf11 n f
/-- The iterate `H4` is real: layer 4 of the reference maps the real `H3` to the kernel-arranged real formula, then the maximum with 0. -/
theorem refH4_real : refH4 V = fun i : S50000x128.Idx => ((H4R V xR WaR baR aR WbR bbR wR WlAll WrAll blAll gAll btAll (i 0) (i 1) : ℝ) : EReal) := by
  obtain ⟨hWl, hbl, hWr, hg, hbt⟩ := slices3_real V xR WaR baR aR WbR bbR wR WlAll WrAll blAll gAll btAll hV
  funext i
  obtain ⟨n, f, rfl⟩ : ∃ (n : Fin 50000) (f : Fin 128), i = ix2 n f := ⟨i 0, i 1, eq_ix2 i⟩
  unfold refH4 refLayer3
  rw [refH3_real V xR WaR baR aR WbR bbR wR WlAll WrAll blAll gAll btAll wf11 hV, refEa_real V xR WaR baR aR WbR bbR wR WlAll WrAll blAll gAll btAll hV, hV.hw, hWl, hbl, hWr, hg, hbt]
  exact layerRelu_coe (H3R V xR WaR baR aR WbR bbR wR WlAll WrAll blAll gAll btAll) aR WbR bbR wR (refSrc V) (refDst V) (WlAll 3) (WrAll 3) (blAll 3) (gAll 3) (btAll 3) wf11 n f
/-- The iterate `H5` is real: layer 5 of the reference maps the real `H4` to the kernel-arranged real formula. -/
theorem refH5_real : refH5 V = fun i : S50000x128.Idx => ((H5R V xR WaR baR aR WbR bbR wR WlAll WrAll blAll gAll btAll (i 0) (i 1) : ℝ) : EReal) := by
  obtain ⟨hWl, hbl, hWr, hg, hbt⟩ := slices4_real V xR WaR baR aR WbR bbR wR WlAll WrAll blAll gAll btAll hV
  funext i
  obtain ⟨n, f, rfl⟩ : ∃ (n : Fin 50000) (f : Fin 128), i = ix2 n f := ⟨i 0, i 1, eq_ix2 i⟩
  unfold refH5 refLayer4
  rw [refH4_real V xR WaR baR aR WbR bbR wR WlAll WrAll blAll gAll btAll wf11 hV, refEa_real V xR WaR baR aR WbR bbR wR WlAll WrAll blAll gAll btAll hV, hV.hw, hWl, hbl, hWr, hg, hbt]
  exact layerCore_coe (H4R V xR WaR baR aR WbR bbR wR WlAll WrAll blAll gAll btAll) aR WbR bbR wR (refSrc V) (refDst V) (WlAll 4) (WrAll 4) (blAll 4) (gAll 4) (btAll 4) wf11 n f

/-- The per-graph sums of an iterate that is a real array are real sums over the graph's nodes. -/
theorem pool_real (HkR : Fin 50000 → Fin 128 → ℝ) (g : Fin 128) (f : Fin 128) :
    poolOf (F := Ideal) (V (Proc.devRef .tc main_arg0)) (fun i : S50000x128.Idx => ((HkR (i 0) (i 1) : ℝ) : EReal)) (ix2 g f)
      = ((∑ r ∈ Finset.univ.filter (inGraph (V (Proc.devRef .tc main_arg0)) g), HkR r f : ℝ) : EReal) := by
  rw [poolOf_apply, coe_sum]

end Cert.ReferenceIdeal.RealNet

end
-- ==== Proof.RefTail.lean ====
/- The reference's first result. The tail scatter-adds each layer's output by graph number into zeros and joins the five
   arrays of per-graph sums side by side; so after all of @main the first result buffer holds the per-graph sums of the
   iterates `H₁ … H₅` joined, and the second holds `H₅`. Together with the run of the 450 operations this names both results
   of every execution of the reference as functions of the launch contents. -/
import proofs.«144276_j65051574665788_2_alg».proof.Proof.RefResult

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F] (V : Valuation τ sig (Elt F))

/-- Five arrays of per-graph sums side by side. -/
def catPools (p0 p1 p2 p3 p4 : (main_v280 : Ref sig .tc).ty.Contents (Elt F)) : (main_v293 : Ref sig .tc).ty.Contents (Elt F) :=
  concatenate S128x640 1 [⟨S128x128, p0⟩, ⟨S128x128, p1⟩, ⟨S128x128, p2⟩, ⟨S128x128, p3⟩, ⟨S128x128, p4⟩]
    concatenates_S128x128_S128x128_S128x128_S128x128_S128x128_S128x640_d1

set_option maxRecDepth 16384 in
set_option maxHeartbeats 4000000 in
/-- The tail leaves, in the first result buffer, the five per-graph sums of the layers' outputs side by side. -/
theorem tail_cat (W : Valuation τ sig (Elt F)) :
    after opsTail W (Proc.devRef .tc main_v293)
      = catPools (poolOf (W (Proc.devRef .tc main_arg0)) (W (Proc.devRef .tc main_v70))) (poolOf (W (Proc.devRef .tc main_arg0)) (W (Proc.devRef .tc main_v122)))
          (poolOf (W (Proc.devRef .tc main_arg0)) (W (Proc.devRef .tc main_v174))) (poolOf (W (Proc.devRef .tc main_arg0)) (W (Proc.devRef .tc main_v226)))
          (poolOf (W (Proc.devRef .tc main_arg0)) (W (Proc.devRef .tc main_v277))) := by
  simp only [opsTail]
  after_results_simp
  rfl

/-- After @main, the first result buffer holds the per-graph sums of the five iterates, side by side. -/
theorem ref_pool : after ops V (Proc.devRef .tc main_v293)
    = catPools (poolOf (V (Proc.devRef .tc main_arg0)) (refH1 V)) (poolOf (V (Proc.devRef .tc main_arg0)) (refH2 V)) (poolOf (V (Proc.devRef .tc main_arg0)) (refH3 V))
        (poolOf (V (Proc.devRef .tc main_arg0)) (refH4 V)) (poolOf (V (Proc.devRef .tc main_arg0)) (refH5 V)) := by
  rw [after_ops_eq, tail_cat, (carries_S5 V).a0, S5_h1, S5_h2, S5_h3, S5_h4, S5_h]

/-- The reference's run with its results named: every weakly fair execution of @main ends with the first result buffer at the
    joined per-graph sums of the iterates and the second at the fifth iterate, as functions of the launch contents. -/
theorem run_results (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v293)
          = catPools (poolOf (launchContents m c (Proc.devRef .tc main_arg0)) (refH1 (launchContents m c)))
              (poolOf (launchContents m c (Proc.devRef .tc main_arg0)) (refH2 (launchContents m c)))
              (poolOf (launchContents m c (Proc.devRef .tc main_arg0)) (refH3 (launchContents m c)))
              (poolOf (launchContents m c (Proc.devRef .tc main_arg0)) (refH4 (launchContents m c)))
              (poolOf (launchContents m c (Proc.devRef .tc main_arg0)) (refH5 (launchContents m c)))
      ∧ r.2.mem ((c.tc : Thread nD τ).loc main_v277) = refH5 (launchContents m c) :=
  (θ_run defs _ _).mono (fun _ h c => ⟨(h c main_v293).trans (ref_pool (launchContents m c)),
      (h c main_v277).trans (ref_h (launchContents m c))⟩) (run_main m ρ)

end Cert.ReferenceIdeal.RefRun

end
-- ==== Proof.LibFiniteBlock.lean ====
/- An array that passes the finiteness test holds real numbers. The test takes the absolute value of every entry, compares it
   with `+inf` (strictly below), and reduces the comparisons by `and` to one bit. On the extended reals the absolute value is
   `max x (−x)`, which is `+∞` at both infinities, so an entry strictly below `+∞` in absolute value is a real number; and a
   reduction by `and` that ends at 1 had a 1 at every index. -/
import Idealize.ShloMosaic.Lib.ReduceAll
import Idealize.ShloMosaic.Lib.Pipeline.Value
import Idealize.ShloMosaic.Lib.ValueIdx
import Idealize.ShloMosaic.PureOps.Ideal.Laws

noncomputable section

namespace Cert.LibFiniteBlock

open Idealize.ShloMosaic Idealize.ShloMosaic.ValueIdx

/-- The word of `+inf` denotes the top of the extended reals. -/
theorem ofBits_inf : Ideal.ofBits .f32 0x7F800000#32 = ⊤ := by
  simp [Ideal.ofBits, Ideal.ieee]

/-- An extended real whose absolute value is strictly below `+∞` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- One entry's test bit is 1 only for a real entry. -/
theorem real_of_test (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  rw [ofBits_inf] at h
  refine real_of_abs_lt_top x ?_
  by_contra hn
  have : FloatOps.cmpf (F := Ideal) (φ := .f32) .olt (FloatOps.hostAbsf (F := Ideal) (φ := .f32) x) (⊤ : EReal) = 0#1 := by
    show BitVec.ofBool (decide (max x (-x) < ⊤)) = 0#1
    rw [decide_eq_false hn]; rfl
  rw [this] at h
  exact absurd h (by decide)

/-- An array that passes the finiteness test holds a real number at every index. -/
theorem block_real {s : Shape} {axes : List (Fin s.rank)} (x : FVec Ideal s .f32) (dims : Fin 0 → Fin s.rank)
    (hb : (⟨0, ![]⟩ : Shape).BroadcastsInDim s dims) (hr : s.ReducesTo axes ⟨0, ![]⟩) (hu : 0 < (⟨0, ![]⟩ : Shape).numel)
    (init : IVec ⟨0, ![]⟩ 1)
    (e : Host.reduce IntOp.andi
        (cmpf .olt (Host.absf x) (broadcastInDim s dims hb (constant (F := Ideal) ⟨0, ![]⟩ .f32 0x7F800000#32))) init hr hu ix0 = 1#1)
    (i : s.Idx) : ∃ r : ℝ, x i = (r : EReal) := by
  haveI : Subsingleton (⟨0, ![]⟩ : Shape).Idx := ⟨fun a b => funext fun d => d.elim0⟩
  have h1 := Host.reduce_andi_all _ init hr hu ix0 e i
  rw [cmpf_apply, broadcastInDim_apply dims hb _ i ix0 (fun ax => ax.elim0), constant_apply] at h1
  exact real_of_test (x i) h1

end Cert.LibFiniteBlock

end
-- ==== Proof.PreReal.lean ====
/- The precondition decoded. `finite_inputs` tests the twelve float argument arrays one after the other — each array's
   absolute values strictly below `+inf`, all of them, reduced by `and` to one bit — and joins the twelve bits by `and`. If the
   result is 1 then each of the twelve bits is 1, and an array whose bit is 1 holds a real number at every index
   (Proof/LibFiniteBlock.lean). -/
import proofs.«144276_j65051574665788_2_alg».proof.Pre_finite_inputs
import proofs.«144276_j65051574665788_2_alg».proof.Proof.Gen.Pre_finite_inputs
import proofs.«144276_j65051574665788_2_alg».proof.Proof.LibFiniteBlock

noncomputable section

namespace Cert.Pre_finite_inputs.PreReal

open Cert.Pre_finite_inputs Cert.Pre_finite_inputs.Gen Idealize.ShloMosaic Idealize.ShloMosaic.ValueIdx Cert.LibFiniteBlock

/-- The conjunction of two test bits is 1 exactly when both are. -/
theorem andi_ix0 (a b : IVec S_ 1) : andi a b ix0 = 1#1 ↔ a ix0 = 1#1 ∧ b ix0 = 1#1 := IntOp.andi_eq_one

set_option maxRecDepth 16384 in
/-- If `finite_inputs` holds of the arguments, every entry of every float argument is a real number. -/
theorem real_of_pre (a0 : IVec S50000 32) (a1 : FVec Ideal S50000x48 .f32) (a2 : IVec S2x600000 32) (a3 : FVec Ideal S600000x11 .f32)
    (a4 : FVec Ideal S600000 .f32) (a5 : FVec Ideal S48x128 .f32) (a6 : FVec Ideal S128 .f32) (a7 : FVec Ideal S11x128 .f32)
    (a8 : FVec Ideal S128 .f32) (a9 : FVec Ideal S5x128x128 .f32) (a10 : FVec Ideal S5x128 .f32) (a11 : FVec Ideal S5x128x128 .f32)
    (a12 : FVec Ideal S5x128 .f32) (a13 : FVec Ideal S5x128 .f32)
    (h : fn (F := Ideal) a0 a1 a2 a3 a4 a5 a6 a7 a8 a9 a10 a11 a12 a13 = fun _ => 1#1) :
    (∀ i : S50000x48.Idx, ∃ r : ℝ, a1 i = (r : EReal))
    ∧ (∀ i : S600000x11.Idx, ∃ r : ℝ, a3 i = (r : EReal))
    ∧ (∀ i : S600000.Idx, ∃ r : ℝ, a4 i = (r : EReal))
    ∧ (∀ i : S48x128.Idx, ∃ r : ℝ, a5 i = (r : EReal))
    ∧ (∀ i : S128.Idx, ∃ r : ℝ, a6 i = (r : EReal))
    ∧ (∀ i : S11x128.Idx, ∃ r : ℝ, a7 i = (r : EReal))
    ∧ (∀ i : S128.Idx, ∃ r : ℝ, a8 i = (r : EReal))
    ∧ (∀ i : S5x128x128.Idx, ∃ r : ℝ, a9 i = (r : EReal))
    ∧ (∀ i : S5x128.Idx, ∃ r : ℝ, a10 i = (r : EReal))
    ∧ (∀ i : S5x128x128.Idx, ∃ r : ℝ, a11 i = (r : EReal))
    ∧ (∀ i : S5x128.Idx, ∃ r : ℝ, a12 i = (r : EReal))
    ∧ (∀ i : S5x128.Idx, ∃ r : ℝ, a13 i = (r : EReal)) := by
  have h0 : fn (F := Ideal) a0 a1 a2 a3 a4 a5 a6 a7 a8 a9 a10 a11 a12 a13 ix0 = 1#1 := congrFun h ix0
  unfold fn fn_part1 fn_part2 fn_part3 at h0
  dsimp only at h0
  simp only [andi_ix0] at h0
  obtain ⟨⟨⟨⟨⟨⟨⟨⟨⟨⟨⟨e1, e3⟩, e4⟩, e5⟩, e6⟩, e7⟩, e8⟩, e9⟩, e10⟩, e11⟩, e12⟩, e13⟩ := h0
  exact ⟨block_real a1 _ _ _ _ _ e1, block_real a3 _ _ _ _ _ e3, block_real a4 _ _ _ _ _ e4, block_real a5 _ _ _ _ _ e5, block_real a6 _ _ _ _ _ e6, block_real a7 _ _ _ _ _ e7, block_real a8 _ _ _ _ _ e8, block_real a9 _ _ _ _ _ e9, block_real a10 _ _ _ _ _ e10, block_real a11 _ _ _ _ _ e11, block_real a12 _ _ _ _ _ e12, block_real a13 _ _ _ _ _ e13⟩

end Cert.Pre_finite_inputs.PreReal

end
-- ==== Proof.RefReal.lean ====
/- The reference's results under the precondition. If every float argument is finite then the argument arrays are real
   arrays (Proof/PreReal.lean), so every execution of the reference ends with its second result the coercion of the real
   array `H₅` of Proof/RealNet.lean — five layers in the kernel's arrangement — and its first result the five arrays of
   per-graph sums of `H₁ … H₅`, each entry a real sum over the graph's nodes, side by side. -/
import proofs.«144276_j65051574665788_2_alg».proof.Defs
import proofs.«144276_j65051574665788_2_alg».proof.Proof.RealNet
import proofs.«144276_j65051574665788_2_alg».proof.Proof.RefTail
import proofs.«144276_j65051574665788_2_alg».proof.Proof.PreReal

noncomputable section

namespace Cert.ReferenceIdeal.RefReal

open Cert.ReferenceIdeal Cert.ReferenceIdeal.Gen Cert.ReferenceIdeal.RefRun Idealize.ShloMosaic Idealize.ShloMosaic.TcCoe Idealize.SL.Sem
open Idealize.ShloMosaic.ValueIdx Idealize.ShloMosaic.StableHlo Cert.Lib
open Cert.ReferenceIdeal.RealNet Cert.ReferenceIdeal.PoolRead

/-- The per-graph sum of a real node array: column `f` summed over the nodes of graph `g`. -/
def poolR (batch : IVec S50000 32) (HkR : Fin 50000 → Fin 128 → ℝ) (g f : Fin 128) : ℝ :=
  ∑ r ∈ Finset.univ.filter (inGraph batch g), HkR r f

/-- The per-graph sums of a real node array are the coerced real sums, as an array. -/
theorem poolOf_coe (batch : IVec S50000 32) (HkR : Fin 50000 → Fin 128 → ℝ) :
    poolOf (F := Ideal) batch (fun i : S50000x128.Idx => ((HkR (i 0) (i 1) : ℝ) : EReal))
      = fun i : S128x128.Idx => ((poolR batch HkR (i 0) (i 1) : ℝ) : EReal) := by
  funext i
  obtain ⟨g, f, rfl⟩ : ∃ (g f : Fin 128), i = ix2 g f := ⟨i 0, i 1, eq_ix2 i⟩
  show poolOf (F := Ideal) _ _ (ix2 g f) = ((∑ r ∈ Finset.univ.filter (inGraph batch g), HkR r f : ℝ) : EReal)
  rw [poolOf_apply, coe_sum]

/-- Finite float arguments are real arrays: the launch contents of a memory of which the precondition holds. -/
theorem realArgs_of_pre [Cert.Pre_finite_inputs.Facts] (m : (ℓ : Loc nD τ sig) → Buf (Elt Ideal) ℓ) (hpre : Cert.Pre_ReferenceIdeal m) (c : Dev nD) :
    ∃ (xR : Fin 50000 → Fin 48 → ℝ) (WaR : Fin 48 → Fin 128 → ℝ) (baR : Fin 128 → ℝ) (aR : Fin 600000 → Fin 11 → ℝ)
      (WbR : Fin 11 → Fin 128 → ℝ) (bbR : Fin 128 → ℝ) (wR : Fin 600000 → ℝ) (WlAll WrAll : Fin 5 → Fin 128 → Fin 128 → ℝ)
      (blAll gAll btAll : Fin 5 → Fin 128 → ℝ), RealArgs (launchContents m c) xR WaR baR aR WbR bbR wR WlAll WrAll blAll gAll btAll := by
  obtain ⟨h1, h3, h4, h5, h6, h7, h8, h9, h10, h11, h12, h13⟩ := Cert.Pre_finite_inputs.PreReal.real_of_pre
    (m ((c.tc : Thread nD τ).loc main_arg0))
    (m ((c.tc : Thread nD τ).loc main_arg1))
    (m ((c.tc : Thread nD τ).loc main_arg2))
    (m ((c.tc : Thread nD τ).loc main_arg3))
    (m ((c.tc : Thread nD τ).loc main_arg4))
    (m ((c.tc : Thread nD τ).loc main_arg5))
    (m ((c.tc : Thread nD τ).loc main_arg6))
    (m ((c.tc : Thread nD τ).loc main_arg7))
    (m ((c.tc : Thread nD τ).loc main_arg8))
    (m ((c.tc : Thread nD τ).loc main_arg9))
    (m ((c.tc : Thread nD τ).loc main_arg10))
    (m ((c.tc : Thread nD τ).loc main_arg11))
    (m ((c.tc : Thread nD τ).loc main_arg12))
    (m ((c.tc : Thread nD τ).loc main_arg13))
    (hpre c)
  choose xR' exR using h1
  choose aR' eaR using h3
  choose wR' ewR using h4
  choose WaR' eWaR using h5
  choose baR' ebaR using h6
  choose WbR' eWbR using h7
  choose bbR' ebbR using h8
  choose WlAll' eWlAll using h9
  choose blAll' eblAll using h10
  choose WrAll' eWrAll using h11
  choose gAll' egAll using h12
  choose btAll' ebtAll using h13
  refine ⟨fun p q => xR' (ix2 p q), fun p q => WaR' (ix2 p q), fun p => baR' (ix1 p), fun p q => aR' (ix2 p q), fun p q => WbR' (ix2 p q), fun p => bbR' (ix1 p), fun p => wR' (ix1 p), fun p q s => WlAll' (ix3 p q s), fun p q s => WrAll' (ix3 p q s), fun p q => blAll' (ix2 p q), fun p q => gAll' (ix2 p q), fun p q => btAll' (ix2 p q), ?_⟩
  exact ⟨funext fun i => (exR i).trans (by rw [eq_ix2 i]; rfl),
    funext fun i => (eaR i).trans (by rw [eq_ix2 i]; rfl),
    funext fun i => (ewR i).trans (by rw [eq_ix1 i]; rfl),
    funext fun i => (eWaR i).trans (by rw [eq_ix2 i]; rfl),
    funext fun i => (ebaR i).trans (by rw [eq_ix1 i]; rfl),
    funext fun i => (eWbR i).trans (by rw [eq_ix2 i]; rfl),
    funext fun i => (ebbR i).trans (by rw [eq_ix1 i]; rfl),
    funext fun i => (eWlAll i).trans (by rw [eq_ix3 i]; rfl),
    funext fun i => (eblAll i).trans (by rw [eq_ix2 i]; rfl),
    funext fun i => (eWrAll i).trans (by rw [eq_ix3 i]; rfl),
    funext fun i => (egAll i).trans (by rw [eq_ix2 i]; rfl),
    funext fun i => (ebtAll i).trans (by rw [eq_ix2 i]; rfl)⟩

/-- The dimension numbers of a row scatter of 11-wide rows into the 50000 nodes are well formed: decided on the shapes. (The
    reference never performs this scatter; the hoisted arrangement sums the weighted edge attributes with it.) -/
theorem wf11 : ScatterDims.WF ⟨2, ![50000, 11]⟩ ⟨2, ![600000, 1]⟩ ⟨2, ![600000, 11]⟩ [1] [0] [0] 1 := by decide

/-- Under the precondition, the reference's two results are the real arrays of the kernel's arrangement. -/
theorem run_real [Cert.Pre_finite_inputs.Facts]
    (m : (ℓ : Loc nD τ sig) → Buf (Elt Ideal) ℓ) (ρ : Dev nD → PrngReg) (hpre : Cert.Pre_ReferenceIdeal m) :
    θ_run defs (onTc (τ := τ) (main (F := Ideal))) ⟨m, fun _ => 0, ρ⟩ fun r => ∀ c : Dev nD,
      ∃ (xR : Fin 50000 → Fin 48 → ℝ) (WaR : Fin 48 → Fin 128 → ℝ) (baR : Fin 128 → ℝ) (aR : Fin 600000 → Fin 11 → ℝ)
        (WbR : Fin 11 → Fin 128 → ℝ) (bbR : Fin 128 → ℝ) (wR : Fin 600000 → ℝ) (WlAll WrAll : Fin 5 → Fin 128 → Fin 128 → ℝ)
        (blAll gAll btAll : Fin 5 → Fin 128 → ℝ), RealArgs (launchContents m c) xR WaR baR aR WbR bbR wR WlAll WrAll blAll gAll btAll
        ∧ r.2.mem ((c.tc : Thread nD τ).loc main_v277)
            = (fun i : S50000x128.Idx => ((H5R (launchContents m c) xR WaR baR aR WbR bbR wR WlAll WrAll blAll gAll btAll (i 0) (i 1) : ℝ) : EReal))
        ∧ r.2.mem ((c.tc : Thread nD τ).loc main_v293)
            = catPools (fun i : S128x128.Idx => ((poolR ((launchContents m c) (Proc.devRef .tc main_arg0)) (H1R (launchContents m c) xR WaR baR aR WbR bbR wR WlAll WrAll blAll gAll btAll) (i 0) (i 1) : ℝ) : EReal))
                (fun i : S128x128.Idx => ((poolR ((launchContents m c) (Proc.devRef .tc main_arg0)) (H2R (launchContents m c) xR WaR baR aR WbR bbR wR WlAll WrAll blAll gAll btAll) (i 0) (i 1) : ℝ) : EReal))
                (fun i : S128x128.Idx => ((poolR ((launchContents m c) (Proc.devRef .tc main_arg0)) (H3R (launchContents m c) xR WaR baR aR WbR bbR wR WlAll WrAll blAll gAll btAll) (i 0) (i 1) : ℝ) : EReal))
                (fun i : S128x128.Idx => ((poolR ((launchContents m c) (Proc.devRef .tc main_arg0)) (H4R (launchContents m c) xR WaR baR aR WbR bbR wR WlAll WrAll blAll gAll btAll) (i 0) (i 1) : ℝ) : EReal))
                (fun i : S128x128.Idx => ((poolR ((launchContents m c) (Proc.devRef .tc main_arg0)) (H5R (launchContents m c) xR WaR baR aR WbR bbR wR WlAll WrAll blAll gAll btAll) (i 0) (i 1) : ℝ) : EReal)) := by
  refine (θ_run defs _ _).mono (fun r h c => ?_) (run_results (F := Ideal) m ρ)
  obtain ⟨xR, WaR, baR, aR, WbR, bbR, wR, WlAll, WrAll, blAll, gAll, btAll, hV⟩ := realArgs_of_pre m hpre c
  refine ⟨xR, WaR, baR, aR, WbR, bbR, wR, WlAll, WrAll, blAll, gAll, btAll, hV, ?_, ?_⟩
  · rw [(h c).2, refH5_real (launchContents m c) xR WaR baR aR WbR bbR wR WlAll WrAll blAll gAll btAll wf11 hV]
  · rw [(h c).1, refH1_real (launchContents m c) xR WaR baR aR WbR bbR wR WlAll WrAll blAll gAll btAll wf11 hV, refH2_real (launchContents m c) xR WaR baR aR WbR bbR wR WlAll WrAll blAll gAll btAll wf11 hV,
      refH3_real (launchContents m c) xR WaR baR aR WbR bbR wR WlAll WrAll blAll gAll btAll wf11 hV, refH4_real (launchContents m c) xR WaR baR aR WbR bbR wR WlAll WrAll blAll gAll btAll wf11 hV, refH5_real (launchContents m c) xR WaR baR aR WbR bbR wR WlAll WrAll blAll gAll btAll wf11 hV]
    have hp : ∀ HkR : Fin 50000 → Fin 128 → ℝ,
        poolOf (F := Ideal) ((launchContents m c) (Proc.devRef .tc main_arg0)) (fun i : S50000x128.Idx => ((HkR (i 0) (i 1) : ℝ) : EReal))
          = fun i : S128x128.Idx => ((poolR ((launchContents m c) (Proc.devRef .tc main_arg0)) HkR (i 0) (i 1) : ℝ) : EReal) := by
      intro HkR
      funext i
      obtain ⟨g, f, rfl⟩ : ∃ (g f : Fin 128), i = ix2 g f := ⟨i 0, i 1, eq_ix2 i⟩
      show poolOf (F := Ideal) _ _ (ix2 g f) = ((∑ r ∈ Finset.univ.filter (inGraph ((launchContents m c) (Proc.devRef .tc main_arg0)) g), HkR r f : ℝ) : EReal)
      rw [poolOf_apply, coe_sum]
    rw [hp, hp, hp, hp, hp]

end Cert.ReferenceIdeal.RefReal

end
-- ==== Proof.KI.AsmChain.lean ====
/- The kernel program's buffers followed through @main, item by item. @main is thirteen stretches of host operations with a
   kernel region between each two. After a stretch the buffers hold the stretch's operations applied to what they held;
   after region `K` the region's arrays hold what its pipeline leaves — an input array what it held, an output array its
   blocks' write-backs folded (`arrAt w N` of the region's proof data, taken at the contents the region was entered with) —
   and every other buffer what it held. Taking, for "what a region may leave in a buffer it may change", exactly these
   contents, the generated valuations `Gen.V1 … Gen.V25` are this chain. A region's proof data, with its body obligation,
   enters as a hypothesis `HK`. -/
import proofs.«144276_j65051574665788_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Asm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The TensorCore's buffer contents on every core: what a region's proof data is taken at. -/
abbrev Contents (F : FTy → Type) [FloatOps F] : Type := (c : Dev nD) → (b : Ref sig .tc) → Buf (Elt F) ((c : Thread nD τ).loc b)

/-- Region 0's proof data from what the body leaves in each window's buffer: the arrays read off the entry contents, the
    class invariant, full shares, nothing owed. -/
def mkDat0 {F : FTy → Type} [FloatOps F] (V : Contents F) (c : Dev nD)
    (aft : (w : Fin cfg0.W) → Fin cfg0.N → (cfg0.win w).block.Idx → Elt F (cfg0.win w).elt) :
    Dat τ (Elt F) Unit ℕ (UR sig nD τ) ℕ cfg0 c where
  A w := V c (Pipeline.arrRef spec0 w)
  after := aft
  Φ _ := Pipeline.ΦA spec0 c
  q _ := fullShare
  owed _ := 0
/-- Region 0's half: what the body leaves, at any entry contents, and the body obligation of the proof data built from it. -/
structure Half0 (F : FTy → Type) [FloatOps F] where
  after : (V : Contents F) → (c : Dev nD) → (w : Fin cfg0.W) → Fin cfg0.N → (cfg0.win w).block.Idx → Elt F (cfg0.win w).elt
  hb : ∀ V c, BodyObligation (mkDat0 V c (after V c)) (defs₀ (F := F)) Variants.none () Set.univ
/-- The half's proof data. -/
def Half0.dat {F : FTy → Type} [FloatOps F] (H : Half0 F) (V : Contents F) (c : Dev nD) :
    Dat τ (Elt F) Unit ℕ (UR sig nD τ) ℕ cfg0 c := mkDat0 V c (H.after V c)

/-- Region 1's proof data from what the body leaves in each window's buffer: the arrays read off the entry contents, the
    class invariant, full shares, nothing owed. -/
def mkDat1 {F : FTy → Type} [FloatOps F] (V : Contents F) (c : Dev nD)
    (aft : (w : Fin cfg1.W) → Fin cfg1.N → (cfg1.win w).block.Idx → Elt F (cfg1.win w).elt) :
    Dat τ (Elt F) Unit ℕ (UR sig nD τ) ℕ cfg1 c where
  A w := V c (Pipeline.arrRef spec1 w)
  after := aft
  Φ _ := Pipeline.ΦA spec1 c
  q _ := fullShare
  owed _ := 0
/-- Region 1's half: what the body leaves, at any entry contents, and the body obligation of the proof data built from it. -/
structure Half1 (F : FTy → Type) [FloatOps F] where
  after : (V : Contents F) → (c : Dev nD) → (w : Fin cfg1.W) → Fin cfg1.N → (cfg1.win w).block.Idx → Elt F (cfg1.win w).elt
  hb : ∀ V c, BodyObligation (mkDat1 V c (after V c)) (defs₀ (F := F)) Variants.none () Set.univ
/-- The half's proof data. -/
def Half1.dat {F : FTy → Type} [FloatOps F] (H : Half1 F) (V : Contents F) (c : Dev nD) :
    Dat τ (Elt F) Unit ℕ (UR sig nD τ) ℕ cfg1 c := mkDat1 V c (H.after V c)

/-- Region 2's proof data from what the body leaves in each window's buffer: the arrays read off the entry contents, the
    class invariant, full shares, nothing owed. -/
def mkDat2 {F : FTy → Type} [FloatOps F] (V : Contents F) (c : Dev nD)
    (aft : (w : Fin cfg2.W) → Fin cfg2.N → (cfg2.win w).block.Idx → Elt F (cfg2.win w).elt) :
    Dat τ (Elt F) Unit ℕ (UR sig nD τ) ℕ cfg2 c where
  A w := V c (Pipeline.arrRef spec2 w)
  after := aft
  Φ _ := Pipeline.ΦA spec2 c
  q _ := fullShare
  owed _ := 0
/-- Region 2's half: what the body leaves, at any entry contents, and the body obligation of the proof data built from it. -/
structure Half2 (F : FTy → Type) [FloatOps F] where
  after : (V : Contents F) → (c : Dev nD) → (w : Fin cfg2.W) → Fin cfg2.N → (cfg2.win w).block.Idx → Elt F (cfg2.win w).elt
  hb : ∀ V c, BodyObligation (mkDat2 V c (after V c)) (defs₀ (F := F)) Variants.none () Set.univ
/-- The half's proof data. -/
def Half2.dat {F : FTy → Type} [FloatOps F] (H : Half2 F) (V : Contents F) (c : Dev nD) :
    Dat τ (Elt F) Unit ℕ (UR sig nD τ) ℕ cfg2 c := mkDat2 V c (H.after V c)

/-- Region 3's proof data from what the body leaves in each window's buffer: the arrays read off the entry contents, the
    class invariant, full shares, nothing owed. -/
def mkDat3 {F : FTy → Type} [FloatOps F] (V : Contents F) (c : Dev nD)
    (aft : (w : Fin cfg3.W) → Fin cfg3.N → (cfg3.win w).block.Idx → Elt F (cfg3.win w).elt) :
    Dat τ (Elt F) Unit ℕ (UR sig nD τ) ℕ cfg3 c where
  A w := V c (Pipeline.arrRef spec3 w)
  after := aft
  Φ _ := Pipeline.ΦA spec3 c
  q _ := fullShare
  owed _ := 0
/-- Region 3's half: what the body leaves, at any entry contents, and the body obligation of the proof data built from it. -/
structure Half3 (F : FTy → Type) [FloatOps F] where
  after : (V : Contents F) → (c : Dev nD) → (w : Fin cfg3.W) → Fin cfg3.N → (cfg3.win w).block.Idx → Elt F (cfg3.win w).elt
  hb : ∀ V c, BodyObligation (mkDat3 V c (after V c)) (defs₀ (F := F)) Variants.none () Set.univ
/-- The half's proof data. -/
def Half3.dat {F : FTy → Type} [FloatOps F] (H : Half3 F) (V : Contents F) (c : Dev nD) :
    Dat τ (Elt F) Unit ℕ (UR sig nD τ) ℕ cfg3 c := mkDat3 V c (H.after V c)

/-- Region 4's proof data from what the body leaves in each window's buffer: the arrays read off the entry contents, the
    class invariant, full shares, nothing owed. -/
def mkDat4 {F : FTy → Type} [FloatOps F] (V : Contents F) (c : Dev nD)
    (aft : (w : Fin cfg4.W) → Fin cfg4.N → (cfg4.win w).block.Idx → Elt F (cfg4.win w).elt) :
    Dat τ (Elt F) Unit ℕ (UR sig nD τ) ℕ cfg4 c where
  A w := V c (Pipeline.arrRef spec4 w)
  after := aft
  Φ _ := Pipeline.ΦA spec4 c
  q _ := fullShare
  owed _ := 0
/-- Region 4's half: what the body leaves, at any entry contents, and the body obligation of the proof data built from it. -/
structure Half4 (F : FTy → Type) [FloatOps F] where
  after : (V : Contents F) → (c : Dev nD) → (w : Fin cfg4.W) → Fin cfg4.N → (cfg4.win w).block.Idx → Elt F (cfg4.win w).elt
  hb : ∀ V c, BodyObligation (mkDat4 V c (after V c)) (defs₀ (F := F)) Variants.none () Set.univ
/-- The half's proof data. -/
def Half4.dat {F : FTy → Type} [FloatOps F] (H : Half4 F) (V : Contents F) (c : Dev nD) :
    Dat τ (Elt F) Unit ℕ (UR sig nD τ) ℕ cfg4 c := mkDat4 V c (H.after V c)

/-- Region 5's proof data from what the body leaves in each window's buffer: the arrays read off the entry contents, the
    class invariant, full shares, nothing owed. -/
def mkDat5 {F : FTy → Type} [FloatOps F] (V : Contents F) (c : Dev nD)
    (aft : (w : Fin cfg5.W) → Fin cfg5.N → (cfg5.win w).block.Idx → Elt F (cfg5.win w).elt) :
    Dat τ (Elt F) Unit ℕ (UR sig nD τ) ℕ cfg5 c where
  A w := V c (Pipeline.arrRef spec5 w)
  after := aft
  Φ _ := Pipeline.ΦA spec5 c
  q _ := fullShare
  owed _ := 0
/-- Region 5's half: what the body leaves, at any entry contents, and the body obligation of the proof data built from it. -/
structure Half5 (F : FTy → Type) [FloatOps F] where
  after : (V : Contents F) → (c : Dev nD) → (w : Fin cfg5.W) → Fin cfg5.N → (cfg5.win w).block.Idx → Elt F (cfg5.win w).elt
  hb : ∀ V c, BodyObligation (mkDat5 V c (after V c)) (defs₀ (F := F)) Variants.none () Set.univ
/-- The half's proof data. -/
def Half5.dat {F : FTy → Type} [FloatOps F] (H : Half5 F) (V : Contents F) (c : Dev nD) :
    Dat τ (Elt F) Unit ℕ (UR sig nD τ) ℕ cfg5 c := mkDat5 V c (H.after V c)

/-- Region 6's proof data from what the body leaves in each window's buffer: the arrays read off the entry contents, the
    class invariant, full shares, nothing owed. -/
def mkDat6 {F : FTy → Type} [FloatOps F] (V : Contents F) (c : Dev nD)
    (aft : (w : Fin cfg6.W) → Fin cfg6.N → (cfg6.win w).block.Idx → Elt F (cfg6.win w).elt) :
    Dat τ (Elt F) Unit ℕ (UR sig nD τ) ℕ cfg6 c where
  A w := V c (Pipeline.arrRef spec6 w)
  after := aft
  Φ _ := Pipeline.ΦA spec6 c
  q _ := fullShare
  owed _ := 0
/-- Region 6's half: what the body leaves, at any entry contents, and the body obligation of the proof data built from it. -/
structure Half6 (F : FTy → Type) [FloatOps F] where
  after : (V : Contents F) → (c : Dev nD) → (w : Fin cfg6.W) → Fin cfg6.N → (cfg6.win w).block.Idx → Elt F (cfg6.win w).elt
  hb : ∀ V c, BodyObligation (mkDat6 V c (after V c)) (defs₀ (F := F)) Variants.none () Set.univ
/-- The half's proof data. -/
def Half6.dat {F : FTy → Type} [FloatOps F] (H : Half6 F) (V : Contents F) (c : Dev nD) :
    Dat τ (Elt F) Unit ℕ (UR sig nD τ) ℕ cfg6 c := mkDat6 V c (H.after V c)

/-- Region 7's proof data from what the body leaves in each window's buffer: the arrays read off the entry contents, the
    class invariant, full shares, nothing owed. -/
def mkDat7 {F : FTy → Type} [FloatOps F] (V : Contents F) (c : Dev nD)
    (aft : (w : Fin cfg7.W) → Fin cfg7.N → (cfg7.win w).block.Idx → Elt F (cfg7.win w).elt) :
    Dat τ (Elt F) Unit ℕ (UR sig nD τ) ℕ cfg7 c where
  A w := V c (Pipeline.arrRef spec7 w)
  after := aft
  Φ _ := Pipeline.ΦA spec7 c
  q _ := fullShare
  owed _ := 0
/-- Region 7's half: what the body leaves, at any entry contents, and the body obligation of the proof data built from it. -/
structure Half7 (F : FTy → Type) [FloatOps F] where
  after : (V : Contents F) → (c : Dev nD) → (w : Fin cfg7.W) → Fin cfg7.N → (cfg7.win w).block.Idx → Elt F (cfg7.win w).elt
  hb : ∀ V c, BodyObligation (mkDat7 V c (after V c)) (defs₀ (F := F)) Variants.none () Set.univ
/-- The half's proof data. -/
def Half7.dat {F : FTy → Type} [FloatOps F] (H : Half7 F) (V : Contents F) (c : Dev nD) :
    Dat τ (Elt F) Unit ℕ (UR sig nD τ) ℕ cfg7 c := mkDat7 V c (H.after V c)

/-- Region 8's proof data from what the body leaves in each window's buffer: the arrays read off the entry contents, the
    class invariant, full shares, nothing owed. -/
def mkDat8 {F : FTy → Type} [FloatOps F] (V : Contents F) (c : Dev nD)
    (aft : (w : Fin cfg8.W) → Fin cfg8.N → (cfg8.win w).block.Idx → Elt F (cfg8.win w).elt) :
    Dat τ (Elt F) Unit ℕ (UR sig nD τ) ℕ cfg8 c where
  A w := V c (Pipeline.arrRef spec8 w)
  after := aft
  Φ _ := Pipeline.ΦA spec8 c
  q _ := fullShare
  owed _ := 0
/-- Region 8's half: what the body leaves, at any entry contents, and the body obligation of the proof data built from it. -/
structure Half8 (F : FTy → Type) [FloatOps F] where
  after : (V : Contents F) → (c : Dev nD) → (w : Fin cfg8.W) → Fin cfg8.N → (cfg8.win w).block.Idx → Elt F (cfg8.win w).elt
  hb : ∀ V c, BodyObligation (mkDat8 V c (after V c)) (defs₀ (F := F)) Variants.none () Set.univ
/-- The half's proof data. -/
def Half8.dat {F : FTy → Type} [FloatOps F] (H : Half8 F) (V : Contents F) (c : Dev nD) :
    Dat τ (Elt F) Unit ℕ (UR sig nD τ) ℕ cfg8 c := mkDat8 V c (H.after V c)

/-- Region 9's proof data from what the body leaves in each window's buffer: the arrays read off the entry contents, the
    class invariant, full shares, nothing owed. -/
def mkDat9 {F : FTy → Type} [FloatOps F] (V : Contents F) (c : Dev nD)
    (aft : (w : Fin cfg9.W) → Fin cfg9.N → (cfg9.win w).block.Idx → Elt F (cfg9.win w).elt) :
    Dat τ (Elt F) Unit ℕ (UR sig nD τ) ℕ cfg9 c where
  A w := V c (Pipeline.arrRef spec9 w)
  after := aft
  Φ _ := Pipeline.ΦA spec9 c
  q _ := fullShare
  owed _ := 0
/-- Region 9's half: what the body leaves, at any entry contents, and the body obligation of the proof data built from it. -/
structure Half9 (F : FTy → Type) [FloatOps F] where
  after : (V : Contents F) → (c : Dev nD) → (w : Fin cfg9.W) → Fin cfg9.N → (cfg9.win w).block.Idx → Elt F (cfg9.win w).elt
  hb : ∀ V c, BodyObligation (mkDat9 V c (after V c)) (defs₀ (F := F)) Variants.none () Set.univ
/-- The half's proof data. -/
def Half9.dat {F : FTy → Type} [FloatOps F] (H : Half9 F) (V : Contents F) (c : Dev nD) :
    Dat τ (Elt F) Unit ℕ (UR sig nD τ) ℕ cfg9 c := mkDat9 V c (H.after V c)

/-- Region 10's proof data from what the body leaves in each window's buffer: the arrays read off the entry contents, the
    class invariant, full shares, nothing owed. -/
def mkDat10 {F : FTy → Type} [FloatOps F] (V : Contents F) (c : Dev nD)
    (aft : (w : Fin cfg10.W) → Fin cfg10.N → (cfg10.win w).block.Idx → Elt F (cfg10.win w).elt) :
    Dat τ (Elt F) Unit ℕ (UR sig nD τ) ℕ cfg10 c where
  A w := V c (Pipeline.arrRef spec10 w)
  after := aft
  Φ _ := Pipeline.ΦA spec10 c
  q _ := fullShare
  owed _ := 0
/-- Region 10's half: what the body leaves, at any entry contents, and the body obligation of the proof data built from it. -/
structure Half10 (F : FTy → Type) [FloatOps F] where
  after : (V : Contents F) → (c : Dev nD) → (w : Fin cfg10.W) → Fin cfg10.N → (cfg10.win w).block.Idx → Elt F (cfg10.win w).elt
  hb : ∀ V c, BodyObligation (mkDat10 V c (after V c)) (defs₀ (F := F)) Variants.none () Set.univ
/-- The half's proof data. -/
def Half10.dat {F : FTy → Type} [FloatOps F] (H : Half10 F) (V : Contents F) (c : Dev nD) :
    Dat τ (Elt F) Unit ℕ (UR sig nD τ) ℕ cfg10 c := mkDat10 V c (H.after V c)

/-- Region 11's proof data from what the body leaves in each window's buffer: the arrays read off the entry contents, the
    class invariant, full shares, nothing owed. -/
def mkDat11 {F : FTy → Type} [FloatOps F] (V : Contents F) (c : Dev nD)
    (aft : (w : Fin cfg11.W) → Fin cfg11.N → (cfg11.win w).block.Idx → Elt F (cfg11.win w).elt) :
    Dat τ (Elt F) Unit ℕ (UR sig nD τ) ℕ cfg11 c where
  A w := V c (Pipeline.arrRef spec11 w)
  after := aft
  Φ _ := Pipeline.ΦA spec11 c
  q _ := fullShare
  owed _ := 0
/-- Region 11's half: what the body leaves, at any entry contents, and the body obligation of the proof data built from it. -/
structure Half11 (F : FTy → Type) [FloatOps F] where
  after : (V : Contents F) → (c : Dev nD) → (w : Fin cfg11.W) → Fin cfg11.N → (cfg11.win w).block.Idx → Elt F (cfg11.win w).elt
  hb : ∀ V c, BodyObligation (mkDat11 V c (after V c)) (defs₀ (F := F)) Variants.none () Set.univ
/-- The half's proof data. -/
def Half11.dat {F : FTy → Type} [FloatOps F] (H : Half11 F) (V : Contents F) (c : Dev nD) :
    Dat τ (Elt F) Unit ℕ (UR sig nD τ) ℕ cfg11 c := mkDat11 V c (H.after V c)

/-- A buffer that is none of a region's arrays is left alone when the region's arrays are replaced. -/
theorem withArrays_other {gr W : Nat} (win : Fin W → Pipeline.WinSpec sig gr) (c : Dev nD) (V : Valuation τ sig (Elt F))
    (A : (w : Fin W) → Buf (Elt F) ((win w).arr.view.loc (c.tc : Thread nD τ))) (b : DevRef τ sig)
    (hb : ¬ ∃ w, Proc.devRef .tc (Pipeline.arrRef win w) = b) : Pipeline.withArrays win c V A b = V b := by
  unfold Pipeline.withArrays
  rw [dif_neg hb]

variable (m : (ℓ : Loc nD τ sig) → Buf (Elt F) ℓ) (H0 : Half0 F) (H1 : Half1 F) (H2 : Half2 F) (H3 : Half3 F) (H4 : Half4 F) (H5 : Half5 F) (H6 : Half6 F) (H7 : Half7 F) (H8 : Half8 F) (H9 : Half9 F) (H10 : Half10 F) (H11 : Half11 F)

/-! ## The chain -/

/-- At launch, and after the first stretch. -/
abbrev W0 : Dev nD → Valuation τ sig (Elt F) := fun c b => m (c, b)
abbrev W1 : Dev nD → Valuation τ sig (Elt F) := fun c => StableHlo.after hostOps0 (W0 m c)
abbrev X1 : Contents F := fun c b => W1 m c b

/-- After region 0: its arrays at what its pipeline leaves, every other buffer as entered. -/
def W2 (c : Dev nD) : Valuation τ sig (Elt F) :=
  Pipeline.withArrays spec0 c (W1 m c) fun w => (H0.dat (X1 m) c).arrAt w cfg0.N
theorem W2_arr (c : Dev nD) (w : Fin cfg0.W) :
    W2 m H0 c (Proc.devRef .tc (Pipeline.arrRef spec0 w)) = (H0.dat (X1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m H0 c (Proc.devRef .tc b) = W1 m c (Proc.devRef .tc b) := by
  unfold W2; exact Pipeline.withArrays_of_ne spec0 c _ _ b hb
/-- An input array of region 0 holds after the region what it held before. -/
theorem W2_in (c : Dev nD) (w : Fin cfg0.W) (hw : (cfg0.win w).isOut = false) :
    W2 m H0 c (Proc.devRef .tc (Pipeline.arrRef spec0 w)) = W1 m c (Proc.devRef .tc (Pipeline.arrRef spec0 w)) :=
  (W2_arr m H0 c w).trans (((H0.dat (X1 m) c).arrAt_in w hw _).trans rfl)
abbrev X2 : Contents F := fun c b => W2 m H0 c b
theorem hF0 (c : Dev nD) (w : Fin cfg0.W) :
    (H0.dat (X1 m) c).arrAt w cfg0.N = X2 m H0 c (Pipeline.arrRef spec0 w) := (W2_arr m H0 c w).symm
theorem hrest0 (c : Dev nD) : ∀ b, b ∉ Finset.univ.image (Pipeline.arrRef spec0) → X2 m H0 c b = X1 m c b :=
  fun b hb => W2_of_ne m H0 c b fun w e => hb (Finset.mem_image.mpr ⟨w, Finset.mem_univ _, e⟩)
/-- After the stretch that follows region 0. -/
abbrev W3 : Dev nD → Valuation τ sig (Elt F) := fun c => StableHlo.after hostOps1 (W2 m H0 c)
abbrev X3 : Contents F := fun c b => W3 m H0 c b

/-- After region 1: its arrays at what its pipeline leaves, every other buffer as entered. -/
def W4 (c : Dev nD) : Valuation τ sig (Elt F) :=
  Pipeline.withArrays spec1 c (W3 m H0 c) fun w => (H1.dat (X3 m H0) c).arrAt w cfg1.N
theorem W4_arr (c : Dev nD) (w : Fin cfg1.W) :
    W4 m H0 H1 c (Proc.devRef .tc (Pipeline.arrRef spec1 w)) = (H1.dat (X3 m H0) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m H0 H1 c (Proc.devRef .tc b) = W3 m H0 c (Proc.devRef .tc b) := by
  unfold W4; exact Pipeline.withArrays_of_ne spec1 c _ _ b hb
/-- An input array of region 1 holds after the region what it held before. -/
theorem W4_in (c : Dev nD) (w : Fin cfg1.W) (hw : (cfg1.win w).isOut = false) :
    W4 m H0 H1 c (Proc.devRef .tc (Pipeline.arrRef spec1 w)) = W3 m H0 c (Proc.devRef .tc (Pipeline.arrRef spec1 w)) :=
  (W4_arr m H0 H1 c w).trans (((H1.dat (X3 m H0) c).arrAt_in w hw _).trans rfl)
abbrev X4 : Contents F := fun c b => W4 m H0 H1 c b
theorem hF1 (c : Dev nD) (w : Fin cfg1.W) :
    (H1.dat (X3 m H0) c).arrAt w cfg1.N = X4 m H0 H1 c (Pipeline.arrRef spec1 w) := (W4_arr m H0 H1 c w).symm
theorem hrest1 (c : Dev nD) : ∀ b, b ∉ Finset.univ.image (Pipeline.arrRef spec1) → X4 m H0 H1 c b = X3 m H0 c b :=
  fun b hb => W4_of_ne m H0 H1 c b fun w e => hb (Finset.mem_image.mpr ⟨w, Finset.mem_univ _, e⟩)
/-- After the stretch that follows region 1. -/
abbrev W5 : Dev nD → Valuation τ sig (Elt F) := fun c => StableHlo.after hostOps2 (W4 m H0 H1 c)
abbrev X5 : Contents F := fun c b => W5 m H0 H1 c b

/-- After region 2: its arrays at what its pipeline leaves, every other buffer as entered. -/
def W6 (c : Dev nD) : Valuation τ sig (Elt F) :=
  Pipeline.withArrays spec2 c (W5 m H0 H1 c) fun w => (H2.dat (X5 m H0 H1) c).arrAt w cfg2.N
theorem W6_arr (c : Dev nD) (w : Fin cfg2.W) :
    W6 m H0 H1 H2 c (Proc.devRef .tc (Pipeline.arrRef spec2 w)) = (H2.dat (X5 m H0 H1) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m H0 H1 H2 c (Proc.devRef .tc b) = W5 m H0 H1 c (Proc.devRef .tc b) := by
  unfold W6; exact Pipeline.withArrays_of_ne spec2 c _ _ b hb
/-- An input array of region 2 holds after the region what it held before. -/
theorem W6_in (c : Dev nD) (w : Fin cfg2.W) (hw : (cfg2.win w).isOut = false) :
    W6 m H0 H1 H2 c (Proc.devRef .tc (Pipeline.arrRef spec2 w)) = W5 m H0 H1 c (Proc.devRef .tc (Pipeline.arrRef spec2 w)) :=
  (W6_arr m H0 H1 H2 c w).trans (((H2.dat (X5 m H0 H1) c).arrAt_in w hw _).trans rfl)
abbrev X6 : Contents F := fun c b => W6 m H0 H1 H2 c b
theorem hF2 (c : Dev nD) (w : Fin cfg2.W) :
    (H2.dat (X5 m H0 H1) c).arrAt w cfg2.N = X6 m H0 H1 H2 c (Pipeline.arrRef spec2 w) := (W6_arr m H0 H1 H2 c w).symm
theorem hrest2 (c : Dev nD) : ∀ b, b ∉ Finset.univ.image (Pipeline.arrRef spec2) → X6 m H0 H1 H2 c b = X5 m H0 H1 c b :=
  fun b hb => W6_of_ne m H0 H1 H2 c b fun w e => hb (Finset.mem_image.mpr ⟨w, Finset.mem_univ _, e⟩)
/-- After the stretch that follows region 2. -/
abbrev W7 : Dev nD → Valuation τ sig (Elt F) := fun c => StableHlo.after hostOps3 (W6 m H0 H1 H2 c)
abbrev X7 : Contents F := fun c b => W7 m H0 H1 H2 c b

/-- After region 3: its arrays at what its pipeline leaves, every other buffer as entered. -/
def W8 (c : Dev nD) : Valuation τ sig (Elt F) :=
  Pipeline.withArrays spec3 c (W7 m H0 H1 H2 c) fun w => (H3.dat (X7 m H0 H1 H2) c).arrAt w cfg3.N
theorem W8_arr (c : Dev nD) (w : Fin cfg3.W) :
    W8 m H0 H1 H2 H3 c (Proc.devRef .tc (Pipeline.arrRef spec3 w)) = (H3.dat (X7 m H0 H1 H2) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m H0 H1 H2 H3 c (Proc.devRef .tc b) = W7 m H0 H1 H2 c (Proc.devRef .tc b) := by
  unfold W8; exact Pipeline.withArrays_of_ne spec3 c _ _ b hb
/-- An input array of region 3 holds after the region what it held before. -/
theorem W8_in (c : Dev nD) (w : Fin cfg3.W) (hw : (cfg3.win w).isOut = false) :
    W8 m H0 H1 H2 H3 c (Proc.devRef .tc (Pipeline.arrRef spec3 w)) = W7 m H0 H1 H2 c (Proc.devRef .tc (Pipeline.arrRef spec3 w)) :=
  (W8_arr m H0 H1 H2 H3 c w).trans (((H3.dat (X7 m H0 H1 H2) c).arrAt_in w hw _).trans rfl)
abbrev X8 : Contents F := fun c b => W8 m H0 H1 H2 H3 c b
theorem hF3 (c : Dev nD) (w : Fin cfg3.W) :
    (H3.dat (X7 m H0 H1 H2) c).arrAt w cfg3.N = X8 m H0 H1 H2 H3 c (Pipeline.arrRef spec3 w) := (W8_arr m H0 H1 H2 H3 c w).symm
theorem hrest3 (c : Dev nD) : ∀ b, b ∉ Finset.univ.image (Pipeline.arrRef spec3) → X8 m H0 H1 H2 H3 c b = X7 m H0 H1 H2 c b :=
  fun b hb => W8_of_ne m H0 H1 H2 H3 c b fun w e => hb (Finset.mem_image.mpr ⟨w, Finset.mem_univ _, e⟩)
/-- After the stretch that follows region 3. -/
abbrev W9 : Dev nD → Valuation τ sig (Elt F) := fun c => StableHlo.after hostOps4 (W8 m H0 H1 H2 H3 c)
abbrev X9 : Contents F := fun c b => W9 m H0 H1 H2 H3 c b

/-- After region 4: its arrays at what its pipeline leaves, every other buffer as entered. -/
def W10 (c : Dev nD) : Valuation τ sig (Elt F) :=
  Pipeline.withArrays spec4 c (W9 m H0 H1 H2 H3 c) fun w => (H4.dat (X9 m H0 H1 H2 H3) c).arrAt w cfg4.N
theorem W10_arr (c : Dev nD) (w : Fin cfg4.W) :
    W10 m H0 H1 H2 H3 H4 c (Proc.devRef .tc (Pipeline.arrRef spec4 w)) = (H4.dat (X9 m H0 H1 H2 H3) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m H0 H1 H2 H3 H4 c (Proc.devRef .tc b) = W9 m H0 H1 H2 H3 c (Proc.devRef .tc b) := by
  unfold W10; exact Pipeline.withArrays_of_ne spec4 c _ _ b hb
/-- An input array of region 4 holds after the region what it held before. -/
theorem W10_in (c : Dev nD) (w : Fin cfg4.W) (hw : (cfg4.win w).isOut = false) :
    W10 m H0 H1 H2 H3 H4 c (Proc.devRef .tc (Pipeline.arrRef spec4 w)) = W9 m H0 H1 H2 H3 c (Proc.devRef .tc (Pipeline.arrRef spec4 w)) :=
  (W10_arr m H0 H1 H2 H3 H4 c w).trans (((H4.dat (X9 m H0 H1 H2 H3) c).arrAt_in w hw _).trans rfl)
abbrev X10 : Contents F := fun c b => W10 m H0 H1 H2 H3 H4 c b
theorem hF4 (c : Dev nD) (w : Fin cfg4.W) :
    (H4.dat (X9 m H0 H1 H2 H3) c).arrAt w cfg4.N = X10 m H0 H1 H2 H3 H4 c (Pipeline.arrRef spec4 w) := (W10_arr m H0 H1 H2 H3 H4 c w).symm
theorem hrest4 (c : Dev nD) : ∀ b, b ∉ Finset.univ.image (Pipeline.arrRef spec4) → X10 m H0 H1 H2 H3 H4 c b = X9 m H0 H1 H2 H3 c b :=
  fun b hb => W10_of_ne m H0 H1 H2 H3 H4 c b fun w e => hb (Finset.mem_image.mpr ⟨w, Finset.mem_univ _, e⟩)
/-- After the stretch that follows region 4. -/
abbrev W11 : Dev nD → Valuation τ sig (Elt F) := fun c => StableHlo.after hostOps5 (W10 m H0 H1 H2 H3 H4 c)
abbrev X11 : Contents F := fun c b => W11 m H0 H1 H2 H3 H4 c b

/-- After region 5: its arrays at what its pipeline leaves, every other buffer as entered. -/
def W12 (c : Dev nD) : Valuation τ sig (Elt F) :=
  Pipeline.withArrays spec5 c (W11 m H0 H1 H2 H3 H4 c) fun w => (H5.dat (X11 m H0 H1 H2 H3 H4) c).arrAt w cfg5.N
theorem W12_arr (c : Dev nD) (w : Fin cfg5.W) :
    W12 m H0 H1 H2 H3 H4 H5 c (Proc.devRef .tc (Pipeline.arrRef spec5 w)) = (H5.dat (X11 m H0 H1 H2 H3 H4) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m H0 H1 H2 H3 H4 H5 c (Proc.devRef .tc b) = W11 m H0 H1 H2 H3 H4 c (Proc.devRef .tc b) := by
  unfold W12; exact Pipeline.withArrays_of_ne spec5 c _ _ b hb
/-- An input array of region 5 holds after the region what it held before. -/
theorem W12_in (c : Dev nD) (w : Fin cfg5.W) (hw : (cfg5.win w).isOut = false) :
    W12 m H0 H1 H2 H3 H4 H5 c (Proc.devRef .tc (Pipeline.arrRef spec5 w)) = W11 m H0 H1 H2 H3 H4 c (Proc.devRef .tc (Pipeline.arrRef spec5 w)) :=
  (W12_arr m H0 H1 H2 H3 H4 H5 c w).trans (((H5.dat (X11 m H0 H1 H2 H3 H4) c).arrAt_in w hw _).trans rfl)
abbrev X12 : Contents F := fun c b => W12 m H0 H1 H2 H3 H4 H5 c b
theorem hF5 (c : Dev nD) (w : Fin cfg5.W) :
    (H5.dat (X11 m H0 H1 H2 H3 H4) c).arrAt w cfg5.N = X12 m H0 H1 H2 H3 H4 H5 c (Pipeline.arrRef spec5 w) := (W12_arr m H0 H1 H2 H3 H4 H5 c w).symm
theorem hrest5 (c : Dev nD) : ∀ b, b ∉ Finset.univ.image (Pipeline.arrRef spec5) → X12 m H0 H1 H2 H3 H4 H5 c b = X11 m H0 H1 H2 H3 H4 c b :=
  fun b hb => W12_of_ne m H0 H1 H2 H3 H4 H5 c b fun w e => hb (Finset.mem_image.mpr ⟨w, Finset.mem_univ _, e⟩)
/-- After the stretch that follows region 5. -/
abbrev W13 : Dev nD → Valuation τ sig (Elt F) := fun c => StableHlo.after hostOps6 (W12 m H0 H1 H2 H3 H4 H5 c)
abbrev X13 : Contents F := fun c b => W13 m H0 H1 H2 H3 H4 H5 c b

/-- After region 6: its arrays at what its pipeline leaves, every other buffer as entered. -/
def W14 (c : Dev nD) : Valuation τ sig (Elt F) :=
  Pipeline.withArrays spec6 c (W13 m H0 H1 H2 H3 H4 H5 c) fun w => (H6.dat (X13 m H0 H1 H2 H3 H4 H5) c).arrAt w cfg6.N
theorem W14_arr (c : Dev nD) (w : Fin cfg6.W) :
    W14 m H0 H1 H2 H3 H4 H5 H6 c (Proc.devRef .tc (Pipeline.arrRef spec6 w)) = (H6.dat (X13 m H0 H1 H2 H3 H4 H5) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m H0 H1 H2 H3 H4 H5 H6 c (Proc.devRef .tc b) = W13 m H0 H1 H2 H3 H4 H5 c (Proc.devRef .tc b) := by
  unfold W14; exact Pipeline.withArrays_of_ne spec6 c _ _ b hb
/-- An input array of region 6 holds after the region what it held before. -/
theorem W14_in (c : Dev nD) (w : Fin cfg6.W) (hw : (cfg6.win w).isOut = false) :
    W14 m H0 H1 H2 H3 H4 H5 H6 c (Proc.devRef .tc (Pipeline.arrRef spec6 w)) = W13 m H0 H1 H2 H3 H4 H5 c (Proc.devRef .tc (Pipeline.arrRef spec6 w)) :=
  (W14_arr m H0 H1 H2 H3 H4 H5 H6 c w).trans (((H6.dat (X13 m H0 H1 H2 H3 H4 H5) c).arrAt_in w hw _).trans rfl)
abbrev X14 : Contents F := fun c b => W14 m H0 H1 H2 H3 H4 H5 H6 c b
theorem hF6 (c : Dev nD) (w : Fin cfg6.W) :
    (H6.dat (X13 m H0 H1 H2 H3 H4 H5) c).arrAt w cfg6.N = X14 m H0 H1 H2 H3 H4 H5 H6 c (Pipeline.arrRef spec6 w) := (W14_arr m H0 H1 H2 H3 H4 H5 H6 c w).symm
theorem hrest6 (c : Dev nD) : ∀ b, b ∉ Finset.univ.image (Pipeline.arrRef spec6) → X14 m H0 H1 H2 H3 H4 H5 H6 c b = X13 m H0 H1 H2 H3 H4 H5 c b :=
  fun b hb => W14_of_ne m H0 H1 H2 H3 H4 H5 H6 c b fun w e => hb (Finset.mem_image.mpr ⟨w, Finset.mem_univ _, e⟩)
/-- After the stretch that follows region 6. -/
abbrev W15 : Dev nD → Valuation τ sig (Elt F) := fun c => StableHlo.after hostOps7 (W14 m H0 H1 H2 H3 H4 H5 H6 c)
abbrev X15 : Contents F := fun c b => W15 m H0 H1 H2 H3 H4 H5 H6 c b

/-- After region 7: its arrays at what its pipeline leaves, every other buffer as entered. -/
def W16 (c : Dev nD) : Valuation τ sig (Elt F) :=
  Pipeline.withArrays spec7 c (W15 m H0 H1 H2 H3 H4 H5 H6 c) fun w => (H7.dat (X15 m H0 H1 H2 H3 H4 H5 H6) c).arrAt w cfg7.N
theorem W16_arr (c : Dev nD) (w : Fin cfg7.W) :
    W16 m H0 H1 H2 H3 H4 H5 H6 H7 c (Proc.devRef .tc (Pipeline.arrRef spec7 w)) = (H7.dat (X15 m H0 H1 H2 H3 H4 H5 H6) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m H0 H1 H2 H3 H4 H5 H6 H7 c (Proc.devRef .tc b) = W15 m H0 H1 H2 H3 H4 H5 H6 c (Proc.devRef .tc b) := by
  unfold W16; exact Pipeline.withArrays_of_ne spec7 c _ _ b hb
/-- An input array of region 7 holds after the region what it held before. -/
theorem W16_in (c : Dev nD) (w : Fin cfg7.W) (hw : (cfg7.win w).isOut = false) :
    W16 m H0 H1 H2 H3 H4 H5 H6 H7 c (Proc.devRef .tc (Pipeline.arrRef spec7 w)) = W15 m H0 H1 H2 H3 H4 H5 H6 c (Proc.devRef .tc (Pipeline.arrRef spec7 w)) :=
  (W16_arr m H0 H1 H2 H3 H4 H5 H6 H7 c w).trans (((H7.dat (X15 m H0 H1 H2 H3 H4 H5 H6) c).arrAt_in w hw _).trans rfl)
abbrev X16 : Contents F := fun c b => W16 m H0 H1 H2 H3 H4 H5 H6 H7 c b
theorem hF7 (c : Dev nD) (w : Fin cfg7.W) :
    (H7.dat (X15 m H0 H1 H2 H3 H4 H5 H6) c).arrAt w cfg7.N = X16 m H0 H1 H2 H3 H4 H5 H6 H7 c (Pipeline.arrRef spec7 w) := (W16_arr m H0 H1 H2 H3 H4 H5 H6 H7 c w).symm
theorem hrest7 (c : Dev nD) : ∀ b, b ∉ Finset.univ.image (Pipeline.arrRef spec7) → X16 m H0 H1 H2 H3 H4 H5 H6 H7 c b = X15 m H0 H1 H2 H3 H4 H5 H6 c b :=
  fun b hb => W16_of_ne m H0 H1 H2 H3 H4 H5 H6 H7 c b fun w e => hb (Finset.mem_image.mpr ⟨w, Finset.mem_univ _, e⟩)
/-- After the stretch that follows region 7. -/
abbrev W17 : Dev nD → Valuation τ sig (Elt F) := fun c => StableHlo.after hostOps8 (W16 m H0 H1 H2 H3 H4 H5 H6 H7 c)
abbrev X17 : Contents F := fun c b => W17 m H0 H1 H2 H3 H4 H5 H6 H7 c b

/-- After region 8: its arrays at what its pipeline leaves, every other buffer as entered. -/
def W18 (c : Dev nD) : Valuation τ sig (Elt F) :=
  Pipeline.withArrays spec8 c (W17 m H0 H1 H2 H3 H4 H5 H6 H7 c) fun w => (H8.dat (X17 m H0 H1 H2 H3 H4 H5 H6 H7) c).arrAt w cfg8.N
theorem W18_arr (c : Dev nD) (w : Fin cfg8.W) :
    W18 m H0 H1 H2 H3 H4 H5 H6 H7 H8 c (Proc.devRef .tc (Pipeline.arrRef spec8 w)) = (H8.dat (X17 m H0 H1 H2 H3 H4 H5 H6 H7) c).arrAt w cfg8.N := by
  unfold W18; exact Pipeline.withArrays_arr spec8 launch8.win.arr_inj c _ _ w
theorem W18_of_ne (c : Dev nD) (b : Ref sig .tc) (hb : ∀ w, Pipeline.arrRef spec8 w ≠ b) :
    W18 m H0 H1 H2 H3 H4 H5 H6 H7 H8 c (Proc.devRef .tc b) = W17 m H0 H1 H2 H3 H4 H5 H6 H7 c (Proc.devRef .tc b) := by
  unfold W18; exact Pipeline.withArrays_of_ne spec8 c _ _ b hb
/-- An input array of region 8 holds after the region what it held before. -/
theorem W18_in (c : Dev nD) (w : Fin cfg8.W) (hw : (cfg8.win w).isOut = false) :
    W18 m H0 H1 H2 H3 H4 H5 H6 H7 H8 c (Proc.devRef .tc (Pipeline.arrRef spec8 w)) = W17 m H0 H1 H2 H3 H4 H5 H6 H7 c (Proc.devRef .tc (Pipeline.arrRef spec8 w)) :=
  (W18_arr m H0 H1 H2 H3 H4 H5 H6 H7 H8 c w).trans (((H8.dat (X17 m H0 H1 H2 H3 H4 H5 H6 H7) c).arrAt_in w hw _).trans rfl)
abbrev X18 : Contents F := fun c b => W18 m H0 H1 H2 H3 H4 H5 H6 H7 H8 c b
theorem hF8 (c : Dev nD) (w : Fin cfg8.W) :
    (H8.dat (X17 m H0 H1 H2 H3 H4 H5 H6 H7) c).arrAt w cfg8.N = X18 m H0 H1 H2 H3 H4 H5 H6 H7 H8 c (Pipeline.arrRef spec8 w) := (W18_arr m H0 H1 H2 H3 H4 H5 H6 H7 H8 c w).symm
theorem hrest8 (c : Dev nD) : ∀ b, b ∉ Finset.univ.image (Pipeline.arrRef spec8) → X18 m H0 H1 H2 H3 H4 H5 H6 H7 H8 c b = X17 m H0 H1 H2 H3 H4 H5 H6 H7 c b :=
  fun b hb => W18_of_ne m H0 H1 H2 H3 H4 H5 H6 H7 H8 c b fun w e => hb (Finset.mem_image.mpr ⟨w, Finset.mem_univ _, e⟩)
/-- After the stretch that follows region 8. -/
abbrev W19 : Dev nD → Valuation τ sig (Elt F) := fun c => StableHlo.after hostOps9 (W18 m H0 H1 H2 H3 H4 H5 H6 H7 H8 c)
abbrev X19 : Contents F := fun c b => W19 m H0 H1 H2 H3 H4 H5 H6 H7 H8 c b

/-- After region 9: its arrays at what its pipeline leaves, every other buffer as entered. -/
def W20 (c : Dev nD) : Valuation τ sig (Elt F) :=
  Pipeline.withArrays spec9 c (W19 m H0 H1 H2 H3 H4 H5 H6 H7 H8 c) fun w => (H9.dat (X19 m H0 H1 H2 H3 H4 H5 H6 H7 H8) c).arrAt w cfg9.N
theorem W20_arr (c : Dev nD) (w : Fin cfg9.W) :
    W20 m H0 H1 H2 H3 H4 H5 H6 H7 H8 H9 c (Proc.devRef .tc (Pipeline.arrRef spec9 w)) = (H9.dat (X19 m H0 H1 H2 H3 H4 H5 H6 H7 H8) c).arrAt w cfg9.N := by
  unfold W20; exact Pipeline.withArrays_arr spec9 launch9.win.arr_inj c _ _ w
theorem W20_of_ne (c : Dev nD) (b : Ref sig .tc) (hb : ∀ w, Pipeline.arrRef spec9 w ≠ b) :
    W20 m H0 H1 H2 H3 H4 H5 H6 H7 H8 H9 c (Proc.devRef .tc b) = W19 m H0 H1 H2 H3 H4 H5 H6 H7 H8 c (Proc.devRef .tc b) := by
  unfold W20; exact Pipeline.withArrays_of_ne spec9 c _ _ b hb
/-- An input array of region 9 holds after the region what it held before. -/
theorem W20_in (c : Dev nD) (w : Fin cfg9.W) (hw : (cfg9.win w).isOut = false) :
    W20 m H0 H1 H2 H3 H4 H5 H6 H7 H8 H9 c (Proc.devRef .tc (Pipeline.arrRef spec9 w)) = W19 m H0 H1 H2 H3 H4 H5 H6 H7 H8 c (Proc.devRef .tc (Pipeline.arrRef spec9 w)) :=
  (W20_arr m H0 H1 H2 H3 H4 H5 H6 H7 H8 H9 c w).trans (((H9.dat (X19 m H0 H1 H2 H3 H4 H5 H6 H7 H8) c).arrAt_in w hw _).trans rfl)
abbrev X20 : Contents F := fun c b => W20 m H0 H1 H2 H3 H4 H5 H6 H7 H8 H9 c b
theorem hF9 (c : Dev nD) (w : Fin cfg9.W) :
    (H9.dat (X19 m H0 H1 H2 H3 H4 H5 H6 H7 H8) c).arrAt w cfg9.N = X20 m H0 H1 H2 H3 H4 H5 H6 H7 H8 H9 c (Pipeline.arrRef spec9 w) := (W20_arr m H0 H1 H2 H3 H4 H5 H6 H7 H8 H9 c w).symm
theorem hrest9 (c : Dev nD) : ∀ b, b ∉ Finset.univ.image (Pipeline.arrRef spec9) → X20 m H0 H1 H2 H3 H4 H5 H6 H7 H8 H9 c b = X19 m H0 H1 H2 H3 H4 H5 H6 H7 H8 c b :=
  fun b hb => W20_of_ne m H0 H1 H2 H3 H4 H5 H6 H7 H8 H9 c b fun w e => hb (Finset.mem_image.mpr ⟨w, Finset.mem_univ _, e⟩)
/-- After the stretch that follows region 9. -/
abbrev W21 : Dev nD → Valuation τ sig (Elt F) := fun c => StableHlo.after hostOps10 (W20 m H0 H1 H2 H3 H4 H5 H6 H7 H8 H9 c)
abbrev X21 : Contents F := fun c b => W21 m H0 H1 H2 H3 H4 H5 H6 H7 H8 H9 c b

/-- After region 10: its arrays at what its pipeline leaves, every other buffer as entered. -/
def W22 (c : Dev nD) : Valuation τ sig (Elt F) :=
  Pipeline.withArrays spec10 c (W21 m H0 H1 H2 H3 H4 H5 H6 H7 H8 H9 c) fun w => (H10.dat (X21 m H0 H1 H2 H3 H4 H5 H6 H7 H8 H9) c).arrAt w cfg10.N
theorem W22_arr (c : Dev nD) (w : Fin cfg10.W) :
    W22 m H0 H1 H2 H3 H4 H5 H6 H7 H8 H9 H10 c (Proc.devRef .tc (Pipeline.arrRef spec10 w)) = (H10.dat (X21 m H0 H1 H2 H3 H4 H5 H6 H7 H8 H9) c).arrAt w cfg10.N := by
  unfold W22; exact Pipeline.withArrays_arr spec10 launch10.win.arr_inj c _ _ w
theorem W22_of_ne (c : Dev nD) (b : Ref sig .tc) (hb : ∀ w, Pipeline.arrRef spec10 w ≠ b) :
    W22 m H0 H1 H2 H3 H4 H5 H6 H7 H8 H9 H10 c (Proc.devRef .tc b) = W21 m H0 H1 H2 H3 H4 H5 H6 H7 H8 H9 c (Proc.devRef .tc b) := by
  unfold W22; exact Pipeline.withArrays_of_ne spec10 c _ _ b hb
/-- An input array of region 10 holds after the region what it held before. -/
theorem W22_in (c : Dev nD) (w : Fin cfg10.W) (hw : (cfg10.win w).isOut = false) :
    W22 m H0 H1 H2 H3 H4 H5 H6 H7 H8 H9 H10 c (Proc.devRef .tc (Pipeline.arrRef spec10 w)) = W21 m H0 H1 H2 H3 H4 H5 H6 H7 H8 H9 c (Proc.devRef .tc (Pipeline.arrRef spec10 w)) :=
  (W22_arr m H0 H1 H2 H3 H4 H5 H6 H7 H8 H9 H10 c w).trans (((H10.dat (X21 m H0 H1 H2 H3 H4 H5 H6 H7 H8 H9) c).arrAt_in w hw _).trans rfl)
abbrev X22 : Contents F := fun c b => W22 m H0 H1 H2 H3 H4 H5 H6 H7 H8 H9 H10 c b
theorem hF10 (c : Dev nD) (w : Fin cfg10.W) :
    (H10.dat (X21 m H0 H1 H2 H3 H4 H5 H6 H7 H8 H9) c).arrAt w cfg10.N = X22 m H0 H1 H2 H3 H4 H5 H6 H7 H8 H9 H10 c (Pipeline.arrRef spec10 w) := (W22_arr m H0 H1 H2 H3 H4 H5 H6 H7 H8 H9 H10 c w).symm
theorem hrest10 (c : Dev nD) : ∀ b, b ∉ Finset.univ.image (Pipeline.arrRef spec10) → X22 m H0 H1 H2 H3 H4 H5 H6 H7 H8 H9 H10 c b = X21 m H0 H1 H2 H3 H4 H5 H6 H7 H8 H9 c b :=
  fun b hb => W22_of_ne m H0 H1 H2 H3 H4 H5 H6 H7 H8 H9 H10 c b fun w e => hb (Finset.mem_image.mpr ⟨w, Finset.mem_univ _, e⟩)
/-- After the stretch that follows region 10. -/
abbrev W23 : Dev nD → Valuation τ sig (Elt F) := fun c => StableHlo.after hostOps11 (W22 m H0 H1 H2 H3 H4 H5 H6 H7 H8 H9 H10 c)
abbrev X23 : Contents F := fun c b => W23 m H0 H1 H2 H3 H4 H5 H6 H7 H8 H9 H10 c b

/-- After region 11: its arrays at what its pipeline leaves, every other buffer as entered. -/
def W24 (c : Dev nD) : Valuation τ sig (Elt F) :=
  Pipeline.withArrays spec11 c (W23 m H0 H1 H2 H3 H4 H5 H6 H7 H8 H9 H10 c) fun w => (H11.dat (X23 m H0 H1 H2 H3 H4 H5 H6 H7 H8 H9 H10) c).arrAt w cfg11.N
theorem W24_arr (c : Dev nD) (w : Fin cfg11.W) :
    W24 m H0 H1 H2 H3 H4 H5 H6 H7 H8 H9 H10 H11 c (Proc.devRef .tc (Pipeline.arrRef spec11 w)) = (H11.dat (X23 m H0 H1 H2 H3 H4 H5 H6 H7 H8 H9 H10) c).arrAt w cfg11.N := by
  unfold W24; exact Pipeline.withArrays_arr spec11 launch11.win.arr_inj c _ _ w
theorem W24_of_ne (c : Dev nD) (b : Ref sig .tc) (hb : ∀ w, Pipeline.arrRef spec11 w ≠ b) :
    W24 m H0 H1 H2 H3 H4 H5 H6 H7 H8 H9 H10 H11 c (Proc.devRef .tc b) = W23 m H0 H1 H2 H3 H4 H5 H6 H7 H8 H9 H10 c (Proc.devRef .tc b) := by
  unfold W24; exact Pipeline.withArrays_of_ne spec11 c _ _ b hb
/-- An input array of region 11 holds after the region what it held before. -/
theorem W24_in (c : Dev nD) (w : Fin cfg11.W) (hw : (cfg11.win w).isOut = false) :
    W24 m H0 H1 H2 H3 H4 H5 H6 H7 H8 H9 H10 H11 c (Proc.devRef .tc (Pipeline.arrRef spec11 w)) = W23 m H0 H1 H2 H3 H4 H5 H6 H7 H8 H9 H10 c (Proc.devRef .tc (Pipeline.arrRef spec11 w)) :=
  (W24_arr m H0 H1 H2 H3 H4 H5 H6 H7 H8 H9 H10 H11 c w).trans (((H11.dat (X23 m H0 H1 H2 H3 H4 H5 H6 H7 H8 H9 H10) c).arrAt_in w hw _).trans rfl)
abbrev X24 : Contents F := fun c b => W24 m H0 H1 H2 H3 H4 H5 H6 H7 H8 H9 H10 H11 c b
theorem hF11 (c : Dev nD) (w : Fin cfg11.W) :
    (H11.dat (X23 m H0 H1 H2 H3 H4 H5 H6 H7 H8 H9 H10) c).arrAt w cfg11.N = X24 m H0 H1 H2 H3 H4 H5 H6 H7 H8 H9 H10 H11 c (Pipeline.arrRef spec11 w) := (W24_arr m H0 H1 H2 H3 H4 H5 H6 H7 H8 H9 H10 H11 c w).symm
theorem hrest11 (c : Dev nD) : ∀ b, b ∉ Finset.univ.image (Pipeline.arrRef spec11) → X24 m H0 H1 H2 H3 H4 H5 H6 H7 H8 H9 H10 H11 c b = X23 m H0 H1 H2 H3 H4 H5 H6 H7 H8 H9 H10 c b :=
  fun b hb => W24_of_ne m H0 H1 H2 H3 H4 H5 H6 H7 H8 H9 H10 H11 c b fun w e => hb (Finset.mem_image.mpr ⟨w, Finset.mem_univ _, e⟩)
/-- After the stretch that follows region 11. -/
abbrev W25 : Dev nD → Valuation τ sig (Elt F) := fun c => StableHlo.after hostOps12 (W24 m H0 H1 H2 H3 H4 H5 H6 H7 H8 H9 H10 H11 c)
abbrev X25 : Contents F := fun c b => W25 m H0 H1 H2 H3 H4 H5 H6 H7 H8 H9 H10 H11 c b

/-! ## What the regions leave, and the generated valuations -/

/-- What a region may leave in a buffer it may change: the chain's contents after the region. -/
def outs : Gen.Outs (F := F) := fun J r c =>
  match J with
  | 2 => W2 m H0 c r
  | 4 => W4 m H0 H1 c r
  | 6 => W6 m H0 H1 H2 c r
  | 8 => W8 m H0 H1 H2 H3 c r
  | 10 => W10 m H0 H1 H2 H3 H4 c r
  | 12 => W12 m H0 H1 H2 H3 H4 H5 c r
  | 14 => W14 m H0 H1 H2 H3 H4 H5 H6 c r
  | 16 => W16 m H0 H1 H2 H3 H4 H5 H6 H7 c r
  | 18 => W18 m H0 H1 H2 H3 H4 H5 H6 H7 H8 c r
  | 20 => W20 m H0 H1 H2 H3 H4 H5 H6 H7 H8 H9 c r
  | 22 => W22 m H0 H1 H2 H3 H4 H5 H6 H7 H8 H9 H10 c r
  | 24 => W24 m H0 H1 H2 H3 H4 H5 H6 H7 H8 H9 H10 H11 c r
  | _ => W0 m c r

theorem V1_eq (c : Dev nD) : Gen.V1 m c = W1 m c := rfl

set_option maxHeartbeats 1000000 in
/-- The generated valuation after region 0 is the chain's. -/
theorem V2_eq (c : Dev nD) : Gen.V2 m (outs m H0 H1 H2 H3 H4 H5 H6 H7 H8 H9 H10 H11) c = W2 m H0 c := by
  funext b
  show (Function.update (Gen.V1 m c) (Proc.devRef .tc main_v5) (outs m H0 H1 H2 H3 H4 H5 H6 H7 H8 H9 H10 H11 2 main_v5 c)) b = _
  rw [V1_eq m c]
  by_cases hb : ∃ w, Proc.devRef .tc (Pipeline.arrRef spec0 w) = b
  · obtain ⟨w, rfl⟩ := hb
    fin_cases w
    · -- window 0: the input array main_arg1
      rw [Function.update_of_ne (StableHlo.devRef_ne_of_ne (by decide))]
      exact (W2_in m H0 c ⟨0, by decide⟩ rfl).symm
    · -- window 1: the input array main_arg5
      rw [Function.update_of_ne (StableHlo.devRef_ne_of_ne (by decide))]
      exact (W2_in m H0 c ⟨1, by decide⟩ rfl).symm
    · -- window 2: the input array main_v4
      rw [Function.update_of_ne (StableHlo.devRef_ne_of_ne (by decide))]
      exact (W2_in m H0 c ⟨2, by decide⟩ rfl).symm
    · -- window 3: the output array main_v5
      rw [Function.update_self]
      rfl
  · rw [Function.update_of_ne (fun h => hb ⟨⟨3, by decide⟩, h.symm⟩)]
    exact (withArrays_other spec0 c _ _ b hb).symm
theorem V3_eq (c : Dev nD) : Gen.V3 m (outs m H0 H1 H2 H3 H4 H5 H6 H7 H8 H9 H10 H11) c = W3 m H0 c := by
  show StableHlo.after hostOps1 (Gen.V2 m (outs m H0 H1 H2 H3 H4 H5 H6 H7 H8 H9 H10 H11) c) = _
  rw [V2_eq m H0 H1 H2 H3 H4 H5 H6 H7 H8 H9 H10 H11 c]

set_option maxHeartbeats 1000000 in
/-- The generated valuation after region 1 is the chain's. -/
theorem V4_eq (c : Dev nD) : Gen.V4 m (outs m H0 H1 H2 H3 H4 H5 H6 H7 H8 H9 H10 H11) c = W4 m H0 H1 c := by
  funext b
  show (Function.update (Gen.V3 m (outs m H0 H1 H2 H3 H4 H5 H6 H7 H8 H9 H10 H11) c) (Proc.devRef .tc main_v24) (outs m H0 H1 H2 H3 H4 H5 H6 H7 H8 H9 H10 H11 4 main_v24 c)) b = _
  rw [V3_eq m H0 H1 H2 H3 H4 H5 H6 H7 H8 H9 H10 H11 c]
  by_cases hb : ∃ w, Proc.devRef .tc (Pipeline.arrRef spec1 w) = b
  · obtain ⟨w, rfl⟩ := hb
    fin_cases w
    · -- window 0: the input array main_v22
      rw [Function.update_of_ne (StableHlo.devRef_ne_of_ne (by decide))]
      exact (W4_in m H0 H1 c ⟨0, by decide⟩ rfl).symm
    · -- window 1: the input array main_arg7
      rw [Function.update_of_ne (StableHlo.devRef_ne_of_ne (by decide))]
      exact (W4_in m H0 H1 c ⟨1, by decide⟩ rfl).symm
    · -- window 2: the input array main_v16
      rw [Function.update_of_ne (StableHlo.devRef_ne_of_ne (by decide))]
      exact (W4_in m H0 H1 c ⟨2, by decide⟩ rfl).symm
    · -- window 3: the input array main_v23
      rw [Function.update_of_ne (StableHlo.devRef_ne_of_ne (by decide))]
      exact (W4_in m H0 H1 c ⟨3, by decide⟩ rfl).symm
    · -- window 4: the input array main_v12
      rw [Function.update_of_ne (StableHlo.devRef_ne_of_ne (by decide))]
      exact (W4_in m H0 H1 c ⟨4, by decide⟩ rfl).symm
    · -- window 5: the output array main_v24
      rw [Function.update_self]
      rfl
  · rw [Function.update_of_ne (fun h => hb ⟨⟨5, by decide⟩, h.symm⟩)]
    exact (withArrays_other spec1 c _ _ b hb).symm
theorem V5_eq (c : Dev nD) : Gen.V5 m (outs m H0 H1 H2 H3 H4 H5 H6 H7 H8 H9 H10 H11) c = W5 m H0 H1 c := by
  show StableHlo.after hostOps2 (Gen.V4 m (outs m H0 H1 H2 H3 H4 H5 H6 H7 H8 H9 H10 H11) c) = _
  rw [V4_eq m H0 H1 H2 H3 H4 H5 H6 H7 H8 H9 H10 H11 c]

set_option maxHeartbeats 1000000 in
/-- The generated valuation after region 2 is the chain's. -/
theorem V6_eq (c : Dev nD) : Gen.V6 m (outs m H0 H1 H2 H3 H4 H5 H6 H7 H8 H9 H10 H11) c = W6 m H0 H1 H2 c := by
  funext b
  show (Function.update (Function.update (Function.update (Gen.V5 m (outs m H0 H1 H2 H3 H4 H5 H6 H7 H8 H9 H10 H11) c) (Proc.devRef .tc main_v49_0) (outs m H0 H1 H2 H3 H4 H5 H6 H7 H8 H9 H10 H11 6 main_v49_0 c)) (Proc.devRef .tc main_v49_1) (outs m H0 H1 H2 H3 H4 H5 H6 H7 H8 H9 H10 H11 6 main_v49_1 c)) (Proc.devRef .tc main_v49_2) (outs m H0 H1 H2 H3 H4 H5 H6 H7 H8 H9 H10 H11 6 main_v49_2 c)) b = _
  rw [V5_eq m H0 H1 H2 H3 H4 H5 H6 H7 H8 H9 H10 H11 c]
  by_cases hb : ∃ w, Proc.devRef .tc (Pipeline.arrRef spec2 w) = b
  · obtain ⟨w, rfl⟩ := hb
    fin_cases w
    · -- window 0: the input array main_v41
      rw [Function.update_of_ne (StableHlo.devRef_ne_of_ne (by decide)), Function.update_of_ne (StableHlo.devRef_ne_of_ne (by decide)), Function.update_of_ne (StableHlo.devRef_ne_of_ne (by decide))]
      exact (W6_in m H0 H1 H2 c ⟨0, by decide⟩ rfl).symm
    · -- window 1: the input array main_v5
      rw [Function.update_of_ne (StableHlo.devRef_ne_of_ne (by decide)), Function.update_of_ne (StableHlo.devRef_ne_of_ne (by decide)), Function.update_of_ne (StableHlo.devRef_ne_of_ne (by decide))]
      exact (W6_in m H0 H1 H2 c ⟨1, by decide⟩ rfl).symm
    · -- window 2: the input array main_v43
      rw [Function.update_of_ne (StableHlo.devRef_ne_of_ne (by decide)), Function.update_of_ne (StableHlo.devRef_ne_of_ne (by decide)), Function.update_of_ne (StableHlo.devRef_ne_of_ne (by decide))]
      exact (W6_in m H0 H1 H2 c ⟨2, by decide⟩ rfl).symm
    · -- window 3: the input array main_v45
      rw [Function.update_of_ne (StableHlo.devRef_ne_of_ne (by decide)), Function.update_of_ne (StableHlo.devRef_ne_of_ne (by decide)), Function.update_of_ne (StableHlo.devRef_ne_of_ne (by decide))]
      exact (W6_in m H0 H1 H2 c ⟨3, by decide⟩ rfl).symm
    · -- window 4: the input array main_v48
      rw [Function.update_of_ne (StableHlo.devRef_ne_of_ne (by decide)), Function.update_of_ne (StableHlo.devRef_ne_of_ne (by decide)), Function.update_of_ne (StableHlo.devRef_ne_of_ne (by decide))]
      exact (W6_in m H0 H1 H2 c ⟨4, by decide⟩ rfl).symm
    · -- window 5: the output array main_v49_0
      rw [Function.update_of_ne (StableHlo.devRef_ne_of_ne (by decide)), Function.update_of_ne (StableHlo.devRef_ne_of_ne (by decide)), Function.update_self]
      rfl
    · -- window 6: the output array main_v49_1
      rw [Function.update_of_ne (StableHlo.devRef_ne_of_ne (by decide)), Function.update_self]
      rfl
    · -- window 7: the output array main_v49_2
      rw [Function.update_self]
      rfl
  · rw [Function.update_of_ne (fun h => hb ⟨⟨7, by decide⟩, h.symm⟩), Function.update_of_ne (fun h => hb ⟨⟨6, by decide⟩, h.symm⟩), Function.update_of_ne (fun h => hb ⟨⟨5, by decide⟩, h.symm⟩)]
    exact (withArrays_other spec2 c _ _ b hb).symm
theorem V7_eq (c : Dev nD) : Gen.V7 m (outs m H0 H1 H2 H3 H4 H5 H6 H7 H8 H9 H10 H11) c = W7 m H0 H1 H2 c := by
  show StableHlo.after hostOps3 (Gen.V6 m (outs m H0 H1 H2 H3 H4 H5 H6 H7 H8 H9 H10 H11) c) = _
  rw [V6_eq m H0 H1 H2 H3 H4 H5 H6 H7 H8 H9 H10 H11 c]

set_option maxHeartbeats 1000000 in
/-- The generated valuation after region 3 is the chain's. -/
theorem V8_eq (c : Dev nD) : Gen.V8 m (outs m H0 H1 H2 H3 H4 H5 H6 H7 H8 H9 H10 H11) c = W8 m H0 H1 H2 H3 c := by
  funext b
  show (Function.update (Function.update (Gen.V7 m (outs m H0 H1 H2 H3 H4 H5 H6 H7 H8 H9 H10 H11) c) (Proc.devRef .tc main_v62_0) (outs m H0 H1 H2 H3 H4 H5 H6 H7 H8 H9 H10 H11 8 main_v62_0 c)) (Proc.devRef .tc main_v62_1) (outs m H0 H1 H2 H3 H4 H5 H6 H7 H8 H9 H10 H11 8 main_v62_1 c)) b = _
  rw [V7_eq m H0 H1 H2 H3 H4 H5 H6 H7 H8 H9 H10 H11 c]
  by_cases hb : ∃ w, Proc.devRef .tc (Pipeline.arrRef spec3 w) = b
  · obtain ⟨w, rfl⟩ := hb
    fin_cases w
    · -- window 0: the input array main_v49_0
      rw [Function.update_of_ne (StableHlo.devRef_ne_of_ne (by decide)), Function.update_of_ne (StableHlo.devRef_ne_of_ne (by decide))]
      exact (W8_in m H0 H1 H2 H3 c ⟨0, by decide⟩ rfl).symm
    · -- window 1: the input array main_v51
      rw [Function.update_of_ne (StableHlo.devRef_ne_of_ne (by decide)), Function.update_of_ne (StableHlo.devRef_ne_of_ne (by decide))]
      exact (W8_in m H0 H1 H2 H3 c ⟨1, by decide⟩ rfl).symm
    · -- window 2: the input array main_v55
      rw [Function.update_of_ne (StableHlo.devRef_ne_of_ne (by decide)), Function.update_of_ne (StableHlo.devRef_ne_of_ne (by decide))]
      exact (W8_in m H0 H1 H2 H3 c ⟨2, by decide⟩ rfl).symm
    · -- window 3: the input array main_v60
      rw [Function.update_of_ne (StableHlo.devRef_ne_of_ne (by decide)), Function.update_of_ne (StableHlo.devRef_ne_of_ne (by decide))]
      exact (W8_in m H0 H1 H2 H3 c ⟨3, by decide⟩ rfl).symm
    · -- window 4: the input array main_v61
      rw [Function.update_of_ne (StableHlo.devRef_ne_of_ne (by decide)), Function.update_of_ne (StableHlo.devRef_ne_of_ne (by decide))]
      exact (W8_in m H0 H1 H2 H3 c ⟨4, by decide⟩ rfl).symm
    · -- window 5: the input array main_v25
      rw [Function.update_of_ne (StableHlo.devRef_ne_of_ne (by decide)), Function.update_of_ne (StableHlo.devRef_ne_of_ne (by decide))]
      exact (W8_in m H0 H1 H2 H3 c ⟨5, by decide⟩ rfl).symm
    · -- window 6: the output array main_v62_0
      rw [Function.update_of_ne (StableHlo.devRef_ne_of_ne (by decide)), Function.update_self]
      rfl
    · -- window 7: the output array main_v62_1
      rw [Function.update_self]
      rfl
  · rw [Function.update_of_ne (fun h => hb ⟨⟨7, by decide⟩, h.symm⟩), Function.update_of_ne (fun h => hb ⟨⟨6, by decide⟩, h.symm⟩)]
    exact (withArrays_other spec3 c _ _ b hb).symm
theorem V9_eq (c : Dev nD) : Gen.V9 m (outs m H0 H1 H2 H3 H4 H5 H6 H7 H8 H9 H10 H11) c = W9 m H0 H1 H2 H3 c := by
  show StableHlo.after hostOps4 (Gen.V8 m (outs m H0 H1 H2 H3 H4 H5 H6 H7 H8 H9 H10 H11) c) = _
  rw [V8_eq m H0 H1 H2 H3 H4 H5 H6 H7 H8 H9 H10 H11 c]

set_option maxHeartbeats 1000000 in
/-- The generated valuation after region 4 is the chain's. -/
theorem V10_eq (c : Dev nD) : Gen.V10 m (outs m H0 H1 H2 H3 H4 H5 H6 H7 H8 H9 H10 H11) c = W10 m H0 H1 H2 H3 H4 c := by
  funext b
  show (Function.update (Function.update (Function.update (Gen.V9 m (outs m H0 H1 H2 H3 H4 H5 H6 H7 H8 H9 H10 H11) c) (Proc.devRef .tc main_v86_0) (outs m H0 H1 H2 H3 H4 H5 H6 H7 H8 H9 H10 H11 10 main_v86_0 c)) (Proc.devRef .tc main_v86_1) (outs m H0 H1 H2 H3 H4 H5 H6 H7 H8 H9 H10 H11 10 main_v86_1 c)) (Proc.devRef .tc main_v86_2) (outs m H0 H1 H2 H3 H4 H5 H6 H7 H8 H9 H10 H11 10 main_v86_2 c)) b = _
  rw [V9_eq m H0 H1 H2 H3 H4 H5 H6 H7 H8 H9 H10 H11 c]
  by_cases hb : ∃ w, Proc.devRef .tc (Pipeline.arrRef spec4 w) = b
  · obtain ⟨w, rfl⟩ := hb
    fin_cases w
    · -- window 0: the input array main_v78
      rw [Function.update_of_ne (StableHlo.devRef_ne_of_ne (by decide)), Function.update_of_ne (StableHlo.devRef_ne_of_ne (by decide)), Function.update_of_ne (StableHlo.devRef_ne_of_ne (by decide))]
      exact (W10_in m H0 H1 H2 H3 H4 c ⟨0, by decide⟩ rfl).symm
    · -- window 1: the input array main_v62_0
      rw [Function.update_of_ne (StableHlo.devRef_ne_of_ne (by decide)), Function.update_of_ne (StableHlo.devRef_ne_of_ne (by decide)), Function.update_of_ne (StableHlo.devRef_ne_of_ne (by decide))]
      exact (W10_in m H0 H1 H2 H3 H4 c ⟨1, by decide⟩ rfl).symm
    · -- window 2: the input array main_v80
      rw [Function.update_of_ne (StableHlo.devRef_ne_of_ne (by decide)), Function.update_of_ne (StableHlo.devRef_ne_of_ne (by decide)), Function.update_of_ne (StableHlo.devRef_ne_of_ne (by decide))]
      exact (W10_in m H0 H1 H2 H3 H4 c ⟨2, by decide⟩ rfl).symm
    · -- window 3: the input array main_v82
      rw [Function.update_of_ne (StableHlo.devRef_ne_of_ne (by decide)), Function.update_of_ne (StableHlo.devRef_ne_of_ne (by decide)), Function.update_of_ne (StableHlo.devRef_ne_of_ne (by decide))]
      exact (W10_in m H0 H1 H2 H3 H4 c ⟨3, by decide⟩ rfl).symm
    · -- window 4: the input array main_v85
      rw [Function.update_of_ne (StableHlo.devRef_ne_of_ne (by decide)), Function.update_of_ne (StableHlo.devRef_ne_of_ne (by decide)), Function.update_of_ne (StableHlo.devRef_ne_of_ne (by decide))]
      exact (W10_in m H0 H1 H2 H3 H4 c ⟨4, by decide⟩ rfl).symm
    · -- window 5: the output array main_v86_0
      rw [Function.update_of_ne (StableHlo.devRef_ne_of_ne (by decide)), Function.update_of_ne (StableHlo.devRef_ne_of_ne (by decide)), Function.update_self]
      rfl
    · -- window 6: the output array main_v86_1
      rw [Function.update_of_ne (StableHlo.devRef_ne_of_ne (by decide)), Function.update_self]
      rfl
    · -- window 7: the output array main_v86_2
      rw [Function.update_self]
      rfl
  · rw [Function.update_of_ne (fun h => hb ⟨⟨7, by decide⟩, h.symm⟩), Function.update_of_ne (fun h => hb ⟨⟨6, by decide⟩, h.symm⟩), Function.update_of_ne (fun h => hb ⟨⟨5, by decide⟩, h.symm⟩)]
    exact (withArrays_other spec4 c _ _ b hb).symm
theorem V11_eq (c : Dev nD) : Gen.V11 m (outs m H0 H1 H2 H3 H4 H5 H6 H7 H8 H9 H10 H11) c = W11 m H0 H1 H2 H3 H4 c := by
  show StableHlo.after hostOps5 (Gen.V10 m (outs m H0 H1 H2 H3 H4 H5 H6 H7 H8 H9 H10 H11) c) = _
  rw [V10_eq m H0 H1 H2 H3 H4 H5 H6 H7 H8 H9 H10 H11 c]

set_option maxHeartbeats 1000000 in
/-- The generated valuation after region 5 is the chain's. -/
theorem V12_eq (c : Dev nD) : Gen.V12 m (outs m H0 H1 H2 H3 H4 H5 H6 H7 H8 H9 H10 H11) c = W12 m H0 H1 H2 H3 H4 H5 c := by
  funext b
  show (Function.update (Function.update (Gen.V11 m (outs m H0 H1 H2 H3 H4 H5 H6 H7 H8 H9 H10 H11) c) (Proc.devRef .tc main_v99_0) (outs m H0 H1 H2 H3 H4 H5 H6 H7 H8 H9 H10 H11 12 main_v99_0 c)) (Proc.devRef .tc main_v99_1) (outs m H0 H1 H2 H3 H4 H5 H6 H7 H8 H9 H10 H11 12 main_v99_1 c)) b = _
  rw [V11_eq m H0 H1 H2 H3 H4 H5 H6 H7 H8 H9 H10 H11 c]
  by_cases hb : ∃ w, Proc.devRef .tc (Pipeline.arrRef spec5 w) = b
  · obtain ⟨w, rfl⟩ := hb
    fin_cases w
    · -- window 0: the input array main_v86_0
      rw [Function.update_of_ne (StableHlo.devRef_ne_of_ne (by decide)), Function.update_of_ne (StableHlo.devRef_ne_of_ne (by decide))]
      exact (W12_in m H0 H1 H2 H3 H4 H5 c ⟨0, by decide⟩ rfl).symm
    · -- window 1: the input array main_v88
      rw [Function.update_of_ne (StableHlo.devRef_ne_of_ne (by decide)), Function.update_of_ne (StableHlo.devRef_ne_of_ne (by decide))]
      exact (W12_in m H0 H1 H2 H3 H4 H5 c ⟨1, by decide⟩ rfl).symm
    · -- window 2: the input array main_v92
      rw [Function.update_of_ne (StableHlo.devRef_ne_of_ne (by decide)), Function.update_of_ne (StableHlo.devRef_ne_of_ne (by decide))]
      exact (W12_in m H0 H1 H2 H3 H4 H5 c ⟨2, by decide⟩ rfl).symm
    · -- window 3: the input array main_v97
      rw [Function.update_of_ne (StableHlo.devRef_ne_of_ne (by decide)), Function.update_of_ne (StableHlo.devRef_ne_of_ne (by decide))]
      exact (W12_in m H0 H1 H2 H3 H4 H5 c ⟨3, by decide⟩ rfl).symm
    · -- window 4: the input array main_v98
      rw [Function.update_of_ne (StableHlo.devRef_ne_of_ne (by decide)), Function.update_of_ne (StableHlo.devRef_ne_of_ne (by decide))]
      exact (W12_in m H0 H1 H2 H3 H4 H5 c ⟨4, by decide⟩ rfl).symm
    · -- window 5: the input array main_v25
      rw [Function.update_of_ne (StableHlo.devRef_ne_of_ne (by decide)), Function.update_of_ne (StableHlo.devRef_ne_of_ne (by decide))]
      exact (W12_in m H0 H1 H2 H3 H4 H5 c ⟨5, by decide⟩ rfl).symm
    · -- window 6: the output array main_v99_0
      rw [Function.update_of_ne (StableHlo.devRef_ne_of_ne (by decide)), Function.update_self]
      rfl
    · -- window 7: the output array main_v99_1
      rw [Function.update_self]
      rfl
  · rw [Function.update_of_ne (fun h => hb ⟨⟨7, by decide⟩, h.symm⟩), Function.update_of_ne (fun h => hb ⟨⟨6, by decide⟩, h.symm⟩)]
    exact (withArrays_other spec5 c _ _ b hb).symm
theorem V13_eq (c : Dev nD) : Gen.V13 m (outs m H0 H1 H2 H3 H4 H5 H6 H7 H8 H9 H10 H11) c = W13 m H0 H1 H2 H3 H4 H5 c := by
  show StableHlo.after hostOps6 (Gen.V12 m (outs m H0 H1 H2 H3 H4 H5 H6 H7 H8 H9 H10 H11) c) = _
  rw [V12_eq m H0 H1 H2 H3 H4 H5 H6 H7 H8 H9 H10 H11 c]

set_option maxHeartbeats 1000000 in
/-- The generated valuation after region 6 is the chain's. -/
theorem V14_eq (c : Dev nD) : Gen.V14 m (outs m H0 H1 H2 H3 H4 H5 H6 H7 H8 H9 H10 H11) c = W14 m H0 H1 H2 H3 H4 H5 H6 c := by
  funext b
  show (Function.update (Function.update (Function.update (Gen.V13 m (outs m H0 H1 H2 H3 H4 H5 H6 H7 H8 H9 H10 H11) c) (Proc.devRef .tc main_v123_0) (outs m H0 H1 H2 H3 H4 H5 H6 H7 H8 H9 H10 H11 14 main_v123_0 c)) (Proc.devRef .tc main_v123_1) (outs m H0 H1 H2 H3 H4 H5 H6 H7 H8 H9 H10 H11 14 main_v123_1 c)) (Proc.devRef .tc main_v123_2) (outs m H0 H1 H2 H3 H4 H5 H6 H7 H8 H9 H10 H11 14 main_v123_2 c)) b = _
  rw [V13_eq m H0 H1 H2 H3 H4 H5 H6 H7 H8 H9 H10 H11 c]
  by_cases hb : ∃ w, Proc.devRef .tc (Pipeline.arrRef spec6 w) = b
  · obtain ⟨w, rfl⟩ := hb
    fin_cases w
    · -- window 0: the input array main_v115
      rw [Function.update_of_ne (StableHlo.devRef_ne_of_ne (by decide)), Function.update_of_ne (StableHlo.devRef_ne_of_ne (by decide)), Function.update_of_ne (StableHlo.devRef_ne_of_ne (by decide))]
      exact (W14_in m H0 H1 H2 H3 H4 H5 H6 c ⟨0, by decide⟩ rfl).symm
    · -- window 1: the input array main_v99_0
      rw [Function.update_of_ne (StableHlo.devRef_ne_of_ne (by decide)), Function.update_of_ne (StableHlo.devRef_ne_of_ne (by decide)), Function.update_of_ne (StableHlo.devRef_ne_of_ne (by decide))]
      exact (W14_in m H0 H1 H2 H3 H4 H5 H6 c ⟨1, by decide⟩ rfl).symm
    · -- window 2: the input array main_v117
      rw [Function.update_of_ne (StableHlo.devRef_ne_of_ne (by decide)), Function.update_of_ne (StableHlo.devRef_ne_of_ne (by decide)), Function.update_of_ne (StableHlo.devRef_ne_of_ne (by decide))]
      exact (W14_in m H0 H1 H2 H3 H4 H5 H6 c ⟨2, by decide⟩ rfl).symm
    · -- window 3: the input array main_v119
      rw [Function.update_of_ne (StableHlo.devRef_ne_of_ne (by decide)), Function.update_of_ne (StableHlo.devRef_ne_of_ne (by decide)), Function.update_of_ne (StableHlo.devRef_ne_of_ne (by decide))]
      exact (W14_in m H0 H1 H2 H3 H4 H5 H6 c ⟨3, by decide⟩ rfl).symm
    · -- window 4: the input array main_v122
      rw [Function.update_of_ne (StableHlo.devRef_ne_of_ne (by decide)), Function.update_of_ne (StableHlo.devRef_ne_of_ne (by decide)), Function.update_of_ne (StableHlo.devRef_ne_of_ne (by decide))]
      exact (W14_in m H0 H1 H2 H3 H4 H5 H6 c ⟨4, by decide⟩ rfl).symm
    · -- window 5: the output array main_v123_0
      rw [Function.update_of_ne (StableHlo.devRef_ne_of_ne (by decide)), Function.update_of_ne (StableHlo.devRef_ne_of_ne (by decide)), Function.update_self]
      rfl
    · -- window 6: the output array main_v123_1
      rw [Function.update_of_ne (StableHlo.devRef_ne_of_ne (by decide)), Function.update_self]
      rfl
    · -- window 7: the output array main_v123_2
      rw [Function.update_self]
      rfl
  · rw [Function.update_of_ne (fun h => hb ⟨⟨7, by decide⟩, h.symm⟩), Function.update_of_ne (fun h => hb ⟨⟨6, by decide⟩, h.symm⟩), Function.update_of_ne (fun h => hb ⟨⟨5, by decide⟩, h.symm⟩)]
    exact (withArrays_other spec6 c _ _ b hb).symm
theorem V15_eq (c : Dev nD) : Gen.V15 m (outs m H0 H1 H2 H3 H4 H5 H6 H7 H8 H9 H10 H11) c = W15 m H0 H1 H2 H3 H4 H5 H6 c := by
  show StableHlo.after hostOps7 (Gen.V14 m (outs m H0 H1 H2 H3 H4 H5 H6 H7 H8 H9 H10 H11) c) = _
  rw [V14_eq m H0 H1 H2 H3 H4 H5 H6 H7 H8 H9 H10 H11 c]

set_option maxHeartbeats 1000000 in
/-- The generated valuation after region 7 is the chain's. -/
theorem V16_eq (c : Dev nD) : Gen.V16 m (outs m H0 H1 H2 H3 H4 H5 H6 H7 H8 H9 H10 H11) c = W16 m H0 H1 H2 H3 H4 H5 H6 H7 c := by
  funext b
  show (Function.update (Function.update (Gen.V15 m (outs m H0 H1 H2 H3 H4 H5 H6 H7 H8 H9 H10 H11) c) (Proc.devRef .tc main_v136_0) (outs m H0 H1 H2 H3 H4 H5 H6 H7 H8 H9 H10 H11 16 main_v136_0 c)) (Proc.devRef .tc main_v136_1) (outs m H0 H1 H2 H3 H4 H5 H6 H7 H8 H9 H10 H11 16 main_v136_1 c)) b = _
  rw [V15_eq m H0 H1 H2 H3 H4 H5 H6 H7 H8 H9 H10 H11 c]
  by_cases hb : ∃ w, Proc.devRef .tc (Pipeline.arrRef spec7 w) = b
  · obtain ⟨w, rfl⟩ := hb
    fin_cases w
    · -- window 0: the input array main_v123_0
      rw [Function.update_of_ne (StableHlo.devRef_ne_of_ne (by decide)), Function.update_of_ne (StableHlo.devRef_ne_of_ne (by decide))]
      exact (W16_in m H0 H1 H2 H3 H4 H5 H6 H7 c ⟨0, by decide⟩ rfl).symm
    · -- window 1: the input array main_v125
      rw [Function.update_of_ne (StableHlo.devRef_ne_of_ne (by decide)), Function.update_of_ne (StableHlo.devRef_ne_of_ne (by decide))]
      exact (W16_in m H0 H1 H2 H3 H4 H5 H6 H7 c ⟨1, by decide⟩ rfl).symm
    · -- window 2: the input array main_v129
      rw [Function.update_of_ne (StableHlo.devRef_ne_of_ne (by decide)), Function.update_of_ne (StableHlo.devRef_ne_of_ne (by decide))]
      exact (W16_in m H0 H1 H2 H3 H4 H5 H6 H7 c ⟨2, by decide⟩ rfl).symm
    · -- window 3: the input array main_v134
      rw [Function.update_of_ne (StableHlo.devRef_ne_of_ne (by decide)), Function.update_of_ne (StableHlo.devRef_ne_of_ne (by decide))]
      exact (W16_in m H0 H1 H2 H3 H4 H5 H6 H7 c ⟨3, by decide⟩ rfl).symm
    · -- window 4: the input array main_v135
      rw [Function.update_of_ne (StableHlo.devRef_ne_of_ne (by decide)), Function.update_of_ne (StableHlo.devRef_ne_of_ne (by decide))]
      exact (W16_in m H0 H1 H2 H3 H4 H5 H6 H7 c ⟨4, by decide⟩ rfl).symm
    · -- window 5: the input array main_v25
      rw [Function.update_of_ne (StableHlo.devRef_ne_of_ne (by decide)), Function.update_of_ne (StableHlo.devRef_ne_of_ne (by decide))]
      exact (W16_in m H0 H1 H2 H3 H4 H5 H6 H7 c ⟨5, by decide⟩ rfl).symm
    · -- window 6: the output array main_v136_0
      rw [Function.update_of_ne (StableHlo.devRef_ne_of_ne (by decide)), Function.update_self]
      rfl
    · -- window 7: the output array main_v136_1
      rw [Function.update_self]
      rfl
  · rw [Function.update_of_ne (fun h => hb ⟨⟨7, by decide⟩, h.symm⟩), Function.update_of_ne (fun h => hb ⟨⟨6, by decide⟩, h.symm⟩)]
    exact (withArrays_other spec7 c _ _ b hb).symm
theorem V17_eq (c : Dev nD) : Gen.V17 m (outs m H0 H1 H2 H3 H4 H5 H6 H7 H8 H9 H10 H11) c = W17 m H0 H1 H2 H3 H4 H5 H6 H7 c := by
  show StableHlo.after hostOps8 (Gen.V16 m (outs m H0 H1 H2 H3 H4 H5 H6 H7 H8 H9 H10 H11) c) = _
  rw [V16_eq m H0 H1 H2 H3 H4 H5 H6 H7 H8 H9 H10 H11 c]

set_option maxHeartbeats 1000000 in
/-- The generated valuation after region 8 is the chain's. -/
theorem V18_eq (c : Dev nD) : Gen.V18 m (outs m H0 H1 H2 H3 H4 H5 H6 H7 H8 H9 H10 H11) c = W18 m H0 H1 H2 H3 H4 H5 H6 H7 H8 c := by
  funext b
  show (Function.update (Function.update (Function.update (Gen.V17 m (outs m H0 H1 H2 H3 H4 H5 H6 H7 H8 H9 H10 H11) c) (Proc.devRef .tc main_v160_0) (outs m H0 H1 H2 H3 H4 H5 H6 H7 H8 H9 H10 H11 18 main_v160_0 c)) (Proc.devRef .tc main_v160_1) (outs m H0 H1 H2 H3 H4 H5 H6 H7 H8 H9 H10 H11 18 main_v160_1 c)) (Proc.devRef .tc main_v160_2) (outs m H0 H1 H2 H3 H4 H5 H6 H7 H8 H9 H10 H11 18 main_v160_2 c)) b = _
  rw [V17_eq m H0 H1 H2 H3 H4 H5 H6 H7 H8 H9 H10 H11 c]
  by_cases hb : ∃ w, Proc.devRef .tc (Pipeline.arrRef spec8 w) = b
  · obtain ⟨w, rfl⟩ := hb
    fin_cases w
    · -- window 0: the input array main_v152
      rw [Function.update_of_ne (StableHlo.devRef_ne_of_ne (by decide)), Function.update_of_ne (StableHlo.devRef_ne_of_ne (by decide)), Function.update_of_ne (StableHlo.devRef_ne_of_ne (by decide))]
      exact (W18_in m H0 H1 H2 H3 H4 H5 H6 H7 H8 c ⟨0, by decide⟩ rfl).symm
    · -- window 1: the input array main_v136_0
      rw [Function.update_of_ne (StableHlo.devRef_ne_of_ne (by decide)), Function.update_of_ne (StableHlo.devRef_ne_of_ne (by decide)), Function.update_of_ne (StableHlo.devRef_ne_of_ne (by decide))]
      exact (W18_in m H0 H1 H2 H3 H4 H5 H6 H7 H8 c ⟨1, by decide⟩ rfl).symm
    · -- window 2: the input array main_v154
      rw [Function.update_of_ne (StableHlo.devRef_ne_of_ne (by decide)), Function.update_of_ne (StableHlo.devRef_ne_of_ne (by decide)), Function.update_of_ne (StableHlo.devRef_ne_of_ne (by decide))]
      exact (W18_in m H0 H1 H2 H3 H4 H5 H6 H7 H8 c ⟨2, by decide⟩ rfl).symm
    · -- window 3: the input array main_v156
      rw [Function.update_of_ne (StableHlo.devRef_ne_of_ne (by decide)), Function.update_of_ne (StableHlo.devRef_ne_of_ne (by decide)), Function.update_of_ne (StableHlo.devRef_ne_of_ne (by decide))]
      exact (W18_in m H0 H1 H2 H3 H4 H5 H6 H7 H8 c ⟨3, by decide⟩ rfl).symm
    · -- window 4: the input array main_v159
      rw [Function.update_of_ne (StableHlo.devRef_ne_of_ne (by decide)), Function.update_of_ne (StableHlo.devRef_ne_of_ne (by decide)), Function.update_of_ne (StableHlo.devRef_ne_of_ne (by decide))]
      exact (W18_in m H0 H1 H2 H3 H4 H5 H6 H7 H8 c ⟨4, by decide⟩ rfl).symm
    · -- window 5: the output array main_v160_0
      rw [Function.update_of_ne (StableHlo.devRef_ne_of_ne (by decide)), Function.update_of_ne (StableHlo.devRef_ne_of_ne (by decide)), Function.update_self]
      rfl
    · -- window 6: the output array main_v160_1
      rw [Function.update_of_ne (StableHlo.devRef_ne_of_ne (by decide)), Function.update_self]
      rfl
    · -- window 7: the output array main_v160_2
      rw [Function.update_self]
      rfl
  · rw [Function.update_of_ne (fun h => hb ⟨⟨7, by decide⟩, h.symm⟩), Function.update_of_ne (fun h => hb ⟨⟨6, by decide⟩, h.symm⟩), Function.update_of_ne (fun h => hb ⟨⟨5, by decide⟩, h.symm⟩)]
    exact (withArrays_other spec8 c _ _ b hb).symm
theorem V19_eq (c : Dev nD) : Gen.V19 m (outs m H0 H1 H2 H3 H4 H5 H6 H7 H8 H9 H10 H11) c = W19 m H0 H1 H2 H3 H4 H5 H6 H7 H8 c := by
  show StableHlo.after hostOps9 (Gen.V18 m (outs m H0 H1 H2 H3 H4 H5 H6 H7 H8 H9 H10 H11) c) = _
  rw [V18_eq m H0 H1 H2 H3 H4 H5 H6 H7 H8 H9 H10 H11 c]

set_option maxHeartbeats 1000000 in
/-- The generated valuation after region 9 is the chain's. -/
theorem V20_eq (c : Dev nD) : Gen.V20 m (outs m H0 H1 H2 H3 H4 H5 H6 H7 H8 H9 H10 H11) c = W20 m H0 H1 H2 H3 H4 H5 H6 H7 H8 H9 c := by
  funext b
  show (Function.update (Function.update (Gen.V19 m (outs m H0 H1 H2 H3 H4 H5 H6 H7 H8 H9 H10 H11) c) (Proc.devRef .tc main_v173_0) (outs m H0 H1 H2 H3 H4 H5 H6 H7 H8 H9 H10 H11 20 main_v173_0 c)) (Proc.devRef .tc main_v173_1) (outs m H0 H1 H2 H3 H4 H5 H6 H7 H8 H9 H10 H11 20 main_v173_1 c)) b = _
  rw [V19_eq m H0 H1 H2 H3 H4 H5 H6 H7 H8 H9 H10 H11 c]
  by_cases hb : ∃ w, Proc.devRef .tc (Pipeline.arrRef spec9 w) = b
  · obtain ⟨w, rfl⟩ := hb
    fin_cases w
    · -- window 0: the input array main_v160_0
      rw [Function.update_of_ne (StableHlo.devRef_ne_of_ne (by decide)), Function.update_of_ne (StableHlo.devRef_ne_of_ne (by decide))]
      exact (W20_in m H0 H1 H2 H3 H4 H5 H6 H7 H8 H9 c ⟨0, by decide⟩ rfl).symm
    · -- window 1: the input array main_v162
      rw [Function.update_of_ne (StableHlo.devRef_ne_of_ne (by decide)), Function.update_of_ne (StableHlo.devRef_ne_of_ne (by decide))]
      exact (W20_in m H0 H1 H2 H3 H4 H5 H6 H7 H8 H9 c ⟨1, by decide⟩ rfl).symm
    · -- window 2: the input array main_v166
      rw [Function.update_of_ne (StableHlo.devRef_ne_of_ne (by decide)), Function.update_of_ne (StableHlo.devRef_ne_of_ne (by decide))]
      exact (W20_in m H0 H1 H2 H3 H4 H5 H6 H7 H8 H9 c ⟨2, by decide⟩ rfl).symm
    · -- window 3: the input array main_v171
      rw [Function.update_of_ne (StableHlo.devRef_ne_of_ne (by decide)), Function.update_of_ne (StableHlo.devRef_ne_of_ne (by decide))]
      exact (W20_in m H0 H1 H2 H3 H4 H5 H6 H7 H8 H9 c ⟨3, by decide⟩ rfl).symm
    · -- window 4: the input array main_v172
      rw [Function.update_of_ne (StableHlo.devRef_ne_of_ne (by decide)), Function.update_of_ne (StableHlo.devRef_ne_of_ne (by decide))]
      exact (W20_in m H0 H1 H2 H3 H4 H5 H6 H7 H8 H9 c ⟨4, by decide⟩ rfl).symm
    · -- window 5: the input array main_v25
      rw [Function.update_of_ne (StableHlo.devRef_ne_of_ne (by decide)), Function.update_of_ne (StableHlo.devRef_ne_of_ne (by decide))]
      exact (W20_in m H0 H1 H2 H3 H4 H5 H6 H7 H8 H9 c ⟨5, by decide⟩ rfl).symm
    · -- window 6: the output array main_v173_0
      rw [Function.update_of_ne (StableHlo.devRef_ne_of_ne (by decide)), Function.update_self]
      rfl
    · -- window 7: the output array main_v173_1
      rw [Function.update_self]
      rfl
  · rw [Function.update_of_ne (fun h => hb ⟨⟨7, by decide⟩, h.symm⟩), Function.update_of_ne (fun h => hb ⟨⟨6, by decide⟩, h.symm⟩)]
    exact (withArrays_other spec9 c _ _ b hb).symm
theorem V21_eq (c : Dev nD) : Gen.V21 m (outs m H0 H1 H2 H3 H4 H5 H6 H7 H8 H9 H10 H11) c = W21 m H0 H1 H2 H3 H4 H5 H6 H7 H8 H9 c := by
  show StableHlo.after hostOps10 (Gen.V20 m (outs m H0 H1 H2 H3 H4 H5 H6 H7 H8 H9 H10 H11) c) = _
  rw [V20_eq m H0 H1 H2 H3 H4 H5 H6 H7 H8 H9 H10 H11 c]

set_option maxHeartbeats 1000000 in
/-- The generated valuation after region 10 is the chain's. -/
theorem V22_eq (c : Dev nD) : Gen.V22 m (outs m H0 H1 H2 H3 H4 H5 H6 H7 H8 H9 H10 H11) c = W22 m H0 H1 H2 H3 H4 H5 H6 H7 H8 H9 H10 c := by
  funext b
  show (Function.update (Function.update (Function.update (Gen.V21 m (outs m H0 H1 H2 H3 H4 H5 H6 H7 H8 H9 H10 H11) c) (Proc.devRef .tc main_v197_0) (outs m H0 H1 H2 H3 H4 H5 H6 H7 H8 H9 H10 H11 22 main_v197_0 c)) (Proc.devRef .tc main_v197_1) (outs m H0 H1 H2 H3 H4 H5 H6 H7 H8 H9 H10 H11 22 main_v197_1 c)) (Proc.devRef .tc main_v197_2) (outs m H0 H1 H2 H3 H4 H5 H6 H7 H8 H9 H10 H11 22 main_v197_2 c)) b = _
  rw [V21_eq m H0 H1 H2 H3 H4 H5 H6 H7 H8 H9 H10 H11 c]
  by_cases hb : ∃ w, Proc.devRef .tc (Pipeline.arrRef spec10 w) = b
  · obtain ⟨w, rfl⟩ := hb
    fin_cases w
    · -- window 0: the input array main_v189
      rw [Function.update_of_ne (StableHlo.devRef_ne_of_ne (by decide)), Function.update_of_ne (StableHlo.devRef_ne_of_ne (by decide)), Function.update_of_ne (StableHlo.devRef_ne_of_ne (by decide))]
      exact (W22_in m H0 H1 H2 H3 H4 H5 H6 H7 H8 H9 H10 c ⟨0, by decide⟩ rfl).symm
    · -- window 1: the input array main_v173_0
      rw [Function.update_of_ne (StableHlo.devRef_ne_of_ne (by decide)), Function.update_of_ne (StableHlo.devRef_ne_of_ne (by decide)), Function.update_of_ne (StableHlo.devRef_ne_of_ne (by decide))]
      exact (W22_in m H0 H1 H2 H3 H4 H5 H6 H7 H8 H9 H10 c ⟨1, by decide⟩ rfl).symm
    · -- window 2: the input array main_v191
      rw [Function.update_of_ne (StableHlo.devRef_ne_of_ne (by decide)), Function.update_of_ne (StableHlo.devRef_ne_of_ne (by decide)), Function.update_of_ne (StableHlo.devRef_ne_of_ne (by decide))]
      exact (W22_in m H0 H1 H2 H3 H4 H5 H6 H7 H8 H9 H10 c ⟨2, by decide⟩ rfl).symm
    · -- window 3: the input array main_v193
      rw [Function.update_of_ne (StableHlo.devRef_ne_of_ne (by decide)), Function.update_of_ne (StableHlo.devRef_ne_of_ne (by decide)), Function.update_of_ne (StableHlo.devRef_ne_of_ne (by decide))]
      exact (W22_in m H0 H1 H2 H3 H4 H5 H6 H7 H8 H9 H10 c ⟨3, by decide⟩ rfl).symm
    · -- window 4: the input array main_v196
      rw [Function.update_of_ne (StableHlo.devRef_ne_of_ne (by decide)), Function.update_of_ne (StableHlo.devRef_ne_of_ne (by decide)), Function.update_of_ne (StableHlo.devRef_ne_of_ne (by decide))]
      exact (W22_in m H0 H1 H2 H3 H4 H5 H6 H7 H8 H9 H10 c ⟨4, by decide⟩ rfl).symm
    · -- window 5: the output array main_v197_0
      rw [Function.update_of_ne (StableHlo.devRef_ne_of_ne (by decide)), Function.update_of_ne (StableHlo.devRef_ne_of_ne (by decide)), Function.update_self]
      rfl
    · -- window 6: the output array main_v197_1
      rw [Function.update_of_ne (StableHlo.devRef_ne_of_ne (by decide)), Function.update_self]
      rfl
    · -- window 7: the output array main_v197_2
      rw [Function.update_self]
      rfl
  · rw [Function.update_of_ne (fun h => hb ⟨⟨7, by decide⟩, h.symm⟩), Function.update_of_ne (fun h => hb ⟨⟨6, by decide⟩, h.symm⟩), Function.update_of_ne (fun h => hb ⟨⟨5, by decide⟩, h.symm⟩)]
    exact (withArrays_other spec10 c _ _ b hb).symm
theorem V23_eq (c : Dev nD) : Gen.V23 m (outs m H0 H1 H2 H3 H4 H5 H6 H7 H8 H9 H10 H11) c = W23 m H0 H1 H2 H3 H4 H5 H6 H7 H8 H9 H10 c := by
  show StableHlo.after hostOps11 (Gen.V22 m (outs m H0 H1 H2 H3 H4 H5 H6 H7 H8 H9 H10 H11) c) = _
  rw [V22_eq m H0 H1 H2 H3 H4 H5 H6 H7 H8 H9 H10 H11 c]

set_option maxHeartbeats 1000000 in
/-- The generated valuation after region 11 is the chain's. -/
theorem V24_eq (c : Dev nD) : Gen.V24 m (outs m H0 H1 H2 H3 H4 H5 H6 H7 H8 H9 H10 H11) c = W24 m H0 H1 H2 H3 H4 H5 H6 H7 H8 H9 H10 H11 c := by
  funext b
  show (Function.update (Function.update (Gen.V23 m (outs m H0 H1 H2 H3 H4 H5 H6 H7 H8 H9 H10 H11) c) (Proc.devRef .tc main_v210_0) (outs m H0 H1 H2 H3 H4 H5 H6 H7 H8 H9 H10 H11 24 main_v210_0 c)) (Proc.devRef .tc main_v210_1) (outs m H0 H1 H2 H3 H4 H5 H6 H7 H8 H9 H10 H11 24 main_v210_1 c)) b = _
  rw [V23_eq m H0 H1 H2 H3 H4 H5 H6 H7 H8 H9 H10 H11 c]
  by_cases hb : ∃ w, Proc.devRef .tc (Pipeline.arrRef spec11 w) = b
  · obtain ⟨w, rfl⟩ := hb
    fin_cases w
    · -- window 0: the input array main_v197_0
      rw [Function.update_of_ne (StableHlo.devRef_ne_of_ne (by decide)), Function.update_of_ne (StableHlo.devRef_ne_of_ne (by decide))]
      exact (W24_in m H0 H1 H2 H3 H4 H5 H6 H7 H8 H9 H10 H11 c ⟨0, by decide⟩ rfl).symm
    · -- window 1: the input array main_v199
      rw [Function.update_of_ne (StableHlo.devRef_ne_of_ne (by decide)), Function.update_of_ne (StableHlo.devRef_ne_of_ne (by decide))]
      exact (W24_in m H0 H1 H2 H3 H4 H5 H6 H7 H8 H9 H10 H11 c ⟨1, by decide⟩ rfl).symm
    · -- window 2: the input array main_v203
      rw [Function.update_of_ne (StableHlo.devRef_ne_of_ne (by decide)), Function.update_of_ne (StableHlo.devRef_ne_of_ne (by decide))]
      exact (W24_in m H0 H1 H2 H3 H4 H5 H6 H7 H8 H9 H10 H11 c ⟨2, by decide⟩ rfl).symm
    · -- window 3: the input array main_v208
      rw [Function.update_of_ne (StableHlo.devRef_ne_of_ne (by decide)), Function.update_of_ne (StableHlo.devRef_ne_of_ne (by decide))]
      exact (W24_in m H0 H1 H2 H3 H4 H5 H6 H7 H8 H9 H10 H11 c ⟨3, by decide⟩ rfl).symm
    · -- window 4: the input array main_v209
      rw [Function.update_of_ne (StableHlo.devRef_ne_of_ne (by decide)), Function.update_of_ne (StableHlo.devRef_ne_of_ne (by decide))]
      exact (W24_in m H0 H1 H2 H3 H4 H5 H6 H7 H8 H9 H10 H11 c ⟨4, by decide⟩ rfl).symm
    · -- window 5: the input array main_v25
      rw [Function.update_of_ne (StableHlo.devRef_ne_of_ne (by decide)), Function.update_of_ne (StableHlo.devRef_ne_of_ne (by decide))]
      exact (W24_in m H0 H1 H2 H3 H4 H5 H6 H7 H8 H9 H10 H11 c ⟨5, by decide⟩ rfl).symm
    · -- window 6: the output array main_v210_0
      rw [Function.update_of_ne (StableHlo.devRef_ne_of_ne (by decide)), Function.update_self]
      rfl
    · -- window 7: the output array main_v210_1
      rw [Function.update_self]
      rfl
  · rw [Function.update_of_ne (fun h => hb ⟨⟨7, by decide⟩, h.symm⟩), Function.update_of_ne (fun h => hb ⟨⟨6, by decide⟩, h.symm⟩)]
    exact (withArrays_other spec11 c _ _ b hb).symm
theorem V25_eq (c : Dev nD) : Gen.V25 m (outs m H0 H1 H2 H3 H4 H5 H6 H7 H8 H9 H10 H11) c = W25 m H0 H1 H2 H3 H4 H5 H6 H7 H8 H9 H10 H11 c := by
  show StableHlo.after hostOps12 (Gen.V24 m (outs m H0 H1 H2 H3 H4 H5 H6 H7 H8 H9 H10 H11) c) = _
  rw [V24_eq m H0 H1 H2 H3 H4 H5 H6 H7 H8 H9 H10 H11 c]

end Cert.KernelIdeal.Asm

end
-- ==== Proof.KI.AsmFrame.lean ====
/- The kernel program's frame from its regions' halves. Every region is entered holding every unscoped buffer at the
   chain's contents before it, beside the core's generator register (at some state) and the core owing nothing, and is left
   holding the buffers at the chain's contents after it: at entry the region's arrays are split out of the buffers, at
   exit they are put back at what the pipeline leaves; the generator register passes into the class invariant and out;
   no semaphore is the kernel's own. With the regions as these segments, the generated conditional frame gives: every
   weakly fair execution of @main ends, and the fourteen argument arrays end as launched. -/
import proofs.«144276_j65051574665788_2_alg».proof.Proof.KI.AsmChain

set_option maxRecDepth 16384

noncomputable section

namespace Cert.KernelIdeal.Asm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (H0 : Half0 F) (H1 : Half1 F) (H2 : Half2 F) (H3 : Half3 F) (H4 : Half4 F) (H5 : Half5 F) (H6 : Half6 F) (H7 : Half7 F) (H8 : Half8 F) (H9 : Half9 F) (H10 : Half10 F) (H11 : Half11 F)

/-- Every pipeline's proof data, each at its region's entry contents. -/
def pdats : (p : Fin 12) → (c : Dev nD) → Dat τ (Elt F) Unit ℕ (UR sig nD τ) ℕ (cfgs p) c
  | ⟨0, _⟩ => fun c => H0.dat (X1 m) c
  | ⟨1, _⟩ => fun c => H1.dat (X3 m H0) c
  | ⟨2, _⟩ => fun c => H2.dat (X5 m H0 H1) c
  | ⟨3, _⟩ => fun c => H3.dat (X7 m H0 H1 H2) c
  | ⟨4, _⟩ => fun c => H4.dat (X9 m H0 H1 H2 H3) c
  | ⟨5, _⟩ => fun c => H5.dat (X11 m H0 H1 H2 H3 H4) c
  | ⟨6, _⟩ => fun c => H6.dat (X13 m H0 H1 H2 H3 H4 H5) c
  | ⟨7, _⟩ => fun c => H7.dat (X15 m H0 H1 H2 H3 H4 H5 H6) c
  | ⟨8, _⟩ => fun c => H8.dat (X17 m H0 H1 H2 H3 H4 H5 H6 H7) c
  | ⟨9, _⟩ => fun c => H9.dat (X19 m H0 H1 H2 H3 H4 H5 H6 H7 H8) c
  | ⟨10, _⟩ => fun c => H10.dat (X21 m H0 H1 H2 H3 H4 H5 H6 H7 H8 H9) c
  | ⟨11, _⟩ => fun c => H11.dat (X23 m H0 H1 H2 H3 H4 H5 H6 H7 H8 H9 H10) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state, and the core owing nothing. -/
abbrev Rst (c : Dev nD) : sProp 𝕄 := iprop((∃ r, prngReg c r) ∗ ∃ W, owes (c : Thread nD τ) (0 : CellTallies nD τ sig Unit) W)

set_option backward.isDefEq.respectTransparency.types false in
/-- Region 0 as a segment: entered from the buffers at the chain's contents before it, left at the contents after it. -/
def reg0 : Pipeline.RegionSeg (pcfgs (F := F)) adm (pdats m H0 H1 H2 H3 H4 H5 H6 H7 H8 H9 H10 H11) () defs₀ 𝒱₀ L lv 0 where
  win := launch0.win.to₀
  block_pos := launch0.block_pos
  stage_whole := launch0.stage_whole
  K := PEmpty
  osem k := k.elim
  ho := Pipeline.OwnSemFacts.none _
  hbody c := (H0.hb (X1 m) c).loose
  hwaits := Pipeline.hwaits_of_owed_zero _ _ _ _ L lv 0 fun _ _ => rfl
  pre c := iprop(StableHlo.held (c : Thread nD τ) (Pipeline.ucRefs τ sig) (W1 m c) ∗ Rst c)
  post c := iprop(StableHlo.held (c : Thread nD τ) (Pipeline.ucRefs τ sig) (W2 m H0 c) ∗ Rst c)
  X c := iprop(∃ r, prngReg c r)
  Y c := iprop(∃ r, prngReg c r)
  Z c := Pipeline.unscopedRest (Ix := Unit) (Name := ℕ) (U := UR sig nD τ) (Lvl := ℕ) spec0 c (X1 m c)
  hentry c := by
    rw [Pipeline.ownSems0_none]
    have hsplit := Pipeline.arrays_of_unscopedBufs (p := 0) (pcfgs (F := F)) adm (pdats m H0 H1 H2 H3 H4 H5 H6 H7 H8 H9 H10 H11) launch0.win launch0.arr_whole c
      (((pdats m H0 H1 H2 H3 H4 H5 H6 H7 H8 H9 H10 H11) 0 c).share_full fun _ => rfl) (X1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show ((pdats m H0 H1 H2 H3 H4 H5 H6 H7 H8 H9 H10 H11) 0 c).Φ 0 = Pipeline.ΦA spec0 c from rfl]; unfold Pipeline.ΦA
    iintro ⟨Hp, -, Hr⟩
    isplitl [Hr]; · iexact Hr
    iexact Hp
  hout c := by
    rw [Pipeline.ownSems0_none, show ((pdats m H0 H1 H2 H3 H4 H5 H6 H7 H8 H9 H10 H11) 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m H0 H1 H2 H3 H4 H5 H6 H7 H8 H9 H10 H11) (((pdats m H0 H1 H2 H3 H4 H5 H6 H7 H8 H9 H10 H11) 0 c).share_full fun _ => rfl)
      (X1 m c) (X2 m H0 c) (((pdats m H0 H1 H2 H3 H4 H5 H6 H7 H8 H9 H10 H11) 0 c).arrAt · cfg0.N) (hF0 m H0 c) (hrest0 m H0 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered from the buffers at the chain's contents before it, left at the contents after it. -/
def reg1 : Pipeline.RegionSeg (pcfgs (F := F)) adm (pdats m H0 H1 H2 H3 H4 H5 H6 H7 H8 H9 H10 H11) () defs₀ 𝒱₀ L lv 1 where
  win := launch1.win.to₀
  block_pos := launch1.block_pos
  stage_whole := launch1.stage_whole
  K := PEmpty
  osem k := k.elim
  ho := Pipeline.OwnSemFacts.none _
  hbody c := (H1.hb (X3 m H0) c).loose
  hwaits := Pipeline.hwaits_of_owed_zero _ _ _ _ L lv 1 fun _ _ => rfl
  pre c := iprop(StableHlo.held (c : Thread nD τ) (Pipeline.ucRefs τ sig) (W3 m H0 c) ∗ Rst c)
  post c := iprop(StableHlo.held (c : Thread nD τ) (Pipeline.ucRefs τ sig) (W4 m H0 H1 c) ∗ Rst c)
  X c := iprop(∃ r, prngReg c r)
  Y c := iprop(∃ r, prngReg c r)
  Z c := Pipeline.unscopedRest (Ix := Unit) (Name := ℕ) (U := UR sig nD τ) (Lvl := ℕ) spec1 c (X3 m H0 c)
  hentry c := by
    rw [Pipeline.ownSems0_none]
    have hsplit := Pipeline.arrays_of_unscopedBufs (p := 1) (pcfgs (F := F)) adm (pdats m H0 H1 H2 H3 H4 H5 H6 H7 H8 H9 H10 H11) launch1.win launch1.arr_whole c
      (((pdats m H0 H1 H2 H3 H4 H5 H6 H7 H8 H9 H10 H11) 1 c).share_full fun _ => rfl) (X3 m H0 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show ((pdats m H0 H1 H2 H3 H4 H5 H6 H7 H8 H9 H10 H11) 1 c).Φ 0 = Pipeline.ΦA spec1 c from rfl]; unfold Pipeline.ΦA
    iintro ⟨Hp, -, Hr⟩
    isplitl [Hr]; · iexact Hr
    iexact Hp
  hout c := by
    rw [Pipeline.ownSems0_none, show ((pdats m H0 H1 H2 H3 H4 H5 H6 H7 H8 H9 H10 H11) 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m H0 H1 H2 H3 H4 H5 H6 H7 H8 H9 H10 H11) (((pdats m H0 H1 H2 H3 H4 H5 H6 H7 H8 H9 H10 H11) 1 c).share_full fun _ => rfl)
      (X3 m H0 c) (X4 m H0 H1 c) (((pdats m H0 H1 H2 H3 H4 H5 H6 H7 H8 H9 H10 H11) 1 c).arrAt · cfg1.N) (hF1 m H0 H1 c) (hrest1 m H0 H1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered from the buffers at the chain's contents before it, left at the contents after it. -/
def reg2 : Pipeline.RegionSeg (pcfgs (F := F)) adm (pdats m H0 H1 H2 H3 H4 H5 H6 H7 H8 H9 H10 H11) () defs₀ 𝒱₀ L lv 2 where
  win := launch2.win.to₀
  block_pos := launch2.block_pos
  stage_whole := launch2.stage_whole
  K := PEmpty
  osem k := k.elim
  ho := Pipeline.OwnSemFacts.none _
  hbody c := (H2.hb (X5 m H0 H1) c).loose
  hwaits := Pipeline.hwaits_of_owed_zero _ _ _ _ L lv 2 fun _ _ => rfl
  pre c := iprop(StableHlo.held (c : Thread nD τ) (Pipeline.ucRefs τ sig) (W5 m H0 H1 c) ∗ Rst c)
  post c := iprop(StableHlo.held (c : Thread nD τ) (Pipeline.ucRefs τ sig) (W6 m H0 H1 H2 c) ∗ Rst c)
  X c := iprop(∃ r, prngReg c r)
  Y c := iprop(∃ r, prngReg c r)
  Z c := Pipeline.unscopedRest (Ix := Unit) (Name := ℕ) (U := UR sig nD τ) (Lvl := ℕ) spec2 c (X5 m H0 H1 c)
  hentry c := by
    rw [Pipeline.ownSems0_none]
    have hsplit := Pipeline.arrays_of_unscopedBufs (p := 2) (pcfgs (F := F)) adm (pdats m H0 H1 H2 H3 H4 H5 H6 H7 H8 H9 H10 H11) launch2.win launch2.arr_whole c
      (((pdats m H0 H1 H2 H3 H4 H5 H6 H7 H8 H9 H10 H11) 2 c).share_full fun _ => rfl) (X5 m H0 H1 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show ((pdats m H0 H1 H2 H3 H4 H5 H6 H7 H8 H9 H10 H11) 2 c).Φ 0 = Pipeline.ΦA spec2 c from rfl]; unfold Pipeline.ΦA
    iintro ⟨Hp, -, Hr⟩
    isplitl [Hr]; · iexact Hr
    iexact Hp
  hout c := by
    rw [Pipeline.ownSems0_none, show ((pdats m H0 H1 H2 H3 H4 H5 H6 H7 H8 H9 H10 H11) 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m H0 H1 H2 H3 H4 H5 H6 H7 H8 H9 H10 H11) (((pdats m H0 H1 H2 H3 H4 H5 H6 H7 H8 H9 H10 H11) 2 c).share_full fun _ => rfl)
      (X5 m H0 H1 c) (X6 m H0 H1 H2 c) (((pdats m H0 H1 H2 H3 H4 H5 H6 H7 H8 H9 H10 H11) 2 c).arrAt · cfg2.N) (hF2 m H0 H1 H2 c) (hrest2 m H0 H1 H2 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment: entered from the buffers at the chain's contents before it, left at the contents after it. -/
def reg3 : Pipeline.RegionSeg (pcfgs (F := F)) adm (pdats m H0 H1 H2 H3 H4 H5 H6 H7 H8 H9 H10 H11) () defs₀ 𝒱₀ L lv 3 where
  win := launch3.win.to₀
  block_pos := launch3.block_pos
  stage_whole := launch3.stage_whole
  K := PEmpty
  osem k := k.elim
  ho := Pipeline.OwnSemFacts.none _
  hbody c := (H3.hb (X7 m H0 H1 H2) c).loose
  hwaits := Pipeline.hwaits_of_owed_zero _ _ _ _ L lv 3 fun _ _ => rfl
  pre c := iprop(StableHlo.held (c : Thread nD τ) (Pipeline.ucRefs τ sig) (W7 m H0 H1 H2 c) ∗ Rst c)
  post c := iprop(StableHlo.held (c : Thread nD τ) (Pipeline.ucRefs τ sig) (W8 m H0 H1 H2 H3 c) ∗ Rst c)
  X c := iprop(∃ r, prngReg c r)
  Y c := iprop(∃ r, prngReg c r)
  Z c := Pipeline.unscopedRest (Ix := Unit) (Name := ℕ) (U := UR sig nD τ) (Lvl := ℕ) spec3 c (X7 m H0 H1 H2 c)
  hentry c := by
    rw [Pipeline.ownSems0_none]
    have hsplit := Pipeline.arrays_of_unscopedBufs (p := 3) (pcfgs (F := F)) adm (pdats m H0 H1 H2 H3 H4 H5 H6 H7 H8 H9 H10 H11) launch3.win launch3.arr_whole c
      (((pdats m H0 H1 H2 H3 H4 H5 H6 H7 H8 H9 H10 H11) 3 c).share_full fun _ => rfl) (X7 m H0 H1 H2 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show ((pdats m H0 H1 H2 H3 H4 H5 H6 H7 H8 H9 H10 H11) 3 c).Φ 0 = Pipeline.ΦA spec3 c from rfl]; unfold Pipeline.ΦA
    iintro ⟨Hp, -, Hr⟩
    isplitl [Hr]; · iexact Hr
    iexact Hp
  hout c := by
    rw [Pipeline.ownSems0_none, show ((pdats m H0 H1 H2 H3 H4 H5 H6 H7 H8 H9 H10 H11) 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m H0 H1 H2 H3 H4 H5 H6 H7 H8 H9 H10 H11) (((pdats m H0 H1 H2 H3 H4 H5 H6 H7 H8 H9 H10 H11) 3 c).share_full fun _ => rfl)
      (X7 m H0 H1 H2 c) (X8 m H0 H1 H2 H3 c) (((pdats m H0 H1 H2 H3 H4 H5 H6 H7 H8 H9 H10 H11) 3 c).arrAt · cfg3.N) (hF3 m H0 H1 H2 H3 c) (hrest3 m H0 H1 H2 H3 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 as a segment: entered from the buffers at the chain's contents before it, left at the contents after it. -/
def reg4 : Pipeline.RegionSeg (pcfgs (F := F)) adm (pdats m H0 H1 H2 H3 H4 H5 H6 H7 H8 H9 H10 H11) () defs₀ 𝒱₀ L lv 4 where
  win := launch4.win.to₀
  block_pos := launch4.block_pos
  stage_whole := launch4.stage_whole
  K := PEmpty
  osem k := k.elim
  ho := Pipeline.OwnSemFacts.none _
  hbody c := (H4.hb (X9 m H0 H1 H2 H3) c).loose
  hwaits := Pipeline.hwaits_of_owed_zero _ _ _ _ L lv 4 fun _ _ => rfl
  pre c := iprop(StableHlo.held (c : Thread nD τ) (Pipeline.ucRefs τ sig) (W9 m H0 H1 H2 H3 c) ∗ Rst c)
  post c := iprop(StableHlo.held (c : Thread nD τ) (Pipeline.ucRefs τ sig) (W10 m H0 H1 H2 H3 H4 c) ∗ Rst c)
  X c := iprop(∃ r, prngReg c r)
  Y c := iprop(∃ r, prngReg c r)
  Z c := Pipeline.unscopedRest (Ix := Unit) (Name := ℕ) (U := UR sig nD τ) (Lvl := ℕ) spec4 c (X9 m H0 H1 H2 H3 c)
  hentry c := by
    rw [Pipeline.ownSems0_none]
    have hsplit := Pipeline.arrays_of_unscopedBufs (p := 4) (pcfgs (F := F)) adm (pdats m H0 H1 H2 H3 H4 H5 H6 H7 H8 H9 H10 H11) launch4.win launch4.arr_whole c
      (((pdats m H0 H1 H2 H3 H4 H5 H6 H7 H8 H9 H10 H11) 4 c).share_full fun _ => rfl) (X9 m H0 H1 H2 H3 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show ((pdats m H0 H1 H2 H3 H4 H5 H6 H7 H8 H9 H10 H11) 4 c).Φ 0 = Pipeline.ΦA spec4 c from rfl]; unfold Pipeline.ΦA
    iintro ⟨Hp, -, Hr⟩
    isplitl [Hr]; · iexact Hr
    iexact Hp
  hout c := by
    rw [Pipeline.ownSems0_none, show ((pdats m H0 H1 H2 H3 H4 H5 H6 H7 H8 H9 H10 H11) 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m H0 H1 H2 H3 H4 H5 H6 H7 H8 H9 H10 H11) (((pdats m H0 H1 H2 H3 H4 H5 H6 H7 H8 H9 H10 H11) 4 c).share_full fun _ => rfl)
      (X9 m H0 H1 H2 H3 c) (X10 m H0 H1 H2 H3 H4 c) (((pdats m H0 H1 H2 H3 H4 H5 H6 H7 H8 H9 H10 H11) 4 c).arrAt · cfg4.N) (hF4 m H0 H1 H2 H3 H4 c) (hrest4 m H0 H1 H2 H3 H4 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 as a segment: entered from the buffers at the chain's contents before it, left at the contents after it. -/
def reg5 : Pipeline.RegionSeg (pcfgs (F := F)) adm (pdats m H0 H1 H2 H3 H4 H5 H6 H7 H8 H9 H10 H11) () defs₀ 𝒱₀ L lv 5 where
  win := launch5.win.to₀
  block_pos := launch5.block_pos
  stage_whole := launch5.stage_whole
  K := PEmpty
  osem k := k.elim
  ho := Pipeline.OwnSemFacts.none _
  hbody c := (H5.hb (X11 m H0 H1 H2 H3 H4) c).loose
  hwaits := Pipeline.hwaits_of_owed_zero _ _ _ _ L lv 5 fun _ _ => rfl
  pre c := iprop(StableHlo.held (c : Thread nD τ) (Pipeline.ucRefs τ sig) (W11 m H0 H1 H2 H3 H4 c) ∗ Rst c)
  post c := iprop(StableHlo.held (c : Thread nD τ) (Pipeline.ucRefs τ sig) (W12 m H0 H1 H2 H3 H4 H5 c) ∗ Rst c)
  X c := iprop(∃ r, prngReg c r)
  Y c := iprop(∃ r, prngReg c r)
  Z c := Pipeline.unscopedRest (Ix := Unit) (Name := ℕ) (U := UR sig nD τ) (Lvl := ℕ) spec5 c (X11 m H0 H1 H2 H3 H4 c)
  hentry c := by
    rw [Pipeline.ownSems0_none]
    have hsplit := Pipeline.arrays_of_unscopedBufs (p := 5) (pcfgs (F := F)) adm (pdats m H0 H1 H2 H3 H4 H5 H6 H7 H8 H9 H10 H11) launch5.win launch5.arr_whole c
      (((pdats m H0 H1 H2 H3 H4 H5 H6 H7 H8 H9 H10 H11) 5 c).share_full fun _ => rfl) (X11 m H0 H1 H2 H3 H4 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show ((pdats m H0 H1 H2 H3 H4 H5 H6 H7 H8 H9 H10 H11) 5 c).Φ 0 = Pipeline.ΦA spec5 c from rfl]; unfold Pipeline.ΦA
    iintro ⟨Hp, -, Hr⟩
    isplitl [Hr]; · iexact Hr
    iexact Hp
  hout c := by
    rw [Pipeline.ownSems0_none, show ((pdats m H0 H1 H2 H3 H4 H5 H6 H7 H8 H9 H10 H11) 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m H0 H1 H2 H3 H4 H5 H6 H7 H8 H9 H10 H11) (((pdats m H0 H1 H2 H3 H4 H5 H6 H7 H8 H9 H10 H11) 5 c).share_full fun _ => rfl)
      (X11 m H0 H1 H2 H3 H4 c) (X12 m H0 H1 H2 H3 H4 H5 c) (((pdats m H0 H1 H2 H3 H4 H5 H6 H7 H8 H9 H10 H11) 5 c).arrAt · cfg5.N) (hF5 m H0 H1 H2 H3 H4 H5 c) (hrest5 m H0 H1 H2 H3 H4 H5 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 as a segment: entered from the buffers at the chain's contents before it, left at the contents after it. -/
def reg6 : Pipeline.RegionSeg (pcfgs (F := F)) adm (pdats m H0 H1 H2 H3 H4 H5 H6 H7 H8 H9 H10 H11) () defs₀ 𝒱₀ L lv 6 where
  win := launch6.win.to₀
  block_pos := launch6.block_pos
  stage_whole := launch6.stage_whole
  K := PEmpty
  osem k := k.elim
  ho := Pipeline.OwnSemFacts.none _
  hbody c := (H6.hb (X13 m H0 H1 H2 H3 H4 H5) c).loose
  hwaits := Pipeline.hwaits_of_owed_zero _ _ _ _ L lv 6 fun _ _ => rfl
  pre c := iprop(StableHlo.held (c : Thread nD τ) (Pipeline.ucRefs τ sig) (W13 m H0 H1 H2 H3 H4 H5 c) ∗ Rst c)
  post c := iprop(StableHlo.held (c : Thread nD τ) (Pipeline.ucRefs τ sig) (W14 m H0 H1 H2 H3 H4 H5 H6 c) ∗ Rst c)
  X c := iprop(∃ r, prngReg c r)
  Y c := iprop(∃ r, prngReg c r)
  Z c := Pipeline.unscopedRest (Ix := Unit) (Name := ℕ) (U := UR sig nD τ) (Lvl := ℕ) spec6 c (X13 m H0 H1 H2 H3 H4 H5 c)
  hentry c := by
    rw [Pipeline.ownSems0_none]
    have hsplit := Pipeline.arrays_of_unscopedBufs (p := 6) (pcfgs (F := F)) adm (pdats m H0 H1 H2 H3 H4 H5 H6 H7 H8 H9 H10 H11) launch6.win launch6.arr_whole c
      (((pdats m H0 H1 H2 H3 H4 H5 H6 H7 H8 H9 H10 H11) 6 c).share_full fun _ => rfl) (X13 m H0 H1 H2 H3 H4 H5 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show ((pdats m H0 H1 H2 H3 H4 H5 H6 H7 H8 H9 H10 H11) 6 c).Φ 0 = Pipeline.ΦA spec6 c from rfl]; unfold Pipeline.ΦA
    iintro ⟨Hp, -, Hr⟩
    isplitl [Hr]; · iexact Hr
    iexact Hp
  hout c := by
    rw [Pipeline.ownSems0_none, show ((pdats m H0 H1 H2 H3 H4 H5 H6 H7 H8 H9 H10 H11) 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m H0 H1 H2 H3 H4 H5 H6 H7 H8 H9 H10 H11) (((pdats m H0 H1 H2 H3 H4 H5 H6 H7 H8 H9 H10 H11) 6 c).share_full fun _ => rfl)
      (X13 m H0 H1 H2 H3 H4 H5 c) (X14 m H0 H1 H2 H3 H4 H5 H6 c) (((pdats m H0 H1 H2 H3 H4 H5 H6 H7 H8 H9 H10 H11) 6 c).arrAt · cfg6.N) (hF6 m H0 H1 H2 H3 H4 H5 H6 c) (hrest6 m H0 H1 H2 H3 H4 H5 H6 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 as a segment: entered from the buffers at the chain's contents before it, left at the contents after it. -/
def reg7 : Pipeline.RegionSeg (pcfgs (F := F)) adm (pdats m H0 H1 H2 H3 H4 H5 H6 H7 H8 H9 H10 H11) () defs₀ 𝒱₀ L lv 7 where
  win := launch7.win.to₀
  block_pos := launch7.block_pos
  stage_whole := launch7.stage_whole
  K := PEmpty
  osem k := k.elim
  ho := Pipeline.OwnSemFacts.none _
  hbody c := (H7.hb (X15 m H0 H1 H2 H3 H4 H5 H6) c).loose
  hwaits := Pipeline.hwaits_of_owed_zero _ _ _ _ L lv 7 fun _ _ => rfl
  pre c := iprop(StableHlo.held (c : Thread nD τ) (Pipeline.ucRefs τ sig) (W15 m H0 H1 H2 H3 H4 H5 H6 c) ∗ Rst c)
  post c := iprop(StableHlo.held (c : Thread nD τ) (Pipeline.ucRefs τ sig) (W16 m H0 H1 H2 H3 H4 H5 H6 H7 c) ∗ Rst c)
  X c := iprop(∃ r, prngReg c r)
  Y c := iprop(∃ r, prngReg c r)
  Z c := Pipeline.unscopedRest (Ix := Unit) (Name := ℕ) (U := UR sig nD τ) (Lvl := ℕ) spec7 c (X15 m H0 H1 H2 H3 H4 H5 H6 c)
  hentry c := by
    rw [Pipeline.ownSems0_none]
    have hsplit := Pipeline.arrays_of_unscopedBufs (p := 7) (pcfgs (F := F)) adm (pdats m H0 H1 H2 H3 H4 H5 H6 H7 H8 H9 H10 H11) launch7.win launch7.arr_whole c
      (((pdats m H0 H1 H2 H3 H4 H5 H6 H7 H8 H9 H10 H11) 7 c).share_full fun _ => rfl) (X15 m H0 H1 H2 H3 H4 H5 H6 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show ((pdats m H0 H1 H2 H3 H4 H5 H6 H7 H8 H9 H10 H11) 7 c).Φ 0 = Pipeline.ΦA spec7 c from rfl]; unfold Pipeline.ΦA
    iintro ⟨Hp, -, Hr⟩
    isplitl [Hr]; · iexact Hr
    iexact Hp
  hout c := by
    rw [Pipeline.ownSems0_none, show ((pdats m H0 H1 H2 H3 H4 H5 H6 H7 H8 H9 H10 H11) 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m H0 H1 H2 H3 H4 H5 H6 H7 H8 H9 H10 H11) (((pdats m H0 H1 H2 H3 H4 H5 H6 H7 H8 H9 H10 H11) 7 c).share_full fun _ => rfl)
      (X15 m H0 H1 H2 H3 H4 H5 H6 c) (X16 m H0 H1 H2 H3 H4 H5 H6 H7 c) (((pdats m H0 H1 H2 H3 H4 H5 H6 H7 H8 H9 H10 H11) 7 c).arrAt · cfg7.N) (hF7 m H0 H1 H2 H3 H4 H5 H6 H7 c) (hrest7 m H0 H1 H2 H3 H4 H5 H6 H7 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8 as a segment: entered from the buffers at the chain's contents before it, left at the contents after it. -/
def reg8 : Pipeline.RegionSeg (pcfgs (F := F)) adm (pdats m H0 H1 H2 H3 H4 H5 H6 H7 H8 H9 H10 H11) () defs₀ 𝒱₀ L lv 8 where
  win := launch8.win.to₀
  block_pos := launch8.block_pos
  stage_whole := launch8.stage_whole
  K := PEmpty
  osem k := k.elim
  ho := Pipeline.OwnSemFacts.none _
  hbody c := (H8.hb (X17 m H0 H1 H2 H3 H4 H5 H6 H7) c).loose
  hwaits := Pipeline.hwaits_of_owed_zero _ _ _ _ L lv 8 fun _ _ => rfl
  pre c := iprop(StableHlo.held (c : Thread nD τ) (Pipeline.ucRefs τ sig) (W17 m H0 H1 H2 H3 H4 H5 H6 H7 c) ∗ Rst c)
  post c := iprop(StableHlo.held (c : Thread nD τ) (Pipeline.ucRefs τ sig) (W18 m H0 H1 H2 H3 H4 H5 H6 H7 H8 c) ∗ Rst c)
  X c := iprop(∃ r, prngReg c r)
  Y c := iprop(∃ r, prngReg c r)
  Z c := Pipeline.unscopedRest (Ix := Unit) (Name := ℕ) (U := UR sig nD τ) (Lvl := ℕ) spec8 c (X17 m H0 H1 H2 H3 H4 H5 H6 H7 c)
  hentry c := by
    rw [Pipeline.ownSems0_none]
    have hsplit := Pipeline.arrays_of_unscopedBufs (p := 8) (pcfgs (F := F)) adm (pdats m H0 H1 H2 H3 H4 H5 H6 H7 H8 H9 H10 H11) launch8.win launch8.arr_whole c
      (((pdats m H0 H1 H2 H3 H4 H5 H6 H7 H8 H9 H10 H11) 8 c).share_full fun _ => rfl) (X17 m H0 H1 H2 H3 H4 H5 H6 H7 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show ((pdats m H0 H1 H2 H3 H4 H5 H6 H7 H8 H9 H10 H11) 8 c).Φ 0 = Pipeline.ΦA spec8 c from rfl]; unfold Pipeline.ΦA
    iintro ⟨Hp, -, Hr⟩
    isplitl [Hr]; · iexact Hr
    iexact Hp
  hout c := by
    rw [Pipeline.ownSems0_none, show ((pdats m H0 H1 H2 H3 H4 H5 H6 H7 H8 H9 H10 H11) 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m H0 H1 H2 H3 H4 H5 H6 H7 H8 H9 H10 H11) (((pdats m H0 H1 H2 H3 H4 H5 H6 H7 H8 H9 H10 H11) 8 c).share_full fun _ => rfl)
      (X17 m H0 H1 H2 H3 H4 H5 H6 H7 c) (X18 m H0 H1 H2 H3 H4 H5 H6 H7 H8 c) (((pdats m H0 H1 H2 H3 H4 H5 H6 H7 H8 H9 H10 H11) 8 c).arrAt · cfg8.N) (hF8 m H0 H1 H2 H3 H4 H5 H6 H7 H8 c) (hrest8 m H0 H1 H2 H3 H4 H5 H6 H7 H8 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 9 as a segment: entered from the buffers at the chain's contents before it, left at the contents after it. -/
def reg9 : Pipeline.RegionSeg (pcfgs (F := F)) adm (pdats m H0 H1 H2 H3 H4 H5 H6 H7 H8 H9 H10 H11) () defs₀ 𝒱₀ L lv 9 where
  win := launch9.win.to₀
  block_pos := launch9.block_pos
  stage_whole := launch9.stage_whole
  K := PEmpty
  osem k := k.elim
  ho := Pipeline.OwnSemFacts.none _
  hbody c := (H9.hb (X19 m H0 H1 H2 H3 H4 H5 H6 H7 H8) c).loose
  hwaits := Pipeline.hwaits_of_owed_zero _ _ _ _ L lv 9 fun _ _ => rfl
  pre c := iprop(StableHlo.held (c : Thread nD τ) (Pipeline.ucRefs τ sig) (W19 m H0 H1 H2 H3 H4 H5 H6 H7 H8 c) ∗ Rst c)
  post c := iprop(StableHlo.held (c : Thread nD τ) (Pipeline.ucRefs τ sig) (W20 m H0 H1 H2 H3 H4 H5 H6 H7 H8 H9 c) ∗ Rst c)
  X c := iprop(∃ r, prngReg c r)
  Y c := iprop(∃ r, prngReg c r)
  Z c := Pipeline.unscopedRest (Ix := Unit) (Name := ℕ) (U := UR sig nD τ) (Lvl := ℕ) spec9 c (X19 m H0 H1 H2 H3 H4 H5 H6 H7 H8 c)
  hentry c := by
    rw [Pipeline.ownSems0_none]
    have hsplit := Pipeline.arrays_of_unscopedBufs (p := 9) (pcfgs (F := F)) adm (pdats m H0 H1 H2 H3 H4 H5 H6 H7 H8 H9 H10 H11) launch9.win launch9.arr_whole c
      (((pdats m H0 H1 H2 H3 H4 H5 H6 H7 H8 H9 H10 H11) 9 c).share_full fun _ => rfl) (X19 m H0 H1 H2 H3 H4 H5 H6 H7 H8 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show ((pdats m H0 H1 H2 H3 H4 H5 H6 H7 H8 H9 H10 H11) 9 c).Φ 0 = Pipeline.ΦA spec9 c from rfl]; unfold Pipeline.ΦA
    iintro ⟨Hp, -, Hr⟩
    isplitl [Hr]; · iexact Hr
    iexact Hp
  hout c := by
    rw [Pipeline.ownSems0_none, show ((pdats m H0 H1 H2 H3 H4 H5 H6 H7 H8 H9 H10 H11) 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m H0 H1 H2 H3 H4 H5 H6 H7 H8 H9 H10 H11) (((pdats m H0 H1 H2 H3 H4 H5 H6 H7 H8 H9 H10 H11) 9 c).share_full fun _ => rfl)
      (X19 m H0 H1 H2 H3 H4 H5 H6 H7 H8 c) (X20 m H0 H1 H2 H3 H4 H5 H6 H7 H8 H9 c) (((pdats m H0 H1 H2 H3 H4 H5 H6 H7 H8 H9 H10 H11) 9 c).arrAt · cfg9.N) (hF9 m H0 H1 H2 H3 H4 H5 H6 H7 H8 H9 c) (hrest9 m H0 H1 H2 H3 H4 H5 H6 H7 H8 H9 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 10 as a segment: entered from the buffers at the chain's contents before it, left at the contents after it. -/
def reg10 : Pipeline.RegionSeg (pcfgs (F := F)) adm (pdats m H0 H1 H2 H3 H4 H5 H6 H7 H8 H9 H10 H11) () defs₀ 𝒱₀ L lv 10 where
  win := launch10.win.to₀
  block_pos := launch10.block_pos
  stage_whole := launch10.stage_whole
  K := PEmpty
  osem k := k.elim
  ho := Pipeline.OwnSemFacts.none _
  hbody c := (H10.hb (X21 m H0 H1 H2 H3 H4 H5 H6 H7 H8 H9) c).loose
  hwaits := Pipeline.hwaits_of_owed_zero _ _ _ _ L lv 10 fun _ _ => rfl
  pre c := iprop(StableHlo.held (c : Thread nD τ) (Pipeline.ucRefs τ sig) (W21 m H0 H1 H2 H3 H4 H5 H6 H7 H8 H9 c) ∗ Rst c)
  post c := iprop(StableHlo.held (c : Thread nD τ) (Pipeline.ucRefs τ sig) (W22 m H0 H1 H2 H3 H4 H5 H6 H7 H8 H9 H10 c) ∗ Rst c)
  X c := iprop(∃ r, prngReg c r)
  Y c := iprop(∃ r, prngReg c r)
  Z c := Pipeline.unscopedRest (Ix := Unit) (Name := ℕ) (U := UR sig nD τ) (Lvl := ℕ) spec10 c (X21 m H0 H1 H2 H3 H4 H5 H6 H7 H8 H9 c)
  hentry c := by
    rw [Pipeline.ownSems0_none]
    have hsplit := Pipeline.arrays_of_unscopedBufs (p := 10) (pcfgs (F := F)) adm (pdats m H0 H1 H2 H3 H4 H5 H6 H7 H8 H9 H10 H11) launch10.win launch10.arr_whole c
      (((pdats m H0 H1 H2 H3 H4 H5 H6 H7 H8 H9 H10 H11) 10 c).share_full fun _ => rfl) (X21 m H0 H1 H2 H3 H4 H5 H6 H7 H8 H9 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show ((pdats m H0 H1 H2 H3 H4 H5 H6 H7 H8 H9 H10 H11) 10 c).Φ 0 = Pipeline.ΦA spec10 c from rfl]; unfold Pipeline.ΦA
    iintro ⟨Hp, -, Hr⟩
    isplitl [Hr]; · iexact Hr
    iexact Hp
  hout c := by
    rw [Pipeline.ownSems0_none, show ((pdats m H0 H1 H2 H3 H4 H5 H6 H7 H8 H9 H10 H11) 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m H0 H1 H2 H3 H4 H5 H6 H7 H8 H9 H10 H11) (((pdats m H0 H1 H2 H3 H4 H5 H6 H7 H8 H9 H10 H11) 10 c).share_full fun _ => rfl)
      (X21 m H0 H1 H2 H3 H4 H5 H6 H7 H8 H9 c) (X22 m H0 H1 H2 H3 H4 H5 H6 H7 H8 H9 H10 c) (((pdats m H0 H1 H2 H3 H4 H5 H6 H7 H8 H9 H10 H11) 10 c).arrAt · cfg10.N) (hF10 m H0 H1 H2 H3 H4 H5 H6 H7 H8 H9 H10 c) (hrest10 m H0 H1 H2 H3 H4 H5 H6 H7 H8 H9 H10 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 11 as a segment: entered from the buffers at the chain's contents before it, left at the contents after it. -/
def reg11 : Pipeline.RegionSeg (pcfgs (F := F)) adm (pdats m H0 H1 H2 H3 H4 H5 H6 H7 H8 H9 H10 H11) () defs₀ 𝒱₀ L lv 11 where
  win := launch11.win.to₀
  block_pos := launch11.block_pos
  stage_whole := launch11.stage_whole
  K := PEmpty
  osem k := k.elim
  ho := Pipeline.OwnSemFacts.none _
  hbody c := (H11.hb (X23 m H0 H1 H2 H3 H4 H5 H6 H7 H8 H9 H10) c).loose
  hwaits := Pipeline.hwaits_of_owed_zero _ _ _ _ L lv 11 fun _ _ => rfl
  pre c := iprop(StableHlo.held (c : Thread nD τ) (Pipeline.ucRefs τ sig) (W23 m H0 H1 H2 H3 H4 H5 H6 H7 H8 H9 H10 c) ∗ Rst c)
  post c := iprop(StableHlo.held (c : Thread nD τ) (Pipeline.ucRefs τ sig) (W24 m H0 H1 H2 H3 H4 H5 H6 H7 H8 H9 H10 H11 c) ∗ Rst c)
  X c := iprop(∃ r, prngReg c r)
  Y c := iprop(∃ r, prngReg c r)
  Z c := Pipeline.unscopedRest (Ix := Unit) (Name := ℕ) (U := UR sig nD τ) (Lvl := ℕ) spec11 c (X23 m H0 H1 H2 H3 H4 H5 H6 H7 H8 H9 H10 c)
  hentry c := by
    rw [Pipeline.ownSems0_none]
    have hsplit := Pipeline.arrays_of_unscopedBufs (p := 11) (pcfgs (F := F)) adm (pdats m H0 H1 H2 H3 H4 H5 H6 H7 H8 H9 H10 H11) launch11.win launch11.arr_whole c
      (((pdats m H0 H1 H2 H3 H4 H5 H6 H7 H8 H9 H10 H11) 11 c).share_full fun _ => rfl) (X23 m H0 H1 H2 H3 H4 H5 H6 H7 H8 H9 H10 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show ((pdats m H0 H1 H2 H3 H4 H5 H6 H7 H8 H9 H10 H11) 11 c).Φ 0 = Pipeline.ΦA spec11 c from rfl]; unfold Pipeline.ΦA
    iintro ⟨Hp, -, Hr⟩
    isplitl [Hr]; · iexact Hr
    iexact Hp
  hout c := by
    rw [Pipeline.ownSems0_none, show ((pdats m H0 H1 H2 H3 H4 H5 H6 H7 H8 H9 H10 H11) 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m H0 H1 H2 H3 H4 H5 H6 H7 H8 H9 H10 H11) (((pdats m H0 H1 H2 H3 H4 H5 H6 H7 H8 H9 H10 H11) 11 c).share_full fun _ => rfl)
      (X23 m H0 H1 H2 H3 H4 H5 H6 H7 H8 H9 H10 c) (X24 m H0 H1 H2 H3 H4 H5 H6 H7 H8 H9 H10 H11 c) (((pdats m H0 H1 H2 H3 H4 H5 H6 H7 H8 H9 H10 H11) 11 c).arrAt · cfg11.N) (hF11 m H0 H1 H2 H3 H4 H5 H6 H7 H8 H9 H10 H11 c) (hrest11 m H0 H1 H2 H3 H4 H5 H6 H7 H8 H9 H10 H11 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

include H0 H1 H2 H3 H4 H5 H6 H7 H8 H9 H10 H11 in
set_option backward.isDefEq.respectTransparency.types false in
/-- THE FRAME of the kernel program, from its twelve regions' halves: from any memory with zero counters, every weakly fair
    execution of @main on the TensorCores terminates, nothing faulting, and every final state has the fourteen argument
    arrays as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Gen.frame_cond (m := m) (EP := emb₁) (ι := ()) (𝒱₀ := 𝒱₀) (L := L) (lv := lv) (hL := fun _ _ => rfl) (ρ := ρ)
    (outs := outs m H0 H1 H2 H3 H4 H5 H6 H7 H8 H9 H10 H11) (pdats := pdats m H0 H1 H2 H3 H4 H5 H6 H7 H8 H9 H10 H11) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rst c)
    (hE0 := by
      refine Pipeline.initEach L lv fun c => ?_
      iintro ⟨⟨-, HO, -, Hp, -⟩, -⟩
      imodintro
      isplitl [Hp]; · iexists _; iexact Hp
      iexists ∅; iexact HO)
    (hE12 := fun c => by iintro ⟨-, HO⟩; iexact HO)
    (R0 := reg0 m H0 H1 H2 H3 H4 H5 H6 H7 H8 H9 H10 H11)
    (hpre0 := fun c => by rw [V1_eq m c]; exact .rfl)
    (hpost0 := fun c => by rw [V2_eq m H0 H1 H2 H3 H4 H5 H6 H7 H8 H9 H10 H11 c]; exact .rfl)
    (R1 := reg1 m H0 H1 H2 H3 H4 H5 H6 H7 H8 H9 H10 H11)
    (hpre1 := fun c => by rw [V3_eq m H0 H1 H2 H3 H4 H5 H6 H7 H8 H9 H10 H11 c]; exact .rfl)
    (hpost1 := fun c => by rw [V4_eq m H0 H1 H2 H3 H4 H5 H6 H7 H8 H9 H10 H11 c]; exact .rfl)
    (R2 := reg2 m H0 H1 H2 H3 H4 H5 H6 H7 H8 H9 H10 H11)
    (hpre2 := fun c => by rw [V5_eq m H0 H1 H2 H3 H4 H5 H6 H7 H8 H9 H10 H11 c]; exact .rfl)
    (hpost2 := fun c => by rw [V6_eq m H0 H1 H2 H3 H4 H5 H6 H7 H8 H9 H10 H11 c]; exact .rfl)
    (R3 := reg3 m H0 H1 H2 H3 H4 H5 H6 H7 H8 H9 H10 H11)
    (hpre3 := fun c => by rw [V7_eq m H0 H1 H2 H3 H4 H5 H6 H7 H8 H9 H10 H11 c]; exact .rfl)
    (hpost3 := fun c => by rw [V8_eq m H0 H1 H2 H3 H4 H5 H6 H7 H8 H9 H10 H11 c]; exact .rfl)
    (R4 := reg4 m H0 H1 H2 H3 H4 H5 H6 H7 H8 H9 H10 H11)
    (hpre4 := fun c => by rw [V9_eq m H0 H1 H2 H3 H4 H5 H6 H7 H8 H9 H10 H11 c]; exact .rfl)
    (hpost4 := fun c => by rw [V10_eq m H0 H1 H2 H3 H4 H5 H6 H7 H8 H9 H10 H11 c]; exact .rfl)
    (R5 := reg5 m H0 H1 H2 H3 H4 H5 H6 H7 H8 H9 H10 H11)
    (hpre5 := fun c => by rw [V11_eq m H0 H1 H2 H3 H4 H5 H6 H7 H8 H9 H10 H11 c]; exact .rfl)
    (hpost5 := fun c => by rw [V12_eq m H0 H1 H2 H3 H4 H5 H6 H7 H8 H9 H10 H11 c]; exact .rfl)
    (R6 := reg6 m H0 H1 H2 H3 H4 H5 H6 H7 H8 H9 H10 H11)
    (hpre6 := fun c => by rw [V13_eq m H0 H1 H2 H3 H4 H5 H6 H7 H8 H9 H10 H11 c]; exact .rfl)
    (hpost6 := fun c => by rw [V14_eq m H0 H1 H2 H3 H4 H5 H6 H7 H8 H9 H10 H11 c]; exact .rfl)
    (R7 := reg7 m H0 H1 H2 H3 H4 H5 H6 H7 H8 H9 H10 H11)
    (hpre7 := fun c => by rw [V15_eq m H0 H1 H2 H3 H4 H5 H6 H7 H8 H9 H10 H11 c]; exact .rfl)
    (hpost7 := fun c => by rw [V16_eq m H0 H1 H2 H3 H4 H5 H6 H7 H8 H9 H10 H11 c]; exact .rfl)
    (R8 := reg8 m H0 H1 H2 H3 H4 H5 H6 H7 H8 H9 H10 H11)
    (hpre8 := fun c => by rw [V17_eq m H0 H1 H2 H3 H4 H5 H6 H7 H8 H9 H10 H11 c]; exact .rfl)
    (hpost8 := fun c => by rw [V18_eq m H0 H1 H2 H3 H4 H5 H6 H7 H8 H9 H10 H11 c]; exact .rfl)
    (R9 := reg9 m H0 H1 H2 H3 H4 H5 H6 H7 H8 H9 H10 H11)
    (hpre9 := fun c => by rw [V19_eq m H0 H1 H2 H3 H4 H5 H6 H7 H8 H9 H10 H11 c]; exact .rfl)
    (hpost9 := fun c => by rw [V20_eq m H0 H1 H2 H3 H4 H5 H6 H7 H8 H9 H10 H11 c]; exact .rfl)
    (R10 := reg10 m H0 H1 H2 H3 H4 H5 H6 H7 H8 H9 H10 H11)
    (hpre10 := fun c => by rw [V21_eq m H0 H1 H2 H3 H4 H5 H6 H7 H8 H9 H10 H11 c]; exact .rfl)
    (hpost10 := fun c => by rw [V22_eq m H0 H1 H2 H3 H4 H5 H6 H7 H8 H9 H10 H11 c]; exact .rfl)
    (R11 := reg11 m H0 H1 H2 H3 H4 H5 H6 H7 H8 H9 H10 H11)
    (hpre11 := fun c => by rw [V23_eq m H0 H1 H2 H3 H4 H5 H6 H7 H8 H9 H10 H11 c]; exact .rfl)
    (hpost11 := fun c => by rw [V24_eq m H0 H1 H2 H3 H4 H5 H6 H7 H8 H9 H10 H11 c]; exact .rfl)

end Cert.KernelIdeal.Asm

end
-- ==== Proof.KI.Reg0.lean ====
import proofs.«144276_j65051574665788_2_alg».proof.Proof.Gen.KernelIdeal.Launch
import proofs.«144276_j65051574665788_2_alg».proof.Proof.Gen.KernelIdeal.Skeleton
import proofs.«144276_j65051574665788_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- a rectangle of 5000 rows: membership of an index in it is checked one coordinate at a time, a deep recursion
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered
variable (V : (c : Dev nD) → (b : Ref sig .tc) → Buf (Elt F) ((c : Thread nD τ).loc b))

/-! # Region 0: the atom encoder, `o = x · W + b` on a block of 5000 rows, at the entry contents `V`

Four windows: the rows `x` (5000 × 48, a new block at every grid point), the weight `W` (48 × 128) and the bias `b`
(1 × 128), both the same block at every point, and the output rows `o` (5000 × 128, a new block at every point).
The body reads the three input blocks whole, reads the output buffer (the value is not used), and stores
`k0_pay1 x W b` over the whole output block. -/

/-! ## The blocks -/

/-- The block of window `w` at grid point `t`: the window's rectangle of its array, the array holding what `V` says. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's buffer holds its block when the body is called, whether the block was fetched at this point or
    stayed from the point before (the block index then did not move): for any proof data over `V`'s arrays whose body
    leaves that buffer as it found it. Window 0, the rows `x`. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for window 1, the weight `W`: fetched at the first point only, and every later point has the same block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The same for window 2, the bias `b`. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: each one a whole buffer -/

abbrev r0_x : Rect S5000x48 := Rect.unit (s := S5000x48) ![0, 0] S5000x48.size inb_S5000x48_S5000x48_0_0
abbrev r0_W : Rect S48x128 := Rect.unit (s := S48x128) ![0, 0] S48x128.size inb_S48x128_S48x128_0_0
abbrev r0_b : Rect S1x128 := Rect.unit (s := S1x128) ![0, 0] S1x128.size inb_S1x128_S1x128_0_0
abbrev r0_o : Rect S5000x128 := Rect.unit (s := S5000x128) ![0, 0] S5000x128.size inb_S5000x128_S5000x128_0_0

/-! ## The output buffer after the body -/

/-- The output window's buffer after the body, as a function of the three input blocks: one store over the whole
    buffer, of the payload `x · W + b` taken at what the three loads read. -/
def out0_3 (x : Vec F S5000x48 .f32) (W : Vec F S48x128 .f32) (b : Vec F S1x128 .f32) : Vec F S5000x128 .f32 :=
  View.canon [⟨r0_o, k0_pay1 (View.ld x r0_x) (View.ld W r0_W) (View.ld b r0_b)⟩]

/-- The one store's rectangle is the whole buffer, so every index lies in it. -/
theorem cover0_3 (p : Vec F S5000x128 .f32) (y : S5000x128.Idx) :
    ∃ pc ∈ ([⟨r0_o, p⟩] : List (View.Piece (Elt F) S5000x128 .f32)), y ∈ pc.1.set :=
  View.cover_of_tiled [⟨r0_o, p⟩] S5000x128.size (by rfl) y

/-! ## The body's triple -/

set_option maxHeartbeats 1000000 in
/-- The body on four whole staging memrefs — the inputs holding `x`, `W`, `b`, the output holding anything — ends with
    the inputs as they were and the output at `out0_3 x W b`. The printed function is its skeleton, three loads of the
    inputs, one load of the output whose value goes nowhere, and one store; run in that order they leave the claim. -/
theorem sound_kernel0 (c : Dev nD) (E : Set ℕ) (i : grid0.Coords)
    (a1 : Memref sig .tc .vmem S5000x48 .f32) (h1 : a1.IsWhole) (a2 : Memref sig .tc .vmem S48x128 .f32) (h2 : a2.IsWhole)
    (a3 : Memref sig .tc .vmem S1x128 .f32) (h3 : a3.IsWhole) (a4 : Memref sig .tc .vmem S5000x128 .f32) (h4 : a4.IsWhole)
    (x : Vec F S5000x48 .f32) (W : Vec F S48x128 .f32) (b : Vec F S1x128 .f32) (K : PUnit → sProp 𝕄) :
    iprop(owns (c : Thread nD τ) a1 fullShare x ∗ owns (c : Thread nD τ) a2 fullShare W ∗ owns (c : Thread nD τ) a3 fullShare b
        ∗ (∃ d, owns (c : Thread nD τ) a4 fullShare d)
        ∗ (iprop(owns (c : Thread nD τ) a1 fullShare x ∗ owns (c : Thread nD τ) a2 fullShare W ∗ owns (c : Thread nD τ) a3 fullShare b
            ∗ owns (c : Thread nD τ) a4 fullShare (out0_3 x W b)) -∗ K ⟨⟩))
      ⊢ wp frame (wpE (defs₀ (F := F)) Variants.none c none) E (cc0__atom_encode_kernel i a1 h1 a2 h2 a3 h3 a4 h4) K := by
  simp only [cc0__atom_encode_kernel_eq_skeleton]; unfold cc0__atom_encode_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_3 _)

/-! ## The proof data -/

/-- The proof data of the region on core `c`. The arrays hold what `V` says. After the body at point `t` each input's
    buffer holds its block still and the output's holds `out0_3` of the three blocks. The invariant is the scoped rest
    and the generator register, which the body does not touch; nothing is owed; every share is whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are `V`'s. -/
theorem A_eq0 (c : Dev nD) (w : Fin cfg0.W) : (dat0 V c).A w = V c (Pipeline.arrRef spec0 w) := by
  dsimp only [dat0]

/-- What the body leaves in each window's buffer. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- What the body finds in each input's buffer: the window's block at that point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

/-- What holds when the body is called at point `t`: the invariant, the core's debt, and each window's current
    staging memref owned whole at what the pipeline left in it; -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what holds when it returns: the same, each memref at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point. The three input memrefs hold their blocks, so the body's triple applies; the invariant
    and the debt are not read and pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the region, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Reg
-- ==== Proof.KI.Reg1.lean ====
import proofs.«144276_j65051574665788_2_alg».proof.Proof.Gen.KernelIdeal.Launch
import proofs.«144276_j65051574665788_2_alg».proof.Proof.Gen.KernelIdeal.Skeleton
import proofs.«144276_j65051574665788_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- a rectangle of 5000 rows: membership of an index in it is checked one coordinate at a time, a deep recursion
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered
variable (V : (c : Dev nD) → (b : Ref sig .tc) → Buf (Elt F) ((c : Thread nD τ).loc b))

/-! # Region 1: the edge-attribute projection, `o = (ea · W + ew · b) / denom` on a block of 5000 rows, at the entry contents `V`

Six windows: the summed edge attributes `ea` (5000 × 11), the weight `W` (11 × 128), the summed edge weights `ew`
(5000 × 1), the bias `b` (1 × 128), the divisor `denom` (5000 × 1) and the output rows `o` (5000 × 128). The row
windows take a new block at every grid point; `W` and `b` are the same block at every point. The body reads the five
input blocks whole, reads the output buffer (the value is not used), and stores `k1_pay1 ea W ew b denom` over the
whole output block. -/

/-! ## The blocks -/

/-- The block of window `w` at grid point `t`: the window's rectangle of its array, the array holding what `V` says. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's buffer holds its block when the body is called, whether the block was fetched at this point or
    stayed from the point before (the block index then did not move): for any proof data over `V`'s arrays whose body
    leaves that buffer as it found it. Window 0, the rows `ea`. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for window 1, the weight `W`: fetched at the first point only, and every later point has the same block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same for window 2, the column `ew`. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The same for window 3, the bias `b`: fetched at the first point only. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The same for window 4, the column `denom`. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes: each one a whole buffer -/

abbrev r1_ea : Rect S5000x11 := Rect.unit (s := S5000x11) ![0, 0] S5000x11.size inb_S5000x11_S5000x11_0_0
abbrev r1_W : Rect S11x128 := Rect.unit (s := S11x128) ![0, 0] S11x128.size inb_S11x128_S11x128_0_0
abbrev r1_col : Rect S5000x1 := Rect.unit (s := S5000x1) ![0, 0] S5000x1.size inb_S5000x1_S5000x1_0_0
abbrev r1_b : Rect S1x128 := Rect.unit (s := S1x128) ![0, 0] S1x128.size inb_S1x128_S1x128_0_0
abbrev r1_o : Rect S5000x128 := Rect.unit (s := S5000x128) ![0, 0] S5000x128.size inb_S5000x128_S5000x128_0_0

/-! ## The output buffer after the body -/

/-- The output window's buffer after the body, as a function of the five input blocks: one store over the whole
    buffer, of the payload `(ea · W + ew · b) / denom` taken at what the five loads read. -/
def out1_5 (ea : Vec F S5000x11 .f32) (W : Vec F S11x128 .f32) (ew : Vec F S5000x1 .f32) (b : Vec F S1x128 .f32)
    (dn : Vec F S5000x1 .f32) : Vec F S5000x128 .f32 :=
  View.canon [⟨r1_o, k1_pay1 (View.ld ea r1_ea) (View.ld W r1_W) (View.ld ew r1_col) (View.ld b r1_b) (View.ld dn r1_col)⟩]

/-- The one store's rectangle is the whole buffer, so every index lies in it. -/
theorem cover1_5 (p : Vec F S5000x128 .f32) (y : S5000x128.Idx) :
    ∃ pc ∈ ([⟨r1_o, p⟩] : List (View.Piece (Elt F) S5000x128 .f32)), y ∈ pc.1.set :=
  View.cover_of_tiled [⟨r1_o, p⟩] S5000x128.size (by rfl) y

/-! ## The body's triple -/

set_option maxHeartbeats 1000000 in
/-- The body on six whole staging memrefs — the inputs holding `ea`, `W`, `ew`, `b`, `dn`, the output holding anything —
    ends with the inputs as they were and the output at `out1_5` of them. The printed function is its skeleton, five
    loads of the inputs, one load of the output whose value goes nowhere, and one store; run in that order they leave
    the claim. -/
theorem sound_kernel1 (c : Dev nD) (E : Set ℕ) (i : grid1.Coords)
    (a1 : Memref sig .tc .vmem S5000x11 .f32) (h1 : a1.IsWhole) (a2 : Memref sig .tc .vmem S11x128 .f32) (h2 : a2.IsWhole)
    (a3 : Memref sig .tc .vmem S5000x1 .f32) (h3 : a3.IsWhole) (a4 : Memref sig .tc .vmem S1x128 .f32) (h4 : a4.IsWhole)
    (a5 : Memref sig .tc .vmem S5000x1 .f32) (h5 : a5.IsWhole) (a6 : Memref sig .tc .vmem S5000x128 .f32) (h6 : a6.IsWhole)
    (ea : Vec F S5000x11 .f32) (W : Vec F S11x128 .f32) (ew : Vec F S5000x1 .f32) (b : Vec F S1x128 .f32)
    (dn : Vec F S5000x1 .f32) (K : PUnit → sProp 𝕄) :
    iprop(owns (c : Thread nD τ) a1 fullShare ea ∗ owns (c : Thread nD τ) a2 fullShare W ∗ owns (c : Thread nD τ) a3 fullShare ew
        ∗ owns (c : Thread nD τ) a4 fullShare b ∗ owns (c : Thread nD τ) a5 fullShare dn
        ∗ (∃ d, owns (c : Thread nD τ) a6 fullShare d)
        ∗ (iprop(owns (c : Thread nD τ) a1 fullShare ea ∗ owns (c : Thread nD τ) a2 fullShare W ∗ owns (c : Thread nD τ) a3 fullShare ew
            ∗ owns (c : Thread nD τ) a4 fullShare b ∗ owns (c : Thread nD τ) a5 fullShare dn
            ∗ owns (c : Thread nD τ) a6 fullShare (out1_5 ea W ew b dn)) -∗ K ⟨⟩))
      ⊢ wp frame (wpE (defs₀ (F := F)) Variants.none c none) E (cc1__agg_ea_kernel i a1 h1 a2 h2 a3 h3 a4 h4 a5 h5 a6 h6) K := by
  simp only [cc1__agg_ea_kernel_eq_skeleton]; unfold cc1__agg_ea_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_5 _)

/-! ## The proof data -/

/-- The proof data of the region on core `c`. The arrays hold what `V` says. After the body at point `t` each input's
    buffer holds its block still and the output's holds `out1_5` of the five blocks. The invariant is the scoped rest
    and the generator register, which the body does not touch; nothing is owed; every share is whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are `V`'s. -/
theorem A_eq1 (c : Dev nD) (w : Fin cfg1.W) : (dat1 V c).A w = V c (Pipeline.arrRef spec1 w) := by
  dsimp only [dat1]

/-- What the body leaves in each window's buffer. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by
  dsimp only [dat1]

/-- What the body finds in each input's buffer: the window's block at that point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

/-- What holds when the body is called at point `t`: the invariant, the core's debt, and each window's current
    staging memref owned whole at what the pipeline left in it; -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what holds when it returns: the same, each memref at what the proof data says the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point. The five input memrefs hold their blocks, so the body's triple applies; the invariant
    and the debt are not read and pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the region, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Reg
-- ==== Proof.KI.Reg2.lean ====
import proofs.«144276_j65051574665788_2_alg».proof.Proof.Gen.KernelIdeal.Launch
import proofs.«144276_j65051574665788_2_alg».proof.Proof.Gen.KernelIdeal.Skeleton
import proofs.«144276_j65051574665788_2_alg».proof.Proof.Gen.KernelIdeal.Points
import Idealize.ShloMosaic.Lib.Pipeline.FrameBody
import Idealize.ShloMosaic.Lib.Ring
import Idealize.ShloMosaic.Lib.Tactic

/-! # Region 2 of @main: the layer transform, at the entry contents `V`

The body computes `agg·Wl + h·Wr + bl` into a row block of the first output and adds the block's column sums and
column sums of squares into the second and third outputs, whose single block is revisited at every grid point:
at the first point the two are zeroed first, at a later point they hold what the point before left. Hence two
control cases. Per case the body is run once on arbitrary whole memrefs, the stores it makes into each output
being the witness of the run; the outputs' contents point by point are then a recursion on the point, and the
body obligation follows by cases on the point. Everything is stated at a parameter `V`, the TensorCore's buffer
contents when the region is entered, and at any float instance. -/

-- membership in a rectangle with a long axis recurses once per coordinate
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof data
    whose array is the entry contents (`hA`) and whose body leaves the block in place (`hafter`): unfetched, the block
    index has not moved; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof data
    whose array is the entry contents (`hA`) and whose body leaves the block in place (`hafter`): unfetched, the block
    index has not moved; the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof data
    whose array is the entry contents (`hA`) and whose body leaves the block in place (`hafter`): unfetched, the block
    index has not moved; the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof data
    whose array is the entry contents (`hA`) and whose body leaves the block in place (`hafter`): unfetched, the block
    index has not moved; the window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof data
    whose array is the entry contents (`hA`) and whose body leaves the block in place (`hafter`): unfetched, the block
    index has not moved; the window is uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch condition -/

/-- The condition of the body's one conditional, from the grid coordinates: the point is the first. -/
abbrev cond2_0 (i : grid2.Coords) : Prop := (Scalar.cmpi .ne (Scalar.extui (Scalar.cmpi .eq (BitVec.ofNat 32 (i 0).val) 0#32)) 0#32) = 1#1
/-- It holds at the first point only: decided over the ten points. -/
theorem hcond2_0 : ∀ t : Fin cfg2.N, cond2_0 (grid2.coords t) ↔ t.val % 10 = 0 :=
  (by decide +kernel : ∀ t : Fin grid2.N, cond2_0 (grid2.coords t) ↔ t.val % 10 = 0)

/-! ## The staging memrefs -/

/-- One staging buffer of each output window, through which its contents are stated (a covering list of writes
    reads back the same through any view). -/
abbrev VO2_5 : View sig .tc .vmem S5000x128 .f32 := (Memref.whole cc2_stg5_0 : Memref sig .tc .vmem S5000x128 .f32).view
abbrev VO2_6 : View sig .tc .vmem S1x128 .f32 := (Memref.whole cc2_stg6_0 : Memref sig .tc .vmem S1x128 .f32).view
abbrev VO2_7 : View sig .tc .vmem S1x128 .f32 := (Memref.whole cc2_stg7_0 : Memref sig .tc .vmem S1x128 .f32).view
/-- Each window's current staging memref at point `t`, spelled as the pipeline passes it, and its wholeness. -/
abbrev ms2_0 (t : Fin cfg2.N) : Memref sig .tc .vmem S5000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S5000x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S128x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S128x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S5000x128 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x128 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x128 .f32 := win2_7.stage (cfg2.slots t 7)
abbrev hs2_7 (t : Fin cfg2.N) : (ms2_7 t).IsWhole := hstage2_7 ((cfg2.slots t 7).cast nbuf2_7)

/-! ## The body on any whole memrefs, case by case -/

set_option maxHeartbeats 1000000 in
/-- THE FIRST POINT. The pieces the body's stores leave in each output's memref (last first), with the proof that on
    whole memrefs — the inputs' at contents `x·`, the outputs' at anything — the body runs to the continuation
    holding the inputs' as they were and each output's with its pieces written. The conditional is taken: the two
    accumulators are zeroed, then read back and added to. -/
noncomputable def kernelRun2_A (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : cond2_0 i)
    (x0 : Vec F S5000x128 .f32) (x1 : Vec F S5000x128 .f32) (x2 : Vec F S128x128 .f32) (x3 : Vec F S128x128 .f32) (x4 : Vec F S1x128 .f32) :
    Σ' (L5 : List (View.Piece (Elt F) S5000x128 .f32)) (L6 : List (View.Piece (Elt F) S1x128 .f32)), { L7 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc2__layer_transform_kernel i arg1 harg1 arg2 harg2 arg3 harg3 arg4 harg4 arg5 harg5 arg6 harg6 arg7 harg7 arg8 harg8) K } := by
  refine ⟨?_, ?_, ?_, fun E K => ?run⟩
  case run =>
    simp only [cc2__layer_transform_kernel_eq_skeleton]; unfold cc2__layer_transform_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    iexists _; iexact H7

set_option maxHeartbeats 1000000 in
/-- A LATER POINT. The same with the conditional not taken: the two accumulators' memrefs are handed over at the
    running contents `xo6`, `xo7`, which the body reads before it covers them. -/
noncomputable def kernelRun2_B (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i)
    (x0 : Vec F S5000x128 .f32) (x1 : Vec F S5000x128 .f32) (x2 : Vec F S128x128 .f32) (x3 : Vec F S128x128 .f32) (x4 : Vec F S1x128 .f32) (xo6 : Vec F S1x128 .f32) (xo7 : Vec F S1x128 .f32) :
    Σ' (L5 : List (View.Piece (Elt F) S5000x128 .f32)) (L6 : List (View.Piece (Elt F) S1x128 .f32)), { L7 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ owns (c : Thread nD τ) arg7 fullShare xo6 ∗ owns (c : Thread nD τ) arg8 fullShare xo7
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc2__layer_transform_kernel i arg1 harg1 arg2 harg2 arg3 harg3 arg4 harg4 arg5 harg5 arg6 harg6 arg7 harg7 arg8 harg8) K } := by
  refine ⟨?_, ?_, ?_, fun E K => ?run⟩
  case run =>
    simp only [cc2__layer_transform_kernel_eq_skeleton]; unfold cc2__layer_transform_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
    obtain rfl := harg1.eq_unread hf0; obtain rfl := harg2.eq_unread hf1; obtain rfl := harg3.eq_unread hf2
    obtain rfl := harg4.eq_unread hf3; obtain rfl := harg5.eq_unread hf4
    obtain rfl := harg7.eq_unread hf6; obtain rfl := harg8.eq_unread hf7
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    iexists _; iexact H7

/-! ## The pieces cover the outputs' blocks -/

/-- Case A's pieces for output 5 tile its block, so they cover it. -/
theorem cover2_A_5 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : cond2_0 i)
    (x0 : Vec F S5000x128 .f32) (x1 : Vec F S5000x128 .f32) (x2 : Vec F S128x128 .f32) (x3 : Vec F S128x128 .f32) (x4 : Vec F S1x128 .f32) (y : S5000x128.Idx) :
    ∃ pc ∈ (kernelRun2_A c i arg1 harg1 arg2 harg2 arg3 harg3 arg4 harg4 arg5 harg5 arg6 harg6 arg7 harg7 arg8 harg8 hc0 x0 x1 x2 x3 x4).1, y ∈ pc.1.set :=
  View.cover_of_tiledL (kernelRun2_A c i arg1 harg1 arg2 harg2 arg3 harg3 arg4 harg4 arg5 harg5 arg6 harg6 arg7 harg7 arg8 harg8 hc0 x0 x1 x2 x3 x4).1 S5000x128.size (by sl_kernel_rfl) y

/-- Case A's pieces for output 6 tile its block, so they cover it. -/
theorem cover2_A_6 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : cond2_0 i)
    (x0 : Vec F S5000x128 .f32) (x1 : Vec F S5000x128 .f32) (x2 : Vec F S128x128 .f32) (x3 : Vec F S128x128 .f32) (x4 : Vec F S1x128 .f32) (y : S1x128.Idx) :
    ∃ pc ∈ (kernelRun2_A c i arg1 harg1 arg2 harg2 arg3 harg3 arg4 harg4 arg5 harg5 arg6 harg6 arg7 harg7 arg8 harg8 hc0 x0 x1 x2 x3 x4).2.1, y ∈ pc.1.set :=
  View.cover_of_tiledL (kernelRun2_A c i arg1 harg1 arg2 harg2 arg3 harg3 arg4 harg4 arg5 harg5 arg6 harg6 arg7 harg7 arg8 harg8 hc0 x0 x1 x2 x3 x4).2.1 S1x128.size (by sl_kernel_rfl) y

/-- Case A's pieces for output 7 tile its block, so they cover it. -/
theorem cover2_A_7 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : cond2_0 i)
    (x0 : Vec F S5000x128 .f32) (x1 : Vec F S5000x128 .f32) (x2 : Vec F S128x128 .f32) (x3 : Vec F S128x128 .f32) (x4 : Vec F S1x128 .f32) (y : S1x128.Idx) :
    ∃ pc ∈ (kernelRun2_A c i arg1 harg1 arg2 harg2 arg3 harg3 arg4 harg4 arg5 harg5 arg6 harg6 arg7 harg7 arg8 harg8 hc0 x0 x1 x2 x3 x4).2.2.1, y ∈ pc.1.set :=
  View.cover_of_tiledL (kernelRun2_A c i arg1 harg1 arg2 harg2 arg3 harg3 arg4 harg4 arg5 harg5 arg6 harg6 arg7 harg7 arg8 harg8 hc0 x0 x1 x2 x3 x4).2.2.1 S1x128.size (by sl_kernel_rfl) y

/-- Case B's pieces for output 5 tile its block, so they cover it. -/
theorem cover2_B_5 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i)
    (x0 : Vec F S5000x128 .f32) (x1 : Vec F S5000x128 .f32) (x2 : Vec F S128x128 .f32) (x3 : Vec F S128x128 .f32) (x4 : Vec F S1x128 .f32) (xo6 : Vec F S1x128 .f32) (xo7 : Vec F S1x128 .f32) (y : S5000x128.Idx) :
    ∃ pc ∈ (kernelRun2_B c i arg1 harg1 arg2 harg2 arg3 harg3 arg4 harg4 arg5 harg5 arg6 harg6 arg7 harg7 arg8 harg8 hc0 x0 x1 x2 x3 x4 xo6 xo7).1, y ∈ pc.1.set :=
  View.cover_of_tiledL (kernelRun2_B c i arg1 harg1 arg2 harg2 arg3 harg3 arg4 harg4 arg5 harg5 arg6 harg6 arg7 harg7 arg8 harg8 hc0 x0 x1 x2 x3 x4 xo6 xo7).1 S5000x128.size (by sl_kernel_rfl) y

/-- Case B's pieces for output 6 tile its block, so they cover it. -/
theorem cover2_B_6 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i)
    (x0 : Vec F S5000x128 .f32) (x1 : Vec F S5000x128 .f32) (x2 : Vec F S128x128 .f32) (x3 : Vec F S128x128 .f32) (x4 : Vec F S1x128 .f32) (xo6 : Vec F S1x128 .f32) (xo7 : Vec F S1x128 .f32) (y : S1x128.Idx) :
    ∃ pc ∈ (kernelRun2_B c i arg1 harg1 arg2 harg2 arg3 harg3 arg4 harg4 arg5 harg5 arg6 harg6 arg7 harg7 arg8 harg8 hc0 x0 x1 x2 x3 x4 xo6 xo7).2.1, y ∈ pc.1.set :=
  View.cover_of_tiledL (kernelRun2_B c i arg1 harg1 arg2 harg2 arg3 harg3 arg4 harg4 arg5 harg5 arg6 harg6 arg7 harg7 arg8 harg8 hc0 x0 x1 x2 x3 x4 xo6 xo7).2.1 S1x128.size (by sl_kernel_rfl) y

/-- Case B's pieces for output 7 tile its block, so they cover it. -/
theorem cover2_B_7 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i)
    (x0 : Vec F S5000x128 .f32) (x1 : Vec F S5000x128 .f32) (x2 : Vec F S128x128 .f32) (x3 : Vec F S128x128 .f32) (x4 : Vec F S1x128 .f32) (xo6 : Vec F S1x128 .f32) (xo7 : Vec F S1x128 .f32) (y : S1x128.Idx) :
    ∃ pc ∈ (kernelRun2_B c i arg1 harg1 arg2 harg2 arg3 harg3 arg4 harg4 arg5 harg5 arg6 harg6 arg7 harg7 arg8 harg8 hc0 x0 x1 x2 x3 x4 xo6 xo7).2.2.1, y ∈ pc.1.set :=
  View.cover_of_tiledL (kernelRun2_B c i arg1 harg1 arg2 harg2 arg3 harg3 arg4 harg4 arg5 harg5 arg6 harg6 arg7 harg7 arg8 harg8 hc0 x0 x1 x2 x3 x4 xo6 xo7).2.2.1 S1x128.size (by sl_kernel_rfl) y

/-! ## What the outputs hold after each point -/

/-- The first-point run at point `t`'s memrefs and input blocks. -/
abbrev runA2 (c : Dev nD) (t : Fin cfg2.N) (h0 : t.val % 10 = 0) :=
  kernelRun2_A (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) ((hcond2_0 t).mpr h0) (iblk2 V c 0 t) (iblk2 V c 1 t) (iblk2 V c 2 t) (iblk2 V c 3 t) (iblk2 V c 4 t)

/-- The later-point run at point `t`'s memrefs and input blocks, the accumulators at `xo6`, `xo7`. -/
abbrev runB2 (c : Dev nD) (t : Fin cfg2.N) (h0 : ¬t.val % 10 = 0) (xo6 : Vec F S1x128 .f32) (xo7 : Vec F S1x128 .f32) :=
  kernelRun2_B (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (fun h => h0 ((hcond2_0 t).mp h)) (iblk2 V c 0 t) (iblk2 V c 1 t) (iblk2 V c 2 t) (iblk2 V c 3 t) (iblk2 V c 4 t) xo6 xo7

/-- What the first-point case leaves in the three outputs' staging buffers: its pieces read back over junk. -/
def outsA2 (c : Dev nD) (t : Fin cfg2.N) (h0 : t.val % 10 = 0) : Vec F S5000x128 .f32 × Vec F S1x128 .f32 × Vec F S1x128 .f32 :=
  (VO2_5.read (Elt F) (VO2_5.writes (Elt F) VO2_5.junk (runA2 V c t h0).1),
   VO2_6.read (Elt F) (VO2_6.writes (Elt F) VO2_6.junk (runA2 V c t h0).2.1),
   VO2_7.read (Elt F) (VO2_7.writes (Elt F) VO2_7.junk (runA2 V c t h0).2.2.1))

/-- What the later-point case leaves there, over accumulators at `xo6`, `xo7`. -/
def outsB2 (c : Dev nD) (t : Fin cfg2.N) (h0 : ¬t.val % 10 = 0) (xo6 : Vec F S1x128 .f32) (xo7 : Vec F S1x128 .f32) :
    Vec F S5000x128 .f32 × Vec F S1x128 .f32 × Vec F S1x128 .f32 :=
  (VO2_5.read (Elt F) (VO2_5.writes (Elt F) VO2_5.junk (runB2 V c t h0 xo6 xo7).1),
   VO2_6.read (Elt F) (VO2_6.writes (Elt F) VO2_6.junk (runB2 V c t h0 xo6 xo7).2.1),
   VO2_7.read (Elt F) (VO2_7.writes (Elt F) VO2_7.junk (runB2 V c t h0 xo6 xo7).2.2.1))

/-- THE ACCUMULATION. What the three outputs' staging buffers hold after the body at position `n`: the case the
    point is in, run at the point's memrefs and input blocks, the two accumulators at what this leaves at `n - 1`
    (their buffer is not written back in between). -/
def outsAt2 (c : Dev nD) : (n : ℕ) → n < cfg2.N → Vec F S5000x128 .f32 × Vec F S1x128 .f32 × Vec F S1x128 .f32
  | 0, hn => outsA2 V c ⟨0, hn⟩ (Nat.zero_mod _)
  | n + 1, hn =>
    if h0 : (n + 1) % 10 = 0 then
      outsA2 V c ⟨n + 1, hn⟩ h0
    else
      outsB2 V c ⟨n + 1, hn⟩ h0 (outsAt2 c n (Nat.lt_of_succ_lt hn)).2.1 (outsAt2 c n (Nat.lt_of_succ_lt hn)).2.2

/-- `outsAt2` at a first point: that case's contents. -/
theorem outsAt2_A (c : Dev nD) (t : Fin cfg2.N) (h0 : t.val % 10 = 0) :
    outsAt2 V c t.val t.isLt = outsA2 V c t h0 := by
  obtain ⟨n, hn⟩ := t
  cases n with
  | zero => exact rfl
  | succ n => exact (dif_pos h0).trans rfl

/-- `outsAt2` at a later point: that case's contents, over what the point before left. -/
theorem outsAt2_B (c : Dev nD) (t : Fin cfg2.N) (h0 : ¬t.val % 10 = 0) :
    outsAt2 V c t.val t.isLt = outsB2 V c t h0
      (outsAt2 V c (t.val - 1) (Nat.lt_of_le_of_lt (Nat.sub_le _ _) t.isLt)).2.1
      (outsAt2 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans rfl

/-! ## The pipeline's proof data -/

/-- The proof data of the region's pipeline on core `c`: the arrays as the region finds them (`V`); after the body
    at point `t` each input's buffer at its block and the outputs' at `outsAt2`; the invariant the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
    | ⟨6, _⟩ => (outsAt2 V c t.val t.isLt).2.1
    | ⟨7, _⟩ => (outsAt2 V c t.val t.isLt).2.2
  Φ _ := Pipeline.ΦA spec2 c
  q _ := fullShare
  owed _ := 0

/-- The proof data's arrays are the region-entry contents (the definition projected). -/
theorem A_eq2 (c : Dev nD) (w : Fin cfg2.W) : (dat2 V c).A w = V c (Pipeline.arrRef spec2 w) := by
  dsimp only [dat2]

/-- What the body leaves, window by window (the definition's `match` reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).1 := by dsimp only [dat2]
theorem after2_6 (c : Dev nD) (t : Fin cfg2.N) : (dat2 V c).after 6 t = (outsAt2 V c t.val t.isLt).2.1 := by dsimp only [dat2]
theorem after2_7 (c : Dev nD) (t : Fin cfg2.N) : (dat2 V c).after 7 t = (outsAt2 V c t.val t.isLt).2.2 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- At a later point output 6's staging buffer holds what the body left at the point before: the buffer is written
    back at the last point only, and the window is live and uncut. -/
theorem before2_6_B (c : Dev nD) (t : Fin cfg2.N) (h0 : ¬t.val % 10 = 0) (d) :
    (dat2 V c).before 6 t d = (outsAt2 V c (t.val - 1) (Nat.lt_of_le_of_lt (Nat.sub_le _ _) t.isLt)).2.1 := by
  have hN : t.val < 10 := lt_of_lt_of_eq t.isLt (show cfg2.N = 10 from N_2)
  rw [Dat.before_out_kept _ 6 rfl t (by omega) (Bool.eq_false_iff.mpr fun h => by have := (flush2_6 _).mp h; dsimp only at this; omega)
    (fun _ => rfl) (fun _ _ => rfl)]
  dsimp only [dat2]

/-- At a later point output 7's staging buffer holds what the body left at the point before: the buffer is written
    back at the last point only, and the window is live and uncut. -/
theorem before2_7_B (c : Dev nD) (t : Fin cfg2.N) (h0 : ¬t.val % 10 = 0) (d) :
    (dat2 V c).before 7 t d = (outsAt2 V c (t.val - 1) (Nat.lt_of_le_of_lt (Nat.sub_le _ _) t.isLt)).2.2 := by
  have hN : t.val < 10 := lt_of_lt_of_eq t.isLt (show cfg2.N = 10 from N_2)
  rw [Dat.before_out_kept _ 7 rfl t (by omega) (Bool.eq_false_iff.mpr fun h => by have := (flush2_7 _).mp h; dsimp only at this; omega)
    (fun _ => rfl) (fun _ _ => rfl)]
  dsimp only [dat2]

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t)
    ∗ owns (c : Thread nD τ) (ms2_6 t) fullShare ((dat2 V c).after 6 t)
    ∗ owns (c : Thread nD τ) (ms2_7 t) fullShare ((dat2 V c).after 7 t))

set_option maxHeartbeats 1600000 in
/-- The body at any point: the inputs' memrefs hold their blocks; the closed form of the condition says which case
    the point is in; at a later point the two accumulators hold what the point before left; so the case's run
    applies, and its pieces, covering each output's block, read back as `outsAt2` says. The invariant passes
    through unread and the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  have hN : t.val < 10 := lt_of_lt_of_eq t.isLt (show cfg2.N = 10 from N_2)
  by_cases h0 : t.val % 10 = 0
  · rw [outsAt2_A V c t h0]
    unfold outsA2; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runA2 V c t h0).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    iintro ⟨H0, H1, H2, H3, H4, ⟨%e5, H5⟩, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover2_A_5 c _ _ _ _ _ _ _ _ _ _ _ _ _ _ _ _ _ _ _ _ _ _ _)
    isplitl [H6]
    · unfold owns; iexists _; isplitr
      swap; · iexact H6
      ipureintro; exact View.read_writes_of_cover _ _ _ _ _ (cover2_A_6 c _ _ _ _ _ _ _ _ _ _ _ _ _ _ _ _ _ _ _ _ _ _ _)
    unfold owns; iexists _; isplitr
    swap; · iexact H7
    ipureintro; exact View.read_writes_of_cover _ _ _ _ _ (cover2_A_7 c _ _ _ _ _ _ _ _ _ _ _ _ _ _ _ _ _ _ _ _ _ _ _)
  · rw [outsAt2_B V c t h0]
    simp only [before2_6_B V c t h0, before2_7_B V c t h0]
    unfold outsB2; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runB2 V c t h0 _ _).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    iintro ⟨H0, H1, H2, H3, H4, ⟨%e5, H5⟩, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover2_B_5 c _ _ _ _ _ _ _ _ _ _ _ _ _ _ _ _ _ _ _ _ _ _ _ _ _)
    isplitl [H6]
    · unfold owns; iexists _; isplitr
      swap; · iexact H6
      ipureintro; exact View.read_writes_of_cover _ _ _ _ _ (cover2_B_6 c _ _ _ _ _ _ _ _ _ _ _ _ _ _ _ _ _ _ _ _ _ _ _ _ _)
    unfold owns; iexists _; isplitr
    swap; · iexact H7
    ipureintro; exact View.read_writes_of_cover _ _ _ _ _ (cover2_B_7 c _ _ _ _ _ _ _ _ _ _ _ _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Reg

end
-- ==== Proof.KI.Reg3.lean ====
import proofs.«144276_j65051574665788_2_alg».proof.Proof.Gen.KernelIdeal.Launch
import proofs.«144276_j65051574665788_2_alg».proof.Proof.Gen.KernelIdeal.Skeleton
import proofs.«144276_j65051574665788_2_alg».proof.Proof.Gen.KernelIdeal.Points
import Idealize.ShloMosaic.Lib.Pipeline.FrameBody
import Idealize.ShloMosaic.Lib.Ring
import Idealize.ShloMosaic.Lib.Tactic

/-! # Region 3 of @main: the normalisation and pooling call, at the entry contents `V`

The body's half of the region's frame: for any contents `V` of the core's buffers at the region's entry, the
proof data of the pipeline (what every window's staging buffer holds before and after the body at every grid
point) and the body obligation — the body, run at any grid point on buffers holding what the data say, ends
with them holding what the data say, touching nothing else.

The body has two control cases. At the first grid point the pooled-sum block (window 7) is zeroed and then
added to; at every later point it is read at what the point before left and added to. The normalised block
(window 6) is stored whole at every point. What the two outputs hold after each point is therefore a recursion
on the point, the pooled-sum block carried from the point before. -/

-- membership in a rectangle of large extents recurses once per coordinate of the long axes
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0: its current staging buffer holds its block at every point, whether fetched there or not
    (unfetched, the block index has not moved since the fetch), for any proof data whose array is `V`'s and whose
    body leaves the block in place; the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1: its current staging buffer holds its block at every point, whether fetched there or not
    (unfetched, the block index has not moved since the fetch), for any proof data whose array is `V`'s and whose
    body leaves the block in place; the window is uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2: its current staging buffer holds its block at every point, whether fetched there or not
    (unfetched, the block index has not moved since the fetch), for any proof data whose array is `V`'s and whose
    body leaves the block in place; the window is uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3: its current staging buffer holds its block at every point, whether fetched there or not
    (unfetched, the block index has not moved since the fetch), for any proof data whose array is `V`'s and whose
    body leaves the block in place; the window is uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4: its current staging buffer holds its block at every point, whether fetched there or not
    (unfetched, the block index has not moved since the fetch), for any proof data whose array is `V`'s and whose
    body leaves the block in place; the window is uncut and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5: its current staging buffer holds its block at every point, whether fetched there or not
    (unfetched, the block index has not moved since the fetch), for any proof data whose array is `V`'s and whose
    body leaves the block in place; the window is uncut and never idle. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-! ## The body's branch condition -/

/-- The condition of the body's one conditional, as a function of the grid coordinates: "this is point 0". -/
abbrev cond3_0 (i : grid3.Coords) : Prop := (Scalar.cmpi .ne (Scalar.extui (Scalar.cmpi .eq (BitVec.ofNat 32 (i 0).val) 0#32)) 0#32) = 1#1
/-- It holds at the first point only — decided over the ten points of the grid. -/
theorem hcond3_0 : ∀ t : Fin cfg3.N, cond3_0 (grid3.coords t) ↔ t.val % 10 = 0 :=
  (by decide +kernel : ∀ t : Fin grid3.N, cond3_0 (grid3.coords t) ↔ t.val % 10 = 0)

/-! ## The staging memrefs -/

/-- One staging buffer of each output window, through which its contents are stated (a covering list of writes
    reads back the same through any view of the shape). -/
abbrev VO3_6 : View sig .tc .vmem S5000x128 .f32 := (Memref.whole cc3_stg6_0 : Memref sig .tc .vmem S5000x128 .f32).view
abbrev VO3_7 : View sig .tc .vmem S128x128 .f32 := (Memref.whole cc3_stg7_0 : Memref sig .tc .vmem S128x128 .f32).view
/-- Each window's current staging memref at point `t`, spelled as the pipeline passes it to the body, and its wholeness. -/
abbrev ms3_0 (t : Fin cfg3.N) : Memref sig .tc .vmem S5000x128 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x128 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x128 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x128 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x128 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S5000x1 .i32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S5000x128 .f32 := win3_6.stage (cfg3.slots t 6)
abbrev hs3_6 (t : Fin cfg3.N) : (ms3_6 t).IsWhole := hstage3_6 ((cfg3.slots t 6).cast nbuf3_6)
abbrev ms3_7 (t : Fin cfg3.N) : Memref sig .tc .vmem S128x128 .f32 := win3_7.stage (cfg3.slots t 7)
abbrev hs3_7 (t : Fin cfg3.N) : (ms3_7 t).IsWhole := hstage3_7 ((cfg3.slots t 7).cast nbuf3_7)

/-! ## The body on any staging memrefs, case by case -/

set_option maxHeartbeats 1000000 in
/-- CASE A (the first point: the conditional taken). The pieces the body's stores leave in the two outputs' staging
    memrefs (last first), with the proof that on whole staging memrefs — the inputs' at contents `x·`, the outputs'
    at anything — the body runs to a continuation that is handed the inputs' as they were and each output's buffer
    with its pieces written. The pooled-sum block is zeroed before it is read, so what it held does not matter. -/
noncomputable def kernelRun3_A (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : cond3_0 i)
    (x0 : Vec F S5000x128 .f32) (x1 : Vec F S1x128 .f32) (x2 : Vec F S1x128 .f32) (x3 : Vec F S1x128 .f32) (x4 : Vec F S1x128 .f32) (x5 : Vec F S5000x1 .i32) :
    Σ' (L6 : List (View.Piece (Elt F) S5000x128 .f32)), { L7 : List (View.Piece (Elt F) S128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc3_kernel i arg1 harg1 arg2 harg2 arg3 harg3 arg4 harg4 arg5 harg5 arg6 harg6 arg7 harg7 arg8 harg8) K } := by
  refine ⟨?_, ?_, fun E K => ?run⟩
  case run =>
    simp only [cc3_kernel_eq_skeleton]; unfold cc3_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact H7

set_option maxHeartbeats 1000000 in
/-- CASE B (a later point: the conditional not taken). As case A, but the pooled-sum block is read before it is
    stored: its buffer is taken at the running contents `xo7`, which the pieces mention. -/
noncomputable def kernelRun3_B (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : ¬cond3_0 i)
    (x0 : Vec F S5000x128 .f32) (x1 : Vec F S1x128 .f32) (x2 : Vec F S1x128 .f32) (x3 : Vec F S1x128 .f32) (x4 : Vec F S1x128 .f32) (x5 : Vec F S5000x1 .i32) (xo7 : Vec F S128x128 .f32) :
    Σ' (L6 : List (View.Piece (Elt F) S5000x128 .f32)), { L7 : List (View.Piece (Elt F) S128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xo7
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc3_kernel i arg1 harg1 arg2 harg2 arg3 harg3 arg4 harg4 arg5 harg5 arg6 harg6 arg7 harg7 arg8 harg8) K } := by
  refine ⟨?_, ?_, fun E K => ?run⟩
  case run =>
    simp only [cc3_kernel_eq_skeleton]; unfold cc3_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact H7

/-! ## What each case leaves in the outputs -/

/-- Case A's pieces for output 6 tile its block, so they cover it. -/
theorem cover3_A_6 (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : cond3_0 i)
    (x0 : Vec F S5000x128 .f32) (x1 : Vec F S1x128 .f32) (x2 : Vec F S1x128 .f32) (x3 : Vec F S1x128 .f32) (x4 : Vec F S1x128 .f32) (x5 : Vec F S5000x1 .i32) (y : S5000x128.Idx) :
    ∃ pc ∈ (kernelRun3_A c i arg1 harg1 arg2 harg2 arg3 harg3 arg4 harg4 arg5 harg5 arg6 harg6 arg7 harg7 arg8 harg8 hc0 x0 x1 x2 x3 x4 x5).1, y ∈ pc.1.set :=
  View.cover_of_tiledL (kernelRun3_A c i arg1 harg1 arg2 harg2 arg3 harg3 arg4 harg4 arg5 harg5 arg6 harg6 arg7 harg7 arg8 harg8 hc0 x0 x1 x2 x3 x4 x5).1 S5000x128.size (by sl_kernel_rfl) y

/-- What case A leaves in output 6's staging buffer: its pieces read back over junk. -/
def out3_A_6 (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : cond3_0 i)
    (x0 : Vec F S5000x128 .f32) (x1 : Vec F S1x128 .f32) (x2 : Vec F S1x128 .f32) (x3 : Vec F S1x128 .f32) (x4 : Vec F S1x128 .f32) (x5 : Vec F S5000x1 .i32) : Vec F S5000x128 .f32 :=
  VO3_6.read (Elt F) (VO3_6.writes (Elt F) VO3_6.junk (kernelRun3_A c i arg1 harg1 arg2 harg2 arg3 harg3 arg4 harg4 arg5 harg5 arg6 harg6 arg7 harg7 arg8 harg8 hc0 x0 x1 x2 x3 x4 x5).1)

/-- Case A's pieces for output 7 tile its block, so they cover it. -/
theorem cover3_A_7 (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : cond3_0 i)
    (x0 : Vec F S5000x128 .f32) (x1 : Vec F S1x128 .f32) (x2 : Vec F S1x128 .f32) (x3 : Vec F S1x128 .f32) (x4 : Vec F S1x128 .f32) (x5 : Vec F S5000x1 .i32) (y : S128x128.Idx) :
    ∃ pc ∈ (kernelRun3_A c i arg1 harg1 arg2 harg2 arg3 harg3 arg4 harg4 arg5 harg5 arg6 harg6 arg7 harg7 arg8 harg8 hc0 x0 x1 x2 x3 x4 x5).2.1, y ∈ pc.1.set :=
  View.cover_of_tiledL (kernelRun3_A c i arg1 harg1 arg2 harg2 arg3 harg3 arg4 harg4 arg5 harg5 arg6 harg6 arg7 harg7 arg8 harg8 hc0 x0 x1 x2 x3 x4 x5).2.1 S128x128.size (by sl_kernel_rfl) y

/-- What case A leaves in output 7's staging buffer: its pieces read back over junk. -/
def out3_A_7 (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : cond3_0 i)
    (x0 : Vec F S5000x128 .f32) (x1 : Vec F S1x128 .f32) (x2 : Vec F S1x128 .f32) (x3 : Vec F S1x128 .f32) (x4 : Vec F S1x128 .f32) (x5 : Vec F S5000x1 .i32) : Vec F S128x128 .f32 :=
  VO3_7.read (Elt F) (VO3_7.writes (Elt F) VO3_7.junk (kernelRun3_A c i arg1 harg1 arg2 harg2 arg3 harg3 arg4 harg4 arg5 harg5 arg6 harg6 arg7 harg7 arg8 harg8 hc0 x0 x1 x2 x3 x4 x5).2.1)

/-- Case B's pieces for output 6 tile its block, so they cover it. -/
theorem cover3_B_6 (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : ¬cond3_0 i)
    (x0 : Vec F S5000x128 .f32) (x1 : Vec F S1x128 .f32) (x2 : Vec F S1x128 .f32) (x3 : Vec F S1x128 .f32) (x4 : Vec F S1x128 .f32) (x5 : Vec F S5000x1 .i32) (xo7 : Vec F S128x128 .f32) (y : S5000x128.Idx) :
    ∃ pc ∈ (kernelRun3_B c i arg1 harg1 arg2 harg2 arg3 harg3 arg4 harg4 arg5 harg5 arg6 harg6 arg7 harg7 arg8 harg8 hc0 x0 x1 x2 x3 x4 x5 xo7).1, y ∈ pc.1.set :=
  View.cover_of_tiledL (kernelRun3_B c i arg1 harg1 arg2 harg2 arg3 harg3 arg4 harg4 arg5 harg5 arg6 harg6 arg7 harg7 arg8 harg8 hc0 x0 x1 x2 x3 x4 x5 xo7).1 S5000x128.size (by sl_kernel_rfl) y

/-- What case B leaves in output 6's staging buffer: its pieces read back over junk. -/
def out3_B_6 (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : ¬cond3_0 i)
    (x0 : Vec F S5000x128 .f32) (x1 : Vec F S1x128 .f32) (x2 : Vec F S1x128 .f32) (x3 : Vec F S1x128 .f32) (x4 : Vec F S1x128 .f32) (x5 : Vec F S5000x1 .i32) (xo7 : Vec F S128x128 .f32) : Vec F S5000x128 .f32 :=
  VO3_6.read (Elt F) (VO3_6.writes (Elt F) VO3_6.junk (kernelRun3_B c i arg1 harg1 arg2 harg2 arg3 harg3 arg4 harg4 arg5 harg5 arg6 harg6 arg7 harg7 arg8 harg8 hc0 x0 x1 x2 x3 x4 x5 xo7).1)

/-- Case B's pieces for output 7 tile its block, so they cover it. -/
theorem cover3_B_7 (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : ¬cond3_0 i)
    (x0 : Vec F S5000x128 .f32) (x1 : Vec F S1x128 .f32) (x2 : Vec F S1x128 .f32) (x3 : Vec F S1x128 .f32) (x4 : Vec F S1x128 .f32) (x5 : Vec F S5000x1 .i32) (xo7 : Vec F S128x128 .f32) (y : S128x128.Idx) :
    ∃ pc ∈ (kernelRun3_B c i arg1 harg1 arg2 harg2 arg3 harg3 arg4 harg4 arg5 harg5 arg6 harg6 arg7 harg7 arg8 harg8 hc0 x0 x1 x2 x3 x4 x5 xo7).2.1, y ∈ pc.1.set :=
  View.cover_of_tiledL (kernelRun3_B c i arg1 harg1 arg2 harg2 arg3 harg3 arg4 harg4 arg5 harg5 arg6 harg6 arg7 harg7 arg8 harg8 hc0 x0 x1 x2 x3 x4 x5 xo7).2.1 S128x128.size (by sl_kernel_rfl) y

/-- What case B leaves in output 7's staging buffer: its pieces read back over junk. -/
def out3_B_7 (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : ¬cond3_0 i)
    (x0 : Vec F S5000x128 .f32) (x1 : Vec F S1x128 .f32) (x2 : Vec F S1x128 .f32) (x3 : Vec F S1x128 .f32) (x4 : Vec F S1x128 .f32) (x5 : Vec F S5000x1 .i32) (xo7 : Vec F S128x128 .f32) : Vec F S128x128 .f32 :=
  VO3_7.read (Elt F) (VO3_7.writes (Elt F) VO3_7.junk (kernelRun3_B c i arg1 harg1 arg2 harg2 arg3 harg3 arg4 harg4 arg5 harg5 arg6 harg6 arg7 harg7 arg8 harg8 hc0 x0 x1 x2 x3 x4 x5 xo7).2.1)

/-! ## What the outputs hold after each point -/

/-- The two outputs after a first-point body at `t`: case A at the point's memrefs and input blocks. -/
def pt3_A (c : Dev nD) (t : Fin cfg3.N) (h0 : t.val % 10 = 0) : Vec F S5000x128 .f32 × Vec F S128x128 .f32 :=
  (out3_A_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) ((hcond3_0 t).mpr h0) (iblk3 V c 0 t) (iblk3 V c 1 t) (iblk3 V c 2 t) (iblk3 V c 3 t) (iblk3 V c 4 t) (iblk3 V c 5 t),
   out3_A_7 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) ((hcond3_0 t).mpr h0) (iblk3 V c 0 t) (iblk3 V c 1 t) (iblk3 V c 2 t) (iblk3 V c 3 t) (iblk3 V c 4 t) (iblk3 V c 5 t))

/-- The two outputs after a later-point body at `t`, the pooled-sum block having held `xo7`: case B at the
    point's memrefs and input blocks. -/
def pt3_B (c : Dev nD) (t : Fin cfg3.N) (h0 : ¬t.val % 10 = 0) (xo7 : Vec F S128x128 .f32) : Vec F S5000x128 .f32 × Vec F S128x128 .f32 :=
  (out3_B_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (fun h => h0 ((hcond3_0 t).mp h)) (iblk3 V c 0 t) (iblk3 V c 1 t) (iblk3 V c 2 t) (iblk3 V c 3 t) (iblk3 V c 4 t) (iblk3 V c 5 t) xo7,
   out3_B_7 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (fun h => h0 ((hcond3_0 t).mp h)) (iblk3 V c 0 t) (iblk3 V c 1 t) (iblk3 V c 2 t) (iblk3 V c 3 t) (iblk3 V c 4 t) (iblk3 V c 5 t) xo7)

/-- THE ACCUMULATION. What the two outputs' staging buffers hold after the body at position `n`: the case the
    closed form selects at `n`, the pooled-sum block of a later point taken at what this leaves at `n - 1`
    (its buffer is not written back in between). -/
def outsAt3 (c : Dev nD) : (n : ℕ) → n < cfg3.N → Vec F S5000x128 .f32 × Vec F S128x128 .f32
  | 0, hn => pt3_A V c ⟨0, hn⟩ (Nat.zero_mod _)
  | n + 1, hn =>
    if h0 : (n + 1) % 10 = 0 then pt3_A V c ⟨n + 1, hn⟩ h0
    else pt3_B V c ⟨n + 1, hn⟩ h0 (outsAt3 c n (Nat.lt_of_succ_lt hn)).2

/-- `outsAt3` at a point of case A: that case's contents. -/
theorem outsAt3_A (c : Dev nD) (t : Fin cfg3.N) (h0 : t.val % 10 = 0) :
    outsAt3 V c t.val t.isLt = pt3_A V c t h0 := by
  obtain ⟨n, hn⟩ := t
  cases n with
  | zero => exact rfl
  | succ n => exact (dif_pos h0).trans rfl

/-- `outsAt3` at a point of case B: that case's contents, over what the point before left. -/
theorem outsAt3_B (c : Dev nD) (t : Fin cfg3.N) (h0 : ¬t.val % 10 = 0) :
    outsAt3 V c t.val t.isLt = pt3_B V c t h0 (outsAt3 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans rfl

/-! ## The pipeline's proof data -/

/-- The proof data of the region's pipeline on core `c`: the arrays as the region finds them (`V`); after the body
    at point `t` each input's buffer at its block and the outputs' at `outsAt3`; the invariant the scoped rest
    and the generator register; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => (outsAt3 V c t.val t.isLt).1
    | ⟨7, _⟩ => (outsAt3 V c t.val t.isLt).2
  Φ _ := Pipeline.ΦA spec3 c
  q _ := fullShare
  owed _ := 0

/-- The proof data's arrays are the region-entry contents (the definition projected). -/
theorem A_eq3 (c : Dev nD) (w : Fin cfg3.W) : (dat3 V c).A w = V c (Pipeline.arrRef spec3 w) := by
  dsimp only [dat3]

/-- What the body leaves, window by window (the proof data's `match` reduced). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = (outsAt3 V c t.val t.isLt).1 := by dsimp only [dat3]
theorem after3_7 (c : Dev nD) (t : Fin cfg3.N) : (dat3 V c).after 7 t = (outsAt3 V c t.val t.isLt).2 := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-- At a later point the pooled-sum window's staging buffer holds what the body left at the point before: the point is
    not the first, the buffer was not written back in between (it is written back after the last point only), and the
    window is live and uncut. -/
theorem before3_7_B (c : Dev nD) (t : Fin cfg3.N) (h0 : ¬t.val % 10 = 0) (d) :
    (dat3 V c).before 7 t d = (outsAt3 V c (t.val - 1) (Nat.lt_of_le_of_lt (Nat.sub_le _ _) t.isLt)).2 := by
  have hN : t.val < 10 := lt_of_lt_of_eq t.isLt (show cfg3.N = 10 from N_3)
  rw [Dat.before_out_kept _ 7 rfl t (by omega) (Bool.eq_false_iff.mpr fun h => by have := (flush3_7 _).mp h; dsimp only at this; omega)
    (fun _ => rfl) (fun _ _ => rfl)]
  dsimp only [dat3]

/-! ## The body obligation, at a generic point -/

/-- What the body is called with at point `t`: the invariant, what the core owes, and every window's current staging
    buffer at what the proof data say it holds before the body; -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d))
    ∗ (∃ d, owns (c : Thread nD τ) (ms3_7 t) fullShare ((dat3 V c).before 7 t d)))

/-- and what it returns: the same with every buffer at what the data say the body leaves. -/
def bodyPost3 (c : Dev nD) (t : Fin cfg3.N) : sProp 𝕄 :=
  iprop((dat3 V c).Φ t.succ ∗ (dat3 V c).owesAt () t.succ
    ∗ owns (c : Thread nD τ) (ms3_0 t) fullShare ((dat3 V c).after 0 t)
    ∗ owns (c : Thread nD τ) (ms3_1 t) fullShare ((dat3 V c).after 1 t)
    ∗ owns (c : Thread nD τ) (ms3_2 t) fullShare ((dat3 V c).after 2 t)
    ∗ owns (c : Thread nD τ) (ms3_3 t) fullShare ((dat3 V c).after 3 t)
    ∗ owns (c : Thread nD τ) (ms3_4 t) fullShare ((dat3 V c).after 4 t)
    ∗ owns (c : Thread nD τ) (ms3_5 t) fullShare ((dat3 V c).after 5 t)
    ∗ owns (c : Thread nD τ) (ms3_6 t) fullShare ((dat3 V c).after 6 t)
    ∗ owns (c : Thread nD τ) (ms3_7 t) fullShare ((dat3 V c).after 7 t))

set_option maxHeartbeats 1600000 in
/-- The body at any point: the inputs' memrefs hold their blocks; the closed form of the condition says which case
    the point is in; in case B the pooled-sum buffer holds what the point before left; so the case's run applies, and
    a covering list of pieces reads back the same through any view. The invariant and what the core owes pass
    through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  have hN : t.val < 10 := lt_of_lt_of_eq t.isLt (show cfg3.N = 10 from N_3)
  by_cases h0 : t.val % 10 = 0
  · rw [outsAt3_A V c t h0]
    dsimp only [pt3_A]
    unfold out3_A_6 out3_A_7
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun3_A c (grid3.coords t) _ _ _ _ _ _ _ _ _ _ _ _ _ _ _ _ ((hcond3_0 t).mpr h0) (iblk3 V c 0 t) (iblk3 V c 1 t) (iblk3 V c 2 t) (iblk3 V c 3 t) (iblk3 V c 4 t) (iblk3 V c 5 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    iintro ⟨H0, H1, H2, H3, H4, H5, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover3_A_6 c _ _ _ _ _ _ _ _ _ _ _ _ _ _ _ _ _ _ _ _ _ _ _ _)
    unfold owns; iexists _; isplitr
    swap; · iexact H7
    ipureintro; exact View.read_writes_of_cover _ _ _ _ _ (cover3_A_7 c _ _ _ _ _ _ _ _ _ _ _ _ _ _ _ _ _ _ _ _ _ _ _ _)
  · rw [outsAt3_B V c t h0]
    simp only [before3_7_B V c t h0]
    dsimp only [pt3_B]
    unfold out3_B_6 out3_B_7
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun3_B c (grid3.coords t) _ _ _ _ _ _ _ _ _ _ _ _ _ _ _ _ (fun h => h0 ((hcond3_0 t).mp h)) (iblk3 V c 0 t) (iblk3 V c 1 t) (iblk3 V c 2 t) (iblk3 V c 3 t) (iblk3 V c 4 t) (iblk3 V c 5 t) _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    iintro ⟨H0, H1, H2, H3, H4, H5, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover3_B_6 c _ _ _ _ _ _ _ _ _ _ _ _ _ _ _ _ _ _ _ _ _ _ _ _ _)
    unfold owns; iexists _; isplitr
    swap; · iexact H7
    ipureintro; exact View.read_writes_of_cover _ _ _ _ _ (cover3_B_7 c _ _ _ _ _ _ _ _ _ _ _ _ _ _ _ _ _ _ _ _ _ _ _ _ _)

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Reg

end
-- ==== Proof.KI.Reg4.lean ====
import proofs.«144276_j65051574665788_2_alg».proof.Proof.Gen.KernelIdeal.Launch
import proofs.«144276_j65051574665788_2_alg».proof.Proof.Gen.KernelIdeal.Skeleton
import proofs.«144276_j65051574665788_2_alg».proof.Proof.Gen.KernelIdeal.Points
import Idealize.ShloMosaic.Lib.Pipeline.FrameBody
import Idealize.ShloMosaic.Lib.Ring
import Idealize.ShloMosaic.Lib.Tactic

/-! # Region 4 of @main: the layer transform, at the entry contents `V`

The body computes `agg·Wl + h·Wr + bl` into a row block of the first output and adds the block's column sums and
column sums of squares into the second and third outputs, whose single block is revisited at every grid point:
at the first point the two are zeroed first, at a later point they hold what the point before left. Hence two
control cases. Per case the body is run once on arbitrary whole memrefs, the stores it makes into each output
being the witness of the run; the outputs' contents point by point are then a recursion on the point, and the
body obligation follows by cases on the point. Everything is stated at a parameter `V`, the TensorCore's buffer
contents when the region is entered, and at any float instance. -/

-- membership in a rectangle with a long axis recurses once per coordinate
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof data
    whose array is the entry contents (`hA`) and whose body leaves the block in place (`hafter`): unfetched, the block
    index has not moved; the window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not, for any proof data
    whose array is the entry contents (`hA`) and whose body leaves the block in place (`hafter`): unfetched, the block
    index has not moved; the window is uncut and never idle. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not, for any proof data
    whose array is the entry contents (`hA`) and whose body leaves the block in place (`hafter`): unfetched, the block
    index has not moved; the window is uncut and never idle. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not, for any proof data
    whose array is the entry contents (`hA`) and whose body leaves the block in place (`hafter`): unfetched, the block
    index has not moved; the window is uncut and never idle. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, fetched there or not, for any proof data
    whose array is the entry contents (`hA`) and whose body leaves the block in place (`hafter`): unfetched, the block
    index has not moved; the window is uncut and never idle. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The body's branch condition -/

/-- The condition of the body's one conditional, from the grid coordinates: the point is the first. -/
abbrev cond4_0 (i : grid4.Coords) : Prop := (Scalar.cmpi .ne (Scalar.extui (Scalar.cmpi .eq (BitVec.ofNat 32 (i 0).val) 0#32)) 0#32) = 1#1
/-- It holds at the first point only: decided over the ten points. -/
theorem hcond4_0 : ∀ t : Fin cfg4.N, cond4_0 (grid4.coords t) ↔ t.val % 10 = 0 :=
  (by decide +kernel : ∀ t : Fin grid4.N, cond4_0 (grid4.coords t) ↔ t.val % 10 = 0)

/-! ## The staging memrefs -/

/-- One staging buffer of each output window, through which its contents are stated (a covering list of writes
    reads back the same through any view). -/
abbrev VO4_5 : View sig .tc .vmem S5000x128 .f32 := (Memref.whole cc4_stg5_0 : Memref sig .tc .vmem S5000x128 .f32).view
abbrev VO4_6 : View sig .tc .vmem S1x128 .f32 := (Memref.whole cc4_stg6_0 : Memref sig .tc .vmem S1x128 .f32).view
abbrev VO4_7 : View sig .tc .vmem S1x128 .f32 := (Memref.whole cc4_stg7_0 : Memref sig .tc .vmem S1x128 .f32).view
/-- Each window's current staging memref at point `t`, spelled as the pipeline passes it, and its wholeness. -/
abbrev ms4_0 (t : Fin cfg4.N) : Memref sig .tc .vmem S5000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S5000x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S128x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S128x128 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x128 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S5000x128 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S1x128 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S1x128 .f32 := win4_7.stage (cfg4.slots t 7)
abbrev hs4_7 (t : Fin cfg4.N) : (ms4_7 t).IsWhole := hstage4_7 ((cfg4.slots t 7).cast nbuf4_7)

/-! ## The body on any whole memrefs, case by case -/

set_option maxHeartbeats 1000000 in
/-- THE FIRST POINT. The pieces the body's stores leave in each output's memref (last first), with the proof that on
    whole memrefs — the inputs' at contents `x·`, the outputs' at anything — the body runs to the continuation
    holding the inputs' as they were and each output's with its pieces written. The conditional is taken: the two
    accumulators are zeroed, then read back and added to. -/
noncomputable def kernelRun4_A (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : cond4_0 i)
    (x0 : Vec F S5000x128 .f32) (x1 : Vec F S5000x128 .f32) (x2 : Vec F S128x128 .f32) (x3 : Vec F S128x128 .f32) (x4 : Vec F S1x128 .f32) :
    Σ' (L5 : List (View.Piece (Elt F) S5000x128 .f32)) (L6 : List (View.Piece (Elt F) S1x128 .f32)), { L7 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc4__layer_transform_kernel i arg1 harg1 arg2 harg2 arg3 harg3 arg4 harg4 arg5 harg5 arg6 harg6 arg7 harg7 arg8 harg8) K } := by
  refine ⟨?_, ?_, ?_, fun E K => ?run⟩
  case run =>
    simp only [cc4__layer_transform_kernel_eq_skeleton]; unfold cc4__layer_transform_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    iexists _; iexact H7

set_option maxHeartbeats 1000000 in
/-- A LATER POINT. The same with the conditional not taken: the two accumulators' memrefs are handed over at the
    running contents `xo6`, `xo7`, which the body reads before it covers them. -/
noncomputable def kernelRun4_B (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i)
    (x0 : Vec F S5000x128 .f32) (x1 : Vec F S5000x128 .f32) (x2 : Vec F S128x128 .f32) (x3 : Vec F S128x128 .f32) (x4 : Vec F S1x128 .f32) (xo6 : Vec F S1x128 .f32) (xo7 : Vec F S1x128 .f32) :
    Σ' (L5 : List (View.Piece (Elt F) S5000x128 .f32)) (L6 : List (View.Piece (Elt F) S1x128 .f32)), { L7 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ owns (c : Thread nD τ) arg7 fullShare xo6 ∗ owns (c : Thread nD τ) arg8 fullShare xo7
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc4__layer_transform_kernel i arg1 harg1 arg2 harg2 arg3 harg3 arg4 harg4 arg5 harg5 arg6 harg6 arg7 harg7 arg8 harg8) K } := by
  refine ⟨?_, ?_, ?_, fun E K => ?run⟩
  case run =>
    simp only [cc4__layer_transform_kernel_eq_skeleton]; unfold cc4__layer_transform_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
    obtain rfl := harg1.eq_unread hf0; obtain rfl := harg2.eq_unread hf1; obtain rfl := harg3.eq_unread hf2
    obtain rfl := harg4.eq_unread hf3; obtain rfl := harg5.eq_unread hf4
    obtain rfl := harg7.eq_unread hf6; obtain rfl := harg8.eq_unread hf7
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    iexists _; iexact H7

/-! ## The pieces cover the outputs' blocks -/

/-- Case A's pieces for output 5 tile its block, so they cover it. -/
theorem cover4_A_5 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : cond4_0 i)
    (x0 : Vec F S5000x128 .f32) (x1 : Vec F S5000x128 .f32) (x2 : Vec F S128x128 .f32) (x3 : Vec F S128x128 .f32) (x4 : Vec F S1x128 .f32) (y : S5000x128.Idx) :
    ∃ pc ∈ (kernelRun4_A c i arg1 harg1 arg2 harg2 arg3 harg3 arg4 harg4 arg5 harg5 arg6 harg6 arg7 harg7 arg8 harg8 hc0 x0 x1 x2 x3 x4).1, y ∈ pc.1.set :=
  View.cover_of_tiledL (kernelRun4_A c i arg1 harg1 arg2 harg2 arg3 harg3 arg4 harg4 arg5 harg5 arg6 harg6 arg7 harg7 arg8 harg8 hc0 x0 x1 x2 x3 x4).1 S5000x128.size (by sl_kernel_rfl) y

/-- Case A's pieces for output 6 tile its block, so they cover it. -/
theorem cover4_A_6 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : cond4_0 i)
    (x0 : Vec F S5000x128 .f32) (x1 : Vec F S5000x128 .f32) (x2 : Vec F S128x128 .f32) (x3 : Vec F S128x128 .f32) (x4 : Vec F S1x128 .f32) (y : S1x128.Idx) :
    ∃ pc ∈ (kernelRun4_A c i arg1 harg1 arg2 harg2 arg3 harg3 arg4 harg4 arg5 harg5 arg6 harg6 arg7 harg7 arg8 harg8 hc0 x0 x1 x2 x3 x4).2.1, y ∈ pc.1.set :=
  View.cover_of_tiledL (kernelRun4_A c i arg1 harg1 arg2 harg2 arg3 harg3 arg4 harg4 arg5 harg5 arg6 harg6 arg7 harg7 arg8 harg8 hc0 x0 x1 x2 x3 x4).2.1 S1x128.size (by sl_kernel_rfl) y

/-- Case A's pieces for output 7 tile its block, so they cover it. -/
theorem cover4_A_7 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : cond4_0 i)
    (x0 : Vec F S5000x128 .f32) (x1 : Vec F S5000x128 .f32) (x2 : Vec F S128x128 .f32) (x3 : Vec F S128x128 .f32) (x4 : Vec F S1x128 .f32) (y : S1x128.Idx) :
    ∃ pc ∈ (kernelRun4_A c i arg1 harg1 arg2 harg2 arg3 harg3 arg4 harg4 arg5 harg5 arg6 harg6 arg7 harg7 arg8 harg8 hc0 x0 x1 x2 x3 x4).2.2.1, y ∈ pc.1.set :=
  View.cover_of_tiledL (kernelRun4_A c i arg1 harg1 arg2 harg2 arg3 harg3 arg4 harg4 arg5 harg5 arg6 harg6 arg7 harg7 arg8 harg8 hc0 x0 x1 x2 x3 x4).2.2.1 S1x128.size (by sl_kernel_rfl) y

/-- Case B's pieces for output 5 tile its block, so they cover it. -/
theorem cover4_B_5 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i)
    (x0 : Vec F S5000x128 .f32) (x1 : Vec F S5000x128 .f32) (x2 : Vec F S128x128 .f32) (x3 : Vec F S128x128 .f32) (x4 : Vec F S1x128 .f32) (xo6 : Vec F S1x128 .f32) (xo7 : Vec F S1x128 .f32) (y : S5000x128.Idx) :
    ∃ pc ∈ (kernelRun4_B c i arg1 harg1 arg2 harg2 arg3 harg3 arg4 harg4 arg5 harg5 arg6 harg6 arg7 harg7 arg8 harg8 hc0 x0 x1 x2 x3 x4 xo6 xo7).1, y ∈ pc.1.set :=
  View.cover_of_tiledL (kernelRun4_B c i arg1 harg1 arg2 harg2 arg3 harg3 arg4 harg4 arg5 harg5 arg6 harg6 arg7 harg7 arg8 harg8 hc0 x0 x1 x2 x3 x4 xo6 xo7).1 S5000x128.size (by sl_kernel_rfl) y

/-- Case B's pieces for output 6 tile its block, so they cover it. -/
theorem cover4_B_6 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i)
    (x0 : Vec F S5000x128 .f32) (x1 : Vec F S5000x128 .f32) (x2 : Vec F S128x128 .f32) (x3 : Vec F S128x128 .f32) (x4 : Vec F S1x128 .f32) (xo6 : Vec F S1x128 .f32) (xo7 : Vec F S1x128 .f32) (y : S1x128.Idx) :
    ∃ pc ∈ (kernelRun4_B c i arg1 harg1 arg2 harg2 arg3 harg3 arg4 harg4 arg5 harg5 arg6 harg6 arg7 harg7 arg8 harg8 hc0 x0 x1 x2 x3 x4 xo6 xo7).2.1, y ∈ pc.1.set :=
  View.cover_of_tiledL (kernelRun4_B c i arg1 harg1 arg2 harg2 arg3 harg3 arg4 harg4 arg5 harg5 arg6 harg6 arg7 harg7 arg8 harg8 hc0 x0 x1 x2 x3 x4 xo6 xo7).2.1 S1x128.size (by sl_kernel_rfl) y

/-- Case B's pieces for output 7 tile its block, so they cover it. -/
theorem cover4_B_7 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i)
    (x0 : Vec F S5000x128 .f32) (x1 : Vec F S5000x128 .f32) (x2 : Vec F S128x128 .f32) (x3 : Vec F S128x128 .f32) (x4 : Vec F S1x128 .f32) (xo6 : Vec F S1x128 .f32) (xo7 : Vec F S1x128 .f32) (y : S1x128.Idx) :
    ∃ pc ∈ (kernelRun4_B c i arg1 harg1 arg2 harg2 arg3 harg3 arg4 harg4 arg5 harg5 arg6 harg6 arg7 harg7 arg8 harg8 hc0 x0 x1 x2 x3 x4 xo6 xo7).2.2.1, y ∈ pc.1.set :=
  View.cover_of_tiledL (kernelRun4_B c i arg1 harg1 arg2 harg2 arg3 harg3 arg4 harg4 arg5 harg5 arg6 harg6 arg7 harg7 arg8 harg8 hc0 x0 x1 x2 x3 x4 xo6 xo7).2.2.1 S1x128.size (by sl_kernel_rfl) y

/-! ## What the outputs hold after each point -/

/-- The first-point run at point `t`'s memrefs and input blocks. -/
abbrev runA4 (c : Dev nD) (t : Fin cfg4.N) (h0 : t.val % 10 = 0) :=
  kernelRun4_A (F := F) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) ((hcond4_0 t).mpr h0) (iblk4 V c 0 t) (iblk4 V c 1 t) (iblk4 V c 2 t) (iblk4 V c 3 t) (iblk4 V c 4 t)

/-- The later-point run at point `t`'s memrefs and input blocks, the accumulators at `xo6`, `xo7`. -/
abbrev runB4 (c : Dev nD) (t : Fin cfg4.N) (h0 : ¬t.val % 10 = 0) (xo6 : Vec F S1x128 .f32) (xo7 : Vec F S1x128 .f32) :=
  kernelRun4_B (F := F) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (fun h => h0 ((hcond4_0 t).mp h)) (iblk4 V c 0 t) (iblk4 V c 1 t) (iblk4 V c 2 t) (iblk4 V c 3 t) (iblk4 V c 4 t) xo6 xo7

/-- What the first-point case leaves in the three outputs' staging buffers: its pieces read back over junk. -/
def outsA4 (c : Dev nD) (t : Fin cfg4.N) (h0 : t.val % 10 = 0) : Vec F S5000x128 .f32 × Vec F S1x128 .f32 × Vec F S1x128 .f32 :=
  (VO4_5.read (Elt F) (VO4_5.writes (Elt F) VO4_5.junk (runA4 V c t h0).1),
   VO4_6.read (Elt F) (VO4_6.writes (Elt F) VO4_6.junk (runA4 V c t h0).2.1),
   VO4_7.read (Elt F) (VO4_7.writes (Elt F) VO4_7.junk (runA4 V c t h0).2.2.1))

/-- What the later-point case leaves there, over accumulators at `xo6`, `xo7`. -/
def outsB4 (c : Dev nD) (t : Fin cfg4.N) (h0 : ¬t.val % 10 = 0) (xo6 : Vec F S1x128 .f32) (xo7 : Vec F S1x128 .f32) :
    Vec F S5000x128 .f32 × Vec F S1x128 .f32 × Vec F S1x128 .f32 :=
  (VO4_5.read (Elt F) (VO4_5.writes (Elt F) VO4_5.junk (runB4 V c t h0 xo6 xo7).1),
   VO4_6.read (Elt F) (VO4_6.writes (Elt F) VO4_6.junk (runB4 V c t h0 xo6 xo7).2.1),
   VO4_7.read (Elt F) (VO4_7.writes (Elt F) VO4_7.junk (runB4 V c t h0 xo6 xo7).2.2.1))

/-- THE ACCUMULATION. What the three outputs' staging buffers hold after the body at position `n`: the case the
    point is in, run at the point's memrefs and input blocks, the two accumulators at what this leaves at `n - 1`
    (their buffer is not written back in between). -/
def outsAt4 (c : Dev nD) : (n : ℕ) → n < cfg4.N → Vec F S5000x128 .f32 × Vec F S1x128 .f32 × Vec F S1x128 .f32
  | 0, hn => outsA4 V c ⟨0, hn⟩ (Nat.zero_mod _)
  | n + 1, hn =>
    if h0 : (n + 1) % 10 = 0 then
      outsA4 V c ⟨n + 1, hn⟩ h0
    else
      outsB4 V c ⟨n + 1, hn⟩ h0 (outsAt4 c n (Nat.lt_of_succ_lt hn)).2.1 (outsAt4 c n (Nat.lt_of_succ_lt hn)).2.2

/-- `outsAt4` at a first point: that case's contents. -/
theorem outsAt4_A (c : Dev nD) (t : Fin cfg4.N) (h0 : t.val % 10 = 0) :
    outsAt4 V c t.val t.isLt = outsA4 V c t h0 := by
  obtain ⟨n, hn⟩ := t
  cases n with
  | zero => exact rfl
  | succ n => exact (dif_pos h0).trans rfl

/-- `outsAt4` at a later point: that case's contents, over what the point before left. -/
theorem outsAt4_B (c : Dev nD) (t : Fin cfg4.N) (h0 : ¬t.val % 10 = 0) :
    outsAt4 V c t.val t.isLt = outsB4 V c t h0
      (outsAt4 V c (t.val - 1) (Nat.lt_of_le_of_lt (Nat.sub_le _ _) t.isLt)).2.1
      (outsAt4 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans rfl

/-! ## The pipeline's proof data -/

/-- The proof data of the region's pipeline on core `c`: the arrays as the region finds them (`V`); after the body
    at point `t` each input's buffer at its block and the outputs' at `outsAt4`; the invariant the scoped rest
    and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => (outsAt4 V c t.val t.isLt).1
    | ⟨6, _⟩ => (outsAt4 V c t.val t.isLt).2.1
    | ⟨7, _⟩ => (outsAt4 V c t.val t.isLt).2.2
  Φ _ := Pipeline.ΦA spec4 c
  q _ := fullShare
  owed _ := 0

/-- The proof data's arrays are the region-entry contents (the definition projected). -/
theorem A_eq4 (c : Dev nD) (w : Fin cfg4.W) : (dat4 V c).A w = V c (Pipeline.arrRef spec4 w) := by
  dsimp only [dat4]

/-- What the body leaves, window by window (the definition's `match` reduced). -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = (outsAt4 V c t.val t.isLt).1 := by dsimp only [dat4]
theorem after4_6 (c : Dev nD) (t : Fin cfg4.N) : (dat4 V c).after 6 t = (outsAt4 V c t.val t.isLt).2.1 := by dsimp only [dat4]
theorem after4_7 (c : Dev nD) (t : Fin cfg4.N) : (dat4 V c).after 7 t = (outsAt4 V c t.val t.isLt).2.2 := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-- At a later point output 6's staging buffer holds what the body left at the point before: the buffer is written
    back at the last point only, and the window is live and uncut. -/
theorem before4_6_B (c : Dev nD) (t : Fin cfg4.N) (h0 : ¬t.val % 10 = 0) (d) :
    (dat4 V c).before 6 t d = (outsAt4 V c (t.val - 1) (Nat.lt_of_le_of_lt (Nat.sub_le _ _) t.isLt)).2.1 := by
  have hN : t.val < 10 := lt_of_lt_of_eq t.isLt (show cfg4.N = 10 from N_4)
  rw [Dat.before_out_kept _ 6 rfl t (by omega) (Bool.eq_false_iff.mpr fun h => by have := (flush4_6 _).mp h; dsimp only at this; omega)
    (fun _ => rfl) (fun _ _ => rfl)]
  dsimp only [dat4]

/-- At a later point output 7's staging buffer holds what the body left at the point before: the buffer is written
    back at the last point only, and the window is live and uncut. -/
theorem before4_7_B (c : Dev nD) (t : Fin cfg4.N) (h0 : ¬t.val % 10 = 0) (d) :
    (dat4 V c).before 7 t d = (outsAt4 V c (t.val - 1) (Nat.lt_of_le_of_lt (Nat.sub_le _ _) t.isLt)).2.2 := by
  have hN : t.val < 10 := lt_of_lt_of_eq t.isLt (show cfg4.N = 10 from N_4)
  rw [Dat.before_out_kept _ 7 rfl t (by omega) (Bool.eq_false_iff.mpr fun h => by have := (flush4_7 _).mp h; dsimp only at this; omega)
    (fun _ => rfl) (fun _ _ => rfl)]
  dsimp only [dat4]

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d)))

/-- and what it returns. -/
def bodyPost4 (c : Dev nD) (t : Fin cfg4.N) : sProp 𝕄 :=
  iprop((dat4 V c).Φ t.succ ∗ (dat4 V c).owesAt () t.succ
    ∗ owns (c : Thread nD τ) (ms4_0 t) fullShare ((dat4 V c).after 0 t)
    ∗ owns (c : Thread nD τ) (ms4_1 t) fullShare ((dat4 V c).after 1 t)
    ∗ owns (c : Thread nD τ) (ms4_2 t) fullShare ((dat4 V c).after 2 t)
    ∗ owns (c : Thread nD τ) (ms4_3 t) fullShare ((dat4 V c).after 3 t)
    ∗ owns (c : Thread nD τ) (ms4_4 t) fullShare ((dat4 V c).after 4 t)
    ∗ owns (c : Thread nD τ) (ms4_5 t) fullShare ((dat4 V c).after 5 t)
    ∗ owns (c : Thread nD τ) (ms4_6 t) fullShare ((dat4 V c).after 6 t)
    ∗ owns (c : Thread nD τ) (ms4_7 t) fullShare ((dat4 V c).after 7 t))

set_option maxHeartbeats 1600000 in
/-- The body at any point: the inputs' memrefs hold their blocks; the closed form of the condition says which case
    the point is in; at a later point the two accumulators hold what the point before left; so the case's run
    applies, and its pieces, covering each output's block, read back as `outsAt4` says. The invariant passes
    through unread and the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7]
  have hN : t.val < 10 := lt_of_lt_of_eq t.isLt (show cfg4.N = 10 from N_4)
  by_cases h0 : t.val % 10 = 0
  · rw [outsAt4_A V c t h0]
    unfold outsA4; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runA4 V c t h0).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    iintro ⟨H0, H1, H2, H3, H4, ⟨%e5, H5⟩, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover4_A_5 c _ _ _ _ _ _ _ _ _ _ _ _ _ _ _ _ _ _ _ _ _ _ _)
    isplitl [H6]
    · unfold owns; iexists _; isplitr
      swap; · iexact H6
      ipureintro; exact View.read_writes_of_cover _ _ _ _ _ (cover4_A_6 c _ _ _ _ _ _ _ _ _ _ _ _ _ _ _ _ _ _ _ _ _ _ _)
    unfold owns; iexists _; isplitr
    swap; · iexact H7
    ipureintro; exact View.read_writes_of_cover _ _ _ _ _ (cover4_A_7 c _ _ _ _ _ _ _ _ _ _ _ _ _ _ _ _ _ _ _ _ _ _ _)
  · rw [outsAt4_B V c t h0]
    simp only [before4_6_B V c t h0, before4_7_B V c t h0]
    unfold outsB4; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runB4 V c t h0 _ _).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    iintro ⟨H0, H1, H2, H3, H4, ⟨%e5, H5⟩, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover4_B_5 c _ _ _ _ _ _ _ _ _ _ _ _ _ _ _ _ _ _ _ _ _ _ _ _ _)
    isplitl [H6]
    · unfold owns; iexists _; isplitr
      swap; · iexact H6
      ipureintro; exact View.read_writes_of_cover _ _ _ _ _ (cover4_B_6 c _ _ _ _ _ _ _ _ _ _ _ _ _ _ _ _ _ _ _ _ _ _ _ _ _)
    unfold owns; iexists _; isplitr
    swap; · iexact H7
    ipureintro; exact View.read_writes_of_cover _ _ _ _ _ (cover4_B_7 c _ _ _ _ _ _ _ _ _ _ _ _ _ _ _ _ _ _ _ _ _ _ _ _ _)

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Reg

end
-- ==== Proof.KI.Reg5.lean ====
import proofs.«144276_j65051574665788_2_alg».proof.Proof.Gen.KernelIdeal.Launch
import proofs.«144276_j65051574665788_2_alg».proof.Proof.Gen.KernelIdeal.Skeleton
import proofs.«144276_j65051574665788_2_alg».proof.Proof.Gen.KernelIdeal.Points
import Idealize.ShloMosaic.Lib.Pipeline.FrameBody
import Idealize.ShloMosaic.Lib.Ring
import Idealize.ShloMosaic.Lib.Tactic

/-! # Region 5 of @main: the normalisation and pooling call, at the entry contents `V`

The body's half of the region's frame: for any contents `V` of the core's buffers at the region's entry, the
proof data of the pipeline (what every window's staging buffer holds before and after the body at every grid
point) and the body obligation — the body, run at any grid point on buffers holding what the data say, ends
with them holding what the data say, touching nothing else.

The body has two control cases. At the first grid point the pooled-sum block (window 7) is zeroed and then
added to; at every later point it is read at what the point before left and added to. The normalised block
(window 6) is stored whole at every point. What the two outputs hold after each point is therefore a recursion
on the point, the pooled-sum block carried from the point before. -/

-- membership in a rectangle of large extents recurses once per coordinate of the long axes
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0: its current staging buffer holds its block at every point, whether fetched there or not
    (unfetched, the block index has not moved since the fetch), for any proof data whose array is `V`'s and whose
    body leaves the block in place; the window is uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1: its current staging buffer holds its block at every point, whether fetched there or not
    (unfetched, the block index has not moved since the fetch), for any proof data whose array is `V`'s and whose
    body leaves the block in place; the window is uncut and never idle. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2: its current staging buffer holds its block at every point, whether fetched there or not
    (unfetched, the block index has not moved since the fetch), for any proof data whose array is `V`'s and whose
    body leaves the block in place; the window is uncut and never idle. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3: its current staging buffer holds its block at every point, whether fetched there or not
    (unfetched, the block index has not moved since the fetch), for any proof data whose array is `V`'s and whose
    body leaves the block in place; the window is uncut and never idle. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4: its current staging buffer holds its block at every point, whether fetched there or not
    (unfetched, the block index has not moved since the fetch), for any proof data whose array is `V`'s and whose
    body leaves the block in place; the window is uncut and never idle. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5: its current staging buffer holds its block at every point, whether fetched there or not
    (unfetched, the block index has not moved since the fetch), for any proof data whose array is `V`'s and whose
    body leaves the block in place; the window is uncut and never idle. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-! ## The body's branch condition -/

/-- The condition of the body's one conditional, as a function of the grid coordinates: "this is point 0". -/
abbrev cond5_0 (i : grid5.Coords) : Prop := (Scalar.cmpi .ne (Scalar.extui (Scalar.cmpi .eq (BitVec.ofNat 32 (i 0).val) 0#32)) 0#32) = 1#1
/-- It holds at the first point only — decided over the ten points of the grid. -/
theorem hcond5_0 : ∀ t : Fin cfg5.N, cond5_0 (grid5.coords t) ↔ t.val % 10 = 0 :=
  (by decide +kernel : ∀ t : Fin grid5.N, cond5_0 (grid5.coords t) ↔ t.val % 10 = 0)

/-! ## The staging memrefs -/

/-- One staging buffer of each output window, through which its contents are stated (a covering list of writes
    reads back the same through any view of the shape). -/
abbrev VO5_6 : View sig .tc .vmem S5000x128 .f32 := (Memref.whole cc5_stg6_0 : Memref sig .tc .vmem S5000x128 .f32).view
abbrev VO5_7 : View sig .tc .vmem S128x128 .f32 := (Memref.whole cc5_stg7_0 : Memref sig .tc .vmem S128x128 .f32).view
/-- Each window's current staging memref at point `t`, spelled as the pipeline passes it to the body, and its wholeness. -/
abbrev ms5_0 (t : Fin cfg5.N) : Memref sig .tc .vmem S5000x128 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S1x128 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x128 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1x128 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S1x128 .f32 := win5_4.stage (cfg5.slots t 4)
abbrev hs5_4 (t : Fin cfg5.N) : (ms5_4 t).IsWhole := hstage5_4 ((cfg5.slots t 4).cast nbuf5_4)
abbrev ms5_5 (t : Fin cfg5.N) : Memref sig .tc .vmem S5000x1 .i32 := win5_5.stage (cfg5.slots t 5)
abbrev hs5_5 (t : Fin cfg5.N) : (ms5_5 t).IsWhole := hstage5_5 ((cfg5.slots t 5).cast nbuf5_5)
abbrev ms5_6 (t : Fin cfg5.N) : Memref sig .tc .vmem S5000x128 .f32 := win5_6.stage (cfg5.slots t 6)
abbrev hs5_6 (t : Fin cfg5.N) : (ms5_6 t).IsWhole := hstage5_6 ((cfg5.slots t 6).cast nbuf5_6)
abbrev ms5_7 (t : Fin cfg5.N) : Memref sig .tc .vmem S128x128 .f32 := win5_7.stage (cfg5.slots t 7)
abbrev hs5_7 (t : Fin cfg5.N) : (ms5_7 t).IsWhole := hstage5_7 ((cfg5.slots t 7).cast nbuf5_7)

/-! ## The body on any staging memrefs, case by case -/

set_option maxHeartbeats 1000000 in
/-- CASE A (the first point: the conditional taken). The pieces the body's stores leave in the two outputs' staging
    memrefs (last first), with the proof that on whole staging memrefs — the inputs' at contents `x·`, the outputs'
    at anything — the body runs to a continuation that is handed the inputs' as they were and each output's buffer
    with its pieces written. The pooled-sum block is zeroed before it is read, so what it held does not matter. -/
noncomputable def kernelRun5_A (c : Dev nD) (i : grid5.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : cond5_0 i)
    (x0 : Vec F S5000x128 .f32) (x1 : Vec F S1x128 .f32) (x2 : Vec F S1x128 .f32) (x3 : Vec F S1x128 .f32) (x4 : Vec F S1x128 .f32) (x5 : Vec F S5000x1 .i32) :
    Σ' (L6 : List (View.Piece (Elt F) S5000x128 .f32)), { L7 : List (View.Piece (Elt F) S128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc5_kernel i arg1 harg1 arg2 harg2 arg3 harg3 arg4 harg4 arg5 harg5 arg6 harg6 arg7 harg7 arg8 harg8) K } := by
  refine ⟨?_, ?_, fun E K => ?run⟩
  case run =>
    simp only [cc5_kernel_eq_skeleton]; unfold cc5_kernel_skel
    simp only [k5_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact H7

set_option maxHeartbeats 1000000 in
/-- CASE B (a later point: the conditional not taken). As case A, but the pooled-sum block is read before it is
    stored: its buffer is taken at the running contents `xo7`, which the pieces mention. -/
noncomputable def kernelRun5_B (c : Dev nD) (i : grid5.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : ¬cond5_0 i)
    (x0 : Vec F S5000x128 .f32) (x1 : Vec F S1x128 .f32) (x2 : Vec F S1x128 .f32) (x3 : Vec F S1x128 .f32) (x4 : Vec F S1x128 .f32) (x5 : Vec F S5000x1 .i32) (xo7 : Vec F S128x128 .f32) :
    Σ' (L6 : List (View.Piece (Elt F) S5000x128 .f32)), { L7 : List (View.Piece (Elt F) S128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xo7
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc5_kernel i arg1 harg1 arg2 harg2 arg3 harg3 arg4 harg4 arg5 harg5 arg6 harg6 arg7 harg7 arg8 harg8) K } := by
  refine ⟨?_, ?_, fun E K => ?run⟩
  case run =>
    simp only [cc5_kernel_eq_skeleton]; unfold cc5_kernel_skel
    simp only [k5_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact H7

/-! ## What each case leaves in the outputs -/

/-- Case A's pieces for output 6 tile its block, so they cover it. -/
theorem cover5_A_6 (c : Dev nD) (i : grid5.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : cond5_0 i)
    (x0 : Vec F S5000x128 .f32) (x1 : Vec F S1x128 .f32) (x2 : Vec F S1x128 .f32) (x3 : Vec F S1x128 .f32) (x4 : Vec F S1x128 .f32) (x5 : Vec F S5000x1 .i32) (y : S5000x128.Idx) :
    ∃ pc ∈ (kernelRun5_A c i arg1 harg1 arg2 harg2 arg3 harg3 arg4 harg4 arg5 harg5 arg6 harg6 arg7 harg7 arg8 harg8 hc0 x0 x1 x2 x3 x4 x5).1, y ∈ pc.1.set :=
  View.cover_of_tiledL (kernelRun5_A c i arg1 harg1 arg2 harg2 arg3 harg3 arg4 harg4 arg5 harg5 arg6 harg6 arg7 harg7 arg8 harg8 hc0 x0 x1 x2 x3 x4 x5).1 S5000x128.size (by sl_kernel_rfl) y

/-- What case A leaves in output 6's staging buffer: its pieces read back over junk. -/
def out5_A_6 (c : Dev nD) (i : grid5.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : cond5_0 i)
    (x0 : Vec F S5000x128 .f32) (x1 : Vec F S1x128 .f32) (x2 : Vec F S1x128 .f32) (x3 : Vec F S1x128 .f32) (x4 : Vec F S1x128 .f32) (x5 : Vec F S5000x1 .i32) : Vec F S5000x128 .f32 :=
  VO5_6.read (Elt F) (VO5_6.writes (Elt F) VO5_6.junk (kernelRun5_A c i arg1 harg1 arg2 harg2 arg3 harg3 arg4 harg4 arg5 harg5 arg6 harg6 arg7 harg7 arg8 harg8 hc0 x0 x1 x2 x3 x4 x5).1)

/-- Case A's pieces for output 7 tile its block, so they cover it. -/
theorem cover5_A_7 (c : Dev nD) (i : grid5.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : cond5_0 i)
    (x0 : Vec F S5000x128 .f32) (x1 : Vec F S1x128 .f32) (x2 : Vec F S1x128 .f32) (x3 : Vec F S1x128 .f32) (x4 : Vec F S1x128 .f32) (x5 : Vec F S5000x1 .i32) (y : S128x128.Idx) :
    ∃ pc ∈ (kernelRun5_A c i arg1 harg1 arg2 harg2 arg3 harg3 arg4 harg4 arg5 harg5 arg6 harg6 arg7 harg7 arg8 harg8 hc0 x0 x1 x2 x3 x4 x5).2.1, y ∈ pc.1.set :=
  View.cover_of_tiledL (kernelRun5_A c i arg1 harg1 arg2 harg2 arg3 harg3 arg4 harg4 arg5 harg5 arg6 harg6 arg7 harg7 arg8 harg8 hc0 x0 x1 x2 x3 x4 x5).2.1 S128x128.size (by sl_kernel_rfl) y

/-- What case A leaves in output 7's staging buffer: its pieces read back over junk. -/
def out5_A_7 (c : Dev nD) (i : grid5.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : cond5_0 i)
    (x0 : Vec F S5000x128 .f32) (x1 : Vec F S1x128 .f32) (x2 : Vec F S1x128 .f32) (x3 : Vec F S1x128 .f32) (x4 : Vec F S1x128 .f32) (x5 : Vec F S5000x1 .i32) : Vec F S128x128 .f32 :=
  VO5_7.read (Elt F) (VO5_7.writes (Elt F) VO5_7.junk (kernelRun5_A c i arg1 harg1 arg2 harg2 arg3 harg3 arg4 harg4 arg5 harg5 arg6 harg6 arg7 harg7 arg8 harg8 hc0 x0 x1 x2 x3 x4 x5).2.1)

/-- Case B's pieces for output 6 tile its block, so they cover it. -/
theorem cover5_B_6 (c : Dev nD) (i : grid5.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : ¬cond5_0 i)
    (x0 : Vec F S5000x128 .f32) (x1 : Vec F S1x128 .f32) (x2 : Vec F S1x128 .f32) (x3 : Vec F S1x128 .f32) (x4 : Vec F S1x128 .f32) (x5 : Vec F S5000x1 .i32) (xo7 : Vec F S128x128 .f32) (y : S5000x128.Idx) :
    ∃ pc ∈ (kernelRun5_B c i arg1 harg1 arg2 harg2 arg3 harg3 arg4 harg4 arg5 harg5 arg6 harg6 arg7 harg7 arg8 harg8 hc0 x0 x1 x2 x3 x4 x5 xo7).1, y ∈ pc.1.set :=
  View.cover_of_tiledL (kernelRun5_B c i arg1 harg1 arg2 harg2 arg3 harg3 arg4 harg4 arg5 harg5 arg6 harg6 arg7 harg7 arg8 harg8 hc0 x0 x1 x2 x3 x4 x5 xo7).1 S5000x128.size (by sl_kernel_rfl) y

/-- What case B leaves in output 6's staging buffer: its pieces read back over junk. -/
def out5_B_6 (c : Dev nD) (i : grid5.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : ¬cond5_0 i)
    (x0 : Vec F S5000x128 .f32) (x1 : Vec F S1x128 .f32) (x2 : Vec F S1x128 .f32) (x3 : Vec F S1x128 .f32) (x4 : Vec F S1x128 .f32) (x5 : Vec F S5000x1 .i32) (xo7 : Vec F S128x128 .f32) : Vec F S5000x128 .f32 :=
  VO5_6.read (Elt F) (VO5_6.writes (Elt F) VO5_6.junk (kernelRun5_B c i arg1 harg1 arg2 harg2 arg3 harg3 arg4 harg4 arg5 harg5 arg6 harg6 arg7 harg7 arg8 harg8 hc0 x0 x1 x2 x3 x4 x5 xo7).1)

/-- Case B's pieces for output 7 tile its block, so they cover it. -/
theorem cover5_B_7 (c : Dev nD) (i : grid5.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : ¬cond5_0 i)
    (x0 : Vec F S5000x128 .f32) (x1 : Vec F S1x128 .f32) (x2 : Vec F S1x128 .f32) (x3 : Vec F S1x128 .f32) (x4 : Vec F S1x128 .f32) (x5 : Vec F S5000x1 .i32) (xo7 : Vec F S128x128 .f32) (y : S128x128.Idx) :
    ∃ pc ∈ (kernelRun5_B c i arg1 harg1 arg2 harg2 arg3 harg3 arg4 harg4 arg5 harg5 arg6 harg6 arg7 harg7 arg8 harg8 hc0 x0 x1 x2 x3 x4 x5 xo7).2.1, y ∈ pc.1.set :=
  View.cover_of_tiledL (kernelRun5_B c i arg1 harg1 arg2 harg2 arg3 harg3 arg4 harg4 arg5 harg5 arg6 harg6 arg7 harg7 arg8 harg8 hc0 x0 x1 x2 x3 x4 x5 xo7).2.1 S128x128.size (by sl_kernel_rfl) y

/-- What case B leaves in output 7's staging buffer: its pieces read back over junk. -/
def out5_B_7 (c : Dev nD) (i : grid5.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : ¬cond5_0 i)
    (x0 : Vec F S5000x128 .f32) (x1 : Vec F S1x128 .f32) (x2 : Vec F S1x128 .f32) (x3 : Vec F S1x128 .f32) (x4 : Vec F S1x128 .f32) (x5 : Vec F S5000x1 .i32) (xo7 : Vec F S128x128 .f32) : Vec F S128x128 .f32 :=
  VO5_7.read (Elt F) (VO5_7.writes (Elt F) VO5_7.junk (kernelRun5_B c i arg1 harg1 arg2 harg2 arg3 harg3 arg4 harg4 arg5 harg5 arg6 harg6 arg7 harg7 arg8 harg8 hc0 x0 x1 x2 x3 x4 x5 xo7).2.1)

/-! ## What the outputs hold after each point -/

/-- The two outputs after a first-point body at `t`: case A at the point's memrefs and input blocks. -/
def pt5_A (c : Dev nD) (t : Fin cfg5.N) (h0 : t.val % 10 = 0) : Vec F S5000x128 .f32 × Vec F S128x128 .f32 :=
  (out5_A_6 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) ((hcond5_0 t).mpr h0) (iblk5 V c 0 t) (iblk5 V c 1 t) (iblk5 V c 2 t) (iblk5 V c 3 t) (iblk5 V c 4 t) (iblk5 V c 5 t),
   out5_A_7 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) ((hcond5_0 t).mpr h0) (iblk5 V c 0 t) (iblk5 V c 1 t) (iblk5 V c 2 t) (iblk5 V c 3 t) (iblk5 V c 4 t) (iblk5 V c 5 t))

/-- The two outputs after a later-point body at `t`, the pooled-sum block having held `xo7`: case B at the
    point's memrefs and input blocks. -/
def pt5_B (c : Dev nD) (t : Fin cfg5.N) (h0 : ¬t.val % 10 = 0) (xo7 : Vec F S128x128 .f32) : Vec F S5000x128 .f32 × Vec F S128x128 .f32 :=
  (out5_B_6 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (fun h => h0 ((hcond5_0 t).mp h)) (iblk5 V c 0 t) (iblk5 V c 1 t) (iblk5 V c 2 t) (iblk5 V c 3 t) (iblk5 V c 4 t) (iblk5 V c 5 t) xo7,
   out5_B_7 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (fun h => h0 ((hcond5_0 t).mp h)) (iblk5 V c 0 t) (iblk5 V c 1 t) (iblk5 V c 2 t) (iblk5 V c 3 t) (iblk5 V c 4 t) (iblk5 V c 5 t) xo7)

/-- THE ACCUMULATION. What the two outputs' staging buffers hold after the body at position `n`: the case the
    closed form selects at `n`, the pooled-sum block of a later point taken at what this leaves at `n - 1`
    (its buffer is not written back in between). -/
def outsAt5 (c : Dev nD) : (n : ℕ) → n < cfg5.N → Vec F S5000x128 .f32 × Vec F S128x128 .f32
  | 0, hn => pt5_A V c ⟨0, hn⟩ (Nat.zero_mod _)
  | n + 1, hn =>
    if h0 : (n + 1) % 10 = 0 then pt5_A V c ⟨n + 1, hn⟩ h0
    else pt5_B V c ⟨n + 1, hn⟩ h0 (outsAt5 c n (Nat.lt_of_succ_lt hn)).2

/-- `outsAt5` at a point of case A: that case's contents. -/
theorem outsAt5_A (c : Dev nD) (t : Fin cfg5.N) (h0 : t.val % 10 = 0) :
    outsAt5 V c t.val t.isLt = pt5_A V c t h0 := by
  obtain ⟨n, hn⟩ := t
  cases n with
  | zero => exact rfl
  | succ n => exact (dif_pos h0).trans rfl

/-- `outsAt5` at a point of case B: that case's contents, over what the point before left. -/
theorem outsAt5_B (c : Dev nD) (t : Fin cfg5.N) (h0 : ¬t.val % 10 = 0) :
    outsAt5 V c t.val t.isLt = pt5_B V c t h0 (outsAt5 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans rfl

/-! ## The pipeline's proof data -/

/-- The proof data of the region's pipeline on core `c`: the arrays as the region finds them (`V`); after the body
    at point `t` each input's buffer at its block and the outputs' at `outsAt5`; the invariant the scoped rest
    and the generator register; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => (outsAt5 V c t.val t.isLt).1
    | ⟨7, _⟩ => (outsAt5 V c t.val t.isLt).2
  Φ _ := Pipeline.ΦA spec5 c
  q _ := fullShare
  owed _ := 0

/-- The proof data's arrays are the region-entry contents (the definition projected). -/
theorem A_eq5 (c : Dev nD) (w : Fin cfg5.W) : (dat5 V c).A w = V c (Pipeline.arrRef spec5 w) := by
  dsimp only [dat5]

/-- What the body leaves, window by window (the proof data's `match` reduced). -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = (outsAt5 V c t.val t.isLt).1 := by dsimp only [dat5]
theorem after5_7 (c : Dev nD) (t : Fin cfg5.N) : (dat5 V c).after 7 t = (outsAt5 V c t.val t.isLt).2 := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d

/-- At a later point the pooled-sum window's staging buffer holds what the body left at the point before: the point is
    not the first, the buffer was not written back in between (it is written back after the last point only), and the
    window is live and uncut. -/
theorem before5_7_B (c : Dev nD) (t : Fin cfg5.N) (h0 : ¬t.val % 10 = 0) (d) :
    (dat5 V c).before 7 t d = (outsAt5 V c (t.val - 1) (Nat.lt_of_le_of_lt (Nat.sub_le _ _) t.isLt)).2 := by
  have hN : t.val < 10 := lt_of_lt_of_eq t.isLt (show cfg5.N = 10 from N_5)
  rw [Dat.before_out_kept _ 7 rfl t (by omega) (Bool.eq_false_iff.mpr fun h => by have := (flush5_7 _).mp h; dsimp only at this; omega)
    (fun _ => rfl) (fun _ _ => rfl)]
  dsimp only [dat5]

/-! ## The body obligation, at a generic point -/

/-- What the body is called with at point `t`: the invariant, what the core owes, and every window's current staging
    buffer at what the proof data say it holds before the body; -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d))
    ∗ (∃ d, owns (c : Thread nD τ) (ms5_5 t) fullShare ((dat5 V c).before 5 t d))
    ∗ (∃ d, owns (c : Thread nD τ) (ms5_6 t) fullShare ((dat5 V c).before 6 t d))
    ∗ (∃ d, owns (c : Thread nD τ) (ms5_7 t) fullShare ((dat5 V c).before 7 t d)))

/-- and what it returns: the same with every buffer at what the data say the body leaves. -/
def bodyPost5 (c : Dev nD) (t : Fin cfg5.N) : sProp 𝕄 :=
  iprop((dat5 V c).Φ t.succ ∗ (dat5 V c).owesAt () t.succ
    ∗ owns (c : Thread nD τ) (ms5_0 t) fullShare ((dat5 V c).after 0 t)
    ∗ owns (c : Thread nD τ) (ms5_1 t) fullShare ((dat5 V c).after 1 t)
    ∗ owns (c : Thread nD τ) (ms5_2 t) fullShare ((dat5 V c).after 2 t)
    ∗ owns (c : Thread nD τ) (ms5_3 t) fullShare ((dat5 V c).after 3 t)
    ∗ owns (c : Thread nD τ) (ms5_4 t) fullShare ((dat5 V c).after 4 t)
    ∗ owns (c : Thread nD τ) (ms5_5 t) fullShare ((dat5 V c).after 5 t)
    ∗ owns (c : Thread nD τ) (ms5_6 t) fullShare ((dat5 V c).after 6 t)
    ∗ owns (c : Thread nD τ) (ms5_7 t) fullShare ((dat5 V c).after 7 t))

set_option maxHeartbeats 1600000 in
/-- The body at any point: the inputs' memrefs hold their blocks; the closed form of the condition says which case
    the point is in; in case B the pooled-sum buffer holds what the point before left; so the case's run applies, and
    a covering list of pieces reads back the same through any view. The invariant and what the core owes pass
    through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7]
  have hN : t.val < 10 := lt_of_lt_of_eq t.isLt (show cfg5.N = 10 from N_5)
  by_cases h0 : t.val % 10 = 0
  · rw [outsAt5_A V c t h0]
    dsimp only [pt5_A]
    unfold out5_A_6 out5_A_7
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun5_A c (grid5.coords t) _ _ _ _ _ _ _ _ _ _ _ _ _ _ _ _ ((hcond5_0 t).mpr h0) (iblk5 V c 0 t) (iblk5 V c 1 t) (iblk5 V c 2 t) (iblk5 V c 3 t) (iblk5 V c 4 t) (iblk5 V c 5 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    iintro ⟨H0, H1, H2, H3, H4, H5, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover5_A_6 c _ _ _ _ _ _ _ _ _ _ _ _ _ _ _ _ _ _ _ _ _ _ _ _)
    unfold owns; iexists _; isplitr
    swap; · iexact H7
    ipureintro; exact View.read_writes_of_cover _ _ _ _ _ (cover5_A_7 c _ _ _ _ _ _ _ _ _ _ _ _ _ _ _ _ _ _ _ _ _ _ _ _)
  · rw [outsAt5_B V c t h0]
    simp only [before5_7_B V c t h0]
    dsimp only [pt5_B]
    unfold out5_B_6 out5_B_7
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun5_B c (grid5.coords t) _ _ _ _ _ _ _ _ _ _ _ _ _ _ _ _ (fun h => h0 ((hcond5_0 t).mp h)) (iblk5 V c 0 t) (iblk5 V c 1 t) (iblk5 V c 2 t) (iblk5 V c 3 t) (iblk5 V c 4 t) (iblk5 V c 5 t) _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    iintro ⟨H0, H1, H2, H3, H4, H5, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover5_B_6 c _ _ _ _ _ _ _ _ _ _ _ _ _ _ _ _ _ _ _ _ _ _ _ _ _)
    unfold owns; iexists _; isplitr
    swap; · iexact H7
    ipureintro; exact View.read_writes_of_cover _ _ _ _ _ (cover5_B_7 c _ _ _ _ _ _ _ _ _ _ _ _ _ _ _ _ _ _ _ _ _ _ _ _ _)

/-- The body obligation, at every point. -/
theorem body_obligation5 (c : Dev nD) : BodyObligation (dat5 (F := F) V c) (defs₀ (F := F)) Variants.none () Set.univ := fun t => by
  rw [bigSep_W5, bigSep_W5]
  exact sound_body5 V c t

/-- info: 'Cert.KernelIdeal.Reg.body_obligation5' depends on axioms: [propext, Classical.choice, Quot.sound] -/
#guard_msgs in #print axioms body_obligation5

end Cert.KernelIdeal.Reg

end
-- ==== Proof.KI.Reg6.lean ====
import proofs.«144276_j65051574665788_2_alg».proof.Proof.Gen.KernelIdeal.Launch
import proofs.«144276_j65051574665788_2_alg».proof.Proof.Gen.KernelIdeal.Skeleton
import proofs.«144276_j65051574665788_2_alg».proof.Proof.Gen.KernelIdeal.Points
import Idealize.ShloMosaic.Lib.Pipeline.FrameBody
import Idealize.ShloMosaic.Lib.Ring
import Idealize.ShloMosaic.Lib.Tactic

/-! # Region 6 of @main: the layer transform, at the entry contents `V`

The body computes `agg·Wl + h·Wr + bl` into a row block of the first output and adds the block's column sums and
column sums of squares into the second and third outputs, whose single block is revisited at every grid point:
at the first point the two are zeroed first, at a later point they hold what the point before left. Hence two
control cases. Per case the body is run once on arbitrary whole memrefs, the stores it makes into each output
being the witness of the run; the outputs' contents point by point are then a recursion on the point, and the
body obligation follows by cases on the point. Everything is stated at a parameter `V`, the TensorCore's buffer
contents when the region is entered, and at any float instance. -/

-- membership in a rectangle with a long axis recurses once per coordinate
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not, for any proof data
    whose array is the entry contents (`hA`) and whose body leaves the block in place (`hafter`): unfetched, the block
    index has not moved; the window is uncut and never idle. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, fetched there or not, for any proof data
    whose array is the entry contents (`hA`) and whose body leaves the block in place (`hafter`): unfetched, the block
    index has not moved; the window is uncut and never idle. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, fetched there or not, for any proof data
    whose array is the entry contents (`hA`) and whose body leaves the block in place (`hafter`): unfetched, the block
    index has not moved; the window is uncut and never idle. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's current staging buffer holds its block at every point, fetched there or not, for any proof data
    whose array is the entry contents (`hA`) and whose body leaves the block in place (`hafter`): unfetched, the block
    index has not moved; the window is uncut and never idle. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's current staging buffer holds its block at every point, fetched there or not, for any proof data
    whose array is the entry contents (`hA`) and whose body leaves the block in place (`hafter`): unfetched, the block
    index has not moved; the window is uncut and never idle. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-! ## The body's branch condition -/

/-- The condition of the body's one conditional, from the grid coordinates: the point is the first. -/
abbrev cond6_0 (i : grid6.Coords) : Prop := (Scalar.cmpi .ne (Scalar.extui (Scalar.cmpi .eq (BitVec.ofNat 32 (i 0).val) 0#32)) 0#32) = 1#1
/-- It holds at the first point only: decided over the ten points. -/
theorem hcond6_0 : ∀ t : Fin cfg6.N, cond6_0 (grid6.coords t) ↔ t.val % 10 = 0 :=
  (by decide +kernel : ∀ t : Fin grid6.N, cond6_0 (grid6.coords t) ↔ t.val % 10 = 0)

/-! ## The staging memrefs -/

/-- One staging buffer of each output window, through which its contents are stated (a covering list of writes
    reads back the same through any view). -/
abbrev VO6_5 : View sig .tc .vmem S5000x128 .f32 := (Memref.whole cc6_stg5_0 : Memref sig .tc .vmem S5000x128 .f32).view
abbrev VO6_6 : View sig .tc .vmem S1x128 .f32 := (Memref.whole cc6_stg6_0 : Memref sig .tc .vmem S1x128 .f32).view
abbrev VO6_7 : View sig .tc .vmem S1x128 .f32 := (Memref.whole cc6_stg7_0 : Memref sig .tc .vmem S1x128 .f32).view
/-- Each window's current staging memref at point `t`, spelled as the pipeline passes it, and its wholeness. -/
abbrev ms6_0 (t : Fin cfg6.N) : Memref sig .tc .vmem S5000x128 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S5000x128 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S128x128 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S128x128 .f32 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S1x128 .f32 := win6_4.stage (cfg6.slots t 4)
abbrev hs6_4 (t : Fin cfg6.N) : (ms6_4 t).IsWhole := hstage6_4 ((cfg6.slots t 4).cast nbuf6_4)
abbrev ms6_5 (t : Fin cfg6.N) : Memref sig .tc .vmem S5000x128 .f32 := win6_5.stage (cfg6.slots t 5)
abbrev hs6_5 (t : Fin cfg6.N) : (ms6_5 t).IsWhole := hstage6_5 ((cfg6.slots t 5).cast nbuf6_5)
abbrev ms6_6 (t : Fin cfg6.N) : Memref sig .tc .vmem S1x128 .f32 := win6_6.stage (cfg6.slots t 6)
abbrev hs6_6 (t : Fin cfg6.N) : (ms6_6 t).IsWhole := hstage6_6 ((cfg6.slots t 6).cast nbuf6_6)
abbrev ms6_7 (t : Fin cfg6.N) : Memref sig .tc .vmem S1x128 .f32 := win6_7.stage (cfg6.slots t 7)
abbrev hs6_7 (t : Fin cfg6.N) : (ms6_7 t).IsWhole := hstage6_7 ((cfg6.slots t 7).cast nbuf6_7)

/-! ## The body on any whole memrefs, case by case -/

set_option maxHeartbeats 1000000 in
/-- THE FIRST POINT. The pieces the body's stores leave in each output's memref (last first), with the proof that on
    whole memrefs — the inputs' at contents `x·`, the outputs' at anything — the body runs to the continuation
    holding the inputs' as they were and each output's with its pieces written. The conditional is taken: the two
    accumulators are zeroed, then read back and added to. -/
noncomputable def kernelRun6_A (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : cond6_0 i)
    (x0 : Vec F S5000x128 .f32) (x1 : Vec F S5000x128 .f32) (x2 : Vec F S128x128 .f32) (x3 : Vec F S128x128 .f32) (x4 : Vec F S1x128 .f32) :
    Σ' (L5 : List (View.Piece (Elt F) S5000x128 .f32)) (L6 : List (View.Piece (Elt F) S1x128 .f32)), { L7 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc6__layer_transform_kernel i arg1 harg1 arg2 harg2 arg3 harg3 arg4 harg4 arg5 harg5 arg6 harg6 arg7 harg7 arg8 harg8) K } := by
  refine ⟨?_, ?_, ?_, fun E K => ?run⟩
  case run =>
    simp only [cc6__layer_transform_kernel_eq_skeleton]; unfold cc6__layer_transform_kernel_skel
    simp only [k6_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    iexists _; iexact H7

set_option maxHeartbeats 1000000 in
/-- A LATER POINT. The same with the conditional not taken: the two accumulators' memrefs are handed over at the
    running contents `xo6`, `xo7`, which the body reads before it covers them. -/
noncomputable def kernelRun6_B (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i)
    (x0 : Vec F S5000x128 .f32) (x1 : Vec F S5000x128 .f32) (x2 : Vec F S128x128 .f32) (x3 : Vec F S128x128 .f32) (x4 : Vec F S1x128 .f32) (xo6 : Vec F S1x128 .f32) (xo7 : Vec F S1x128 .f32) :
    Σ' (L5 : List (View.Piece (Elt F) S5000x128 .f32)) (L6 : List (View.Piece (Elt F) S1x128 .f32)), { L7 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ owns (c : Thread nD τ) arg7 fullShare xo6 ∗ owns (c : Thread nD τ) arg8 fullShare xo7
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc6__layer_transform_kernel i arg1 harg1 arg2 harg2 arg3 harg3 arg4 harg4 arg5 harg5 arg6 harg6 arg7 harg7 arg8 harg8) K } := by
  refine ⟨?_, ?_, ?_, fun E K => ?run⟩
  case run =>
    simp only [cc6__layer_transform_kernel_eq_skeleton]; unfold cc6__layer_transform_kernel_skel
    simp only [k6_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
    obtain rfl := harg1.eq_unread hf0; obtain rfl := harg2.eq_unread hf1; obtain rfl := harg3.eq_unread hf2
    obtain rfl := harg4.eq_unread hf3; obtain rfl := harg5.eq_unread hf4
    obtain rfl := harg7.eq_unread hf6; obtain rfl := harg8.eq_unread hf7
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    iexists _; iexact H7

/-! ## The pieces cover the outputs' blocks -/

/-- Case A's pieces for output 5 tile its block, so they cover it. -/
theorem cover6_A_5 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : cond6_0 i)
    (x0 : Vec F S5000x128 .f32) (x1 : Vec F S5000x128 .f32) (x2 : Vec F S128x128 .f32) (x3 : Vec F S128x128 .f32) (x4 : Vec F S1x128 .f32) (y : S5000x128.Idx) :
    ∃ pc ∈ (kernelRun6_A c i arg1 harg1 arg2 harg2 arg3 harg3 arg4 harg4 arg5 harg5 arg6 harg6 arg7 harg7 arg8 harg8 hc0 x0 x1 x2 x3 x4).1, y ∈ pc.1.set :=
  View.cover_of_tiledL (kernelRun6_A c i arg1 harg1 arg2 harg2 arg3 harg3 arg4 harg4 arg5 harg5 arg6 harg6 arg7 harg7 arg8 harg8 hc0 x0 x1 x2 x3 x4).1 S5000x128.size (by sl_kernel_rfl) y

/-- Case A's pieces for output 6 tile its block, so they cover it. -/
theorem cover6_A_6 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : cond6_0 i)
    (x0 : Vec F S5000x128 .f32) (x1 : Vec F S5000x128 .f32) (x2 : Vec F S128x128 .f32) (x3 : Vec F S128x128 .f32) (x4 : Vec F S1x128 .f32) (y : S1x128.Idx) :
    ∃ pc ∈ (kernelRun6_A c i arg1 harg1 arg2 harg2 arg3 harg3 arg4 harg4 arg5 harg5 arg6 harg6 arg7 harg7 arg8 harg8 hc0 x0 x1 x2 x3 x4).2.1, y ∈ pc.1.set :=
  View.cover_of_tiledL (kernelRun6_A c i arg1 harg1 arg2 harg2 arg3 harg3 arg4 harg4 arg5 harg5 arg6 harg6 arg7 harg7 arg8 harg8 hc0 x0 x1 x2 x3 x4).2.1 S1x128.size (by sl_kernel_rfl) y

/-- Case A's pieces for output 7 tile its block, so they cover it. -/
theorem cover6_A_7 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : cond6_0 i)
    (x0 : Vec F S5000x128 .f32) (x1 : Vec F S5000x128 .f32) (x2 : Vec F S128x128 .f32) (x3 : Vec F S128x128 .f32) (x4 : Vec F S1x128 .f32) (y : S1x128.Idx) :
    ∃ pc ∈ (kernelRun6_A c i arg1 harg1 arg2 harg2 arg3 harg3 arg4 harg4 arg5 harg5 arg6 harg6 arg7 harg7 arg8 harg8 hc0 x0 x1 x2 x3 x4).2.2.1, y ∈ pc.1.set :=
  View.cover_of_tiledL (kernelRun6_A c i arg1 harg1 arg2 harg2 arg3 harg3 arg4 harg4 arg5 harg5 arg6 harg6 arg7 harg7 arg8 harg8 hc0 x0 x1 x2 x3 x4).2.2.1 S1x128.size (by sl_kernel_rfl) y

/-- Case B's pieces for output 5 tile its block, so they cover it. -/
theorem cover6_B_5 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i)
    (x0 : Vec F S5000x128 .f32) (x1 : Vec F S5000x128 .f32) (x2 : Vec F S128x128 .f32) (x3 : Vec F S128x128 .f32) (x4 : Vec F S1x128 .f32) (xo6 : Vec F S1x128 .f32) (xo7 : Vec F S1x128 .f32) (y : S5000x128.Idx) :
    ∃ pc ∈ (kernelRun6_B c i arg1 harg1 arg2 harg2 arg3 harg3 arg4 harg4 arg5 harg5 arg6 harg6 arg7 harg7 arg8 harg8 hc0 x0 x1 x2 x3 x4 xo6 xo7).1, y ∈ pc.1.set :=
  View.cover_of_tiledL (kernelRun6_B c i arg1 harg1 arg2 harg2 arg3 harg3 arg4 harg4 arg5 harg5 arg6 harg6 arg7 harg7 arg8 harg8 hc0 x0 x1 x2 x3 x4 xo6 xo7).1 S5000x128.size (by sl_kernel_rfl) y

/-- Case B's pieces for output 6 tile its block, so they cover it. -/
theorem cover6_B_6 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i)
    (x0 : Vec F S5000x128 .f32) (x1 : Vec F S5000x128 .f32) (x2 : Vec F S128x128 .f32) (x3 : Vec F S128x128 .f32) (x4 : Vec F S1x128 .f32) (xo6 : Vec F S1x128 .f32) (xo7 : Vec F S1x128 .f32) (y : S1x128.Idx) :
    ∃ pc ∈ (kernelRun6_B c i arg1 harg1 arg2 harg2 arg3 harg3 arg4 harg4 arg5 harg5 arg6 harg6 arg7 harg7 arg8 harg8 hc0 x0 x1 x2 x3 x4 xo6 xo7).2.1, y ∈ pc.1.set :=
  View.cover_of_tiledL (kernelRun6_B c i arg1 harg1 arg2 harg2 arg3 harg3 arg4 harg4 arg5 harg5 arg6 harg6 arg7 harg7 arg8 harg8 hc0 x0 x1 x2 x3 x4 xo6 xo7).2.1 S1x128.size (by sl_kernel_rfl) y

/-- Case B's pieces for output 7 tile its block, so they cover it. -/
theorem cover6_B_7 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i)
    (x0 : Vec F S5000x128 .f32) (x1 : Vec F S5000x128 .f32) (x2 : Vec F S128x128 .f32) (x3 : Vec F S128x128 .f32) (x4 : Vec F S1x128 .f32) (xo6 : Vec F S1x128 .f32) (xo7 : Vec F S1x128 .f32) (y : S1x128.Idx) :
    ∃ pc ∈ (kernelRun6_B c i arg1 harg1 arg2 harg2 arg3 harg3 arg4 harg4 arg5 harg5 arg6 harg6 arg7 harg7 arg8 harg8 hc0 x0 x1 x2 x3 x4 xo6 xo7).2.2.1, y ∈ pc.1.set :=
  View.cover_of_tiledL (kernelRun6_B c i arg1 harg1 arg2 harg2 arg3 harg3 arg4 harg4 arg5 harg5 arg6 harg6 arg7 harg7 arg8 harg8 hc0 x0 x1 x2 x3 x4 xo6 xo7).2.2.1 S1x128.size (by sl_kernel_rfl) y

/-! ## What the outputs hold after each point -/

/-- The first-point run at point `t`'s memrefs and input blocks. -/
abbrev runA6 (c : Dev nD) (t : Fin cfg6.N) (h0 : t.val % 10 = 0) :=
  kernelRun6_A (F := F) c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) ((hcond6_0 t).mpr h0) (iblk6 V c 0 t) (iblk6 V c 1 t) (iblk6 V c 2 t) (iblk6 V c 3 t) (iblk6 V c 4 t)

/-- The later-point run at point `t`'s memrefs and input blocks, the accumulators at `xo6`, `xo7`. -/
abbrev runB6 (c : Dev nD) (t : Fin cfg6.N) (h0 : ¬t.val % 10 = 0) (xo6 : Vec F S1x128 .f32) (xo7 : Vec F S1x128 .f32) :=
  kernelRun6_B (F := F) c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (fun h => h0 ((hcond6_0 t).mp h)) (iblk6 V c 0 t) (iblk6 V c 1 t) (iblk6 V c 2 t) (iblk6 V c 3 t) (iblk6 V c 4 t) xo6 xo7

/-- What the first-point case leaves in the three outputs' staging buffers: its pieces read back over junk. -/
def outsA6 (c : Dev nD) (t : Fin cfg6.N) (h0 : t.val % 10 = 0) : Vec F S5000x128 .f32 × Vec F S1x128 .f32 × Vec F S1x128 .f32 :=
  (VO6_5.read (Elt F) (VO6_5.writes (Elt F) VO6_5.junk (runA6 V c t h0).1),
   VO6_6.read (Elt F) (VO6_6.writes (Elt F) VO6_6.junk (runA6 V c t h0).2.1),
   VO6_7.read (Elt F) (VO6_7.writes (Elt F) VO6_7.junk (runA6 V c t h0).2.2.1))

/-- What the later-point case leaves there, over accumulators at `xo6`, `xo7`. -/
def outsB6 (c : Dev nD) (t : Fin cfg6.N) (h0 : ¬t.val % 10 = 0) (xo6 : Vec F S1x128 .f32) (xo7 : Vec F S1x128 .f32) :
    Vec F S5000x128 .f32 × Vec F S1x128 .f32 × Vec F S1x128 .f32 :=
  (VO6_5.read (Elt F) (VO6_5.writes (Elt F) VO6_5.junk (runB6 V c t h0 xo6 xo7).1),
   VO6_6.read (Elt F) (VO6_6.writes (Elt F) VO6_6.junk (runB6 V c t h0 xo6 xo7).2.1),
   VO6_7.read (Elt F) (VO6_7.writes (Elt F) VO6_7.junk (runB6 V c t h0 xo6 xo7).2.2.1))

/-- THE ACCUMULATION. What the three outputs' staging buffers hold after the body at position `n`: the case the
    point is in, run at the point's memrefs and input blocks, the two accumulators at what this leaves at `n - 1`
    (their buffer is not written back in between). -/
def outsAt6 (c : Dev nD) : (n : ℕ) → n < cfg6.N → Vec F S5000x128 .f32 × Vec F S1x128 .f32 × Vec F S1x128 .f32
  | 0, hn => outsA6 V c ⟨0, hn⟩ (Nat.zero_mod _)
  | n + 1, hn =>
    if h0 : (n + 1) % 10 = 0 then
      outsA6 V c ⟨n + 1, hn⟩ h0
    else
      outsB6 V c ⟨n + 1, hn⟩ h0 (outsAt6 c n (Nat.lt_of_succ_lt hn)).2.1 (outsAt6 c n (Nat.lt_of_succ_lt hn)).2.2

/-- `outsAt6` at a first point: that case's contents. -/
theorem outsAt6_A (c : Dev nD) (t : Fin cfg6.N) (h0 : t.val % 10 = 0) :
    outsAt6 V c t.val t.isLt = outsA6 V c t h0 := by
  obtain ⟨n, hn⟩ := t
  cases n with
  | zero => exact rfl
  | succ n => exact (dif_pos h0).trans rfl

/-- `outsAt6` at a later point: that case's contents, over what the point before left. -/
theorem outsAt6_B (c : Dev nD) (t : Fin cfg6.N) (h0 : ¬t.val % 10 = 0) :
    outsAt6 V c t.val t.isLt = outsB6 V c t h0
      (outsAt6 V c (t.val - 1) (Nat.lt_of_le_of_lt (Nat.sub_le _ _) t.isLt)).2.1
      (outsAt6 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans rfl

/-! ## The pipeline's proof data -/

/-- The proof data of the region's pipeline on core `c`: the arrays as the region finds them (`V`); after the body
    at point `t` each input's buffer at its block and the outputs' at `outsAt6`; the invariant the scoped rest
    and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => (outsAt6 V c t.val t.isLt).1
    | ⟨6, _⟩ => (outsAt6 V c t.val t.isLt).2.1
    | ⟨7, _⟩ => (outsAt6 V c t.val t.isLt).2.2
  Φ _ := Pipeline.ΦA spec6 c
  q _ := fullShare
  owed _ := 0

/-- The proof data's arrays are the region-entry contents (the definition projected). -/
theorem A_eq6 (c : Dev nD) (w : Fin cfg6.W) : (dat6 V c).A w = V c (Pipeline.arrRef spec6 w) := by
  dsimp only [dat6]

/-- What the body leaves, window by window (the definition's `match` reduced). -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = (outsAt6 V c t.val t.isLt).1 := by dsimp only [dat6]
theorem after6_6 (c : Dev nD) (t : Fin cfg6.N) : (dat6 V c).after 6 t = (outsAt6 V c t.val t.isLt).2.1 := by dsimp only [dat6]
theorem after6_7 (c : Dev nD) (t : Fin cfg6.N) : (dat6 V c).after 7 t = (outsAt6 V c t.val t.isLt).2.2 := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

/-- At a later point output 6's staging buffer holds what the body left at the point before: the buffer is written
    back at the last point only, and the window is live and uncut. -/
theorem before6_6_B (c : Dev nD) (t : Fin cfg6.N) (h0 : ¬t.val % 10 = 0) (d) :
    (dat6 V c).before 6 t d = (outsAt6 V c (t.val - 1) (Nat.lt_of_le_of_lt (Nat.sub_le _ _) t.isLt)).2.1 := by
  have hN : t.val < 10 := lt_of_lt_of_eq t.isLt (show cfg6.N = 10 from N_6)
  rw [Dat.before_out_kept _ 6 rfl t (by omega) (Bool.eq_false_iff.mpr fun h => by have := (flush6_6 _).mp h; dsimp only at this; omega)
    (fun _ => rfl) (fun _ _ => rfl)]
  dsimp only [dat6]

/-- At a later point output 7's staging buffer holds what the body left at the point before: the buffer is written
    back at the last point only, and the window is live and uncut. -/
theorem before6_7_B (c : Dev nD) (t : Fin cfg6.N) (h0 : ¬t.val % 10 = 0) (d) :
    (dat6 V c).before 7 t d = (outsAt6 V c (t.val - 1) (Nat.lt_of_le_of_lt (Nat.sub_le _ _) t.isLt)).2.2 := by
  have hN : t.val < 10 := lt_of_lt_of_eq t.isLt (show cfg6.N = 10 from N_6)
  rw [Dat.before_out_kept _ 7 rfl t (by omega) (Bool.eq_false_iff.mpr fun h => by have := (flush6_7 _).mp h; dsimp only at this; omega)
    (fun _ => rfl) (fun _ _ => rfl)]
  dsimp only [dat6]

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d))
    ∗ (∃ d, owns (c : Thread nD τ) (ms6_4 t) fullShare ((dat6 V c).before 4 t d))
    ∗ (∃ d, owns (c : Thread nD τ) (ms6_5 t) fullShare ((dat6 V c).before 5 t d))
    ∗ (∃ d, owns (c : Thread nD τ) (ms6_6 t) fullShare ((dat6 V c).before 6 t d))
    ∗ (∃ d, owns (c : Thread nD τ) (ms6_7 t) fullShare ((dat6 V c).before 7 t d)))

/-- and what it returns. -/
def bodyPost6 (c : Dev nD) (t : Fin cfg6.N) : sProp 𝕄 :=
  iprop((dat6 V c).Φ t.succ ∗ (dat6 V c).owesAt () t.succ
    ∗ owns (c : Thread nD τ) (ms6_0 t) fullShare ((dat6 V c).after 0 t)
    ∗ owns (c : Thread nD τ) (ms6_1 t) fullShare ((dat6 V c).after 1 t)
    ∗ owns (c : Thread nD τ) (ms6_2 t) fullShare ((dat6 V c).after 2 t)
    ∗ owns (c : Thread nD τ) (ms6_3 t) fullShare ((dat6 V c).after 3 t)
    ∗ owns (c : Thread nD τ) (ms6_4 t) fullShare ((dat6 V c).after 4 t)
    ∗ owns (c : Thread nD τ) (ms6_5 t) fullShare ((dat6 V c).after 5 t)
    ∗ owns (c : Thread nD τ) (ms6_6 t) fullShare ((dat6 V c).after 6 t)
    ∗ owns (c : Thread nD τ) (ms6_7 t) fullShare ((dat6 V c).after 7 t))

set_option maxHeartbeats 1600000 in
/-- The body at any point: the inputs' memrefs hold their blocks; the closed form of the condition says which case
    the point is in; at a later point the two accumulators hold what the point before left; so the case's run
    applies, and its pieces, covering each output's block, read back as `outsAt6` says. The invariant passes
    through unread and the core owes nothing throughout. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6, after6_7]
  have hN : t.val < 10 := lt_of_lt_of_eq t.isLt (show cfg6.N = 10 from N_6)
  by_cases h0 : t.val % 10 = 0
  · rw [outsAt6_A V c t h0]
    unfold outsA6; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runA6 V c t h0).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    iintro ⟨H0, H1, H2, H3, H4, ⟨%e5, H5⟩, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover6_A_5 c _ _ _ _ _ _ _ _ _ _ _ _ _ _ _ _ _ _ _ _ _ _ _)
    isplitl [H6]
    · unfold owns; iexists _; isplitr
      swap; · iexact H6
      ipureintro; exact View.read_writes_of_cover _ _ _ _ _ (cover6_A_6 c _ _ _ _ _ _ _ _ _ _ _ _ _ _ _ _ _ _ _ _ _ _ _)
    unfold owns; iexists _; isplitr
    swap; · iexact H7
    ipureintro; exact View.read_writes_of_cover _ _ _ _ _ (cover6_A_7 c _ _ _ _ _ _ _ _ _ _ _ _ _ _ _ _ _ _ _ _ _ _ _)
  · rw [outsAt6_B V c t h0]
    simp only [before6_6_B V c t h0, before6_7_B V c t h0]
    unfold outsB6; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runB6 V c t h0 _ _).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    iintro ⟨H0, H1, H2, H3, H4, ⟨%e5, H5⟩, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover6_B_5 c _ _ _ _ _ _ _ _ _ _ _ _ _ _ _ _ _ _ _ _ _ _ _ _ _)
    isplitl [H6]
    · unfold owns; iexists _; isplitr
      swap; · iexact H6
      ipureintro; exact View.read_writes_of_cover _ _ _ _ _ (cover6_B_6 c _ _ _ _ _ _ _ _ _ _ _ _ _ _ _ _ _ _ _ _ _ _ _ _ _)
    unfold owns; iexists _; isplitr
    swap; · iexact H7
    ipureintro; exact View.read_writes_of_cover _ _ _ _ _ (cover6_B_7 c _ _ _ _ _ _ _ _ _ _ _ _ _ _ _ _ _ _ _ _ _ _ _ _ _)

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Reg

end
-- ==== Proof.KI.Reg7.lean ====
import proofs.«144276_j65051574665788_2_alg».proof.Proof.Gen.KernelIdeal.Launch
import proofs.«144276_j65051574665788_2_alg».proof.Proof.Gen.KernelIdeal.Skeleton
import proofs.«144276_j65051574665788_2_alg».proof.Proof.Gen.KernelIdeal.Points
import Idealize.ShloMosaic.Lib.Pipeline.FrameBody
import Idealize.ShloMosaic.Lib.Ring
import Idealize.ShloMosaic.Lib.Tactic

/-! # Region 7 of @main: the normalisation and pooling call, at the entry contents `V`

The body's half of the region's frame: for any contents `V` of the core's buffers at the region's entry, the
proof data of the pipeline (what every window's staging buffer holds before and after the body at every grid
point) and the body obligation — the body, run at any grid point on buffers holding what the data say, ends
with them holding what the data say, touching nothing else.

The body has two control cases. At the first grid point the pooled-sum block (window 7) is zeroed and then
added to; at every later point it is read at what the point before left and added to. The normalised block
(window 6) is stored whole at every point. What the two outputs hold after each point is therefore a recursion
on the point, the pooled-sum block carried from the point before. -/

-- membership in a rectangle of large extents recurses once per coordinate of the long axes
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0: its current staging buffer holds its block at every point, whether fetched there or not
    (unfetched, the block index has not moved since the fetch), for any proof data whose array is `V`'s and whose
    body leaves the block in place; the window is uncut and never idle. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1: its current staging buffer holds its block at every point, whether fetched there or not
    (unfetched, the block index has not moved since the fetch), for any proof data whose array is `V`'s and whose
    body leaves the block in place; the window is uncut and never idle. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2: its current staging buffer holds its block at every point, whether fetched there or not
    (unfetched, the block index has not moved since the fetch), for any proof data whose array is `V`'s and whose
    body leaves the block in place; the window is uncut and never idle. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3: its current staging buffer holds its block at every point, whether fetched there or not
    (unfetched, the block index has not moved since the fetch), for any proof data whose array is `V`'s and whose
    body leaves the block in place; the window is uncut and never idle. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4: its current staging buffer holds its block at every point, whether fetched there or not
    (unfetched, the block index has not moved since the fetch), for any proof data whose array is `V`'s and whose
    body leaves the block in place; the window is uncut and never idle. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-- Input window 5: its current staging buffer holds its block at every point, whether fetched there or not
    (unfetched, the block index has not moved since the fetch), for any proof data whose array is `V`'s and whose
    body leaves the block in place; the window is uncut and never idle. -/
theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)

/-! ## The body's branch condition -/

/-- The condition of the body's one conditional, as a function of the grid coordinates: "this is point 0". -/
abbrev cond7_0 (i : grid7.Coords) : Prop := (Scalar.cmpi .ne (Scalar.extui (Scalar.cmpi .eq (BitVec.ofNat 32 (i 0).val) 0#32)) 0#32) = 1#1
/-- It holds at the first point only — decided over the ten points of the grid. -/
theorem hcond7_0 : ∀ t : Fin cfg7.N, cond7_0 (grid7.coords t) ↔ t.val % 10 = 0 :=
  (by decide +kernel : ∀ t : Fin grid7.N, cond7_0 (grid7.coords t) ↔ t.val % 10 = 0)

/-! ## The staging memrefs -/

/-- One staging buffer of each output window, through which its contents are stated (a covering list of writes
    reads back the same through any view of the shape). -/
abbrev VO7_6 : View sig .tc .vmem S5000x128 .f32 := (Memref.whole cc7_stg6_0 : Memref sig .tc .vmem S5000x128 .f32).view
abbrev VO7_7 : View sig .tc .vmem S128x128 .f32 := (Memref.whole cc7_stg7_0 : Memref sig .tc .vmem S128x128 .f32).view
/-- Each window's current staging memref at point `t`, spelled as the pipeline passes it to the body, and its wholeness. -/
abbrev ms7_0 (t : Fin cfg7.N) : Memref sig .tc .vmem S5000x128 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S1x128 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S1x128 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S1x128 .f32 := win7_3.stage (cfg7.slots t 3)
abbrev hs7_3 (t : Fin cfg7.N) : (ms7_3 t).IsWhole := hstage7_3 ((cfg7.slots t 3).cast nbuf7_3)
abbrev ms7_4 (t : Fin cfg7.N) : Memref sig .tc .vmem S1x128 .f32 := win7_4.stage (cfg7.slots t 4)
abbrev hs7_4 (t : Fin cfg7.N) : (ms7_4 t).IsWhole := hstage7_4 ((cfg7.slots t 4).cast nbuf7_4)
abbrev ms7_5 (t : Fin cfg7.N) : Memref sig .tc .vmem S5000x1 .i32 := win7_5.stage (cfg7.slots t 5)
abbrev hs7_5 (t : Fin cfg7.N) : (ms7_5 t).IsWhole := hstage7_5 ((cfg7.slots t 5).cast nbuf7_5)
abbrev ms7_6 (t : Fin cfg7.N) : Memref sig .tc .vmem S5000x128 .f32 := win7_6.stage (cfg7.slots t 6)
abbrev hs7_6 (t : Fin cfg7.N) : (ms7_6 t).IsWhole := hstage7_6 ((cfg7.slots t 6).cast nbuf7_6)
abbrev ms7_7 (t : Fin cfg7.N) : Memref sig .tc .vmem S128x128 .f32 := win7_7.stage (cfg7.slots t 7)
abbrev hs7_7 (t : Fin cfg7.N) : (ms7_7 t).IsWhole := hstage7_7 ((cfg7.slots t 7).cast nbuf7_7)

/-! ## The body on any staging memrefs, case by case -/

set_option maxHeartbeats 1000000 in
/-- CASE A (the first point: the conditional taken). The pieces the body's stores leave in the two outputs' staging
    memrefs (last first), with the proof that on whole staging memrefs — the inputs' at contents `x·`, the outputs'
    at anything — the body runs to a continuation that is handed the inputs' as they were and each output's buffer
    with its pieces written. The pooled-sum block is zeroed before it is read, so what it held does not matter. -/
noncomputable def kernelRun7_A (c : Dev nD) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : cond7_0 i)
    (x0 : Vec F S5000x128 .f32) (x1 : Vec F S1x128 .f32) (x2 : Vec F S1x128 .f32) (x3 : Vec F S1x128 .f32) (x4 : Vec F S1x128 .f32) (x5 : Vec F S5000x1 .i32) :
    Σ' (L6 : List (View.Piece (Elt F) S5000x128 .f32)), { L7 : List (View.Piece (Elt F) S128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc7_kernel i arg1 harg1 arg2 harg2 arg3 harg3 arg4 harg4 arg5 harg5 arg6 harg6 arg7 harg7 arg8 harg8) K } := by
  refine ⟨?_, ?_, fun E K => ?run⟩
  case run =>
    simp only [cc7_kernel_eq_skeleton]; unfold cc7_kernel_skel
    simp only [k7_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact H7

set_option maxHeartbeats 1000000 in
/-- CASE B (a later point: the conditional not taken). As case A, but the pooled-sum block is read before it is
    stored: its buffer is taken at the running contents `xo7`, which the pieces mention. -/
noncomputable def kernelRun7_B (c : Dev nD) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : ¬cond7_0 i)
    (x0 : Vec F S5000x128 .f32) (x1 : Vec F S1x128 .f32) (x2 : Vec F S1x128 .f32) (x3 : Vec F S1x128 .f32) (x4 : Vec F S1x128 .f32) (x5 : Vec F S5000x1 .i32) (xo7 : Vec F S128x128 .f32) :
    Σ' (L6 : List (View.Piece (Elt F) S5000x128 .f32)), { L7 : List (View.Piece (Elt F) S128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xo7
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc7_kernel i arg1 harg1 arg2 harg2 arg3 harg3 arg4 harg4 arg5 harg5 arg6 harg6 arg7 harg7 arg8 harg8) K } := by
  refine ⟨?_, ?_, fun E K => ?run⟩
  case run =>
    simp only [cc7_kernel_eq_skeleton]; unfold cc7_kernel_skel
    simp only [k7_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact H7

/-! ## What each case leaves in the outputs -/

/-- Case A's pieces for output 6 tile its block, so they cover it. -/
theorem cover7_A_6 (c : Dev nD) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : cond7_0 i)
    (x0 : Vec F S5000x128 .f32) (x1 : Vec F S1x128 .f32) (x2 : Vec F S1x128 .f32) (x3 : Vec F S1x128 .f32) (x4 : Vec F S1x128 .f32) (x5 : Vec F S5000x1 .i32) (y : S5000x128.Idx) :
    ∃ pc ∈ (kernelRun7_A c i arg1 harg1 arg2 harg2 arg3 harg3 arg4 harg4 arg5 harg5 arg6 harg6 arg7 harg7 arg8 harg8 hc0 x0 x1 x2 x3 x4 x5).1, y ∈ pc.1.set :=
  View.cover_of_tiledL (kernelRun7_A c i arg1 harg1 arg2 harg2 arg3 harg3 arg4 harg4 arg5 harg5 arg6 harg6 arg7 harg7 arg8 harg8 hc0 x0 x1 x2 x3 x4 x5).1 S5000x128.size (by sl_kernel_rfl) y

/-- What case A leaves in output 6's staging buffer: its pieces read back over junk. -/
def out7_A_6 (c : Dev nD) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : cond7_0 i)
    (x0 : Vec F S5000x128 .f32) (x1 : Vec F S1x128 .f32) (x2 : Vec F S1x128 .f32) (x3 : Vec F S1x128 .f32) (x4 : Vec F S1x128 .f32) (x5 : Vec F S5000x1 .i32) : Vec F S5000x128 .f32 :=
  VO7_6.read (Elt F) (VO7_6.writes (Elt F) VO7_6.junk (kernelRun7_A c i arg1 harg1 arg2 harg2 arg3 harg3 arg4 harg4 arg5 harg5 arg6 harg6 arg7 harg7 arg8 harg8 hc0 x0 x1 x2 x3 x4 x5).1)

/-- Case A's pieces for output 7 tile its block, so they cover it. -/
theorem cover7_A_7 (c : Dev nD) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : cond7_0 i)
    (x0 : Vec F S5000x128 .f32) (x1 : Vec F S1x128 .f32) (x2 : Vec F S1x128 .f32) (x3 : Vec F S1x128 .f32) (x4 : Vec F S1x128 .f32) (x5 : Vec F S5000x1 .i32) (y : S128x128.Idx) :
    ∃ pc ∈ (kernelRun7_A c i arg1 harg1 arg2 harg2 arg3 harg3 arg4 harg4 arg5 harg5 arg6 harg6 arg7 harg7 arg8 harg8 hc0 x0 x1 x2 x3 x4 x5).2.1, y ∈ pc.1.set :=
  View.cover_of_tiledL (kernelRun7_A c i arg1 harg1 arg2 harg2 arg3 harg3 arg4 harg4 arg5 harg5 arg6 harg6 arg7 harg7 arg8 harg8 hc0 x0 x1 x2 x3 x4 x5).2.1 S128x128.size (by sl_kernel_rfl) y

/-- What case A leaves in output 7's staging buffer: its pieces read back over junk. -/
def out7_A_7 (c : Dev nD) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : cond7_0 i)
    (x0 : Vec F S5000x128 .f32) (x1 : Vec F S1x128 .f32) (x2 : Vec F S1x128 .f32) (x3 : Vec F S1x128 .f32) (x4 : Vec F S1x128 .f32) (x5 : Vec F S5000x1 .i32) : Vec F S128x128 .f32 :=
  VO7_7.read (Elt F) (VO7_7.writes (Elt F) VO7_7.junk (kernelRun7_A c i arg1 harg1 arg2 harg2 arg3 harg3 arg4 harg4 arg5 harg5 arg6 harg6 arg7 harg7 arg8 harg8 hc0 x0 x1 x2 x3 x4 x5).2.1)

/-- Case B's pieces for output 6 tile its block, so they cover it. -/
theorem cover7_B_6 (c : Dev nD) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : ¬cond7_0 i)
    (x0 : Vec F S5000x128 .f32) (x1 : Vec F S1x128 .f32) (x2 : Vec F S1x128 .f32) (x3 : Vec F S1x128 .f32) (x4 : Vec F S1x128 .f32) (x5 : Vec F S5000x1 .i32) (xo7 : Vec F S128x128 .f32) (y : S5000x128.Idx) :
    ∃ pc ∈ (kernelRun7_B c i arg1 harg1 arg2 harg2 arg3 harg3 arg4 harg4 arg5 harg5 arg6 harg6 arg7 harg7 arg8 harg8 hc0 x0 x1 x2 x3 x4 x5 xo7).1, y ∈ pc.1.set :=
  View.cover_of_tiledL (kernelRun7_B c i arg1 harg1 arg2 harg2 arg3 harg3 arg4 harg4 arg5 harg5 arg6 harg6 arg7 harg7 arg8 harg8 hc0 x0 x1 x2 x3 x4 x5 xo7).1 S5000x128.size (by sl_kernel_rfl) y

/-- What case B leaves in output 6's staging buffer: its pieces read back over junk. -/
def out7_B_6 (c : Dev nD) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : ¬cond7_0 i)
    (x0 : Vec F S5000x128 .f32) (x1 : Vec F S1x128 .f32) (x2 : Vec F S1x128 .f32) (x3 : Vec F S1x128 .f32) (x4 : Vec F S1x128 .f32) (x5 : Vec F S5000x1 .i32) (xo7 : Vec F S128x128 .f32) : Vec F S5000x128 .f32 :=
  VO7_6.read (Elt F) (VO7_6.writes (Elt F) VO7_6.junk (kernelRun7_B c i arg1 harg1 arg2 harg2 arg3 harg3 arg4 harg4 arg5 harg5 arg6 harg6 arg7 harg7 arg8 harg8 hc0 x0 x1 x2 x3 x4 x5 xo7).1)

/-- Case B's pieces for output 7 tile its block, so they cover it. -/
theorem cover7_B_7 (c : Dev nD) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : ¬cond7_0 i)
    (x0 : Vec F S5000x128 .f32) (x1 : Vec F S1x128 .f32) (x2 : Vec F S1x128 .f32) (x3 : Vec F S1x128 .f32) (x4 : Vec F S1x128 .f32) (x5 : Vec F S5000x1 .i32) (xo7 : Vec F S128x128 .f32) (y : S128x128.Idx) :
    ∃ pc ∈ (kernelRun7_B c i arg1 harg1 arg2 harg2 arg3 harg3 arg4 harg4 arg5 harg5 arg6 harg6 arg7 harg7 arg8 harg8 hc0 x0 x1 x2 x3 x4 x5 xo7).2.1, y ∈ pc.1.set :=
  View.cover_of_tiledL (kernelRun7_B c i arg1 harg1 arg2 harg2 arg3 harg3 arg4 harg4 arg5 harg5 arg6 harg6 arg7 harg7 arg8 harg8 hc0 x0 x1 x2 x3 x4 x5 xo7).2.1 S128x128.size (by sl_kernel_rfl) y

/-- What case B leaves in output 7's staging buffer: its pieces read back over junk. -/
def out7_B_7 (c : Dev nD) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : ¬cond7_0 i)
    (x0 : Vec F S5000x128 .f32) (x1 : Vec F S1x128 .f32) (x2 : Vec F S1x128 .f32) (x3 : Vec F S1x128 .f32) (x4 : Vec F S1x128 .f32) (x5 : Vec F S5000x1 .i32) (xo7 : Vec F S128x128 .f32) : Vec F S128x128 .f32 :=
  VO7_7.read (Elt F) (VO7_7.writes (Elt F) VO7_7.junk (kernelRun7_B c i arg1 harg1 arg2 harg2 arg3 harg3 arg4 harg4 arg5 harg5 arg6 harg6 arg7 harg7 arg8 harg8 hc0 x0 x1 x2 x3 x4 x5 xo7).2.1)

/-! ## What the outputs hold after each point -/

/-- The two outputs after a first-point body at `t`: case A at the point's memrefs and input blocks. -/
def pt7_A (c : Dev nD) (t : Fin cfg7.N) (h0 : t.val % 10 = 0) : Vec F S5000x128 .f32 × Vec F S128x128 .f32 :=
  (out7_A_6 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) ((hcond7_0 t).mpr h0) (iblk7 V c 0 t) (iblk7 V c 1 t) (iblk7 V c 2 t) (iblk7 V c 3 t) (iblk7 V c 4 t) (iblk7 V c 5 t),
   out7_A_7 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) ((hcond7_0 t).mpr h0) (iblk7 V c 0 t) (iblk7 V c 1 t) (iblk7 V c 2 t) (iblk7 V c 3 t) (iblk7 V c 4 t) (iblk7 V c 5 t))

/-- The two outputs after a later-point body at `t`, the pooled-sum block having held `xo7`: case B at the
    point's memrefs and input blocks. -/
def pt7_B (c : Dev nD) (t : Fin cfg7.N) (h0 : ¬t.val % 10 = 0) (xo7 : Vec F S128x128 .f32) : Vec F S5000x128 .f32 × Vec F S128x128 .f32 :=
  (out7_B_6 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (fun h => h0 ((hcond7_0 t).mp h)) (iblk7 V c 0 t) (iblk7 V c 1 t) (iblk7 V c 2 t) (iblk7 V c 3 t) (iblk7 V c 4 t) (iblk7 V c 5 t) xo7,
   out7_B_7 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (fun h => h0 ((hcond7_0 t).mp h)) (iblk7 V c 0 t) (iblk7 V c 1 t) (iblk7 V c 2 t) (iblk7 V c 3 t) (iblk7 V c 4 t) (iblk7 V c 5 t) xo7)

/-- THE ACCUMULATION. What the two outputs' staging buffers hold after the body at position `n`: the case the
    closed form selects at `n`, the pooled-sum block of a later point taken at what this leaves at `n - 1`
    (its buffer is not written back in between). -/
def outsAt7 (c : Dev nD) : (n : ℕ) → n < cfg7.N → Vec F S5000x128 .f32 × Vec F S128x128 .f32
  | 0, hn => pt7_A V c ⟨0, hn⟩ (Nat.zero_mod _)
  | n + 1, hn =>
    if h0 : (n + 1) % 10 = 0 then pt7_A V c ⟨n + 1, hn⟩ h0
    else pt7_B V c ⟨n + 1, hn⟩ h0 (outsAt7 c n (Nat.lt_of_succ_lt hn)).2

/-- `outsAt7` at a point of case A: that case's contents. -/
theorem outsAt7_A (c : Dev nD) (t : Fin cfg7.N) (h0 : t.val % 10 = 0) :
    outsAt7 V c t.val t.isLt = pt7_A V c t h0 := by
  obtain ⟨n, hn⟩ := t
  cases n with
  | zero => exact rfl
  | succ n => exact (dif_pos h0).trans rfl

/-- `outsAt7` at a point of case B: that case's contents, over what the point before left. -/
theorem outsAt7_B (c : Dev nD) (t : Fin cfg7.N) (h0 : ¬t.val % 10 = 0) :
    outsAt7 V c t.val t.isLt = pt7_B V c t h0 (outsAt7 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans rfl

/-! ## The pipeline's proof data -/

/-- The proof data of the region's pipeline on core `c`: the arrays as the region finds them (`V`); after the body
    at point `t` each input's buffer at its block and the outputs' at `outsAt7`; the invariant the scoped rest
    and the generator register; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => (outsAt7 V c t.val t.isLt).1
    | ⟨7, _⟩ => (outsAt7 V c t.val t.isLt).2
  Φ _ := Pipeline.ΦA spec7 c
  q _ := fullShare
  owed _ := 0

/-- The proof data's arrays are the region-entry contents (the definition projected). -/
theorem A_eq7 (c : Dev nD) (w : Fin cfg7.W) : (dat7 V c).A w = V c (Pipeline.arrRef spec7 w) := by
  dsimp only [dat7]

/-- What the body leaves, window by window (the proof data's `match` reduced). -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = (outsAt7 V c t.val t.isLt).1 := by dsimp only [dat7]
theorem after7_7 (c : Dev nD) (t : Fin cfg7.N) : (dat7 V c).after 7 t = (outsAt7 V c t.val t.isLt).2 := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d

/-- At a later point the pooled-sum window's staging buffer holds what the body left at the point before: the point is
    not the first, the buffer was not written back in between (it is written back after the last point only), and the
    window is live and uncut. -/
theorem before7_7_B (c : Dev nD) (t : Fin cfg7.N) (h0 : ¬t.val % 10 = 0) (d) :
    (dat7 V c).before 7 t d = (outsAt7 V c (t.val - 1) (Nat.lt_of_le_of_lt (Nat.sub_le _ _) t.isLt)).2 := by
  have hN : t.val < 10 := lt_of_lt_of_eq t.isLt (show cfg7.N = 10 from N_7)
  rw [Dat.before_out_kept _ 7 rfl t (by omega) (Bool.eq_false_iff.mpr fun h => by have := (flush7_7 _).mp h; dsimp only at this; omega)
    (fun _ => rfl) (fun _ _ => rfl)]
  dsimp only [dat7]

/-! ## The body obligation, at a generic point -/

/-- What the body is called with at point `t`: the invariant, what the core owes, and every window's current staging
    buffer at what the proof data say it holds before the body; -/
def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d))
    ∗ (∃ d, owns (c : Thread nD τ) (ms7_4 t) fullShare ((dat7 V c).before 4 t d))
    ∗ (∃ d, owns (c : Thread nD τ) (ms7_5 t) fullShare ((dat7 V c).before 5 t d))
    ∗ (∃ d, owns (c : Thread nD τ) (ms7_6 t) fullShare ((dat7 V c).before 6 t d))
    ∗ (∃ d, owns (c : Thread nD τ) (ms7_7 t) fullShare ((dat7 V c).before 7 t d)))

/-- and what it returns: the same with every buffer at what the data say the body leaves. -/
def bodyPost7 (c : Dev nD) (t : Fin cfg7.N) : sProp 𝕄 :=
  iprop((dat7 V c).Φ t.succ ∗ (dat7 V c).owesAt () t.succ
    ∗ owns (c : Thread nD τ) (ms7_0 t) fullShare ((dat7 V c).after 0 t)
    ∗ owns (c : Thread nD τ) (ms7_1 t) fullShare ((dat7 V c).after 1 t)
    ∗ owns (c : Thread nD τ) (ms7_2 t) fullShare ((dat7 V c).after 2 t)
    ∗ owns (c : Thread nD τ) (ms7_3 t) fullShare ((dat7 V c).after 3 t)
    ∗ owns (c : Thread nD τ) (ms7_4 t) fullShare ((dat7 V c).after 4 t)
    ∗ owns (c : Thread nD τ) (ms7_5 t) fullShare ((dat7 V c).after 5 t)
    ∗ owns (c : Thread nD τ) (ms7_6 t) fullShare ((dat7 V c).after 6 t)
    ∗ owns (c : Thread nD τ) (ms7_7 t) fullShare ((dat7 V c).after 7 t))

set_option maxHeartbeats 1600000 in
/-- The body at any point: the inputs' memrefs hold their blocks; the closed form of the condition says which case
    the point is in; in case B the pooled-sum buffer holds what the point before left; so the case's run applies, and
    a covering list of pieces reads back the same through any view. The invariant and what the core owes pass
    through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6, after7_7]
  have hN : t.val < 10 := lt_of_lt_of_eq t.isLt (show cfg7.N = 10 from N_7)
  by_cases h0 : t.val % 10 = 0
  · rw [outsAt7_A V c t h0]
    dsimp only [pt7_A]
    unfold out7_A_6 out7_A_7
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun7_A c (grid7.coords t) _ _ _ _ _ _ _ _ _ _ _ _ _ _ _ _ ((hcond7_0 t).mpr h0) (iblk7 V c 0 t) (iblk7 V c 1 t) (iblk7 V c 2 t) (iblk7 V c 3 t) (iblk7 V c 4 t) (iblk7 V c 5 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    iintro ⟨H0, H1, H2, H3, H4, H5, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover7_A_6 c _ _ _ _ _ _ _ _ _ _ _ _ _ _ _ _ _ _ _ _ _ _ _ _)
    unfold owns; iexists _; isplitr
    swap; · iexact H7
    ipureintro; exact View.read_writes_of_cover _ _ _ _ _ (cover7_A_7 c _ _ _ _ _ _ _ _ _ _ _ _ _ _ _ _ _ _ _ _ _ _ _ _)
  · rw [outsAt7_B V c t h0]
    simp only [before7_7_B V c t h0]
    dsimp only [pt7_B]
    unfold out7_B_6 out7_B_7
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun7_B c (grid7.coords t) _ _ _ _ _ _ _ _ _ _ _ _ _ _ _ _ (fun h => h0 ((hcond7_0 t).mp h)) (iblk7 V c 0 t) (iblk7 V c 1 t) (iblk7 V c 2 t) (iblk7 V c 3 t) (iblk7 V c 4 t) (iblk7 V c 5 t) _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    iintro ⟨H0, H1, H2, H3, H4, H5, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover7_B_6 c _ _ _ _ _ _ _ _ _ _ _ _ _ _ _ _ _ _ _ _ _ _ _ _ _)
    unfold owns; iexists _; isplitr
    swap; · iexact H7
    ipureintro; exact View.read_writes_of_cover _ _ _ _ _ (cover7_B_7 c _ _ _ _ _ _ _ _ _ _ _ _ _ _ _ _ _ _ _ _ _ _ _ _ _)

/-- The body obligation, at every point. -/
theorem body_obligation7 (c : Dev nD) : BodyObligation (dat7 (F := F) V c) (defs₀ (F := F)) Variants.none () Set.univ := fun t => by
  rw [bigSep_W7, bigSep_W7]
  exact sound_body7 V c t

/-- info: 'Cert.KernelIdeal.Reg.body_obligation7' depends on axioms: [propext, Classical.choice, Quot.sound] -/
#guard_msgs in #print axioms body_obligation7

end Cert.KernelIdeal.Reg

end
-- ==== Proof.KI.Reg8.lean ====
import proofs.«144276_j65051574665788_2_alg».proof.Proof.Gen.KernelIdeal.Launch
import proofs.«144276_j65051574665788_2_alg».proof.Proof.Gen.KernelIdeal.Skeleton
import proofs.«144276_j65051574665788_2_alg».proof.Proof.Gen.KernelIdeal.Points
import Idealize.ShloMosaic.Lib.Pipeline.FrameBody
import Idealize.ShloMosaic.Lib.Ring
import Idealize.ShloMosaic.Lib.Tactic

/-! # Region 8 of @main: the layer transform, at the entry contents `V`

The body computes `agg·Wl + h·Wr + bl` into a row block of the first output and adds the block's column sums and
column sums of squares into the second and third outputs, whose single block is revisited at every grid point:
at the first point the two are zeroed first, at a later point they hold what the point before left. Hence two
control cases. Per case the body is run once on arbitrary whole memrefs, the stores it makes into each output
being the witness of the run; the outputs' contents point by point are then a recursion on the point, and the
body obligation follows by cases on the point. Everything is stated at a parameter `V`, the TensorCore's buffer
contents when the region is entered, and at any float instance. -/

-- membership in a rectangle with a long axis recurses once per coordinate
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, fetched there or not, for any proof data
    whose array is the entry contents (`hA`) and whose body leaves the block in place (`hafter`): unfetched, the block
    index has not moved; the window is uncut and never idle. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's current staging buffer holds its block at every point, fetched there or not, for any proof data
    whose array is the entry contents (`hA`) and whose body leaves the block in place (`hafter`): unfetched, the block
    index has not moved; the window is uncut and never idle. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's current staging buffer holds its block at every point, fetched there or not, for any proof data
    whose array is the entry contents (`hA`) and whose body leaves the block in place (`hafter`): unfetched, the block
    index has not moved; the window is uncut and never idle. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 3's current staging buffer holds its block at every point, fetched there or not, for any proof data
    whose array is the entry contents (`hA`) and whose body leaves the block in place (`hafter`): unfetched, the block
    index has not moved; the window is uncut and never idle. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- Input window 4's current staging buffer holds its block at every point, fetched there or not, for any proof data
    whose array is the entry contents (`hA`) and whose body leaves the block in place (`hafter`): unfetched, the block
    index has not moved; the window is uncut and never idle. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-! ## The body's branch condition -/

/-- The condition of the body's one conditional, from the grid coordinates: the point is the first. -/
abbrev cond8_0 (i : grid8.Coords) : Prop := (Scalar.cmpi .ne (Scalar.extui (Scalar.cmpi .eq (BitVec.ofNat 32 (i 0).val) 0#32)) 0#32) = 1#1
/-- It holds at the first point only: decided over the ten points. -/
theorem hcond8_0 : ∀ t : Fin cfg8.N, cond8_0 (grid8.coords t) ↔ t.val % 10 = 0 :=
  (by decide +kernel : ∀ t : Fin grid8.N, cond8_0 (grid8.coords t) ↔ t.val % 10 = 0)

/-! ## The staging memrefs -/

/-- One staging buffer of each output window, through which its contents are stated (a covering list of writes
    reads back the same through any view). -/
abbrev VO8_5 : View sig .tc .vmem S5000x128 .f32 := (Memref.whole cc8_stg5_0 : Memref sig .tc .vmem S5000x128 .f32).view
abbrev VO8_6 : View sig .tc .vmem S1x128 .f32 := (Memref.whole cc8_stg6_0 : Memref sig .tc .vmem S1x128 .f32).view
abbrev VO8_7 : View sig .tc .vmem S1x128 .f32 := (Memref.whole cc8_stg7_0 : Memref sig .tc .vmem S1x128 .f32).view
/-- Each window's current staging memref at point `t`, spelled as the pipeline passes it, and its wholeness. -/
abbrev ms8_0 (t : Fin cfg8.N) : Memref sig .tc .vmem S5000x128 .f32 := win8_0.stage (cfg8.slots t 0)
abbrev hs8_0 (t : Fin cfg8.N) : (ms8_0 t).IsWhole := hstage8_0 ((cfg8.slots t 0).cast nbuf8_0)
abbrev ms8_1 (t : Fin cfg8.N) : Memref sig .tc .vmem S5000x128 .f32 := win8_1.stage (cfg8.slots t 1)
abbrev hs8_1 (t : Fin cfg8.N) : (ms8_1 t).IsWhole := hstage8_1 ((cfg8.slots t 1).cast nbuf8_1)
abbrev ms8_2 (t : Fin cfg8.N) : Memref sig .tc .vmem S128x128 .f32 := win8_2.stage (cfg8.slots t 2)
abbrev hs8_2 (t : Fin cfg8.N) : (ms8_2 t).IsWhole := hstage8_2 ((cfg8.slots t 2).cast nbuf8_2)
abbrev ms8_3 (t : Fin cfg8.N) : Memref sig .tc .vmem S128x128 .f32 := win8_3.stage (cfg8.slots t 3)
abbrev hs8_3 (t : Fin cfg8.N) : (ms8_3 t).IsWhole := hstage8_3 ((cfg8.slots t 3).cast nbuf8_3)
abbrev ms8_4 (t : Fin cfg8.N) : Memref sig .tc .vmem S1x128 .f32 := win8_4.stage (cfg8.slots t 4)
abbrev hs8_4 (t : Fin cfg8.N) : (ms8_4 t).IsWhole := hstage8_4 ((cfg8.slots t 4).cast nbuf8_4)
abbrev ms8_5 (t : Fin cfg8.N) : Memref sig .tc .vmem S5000x128 .f32 := win8_5.stage (cfg8.slots t 5)
abbrev hs8_5 (t : Fin cfg8.N) : (ms8_5 t).IsWhole := hstage8_5 ((cfg8.slots t 5).cast nbuf8_5)
abbrev ms8_6 (t : Fin cfg8.N) : Memref sig .tc .vmem S1x128 .f32 := win8_6.stage (cfg8.slots t 6)
abbrev hs8_6 (t : Fin cfg8.N) : (ms8_6 t).IsWhole := hstage8_6 ((cfg8.slots t 6).cast nbuf8_6)
abbrev ms8_7 (t : Fin cfg8.N) : Memref sig .tc .vmem S1x128 .f32 := win8_7.stage (cfg8.slots t 7)
abbrev hs8_7 (t : Fin cfg8.N) : (ms8_7 t).IsWhole := hstage8_7 ((cfg8.slots t 7).cast nbuf8_7)

/-! ## The body on any whole memrefs, case by case -/

set_option maxHeartbeats 1000000 in
/-- THE FIRST POINT. The pieces the body's stores leave in each output's memref (last first), with the proof that on
    whole memrefs — the inputs' at contents `x·`, the outputs' at anything — the body runs to the continuation
    holding the inputs' as they were and each output's with its pieces written. The conditional is taken: the two
    accumulators are zeroed, then read back and added to. -/
noncomputable def kernelRun8_A (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : cond8_0 i)
    (x0 : Vec F S5000x128 .f32) (x1 : Vec F S5000x128 .f32) (x2 : Vec F S128x128 .f32) (x3 : Vec F S128x128 .f32) (x4 : Vec F S1x128 .f32) :
    Σ' (L5 : List (View.Piece (Elt F) S5000x128 .f32)) (L6 : List (View.Piece (Elt F) S1x128 .f32)), { L7 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc8__layer_transform_kernel i arg1 harg1 arg2 harg2 arg3 harg3 arg4 harg4 arg5 harg5 arg6 harg6 arg7 harg7 arg8 harg8) K } := by
  refine ⟨?_, ?_, ?_, fun E K => ?run⟩
  case run =>
    simp only [cc8__layer_transform_kernel_eq_skeleton]; unfold cc8__layer_transform_kernel_skel
    simp only [k8_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    iexists _; iexact H7

set_option maxHeartbeats 1000000 in
/-- A LATER POINT. The same with the conditional not taken: the two accumulators' memrefs are handed over at the
    running contents `xo6`, `xo7`, which the body reads before it covers them. -/
noncomputable def kernelRun8_B (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : ¬cond8_0 i)
    (x0 : Vec F S5000x128 .f32) (x1 : Vec F S5000x128 .f32) (x2 : Vec F S128x128 .f32) (x3 : Vec F S128x128 .f32) (x4 : Vec F S1x128 .f32) (xo6 : Vec F S1x128 .f32) (xo7 : Vec F S1x128 .f32) :
    Σ' (L5 : List (View.Piece (Elt F) S5000x128 .f32)) (L6 : List (View.Piece (Elt F) S1x128 .f32)), { L7 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ owns (c : Thread nD τ) arg7 fullShare xo6 ∗ owns (c : Thread nD τ) arg8 fullShare xo7
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc8__layer_transform_kernel i arg1 harg1 arg2 harg2 arg3 harg3 arg4 harg4 arg5 harg5 arg6 harg6 arg7 harg7 arg8 harg8) K } := by
  refine ⟨?_, ?_, ?_, fun E K => ?run⟩
  case run =>
    simp only [cc8__layer_transform_kernel_eq_skeleton]; unfold cc8__layer_transform_kernel_skel
    simp only [k8_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
    obtain rfl := harg1.eq_unread hf0; obtain rfl := harg2.eq_unread hf1; obtain rfl := harg3.eq_unread hf2
    obtain rfl := harg4.eq_unread hf3; obtain rfl := harg5.eq_unread hf4
    obtain rfl := harg7.eq_unread hf6; obtain rfl := harg8.eq_unread hf7
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    iexists _; iexact H7

/-! ## The pieces cover the outputs' blocks -/

/-- Case A's pieces for output 5 tile its block, so they cover it. -/
theorem cover8_A_5 (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : cond8_0 i)
    (x0 : Vec F S5000x128 .f32) (x1 : Vec F S5000x128 .f32) (x2 : Vec F S128x128 .f32) (x3 : Vec F S128x128 .f32) (x4 : Vec F S1x128 .f32) (y : S5000x128.Idx) :
    ∃ pc ∈ (kernelRun8_A c i arg1 harg1 arg2 harg2 arg3 harg3 arg4 harg4 arg5 harg5 arg6 harg6 arg7 harg7 arg8 harg8 hc0 x0 x1 x2 x3 x4).1, y ∈ pc.1.set :=
  View.cover_of_tiledL (kernelRun8_A c i arg1 harg1 arg2 harg2 arg3 harg3 arg4 harg4 arg5 harg5 arg6 harg6 arg7 harg7 arg8 harg8 hc0 x0 x1 x2 x3 x4).1 S5000x128.size (by sl_kernel_rfl) y

/-- Case A's pieces for output 6 tile its block, so they cover it. -/
theorem cover8_A_6 (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : cond8_0 i)
    (x0 : Vec F S5000x128 .f32) (x1 : Vec F S5000x128 .f32) (x2 : Vec F S128x128 .f32) (x3 : Vec F S128x128 .f32) (x4 : Vec F S1x128 .f32) (y : S1x128.Idx) :
    ∃ pc ∈ (kernelRun8_A c i arg1 harg1 arg2 harg2 arg3 harg3 arg4 harg4 arg5 harg5 arg6 harg6 arg7 harg7 arg8 harg8 hc0 x0 x1 x2 x3 x4).2.1, y ∈ pc.1.set :=
  View.cover_of_tiledL (kernelRun8_A c i arg1 harg1 arg2 harg2 arg3 harg3 arg4 harg4 arg5 harg5 arg6 harg6 arg7 harg7 arg8 harg8 hc0 x0 x1 x2 x3 x4).2.1 S1x128.size (by sl_kernel_rfl) y

/-- Case A's pieces for output 7 tile its block, so they cover it. -/
theorem cover8_A_7 (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : cond8_0 i)
    (x0 : Vec F S5000x128 .f32) (x1 : Vec F S5000x128 .f32) (x2 : Vec F S128x128 .f32) (x3 : Vec F S128x128 .f32) (x4 : Vec F S1x128 .f32) (y : S1x128.Idx) :
    ∃ pc ∈ (kernelRun8_A c i arg1 harg1 arg2 harg2 arg3 harg3 arg4 harg4 arg5 harg5 arg6 harg6 arg7 harg7 arg8 harg8 hc0 x0 x1 x2 x3 x4).2.2.1, y ∈ pc.1.set :=
  View.cover_of_tiledL (kernelRun8_A c i arg1 harg1 arg2 harg2 arg3 harg3 arg4 harg4 arg5 harg5 arg6 harg6 arg7 harg7 arg8 harg8 hc0 x0 x1 x2 x3 x4).2.2.1 S1x128.size (by sl_kernel_rfl) y

/-- Case B's pieces for output 5 tile its block, so they cover it. -/
theorem cover8_B_5 (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : ¬cond8_0 i)
    (x0 : Vec F S5000x128 .f32) (x1 : Vec F S5000x128 .f32) (x2 : Vec F S128x128 .f32) (x3 : Vec F S128x128 .f32) (x4 : Vec F S1x128 .f32) (xo6 : Vec F S1x128 .f32) (xo7 : Vec F S1x128 .f32) (y : S5000x128.Idx) :
    ∃ pc ∈ (kernelRun8_B c i arg1 harg1 arg2 harg2 arg3 harg3 arg4 harg4 arg5 harg5 arg6 harg6 arg7 harg7 arg8 harg8 hc0 x0 x1 x2 x3 x4 xo6 xo7).1, y ∈ pc.1.set :=
  View.cover_of_tiledL (kernelRun8_B c i arg1 harg1 arg2 harg2 arg3 harg3 arg4 harg4 arg5 harg5 arg6 harg6 arg7 harg7 arg8 harg8 hc0 x0 x1 x2 x3 x4 xo6 xo7).1 S5000x128.size (by sl_kernel_rfl) y

/-- Case B's pieces for output 6 tile its block, so they cover it. -/
theorem cover8_B_6 (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : ¬cond8_0 i)
    (x0 : Vec F S5000x128 .f32) (x1 : Vec F S5000x128 .f32) (x2 : Vec F S128x128 .f32) (x3 : Vec F S128x128 .f32) (x4 : Vec F S1x128 .f32) (xo6 : Vec F S1x128 .f32) (xo7 : Vec F S1x128 .f32) (y : S1x128.Idx) :
    ∃ pc ∈ (kernelRun8_B c i arg1 harg1 arg2 harg2 arg3 harg3 arg4 harg4 arg5 harg5 arg6 harg6 arg7 harg7 arg8 harg8 hc0 x0 x1 x2 x3 x4 xo6 xo7).2.1, y ∈ pc.1.set :=
  View.cover_of_tiledL (kernelRun8_B c i arg1 harg1 arg2 harg2 arg3 harg3 arg4 harg4 arg5 harg5 arg6 harg6 arg7 harg7 arg8 harg8 hc0 x0 x1 x2 x3 x4 xo6 xo7).2.1 S1x128.size (by sl_kernel_rfl) y

/-- Case B's pieces for output 7 tile its block, so they cover it. -/
theorem cover8_B_7 (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : ¬cond8_0 i)
    (x0 : Vec F S5000x128 .f32) (x1 : Vec F S5000x128 .f32) (x2 : Vec F S128x128 .f32) (x3 : Vec F S128x128 .f32) (x4 : Vec F S1x128 .f32) (xo6 : Vec F S1x128 .f32) (xo7 : Vec F S1x128 .f32) (y : S1x128.Idx) :
    ∃ pc ∈ (kernelRun8_B c i arg1 harg1 arg2 harg2 arg3 harg3 arg4 harg4 arg5 harg5 arg6 harg6 arg7 harg7 arg8 harg8 hc0 x0 x1 x2 x3 x4 xo6 xo7).2.2.1, y ∈ pc.1.set :=
  View.cover_of_tiledL (kernelRun8_B c i arg1 harg1 arg2 harg2 arg3 harg3 arg4 harg4 arg5 harg5 arg6 harg6 arg7 harg7 arg8 harg8 hc0 x0 x1 x2 x3 x4 xo6 xo7).2.2.1 S1x128.size (by sl_kernel_rfl) y

/-! ## What the outputs hold after each point -/

/-- The first-point run at point `t`'s memrefs and input blocks. -/
abbrev runA8 (c : Dev nD) (t : Fin cfg8.N) (h0 : t.val % 10 = 0) :=
  kernelRun8_A (F := F) c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) ((hcond8_0 t).mpr h0) (iblk8 V c 0 t) (iblk8 V c 1 t) (iblk8 V c 2 t) (iblk8 V c 3 t) (iblk8 V c 4 t)

/-- The later-point run at point `t`'s memrefs and input blocks, the accumulators at `xo6`, `xo7`. -/
abbrev runB8 (c : Dev nD) (t : Fin cfg8.N) (h0 : ¬t.val % 10 = 0) (xo6 : Vec F S1x128 .f32) (xo7 : Vec F S1x128 .f32) :=
  kernelRun8_B (F := F) c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (fun h => h0 ((hcond8_0 t).mp h)) (iblk8 V c 0 t) (iblk8 V c 1 t) (iblk8 V c 2 t) (iblk8 V c 3 t) (iblk8 V c 4 t) xo6 xo7

/-- What the first-point case leaves in the three outputs' staging buffers: its pieces read back over junk. -/
def outsA8 (c : Dev nD) (t : Fin cfg8.N) (h0 : t.val % 10 = 0) : Vec F S5000x128 .f32 × Vec F S1x128 .f32 × Vec F S1x128 .f32 :=
  (VO8_5.read (Elt F) (VO8_5.writes (Elt F) VO8_5.junk (runA8 V c t h0).1),
   VO8_6.read (Elt F) (VO8_6.writes (Elt F) VO8_6.junk (runA8 V c t h0).2.1),
   VO8_7.read (Elt F) (VO8_7.writes (Elt F) VO8_7.junk (runA8 V c t h0).2.2.1))

/-- What the later-point case leaves there, over accumulators at `xo6`, `xo7`. -/
def outsB8 (c : Dev nD) (t : Fin cfg8.N) (h0 : ¬t.val % 10 = 0) (xo6 : Vec F S1x128 .f32) (xo7 : Vec F S1x128 .f32) :
    Vec F S5000x128 .f32 × Vec F S1x128 .f32 × Vec F S1x128 .f32 :=
  (VO8_5.read (Elt F) (VO8_5.writes (Elt F) VO8_5.junk (runB8 V c t h0 xo6 xo7).1),
   VO8_6.read (Elt F) (VO8_6.writes (Elt F) VO8_6.junk (runB8 V c t h0 xo6 xo7).2.1),
   VO8_7.read (Elt F) (VO8_7.writes (Elt F) VO8_7.junk (runB8 V c t h0 xo6 xo7).2.2.1))

/-- THE ACCUMULATION. What the three outputs' staging buffers hold after the body at position `n`: the case the
    point is in, run at the point's memrefs and input blocks, the two accumulators at what this leaves at `n - 1`
    (their buffer is not written back in between). -/
def outsAt8 (c : Dev nD) : (n : ℕ) → n < cfg8.N → Vec F S5000x128 .f32 × Vec F S1x128 .f32 × Vec F S1x128 .f32
  | 0, hn => outsA8 V c ⟨0, hn⟩ (Nat.zero_mod _)
  | n + 1, hn =>
    if h0 : (n + 1) % 10 = 0 then
      outsA8 V c ⟨n + 1, hn⟩ h0
    else
      outsB8 V c ⟨n + 1, hn⟩ h0 (outsAt8 c n (Nat.lt_of_succ_lt hn)).2.1 (outsAt8 c n (Nat.lt_of_succ_lt hn)).2.2

/-- `outsAt8` at a first point: that case's contents. -/
theorem outsAt8_A (c : Dev nD) (t : Fin cfg8.N) (h0 : t.val % 10 = 0) :
    outsAt8 V c t.val t.isLt = outsA8 V c t h0 := by
  obtain ⟨n, hn⟩ := t
  cases n with
  | zero => exact rfl
  | succ n => exact (dif_pos h0).trans rfl

/-- `outsAt8` at a later point: that case's contents, over what the point before left. -/
theorem outsAt8_B (c : Dev nD) (t : Fin cfg8.N) (h0 : ¬t.val % 10 = 0) :
    outsAt8 V c t.val t.isLt = outsB8 V c t h0
      (outsAt8 V c (t.val - 1) (Nat.lt_of_le_of_lt (Nat.sub_le _ _) t.isLt)).2.1
      (outsAt8 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans rfl

/-! ## The pipeline's proof data -/

/-- The proof data of the region's pipeline on core `c`: the arrays as the region finds them (`V`); after the body
    at point `t` each input's buffer at its block and the outputs' at `outsAt8`; the invariant the scoped rest
    and the generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => (outsAt8 V c t.val t.isLt).1
    | ⟨6, _⟩ => (outsAt8 V c t.val t.isLt).2.1
    | ⟨7, _⟩ => (outsAt8 V c t.val t.isLt).2.2
  Φ _ := Pipeline.ΦA spec8 c
  q _ := fullShare
  owed _ := 0

/-- The proof data's arrays are the region-entry contents (the definition projected). -/
theorem A_eq8 (c : Dev nD) (w : Fin cfg8.W) : (dat8 V c).A w = V c (Pipeline.arrRef spec8 w) := by
  dsimp only [dat8]

/-- What the body leaves, window by window (the definition's `match` reduced). -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = (outsAt8 V c t.val t.isLt).1 := by dsimp only [dat8]
theorem after8_6 (c : Dev nD) (t : Fin cfg8.N) : (dat8 V c).after 6 t = (outsAt8 V c t.val t.isLt).2.1 := by dsimp only [dat8]
theorem after8_7 (c : Dev nD) (t : Fin cfg8.N) : (dat8 V c).after 7 t = (outsAt8 V c t.val t.isLt).2.2 := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d

/-- At a later point output 6's staging buffer holds what the body left at the point before: the buffer is written
    back at the last point only, and the window is live and uncut. -/
theorem before8_6_B (c : Dev nD) (t : Fin cfg8.N) (h0 : ¬t.val % 10 = 0) (d) :
    (dat8 V c).before 6 t d = (outsAt8 V c (t.val - 1) (Nat.lt_of_le_of_lt (Nat.sub_le _ _) t.isLt)).2.1 := by
  have hN : t.val < 10 := lt_of_lt_of_eq t.isLt (show cfg8.N = 10 from N_8)
  rw [Dat.before_out_kept _ 6 rfl t (by omega) (Bool.eq_false_iff.mpr fun h => by have := (flush8_6 _).mp h; dsimp only at this; omega)
    (fun _ => rfl) (fun _ _ => rfl)]
  dsimp only [dat8]

/-- At a later point output 7's staging buffer holds what the body left at the point before: the buffer is written
    back at the last point only, and the window is live and uncut. -/
theorem before8_7_B (c : Dev nD) (t : Fin cfg8.N) (h0 : ¬t.val % 10 = 0) (d) :
    (dat8 V c).before 7 t d = (outsAt8 V c (t.val - 1) (Nat.lt_of_le_of_lt (Nat.sub_le _ _) t.isLt)).2.2 := by
  have hN : t.val < 10 := lt_of_lt_of_eq t.isLt (show cfg8.N = 10 from N_8)
  rw [Dat.before_out_kept _ 7 rfl t (by omega) (Bool.eq_false_iff.mpr fun h => by have := (flush8_7 _).mp h; dsimp only at this; omega)
    (fun _ => rfl) (fun _ _ => rfl)]
  dsimp only [dat8]

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (ms8_0 t) fullShare ((dat8 V c).before 0 t d))
    ∗ (∃ d, owns (c : Thread nD τ) (ms8_1 t) fullShare ((dat8 V c).before 1 t d))
    ∗ (∃ d, owns (c : Thread nD τ) (ms8_2 t) fullShare ((dat8 V c).before 2 t d))
    ∗ (∃ d, owns (c : Thread nD τ) (ms8_3 t) fullShare ((dat8 V c).before 3 t d))
    ∗ (∃ d, owns (c : Thread nD τ) (ms8_4 t) fullShare ((dat8 V c).before 4 t d))
    ∗ (∃ d, owns (c : Thread nD τ) (ms8_5 t) fullShare ((dat8 V c).before 5 t d))
    ∗ (∃ d, owns (c : Thread nD τ) (ms8_6 t) fullShare ((dat8 V c).before 6 t d))
    ∗ (∃ d, owns (c : Thread nD τ) (ms8_7 t) fullShare ((dat8 V c).before 7 t d)))

/-- and what it returns. -/
def bodyPost8 (c : Dev nD) (t : Fin cfg8.N) : sProp 𝕄 :=
  iprop((dat8 V c).Φ t.succ ∗ (dat8 V c).owesAt () t.succ
    ∗ owns (c : Thread nD τ) (ms8_0 t) fullShare ((dat8 V c).after 0 t)
    ∗ owns (c : Thread nD τ) (ms8_1 t) fullShare ((dat8 V c).after 1 t)
    ∗ owns (c : Thread nD τ) (ms8_2 t) fullShare ((dat8 V c).after 2 t)
    ∗ owns (c : Thread nD τ) (ms8_3 t) fullShare ((dat8 V c).after 3 t)
    ∗ owns (c : Thread nD τ) (ms8_4 t) fullShare ((dat8 V c).after 4 t)
    ∗ owns (c : Thread nD τ) (ms8_5 t) fullShare ((dat8 V c).after 5 t)
    ∗ owns (c : Thread nD τ) (ms8_6 t) fullShare ((dat8 V c).after 6 t)
    ∗ owns (c : Thread nD τ) (ms8_7 t) fullShare ((dat8 V c).after 7 t))

set_option maxHeartbeats 1600000 in
/-- The body at any point: the inputs' memrefs hold their blocks; the closed form of the condition says which case
    the point is in; at a later point the two accumulators hold what the point before left; so the case's run
    applies, and its pieces, covering each output's block, read back as `outsAt8` says. The invariant passes
    through unread and the core owes nothing throughout. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6, after8_7]
  have hN : t.val < 10 := lt_of_lt_of_eq t.isLt (show cfg8.N = 10 from N_8)
  by_cases h0 : t.val % 10 = 0
  · rw [outsAt8_A V c t h0]
    unfold outsA8; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runA8 V c t h0).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    iintro ⟨H0, H1, H2, H3, H4, ⟨%e5, H5⟩, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover8_A_5 c _ _ _ _ _ _ _ _ _ _ _ _ _ _ _ _ _ _ _ _ _ _ _)
    isplitl [H6]
    · unfold owns; iexists _; isplitr
      swap; · iexact H6
      ipureintro; exact View.read_writes_of_cover _ _ _ _ _ (cover8_A_6 c _ _ _ _ _ _ _ _ _ _ _ _ _ _ _ _ _ _ _ _ _ _ _)
    unfold owns; iexists _; isplitr
    swap; · iexact H7
    ipureintro; exact View.read_writes_of_cover _ _ _ _ _ (cover8_A_7 c _ _ _ _ _ _ _ _ _ _ _ _ _ _ _ _ _ _ _ _ _ _ _)
  · rw [outsAt8_B V c t h0]
    simp only [before8_6_B V c t h0, before8_7_B V c t h0]
    unfold outsB8; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runB8 V c t h0 _ _).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    iintro ⟨H0, H1, H2, H3, H4, ⟨%e5, H5⟩, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover8_B_5 c _ _ _ _ _ _ _ _ _ _ _ _ _ _ _ _ _ _ _ _ _ _ _ _ _)
    isplitl [H6]
    · unfold owns; iexists _; isplitr
      swap; · iexact H6
      ipureintro; exact View.read_writes_of_cover _ _ _ _ _ (cover8_B_6 c _ _ _ _ _ _ _ _ _ _ _ _ _ _ _ _ _ _ _ _ _ _ _ _ _)
    unfold owns; iexists _; isplitr
    swap; · iexact H7
    ipureintro; exact View.read_writes_of_cover _ _ _ _ _ (cover8_B_7 c _ _ _ _ _ _ _ _ _ _ _ _ _ _ _ _ _ _ _ _ _ _ _ _ _)

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Reg

end
-- ==== Proof.KI.Reg9.lean ====
import proofs.«144276_j65051574665788_2_alg».proof.Proof.Gen.KernelIdeal.Launch
import proofs.«144276_j65051574665788_2_alg».proof.Proof.Gen.KernelIdeal.Skeleton
import proofs.«144276_j65051574665788_2_alg».proof.Proof.Gen.KernelIdeal.Points
import Idealize.ShloMosaic.Lib.Pipeline.FrameBody
import Idealize.ShloMosaic.Lib.Ring
import Idealize.ShloMosaic.Lib.Tactic

/-! # Region 9 of @main: the normalisation and pooling call, at the entry contents `V`

The body's half of the region's frame: for any contents `V` of the core's buffers at the region's entry, the
proof data of the pipeline (what every window's staging buffer holds before and after the body at every grid
point) and the body obligation — the body, run at any grid point on buffers holding what the data say, ends
with them holding what the data say, touching nothing else.

The body has two control cases. At the first grid point the pooled-sum block (window 7) is zeroed and then
added to; at every later point it is read at what the point before left and added to. The normalised block
(window 6) is stored whole at every point. What the two outputs hold after each point is therefore a recursion
on the point, the pooled-sum block carried from the point before. -/

-- membership in a rectangle of large extents recurses once per coordinate of the long axes
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0: its current staging buffer holds its block at every point, whether fetched there or not
    (unfetched, the block index has not moved since the fetch), for any proof data whose array is `V`'s and whose
    body leaves the block in place; the window is uncut and never idle. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1: its current staging buffer holds its block at every point, whether fetched there or not
    (unfetched, the block index has not moved since the fetch), for any proof data whose array is `V`'s and whose
    body leaves the block in place; the window is uncut and never idle. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2: its current staging buffer holds its block at every point, whether fetched there or not
    (unfetched, the block index has not moved since the fetch), for any proof data whose array is `V`'s and whose
    body leaves the block in place; the window is uncut and never idle. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- Input window 3: its current staging buffer holds its block at every point, whether fetched there or not
    (unfetched, the block index has not moved since the fetch), for any proof data whose array is `V`'s and whose
    body leaves the block in place; the window is uncut and never idle. -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

/-- Input window 4: its current staging buffer holds its block at every point, whether fetched there or not
    (unfetched, the block index has not moved since the fetch), for any proof data whose array is `V`'s and whose
    body leaves the block in place; the window is uncut and never idle. -/
theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)

/-- Input window 5: its current staging buffer holds its block at every point, whether fetched there or not
    (unfetched, the block index has not moved since the fetch), for any proof data whose array is `V`'s and whose
    body leaves the block in place; the window is uncut and never idle. -/
theorem before9_5_of {c : Dev nD} (dat : Dat τ (Elt F) Unit ℕ (UR sig nD τ) ℕ cfg9 c) (hA : dat.A 5 = V c (Pipeline.arrRef spec9 5))
    (hafter : ∀ t, dat.after 5 t = iblk9 V c 5 t) (t : Fin cfg9.N) (d) : dat.before 5 t d = iblk9 V c 5 t :=
  (dat.before_in_eq_fetched 5 rfl (fun _ => rfl) (fun _ _ _ => rfl) (fun t => by rw [hafter]; unfold Dat.blockOf iblk9; rw [hA]; try rfl) t d).trans
    (by unfold Dat.fetched Dat.blockOf iblk9; rw [hA]; try rfl)

/-! ## The body's branch condition -/

/-- The condition of the body's one conditional, as a function of the grid coordinates: "this is point 0". -/
abbrev cond9_0 (i : grid9.Coords) : Prop := (Scalar.cmpi .ne (Scalar.extui (Scalar.cmpi .eq (BitVec.ofNat 32 (i 0).val) 0#32)) 0#32) = 1#1
/-- It holds at the first point only — decided over the ten points of the grid. -/
theorem hcond9_0 : ∀ t : Fin cfg9.N, cond9_0 (grid9.coords t) ↔ t.val % 10 = 0 :=
  (by decide +kernel : ∀ t : Fin grid9.N, cond9_0 (grid9.coords t) ↔ t.val % 10 = 0)

/-! ## The staging memrefs -/

/-- One staging buffer of each output window, through which its contents are stated (a covering list of writes
    reads back the same through any view of the shape). -/
abbrev VO9_6 : View sig .tc .vmem S5000x128 .f32 := (Memref.whole cc9_stg6_0 : Memref sig .tc .vmem S5000x128 .f32).view
abbrev VO9_7 : View sig .tc .vmem S128x128 .f32 := (Memref.whole cc9_stg7_0 : Memref sig .tc .vmem S128x128 .f32).view
/-- Each window's current staging memref at point `t`, spelled as the pipeline passes it to the body, and its wholeness. -/
abbrev ms9_0 (t : Fin cfg9.N) : Memref sig .tc .vmem S5000x128 .f32 := win9_0.stage (cfg9.slots t 0)
abbrev hs9_0 (t : Fin cfg9.N) : (ms9_0 t).IsWhole := hstage9_0 ((cfg9.slots t 0).cast nbuf9_0)
abbrev ms9_1 (t : Fin cfg9.N) : Memref sig .tc .vmem S1x128 .f32 := win9_1.stage (cfg9.slots t 1)
abbrev hs9_1 (t : Fin cfg9.N) : (ms9_1 t).IsWhole := hstage9_1 ((cfg9.slots t 1).cast nbuf9_1)
abbrev ms9_2 (t : Fin cfg9.N) : Memref sig .tc .vmem S1x128 .f32 := win9_2.stage (cfg9.slots t 2)
abbrev hs9_2 (t : Fin cfg9.N) : (ms9_2 t).IsWhole := hstage9_2 ((cfg9.slots t 2).cast nbuf9_2)
abbrev ms9_3 (t : Fin cfg9.N) : Memref sig .tc .vmem S1x128 .f32 := win9_3.stage (cfg9.slots t 3)
abbrev hs9_3 (t : Fin cfg9.N) : (ms9_3 t).IsWhole := hstage9_3 ((cfg9.slots t 3).cast nbuf9_3)
abbrev ms9_4 (t : Fin cfg9.N) : Memref sig .tc .vmem S1x128 .f32 := win9_4.stage (cfg9.slots t 4)
abbrev hs9_4 (t : Fin cfg9.N) : (ms9_4 t).IsWhole := hstage9_4 ((cfg9.slots t 4).cast nbuf9_4)
abbrev ms9_5 (t : Fin cfg9.N) : Memref sig .tc .vmem S5000x1 .i32 := win9_5.stage (cfg9.slots t 5)
abbrev hs9_5 (t : Fin cfg9.N) : (ms9_5 t).IsWhole := hstage9_5 ((cfg9.slots t 5).cast nbuf9_5)
abbrev ms9_6 (t : Fin cfg9.N) : Memref sig .tc .vmem S5000x128 .f32 := win9_6.stage (cfg9.slots t 6)
abbrev hs9_6 (t : Fin cfg9.N) : (ms9_6 t).IsWhole := hstage9_6 ((cfg9.slots t 6).cast nbuf9_6)
abbrev ms9_7 (t : Fin cfg9.N) : Memref sig .tc .vmem S128x128 .f32 := win9_7.stage (cfg9.slots t 7)
abbrev hs9_7 (t : Fin cfg9.N) : (ms9_7 t).IsWhole := hstage9_7 ((cfg9.slots t 7).cast nbuf9_7)

/-! ## The body on any staging memrefs, case by case -/

set_option maxHeartbeats 1000000 in
/-- CASE A (the first point: the conditional taken). The pieces the body's stores leave in the two outputs' staging
    memrefs (last first), with the proof that on whole staging memrefs — the inputs' at contents `x·`, the outputs'
    at anything — the body runs to a continuation that is handed the inputs' as they were and each output's buffer
    with its pieces written. The pooled-sum block is zeroed before it is read, so what it held does not matter. -/
noncomputable def kernelRun9_A (c : Dev nD) (i : grid9.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : cond9_0 i)
    (x0 : Vec F S5000x128 .f32) (x1 : Vec F S1x128 .f32) (x2 : Vec F S1x128 .f32) (x3 : Vec F S1x128 .f32) (x4 : Vec F S1x128 .f32) (x5 : Vec F S5000x1 .i32) :
    Σ' (L6 : List (View.Piece (Elt F) S5000x128 .f32)), { L7 : List (View.Piece (Elt F) S128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc9_kernel i arg1 harg1 arg2 harg2 arg3 harg3 arg4 harg4 arg5 harg5 arg6 harg6 arg7 harg7 arg8 harg8) K } := by
  refine ⟨?_, ?_, fun E K => ?run⟩
  case run =>
    simp only [cc9_kernel_eq_skeleton]; unfold cc9_kernel_skel
    simp only [k9_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact H7

set_option maxHeartbeats 1000000 in
/-- CASE B (a later point: the conditional not taken). As case A, but the pooled-sum block is read before it is
    stored: its buffer is taken at the running contents `xo7`, which the pieces mention. -/
noncomputable def kernelRun9_B (c : Dev nD) (i : grid9.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : ¬cond9_0 i)
    (x0 : Vec F S5000x128 .f32) (x1 : Vec F S1x128 .f32) (x2 : Vec F S1x128 .f32) (x3 : Vec F S1x128 .f32) (x4 : Vec F S1x128 .f32) (x5 : Vec F S5000x1 .i32) (xo7 : Vec F S128x128 .f32) :
    Σ' (L6 : List (View.Piece (Elt F) S5000x128 .f32)), { L7 : List (View.Piece (Elt F) S128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xo7
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc9_kernel i arg1 harg1 arg2 harg2 arg3 harg3 arg4 harg4 arg5 harg5 arg6 harg6 arg7 harg7 arg8 harg8) K } := by
  refine ⟨?_, ?_, fun E K => ?run⟩
  case run =>
    simp only [cc9_kernel_eq_skeleton]; unfold cc9_kernel_skel
    simp only [k9_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact H7

/-! ## What each case leaves in the outputs -/

/-- Case A's pieces for output 6 tile its block, so they cover it. -/
theorem cover9_A_6 (c : Dev nD) (i : grid9.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : cond9_0 i)
    (x0 : Vec F S5000x128 .f32) (x1 : Vec F S1x128 .f32) (x2 : Vec F S1x128 .f32) (x3 : Vec F S1x128 .f32) (x4 : Vec F S1x128 .f32) (x5 : Vec F S5000x1 .i32) (y : S5000x128.Idx) :
    ∃ pc ∈ (kernelRun9_A c i arg1 harg1 arg2 harg2 arg3 harg3 arg4 harg4 arg5 harg5 arg6 harg6 arg7 harg7 arg8 harg8 hc0 x0 x1 x2 x3 x4 x5).1, y ∈ pc.1.set :=
  View.cover_of_tiledL (kernelRun9_A c i arg1 harg1 arg2 harg2 arg3 harg3 arg4 harg4 arg5 harg5 arg6 harg6 arg7 harg7 arg8 harg8 hc0 x0 x1 x2 x3 x4 x5).1 S5000x128.size (by sl_kernel_rfl) y

/-- What case A leaves in output 6's staging buffer: its pieces read back over junk. -/
def out9_A_6 (c : Dev nD) (i : grid9.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : cond9_0 i)
    (x0 : Vec F S5000x128 .f32) (x1 : Vec F S1x128 .f32) (x2 : Vec F S1x128 .f32) (x3 : Vec F S1x128 .f32) (x4 : Vec F S1x128 .f32) (x5 : Vec F S5000x1 .i32) : Vec F S5000x128 .f32 :=
  VO9_6.read (Elt F) (VO9_6.writes (Elt F) VO9_6.junk (kernelRun9_A c i arg1 harg1 arg2 harg2 arg3 harg3 arg4 harg4 arg5 harg5 arg6 harg6 arg7 harg7 arg8 harg8 hc0 x0 x1 x2 x3 x4 x5).1)

/-- Case A's pieces for output 7 tile its block, so they cover it. -/
theorem cover9_A_7 (c : Dev nD) (i : grid9.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : cond9_0 i)
    (x0 : Vec F S5000x128 .f32) (x1 : Vec F S1x128 .f32) (x2 : Vec F S1x128 .f32) (x3 : Vec F S1x128 .f32) (x4 : Vec F S1x128 .f32) (x5 : Vec F S5000x1 .i32) (y : S128x128.Idx) :
    ∃ pc ∈ (kernelRun9_A c i arg1 harg1 arg2 harg2 arg3 harg3 arg4 harg4 arg5 harg5 arg6 harg6 arg7 harg7 arg8 harg8 hc0 x0 x1 x2 x3 x4 x5).2.1, y ∈ pc.1.set :=
  View.cover_of_tiledL (kernelRun9_A c i arg1 harg1 arg2 harg2 arg3 harg3 arg4 harg4 arg5 harg5 arg6 harg6 arg7 harg7 arg8 harg8 hc0 x0 x1 x2 x3 x4 x5).2.1 S128x128.size (by sl_kernel_rfl) y

/-- What case A leaves in output 7's staging buffer: its pieces read back over junk. -/
def out9_A_7 (c : Dev nD) (i : grid9.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : cond9_0 i)
    (x0 : Vec F S5000x128 .f32) (x1 : Vec F S1x128 .f32) (x2 : Vec F S1x128 .f32) (x3 : Vec F S1x128 .f32) (x4 : Vec F S1x128 .f32) (x5 : Vec F S5000x1 .i32) : Vec F S128x128 .f32 :=
  VO9_7.read (Elt F) (VO9_7.writes (Elt F) VO9_7.junk (kernelRun9_A c i arg1 harg1 arg2 harg2 arg3 harg3 arg4 harg4 arg5 harg5 arg6 harg6 arg7 harg7 arg8 harg8 hc0 x0 x1 x2 x3 x4 x5).2.1)

/-- Case B's pieces for output 6 tile its block, so they cover it. -/
theorem cover9_B_6 (c : Dev nD) (i : grid9.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : ¬cond9_0 i)
    (x0 : Vec F S5000x128 .f32) (x1 : Vec F S1x128 .f32) (x2 : Vec F S1x128 .f32) (x3 : Vec F S1x128 .f32) (x4 : Vec F S1x128 .f32) (x5 : Vec F S5000x1 .i32) (xo7 : Vec F S128x128 .f32) (y : S5000x128.Idx) :
    ∃ pc ∈ (kernelRun9_B c i arg1 harg1 arg2 harg2 arg3 harg3 arg4 harg4 arg5 harg5 arg6 harg6 arg7 harg7 arg8 harg8 hc0 x0 x1 x2 x3 x4 x5 xo7).1, y ∈ pc.1.set :=
  View.cover_of_tiledL (kernelRun9_B c i arg1 harg1 arg2 harg2 arg3 harg3 arg4 harg4 arg5 harg5 arg6 harg6 arg7 harg7 arg8 harg8 hc0 x0 x1 x2 x3 x4 x5 xo7).1 S5000x128.size (by sl_kernel_rfl) y

/-- What case B leaves in output 6's staging buffer: its pieces read back over junk. -/
def out9_B_6 (c : Dev nD) (i : grid9.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : ¬cond9_0 i)
    (x0 : Vec F S5000x128 .f32) (x1 : Vec F S1x128 .f32) (x2 : Vec F S1x128 .f32) (x3 : Vec F S1x128 .f32) (x4 : Vec F S1x128 .f32) (x5 : Vec F S5000x1 .i32) (xo7 : Vec F S128x128 .f32) : Vec F S5000x128 .f32 :=
  VO9_6.read (Elt F) (VO9_6.writes (Elt F) VO9_6.junk (kernelRun9_B c i arg1 harg1 arg2 harg2 arg3 harg3 arg4 harg4 arg5 harg5 arg6 harg6 arg7 harg7 arg8 harg8 hc0 x0 x1 x2 x3 x4 x5 xo7).1)

/-- Case B's pieces for output 7 tile its block, so they cover it. -/
theorem cover9_B_7 (c : Dev nD) (i : grid9.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : ¬cond9_0 i)
    (x0 : Vec F S5000x128 .f32) (x1 : Vec F S1x128 .f32) (x2 : Vec F S1x128 .f32) (x3 : Vec F S1x128 .f32) (x4 : Vec F S1x128 .f32) (x5 : Vec F S5000x1 .i32) (xo7 : Vec F S128x128 .f32) (y : S128x128.Idx) :
    ∃ pc ∈ (kernelRun9_B c i arg1 harg1 arg2 harg2 arg3 harg3 arg4 harg4 arg5 harg5 arg6 harg6 arg7 harg7 arg8 harg8 hc0 x0 x1 x2 x3 x4 x5 xo7).2.1, y ∈ pc.1.set :=
  View.cover_of_tiledL (kernelRun9_B c i arg1 harg1 arg2 harg2 arg3 harg3 arg4 harg4 arg5 harg5 arg6 harg6 arg7 harg7 arg8 harg8 hc0 x0 x1 x2 x3 x4 x5 xo7).2.1 S128x128.size (by sl_kernel_rfl) y

/-- What case B leaves in output 7's staging buffer: its pieces read back over junk. -/
def out9_B_7 (c : Dev nD) (i : grid9.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : ¬cond9_0 i)
    (x0 : Vec F S5000x128 .f32) (x1 : Vec F S1x128 .f32) (x2 : Vec F S1x128 .f32) (x3 : Vec F S1x128 .f32) (x4 : Vec F S1x128 .f32) (x5 : Vec F S5000x1 .i32) (xo7 : Vec F S128x128 .f32) : Vec F S128x128 .f32 :=
  VO9_7.read (Elt F) (VO9_7.writes (Elt F) VO9_7.junk (kernelRun9_B c i arg1 harg1 arg2 harg2 arg3 harg3 arg4 harg4 arg5 harg5 arg6 harg6 arg7 harg7 arg8 harg8 hc0 x0 x1 x2 x3 x4 x5 xo7).2.1)

/-! ## What the outputs hold after each point -/

/-- The two outputs after a first-point body at `t`: case A at the point's memrefs and input blocks. -/
def pt9_A (c : Dev nD) (t : Fin cfg9.N) (h0 : t.val % 10 = 0) : Vec F S5000x128 .f32 × Vec F S128x128 .f32 :=
  (out9_A_6 c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) (ms9_7 t) (hs9_7 t) ((hcond9_0 t).mpr h0) (iblk9 V c 0 t) (iblk9 V c 1 t) (iblk9 V c 2 t) (iblk9 V c 3 t) (iblk9 V c 4 t) (iblk9 V c 5 t),
   out9_A_7 c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) (ms9_7 t) (hs9_7 t) ((hcond9_0 t).mpr h0) (iblk9 V c 0 t) (iblk9 V c 1 t) (iblk9 V c 2 t) (iblk9 V c 3 t) (iblk9 V c 4 t) (iblk9 V c 5 t))

/-- The two outputs after a later-point body at `t`, the pooled-sum block having held `xo7`: case B at the
    point's memrefs and input blocks. -/
def pt9_B (c : Dev nD) (t : Fin cfg9.N) (h0 : ¬t.val % 10 = 0) (xo7 : Vec F S128x128 .f32) : Vec F S5000x128 .f32 × Vec F S128x128 .f32 :=
  (out9_B_6 c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) (ms9_7 t) (hs9_7 t) (fun h => h0 ((hcond9_0 t).mp h)) (iblk9 V c 0 t) (iblk9 V c 1 t) (iblk9 V c 2 t) (iblk9 V c 3 t) (iblk9 V c 4 t) (iblk9 V c 5 t) xo7,
   out9_B_7 c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) (ms9_7 t) (hs9_7 t) (fun h => h0 ((hcond9_0 t).mp h)) (iblk9 V c 0 t) (iblk9 V c 1 t) (iblk9 V c 2 t) (iblk9 V c 3 t) (iblk9 V c 4 t) (iblk9 V c 5 t) xo7)

/-- THE ACCUMULATION. What the two outputs' staging buffers hold after the body at position `n`: the case the
    closed form selects at `n`, the pooled-sum block of a later point taken at what this leaves at `n - 1`
    (its buffer is not written back in between). -/
def outsAt9 (c : Dev nD) : (n : ℕ) → n < cfg9.N → Vec F S5000x128 .f32 × Vec F S128x128 .f32
  | 0, hn => pt9_A V c ⟨0, hn⟩ (Nat.zero_mod _)
  | n + 1, hn =>
    if h0 : (n + 1) % 10 = 0 then pt9_A V c ⟨n + 1, hn⟩ h0
    else pt9_B V c ⟨n + 1, hn⟩ h0 (outsAt9 c n (Nat.lt_of_succ_lt hn)).2

/-- `outsAt9` at a point of case A: that case's contents. -/
theorem outsAt9_A (c : Dev nD) (t : Fin cfg9.N) (h0 : t.val % 10 = 0) :
    outsAt9 V c t.val t.isLt = pt9_A V c t h0 := by
  obtain ⟨n, hn⟩ := t
  cases n with
  | zero => exact rfl
  | succ n => exact (dif_pos h0).trans rfl

/-- `outsAt9` at a point of case B: that case's contents, over what the point before left. -/
theorem outsAt9_B (c : Dev nD) (t : Fin cfg9.N) (h0 : ¬t.val % 10 = 0) :
    outsAt9 V c t.val t.isLt = pt9_B V c t h0 (outsAt9 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans rfl

/-! ## The pipeline's proof data -/

/-- The proof data of the region's pipeline on core `c`: the arrays as the region finds them (`V`); after the body
    at point `t` each input's buffer at its block and the outputs' at `outsAt9`; the invariant the scoped rest
    and the generator register; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => iblk9 V c 5 t
    | ⟨6, _⟩ => (outsAt9 V c t.val t.isLt).1
    | ⟨7, _⟩ => (outsAt9 V c t.val t.isLt).2
  Φ _ := Pipeline.ΦA spec9 c
  q _ := fullShare
  owed _ := 0

/-- The proof data's arrays are the region-entry contents (the definition projected). -/
theorem A_eq9 (c : Dev nD) (w : Fin cfg9.W) : (dat9 V c).A w = V c (Pipeline.arrRef spec9 w) := by
  dsimp only [dat9]

/-- What the body leaves, window by window (the proof data's `match` reduced). -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = iblk9 V c 5 t := by dsimp only [dat9]
theorem after9_6 (c : Dev nD) (t : Fin cfg9.N) : (dat9 V c).after 6 t = (outsAt9 V c t.val t.isLt).1 := by dsimp only [dat9]
theorem after9_7 (c : Dev nD) (t : Fin cfg9.N) : (dat9 V c).after 7 t = (outsAt9 V c t.val t.isLt).2 := by dsimp only [dat9]

/-- Each input's current staging buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d
theorem before9_5 (c : Dev nD) (t : Fin cfg9.N) (d) : (dat9 V c).before 5 t d = iblk9 V c 5 t :=
  before9_5_of V (dat9 V c) (A_eq9 V c 5) (after9_5 V c) t d

/-- At a later point the pooled-sum window's staging buffer holds what the body left at the point before: the point is
    not the first, the buffer was not written back in between (it is written back after the last point only), and the
    window is live and uncut. -/
theorem before9_7_B (c : Dev nD) (t : Fin cfg9.N) (h0 : ¬t.val % 10 = 0) (d) :
    (dat9 V c).before 7 t d = (outsAt9 V c (t.val - 1) (Nat.lt_of_le_of_lt (Nat.sub_le _ _) t.isLt)).2 := by
  have hN : t.val < 10 := lt_of_lt_of_eq t.isLt (show cfg9.N = 10 from N_9)
  rw [Dat.before_out_kept _ 7 rfl t (by omega) (Bool.eq_false_iff.mpr fun h => by have := (flush9_7 _).mp h; dsimp only at this; omega)
    (fun _ => rfl) (fun _ _ => rfl)]
  dsimp only [dat9]

/-! ## The body obligation, at a generic point -/

/-- What the body is called with at point `t`: the invariant, what the core owes, and every window's current staging
    buffer at what the proof data say it holds before the body; -/
def bodyPre9 (c : Dev nD) (t : Fin cfg9.N) : sProp 𝕄 :=
  iprop((dat9 V c).Φ t.castSucc ∗ (dat9 V c).owesAt () t.castSucc
    ∗ (∃ d, owns (c : Thread nD τ) (ms9_0 t) fullShare ((dat9 V c).before 0 t d))
    ∗ (∃ d, owns (c : Thread nD τ) (ms9_1 t) fullShare ((dat9 V c).before 1 t d))
    ∗ (∃ d, owns (c : Thread nD τ) (ms9_2 t) fullShare ((dat9 V c).before 2 t d))
    ∗ (∃ d, owns (c : Thread nD τ) (ms9_3 t) fullShare ((dat9 V c).before 3 t d))
    ∗ (∃ d, owns (c : Thread nD τ) (ms9_4 t) fullShare ((dat9 V c).before 4 t d))
    ∗ (∃ d, owns (c : Thread nD τ) (ms9_5 t) fullShare ((dat9 V c).before 5 t d))
    ∗ (∃ d, owns (c : Thread nD τ) (ms9_6 t) fullShare ((dat9 V c).before 6 t d))
    ∗ (∃ d, owns (c : Thread nD τ) (ms9_7 t) fullShare ((dat9 V c).before 7 t d)))

/-- and what it returns: the same with every buffer at what the data say the body leaves. -/
def bodyPost9 (c : Dev nD) (t : Fin cfg9.N) : sProp 𝕄 :=
  iprop((dat9 V c).Φ t.succ ∗ (dat9 V c).owesAt () t.succ
    ∗ owns (c : Thread nD τ) (ms9_0 t) fullShare ((dat9 V c).after 0 t)
    ∗ owns (c : Thread nD τ) (ms9_1 t) fullShare ((dat9 V c).after 1 t)
    ∗ owns (c : Thread nD τ) (ms9_2 t) fullShare ((dat9 V c).after 2 t)
    ∗ owns (c : Thread nD τ) (ms9_3 t) fullShare ((dat9 V c).after 3 t)
    ∗ owns (c : Thread nD τ) (ms9_4 t) fullShare ((dat9 V c).after 4 t)
    ∗ owns (c : Thread nD τ) (ms9_5 t) fullShare ((dat9 V c).after 5 t)
    ∗ owns (c : Thread nD τ) (ms9_6 t) fullShare ((dat9 V c).after 6 t)
    ∗ owns (c : Thread nD τ) (ms9_7 t) fullShare ((dat9 V c).after 7 t))

set_option maxHeartbeats 1600000 in
/-- The body at any point: the inputs' memrefs hold their blocks; the closed form of the condition says which case
    the point is in; in case B the pooled-sum buffer holds what the point before left; so the case's run applies, and
    a covering list of pieces reads back the same through any view. The invariant and what the core owes pass
    through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4, before9_5]
  rw [show (dat9 V c).Φ t.succ = (dat9 V c).Φ t.castSucc from rfl,
    show (dat9 V c).owesAt () t.succ = (dat9 V c).owesAt () t.castSucc from rfl,
    after9_0, after9_1, after9_2, after9_3, after9_4, after9_5, after9_6, after9_7]
  have hN : t.val < 10 := lt_of_lt_of_eq t.isLt (show cfg9.N = 10 from N_9)
  by_cases h0 : t.val % 10 = 0
  · rw [outsAt9_A V c t h0]
    dsimp only [pt9_A]
    unfold out9_A_6 out9_A_7
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun9_A c (grid9.coords t) _ _ _ _ _ _ _ _ _ _ _ _ _ _ _ _ ((hcond9_0 t).mpr h0) (iblk9 V c 0 t) (iblk9 V c 1 t) (iblk9 V c 2 t) (iblk9 V c 3 t) (iblk9 V c 4 t) (iblk9 V c 5 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    iintro ⟨H0, H1, H2, H3, H4, H5, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover9_A_6 c _ _ _ _ _ _ _ _ _ _ _ _ _ _ _ _ _ _ _ _ _ _ _ _)
    unfold owns; iexists _; isplitr
    swap; · iexact H7
    ipureintro; exact View.read_writes_of_cover _ _ _ _ _ (cover9_A_7 c _ _ _ _ _ _ _ _ _ _ _ _ _ _ _ _ _ _ _ _ _ _ _ _)
  · rw [outsAt9_B V c t h0]
    simp only [before9_7_B V c t h0]
    dsimp only [pt9_B]
    unfold out9_B_6 out9_B_7
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun9_B c (grid9.coords t) _ _ _ _ _ _ _ _ _ _ _ _ _ _ _ _ (fun h => h0 ((hcond9_0 t).mp h)) (iblk9 V c 0 t) (iblk9 V c 1 t) (iblk9 V c 2 t) (iblk9 V c 3 t) (iblk9 V c 4 t) (iblk9 V c 5 t) _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    iintro ⟨H0, H1, H2, H3, H4, H5, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover9_B_6 c _ _ _ _ _ _ _ _ _ _ _ _ _ _ _ _ _ _ _ _ _ _ _ _ _)
    unfold owns; iexists _; isplitr
    swap; · iexact H7
    ipureintro; exact View.read_writes_of_cover _ _ _ _ _ (cover9_B_7 c _ _ _ _ _ _ _ _ _ _ _ _ _ _ _ _ _ _ _ _ _ _ _ _ _)

/-- The body obligation, at every point. -/
theorem body_obligation9 (c : Dev nD) : BodyObligation (dat9 (F := F) V c) (defs₀ (F := F)) Variants.none () Set.univ := fun t => by
  rw [bigSep_W9, bigSep_W9]
  exact sound_body9 V c t

/-- info: 'Cert.KernelIdeal.Reg.body_obligation9' depends on axioms: [propext, Classical.choice, Quot.sound] -/
#guard_msgs in #print axioms body_obligation9

end Cert.KernelIdeal.Reg

end
-- ==== Proof.KI.Reg10.lean ====
import proofs.«144276_j65051574665788_2_alg».proof.Proof.Gen.KernelIdeal.Launch
import proofs.«144276_j65051574665788_2_alg».proof.Proof.Gen.KernelIdeal.Skeleton
import proofs.«144276_j65051574665788_2_alg».proof.Proof.Gen.KernelIdeal.Points
import Idealize.ShloMosaic.Lib.Pipeline.FrameBody
import Idealize.ShloMosaic.Lib.Ring
import Idealize.ShloMosaic.Lib.Tactic

/-! # Region 10 of @main: the layer transform, at the entry contents `V`

The body computes `agg·Wl + h·Wr + bl` into a row block of the first output and adds the block's column sums and
column sums of squares into the second and third outputs, whose single block is revisited at every grid point:
at the first point the two are zeroed first, at a later point they hold what the point before left. Hence two
control cases. Per case the body is run once on arbitrary whole memrefs, the stores it makes into each output
being the witness of the run; the outputs' contents point by point are then a recursion on the point, and the
body obligation follows by cases on the point. Everything is stated at a parameter `V`, the TensorCore's buffer
contents when the region is entered, and at any float instance. -/

-- membership in a rectangle with a long axis recurses once per coordinate
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0's current staging buffer holds its block at every point, fetched there or not, for any proof data
    whose array is the entry contents (`hA`) and whose body leaves the block in place (`hafter`): unfetched, the block
    index has not moved; the window is uncut and never idle. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- Input window 1's current staging buffer holds its block at every point, fetched there or not, for any proof data
    whose array is the entry contents (`hA`) and whose body leaves the block in place (`hafter`): unfetched, the block
    index has not moved; the window is uncut and never idle. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- Input window 2's current staging buffer holds its block at every point, fetched there or not, for any proof data
    whose array is the entry contents (`hA`) and whose body leaves the block in place (`hafter`): unfetched, the block
    index has not moved; the window is uncut and never idle. -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

/-- Input window 3's current staging buffer holds its block at every point, fetched there or not, for any proof data
    whose array is the entry contents (`hA`) and whose body leaves the block in place (`hafter`): unfetched, the block
    index has not moved; the window is uncut and never idle. -/
theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)

/-- Input window 4's current staging buffer holds its block at every point, fetched there or not, for any proof data
    whose array is the entry contents (`hA`) and whose body leaves the block in place (`hafter`): unfetched, the block
    index has not moved; the window is uncut and never idle. -/
theorem before10_4_of {c : Dev nD} (dat : Dat τ (Elt F) Unit ℕ (UR sig nD τ) ℕ cfg10 c) (hA : dat.A 4 = V c (Pipeline.arrRef spec10 4))
    (hafter : ∀ t, dat.after 4 t = iblk10 V c 4 t) (t : Fin cfg10.N) (d) : dat.before 4 t d = iblk10 V c 4 t :=
  (dat.before_in_eq_fetched 4 rfl (fun _ => rfl) (fun _ _ _ => rfl) (fun t => by rw [hafter]; unfold Dat.blockOf iblk10; rw [hA]; try rfl) t d).trans
    (by unfold Dat.fetched Dat.blockOf iblk10; rw [hA]; try rfl)

/-! ## The body's branch condition -/

/-- The condition of the body's one conditional, from the grid coordinates: the point is the first. -/
abbrev cond10_0 (i : grid10.Coords) : Prop := (Scalar.cmpi .ne (Scalar.extui (Scalar.cmpi .eq (BitVec.ofNat 32 (i 0).val) 0#32)) 0#32) = 1#1
/-- It holds at the first point only: decided over the ten points. -/
theorem hcond10_0 : ∀ t : Fin cfg10.N, cond10_0 (grid10.coords t) ↔ t.val % 10 = 0 :=
  (by decide +kernel : ∀ t : Fin grid10.N, cond10_0 (grid10.coords t) ↔ t.val % 10 = 0)

/-! ## The staging memrefs -/

/-- One staging buffer of each output window, through which its contents are stated (a covering list of writes
    reads back the same through any view). -/
abbrev VO10_5 : View sig .tc .vmem S5000x128 .f32 := (Memref.whole cc10_stg5_0 : Memref sig .tc .vmem S5000x128 .f32).view
abbrev VO10_6 : View sig .tc .vmem S1x128 .f32 := (Memref.whole cc10_stg6_0 : Memref sig .tc .vmem S1x128 .f32).view
abbrev VO10_7 : View sig .tc .vmem S1x128 .f32 := (Memref.whole cc10_stg7_0 : Memref sig .tc .vmem S1x128 .f32).view
/-- Each window's current staging memref at point `t`, spelled as the pipeline passes it, and its wholeness. -/
abbrev ms10_0 (t : Fin cfg10.N) : Memref sig .tc .vmem S5000x128 .f32 := win10_0.stage (cfg10.slots t 0)
abbrev hs10_0 (t : Fin cfg10.N) : (ms10_0 t).IsWhole := hstage10_0 ((cfg10.slots t 0).cast nbuf10_0)
abbrev ms10_1 (t : Fin cfg10.N) : Memref sig .tc .vmem S5000x128 .f32 := win10_1.stage (cfg10.slots t 1)
abbrev hs10_1 (t : Fin cfg10.N) : (ms10_1 t).IsWhole := hstage10_1 ((cfg10.slots t 1).cast nbuf10_1)
abbrev ms10_2 (t : Fin cfg10.N) : Memref sig .tc .vmem S128x128 .f32 := win10_2.stage (cfg10.slots t 2)
abbrev hs10_2 (t : Fin cfg10.N) : (ms10_2 t).IsWhole := hstage10_2 ((cfg10.slots t 2).cast nbuf10_2)
abbrev ms10_3 (t : Fin cfg10.N) : Memref sig .tc .vmem S128x128 .f32 := win10_3.stage (cfg10.slots t 3)
abbrev hs10_3 (t : Fin cfg10.N) : (ms10_3 t).IsWhole := hstage10_3 ((cfg10.slots t 3).cast nbuf10_3)
abbrev ms10_4 (t : Fin cfg10.N) : Memref sig .tc .vmem S1x128 .f32 := win10_4.stage (cfg10.slots t 4)
abbrev hs10_4 (t : Fin cfg10.N) : (ms10_4 t).IsWhole := hstage10_4 ((cfg10.slots t 4).cast nbuf10_4)
abbrev ms10_5 (t : Fin cfg10.N) : Memref sig .tc .vmem S5000x128 .f32 := win10_5.stage (cfg10.slots t 5)
abbrev hs10_5 (t : Fin cfg10.N) : (ms10_5 t).IsWhole := hstage10_5 ((cfg10.slots t 5).cast nbuf10_5)
abbrev ms10_6 (t : Fin cfg10.N) : Memref sig .tc .vmem S1x128 .f32 := win10_6.stage (cfg10.slots t 6)
abbrev hs10_6 (t : Fin cfg10.N) : (ms10_6 t).IsWhole := hstage10_6 ((cfg10.slots t 6).cast nbuf10_6)
abbrev ms10_7 (t : Fin cfg10.N) : Memref sig .tc .vmem S1x128 .f32 := win10_7.stage (cfg10.slots t 7)
abbrev hs10_7 (t : Fin cfg10.N) : (ms10_7 t).IsWhole := hstage10_7 ((cfg10.slots t 7).cast nbuf10_7)

/-! ## The body on any whole memrefs, case by case -/

set_option maxHeartbeats 1000000 in
/-- THE FIRST POINT. The pieces the body's stores leave in each output's memref (last first), with the proof that on
    whole memrefs — the inputs' at contents `x·`, the outputs' at anything — the body runs to the continuation
    holding the inputs' as they were and each output's with its pieces written. The conditional is taken: the two
    accumulators are zeroed, then read back and added to. -/
noncomputable def kernelRun10_A (c : Dev nD) (i : grid10.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : cond10_0 i)
    (x0 : Vec F S5000x128 .f32) (x1 : Vec F S5000x128 .f32) (x2 : Vec F S128x128 .f32) (x3 : Vec F S128x128 .f32) (x4 : Vec F S1x128 .f32) :
    Σ' (L5 : List (View.Piece (Elt F) S5000x128 .f32)) (L6 : List (View.Piece (Elt F) S1x128 .f32)), { L7 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc10__layer_transform_kernel i arg1 harg1 arg2 harg2 arg3 harg3 arg4 harg4 arg5 harg5 arg6 harg6 arg7 harg7 arg8 harg8) K } := by
  refine ⟨?_, ?_, ?_, fun E K => ?run⟩
  case run =>
    simp only [cc10__layer_transform_kernel_eq_skeleton]; unfold cc10__layer_transform_kernel_skel
    simp only [k10_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    iexists _; iexact H7

set_option maxHeartbeats 1000000 in
/-- A LATER POINT. The same with the conditional not taken: the two accumulators' memrefs are handed over at the
    running contents `xo6`, `xo7`, which the body reads before it covers them. -/
noncomputable def kernelRun10_B (c : Dev nD) (i : grid10.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : ¬cond10_0 i)
    (x0 : Vec F S5000x128 .f32) (x1 : Vec F S5000x128 .f32) (x2 : Vec F S128x128 .f32) (x3 : Vec F S128x128 .f32) (x4 : Vec F S1x128 .f32) (xo6 : Vec F S1x128 .f32) (xo7 : Vec F S1x128 .f32) :
    Σ' (L5 : List (View.Piece (Elt F) S5000x128 .f32)) (L6 : List (View.Piece (Elt F) S1x128 .f32)), { L7 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ owns (c : Thread nD τ) arg7 fullShare xo6 ∗ owns (c : Thread nD τ) arg8 fullShare xo7
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc10__layer_transform_kernel i arg1 harg1 arg2 harg2 arg3 harg3 arg4 harg4 arg5 harg5 arg6 harg6 arg7 harg7 arg8 harg8) K } := by
  refine ⟨?_, ?_, ?_, fun E K => ?run⟩
  case run =>
    simp only [cc10__layer_transform_kernel_eq_skeleton]; unfold cc10__layer_transform_kernel_skel
    simp only [k10_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
    obtain rfl := harg1.eq_unread hf0; obtain rfl := harg2.eq_unread hf1; obtain rfl := harg3.eq_unread hf2
    obtain rfl := harg4.eq_unread hf3; obtain rfl := harg5.eq_unread hf4
    obtain rfl := harg7.eq_unread hf6; obtain rfl := harg8.eq_unread hf7
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    iexists _; iexact H7

/-! ## The pieces cover the outputs' blocks -/

/-- Case A's pieces for output 5 tile its block, so they cover it. -/
theorem cover10_A_5 (c : Dev nD) (i : grid10.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : cond10_0 i)
    (x0 : Vec F S5000x128 .f32) (x1 : Vec F S5000x128 .f32) (x2 : Vec F S128x128 .f32) (x3 : Vec F S128x128 .f32) (x4 : Vec F S1x128 .f32) (y : S5000x128.Idx) :
    ∃ pc ∈ (kernelRun10_A c i arg1 harg1 arg2 harg2 arg3 harg3 arg4 harg4 arg5 harg5 arg6 harg6 arg7 harg7 arg8 harg8 hc0 x0 x1 x2 x3 x4).1, y ∈ pc.1.set :=
  View.cover_of_tiledL (kernelRun10_A c i arg1 harg1 arg2 harg2 arg3 harg3 arg4 harg4 arg5 harg5 arg6 harg6 arg7 harg7 arg8 harg8 hc0 x0 x1 x2 x3 x4).1 S5000x128.size (by sl_kernel_rfl) y

/-- Case A's pieces for output 6 tile its block, so they cover it. -/
theorem cover10_A_6 (c : Dev nD) (i : grid10.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : cond10_0 i)
    (x0 : Vec F S5000x128 .f32) (x1 : Vec F S5000x128 .f32) (x2 : Vec F S128x128 .f32) (x3 : Vec F S128x128 .f32) (x4 : Vec F S1x128 .f32) (y : S1x128.Idx) :
    ∃ pc ∈ (kernelRun10_A c i arg1 harg1 arg2 harg2 arg3 harg3 arg4 harg4 arg5 harg5 arg6 harg6 arg7 harg7 arg8 harg8 hc0 x0 x1 x2 x3 x4).2.1, y ∈ pc.1.set :=
  View.cover_of_tiledL (kernelRun10_A c i arg1 harg1 arg2 harg2 arg3 harg3 arg4 harg4 arg5 harg5 arg6 harg6 arg7 harg7 arg8 harg8 hc0 x0 x1 x2 x3 x4).2.1 S1x128.size (by sl_kernel_rfl) y

/-- Case A's pieces for output 7 tile its block, so they cover it. -/
theorem cover10_A_7 (c : Dev nD) (i : grid10.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : cond10_0 i)
    (x0 : Vec F S5000x128 .f32) (x1 : Vec F S5000x128 .f32) (x2 : Vec F S128x128 .f32) (x3 : Vec F S128x128 .f32) (x4 : Vec F S1x128 .f32) (y : S1x128.Idx) :
    ∃ pc ∈ (kernelRun10_A c i arg1 harg1 arg2 harg2 arg3 harg3 arg4 harg4 arg5 harg5 arg6 harg6 arg7 harg7 arg8 harg8 hc0 x0 x1 x2 x3 x4).2.2.1, y ∈ pc.1.set :=
  View.cover_of_tiledL (kernelRun10_A c i arg1 harg1 arg2 harg2 arg3 harg3 arg4 harg4 arg5 harg5 arg6 harg6 arg7 harg7 arg8 harg8 hc0 x0 x1 x2 x3 x4).2.2.1 S1x128.size (by sl_kernel_rfl) y

/-- Case B's pieces for output 5 tile its block, so they cover it. -/
theorem cover10_B_5 (c : Dev nD) (i : grid10.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : ¬cond10_0 i)
    (x0 : Vec F S5000x128 .f32) (x1 : Vec F S5000x128 .f32) (x2 : Vec F S128x128 .f32) (x3 : Vec F S128x128 .f32) (x4 : Vec F S1x128 .f32) (xo6 : Vec F S1x128 .f32) (xo7 : Vec F S1x128 .f32) (y : S5000x128.Idx) :
    ∃ pc ∈ (kernelRun10_B c i arg1 harg1 arg2 harg2 arg3 harg3 arg4 harg4 arg5 harg5 arg6 harg6 arg7 harg7 arg8 harg8 hc0 x0 x1 x2 x3 x4 xo6 xo7).1, y ∈ pc.1.set :=
  View.cover_of_tiledL (kernelRun10_B c i arg1 harg1 arg2 harg2 arg3 harg3 arg4 harg4 arg5 harg5 arg6 harg6 arg7 harg7 arg8 harg8 hc0 x0 x1 x2 x3 x4 xo6 xo7).1 S5000x128.size (by sl_kernel_rfl) y

/-- Case B's pieces for output 6 tile its block, so they cover it. -/
theorem cover10_B_6 (c : Dev nD) (i : grid10.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : ¬cond10_0 i)
    (x0 : Vec F S5000x128 .f32) (x1 : Vec F S5000x128 .f32) (x2 : Vec F S128x128 .f32) (x3 : Vec F S128x128 .f32) (x4 : Vec F S1x128 .f32) (xo6 : Vec F S1x128 .f32) (xo7 : Vec F S1x128 .f32) (y : S1x128.Idx) :
    ∃ pc ∈ (kernelRun10_B c i arg1 harg1 arg2 harg2 arg3 harg3 arg4 harg4 arg5 harg5 arg6 harg6 arg7 harg7 arg8 harg8 hc0 x0 x1 x2 x3 x4 xo6 xo7).2.1, y ∈ pc.1.set :=
  View.cover_of_tiledL (kernelRun10_B c i arg1 harg1 arg2 harg2 arg3 harg3 arg4 harg4 arg5 harg5 arg6 harg6 arg7 harg7 arg8 harg8 hc0 x0 x1 x2 x3 x4 xo6 xo7).2.1 S1x128.size (by sl_kernel_rfl) y

/-- Case B's pieces for output 7 tile its block, so they cover it. -/
theorem cover10_B_7 (c : Dev nD) (i : grid10.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : ¬cond10_0 i)
    (x0 : Vec F S5000x128 .f32) (x1 : Vec F S5000x128 .f32) (x2 : Vec F S128x128 .f32) (x3 : Vec F S128x128 .f32) (x4 : Vec F S1x128 .f32) (xo6 : Vec F S1x128 .f32) (xo7 : Vec F S1x128 .f32) (y : S1x128.Idx) :
    ∃ pc ∈ (kernelRun10_B c i arg1 harg1 arg2 harg2 arg3 harg3 arg4 harg4 arg5 harg5 arg6 harg6 arg7 harg7 arg8 harg8 hc0 x0 x1 x2 x3 x4 xo6 xo7).2.2.1, y ∈ pc.1.set :=
  View.cover_of_tiledL (kernelRun10_B c i arg1 harg1 arg2 harg2 arg3 harg3 arg4 harg4 arg5 harg5 arg6 harg6 arg7 harg7 arg8 harg8 hc0 x0 x1 x2 x3 x4 xo6 xo7).2.2.1 S1x128.size (by sl_kernel_rfl) y

/-! ## What the outputs hold after each point -/

/-- The first-point run at point `t`'s memrefs and input blocks. -/
abbrev runA10 (c : Dev nD) (t : Fin cfg10.N) (h0 : t.val % 10 = 0) :=
  kernelRun10_A (F := F) c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) ((hcond10_0 t).mpr h0) (iblk10 V c 0 t) (iblk10 V c 1 t) (iblk10 V c 2 t) (iblk10 V c 3 t) (iblk10 V c 4 t)

/-- The later-point run at point `t`'s memrefs and input blocks, the accumulators at `xo6`, `xo7`. -/
abbrev runB10 (c : Dev nD) (t : Fin cfg10.N) (h0 : ¬t.val % 10 = 0) (xo6 : Vec F S1x128 .f32) (xo7 : Vec F S1x128 .f32) :=
  kernelRun10_B (F := F) c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) (fun h => h0 ((hcond10_0 t).mp h)) (iblk10 V c 0 t) (iblk10 V c 1 t) (iblk10 V c 2 t) (iblk10 V c 3 t) (iblk10 V c 4 t) xo6 xo7

/-- What the first-point case leaves in the three outputs' staging buffers: its pieces read back over junk. -/
def outsA10 (c : Dev nD) (t : Fin cfg10.N) (h0 : t.val % 10 = 0) : Vec F S5000x128 .f32 × Vec F S1x128 .f32 × Vec F S1x128 .f32 :=
  (VO10_5.read (Elt F) (VO10_5.writes (Elt F) VO10_5.junk (runA10 V c t h0).1),
   VO10_6.read (Elt F) (VO10_6.writes (Elt F) VO10_6.junk (runA10 V c t h0).2.1),
   VO10_7.read (Elt F) (VO10_7.writes (Elt F) VO10_7.junk (runA10 V c t h0).2.2.1))

/-- What the later-point case leaves there, over accumulators at `xo6`, `xo7`. -/
def outsB10 (c : Dev nD) (t : Fin cfg10.N) (h0 : ¬t.val % 10 = 0) (xo6 : Vec F S1x128 .f32) (xo7 : Vec F S1x128 .f32) :
    Vec F S5000x128 .f32 × Vec F S1x128 .f32 × Vec F S1x128 .f32 :=
  (VO10_5.read (Elt F) (VO10_5.writes (Elt F) VO10_5.junk (runB10 V c t h0 xo6 xo7).1),
   VO10_6.read (Elt F) (VO10_6.writes (Elt F) VO10_6.junk (runB10 V c t h0 xo6 xo7).2.1),
   VO10_7.read (Elt F) (VO10_7.writes (Elt F) VO10_7.junk (runB10 V c t h0 xo6 xo7).2.2.1))

/-- THE ACCUMULATION. What the three outputs' staging buffers hold after the body at position `n`: the case the
    point is in, run at the point's memrefs and input blocks, the two accumulators at what this leaves at `n - 1`
    (their buffer is not written back in between). -/
def outsAt10 (c : Dev nD) : (n : ℕ) → n < cfg10.N → Vec F S5000x128 .f32 × Vec F S1x128 .f32 × Vec F S1x128 .f32
  | 0, hn => outsA10 V c ⟨0, hn⟩ (Nat.zero_mod _)
  | n + 1, hn =>
    if h0 : (n + 1) % 10 = 0 then
      outsA10 V c ⟨n + 1, hn⟩ h0
    else
      outsB10 V c ⟨n + 1, hn⟩ h0 (outsAt10 c n (Nat.lt_of_succ_lt hn)).2.1 (outsAt10 c n (Nat.lt_of_succ_lt hn)).2.2

/-- `outsAt10` at a first point: that case's contents. -/
theorem outsAt10_A (c : Dev nD) (t : Fin cfg10.N) (h0 : t.val % 10 = 0) :
    outsAt10 V c t.val t.isLt = outsA10 V c t h0 := by
  obtain ⟨n, hn⟩ := t
  cases n with
  | zero => exact rfl
  | succ n => exact (dif_pos h0).trans rfl

/-- `outsAt10` at a later point: that case's contents, over what the point before left. -/
theorem outsAt10_B (c : Dev nD) (t : Fin cfg10.N) (h0 : ¬t.val % 10 = 0) :
    outsAt10 V c t.val t.isLt = outsB10 V c t h0
      (outsAt10 V c (t.val - 1) (Nat.lt_of_le_of_lt (Nat.sub_le _ _) t.isLt)).2.1
      (outsAt10 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans rfl

/-! ## The pipeline's proof data -/

/-- The proof data of the region's pipeline on core `c`: the arrays as the region finds them (`V`); after the body
    at point `t` each input's buffer at its block and the outputs' at `outsAt10`; the invariant the scoped rest
    and the generator register, untouched; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => (outsAt10 V c t.val t.isLt).1
    | ⟨6, _⟩ => (outsAt10 V c t.val t.isLt).2.1
    | ⟨7, _⟩ => (outsAt10 V c t.val t.isLt).2.2
  Φ _ := Pipeline.ΦA spec10 c
  q _ := fullShare
  owed _ := 0

/-- The proof data's arrays are the region-entry contents (the definition projected). -/
theorem A_eq10 (c : Dev nD) (w : Fin cfg10.W) : (dat10 V c).A w = V c (Pipeline.arrRef spec10 w) := by
  dsimp only [dat10]

/-- What the body leaves, window by window (the definition's `match` reduced). -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) : (dat10 V c).after 5 t = (outsAt10 V c t.val t.isLt).1 := by dsimp only [dat10]
theorem after10_6 (c : Dev nD) (t : Fin cfg10.N) : (dat10 V c).after 6 t = (outsAt10 V c t.val t.isLt).2.1 := by dsimp only [dat10]
theorem after10_7 (c : Dev nD) (t : Fin cfg10.N) : (dat10 V c).after 7 t = (outsAt10 V c t.val t.isLt).2.2 := by dsimp only [dat10]

/-- Each input's current staging buffer holds its block at every point, fetched there or not. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d
theorem before10_4 (c : Dev nD) (t : Fin cfg10.N) (d) : (dat10 V c).before 4 t d = iblk10 V c 4 t :=
  before10_4_of V (dat10 V c) (A_eq10 V c 4) (after10_4 V c) t d

/-- At a later point output 6's staging buffer holds what the body left at the point before: the buffer is written
    back at the last point only, and the window is live and uncut. -/
theorem before10_6_B (c : Dev nD) (t : Fin cfg10.N) (h0 : ¬t.val % 10 = 0) (d) :
    (dat10 V c).before 6 t d = (outsAt10 V c (t.val - 1) (Nat.lt_of_le_of_lt (Nat.sub_le _ _) t.isLt)).2.1 := by
  have hN : t.val < 10 := lt_of_lt_of_eq t.isLt (show cfg10.N = 10 from N_10)
  rw [Dat.before_out_kept _ 6 rfl t (by omega) (Bool.eq_false_iff.mpr fun h => by have := (flush10_6 _).mp h; dsimp only at this; omega)
    (fun _ => rfl) (fun _ _ => rfl)]
  dsimp only [dat10]

/-- At a later point output 7's staging buffer holds what the body left at the point before: the buffer is written
    back at the last point only, and the window is live and uncut. -/
theorem before10_7_B (c : Dev nD) (t : Fin cfg10.N) (h0 : ¬t.val % 10 = 0) (d) :
    (dat10 V c).before 7 t d = (outsAt10 V c (t.val - 1) (Nat.lt_of_le_of_lt (Nat.sub_le _ _) t.isLt)).2.2 := by
  have hN : t.val < 10 := lt_of_lt_of_eq t.isLt (show cfg10.N = 10 from N_10)
  rw [Dat.before_out_kept _ 7 rfl t (by omega) (Bool.eq_false_iff.mpr fun h => by have := (flush10_7 _).mp h; dsimp only at this; omega)
    (fun _ => rfl) (fun _ _ => rfl)]
  dsimp only [dat10]

/-! ## The body obligation, at a generic point -/

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (ms10_0 t) fullShare ((dat10 V c).before 0 t d))
    ∗ (∃ d, owns (c : Thread nD τ) (ms10_1 t) fullShare ((dat10 V c).before 1 t d))
    ∗ (∃ d, owns (c : Thread nD τ) (ms10_2 t) fullShare ((dat10 V c).before 2 t d))
    ∗ (∃ d, owns (c : Thread nD τ) (ms10_3 t) fullShare ((dat10 V c).before 3 t d))
    ∗ (∃ d, owns (c : Thread nD τ) (ms10_4 t) fullShare ((dat10 V c).before 4 t d))
    ∗ (∃ d, owns (c : Thread nD τ) (ms10_5 t) fullShare ((dat10 V c).before 5 t d))
    ∗ (∃ d, owns (c : Thread nD τ) (ms10_6 t) fullShare ((dat10 V c).before 6 t d))
    ∗ (∃ d, owns (c : Thread nD τ) (ms10_7 t) fullShare ((dat10 V c).before 7 t d)))

/-- and what it returns. -/
def bodyPost10 (c : Dev nD) (t : Fin cfg10.N) : sProp 𝕄 :=
  iprop((dat10 V c).Φ t.succ ∗ (dat10 V c).owesAt () t.succ
    ∗ owns (c : Thread nD τ) (ms10_0 t) fullShare ((dat10 V c).after 0 t)
    ∗ owns (c : Thread nD τ) (ms10_1 t) fullShare ((dat10 V c).after 1 t)
    ∗ owns (c : Thread nD τ) (ms10_2 t) fullShare ((dat10 V c).after 2 t)
    ∗ owns (c : Thread nD τ) (ms10_3 t) fullShare ((dat10 V c).after 3 t)
    ∗ owns (c : Thread nD τ) (ms10_4 t) fullShare ((dat10 V c).after 4 t)
    ∗ owns (c : Thread nD τ) (ms10_5 t) fullShare ((dat10 V c).after 5 t)
    ∗ owns (c : Thread nD τ) (ms10_6 t) fullShare ((dat10 V c).after 6 t)
    ∗ owns (c : Thread nD τ) (ms10_7 t) fullShare ((dat10 V c).after 7 t))

set_option maxHeartbeats 1600000 in
/-- The body at any point: the inputs' memrefs hold their blocks; the closed form of the condition says which case
    the point is in; at a later point the two accumulators hold what the point before left; so the case's run
    applies, and its pieces, covering each output's block, read back as `outsAt10` says. The invariant passes
    through unread and the core owes nothing throughout. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3, before10_4]
  rw [show (dat10 V c).Φ t.succ = (dat10 V c).Φ t.castSucc from rfl,
    show (dat10 V c).owesAt () t.succ = (dat10 V c).owesAt () t.castSucc from rfl,
    after10_0, after10_1, after10_2, after10_3, after10_4, after10_5, after10_6, after10_7]
  have hN : t.val < 10 := lt_of_lt_of_eq t.isLt (show cfg10.N = 10 from N_10)
  by_cases h0 : t.val % 10 = 0
  · rw [outsAt10_A V c t h0]
    unfold outsA10; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runA10 V c t h0).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    iintro ⟨H0, H1, H2, H3, H4, ⟨%e5, H5⟩, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover10_A_5 c _ _ _ _ _ _ _ _ _ _ _ _ _ _ _ _ _ _ _ _ _ _ _)
    isplitl [H6]
    · unfold owns; iexists _; isplitr
      swap; · iexact H6
      ipureintro; exact View.read_writes_of_cover _ _ _ _ _ (cover10_A_6 c _ _ _ _ _ _ _ _ _ _ _ _ _ _ _ _ _ _ _ _ _ _ _)
    unfold owns; iexists _; isplitr
    swap; · iexact H7
    ipureintro; exact View.read_writes_of_cover _ _ _ _ _ (cover10_A_7 c _ _ _ _ _ _ _ _ _ _ _ _ _ _ _ _ _ _ _ _ _ _ _)
  · rw [outsAt10_B V c t h0]
    simp only [before10_6_B V c t h0, before10_7_B V c t h0]
    unfold outsB10; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runB10 V c t h0 _ _).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    iintro ⟨H0, H1, H2, H3, H4, ⟨%e5, H5⟩, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover10_B_5 c _ _ _ _ _ _ _ _ _ _ _ _ _ _ _ _ _ _ _ _ _ _ _ _ _)
    isplitl [H6]
    · unfold owns; iexists _; isplitr
      swap; · iexact H6
      ipureintro; exact View.read_writes_of_cover _ _ _ _ _ (cover10_B_6 c _ _ _ _ _ _ _ _ _ _ _ _ _ _ _ _ _ _ _ _ _ _ _ _ _)
    unfold owns; iexists _; isplitr
    swap; · iexact H7
    ipureintro; exact View.read_writes_of_cover _ _ _ _ _ (cover10_B_7 c _ _ _ _ _ _ _ _ _ _ _ _ _ _ _ _ _ _ _ _ _ _ _ _ _)

/-- The library's body obligation, at every point. -/
theorem body_obligation10 (c : Dev nD) : BodyObligation (dat10 (F := F) V c) (defs₀ (F := F)) Variants.none () Set.univ := fun t => by
  rw [bigSep_W10, bigSep_W10]
  exact sound_body10 V c t

end Cert.KernelIdeal.Reg

end
-- ==== Proof.KI.Reg11.lean ====
import proofs.«144276_j65051574665788_2_alg».proof.Proof.Gen.KernelIdeal.Launch
import proofs.«144276_j65051574665788_2_alg».proof.Proof.Gen.KernelIdeal.Skeleton
import proofs.«144276_j65051574665788_2_alg».proof.Proof.Gen.KernelIdeal.Points
import Idealize.ShloMosaic.Lib.Pipeline.FrameBody
import Idealize.ShloMosaic.Lib.Ring
import Idealize.ShloMosaic.Lib.Tactic

/-! # Region 11 of @main: the normalisation and pooling call, at the entry contents `V`

The body's half of the region's frame: for any contents `V` of the core's buffers at the region's entry, the
proof data of the pipeline (what every window's staging buffer holds before and after the body at every grid
point) and the body obligation — the body, run at any grid point on buffers holding what the data say, ends
with them holding what the data say, touching nothing else.

The body has two control cases. At the first grid point the pooled-sum block (window 7) is zeroed and then
added to; at every later point it is read at what the point before left and added to. The normalised block
(window 6) is stored whole at every point. What the two outputs hold after each point is therefore a recursion
on the point, the pooled-sum block carried from the point before. -/

-- membership in a rectangle of large extents recurses once per coordinate of the long axes
set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- Input window 0: its current staging buffer holds its block at every point, whether fetched there or not
    (unfetched, the block index has not moved since the fetch), for any proof data whose array is `V`'s and whose
    body leaves the block in place; the window is uncut and never idle. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

/-- Input window 1: its current staging buffer holds its block at every point, whether fetched there or not
    (unfetched, the block index has not moved since the fetch), for any proof data whose array is `V`'s and whose
    body leaves the block in place; the window is uncut and never idle. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

/-- Input window 2: its current staging buffer holds its block at every point, whether fetched there or not
    (unfetched, the block index has not moved since the fetch), for any proof data whose array is `V`'s and whose
    body leaves the block in place; the window is uncut and never idle. -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

/-- Input window 3: its current staging buffer holds its block at every point, whether fetched there or not
    (unfetched, the block index has not moved since the fetch), for any proof data whose array is `V`'s and whose
    body leaves the block in place; the window is uncut and never idle. -/
theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)

/-- Input window 4: its current staging buffer holds its block at every point, whether fetched there or not
    (unfetched, the block index has not moved since the fetch), for any proof data whose array is `V`'s and whose
    body leaves the block in place; the window is uncut and never idle. -/
theorem before11_4_of {c : Dev nD} (dat : Dat τ (Elt F) Unit ℕ (UR sig nD τ) ℕ cfg11 c) (hA : dat.A 4 = V c (Pipeline.arrRef spec11 4))
    (hafter : ∀ t, dat.after 4 t = iblk11 V c 4 t) (t : Fin cfg11.N) (d) : dat.before 4 t d = iblk11 V c 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)

/-- Input window 5: its current staging buffer holds its block at every point, whether fetched there or not
    (unfetched, the block index has not moved since the fetch), for any proof data whose array is `V`'s and whose
    body leaves the block in place; the window is uncut and never idle. -/
theorem before11_5_of {c : Dev nD} (dat : Dat τ (Elt F) Unit ℕ (UR sig nD τ) ℕ cfg11 c) (hA : dat.A 5 = V c (Pipeline.arrRef spec11 5))
    (hafter : ∀ t, dat.after 5 t = iblk11 V c 5 t) (t : Fin cfg11.N) (d) : dat.before 5 t d = iblk11 V c 5 t :=
  (dat.before_in_eq_fetched 5 rfl (fun _ => rfl) (fun _ _ _ => rfl) (fun t => by rw [hafter]; unfold Dat.blockOf iblk11; rw [hA]; try rfl) t d).trans
    (by unfold Dat.fetched Dat.blockOf iblk11; rw [hA]; try rfl)

/-! ## The body's branch condition -/

/-- The condition of the body's one conditional, as a function of the grid coordinates: "this is point 0". -/
abbrev cond11_0 (i : grid11.Coords) : Prop := (Scalar.cmpi .ne (Scalar.extui (Scalar.cmpi .eq (BitVec.ofNat 32 (i 0).val) 0#32)) 0#32) = 1#1
/-- It holds at the first point only — decided over the ten points of the grid. -/
theorem hcond11_0 : ∀ t : Fin cfg11.N, cond11_0 (grid11.coords t) ↔ t.val % 10 = 0 :=
  (by decide +kernel : ∀ t : Fin grid11.N, cond11_0 (grid11.coords t) ↔ t.val % 10 = 0)

/-! ## The staging memrefs -/

/-- One staging buffer of each output window, through which its contents are stated (a covering list of writes
    reads back the same through any view of the shape). -/
abbrev VO11_6 : View sig .tc .vmem S5000x128 .f32 := (Memref.whole cc11_stg6_0 : Memref sig .tc .vmem S5000x128 .f32).view
abbrev VO11_7 : View sig .tc .vmem S128x128 .f32 := (Memref.whole cc11_stg7_0 : Memref sig .tc .vmem S128x128 .f32).view
/-- Each window's current staging memref at point `t`, spelled as the pipeline passes it to the body, and its wholeness. -/
abbrev ms11_0 (t : Fin cfg11.N) : Memref sig .tc .vmem S5000x128 .f32 := win11_0.stage (cfg11.slots t 0)
abbrev hs11_0 (t : Fin cfg11.N) : (ms11_0 t).IsWhole := hstage11_0 ((cfg11.slots t 0).cast nbuf11_0)
abbrev ms11_1 (t : Fin cfg11.N) : Memref sig .tc .vmem S1x128 .f32 := win11_1.stage (cfg11.slots t 1)
abbrev hs11_1 (t : Fin cfg11.N) : (ms11_1 t).IsWhole := hstage11_1 ((cfg11.slots t 1).cast nbuf11_1)
abbrev ms11_2 (t : Fin cfg11.N) : Memref sig .tc .vmem S1x128 .f32 := win11_2.stage (cfg11.slots t 2)
abbrev hs11_2 (t : Fin cfg11.N) : (ms11_2 t).IsWhole := hstage11_2 ((cfg11.slots t 2).cast nbuf11_2)
abbrev ms11_3 (t : Fin cfg11.N) : Memref sig .tc .vmem S1x128 .f32 := win11_3.stage (cfg11.slots t 3)
abbrev hs11_3 (t : Fin cfg11.N) : (ms11_3 t).IsWhole := hstage11_3 ((cfg11.slots t 3).cast nbuf11_3)
abbrev ms11_4 (t : Fin cfg11.N) : Memref sig .tc .vmem S1x128 .f32 := win11_4.stage (cfg11.slots t 4)
abbrev hs11_4 (t : Fin cfg11.N) : (ms11_4 t).IsWhole := hstage11_4 ((cfg11.slots t 4).cast nbuf11_4)
abbrev ms11_5 (t : Fin cfg11.N) : Memref sig .tc .vmem S5000x1 .i32 := win11_5.stage (cfg11.slots t 5)
abbrev hs11_5 (t : Fin cfg11.N) : (ms11_5 t).IsWhole := hstage11_5 ((cfg11.slots t 5).cast nbuf11_5)
abbrev ms11_6 (t : Fin cfg11.N) : Memref sig .tc .vmem S5000x128 .f32 := win11_6.stage (cfg11.slots t 6)
abbrev hs11_6 (t : Fin cfg11.N) : (ms11_6 t).IsWhole := hstage11_6 ((cfg11.slots t 6).cast nbuf11_6)
abbrev ms11_7 (t : Fin cfg11.N) : Memref sig .tc .vmem S128x128 .f32 := win11_7.stage (cfg11.slots t 7)
abbrev hs11_7 (t : Fin cfg11.N) : (ms11_7 t).IsWhole := hstage11_7 ((cfg11.slots t 7).cast nbuf11_7)

/-! ## The body on any staging memrefs, case by case -/

set_option maxHeartbeats 1000000 in
/-- CASE A (the first point: the conditional taken). The pieces the body's stores leave in the two outputs' staging
    memrefs (last first), with the proof that on whole staging memrefs — the inputs' at contents `x·`, the outputs'
    at anything — the body runs to a continuation that is handed the inputs' as they were and each output's buffer
    with its pieces written. The pooled-sum block is zeroed before it is read, so what it held does not matter. -/
noncomputable def kernelRun11_A (c : Dev nD) (i : grid11.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : cond11_0 i)
    (x0 : Vec F S5000x128 .f32) (x1 : Vec F S1x128 .f32) (x2 : Vec F S1x128 .f32) (x3 : Vec F S1x128 .f32) (x4 : Vec F S1x128 .f32) (x5 : Vec F S5000x1 .i32) :
    Σ' (L6 : List (View.Piece (Elt F) S5000x128 .f32)), { L7 : List (View.Piece (Elt F) S128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc11_kernel i arg1 harg1 arg2 harg2 arg3 harg3 arg4 harg4 arg5 harg5 arg6 harg6 arg7 harg7 arg8 harg8) K } := by
  refine ⟨?_, ?_, fun E K => ?run⟩
  case run =>
    simp only [cc11_kernel_eq_skeleton]; unfold cc11_kernel_skel
    simp only [k11_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact H7

set_option maxHeartbeats 1000000 in
/-- CASE B (a later point: the conditional not taken). As case A, but the pooled-sum block is read before it is
    stored: its buffer is taken at the running contents `xo7`, which the pieces mention. -/
noncomputable def kernelRun11_B (c : Dev nD) (i : grid11.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : ¬cond11_0 i)
    (x0 : Vec F S5000x128 .f32) (x1 : Vec F S1x128 .f32) (x2 : Vec F S1x128 .f32) (x3 : Vec F S1x128 .f32) (x4 : Vec F S1x128 .f32) (x5 : Vec F S5000x1 .i32) (xo7 : Vec F S128x128 .f32) :
    Σ' (L6 : List (View.Piece (Elt F) S5000x128 .f32)), { L7 : List (View.Piece (Elt F) S128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xo7
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc11_kernel i arg1 harg1 arg2 harg2 arg3 harg3 arg4 harg4 arg5 harg5 arg6 harg6 arg7 harg7 arg8 harg8) K } := by
  refine ⟨?_, ?_, fun E K => ?run⟩
  case run =>
    simp only [cc11_kernel_eq_skeleton]; unfold cc11_kernel_skel
    simp only [k11_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact H7

/-! ## What each case leaves in the outputs -/

/-- Case A's pieces for output 6 tile its block, so they cover it. -/
theorem cover11_A_6 (c : Dev nD) (i : grid11.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : cond11_0 i)
    (x0 : Vec F S5000x128 .f32) (x1 : Vec F S1x128 .f32) (x2 : Vec F S1x128 .f32) (x3 : Vec F S1x128 .f32) (x4 : Vec F S1x128 .f32) (x5 : Vec F S5000x1 .i32) (y : S5000x128.Idx) :
    ∃ pc ∈ (kernelRun11_A c i arg1 harg1 arg2 harg2 arg3 harg3 arg4 harg4 arg5 harg5 arg6 harg6 arg7 harg7 arg8 harg8 hc0 x0 x1 x2 x3 x4 x5).1, y ∈ pc.1.set :=
  View.cover_of_tiledL (kernelRun11_A c i arg1 harg1 arg2 harg2 arg3 harg3 arg4 harg4 arg5 harg5 arg6 harg6 arg7 harg7 arg8 harg8 hc0 x0 x1 x2 x3 x4 x5).1 S5000x128.size (by sl_kernel_rfl) y

/-- What case A leaves in output 6's staging buffer: its pieces read back over junk. -/
def out11_A_6 (c : Dev nD) (i : grid11.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : cond11_0 i)
    (x0 : Vec F S5000x128 .f32) (x1 : Vec F S1x128 .f32) (x2 : Vec F S1x128 .f32) (x3 : Vec F S1x128 .f32) (x4 : Vec F S1x128 .f32) (x5 : Vec F S5000x1 .i32) : Vec F S5000x128 .f32 :=
  VO11_6.read (Elt F) (VO11_6.writes (Elt F) VO11_6.junk (kernelRun11_A c i arg1 harg1 arg2 harg2 arg3 harg3 arg4 harg4 arg5 harg5 arg6 harg6 arg7 harg7 arg8 harg8 hc0 x0 x1 x2 x3 x4 x5).1)

/-- Case A's pieces for output 7 tile its block, so they cover it. -/
theorem cover11_A_7 (c : Dev nD) (i : grid11.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : cond11_0 i)
    (x0 : Vec F S5000x128 .f32) (x1 : Vec F S1x128 .f32) (x2 : Vec F S1x128 .f32) (x3 : Vec F S1x128 .f32) (x4 : Vec F S1x128 .f32) (x5 : Vec F S5000x1 .i32) (y : S128x128.Idx) :
    ∃ pc ∈ (kernelRun11_A c i arg1 harg1 arg2 harg2 arg3 harg3 arg4 harg4 arg5 harg5 arg6 harg6 arg7 harg7 arg8 harg8 hc0 x0 x1 x2 x3 x4 x5).2.1, y ∈ pc.1.set :=
  View.cover_of_tiledL (kernelRun11_A c i arg1 harg1 arg2 harg2 arg3 harg3 arg4 harg4 arg5 harg5 arg6 harg6 arg7 harg7 arg8 harg8 hc0 x0 x1 x2 x3 x4 x5).2.1 S128x128.size (by sl_kernel_rfl) y

/-- What case A leaves in output 7's staging buffer: its pieces read back over junk. -/
def out11_A_7 (c : Dev nD) (i : grid11.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : cond11_0 i)
    (x0 : Vec F S5000x128 .f32) (x1 : Vec F S1x128 .f32) (x2 : Vec F S1x128 .f32) (x3 : Vec F S1x128 .f32) (x4 : Vec F S1x128 .f32) (x5 : Vec F S5000x1 .i32) : Vec F S128x128 .f32 :=
  VO11_7.read (Elt F) (VO11_7.writes (Elt F) VO11_7.junk (kernelRun11_A c i arg1 harg1 arg2 harg2 arg3 harg3 arg4 harg4 arg5 harg5 arg6 harg6 arg7 harg7 arg8 harg8 hc0 x0 x1 x2 x3 x4 x5).2.1)

/-- Case B's pieces for output 6 tile its block, so they cover it. -/
theorem cover11_B_6 (c : Dev nD) (i : grid11.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : ¬cond11_0 i)
    (x0 : Vec F S5000x128 .f32) (x1 : Vec F S1x128 .f32) (x2 : Vec F S1x128 .f32) (x3 : Vec F S1x128 .f32) (x4 : Vec F S1x128 .f32) (x5 : Vec F S5000x1 .i32) (xo7 : Vec F S128x128 .f32) (y : S5000x128.Idx) :
    ∃ pc ∈ (kernelRun11_B c i arg1 harg1 arg2 harg2 arg3 harg3 arg4 harg4 arg5 harg5 arg6 harg6 arg7 harg7 arg8 harg8 hc0 x0 x1 x2 x3 x4 x5 xo7).1, y ∈ pc.1.set :=
  View.cover_of_tiledL (kernelRun11_B c i arg1 harg1 arg2 harg2 arg3 harg3 arg4 harg4 arg5 harg5 arg6 harg6 arg7 harg7 arg8 harg8 hc0 x0 x1 x2 x3 x4 x5 xo7).1 S5000x128.size (by sl_kernel_rfl) y

/-- What case B leaves in output 6's staging buffer: its pieces read back over junk. -/
def out11_B_6 (c : Dev nD) (i : grid11.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : ¬cond11_0 i)
    (x0 : Vec F S5000x128 .f32) (x1 : Vec F S1x128 .f32) (x2 : Vec F S1x128 .f32) (x3 : Vec F S1x128 .f32) (x4 : Vec F S1x128 .f32) (x5 : Vec F S5000x1 .i32) (xo7 : Vec F S128x128 .f32) : Vec F S5000x128 .f32 :=
  VO11_6.read (Elt F) (VO11_6.writes (Elt F) VO11_6.junk (kernelRun11_B c i arg1 harg1 arg2 harg2 arg3 harg3 arg4 harg4 arg5 harg5 arg6 harg6 arg7 harg7 arg8 harg8 hc0 x0 x1 x2 x3 x4 x5 xo7).1)

/-- Case B's pieces for output 7 tile its block, so they cover it. -/
theorem cover11_B_7 (c : Dev nD) (i : grid11.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : ¬cond11_0 i)
    (x0 : Vec F S5000x128 .f32) (x1 : Vec F S1x128 .f32) (x2 : Vec F S1x128 .f32) (x3 : Vec F S1x128 .f32) (x4 : Vec F S1x128 .f32) (x5 : Vec F S5000x1 .i32) (xo7 : Vec F S128x128 .f32) (y : S128x128.Idx) :
    ∃ pc ∈ (kernelRun11_B c i arg1 harg1 arg2 harg2 arg3 harg3 arg4 harg4 arg5 harg5 arg6 harg6 arg7 harg7 arg8 harg8 hc0 x0 x1 x2 x3 x4 x5 xo7).2.1, y ∈ pc.1.set :=
  View.cover_of_tiledL (kernelRun11_B c i arg1 harg1 arg2 harg2 arg3 harg3 arg4 harg4 arg5 harg5 arg6 harg6 arg7 harg7 arg8 harg8 hc0 x0 x1 x2 x3 x4 x5 xo7).2.1 S128x128.size (by sl_kernel_rfl) y

/-- What case B leaves in output 7's staging buffer: its pieces read back over junk. -/
def out11_B_7 (c : Dev nD) (i : grid11.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : ¬cond11_0 i)
    (x0 : Vec F S5000x128 .f32) (x1 : Vec F S1x128 .f32) (x2 : Vec F S1x128 .f32) (x3 : Vec F S1x128 .f32) (x4 : Vec F S1x128 .f32) (x5 : Vec F S5000x1 .i32) (xo7 : Vec F S128x128 .f32) : Vec F S128x128 .f32 :=
  VO11_7.read (Elt F) (VO11_7.writes (Elt F) VO11_7.junk (kernelRun11_B c i arg1 harg1 arg2 harg2 arg3 harg3 arg4 harg4 arg5 harg5 arg6 harg6 arg7 harg7 arg8 harg8 hc0 x0 x1 x2 x3 x4 x5 xo7).2.1)

/-! ## What the outputs hold after each point -/

/-- The two outputs after a first-point body at `t`: case A at the point's memrefs and input blocks. -/
def pt11_A (c : Dev nD) (t : Fin cfg11.N) (h0 : t.val % 10 = 0) : Vec F S5000x128 .f32 × Vec F S128x128 .f32 :=
  (out11_A_6 c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) ((hcond11_0 t).mpr h0) (iblk11 V c 0 t) (iblk11 V c 1 t) (iblk11 V c 2 t) (iblk11 V c 3 t) (iblk11 V c 4 t) (iblk11 V c 5 t),
   out11_A_7 c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) ((hcond11_0 t).mpr h0) (iblk11 V c 0 t) (iblk11 V c 1 t) (iblk11 V c 2 t) (iblk11 V c 3 t) (iblk11 V c 4 t) (iblk11 V c 5 t))

/-- The two outputs after a later-point body at `t`, the pooled-sum block having held `xo7`: case B at the
    point's memrefs and input blocks. -/
def pt11_B (c : Dev nD) (t : Fin cfg11.N) (h0 : ¬t.val % 10 = 0) (xo7 : Vec F S128x128 .f32) : Vec F S5000x128 .f32 × Vec F S128x128 .f32 :=
  (out11_B_6 c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) (fun h => h0 ((hcond11_0 t).mp h)) (iblk11 V c 0 t) (iblk11 V c 1 t) (iblk11 V c 2 t) (iblk11 V c 3 t) (iblk11 V c 4 t) (iblk11 V c 5 t) xo7,
   out11_B_7 c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) (fun h => h0 ((hcond11_0 t).mp h)) (iblk11 V c 0 t) (iblk11 V c 1 t) (iblk11 V c 2 t) (iblk11 V c 3 t) (iblk11 V c 4 t) (iblk11 V c 5 t) xo7)

/-- THE ACCUMULATION. What the two outputs' staging buffers hold after the body at position `n`: the case the
    closed form selects at `n`, the pooled-sum block of a later point taken at what this leaves at `n - 1`
    (its buffer is not written back in between). -/
def outsAt11 (c : Dev nD) : (n : ℕ) → n < cfg11.N → Vec F S5000x128 .f32 × Vec F S128x128 .f32
  | 0, hn => pt11_A V c ⟨0, hn⟩ (Nat.zero_mod _)
  | n + 1, hn =>
    if h0 : (n + 1) % 10 = 0 then pt11_A V c ⟨n + 1, hn⟩ h0
    else pt11_B V c ⟨n + 1, hn⟩ h0 (outsAt11 c n (Nat.lt_of_succ_lt hn)).2

/-- `outsAt11` at a point of case A: that case's contents. -/
theorem outsAt11_A (c : Dev nD) (t : Fin cfg11.N) (h0 : t.val % 10 = 0) :
    outsAt11 V c t.val t.isLt = pt11_A V c t h0 := by
  obtain ⟨n, hn⟩ := t
  cases n with
  | zero => exact rfl
  | succ n => exact (dif_pos h0).trans rfl

/-- `outsAt11` at a point of case B: that case's contents, over what the point before left. -/
theorem outsAt11_B (c : Dev nD) (t : Fin cfg11.N) (h0 : ¬t.val % 10 = 0) :
    outsAt11 V c t.val t.isLt = pt11_B V c t h0 (outsAt11 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans rfl

/-! ## The pipeline's proof data -/

/-- The proof data of the region's pipeline on core `c`: the arrays as the region finds them (`V`); after the body
    at point `t` each input's buffer at its block and the outputs' at `outsAt11`; the invariant the scoped rest
    and the generator register; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => iblk11 V c 5 t
    | ⟨6, _⟩ => (outsAt11 V c t.val t.isLt).1
    | ⟨7, _⟩ => (outsAt11 V c t.val t.isLt).2
  Φ _ := Pipeline.ΦA spec11 c
  q _ := fullShare
  owed _ := 0

/-- The proof data's arrays are the region-entry contents (the definition projected). -/
theorem A_eq11 (c : Dev nD) (w : Fin cfg11.W) : (dat11 V c).A w = V c (Pipeline.arrRef spec11 w) := by
  dsimp only [dat11]

/-- What the body leaves, window by window (the proof data's `match` reduced). -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) : (dat11 V c).after 5 t = iblk11 V c 5 t := by dsimp only [dat11]
theorem after11_6 (c : Dev nD) (t : Fin cfg11.N) : (dat11 V c).after 6 t = (outsAt11 V c t.val t.isLt).1 := by dsimp only [dat11]
theorem after11_7 (c : Dev nD) (t : Fin cfg11.N) : (dat11 V c).after 7 t = (outsAt11 V c t.val t.isLt).2 := by dsimp only [dat11]

/-- Each input's current staging buffer holds its block at every point, fetched there or not. -/
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d
theorem before11_4 (c : Dev nD) (t : Fin cfg11.N) (d) : (dat11 V c).before 4 t d = iblk11 V c 4 t :=
  before11_4_of V (dat11 V c) (A_eq11 V c 4) (after11_4 V c) t d
theorem before11_5 (c : Dev nD) (t : Fin cfg11.N) (d) : (dat11 V c).before 5 t d = iblk11 V c 5 t :=
  before11_5_of V (dat11 V c) (A_eq11 V c 5) (after11_5 V c) t d

/-- At a later point the pooled-sum window's staging buffer holds what the body left at the point before: the point is
    not the first, the buffer was not written back in between (it is written back after the last point only), and the
    window is live and uncut. -/
theorem before11_7_B (c : Dev nD) (t : Fin cfg11.N) (h0 : ¬t.val % 10 = 0) (d) :
    (dat11 V c).before 7 t d = (outsAt11 V c (t.val - 1) (Nat.lt_of_le_of_lt (Nat.sub_le _ _) t.isLt)).2 := by
  have hN : t.val < 10 := lt_of_lt_of_eq t.isLt (show cfg11.N = 10 from N_11)
  rw [Dat.before_out_kept _ 7 rfl t (by omega) (Bool.eq_false_iff.mpr fun h => by have := (flush11_7 _).mp h; dsimp only at this; omega)
    (fun _ => rfl) (fun _ _ => rfl)]
  dsimp only [dat11]

/-! ## The body obligation, at a generic point -/

/-- What the body is called with at point `t`: the invariant, what the core owes, and every window's current staging
    buffer at what the proof data say it holds before the body; -/
def bodyPre11 (c : Dev nD) (t : Fin cfg11.N) : sProp 𝕄 :=
  iprop((dat11 V c).Φ t.castSucc ∗ (dat11 V c).owesAt () t.castSucc
    ∗ (∃ d, owns (c : Thread nD τ) (ms11_0 t) fullShare ((dat11 V c).before 0 t d))
    ∗ (∃ d, owns (c : Thread nD τ) (ms11_1 t) fullShare ((dat11 V c).before 1 t d))
    ∗ (∃ d, owns (c : Thread nD τ) (ms11_2 t) fullShare ((dat11 V c).before 2 t d))
    ∗ (∃ d, owns (c : Thread nD τ) (ms11_3 t) fullShare ((dat11 V c).before 3 t d))
    ∗ (∃ d, owns (c : Thread nD τ) (ms11_4 t) fullShare ((dat11 V c).before 4 t d))
    ∗ (∃ d, owns (c : Thread nD τ) (ms11_5 t) fullShare ((dat11 V c).before 5 t d))
    ∗ (∃ d, owns (c : Thread nD τ) (ms11_6 t) fullShare ((dat11 V c).before 6 t d))
    ∗ (∃ d, owns (c : Thread nD τ) (ms11_7 t) fullShare ((dat11 V c).before 7 t d)))

/-- and what it returns: the same with every buffer at what the data say the body leaves. -/
def bodyPost11 (c : Dev nD) (t : Fin cfg11.N) : sProp 𝕄 :=
  iprop((dat11 V c).Φ t.succ ∗ (dat11 V c).owesAt () t.succ
    ∗ owns (c : Thread nD τ) (ms11_0 t) fullShare ((dat11 V c).after 0 t)
    ∗ owns (c : Thread nD τ) (ms11_1 t) fullShare ((dat11 V c).after 1 t)
    ∗ owns (c : Thread nD τ) (ms11_2 t) fullShare ((dat11 V c).after 2 t)
    ∗ owns (c : Thread nD τ) (ms11_3 t) fullShare ((dat11 V c).after 3 t)
    ∗ owns (c : Thread nD τ) (ms11_4 t) fullShare ((dat11 V c).after 4 t)
    ∗ owns (c : Thread nD τ) (ms11_5 t) fullShare ((dat11 V c).after 5 t)
    ∗ owns (c : Thread nD τ) (ms11_6 t) fullShare ((dat11 V c).after 6 t)
    ∗ owns (c : Thread nD τ) (ms11_7 t) fullShare ((dat11 V c).after 7 t))

set_option maxHeartbeats 1600000 in
/-- The body at any point: the inputs' memrefs hold their blocks; the closed form of the condition says which case
    the point is in; in case B the pooled-sum buffer holds what the point before left; so the case's run applies, and
    a covering list of pieces reads back the same through any view. The invariant and what the core owes pass
    through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3, before11_4, before11_5]
  rw [show (dat11 V c).Φ t.succ = (dat11 V c).Φ t.castSucc from rfl,
    show (dat11 V c).owesAt () t.succ = (dat11 V c).owesAt () t.castSucc from rfl,
    after11_0, after11_1, after11_2, after11_3, after11_4, after11_5, after11_6, after11_7]
  have hN : t.val < 10 := lt_of_lt_of_eq t.isLt (show cfg11.N = 10 from N_11)
  by_cases h0 : t.val % 10 = 0
  · rw [outsAt11_A V c t h0]
    dsimp only [pt11_A]
    unfold out11_A_6 out11_A_7
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun11_A c (grid11.coords t) _ _ _ _ _ _ _ _ _ _ _ _ _ _ _ _ ((hcond11_0 t).mpr h0) (iblk11 V c 0 t) (iblk11 V c 1 t) (iblk11 V c 2 t) (iblk11 V c 3 t) (iblk11 V c 4 t) (iblk11 V c 5 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    iintro ⟨H0, H1, H2, H3, H4, H5, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover11_A_6 c _ _ _ _ _ _ _ _ _ _ _ _ _ _ _ _ _ _ _ _ _ _ _ _)
    unfold owns; iexists _; isplitr
    swap; · iexact H7
    ipureintro; exact View.read_writes_of_cover _ _ _ _ _ (cover11_A_7 c _ _ _ _ _ _ _ _ _ _ _ _ _ _ _ _ _ _ _ _ _ _ _ _)
  · rw [outsAt11_B V c t h0]
    simp only [before11_7_B V c t h0]
    dsimp only [pt11_B]
    unfold out11_B_6 out11_B_7
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun11_B c (grid11.coords t) _ _ _ _ _ _ _ _ _ _ _ _ _ _ _ _ (fun h => h0 ((hcond11_0 t).mp h)) (iblk11 V c 0 t) (iblk11 V c 1 t) (iblk11 V c 2 t) (iblk11 V c 3 t) (iblk11 V c 4 t) (iblk11 V c 5 t) _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    iintro ⟨H0, H1, H2, H3, H4, H5, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover11_B_6 c _ _ _ _ _ _ _ _ _ _ _ _ _ _ _ _ _ _ _ _ _ _ _ _ _)
    unfold owns; iexists _; isplitr
    swap; · iexact H7
    ipureintro; exact View.read_writes_of_cover _ _ _ _ _ (cover11_B_7 c _ _ _ _ _ _ _ _ _ _ _ _ _ _ _ _ _ _ _ _ _ _ _ _ _)

/-- The body obligation, at every point. -/
theorem body_obligation11 (c : Dev nD) : BodyObligation (dat11 (F := F) V c) (defs₀ (F := F)) Variants.none () Set.univ := fun t => by
  rw [bigSep_W11, bigSep_W11]
  exact sound_body11 V c t

/-- info: 'Cert.KernelIdeal.Reg.body_obligation11' depends on axioms: [propext, Classical.choice, Quot.sound] -/
#guard_msgs in #print axioms body_obligation11

end Cert.KernelIdeal.Reg

end
-- ==== Proof.KI.FrameOf.lean ====
/- The kernel program's frame: the twelve regions' halves (Proof/KI/Reg0.lean … Reg11.lean) put into the assembly of
   Proof/KI/AsmFrame.lean. Each half's proof data has the class invariant, full shares and nothing owed by definition. -/
import proofs.«144276_j65051574665788_2_alg».proof.Proof.KI.AsmFrame
import proofs.«144276_j65051574665788_2_alg».proof.Proof.KI.Reg0
import proofs.«144276_j65051574665788_2_alg».proof.Proof.KI.Reg1
import proofs.«144276_j65051574665788_2_alg».proof.Proof.KI.Reg2
import proofs.«144276_j65051574665788_2_alg».proof.Proof.KI.Reg3
import proofs.«144276_j65051574665788_2_alg».proof.Proof.KI.Reg4
import proofs.«144276_j65051574665788_2_alg».proof.Proof.KI.Reg5
import proofs.«144276_j65051574665788_2_alg».proof.Proof.KI.Reg6
import proofs.«144276_j65051574665788_2_alg».proof.Proof.KI.Reg7
import proofs.«144276_j65051574665788_2_alg».proof.Proof.KI.Reg8
import proofs.«144276_j65051574665788_2_alg».proof.Proof.KI.Reg9
import proofs.«144276_j65051574665788_2_alg».proof.Proof.KI.Reg10
import proofs.«144276_j65051574665788_2_alg».proof.Proof.KI.Reg11

noncomputable section

namespace Cert.KernelIdeal.Asm

open Cert.KernelIdeal Cert.KernelIdeal.Gen Idealize.ShloMosaic Idealize.ShloMosaic.TcCoe Idealize.SL.Sem

variable {F : FTy → Type} [FloatOps F]

/-- Region 0's half. -/
def half0 : Half0 F where
  after V c := (Cert.KernelIdeal.Reg.dat0 V c).after
  hb V c := Cert.KernelIdeal.Reg.body_obligation0 V c
/-- Region 1's half. -/
def half1 : Half1 F where
  after V c := (Cert.KernelIdeal.Reg.dat1 V c).after
  hb V c := Cert.KernelIdeal.Reg.body_obligation1 V c
/-- Region 2's half. -/
def half2 : Half2 F where
  after V c := (Cert.KernelIdeal.Reg.dat2 V c).after
  hb V c := Cert.KernelIdeal.Reg.body_obligation2 V c
/-- Region 3's half. -/
def half3 : Half3 F where
  after V c := (Cert.KernelIdeal.Reg.dat3 V c).after
  hb V c := Cert.KernelIdeal.Reg.body_obligation3 V c
/-- Region 4's half. -/
def half4 : Half4 F where
  after V c := (Cert.KernelIdeal.Reg.dat4 V c).after
  hb V c := Cert.KernelIdeal.Reg.body_obligation4 V c
/-- Region 5's half. -/
def half5 : Half5 F where
  after V c := (Cert.KernelIdeal.Reg.dat5 V c).after
  hb V c := Cert.KernelIdeal.Reg.body_obligation5 V c
/-- Region 6's half. -/
def half6 : Half6 F where
  after V c := (Cert.KernelIdeal.Reg.dat6 V c).after
  hb V c := Cert.KernelIdeal.Reg.body_obligation6 V c
/-- Region 7's half. -/
def half7 : Half7 F where
  after V c := (Cert.KernelIdeal.Reg.dat7 V c).after
  hb V c := Cert.KernelIdeal.Reg.body_obligation7 V c
/-- Region 8's half. -/
def half8 : Half8 F where
  after V c := (Cert.KernelIdeal.Reg.dat8 V c).after
  hb V c := Cert.KernelIdeal.Reg.body_obligation8 V c
/-- Region 9's half. -/
def half9 : Half9 F where
  after V c := (Cert.KernelIdeal.Reg.dat9 V c).after
  hb V c := Cert.KernelIdeal.Reg.body_obligation9 V c
/-- Region 10's half. -/
def half10 : Half10 F where
  after V c := (Cert.KernelIdeal.Reg.dat10 V c).after
  hb V c := Cert.KernelIdeal.Reg.body_obligation10 V c
/-- Region 11's half. -/
def half11 : Half11 F where
  after V c := (Cert.KernelIdeal.Reg.dat11 V c).after
  hb V c := Cert.KernelIdeal.Reg.body_obligation11 V c

/-- The kernel program's frame, at any float values. -/
theorem frame_all (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame m half0 half1 half2 half3 half4 half5 half6 half7 half8 half9 half10 half11 ρ

end Cert.KernelIdeal.Asm

end
-- ==== Proof.K.AsmChain.lean ====
/- The kernel program's buffers followed through @main, item by item. @main is thirteen stretches of host operations with a
   kernel region between each two. After a stretch the buffers hold the stretch's operations applied to what they held;
   after region `K` the region's arrays hold what its pipeline leaves — an input array what it held, an output array its
   blocks' write-backs folded (`arrAt w N` of the region's proof data, taken at the contents the region was entered with) —
   and every other buffer what it held. Taking, for "what a region may leave in a buffer it may change", exactly these
   contents, the generated valuations `Gen.V1 … Gen.V25` are this chain. A region's proof data, with its body obligation,
   enters as a hypothesis `HK`. -/
import proofs.«144276_j65051574665788_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Asm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The TensorCore's buffer contents on every core: what a region's proof data is taken at. -/
abbrev Contents (F : FTy → Type) [FloatOps F] : Type := (c : Dev nD) → (b : Ref sig .tc) → Buf (Elt F) ((c : Thread nD τ).loc b)

/-- Region 0's proof data from what the body leaves in each window's buffer: the arrays read off the entry contents, the
    class invariant, full shares, nothing owed. -/
def mkDat0 {F : FTy → Type} [FloatOps F] (V : Contents F) (c : Dev nD)
    (aft : (w : Fin cfg0.W) → Fin cfg0.N → (cfg0.win w).block.Idx → Elt F (cfg0.win w).elt) :
    Dat τ (Elt F) Unit ℕ (UR sig nD τ) ℕ cfg0 c where
  A w := V c (Pipeline.arrRef spec0 w)
  after := aft
  Φ _ := Pipeline.ΦA spec0 c
  q _ := fullShare
  owed _ := 0
/-- Region 0's half: what the body leaves, at any entry contents, and the body obligation of the proof data built from it. -/
structure Half0 (F : FTy → Type) [FloatOps F] where
  after : (V : Contents F) → (c : Dev nD) → (w : Fin cfg0.W) → Fin cfg0.N → (cfg0.win w).block.Idx → Elt F (cfg0.win w).elt
  hb : ∀ V c, BodyObligation (mkDat0 V c (after V c)) (defs₀ (F := F)) Variants.none () Set.univ
/-- The half's proof data. -/
def Half0.dat {F : FTy → Type} [FloatOps F] (H : Half0 F) (V : Contents F) (c : Dev nD) :
    Dat τ (Elt F) Unit ℕ (UR sig nD τ) ℕ cfg0 c := mkDat0 V c (H.after V c)

/-- Region 1's proof data from what the body leaves in each window's buffer: the arrays read off the entry contents, the
    class invariant, full shares, nothing owed. -/
def mkDat1 {F : FTy → Type} [FloatOps F] (V : Contents F) (c : Dev nD)
    (aft : (w : Fin cfg1.W) → Fin cfg1.N → (cfg1.win w).block.Idx → Elt F (cfg1.win w).elt) :
    Dat τ (Elt F) Unit ℕ (UR sig nD τ) ℕ cfg1 c where
  A w := V c (Pipeline.arrRef spec1 w)
  after := aft
  Φ _ := Pipeline.ΦA spec1 c
  q _ := fullShare
  owed _ := 0
/-- Region 1's half: what the body leaves, at any entry contents, and the body obligation of the proof data built from it. -/
structure Half1 (F : FTy → Type) [FloatOps F] where
  after : (V : Contents F) → (c : Dev nD) → (w : Fin cfg1.W) → Fin cfg1.N → (cfg1.win w).block.Idx → Elt F (cfg1.win w).elt
  hb : ∀ V c, BodyObligation (mkDat1 V c (after V c)) (defs₀ (F := F)) Variants.none () Set.univ
/-- The half's proof data. -/
def Half1.dat {F : FTy → Type} [FloatOps F] (H : Half1 F) (V : Contents F) (c : Dev nD) :
    Dat τ (Elt F) Unit ℕ (UR sig nD τ) ℕ cfg1 c := mkDat1 V c (H.after V c)

/-- Region 2's proof data from what the body leaves in each window's buffer: the arrays read off the entry contents, the
    class invariant, full shares, nothing owed. -/
def mkDat2 {F : FTy → Type} [FloatOps F] (V : Contents F) (c : Dev nD)
    (aft : (w : Fin cfg2.W) → Fin cfg2.N → (cfg2.win w).block.Idx → Elt F (cfg2.win w).elt) :
    Dat τ (Elt F) Unit ℕ (UR sig nD τ) ℕ cfg2 c where
  A w := V c (Pipeline.arrRef spec2 w)
  after := aft
  Φ _ := Pipeline.ΦA spec2 c
  q _ := fullShare
  owed _ := 0
/-- Region 2's half: what the body leaves, at any entry contents, and the body obligation of the proof data built from it. -/
structure Half2 (F : FTy → Type) [FloatOps F] where
  after : (V : Contents F) → (c : Dev nD) → (w : Fin cfg2.W) → Fin cfg2.N → (cfg2.win w).block.Idx → Elt F (cfg2.win w).elt
  hb : ∀ V c, BodyObligation (mkDat2 V c (after V c)) (defs₀ (F := F)) Variants.none () Set.univ
/-- The half's proof data. -/
def Half2.dat {F : FTy → Type} [FloatOps F] (H : Half2 F) (V : Contents F) (c : Dev nD) :
    Dat τ (Elt F) Unit ℕ (UR sig nD τ) ℕ cfg2 c := mkDat2 V c (H.after V c)

/-- Region 3's proof data from what the body leaves in each window's buffer: the arrays read off the entry contents, the
    class invariant, full shares, nothing owed. -/
def mkDat3 {F : FTy → Type} [FloatOps F] (V : Contents F) (c : Dev nD)
    (aft : (w : Fin cfg3.W) → Fin cfg3.N → (cfg3.win w).block.Idx → Elt F (cfg3.win w).elt) :
    Dat τ (Elt F) Unit ℕ (UR sig nD τ) ℕ cfg3 c where
  A w := V c (Pipeline.arrRef spec3 w)
  after := aft
  Φ _ := Pipeline.ΦA spec3 c
  q _ := fullShare
  owed _ := 0
/-- Region 3's half: what the body leaves, at any entry contents, and the body obligation of the proof data built from it. -/
structure Half3 (F : FTy → Type) [FloatOps F] where
  after : (V : Contents F) → (c : Dev nD) → (w : Fin cfg3.W) → Fin cfg3.N → (cfg3.win w).block.Idx → Elt F (cfg3.win w).elt
  hb : ∀ V c, BodyObligation (mkDat3 V c (after V c)) (defs₀ (F := F)) Variants.none () Set.univ
/-- The half's proof data. -/
def Half3.dat {F : FTy → Type} [FloatOps F] (H : Half3 F) (V : Contents F) (c : Dev nD) :
    Dat τ (Elt F) Unit ℕ (UR sig nD τ) ℕ cfg3 c := mkDat3 V c (H.after V c)

/-- Region 4's proof data from what the body leaves in each window's buffer: the arrays read off the entry contents, the
    class invariant, full shares, nothing owed. -/
def mkDat4 {F : FTy → Type} [FloatOps F] (V : Contents F) (c : Dev nD)
    (aft : (w : Fin cfg4.W) → Fin cfg4.N → (cfg4.win w).block.Idx → Elt F (cfg4.win w).elt) :
    Dat τ (Elt F) Unit ℕ (UR sig nD τ) ℕ cfg4 c where
  A w := V c (Pipeline.arrRef spec4 w)
  after := aft
  Φ _ := Pipeline.ΦA spec4 c
  q _ := fullShare
  owed _ := 0
/-- Region 4's half: what the body leaves, at any entry contents, and the body obligation of the proof data built from it. -/
structure Half4 (F : FTy → Type) [FloatOps F] where
  after : (V : Contents F) → (c : Dev nD) → (w : Fin cfg4.W) → Fin cfg4.N → (cfg4.win w).block.Idx → Elt F (cfg4.win w).elt
  hb : ∀ V c, BodyObligation (mkDat4 V c (after V c)) (defs₀ (F := F)) Variants.none () Set.univ
/-- The half's proof data. -/
def Half4.dat {F : FTy → Type} [FloatOps F] (H : Half4 F) (V : Contents F) (c : Dev nD) :
    Dat τ (Elt F) Unit ℕ (UR sig nD τ) ℕ cfg4 c := mkDat4 V c (H.after V c)

/-- Region 5's proof data from what the body leaves in each window's buffer: the arrays read off the entry contents, the
    class invariant, full shares, nothing owed. -/
def mkDat5 {F : FTy → Type} [FloatOps F] (V : Contents F) (c : Dev nD)
    (aft : (w : Fin cfg5.W) → Fin cfg5.N → (cfg5.win w).block.Idx → Elt F (cfg5.win w).elt) :
    Dat τ (Elt F) Unit ℕ (UR sig nD τ) ℕ cfg5 c where
  A w := V c (Pipeline.arrRef spec5 w)
  after := aft
  Φ _ := Pipeline.ΦA spec5 c
  q _ := fullShare
  owed _ := 0
/-- Region 5's half: what the body leaves, at any entry contents, and the body obligation of the proof data built from it. -/
structure Half5 (F : FTy → Type) [FloatOps F] where
  after : (V : Contents F) → (c : Dev nD) → (w : Fin cfg5.W) → Fin cfg5.N → (cfg5.win w).block.Idx → Elt F (cfg5.win w).elt
  hb : ∀ V c, BodyObligation (mkDat5 V c (after V c)) (defs₀ (F := F)) Variants.none () Set.univ
/-- The half's proof data. -/
def Half5.dat {F : FTy → Type} [FloatOps F] (H : Half5 F) (V : Contents F) (c : Dev nD) :
    Dat τ (Elt F) Unit ℕ (UR sig nD τ) ℕ cfg5 c := mkDat5 V c (H.after V c)

/-- Region 6's proof data from what the body leaves in each window's buffer: the arrays read off the entry contents, the
    class invariant, full shares, nothing owed. -/
def mkDat6 {F : FTy → Type} [FloatOps F] (V : Contents F) (c : Dev nD)
    (aft : (w : Fin cfg6.W) → Fin cfg6.N → (cfg6.win w).block.Idx → Elt F (cfg6.win w).elt) :
    Dat τ (Elt F) Unit ℕ (UR sig nD τ) ℕ cfg6 c where
  A w := V c (Pipeline.arrRef spec6 w)
  after := aft
  Φ _ := Pipeline.ΦA spec6 c
  q _ := fullShare
  owed _ := 0
/-- Region 6's half: what the body leaves, at any entry contents, and the body obligation of the proof data built from it. -/
structure Half6 (F : FTy → Type) [FloatOps F] where
  after : (V : Contents F) → (c : Dev nD) → (w : Fin cfg6.W) → Fin cfg6.N → (cfg6.win w).block.Idx → Elt F (cfg6.win w).elt
  hb : ∀ V c, BodyObligation (mkDat6 V c (after V c)) (defs₀ (F := F)) Variants.none () Set.univ
/-- The half's proof data. -/
def Half6.dat {F : FTy → Type} [FloatOps F] (H : Half6 F) (V : Contents F) (c : Dev nD) :
    Dat τ (Elt F) Unit ℕ (UR sig nD τ) ℕ cfg6 c := mkDat6 V c (H.after V c)

/-- Region 7's proof data from what the body leaves in each window's buffer: the arrays read off the entry contents, the
    class invariant, full shares, nothing owed. -/
def mkDat7 {F : FTy → Type} [FloatOps F] (V : Contents F) (c : Dev nD)
    (aft : (w : Fin cfg7.W) → Fin cfg7.N → (cfg7.win w).block.Idx → Elt F (cfg7.win w).elt) :
    Dat τ (Elt F) Unit ℕ (UR sig nD τ) ℕ cfg7 c where
  A w := V c (Pipeline.arrRef spec7 w)
  after := aft
  Φ _ := Pipeline.ΦA spec7 c
  q _ := fullShare
  owed _ := 0
/-- Region 7's half: what the body leaves, at any entry contents, and the body obligation of the proof data built from it. -/
structure Half7 (F : FTy → Type) [FloatOps F] where
  after : (V : Contents F) → (c : Dev nD) → (w : Fin cfg7.W) → Fin cfg7.N → (cfg7.win w).block.Idx → Elt F (cfg7.win w).elt
  hb : ∀ V c, BodyObligation (mkDat7 V c (after V c)) (defs₀ (F := F)) Variants.none () Set.univ
/-- The half's proof data. -/
def Half7.dat {F : FTy → Type} [FloatOps F] (H : Half7 F) (V : Contents F) (c : Dev nD) :
    Dat τ (Elt F) Unit ℕ (UR sig nD τ) ℕ cfg7 c := mkDat7 V c (H.after V c)

/-- Region 8's proof data from what the body leaves in each window's buffer: the arrays read off the entry contents, the
    class invariant, full shares, nothing owed. -/
def mkDat8 {F : FTy → Type} [FloatOps F] (V : Contents F) (c : Dev nD)
    (aft : (w : Fin cfg8.W) → Fin cfg8.N → (cfg8.win w).block.Idx → Elt F (cfg8.win w).elt) :
    Dat τ (Elt F) Unit ℕ (UR sig nD τ) ℕ cfg8 c where
  A w := V c (Pipeline.arrRef spec8 w)
  after := aft
  Φ _ := Pipeline.ΦA spec8 c
  q _ := fullShare
  owed _ := 0
/-- Region 8's half: what the body leaves, at any entry contents, and the body obligation of the proof data built from it. -/
structure Half8 (F : FTy → Type) [FloatOps F] where
  after : (V : Contents F) → (c : Dev nD) → (w : Fin cfg8.W) → Fin cfg8.N → (cfg8.win w).block.Idx → Elt F (cfg8.win w).elt
  hb : ∀ V c, BodyObligation (mkDat8 V c (after V c)) (defs₀ (F := F)) Variants.none () Set.univ
/-- The half's proof data. -/
def Half8.dat {F : FTy → Type} [FloatOps F] (H : Half8 F) (V : Contents F) (c : Dev nD) :
    Dat τ (Elt F) Unit ℕ (UR sig nD τ) ℕ cfg8 c := mkDat8 V c (H.after V c)

/-- Region 9's proof data from what the body leaves in each window's buffer: the arrays read off the entry contents, the
    class invariant, full shares, nothing owed. -/
def mkDat9 {F : FTy → Type} [FloatOps F] (V : Contents F) (c : Dev nD)
    (aft : (w : Fin cfg9.W) → Fin cfg9.N → (cfg9.win w).block.Idx → Elt F (cfg9.win w).elt) :
    Dat τ (Elt F) Unit ℕ (UR sig nD τ) ℕ cfg9 c where
  A w := V c (Pipeline.arrRef spec9 w)
  after := aft
  Φ _ := Pipeline.ΦA spec9 c
  q _ := fullShare
  owed _ := 0
/-- Region 9's half: what the body leaves, at any entry contents, and the body obligation of the proof data built from it. -/
structure Half9 (F : FTy → Type) [FloatOps F] where
  after : (V : Contents F) → (c : Dev nD) → (w : Fin cfg9.W) → Fin cfg9.N → (cfg9.win w).block.Idx → Elt F (cfg9.win w).elt
  hb : ∀ V c, BodyObligation (mkDat9 V c (after V c)) (defs₀ (F := F)) Variants.none () Set.univ
/-- The half's proof data. -/
def Half9.dat {F : FTy → Type} [FloatOps F] (H : Half9 F) (V : Contents F) (c : Dev nD) :
    Dat τ (Elt F) Unit ℕ (UR sig nD τ) ℕ cfg9 c := mkDat9 V c (H.after V c)

/-- Region 10's proof data from what the body leaves in each window's buffer: the arrays read off the entry contents, the
    class invariant, full shares, nothing owed. -/
def mkDat10 {F : FTy → Type} [FloatOps F] (V : Contents F) (c : Dev nD)
    (aft : (w : Fin cfg10.W) → Fin cfg10.N → (cfg10.win w).block.Idx → Elt F (cfg10.win w).elt) :
    Dat τ (Elt F) Unit ℕ (UR sig nD τ) ℕ cfg10 c where
  A w := V c (Pipeline.arrRef spec10 w)
  after := aft
  Φ _ := Pipeline.ΦA spec10 c
  q _ := fullShare
  owed _ := 0
/-- Region 10's half: what the body leaves, at any entry contents, and the body obligation of the proof data built from it. -/
structure Half10 (F : FTy → Type) [FloatOps F] where
  after : (V : Contents F) → (c : Dev nD) → (w : Fin cfg10.W) → Fin cfg10.N → (cfg10.win w).block.Idx → Elt F (cfg10.win w).elt
  hb : ∀ V c, BodyObligation (mkDat10 V c (after V c)) (defs₀ (F := F)) Variants.none () Set.univ
/-- The half's proof data. -/
def Half10.dat {F : FTy → Type} [FloatOps F] (H : Half10 F) (V : Contents F) (c : Dev nD) :
    Dat τ (Elt F) Unit ℕ (UR sig nD τ) ℕ cfg10 c := mkDat10 V c (H.after V c)

/-- Region 11's proof data from what the body leaves in each window's buffer: the arrays read off the entry contents, the
    class invariant, full shares, nothing owed. -/
def mkDat11 {F : FTy → Type} [FloatOps F] (V : Contents F) (c : Dev nD)
    (aft : (w : Fin cfg11.W) → Fin cfg11.N → (cfg11.win w).block.Idx → Elt F (cfg11.win w).elt) :
    Dat τ (Elt F) Unit ℕ (UR sig nD τ) ℕ cfg11 c where
  A w := V c (Pipeline.arrRef spec11 w)
  after := aft
  Φ _ := Pipeline.ΦA spec11 c
  q _ := fullShare
  owed _ := 0
/-- Region 11's half: what the body leaves, at any entry contents, and the body obligation of the proof data built from it. -/
structure Half11 (F : FTy → Type) [FloatOps F] where
  after : (V : Contents F) → (c : Dev nD) → (w : Fin cfg11.W) → Fin cfg11.N → (cfg11.win w).block.Idx → Elt F (cfg11.win w).elt
  hb : ∀ V c, BodyObligation (mkDat11 V c (after V c)) (defs₀ (F := F)) Variants.none () Set.univ
/-- The half's proof data. -/
def Half11.dat {F : FTy → Type} [FloatOps F] (H : Half11 F) (V : Contents F) (c : Dev nD) :
    Dat τ (Elt F) Unit ℕ (UR sig nD τ) ℕ cfg11 c := mkDat11 V c (H.after V c)

/-- A buffer that is none of a region's arrays is left alone when the region's arrays are replaced. -/
theorem withArrays_other {gr W : Nat} (win : Fin W → Pipeline.WinSpec sig gr) (c : Dev nD) (V : Valuation τ sig (Elt F))
    (A : (w : Fin W) → Buf (Elt F) ((win w).arr.view.loc (c.tc : Thread nD τ))) (b : DevRef τ sig)
    (hb : ¬ ∃ w, Proc.devRef .tc (Pipeline.arrRef win w) = b) : Pipeline.withArrays win c V A b = V b := by
  unfold Pipeline.withArrays
  rw [dif_neg hb]

variable (m : (ℓ : Loc nD τ sig) → Buf (Elt F) ℓ) (H0 : Half0 F) (H1 : Half1 F) (H2 : Half2 F) (H3 : Half3 F) (H4 : Half4 F) (H5 : Half5 F) (H6 : Half6 F) (H7 : Half7 F) (H8 : Half8 F) (H9 : Half9 F) (H10 : Half10 F) (H11 : Half11 F)

/-! ## The chain -/

/-- At launch, and after the first stretch. -/
abbrev W0 : Dev nD → Valuation τ sig (Elt F) := fun c b => m (c, b)
abbrev W1 : Dev nD → Valuation τ sig (Elt F) := fun c => StableHlo.after hostOps0 (W0 m c)
abbrev X1 : Contents F := fun c b => W1 m c b

/-- After region 0: its arrays at what its pipeline leaves, every other buffer as entered. -/
def W2 (c : Dev nD) : Valuation τ sig (Elt F) :=
  Pipeline.withArrays spec0 c (W1 m c) fun w => (H0.dat (X1 m) c).arrAt w cfg0.N
theorem W2_arr (c : Dev nD) (w : Fin cfg0.W) :
    W2 m H0 c (Proc.devRef .tc (Pipeline.arrRef spec0 w)) = (H0.dat (X1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m H0 c (Proc.devRef .tc b) = W1 m c (Proc.devRef .tc b) := by
  unfold W2; exact Pipeline.withArrays_of_ne spec0 c _ _ b hb
/-- An input array of region 0 holds after the region what it held before. -/
theorem W2_in (c : Dev nD) (w : Fin cfg0.W) (hw : (cfg0.win w).isOut = false) :
    W2 m H0 c (Proc.devRef .tc (Pipeline.arrRef spec0 w)) = W1 m c (Proc.devRef .tc (Pipeline.arrRef spec0 w)) :=
  (W2_arr m H0 c w).trans (((H0.dat (X1 m) c).arrAt_in w hw _).trans rfl)
abbrev X2 : Contents F := fun c b => W2 m H0 c b
theorem hF0 (c : Dev nD) (w : Fin cfg0.W) :
    (H0.dat (X1 m) c).arrAt w cfg0.N = X2 m H0 c (Pipeline.arrRef spec0 w) := (W2_arr m H0 c w).symm
theorem hrest0 (c : Dev nD) : ∀ b, b ∉ Finset.univ.image (Pipeline.arrRef spec0) → X2 m H0 c b = X1 m c b :=
  fun b hb => W2_of_ne m H0 c b fun w e => hb (Finset.mem_image.mpr ⟨w, Finset.mem_univ _, e⟩)
/-- After the stretch that follows region 0. -/
abbrev W3 : Dev nD → Valuation τ sig (Elt F) := fun c => StableHlo.after hostOps1 (W2 m H0 c)
abbrev X3 : Contents F := fun c b => W3 m H0 c b

/-- After region 1: its arrays at what its pipeline leaves, every other buffer as entered. -/
def W4 (c : Dev nD) : Valuation τ sig (Elt F) :=
  Pipeline.withArrays spec1 c (W3 m H0 c) fun w => (H1.dat (X3 m H0) c).arrAt w cfg1.N
theorem W4_arr (c : Dev nD) (w : Fin cfg1.W) :
    W4 m H0 H1 c (Proc.devRef .tc (Pipeline.arrRef spec1 w)) = (H1.dat (X3 m H0) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m H0 H1 c (Proc.devRef .tc b) = W3 m H0 c (Proc.devRef .tc b) := by
  unfold W4; exact Pipeline.withArrays_of_ne spec1 c _ _ b hb
/-- An input array of region 1 holds after the region what it held before. -/
theorem W4_in (c : Dev nD) (w : Fin cfg1.W) (hw : (cfg1.win w).isOut = false) :
    W4 m H0 H1 c (Proc.devRef .tc (Pipeline.arrRef spec1 w)) = W3 m H0 c (Proc.devRef .tc (Pipeline.arrRef spec1 w)) :=
  (W4_arr m H0 H1 c w).trans (((H1.dat (X3 m H0) c).arrAt_in w hw _).trans rfl)
abbrev X4 : Contents F := fun c b => W4 m H0 H1 c b
theorem hF1 (c : Dev nD) (w : Fin cfg1.W) :
    (H1.dat (X3 m H0) c).arrAt w cfg1.N = X4 m H0 H1 c (Pipeline.arrRef spec1 w) := (W4_arr m H0 H1 c w).symm
theorem hrest1 (c : Dev nD) : ∀ b, b ∉ Finset.univ.image (Pipeline.arrRef spec1) → X4 m H0 H1 c b = X3 m H0 c b :=
  fun b hb => W4_of_ne m H0 H1 c b fun w e => hb (Finset.mem_image.mpr ⟨w, Finset.mem_univ _, e⟩)
/-- After the stretch that follows region 1. -/
abbrev W5 : Dev nD → Valuation τ sig (Elt F) := fun c => StableHlo.after hostOps2 (W4 m H0 H1 c)
abbrev X5 : Contents F := fun c b => W5 m H0 H1 c b

/-- After region 2: its arrays at what its pipeline leaves, every other buffer as entered. -/
def W6 (c : Dev nD) : Valuation τ sig (Elt F) :=
  Pipeline.withArrays spec2 c (W5 m H0 H1 c) fun w => (H2.dat (X5 m H0 H1) c).arrAt w cfg2.N
theorem W6_arr (c : Dev nD) (w : Fin cfg2.W) :
    W6 m H0 H1 H2 c (Proc.devRef .tc (Pipeline.arrRef spec2 w)) = (H2.dat (X5 m H0 H1) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m H0 H1 H2 c (Proc.devRef .tc b) = W5 m H0 H1 c (Proc.devRef .tc b) := by
  unfold W6; exact Pipeline.withArrays_of_ne spec2 c _ _ b hb
/-- An input array of region 2 holds after the region what it held before. -/
theorem W6_in (c : Dev nD) (w : Fin cfg2.W) (hw : (cfg2.win w).isOut = false) :
    W6 m H0 H1 H2 c (Proc.devRef .tc (Pipeline.arrRef spec2 w)) = W5 m H0 H1 c (Proc.devRef .tc (Pipeline.arrRef spec2 w)) :=
  (W6_arr m H0 H1 H2 c w).trans (((H2.dat (X5 m H0 H1) c).arrAt_in w hw _).trans rfl)
abbrev X6 : Contents F := fun c b => W6 m H0 H1 H2 c b
theorem hF2 (c : Dev nD) (w : Fin cfg2.W) :
    (H2.dat (X5 m H0 H1) c).arrAt w cfg2.N = X6 m H0 H1 H2 c (Pipeline.arrRef spec2 w) := (W6_arr m H0 H1 H2 c w).symm
theorem hrest2 (c : Dev nD) : ∀ b, b ∉ Finset.univ.image (Pipeline.arrRef spec2) → X6 m H0 H1 H2 c b = X5 m H0 H1 c b :=
  fun b hb => W6_of_ne m H0 H1 H2 c b fun w e => hb (Finset.mem_image.mpr ⟨w, Finset.mem_univ _, e⟩)
/-- After the stretch that follows region 2. -/
abbrev W7 : Dev nD → Valuation τ sig (Elt F) := fun c => StableHlo.after hostOps3 (W6 m H0 H1 H2 c)
abbrev X7 : Contents F := fun c b => W7 m H0 H1 H2 c b

/-- After region 3: its arrays at what its pipeline leaves, every other buffer as entered. -/
def W8 (c : Dev nD) : Valuation τ sig (Elt F) :=
  Pipeline.withArrays spec3 c (W7 m H0 H1 H2 c) fun w => (H3.dat (X7 m H0 H1 H2) c).arrAt w cfg3.N
theorem W8_arr (c : Dev nD) (w : Fin cfg3.W) :
    W8 m H0 H1 H2 H3 c (Proc.devRef .tc (Pipeline.arrRef spec3 w)) = (H3.dat (X7 m H0 H1 H2) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m H0 H1 H2 H3 c (Proc.devRef .tc b) = W7 m H0 H1 H2 c (Proc.devRef .tc b) := by
  unfold W8; exact Pipeline.withArrays_of_ne spec3 c _ _ b hb
/-- An input array of region 3 holds after the region what it held before. -/
theorem W8_in (c : Dev nD) (w : Fin cfg3.W) (hw : (cfg3.win w).isOut = false) :
    W8 m H0 H1 H2 H3 c (Proc.devRef .tc (Pipeline.arrRef spec3 w)) = W7 m H0 H1 H2 c (Proc.devRef .tc (Pipeline.arrRef spec3 w)) :=
  (W8_arr m H0 H1 H2 H3 c w).trans (((H3.dat (X7 m H0 H1 H2) c).arrAt_in w hw _).trans rfl)
abbrev X8 : Contents F := fun c b => W8 m H0 H1 H2 H3 c b
theorem hF3 (c : Dev nD) (w : Fin cfg3.W) :
    (H3.dat (X7 m H0 H1 H2) c).arrAt w cfg3.N = X8 m H0 H1 H2 H3 c (Pipeline.arrRef spec3 w) := (W8_arr m H0 H1 H2 H3 c w).symm
theorem hrest3 (c : Dev nD) : ∀ b, b ∉ Finset.univ.image (Pipeline.arrRef spec3) → X8 m H0 H1 H2 H3 c b = X7 m H0 H1 H2 c b :=
  fun b hb => W8_of_ne m H0 H1 H2 H3 c b fun w e => hb (Finset.mem_image.mpr ⟨w, Finset.mem_univ _, e⟩)
/-- After the stretch that follows region 3. -/
abbrev W9 : Dev nD → Valuation τ sig (Elt F) := fun c => StableHlo.after hostOps4 (W8 m H0 H1 H2 H3 c)
abbrev X9 : Contents F := fun c b => W9 m H0 H1 H2 H3 c b

/-- After region 4: its arrays at what its pipeline leaves, every other buffer as entered. -/
def W10 (c : Dev nD) : Valuation τ sig (Elt F) :=
  Pipeline.withArrays spec4 c (W9 m H0 H1 H2 H3 c) fun w => (H4.dat (X9 m H0 H1 H2 H3) c).arrAt w cfg4.N
theorem W10_arr (c : Dev nD) (w : Fin cfg4.W) :
    W10 m H0 H1 H2 H3 H4 c (Proc.devRef .tc (Pipeline.arrRef spec4 w)) = (H4.dat (X9 m H0 H1 H2 H3) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m H0 H1 H2 H3 H4 c (Proc.devRef .tc b) = W9 m H0 H1 H2 H3 c (Proc.devRef .tc b) := by
  unfold W10; exact Pipeline.withArrays_of_ne spec4 c _ _ b hb
/-- An input array of region 4 holds after the region what it held before. -/
theorem W10_in (c : Dev nD) (w : Fin cfg4.W) (hw : (cfg4.win w).isOut = false) :
    W10 m H0 H1 H2 H3 H4 c (Proc.devRef .tc (Pipeline.arrRef spec4 w)) = W9 m H0 H1 H2 H3 c (Proc.devRef .tc (Pipeline.arrRef spec4 w)) :=
  (W10_arr m H0 H1 H2 H3 H4 c w).trans (((H4.dat (X9 m H0 H1 H2 H3) c).arrAt_in w hw _).trans rfl)
abbrev X10 : Contents F := fun c b => W10 m H0 H1 H2 H3 H4 c b
theorem hF4 (c : Dev nD) (w : Fin cfg4.W) :
    (H4.dat (X9 m H0 H1 H2 H3) c).arrAt w cfg4.N = X10 m H0 H1 H2 H3 H4 c (Pipeline.arrRef spec4 w) := (W10_arr m H0 H1 H2 H3 H4 c w).symm
theorem hrest4 (c : Dev nD) : ∀ b, b ∉ Finset.univ.image (Pipeline.arrRef spec4) → X10 m H0 H1 H2 H3 H4 c b = X9 m H0 H1 H2 H3 c b :=
  fun b hb => W10_of_ne m H0 H1 H2 H3 H4 c b fun w e => hb (Finset.mem_image.mpr ⟨w, Finset.mem_univ _, e⟩)
/-- After the stretch that follows region 4. -/
abbrev W11 : Dev nD → Valuation τ sig (Elt F) := fun c => StableHlo.after hostOps5 (W10 m H0 H1 H2 H3 H4 c)
abbrev X11 : Contents F := fun c b => W11 m H0 H1 H2 H3 H4 c b

/-- After region 5: its arrays at what its pipeline leaves, every other buffer as entered. -/
def W12 (c : Dev nD) : Valuation τ sig (Elt F) :=
  Pipeline.withArrays spec5 c (W11 m H0 H1 H2 H3 H4 c) fun w => (H5.dat (X11 m H0 H1 H2 H3 H4) c).arrAt w cfg5.N
theorem W12_arr (c : Dev nD) (w : Fin cfg5.W) :
    W12 m H0 H1 H2 H3 H4 H5 c (Proc.devRef .tc (Pipeline.arrRef spec5 w)) = (H5.dat (X11 m H0 H1 H2 H3 H4) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m H0 H1 H2 H3 H4 H5 c (Proc.devRef .tc b) = W11 m H0 H1 H2 H3 H4 c (Proc.devRef .tc b) := by
  unfold W12; exact Pipeline.withArrays_of_ne spec5 c _ _ b hb
/-- An input array of region 5 holds after the region what it held before. -/
theorem W12_in (c : Dev nD) (w : Fin cfg5.W) (hw : (cfg5.win w).isOut = false) :
    W12 m H0 H1 H2 H3 H4 H5 c (Proc.devRef .tc (Pipeline.arrRef spec5 w)) = W11 m H0 H1 H2 H3 H4 c (Proc.devRef .tc (Pipeline.arrRef spec5 w)) :=
  (W12_arr m H0 H1 H2 H3 H4 H5 c w).trans (((H5.dat (X11 m H0 H1 H2 H3 H4) c).arrAt_in w hw _).trans rfl)
abbrev X12 : Contents F := fun c b => W12 m H0 H1 H2 H3 H4 H5 c b
theorem hF5 (c : Dev nD) (w : Fin cfg5.W) :
    (H5.dat (X11 m H0 H1 H2 H3 H4) c).arrAt w cfg5.N = X12 m H0 H1 H2 H3 H4 H5 c (Pipeline.arrRef spec5 w) := (W12_arr m H0 H1 H2 H3 H4 H5 c w).symm
theorem hrest5 (c : Dev nD) : ∀ b, b ∉ Finset.univ.image (Pipeline.arrRef spec5) → X12 m H0 H1 H2 H3 H4 H5 c b = X11 m H0 H1 H2 H3 H4 c b :=
  fun b hb => W12_of_ne m H0 H1 H2 H3 H4 H5 c b fun w e => hb (Finset.mem_image.mpr ⟨w, Finset.mem_univ _, e⟩)
/-- After the stretch that follows region 5. -/
abbrev W13 : Dev nD → Valuation τ sig (Elt F) := fun c => StableHlo.after hostOps6 (W12 m H0 H1 H2 H3 H4 H5 c)
abbrev X13 : Contents F := fun c b => W13 m H0 H1 H2 H3 H4 H5 c b

/-- After region 6: its arrays at what its pipeline leaves, every other buffer as entered. -/
def W14 (c : Dev nD) : Valuation τ sig (Elt F) :=
  Pipeline.withArrays spec6 c (W13 m H0 H1 H2 H3 H4 H5 c) fun w => (H6.dat (X13 m H0 H1 H2 H3 H4 H5) c).arrAt w cfg6.N
theorem W14_arr (c : Dev nD) (w : Fin cfg6.W) :
    W14 m H0 H1 H2 H3 H4 H5 H6 c (Proc.devRef .tc (Pipeline.arrRef spec6 w)) = (H6.dat (X13 m H0 H1 H2 H3 H4 H5) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m H0 H1 H2 H3 H4 H5 H6 c (Proc.devRef .tc b) = W13 m H0 H1 H2 H3 H4 H5 c (Proc.devRef .tc b) := by
  unfold W14; exact Pipeline.withArrays_of_ne spec6 c _ _ b hb
/-- An input array of region 6 holds after the region what it held before. -/
theorem W14_in (c : Dev nD) (w : Fin cfg6.W) (hw : (cfg6.win w).isOut = false) :
    W14 m H0 H1 H2 H3 H4 H5 H6 c (Proc.devRef .tc (Pipeline.arrRef spec6 w)) = W13 m H0 H1 H2 H3 H4 H5 c (Proc.devRef .tc (Pipeline.arrRef spec6 w)) :=
  (W14_arr m H0 H1 H2 H3 H4 H5 H6 c w).trans (((H6.dat (X13 m H0 H1 H2 H3 H4 H5) c).arrAt_in w hw _).trans rfl)
abbrev X14 : Contents F := fun c b => W14 m H0 H1 H2 H3 H4 H5 H6 c b
theorem hF6 (c : Dev nD) (w : Fin cfg6.W) :
    (H6.dat (X13 m H0 H1 H2 H3 H4 H5) c).arrAt w cfg6.N = X14 m H0 H1 H2 H3 H4 H5 H6 c (Pipeline.arrRef spec6 w) := (W14_arr m H0 H1 H2 H3 H4 H5 H6 c w).symm
theorem hrest6 (c : Dev nD) : ∀ b, b ∉ Finset.univ.image (Pipeline.arrRef spec6) → X14 m H0 H1 H2 H3 H4 H5 H6 c b = X13 m H0 H1 H2 H3 H4 H5 c b :=
  fun b hb => W14_of_ne m H0 H1 H2 H3 H4 H5 H6 c b fun w e => hb (Finset.mem_image.mpr ⟨w, Finset.mem_univ _, e⟩)
/-- After the stretch that follows region 6. -/
abbrev W15 : Dev nD → Valuation τ sig (Elt F) := fun c => StableHlo.after hostOps7 (W14 m H0 H1 H2 H3 H4 H5 H6 c)
abbrev X15 : Contents F := fun c b => W15 m H0 H1 H2 H3 H4 H5 H6 c b

/-- After region 7: its arrays at what its pipeline leaves, every other buffer as entered. -/
def W16 (c : Dev nD) : Valuation τ sig (Elt F) :=
  Pipeline.withArrays spec7 c (W15 m H0 H1 H2 H3 H4 H5 H6 c) fun w => (H7.dat (X15 m H0 H1 H2 H3 H4 H5 H6) c).arrAt w cfg7.N
theorem W16_arr (c : Dev nD) (w : Fin cfg7.W) :
    W16 m H0 H1 H2 H3 H4 H5 H6 H7 c (Proc.devRef .tc (Pipeline.arrRef spec7 w)) = (H7.dat (X15 m H0 H1 H2 H3 H4 H5 H6) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m H0 H1 H2 H3 H4 H5 H6 H7 c (Proc.devRef .tc b) = W15 m H0 H1 H2 H3 H4 H5 H6 c (Proc.devRef .tc b) := by
  unfold W16; exact Pipeline.withArrays_of_ne spec7 c _ _ b hb
/-- An input array of region 7 holds after the region what it held before. -/
theorem W16_in (c : Dev nD) (w : Fin cfg7.W) (hw : (cfg7.win w).isOut = false) :
    W16 m H0 H1 H2 H3 H4 H5 H6 H7 c (Proc.devRef .tc (Pipeline.arrRef spec7 w)) = W15 m H0 H1 H2 H3 H4 H5 H6 c (Proc.devRef .tc (Pipeline.arrRef spec7 w)) :=
  (W16_arr m H0 H1 H2 H3 H4 H5 H6 H7 c w).trans (((H7.dat (X15 m H0 H1 H2 H3 H4 H5 H6) c).arrAt_in w hw _).trans rfl)
abbrev X16 : Contents F := fun c b => W16 m H0 H1 H2 H3 H4 H5 H6 H7 c b
theorem hF7 (c : Dev nD) (w : Fin cfg7.W) :
    (H7.dat (X15 m H0 H1 H2 H3 H4 H5 H6) c).arrAt w cfg7.N = X16 m H0 H1 H2 H3 H4 H5 H6 H7 c (Pipeline.arrRef spec7 w) := (W16_arr m H0 H1 H2 H3 H4 H5 H6 H7 c w).symm
theorem hrest7 (c : Dev nD) : ∀ b, b ∉ Finset.univ.image (Pipeline.arrRef spec7) → X16 m H0 H1 H2 H3 H4 H5 H6 H7 c b = X15 m H0 H1 H2 H3 H4 H5 H6 c b :=
  fun b hb => W16_of_ne m H0 H1 H2 H3 H4 H5 H6 H7 c b fun w e => hb (Finset.mem_image.mpr ⟨w, Finset.mem_univ _, e⟩)
/-- After the stretch that follows region 7. -/
abbrev W17 : Dev nD → Valuation τ sig (Elt F) := fun c => StableHlo.after hostOps8 (W16 m H0 H1 H2 H3 H4 H5 H6 H7 c)
abbrev X17 : Contents F := fun c b => W17 m H0 H1 H2 H3 H4 H5 H6 H7 c b

/-- After region 8: its arrays at what its pipeline leaves, every other buffer as entered. -/
def W18 (c : Dev nD) : Valuation τ sig (Elt F) :=
  Pipeline.withArrays spec8 c (W17 m H0 H1 H2 H3 H4 H5 H6 H7 c) fun w => (H8.dat (X17 m H0 H1 H2 H3 H4 H5 H6 H7) c).arrAt w cfg8.N
theorem W18_arr (c : Dev nD) (w : Fin cfg8.W) :
    W18 m H0 H1 H2 H3 H4 H5 H6 H7 H8 c (Proc.devRef .tc (Pipeline.arrRef spec8 w)) = (H8.dat (X17 m H0 H1 H2 H3 H4 H5 H6 H7) c).arrAt w cfg8.N := by
  unfold W18; exact Pipeline.withArrays_arr spec8 launch8.win.arr_inj c _ _ w
theorem W18_of_ne (c : Dev nD) (b : Ref sig .tc) (hb : ∀ w, Pipeline.arrRef spec8 w ≠ b) :
    W18 m H0 H1 H2 H3 H4 H5 H6 H7 H8 c (Proc.devRef .tc b) = W17 m H0 H1 H2 H3 H4 H5 H6 H7 c (Proc.devRef .tc b) := by
  unfold W18; exact Pipeline.withArrays_of_ne spec8 c _ _ b hb
/-- An input array of region 8 holds after the region what it held before. -/
theorem W18_in (c : Dev nD) (w : Fin cfg8.W) (hw : (cfg8.win w).isOut = false) :
    W18 m H0 H1 H2 H3 H4 H5 H6 H7 H8 c (Proc.devRef .tc (Pipeline.arrRef spec8 w)) = W17 m H0 H1 H2 H3 H4 H5 H6 H7 c (Proc.devRef .tc (Pipeline.arrRef spec8 w)) :=
  (W18_arr m H0 H1 H2 H3 H4 H5 H6 H7 H8 c w).trans (((H8.dat (X17 m H0 H1 H2 H3 H4 H5 H6 H7) c).arrAt_in w hw _).trans rfl)
abbrev X18 : Contents F := fun c b => W18 m H0 H1 H2 H3 H4 H5 H6 H7 H8 c b
theorem hF8 (c : Dev nD) (w : Fin cfg8.W) :
    (H8.dat (X17 m H0 H1 H2 H3 H4 H5 H6 H7) c).arrAt w cfg8.N = X18 m H0 H1 H2 H3 H4 H5 H6 H7 H8 c (Pipeline.arrRef spec8 w) := (W18_arr m H0 H1 H2 H3 H4 H5 H6 H7 H8 c w).symm
theorem hrest8 (c : Dev nD) : ∀ b, b ∉ Finset.univ.image (Pipeline.arrRef spec8) → X18 m H0 H1 H2 H3 H4 H5 H6 H7 H8 c b = X17 m H0 H1 H2 H3 H4 H5 H6 H7 c b :=
  fun b hb => W18_of_ne m H0 H1 H2 H3 H4 H5 H6 H7 H8 c b fun w e => hb (Finset.mem_image.mpr ⟨w, Finset.mem_univ _, e⟩)
/-- After the stretch that follows region 8. -/
abbrev W19 : Dev nD → Valuation τ sig (Elt F) := fun c => StableHlo.after hostOps9 (W18 m H0 H1 H2 H3 H4 H5 H6 H7 H8 c)
abbrev X19 : Contents F := fun c b => W19 m H0 H1 H2 H3 H4 H5 H6 H7 H8 c b

/-- After region 9: its arrays at what its pipeline leaves, every other buffer as entered. -/
def W20 (c : Dev nD) : Valuation τ sig (Elt F) :=
  Pipeline.withArrays spec9 c (W19 m H0 H1 H2 H3 H4 H5 H6 H7 H8 c) fun w => (H9.dat (X19 m H0 H1 H2 H3 H4 H5 H6 H7 H8) c).arrAt w cfg9.N
theorem W20_arr (c : Dev nD) (w : Fin cfg9.W) :
    W20 m H0 H1 H2 H3 H4 H5 H6 H7 H8 H9 c (Proc.devRef .tc (Pipeline.arrRef spec9 w)) = (H9.dat (X19 m H0 H1 H2 H3 H4 H5 H6 H7 H8) c).arrAt w cfg9.N := by
  unfold W20; exact Pipeline.withArrays_arr spec9 launch9.win.arr_inj c _ _ w
theorem W20_of_ne (c : Dev nD) (b : Ref sig .tc) (hb : ∀ w, Pipeline.arrRef spec9 w ≠ b) :
    W20 m H0 H1 H2 H3 H4 H5 H6 H7 H8 H9 c (Proc.devRef .tc b) = W19 m H0 H1 H2 H3 H4 H5 H6 H7 H8 c (Proc.devRef .tc b) := by
  unfold W20; exact Pipeline.withArrays_of_ne spec9 c _ _ b hb
/-- An input array of region 9 holds after the region what it held before. -/
theorem W20_in (c : Dev nD) (w : Fin cfg9.W) (hw : (cfg9.win w).isOut = false) :
    W20 m H0 H1 H2 H3 H4 H5 H6 H7 H8 H9 c (Proc.devRef .tc (Pipeline.arrRef spec9 w)) = W19 m H0 H1 H2 H3 H4 H5 H6 H7 H8 c (Proc.devRef .tc (Pipeline.arrRef spec9 w)) :=
  (W20_arr m H0 H1 H2 H3 H4 H5 H6 H7 H8 H9 c w).trans (((H9.dat (X19 m H0 H1 H2 H3 H4 H5 H6 H7 H8) c).arrAt_in w hw _).trans rfl)
abbrev X20 : Contents F := fun c b => W20 m H0 H1 H2 H3 H4 H5 H6 H7 H8 H9 c b
theorem hF9 (c : Dev nD) (w : Fin cfg9.W) :
    (H9.dat (X19 m H0 H1 H2 H3 H4 H5 H6 H7 H8) c).arrAt w cfg9.N = X20 m H0 H1 H2 H3 H4 H5 H6 H7 H8 H9 c (Pipeline.arrRef spec9 w) := (W20_arr m H0 H1 H2 H3 H4 H5 H6 H7 H8 H9 c w).symm
theorem hrest9 (c : Dev nD) : ∀ b, b ∉ Finset.univ.image (Pipeline.arrRef spec9) → X20 m H0 H1 H2 H3 H4 H5 H6 H7 H8 H9 c b = X19 m H0 H1 H2 H3 H4 H5 H6 H7 H8 c b :=
  fun b hb => W20_of_ne m H0 H1 H2 H3 H4 H5 H6 H7 H8 H9 c b fun w e => hb (Finset.mem_image.mpr ⟨w, Finset.mem_univ _, e⟩)
/-- After the stretch that follows region 9. -/
abbrev W21 : Dev nD → Valuation τ sig (Elt F) := fun c => StableHlo.after hostOps10 (W20 m H0 H1 H2 H3 H4 H5 H6 H7 H8 H9 c)
abbrev X21 : Contents F := fun c b => W21 m H0 H1 H2 H3 H4 H5 H6 H7 H8 H9 c b

/-- After region 10: its arrays at what its pipeline leaves, every other buffer as entered. -/
def W22 (c : Dev nD) : Valuation τ sig (Elt F) :=
  Pipeline.withArrays spec10 c (W21 m H0 H1 H2 H3 H4 H5 H6 H7 H8 H9 c) fun w => (H10.dat (X21 m H0 H1 H2 H3 H4 H5 H6 H7 H8 H9) c).arrAt w cfg10.N
theorem W22_arr (c : Dev nD) (w : Fin cfg10.W) :
    W22 m H0 H1 H2 H3 H4 H5 H6 H7 H8 H9 H10 c (Proc.devRef .tc (Pipeline.arrRef spec10 w)) = (H10.dat (X21 m H0 H1 H2 H3 H4 H5 H6 H7 H8 H9) c).arrAt w cfg10.N := by
  unfold W22; exact Pipeline.withArrays_arr spec10 launch10.win.arr_inj c _ _ w
theorem W22_of_ne (c : Dev nD) (b : Ref sig .tc) (hb : ∀ w, Pipeline.arrRef spec10 w ≠ b) :
    W22 m H0 H1 H2 H3 H4 H5 H6 H7 H8 H9 H10 c (Proc.devRef .tc b) = W21 m H0 H1 H2 H3 H4 H5 H6 H7 H8 H9 c (Proc.devRef .tc b) := by
  unfold W22; exact Pipeline.withArrays_of_ne spec10 c _ _ b hb
/-- An input array of region 10 holds after the region what it held before. -/
theorem W22_in (c : Dev nD) (w : Fin cfg10.W) (hw : (cfg10.win w).isOut = false) :
    W22 m H0 H1 H2 H3 H4 H5 H6 H7 H8 H9 H10 c (Proc.devRef .tc (Pipeline.arrRef spec10 w)) = W21 m H0 H1 H2 H3 H4 H5 H6 H7 H8 H9 c (Proc.devRef .tc (Pipeline.arrRef spec10 w)) :=
  (W22_arr m H0 H1 H2 H3 H4 H5 H6 H7 H8 H9 H10 c w).trans (((H10.dat (X21 m H0 H1 H2 H3 H4 H5 H6 H7 H8 H9) c).arrAt_in w hw _).trans rfl)
abbrev X22 : Contents F := fun c b => W22 m H0 H1 H2 H3 H4 H5 H6 H7 H8 H9 H10 c b
theorem hF10 (c : Dev nD) (w : Fin cfg10.W) :
    (H10.dat (X21 m H0 H1 H2 H3 H4 H5 H6 H7 H8 H9) c).arrAt w cfg10.N = X22 m H0 H1 H2 H3 H4 H5 H6 H7 H8 H9 H10 c (Pipeline.arrRef spec10 w) := (W22_arr m H0 H1 H2 H3 H4 H5 H6 H7 H8 H9 H10 c w).symm
theorem hrest10 (c : Dev nD) : ∀ b, b ∉ Finset.univ.image (Pipeline.arrRef spec10) → X22 m H0 H1 H2 H3 H4 H5 H6 H7 H8 H9 H10 c b = X21 m H0 H1 H2 H3 H4 H5 H6 H7 H8 H9 c b :=
  fun b hb => W22_of_ne m H0 H1 H2 H3 H4 H5 H6 H7 H8 H9 H10 c b fun w e => hb (Finset.mem_image.mpr ⟨w, Finset.mem_univ _, e⟩)
/-- After the stretch that follows region 10. -/
abbrev W23 : Dev nD → Valuation τ sig (Elt F) := fun c => StableHlo.after hostOps11 (W22 m H0 H1 H2 H3 H4 H5 H6 H7 H8 H9 H10 c)
abbrev X23 : Contents F := fun c b => W23 m H0 H1 H2 H3 H4 H5 H6 H7 H8 H9 H10 c b

/-- After region 11: its arrays at what its pipeline leaves, every other buffer as entered. -/
def W24 (c : Dev nD) : Valuation τ sig (Elt F) :=
  Pipeline.withArrays spec11 c (W23 m H0 H1 H2 H3 H4 H5 H6 H7 H8 H9 H10 c) fun w => (H11.dat (X23 m H0 H1 H2 H3 H4 H5 H6 H7 H8 H9 H10) c).arrAt w cfg11.N
theorem W24_arr (c : Dev nD) (w : Fin cfg11.W) :
    W24 m H0 H1 H2 H3 H4 H5 H6 H7 H8 H9 H10 H11 c (Proc.devRef .tc (Pipeline.arrRef spec11 w)) = (H11.dat (X23 m H0 H1 H2 H3 H4 H5 H6 H7 H8 H9 H10) c).arrAt w cfg11.N := by
  unfold W24; exact Pipeline.withArrays_arr spec11 launch11.win.arr_inj c _ _ w
theorem W24_of_ne (c : Dev nD) (b : Ref sig .tc) (hb : ∀ w, Pipeline.arrRef spec11 w ≠ b) :
    W24 m H0 H1 H2 H3 H4 H5 H6 H7 H8 H9 H10 H11 c (Proc.devRef .tc b) = W23 m H0 H1 H2 H3 H4 H5 H6 H7 H8 H9 H10 c (Proc.devRef .tc b) := by
  unfold W24; exact Pipeline.withArrays_of_ne spec11 c _ _ b hb
/-- An input array of region 11 holds after the region what it held before. -/
theorem W24_in (c : Dev nD) (w : Fin cfg11.W) (hw : (cfg11.win w).isOut = false) :
    W24 m H0 H1 H2 H3 H4 H5 H6 H7 H8 H9 H10 H11 c (Proc.devRef .tc (Pipeline.arrRef spec11 w)) = W23 m H0 H1 H2 H3 H4 H5 H6 H7 H8 H9 H10 c (Proc.devRef .tc (Pipeline.arrRef spec11 w)) :=
  (W24_arr m H0 H1 H2 H3 H4 H5 H6 H7 H8 H9 H10 H11 c w).trans (((H11.dat (X23 m H0 H1 H2 H3 H4 H5 H6 H7 H8 H9 H10) c).arrAt_in w hw _).trans rfl)
abbrev X24 : Contents F := fun c b => W24 m H0 H1 H2 H3 H4 H5 H6 H7 H8 H9 H10 H11 c b
theorem hF11 (c : Dev nD) (w : Fin cfg11.W) :
    (H11.dat (X23 m H0 H1 H2 H3 H4 H5 H6 H7 H8 H9 H10) c).arrAt w cfg11.N = X24 m H0 H1 H2 H3 H4 H5 H6 H7 H8 H9 H10 H11 c (Pipeline.arrRef spec11 w) := (W24_arr m H0 H1 H2 H3 H4 H5 H6 H7 H8 H9 H10 H11 c w).symm
theorem hrest11 (c : Dev nD) : ∀ b, b ∉ Finset.univ.image (Pipeline.arrRef spec11) → X24 m H0 H1 H2 H3 H4 H5 H6 H7 H8 H9 H10 H11 c b = X23 m H0 H1 H2 H3 H4 H5 H6 H7 H8 H9 H10 c b :=
  fun b hb => W24_of_ne m H0 H1 H2 H3 H4 H5 H6 H7 H8 H9 H10 H11 c b fun w e => hb (Finset.mem_image.mpr ⟨w, Finset.mem_univ _, e⟩)
/-- After the stretch that follows region 11. -/
abbrev W25 : Dev nD → Valuation τ sig (Elt F) := fun c => StableHlo.after hostOps12 (W24 m H0 H1 H2 H3 H4 H5 H6 H7 H8 H9 H10 H11 c)
abbrev X25 : Contents F := fun c b => W25 m H0 H1 H2 H3 H4 H5 H6 H7 H8 H9 H10 H11 c b

/-! ## What the regions leave, and the generated valuations -/

/-- What a region may leave in a buffer it may change: the chain's contents after the region. -/
def outs : Gen.Outs (F := F) := fun J r c =>
  match J with
  | 2 => W2 m H0 c r
  | 4 => W4 m H0 H1 c r
  | 6 => W6 m H0 H1 H2 c r
  | 8 => W8 m H0 H1 H2 H3 c r
  | 10 => W10 m H0 H1 H2 H3 H4 c r
  | 12 => W12 m H0 H1 H2 H3 H4 H5 c r
  | 14 => W14 m H0 H1 H2 H3 H4 H5 H6 c r
  | 16 => W16 m H0 H1 H2 H3 H4 H5 H6 H7 c r
  | 18 => W18 m H0 H1 H2 H3 H4 H5 H6 H7 H8 c r
  | 20 => W20 m H0 H1 H2 H3 H4 H5 H6 H7 H8 H9 c r
  | 22 => W22 m H0 H1 H2 H3 H4 H5 H6 H7 H8 H9 H10 c r
  | 24 => W24 m H0 H1 H2 H3 H4 H5 H6 H7 H8 H9 H10 H11 c r
  | _ => W0 m c r

theorem V1_eq (c : Dev nD) : Gen.V1 m c = W1 m c := rfl

set_option maxHeartbeats 1000000 in
/-- The generated valuation after region 0 is the chain's. -/
theorem V2_eq (c : Dev nD) : Gen.V2 m (outs m H0 H1 H2 H3 H4 H5 H6 H7 H8 H9 H10 H11) c = W2 m H0 c := by
  funext b
  show (Function.update (Gen.V1 m c) (Proc.devRef .tc main_v5) (outs m H0 H1 H2 H3 H4 H5 H6 H7 H8 H9 H10 H11 2 main_v5 c)) b = _
  rw [V1_eq m c]
  by_cases hb : ∃ w, Proc.devRef .tc (Pipeline.arrRef spec0 w) = b
  · obtain ⟨w, rfl⟩ := hb
    fin_cases w
    · -- window 0: the input array main_arg1
      rw [Function.update_of_ne (StableHlo.devRef_ne_of_ne (by decide))]
      exact (W2_in m H0 c ⟨0, by decide⟩ rfl).symm
    · -- window 1: the input array main_arg5
      rw [Function.update_of_ne (StableHlo.devRef_ne_of_ne (by decide))]
      exact (W2_in m H0 c ⟨1, by decide⟩ rfl).symm
    · -- window 2: the input array main_v4
      rw [Function.update_of_ne (StableHlo.devRef_ne_of_ne (by decide))]
      exact (W2_in m H0 c ⟨2, by decide⟩ rfl).symm
    · -- window 3: the output array main_v5
      rw [Function.update_self]
      rfl
  · rw [Function.update_of_ne (fun h => hb ⟨⟨3, by decide⟩, h.symm⟩)]
    exact (withArrays_other spec0 c _ _ b hb).symm
theorem V3_eq (c : Dev nD) : Gen.V3 m (outs m H0 H1 H2 H3 H4 H5 H6 H7 H8 H9 H10 H11) c = W3 m H0 c := by
  show StableHlo.after hostOps1 (Gen.V2 m (outs m H0 H1 H2 H3 H4 H5 H6 H7 H8 H9 H10 H11) c) = _
  rw [V2_eq m H0 H1 H2 H3 H4 H5 H6 H7 H8 H9 H10 H11 c]

set_option maxHeartbeats 1000000 in
/-- The generated valuation after region 1 is the chain's. -/
theorem V4_eq (c : Dev nD) : Gen.V4 m (outs m H0 H1 H2 H3 H4 H5 H6 H7 H8 H9 H10 H11) c = W4 m H0 H1 c := by
  funext b
  show (Function.update (Gen.V3 m (outs m H0 H1 H2 H3 H4 H5 H6 H7 H8 H9 H10 H11) c) (Proc.devRef .tc main_v24) (outs m H0 H1 H2 H3 H4 H5 H6 H7 H8 H9 H10 H11 4 main_v24 c)) b = _
  rw [V3_eq m H0 H1 H2 H3 H4 H5 H6 H7 H8 H9 H10 H11 c]
  by_cases hb : ∃ w, Proc.devRef .tc (Pipeline.arrRef spec1 w) = b
  · obtain ⟨w, rfl⟩ := hb
    fin_cases w
    · -- window 0: the input array main_v22
      rw [Function.update_of_ne (StableHlo.devRef_ne_of_ne (by decide))]
      exact (W4_in m H0 H1 c ⟨0, by decide⟩ rfl).symm
    · -- window 1: the input array main_arg7
      rw [Function.update_of_ne (StableHlo.devRef_ne_of_ne (by decide))]
      exact (W4_in m H0 H1 c ⟨1, by decide⟩ rfl).symm
    · -- window 2: the input array main_v16
      rw [Function.update_of_ne (StableHlo.devRef_ne_of_ne (by decide))]
      exact (W4_in m H0 H1 c ⟨2, by decide⟩ rfl).symm
    · -- window 3: the input array main_v23
      rw [Function.update_of_ne (StableHlo.devRef_ne_of_ne (by decide))]
      exact (W4_in m H0 H1 c ⟨3, by decide⟩ rfl).symm
    · -- window 4: the input array main_v12
      rw [Function.update_of_ne (StableHlo.devRef_ne_of_ne (by decide))]
      exact (W4_in m H0 H1 c ⟨4, by decide⟩ rfl).symm
    · -- window 5: the output array main_v24
      rw [Function.update_self]
      rfl
  · rw [Function.update_of_ne (fun h => hb ⟨⟨5, by decide⟩, h.symm⟩)]
    exact (withArrays_other spec1 c _ _ b hb).symm
theorem V5_eq (c : Dev nD) : Gen.V5 m (outs m H0 H1 H2 H3 H4 H5 H6 H7 H8 H9 H10 H11) c = W5 m H0 H1 c := by
  show StableHlo.after hostOps2 (Gen.V4 m (outs m H0 H1 H2 H3 H4 H5 H6 H7 H8 H9 H10 H11) c) = _
  rw [V4_eq m H0 H1 H2 H3 H4 H5 H6 H7 H8 H9 H10 H11 c]

set_option maxHeartbeats 1000000 in
/-- The generated valuation after region 2 is the chain's. -/
theorem V6_eq (c : Dev nD) : Gen.V6 m (outs m H0 H1 H2 H3 H4 H5 H6 H7 H8 H9 H10 H11) c = W6 m H0 H1 H2 c := by
  funext b
  show (Function.update (Function.update (Function.update (Gen.V5 m (outs m H0 H1 H2 H3 H4 H5 H6 H7 H8 H9 H10 H11) c) (Proc.devRef .tc main_v49_0) (outs m H0 H1 H2 H3 H4 H5 H6 H7 H8 H9 H10 H11 6 main_v49_0 c)) (Proc.devRef .tc main_v49_1) (outs m H0 H1 H2 H3 H4 H5 H6 H7 H8 H9 H10 H11 6 main_v49_1 c)) (Proc.devRef .tc main_v49_2) (outs m H0 H1 H2 H3 H4 H5 H6 H7 H8 H9 H10 H11 6 main_v49_2 c)) b = _
  rw [V5_eq m H0 H1 H2 H3 H4 H5 H6 H7 H8 H9 H10 H11 c]
  by_cases hb : ∃ w, Proc.devRef .tc (Pipeline.arrRef spec2 w) = b
  · obtain ⟨w, rfl⟩ := hb
    fin_cases w
    · -- window 0: the input array main_v41
      rw [Function.update_of_ne (StableHlo.devRef_ne_of_ne (by decide)), Function.update_of_ne (StableHlo.devRef_ne_of_ne (by decide)), Function.update_of_ne (StableHlo.devRef_ne_of_ne (by decide))]
      exact (W6_in m H0 H1 H2 c ⟨0, by decide⟩ rfl).symm
    · -- window 1: the input array main_v5
      rw [Function.update_of_ne (StableHlo.devRef_ne_of_ne (by decide)), Function.update_of_ne (StableHlo.devRef_ne_of_ne (by decide)), Function.update_of_ne (StableHlo.devRef_ne_of_ne (by decide))]
      exact (W6_in m H0 H1 H2 c ⟨1, by decide⟩ rfl).symm
    · -- window 2: the input array main_v43
      rw [Function.update_of_ne (StableHlo.devRef_ne_of_ne (by decide)), Function.update_of_ne (StableHlo.devRef_ne_of_ne (by decide)), Function.update_of_ne (StableHlo.devRef_ne_of_ne (by decide))]
      exact (W6_in m H0 H1 H2 c ⟨2, by decide⟩ rfl).symm
    · -- window 3: the input array main_v45
      rw [Function.update_of_ne (StableHlo.devRef_ne_of_ne (by decide)), Function.update_of_ne (StableHlo.devRef_ne_of_ne (by decide)), Function.update_of_ne (StableHlo.devRef_ne_of_ne (by decide))]
      exact (W6_in m H0 H1 H2 c ⟨3, by decide⟩ rfl).symm
    · -- window 4: the input array main_v48
      rw [Function.update_of_ne (StableHlo.devRef_ne_of_ne (by decide)), Function.update_of_ne (StableHlo.devRef_ne_of_ne (by decide)), Function.update_of_ne (StableHlo.devRef_ne_of_ne (by decide))]
      exact (W6_in m H0 H1 H2 c ⟨4, by decide⟩ rfl).symm
    · -- window 5: the output array main_v49_0
      rw [Function.update_of_ne (StableHlo.devRef_ne_of_ne (by decide)), Function.update_of_ne (StableHlo.devRef_ne_of_ne (by decide)), Function.update_self]
      rfl
    · -- window 6: the output array main_v49_1
      rw [Function.update_of_ne (StableHlo.devRef_ne_of_ne (by decide)), Function.update_self]
      rfl
    · -- window 7: the output array main_v49_2
      rw [Function.update_self]
      rfl
  · rw [Function.update_of_ne (fun h => hb ⟨⟨7, by decide⟩, h.symm⟩), Function.update_of_ne (fun h => hb ⟨⟨6, by decide⟩, h.symm⟩), Function.update_of_ne (fun h => hb ⟨⟨5, by decide⟩, h.symm⟩)]
    exact (withArrays_other spec2 c _ _ b hb).symm
theorem V7_eq (c : Dev nD) : Gen.V7 m (outs m H0 H1 H2 H3 H4 H5 H6 H7 H8 H9 H10 H11) c = W7 m H0 H1 H2 c := by
  show StableHlo.after hostOps3 (Gen.V6 m (outs m H0 H1 H2 H3 H4 H5 H6 H7 H8 H9 H10 H11) c) = _
  rw [V6_eq m H0 H1 H2 H3 H4 H5 H6 H7 H8 H9 H10 H11 c]

set_option maxHeartbeats 1000000 in
/-- The generated valuation after region 3 is the chain's. -/
theorem V8_eq (c : Dev nD) : Gen.V8 m (outs m H0 H1 H2 H3 H4 H5 H6 H7 H8 H9 H10 H11) c = W8 m H0 H1 H2 H3 c := by
  funext b
  show (Function.update (Function.update (Gen.V7 m (outs m H0 H1 H2 H3 H4 H5 H6 H7 H8 H9 H10 H11) c) (Proc.devRef .tc main_v62_0) (outs m H0 H1 H2 H3 H4 H5 H6 H7 H8 H9 H10 H11 8 main_v62_0 c)) (Proc.devRef .tc main_v62_1) (outs m H0 H1 H2 H3 H4 H5 H6 H7 H8 H9 H10 H11 8 main_v62_1 c)) b = _
  rw [V7_eq m H0 H1 H2 H3 H4 H5 H6 H7 H8 H9 H10 H11 c]
  by_cases hb : ∃ w, Proc.devRef .tc (Pipeline.arrRef spec3 w) = b
  · obtain ⟨w, rfl⟩ := hb
    fin_cases w
    · -- window 0: the input array main_v49_0
      rw [Function.update_of_ne (StableHlo.devRef_ne_of_ne (by decide)), Function.update_of_ne (StableHlo.devRef_ne_of_ne (by decide))]
      exact (W8_in m H0 H1 H2 H3 c ⟨0, by decide⟩ rfl).symm
    · -- window 1: the input array main_v51
      rw [Function.update_of_ne (StableHlo.devRef_ne_of_ne (by decide)), Function.update_of_ne (StableHlo.devRef_ne_of_ne (by decide))]
      exact (W8_in m H0 H1 H2 H3 c ⟨1, by decide⟩ rfl).symm
    · -- window 2: the input array main_v55
      rw [Function.update_of_ne (StableHlo.devRef_ne_of_ne (by decide)), Function.update_of_ne (StableHlo.devRef_ne_of_ne (by decide))]
      exact (W8_in m H0 H1 H2 H3 c ⟨2, by decide⟩ rfl).symm
    · -- window 3: the input array main_v60
      rw [Function.update_of_ne (StableHlo.devRef_ne_of_ne (by decide)), Function.update_of_ne (StableHlo.devRef_ne_of_ne (by decide))]
      exact (W8_in m H0 H1 H2 H3 c ⟨3, by decide⟩ rfl).symm
    · -- window 4: the input array main_v61
      rw [Function.update_of_ne (StableHlo.devRef_ne_of_ne (by decide)), Function.update_of_ne (StableHlo.devRef_ne_of_ne (by decide))]
      exact (W8_in m H0 H1 H2 H3 c ⟨4, by decide⟩ rfl).symm
    · -- window 5: the input array main_v25
      rw [Function.update_of_ne (StableHlo.devRef_ne_of_ne (by decide)), Function.update_of_ne (StableHlo.devRef_ne_of_ne (by decide))]
      exact (W8_in m H0 H1 H2 H3 c ⟨5, by decide⟩ rfl).symm
    · -- window 6: the output array main_v62_0
      rw [Function.update_of_ne (StableHlo.devRef_ne_of_ne (by decide)), Function.update_self]
      rfl
    · -- window 7: the output array main_v62_1
      rw [Function.update_self]
      rfl
  · rw [Function.update_of_ne (fun h => hb ⟨⟨7, by decide⟩, h.symm⟩), Function.update_of_ne (fun h => hb ⟨⟨6, by decide⟩, h.symm⟩)]
    exact (withArrays_other spec3 c _ _ b hb).symm
theorem V9_eq (c : Dev nD) : Gen.V9 m (outs m H0 H1 H2 H3 H4 H5 H6 H7 H8 H9 H10 H11) c = W9 m H0 H1 H2 H3 c := by
  show StableHlo.after hostOps4 (Gen.V8 m (outs m H0 H1 H2 H3 H4 H5 H6 H7 H8 H9 H10 H11) c) = _
  rw [V8_eq m H0 H1 H2 H3 H4 H5 H6 H7 H8 H9 H10 H11 c]

set_option maxHeartbeats 1000000 in
/-- The generated valuation after region 4 is the chain's. -/
theorem V10_eq (c : Dev nD) : Gen.V10 m (outs m H0 H1 H2 H3 H4 H5 H6 H7 H8 H9 H10 H11) c = W10 m H0 H1 H2 H3 H4 c := by
  funext b
  show (Function.update (Function.update (Function.update (Gen.V9 m (outs m H0 H1 H2 H3 H4 H5 H6 H7 H8 H9 H10 H11) c) (Proc.devRef .tc main_v86_0) (outs m H0 H1 H2 H3 H4 H5 H6 H7 H8 H9 H10 H11 10 main_v86_0 c)) (Proc.devRef .tc main_v86_1) (outs m H0 H1 H2 H3 H4 H5 H6 H7 H8 H9 H10 H11 10 main_v86_1 c)) (Proc.devRef .tc main_v86_2) (outs m H0 H1 H2 H3 H4 H5 H6 H7 H8 H9 H10 H11 10 main_v86_2 c)) b = _
  rw [V9_eq m H0 H1 H2 H3 H4 H5 H6 H7 H8 H9 H10 H11 c]
  by_cases hb : ∃ w, Proc.devRef .tc (Pipeline.arrRef spec4 w) = b
  · obtain ⟨w, rfl⟩ := hb
    fin_cases w
    · -- window 0: the input array main_v78
      rw [Function.update_of_ne (StableHlo.devRef_ne_of_ne (by decide)), Function.update_of_ne (StableHlo.devRef_ne_of_ne (by decide)), Function.update_of_ne (StableHlo.devRef_ne_of_ne (by decide))]
      exact (W10_in m H0 H1 H2 H3 H4 c ⟨0, by decide⟩ rfl).symm
    · -- window 1: the input array main_v62_0
      rw [Function.update_of_ne (StableHlo.devRef_ne_of_ne (by decide)), Function.update_of_ne (StableHlo.devRef_ne_of_ne (by decide)), Function.update_of_ne (StableHlo.devRef_ne_of_ne (by decide))]
      exact (W10_in m H0 H1 H2 H3 H4 c ⟨1, by decide⟩ rfl).symm
    · -- window 2: the input array main_v80
      rw [Function.update_of_ne (StableHlo.devRef_ne_of_ne (by decide)), Function.update_of_ne (StableHlo.devRef_ne_of_ne (by decide)), Function.update_of_ne (StableHlo.devRef_ne_of_ne (by decide))]
      exact (W10_in m H0 H1 H2 H3 H4 c ⟨2, by decide⟩ rfl).symm
    · -- window 3: the input array main_v82
      rw [Function.update_of_ne (StableHlo.devRef_ne_of_ne (by decide)), Function.update_of_ne (StableHlo.devRef_ne_of_ne (by decide)), Function.update_of_ne (StableHlo.devRef_ne_of_ne (by decide))]
      exact (W10_in m H0 H1 H2 H3 H4 c ⟨3, by decide⟩ rfl).symm
    · -- window 4: the input array main_v85
      rw [Function.update_of_ne (StableHlo.devRef_ne_of_ne (by decide)), Function.update_of_ne (StableHlo.devRef_ne_of_ne (by decide)), Function.update_of_ne (StableHlo.devRef_ne_of_ne (by decide))]
      exact (W10_in m H0 H1 H2 H3 H4 c ⟨4, by decide⟩ rfl).symm
    · -- window 5: the output array main_v86_0
      rw [Function.update_of_ne (StableHlo.devRef_ne_of_ne (by decide)), Function.update_of_ne (StableHlo.devRef_ne_of_ne (by decide)), Function.update_self]
      rfl
    · -- window 6: the output array main_v86_1
      rw [Function.update_of_ne (StableHlo.devRef_ne_of_ne (by decide)), Function.update_self]
      rfl
    · -- window 7: the output array main_v86_2
      rw [Function.update_self]
      rfl
  · rw [Function.update_of_ne (fun h => hb ⟨⟨7, by decide⟩, h.symm⟩), Function.update_of_ne (fun h => hb ⟨⟨6, by decide⟩, h.symm⟩), Function.update_of_ne (fun h => hb ⟨⟨5, by decide⟩, h.symm⟩)]
    exact (withArrays_other spec4 c _ _ b hb).symm
theorem V11_eq (c : Dev nD) : Gen.V11 m (outs m H0 H1 H2 H3 H4 H5 H6 H7 H8 H9 H10 H11) c = W11 m H0 H1 H2 H3 H4 c := by
  show StableHlo.after hostOps5 (Gen.V10 m (outs m H0 H1 H2 H3 H4 H5 H6 H7 H8 H9 H10 H11) c) = _
  rw [V10_eq m H0 H1 H2 H3 H4 H5 H6 H7 H8 H9 H10 H11 c]

set_option maxHeartbeats 1000000 in
/-- The generated valuation after region 5 is the chain's. -/
theorem V12_eq (c : Dev nD) : Gen.V12 m (outs m H0 H1 H2 H3 H4 H5 H6 H7 H8 H9 H10 H11) c = W12 m H0 H1 H2 H3 H4 H5 c := by
  funext b
  show (Function.update (Function.update (Gen.V11 m (outs m H0 H1 H2 H3 H4 H5 H6 H7 H8 H9 H10 H11) c) (Proc.devRef .tc main_v99_0) (outs m H0 H1 H2 H3 H4 H5 H6 H7 H8 H9 H10 H11 12 main_v99_0 c)) (Proc.devRef .tc main_v99_1) (outs m H0 H1 H2 H3 H4 H5 H6 H7 H8 H9 H10 H11 12 main_v99_1 c)) b = _
  rw [V11_eq m H0 H1 H2 H3 H4 H5 H6 H7 H8 H9 H10 H11 c]
  by_cases hb : ∃ w, Proc.devRef .tc (Pipeline.arrRef spec5 w) = b
  · obtain ⟨w, rfl⟩ := hb
    fin_cases w
    · -- window 0: the input array main_v86_0
      rw [Function.update_of_ne (StableHlo.devRef_ne_of_ne (by decide)), Function.update_of_ne (StableHlo.devRef_ne_of_ne (by decide))]
      exact (W12_in m H0 H1 H2 H3 H4 H5 c ⟨0, by decide⟩ rfl).symm
    · -- window 1: the input array main_v88
      rw [Function.update_of_ne (StableHlo.devRef_ne_of_ne (by decide)), Function.update_of_ne (StableHlo.devRef_ne_of_ne (by decide))]
      exact (W12_in m H0 H1 H2 H3 H4 H5 c ⟨1, by decide⟩ rfl).symm
    · -- window 2: the input array main_v92
      rw [Function.update_of_ne (StableHlo.devRef_ne_of_ne (by decide)), Function.update_of_ne (StableHlo.devRef_ne_of_ne (by decide))]
      exact (W12_in m H0 H1 H2 H3 H4 H5 c ⟨2, by decide⟩ rfl).symm
    · -- window 3: the input array main_v97
      rw [Function.update_of_ne (StableHlo.devRef_ne_of_ne (by decide)), Function.update_of_ne (StableHlo.devRef_ne_of_ne (by decide))]
      exact (W12_in m H0 H1 H2 H3 H4 H5 c ⟨3, by decide⟩ rfl).symm
    · -- window 4: the input array main_v98
      rw [Function.update_of_ne (StableHlo.devRef_ne_of_ne (by decide)), Function.update_of_ne (StableHlo.devRef_ne_of_ne (by decide))]
      exact (W12_in m H0 H1 H2 H3 H4 H5 c ⟨4, by decide⟩ rfl).symm
    · -- window 5: the input array main_v25
      rw [Function.update_of_ne (StableHlo.devRef_ne_of_ne (by decide)), Function.update_of_ne (StableHlo.devRef_ne_of_ne (by decide))]
      exact (W12_in m H0 H1 H2 H3 H4 H5 c ⟨5, by decide⟩ rfl).symm
    · -- window 6: the output array main_v99_0
      rw [Function.update_of_ne (StableHlo.devRef_ne_of_ne (by decide)), Function.update_self]
      rfl
    · -- window 7: the output array main_v99_1
      rw [Function.update_self]
      rfl
  · rw [Function.update_of_ne (fun h => hb ⟨⟨7, by decide⟩, h.symm⟩), Function.update_of_ne (fun h => hb ⟨⟨6, by decide⟩, h.symm⟩)]
    exact (withArrays_other spec5 c _ _ b hb).symm
theorem V13_eq (c : Dev nD) : Gen.V13 m (outs m H0 H1 H2 H3 H4 H5 H6 H7 H8 H9 H10 H11) c = W13 m H0 H1 H2 H3 H4 H5 c := by
  show StableHlo.after hostOps6 (Gen.V12 m (outs m H0 H1 H2 H3 H4 H5 H6 H7 H8 H9 H10 H11) c) = _
  rw [V12_eq m H0 H1 H2 H3 H4 H5 H6 H7 H8 H9 H10 H11 c]

set_option maxHeartbeats 1000000 in
/-- The generated valuation after region 6 is the chain's. -/
theorem V14_eq (c : Dev nD) : Gen.V14 m (outs m H0 H1 H2 H3 H4 H5 H6 H7 H8 H9 H10 H11) c = W14 m H0 H1 H2 H3 H4 H5 H6 c := by
  funext b
  show (Function.update (Function.update (Function.update (Gen.V13 m (outs m H0 H1 H2 H3 H4 H5 H6 H7 H8 H9 H10 H11) c) (Proc.devRef .tc main_v123_0) (outs m H0 H1 H2 H3 H4 H5 H6 H7 H8 H9 H10 H11 14 main_v123_0 c)) (Proc.devRef .tc main_v123_1) (outs m H0 H1 H2 H3 H4 H5 H6 H7 H8 H9 H10 H11 14 main_v123_1 c)) (Proc.devRef .tc main_v123_2) (outs m H0 H1 H2 H3 H4 H5 H6 H7 H8 H9 H10 H11 14 main_v123_2 c)) b = _
  rw [V13_eq m H0 H1 H2 H3 H4 H5 H6 H7 H8 H9 H10 H11 c]
  by_cases hb : ∃ w, Proc.devRef .tc (Pipeline.arrRef spec6 w) = b
  · obtain ⟨w, rfl⟩ := hb
    fin_cases w
    · -- window 0: the input array main_v115
      rw [Function.update_of_ne (StableHlo.devRef_ne_of_ne (by decide)), Function.update_of_ne (StableHlo.devRef_ne_of_ne (by decide)), Function.update_of_ne (StableHlo.devRef_ne_of_ne (by decide))]
      exact (W14_in m H0 H1 H2 H3 H4 H5 H6 c ⟨0, by decide⟩ rfl).symm
    · -- window 1: the input array main_v99_0
      rw [Function.update_of_ne (StableHlo.devRef_ne_of_ne (by decide)), Function.update_of_ne (StableHlo.devRef_ne_of_ne (by decide)), Function.update_of_ne (StableHlo.devRef_ne_of_ne (by decide))]
      exact (W14_in m H0 H1 H2 H3 H4 H5 H6 c ⟨1, by decide⟩ rfl).symm
    · -- window 2: the input array main_v117
      rw [Function.update_of_ne (StableHlo.devRef_ne_of_ne (by decide)), Function.update_of_ne (StableHlo.devRef_ne_of_ne (by decide)), Function.update_of_ne (StableHlo.devRef_ne_of_ne (by decide))]
      exact (W14_in m H0 H1 H2 H3 H4 H5 H6 c ⟨2, by decide⟩ rfl).symm
    · -- window 3: the input array main_v119
      rw [Function.update_of_ne (StableHlo.devRef_ne_of_ne (by decide)), Function.update_of_ne (StableHlo.devRef_ne_of_ne (by decide)), Function.update_of_ne (StableHlo.devRef_ne_of_ne (by decide))]
      exact (W14_in m H0 H1 H2 H3 H4 H5 H6 c ⟨3, by decide⟩ rfl).symm
    · -- window 4: the input array main_v122
      rw [Function.update_of_ne (StableHlo.devRef_ne_of_ne (by decide)), Function.update_of_ne (StableHlo.devRef_ne_of_ne (by decide)), Function.update_of_ne (StableHlo.devRef_ne_of_ne (by decide))]
      exact (W14_in m H0 H1 H2 H3 H4 H5 H6 c ⟨4, by decide⟩ rfl).symm
    · -- window 5: the output array main_v123_0
      rw [Function.update_of_ne (StableHlo.devRef_ne_of_ne (by decide)), Function.update_of_ne (StableHlo.devRef_ne_of_ne (by decide)), Function.update_self]
      rfl
    · -- window 6: the output array main_v123_1
      rw [Function.update_of_ne (StableHlo.devRef_ne_of_ne (by decide)), Function.update_self]
      rfl
    · -- window 7: the output array main_v123_2
      rw [Function.update_self]
      rfl
  · rw [Function.update_of_ne (fun h => hb ⟨⟨7, by decide⟩, h.symm⟩), Function.update_of_ne (fun h => hb ⟨⟨6, by decide⟩, h.symm⟩), Function.update_of_ne (fun h => hb ⟨⟨5, by decide⟩, h.symm⟩)]
    exact (withArrays_other spec6 c _ _ b hb).symm
theorem V15_eq (c : Dev nD) : Gen.V15 m (outs m H0 H1 H2 H3 H4 H5 H6 H7 H8 H9 H10 H11) c = W15 m H0 H1 H2 H3 H4 H5 H6 c := by
  show StableHlo.after hostOps7 (Gen.V14 m (outs m H0 H1 H2 H3 H4 H5 H6 H7 H8 H9 H10 H11) c) = _
  rw [V14_eq m H0 H1 H2 H3 H4 H5 H6 H7 H8 H9 H10 H11 c]

set_option maxHeartbeats 1000000 in
/-- The generated valuation after region 7 is the chain's. -/
theorem V16_eq (c : Dev nD) : Gen.V16 m (outs m H0 H1 H2 H3 H4 H5 H6 H7 H8 H9 H10 H11) c = W16 m H0 H1 H2 H3 H4 H5 H6 H7 c := by
  funext b
  show (Function.update (Function.update (Gen.V15 m (outs m H0 H1 H2 H3 H4 H5 H6 H7 H8 H9 H10 H11) c) (Proc.devRef .tc main_v136_0) (outs m H0 H1 H2 H3 H4 H5 H6 H7 H8 H9 H10 H11 16 main_v136_0 c)) (Proc.devRef .tc main_v136_1) (outs m H0 H1 H2 H3 H4 H5 H6 H7 H8 H9 H10 H11 16 main_v136_1 c)) b = _
  rw [V15_eq m H0 H1 H2 H3 H4 H5 H6 H7 H8 H9 H10 H11 c]
  by_cases hb : ∃ w, Proc.devRef .tc (Pipeline.arrRef spec7 w) = b
  · obtain ⟨w, rfl⟩ := hb
    fin_cases w
    · -- window 0: the input array main_v123_0
      rw [Function.update_of_ne (StableHlo.devRef_ne_of_ne (by decide)), Function.update_of_ne (StableHlo.devRef_ne_of_ne (by decide))]
      exact (W16_in m H0 H1 H2 H3 H4 H5 H6 H7 c ⟨0, by decide⟩ rfl).symm
    · -- window 1: the input array main_v125
      rw [Function.update_of_ne (StableHlo.devRef_ne_of_ne (by decide)), Function.update_of_ne (StableHlo.devRef_ne_of_ne (by decide))]
      exact (W16_in m H0 H1 H2 H3 H4 H5 H6 H7 c ⟨1, by decide⟩ rfl).symm
    · -- window 2: the input array main_v129
      rw [Function.update_of_ne (StableHlo.devRef_ne_of_ne (by decide)), Function.update_of_ne (StableHlo.devRef_ne_of_ne (by decide))]
      exact (W16_in m H0 H1 H2 H3 H4 H5 H6 H7 c ⟨2, by decide⟩ rfl).symm
    · -- window 3: the input array main_v134
      rw [Function.update_of_ne (StableHlo.devRef_ne_of_ne (by decide)), Function.update_of_ne (StableHlo.devRef_ne_of_ne (by decide))]
      exact (W16_in m H0 H1 H2 H3 H4 H5 H6 H7 c ⟨3, by decide⟩ rfl).symm
    · -- window 4: the input array main_v135
      rw [Function.update_of_ne (StableHlo.devRef_ne_of_ne (by decide)), Function.update_of_ne (StableHlo.devRef_ne_of_ne (by decide))]
      exact (W16_in m H0 H1 H2 H3 H4 H5 H6 H7 c ⟨4, by decide⟩ rfl).symm
    · -- window 5: the input array main_v25
      rw [Function.update_of_ne (StableHlo.devRef_ne_of_ne (by decide)), Function.update_of_ne (StableHlo.devRef_ne_of_ne (by decide))]
      exact (W16_in m H0 H1 H2 H3 H4 H5 H6 H7 c ⟨5, by decide⟩ rfl).symm
    · -- window 6: the output array main_v136_0
      rw [Function.update_of_ne (StableHlo.devRef_ne_of_ne (by decide)), Function.update_self]
      rfl
    · -- window 7: the output array main_v136_1
      rw [Function.update_self]
      rfl
  · rw [Function.update_of_ne (fun h => hb ⟨⟨7, by decide⟩, h.symm⟩), Function.update_of_ne (fun h => hb ⟨⟨6, by decide⟩, h.symm⟩)]
    exact (withArrays_other spec7 c _ _ b hb).symm
theorem V17_eq (c : Dev nD) : Gen.V17 m (outs m H0 H1 H2 H3 H4 H5 H6 H7 H8 H9 H10 H11) c = W17 m H0 H1 H2 H3 H4 H5 H6 H7 c := by
  show StableHlo.after hostOps8 (Gen.V16 m (outs m H0 H1 H2 H3 H4 H5 H6 H7 H8 H9 H10 H11) c) = _
  rw [V16_eq m H0 H1 H2 H3 H4 H5 H6 H7 H8 H9 H10 H11 c]

set_option maxHeartbeats 1000000 in
/-- The generated valuation after region 8 is the chain's. -/
theorem V18_eq (c : Dev nD) : Gen.V18 m (outs m H0 H1 H2 H3 H4 H5 H6 H7 H8 H9 H10 H11) c = W18 m H0 H1 H2 H3 H4 H5 H6 H7 H8 c := by
  funext b
  show (Function.update (Function.update (Function.update (Gen.V17 m (outs m H0 H1 H2 H3 H4 H5 H6 H7 H8 H9 H10 H11) c) (Proc.devRef .tc main_v160_0) (outs m H0 H1 H2 H3 H4 H5 H6 H7 H8 H9 H10 H11 18 main_v160_0 c)) (Proc.devRef .tc main_v160_1) (outs m H0 H1 H2 H3 H4 H5 H6 H7 H8 H9 H10 H11 18 main_v160_1 c)) (Proc.devRef .tc main_v160_2) (outs m H0 H1 H2 H3 H4 H5 H6 H7 H8 H9 H10 H11 18 main_v160_2 c)) b = _
  rw [V17_eq m H0 H1 H2 H3 H4 H5 H6 H7 H8 H9 H10 H11 c]
  by_cases hb : ∃ w, Proc.devRef .tc (Pipeline.arrRef spec8 w) = b
  · obtain ⟨w, rfl⟩ := hb
    fin_cases w
    · -- window 0: the input array main_v152
      rw [Function.update_of_ne (StableHlo.devRef_ne_of_ne (by decide)), Function.update_of_ne (StableHlo.devRef_ne_of_ne (by decide)), Function.update_of_ne (StableHlo.devRef_ne_of_ne (by decide))]
      exact (W18_in m H0 H1 H2 H3 H4 H5 H6 H7 H8 c ⟨0, by decide⟩ rfl).symm
    · -- window 1: the input array main_v136_0
      rw [Function.update_of_ne (StableHlo.devRef_ne_of_ne (by decide)), Function.update_of_ne (StableHlo.devRef_ne_of_ne (by decide)), Function.update_of_ne (StableHlo.devRef_ne_of_ne (by decide))]
      exact (W18_in m H0 H1 H2 H3 H4 H5 H6 H7 H8 c ⟨1, by decide⟩ rfl).symm
    · -- window 2: the input array main_v154
      rw [Function.update_of_ne (StableHlo.devRef_ne_of_ne (by decide)), Function.update_of_ne (StableHlo.devRef_ne_of_ne (by decide)), Function.update_of_ne (StableHlo.devRef_ne_of_ne (by decide))]
      exact (W18_in m H0 H1 H2 H3 H4 H5 H6 H7 H8 c ⟨2, by decide⟩ rfl).symm
    · -- window 3: the input array main_v156
      rw [Function.update_of_ne (StableHlo.devRef_ne_of_ne (by decide)), Function.update_of_ne (StableHlo.devRef_ne_of_ne (by decide)), Function.update_of_ne (StableHlo.devRef_ne_of_ne (by decide))]
      exact (W18_in m H0 H1 H2 H3 H4 H5 H6 H7 H8 c ⟨3, by decide⟩ rfl).symm
    · -- window 4: the input array main_v159
      rw [Function.update_of_ne (StableHlo.devRef_ne_of_ne (by decide)), Function.update_of_ne (StableHlo.devRef_ne_of_ne (by decide)), Function.update_of_ne (StableHlo.devRef_ne_of_ne (by decide))]
      exact (W18_in m H0 H1 H2 H3 H4 H5 H6 H7 H8 c ⟨4, by decide⟩ rfl).symm
    · -- window 5: the output array main_v160_0
      rw [Function.update_of_ne (StableHlo.devRef_ne_of_ne (by decide)), Function.update_of_ne (StableHlo.devRef_ne_of_ne (by decide)), Function.update_self]
      rfl
    · -- window 6: the output array main_v160_1
      rw [Function.update_of_ne (StableHlo.devRef_ne_of_ne (by decide)), Function.update_self]
      rfl
    · -- window 7: the output array main_v160_2
      rw [Function.update_self]
      rfl
  · rw [Function.update_of_ne (fun h => hb ⟨⟨7, by decide⟩, h.symm⟩), Function.update_of_ne (fun h => hb ⟨⟨6, by decide⟩, h.symm⟩), Function.update_of_ne (fun h => hb ⟨⟨5, by decide⟩, h.symm⟩)]
    exact (withArrays_other spec8 c _ _ b hb).symm
theorem V19_eq (c : Dev nD) : Gen.V19 m (outs m H0 H1 H2 H3 H4 H5 H6 H7 H8 H9 H10 H11) c = W19 m H0 H1 H2 H3 H4 H5 H6 H7 H8 c := by
  show StableHlo.after hostOps9 (Gen.V18 m (outs m H0 H1 H2 H3 H4 H5 H6 H7 H8 H9 H10 H11) c) = _
  rw [V18_eq m H0 H1 H2 H3 H4 H5 H6 H7 H8 H9 H10 H11 c]

set_option maxHeartbeats 1000000 in
/-- The generated valuation after region 9 is the chain's. -/
theorem V20_eq (c : Dev nD) : Gen.V20 m (outs m H0 H1 H2 H3 H4 H5 H6 H7 H8 H9 H10 H11) c = W20 m H0 H1 H2 H3 H4 H5 H6 H7 H8 H9 c := by
  funext b
  show (Function.update (Function.update (Gen.V19 m (outs m H0 H1 H2 H3 H4 H5 H6 H7 H8 H9 H10 H11) c) (Proc.devRef .tc main_v173_0) (outs m H0 H1 H2 H3 H4 H5 H6 H7 H8 H9 H10 H11 20 main_v173_0 c)) (Proc.devRef .tc main_v173_1) (outs m H0 H1 H2 H3 H4 H5 H6 H7 H8 H9 H10 H11 20 main_v173_1 c)) b = _
  rw [V19_eq m H0 H1 H2 H3 H4 H5 H6 H7 H8 H9 H10 H11 c]
  by_cases hb : ∃ w, Proc.devRef .tc (Pipeline.arrRef spec9 w) = b
  · obtain ⟨w, rfl⟩ := hb
    fin_cases w
    · -- window 0: the input array main_v160_0
      rw [Function.update_of_ne (StableHlo.devRef_ne_of_ne (by decide)), Function.update_of_ne (StableHlo.devRef_ne_of_ne (by decide))]
      exact (W20_in m H0 H1 H2 H3 H4 H5 H6 H7 H8 H9 c ⟨0, by decide⟩ rfl).symm
    · -- window 1: the input array main_v162
      rw [Function.update_of_ne (StableHlo.devRef_ne_of_ne (by decide)), Function.update_of_ne (StableHlo.devRef_ne_of_ne (by decide))]
      exact (W20_in m H0 H1 H2 H3 H4 H5 H6 H7 H8 H9 c ⟨1, by decide⟩ rfl).symm
    · -- window 2: the input array main_v166
      rw [Function.update_of_ne (StableHlo.devRef_ne_of_ne (by decide)), Function.update_of_ne (StableHlo.devRef_ne_of_ne (by decide))]
      exact (W20_in m H0 H1 H2 H3 H4 H5 H6 H7 H8 H9 c ⟨2, by decide⟩ rfl).symm
    · -- window 3: the input array main_v171
      rw [Function.update_of_ne (StableHlo.devRef_ne_of_ne (by decide)), Function.update_of_ne (StableHlo.devRef_ne_of_ne (by decide))]
      exact (W20_in m H0 H1 H2 H3 H4 H5 H6 H7 H8 H9 c ⟨3, by decide⟩ rfl).symm
    · -- window 4: the input array main_v172
      rw [Function.update_of_ne (StableHlo.devRef_ne_of_ne (by decide)), Function.update_of_ne (StableHlo.devRef_ne_of_ne (by decide))]
      exact (W20_in m H0 H1 H2 H3 H4 H5 H6 H7 H8 H9 c ⟨4, by decide⟩ rfl).symm
    · -- window 5: the input array main_v25
      rw [Function.update_of_ne (StableHlo.devRef_ne_of_ne (by decide)), Function.update_of_ne (StableHlo.devRef_ne_of_ne (by decide))]
      exact (W20_in m H0 H1 H2 H3 H4 H5 H6 H7 H8 H9 c ⟨5, by decide⟩ rfl).symm
    · -- window 6: the output array main_v173_0
      rw [Function.update_of_ne (StableHlo.devRef_ne_of_ne (by decide)), Function.update_self]
      rfl
    · -- window 7: the output array main_v173_1
      rw [Function.update_self]
      rfl
  · rw [Function.update_of_ne (fun h => hb ⟨⟨7, by decide⟩, h.symm⟩), Function.update_of_ne (fun h => hb ⟨⟨6, by decide⟩, h.symm⟩)]
    exact (withArrays_other spec9 c _ _ b hb).symm
theorem V21_eq (c : Dev nD) : Gen.V21 m (outs m H0 H1 H2 H3 H4 H5 H6 H7 H8 H9 H10 H11) c = W21 m H0 H1 H2 H3 H4 H5 H6 H7 H8 H9 c := by
  show StableHlo.after hostOps10 (Gen.V20 m (outs m H0 H1 H2 H3 H4 H5 H6 H7 H8 H9 H10 H11) c) = _
  rw [V20_eq m H0 H1 H2 H3 H4 H5 H6 H7 H8 H9 H10 H11 c]

set_option maxHeartbeats 1000000 in
/-- The generated valuation after region 10 is the chain's. -/
theorem V22_eq (c : Dev nD) : Gen.V22 m (outs m H0 H1 H2 H3 H4 H5 H6 H7 H8 H9 H10 H11) c = W22 m H0 H1 H2 H3 H4 H5 H6 H7 H8 H9 H10 c := by
  funext b
  show (Function.update (Function.update (Function.update (Gen.V21 m (outs m H0 H1 H2 H3 H4 H5 H6 H7 H8 H9 H10 H11) c) (Proc.devRef .tc main_v197_0) (outs m H0 H1 H2 H3 H4 H5 H6 H7 H8 H9 H10 H11 22 main_v197_0 c)) (Proc.devRef .tc main_v197_1) (outs m H0 H1 H2 H3 H4 H5 H6 H7 H8 H9 H10 H11 22 main_v197_1 c)) (Proc.devRef .tc main_v197_2) (outs m H0 H1 H2 H3 H4 H5 H6 H7 H8 H9 H10 H11 22 main_v197_2 c)) b = _
  rw [V21_eq m H0 H1 H2 H3 H4 H5 H6 H7 H8 H9 H10 H11 c]
  by_cases hb : ∃ w, Proc.devRef .tc (Pipeline.arrRef spec10 w) = b
  · obtain ⟨w, rfl⟩ := hb
    fin_cases w
    · -- window 0: the input array main_v189
      rw [Function.update_of_ne (StableHlo.devRef_ne_of_ne (by decide)), Function.update_of_ne (StableHlo.devRef_ne_of_ne (by decide)), Function.update_of_ne (StableHlo.devRef_ne_of_ne (by decide))]
      exact (W22_in m H0 H1 H2 H3 H4 H5 H6 H7 H8 H9 H10 c ⟨0, by decide⟩ rfl).symm
    · -- window 1: the input array main_v173_0
      rw [Function.update_of_ne (StableHlo.devRef_ne_of_ne (by decide)), Function.update_of_ne (StableHlo.devRef_ne_of_ne (by decide)), Function.update_of_ne (StableHlo.devRef_ne_of_ne (by decide))]
      exact (W22_in m H0 H1 H2 H3 H4 H5 H6 H7 H8 H9 H10 c ⟨1, by decide⟩ rfl).symm
    · -- window 2: the input array main_v191
      rw [Function.update_of_ne (StableHlo.devRef_ne_of_ne (by decide)), Function.update_of_ne (StableHlo.devRef_ne_of_ne (by decide)), Function.update_of_ne (StableHlo.devRef_ne_of_ne (by decide))]
      exact (W22_in m H0 H1 H2 H3 H4 H5 H6 H7 H8 H9 H10 c ⟨2, by decide⟩ rfl).symm
    · -- window 3: the input array main_v193
      rw [Function.update_of_ne (StableHlo.devRef_ne_of_ne (by decide)), Function.update_of_ne (StableHlo.devRef_ne_of_ne (by decide)), Function.update_of_ne (StableHlo.devRef_ne_of_ne (by decide))]
      exact (W22_in m H0 H1 H2 H3 H4 H5 H6 H7 H8 H9 H10 c ⟨3, by decide⟩ rfl).symm
    · -- window 4: the input array main_v196
      rw [Function.update_of_ne (StableHlo.devRef_ne_of_ne (by decide)), Function.update_of_ne (StableHlo.devRef_ne_of_ne (by decide)), Function.update_of_ne (StableHlo.devRef_ne_of_ne (by decide))]
      exact (W22_in m H0 H1 H2 H3 H4 H5 H6 H7 H8 H9 H10 c ⟨4, by decide⟩ rfl).symm
    · -- window 5: the output array main_v197_0
      rw [Function.update_of_ne (StableHlo.devRef_ne_of_ne (by decide)), Function.update_of_ne (StableHlo.devRef_ne_of_ne (by decide)), Function.update_self]
      rfl
    · -- window 6: the output array main_v197_1
      rw [Function.update_of_ne (StableHlo.devRef_ne_of_ne (by decide)), Function.update_self]
      rfl
    · -- window 7: the output array main_v197_2
      rw [Function.update_self]
      rfl
  · rw [Function.update_of_ne (fun h => hb ⟨⟨7, by decide⟩, h.symm⟩), Function.update_of_ne (fun h => hb ⟨⟨6, by decide⟩, h.symm⟩), Function.update_of_ne (fun h => hb ⟨⟨5, by decide⟩, h.symm⟩)]
    exact (withArrays_other spec10 c _ _ b hb).symm
theorem V23_eq (c : Dev nD) : Gen.V23 m (outs m H0 H1 H2 H3 H4 H5 H6 H7 H8 H9 H10 H11) c = W23 m H0 H1 H2 H3 H4 H5 H6 H7 H8 H9 H10 c := by
  show StableHlo.after hostOps11 (Gen.V22 m (outs m H0 H1 H2 H3 H4 H5 H6 H7 H8 H9 H10 H11) c) = _
  rw [V22_eq m H0 H1 H2 H3 H4 H5 H6 H7 H8 H9 H10 H11 c]

set_option maxHeartbeats 1000000 in
/-- The generated valuation after region 11 is the chain's. -/
theorem V24_eq (c : Dev nD) : Gen.V24 m (outs m H0 H1 H2 H3 H4 H5 H6 H7 H8 H9 H10 H11) c = W24 m H0 H1 H2 H3 H4 H5 H6 H7 H8 H9 H10 H11 c := by
  funext b
  show (Function.update (Function.update (Gen.V23 m (outs m H0 H1 H2 H3 H4 H5 H6 H7 H8 H9 H10 H11) c) (Proc.devRef .tc main_v210_0) (outs m H0 H1 H2 H3 H4 H5 H6 H7 H8 H9 H10 H11 24 main_v210_0 c)) (Proc.devRef .tc main_v210_1) (outs m H0 H1 H2 H3 H4 H5 H6 H7 H8 H9 H10 H11 24 main_v210_1 c)) b = _
  rw [V23_eq m H0 H1 H2 H3 H4 H5 H6 H7 H8 H9 H10 H11 c]
  by_cases hb : ∃ w, Proc.devRef .tc (Pipeline.arrRef spec11 w) = b
  · obtain ⟨w, rfl⟩ := hb
    fin_cases w
    · -- window 0: the input array main_v197_0
      rw [Function.update_of_ne (StableHlo.devRef_ne_of_ne (by decide)), Function.update_of_ne (StableHlo.devRef_ne_of_ne (by decide))]
      exact (W24_in m H0 H1 H2 H3 H4 H5 H6 H7 H8 H9 H10 H11 c ⟨0, by decide⟩ rfl).symm
    · -- window 1: the input array main_v199
      rw [Function.update_of_ne (StableHlo.devRef_ne_of_ne (by decide)), Function.update_of_ne (StableHlo.devRef_ne_of_ne (by decide))]
      exact (W24_in m H0 H1 H2 H3 H4 H5 H6 H7 H8 H9 H10 H11 c ⟨1, by decide⟩ rfl).symm
    · -- window 2: the input array main_v203
      rw [Function.update_of_ne (StableHlo.devRef_ne_of_ne (by decide)), Function.update_of_ne (StableHlo.devRef_ne_of_ne (by decide))]
      exact (W24_in m H0 H1 H2 H3 H4 H5 H6 H7 H8 H9 H10 H11 c ⟨2, by decide⟩ rfl).symm
    · -- window 3: the input array main_v208
      rw [Function.update_of_ne (StableHlo.devRef_ne_of_ne (by decide)), Function.update_of_ne (StableHlo.devRef_ne_of_ne (by decide))]
      exact (W24_in m H0 H1 H2 H3 H4 H5 H6 H7 H8 H9 H10 H11 c ⟨3, by decide⟩ rfl).symm
    · -- window 4: the input array main_v209
      rw [Function.update_of_ne (StableHlo.devRef_ne_of_ne (by decide)), Function.update_of_ne (StableHlo.devRef_ne_of_ne (by decide))]
      exact (W24_in m H0 H1 H2 H3 H4 H5 H6 H7 H8 H9 H10 H11 c ⟨4, by decide⟩ rfl).symm
    · -- window 5: the input array main_v25
      rw [Function.update_of_ne (StableHlo.devRef_ne_of_ne (by decide)), Function.update_of_ne (StableHlo.devRef_ne_of_ne (by decide))]
      exact (W24_in m H0 H1 H2 H3 H4 H5 H6 H7 H8 H9 H10 H11 c ⟨5, by decide⟩ rfl).symm
    · -- window 6: the output array main_v210_0
      rw [Function.update_of_ne (StableHlo.devRef_ne_of_ne (by decide)), Function.update_self]
      rfl
    · -- window 7: the output array main_v210_1
      rw [Function.update_self]
      rfl
  · rw [Function.update_of_ne (fun h => hb ⟨⟨7, by decide⟩, h.symm⟩), Function.update_of_ne (fun h => hb ⟨⟨6, by decide⟩, h.symm⟩)]
    exact (withArrays_other spec11 c _ _ b hb).symm
theorem V25_eq (c : Dev nD) : Gen.V25 m (outs m H0 H1 H2 H3 H4 H5 H6 H7 H8 H9 H10 H11) c = W25 m H0 H1 H2 H3 H4 H5 H6 H7 H8 H9 H10 H11 c := by
  show StableHlo.after hostOps12 (Gen.V24 m (outs m H0 H1 H2 H3 H4 H5 H6 H7 H8 H9 H10 H11) c) = _
  rw [V24_eq m H0 H1 H2 H3 H4 H5 H6 H7 H8 H9 H10 H11 c]

end Cert.Kernel.Asm

end
-- ==== Proof.K.AsmFrame.lean ====
/- The kernel program's frame from its regions' halves. Every region is entered holding every unscoped buffer at the
   chain's contents before it, beside the core's generator register (at some state) and the core owing nothing, and is left
   holding the buffers at the chain's contents after it: at entry the region's arrays are split out of the buffers, at
   exit they are put back at what the pipeline leaves; the generator register passes into the class invariant and out;
   no semaphore is the kernel's own. With the regions as these segments, the generated conditional frame gives: every
   weakly fair execution of @main ends, and the fourteen argument arrays end as launched. -/
import proofs.«144276_j65051574665788_2_alg».proof.Proof.K.AsmChain

set_option maxRecDepth 16384

noncomputable section

namespace Cert.Kernel.Asm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (H0 : Half0 F) (H1 : Half1 F) (H2 : Half2 F) (H3 : Half3 F) (H4 : Half4 F) (H5 : Half5 F) (H6 : Half6 F) (H7 : Half7 F) (H8 : Half8 F) (H9 : Half9 F) (H10 : Half10 F) (H11 : Half11 F)

/-- Every pipeline's proof data, each at its region's entry contents. -/
def pdats : (p : Fin 12) → (c : Dev nD) → Dat τ (Elt F) Unit ℕ (UR sig nD τ) ℕ (cfgs p) c
  | ⟨0, _⟩ => fun c => H0.dat (X1 m) c
  | ⟨1, _⟩ => fun c => H1.dat (X3 m H0) c
  | ⟨2, _⟩ => fun c => H2.dat (X5 m H0 H1) c
  | ⟨3, _⟩ => fun c => H3.dat (X7 m H0 H1 H2) c
  | ⟨4, _⟩ => fun c => H4.dat (X9 m H0 H1 H2 H3) c
  | ⟨5, _⟩ => fun c => H5.dat (X11 m H0 H1 H2 H3 H4) c
  | ⟨6, _⟩ => fun c => H6.dat (X13 m H0 H1 H2 H3 H4 H5) c
  | ⟨7, _⟩ => fun c => H7.dat (X15 m H0 H1 H2 H3 H4 H5 H6) c
  | ⟨8, _⟩ => fun c => H8.dat (X17 m H0 H1 H2 H3 H4 H5 H6 H7) c
  | ⟨9, _⟩ => fun c => H9.dat (X19 m H0 H1 H2 H3 H4 H5 H6 H7 H8) c
  | ⟨10, _⟩ => fun c => H10.dat (X21 m H0 H1 H2 H3 H4 H5 H6 H7 H8 H9) c
  | ⟨11, _⟩ => fun c => H11.dat (X23 m H0 H1 H2 H3 H4 H5 H6 H7 H8 H9 H10) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state, and the core owing nothing. -/
abbrev Rst (c : Dev nD) : sProp 𝕄 := iprop((∃ r, prngReg c r) ∗ ∃ W, owes (c : Thread nD τ) (0 : CellTallies nD τ sig Unit) W)

set_option backward.isDefEq.respectTransparency.types false in
/-- Region 0 as a segment: entered from the buffers at the chain's contents before it, left at the contents after it. -/
def reg0 : Pipeline.RegionSeg (pcfgs (F := F)) adm (pdats m H0 H1 H2 H3 H4 H5 H6 H7 H8 H9 H10 H11) () defs₀ 𝒱₀ L lv 0 where
  win := launch0.win.to₀
  block_pos := launch0.block_pos
  stage_whole := launch0.stage_whole
  K := PEmpty
  osem k := k.elim
  ho := Pipeline.OwnSemFacts.none _
  hbody c := (H0.hb (X1 m) c).loose
  hwaits := Pipeline.hwaits_of_owed_zero _ _ _ _ L lv 0 fun _ _ => rfl
  pre c := iprop(StableHlo.held (c : Thread nD τ) (Pipeline.ucRefs τ sig) (W1 m c) ∗ Rst c)
  post c := iprop(StableHlo.held (c : Thread nD τ) (Pipeline.ucRefs τ sig) (W2 m H0 c) ∗ Rst c)
  X c := iprop(∃ r, prngReg c r)
  Y c := iprop(∃ r, prngReg c r)
  Z c := Pipeline.unscopedRest (Ix := Unit) (Name := ℕ) (U := UR sig nD τ) (Lvl := ℕ) spec0 c (X1 m c)
  hentry c := by
    rw [Pipeline.ownSems0_none]
    have hsplit := Pipeline.arrays_of_unscopedBufs (p := 0) (pcfgs (F := F)) adm (pdats m H0 H1 H2 H3 H4 H5 H6 H7 H8 H9 H10 H11) launch0.win launch0.arr_whole c
      (((pdats m H0 H1 H2 H3 H4 H5 H6 H7 H8 H9 H10 H11) 0 c).share_full fun _ => rfl) (X1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show ((pdats m H0 H1 H2 H3 H4 H5 H6 H7 H8 H9 H10 H11) 0 c).Φ 0 = Pipeline.ΦA spec0 c from rfl]; unfold Pipeline.ΦA
    iintro ⟨Hp, -, Hr⟩
    isplitl [Hr]; · iexact Hr
    iexact Hp
  hout c := by
    rw [Pipeline.ownSems0_none, show ((pdats m H0 H1 H2 H3 H4 H5 H6 H7 H8 H9 H10 H11) 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m H0 H1 H2 H3 H4 H5 H6 H7 H8 H9 H10 H11) (((pdats m H0 H1 H2 H3 H4 H5 H6 H7 H8 H9 H10 H11) 0 c).share_full fun _ => rfl)
      (X1 m c) (X2 m H0 c) (((pdats m H0 H1 H2 H3 H4 H5 H6 H7 H8 H9 H10 H11) 0 c).arrAt · cfg0.N) (hF0 m H0 c) (hrest0 m H0 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered from the buffers at the chain's contents before it, left at the contents after it. -/
def reg1 : Pipeline.RegionSeg (pcfgs (F := F)) adm (pdats m H0 H1 H2 H3 H4 H5 H6 H7 H8 H9 H10 H11) () defs₀ 𝒱₀ L lv 1 where
  win := launch1.win.to₀
  block_pos := launch1.block_pos
  stage_whole := launch1.stage_whole
  K := PEmpty
  osem k := k.elim
  ho := Pipeline.OwnSemFacts.none _
  hbody c := (H1.hb (X3 m H0) c).loose
  hwaits := Pipeline.hwaits_of_owed_zero _ _ _ _ L lv 1 fun _ _ => rfl
  pre c := iprop(StableHlo.held (c : Thread nD τ) (Pipeline.ucRefs τ sig) (W3 m H0 c) ∗ Rst c)
  post c := iprop(StableHlo.held (c : Thread nD τ) (Pipeline.ucRefs τ sig) (W4 m H0 H1 c) ∗ Rst c)
  X c := iprop(∃ r, prngReg c r)
  Y c := iprop(∃ r, prngReg c r)
  Z c := Pipeline.unscopedRest (Ix := Unit) (Name := ℕ) (U := UR sig nD τ) (Lvl := ℕ) spec1 c (X3 m H0 c)
  hentry c := by
    rw [Pipeline.ownSems0_none]
    have hsplit := Pipeline.arrays_of_unscopedBufs (p := 1) (pcfgs (F := F)) adm (pdats m H0 H1 H2 H3 H4 H5 H6 H7 H8 H9 H10 H11) launch1.win launch1.arr_whole c
      (((pdats m H0 H1 H2 H3 H4 H5 H6 H7 H8 H9 H10 H11) 1 c).share_full fun _ => rfl) (X3 m H0 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show ((pdats m H0 H1 H2 H3 H4 H5 H6 H7 H8 H9 H10 H11) 1 c).Φ 0 = Pipeline.ΦA spec1 c from rfl]; unfold Pipeline.ΦA
    iintro ⟨Hp, -, Hr⟩
    isplitl [Hr]; · iexact Hr
    iexact Hp
  hout c := by
    rw [Pipeline.ownSems0_none, show ((pdats m H0 H1 H2 H3 H4 H5 H6 H7 H8 H9 H10 H11) 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m H0 H1 H2 H3 H4 H5 H6 H7 H8 H9 H10 H11) (((pdats m H0 H1 H2 H3 H4 H5 H6 H7 H8 H9 H10 H11) 1 c).share_full fun _ => rfl)
      (X3 m H0 c) (X4 m H0 H1 c) (((pdats m H0 H1 H2 H3 H4 H5 H6 H7 H8 H9 H10 H11) 1 c).arrAt · cfg1.N) (hF1 m H0 H1 c) (hrest1 m H0 H1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered from the buffers at the chain's contents before it, left at the contents after it. -/
def reg2 : Pipeline.RegionSeg (pcfgs (F := F)) adm (pdats m H0 H1 H2 H3 H4 H5 H6 H7 H8 H9 H10 H11) () defs₀ 𝒱₀ L lv 2 where
  win := launch2.win.to₀
  block_pos := launch2.block_pos
  stage_whole := launch2.stage_whole
  K := PEmpty
  osem k := k.elim
  ho := Pipeline.OwnSemFacts.none _
  hbody c := (H2.hb (X5 m H0 H1) c).loose
  hwaits := Pipeline.hwaits_of_owed_zero _ _ _ _ L lv 2 fun _ _ => rfl
  pre c := iprop(StableHlo.held (c : Thread nD τ) (Pipeline.ucRefs τ sig) (W5 m H0 H1 c) ∗ Rst c)
  post c := iprop(StableHlo.held (c : Thread nD τ) (Pipeline.ucRefs τ sig) (W6 m H0 H1 H2 c) ∗ Rst c)
  X c := iprop(∃ r, prngReg c r)
  Y c := iprop(∃ r, prngReg c r)
  Z c := Pipeline.unscopedRest (Ix := Unit) (Name := ℕ) (U := UR sig nD τ) (Lvl := ℕ) spec2 c (X5 m H0 H1 c)
  hentry c := by
    rw [Pipeline.ownSems0_none]
    have hsplit := Pipeline.arrays_of_unscopedBufs (p := 2) (pcfgs (F := F)) adm (pdats m H0 H1 H2 H3 H4 H5 H6 H7 H8 H9 H10 H11) launch2.win launch2.arr_whole c
      (((pdats m H0 H1 H2 H3 H4 H5 H6 H7 H8 H9 H10 H11) 2 c).share_full fun _ => rfl) (X5 m H0 H1 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show ((pdats m H0 H1 H2 H3 H4 H5 H6 H7 H8 H9 H10 H11) 2 c).Φ 0 = Pipeline.ΦA spec2 c from rfl]; unfold Pipeline.ΦA
    iintro ⟨Hp, -, Hr⟩
    isplitl [Hr]; · iexact Hr
    iexact Hp
  hout c := by
    rw [Pipeline.ownSems0_none, show ((pdats m H0 H1 H2 H3 H4 H5 H6 H7 H8 H9 H10 H11) 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m H0 H1 H2 H3 H4 H5 H6 H7 H8 H9 H10 H11) (((pdats m H0 H1 H2 H3 H4 H5 H6 H7 H8 H9 H10 H11) 2 c).share_full fun _ => rfl)
      (X5 m H0 H1 c) (X6 m H0 H1 H2 c) (((pdats m H0 H1 H2 H3 H4 H5 H6 H7 H8 H9 H10 H11) 2 c).arrAt · cfg2.N) (hF2 m H0 H1 H2 c) (hrest2 m H0 H1 H2 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment: entered from the buffers at the chain's contents before it, left at the contents after it. -/
def reg3 : Pipeline.RegionSeg (pcfgs (F := F)) adm (pdats m H0 H1 H2 H3 H4 H5 H6 H7 H8 H9 H10 H11) () defs₀ 𝒱₀ L lv 3 where
  win := launch3.win.to₀
  block_pos := launch3.block_pos
  stage_whole := launch3.stage_whole
  K := PEmpty
  osem k := k.elim
  ho := Pipeline.OwnSemFacts.none _
  hbody c := (H3.hb (X7 m H0 H1 H2) c).loose
  hwaits := Pipeline.hwaits_of_owed_zero _ _ _ _ L lv 3 fun _ _ => rfl
  pre c := iprop(StableHlo.held (c : Thread nD τ) (Pipeline.ucRefs τ sig) (W7 m H0 H1 H2 c) ∗ Rst c)
  post c := iprop(StableHlo.held (c : Thread nD τ) (Pipeline.ucRefs τ sig) (W8 m H0 H1 H2 H3 c) ∗ Rst c)
  X c := iprop(∃ r, prngReg c r)
  Y c := iprop(∃ r, prngReg c r)
  Z c := Pipeline.unscopedRest (Ix := Unit) (Name := ℕ) (U := UR sig nD τ) (Lvl := ℕ) spec3 c (X7 m H0 H1 H2 c)
  hentry c := by
    rw [Pipeline.ownSems0_none]
    have hsplit := Pipeline.arrays_of_unscopedBufs (p := 3) (pcfgs (F := F)) adm (pdats m H0 H1 H2 H3 H4 H5 H6 H7 H8 H9 H10 H11) launch3.win launch3.arr_whole c
      (((pdats m H0 H1 H2 H3 H4 H5 H6 H7 H8 H9 H10 H11) 3 c).share_full fun _ => rfl) (X7 m H0 H1 H2 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show ((pdats m H0 H1 H2 H3 H4 H5 H6 H7 H8 H9 H10 H11) 3 c).Φ 0 = Pipeline.ΦA spec3 c from rfl]; unfold Pipeline.ΦA
    iintro ⟨Hp, -, Hr⟩
    isplitl [Hr]; · iexact Hr
    iexact Hp
  hout c := by
    rw [Pipeline.ownSems0_none, show ((pdats m H0 H1 H2 H3 H4 H5 H6 H7 H8 H9 H10 H11) 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m H0 H1 H2 H3 H4 H5 H6 H7 H8 H9 H10 H11) (((pdats m H0 H1 H2 H3 H4 H5 H6 H7 H8 H9 H10 H11) 3 c).share_full fun _ => rfl)
      (X7 m H0 H1 H2 c) (X8 m H0 H1 H2 H3 c) (((pdats m H0 H1 H2 H3 H4 H5 H6 H7 H8 H9 H10 H11) 3 c).arrAt · cfg3.N) (hF3 m H0 H1 H2 H3 c) (hrest3 m H0 H1 H2 H3 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 as a segment: entered from the buffers at the chain's contents before it, left at the contents after it. -/
def reg4 : Pipeline.RegionSeg (pcfgs (F := F)) adm (pdats m H0 H1 H2 H3 H4 H5 H6 H7 H8 H9 H10 H11) () defs₀ 𝒱₀ L lv 4 where
  win := launch4.win.to₀
  block_pos := launch4.block_pos
  stage_whole := launch4.stage_whole
  K := PEmpty
  osem k := k.elim
  ho := Pipeline.OwnSemFacts.none _
  hbody c := (H4.hb (X9 m H0 H1 H2 H3) c).loose
  hwaits := Pipeline.hwaits_of_owed_zero _ _ _ _ L lv 4 fun _ _ => rfl
  pre c := iprop(StableHlo.held (c : Thread nD τ) (Pipeline.ucRefs τ sig) (W9 m H0 H1 H2 H3 c) ∗ Rst c)
  post c := iprop(StableHlo.held (c : Thread nD τ) (Pipeline.ucRefs τ sig) (W10 m H0 H1 H2 H3 H4 c) ∗ Rst c)
  X c := iprop(∃ r, prngReg c r)
  Y c := iprop(∃ r, prngReg c r)
  Z c := Pipeline.unscopedRest (Ix := Unit) (Name := ℕ) (U := UR sig nD τ) (Lvl := ℕ) spec4 c (X9 m H0 H1 H2 H3 c)
  hentry c := by
    rw [Pipeline.ownSems0_none]
    have hsplit := Pipeline.arrays_of_unscopedBufs (p := 4) (pcfgs (F := F)) adm (pdats m H0 H1 H2 H3 H4 H5 H6 H7 H8 H9 H10 H11) launch4.win launch4.arr_whole c
      (((pdats m H0 H1 H2 H3 H4 H5 H6 H7 H8 H9 H10 H11) 4 c).share_full fun _ => rfl) (X9 m H0 H1 H2 H3 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show ((pdats m H0 H1 H2 H3 H4 H5 H6 H7 H8 H9 H10 H11) 4 c).Φ 0 = Pipeline.ΦA spec4 c from rfl]; unfold Pipeline.ΦA
    iintro ⟨Hp, -, Hr⟩
    isplitl [Hr]; · iexact Hr
    iexact Hp
  hout c := by
    rw [Pipeline.ownSems0_none, show ((pdats m H0 H1 H2 H3 H4 H5 H6 H7 H8 H9 H10 H11) 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m H0 H1 H2 H3 H4 H5 H6 H7 H8 H9 H10 H11) (((pdats m H0 H1 H2 H3 H4 H5 H6 H7 H8 H9 H10 H11) 4 c).share_full fun _ => rfl)
      (X9 m H0 H1 H2 H3 c) (X10 m H0 H1 H2 H3 H4 c) (((pdats m H0 H1 H2 H3 H4 H5 H6 H7 H8 H9 H10 H11) 4 c).arrAt · cfg4.N) (hF4 m H0 H1 H2 H3 H4 c) (hrest4 m H0 H1 H2 H3 H4 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 as a segment: entered from the buffers at the chain's contents before it, left at the contents after it. -/
def reg5 : Pipeline.RegionSeg (pcfgs (F := F)) adm (pdats m H0 H1 H2 H3 H4 H5 H6 H7 H8 H9 H10 H11) () defs₀ 𝒱₀ L lv 5 where
  win := launch5.win.to₀
  block_pos := launch5.block_pos
  stage_whole := launch5.stage_whole
  K := PEmpty
  osem k := k.elim
  ho := Pipeline.OwnSemFacts.none _
  hbody c := (H5.hb (X11 m H0 H1 H2 H3 H4) c).loose
  hwaits := Pipeline.hwaits_of_owed_zero _ _ _ _ L lv 5 fun _ _ => rfl
  pre c := iprop(StableHlo.held (c : Thread nD τ) (Pipeline.ucRefs τ sig) (W11 m H0 H1 H2 H3 H4 c) ∗ Rst c)
  post c := iprop(StableHlo.held (c : Thread nD τ) (Pipeline.ucRefs τ sig) (W12 m H0 H1 H2 H3 H4 H5 c) ∗ Rst c)
  X c := iprop(∃ r, prngReg c r)
  Y c := iprop(∃ r, prngReg c r)
  Z c := Pipeline.unscopedRest (Ix := Unit) (Name := ℕ) (U := UR sig nD τ) (Lvl := ℕ) spec5 c (X11 m H0 H1 H2 H3 H4 c)
  hentry c := by
    rw [Pipeline.ownSems0_none]
    have hsplit := Pipeline.arrays_of_unscopedBufs (p := 5) (pcfgs (F := F)) adm (pdats m H0 H1 H2 H3 H4 H5 H6 H7 H8 H9 H10 H11) launch5.win launch5.arr_whole c
      (((pdats m H0 H1 H2 H3 H4 H5 H6 H7 H8 H9 H10 H11) 5 c).share_full fun _ => rfl) (X11 m H0 H1 H2 H3 H4 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show ((pdats m H0 H1 H2 H3 H4 H5 H6 H7 H8 H9 H10 H11) 5 c).Φ 0 = Pipeline.ΦA spec5 c from rfl]; unfold Pipeline.ΦA
    iintro ⟨Hp, -, Hr⟩
    isplitl [Hr]; · iexact Hr
    iexact Hp
  hout c := by
    rw [Pipeline.ownSems0_none, show ((pdats m H0 H1 H2 H3 H4 H5 H6 H7 H8 H9 H10 H11) 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m H0 H1 H2 H3 H4 H5 H6 H7 H8 H9 H10 H11) (((pdats m H0 H1 H2 H3 H4 H5 H6 H7 H8 H9 H10 H11) 5 c).share_full fun _ => rfl)
      (X11 m H0 H1 H2 H3 H4 c) (X12 m H0 H1 H2 H3 H4 H5 c) (((pdats m H0 H1 H2 H3 H4 H5 H6 H7 H8 H9 H10 H11) 5 c).arrAt · cfg5.N) (hF5 m H0 H1 H2 H3 H4 H5 c) (hrest5 m H0 H1 H2 H3 H4 H5 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 as a segment: entered from the buffers at the chain's contents before it, left at the contents after it. -/
def reg6 : Pipeline.RegionSeg (pcfgs (F := F)) adm (pdats m H0 H1 H2 H3 H4 H5 H6 H7 H8 H9 H10 H11) () defs₀ 𝒱₀ L lv 6 where
  win := launch6.win.to₀
  block_pos := launch6.block_pos
  stage_whole := launch6.stage_whole
  K := PEmpty
  osem k := k.elim
  ho := Pipeline.OwnSemFacts.none _
  hbody c := (H6.hb (X13 m H0 H1 H2 H3 H4 H5) c).loose
  hwaits := Pipeline.hwaits_of_owed_zero _ _ _ _ L lv 6 fun _ _ => rfl
  pre c := iprop(StableHlo.held (c : Thread nD τ) (Pipeline.ucRefs τ sig) (W13 m H0 H1 H2 H3 H4 H5 c) ∗ Rst c)
  post c := iprop(StableHlo.held (c : Thread nD τ) (Pipeline.ucRefs τ sig) (W14 m H0 H1 H2 H3 H4 H5 H6 c) ∗ Rst c)
  X c := iprop(∃ r, prngReg c r)
  Y c := iprop(∃ r, prngReg c r)
  Z c := Pipeline.unscopedRest (Ix := Unit) (Name := ℕ) (U := UR sig nD τ) (Lvl := ℕ) spec6 c (X13 m H0 H1 H2 H3 H4 H5 c)
  hentry c := by
    rw [Pipeline.ownSems0_none]
    have hsplit := Pipeline.arrays_of_unscopedBufs (p := 6) (pcfgs (F := F)) adm (pdats m H0 H1 H2 H3 H4 H5 H6 H7 H8 H9 H10 H11) launch6.win launch6.arr_whole c
      (((pdats m H0 H1 H2 H3 H4 H5 H6 H7 H8 H9 H10 H11) 6 c).share_full fun _ => rfl) (X13 m H0 H1 H2 H3 H4 H5 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show ((pdats m H0 H1 H2 H3 H4 H5 H6 H7 H8 H9 H10 H11) 6 c).Φ 0 = Pipeline.ΦA spec6 c from rfl]; unfold Pipeline.ΦA
    iintro ⟨Hp, -, Hr⟩
    isplitl [Hr]; · iexact Hr
    iexact Hp
  hout c := by
    rw [Pipeline.ownSems0_none, show ((pdats m H0 H1 H2 H3 H4 H5 H6 H7 H8 H9 H10 H11) 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m H0 H1 H2 H3 H4 H5 H6 H7 H8 H9 H10 H11) (((pdats m H0 H1 H2 H3 H4 H5 H6 H7 H8 H9 H10 H11) 6 c).share_full fun _ => rfl)
      (X13 m H0 H1 H2 H3 H4 H5 c) (X14 m H0 H1 H2 H3 H4 H5 H6 c) (((pdats m H0 H1 H2 H3 H4 H5 H6 H7 H8 H9 H10 H11) 6 c).arrAt · cfg6.N) (hF6 m H0 H1 H2 H3 H4 H5 H6 c) (hrest6 m H0 H1 H2 H3 H4 H5 H6 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 as a segment: entered from the buffers at the chain's contents before it, left at the contents after it. -/
def reg7 : Pipeline.RegionSeg (pcfgs (F := F)) adm (pdats m H0 H1 H2 H3 H4 H5 H6 H7 H8 H9 H10 H11) () defs₀ 𝒱₀ L lv 7 where
  win := launch7.win.to₀
  block_pos := launch7.block_pos
  stage_whole := launch7.stage_whole
  K := PEmpty
  osem k := k.elim
  ho := Pipeline.OwnSemFacts.none _
  hbody c := (H7.hb (X15 m H0 H1 H2 H3 H4 H5 H6) c).loose
  hwaits := Pipeline.hwaits_of_owed_zero _ _ _ _ L lv 7 fun _ _ => rfl
  pre c := iprop(StableHlo.held (c : Thread nD τ) (Pipeline.ucRefs τ sig) (W15 m H0 H1 H2 H3 H4 H5 H6 c) ∗ Rst c)
  post c := iprop(StableHlo.held (c : Thread nD τ) (Pipeline.ucRefs τ sig) (W16 m H0 H1 H2 H3 H4 H5 H6 H7 c) ∗ Rst c)
  X c := iprop(∃ r, prngReg c r)
  Y c := iprop(∃ r, prngReg c r)
  Z c := Pipeline.unscopedRest (Ix := Unit) (Name := ℕ) (U := UR sig nD τ) (Lvl := ℕ) spec7 c (X15 m H0 H1 H2 H3 H4 H5 H6 c)
  hentry c := by
    rw [Pipeline.ownSems0_none]
    have hsplit := Pipeline.arrays_of_unscopedBufs (p := 7) (pcfgs (F := F)) adm (pdats m H0 H1 H2 H3 H4 H5 H6 H7 H8 H9 H10 H11) launch7.win launch7.arr_whole c
      (((pdats m H0 H1 H2 H3 H4 H5 H6 H7 H8 H9 H10 H11) 7 c).share_full fun _ => rfl) (X15 m H0 H1 H2 H3 H4 H5 H6 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show ((pdats m H0 H1 H2 H3 H4 H5 H6 H7 H8 H9 H10 H11) 7 c).Φ 0 = Pipeline.ΦA spec7 c from rfl]; unfold Pipeline.ΦA
    iintro ⟨Hp, -, Hr⟩
    isplitl [Hr]; · iexact Hr
    iexact Hp
  hout c := by
    rw [Pipeline.ownSems0_none, show ((pdats m H0 H1 H2 H3 H4 H5 H6 H7 H8 H9 H10 H11) 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m H0 H1 H2 H3 H4 H5 H6 H7 H8 H9 H10 H11) (((pdats m H0 H1 H2 H3 H4 H5 H6 H7 H8 H9 H10 H11) 7 c).share_full fun _ => rfl)
      (X15 m H0 H1 H2 H3 H4 H5 H6 c) (X16 m H0 H1 H2 H3 H4 H5 H6 H7 c) (((pdats m H0 H1 H2 H3 H4 H5 H6 H7 H8 H9 H10 H11) 7 c).arrAt · cfg7.N) (hF7 m H0 H1 H2 H3 H4 H5 H6 H7 c) (hrest7 m H0 H1 H2 H3 H4 H5 H6 H7 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8 as a segment: entered from the buffers at the chain's contents before it, left at the contents after it. -/
def reg8 : Pipeline.RegionSeg (pcfgs (F := F)) adm (pdats m H0 H1 H2 H3 H4 H5 H6 H7 H8 H9 H10 H11) () defs₀ 𝒱₀ L lv 8 where
  win := launch8.win.to₀
  block_pos := launch8.block_pos
  stage_whole := launch8.stage_whole
  K := PEmpty
  osem k := k.elim
  ho := Pipeline.OwnSemFacts.none _
  hbody c := (H8.hb (X17 m H0 H1 H2 H3 H4 H5 H6 H7) c).loose
  hwaits := Pipeline.hwaits_of_owed_zero _ _ _ _ L lv 8 fun _ _ => rfl
  pre c := iprop(StableHlo.held (c : Thread nD τ) (Pipeline.ucRefs τ sig) (W17 m H0 H1 H2 H3 H4 H5 H6 H7 c) ∗ Rst c)
  post c := iprop(StableHlo.held (c : Thread nD τ) (Pipeline.ucRefs τ sig) (W18 m H0 H1 H2 H3 H4 H5 H6 H7 H8 c) ∗ Rst c)
  X c := iprop(∃ r, prngReg c r)
  Y c := iprop(∃ r, prngReg c r)
  Z c := Pipeline.unscopedRest (Ix := Unit) (Name := ℕ) (U := UR sig nD τ) (Lvl := ℕ) spec8 c (X17 m H0 H1 H2 H3 H4 H5 H6 H7 c)
  hentry c := by
    rw [Pipeline.ownSems0_none]
    have hsplit := Pipeline.arrays_of_unscopedBufs (p := 8) (pcfgs (F := F)) adm (pdats m H0 H1 H2 H3 H4 H5 H6 H7 H8 H9 H10 H11) launch8.win launch8.arr_whole c
      (((pdats m H0 H1 H2 H3 H4 H5 H6 H7 H8 H9 H10 H11) 8 c).share_full fun _ => rfl) (X17 m H0 H1 H2 H3 H4 H5 H6 H7 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show ((pdats m H0 H1 H2 H3 H4 H5 H6 H7 H8 H9 H10 H11) 8 c).Φ 0 = Pipeline.ΦA spec8 c from rfl]; unfold Pipeline.ΦA
    iintro ⟨Hp, -, Hr⟩
    isplitl [Hr]; · iexact Hr
    iexact Hp
  hout c := by
    rw [Pipeline.ownSems0_none, show ((pdats m H0 H1 H2 H3 H4 H5 H6 H7 H8 H9 H10 H11) 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m H0 H1 H2 H3 H4 H5 H6 H7 H8 H9 H10 H11) (((pdats m H0 H1 H2 H3 H4 H5 H6 H7 H8 H9 H10 H11) 8 c).share_full fun _ => rfl)
      (X17 m H0 H1 H2 H3 H4 H5 H6 H7 c) (X18 m H0 H1 H2 H3 H4 H5 H6 H7 H8 c) (((pdats m H0 H1 H2 H3 H4 H5 H6 H7 H8 H9 H10 H11) 8 c).arrAt · cfg8.N) (hF8 m H0 H1 H2 H3 H4 H5 H6 H7 H8 c) (hrest8 m H0 H1 H2 H3 H4 H5 H6 H7 H8 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 9 as a segment: entered from the buffers at the chain's contents before it, left at the contents after it. -/
def reg9 : Pipeline.RegionSeg (pcfgs (F := F)) adm (pdats m H0 H1 H2 H3 H4 H5 H6 H7 H8 H9 H10 H11) () defs₀ 𝒱₀ L lv 9 where
  win := launch9.win.to₀
  block_pos := launch9.block_pos
  stage_whole := launch9.stage_whole
  K := PEmpty
  osem k := k.elim
  ho := Pipeline.OwnSemFacts.none _
  hbody c := (H9.hb (X19 m H0 H1 H2 H3 H4 H5 H6 H7 H8) c).loose
  hwaits := Pipeline.hwaits_of_owed_zero _ _ _ _ L lv 9 fun _ _ => rfl
  pre c := iprop(StableHlo.held (c : Thread nD τ) (Pipeline.ucRefs τ sig) (W19 m H0 H1 H2 H3 H4 H5 H6 H7 H8 c) ∗ Rst c)
  post c := iprop(StableHlo.held (c : Thread nD τ) (Pipeline.ucRefs τ sig) (W20 m H0 H1 H2 H3 H4 H5 H6 H7 H8 H9 c) ∗ Rst c)
  X c := iprop(∃ r, prngReg c r)
  Y c := iprop(∃ r, prngReg c r)
  Z c := Pipeline.unscopedRest (Ix := Unit) (Name := ℕ) (U := UR sig nD τ) (Lvl := ℕ) spec9 c (X19 m H0 H1 H2 H3 H4 H5 H6 H7 H8 c)
  hentry c := by
    rw [Pipeline.ownSems0_none]
    have hsplit := Pipeline.arrays_of_unscopedBufs (p := 9) (pcfgs (F := F)) adm (pdats m H0 H1 H2 H3 H4 H5 H6 H7 H8 H9 H10 H11) launch9.win launch9.arr_whole c
      (((pdats m H0 H1 H2 H3 H4 H5 H6 H7 H8 H9 H10 H11) 9 c).share_full fun _ => rfl) (X19 m H0 H1 H2 H3 H4 H5 H6 H7 H8 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show ((pdats m H0 H1 H2 H3 H4 H5 H6 H7 H8 H9 H10 H11) 9 c).Φ 0 = Pipeline.ΦA spec9 c from rfl]; unfold Pipeline.ΦA
    iintro ⟨Hp, -, Hr⟩
    isplitl [Hr]; · iexact Hr
    iexact Hp
  hout c := by
    rw [Pipeline.ownSems0_none, show ((pdats m H0 H1 H2 H3 H4 H5 H6 H7 H8 H9 H10 H11) 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m H0 H1 H2 H3 H4 H5 H6 H7 H8 H9 H10 H11) (((pdats m H0 H1 H2 H3 H4 H5 H6 H7 H8 H9 H10 H11) 9 c).share_full fun _ => rfl)
      (X19 m H0 H1 H2 H3 H4 H5 H6 H7 H8 c) (X20 m H0 H1 H2 H3 H4 H5 H6 H7 H8 H9 c) (((pdats m H0 H1 H2 H3 H4 H5 H6 H7 H8 H9 H10 H11) 9 c).arrAt · cfg9.N) (hF9 m H0 H1 H2 H3 H4 H5 H6 H7 H8 H9 c) (hrest9 m H0 H1 H2 H3 H4 H5 H6 H7 H8 H9 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 10 as a segment: entered from the buffers at the chain's contents before it, left at the contents after it. -/
def reg10 : Pipeline.RegionSeg (pcfgs (F := F)) adm (pdats m H0 H1 H2 H3 H4 H5 H6 H7 H8 H9 H10 H11) () defs₀ 𝒱₀ L lv 10 where
  win := launch10.win.to₀
  block_pos := launch10.block_pos
  stage_whole := launch10.stage_whole
  K := PEmpty
  osem k := k.elim
  ho := Pipeline.OwnSemFacts.none _
  hbody c := (H10.hb (X21 m H0 H1 H2 H3 H4 H5 H6 H7 H8 H9) c).loose
  hwaits := Pipeline.hwaits_of_owed_zero _ _ _ _ L lv 10 fun _ _ => rfl
  pre c := iprop(StableHlo.held (c : Thread nD τ) (Pipeline.ucRefs τ sig) (W21 m H0 H1 H2 H3 H4 H5 H6 H7 H8 H9 c) ∗ Rst c)
  post c := iprop(StableHlo.held (c : Thread nD τ) (Pipeline.ucRefs τ sig) (W22 m H0 H1 H2 H3 H4 H5 H6 H7 H8 H9 H10 c) ∗ Rst c)
  X c := iprop(∃ r, prngReg c r)
  Y c := iprop(∃ r, prngReg c r)
  Z c := Pipeline.unscopedRest (Ix := Unit) (Name := ℕ) (U := UR sig nD τ) (Lvl := ℕ) spec10 c (X21 m H0 H1 H2 H3 H4 H5 H6 H7 H8 H9 c)
  hentry c := by
    rw [Pipeline.ownSems0_none]
    have hsplit := Pipeline.arrays_of_unscopedBufs (p := 10) (pcfgs (F := F)) adm (pdats m H0 H1 H2 H3 H4 H5 H6 H7 H8 H9 H10 H11) launch10.win launch10.arr_whole c
      (((pdats m H0 H1 H2 H3 H4 H5 H6 H7 H8 H9 H10 H11) 10 c).share_full fun _ => rfl) (X21 m H0 H1 H2 H3 H4 H5 H6 H7 H8 H9 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show ((pdats m H0 H1 H2 H3 H4 H5 H6 H7 H8 H9 H10 H11) 10 c).Φ 0 = Pipeline.ΦA spec10 c from rfl]; unfold Pipeline.ΦA
    iintro ⟨Hp, -, Hr⟩
    isplitl [Hr]; · iexact Hr
    iexact Hp
  hout c := by
    rw [Pipeline.ownSems0_none, show ((pdats m H0 H1 H2 H3 H4 H5 H6 H7 H8 H9 H10 H11) 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m H0 H1 H2 H3 H4 H5 H6 H7 H8 H9 H10 H11) (((pdats m H0 H1 H2 H3 H4 H5 H6 H7 H8 H9 H10 H11) 10 c).share_full fun _ => rfl)
      (X21 m H0 H1 H2 H3 H4 H5 H6 H7 H8 H9 c) (X22 m H0 H1 H2 H3 H4 H5 H6 H7 H8 H9 H10 c) (((pdats m H0 H1 H2 H3 H4 H5 H6 H7 H8 H9 H10 H11) 10 c).arrAt · cfg10.N) (hF10 m H0 H1 H2 H3 H4 H5 H6 H7 H8 H9 H10 c) (hrest10 m H0 H1 H2 H3 H4 H5 H6 H7 H8 H9 H10 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 11 as a segment: entered from the buffers at the chain's contents before it, left at the contents after it. -/
def reg11 : Pipeline.RegionSeg (pcfgs (F := F)) adm (pdats m H0 H1 H2 H3 H4 H5 H6 H7 H8 H9 H10 H11) () defs₀ 𝒱₀ L lv 11 where
  win := launch11.win.to₀
  block_pos := launch11.block_pos
  stage_whole := launch11.stage_whole
  K := PEmpty
  osem k := k.elim
  ho := Pipeline.OwnSemFacts.none _
  hbody c := (H11.hb (X23 m H0 H1 H2 H3 H4 H5 H6 H7 H8 H9 H10) c).loose
  hwaits := Pipeline.hwaits_of_owed_zero _ _ _ _ L lv 11 fun _ _ => rfl
  pre c := iprop(StableHlo.held (c : Thread nD τ) (Pipeline.ucRefs τ sig) (W23 m H0 H1 H2 H3 H4 H5 H6 H7 H8 H9 H10 c) ∗ Rst c)
  post c := iprop(StableHlo.held (c : Thread nD τ) (Pipeline.ucRefs τ sig) (W24 m H0 H1 H2 H3 H4 H5 H6 H7 H8 H9 H10 H11 c) ∗ Rst c)
  X c := iprop(∃ r, prngReg c r)
  Y c := iprop(∃ r, prngReg c r)
  Z c := Pipeline.unscopedRest (Ix := Unit) (Name := ℕ) (U := UR sig nD τ) (Lvl := ℕ) spec11 c (X23 m H0 H1 H2 H3 H4 H5 H6 H7 H8 H9 H10 c)
  hentry c := by
    rw [Pipeline.ownSems0_none]
    have hsplit := Pipeline.arrays_of_unscopedBufs (p := 11) (pcfgs (F := F)) adm (pdats m H0 H1 H2 H3 H4 H5 H6 H7 H8 H9 H10 H11) launch11.win launch11.arr_whole c
      (((pdats m H0 H1 H2 H3 H4 H5 H6 H7 H8 H9 H10 H11) 11 c).share_full fun _ => rfl) (X23 m H0 H1 H2 H3 H4 H5 H6 H7 H8 H9 H10 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show ((pdats m H0 H1 H2 H3 H4 H5 H6 H7 H8 H9 H10 H11) 11 c).Φ 0 = Pipeline.ΦA spec11 c from rfl]; unfold Pipeline.ΦA
    iintro ⟨Hp, -, Hr⟩
    isplitl [Hr]; · iexact Hr
    iexact Hp
  hout c := by
    rw [Pipeline.ownSems0_none, show ((pdats m H0 H1 H2 H3 H4 H5 H6 H7 H8 H9 H10 H11) 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m H0 H1 H2 H3 H4 H5 H6 H7 H8 H9 H10 H11) (((pdats m H0 H1 H2 H3 H4 H5 H6 H7 H8 H9 H10 H11) 11 c).share_full fun _ => rfl)
      (X23 m H0 H1 H2 H3 H4 H5 H6 H7 H8 H9 H10 c) (X24 m H0 H1 H2 H3 H4 H5 H6 H7 H8 H9 H10 H11 c) (((pdats m H0 H1 H2 H3 H4 H5 H6 H7 H8 H9 H10 H11) 11 c).arrAt · cfg11.N) (hF11 m H0 H1 H2 H3 H4 H5 H6 H7 H8 H9 H10 H11 c) (hrest11 m H0 H1 H2 H3 H4 H5 H6 H7 H8 H9 H10 H11 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

include H0 H1 H2 H3 H4 H5 H6 H7 H8 H9 H10 H11 in
set_option backward.isDefEq.respectTransparency.types false in
/-- THE FRAME of the kernel program, from its twelve regions' halves: from any memory with zero counters, every weakly fair
    execution of @main on the TensorCores terminates, nothing faulting, and every final state has the fourteen argument
    arrays as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Gen.frame_cond (m := m) (EP := emb₁) (ι := ()) (𝒱₀ := 𝒱₀) (L := L) (lv := lv) (hL := fun _ _ => rfl) (ρ := ρ)
    (outs := outs m H0 H1 H2 H3 H4 H5 H6 H7 H8 H9 H10 H11) (pdats := pdats m H0 H1 H2 H3 H4 H5 H6 H7 H8 H9 H10 H11) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rst c)
    (hE0 := by
      refine Pipeline.initEach L lv fun c => ?_
      iintro ⟨⟨-, HO, -, Hp, -⟩, -⟩
      imodintro
      isplitl [Hp]; · iexists _; iexact Hp
      iexists ∅; iexact HO)
    (hE12 := fun c => by iintro ⟨-, HO⟩; iexact HO)
    (R0 := reg0 m H0 H1 H2 H3 H4 H5 H6 H7 H8 H9 H10 H11)
    (hpre0 := fun c => by rw [V1_eq m c]; exact .rfl)
    (hpost0 := fun c => by rw [V2_eq m H0 H1 H2 H3 H4 H5 H6 H7 H8 H9 H10 H11 c]; exact .rfl)
    (R1 := reg1 m H0 H1 H2 H3 H4 H5 H6 H7 H8 H9 H10 H11)
    (hpre1 := fun c => by rw [V3_eq m H0 H1 H2 H3 H4 H5 H6 H7 H8 H9 H10 H11 c]; exact .rfl)
    (hpost1 := fun c => by rw [V4_eq m H0 H1 H2 H3 H4 H5 H6 H7 H8 H9 H10 H11 c]; exact .rfl)
    (R2 := reg2 m H0 H1 H2 H3 H4 H5 H6 H7 H8 H9 H10 H11)
    (hpre2 := fun c => by rw [V5_eq m H0 H1 H2 H3 H4 H5 H6 H7 H8 H9 H10 H11 c]; exact .rfl)
    (hpost2 := fun c => by rw [V6_eq m H0 H1 H2 H3 H4 H5 H6 H7 H8 H9 H10 H11 c]; exact .rfl)
    (R3 := reg3 m H0 H1 H2 H3 H4 H5 H6 H7 H8 H9 H10 H11)
    (hpre3 := fun c => by rw [V7_eq m H0 H1 H2 H3 H4 H5 H6 H7 H8 H9 H10 H11 c]; exact .rfl)
    (hpost3 := fun c => by rw [V8_eq m H0 H1 H2 H3 H4 H5 H6 H7 H8 H9 H10 H11 c]; exact .rfl)
    (R4 := reg4 m H0 H1 H2 H3 H4 H5 H6 H7 H8 H9 H10 H11)
    (hpre4 := fun c => by rw [V9_eq m H0 H1 H2 H3 H4 H5 H6 H7 H8 H9 H10 H11 c]; exact .rfl)
    (hpost4 := fun c => by rw [V10_eq m H0 H1 H2 H3 H4 H5 H6 H7 H8 H9 H10 H11 c]; exact .rfl)
    (R5 := reg5 m H0 H1 H2 H3 H4 H5 H6 H7 H8 H9 H10 H11)
    (hpre5 := fun c => by rw [V11_eq m H0 H1 H2 H3 H4 H5 H6 H7 H8 H9 H10 H11 c]; exact .rfl)
    (hpost5 := fun c => by rw [V12_eq m H0 H1 H2 H3 H4 H5 H6 H7 H8 H9 H10 H11 c]; exact .rfl)
    (R6 := reg6 m H0 H1 H2 H3 H4 H5 H6 H7 H8 H9 H10 H11)
    (hpre6 := fun c => by rw [V13_eq m H0 H1 H2 H3 H4 H5 H6 H7 H8 H9 H10 H11 c]; exact .rfl)
    (hpost6 := fun c => by rw [V14_eq m H0 H1 H2 H3 H4 H5 H6 H7 H8 H9 H10 H11 c]; exact .rfl)
    (R7 := reg7 m H0 H1 H2 H3 H4 H5 H6 H7 H8 H9 H10 H11)
    (hpre7 := fun c => by rw [V15_eq m H0 H1 H2 H3 H4 H5 H6 H7 H8 H9 H10 H11 c]; exact .rfl)
    (hpost7 := fun c => by rw [V16_eq m H0 H1 H2 H3 H4 H5 H6 H7 H8 H9 H10 H11 c]; exact .rfl)
    (R8 := reg8 m H0 H1 H2 H3 H4 H5 H6 H7 H8 H9 H10 H11)
    (hpre8 := fun c => by rw [V17_eq m H0 H1 H2 H3 H4 H5 H6 H7 H8 H9 H10 H11 c]; exact .rfl)
    (hpost8 := fun c => by rw [V18_eq m H0 H1 H2 H3 H4 H5 H6 H7 H8 H9 H10 H11 c]; exact .rfl)
    (R9 := reg9 m H0 H1 H2 H3 H4 H5 H6 H7 H8 H9 H10 H11)
    (hpre9 := fun c => by rw [V19_eq m H0 H1 H2 H3 H4 H5 H6 H7 H8 H9 H10 H11 c]; exact .rfl)
    (hpost9 := fun c => by rw [V20_eq m H0 H1 H2 H3 H4 H5 H6 H7 H8 H9 H10 H11 c]; exact .rfl)
    (R10 := reg10 m H0 H1 H2 H3 H4 H5 H6 H7 H8 H9 H10 H11)
    (hpre10 := fun c => by rw [V21_eq m H0 H1 H2 H3 H4 H5 H6 H7 H8 H9 H10 H11 c]; exact .rfl)
    (hpost10 := fun c => by rw [V22_eq m H0 H1 H2 H3 H4 H5 H6 H7 H8 H9 H10 H11 c]; exact .rfl)
    (R11 := reg11 m H0 H1 H2 H3 H4 H5 H6 H7 H8 H9 H10 H11)
    (hpre11 := fun c => by rw [V23_eq m H0 H1 H2 H3 H4 H5 H6 H7 H8 H9 H10 H11 c]; exact .rfl)
    (hpost11 := fun c => by rw [V24_eq m H0 H1 H2 H3 H4 H5 H6 H7 H8 H9 H10 H11 c]; exact .rfl)

end Cert.Kernel.Asm

end
-- ==== Proof.K.Reg0.lean ====
import proofs.«144276_j65051574665788_2_alg».proof.Proof.Gen.Kernel.Launch
import proofs.«144276_j65051574665788_2_alg».proof.Proof.Gen.Kernel.Skeleton
import proofs.«144276_j65051574665788_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- a rectangle of 5000 rows: membership of an index in it is checked one coordinate at a time, a deep recursion
set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered
variable (V : (c : Dev nD) → (b : Ref sig .tc) → Buf (Elt F) ((c : Thread nD τ).loc b))

/-! # Region 0: the atom encoder, `o = x · W + b` on a block of 5000 rows, at the entry contents `V`

Four windows: the rows `x` (5000 × 48, a new block at every grid point), the weight `W` (48 × 128) and the bias `b`
(1 × 128), both the same block at every point, and the output rows `o` (5000 × 128, a new block at every point).
The body reads the three input blocks whole, reads the output buffer (the value is not used), and stores
`k0_pay1 x W b` over the whole output block. -/

/-! ## The blocks -/

/-- The block of window `w` at grid point `t`: the window's rectangle of its array, the array holding what `V` says. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's buffer holds its block when the body is called, whether the block was fetched at this point or
    stayed from the point before (the block index then did not move): for any proof data over `V`'s arrays whose body
    leaves that buffer as it found it. Window 0, the rows `x`. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for window 1, the weight `W`: fetched at the first point only, and every later point has the same block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The same for window 2, the bias `b`. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: each one a whole buffer -/

abbrev r0_x : Rect S5000x48 := Rect.unit (s := S5000x48) ![0, 0] S5000x48.size inb_S5000x48_S5000x48_0_0
abbrev r0_W : Rect S48x128 := Rect.unit (s := S48x128) ![0, 0] S48x128.size inb_S48x128_S48x128_0_0
abbrev r0_b : Rect S1x128 := Rect.unit (s := S1x128) ![0, 0] S1x128.size inb_S1x128_S1x128_0_0
abbrev r0_o : Rect S5000x128 := Rect.unit (s := S5000x128) ![0, 0] S5000x128.size inb_S5000x128_S5000x128_0_0

/-! ## The output buffer after the body -/

/-- The output window's buffer after the body, as a function of the three input blocks: one store over the whole
    buffer, of the payload `x · W + b` taken at what the three loads read. -/
def out0_3 (x : Vec F S5000x48 .f32) (W : Vec F S48x128 .f32) (b : Vec F S1x128 .f32) : Vec F S5000x128 .f32 :=
  View.canon [⟨r0_o, k0_pay1 (View.ld x r0_x) (View.ld W r0_W) (View.ld b r0_b)⟩]

/-- The one store's rectangle is the whole buffer, so every index lies in it. -/
theorem cover0_3 (p : Vec F S5000x128 .f32) (y : S5000x128.Idx) :
    ∃ pc ∈ ([⟨r0_o, p⟩] : List (View.Piece (Elt F) S5000x128 .f32)), y ∈ pc.1.set :=
  View.cover_of_tiled [⟨r0_o, p⟩] S5000x128.size (by rfl) y

/-! ## The body's triple -/

set_option maxHeartbeats 1000000 in
/-- The body on four whole staging memrefs — the inputs holding `x`, `W`, `b`, the output holding anything — ends with
    the inputs as they were and the output at `out0_3 x W b`. The printed function is its skeleton, three loads of the
    inputs, one load of the output whose value goes nowhere, and one store; run in that order they leave the claim. -/
theorem sound_kernel0 (c : Dev nD) (E : Set ℕ) (i : grid0.Coords)
    (a1 : Memref sig .tc .vmem S5000x48 .f32) (h1 : a1.IsWhole) (a2 : Memref sig .tc .vmem S48x128 .f32) (h2 : a2.IsWhole)
    (a3 : Memref sig .tc .vmem S1x128 .f32) (h3 : a3.IsWhole) (a4 : Memref sig .tc .vmem S5000x128 .f32) (h4 : a4.IsWhole)
    (x : Vec F S5000x48 .f32) (W : Vec F S48x128 .f32) (b : Vec F S1x128 .f32) (K : PUnit → sProp 𝕄) :
    iprop(owns (c : Thread nD τ) a1 fullShare x ∗ owns (c : Thread nD τ) a2 fullShare W ∗ owns (c : Thread nD τ) a3 fullShare b
        ∗ (∃ d, owns (c : Thread nD τ) a4 fullShare d)
        ∗ (iprop(owns (c : Thread nD τ) a1 fullShare x ∗ owns (c : Thread nD τ) a2 fullShare W ∗ owns (c : Thread nD τ) a3 fullShare b
            ∗ owns (c : Thread nD τ) a4 fullShare (out0_3 x W b)) -∗ K ⟨⟩))
      ⊢ wp frame (wpE (defs₀ (F := F)) Variants.none c none) E (cc0__atom_encode_kernel i a1 h1 a2 h2 a3 h3 a4 h4) K := by
  simp only [cc0__atom_encode_kernel_eq_skeleton]; unfold cc0__atom_encode_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_3 _)

/-! ## The proof data -/

/-- The proof data of the region on core `c`. The arrays hold what `V` says. After the body at point `t` each input's
    buffer holds its block still and the output's holds `out0_3` of the three blocks. The invariant is the scoped rest
    and the generator register, which the body does not touch; nothing is owed; every share is whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are `V`'s. -/
theorem A_eq0 (c : Dev nD) (w : Fin cfg0.W) : (dat0 V c).A w = V c (Pipeline.arrRef spec0 w) := by
  dsimp only [dat0]

/-- What the body leaves in each window's buffer. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- What the body finds in each input's buffer: the window's block at that point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

/-- What holds when the body is called at point `t`: the invariant, the core's debt, and each window's current
    staging memref owned whole at what the pipeline left in it; -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what holds when it returns: the same, each memref at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point. The three input memrefs hold their blocks, so the body's triple applies; the invariant
    and the debt are not read and pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the region, at every point. -/
theorem body_obligation0 (c : Dev nD) : BodyObligation (dat0 (F := F) V c) (defs₀ (F := F)) Variants.none () Set.univ := fun t => by
  rw [bigSep_W0, bigSep_W0]
  exact sound_body0 V c t

end Cert.Kernel.Reg
-- ==== Proof.K.Reg1.lean ====
import proofs.«144276_j65051574665788_2_alg».proof.Proof.Gen.Kernel.Launch
import proofs.«144276_j65051574665788_2_alg».proof.Proof.Gen.Kernel.Skeleton
import proofs.«144276_j65051574665788_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- a rectangle of 5000 rows: membership of an index in it is checked one coordinate at a time, a deep recursion
set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region is entered
variable (V : (c : Dev nD) → (b : Ref sig .tc) → Buf (Elt F) ((c : Thread nD τ).loc b))

/-! # Region 1: the edge-attribute projection, `o = (ea · W + ew · b) / denom` on a block of 5000 rows, at the entry contents `V`

Six windows: the summed edge attributes `ea` (5000 × 11), the weight `W` (11 × 128), the summed edge weights `ew`
(5000 × 1), the bias `b` (1 × 128), the divisor `denom` (5000 × 1) and the output rows `o` (5000 × 128). The row
windows take a new block at every grid point; `W` and `b` are the same block at every point. The body reads the five
input blocks whole, reads the output buffer (the value is not used), and stores `k1_pay1 ea W ew b denom` over the
whole output block. -/

/-! ## The blocks -/

/-- The block of window `w` at grid point `t`: the window's rectangle of its array, the array holding what `V` says. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's buffer holds its block when the body is called, whether the block was fetched at this point or
    stayed from the point before (the block index then did not move): for any proof data over `V`'s arrays whose body
    leaves that buffer as it found it. Window 0, the rows `ea`. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for window 1, the weight `W`: fetched at the first point only, and every later point has the same block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same for window 2, the column `ew`. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The same for window 3, the bias `b`: fetched at the first point only. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The same for window 4, the column `denom`. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes: each one a whole buffer -/

abbrev r1_ea : Rect S5000x11 := Rect.unit (s := S5000x11) ![0, 0] S5000x11.size inb_S5000x11_S5000x11_0_0
abbrev r1_W : Rect S11x128 := Rect.unit (s := S11x128) ![0, 0] S11x128.size inb_S11x128_S11x128_0_0
abbrev r1_col : Rect S5000x1 := Rect.unit (s := S5000x1) ![0, 0] S5000x1.size inb_S5000x1_S5000x1_0_0
abbrev r1_b : Rect S1x128 := Rect.unit (s := S1x128) ![0, 0] S1x128.size inb_S1x128_S1x128_0_0
abbrev r1_o : Rect S5000x128 := Rect.unit (s := S5000x128) ![0, 0] S5000x128.size inb_S5000x128_S5000x128_0_0

/-! ## The output buffer after the body -/

/-- The output window's buffer after the body, as a function of the five input blocks: one store over the whole
    buffer, of the payload `(ea · W + ew · b) / denom` taken at what the five loads read. -/
def out1_5 (ea : Vec F S5000x11 .f32) (W : Vec F S11x128 .f32) (ew : Vec F S5000x1 .f32) (b : Vec F S1x128 .f32)
    (dn : Vec F S5000x1 .f32) : Vec F S5000x128 .f32 :=
  View.canon [⟨r1_o, k1_pay1 (View.ld ea r1_ea) (View.ld W r1_W) (View.ld ew r1_col) (View.ld b r1_b) (View.ld dn r1_col)⟩]

/-- The one store's rectangle is the whole buffer, so every index lies in it. -/
theorem cover1_5 (p : Vec F S5000x128 .f32) (y : S5000x128.Idx) :
    ∃ pc ∈ ([⟨r1_o, p⟩] : List (View.Piece (Elt F) S5000x128 .f32)), y ∈ pc.1.set :=
  View.cover_of_tiled [⟨r1_o, p⟩] S5000x128.size (by rfl) y

/-! ## The body's triple -/

set_option maxHeartbeats 1000000 in
/-- The body on six whole staging memrefs — the inputs holding `ea`, `W`, `ew`, `b`, `dn`, the output holding anything —
    ends with the inputs as they were and the output at `out1_5` of them. The printed function is its skeleton, five
    loads of the inputs, one load of the output whose value goes nowhere, and one store; run in that order they leave
    the claim. -/
theorem sound_kernel1 (c : Dev nD) (E : Set ℕ) (i : grid1.Coords)
    (a1 : Memref sig .tc .vmem S5000x11 .f32) (h1 : a1.IsWhole) (a2 : Memref sig .tc .vmem S11x128 .f32) (h2 : a2.IsWhole)
    (a3 : Memref sig .tc .vmem S5000x1 .f32) (h3 : a3.IsWhole) (a4 : Memref sig .tc .vmem S1x128 .f32) (h4 : a4.IsWhole)
    (a5 : Memref sig .tc .vmem S5000x1 .f32) (h5 : a5.IsWhole) (a6 : Memref sig .tc .vmem S5000x128 .f32) (h6 : a6.IsWhole)
    (ea : Vec F S5000x11 .f32) (W : Vec F S11x128 .f32) (ew : Vec F S5000x1 .f32) (b : Vec F S1x128 .f32)
    (dn : Vec F S5000x1 .f32) (K : PUnit → sProp 𝕄) :
    iprop(owns (c : Thread nD τ) a1 fullShare ea ∗ owns (c : Thread nD τ) a2 fullShare W ∗ owns (c : Thread nD τ) a3 fullShare ew
        ∗ owns (c : Thread nD τ) a4 fullShare b ∗ owns (c : Thread nD τ) a5 fullShare dn
        ∗ (∃ d, owns (c : Thread nD τ) a6 fullShare d)
        ∗ (iprop(owns (c : Thread nD τ) a1 fullShare ea ∗ owns (c : Thread nD τ) a2 fullShare W ∗ owns (c : Thread nD τ) a3 fullShare ew
            ∗ owns (c : Thread nD τ) a4 fullShare b ∗ owns (c : Thread nD τ) a5 fullShare dn
            ∗ owns (c : Thread nD τ) a6 fullShare (out1_5 ea W ew b dn)) -∗ K ⟨⟩))
      ⊢ wp frame (wpE (defs₀ (F := F)) Variants.none c none) E (cc1__agg_ea_kernel i a1 h1 a2 h2 a3 h3 a4 h4 a5 h5 a6 h6) K := by
  simp only [cc1__agg_ea_kernel_eq_skeleton]; unfold cc1__agg_ea_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_5 _)

/-! ## The proof data -/

/-- The proof data of the region on core `c`. The arrays hold what `V` says. After the body at point `t` each input's
    buffer holds its block still and the output's holds `out1_5` of the five blocks. The invariant is the scoped rest
    and the generator register, which the body does not touch; nothing is owed; every share is whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are `V`'s. -/
theorem A_eq1 (c : Dev nD) (w : Fin cfg1.W) : (dat1 V c).A w = V c (Pipeline.arrRef spec1 w) := by
  dsimp only [dat1]

/-- What the body leaves in each window's buffer. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by
  dsimp only [dat1]

/-- What the body finds in each input's buffer: the window's block at that point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

/-- What holds when the body is called at point `t`: the invariant, the core's debt, and each window's current
    staging memref owned whole at what the pipeline left in it; -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what holds when it returns: the same, each memref at what the proof data says the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point. The five input memrefs hold their blocks, so the body's triple applies; the invariant
    and the debt are not read and pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the region, at every point. -/
theorem body_obligation1 (c : Dev nD) : BodyObligation (dat1 (F := F) V c) (defs₀ (F := F)) Variants.none () Set.univ := fun t => by
  rw [bigSep_W1, bigSep_W1]
  exact sound_body1 V c t

end Cert.Kernel.Reg
-- ==== Proof.K.Reg2.lean ====
import proofs.«144276_j65051574665788_2_alg».proof.Proof.Gen.Kernel.Launch
import proofs.«144276_j65051574665788_2_alg».proof.Proof.Gen.Kernel.Skeleton
import proofs.«144276_j65051574665788_2_alg».proof.Proof.Gen.Kernel.Points
import Idealize.ShloMosaic.Lib.Pipeline.FrameBody
import Idealize.ShloMosaic.Lib.Ring
import Idealize.ShloMosaic.Lib.Tactic

/-! # Region 2 of @main: the layer transform, at the entry contents `V`

The body computes `agg·Wl + h·Wr + bl` into a row block of the first output and adds the block's column sums and
column sums of squares into the second and third outputs, whose single block is revisited at every grid point:
at the first point the two are zeroed first, at a later point they hold what the point before left. Hence two
control cases. Per case the body is run once on arbitrary whole memrefs, the stores it makes into each output
being the witness of the run; the outputs' contents point by point are then a recursion on the point, and the
body obligation follows by cases on the point. Everything is stated at a parameter `V`, the TensorCore's buffer
contents when the region is entered, and at any float instance. -/

-- membership in a rectangle with a long axis recurses once per coordinate
set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof data
    whose array is the entry contents (`hA`) and whose body leaves the block in place (`hafter`): unfetched, the block
    index has not moved; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof data
    whose array is the entry contents (`hA`) and whose body leaves the block in place (`hafter`): unfetched, the block
    index has not moved; the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof data
    whose array is the entry contents (`hA`) and whose body leaves the block in place (`hafter`): unfetched, the block
    index has not moved; the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof data
    whose array is the entry contents (`hA`) and whose body leaves the block in place (`hafter`): unfetched, the block
    index has not moved; the window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof data
    whose array is the entry contents (`hA`) and whose body leaves the block in place (`hafter`): unfetched, the block
    index has not moved; the window is uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch condition -/

/-- The condition of the body's one conditional, from the grid coordinates: the point is the first. -/
abbrev cond2_0 (i : grid2.Coords) : Prop := (Scalar.cmpi .ne (Scalar.extui (Scalar.cmpi .eq (BitVec.ofNat 32 (i 0).val) 0#32)) 0#32) = 1#1
/-- It holds at the first point only: decided over the ten points. -/
theorem hcond2_0 : ∀ t : Fin cfg2.N, cond2_0 (grid2.coords t) ↔ t.val % 10 = 0 :=
  (by decide +kernel : ∀ t : Fin grid2.N, cond2_0 (grid2.coords t) ↔ t.val % 10 = 0)

/-! ## The staging memrefs -/

/-- One staging buffer of each output window, through which its contents are stated (a covering list of writes
    reads back the same through any view). -/
abbrev VO2_5 : View sig .tc .vmem S5000x128 .f32 := (Memref.whole cc2_stg5_0 : Memref sig .tc .vmem S5000x128 .f32).view
abbrev VO2_6 : View sig .tc .vmem S1x128 .f32 := (Memref.whole cc2_stg6_0 : Memref sig .tc .vmem S1x128 .f32).view
abbrev VO2_7 : View sig .tc .vmem S1x128 .f32 := (Memref.whole cc2_stg7_0 : Memref sig .tc .vmem S1x128 .f32).view
/-- Each window's current staging memref at point `t`, spelled as the pipeline passes it, and its wholeness. -/
abbrev ms2_0 (t : Fin cfg2.N) : Memref sig .tc .vmem S5000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S5000x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S128x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S128x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S5000x128 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x128 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x128 .f32 := win2_7.stage (cfg2.slots t 7)
abbrev hs2_7 (t : Fin cfg2.N) : (ms2_7 t).IsWhole := hstage2_7 ((cfg2.slots t 7).cast nbuf2_7)

/-! ## The body on any whole memrefs, case by case -/

set_option maxHeartbeats 1000000 in
/-- THE FIRST POINT. The pieces the body's stores leave in each output's memref (last first), with the proof that on
    whole memrefs — the inputs' at contents `x·`, the outputs' at anything — the body runs to the continuation
    holding the inputs' as they were and each output's with its pieces written. The conditional is taken: the two
    accumulators are zeroed, then read back and added to. -/
noncomputable def kernelRun2_A (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : cond2_0 i)
    (x0 : Vec F S5000x128 .f32) (x1 : Vec F S5000x128 .f32) (x2 : Vec F S128x128 .f32) (x3 : Vec F S128x128 .f32) (x4 : Vec F S1x128 .f32) :
    Σ' (L5 : List (View.Piece (Elt F) S5000x128 .f32)) (L6 : List (View.Piece (Elt F) S1x128 .f32)), { L7 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc2__layer_transform_kernel i arg1 harg1 arg2 harg2 arg3 harg3 arg4 harg4 arg5 harg5 arg6 harg6 arg7 harg7 arg8 harg8) K } := by
  refine ⟨?_, ?_, ?_, fun E K => ?run⟩
  case run =>
    simp only [cc2__layer_transform_kernel_eq_skeleton]; unfold cc2__layer_transform_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    iexists _; iexact H7

set_option maxHeartbeats 1000000 in
/-- A LATER POINT. The same with the conditional not taken: the two accumulators' memrefs are handed over at the
    running contents `xo6`, `xo7`, which the body reads before it covers them. -/
noncomputable def kernelRun2_B (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i)
    (x0 : Vec F S5000x128 .f32) (x1 : Vec F S5000x128 .f32) (x2 : Vec F S128x128 .f32) (x3 : Vec F S128x128 .f32) (x4 : Vec F S1x128 .f32) (xo6 : Vec F S1x128 .f32) (xo7 : Vec F S1x128 .f32) :
    Σ' (L5 : List (View.Piece (Elt F) S5000x128 .f32)) (L6 : List (View.Piece (Elt F) S1x128 .f32)), { L7 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ owns (c : Thread nD τ) arg7 fullShare xo6 ∗ owns (c : Thread nD τ) arg8 fullShare xo7
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc2__layer_transform_kernel i arg1 harg1 arg2 harg2 arg3 harg3 arg4 harg4 arg5 harg5 arg6 harg6 arg7 harg7 arg8 harg8) K } := by
  refine ⟨?_, ?_, ?_, fun E K => ?run⟩
  case run =>
    simp only [cc2__layer_transform_kernel_eq_skeleton]; unfold cc2__layer_transform_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
    obtain rfl := harg1.eq_unread hf0; obtain rfl := harg2.eq_unread hf1; obtain rfl := harg3.eq_unread hf2
    obtain rfl := harg4.eq_unread hf3; obtain rfl := harg5.eq_unread hf4
    obtain rfl := harg7.eq_unread hf6; obtain rfl := harg8.eq_unread hf7
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    iexists _; iexact H7

/-! ## The pieces cover the outputs' blocks -/

/-- Case A's pieces for output 5 tile its block, so they cover it. -/
theorem cover2_A_5 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : cond2_0 i)
    (x0 : Vec F S5000x128 .f32) (x1 : Vec F S5000x128 .f32) (x2 : Vec F S128x128 .f32) (x3 : Vec F S128x128 .f32) (x4 : Vec F S1x128 .f32) (y : S5000x128.Idx) :
    ∃ pc ∈ (kernelRun2_A c i arg1 harg1 arg2 harg2 arg3 harg3 arg4 harg4 arg5 harg5 arg6 harg6 arg7 harg7 arg8 harg8 hc0 x0 x1 x2 x3 x4).1, y ∈ pc.1.set :=
  View.cover_of_tiledL (kernelRun2_A c i arg1 harg1 arg2 harg2 arg3 harg3 arg4 harg4 arg5 harg5 arg6 harg6 arg7 harg7 arg8 harg8 hc0 x0 x1 x2 x3 x4).1 S5000x128.size (by sl_kernel_rfl) y

/-- Case A's pieces for output 6 tile its block, so they cover it. -/
theorem cover2_A_6 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : cond2_0 i)
    (x0 : Vec F S5000x128 .f32) (x1 : Vec F S5000x128 .f32) (x2 : Vec F S128x128 .f32) (x3 : Vec F S128x128 .f32) (x4 : Vec F S1x128 .f32) (y : S1x128.Idx) :
    ∃ pc ∈ (kernelRun2_A c i arg1 harg1 arg2 harg2 arg3 harg3 arg4 harg4 arg5 harg5 arg6 harg6 arg7 harg7 arg8 harg8 hc0 x0 x1 x2 x3 x4).2.1, y ∈ pc.1.set :=
  View.cover_of_tiledL (kernelRun2_A c i arg1 harg1 arg2 harg2 arg3 harg3 arg4 harg4 arg5 harg5 arg6 harg6 arg7 harg7 arg8 harg8 hc0 x0 x1 x2 x3 x4).2.1 S1x128.size (by sl_kernel_rfl) y

/-- Case A's pieces for output 7 tile its block, so they cover it. -/
theorem cover2_A_7 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : cond2_0 i)
    (x0 : Vec F S5000x128 .f32) (x1 : Vec F S5000x128 .f32) (x2 : Vec F S128x128 .f32) (x3 : Vec F S128x128 .f32) (x4 : Vec F S1x128 .f32) (y : S1x128.Idx) :
    ∃ pc ∈ (kernelRun2_A c i arg1 harg1 arg2 harg2 arg3 harg3 arg4 harg4 arg5 harg5 arg6 harg6 arg7 harg7 arg8 harg8 hc0 x0 x1 x2 x3 x4).2.2.1, y ∈ pc.1.set :=
  View.cover_of_tiledL (kernelRun2_A c i arg1 harg1 arg2 harg2 arg3 harg3 arg4 harg4 arg5 harg5 arg6 harg6 arg7 harg7 arg8 harg8 hc0 x0 x1 x2 x3 x4).2.2.1 S1x128.size (by sl_kernel_rfl) y

/-- Case B's pieces for output 5 tile its block, so they cover it. -/
theorem cover2_B_5 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i)
    (x0 : Vec F S5000x128 .f32) (x1 : Vec F S5000x128 .f32) (x2 : Vec F S128x128 .f32) (x3 : Vec F S128x128 .f32) (x4 : Vec F S1x128 .f32) (xo6 : Vec F S1x128 .f32) (xo7 : Vec F S1x128 .f32) (y : S5000x128.Idx) :
    ∃ pc ∈ (kernelRun2_B c i arg1 harg1 arg2 harg2 arg3 harg3 arg4 harg4 arg5 harg5 arg6 harg6 arg7 harg7 arg8 harg8 hc0 x0 x1 x2 x3 x4 xo6 xo7).1, y ∈ pc.1.set :=
  View.cover_of_tiledL (kernelRun2_B c i arg1 harg1 arg2 harg2 arg3 harg3 arg4 harg4 arg5 harg5 arg6 harg6 arg7 harg7 arg8 harg8 hc0 x0 x1 x2 x3 x4 xo6 xo7).1 S5000x128.size (by sl_kernel_rfl) y

/-- Case B's pieces for output 6 tile its block, so they cover it. -/
theorem cover2_B_6 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i)
    (x0 : Vec F S5000x128 .f32) (x1 : Vec F S5000x128 .f32) (x2 : Vec F S128x128 .f32) (x3 : Vec F S128x128 .f32) (x4 : Vec F S1x128 .f32) (xo6 : Vec F S1x128 .f32) (xo7 : Vec F S1x128 .f32) (y : S1x128.Idx) :
    ∃ pc ∈ (kernelRun2_B c i arg1 harg1 arg2 harg2 arg3 harg3 arg4 harg4 arg5 harg5 arg6 harg6 arg7 harg7 arg8 harg8 hc0 x0 x1 x2 x3 x4 xo6 xo7).2.1, y ∈ pc.1.set :=
  View.cover_of_tiledL (kernelRun2_B c i arg1 harg1 arg2 harg2 arg3 harg3 arg4 harg4 arg5 harg5 arg6 harg6 arg7 harg7 arg8 harg8 hc0 x0 x1 x2 x3 x4 xo6 xo7).2.1 S1x128.size (by sl_kernel_rfl) y

/-- Case B's pieces for output 7 tile its block, so they cover it. -/
theorem cover2_B_7 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i)
    (x0 : Vec F S5000x128 .f32) (x1 : Vec F S5000x128 .f32) (x2 : Vec F S128x128 .f32) (x3 : Vec F S128x128 .f32) (x4 : Vec F S1x128 .f32) (xo6 : Vec F S1x128 .f32) (xo7 : Vec F S1x128 .f32) (y : S1x128.Idx) :
    ∃ pc ∈ (kernelRun2_B c i arg1 harg1 arg2 harg2 arg3 harg3 arg4 harg4 arg5 harg5 arg6 harg6 arg7 harg7 arg8 harg8 hc0 x0 x1 x2 x3 x4 xo6 xo7).2.2.1, y ∈ pc.1.set :=
  View.cover_of_tiledL (kernelRun2_B c i arg1 harg1 arg2 harg2 arg3 harg3 arg4 harg4 arg5 harg5 arg6 harg6 arg7 harg7 arg8 harg8 hc0 x0 x1 x2 x3 x4 xo6 xo7).2.2.1 S1x128.size (by sl_kernel_rfl) y

/-! ## What the outputs hold after each point -/

/-- The first-point run at point `t`'s memrefs and input blocks. -/
abbrev runA2 (c : Dev nD) (t : Fin cfg2.N) (h0 : t.val % 10 = 0) :=
  kernelRun2_A (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) ((hcond2_0 t).mpr h0) (iblk2 V c 0 t) (iblk2 V c 1 t) (iblk2 V c 2 t) (iblk2 V c 3 t) (iblk2 V c 4 t)

/-- The later-point run at point `t`'s memrefs and input blocks, the accumulators at `xo6`, `xo7`. -/
abbrev runB2 (c : Dev nD) (t : Fin cfg2.N) (h0 : ¬t.val % 10 = 0) (xo6 : Vec F S1x128 .f32) (xo7 : Vec F S1x128 .f32) :=
  kernelRun2_B (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (fun h => h0 ((hcond2_0 t).mp h)) (iblk2 V c 0 t) (iblk2 V c 1 t) (iblk2 V c 2 t) (iblk2 V c 3 t) (iblk2 V c 4 t) xo6 xo7

/-- What the first-point case leaves in the three outputs' staging buffers: its pieces read back over junk. -/
def outsA2 (c : Dev nD) (t : Fin cfg2.N) (h0 : t.val % 10 = 0) : Vec F S5000x128 .f32 × Vec F S1x128 .f32 × Vec F S1x128 .f32 :=
  (VO2_5.read (Elt F) (VO2_5.writes (Elt F) VO2_5.junk (runA2 V c t h0).1),
   VO2_6.read (Elt F) (VO2_6.writes (Elt F) VO2_6.junk (runA2 V c t h0).2.1),
   VO2_7.read (Elt F) (VO2_7.writes (Elt F) VO2_7.junk (runA2 V c t h0).2.2.1))

/-- What the later-point case leaves there, over accumulators at `xo6`, `xo7`. -/
def outsB2 (c : Dev nD) (t : Fin cfg2.N) (h0 : ¬t.val % 10 = 0) (xo6 : Vec F S1x128 .f32) (xo7 : Vec F S1x128 .f32) :
    Vec F S5000x128 .f32 × Vec F S1x128 .f32 × Vec F S1x128 .f32 :=
  (VO2_5.read (Elt F) (VO2_5.writes (Elt F) VO2_5.junk (runB2 V c t h0 xo6 xo7).1),
   VO2_6.read (Elt F) (VO2_6.writes (Elt F) VO2_6.junk (runB2 V c t h0 xo6 xo7).2.1),
   VO2_7.read (Elt F) (VO2_7.writes (Elt F) VO2_7.junk (runB2 V c t h0 xo6 xo7).2.2.1))

/-- THE ACCUMULATION. What the three outputs' staging buffers hold after the body at position `n`: the case the
    point is in, run at the point's memrefs and input blocks, the two accumulators at what this leaves at `n - 1`
    (their buffer is not written back in between). -/
def outsAt2 (c : Dev nD) : (n : ℕ) → n < cfg2.N → Vec F S5000x128 .f32 × Vec F S1x128 .f32 × Vec F S1x128 .f32
  | 0, hn => outsA2 V c ⟨0, hn⟩ (Nat.zero_mod _)
  | n + 1, hn =>
    if h0 : (n + 1) % 10 = 0 then
      outsA2 V c ⟨n + 1, hn⟩ h0
    else
      outsB2 V c ⟨n + 1, hn⟩ h0 (outsAt2 c n (Nat.lt_of_succ_lt hn)).2.1 (outsAt2 c n (Nat.lt_of_succ_lt hn)).2.2

/-- `outsAt2` at a first point: that case's contents. -/
theorem outsAt2_A (c : Dev nD) (t : Fin cfg2.N) (h0 : t.val % 10 = 0) :
    outsAt2 V c t.val t.isLt = outsA2 V c t h0 := by
  obtain ⟨n, hn⟩ := t
  cases n with
  | zero => exact rfl
  | succ n => exact (dif_pos h0).trans rfl

/-- `outsAt2` at a later point: that case's contents, over what the point before left. -/
theorem outsAt2_B (c : Dev nD) (t : Fin cfg2.N) (h0 : ¬t.val % 10 = 0) :
    outsAt2 V c t.val t.isLt = outsB2 V c t h0
      (outsAt2 V c (t.val - 1) (Nat.lt_of_le_of_lt (Nat.sub_le _ _) t.isLt)).2.1
      (outsAt2 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans rfl

/-! ## The pipeline's proof data -/

/-- The proof data of the region's pipeline on core `c`: the arrays as the region finds them (`V`); after the body
    at point `t` each input's buffer at its block and the outputs' at `outsAt2`; the invariant the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
    | ⟨6, _⟩ => (outsAt2 V c t.val t.isLt).2.1
    | ⟨7, _⟩ => (outsAt2 V c t.val t.isLt).2.2
  Φ _ := Pipeline.ΦA spec2 c
  q _ := fullShare
  owed _ := 0

/-- The proof data's arrays are the region-entry contents (the definition projected). -/
theorem A_eq2 (c : Dev nD) (w : Fin cfg2.W) : (dat2 V c).A w = V c (Pipeline.arrRef spec2 w) := by
  dsimp only [dat2]

/-- What the body leaves, window by window (the definition's `match` reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).1 := by dsimp only [dat2]
theorem after2_6 (c : Dev nD) (t : Fin cfg2.N) : (dat2 V c).after 6 t = (outsAt2 V c t.val t.isLt).2.1 := by dsimp only [dat2]
theorem after2_7 (c : Dev nD) (t : Fin cfg2.N) : (dat2 V c).after 7 t = (outsAt2 V c t.val t.isLt).2.2 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- At a later point output 6's staging buffer holds what the body left at the point before: the buffer is written
    back at the last point only, and the window is live and uncut. -/
theorem before2_6_B (c : Dev nD) (t : Fin cfg2.N) (h0 : ¬t.val % 10 = 0) (d) :
    (dat2 V c).before 6 t d = (outsAt2 V c (t.val - 1) (Nat.lt_of_le_of_lt (Nat.sub_le _ _) t.isLt)).2.1 := by
  have hN : t.val < 10 := lt_of_lt_of_eq t.isLt (show cfg2.N = 10 from N_2)
  rw [Dat.before_out_kept _ 6 rfl t (by omega) (Bool.eq_false_iff.mpr fun h => by have := (flush2_6 _).mp h; dsimp only at this; omega)
    (fun _ => rfl) (fun _ _ => rfl)]
  dsimp only [dat2]

/-- At a later point output 7's staging buffer holds what the body left at the point before: the buffer is written
    back at the last point only, and the window is live and uncut. -/
theorem before2_7_B (c : Dev nD) (t : Fin cfg2.N) (h0 : ¬t.val % 10 = 0) (d) :
    (dat2 V c).before 7 t d = (outsAt2 V c (t.val - 1) (Nat.lt_of_le_of_lt (Nat.sub_le _ _) t.isLt)).2.2 := by
  have hN : t.val < 10 := lt_of_lt_of_eq t.isLt (show cfg2.N = 10 from N_2)
  rw [Dat.before_out_kept _ 7 rfl t (by omega) (Bool.eq_false_iff.mpr fun h => by have := (flush2_7 _).mp h; dsimp only at this; omega)
    (fun _ => rfl) (fun _ _ => rfl)]
  dsimp only [dat2]

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t)
    ∗ owns (c : Thread nD τ) (ms2_6 t) fullShare ((dat2 V c).after 6 t)
    ∗ owns (c : Thread nD τ) (ms2_7 t) fullShare ((dat2 V c).after 7 t))

set_option maxHeartbeats 1600000 in
/-- The body at any point: the inputs' memrefs hold their blocks; the closed form of the condition says which case
    the point is in; at a later point the two accumulators hold what the point before left; so the case's run
    applies, and its pieces, covering each output's block, read back as `outsAt2` says. The invariant passes
    through unread and the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  have hN : t.val < 10 := lt_of_lt_of_eq t.isLt (show cfg2.N = 10 from N_2)
  by_cases h0 : t.val % 10 = 0
  · rw [outsAt2_A V c t h0]
    unfold outsA2; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runA2 V c t h0).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    iintro ⟨H0, H1, H2, H3, H4, ⟨%e5, H5⟩, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover2_A_5 c _ _ _ _ _ _ _ _ _ _ _ _ _ _ _ _ _ _ _ _ _ _ _)
    isplitl [H6]
    · unfold owns; iexists _; isplitr
      swap; · iexact H6
      ipureintro; exact View.read_writes_of_cover _ _ _ _ _ (cover2_A_6 c _ _ _ _ _ _ _ _ _ _ _ _ _ _ _ _ _ _ _ _ _ _ _)
    unfold owns; iexists _; isplitr
    swap; · iexact H7
    ipureintro; exact View.read_writes_of_cover _ _ _ _ _ (cover2_A_7 c _ _ _ _ _ _ _ _ _ _ _ _ _ _ _ _ _ _ _ _ _ _ _)
  · rw [outsAt2_B V c t h0]
    simp only [before2_6_B V c t h0, before2_7_B V c t h0]
    unfold outsB2; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runB2 V c t h0 _ _).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    iintro ⟨H0, H1, H2, H3, H4, ⟨%e5, H5⟩, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover2_B_5 c _ _ _ _ _ _ _ _ _ _ _ _ _ _ _ _ _ _ _ _ _ _ _ _ _)
    isplitl [H6]
    · unfold owns; iexists _; isplitr
      swap; · iexact H6
      ipureintro; exact View.read_writes_of_cover _ _ _ _ _ (cover2_B_6 c _ _ _ _ _ _ _ _ _ _ _ _ _ _ _ _ _ _ _ _ _ _ _ _ _)
    unfold owns; iexists _; isplitr
    swap; · iexact H7
    ipureintro; exact View.read_writes_of_cover _ _ _ _ _ (cover2_B_7 c _ _ _ _ _ _ _ _ _ _ _ _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Reg

end
-- ==== Proof.K.Reg3.lean ====
import proofs.«144276_j65051574665788_2_alg».proof.Proof.Gen.Kernel.Launch
import proofs.«144276_j65051574665788_2_alg».proof.Proof.Gen.Kernel.Skeleton
import proofs.«144276_j65051574665788_2_alg».proof.Proof.Gen.Kernel.Points
import Idealize.ShloMosaic.Lib.Pipeline.FrameBody
import Idealize.ShloMosaic.Lib.Ring
import Idealize.ShloMosaic.Lib.Tactic

/-! # Region 3 of @main: the normalisation and pooling call, at the entry contents `V`

The body's half of the region's frame: for any contents `V` of the core's buffers at the region's entry, the
proof data of the pipeline (what every window's staging buffer holds before and after the body at every grid
point) and the body obligation — the body, run at any grid point on buffers holding what the data say, ends
with them holding what the data say, touching nothing else.

The body has two control cases. At the first grid point the pooled-sum block (window 7) is zeroed and then
added to; at every later point it is read at what the point before left and added to. The normalised block
(window 6) is stored whole at every point. What the two outputs hold after each point is therefore a recursion
on the point, the pooled-sum block carried from the point before. -/

-- membership in a rectangle of large extents recurses once per coordinate of the long axes
set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0: its current staging buffer holds its block at every point, whether fetched there or not
    (unfetched, the block index has not moved since the fetch), for any proof data whose array is `V`'s and whose
    body leaves the block in place; the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1: its current staging buffer holds its block at every point, whether fetched there or not
    (unfetched, the block index has not moved since the fetch), for any proof data whose array is `V`'s and whose
    body leaves the block in place; the window is uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2: its current staging buffer holds its block at every point, whether fetched there or not
    (unfetched, the block index has not moved since the fetch), for any proof data whose array is `V`'s and whose
    body leaves the block in place; the window is uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3: its current staging buffer holds its block at every point, whether fetched there or not
    (unfetched, the block index has not moved since the fetch), for any proof data whose array is `V`'s and whose
    body leaves the block in place; the window is uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4: its current staging buffer holds its block at every point, whether fetched there or not
    (unfetched, the block index has not moved since the fetch), for any proof data whose array is `V`'s and whose
    body leaves the block in place; the window is uncut and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5: its current staging buffer holds its block at every point, whether fetched there or not
    (unfetched, the block index has not moved since the fetch), for any proof data whose array is `V`'s and whose
    body leaves the block in place; the window is uncut and never idle. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-! ## The body's branch condition -/

/-- The condition of the body's one conditional, as a function of the grid coordinates: "this is point 0". -/
abbrev cond3_0 (i : grid3.Coords) : Prop := (Scalar.cmpi .ne (Scalar.extui (Scalar.cmpi .eq (BitVec.ofNat 32 (i 0).val) 0#32)) 0#32) = 1#1
/-- It holds at the first point only — decided over the ten points of the grid. -/
theorem hcond3_0 : ∀ t : Fin cfg3.N, cond3_0 (grid3.coords t) ↔ t.val % 10 = 0 :=
  (by decide +kernel : ∀ t : Fin grid3.N, cond3_0 (grid3.coords t) ↔ t.val % 10 = 0)

/-! ## The staging memrefs -/

/-- One staging buffer of each output window, through which its contents are stated (a covering list of writes
    reads back the same through any view of the shape). -/
abbrev VO3_6 : View sig .tc .vmem S5000x128 .f32 := (Memref.whole cc3_stg6_0 : Memref sig .tc .vmem S5000x128 .f32).view
abbrev VO3_7 : View sig .tc .vmem S128x128 .f32 := (Memref.whole cc3_stg7_0 : Memref sig .tc .vmem S128x128 .f32).view
/-- Each window's current staging memref at point `t`, spelled as the pipeline passes it to the body, and its wholeness. -/
abbrev ms3_0 (t : Fin cfg3.N) : Memref sig .tc .vmem S5000x128 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x128 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x128 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x128 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x128 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S5000x1 .i32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S5000x128 .f32 := win3_6.stage (cfg3.slots t 6)
abbrev hs3_6 (t : Fin cfg3.N) : (ms3_6 t).IsWhole := hstage3_6 ((cfg3.slots t 6).cast nbuf3_6)
abbrev ms3_7 (t : Fin cfg3.N) : Memref sig .tc .vmem S128x128 .f32 := win3_7.stage (cfg3.slots t 7)
abbrev hs3_7 (t : Fin cfg3.N) : (ms3_7 t).IsWhole := hstage3_7 ((cfg3.slots t 7).cast nbuf3_7)

/-! ## The body on any staging memrefs, case by case -/

set_option maxHeartbeats 1000000 in
/-- CASE A (the first point: the conditional taken). The pieces the body's stores leave in the two outputs' staging
    memrefs (last first), with the proof that on whole staging memrefs — the inputs' at contents `x·`, the outputs'
    at anything — the body runs to a continuation that is handed the inputs' as they were and each output's buffer
    with its pieces written. The pooled-sum block is zeroed before it is read, so what it held does not matter. -/
noncomputable def kernelRun3_A (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : cond3_0 i)
    (x0 : Vec F S5000x128 .f32) (x1 : Vec F S1x128 .f32) (x2 : Vec F S1x128 .f32) (x3 : Vec F S1x128 .f32) (x4 : Vec F S1x128 .f32) (x5 : Vec F S5000x1 .i32) :
    Σ' (L6 : List (View.Piece (Elt F) S5000x128 .f32)), { L7 : List (View.Piece (Elt F) S128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc3_kernel i arg1 harg1 arg2 harg2 arg3 harg3 arg4 harg4 arg5 harg5 arg6 harg6 arg7 harg7 arg8 harg8) K } := by
  refine ⟨?_, ?_, fun E K => ?run⟩
  case run =>
    simp only [cc3_kernel_eq_skeleton]; unfold cc3_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact H7

set_option maxHeartbeats 1000000 in
/-- CASE B (a later point: the conditional not taken). As case A, but the pooled-sum block is read before it is
    stored: its buffer is taken at the running contents `xo7`, which the pieces mention. -/
noncomputable def kernelRun3_B (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : ¬cond3_0 i)
    (x0 : Vec F S5000x128 .f32) (x1 : Vec F S1x128 .f32) (x2 : Vec F S1x128 .f32) (x3 : Vec F S1x128 .f32) (x4 : Vec F S1x128 .f32) (x5 : Vec F S5000x1 .i32) (xo7 : Vec F S128x128 .f32) :
    Σ' (L6 : List (View.Piece (Elt F) S5000x128 .f32)), { L7 : List (View.Piece (Elt F) S128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xo7
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc3_kernel i arg1 harg1 arg2 harg2 arg3 harg3 arg4 harg4 arg5 harg5 arg6 harg6 arg7 harg7 arg8 harg8) K } := by
  refine ⟨?_, ?_, fun E K => ?run⟩
  case run =>
    simp only [cc3_kernel_eq_skeleton]; unfold cc3_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact H7

/-! ## What each case leaves in the outputs -/

/-- Case A's pieces for output 6 tile its block, so they cover it. -/
theorem cover3_A_6 (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : cond3_0 i)
    (x0 : Vec F S5000x128 .f32) (x1 : Vec F S1x128 .f32) (x2 : Vec F S1x128 .f32) (x3 : Vec F S1x128 .f32) (x4 : Vec F S1x128 .f32) (x5 : Vec F S5000x1 .i32) (y : S5000x128.Idx) :
    ∃ pc ∈ (kernelRun3_A c i arg1 harg1 arg2 harg2 arg3 harg3 arg4 harg4 arg5 harg5 arg6 harg6 arg7 harg7 arg8 harg8 hc0 x0 x1 x2 x3 x4 x5).1, y ∈ pc.1.set :=
  View.cover_of_tiledL (kernelRun3_A c i arg1 harg1 arg2 harg2 arg3 harg3 arg4 harg4 arg5 harg5 arg6 harg6 arg7 harg7 arg8 harg8 hc0 x0 x1 x2 x3 x4 x5).1 S5000x128.size (by sl_kernel_rfl) y

/-- What case A leaves in output 6's staging buffer: its pieces read back over junk. -/
def out3_A_6 (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : cond3_0 i)
    (x0 : Vec F S5000x128 .f32) (x1 : Vec F S1x128 .f32) (x2 : Vec F S1x128 .f32) (x3 : Vec F S1x128 .f32) (x4 : Vec F S1x128 .f32) (x5 : Vec F S5000x1 .i32) : Vec F S5000x128 .f32 :=
  VO3_6.read (Elt F) (VO3_6.writes (Elt F) VO3_6.junk (kernelRun3_A c i arg1 harg1 arg2 harg2 arg3 harg3 arg4 harg4 arg5 harg5 arg6 harg6 arg7 harg7 arg8 harg8 hc0 x0 x1 x2 x3 x4 x5).1)

/-- Case A's pieces for output 7 tile its block, so they cover it. -/
theorem cover3_A_7 (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : cond3_0 i)
    (x0 : Vec F S5000x128 .f32) (x1 : Vec F S1x128 .f32) (x2 : Vec F S1x128 .f32) (x3 : Vec F S1x128 .f32) (x4 : Vec F S1x128 .f32) (x5 : Vec F S5000x1 .i32) (y : S128x128.Idx) :
    ∃ pc ∈ (kernelRun3_A c i arg1 harg1 arg2 harg2 arg3 harg3 arg4 harg4 arg5 harg5 arg6 harg6 arg7 harg7 arg8 harg8 hc0 x0 x1 x2 x3 x4 x5).2.1, y ∈ pc.1.set :=
  View.cover_of_tiledL (kernelRun3_A c i arg1 harg1 arg2 harg2 arg3 harg3 arg4 harg4 arg5 harg5 arg6 harg6 arg7 harg7 arg8 harg8 hc0 x0 x1 x2 x3 x4 x5).2.1 S128x128.size (by sl_kernel_rfl) y

/-- What case A leaves in output 7's staging buffer: its pieces read back over junk. -/
def out3_A_7 (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : cond3_0 i)
    (x0 : Vec F S5000x128 .f32) (x1 : Vec F S1x128 .f32) (x2 : Vec F S1x128 .f32) (x3 : Vec F S1x128 .f32) (x4 : Vec F S1x128 .f32) (x5 : Vec F S5000x1 .i32) : Vec F S128x128 .f32 :=
  VO3_7.read (Elt F) (VO3_7.writes (Elt F) VO3_7.junk (kernelRun3_A c i arg1 harg1 arg2 harg2 arg3 harg3 arg4 harg4 arg5 harg5 arg6 harg6 arg7 harg7 arg8 harg8 hc0 x0 x1 x2 x3 x4 x5).2.1)

/-- Case B's pieces for output 6 tile its block, so they cover it. -/
theorem cover3_B_6 (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : ¬cond3_0 i)
    (x0 : Vec F S5000x128 .f32) (x1 : Vec F S1x128 .f32) (x2 : Vec F S1x128 .f32) (x3 : Vec F S1x128 .f32) (x4 : Vec F S1x128 .f32) (x5 : Vec F S5000x1 .i32) (xo7 : Vec F S128x128 .f32) (y : S5000x128.Idx) :
    ∃ pc ∈ (kernelRun3_B c i arg1 harg1 arg2 harg2 arg3 harg3 arg4 harg4 arg5 harg5 arg6 harg6 arg7 harg7 arg8 harg8 hc0 x0 x1 x2 x3 x4 x5 xo7).1, y ∈ pc.1.set :=
  View.cover_of_tiledL (kernelRun3_B c i arg1 harg1 arg2 harg2 arg3 harg3 arg4 harg4 arg5 harg5 arg6 harg6 arg7 harg7 arg8 harg8 hc0 x0 x1 x2 x3 x4 x5 xo7).1 S5000x128.size (by sl_kernel_rfl) y

/-- What case B leaves in output 6's staging buffer: its pieces read back over junk. -/
def out3_B_6 (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : ¬cond3_0 i)
    (x0 : Vec F S5000x128 .f32) (x1 : Vec F S1x128 .f32) (x2 : Vec F S1x128 .f32) (x3 : Vec F S1x128 .f32) (x4 : Vec F S1x128 .f32) (x5 : Vec F S5000x1 .i32) (xo7 : Vec F S128x128 .f32) : Vec F S5000x128 .f32 :=
  VO3_6.read (Elt F) (VO3_6.writes (Elt F) VO3_6.junk (kernelRun3_B c i arg1 harg1 arg2 harg2 arg3 harg3 arg4 harg4 arg5 harg5 arg6 harg6 arg7 harg7 arg8 harg8 hc0 x0 x1 x2 x3 x4 x5 xo7).1)

/-- Case B's pieces for output 7 tile its block, so they cover it. -/
theorem cover3_B_7 (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : ¬cond3_0 i)
    (x0 : Vec F S5000x128 .f32) (x1 : Vec F S1x128 .f32) (x2 : Vec F S1x128 .f32) (x3 : Vec F S1x128 .f32) (x4 : Vec F S1x128 .f32) (x5 : Vec F S5000x1 .i32) (xo7 : Vec F S128x128 .f32) (y : S128x128.Idx) :
    ∃ pc ∈ (kernelRun3_B c i arg1 harg1 arg2 harg2 arg3 harg3 arg4 harg4 arg5 harg5 arg6 harg6 arg7 harg7 arg8 harg8 hc0 x0 x1 x2 x3 x4 x5 xo7).2.1, y ∈ pc.1.set :=
  View.cover_of_tiledL (kernelRun3_B c i arg1 harg1 arg2 harg2 arg3 harg3 arg4 harg4 arg5 harg5 arg6 harg6 arg7 harg7 arg8 harg8 hc0 x0 x1 x2 x3 x4 x5 xo7).2.1 S128x128.size (by sl_kernel_rfl) y

/-- What case B leaves in output 7's staging buffer: its pieces read back over junk. -/
def out3_B_7 (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : ¬cond3_0 i)
    (x0 : Vec F S5000x128 .f32) (x1 : Vec F S1x128 .f32) (x2 : Vec F S1x128 .f32) (x3 : Vec F S1x128 .f32) (x4 : Vec F S1x128 .f32) (x5 : Vec F S5000x1 .i32) (xo7 : Vec F S128x128 .f32) : Vec F S128x128 .f32 :=
  VO3_7.read (Elt F) (VO3_7.writes (Elt F) VO3_7.junk (kernelRun3_B c i arg1 harg1 arg2 harg2 arg3 harg3 arg4 harg4 arg5 harg5 arg6 harg6 arg7 harg7 arg8 harg8 hc0 x0 x1 x2 x3 x4 x5 xo7).2.1)

/-! ## What the outputs hold after each point -/

/-- The two outputs after a first-point body at `t`: case A at the point's memrefs and input blocks. -/
def pt3_A (c : Dev nD) (t : Fin cfg3.N) (h0 : t.val % 10 = 0) : Vec F S5000x128 .f32 × Vec F S128x128 .f32 :=
  (out3_A_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) ((hcond3_0 t).mpr h0) (iblk3 V c 0 t) (iblk3 V c 1 t) (iblk3 V c 2 t) (iblk3 V c 3 t) (iblk3 V c 4 t) (iblk3 V c 5 t),
   out3_A_7 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) ((hcond3_0 t).mpr h0) (iblk3 V c 0 t) (iblk3 V c 1 t) (iblk3 V c 2 t) (iblk3 V c 3 t) (iblk3 V c 4 t) (iblk3 V c 5 t))

/-- The two outputs after a later-point body at `t`, the pooled-sum block having held `xo7`: case B at the
    point's memrefs and input blocks. -/
def pt3_B (c : Dev nD) (t : Fin cfg3.N) (h0 : ¬t.val % 10 = 0) (xo7 : Vec F S128x128 .f32) : Vec F S5000x128 .f32 × Vec F S128x128 .f32 :=
  (out3_B_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (fun h => h0 ((hcond3_0 t).mp h)) (iblk3 V c 0 t) (iblk3 V c 1 t) (iblk3 V c 2 t) (iblk3 V c 3 t) (iblk3 V c 4 t) (iblk3 V c 5 t) xo7,
   out3_B_7 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (fun h => h0 ((hcond3_0 t).mp h)) (iblk3 V c 0 t) (iblk3 V c 1 t) (iblk3 V c 2 t) (iblk3 V c 3 t) (iblk3 V c 4 t) (iblk3 V c 5 t) xo7)

/-- THE ACCUMULATION. What the two outputs' staging buffers hold after the body at position `n`: the case the
    closed form selects at `n`, the pooled-sum block of a later point taken at what this leaves at `n - 1`
    (its buffer is not written back in between). -/
def outsAt3 (c : Dev nD) : (n : ℕ) → n < cfg3.N → Vec F S5000x128 .f32 × Vec F S128x128 .f32
  | 0, hn => pt3_A V c ⟨0, hn⟩ (Nat.zero_mod _)
  | n + 1, hn =>
    if h0 : (n + 1) % 10 = 0 then pt3_A V c ⟨n + 1, hn⟩ h0
    else pt3_B V c ⟨n + 1, hn⟩ h0 (outsAt3 c n (Nat.lt_of_succ_lt hn)).2

/-- `outsAt3` at a point of case A: that case's contents. -/
theorem outsAt3_A (c : Dev nD) (t : Fin cfg3.N) (h0 : t.val % 10 = 0) :
    outsAt3 V c t.val t.isLt = pt3_A V c t h0 := by
  obtain ⟨n, hn⟩ := t
  cases n with
  | zero => exact rfl
  | succ n => exact (dif_pos h0).trans rfl

/-- `outsAt3` at a point of case B: that case's contents, over what the point before left. -/
theorem outsAt3_B (c : Dev nD) (t : Fin cfg3.N) (h0 : ¬t.val % 10 = 0) :
    outsAt3 V c t.val t.isLt = pt3_B V c t h0 (outsAt3 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans rfl

/-! ## The pipeline's proof data -/

/-- The proof data of the region's pipeline on core `c`: the arrays as the region finds them (`V`); after the body
    at point `t` each input's buffer at its block and the outputs' at `outsAt3`; the invariant the scoped rest
    and the generator register; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => (outsAt3 V c t.val t.isLt).1
    | ⟨7, _⟩ => (outsAt3 V c t.val t.isLt).2
  Φ _ := Pipeline.ΦA spec3 c
  q _ := fullShare
  owed _ := 0

/-- The proof data's arrays are the region-entry contents (the definition projected). -/
theorem A_eq3 (c : Dev nD) (w : Fin cfg3.W) : (dat3 V c).A w = V c (Pipeline.arrRef spec3 w) := by
  dsimp only [dat3]

/-- What the body leaves, window by window (the proof data's `match` reduced). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = (outsAt3 V c t.val t.isLt).1 := by dsimp only [dat3]
theorem after3_7 (c : Dev nD) (t : Fin cfg3.N) : (dat3 V c).after 7 t = (outsAt3 V c t.val t.isLt).2 := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-- At a later point the pooled-sum window's staging buffer holds what the body left at the point before: the point is
    not the first, the buffer was not written back in between (it is written back after the last point only), and the
    window is live and uncut. -/
theorem before3_7_B (c : Dev nD) (t : Fin cfg3.N) (h0 : ¬t.val % 10 = 0) (d) :
    (dat3 V c).before 7 t d = (outsAt3 V c (t.val - 1) (Nat.lt_of_le_of_lt (Nat.sub_le _ _) t.isLt)).2 := by
  have hN : t.val < 10 := lt_of_lt_of_eq t.isLt (show cfg3.N = 10 from N_3)
  rw [Dat.before_out_kept _ 7 rfl t (by omega) (Bool.eq_false_iff.mpr fun h => by have := (flush3_7 _).mp h; dsimp only at this; omega)
    (fun _ => rfl) (fun _ _ => rfl)]
  dsimp only [dat3]

/-! ## The body obligation, at a generic point -/

/-- What the body is called with at point `t`: the invariant, what the core owes, and every window's current staging
    buffer at what the proof data say it holds before the body; -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d))
    ∗ (∃ d, owns (c : Thread nD τ) (ms3_7 t) fullShare ((dat3 V c).before 7 t d)))

/-- and what it returns: the same with every buffer at what the data say the body leaves. -/
def bodyPost3 (c : Dev nD) (t : Fin cfg3.N) : sProp 𝕄 :=
  iprop((dat3 V c).Φ t.succ ∗ (dat3 V c).owesAt () t.succ
    ∗ owns (c : Thread nD τ) (ms3_0 t) fullShare ((dat3 V c).after 0 t)
    ∗ owns (c : Thread nD τ) (ms3_1 t) fullShare ((dat3 V c).after 1 t)
    ∗ owns (c : Thread nD τ) (ms3_2 t) fullShare ((dat3 V c).after 2 t)
    ∗ owns (c : Thread nD τ) (ms3_3 t) fullShare ((dat3 V c).after 3 t)
    ∗ owns (c : Thread nD τ) (ms3_4 t) fullShare ((dat3 V c).after 4 t)
    ∗ owns (c : Thread nD τ) (ms3_5 t) fullShare ((dat3 V c).after 5 t)
    ∗ owns (c : Thread nD τ) (ms3_6 t) fullShare ((dat3 V c).after 6 t)
    ∗ owns (c : Thread nD τ) (ms3_7 t) fullShare ((dat3 V c).after 7 t))

set_option maxHeartbeats 1600000 in
/-- The body at any point: the inputs' memrefs hold their blocks; the closed form of the condition says which case
    the point is in; in case B the pooled-sum buffer holds what the point before left; so the case's run applies, and
    a covering list of pieces reads back the same through any view. The invariant and what the core owes pass
    through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  have hN : t.val < 10 := lt_of_lt_of_eq t.isLt (show cfg3.N = 10 from N_3)
  by_cases h0 : t.val % 10 = 0
  · rw [outsAt3_A V c t h0]
    dsimp only [pt3_A]
    unfold out3_A_6 out3_A_7
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun3_A c (grid3.coords t) _ _ _ _ _ _ _ _ _ _ _ _ _ _ _ _ ((hcond3_0 t).mpr h0) (iblk3 V c 0 t) (iblk3 V c 1 t) (iblk3 V c 2 t) (iblk3 V c 3 t) (iblk3 V c 4 t) (iblk3 V c 5 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    iintro ⟨H0, H1, H2, H3, H4, H5, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover3_A_6 c _ _ _ _ _ _ _ _ _ _ _ _ _ _ _ _ _ _ _ _ _ _ _ _)
    unfold owns; iexists _; isplitr
    swap; · iexact H7
    ipureintro; exact View.read_writes_of_cover _ _ _ _ _ (cover3_A_7 c _ _ _ _ _ _ _ _ _ _ _ _ _ _ _ _ _ _ _ _ _ _ _ _)
  · rw [outsAt3_B V c t h0]
    simp only [before3_7_B V c t h0]
    dsimp only [pt3_B]
    unfold out3_B_6 out3_B_7
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun3_B c (grid3.coords t) _ _ _ _ _ _ _ _ _ _ _ _ _ _ _ _ (fun h => h0 ((hcond3_0 t).mp h)) (iblk3 V c 0 t) (iblk3 V c 1 t) (iblk3 V c 2 t) (iblk3 V c 3 t) (iblk3 V c 4 t) (iblk3 V c 5 t) _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    iintro ⟨H0, H1, H2, H3, H4, H5, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover3_B_6 c _ _ _ _ _ _ _ _ _ _ _ _ _ _ _ _ _ _ _ _ _ _ _ _ _)
    unfold owns; iexists _; isplitr
    swap; · iexact H7
    ipureintro; exact View.read_writes_of_cover _ _ _ _ _ (cover3_B_7 c _ _ _ _ _ _ _ _ _ _ _ _ _ _ _ _ _ _ _ _ _ _ _ _ _)

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Reg

end
-- ==== Proof.K.Reg4.lean ====
import proofs.«144276_j65051574665788_2_alg».proof.Proof.Gen.Kernel.Launch
import proofs.«144276_j65051574665788_2_alg».proof.Proof.Gen.Kernel.Skeleton
import proofs.«144276_j65051574665788_2_alg».proof.Proof.Gen.Kernel.Points
import Idealize.ShloMosaic.Lib.Pipeline.FrameBody
import Idealize.ShloMosaic.Lib.Ring
import Idealize.ShloMosaic.Lib.Tactic

/-! # Region 4 of @main: the layer transform, at the entry contents `V`

The body computes `agg·Wl + h·Wr + bl` into a row block of the first output and adds the block's column sums and
column sums of squares into the second and third outputs, whose single block is revisited at every grid point:
at the first point the two are zeroed first, at a later point they hold what the point before left. Hence two
control cases. Per case the body is run once on arbitrary whole memrefs, the stores it makes into each output
being the witness of the run; the outputs' contents point by point are then a recursion on the point, and the
body obligation follows by cases on the point. Everything is stated at a parameter `V`, the TensorCore's buffer
contents when the region is entered, and at any float instance. -/

-- membership in a rectangle with a long axis recurses once per coordinate
set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof data
    whose array is the entry contents (`hA`) and whose body leaves the block in place (`hafter`): unfetched, the block
    index has not moved; the window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not, for any proof data
    whose array is the entry contents (`hA`) and whose body leaves the block in place (`hafter`): unfetched, the block
    index has not moved; the window is uncut and never idle. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not, for any proof data
    whose array is the entry contents (`hA`) and whose body leaves the block in place (`hafter`): unfetched, the block
    index has not moved; the window is uncut and never idle. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not, for any proof data
    whose array is the entry contents (`hA`) and whose body leaves the block in place (`hafter`): unfetched, the block
    index has not moved; the window is uncut and never idle. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, fetched there or not, for any proof data
    whose array is the entry contents (`hA`) and whose body leaves the block in place (`hafter`): unfetched, the block
    index has not moved; the window is uncut and never idle. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The body's branch condition -/

/-- The condition of the body's one conditional, from the grid coordinates: the point is the first. -/
abbrev cond4_0 (i : grid4.Coords) : Prop := (Scalar.cmpi .ne (Scalar.extui (Scalar.cmpi .eq (BitVec.ofNat 32 (i 0).val) 0#32)) 0#32) = 1#1
/-- It holds at the first point only: decided over the ten points. -/
theorem hcond4_0 : ∀ t : Fin cfg4.N, cond4_0 (grid4.coords t) ↔ t.val % 10 = 0 :=
  (by decide +kernel : ∀ t : Fin grid4.N, cond4_0 (grid4.coords t) ↔ t.val % 10 = 0)

/-! ## The staging memrefs -/

/-- One staging buffer of each output window, through which its contents are stated (a covering list of writes
    reads back the same through any view). -/
abbrev VO4_5 : View sig .tc .vmem S5000x128 .f32 := (Memref.whole cc4_stg5_0 : Memref sig .tc .vmem S5000x128 .f32).view
abbrev VO4_6 : View sig .tc .vmem S1x128 .f32 := (Memref.whole cc4_stg6_0 : Memref sig .tc .vmem S1x128 .f32).view
abbrev VO4_7 : View sig .tc .vmem S1x128 .f32 := (Memref.whole cc4_stg7_0 : Memref sig .tc .vmem S1x128 .f32).view
/-- Each window's current staging memref at point `t`, spelled as the pipeline passes it, and its wholeness. -/
abbrev ms4_0 (t : Fin cfg4.N) : Memref sig .tc .vmem S5000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S5000x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S128x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S128x128 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x128 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S5000x128 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S1x128 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S1x128 .f32 := win4_7.stage (cfg4.slots t 7)
abbrev hs4_7 (t : Fin cfg4.N) : (ms4_7 t).IsWhole := hstage4_7 ((cfg4.slots t 7).cast nbuf4_7)

/-! ## The body on any whole memrefs, case by case -/

set_option maxHeartbeats 1000000 in
/-- THE FIRST POINT. The pieces the body's stores leave in each output's memref (last first), with the proof that on
    whole memrefs — the inputs' at contents `x·`, the outputs' at anything — the body runs to the continuation
    holding the inputs' as they were and each output's with its pieces written. The conditional is taken: the two
    accumulators are zeroed, then read back and added to. -/
noncomputable def kernelRun4_A (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : cond4_0 i)
    (x0 : Vec F S5000x128 .f32) (x1 : Vec F S5000x128 .f32) (x2 : Vec F S128x128 .f32) (x3 : Vec F S128x128 .f32) (x4 : Vec F S1x128 .f32) :
    Σ' (L5 : List (View.Piece (Elt F) S5000x128 .f32)) (L6 : List (View.Piece (Elt F) S1x128 .f32)), { L7 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc4__layer_transform_kernel i arg1 harg1 arg2 harg2 arg3 harg3 arg4 harg4 arg5 harg5 arg6 harg6 arg7 harg7 arg8 harg8) K } := by
  refine ⟨?_, ?_, ?_, fun E K => ?run⟩
  case run =>
    simp only [cc4__layer_transform_kernel_eq_skeleton]; unfold cc4__layer_transform_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    iexists _; iexact H7

set_option maxHeartbeats 1000000 in
/-- A LATER POINT. The same with the conditional not taken: the two accumulators' memrefs are handed over at the
    running contents `xo6`, `xo7`, which the body reads before it covers them. -/
noncomputable def kernelRun4_B (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i)
    (x0 : Vec F S5000x128 .f32) (x1 : Vec F S5000x128 .f32) (x2 : Vec F S128x128 .f32) (x3 : Vec F S128x128 .f32) (x4 : Vec F S1x128 .f32) (xo6 : Vec F S1x128 .f32) (xo7 : Vec F S1x128 .f32) :
    Σ' (L5 : List (View.Piece (Elt F) S5000x128 .f32)) (L6 : List (View.Piece (Elt F) S1x128 .f32)), { L7 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ owns (c : Thread nD τ) arg7 fullShare xo6 ∗ owns (c : Thread nD τ) arg8 fullShare xo7
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc4__layer_transform_kernel i arg1 harg1 arg2 harg2 arg3 harg3 arg4 harg4 arg5 harg5 arg6 harg6 arg7 harg7 arg8 harg8) K } := by
  refine ⟨?_, ?_, ?_, fun E K => ?run⟩
  case run =>
    simp only [cc4__layer_transform_kernel_eq_skeleton]; unfold cc4__layer_transform_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
    obtain rfl := harg1.eq_unread hf0; obtain rfl := harg2.eq_unread hf1; obtain rfl := harg3.eq_unread hf2
    obtain rfl := harg4.eq_unread hf3; obtain rfl := harg5.eq_unread hf4
    obtain rfl := harg7.eq_unread hf6; obtain rfl := harg8.eq_unread hf7
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    iexists _; iexact H7

/-! ## The pieces cover the outputs' blocks -/

/-- Case A's pieces for output 5 tile its block, so they cover it. -/
theorem cover4_A_5 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : cond4_0 i)
    (x0 : Vec F S5000x128 .f32) (x1 : Vec F S5000x128 .f32) (x2 : Vec F S128x128 .f32) (x3 : Vec F S128x128 .f32) (x4 : Vec F S1x128 .f32) (y : S5000x128.Idx) :
    ∃ pc ∈ (kernelRun4_A c i arg1 harg1 arg2 harg2 arg3 harg3 arg4 harg4 arg5 harg5 arg6 harg6 arg7 harg7 arg8 harg8 hc0 x0 x1 x2 x3 x4).1, y ∈ pc.1.set :=
  View.cover_of_tiledL (kernelRun4_A c i arg1 harg1 arg2 harg2 arg3 harg3 arg4 harg4 arg5 harg5 arg6 harg6 arg7 harg7 arg8 harg8 hc0 x0 x1 x2 x3 x4).1 S5000x128.size (by sl_kernel_rfl) y

/-- Case A's pieces for output 6 tile its block, so they cover it. -/
theorem cover4_A_6 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : cond4_0 i)
    (x0 : Vec F S5000x128 .f32) (x1 : Vec F S5000x128 .f32) (x2 : Vec F S128x128 .f32) (x3 : Vec F S128x128 .f32) (x4 : Vec F S1x128 .f32) (y : S1x128.Idx) :
    ∃ pc ∈ (kernelRun4_A c i arg1 harg1 arg2 harg2 arg3 harg3 arg4 harg4 arg5 harg5 arg6 harg6 arg7 harg7 arg8 harg8 hc0 x0 x1 x2 x3 x4).2.1, y ∈ pc.1.set :=
  View.cover_of_tiledL (kernelRun4_A c i arg1 harg1 arg2 harg2 arg3 harg3 arg4 harg4 arg5 harg5 arg6 harg6 arg7 harg7 arg8 harg8 hc0 x0 x1 x2 x3 x4).2.1 S1x128.size (by sl_kernel_rfl) y

/-- Case A's pieces for output 7 tile its block, so they cover it. -/
theorem cover4_A_7 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : cond4_0 i)
    (x0 : Vec F S5000x128 .f32) (x1 : Vec F S5000x128 .f32) (x2 : Vec F S128x128 .f32) (x3 : Vec F S128x128 .f32) (x4 : Vec F S1x128 .f32) (y : S1x128.Idx) :
    ∃ pc ∈ (kernelRun4_A c i arg1 harg1 arg2 harg2 arg3 harg3 arg4 harg4 arg5 harg5 arg6 harg6 arg7 harg7 arg8 harg8 hc0 x0 x1 x2 x3 x4).2.2.1, y ∈ pc.1.set :=
  View.cover_of_tiledL (kernelRun4_A c i arg1 harg1 arg2 harg2 arg3 harg3 arg4 harg4 arg5 harg5 arg6 harg6 arg7 harg7 arg8 harg8 hc0 x0 x1 x2 x3 x4).2.2.1 S1x128.size (by sl_kernel_rfl) y

/-- Case B's pieces for output 5 tile its block, so they cover it. -/
theorem cover4_B_5 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i)
    (x0 : Vec F S5000x128 .f32) (x1 : Vec F S5000x128 .f32) (x2 : Vec F S128x128 .f32) (x3 : Vec F S128x128 .f32) (x4 : Vec F S1x128 .f32) (xo6 : Vec F S1x128 .f32) (xo7 : Vec F S1x128 .f32) (y : S5000x128.Idx) :
    ∃ pc ∈ (kernelRun4_B c i arg1 harg1 arg2 harg2 arg3 harg3 arg4 harg4 arg5 harg5 arg6 harg6 arg7 harg7 arg8 harg8 hc0 x0 x1 x2 x3 x4 xo6 xo7).1, y ∈ pc.1.set :=
  View.cover_of_tiledL (kernelRun4_B c i arg1 harg1 arg2 harg2 arg3 harg3 arg4 harg4 arg5 harg5 arg6 harg6 arg7 harg7 arg8 harg8 hc0 x0 x1 x2 x3 x4 xo6 xo7).1 S5000x128.size (by sl_kernel_rfl) y

/-- Case B's pieces for output 6 tile its block, so they cover it. -/
theorem cover4_B_6 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i)
    (x0 : Vec F S5000x128 .f32) (x1 : Vec F S5000x128 .f32) (x2 : Vec F S128x128 .f32) (x3 : Vec F S128x128 .f32) (x4 : Vec F S1x128 .f32) (xo6 : Vec F S1x128 .f32) (xo7 : Vec F S1x128 .f32) (y : S1x128.Idx) :
    ∃ pc ∈ (kernelRun4_B c i arg1 harg1 arg2 harg2 arg3 harg3 arg4 harg4 arg5 harg5 arg6 harg6 arg7 harg7 arg8 harg8 hc0 x0 x1 x2 x3 x4 xo6 xo7).2.1, y ∈ pc.1.set :=
  View.cover_of_tiledL (kernelRun4_B c i arg1 harg1 arg2 harg2 arg3 harg3 arg4 harg4 arg5 harg5 arg6 harg6 arg7 harg7 arg8 harg8 hc0 x0 x1 x2 x3 x4 xo6 xo7).2.1 S1x128.size (by sl_kernel_rfl) y

/-- Case B's pieces for output 7 tile its block, so they cover it. -/
theorem cover4_B_7 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i)
    (x0 : Vec F S5000x128 .f32) (x1 : Vec F S5000x128 .f32) (x2 : Vec F S128x128 .f32) (x3 : Vec F S128x128 .f32) (x4 : Vec F S1x128 .f32) (xo6 : Vec F S1x128 .f32) (xo7 : Vec F S1x128 .f32) (y : S1x128.Idx) :
    ∃ pc ∈ (kernelRun4_B c i arg1 harg1 arg2 harg2 arg3 harg3 arg4 harg4 arg5 harg5 arg6 harg6 arg7 harg7 arg8 harg8 hc0 x0 x1 x2 x3 x4 xo6 xo7).2.2.1, y ∈ pc.1.set :=
  View.cover_of_tiledL (kernelRun4_B c i arg1 harg1 arg2 harg2 arg3 harg3 arg4 harg4 arg5 harg5 arg6 harg6 arg7 harg7 arg8 harg8 hc0 x0 x1 x2 x3 x4 xo6 xo7).2.2.1 S1x128.size (by sl_kernel_rfl) y

/-! ## What the outputs hold after each point -/

/-- The first-point run at point `t`'s memrefs and input blocks. -/
abbrev runA4 (c : Dev nD) (t : Fin cfg4.N) (h0 : t.val % 10 = 0) :=
  kernelRun4_A (F := F) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) ((hcond4_0 t).mpr h0) (iblk4 V c 0 t) (iblk4 V c 1 t) (iblk4 V c 2 t) (iblk4 V c 3 t) (iblk4 V c 4 t)

/-- The later-point run at point `t`'s memrefs and input blocks, the accumulators at `xo6`, `xo7`. -/
abbrev runB4 (c : Dev nD) (t : Fin cfg4.N) (h0 : ¬t.val % 10 = 0) (xo6 : Vec F S1x128 .f32) (xo7 : Vec F S1x128 .f32) :=
  kernelRun4_B (F := F) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (fun h => h0 ((hcond4_0 t).mp h)) (iblk4 V c 0 t) (iblk4 V c 1 t) (iblk4 V c 2 t) (iblk4 V c 3 t) (iblk4 V c 4 t) xo6 xo7

/-- What the first-point case leaves in the three outputs' staging buffers: its pieces read back over junk. -/
def outsA4 (c : Dev nD) (t : Fin cfg4.N) (h0 : t.val % 10 = 0) : Vec F S5000x128 .f32 × Vec F S1x128 .f32 × Vec F S1x128 .f32 :=
  (VO4_5.read (Elt F) (VO4_5.writes (Elt F) VO4_5.junk (runA4 V c t h0).1),
   VO4_6.read (Elt F) (VO4_6.writes (Elt F) VO4_6.junk (runA4 V c t h0).2.1),
   VO4_7.read (Elt F) (VO4_7.writes (Elt F) VO4_7.junk (runA4 V c t h0).2.2.1))

/-- What the later-point case leaves there, over accumulators at `xo6`, `xo7`. -/
def outsB4 (c : Dev nD) (t : Fin cfg4.N) (h0 : ¬t.val % 10 = 0) (xo6 : Vec F S1x128 .f32) (xo7 : Vec F S1x128 .f32) :
    Vec F S5000x128 .f32 × Vec F S1x128 .f32 × Vec F S1x128 .f32 :=
  (VO4_5.read (Elt F) (VO4_5.writes (Elt F) VO4_5.junk (runB4 V c t h0 xo6 xo7).1),
   VO4_6.read (Elt F) (VO4_6.writes (Elt F) VO4_6.junk (runB4 V c t h0 xo6 xo7).2.1),
   VO4_7.read (Elt F) (VO4_7.writes (Elt F) VO4_7.junk (runB4 V c t h0 xo6 xo7).2.2.1))

/-- THE ACCUMULATION. What the three outputs' staging buffers hold after the body at position `n`: the case the
    point is in, run at the point's memrefs and input blocks, the two accumulators at what this leaves at `n - 1`
    (their buffer is not written back in between). -/
def outsAt4 (c : Dev nD) : (n : ℕ) → n < cfg4.N → Vec F S5000x128 .f32 × Vec F S1x128 .f32 × Vec F S1x128 .f32
  | 0, hn => outsA4 V c ⟨0, hn⟩ (Nat.zero_mod _)
  | n + 1, hn =>
    if h0 : (n + 1) % 10 = 0 then
      outsA4 V c ⟨n + 1, hn⟩ h0
    else
      outsB4 V c ⟨n + 1, hn⟩ h0 (outsAt4 c n (Nat.lt_of_succ_lt hn)).2.1 (outsAt4 c n (Nat.lt_of_succ_lt hn)).2.2

/-- `outsAt4` at a first point: that case's contents. -/
theorem outsAt4_A (c : Dev nD) (t : Fin cfg4.N) (h0 : t.val % 10 = 0) :
    outsAt4 V c t.val t.isLt = outsA4 V c t h0 := by
  obtain ⟨n, hn⟩ := t
  cases n with
  | zero => exact rfl
  | succ n => exact (dif_pos h0).trans rfl

/-- `outsAt4` at a later point: that case's contents, over what the point before left. -/
theorem outsAt4_B (c : Dev nD) (t : Fin cfg4.N) (h0 : ¬t.val % 10 = 0) :
    outsAt4 V c t.val t.isLt = outsB4 V c t h0
      (outsAt4 V c (t.val - 1) (Nat.lt_of_le_of_lt (Nat.sub_le _ _) t.isLt)).2.1
      (outsAt4 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans rfl

/-! ## The pipeline's proof data -/

/-- The proof data of the region's pipeline on core `c`: the arrays as the region finds them (`V`); after the body
    at point `t` each input's buffer at its block and the outputs' at `outsAt4`; the invariant the scoped rest
    and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => (outsAt4 V c t.val t.isLt).1
    | ⟨6, _⟩ => (outsAt4 V c t.val t.isLt).2.1
    | ⟨7, _⟩ => (outsAt4 V c t.val t.isLt).2.2
  Φ _ := Pipeline.ΦA spec4 c
  q _ := fullShare
  owed _ := 0

/-- The proof data's arrays are the region-entry contents (the definition projected). -/
theorem A_eq4 (c : Dev nD) (w : Fin cfg4.W) : (dat4 V c).A w = V c (Pipeline.arrRef spec4 w) := by
  dsimp only [dat4]

/-- What the body leaves, window by window (the definition's `match` reduced). -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = (outsAt4 V c t.val t.isLt).1 := by dsimp only [dat4]
theorem after4_6 (c : Dev nD) (t : Fin cfg4.N) : (dat4 V c).after 6 t = (outsAt4 V c t.val t.isLt).2.1 := by dsimp only [dat4]
theorem after4_7 (c : Dev nD) (t : Fin cfg4.N) : (dat4 V c).after 7 t = (outsAt4 V c t.val t.isLt).2.2 := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-- At a later point output 6's staging buffer holds what the body left at the point before: the buffer is written
    back at the last point only, and the window is live and uncut. -/
theorem before4_6_B (c : Dev nD) (t : Fin cfg4.N) (h0 : ¬t.val % 10 = 0) (d) :
    (dat4 V c).before 6 t d = (outsAt4 V c (t.val - 1) (Nat.lt_of_le_of_lt (Nat.sub_le _ _) t.isLt)).2.1 := by
  have hN : t.val < 10 := lt_of_lt_of_eq t.isLt (show cfg4.N = 10 from N_4)
  rw [Dat.before_out_kept _ 6 rfl t (by omega) (Bool.eq_false_iff.mpr fun h => by have := (flush4_6 _).mp h; dsimp only at this; omega)
    (fun _ => rfl) (fun _ _ => rfl)]
  dsimp only [dat4]

/-- At a later point output 7's staging buffer holds what the body left at the point before: the buffer is written
    back at the last point only, and the window is live and uncut. -/
theorem before4_7_B (c : Dev nD) (t : Fin cfg4.N) (h0 : ¬t.val % 10 = 0) (d) :
    (dat4 V c).before 7 t d = (outsAt4 V c (t.val - 1) (Nat.lt_of_le_of_lt (Nat.sub_le _ _) t.isLt)).2.2 := by
  have hN : t.val < 10 := lt_of_lt_of_eq t.isLt (show cfg4.N = 10 from N_4)
  rw [Dat.before_out_kept _ 7 rfl t (by omega) (Bool.eq_false_iff.mpr fun h => by have := (flush4_7 _).mp h; dsimp only at this; omega)
    (fun _ => rfl) (fun _ _ => rfl)]
  dsimp only [dat4]

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d)))

/-- and what it returns. -/
def bodyPost4 (c : Dev nD) (t : Fin cfg4.N) : sProp 𝕄 :=
  iprop((dat4 V c).Φ t.succ ∗ (dat4 V c).owesAt () t.succ
    ∗ owns (c : Thread nD τ) (ms4_0 t) fullShare ((dat4 V c).after 0 t)
    ∗ owns (c : Thread nD τ) (ms4_1 t) fullShare ((dat4 V c).after 1 t)
    ∗ owns (c : Thread nD τ) (ms4_2 t) fullShare ((dat4 V c).after 2 t)
    ∗ owns (c : Thread nD τ) (ms4_3 t) fullShare ((dat4 V c).after 3 t)
    ∗ owns (c : Thread nD τ) (ms4_4 t) fullShare ((dat4 V c).after 4 t)
    ∗ owns (c : Thread nD τ) (ms4_5 t) fullShare ((dat4 V c).after 5 t)
    ∗ owns (c : Thread nD τ) (ms4_6 t) fullShare ((dat4 V c).after 6 t)
    ∗ owns (c : Thread nD τ) (ms4_7 t) fullShare ((dat4 V c).after 7 t))

set_option maxHeartbeats 1600000 in
/-- The body at any point: the inputs' memrefs hold their blocks; the closed form of the condition says which case
    the point is in; at a later point the two accumulators hold what the point before left; so the case's run
    applies, and its pieces, covering each output's block, read back as `outsAt4` says. The invariant passes
    through unread and the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7]
  have hN : t.val < 10 := lt_of_lt_of_eq t.isLt (show cfg4.N = 10 from N_4)
  by_cases h0 : t.val % 10 = 0
  · rw [outsAt4_A V c t h0]
    unfold outsA4; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runA4 V c t h0).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    iintro ⟨H0, H1, H2, H3, H4, ⟨%e5, H5⟩, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover4_A_5 c _ _ _ _ _ _ _ _ _ _ _ _ _ _ _ _ _ _ _ _ _ _ _)
    isplitl [H6]
    · unfold owns; iexists _; isplitr
      swap; · iexact H6
      ipureintro; exact View.read_writes_of_cover _ _ _ _ _ (cover4_A_6 c _ _ _ _ _ _ _ _ _ _ _ _ _ _ _ _ _ _ _ _ _ _ _)
    unfold owns; iexists _; isplitr
    swap; · iexact H7
    ipureintro; exact View.read_writes_of_cover _ _ _ _ _ (cover4_A_7 c _ _ _ _ _ _ _ _ _ _ _ _ _ _ _ _ _ _ _ _ _ _ _)
  · rw [outsAt4_B V c t h0]
    simp only [before4_6_B V c t h0, before4_7_B V c t h0]
    unfold outsB4; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runB4 V c t h0 _ _).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    iintro ⟨H0, H1, H2, H3, H4, ⟨%e5, H5⟩, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover4_B_5 c _ _ _ _ _ _ _ _ _ _ _ _ _ _ _ _ _ _ _ _ _ _ _ _ _)
    isplitl [H6]
    · unfold owns; iexists _; isplitr
      swap; · iexact H6
      ipureintro; exact View.read_writes_of_cover _ _ _ _ _ (cover4_B_6 c _ _ _ _ _ _ _ _ _ _ _ _ _ _ _ _ _ _ _ _ _ _ _ _ _)
    unfold owns; iexists _; isplitr
    swap; · iexact H7
    ipureintro; exact View.read_writes_of_cover _ _ _ _ _ (cover4_B_7 c _ _ _ _ _ _ _ _ _ _ _ _ _ _ _ _ _ _ _ _ _ _ _ _ _)

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Reg

end
-- ==== Proof.K.Reg5.lean ====
import proofs.«144276_j65051574665788_2_alg».proof.Proof.Gen.Kernel.Launch
import proofs.«144276_j65051574665788_2_alg».proof.Proof.Gen.Kernel.Skeleton
import proofs.«144276_j65051574665788_2_alg».proof.Proof.Gen.Kernel.Points
import Idealize.ShloMosaic.Lib.Pipeline.FrameBody
import Idealize.ShloMosaic.Lib.Ring
import Idealize.ShloMosaic.Lib.Tactic

/-! # Region 5 of @main: the normalisation and pooling call, at the entry contents `V`

The body's half of the region's frame: for any contents `V` of the core's buffers at the region's entry, the
proof data of the pipeline (what every window's staging buffer holds before and after the body at every grid
point) and the body obligation — the body, run at any grid point on buffers holding what the data say, ends
with them holding what the data say, touching nothing else.

The body has two control cases. At the first grid point the pooled-sum block (window 7) is zeroed and then
added to; at every later point it is read at what the point before left and added to. The normalised block
(window 6) is stored whole at every point. What the two outputs hold after each point is therefore a recursion
on the point, the pooled-sum block carried from the point before. -/

-- membership in a rectangle of large extents recurses once per coordinate of the long axes
set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0: its current staging buffer holds its block at every point, whether fetched there or not
    (unfetched, the block index has not moved since the fetch), for any proof data whose array is `V`'s and whose
    body leaves the block in place; the window is uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1: its current staging buffer holds its block at every point, whether fetched there or not
    (unfetched, the block index has not moved since the fetch), for any proof data whose array is `V`'s and whose
    body leaves the block in place; the window is uncut and never idle. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2: its current staging buffer holds its block at every point, whether fetched there or not
    (unfetched, the block index has not moved since the fetch), for any proof data whose array is `V`'s and whose
    body leaves the block in place; the window is uncut and never idle. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3: its current staging buffer holds its block at every point, whether fetched there or not
    (unfetched, the block index has not moved since the fetch), for any proof data whose array is `V`'s and whose
    body leaves the block in place; the window is uncut and never idle. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4: its current staging buffer holds its block at every point, whether fetched there or not
    (unfetched, the block index has not moved since the fetch), for any proof data whose array is `V`'s and whose
    body leaves the block in place; the window is uncut and never idle. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5: its current staging buffer holds its block at every point, whether fetched there or not
    (unfetched, the block index has not moved since the fetch), for any proof data whose array is `V`'s and whose
    body leaves the block in place; the window is uncut and never idle. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-! ## The body's branch condition -/

/-- The condition of the body's one conditional, as a function of the grid coordinates: "this is point 0". -/
abbrev cond5_0 (i : grid5.Coords) : Prop := (Scalar.cmpi .ne (Scalar.extui (Scalar.cmpi .eq (BitVec.ofNat 32 (i 0).val) 0#32)) 0#32) = 1#1
/-- It holds at the first point only — decided over the ten points of the grid. -/
theorem hcond5_0 : ∀ t : Fin cfg5.N, cond5_0 (grid5.coords t) ↔ t.val % 10 = 0 :=
  (by decide +kernel : ∀ t : Fin grid5.N, cond5_0 (grid5.coords t) ↔ t.val % 10 = 0)

/-! ## The staging memrefs -/

/-- One staging buffer of each output window, through which its contents are stated (a covering list of writes
    reads back the same through any view of the shape). -/
abbrev VO5_6 : View sig .tc .vmem S5000x128 .f32 := (Memref.whole cc5_stg6_0 : Memref sig .tc .vmem S5000x128 .f32).view
abbrev VO5_7 : View sig .tc .vmem S128x128 .f32 := (Memref.whole cc5_stg7_0 : Memref sig .tc .vmem S128x128 .f32).view
/-- Each window's current staging memref at point `t`, spelled as the pipeline passes it to the body, and its wholeness. -/
abbrev ms5_0 (t : Fin cfg5.N) : Memref sig .tc .vmem S5000x128 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S1x128 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x128 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1x128 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S1x128 .f32 := win5_4.stage (cfg5.slots t 4)
abbrev hs5_4 (t : Fin cfg5.N) : (ms5_4 t).IsWhole := hstage5_4 ((cfg5.slots t 4).cast nbuf5_4)
abbrev ms5_5 (t : Fin cfg5.N) : Memref sig .tc .vmem S5000x1 .i32 := win5_5.stage (cfg5.slots t 5)
abbrev hs5_5 (t : Fin cfg5.N) : (ms5_5 t).IsWhole := hstage5_5 ((cfg5.slots t 5).cast nbuf5_5)
abbrev ms5_6 (t : Fin cfg5.N) : Memref sig .tc .vmem S5000x128 .f32 := win5_6.stage (cfg5.slots t 6)
abbrev hs5_6 (t : Fin cfg5.N) : (ms5_6 t).IsWhole := hstage5_6 ((cfg5.slots t 6).cast nbuf5_6)
abbrev ms5_7 (t : Fin cfg5.N) : Memref sig .tc .vmem S128x128 .f32 := win5_7.stage (cfg5.slots t 7)
abbrev hs5_7 (t : Fin cfg5.N) : (ms5_7 t).IsWhole := hstage5_7 ((cfg5.slots t 7).cast nbuf5_7)

/-! ## The body on any staging memrefs, case by case -/

set_option maxHeartbeats 1000000 in
/-- CASE A (the first point: the conditional taken). The pieces the body's stores leave in the two outputs' staging
    memrefs (last first), with the proof that on whole staging memrefs — the inputs' at contents `x·`, the outputs'
    at anything — the body runs to a continuation that is handed the inputs' as they were and each output's buffer
    with its pieces written. The pooled-sum block is zeroed before it is read, so what it held does not matter. -/
noncomputable def kernelRun5_A (c : Dev nD) (i : grid5.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : cond5_0 i)
    (x0 : Vec F S5000x128 .f32) (x1 : Vec F S1x128 .f32) (x2 : Vec F S1x128 .f32) (x3 : Vec F S1x128 .f32) (x4 : Vec F S1x128 .f32) (x5 : Vec F S5000x1 .i32) :
    Σ' (L6 : List (View.Piece (Elt F) S5000x128 .f32)), { L7 : List (View.Piece (Elt F) S128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc5_kernel i arg1 harg1 arg2 harg2 arg3 harg3 arg4 harg4 arg5 harg5 arg6 harg6 arg7 harg7 arg8 harg8) K } := by
  refine ⟨?_, ?_, fun E K => ?run⟩
  case run =>
    simp only [cc5_kernel_eq_skeleton]; unfold cc5_kernel_skel
    simp only [k5_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact H7

set_option maxHeartbeats 1000000 in
/-- CASE B (a later point: the conditional not taken). As case A, but the pooled-sum block is read before it is
    stored: its buffer is taken at the running contents `xo7`, which the pieces mention. -/
noncomputable def kernelRun5_B (c : Dev nD) (i : grid5.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : ¬cond5_0 i)
    (x0 : Vec F S5000x128 .f32) (x1 : Vec F S1x128 .f32) (x2 : Vec F S1x128 .f32) (x3 : Vec F S1x128 .f32) (x4 : Vec F S1x128 .f32) (x5 : Vec F S5000x1 .i32) (xo7 : Vec F S128x128 .f32) :
    Σ' (L6 : List (View.Piece (Elt F) S5000x128 .f32)), { L7 : List (View.Piece (Elt F) S128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xo7
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc5_kernel i arg1 harg1 arg2 harg2 arg3 harg3 arg4 harg4 arg5 harg5 arg6 harg6 arg7 harg7 arg8 harg8) K } := by
  refine ⟨?_, ?_, fun E K => ?run⟩
  case run =>
    simp only [cc5_kernel_eq_skeleton]; unfold cc5_kernel_skel
    simp only [k5_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact H7

/-! ## What each case leaves in the outputs -/

/-- Case A's pieces for output 6 tile its block, so they cover it. -/
theorem cover5_A_6 (c : Dev nD) (i : grid5.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : cond5_0 i)
    (x0 : Vec F S5000x128 .f32) (x1 : Vec F S1x128 .f32) (x2 : Vec F S1x128 .f32) (x3 : Vec F S1x128 .f32) (x4 : Vec F S1x128 .f32) (x5 : Vec F S5000x1 .i32) (y : S5000x128.Idx) :
    ∃ pc ∈ (kernelRun5_A c i arg1 harg1 arg2 harg2 arg3 harg3 arg4 harg4 arg5 harg5 arg6 harg6 arg7 harg7 arg8 harg8 hc0 x0 x1 x2 x3 x4 x5).1, y ∈ pc.1.set :=
  View.cover_of_tiledL (kernelRun5_A c i arg1 harg1 arg2 harg2 arg3 harg3 arg4 harg4 arg5 harg5 arg6 harg6 arg7 harg7 arg8 harg8 hc0 x0 x1 x2 x3 x4 x5).1 S5000x128.size (by sl_kernel_rfl) y

/-- What case A leaves in output 6's staging buffer: its pieces read back over junk. -/
def out5_A_6 (c : Dev nD) (i : grid5.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : cond5_0 i)
    (x0 : Vec F S5000x128 .f32) (x1 : Vec F S1x128 .f32) (x2 : Vec F S1x128 .f32) (x3 : Vec F S1x128 .f32) (x4 : Vec F S1x128 .f32) (x5 : Vec F S5000x1 .i32) : Vec F S5000x128 .f32 :=
  VO5_6.read (Elt F) (VO5_6.writes (Elt F) VO5_6.junk (kernelRun5_A c i arg1 harg1 arg2 harg2 arg3 harg3 arg4 harg4 arg5 harg5 arg6 harg6 arg7 harg7 arg8 harg8 hc0 x0 x1 x2 x3 x4 x5).1)

/-- Case A's pieces for output 7 tile its block, so they cover it. -/
theorem cover5_A_7 (c : Dev nD) (i : grid5.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : cond5_0 i)
    (x0 : Vec F S5000x128 .f32) (x1 : Vec F S1x128 .f32) (x2 : Vec F S1x128 .f32) (x3 : Vec F S1x128 .f32) (x4 : Vec F S1x128 .f32) (x5 : Vec F S5000x1 .i32) (y : S128x128.Idx) :
    ∃ pc ∈ (kernelRun5_A c i arg1 harg1 arg2 harg2 arg3 harg3 arg4 harg4 arg5 harg5 arg6 harg6 arg7 harg7 arg8 harg8 hc0 x0 x1 x2 x3 x4 x5).2.1, y ∈ pc.1.set :=
  View.cover_of_tiledL (kernelRun5_A c i arg1 harg1 arg2 harg2 arg3 harg3 arg4 harg4 arg5 harg5 arg6 harg6 arg7 harg7 arg8 harg8 hc0 x0 x1 x2 x3 x4 x5).2.1 S128x128.size (by sl_kernel_rfl) y

/-- What case A leaves in output 7's staging buffer: its pieces read back over junk. -/
def out5_A_7 (c : Dev nD) (i : grid5.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : cond5_0 i)
    (x0 : Vec F S5000x128 .f32) (x1 : Vec F S1x128 .f32) (x2 : Vec F S1x128 .f32) (x3 : Vec F S1x128 .f32) (x4 : Vec F S1x128 .f32) (x5 : Vec F S5000x1 .i32) : Vec F S128x128 .f32 :=
  VO5_7.read (Elt F) (VO5_7.writes (Elt F) VO5_7.junk (kernelRun5_A c i arg1 harg1 arg2 harg2 arg3 harg3 arg4 harg4 arg5 harg5 arg6 harg6 arg7 harg7 arg8 harg8 hc0 x0 x1 x2 x3 x4 x5).2.1)

/-- Case B's pieces for output 6 tile its block, so they cover it. -/
theorem cover5_B_6 (c : Dev nD) (i : grid5.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : ¬cond5_0 i)
    (x0 : Vec F S5000x128 .f32) (x1 : Vec F S1x128 .f32) (x2 : Vec F S1x128 .f32) (x3 : Vec F S1x128 .f32) (x4 : Vec F S1x128 .f32) (x5 : Vec F S5000x1 .i32) (xo7 : Vec F S128x128 .f32) (y : S5000x128.Idx) :
    ∃ pc ∈ (kernelRun5_B c i arg1 harg1 arg2 harg2 arg3 harg3 arg4 harg4 arg5 harg5 arg6 harg6 arg7 harg7 arg8 harg8 hc0 x0 x1 x2 x3 x4 x5 xo7).1, y ∈ pc.1.set :=
  View.cover_of_tiledL (kernelRun5_B c i arg1 harg1 arg2 harg2 arg3 harg3 arg4 harg4 arg5 harg5 arg6 harg6 arg7 harg7 arg8 harg8 hc0 x0 x1 x2 x3 x4 x5 xo7).1 S5000x128.size (by sl_kernel_rfl) y

/-- What case B leaves in output 6's staging buffer: its pieces read back over junk. -/
def out5_B_6 (c : Dev nD) (i : grid5.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : ¬cond5_0 i)
    (x0 : Vec F S5000x128 .f32) (x1 : Vec F S1x128 .f32) (x2 : Vec F S1x128 .f32) (x3 : Vec F S1x128 .f32) (x4 : Vec F S1x128 .f32) (x5 : Vec F S5000x1 .i32) (xo7 : Vec F S128x128 .f32) : Vec F S5000x128 .f32 :=
  VO5_6.read (Elt F) (VO5_6.writes (Elt F) VO5_6.junk (kernelRun5_B c i arg1 harg1 arg2 harg2 arg3 harg3 arg4 harg4 arg5 harg5 arg6 harg6 arg7 harg7 arg8 harg8 hc0 x0 x1 x2 x3 x4 x5 xo7).1)

/-- Case B's pieces for output 7 tile its block, so they cover it. -/
theorem cover5_B_7 (c : Dev nD) (i : grid5.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : ¬cond5_0 i)
    (x0 : Vec F S5000x128 .f32) (x1 : Vec F S1x128 .f32) (x2 : Vec F S1x128 .f32) (x3 : Vec F S1x128 .f32) (x4 : Vec F S1x128 .f32) (x5 : Vec F S5000x1 .i32) (xo7 : Vec F S128x128 .f32) (y : S128x128.Idx) :
    ∃ pc ∈ (kernelRun5_B c i arg1 harg1 arg2 harg2 arg3 harg3 arg4 harg4 arg5 harg5 arg6 harg6 arg7 harg7 arg8 harg8 hc0 x0 x1 x2 x3 x4 x5 xo7).2.1, y ∈ pc.1.set :=
  View.cover_of_tiledL (kernelRun5_B c i arg1 harg1 arg2 harg2 arg3 harg3 arg4 harg4 arg5 harg5 arg6 harg6 arg7 harg7 arg8 harg8 hc0 x0 x1 x2 x3 x4 x5 xo7).2.1 S128x128.size (by sl_kernel_rfl) y

/-- What case B leaves in output 7's staging buffer: its pieces read back over junk. -/
def out5_B_7 (c : Dev nD) (i : grid5.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : ¬cond5_0 i)
    (x0 : Vec F S5000x128 .f32) (x1 : Vec F S1x128 .f32) (x2 : Vec F S1x128 .f32) (x3 : Vec F S1x128 .f32) (x4 : Vec F S1x128 .f32) (x5 : Vec F S5000x1 .i32) (xo7 : Vec F S128x128 .f32) : Vec F S128x128 .f32 :=
  VO5_7.read (Elt F) (VO5_7.writes (Elt F) VO5_7.junk (kernelRun5_B c i arg1 harg1 arg2 harg2 arg3 harg3 arg4 harg4 arg5 harg5 arg6 harg6 arg7 harg7 arg8 harg8 hc0 x0 x1 x2 x3 x4 x5 xo7).2.1)

/-! ## What the outputs hold after each point -/

/-- The two outputs after a first-point body at `t`: case A at the point's memrefs and input blocks. -/
def pt5_A (c : Dev nD) (t : Fin cfg5.N) (h0 : t.val % 10 = 0) : Vec F S5000x128 .f32 × Vec F S128x128 .f32 :=
  (out5_A_6 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) ((hcond5_0 t).mpr h0) (iblk5 V c 0 t) (iblk5 V c 1 t) (iblk5 V c 2 t) (iblk5 V c 3 t) (iblk5 V c 4 t) (iblk5 V c 5 t),
   out5_A_7 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) ((hcond5_0 t).mpr h0) (iblk5 V c 0 t) (iblk5 V c 1 t) (iblk5 V c 2 t) (iblk5 V c 3 t) (iblk5 V c 4 t) (iblk5 V c 5 t))

/-- The two outputs after a later-point body at `t`, the pooled-sum block having held `xo7`: case B at the
    point's memrefs and input blocks. -/
def pt5_B (c : Dev nD) (t : Fin cfg5.N) (h0 : ¬t.val % 10 = 0) (xo7 : Vec F S128x128 .f32) : Vec F S5000x128 .f32 × Vec F S128x128 .f32 :=
  (out5_B_6 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (fun h => h0 ((hcond5_0 t).mp h)) (iblk5 V c 0 t) (iblk5 V c 1 t) (iblk5 V c 2 t) (iblk5 V c 3 t) (iblk5 V c 4 t) (iblk5 V c 5 t) xo7,
   out5_B_7 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (fun h => h0 ((hcond5_0 t).mp h)) (iblk5 V c 0 t) (iblk5 V c 1 t) (iblk5 V c 2 t) (iblk5 V c 3 t) (iblk5 V c 4 t) (iblk5 V c 5 t) xo7)

/-- THE ACCUMULATION. What the two outputs' staging buffers hold after the body at position `n`: the case the
    closed form selects at `n`, the pooled-sum block of a later point taken at what this leaves at `n - 1`
    (its buffer is not written back in between). -/
def outsAt5 (c : Dev nD) : (n : ℕ) → n < cfg5.N → Vec F S5000x128 .f32 × Vec F S128x128 .f32
  | 0, hn => pt5_A V c ⟨0, hn⟩ (Nat.zero_mod _)
  | n + 1, hn =>
    if h0 : (n + 1) % 10 = 0 then pt5_A V c ⟨n + 1, hn⟩ h0
    else pt5_B V c ⟨n + 1, hn⟩ h0 (outsAt5 c n (Nat.lt_of_succ_lt hn)).2

/-- `outsAt5` at a point of case A: that case's contents. -/
theorem outsAt5_A (c : Dev nD) (t : Fin cfg5.N) (h0 : t.val % 10 = 0) :
    outsAt5 V c t.val t.isLt = pt5_A V c t h0 := by
  obtain ⟨n, hn⟩ := t
  cases n with
  | zero => exact rfl
  | succ n => exact (dif_pos h0).trans rfl

/-- `outsAt5` at a point of case B: that case's contents, over what the point before left. -/
theorem outsAt5_B (c : Dev nD) (t : Fin cfg5.N) (h0 : ¬t.val % 10 = 0) :
    outsAt5 V c t.val t.isLt = pt5_B V c t h0 (outsAt5 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans rfl

/-! ## The pipeline's proof data -/

/-- The proof data of the region's pipeline on core `c`: the arrays as the region finds them (`V`); after the body
    at point `t` each input's buffer at its block and the outputs' at `outsAt5`; the invariant the scoped rest
    and the generator register; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => (outsAt5 V c t.val t.isLt).1
    | ⟨7, _⟩ => (outsAt5 V c t.val t.isLt).2
  Φ _ := Pipeline.ΦA spec5 c
  q _ := fullShare
  owed _ := 0

/-- The proof data's arrays are the region-entry contents (the definition projected). -/
theorem A_eq5 (c : Dev nD) (w : Fin cfg5.W) : (dat5 V c).A w = V c (Pipeline.arrRef spec5 w) := by
  dsimp only [dat5]

/-- What the body leaves, window by window (the proof data's `match` reduced). -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = (outsAt5 V c t.val t.isLt).1 := by dsimp only [dat5]
theorem after5_7 (c : Dev nD) (t : Fin cfg5.N) : (dat5 V c).after 7 t = (outsAt5 V c t.val t.isLt).2 := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d

/-- At a later point the pooled-sum window's staging buffer holds what the body left at the point before: the point is
    not the first, the buffer was not written back in between (it is written back after the last point only), and the
    window is live and uncut. -/
theorem before5_7_B (c : Dev nD) (t : Fin cfg5.N) (h0 : ¬t.val % 10 = 0) (d) :
    (dat5 V c).before 7 t d = (outsAt5 V c (t.val - 1) (Nat.lt_of_le_of_lt (Nat.sub_le _ _) t.isLt)).2 := by
  have hN : t.val < 10 := lt_of_lt_of_eq t.isLt (show cfg5.N = 10 from N_5)
  rw [Dat.before_out_kept _ 7 rfl t (by omega) (Bool.eq_false_iff.mpr fun h => by have := (flush5_7 _).mp h; dsimp only at this; omega)
    (fun _ => rfl) (fun _ _ => rfl)]
  dsimp only [dat5]

/-! ## The body obligation, at a generic point -/

/-- What the body is called with at point `t`: the invariant, what the core owes, and every window's current staging
    buffer at what the proof data say it holds before the body; -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d))
    ∗ (∃ d, owns (c : Thread nD τ) (ms5_5 t) fullShare ((dat5 V c).before 5 t d))
    ∗ (∃ d, owns (c : Thread nD τ) (ms5_6 t) fullShare ((dat5 V c).before 6 t d))
    ∗ (∃ d, owns (c : Thread nD τ) (ms5_7 t) fullShare ((dat5 V c).before 7 t d)))

/-- and what it returns: the same with every buffer at what the data say the body leaves. -/
def bodyPost5 (c : Dev nD) (t : Fin cfg5.N) : sProp 𝕄 :=
  iprop((dat5 V c).Φ t.succ ∗ (dat5 V c).owesAt () t.succ
    ∗ owns (c : Thread nD τ) (ms5_0 t) fullShare ((dat5 V c).after 0 t)
    ∗ owns (c : Thread nD τ) (ms5_1 t) fullShare ((dat5 V c).after 1 t)
    ∗ owns (c : Thread nD τ) (ms5_2 t) fullShare ((dat5 V c).after 2 t)
    ∗ owns (c : Thread nD τ) (ms5_3 t) fullShare ((dat5 V c).after 3 t)
    ∗ owns (c : Thread nD τ) (ms5_4 t) fullShare ((dat5 V c).after 4 t)
    ∗ owns (c : Thread nD τ) (ms5_5 t) fullShare ((dat5 V c).after 5 t)
    ∗ owns (c : Thread nD τ) (ms5_6 t) fullShare ((dat5 V c).after 6 t)
    ∗ owns (c : Thread nD τ) (ms5_7 t) fullShare ((dat5 V c).after 7 t))

set_option maxHeartbeats 1600000 in
/-- The body at any point: the inputs' memrefs hold their blocks; the closed form of the condition says which case
    the point is in; in case B the pooled-sum buffer holds what the point before left; so the case's run applies, and
    a covering list of pieces reads back the same through any view. The invariant and what the core owes pass
    through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7]
  have hN : t.val < 10 := lt_of_lt_of_eq t.isLt (show cfg5.N = 10 from N_5)
  by_cases h0 : t.val % 10 = 0
  · rw [outsAt5_A V c t h0]
    dsimp only [pt5_A]
    unfold out5_A_6 out5_A_7
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun5_A c (grid5.coords t) _ _ _ _ _ _ _ _ _ _ _ _ _ _ _ _ ((hcond5_0 t).mpr h0) (iblk5 V c 0 t) (iblk5 V c 1 t) (iblk5 V c 2 t) (iblk5 V c 3 t) (iblk5 V c 4 t) (iblk5 V c 5 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    iintro ⟨H0, H1, H2, H3, H4, H5, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover5_A_6 c _ _ _ _ _ _ _ _ _ _ _ _ _ _ _ _ _ _ _ _ _ _ _ _)
    unfold owns; iexists _; isplitr
    swap; · iexact H7
    ipureintro; exact View.read_writes_of_cover _ _ _ _ _ (cover5_A_7 c _ _ _ _ _ _ _ _ _ _ _ _ _ _ _ _ _ _ _ _ _ _ _ _)
  · rw [outsAt5_B V c t h0]
    simp only [before5_7_B V c t h0]
    dsimp only [pt5_B]
    unfold out5_B_6 out5_B_7
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun5_B c (grid5.coords t) _ _ _ _ _ _ _ _ _ _ _ _ _ _ _ _ (fun h => h0 ((hcond5_0 t).mp h)) (iblk5 V c 0 t) (iblk5 V c 1 t) (iblk5 V c 2 t) (iblk5 V c 3 t) (iblk5 V c 4 t) (iblk5 V c 5 t) _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    iintro ⟨H0, H1, H2, H3, H4, H5, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover5_B_6 c _ _ _ _ _ _ _ _ _ _ _ _ _ _ _ _ _ _ _ _ _ _ _ _ _)
    unfold owns; iexists _; isplitr
    swap; · iexact H7
    ipureintro; exact View.read_writes_of_cover _ _ _ _ _ (cover5_B_7 c _ _ _ _ _ _ _ _ _ _ _ _ _ _ _ _ _ _ _ _ _ _ _ _ _)

/-- The body obligation, at every point. -/
theorem body_obligation5 (c : Dev nD) : BodyObligation (dat5 (F := F) V c) (defs₀ (F := F)) Variants.none () Set.univ := fun t => by
  rw [bigSep_W5, bigSep_W5]
  exact sound_body5 V c t

/-- info: 'Cert.Kernel.Reg.body_obligation5' depends on axioms: [propext, Classical.choice, Quot.sound] -/
#guard_msgs in #print axioms body_obligation5

end Cert.Kernel.Reg

end
-- ==== Proof.K.Reg6.lean ====
import proofs.«144276_j65051574665788_2_alg».proof.Proof.Gen.Kernel.Launch
import proofs.«144276_j65051574665788_2_alg».proof.Proof.Gen.Kernel.Skeleton
import proofs.«144276_j65051574665788_2_alg».proof.Proof.Gen.Kernel.Points
import Idealize.ShloMosaic.Lib.Pipeline.FrameBody
import Idealize.ShloMosaic.Lib.Ring
import Idealize.ShloMosaic.Lib.Tactic

/-! # Region 6 of @main: the layer transform, at the entry contents `V`

The body computes `agg·Wl + h·Wr + bl` into a row block of the first output and adds the block's column sums and
column sums of squares into the second and third outputs, whose single block is revisited at every grid point:
at the first point the two are zeroed first, at a later point they hold what the point before left. Hence two
control cases. Per case the body is run once on arbitrary whole memrefs, the stores it makes into each output
being the witness of the run; the outputs' contents point by point are then a recursion on the point, and the
body obligation follows by cases on the point. Everything is stated at a parameter `V`, the TensorCore's buffer
contents when the region is entered, and at any float instance. -/

-- membership in a rectangle with a long axis recurses once per coordinate
set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not, for any proof data
    whose array is the entry contents (`hA`) and whose body leaves the block in place (`hafter`): unfetched, the block
    index has not moved; the window is uncut and never idle. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, fetched there or not, for any proof data
    whose array is the entry contents (`hA`) and whose body leaves the block in place (`hafter`): unfetched, the block
    index has not moved; the window is uncut and never idle. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, fetched there or not, for any proof data
    whose array is the entry contents (`hA`) and whose body leaves the block in place (`hafter`): unfetched, the block
    index has not moved; the window is uncut and never idle. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's current staging buffer holds its block at every point, fetched there or not, for any proof data
    whose array is the entry contents (`hA`) and whose body leaves the block in place (`hafter`): unfetched, the block
    index has not moved; the window is uncut and never idle. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's current staging buffer holds its block at every point, fetched there or not, for any proof data
    whose array is the entry contents (`hA`) and whose body leaves the block in place (`hafter`): unfetched, the block
    index has not moved; the window is uncut and never idle. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-! ## The body's branch condition -/

/-- The condition of the body's one conditional, from the grid coordinates: the point is the first. -/
abbrev cond6_0 (i : grid6.Coords) : Prop := (Scalar.cmpi .ne (Scalar.extui (Scalar.cmpi .eq (BitVec.ofNat 32 (i 0).val) 0#32)) 0#32) = 1#1
/-- It holds at the first point only: decided over the ten points. -/
theorem hcond6_0 : ∀ t : Fin cfg6.N, cond6_0 (grid6.coords t) ↔ t.val % 10 = 0 :=
  (by decide +kernel : ∀ t : Fin grid6.N, cond6_0 (grid6.coords t) ↔ t.val % 10 = 0)

/-! ## The staging memrefs -/

/-- One staging buffer of each output window, through which its contents are stated (a covering list of writes
    reads back the same through any view). -/
abbrev VO6_5 : View sig .tc .vmem S5000x128 .f32 := (Memref.whole cc6_stg5_0 : Memref sig .tc .vmem S5000x128 .f32).view
abbrev VO6_6 : View sig .tc .vmem S1x128 .f32 := (Memref.whole cc6_stg6_0 : Memref sig .tc .vmem S1x128 .f32).view
abbrev VO6_7 : View sig .tc .vmem S1x128 .f32 := (Memref.whole cc6_stg7_0 : Memref sig .tc .vmem S1x128 .f32).view
/-- Each window's current staging memref at point `t`, spelled as the pipeline passes it, and its wholeness. -/
abbrev ms6_0 (t : Fin cfg6.N) : Memref sig .tc .vmem S5000x128 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S5000x128 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S128x128 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S128x128 .f32 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S1x128 .f32 := win6_4.stage (cfg6.slots t 4)
abbrev hs6_4 (t : Fin cfg6.N) : (ms6_4 t).IsWhole := hstage6_4 ((cfg6.slots t 4).cast nbuf6_4)
abbrev ms6_5 (t : Fin cfg6.N) : Memref sig .tc .vmem S5000x128 .f32 := win6_5.stage (cfg6.slots t 5)
abbrev hs6_5 (t : Fin cfg6.N) : (ms6_5 t).IsWhole := hstage6_5 ((cfg6.slots t 5).cast nbuf6_5)
abbrev ms6_6 (t : Fin cfg6.N) : Memref sig .tc .vmem S1x128 .f32 := win6_6.stage (cfg6.slots t 6)
abbrev hs6_6 (t : Fin cfg6.N) : (ms6_6 t).IsWhole := hstage6_6 ((cfg6.slots t 6).cast nbuf6_6)
abbrev ms6_7 (t : Fin cfg6.N) : Memref sig .tc .vmem S1x128 .f32 := win6_7.stage (cfg6.slots t 7)
abbrev hs6_7 (t : Fin cfg6.N) : (ms6_7 t).IsWhole := hstage6_7 ((cfg6.slots t 7).cast nbuf6_7)

/-! ## The body on any whole memrefs, case by case -/

set_option maxHeartbeats 1000000 in
/-- THE FIRST POINT. The pieces the body's stores leave in each output's memref (last first), with the proof that on
    whole memrefs — the inputs' at contents `x·`, the outputs' at anything — the body runs to the continuation
    holding the inputs' as they were and each output's with its pieces written. The conditional is taken: the two
    accumulators are zeroed, then read back and added to. -/
noncomputable def kernelRun6_A (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : cond6_0 i)
    (x0 : Vec F S5000x128 .f32) (x1 : Vec F S5000x128 .f32) (x2 : Vec F S128x128 .f32) (x3 : Vec F S128x128 .f32) (x4 : Vec F S1x128 .f32) :
    Σ' (L5 : List (View.Piece (Elt F) S5000x128 .f32)) (L6 : List (View.Piece (Elt F) S1x128 .f32)), { L7 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc6__layer_transform_kernel i arg1 harg1 arg2 harg2 arg3 harg3 arg4 harg4 arg5 harg5 arg6 harg6 arg7 harg7 arg8 harg8) K } := by
  refine ⟨?_, ?_, ?_, fun E K => ?run⟩
  case run =>
    simp only [cc6__layer_transform_kernel_eq_skeleton]; unfold cc6__layer_transform_kernel_skel
    simp only [k6_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    iexists _; iexact H7

set_option maxHeartbeats 1000000 in
/-- A LATER POINT. The same with the conditional not taken: the two accumulators' memrefs are handed over at the
    running contents `xo6`, `xo7`, which the body reads before it covers them. -/
noncomputable def kernelRun6_B (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i)
    (x0 : Vec F S5000x128 .f32) (x1 : Vec F S5000x128 .f32) (x2 : Vec F S128x128 .f32) (x3 : Vec F S128x128 .f32) (x4 : Vec F S1x128 .f32) (xo6 : Vec F S1x128 .f32) (xo7 : Vec F S1x128 .f32) :
    Σ' (L5 : List (View.Piece (Elt F) S5000x128 .f32)) (L6 : List (View.Piece (Elt F) S1x128 .f32)), { L7 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ owns (c : Thread nD τ) arg7 fullShare xo6 ∗ owns (c : Thread nD τ) arg8 fullShare xo7
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc6__layer_transform_kernel i arg1 harg1 arg2 harg2 arg3 harg3 arg4 harg4 arg5 harg5 arg6 harg6 arg7 harg7 arg8 harg8) K } := by
  refine ⟨?_, ?_, ?_, fun E K => ?run⟩
  case run =>
    simp only [cc6__layer_transform_kernel_eq_skeleton]; unfold cc6__layer_transform_kernel_skel
    simp only [k6_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
    obtain rfl := harg1.eq_unread hf0; obtain rfl := harg2.eq_unread hf1; obtain rfl := harg3.eq_unread hf2
    obtain rfl := harg4.eq_unread hf3; obtain rfl := harg5.eq_unread hf4
    obtain rfl := harg7.eq_unread hf6; obtain rfl := harg8.eq_unread hf7
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    iexists _; iexact H7

/-! ## The pieces cover the outputs' blocks -/

/-- Case A's pieces for output 5 tile its block, so they cover it. -/
theorem cover6_A_5 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : cond6_0 i)
    (x0 : Vec F S5000x128 .f32) (x1 : Vec F S5000x128 .f32) (x2 : Vec F S128x128 .f32) (x3 : Vec F S128x128 .f32) (x4 : Vec F S1x128 .f32) (y : S5000x128.Idx) :
    ∃ pc ∈ (kernelRun6_A c i arg1 harg1 arg2 harg2 arg3 harg3 arg4 harg4 arg5 harg5 arg6 harg6 arg7 harg7 arg8 harg8 hc0 x0 x1 x2 x3 x4).1, y ∈ pc.1.set :=
  View.cover_of_tiledL (kernelRun6_A c i arg1 harg1 arg2 harg2 arg3 harg3 arg4 harg4 arg5 harg5 arg6 harg6 arg7 harg7 arg8 harg8 hc0 x0 x1 x2 x3 x4).1 S5000x128.size (by sl_kernel_rfl) y

/-- Case A's pieces for output 6 tile its block, so they cover it. -/
theorem cover6_A_6 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : cond6_0 i)
    (x0 : Vec F S5000x128 .f32) (x1 : Vec F S5000x128 .f32) (x2 : Vec F S128x128 .f32) (x3 : Vec F S128x128 .f32) (x4 : Vec F S1x128 .f32) (y : S1x128.Idx) :
    ∃ pc ∈ (kernelRun6_A c i arg1 harg1 arg2 harg2 arg3 harg3 arg4 harg4 arg5 harg5 arg6 harg6 arg7 harg7 arg8 harg8 hc0 x0 x1 x2 x3 x4).2.1, y ∈ pc.1.set :=
  View.cover_of_tiledL (kernelRun6_A c i arg1 harg1 arg2 harg2 arg3 harg3 arg4 harg4 arg5 harg5 arg6 harg6 arg7 harg7 arg8 harg8 hc0 x0 x1 x2 x3 x4).2.1 S1x128.size (by sl_kernel_rfl) y

/-- Case A's pieces for output 7 tile its block, so they cover it. -/
theorem cover6_A_7 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : cond6_0 i)
    (x0 : Vec F S5000x128 .f32) (x1 : Vec F S5000x128 .f32) (x2 : Vec F S128x128 .f32) (x3 : Vec F S128x128 .f32) (x4 : Vec F S1x128 .f32) (y : S1x128.Idx) :
    ∃ pc ∈ (kernelRun6_A c i arg1 harg1 arg2 harg2 arg3 harg3 arg4 harg4 arg5 harg5 arg6 harg6 arg7 harg7 arg8 harg8 hc0 x0 x1 x2 x3 x4).2.2.1, y ∈ pc.1.set :=
  View.cover_of_tiledL (kernelRun6_A c i arg1 harg1 arg2 harg2 arg3 harg3 arg4 harg4 arg5 harg5 arg6 harg6 arg7 harg7 arg8 harg8 hc0 x0 x1 x2 x3 x4).2.2.1 S1x128.size (by sl_kernel_rfl) y

/-- Case B's pieces for output 5 tile its block, so they cover it. -/
theorem cover6_B_5 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i)
    (x0 : Vec F S5000x128 .f32) (x1 : Vec F S5000x128 .f32) (x2 : Vec F S128x128 .f32) (x3 : Vec F S128x128 .f32) (x4 : Vec F S1x128 .f32) (xo6 : Vec F S1x128 .f32) (xo7 : Vec F S1x128 .f32) (y : S5000x128.Idx) :
    ∃ pc ∈ (kernelRun6_B c i arg1 harg1 arg2 harg2 arg3 harg3 arg4 harg4 arg5 harg5 arg6 harg6 arg7 harg7 arg8 harg8 hc0 x0 x1 x2 x3 x4 xo6 xo7).1, y ∈ pc.1.set :=
  View.cover_of_tiledL (kernelRun6_B c i arg1 harg1 arg2 harg2 arg3 harg3 arg4 harg4 arg5 harg5 arg6 harg6 arg7 harg7 arg8 harg8 hc0 x0 x1 x2 x3 x4 xo6 xo7).1 S5000x128.size (by sl_kernel_rfl) y

/-- Case B's pieces for output 6 tile its block, so they cover it. -/
theorem cover6_B_6 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i)
    (x0 : Vec F S5000x128 .f32) (x1 : Vec F S5000x128 .f32) (x2 : Vec F S128x128 .f32) (x3 : Vec F S128x128 .f32) (x4 : Vec F S1x128 .f32) (xo6 : Vec F S1x128 .f32) (xo7 : Vec F S1x128 .f32) (y : S1x128.Idx) :
    ∃ pc ∈ (kernelRun6_B c i arg1 harg1 arg2 harg2 arg3 harg3 arg4 harg4 arg5 harg5 arg6 harg6 arg7 harg7 arg8 harg8 hc0 x0 x1 x2 x3 x4 xo6 xo7).2.1, y ∈ pc.1.set :=
  View.cover_of_tiledL (kernelRun6_B c i arg1 harg1 arg2 harg2 arg3 harg3 arg4 harg4 arg5 harg5 arg6 harg6 arg7 harg7 arg8 harg8 hc0 x0 x1 x2 x3 x4 xo6 xo7).2.1 S1x128.size (by sl_kernel_rfl) y

/-- Case B's pieces for output 7 tile its block, so they cover it. -/
theorem cover6_B_7 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i)
    (x0 : Vec F S5000x128 .f32) (x1 : Vec F S5000x128 .f32) (x2 : Vec F S128x128 .f32) (x3 : Vec F S128x128 .f32) (x4 : Vec F S1x128 .f32) (xo6 : Vec F S1x128 .f32) (xo7 : Vec F S1x128 .f32) (y : S1x128.Idx) :
    ∃ pc ∈ (kernelRun6_B c i arg1 harg1 arg2 harg2 arg3 harg3 arg4 harg4 arg5 harg5 arg6 harg6 arg7 harg7 arg8 harg8 hc0 x0 x1 x2 x3 x4 xo6 xo7).2.2.1, y ∈ pc.1.set :=
  View.cover_of_tiledL (kernelRun6_B c i arg1 harg1 arg2 harg2 arg3 harg3 arg4 harg4 arg5 harg5 arg6 harg6 arg7 harg7 arg8 harg8 hc0 x0 x1 x2 x3 x4 xo6 xo7).2.2.1 S1x128.size (by sl_kernel_rfl) y

/-! ## What the outputs hold after each point -/

/-- The first-point run at point `t`'s memrefs and input blocks. -/
abbrev runA6 (c : Dev nD) (t : Fin cfg6.N) (h0 : t.val % 10 = 0) :=
  kernelRun6_A (F := F) c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) ((hcond6_0 t).mpr h0) (iblk6 V c 0 t) (iblk6 V c 1 t) (iblk6 V c 2 t) (iblk6 V c 3 t) (iblk6 V c 4 t)

/-- The later-point run at point `t`'s memrefs and input blocks, the accumulators at `xo6`, `xo7`. -/
abbrev runB6 (c : Dev nD) (t : Fin cfg6.N) (h0 : ¬t.val % 10 = 0) (xo6 : Vec F S1x128 .f32) (xo7 : Vec F S1x128 .f32) :=
  kernelRun6_B (F := F) c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (fun h => h0 ((hcond6_0 t).mp h)) (iblk6 V c 0 t) (iblk6 V c 1 t) (iblk6 V c 2 t) (iblk6 V c 3 t) (iblk6 V c 4 t) xo6 xo7

/-- What the first-point case leaves in the three outputs' staging buffers: its pieces read back over junk. -/
def outsA6 (c : Dev nD) (t : Fin cfg6.N) (h0 : t.val % 10 = 0) : Vec F S5000x128 .f32 × Vec F S1x128 .f32 × Vec F S1x128 .f32 :=
  (VO6_5.read (Elt F) (VO6_5.writes (Elt F) VO6_5.junk (runA6 V c t h0).1),
   VO6_6.read (Elt F) (VO6_6.writes (Elt F) VO6_6.junk (runA6 V c t h0).2.1),
   VO6_7.read (Elt F) (VO6_7.writes (Elt F) VO6_7.junk (runA6 V c t h0).2.2.1))

/-- What the later-point case leaves there, over accumulators at `xo6`, `xo7`. -/
def outsB6 (c : Dev nD) (t : Fin cfg6.N) (h0 : ¬t.val % 10 = 0) (xo6 : Vec F S1x128 .f32) (xo7 : Vec F S1x128 .f32) :
    Vec F S5000x128 .f32 × Vec F S1x128 .f32 × Vec F S1x128 .f32 :=
  (VO6_5.read (Elt F) (VO6_5.writes (Elt F) VO6_5.junk (runB6 V c t h0 xo6 xo7).1),
   VO6_6.read (Elt F) (VO6_6.writes (Elt F) VO6_6.junk (runB6 V c t h0 xo6 xo7).2.1),
   VO6_7.read (Elt F) (VO6_7.writes (Elt F) VO6_7.junk (runB6 V c t h0 xo6 xo7).2.2.1))

/-- THE ACCUMULATION. What the three outputs' staging buffers hold after the body at position `n`: the case the
    point is in, run at the point's memrefs and input blocks, the two accumulators at what this leaves at `n - 1`
    (their buffer is not written back in between). -/
def outsAt6 (c : Dev nD) : (n : ℕ) → n < cfg6.N → Vec F S5000x128 .f32 × Vec F S1x128 .f32 × Vec F S1x128 .f32
  | 0, hn => outsA6 V c ⟨0, hn⟩ (Nat.zero_mod _)
  | n + 1, hn =>
    if h0 : (n + 1) % 10 = 0 then
      outsA6 V c ⟨n + 1, hn⟩ h0
    else
      outsB6 V c ⟨n + 1, hn⟩ h0 (outsAt6 c n (Nat.lt_of_succ_lt hn)).2.1 (outsAt6 c n (Nat.lt_of_succ_lt hn)).2.2

/-- `outsAt6` at a first point: that case's contents. -/
theorem outsAt6_A (c : Dev nD) (t : Fin cfg6.N) (h0 : t.val % 10 = 0) :
    outsAt6 V c t.val t.isLt = outsA6 V c t h0 := by
  obtain ⟨n, hn⟩ := t
  cases n with
  | zero => exact rfl
  | succ n => exact (dif_pos h0).trans rfl

/-- `outsAt6` at a later point: that case's contents, over what the point before left. -/
theorem outsAt6_B (c : Dev nD) (t : Fin cfg6.N) (h0 : ¬t.val % 10 = 0) :
    outsAt6 V c t.val t.isLt = outsB6 V c t h0
      (outsAt6 V c (t.val - 1) (Nat.lt_of_le_of_lt (Nat.sub_le _ _) t.isLt)).2.1
      (outsAt6 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans rfl

/-! ## The pipeline's proof data -/

/-- The proof data of the region's pipeline on core `c`: the arrays as the region finds them (`V`); after the body
    at point `t` each input's buffer at its block and the outputs' at `outsAt6`; the invariant the scoped rest
    and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => (outsAt6 V c t.val t.isLt).1
    | ⟨6, _⟩ => (outsAt6 V c t.val t.isLt).2.1
    | ⟨7, _⟩ => (outsAt6 V c t.val t.isLt).2.2
  Φ _ := Pipeline.ΦA spec6 c
  q _ := fullShare
  owed _ := 0

/-- The proof data's arrays are the region-entry contents (the definition projected). -/
theorem A_eq6 (c : Dev nD) (w : Fin cfg6.W) : (dat6 V c).A w = V c (Pipeline.arrRef spec6 w) := by
  dsimp only [dat6]

/-- What the body leaves, window by window (the definition's `match` reduced). -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = (outsAt6 V c t.val t.isLt).1 := by dsimp only [dat6]
theorem after6_6 (c : Dev nD) (t : Fin cfg6.N) : (dat6 V c).after 6 t = (outsAt6 V c t.val t.isLt).2.1 := by dsimp only [dat6]
theorem after6_7 (c : Dev nD) (t : Fin cfg6.N) : (dat6 V c).after 7 t = (outsAt6 V c t.val t.isLt).2.2 := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

/-- At a later point output 6's staging buffer holds what the body left at the point before: the buffer is written
    back at the last point only, and the window is live and uncut. -/
theorem before6_6_B (c : Dev nD) (t : Fin cfg6.N) (h0 : ¬t.val % 10 = 0) (d) :
    (dat6 V c).before 6 t d = (outsAt6 V c (t.val - 1) (Nat.lt_of_le_of_lt (Nat.sub_le _ _) t.isLt)).2.1 := by
  have hN : t.val < 10 := lt_of_lt_of_eq t.isLt (show cfg6.N = 10 from N_6)
  rw [Dat.before_out_kept _ 6 rfl t (by omega) (Bool.eq_false_iff.mpr fun h => by have := (flush6_6 _).mp h; dsimp only at this; omega)
    (fun _ => rfl) (fun _ _ => rfl)]
  dsimp only [dat6]

/-- At a later point output 7's staging buffer holds what the body left at the point before: the buffer is written
    back at the last point only, and the window is live and uncut. -/
theorem before6_7_B (c : Dev nD) (t : Fin cfg6.N) (h0 : ¬t.val % 10 = 0) (d) :
    (dat6 V c).before 7 t d = (outsAt6 V c (t.val - 1) (Nat.lt_of_le_of_lt (Nat.sub_le _ _) t.isLt)).2.2 := by
  have hN : t.val < 10 := lt_of_lt_of_eq t.isLt (show cfg6.N = 10 from N_6)
  rw [Dat.before_out_kept _ 7 rfl t (by omega) (Bool.eq_false_iff.mpr fun h => by have := (flush6_7 _).mp h; dsimp only at this; omega)
    (fun _ => rfl) (fun _ _ => rfl)]
  dsimp only [dat6]

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d))
    ∗ (∃ d, owns (c : Thread nD τ) (ms6_4 t) fullShare ((dat6 V c).before 4 t d))
    ∗ (∃ d, owns (c : Thread nD τ) (ms6_5 t) fullShare ((dat6 V c).before 5 t d))
    ∗ (∃ d, owns (c : Thread nD τ) (ms6_6 t) fullShare ((dat6 V c).before 6 t d))
    ∗ (∃ d, owns (c : Thread nD τ) (ms6_7 t) fullShare ((dat6 V c).before 7 t d)))

/-- and what it returns. -/
def bodyPost6 (c : Dev nD) (t : Fin cfg6.N) : sProp 𝕄 :=
  iprop((dat6 V c).Φ t.succ ∗ (dat6 V c).owesAt () t.succ
    ∗ owns (c : Thread nD τ) (ms6_0 t) fullShare ((dat6 V c).after 0 t)
    ∗ owns (c : Thread nD τ) (ms6_1 t) fullShare ((dat6 V c).after 1 t)
    ∗ owns (c : Thread nD τ) (ms6_2 t) fullShare ((dat6 V c).after 2 t)
    ∗ owns (c : Thread nD τ) (ms6_3 t) fullShare ((dat6 V c).after 3 t)
    ∗ owns (c : Thread nD τ) (ms6_4 t) fullShare ((dat6 V c).after 4 t)
    ∗ owns (c : Thread nD τ) (ms6_5 t) fullShare ((dat6 V c).after 5 t)
    ∗ owns (c : Thread nD τ) (ms6_6 t) fullShare ((dat6 V c).after 6 t)
    ∗ owns (c : Thread nD τ) (ms6_7 t) fullShare ((dat6 V c).after 7 t))

set_option maxHeartbeats 1600000 in
/-- The body at any point: the inputs' memrefs hold their blocks; the closed form of the condition says which case
    the point is in; at a later point the two accumulators hold what the point before left; so the case's run
    applies, and its pieces, covering each output's block, read back as `outsAt6` says. The invariant passes
    through unread and the core owes nothing throughout. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6, after6_7]
  have hN : t.val < 10 := lt_of_lt_of_eq t.isLt (show cfg6.N = 10 from N_6)
  by_cases h0 : t.val % 10 = 0
  · rw [outsAt6_A V c t h0]
    unfold outsA6; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runA6 V c t h0).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    iintro ⟨H0, H1, H2, H3, H4, ⟨%e5, H5⟩, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover6_A_5 c _ _ _ _ _ _ _ _ _ _ _ _ _ _ _ _ _ _ _ _ _ _ _)
    isplitl [H6]
    · unfold owns; iexists _; isplitr
      swap; · iexact H6
      ipureintro; exact View.read_writes_of_cover _ _ _ _ _ (cover6_A_6 c _ _ _ _ _ _ _ _ _ _ _ _ _ _ _ _ _ _ _ _ _ _ _)
    unfold owns; iexists _; isplitr
    swap; · iexact H7
    ipureintro; exact View.read_writes_of_cover _ _ _ _ _ (cover6_A_7 c _ _ _ _ _ _ _ _ _ _ _ _ _ _ _ _ _ _ _ _ _ _ _)
  · rw [outsAt6_B V c t h0]
    simp only [before6_6_B V c t h0, before6_7_B V c t h0]
    unfold outsB6; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runB6 V c t h0 _ _).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    iintro ⟨H0, H1, H2, H3, H4, ⟨%e5, H5⟩, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover6_B_5 c _ _ _ _ _ _ _ _ _ _ _ _ _ _ _ _ _ _ _ _ _ _ _ _ _)
    isplitl [H6]
    · unfold owns; iexists _; isplitr
      swap; · iexact H6
      ipureintro; exact View.read_writes_of_cover _ _ _ _ _ (cover6_B_6 c _ _ _ _ _ _ _ _ _ _ _ _ _ _ _ _ _ _ _ _ _ _ _ _ _)
    unfold owns; iexists _; isplitr
    swap; · iexact H7
    ipureintro; exact View.read_writes_of_cover _ _ _ _ _ (cover6_B_7 c _ _ _ _ _ _ _ _ _ _ _ _ _ _ _ _ _ _ _ _ _ _ _ _ _)

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Reg

end
-- ==== Proof.K.Reg7.lean ====
import proofs.«144276_j65051574665788_2_alg».proof.Proof.Gen.Kernel.Launch
import proofs.«144276_j65051574665788_2_alg».proof.Proof.Gen.Kernel.Skeleton
import proofs.«144276_j65051574665788_2_alg».proof.Proof.Gen.Kernel.Points
import Idealize.ShloMosaic.Lib.Pipeline.FrameBody
import Idealize.ShloMosaic.Lib.Ring
import Idealize.ShloMosaic.Lib.Tactic

/-! # Region 7 of @main: the normalisation and pooling call, at the entry contents `V`

The body's half of the region's frame: for any contents `V` of the core's buffers at the region's entry, the
proof data of the pipeline (what every window's staging buffer holds before and after the body at every grid
point) and the body obligation — the body, run at any grid point on buffers holding what the data say, ends
with them holding what the data say, touching nothing else.

The body has two control cases. At the first grid point the pooled-sum block (window 7) is zeroed and then
added to; at every later point it is read at what the point before left and added to. The normalised block
(window 6) is stored whole at every point. What the two outputs hold after each point is therefore a recursion
on the point, the pooled-sum block carried from the point before. -/

-- membership in a rectangle of large extents recurses once per coordinate of the long axes
set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0: its current staging buffer holds its block at every point, whether fetched there or not
    (unfetched, the block index has not moved since the fetch), for any proof data whose array is `V`'s and whose
    body leaves the block in place; the window is uncut and never idle. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1: its current staging buffer holds its block at every point, whether fetched there or not
    (unfetched, the block index has not moved since the fetch), for any proof data whose array is `V`'s and whose
    body leaves the block in place; the window is uncut and never idle. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2: its current staging buffer holds its block at every point, whether fetched there or not
    (unfetched, the block index has not moved since the fetch), for any proof data whose array is `V`'s and whose
    body leaves the block in place; the window is uncut and never idle. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3: its current staging buffer holds its block at every point, whether fetched there or not
    (unfetched, the block index has not moved since the fetch), for any proof data whose array is `V`'s and whose
    body leaves the block in place; the window is uncut and never idle. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4: its current staging buffer holds its block at every point, whether fetched there or not
    (unfetched, the block index has not moved since the fetch), for any proof data whose array is `V`'s and whose
    body leaves the block in place; the window is uncut and never idle. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-- Input window 5: its current staging buffer holds its block at every point, whether fetched there or not
    (unfetched, the block index has not moved since the fetch), for any proof data whose array is `V`'s and whose
    body leaves the block in place; the window is uncut and never idle. -/
theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)

/-! ## The body's branch condition -/

/-- The condition of the body's one conditional, as a function of the grid coordinates: "this is point 0". -/
abbrev cond7_0 (i : grid7.Coords) : Prop := (Scalar.cmpi .ne (Scalar.extui (Scalar.cmpi .eq (BitVec.ofNat 32 (i 0).val) 0#32)) 0#32) = 1#1
/-- It holds at the first point only — decided over the ten points of the grid. -/
theorem hcond7_0 : ∀ t : Fin cfg7.N, cond7_0 (grid7.coords t) ↔ t.val % 10 = 0 :=
  (by decide +kernel : ∀ t : Fin grid7.N, cond7_0 (grid7.coords t) ↔ t.val % 10 = 0)

/-! ## The staging memrefs -/

/-- One staging buffer of each output window, through which its contents are stated (a covering list of writes
    reads back the same through any view of the shape). -/
abbrev VO7_6 : View sig .tc .vmem S5000x128 .f32 := (Memref.whole cc7_stg6_0 : Memref sig .tc .vmem S5000x128 .f32).view
abbrev VO7_7 : View sig .tc .vmem S128x128 .f32 := (Memref.whole cc7_stg7_0 : Memref sig .tc .vmem S128x128 .f32).view
/-- Each window's current staging memref at point `t`, spelled as the pipeline passes it to the body, and its wholeness. -/
abbrev ms7_0 (t : Fin cfg7.N) : Memref sig .tc .vmem S5000x128 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S1x128 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S1x128 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S1x128 .f32 := win7_3.stage (cfg7.slots t 3)
abbrev hs7_3 (t : Fin cfg7.N) : (ms7_3 t).IsWhole := hstage7_3 ((cfg7.slots t 3).cast nbuf7_3)
abbrev ms7_4 (t : Fin cfg7.N) : Memref sig .tc .vmem S1x128 .f32 := win7_4.stage (cfg7.slots t 4)
abbrev hs7_4 (t : Fin cfg7.N) : (ms7_4 t).IsWhole := hstage7_4 ((cfg7.slots t 4).cast nbuf7_4)
abbrev ms7_5 (t : Fin cfg7.N) : Memref sig .tc .vmem S5000x1 .i32 := win7_5.stage (cfg7.slots t 5)
abbrev hs7_5 (t : Fin cfg7.N) : (ms7_5 t).IsWhole := hstage7_5 ((cfg7.slots t 5).cast nbuf7_5)
abbrev ms7_6 (t : Fin cfg7.N) : Memref sig .tc .vmem S5000x128 .f32 := win7_6.stage (cfg7.slots t 6)
abbrev hs7_6 (t : Fin cfg7.N) : (ms7_6 t).IsWhole := hstage7_6 ((cfg7.slots t 6).cast nbuf7_6)
abbrev ms7_7 (t : Fin cfg7.N) : Memref sig .tc .vmem S128x128 .f32 := win7_7.stage (cfg7.slots t 7)
abbrev hs7_7 (t : Fin cfg7.N) : (ms7_7 t).IsWhole := hstage7_7 ((cfg7.slots t 7).cast nbuf7_7)

/-! ## The body on any staging memrefs, case by case -/

set_option maxHeartbeats 1000000 in
/-- CASE A (the first point: the conditional taken). The pieces the body's stores leave in the two outputs' staging
    memrefs (last first), with the proof that on whole staging memrefs — the inputs' at contents `x·`, the outputs'
    at anything — the body runs to a continuation that is handed the inputs' as they were and each output's buffer
    with its pieces written. The pooled-sum block is zeroed before it is read, so what it held does not matter. -/
noncomputable def kernelRun7_A (c : Dev nD) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : cond7_0 i)
    (x0 : Vec F S5000x128 .f32) (x1 : Vec F S1x128 .f32) (x2 : Vec F S1x128 .f32) (x3 : Vec F S1x128 .f32) (x4 : Vec F S1x128 .f32) (x5 : Vec F S5000x1 .i32) :
    Σ' (L6 : List (View.Piece (Elt F) S5000x128 .f32)), { L7 : List (View.Piece (Elt F) S128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc7_kernel i arg1 harg1 arg2 harg2 arg3 harg3 arg4 harg4 arg5 harg5 arg6 harg6 arg7 harg7 arg8 harg8) K } := by
  refine ⟨?_, ?_, fun E K => ?run⟩
  case run =>
    simp only [cc7_kernel_eq_skeleton]; unfold cc7_kernel_skel
    simp only [k7_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact H7

set_option maxHeartbeats 1000000 in
/-- CASE B (a later point: the conditional not taken). As case A, but the pooled-sum block is read before it is
    stored: its buffer is taken at the running contents `xo7`, which the pieces mention. -/
noncomputable def kernelRun7_B (c : Dev nD) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : ¬cond7_0 i)
    (x0 : Vec F S5000x128 .f32) (x1 : Vec F S1x128 .f32) (x2 : Vec F S1x128 .f32) (x3 : Vec F S1x128 .f32) (x4 : Vec F S1x128 .f32) (x5 : Vec F S5000x1 .i32) (xo7 : Vec F S128x128 .f32) :
    Σ' (L6 : List (View.Piece (Elt F) S5000x128 .f32)), { L7 : List (View.Piece (Elt F) S128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xo7
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc7_kernel i arg1 harg1 arg2 harg2 arg3 harg3 arg4 harg4 arg5 harg5 arg6 harg6 arg7 harg7 arg8 harg8) K } := by
  refine ⟨?_, ?_, fun E K => ?run⟩
  case run =>
    simp only [cc7_kernel_eq_skeleton]; unfold cc7_kernel_skel
    simp only [k7_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact H7

/-! ## What each case leaves in the outputs -/

/-- Case A's pieces for output 6 tile its block, so they cover it. -/
theorem cover7_A_6 (c : Dev nD) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : cond7_0 i)
    (x0 : Vec F S5000x128 .f32) (x1 : Vec F S1x128 .f32) (x2 : Vec F S1x128 .f32) (x3 : Vec F S1x128 .f32) (x4 : Vec F S1x128 .f32) (x5 : Vec F S5000x1 .i32) (y : S5000x128.Idx) :
    ∃ pc ∈ (kernelRun7_A c i arg1 harg1 arg2 harg2 arg3 harg3 arg4 harg4 arg5 harg5 arg6 harg6 arg7 harg7 arg8 harg8 hc0 x0 x1 x2 x3 x4 x5).1, y ∈ pc.1.set :=
  View.cover_of_tiledL (kernelRun7_A c i arg1 harg1 arg2 harg2 arg3 harg3 arg4 harg4 arg5 harg5 arg6 harg6 arg7 harg7 arg8 harg8 hc0 x0 x1 x2 x3 x4 x5).1 S5000x128.size (by sl_kernel_rfl) y

/-- What case A leaves in output 6's staging buffer: its pieces read back over junk. -/
def out7_A_6 (c : Dev nD) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : cond7_0 i)
    (x0 : Vec F S5000x128 .f32) (x1 : Vec F S1x128 .f32) (x2 : Vec F S1x128 .f32) (x3 : Vec F S1x128 .f32) (x4 : Vec F S1x128 .f32) (x5 : Vec F S5000x1 .i32) : Vec F S5000x128 .f32 :=
  VO7_6.read (Elt F) (VO7_6.writes (Elt F) VO7_6.junk (kernelRun7_A c i arg1 harg1 arg2 harg2 arg3 harg3 arg4 harg4 arg5 harg5 arg6 harg6 arg7 harg7 arg8 harg8 hc0 x0 x1 x2 x3 x4 x5).1)

/-- Case A's pieces for output 7 tile its block, so they cover it. -/
theorem cover7_A_7 (c : Dev nD) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : cond7_0 i)
    (x0 : Vec F S5000x128 .f32) (x1 : Vec F S1x128 .f32) (x2 : Vec F S1x128 .f32) (x3 : Vec F S1x128 .f32) (x4 : Vec F S1x128 .f32) (x5 : Vec F S5000x1 .i32) (y : S128x128.Idx) :
    ∃ pc ∈ (kernelRun7_A c i arg1 harg1 arg2 harg2 arg3 harg3 arg4 harg4 arg5 harg5 arg6 harg6 arg7 harg7 arg8 harg8 hc0 x0 x1 x2 x3 x4 x5).2.1, y ∈ pc.1.set :=
  View.cover_of_tiledL (kernelRun7_A c i arg1 harg1 arg2 harg2 arg3 harg3 arg4 harg4 arg5 harg5 arg6 harg6 arg7 harg7 arg8 harg8 hc0 x0 x1 x2 x3 x4 x5).2.1 S128x128.size (by sl_kernel_rfl) y

/-- What case A leaves in output 7's staging buffer: its pieces read back over junk. -/
def out7_A_7 (c : Dev nD) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : cond7_0 i)
    (x0 : Vec F S5000x128 .f32) (x1 : Vec F S1x128 .f32) (x2 : Vec F S1x128 .f32) (x3 : Vec F S1x128 .f32) (x4 : Vec F S1x128 .f32) (x5 : Vec F S5000x1 .i32) : Vec F S128x128 .f32 :=
  VO7_7.read (Elt F) (VO7_7.writes (Elt F) VO7_7.junk (kernelRun7_A c i arg1 harg1 arg2 harg2 arg3 harg3 arg4 harg4 arg5 harg5 arg6 harg6 arg7 harg7 arg8 harg8 hc0 x0 x1 x2 x3 x4 x5).2.1)

/-- Case B's pieces for output 6 tile its block, so they cover it. -/
theorem cover7_B_6 (c : Dev nD) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : ¬cond7_0 i)
    (x0 : Vec F S5000x128 .f32) (x1 : Vec F S1x128 .f32) (x2 : Vec F S1x128 .f32) (x3 : Vec F S1x128 .f32) (x4 : Vec F S1x128 .f32) (x5 : Vec F S5000x1 .i32) (xo7 : Vec F S128x128 .f32) (y : S5000x128.Idx) :
    ∃ pc ∈ (kernelRun7_B c i arg1 harg1 arg2 harg2 arg3 harg3 arg4 harg4 arg5 harg5 arg6 harg6 arg7 harg7 arg8 harg8 hc0 x0 x1 x2 x3 x4 x5 xo7).1, y ∈ pc.1.set :=
  View.cover_of_tiledL (kernelRun7_B c i arg1 harg1 arg2 harg2 arg3 harg3 arg4 harg4 arg5 harg5 arg6 harg6 arg7 harg7 arg8 harg8 hc0 x0 x1 x2 x3 x4 x5 xo7).1 S5000x128.size (by sl_kernel_rfl) y

/-- What case B leaves in output 6's staging buffer: its pieces read back over junk. -/
def out7_B_6 (c : Dev nD) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : ¬cond7_0 i)
    (x0 : Vec F S5000x128 .f32) (x1 : Vec F S1x128 .f32) (x2 : Vec F S1x128 .f32) (x3 : Vec F S1x128 .f32) (x4 : Vec F S1x128 .f32) (x5 : Vec F S5000x1 .i32) (xo7 : Vec F S128x128 .f32) : Vec F S5000x128 .f32 :=
  VO7_6.read (Elt F) (VO7_6.writes (Elt F) VO7_6.junk (kernelRun7_B c i arg1 harg1 arg2 harg2 arg3 harg3 arg4 harg4 arg5 harg5 arg6 harg6 arg7 harg7 arg8 harg8 hc0 x0 x1 x2 x3 x4 x5 xo7).1)

/-- Case B's pieces for output 7 tile its block, so they cover it. -/
theorem cover7_B_7 (c : Dev nD) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : ¬cond7_0 i)
    (x0 : Vec F S5000x128 .f32) (x1 : Vec F S1x128 .f32) (x2 : Vec F S1x128 .f32) (x3 : Vec F S1x128 .f32) (x4 : Vec F S1x128 .f32) (x5 : Vec F S5000x1 .i32) (xo7 : Vec F S128x128 .f32) (y : S128x128.Idx) :
    ∃ pc ∈ (kernelRun7_B c i arg1 harg1 arg2 harg2 arg3 harg3 arg4 harg4 arg5 harg5 arg6 harg6 arg7 harg7 arg8 harg8 hc0 x0 x1 x2 x3 x4 x5 xo7).2.1, y ∈ pc.1.set :=
  View.cover_of_tiledL (kernelRun7_B c i arg1 harg1 arg2 harg2 arg3 harg3 arg4 harg4 arg5 harg5 arg6 harg6 arg7 harg7 arg8 harg8 hc0 x0 x1 x2 x3 x4 x5 xo7).2.1 S128x128.size (by sl_kernel_rfl) y

/-- What case B leaves in output 7's staging buffer: its pieces read back over junk. -/
def out7_B_7 (c : Dev nD) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : ¬cond7_0 i)
    (x0 : Vec F S5000x128 .f32) (x1 : Vec F S1x128 .f32) (x2 : Vec F S1x128 .f32) (x3 : Vec F S1x128 .f32) (x4 : Vec F S1x128 .f32) (x5 : Vec F S5000x1 .i32) (xo7 : Vec F S128x128 .f32) : Vec F S128x128 .f32 :=
  VO7_7.read (Elt F) (VO7_7.writes (Elt F) VO7_7.junk (kernelRun7_B c i arg1 harg1 arg2 harg2 arg3 harg3 arg4 harg4 arg5 harg5 arg6 harg6 arg7 harg7 arg8 harg8 hc0 x0 x1 x2 x3 x4 x5 xo7).2.1)

/-! ## What the outputs hold after each point -/

/-- The two outputs after a first-point body at `t`: case A at the point's memrefs and input blocks. -/
def pt7_A (c : Dev nD) (t : Fin cfg7.N) (h0 : t.val % 10 = 0) : Vec F S5000x128 .f32 × Vec F S128x128 .f32 :=
  (out7_A_6 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) ((hcond7_0 t).mpr h0) (iblk7 V c 0 t) (iblk7 V c 1 t) (iblk7 V c 2 t) (iblk7 V c 3 t) (iblk7 V c 4 t) (iblk7 V c 5 t),
   out7_A_7 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) ((hcond7_0 t).mpr h0) (iblk7 V c 0 t) (iblk7 V c 1 t) (iblk7 V c 2 t) (iblk7 V c 3 t) (iblk7 V c 4 t) (iblk7 V c 5 t))

/-- The two outputs after a later-point body at `t`, the pooled-sum block having held `xo7`: case B at the
    point's memrefs and input blocks. -/
def pt7_B (c : Dev nD) (t : Fin cfg7.N) (h0 : ¬t.val % 10 = 0) (xo7 : Vec F S128x128 .f32) : Vec F S5000x128 .f32 × Vec F S128x128 .f32 :=
  (out7_B_6 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (fun h => h0 ((hcond7_0 t).mp h)) (iblk7 V c 0 t) (iblk7 V c 1 t) (iblk7 V c 2 t) (iblk7 V c 3 t) (iblk7 V c 4 t) (iblk7 V c 5 t) xo7,
   out7_B_7 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (fun h => h0 ((hcond7_0 t).mp h)) (iblk7 V c 0 t) (iblk7 V c 1 t) (iblk7 V c 2 t) (iblk7 V c 3 t) (iblk7 V c 4 t) (iblk7 V c 5 t) xo7)

/-- THE ACCUMULATION. What the two outputs' staging buffers hold after the body at position `n`: the case the
    closed form selects at `n`, the pooled-sum block of a later point taken at what this leaves at `n - 1`
    (its buffer is not written back in between). -/
def outsAt7 (c : Dev nD) : (n : ℕ) → n < cfg7.N → Vec F S5000x128 .f32 × Vec F S128x128 .f32
  | 0, hn => pt7_A V c ⟨0, hn⟩ (Nat.zero_mod _)
  | n + 1, hn =>
    if h0 : (n + 1) % 10 = 0 then pt7_A V c ⟨n + 1, hn⟩ h0
    else pt7_B V c ⟨n + 1, hn⟩ h0 (outsAt7 c n (Nat.lt_of_succ_lt hn)).2

/-- `outsAt7` at a point of case A: that case's contents. -/
theorem outsAt7_A (c : Dev nD) (t : Fin cfg7.N) (h0 : t.val % 10 = 0) :
    outsAt7 V c t.val t.isLt = pt7_A V c t h0 := by
  obtain ⟨n, hn⟩ := t
  cases n with
  | zero => exact rfl
  | succ n => exact (dif_pos h0).trans rfl

/-- `outsAt7` at a point of case B: that case's contents, over what the point before left. -/
theorem outsAt7_B (c : Dev nD) (t : Fin cfg7.N) (h0 : ¬t.val % 10 = 0) :
    outsAt7 V c t.val t.isLt = pt7_B V c t h0 (outsAt7 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans rfl

/-! ## The pipeline's proof data -/

/-- The proof data of the region's pipeline on core `c`: the arrays as the region finds them (`V`); after the body
    at point `t` each input's buffer at its block and the outputs' at `outsAt7`; the invariant the scoped rest
    and the generator register; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => (outsAt7 V c t.val t.isLt).1
    | ⟨7, _⟩ => (outsAt7 V c t.val t.isLt).2
  Φ _ := Pipeline.ΦA spec7 c
  q _ := fullShare
  owed _ := 0

/-- The proof data's arrays are the region-entry contents (the definition projected). -/
theorem A_eq7 (c : Dev nD) (w : Fin cfg7.W) : (dat7 V c).A w = V c (Pipeline.arrRef spec7 w) := by
  dsimp only [dat7]

/-- What the body leaves, window by window (the proof data's `match` reduced). -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = (outsAt7 V c t.val t.isLt).1 := by dsimp only [dat7]
theorem after7_7 (c : Dev nD) (t : Fin cfg7.N) : (dat7 V c).after 7 t = (outsAt7 V c t.val t.isLt).2 := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d

/-- At a later point the pooled-sum window's staging buffer holds what the body left at the point before: the point is
    not the first, the buffer was not written back in between (it is written back after the last point only), and the
    window is live and uncut. -/
theorem before7_7_B (c : Dev nD) (t : Fin cfg7.N) (h0 : ¬t.val % 10 = 0) (d) :
    (dat7 V c).before 7 t d = (outsAt7 V c (t.val - 1) (Nat.lt_of_le_of_lt (Nat.sub_le _ _) t.isLt)).2 := by
  have hN : t.val < 10 := lt_of_lt_of_eq t.isLt (show cfg7.N = 10 from N_7)
  rw [Dat.before_out_kept _ 7 rfl t (by omega) (Bool.eq_false_iff.mpr fun h => by have := (flush7_7 _).mp h; dsimp only at this; omega)
    (fun _ => rfl) (fun _ _ => rfl)]
  dsimp only [dat7]

/-! ## The body obligation, at a generic point -/

/-- What the body is called with at point `t`: the invariant, what the core owes, and every window's current staging
    buffer at what the proof data say it holds before the body; -/
def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d))
    ∗ (∃ d, owns (c : Thread nD τ) (ms7_4 t) fullShare ((dat7 V c).before 4 t d))
    ∗ (∃ d, owns (c : Thread nD τ) (ms7_5 t) fullShare ((dat7 V c).before 5 t d))
    ∗ (∃ d, owns (c : Thread nD τ) (ms7_6 t) fullShare ((dat7 V c).before 6 t d))
    ∗ (∃ d, owns (c : Thread nD τ) (ms7_7 t) fullShare ((dat7 V c).before 7 t d)))

/-- and what it returns: the same with every buffer at what the data say the body leaves. -/
def bodyPost7 (c : Dev nD) (t : Fin cfg7.N) : sProp 𝕄 :=
  iprop((dat7 V c).Φ t.succ ∗ (dat7 V c).owesAt () t.succ
    ∗ owns (c : Thread nD τ) (ms7_0 t) fullShare ((dat7 V c).after 0 t)
    ∗ owns (c : Thread nD τ) (ms7_1 t) fullShare ((dat7 V c).after 1 t)
    ∗ owns (c : Thread nD τ) (ms7_2 t) fullShare ((dat7 V c).after 2 t)
    ∗ owns (c : Thread nD τ) (ms7_3 t) fullShare ((dat7 V c).after 3 t)
    ∗ owns (c : Thread nD τ) (ms7_4 t) fullShare ((dat7 V c).after 4 t)
    ∗ owns (c : Thread nD τ) (ms7_5 t) fullShare ((dat7 V c).after 5 t)
    ∗ owns (c : Thread nD τ) (ms7_6 t) fullShare ((dat7 V c).after 6 t)
    ∗ owns (c : Thread nD τ) (ms7_7 t) fullShare ((dat7 V c).after 7 t))

set_option maxHeartbeats 1600000 in
/-- The body at any point: the inputs' memrefs hold their blocks; the closed form of the condition says which case
    the point is in; in case B the pooled-sum buffer holds what the point before left; so the case's run applies, and
    a covering list of pieces reads back the same through any view. The invariant and what the core owes pass
    through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6, after7_7]
  have hN : t.val < 10 := lt_of_lt_of_eq t.isLt (show cfg7.N = 10 from N_7)
  by_cases h0 : t.val % 10 = 0
  · rw [outsAt7_A V c t h0]
    dsimp only [pt7_A]
    unfold out7_A_6 out7_A_7
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun7_A c (grid7.coords t) _ _ _ _ _ _ _ _ _ _ _ _ _ _ _ _ ((hcond7_0 t).mpr h0) (iblk7 V c 0 t) (iblk7 V c 1 t) (iblk7 V c 2 t) (iblk7 V c 3 t) (iblk7 V c 4 t) (iblk7 V c 5 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    iintro ⟨H0, H1, H2, H3, H4, H5, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover7_A_6 c _ _ _ _ _ _ _ _ _ _ _ _ _ _ _ _ _ _ _ _ _ _ _ _)
    unfold owns; iexists _; isplitr
    swap; · iexact H7
    ipureintro; exact View.read_writes_of_cover _ _ _ _ _ (cover7_A_7 c _ _ _ _ _ _ _ _ _ _ _ _ _ _ _ _ _ _ _ _ _ _ _ _)
  · rw [outsAt7_B V c t h0]
    simp only [before7_7_B V c t h0]
    dsimp only [pt7_B]
    unfold out7_B_6 out7_B_7
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun7_B c (grid7.coords t) _ _ _ _ _ _ _ _ _ _ _ _ _ _ _ _ (fun h => h0 ((hcond7_0 t).mp h)) (iblk7 V c 0 t) (iblk7 V c 1 t) (iblk7 V c 2 t) (iblk7 V c 3 t) (iblk7 V c 4 t) (iblk7 V c 5 t) _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    iintro ⟨H0, H1, H2, H3, H4, H5, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover7_B_6 c _ _ _ _ _ _ _ _ _ _ _ _ _ _ _ _ _ _ _ _ _ _ _ _ _)
    unfold owns; iexists _; isplitr
    swap; · iexact H7
    ipureintro; exact View.read_writes_of_cover _ _ _ _ _ (cover7_B_7 c _ _ _ _ _ _ _ _ _ _ _ _ _ _ _ _ _ _ _ _ _ _ _ _ _)

/-- The body obligation, at every point. -/
theorem body_obligation7 (c : Dev nD) : BodyObligation (dat7 (F := F) V c) (defs₀ (F := F)) Variants.none () Set.univ := fun t => by
  rw [bigSep_W7, bigSep_W7]
  exact sound_body7 V c t

/-- info: 'Cert.Kernel.Reg.body_obligation7' depends on axioms: [propext, Classical.choice, Quot.sound] -/
#guard_msgs in #print axioms body_obligation7

end Cert.Kernel.Reg

end
-- ==== Proof.K.Reg8.lean ====
import proofs.«144276_j65051574665788_2_alg».proof.Proof.Gen.Kernel.Launch
import proofs.«144276_j65051574665788_2_alg».proof.Proof.Gen.Kernel.Skeleton
import proofs.«144276_j65051574665788_2_alg».proof.Proof.Gen.Kernel.Points
import Idealize.ShloMosaic.Lib.Pipeline.FrameBody
import Idealize.ShloMosaic.Lib.Ring
import Idealize.ShloMosaic.Lib.Tactic

/-! # Region 8 of @main: the layer transform, at the entry contents `V`

The body computes `agg·Wl + h·Wr + bl` into a row block of the first output and adds the block's column sums and
column sums of squares into the second and third outputs, whose single block is revisited at every grid point:
at the first point the two are zeroed first, at a later point they hold what the point before left. Hence two
control cases. Per case the body is run once on arbitrary whole memrefs, the stores it makes into each output
being the witness of the run; the outputs' contents point by point are then a recursion on the point, and the
body obligation follows by cases on the point. Everything is stated at a parameter `V`, the TensorCore's buffer
contents when the region is entered, and at any float instance. -/

-- membership in a rectangle with a long axis recurses once per coordinate
set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, fetched there or not, for any proof data
    whose array is the entry contents (`hA`) and whose body leaves the block in place (`hafter`): unfetched, the block
    index has not moved; the window is uncut and never idle. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's current staging buffer holds its block at every point, fetched there or not, for any proof data
    whose array is the entry contents (`hA`) and whose body leaves the block in place (`hafter`): unfetched, the block
    index has not moved; the window is uncut and never idle. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's current staging buffer holds its block at every point, fetched there or not, for any proof data
    whose array is the entry contents (`hA`) and whose body leaves the block in place (`hafter`): unfetched, the block
    index has not moved; the window is uncut and never idle. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 3's current staging buffer holds its block at every point, fetched there or not, for any proof data
    whose array is the entry contents (`hA`) and whose body leaves the block in place (`hafter`): unfetched, the block
    index has not moved; the window is uncut and never idle. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- Input window 4's current staging buffer holds its block at every point, fetched there or not, for any proof data
    whose array is the entry contents (`hA`) and whose body leaves the block in place (`hafter`): unfetched, the block
    index has not moved; the window is uncut and never idle. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-! ## The body's branch condition -/

/-- The condition of the body's one conditional, from the grid coordinates: the point is the first. -/
abbrev cond8_0 (i : grid8.Coords) : Prop := (Scalar.cmpi .ne (Scalar.extui (Scalar.cmpi .eq (BitVec.ofNat 32 (i 0).val) 0#32)) 0#32) = 1#1
/-- It holds at the first point only: decided over the ten points. -/
theorem hcond8_0 : ∀ t : Fin cfg8.N, cond8_0 (grid8.coords t) ↔ t.val % 10 = 0 :=
  (by decide +kernel : ∀ t : Fin grid8.N, cond8_0 (grid8.coords t) ↔ t.val % 10 = 0)

/-! ## The staging memrefs -/

/-- One staging buffer of each output window, through which its contents are stated (a covering list of writes
    reads back the same through any view). -/
abbrev VO8_5 : View sig .tc .vmem S5000x128 .f32 := (Memref.whole cc8_stg5_0 : Memref sig .tc .vmem S5000x128 .f32).view
abbrev VO8_6 : View sig .tc .vmem S1x128 .f32 := (Memref.whole cc8_stg6_0 : Memref sig .tc .vmem S1x128 .f32).view
abbrev VO8_7 : View sig .tc .vmem S1x128 .f32 := (Memref.whole cc8_stg7_0 : Memref sig .tc .vmem S1x128 .f32).view
/-- Each window's current staging memref at point `t`, spelled as the pipeline passes it, and its wholeness. -/
abbrev ms8_0 (t : Fin cfg8.N) : Memref sig .tc .vmem S5000x128 .f32 := win8_0.stage (cfg8.slots t 0)
abbrev hs8_0 (t : Fin cfg8.N) : (ms8_0 t).IsWhole := hstage8_0 ((cfg8.slots t 0).cast nbuf8_0)
abbrev ms8_1 (t : Fin cfg8.N) : Memref sig .tc .vmem S5000x128 .f32 := win8_1.stage (cfg8.slots t 1)
abbrev hs8_1 (t : Fin cfg8.N) : (ms8_1 t).IsWhole := hstage8_1 ((cfg8.slots t 1).cast nbuf8_1)
abbrev ms8_2 (t : Fin cfg8.N) : Memref sig .tc .vmem S128x128 .f32 := win8_2.stage (cfg8.slots t 2)
abbrev hs8_2 (t : Fin cfg8.N) : (ms8_2 t).IsWhole := hstage8_2 ((cfg8.slots t 2).cast nbuf8_2)
abbrev ms8_3 (t : Fin cfg8.N) : Memref sig .tc .vmem S128x128 .f32 := win8_3.stage (cfg8.slots t 3)
abbrev hs8_3 (t : Fin cfg8.N) : (ms8_3 t).IsWhole := hstage8_3 ((cfg8.slots t 3).cast nbuf8_3)
abbrev ms8_4 (t : Fin cfg8.N) : Memref sig .tc .vmem S1x128 .f32 := win8_4.stage (cfg8.slots t 4)
abbrev hs8_4 (t : Fin cfg8.N) : (ms8_4 t).IsWhole := hstage8_4 ((cfg8.slots t 4).cast nbuf8_4)
abbrev ms8_5 (t : Fin cfg8.N) : Memref sig .tc .vmem S5000x128 .f32 := win8_5.stage (cfg8.slots t 5)
abbrev hs8_5 (t : Fin cfg8.N) : (ms8_5 t).IsWhole := hstage8_5 ((cfg8.slots t 5).cast nbuf8_5)
abbrev ms8_6 (t : Fin cfg8.N) : Memref sig .tc .vmem S1x128 .f32 := win8_6.stage (cfg8.slots t 6)
abbrev hs8_6 (t : Fin cfg8.N) : (ms8_6 t).IsWhole := hstage8_6 ((cfg8.slots t 6).cast nbuf8_6)
abbrev ms8_7 (t : Fin cfg8.N) : Memref sig .tc .vmem S1x128 .f32 := win8_7.stage (cfg8.slots t 7)
abbrev hs8_7 (t : Fin cfg8.N) : (ms8_7 t).IsWhole := hstage8_7 ((cfg8.slots t 7).cast nbuf8_7)

/-! ## The body on any whole memrefs, case by case -/

set_option maxHeartbeats 1000000 in
/-- THE FIRST POINT. The pieces the body's stores leave in each output's memref (last first), with the proof that on
    whole memrefs — the inputs' at contents `x·`, the outputs' at anything — the body runs to the continuation
    holding the inputs' as they were and each output's with its pieces written. The conditional is taken: the two
    accumulators are zeroed, then read back and added to. -/
noncomputable def kernelRun8_A (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : cond8_0 i)
    (x0 : Vec F S5000x128 .f32) (x1 : Vec F S5000x128 .f32) (x2 : Vec F S128x128 .f32) (x3 : Vec F S128x128 .f32) (x4 : Vec F S1x128 .f32) :
    Σ' (L5 : List (View.Piece (Elt F) S5000x128 .f32)) (L6 : List (View.Piece (Elt F) S1x128 .f32)), { L7 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc8__layer_transform_kernel i arg1 harg1 arg2 harg2 arg3 harg3 arg4 harg4 arg5 harg5 arg6 harg6 arg7 harg7 arg8 harg8) K } := by
  refine ⟨?_, ?_, ?_, fun E K => ?run⟩
  case run =>
    simp only [cc8__layer_transform_kernel_eq_skeleton]; unfold cc8__layer_transform_kernel_skel
    simp only [k8_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    iexists _; iexact H7

set_option maxHeartbeats 1000000 in
/-- A LATER POINT. The same with the conditional not taken: the two accumulators' memrefs are handed over at the
    running contents `xo6`, `xo7`, which the body reads before it covers them. -/
noncomputable def kernelRun8_B (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : ¬cond8_0 i)
    (x0 : Vec F S5000x128 .f32) (x1 : Vec F S5000x128 .f32) (x2 : Vec F S128x128 .f32) (x3 : Vec F S128x128 .f32) (x4 : Vec F S1x128 .f32) (xo6 : Vec F S1x128 .f32) (xo7 : Vec F S1x128 .f32) :
    Σ' (L5 : List (View.Piece (Elt F) S5000x128 .f32)) (L6 : List (View.Piece (Elt F) S1x128 .f32)), { L7 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ owns (c : Thread nD τ) arg7 fullShare xo6 ∗ owns (c : Thread nD τ) arg8 fullShare xo7
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc8__layer_transform_kernel i arg1 harg1 arg2 harg2 arg3 harg3 arg4 harg4 arg5 harg5 arg6 harg6 arg7 harg7 arg8 harg8) K } := by
  refine ⟨?_, ?_, ?_, fun E K => ?run⟩
  case run =>
    simp only [cc8__layer_transform_kernel_eq_skeleton]; unfold cc8__layer_transform_kernel_skel
    simp only [k8_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
    obtain rfl := harg1.eq_unread hf0; obtain rfl := harg2.eq_unread hf1; obtain rfl := harg3.eq_unread hf2
    obtain rfl := harg4.eq_unread hf3; obtain rfl := harg5.eq_unread hf4
    obtain rfl := harg7.eq_unread hf6; obtain rfl := harg8.eq_unread hf7
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    iexists _; iexact H7

/-! ## The pieces cover the outputs' blocks -/

/-- Case A's pieces for output 5 tile its block, so they cover it. -/
theorem cover8_A_5 (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : cond8_0 i)
    (x0 : Vec F S5000x128 .f32) (x1 : Vec F S5000x128 .f32) (x2 : Vec F S128x128 .f32) (x3 : Vec F S128x128 .f32) (x4 : Vec F S1x128 .f32) (y : S5000x128.Idx) :
    ∃ pc ∈ (kernelRun8_A c i arg1 harg1 arg2 harg2 arg3 harg3 arg4 harg4 arg5 harg5 arg6 harg6 arg7 harg7 arg8 harg8 hc0 x0 x1 x2 x3 x4).1, y ∈ pc.1.set :=
  View.cover_of_tiledL (kernelRun8_A c i arg1 harg1 arg2 harg2 arg3 harg3 arg4 harg4 arg5 harg5 arg6 harg6 arg7 harg7 arg8 harg8 hc0 x0 x1 x2 x3 x4).1 S5000x128.size (by sl_kernel_rfl) y

/-- Case A's pieces for output 6 tile its block, so they cover it. -/
theorem cover8_A_6 (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : cond8_0 i)
    (x0 : Vec F S5000x128 .f32) (x1 : Vec F S5000x128 .f32) (x2 : Vec F S128x128 .f32) (x3 : Vec F S128x128 .f32) (x4 : Vec F S1x128 .f32) (y : S1x128.Idx) :
    ∃ pc ∈ (kernelRun8_A c i arg1 harg1 arg2 harg2 arg3 harg3 arg4 harg4 arg5 harg5 arg6 harg6 arg7 harg7 arg8 harg8 hc0 x0 x1 x2 x3 x4).2.1, y ∈ pc.1.set :=
  View.cover_of_tiledL (kernelRun8_A c i arg1 harg1 arg2 harg2 arg3 harg3 arg4 harg4 arg5 harg5 arg6 harg6 arg7 harg7 arg8 harg8 hc0 x0 x1 x2 x3 x4).2.1 S1x128.size (by sl_kernel_rfl) y

/-- Case A's pieces for output 7 tile its block, so they cover it. -/
theorem cover8_A_7 (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : cond8_0 i)
    (x0 : Vec F S5000x128 .f32) (x1 : Vec F S5000x128 .f32) (x2 : Vec F S128x128 .f32) (x3 : Vec F S128x128 .f32) (x4 : Vec F S1x128 .f32) (y : S1x128.Idx) :
    ∃ pc ∈ (kernelRun8_A c i arg1 harg1 arg2 harg2 arg3 harg3 arg4 harg4 arg5 harg5 arg6 harg6 arg7 harg7 arg8 harg8 hc0 x0 x1 x2 x3 x4).2.2.1, y ∈ pc.1.set :=
  View.cover_of_tiledL (kernelRun8_A c i arg1 harg1 arg2 harg2 arg3 harg3 arg4 harg4 arg5 harg5 arg6 harg6 arg7 harg7 arg8 harg8 hc0 x0 x1 x2 x3 x4).2.2.1 S1x128.size (by sl_kernel_rfl) y

/-- Case B's pieces for output 5 tile its block, so they cover it. -/
theorem cover8_B_5 (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : ¬cond8_0 i)
    (x0 : Vec F S5000x128 .f32) (x1 : Vec F S5000x128 .f32) (x2 : Vec F S128x128 .f32) (x3 : Vec F S128x128 .f32) (x4 : Vec F S1x128 .f32) (xo6 : Vec F S1x128 .f32) (xo7 : Vec F S1x128 .f32) (y : S5000x128.Idx) :
    ∃ pc ∈ (kernelRun8_B c i arg1 harg1 arg2 harg2 arg3 harg3 arg4 harg4 arg5 harg5 arg6 harg6 arg7 harg7 arg8 harg8 hc0 x0 x1 x2 x3 x4 xo6 xo7).1, y ∈ pc.1.set :=
  View.cover_of_tiledL (kernelRun8_B c i arg1 harg1 arg2 harg2 arg3 harg3 arg4 harg4 arg5 harg5 arg6 harg6 arg7 harg7 arg8 harg8 hc0 x0 x1 x2 x3 x4 xo6 xo7).1 S5000x128.size (by sl_kernel_rfl) y

/-- Case B's pieces for output 6 tile its block, so they cover it. -/
theorem cover8_B_6 (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : ¬cond8_0 i)
    (x0 : Vec F S5000x128 .f32) (x1 : Vec F S5000x128 .f32) (x2 : Vec F S128x128 .f32) (x3 : Vec F S128x128 .f32) (x4 : Vec F S1x128 .f32) (xo6 : Vec F S1x128 .f32) (xo7 : Vec F S1x128 .f32) (y : S1x128.Idx) :
    ∃ pc ∈ (kernelRun8_B c i arg1 harg1 arg2 harg2 arg3 harg3 arg4 harg4 arg5 harg5 arg6 harg6 arg7 harg7 arg8 harg8 hc0 x0 x1 x2 x3 x4 xo6 xo7).2.1, y ∈ pc.1.set :=
  View.cover_of_tiledL (kernelRun8_B c i arg1 harg1 arg2 harg2 arg3 harg3 arg4 harg4 arg5 harg5 arg6 harg6 arg7 harg7 arg8 harg8 hc0 x0 x1 x2 x3 x4 xo6 xo7).2.1 S1x128.size (by sl_kernel_rfl) y

/-- Case B's pieces for output 7 tile its block, so they cover it. -/
theorem cover8_B_7 (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : ¬cond8_0 i)
    (x0 : Vec F S5000x128 .f32) (x1 : Vec F S5000x128 .f32) (x2 : Vec F S128x128 .f32) (x3 : Vec F S128x128 .f32) (x4 : Vec F S1x128 .f32) (xo6 : Vec F S1x128 .f32) (xo7 : Vec F S1x128 .f32) (y : S1x128.Idx) :
    ∃ pc ∈ (kernelRun8_B c i arg1 harg1 arg2 harg2 arg3 harg3 arg4 harg4 arg5 harg5 arg6 harg6 arg7 harg7 arg8 harg8 hc0 x0 x1 x2 x3 x4 xo6 xo7).2.2.1, y ∈ pc.1.set :=
  View.cover_of_tiledL (kernelRun8_B c i arg1 harg1 arg2 harg2 arg3 harg3 arg4 harg4 arg5 harg5 arg6 harg6 arg7 harg7 arg8 harg8 hc0 x0 x1 x2 x3 x4 xo6 xo7).2.2.1 S1x128.size (by sl_kernel_rfl) y

/-! ## What the outputs hold after each point -/

/-- The first-point run at point `t`'s memrefs and input blocks. -/
abbrev runA8 (c : Dev nD) (t : Fin cfg8.N) (h0 : t.val % 10 = 0) :=
  kernelRun8_A (F := F) c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) ((hcond8_0 t).mpr h0) (iblk8 V c 0 t) (iblk8 V c 1 t) (iblk8 V c 2 t) (iblk8 V c 3 t) (iblk8 V c 4 t)

/-- The later-point run at point `t`'s memrefs and input blocks, the accumulators at `xo6`, `xo7`. -/
abbrev runB8 (c : Dev nD) (t : Fin cfg8.N) (h0 : ¬t.val % 10 = 0) (xo6 : Vec F S1x128 .f32) (xo7 : Vec F S1x128 .f32) :=
  kernelRun8_B (F := F) c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (fun h => h0 ((hcond8_0 t).mp h)) (iblk8 V c 0 t) (iblk8 V c 1 t) (iblk8 V c 2 t) (iblk8 V c 3 t) (iblk8 V c 4 t) xo6 xo7

/-- What the first-point case leaves in the three outputs' staging buffers: its pieces read back over junk. -/
def outsA8 (c : Dev nD) (t : Fin cfg8.N) (h0 : t.val % 10 = 0) : Vec F S5000x128 .f32 × Vec F S1x128 .f32 × Vec F S1x128 .f32 :=
  (VO8_5.read (Elt F) (VO8_5.writes (Elt F) VO8_5.junk (runA8 V c t h0).1),
   VO8_6.read (Elt F) (VO8_6.writes (Elt F) VO8_6.junk (runA8 V c t h0).2.1),
   VO8_7.read (Elt F) (VO8_7.writes (Elt F) VO8_7.junk (runA8 V c t h0).2.2.1))

/-- What the later-point case leaves there, over accumulators at `xo6`, `xo7`. -/
def outsB8 (c : Dev nD) (t : Fin cfg8.N) (h0 : ¬t.val % 10 = 0) (xo6 : Vec F S1x128 .f32) (xo7 : Vec F S1x128 .f32) :
    Vec F S5000x128 .f32 × Vec F S1x128 .f32 × Vec F S1x128 .f32 :=
  (VO8_5.read (Elt F) (VO8_5.writes (Elt F) VO8_5.junk (runB8 V c t h0 xo6 xo7).1),
   VO8_6.read (Elt F) (VO8_6.writes (Elt F) VO8_6.junk (runB8 V c t h0 xo6 xo7).2.1),
   VO8_7.read (Elt F) (VO8_7.writes (Elt F) VO8_7.junk (runB8 V c t h0 xo6 xo7).2.2.1))

/-- THE ACCUMULATION. What the three outputs' staging buffers hold after the body at position `n`: the case the
    point is in, run at the point's memrefs and input blocks, the two accumulators at what this leaves at `n - 1`
    (their buffer is not written back in between). -/
def outsAt8 (c : Dev nD) : (n : ℕ) → n < cfg8.N → Vec F S5000x128 .f32 × Vec F S1x128 .f32 × Vec F S1x128 .f32
  | 0, hn => outsA8 V c ⟨0, hn⟩ (Nat.zero_mod _)
  | n + 1, hn =>
    if h0 : (n + 1) % 10 = 0 then
      outsA8 V c ⟨n + 1, hn⟩ h0
    else
      outsB8 V c ⟨n + 1, hn⟩ h0 (outsAt8 c n (Nat.lt_of_succ_lt hn)).2.1 (outsAt8 c n (Nat.lt_of_succ_lt hn)).2.2

/-- `outsAt8` at a first point: that case's contents. -/
theorem outsAt8_A (c : Dev nD) (t : Fin cfg8.N) (h0 : t.val % 10 = 0) :
    outsAt8 V c t.val t.isLt = outsA8 V c t h0 := by
  obtain ⟨n, hn⟩ := t
  cases n with
  | zero => exact rfl
  | succ n => exact (dif_pos h0).trans rfl

/-- `outsAt8` at a later point: that case's contents, over what the point before left. -/
theorem outsAt8_B (c : Dev nD) (t : Fin cfg8.N) (h0 : ¬t.val % 10 = 0) :
    outsAt8 V c t.val t.isLt = outsB8 V c t h0
      (outsAt8 V c (t.val - 1) (Nat.lt_of_le_of_lt (Nat.sub_le _ _) t.isLt)).2.1
      (outsAt8 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans rfl

/-! ## The pipeline's proof data -/

/-- The proof data of the region's pipeline on core `c`: the arrays as the region finds them (`V`); after the body
    at point `t` each input's buffer at its block and the outputs' at `outsAt8`; the invariant the scoped rest
    and the generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => (outsAt8 V c t.val t.isLt).1
    | ⟨6, _⟩ => (outsAt8 V c t.val t.isLt).2.1
    | ⟨7, _⟩ => (outsAt8 V c t.val t.isLt).2.2
  Φ _ := Pipeline.ΦA spec8 c
  q _ := fullShare
  owed _ := 0

/-- The proof data's arrays are the region-entry contents (the definition projected). -/
theorem A_eq8 (c : Dev nD) (w : Fin cfg8.W) : (dat8 V c).A w = V c (Pipeline.arrRef spec8 w) := by
  dsimp only [dat8]

/-- What the body leaves, window by window (the definition's `match` reduced). -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = (outsAt8 V c t.val t.isLt).1 := by dsimp only [dat8]
theorem after8_6 (c : Dev nD) (t : Fin cfg8.N) : (dat8 V c).after 6 t = (outsAt8 V c t.val t.isLt).2.1 := by dsimp only [dat8]
theorem after8_7 (c : Dev nD) (t : Fin cfg8.N) : (dat8 V c).after 7 t = (outsAt8 V c t.val t.isLt).2.2 := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d

/-- At a later point output 6's staging buffer holds what the body left at the point before: the buffer is written
    back at the last point only, and the window is live and uncut. -/
theorem before8_6_B (c : Dev nD) (t : Fin cfg8.N) (h0 : ¬t.val % 10 = 0) (d) :
    (dat8 V c).before 6 t d = (outsAt8 V c (t.val - 1) (Nat.lt_of_le_of_lt (Nat.sub_le _ _) t.isLt)).2.1 := by
  have hN : t.val < 10 := lt_of_lt_of_eq t.isLt (show cfg8.N = 10 from N_8)
  rw [Dat.before_out_kept _ 6 rfl t (by omega) (Bool.eq_false_iff.mpr fun h => by have := (flush8_6 _).mp h; dsimp only at this; omega)
    (fun _ => rfl) (fun _ _ => rfl)]
  dsimp only [dat8]

/-- At a later point output 7's staging buffer holds what the body left at the point before: the buffer is written
    back at the last point only, and the window is live and uncut. -/
theorem before8_7_B (c : Dev nD) (t : Fin cfg8.N) (h0 : ¬t.val % 10 = 0) (d) :
    (dat8 V c).before 7 t d = (outsAt8 V c (t.val - 1) (Nat.lt_of_le_of_lt (Nat.sub_le _ _) t.isLt)).2.2 := by
  have hN : t.val < 10 := lt_of_lt_of_eq t.isLt (show cfg8.N = 10 from N_8)
  rw [Dat.before_out_kept _ 7 rfl t (by omega) (Bool.eq_false_iff.mpr fun h => by have := (flush8_7 _).mp h; dsimp only at this; omega)
    (fun _ => rfl) (fun _ _ => rfl)]
  dsimp only [dat8]

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (ms8_0 t) fullShare ((dat8 V c).before 0 t d))
    ∗ (∃ d, owns (c : Thread nD τ) (ms8_1 t) fullShare ((dat8 V c).before 1 t d))
    ∗ (∃ d, owns (c : Thread nD τ) (ms8_2 t) fullShare ((dat8 V c).before 2 t d))
    ∗ (∃ d, owns (c : Thread nD τ) (ms8_3 t) fullShare ((dat8 V c).before 3 t d))
    ∗ (∃ d, owns (c : Thread nD τ) (ms8_4 t) fullShare ((dat8 V c).before 4 t d))
    ∗ (∃ d, owns (c : Thread nD τ) (ms8_5 t) fullShare ((dat8 V c).before 5 t d))
    ∗ (∃ d, owns (c : Thread nD τ) (ms8_6 t) fullShare ((dat8 V c).before 6 t d))
    ∗ (∃ d, owns (c : Thread nD τ) (ms8_7 t) fullShare ((dat8 V c).before 7 t d)))

/-- and what it returns. -/
def bodyPost8 (c : Dev nD) (t : Fin cfg8.N) : sProp 𝕄 :=
  iprop((dat8 V c).Φ t.succ ∗ (dat8 V c).owesAt () t.succ
    ∗ owns (c : Thread nD τ) (ms8_0 t) fullShare ((dat8 V c).after 0 t)
    ∗ owns (c : Thread nD τ) (ms8_1 t) fullShare ((dat8 V c).after 1 t)
    ∗ owns (c : Thread nD τ) (ms8_2 t) fullShare ((dat8 V c).after 2 t)
    ∗ owns (c : Thread nD τ) (ms8_3 t) fullShare ((dat8 V c).after 3 t)
    ∗ owns (c : Thread nD τ) (ms8_4 t) fullShare ((dat8 V c).after 4 t)
    ∗ owns (c : Thread nD τ) (ms8_5 t) fullShare ((dat8 V c).after 5 t)
    ∗ owns (c : Thread nD τ) (ms8_6 t) fullShare ((dat8 V c).after 6 t)
    ∗ owns (c : Thread nD τ) (ms8_7 t) fullShare ((dat8 V c).after 7 t))

set_option maxHeartbeats 1600000 in
/-- The body at any point: the inputs' memrefs hold their blocks; the closed form of the condition says which case
    the point is in; at a later point the two accumulators hold what the point before left; so the case's run
    applies, and its pieces, covering each output's block, read back as `outsAt8` says. The invariant passes
    through unread and the core owes nothing throughout. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6, after8_7]
  have hN : t.val < 10 := lt_of_lt_of_eq t.isLt (show cfg8.N = 10 from N_8)
  by_cases h0 : t.val % 10 = 0
  · rw [outsAt8_A V c t h0]
    unfold outsA8; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runA8 V c t h0).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    iintro ⟨H0, H1, H2, H3, H4, ⟨%e5, H5⟩, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover8_A_5 c _ _ _ _ _ _ _ _ _ _ _ _ _ _ _ _ _ _ _ _ _ _ _)
    isplitl [H6]
    · unfold owns; iexists _; isplitr
      swap; · iexact H6
      ipureintro; exact View.read_writes_of_cover _ _ _ _ _ (cover8_A_6 c _ _ _ _ _ _ _ _ _ _ _ _ _ _ _ _ _ _ _ _ _ _ _)
    unfold owns; iexists _; isplitr
    swap; · iexact H7
    ipureintro; exact View.read_writes_of_cover _ _ _ _ _ (cover8_A_7 c _ _ _ _ _ _ _ _ _ _ _ _ _ _ _ _ _ _ _ _ _ _ _)
  · rw [outsAt8_B V c t h0]
    simp only [before8_6_B V c t h0, before8_7_B V c t h0]
    unfold outsB8; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runB8 V c t h0 _ _).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    iintro ⟨H0, H1, H2, H3, H4, ⟨%e5, H5⟩, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover8_B_5 c _ _ _ _ _ _ _ _ _ _ _ _ _ _ _ _ _ _ _ _ _ _ _ _ _)
    isplitl [H6]
    · unfold owns; iexists _; isplitr
      swap; · iexact H6
      ipureintro; exact View.read_writes_of_cover _ _ _ _ _ (cover8_B_6 c _ _ _ _ _ _ _ _ _ _ _ _ _ _ _ _ _ _ _ _ _ _ _ _ _)
    unfold owns; iexists _; isplitr
    swap; · iexact H7
    ipureintro; exact View.read_writes_of_cover _ _ _ _ _ (cover8_B_7 c _ _ _ _ _ _ _ _ _ _ _ _ _ _ _ _ _ _ _ _ _ _ _ _ _)

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.Kernel.Reg

end
-- ==== Proof.K.Reg9.lean ====
import proofs.«144276_j65051574665788_2_alg».proof.Proof.Gen.Kernel.Launch
import proofs.«144276_j65051574665788_2_alg».proof.Proof.Gen.Kernel.Skeleton
import proofs.«144276_j65051574665788_2_alg».proof.Proof.Gen.Kernel.Points
import Idealize.ShloMosaic.Lib.Pipeline.FrameBody
import Idealize.ShloMosaic.Lib.Ring
import Idealize.ShloMosaic.Lib.Tactic

/-! # Region 9 of @main: the normalisation and pooling call, at the entry contents `V`

The body's half of the region's frame: for any contents `V` of the core's buffers at the region's entry, the
proof data of the pipeline (what every window's staging buffer holds before and after the body at every grid
point) and the body obligation — the body, run at any grid point on buffers holding what the data say, ends
with them holding what the data say, touching nothing else.

The body has two control cases. At the first grid point the pooled-sum block (window 7) is zeroed and then
added to; at every later point it is read at what the point before left and added to. The normalised block
(window 6) is stored whole at every point. What the two outputs hold after each point is therefore a recursion
on the point, the pooled-sum block carried from the point before. -/

-- membership in a rectangle of large extents recurses once per coordinate of the long axes
set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0: its current staging buffer holds its block at every point, whether fetched there or not
    (unfetched, the block index has not moved since the fetch), for any proof data whose array is `V`'s and whose
    body leaves the block in place; the window is uncut and never idle. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1: its current staging buffer holds its block at every point, whether fetched there or not
    (unfetched, the block index has not moved since the fetch), for any proof data whose array is `V`'s and whose
    body leaves the block in place; the window is uncut and never idle. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2: its current staging buffer holds its block at every point, whether fetched there or not
    (unfetched, the block index has not moved since the fetch), for any proof data whose array is `V`'s and whose
    body leaves the block in place; the window is uncut and never idle. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- Input window 3: its current staging buffer holds its block at every point, whether fetched there or not
    (unfetched, the block index has not moved since the fetch), for any proof data whose array is `V`'s and whose
    body leaves the block in place; the window is uncut and never idle. -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

/-- Input window 4: its current staging buffer holds its block at every point, whether fetched there or not
    (unfetched, the block index has not moved since the fetch), for any proof data whose array is `V`'s and whose
    body leaves the block in place; the window is uncut and never idle. -/
theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)

/-- Input window 5: its current staging buffer holds its block at every point, whether fetched there or not
    (unfetched, the block index has not moved since the fetch), for any proof data whose array is `V`'s and whose
    body leaves the block in place; the window is uncut and never idle. -/
theorem before9_5_of {c : Dev nD} (dat : Dat τ (Elt F) Unit ℕ (UR sig nD τ) ℕ cfg9 c) (hA : dat.A 5 = V c (Pipeline.arrRef spec9 5))
    (hafter : ∀ t, dat.after 5 t = iblk9 V c 5 t) (t : Fin cfg9.N) (d) : dat.before 5 t d = iblk9 V c 5 t :=
  (dat.before_in_eq_fetched 5 rfl (fun _ => rfl) (fun _ _ _ => rfl) (fun t => by rw [hafter]; unfold Dat.blockOf iblk9; rw [hA]; try rfl) t d).trans
    (by unfold Dat.fetched Dat.blockOf iblk9; rw [hA]; try rfl)

/-! ## The body's branch condition -/

/-- The condition of the body's one conditional, as a function of the grid coordinates: "this is point 0". -/
abbrev cond9_0 (i : grid9.Coords) : Prop := (Scalar.cmpi .ne (Scalar.extui (Scalar.cmpi .eq (BitVec.ofNat 32 (i 0).val) 0#32)) 0#32) = 1#1
/-- It holds at the first point only — decided over the ten points of the grid. -/
theorem hcond9_0 : ∀ t : Fin cfg9.N, cond9_0 (grid9.coords t) ↔ t.val % 10 = 0 :=
  (by decide +kernel : ∀ t : Fin grid9.N, cond9_0 (grid9.coords t) ↔ t.val % 10 = 0)

/-! ## The staging memrefs -/

/-- One staging buffer of each output window, through which its contents are stated (a covering list of writes
    reads back the same through any view of the shape). -/
abbrev VO9_6 : View sig .tc .vmem S5000x128 .f32 := (Memref.whole cc9_stg6_0 : Memref sig .tc .vmem S5000x128 .f32).view
abbrev VO9_7 : View sig .tc .vmem S128x128 .f32 := (Memref.whole cc9_stg7_0 : Memref sig .tc .vmem S128x128 .f32).view
/-- Each window's current staging memref at point `t`, spelled as the pipeline passes it to the body, and its wholeness. -/
abbrev ms9_0 (t : Fin cfg9.N) : Memref sig .tc .vmem S5000x128 .f32 := win9_0.stage (cfg9.slots t 0)
abbrev hs9_0 (t : Fin cfg9.N) : (ms9_0 t).IsWhole := hstage9_0 ((cfg9.slots t 0).cast nbuf9_0)
abbrev ms9_1 (t : Fin cfg9.N) : Memref sig .tc .vmem S1x128 .f32 := win9_1.stage (cfg9.slots t 1)
abbrev hs9_1 (t : Fin cfg9.N) : (ms9_1 t).IsWhole := hstage9_1 ((cfg9.slots t 1).cast nbuf9_1)
abbrev ms9_2 (t : Fin cfg9.N) : Memref sig .tc .vmem S1x128 .f32 := win9_2.stage (cfg9.slots t 2)
abbrev hs9_2 (t : Fin cfg9.N) : (ms9_2 t).IsWhole := hstage9_2 ((cfg9.slots t 2).cast nbuf9_2)
abbrev ms9_3 (t : Fin cfg9.N) : Memref sig .tc .vmem S1x128 .f32 := win9_3.stage (cfg9.slots t 3)
abbrev hs9_3 (t : Fin cfg9.N) : (ms9_3 t).IsWhole := hstage9_3 ((cfg9.slots t 3).cast nbuf9_3)
abbrev ms9_4 (t : Fin cfg9.N) : Memref sig .tc .vmem S1x128 .f32 := win9_4.stage (cfg9.slots t 4)
abbrev hs9_4 (t : Fin cfg9.N) : (ms9_4 t).IsWhole := hstage9_4 ((cfg9.slots t 4).cast nbuf9_4)
abbrev ms9_5 (t : Fin cfg9.N) : Memref sig .tc .vmem S5000x1 .i32 := win9_5.stage (cfg9.slots t 5)
abbrev hs9_5 (t : Fin cfg9.N) : (ms9_5 t).IsWhole := hstage9_5 ((cfg9.slots t 5).cast nbuf9_5)
abbrev ms9_6 (t : Fin cfg9.N) : Memref sig .tc .vmem S5000x128 .f32 := win9_6.stage (cfg9.slots t 6)
abbrev hs9_6 (t : Fin cfg9.N) : (ms9_6 t).IsWhole := hstage9_6 ((cfg9.slots t 6).cast nbuf9_6)
abbrev ms9_7 (t : Fin cfg9.N) : Memref sig .tc .vmem S128x128 .f32 := win9_7.stage (cfg9.slots t 7)
abbrev hs9_7 (t : Fin cfg9.N) : (ms9_7 t).IsWhole := hstage9_7 ((cfg9.slots t 7).cast nbuf9_7)

/-! ## The body on any staging memrefs, case by case -/

set_option maxHeartbeats 1000000 in
/-- CASE A (the first point: the conditional taken). The pieces the body's stores leave in the two outputs' staging
    memrefs (last first), with the proof that on whole staging memrefs — the inputs' at contents `x·`, the outputs'
    at anything — the body runs to a continuation that is handed the inputs' as they were and each output's buffer
    with its pieces written. The pooled-sum block is zeroed before it is read, so what it held does not matter. -/
noncomputable def kernelRun9_A (c : Dev nD) (i : grid9.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : cond9_0 i)
    (x0 : Vec F S5000x128 .f32) (x1 : Vec F S1x128 .f32) (x2 : Vec F S1x128 .f32) (x3 : Vec F S1x128 .f32) (x4 : Vec F S1x128 .f32) (x5 : Vec F S5000x1 .i32) :
    Σ' (L6 : List (View.Piece (Elt F) S5000x128 .f32)), { L7 : List (View.Piece (Elt F) S128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc9_kernel i arg1 harg1 arg2 harg2 arg3 harg3 arg4 harg4 arg5 harg5 arg6 harg6 arg7 harg7 arg8 harg8) K } := by
  refine ⟨?_, ?_, fun E K => ?run⟩
  case run =>
    simp only [cc9_kernel_eq_skeleton]; unfold cc9_kernel_skel
    simp only [k9_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact H7

set_option maxHeartbeats 1000000 in
/-- CASE B (a later point: the conditional not taken). As case A, but the pooled-sum block is read before it is
    stored: its buffer is taken at the running contents `xo7`, which the pieces mention. -/
noncomputable def kernelRun9_B (c : Dev nD) (i : grid9.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : ¬cond9_0 i)
    (x0 : Vec F S5000x128 .f32) (x1 : Vec F S1x128 .f32) (x2 : Vec F S1x128 .f32) (x3 : Vec F S1x128 .f32) (x4 : Vec F S1x128 .f32) (x5 : Vec F S5000x1 .i32) (xo7 : Vec F S128x128 .f32) :
    Σ' (L6 : List (View.Piece (Elt F) S5000x128 .f32)), { L7 : List (View.Piece (Elt F) S128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xo7
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc9_kernel i arg1 harg1 arg2 harg2 arg3 harg3 arg4 harg4 arg5 harg5 arg6 harg6 arg7 harg7 arg8 harg8) K } := by
  refine ⟨?_, ?_, fun E K => ?run⟩
  case run =>
    simp only [cc9_kernel_eq_skeleton]; unfold cc9_kernel_skel
    simp only [k9_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact H7

/-! ## What each case leaves in the outputs -/

/-- Case A's pieces for output 6 tile its block, so they cover it. -/
theorem cover9_A_6 (c : Dev nD) (i : grid9.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : cond9_0 i)
    (x0 : Vec F S5000x128 .f32) (x1 : Vec F S1x128 .f32) (x2 : Vec F S1x128 .f32) (x3 : Vec F S1x128 .f32) (x4 : Vec F S1x128 .f32) (x5 : Vec F S5000x1 .i32) (y : S5000x128.Idx) :
    ∃ pc ∈ (kernelRun9_A c i arg1 harg1 arg2 harg2 arg3 harg3 arg4 harg4 arg5 harg5 arg6 harg6 arg7 harg7 arg8 harg8 hc0 x0 x1 x2 x3 x4 x5).1, y ∈ pc.1.set :=
  View.cover_of_tiledL (kernelRun9_A c i arg1 harg1 arg2 harg2 arg3 harg3 arg4 harg4 arg5 harg5 arg6 harg6 arg7 harg7 arg8 harg8 hc0 x0 x1 x2 x3 x4 x5).1 S5000x128.size (by sl_kernel_rfl) y

/-- What case A leaves in output 6's staging buffer: its pieces read back over junk. -/
def out9_A_6 (c : Dev nD) (i : grid9.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : cond9_0 i)
    (x0 : Vec F S5000x128 .f32) (x1 : Vec F S1x128 .f32) (x2 : Vec F S1x128 .f32) (x3 : Vec F S1x128 .f32) (x4 : Vec F S1x128 .f32) (x5 : Vec F S5000x1 .i32) : Vec F S5000x128 .f32 :=
  VO9_6.read (Elt F) (VO9_6.writes (Elt F) VO9_6.junk (kernelRun9_A c i arg1 harg1 arg2 harg2 arg3 harg3 arg4 harg4 arg5 harg5 arg6 harg6 arg7 harg7 arg8 harg8 hc0 x0 x1 x2 x3 x4 x5).1)

/-- Case A's pieces for output 7 tile its block, so they cover it. -/
theorem cover9_A_7 (c : Dev nD) (i : grid9.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : cond9_0 i)
    (x0 : Vec F S5000x128 .f32) (x1 : Vec F S1x128 .f32) (x2 : Vec F S1x128 .f32) (x3 : Vec F S1x128 .f32) (x4 : Vec F S1x128 .f32) (x5 : Vec F S5000x1 .i32) (y : S128x128.Idx) :
    ∃ pc ∈ (kernelRun9_A c i arg1 harg1 arg2 harg2 arg3 harg3 arg4 harg4 arg5 harg5 arg6 harg6 arg7 harg7 arg8 harg8 hc0 x0 x1 x2 x3 x4 x5).2.1, y ∈ pc.1.set :=
  View.cover_of_tiledL (kernelRun9_A c i arg1 harg1 arg2 harg2 arg3 harg3 arg4 harg4 arg5 harg5 arg6 harg6 arg7 harg7 arg8 harg8 hc0 x0 x1 x2 x3 x4 x5).2.1 S128x128.size (by sl_kernel_rfl) y

/-- What case A leaves in output 7's staging buffer: its pieces read back over junk. -/
def out9_A_7 (c : Dev nD) (i : grid9.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : cond9_0 i)
    (x0 : Vec F S5000x128 .f32) (x1 : Vec F S1x128 .f32) (x2 : Vec F S1x128 .f32) (x3 : Vec F S1x128 .f32) (x4 : Vec F S1x128 .f32) (x5 : Vec F S5000x1 .i32) : Vec F S128x128 .f32 :=
  VO9_7.read (Elt F) (VO9_7.writes (Elt F) VO9_7.junk (kernelRun9_A c i arg1 harg1 arg2 harg2 arg3 harg3 arg4 harg4 arg5 harg5 arg6 harg6 arg7 harg7 arg8 harg8 hc0 x0 x1 x2 x3 x4 x5).2.1)

/-- Case B's pieces for output 6 tile its block, so they cover it. -/
theorem cover9_B_6 (c : Dev nD) (i : grid9.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : ¬cond9_0 i)
    (x0 : Vec F S5000x128 .f32) (x1 : Vec F S1x128 .f32) (x2 : Vec F S1x128 .f32) (x3 : Vec F S1x128 .f32) (x4 : Vec F S1x128 .f32) (x5 : Vec F S5000x1 .i32) (xo7 : Vec F S128x128 .f32) (y : S5000x128.Idx) :
    ∃ pc ∈ (kernelRun9_B c i arg1 harg1 arg2 harg2 arg3 harg3 arg4 harg4 arg5 harg5 arg6 harg6 arg7 harg7 arg8 harg8 hc0 x0 x1 x2 x3 x4 x5 xo7).1, y ∈ pc.1.set :=
  View.cover_of_tiledL (kernelRun9_B c i arg1 harg1 arg2 harg2 arg3 harg3 arg4 harg4 arg5 harg5 arg6 harg6 arg7 harg7 arg8 harg8 hc0 x0 x1 x2 x3 x4 x5 xo7).1 S5000x128.size (by sl_kernel_rfl) y

/-- What case B leaves in output 6's staging buffer: its pieces read back over junk. -/
def out9_B_6 (c : Dev nD) (i : grid9.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : ¬cond9_0 i)
    (x0 : Vec F S5000x128 .f32) (x1 : Vec F S1x128 .f32) (x2 : Vec F S1x128 .f32) (x3 : Vec F S1x128 .f32) (x4 : Vec F S1x128 .f32) (x5 : Vec F S5000x1 .i32) (xo7 : Vec F S128x128 .f32) : Vec F S5000x128 .f32 :=
  VO9_6.read (Elt F) (VO9_6.writes (Elt F) VO9_6.junk (kernelRun9_B c i arg1 harg1 arg2 harg2 arg3 harg3 arg4 harg4 arg5 harg5 arg6 harg6 arg7 harg7 arg8 harg8 hc0 x0 x1 x2 x3 x4 x5 xo7).1)

/-- Case B's pieces for output 7 tile its block, so they cover it. -/
theorem cover9_B_7 (c : Dev nD) (i : grid9.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : ¬cond9_0 i)
    (x0 : Vec F S5000x128 .f32) (x1 : Vec F S1x128 .f32) (x2 : Vec F S1x128 .f32) (x3 : Vec F S1x128 .f32) (x4 : Vec F S1x128 .f32) (x5 : Vec F S5000x1 .i32) (xo7 : Vec F S128x128 .f32) (y : S128x128.Idx) :
    ∃ pc ∈ (kernelRun9_B c i arg1 harg1 arg2 harg2 arg3 harg3 arg4 harg4 arg5 harg5 arg6 harg6 arg7 harg7 arg8 harg8 hc0 x0 x1 x2 x3 x4 x5 xo7).2.1, y ∈ pc.1.set :=
  View.cover_of_tiledL (kernelRun9_B c i arg1 harg1 arg2 harg2 arg3 harg3 arg4 harg4 arg5 harg5 arg6 harg6 arg7 harg7 arg8 harg8 hc0 x0 x1 x2 x3 x4 x5 xo7).2.1 S128x128.size (by sl_kernel_rfl) y

/-- What case B leaves in output 7's staging buffer: its pieces read back over junk. -/
def out9_B_7 (c : Dev nD) (i : grid9.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : ¬cond9_0 i)
    (x0 : Vec F S5000x128 .f32) (x1 : Vec F S1x128 .f32) (x2 : Vec F S1x128 .f32) (x3 : Vec F S1x128 .f32) (x4 : Vec F S1x128 .f32) (x5 : Vec F S5000x1 .i32) (xo7 : Vec F S128x128 .f32) : Vec F S128x128 .f32 :=
  VO9_7.read (Elt F) (VO9_7.writes (Elt F) VO9_7.junk (kernelRun9_B c i arg1 harg1 arg2 harg2 arg3 harg3 arg4 harg4 arg5 harg5 arg6 harg6 arg7 harg7 arg8 harg8 hc0 x0 x1 x2 x3 x4 x5 xo7).2.1)

/-! ## What the outputs hold after each point -/

/-- The two outputs after a first-point body at `t`: case A at the point's memrefs and input blocks. -/
def pt9_A (c : Dev nD) (t : Fin cfg9.N) (h0 : t.val % 10 = 0) : Vec F S5000x128 .f32 × Vec F S128x128 .f32 :=
  (out9_A_6 c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) (ms9_7 t) (hs9_7 t) ((hcond9_0 t).mpr h0) (iblk9 V c 0 t) (iblk9 V c 1 t) (iblk9 V c 2 t) (iblk9 V c 3 t) (iblk9 V c 4 t) (iblk9 V c 5 t),
   out9_A_7 c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) (ms9_7 t) (hs9_7 t) ((hcond9_0 t).mpr h0) (iblk9 V c 0 t) (iblk9 V c 1 t) (iblk9 V c 2 t) (iblk9 V c 3 t) (iblk9 V c 4 t) (iblk9 V c 5 t))

/-- The two outputs after a later-point body at `t`, the pooled-sum block having held `xo7`: case B at the
    point's memrefs and input blocks. -/
def pt9_B (c : Dev nD) (t : Fin cfg9.N) (h0 : ¬t.val % 10 = 0) (xo7 : Vec F S128x128 .f32) : Vec F S5000x128 .f32 × Vec F S128x128 .f32 :=
  (out9_B_6 c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) (ms9_7 t) (hs9_7 t) (fun h => h0 ((hcond9_0 t).mp h)) (iblk9 V c 0 t) (iblk9 V c 1 t) (iblk9 V c 2 t) (iblk9 V c 3 t) (iblk9 V c 4 t) (iblk9 V c 5 t) xo7,
   out9_B_7 c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) (ms9_7 t) (hs9_7 t) (fun h => h0 ((hcond9_0 t).mp h)) (iblk9 V c 0 t) (iblk9 V c 1 t) (iblk9 V c 2 t) (iblk9 V c 3 t) (iblk9 V c 4 t) (iblk9 V c 5 t) xo7)

/-- THE ACCUMULATION. What the two outputs' staging buffers hold after the body at position `n`: the case the
    closed form selects at `n`, the pooled-sum block of a later point taken at what this leaves at `n - 1`
    (its buffer is not written back in between). -/
def outsAt9 (c : Dev nD) : (n : ℕ) → n < cfg9.N → Vec F S5000x128 .f32 × Vec F S128x128 .f32
  | 0, hn => pt9_A V c ⟨0, hn⟩ (Nat.zero_mod _)
  | n + 1, hn =>
    if h0 : (n + 1) % 10 = 0 then pt9_A V c ⟨n + 1, hn⟩ h0
    else pt9_B V c ⟨n + 1, hn⟩ h0 (outsAt9 c n (Nat.lt_of_succ_lt hn)).2

/-- `outsAt9` at a point of case A: that case's contents. -/
theorem outsAt9_A (c : Dev nD) (t : Fin cfg9.N) (h0 : t.val % 10 = 0) :
    outsAt9 V c t.val t.isLt = pt9_A V c t h0 := by
  obtain ⟨n, hn⟩ := t
  cases n with
  | zero => exact rfl
  | succ n => exact (dif_pos h0).trans rfl

/-- `outsAt9` at a point of case B: that case's contents, over what the point before left. -/
theorem outsAt9_B (c : Dev nD) (t : Fin cfg9.N) (h0 : ¬t.val % 10 = 0) :
    outsAt9 V c t.val t.isLt = pt9_B V c t h0 (outsAt9 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans rfl

/-! ## The pipeline's proof data -/

/-- The proof data of the region's pipeline on core `c`: the arrays as the region finds them (`V`); after the body
    at point `t` each input's buffer at its block and the outputs' at `outsAt9`; the invariant the scoped rest
    and the generator register; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => iblk9 V c 5 t
    | ⟨6, _⟩ => (outsAt9 V c t.val t.isLt).1
    | ⟨7, _⟩ => (outsAt9 V c t.val t.isLt).2
  Φ _ := Pipeline.ΦA spec9 c
  q _ := fullShare
  owed _ := 0

/-- The proof data's arrays are the region-entry contents (the definition projected). -/
theorem A_eq9 (c : Dev nD) (w : Fin cfg9.W) : (dat9 V c).A w = V c (Pipeline.arrRef spec9 w) := by
  dsimp only [dat9]

/-- What the body leaves, window by window (the proof data's `match` reduced). -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = iblk9 V c 5 t := by dsimp only [dat9]
theorem after9_6 (c : Dev nD) (t : Fin cfg9.N) : (dat9 V c).after 6 t = (outsAt9 V c t.val t.isLt).1 := by dsimp only [dat9]
theorem after9_7 (c : Dev nD) (t : Fin cfg9.N) : (dat9 V c).after 7 t = (outsAt9 V c t.val t.isLt).2 := by dsimp only [dat9]

/-- Each input's current staging buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d
theorem before9_5 (c : Dev nD) (t : Fin cfg9.N) (d) : (dat9 V c).before 5 t d = iblk9 V c 5 t :=
  before9_5_of V (dat9 V c) (A_eq9 V c 5) (after9_5 V c) t d

/-- At a later point the pooled-sum window's staging buffer holds what the body left at the point before: the point is
    not the first, the buffer was not written back in between (it is written back after the last point only), and the
    window is live and uncut. -/
theorem before9_7_B (c : Dev nD) (t : Fin cfg9.N) (h0 : ¬t.val % 10 = 0) (d) :
    (dat9 V c).before 7 t d = (outsAt9 V c (t.val - 1) (Nat.lt_of_le_of_lt (Nat.sub_le _ _) t.isLt)).2 := by
  have hN : t.val < 10 := lt_of_lt_of_eq t.isLt (show cfg9.N = 10 from N_9)
  rw [Dat.before_out_kept _ 7 rfl t (by omega) (Bool.eq_false_iff.mpr fun h => by have := (flush9_7 _).mp h; dsimp only at this; omega)
    (fun _ => rfl) (fun _ _ => rfl)]
  dsimp only [dat9]

/-! ## The body obligation, at a generic point -/

/-- What the body is called with at point `t`: the invariant, what the core owes, and every window's current staging
    buffer at what the proof data say it holds before the body; -/
def bodyPre9 (c : Dev nD) (t : Fin cfg9.N) : sProp 𝕄 :=
  iprop((dat9 V c).Φ t.castSucc ∗ (dat9 V c).owesAt () t.castSucc
    ∗ (∃ d, owns (c : Thread nD τ) (ms9_0 t) fullShare ((dat9 V c).before 0 t d))
    ∗ (∃ d, owns (c : Thread nD τ) (ms9_1 t) fullShare ((dat9 V c).before 1 t d))
    ∗ (∃ d, owns (c : Thread nD τ) (ms9_2 t) fullShare ((dat9 V c).before 2 t d))
    ∗ (∃ d, owns (c : Thread nD τ) (ms9_3 t) fullShare ((dat9 V c).before 3 t d))
    ∗ (∃ d, owns (c : Thread nD τ) (ms9_4 t) fullShare ((dat9 V c).before 4 t d))
    ∗ (∃ d, owns (c : Thread nD τ) (ms9_5 t) fullShare ((dat9 V c).before 5 t d))
    ∗ (∃ d, owns (c : Thread nD τ) (ms9_6 t) fullShare ((dat9 V c).before 6 t d))
    ∗ (∃ d, owns (c : Thread nD τ) (ms9_7 t) fullShare ((dat9 V c).before 7 t d)))

/-- and what it returns: the same with every buffer at what the data say the body leaves. -/
def bodyPost9 (c : Dev nD) (t : Fin cfg9.N) : sProp 𝕄 :=
  iprop((dat9 V c).Φ t.succ ∗ (dat9 V c).owesAt () t.succ
    ∗ owns (c : Thread nD τ) (ms9_0 t) fullShare ((dat9 V c).after 0 t)
    ∗ owns (c : Thread nD τ) (ms9_1 t) fullShare ((dat9 V c).after 1 t)
    ∗ owns (c : Thread nD τ) (ms9_2 t) fullShare ((dat9 V c).after 2 t)
    ∗ owns (c : Thread nD τ) (ms9_3 t) fullShare ((dat9 V c).after 3 t)
    ∗ owns (c : Thread nD τ) (ms9_4 t) fullShare ((dat9 V c).after 4 t)
    ∗ owns (c : Thread nD τ) (ms9_5 t) fullShare ((dat9 V c).after 5 t)
    ∗ owns (c : Thread nD τ) (ms9_6 t) fullShare ((dat9 V c).after 6 t)
    ∗ owns (c : Thread nD τ) (ms9_7 t) fullShare ((dat9 V c).after 7 t))

set_option maxHeartbeats 1600000 in
/-- The body at any point: the inputs' memrefs hold their blocks; the closed form of the condition says which case
    the point is in; in case B the pooled-sum buffer holds what the point before left; so the case's run applies, and
    a covering list of pieces reads back the same through any view. The invariant and what the core owes pass
    through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4, before9_5]
  rw [show (dat9 V c).Φ t.succ = (dat9 V c).Φ t.castSucc from rfl,
    show (dat9 V c).owesAt () t.succ = (dat9 V c).owesAt () t.castSucc from rfl,
    after9_0, after9_1, after9_2, after9_3, after9_4, after9_5, after9_6, after9_7]
  have hN : t.val < 10 := lt_of_lt_of_eq t.isLt (show cfg9.N = 10 from N_9)
  by_cases h0 : t.val % 10 = 0
  · rw [outsAt9_A V c t h0]
    dsimp only [pt9_A]
    unfold out9_A_6 out9_A_7
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun9_A c (grid9.coords t) _ _ _ _ _ _ _ _ _ _ _ _ _ _ _ _ ((hcond9_0 t).mpr h0) (iblk9 V c 0 t) (iblk9 V c 1 t) (iblk9 V c 2 t) (iblk9 V c 3 t) (iblk9 V c 4 t) (iblk9 V c 5 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    iintro ⟨H0, H1, H2, H3, H4, H5, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover9_A_6 c _ _ _ _ _ _ _ _ _ _ _ _ _ _ _ _ _ _ _ _ _ _ _ _)
    unfold owns; iexists _; isplitr
    swap; · iexact H7
    ipureintro; exact View.read_writes_of_cover _ _ _ _ _ (cover9_A_7 c _ _ _ _ _ _ _ _ _ _ _ _ _ _ _ _ _ _ _ _ _ _ _ _)
  · rw [outsAt9_B V c t h0]
    simp only [before9_7_B V c t h0]
    dsimp only [pt9_B]
    unfold out9_B_6 out9_B_7
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun9_B c (grid9.coords t) _ _ _ _ _ _ _ _ _ _ _ _ _ _ _ _ (fun h => h0 ((hcond9_0 t).mp h)) (iblk9 V c 0 t) (iblk9 V c 1 t) (iblk9 V c 2 t) (iblk9 V c 3 t) (iblk9 V c 4 t) (iblk9 V c 5 t) _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    iintro ⟨H0, H1, H2, H3, H4, H5, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover9_B_6 c _ _ _ _ _ _ _ _ _ _ _ _ _ _ _ _ _ _ _ _ _ _ _ _ _)
    unfold owns; iexists _; isplitr
    swap; · iexact H7
    ipureintro; exact View.read_writes_of_cover _ _ _ _ _ (cover9_B_7 c _ _ _ _ _ _ _ _ _ _ _ _ _ _ _ _ _ _ _ _ _ _ _ _ _)

/-- The body obligation, at every point. -/
theorem body_obligation9 (c : Dev nD) : BodyObligation (dat9 (F := F) V c) (defs₀ (F := F)) Variants.none () Set.univ := fun t => by
  rw [bigSep_W9, bigSep_W9]
  exact sound_body9 V c t

/-- info: 'Cert.Kernel.Reg.body_obligation9' depends on axioms: [propext, Classical.choice, Quot.sound] -/
#guard_msgs in #print axioms body_obligation9

end Cert.Kernel.Reg

end
-- ==== Proof.K.Reg10.lean ====
import proofs.«144276_j65051574665788_2_alg».proof.Proof.Gen.Kernel.Launch
import proofs.«144276_j65051574665788_2_alg».proof.Proof.Gen.Kernel.Skeleton
import proofs.«144276_j65051574665788_2_alg».proof.Proof.Gen.Kernel.Points
import Idealize.ShloMosaic.Lib.Pipeline.FrameBody
import Idealize.ShloMosaic.Lib.Ring
import Idealize.ShloMosaic.Lib.Tactic

/-! # Region 10 of @main: the layer transform, at the entry contents `V`

The body computes `agg·Wl + h·Wr + bl` into a row block of the first output and adds the block's column sums and
column sums of squares into the second and third outputs, whose single block is revisited at every grid point:
at the first point the two are zeroed first, at a later point they hold what the point before left. Hence two
control cases. Per case the body is run once on arbitrary whole memrefs, the stores it makes into each output
being the witness of the run; the outputs' contents point by point are then a recursion on the point, and the
body obligation follows by cases on the point. Everything is stated at a parameter `V`, the TensorCore's buffer
contents when the region is entered, and at any float instance. -/

-- membership in a rectangle with a long axis recurses once per coordinate
set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0's current staging buffer holds its block at every point, fetched there or not, for any proof data
    whose array is the entry contents (`hA`) and whose body leaves the block in place (`hafter`): unfetched, the block
    index has not moved; the window is uncut and never idle. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- Input window 1's current staging buffer holds its block at every point, fetched there or not, for any proof data
    whose array is the entry contents (`hA`) and whose body leaves the block in place (`hafter`): unfetched, the block
    index has not moved; the window is uncut and never idle. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- Input window 2's current staging buffer holds its block at every point, fetched there or not, for any proof data
    whose array is the entry contents (`hA`) and whose body leaves the block in place (`hafter`): unfetched, the block
    index has not moved; the window is uncut and never idle. -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

/-- Input window 3's current staging buffer holds its block at every point, fetched there or not, for any proof data
    whose array is the entry contents (`hA`) and whose body leaves the block in place (`hafter`): unfetched, the block
    index has not moved; the window is uncut and never idle. -/
theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)

/-- Input window 4's current staging buffer holds its block at every point, fetched there or not, for any proof data
    whose array is the entry contents (`hA`) and whose body leaves the block in place (`hafter`): unfetched, the block
    index has not moved; the window is uncut and never idle. -/
theorem before10_4_of {c : Dev nD} (dat : Dat τ (Elt F) Unit ℕ (UR sig nD τ) ℕ cfg10 c) (hA : dat.A 4 = V c (Pipeline.arrRef spec10 4))
    (hafter : ∀ t, dat.after 4 t = iblk10 V c 4 t) (t : Fin cfg10.N) (d) : dat.before 4 t d = iblk10 V c 4 t :=
  (dat.before_in_eq_fetched 4 rfl (fun _ => rfl) (fun _ _ _ => rfl) (fun t => by rw [hafter]; unfold Dat.blockOf iblk10; rw [hA]; try rfl) t d).trans
    (by unfold Dat.fetched Dat.blockOf iblk10; rw [hA]; try rfl)

/-! ## The body's branch condition -/

/-- The condition of the body's one conditional, from the grid coordinates: the point is the first. -/
abbrev cond10_0 (i : grid10.Coords) : Prop := (Scalar.cmpi .ne (Scalar.extui (Scalar.cmpi .eq (BitVec.ofNat 32 (i 0).val) 0#32)) 0#32) = 1#1
/-- It holds at the first point only: decided over the ten points. -/
theorem hcond10_0 : ∀ t : Fin cfg10.N, cond10_0 (grid10.coords t) ↔ t.val % 10 = 0 :=
  (by decide +kernel : ∀ t : Fin grid10.N, cond10_0 (grid10.coords t) ↔ t.val % 10 = 0)

/-! ## The staging memrefs -/

/-- One staging buffer of each output window, through which its contents are stated (a covering list of writes
    reads back the same through any view). -/
abbrev VO10_5 : View sig .tc .vmem S5000x128 .f32 := (Memref.whole cc10_stg5_0 : Memref sig .tc .vmem S5000x128 .f32).view
abbrev VO10_6 : View sig .tc .vmem S1x128 .f32 := (Memref.whole cc10_stg6_0 : Memref sig .tc .vmem S1x128 .f32).view
abbrev VO10_7 : View sig .tc .vmem S1x128 .f32 := (Memref.whole cc10_stg7_0 : Memref sig .tc .vmem S1x128 .f32).view
/-- Each window's current staging memref at point `t`, spelled as the pipeline passes it, and its wholeness. -/
abbrev ms10_0 (t : Fin cfg10.N) : Memref sig .tc .vmem S5000x128 .f32 := win10_0.stage (cfg10.slots t 0)
abbrev hs10_0 (t : Fin cfg10.N) : (ms10_0 t).IsWhole := hstage10_0 ((cfg10.slots t 0).cast nbuf10_0)
abbrev ms10_1 (t : Fin cfg10.N) : Memref sig .tc .vmem S5000x128 .f32 := win10_1.stage (cfg10.slots t 1)
abbrev hs10_1 (t : Fin cfg10.N) : (ms10_1 t).IsWhole := hstage10_1 ((cfg10.slots t 1).cast nbuf10_1)
abbrev ms10_2 (t : Fin cfg10.N) : Memref sig .tc .vmem S128x128 .f32 := win10_2.stage (cfg10.slots t 2)
abbrev hs10_2 (t : Fin cfg10.N) : (ms10_2 t).IsWhole := hstage10_2 ((cfg10.slots t 2).cast nbuf10_2)
abbrev ms10_3 (t : Fin cfg10.N) : Memref sig .tc .vmem S128x128 .f32 := win10_3.stage (cfg10.slots t 3)
abbrev hs10_3 (t : Fin cfg10.N) : (ms10_3 t).IsWhole := hstage10_3 ((cfg10.slots t 3).cast nbuf10_3)
abbrev ms10_4 (t : Fin cfg10.N) : Memref sig .tc .vmem S1x128 .f32 := win10_4.stage (cfg10.slots t 4)
abbrev hs10_4 (t : Fin cfg10.N) : (ms10_4 t).IsWhole := hstage10_4 ((cfg10.slots t 4).cast nbuf10_4)
abbrev ms10_5 (t : Fin cfg10.N) : Memref sig .tc .vmem S5000x128 .f32 := win10_5.stage (cfg10.slots t 5)
abbrev hs10_5 (t : Fin cfg10.N) : (ms10_5 t).IsWhole := hstage10_5 ((cfg10.slots t 5).cast nbuf10_5)
abbrev ms10_6 (t : Fin cfg10.N) : Memref sig .tc .vmem S1x128 .f32 := win10_6.stage (cfg10.slots t 6)
abbrev hs10_6 (t : Fin cfg10.N) : (ms10_6 t).IsWhole := hstage10_6 ((cfg10.slots t 6).cast nbuf10_6)
abbrev ms10_7 (t : Fin cfg10.N) : Memref sig .tc .vmem S1x128 .f32 := win10_7.stage (cfg10.slots t 7)
abbrev hs10_7 (t : Fin cfg10.N) : (ms10_7 t).IsWhole := hstage10_7 ((cfg10.slots t 7).cast nbuf10_7)

/-! ## The body on any whole memrefs, case by case -/

set_option maxHeartbeats 1000000 in
/-- THE FIRST POINT. The pieces the body's stores leave in each output's memref (last first), with the proof that on
    whole memrefs — the inputs' at contents `x·`, the outputs' at anything — the body runs to the continuation
    holding the inputs' as they were and each output's with its pieces written. The conditional is taken: the two
    accumulators are zeroed, then read back and added to. -/
noncomputable def kernelRun10_A (c : Dev nD) (i : grid10.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : cond10_0 i)
    (x0 : Vec F S5000x128 .f32) (x1 : Vec F S5000x128 .f32) (x2 : Vec F S128x128 .f32) (x3 : Vec F S128x128 .f32) (x4 : Vec F S1x128 .f32) :
    Σ' (L5 : List (View.Piece (Elt F) S5000x128 .f32)) (L6 : List (View.Piece (Elt F) S1x128 .f32)), { L7 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc10__layer_transform_kernel i arg1 harg1 arg2 harg2 arg3 harg3 arg4 harg4 arg5 harg5 arg6 harg6 arg7 harg7 arg8 harg8) K } := by
  refine ⟨?_, ?_, ?_, fun E K => ?run⟩
  case run =>
    simp only [cc10__layer_transform_kernel_eq_skeleton]; unfold cc10__layer_transform_kernel_skel
    simp only [k10_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    iexists _; iexact H7

set_option maxHeartbeats 1000000 in
/-- A LATER POINT. The same with the conditional not taken: the two accumulators' memrefs are handed over at the
    running contents `xo6`, `xo7`, which the body reads before it covers them. -/
noncomputable def kernelRun10_B (c : Dev nD) (i : grid10.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : ¬cond10_0 i)
    (x0 : Vec F S5000x128 .f32) (x1 : Vec F S5000x128 .f32) (x2 : Vec F S128x128 .f32) (x3 : Vec F S128x128 .f32) (x4 : Vec F S1x128 .f32) (xo6 : Vec F S1x128 .f32) (xo7 : Vec F S1x128 .f32) :
    Σ' (L5 : List (View.Piece (Elt F) S5000x128 .f32)) (L6 : List (View.Piece (Elt F) S1x128 .f32)), { L7 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ owns (c : Thread nD τ) arg7 fullShare xo6 ∗ owns (c : Thread nD τ) arg8 fullShare xo7
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc10__layer_transform_kernel i arg1 harg1 arg2 harg2 arg3 harg3 arg4 harg4 arg5 harg5 arg6 harg6 arg7 harg7 arg8 harg8) K } := by
  refine ⟨?_, ?_, ?_, fun E K => ?run⟩
  case run =>
    simp only [cc10__layer_transform_kernel_eq_skeleton]; unfold cc10__layer_transform_kernel_skel
    simp only [k10_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
    obtain rfl := harg1.eq_unread hf0; obtain rfl := harg2.eq_unread hf1; obtain rfl := harg3.eq_unread hf2
    obtain rfl := harg4.eq_unread hf3; obtain rfl := harg5.eq_unread hf4
    obtain rfl := harg7.eq_unread hf6; obtain rfl := harg8.eq_unread hf7
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    iexists _; iexact H7

/-! ## The pieces cover the outputs' blocks -/

/-- Case A's pieces for output 5 tile its block, so they cover it. -/
theorem cover10_A_5 (c : Dev nD) (i : grid10.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : cond10_0 i)
    (x0 : Vec F S5000x128 .f32) (x1 : Vec F S5000x128 .f32) (x2 : Vec F S128x128 .f32) (x3 : Vec F S128x128 .f32) (x4 : Vec F S1x128 .f32) (y : S5000x128.Idx) :
    ∃ pc ∈ (kernelRun10_A c i arg1 harg1 arg2 harg2 arg3 harg3 arg4 harg4 arg5 harg5 arg6 harg6 arg7 harg7 arg8 harg8 hc0 x0 x1 x2 x3 x4).1, y ∈ pc.1.set :=
  View.cover_of_tiledL (kernelRun10_A c i arg1 harg1 arg2 harg2 arg3 harg3 arg4 harg4 arg5 harg5 arg6 harg6 arg7 harg7 arg8 harg8 hc0 x0 x1 x2 x3 x4).1 S5000x128.size (by sl_kernel_rfl) y

/-- Case A's pieces for output 6 tile its block, so they cover it. -/
theorem cover10_A_6 (c : Dev nD) (i : grid10.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : cond10_0 i)
    (x0 : Vec F S5000x128 .f32) (x1 : Vec F S5000x128 .f32) (x2 : Vec F S128x128 .f32) (x3 : Vec F S128x128 .f32) (x4 : Vec F S1x128 .f32) (y : S1x128.Idx) :
    ∃ pc ∈ (kernelRun10_A c i arg1 harg1 arg2 harg2 arg3 harg3 arg4 harg4 arg5 harg5 arg6 harg6 arg7 harg7 arg8 harg8 hc0 x0 x1 x2 x3 x4).2.1, y ∈ pc.1.set :=
  View.cover_of_tiledL (kernelRun10_A c i arg1 harg1 arg2 harg2 arg3 harg3 arg4 harg4 arg5 harg5 arg6 harg6 arg7 harg7 arg8 harg8 hc0 x0 x1 x2 x3 x4).2.1 S1x128.size (by sl_kernel_rfl) y

/-- Case A's pieces for output 7 tile its block, so they cover it. -/
theorem cover10_A_7 (c : Dev nD) (i : grid10.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : cond10_0 i)
    (x0 : Vec F S5000x128 .f32) (x1 : Vec F S5000x128 .f32) (x2 : Vec F S128x128 .f32) (x3 : Vec F S128x128 .f32) (x4 : Vec F S1x128 .f32) (y : S1x128.Idx) :
    ∃ pc ∈ (kernelRun10_A c i arg1 harg1 arg2 harg2 arg3 harg3 arg4 harg4 arg5 harg5 arg6 harg6 arg7 harg7 arg8 harg8 hc0 x0 x1 x2 x3 x4).2.2.1, y ∈ pc.1.set :=
  View.cover_of_tiledL (kernelRun10_A c i arg1 harg1 arg2 harg2 arg3 harg3 arg4 harg4 arg5 harg5 arg6 harg6 arg7 harg7 arg8 harg8 hc0 x0 x1 x2 x3 x4).2.2.1 S1x128.size (by sl_kernel_rfl) y

/-- Case B's pieces for output 5 tile its block, so they cover it. -/
theorem cover10_B_5 (c : Dev nD) (i : grid10.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : ¬cond10_0 i)
    (x0 : Vec F S5000x128 .f32) (x1 : Vec F S5000x128 .f32) (x2 : Vec F S128x128 .f32) (x3 : Vec F S128x128 .f32) (x4 : Vec F S1x128 .f32) (xo6 : Vec F S1x128 .f32) (xo7 : Vec F S1x128 .f32) (y : S5000x128.Idx) :
    ∃ pc ∈ (kernelRun10_B c i arg1 harg1 arg2 harg2 arg3 harg3 arg4 harg4 arg5 harg5 arg6 harg6 arg7 harg7 arg8 harg8 hc0 x0 x1 x2 x3 x4 xo6 xo7).1, y ∈ pc.1.set :=
  View.cover_of_tiledL (kernelRun10_B c i arg1 harg1 arg2 harg2 arg3 harg3 arg4 harg4 arg5 harg5 arg6 harg6 arg7 harg7 arg8 harg8 hc0 x0 x1 x2 x3 x4 xo6 xo7).1 S5000x128.size (by sl_kernel_rfl) y

/-- Case B's pieces for output 6 tile its block, so they cover it. -/
theorem cover10_B_6 (c : Dev nD) (i : grid10.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : ¬cond10_0 i)
    (x0 : Vec F S5000x128 .f32) (x1 : Vec F S5000x128 .f32) (x2 : Vec F S128x128 .f32) (x3 : Vec F S128x128 .f32) (x4 : Vec F S1x128 .f32) (xo6 : Vec F S1x128 .f32) (xo7 : Vec F S1x128 .f32) (y : S1x128.Idx) :
    ∃ pc ∈ (kernelRun10_B c i arg1 harg1 arg2 harg2 arg3 harg3 arg4 harg4 arg5 harg5 arg6 harg6 arg7 harg7 arg8 harg8 hc0 x0 x1 x2 x3 x4 xo6 xo7).2.1, y ∈ pc.1.set :=
  View.cover_of_tiledL (kernelRun10_B c i arg1 harg1 arg2 harg2 arg3 harg3 arg4 harg4 arg5 harg5 arg6 harg6 arg7 harg7 arg8 harg8 hc0 x0 x1 x2 x3 x4 xo6 xo7).2.1 S1x128.size (by sl_kernel_rfl) y

/-- Case B's pieces for output 7 tile its block, so they cover it. -/
theorem cover10_B_7 (c : Dev nD) (i : grid10.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : ¬cond10_0 i)
    (x0 : Vec F S5000x128 .f32) (x1 : Vec F S5000x128 .f32) (x2 : Vec F S128x128 .f32) (x3 : Vec F S128x128 .f32) (x4 : Vec F S1x128 .f32) (xo6 : Vec F S1x128 .f32) (xo7 : Vec F S1x128 .f32) (y : S1x128.Idx) :
    ∃ pc ∈ (kernelRun10_B c i arg1 harg1 arg2 harg2 arg3 harg3 arg4 harg4 arg5 harg5 arg6 harg6 arg7 harg7 arg8 harg8 hc0 x0 x1 x2 x3 x4 xo6 xo7).2.2.1, y ∈ pc.1.set :=
  View.cover_of_tiledL (kernelRun10_B c i arg1 harg1 arg2 harg2 arg3 harg3 arg4 harg4 arg5 harg5 arg6 harg6 arg7 harg7 arg8 harg8 hc0 x0 x1 x2 x3 x4 xo6 xo7).2.2.1 S1x128.size (by sl_kernel_rfl) y

/-! ## What the outputs hold after each point -/

/-- The first-point run at point `t`'s memrefs and input blocks. -/
abbrev runA10 (c : Dev nD) (t : Fin cfg10.N) (h0 : t.val % 10 = 0) :=
  kernelRun10_A (F := F) c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) ((hcond10_0 t).mpr h0) (iblk10 V c 0 t) (iblk10 V c 1 t) (iblk10 V c 2 t) (iblk10 V c 3 t) (iblk10 V c 4 t)

/-- The later-point run at point `t`'s memrefs and input blocks, the accumulators at `xo6`, `xo7`. -/
abbrev runB10 (c : Dev nD) (t : Fin cfg10.N) (h0 : ¬t.val % 10 = 0) (xo6 : Vec F S1x128 .f32) (xo7 : Vec F S1x128 .f32) :=
  kernelRun10_B (F := F) c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) (fun h => h0 ((hcond10_0 t).mp h)) (iblk10 V c 0 t) (iblk10 V c 1 t) (iblk10 V c 2 t) (iblk10 V c 3 t) (iblk10 V c 4 t) xo6 xo7

/-- What the first-point case leaves in the three outputs' staging buffers: its pieces read back over junk. -/
def outsA10 (c : Dev nD) (t : Fin cfg10.N) (h0 : t.val % 10 = 0) : Vec F S5000x128 .f32 × Vec F S1x128 .f32 × Vec F S1x128 .f32 :=
  (VO10_5.read (Elt F) (VO10_5.writes (Elt F) VO10_5.junk (runA10 V c t h0).1),
   VO10_6.read (Elt F) (VO10_6.writes (Elt F) VO10_6.junk (runA10 V c t h0).2.1),
   VO10_7.read (Elt F) (VO10_7.writes (Elt F) VO10_7.junk (runA10 V c t h0).2.2.1))

/-- What the later-point case leaves there, over accumulators at `xo6`, `xo7`. -/
def outsB10 (c : Dev nD) (t : Fin cfg10.N) (h0 : ¬t.val % 10 = 0) (xo6 : Vec F S1x128 .f32) (xo7 : Vec F S1x128 .f32) :
    Vec F S5000x128 .f32 × Vec F S1x128 .f32 × Vec F S1x128 .f32 :=
  (VO10_5.read (Elt F) (VO10_5.writes (Elt F) VO10_5.junk (runB10 V c t h0 xo6 xo7).1),
   VO10_6.read (Elt F) (VO10_6.writes (Elt F) VO10_6.junk (runB10 V c t h0 xo6 xo7).2.1),
   VO10_7.read (Elt F) (VO10_7.writes (Elt F) VO10_7.junk (runB10 V c t h0 xo6 xo7).2.2.1))

/-- THE ACCUMULATION. What the three outputs' staging buffers hold after the body at position `n`: the case the
    point is in, run at the point's memrefs and input blocks, the two accumulators at what this leaves at `n - 1`
    (their buffer is not written back in between). -/
def outsAt10 (c : Dev nD) : (n : ℕ) → n < cfg10.N → Vec F S5000x128 .f32 × Vec F S1x128 .f32 × Vec F S1x128 .f32
  | 0, hn => outsA10 V c ⟨0, hn⟩ (Nat.zero_mod _)
  | n + 1, hn =>
    if h0 : (n + 1) % 10 = 0 then
      outsA10 V c ⟨n + 1, hn⟩ h0
    else
      outsB10 V c ⟨n + 1, hn⟩ h0 (outsAt10 c n (Nat.lt_of_succ_lt hn)).2.1 (outsAt10 c n (Nat.lt_of_succ_lt hn)).2.2

/-- `outsAt10` at a first point: that case's contents. -/
theorem outsAt10_A (c : Dev nD) (t : Fin cfg10.N) (h0 : t.val % 10 = 0) :
    outsAt10 V c t.val t.isLt = outsA10 V c t h0 := by
  obtain ⟨n, hn⟩ := t
  cases n with
  | zero => exact rfl
  | succ n => exact (dif_pos h0).trans rfl

/-- `outsAt10` at a later point: that case's contents, over what the point before left. -/
theorem outsAt10_B (c : Dev nD) (t : Fin cfg10.N) (h0 : ¬t.val % 10 = 0) :
    outsAt10 V c t.val t.isLt = outsB10 V c t h0
      (outsAt10 V c (t.val - 1) (Nat.lt_of_le_of_lt (Nat.sub_le _ _) t.isLt)).2.1
      (outsAt10 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans rfl

/-! ## The pipeline's proof data -/

/-- The proof data of the region's pipeline on core `c`: the arrays as the region finds them (`V`); after the body
    at point `t` each input's buffer at its block and the outputs' at `outsAt10`; the invariant the scoped rest
    and the generator register, untouched; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => (outsAt10 V c t.val t.isLt).1
    | ⟨6, _⟩ => (outsAt10 V c t.val t.isLt).2.1
    | ⟨7, _⟩ => (outsAt10 V c t.val t.isLt).2.2
  Φ _ := Pipeline.ΦA spec10 c
  q _ := fullShare
  owed _ := 0

/-- The proof data's arrays are the region-entry contents (the definition projected). -/
theorem A_eq10 (c : Dev nD) (w : Fin cfg10.W) : (dat10 V c).A w = V c (Pipeline.arrRef spec10 w) := by
  dsimp only [dat10]

/-- What the body leaves, window by window (the definition's `match` reduced). -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) : (dat10 V c).after 5 t = (outsAt10 V c t.val t.isLt).1 := by dsimp only [dat10]
theorem after10_6 (c : Dev nD) (t : Fin cfg10.N) : (dat10 V c).after 6 t = (outsAt10 V c t.val t.isLt).2.1 := by dsimp only [dat10]
theorem after10_7 (c : Dev nD) (t : Fin cfg10.N) : (dat10 V c).after 7 t = (outsAt10 V c t.val t.isLt).2.2 := by dsimp only [dat10]

/-- Each input's current staging buffer holds its block at every point, fetched there or not. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d
theorem before10_4 (c : Dev nD) (t : Fin cfg10.N) (d) : (dat10 V c).before 4 t d = iblk10 V c 4 t :=
  before10_4_of V (dat10 V c) (A_eq10 V c 4) (after10_4 V c) t d

/-- At a later point output 6's staging buffer holds what the body left at the point before: the buffer is written
    back at the last point only, and the window is live and uncut. -/
theorem before10_6_B (c : Dev nD) (t : Fin cfg10.N) (h0 : ¬t.val % 10 = 0) (d) :
    (dat10 V c).before 6 t d = (outsAt10 V c (t.val - 1) (Nat.lt_of_le_of_lt (Nat.sub_le _ _) t.isLt)).2.1 := by
  have hN : t.val < 10 := lt_of_lt_of_eq t.isLt (show cfg10.N = 10 from N_10)
  rw [Dat.before_out_kept _ 6 rfl t (by omega) (Bool.eq_false_iff.mpr fun h => by have := (flush10_6 _).mp h; dsimp only at this; omega)
    (fun _ => rfl) (fun _ _ => rfl)]
  dsimp only [dat10]

/-- At a later point output 7's staging buffer holds what the body left at the point before: the buffer is written
    back at the last point only, and the window is live and uncut. -/
theorem before10_7_B (c : Dev nD) (t : Fin cfg10.N) (h0 : ¬t.val % 10 = 0) (d) :
    (dat10 V c).before 7 t d = (outsAt10 V c (t.val - 1) (Nat.lt_of_le_of_lt (Nat.sub_le _ _) t.isLt)).2.2 := by
  have hN : t.val < 10 := lt_of_lt_of_eq t.isLt (show cfg10.N = 10 from N_10)
  rw [Dat.before_out_kept _ 7 rfl t (by omega) (Bool.eq_false_iff.mpr fun h => by have := (flush10_7 _).mp h; dsimp only at this; omega)
    (fun _ => rfl) (fun _ _ => rfl)]
  dsimp only [dat10]

/-! ## The body obligation, at a generic point -/

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (ms10_0 t) fullShare ((dat10 V c).before 0 t d))
    ∗ (∃ d, owns (c : Thread nD τ) (ms10_1 t) fullShare ((dat10 V c).before 1 t d))
    ∗ (∃ d, owns (c : Thread nD τ) (ms10_2 t) fullShare ((dat10 V c).before 2 t d))
    ∗ (∃ d, owns (c : Thread nD τ) (ms10_3 t) fullShare ((dat10 V c).before 3 t d))
    ∗ (∃ d, owns (c : Thread nD τ) (ms10_4 t) fullShare ((dat10 V c).before 4 t d))
    ∗ (∃ d, owns (c : Thread nD τ) (ms10_5 t) fullShare ((dat10 V c).before 5 t d))
    ∗ (∃ d, owns (c : Thread nD τ) (ms10_6 t) fullShare ((dat10 V c).before 6 t d))
    ∗ (∃ d, owns (c : Thread nD τ) (ms10_7 t) fullShare ((dat10 V c).before 7 t d)))

/-- and what it returns. -/
def bodyPost10 (c : Dev nD) (t : Fin cfg10.N) : sProp 𝕄 :=
  iprop((dat10 V c).Φ t.succ ∗ (dat10 V c).owesAt () t.succ
    ∗ owns (c : Thread nD τ) (ms10_0 t) fullShare ((dat10 V c).after 0 t)
    ∗ owns (c : Thread nD τ) (ms10_1 t) fullShare ((dat10 V c).after 1 t)
    ∗ owns (c : Thread nD τ) (ms10_2 t) fullShare ((dat10 V c).after 2 t)
    ∗ owns (c : Thread nD τ) (ms10_3 t) fullShare ((dat10 V c).after 3 t)
    ∗ owns (c : Thread nD τ) (ms10_4 t) fullShare ((dat10 V c).after 4 t)
    ∗ owns (c : Thread nD τ) (ms10_5 t) fullShare ((dat10 V c).after 5 t)
    ∗ owns (c : Thread nD τ) (ms10_6 t) fullShare ((dat10 V c).after 6 t)
    ∗ owns (c : Thread nD τ) (ms10_7 t) fullShare ((dat10 V c).after 7 t))

set_option maxHeartbeats 1600000 in
/-- The body at any point: the inputs' memrefs hold their blocks; the closed form of the condition says which case
    the point is in; at a later point the two accumulators hold what the point before left; so the case's run
    applies, and its pieces, covering each output's block, read back as `outsAt10` says. The invariant passes
    through unread and the core owes nothing throughout. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3, before10_4]
  rw [show (dat10 V c).Φ t.succ = (dat10 V c).Φ t.castSucc from rfl,
    show (dat10 V c).owesAt () t.succ = (dat10 V c).owesAt () t.castSucc from rfl,
    after10_0, after10_1, after10_2, after10_3, after10_4, after10_5, after10_6, after10_7]
  have hN : t.val < 10 := lt_of_lt_of_eq t.isLt (show cfg10.N = 10 from N_10)
  by_cases h0 : t.val % 10 = 0
  · rw [outsAt10_A V c t h0]
    unfold outsA10; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runA10 V c t h0).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    iintro ⟨H0, H1, H2, H3, H4, ⟨%e5, H5⟩, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover10_A_5 c _ _ _ _ _ _ _ _ _ _ _ _ _ _ _ _ _ _ _ _ _ _ _)
    isplitl [H6]
    · unfold owns; iexists _; isplitr
      swap; · iexact H6
      ipureintro; exact View.read_writes_of_cover _ _ _ _ _ (cover10_A_6 c _ _ _ _ _ _ _ _ _ _ _ _ _ _ _ _ _ _ _ _ _ _ _)
    unfold owns; iexists _; isplitr
    swap; · iexact H7
    ipureintro; exact View.read_writes_of_cover _ _ _ _ _ (cover10_A_7 c _ _ _ _ _ _ _ _ _ _ _ _ _ _ _ _ _ _ _ _ _ _ _)
  · rw [outsAt10_B V c t h0]
    simp only [before10_6_B V c t h0, before10_7_B V c t h0]
    unfold outsB10; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runB10 V c t h0 _ _).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    iintro ⟨H0, H1, H2, H3, H4, ⟨%e5, H5⟩, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover10_B_5 c _ _ _ _ _ _ _ _ _ _ _ _ _ _ _ _ _ _ _ _ _ _ _ _ _)
    isplitl [H6]
    · unfold owns; iexists _; isplitr
      swap; · iexact H6
      ipureintro; exact View.read_writes_of_cover _ _ _ _ _ (cover10_B_6 c _ _ _ _ _ _ _ _ _ _ _ _ _ _ _ _ _ _ _ _ _ _ _ _ _)
    unfold owns; iexists _; isplitr
    swap; · iexact H7
    ipureintro; exact View.read_writes_of_cover _ _ _ _ _ (cover10_B_7 c _ _ _ _ _ _ _ _ _ _ _ _ _ _ _ _ _ _ _ _ _ _ _ _ _)

/-- The library's body obligation, at every point. -/
theorem body_obligation10 (c : Dev nD) : BodyObligation (dat10 (F := F) V c) (defs₀ (F := F)) Variants.none () Set.univ := fun t => by
  rw [bigSep_W10, bigSep_W10]
  exact sound_body10 V c t

end Cert.Kernel.Reg

end
-- ==== Proof.K.Reg11.lean ====
import proofs.«144276_j65051574665788_2_alg».proof.Proof.Gen.Kernel.Launch
import proofs.«144276_j65051574665788_2_alg».proof.Proof.Gen.Kernel.Skeleton
import proofs.«144276_j65051574665788_2_alg».proof.Proof.Gen.Kernel.Points
import Idealize.ShloMosaic.Lib.Pipeline.FrameBody
import Idealize.ShloMosaic.Lib.Ring
import Idealize.ShloMosaic.Lib.Tactic

/-! # Region 11 of @main: the normalisation and pooling call, at the entry contents `V`

The body's half of the region's frame: for any contents `V` of the core's buffers at the region's entry, the
proof data of the pipeline (what every window's staging buffer holds before and after the body at every grid
point) and the body obligation — the body, run at any grid point on buffers holding what the data say, ends
with them holding what the data say, touching nothing else.

The body has two control cases. At the first grid point the pooled-sum block (window 7) is zeroed and then
added to; at every later point it is read at what the point before left and added to. The normalised block
(window 6) is stored whole at every point. What the two outputs hold after each point is therefore a recursion
on the point, the pooled-sum block carried from the point before. -/

-- membership in a rectangle of large extents recurses once per coordinate of the long axes
set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- Input window 0: its current staging buffer holds its block at every point, whether fetched there or not
    (unfetched, the block index has not moved since the fetch), for any proof data whose array is `V`'s and whose
    body leaves the block in place; the window is uncut and never idle. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

/-- Input window 1: its current staging buffer holds its block at every point, whether fetched there or not
    (unfetched, the block index has not moved since the fetch), for any proof data whose array is `V`'s and whose
    body leaves the block in place; the window is uncut and never idle. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

/-- Input window 2: its current staging buffer holds its block at every point, whether fetched there or not
    (unfetched, the block index has not moved since the fetch), for any proof data whose array is `V`'s and whose
    body leaves the block in place; the window is uncut and never idle. -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

/-- Input window 3: its current staging buffer holds its block at every point, whether fetched there or not
    (unfetched, the block index has not moved since the fetch), for any proof data whose array is `V`'s and whose
    body leaves the block in place; the window is uncut and never idle. -/
theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)

/-- Input window 4: its current staging buffer holds its block at every point, whether fetched there or not
    (unfetched, the block index has not moved since the fetch), for any proof data whose array is `V`'s and whose
    body leaves the block in place; the window is uncut and never idle. -/
theorem before11_4_of {c : Dev nD} (dat : Dat τ (Elt F) Unit ℕ (UR sig nD τ) ℕ cfg11 c) (hA : dat.A 4 = V c (Pipeline.arrRef spec11 4))
    (hafter : ∀ t, dat.after 4 t = iblk11 V c 4 t) (t : Fin cfg11.N) (d) : dat.before 4 t d = iblk11 V c 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)

/-- Input window 5: its current staging buffer holds its block at every point, whether fetched there or not
    (unfetched, the block index has not moved since the fetch), for any proof data whose array is `V`'s and whose
    body leaves the block in place; the window is uncut and never idle. -/
theorem before11_5_of {c : Dev nD} (dat : Dat τ (Elt F) Unit ℕ (UR sig nD τ) ℕ cfg11 c) (hA : dat.A 5 = V c (Pipeline.arrRef spec11 5))
    (hafter : ∀ t, dat.after 5 t = iblk11 V c 5 t) (t : Fin cfg11.N) (d) : dat.before 5 t d = iblk11 V c 5 t :=
  (dat.before_in_eq_fetched 5 rfl (fun _ => rfl) (fun _ _ _ => rfl) (fun t => by rw [hafter]; unfold Dat.blockOf iblk11; rw [hA]; try rfl) t d).trans
    (by unfold Dat.fetched Dat.blockOf iblk11; rw [hA]; try rfl)

/-! ## The body's branch condition -/

/-- The condition of the body's one conditional, as a function of the grid coordinates: "this is point 0". -/
abbrev cond11_0 (i : grid11.Coords) : Prop := (Scalar.cmpi .ne (Scalar.extui (Scalar.cmpi .eq (BitVec.ofNat 32 (i 0).val) 0#32)) 0#32) = 1#1
/-- It holds at the first point only — decided over the ten points of the grid. -/
theorem hcond11_0 : ∀ t : Fin cfg11.N, cond11_0 (grid11.coords t) ↔ t.val % 10 = 0 :=
  (by decide +kernel : ∀ t : Fin grid11.N, cond11_0 (grid11.coords t) ↔ t.val % 10 = 0)

/-! ## The staging memrefs -/

/-- One staging buffer of each output window, through which its contents are stated (a covering list of writes
    reads back the same through any view of the shape). -/
abbrev VO11_6 : View sig .tc .vmem S5000x128 .f32 := (Memref.whole cc11_stg6_0 : Memref sig .tc .vmem S5000x128 .f32).view
abbrev VO11_7 : View sig .tc .vmem S128x128 .f32 := (Memref.whole cc11_stg7_0 : Memref sig .tc .vmem S128x128 .f32).view
/-- Each window's current staging memref at point `t`, spelled as the pipeline passes it to the body, and its wholeness. -/
abbrev ms11_0 (t : Fin cfg11.N) : Memref sig .tc .vmem S5000x128 .f32 := win11_0.stage (cfg11.slots t 0)
abbrev hs11_0 (t : Fin cfg11.N) : (ms11_0 t).IsWhole := hstage11_0 ((cfg11.slots t 0).cast nbuf11_0)
abbrev ms11_1 (t : Fin cfg11.N) : Memref sig .tc .vmem S1x128 .f32 := win11_1.stage (cfg11.slots t 1)
abbrev hs11_1 (t : Fin cfg11.N) : (ms11_1 t).IsWhole := hstage11_1 ((cfg11.slots t 1).cast nbuf11_1)
abbrev ms11_2 (t : Fin cfg11.N) : Memref sig .tc .vmem S1x128 .f32 := win11_2.stage (cfg11.slots t 2)
abbrev hs11_2 (t : Fin cfg11.N) : (ms11_2 t).IsWhole := hstage11_2 ((cfg11.slots t 2).cast nbuf11_2)
abbrev ms11_3 (t : Fin cfg11.N) : Memref sig .tc .vmem S1x128 .f32 := win11_3.stage (cfg11.slots t 3)
abbrev hs11_3 (t : Fin cfg11.N) : (ms11_3 t).IsWhole := hstage11_3 ((cfg11.slots t 3).cast nbuf11_3)
abbrev ms11_4 (t : Fin cfg11.N) : Memref sig .tc .vmem S1x128 .f32 := win11_4.stage (cfg11.slots t 4)
abbrev hs11_4 (t : Fin cfg11.N) : (ms11_4 t).IsWhole := hstage11_4 ((cfg11.slots t 4).cast nbuf11_4)
abbrev ms11_5 (t : Fin cfg11.N) : Memref sig .tc .vmem S5000x1 .i32 := win11_5.stage (cfg11.slots t 5)
abbrev hs11_5 (t : Fin cfg11.N) : (ms11_5 t).IsWhole := hstage11_5 ((cfg11.slots t 5).cast nbuf11_5)
abbrev ms11_6 (t : Fin cfg11.N) : Memref sig .tc .vmem S5000x128 .f32 := win11_6.stage (cfg11.slots t 6)
abbrev hs11_6 (t : Fin cfg11.N) : (ms11_6 t).IsWhole := hstage11_6 ((cfg11.slots t 6).cast nbuf11_6)
abbrev ms11_7 (t : Fin cfg11.N) : Memref sig .tc .vmem S128x128 .f32 := win11_7.stage (cfg11.slots t 7)
abbrev hs11_7 (t : Fin cfg11.N) : (ms11_7 t).IsWhole := hstage11_7 ((cfg11.slots t 7).cast nbuf11_7)

/-! ## The body on any staging memrefs, case by case -/

set_option maxHeartbeats 1000000 in
/-- CASE A (the first point: the conditional taken). The pieces the body's stores leave in the two outputs' staging
    memrefs (last first), with the proof that on whole staging memrefs — the inputs' at contents `x·`, the outputs'
    at anything — the body runs to a continuation that is handed the inputs' as they were and each output's buffer
    with its pieces written. The pooled-sum block is zeroed before it is read, so what it held does not matter. -/
noncomputable def kernelRun11_A (c : Dev nD) (i : grid11.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : cond11_0 i)
    (x0 : Vec F S5000x128 .f32) (x1 : Vec F S1x128 .f32) (x2 : Vec F S1x128 .f32) (x3 : Vec F S1x128 .f32) (x4 : Vec F S1x128 .f32) (x5 : Vec F S5000x1 .i32) :
    Σ' (L6 : List (View.Piece (Elt F) S5000x128 .f32)), { L7 : List (View.Piece (Elt F) S128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc11_kernel i arg1 harg1 arg2 harg2 arg3 harg3 arg4 harg4 arg5 harg5 arg6 harg6 arg7 harg7 arg8 harg8) K } := by
  refine ⟨?_, ?_, fun E K => ?run⟩
  case run =>
    simp only [cc11_kernel_eq_skeleton]; unfold cc11_kernel_skel
    simp only [k11_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact H7

set_option maxHeartbeats 1000000 in
/-- CASE B (a later point: the conditional not taken). As case A, but the pooled-sum block is read before it is
    stored: its buffer is taken at the running contents `xo7`, which the pieces mention. -/
noncomputable def kernelRun11_B (c : Dev nD) (i : grid11.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : ¬cond11_0 i)
    (x0 : Vec F S5000x128 .f32) (x1 : Vec F S1x128 .f32) (x2 : Vec F S1x128 .f32) (x3 : Vec F S1x128 .f32) (x4 : Vec F S1x128 .f32) (x5 : Vec F S5000x1 .i32) (xo7 : Vec F S128x128 .f32) :
    Σ' (L6 : List (View.Piece (Elt F) S5000x128 .f32)), { L7 : List (View.Piece (Elt F) S128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xo7
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc11_kernel i arg1 harg1 arg2 harg2 arg3 harg3 arg4 harg4 arg5 harg5 arg6 harg6 arg7 harg7 arg8 harg8) K } := by
  refine ⟨?_, ?_, fun E K => ?run⟩
  case run =>
    simp only [cc11_kernel_eq_skeleton]; unfold cc11_kernel_skel
    simp only [k11_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact H7

/-! ## What each case leaves in the outputs -/

/-- Case A's pieces for output 6 tile its block, so they cover it. -/
theorem cover11_A_6 (c : Dev nD) (i : grid11.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : cond11_0 i)
    (x0 : Vec F S5000x128 .f32) (x1 : Vec F S1x128 .f32) (x2 : Vec F S1x128 .f32) (x3 : Vec F S1x128 .f32) (x4 : Vec F S1x128 .f32) (x5 : Vec F S5000x1 .i32) (y : S5000x128.Idx) :
    ∃ pc ∈ (kernelRun11_A c i arg1 harg1 arg2 harg2 arg3 harg3 arg4 harg4 arg5 harg5 arg6 harg6 arg7 harg7 arg8 harg8 hc0 x0 x1 x2 x3 x4 x5).1, y ∈ pc.1.set :=
  View.cover_of_tiledL (kernelRun11_A c i arg1 harg1 arg2 harg2 arg3 harg3 arg4 harg4 arg5 harg5 arg6 harg6 arg7 harg7 arg8 harg8 hc0 x0 x1 x2 x3 x4 x5).1 S5000x128.size (by sl_kernel_rfl) y

/-- What case A leaves in output 6's staging buffer: its pieces read back over junk. -/
def out11_A_6 (c : Dev nD) (i : grid11.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : cond11_0 i)
    (x0 : Vec F S5000x128 .f32) (x1 : Vec F S1x128 .f32) (x2 : Vec F S1x128 .f32) (x3 : Vec F S1x128 .f32) (x4 : Vec F S1x128 .f32) (x5 : Vec F S5000x1 .i32) : Vec F S5000x128 .f32 :=
  VO11_6.read (Elt F) (VO11_6.writes (Elt F) VO11_6.junk (kernelRun11_A c i arg1 harg1 arg2 harg2 arg3 harg3 arg4 harg4 arg5 harg5 arg6 harg6 arg7 harg7 arg8 harg8 hc0 x0 x1 x2 x3 x4 x5).1)

/-- Case A's pieces for output 7 tile its block, so they cover it. -/
theorem cover11_A_7 (c : Dev nD) (i : grid11.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : cond11_0 i)
    (x0 : Vec F S5000x128 .f32) (x1 : Vec F S1x128 .f32) (x2 : Vec F S1x128 .f32) (x3 : Vec F S1x128 .f32) (x4 : Vec F S1x128 .f32) (x5 : Vec F S5000x1 .i32) (y : S128x128.Idx) :
    ∃ pc ∈ (kernelRun11_A c i arg1 harg1 arg2 harg2 arg3 harg3 arg4 harg4 arg5 harg5 arg6 harg6 arg7 harg7 arg8 harg8 hc0 x0 x1 x2 x3 x4 x5).2.1, y ∈ pc.1.set :=
  View.cover_of_tiledL (kernelRun11_A c i arg1 harg1 arg2 harg2 arg3 harg3 arg4 harg4 arg5 harg5 arg6 harg6 arg7 harg7 arg8 harg8 hc0 x0 x1 x2 x3 x4 x5).2.1 S128x128.size (by sl_kernel_rfl) y

/-- What case A leaves in output 7's staging buffer: its pieces read back over junk. -/
def out11_A_7 (c : Dev nD) (i : grid11.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : cond11_0 i)
    (x0 : Vec F S5000x128 .f32) (x1 : Vec F S1x128 .f32) (x2 : Vec F S1x128 .f32) (x3 : Vec F S1x128 .f32) (x4 : Vec F S1x128 .f32) (x5 : Vec F S5000x1 .i32) : Vec F S128x128 .f32 :=
  VO11_7.read (Elt F) (VO11_7.writes (Elt F) VO11_7.junk (kernelRun11_A c i arg1 harg1 arg2 harg2 arg3 harg3 arg4 harg4 arg5 harg5 arg6 harg6 arg7 harg7 arg8 harg8 hc0 x0 x1 x2 x3 x4 x5).2.1)

/-- Case B's pieces for output 6 tile its block, so they cover it. -/
theorem cover11_B_6 (c : Dev nD) (i : grid11.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : ¬cond11_0 i)
    (x0 : Vec F S5000x128 .f32) (x1 : Vec F S1x128 .f32) (x2 : Vec F S1x128 .f32) (x3 : Vec F S1x128 .f32) (x4 : Vec F S1x128 .f32) (x5 : Vec F S5000x1 .i32) (xo7 : Vec F S128x128 .f32) (y : S5000x128.Idx) :
    ∃ pc ∈ (kernelRun11_B c i arg1 harg1 arg2 harg2 arg3 harg3 arg4 harg4 arg5 harg5 arg6 harg6 arg7 harg7 arg8 harg8 hc0 x0 x1 x2 x3 x4 x5 xo7).1, y ∈ pc.1.set :=
  View.cover_of_tiledL (kernelRun11_B c i arg1 harg1 arg2 harg2 arg3 harg3 arg4 harg4 arg5 harg5 arg6 harg6 arg7 harg7 arg8 harg8 hc0 x0 x1 x2 x3 x4 x5 xo7).1 S5000x128.size (by sl_kernel_rfl) y

/-- What case B leaves in output 6's staging buffer: its pieces read back over junk. -/
def out11_B_6 (c : Dev nD) (i : grid11.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : ¬cond11_0 i)
    (x0 : Vec F S5000x128 .f32) (x1 : Vec F S1x128 .f32) (x2 : Vec F S1x128 .f32) (x3 : Vec F S1x128 .f32) (x4 : Vec F S1x128 .f32) (x5 : Vec F S5000x1 .i32) (xo7 : Vec F S128x128 .f32) : Vec F S5000x128 .f32 :=
  VO11_6.read (Elt F) (VO11_6.writes (Elt F) VO11_6.junk (kernelRun11_B c i arg1 harg1 arg2 harg2 arg3 harg3 arg4 harg4 arg5 harg5 arg6 harg6 arg7 harg7 arg8 harg8 hc0 x0 x1 x2 x3 x4 x5 xo7).1)

/-- Case B's pieces for output 7 tile its block, so they cover it. -/
theorem cover11_B_7 (c : Dev nD) (i : grid11.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : ¬cond11_0 i)
    (x0 : Vec F S5000x128 .f32) (x1 : Vec F S1x128 .f32) (x2 : Vec F S1x128 .f32) (x3 : Vec F S1x128 .f32) (x4 : Vec F S1x128 .f32) (x5 : Vec F S5000x1 .i32) (xo7 : Vec F S128x128 .f32) (y : S128x128.Idx) :
    ∃ pc ∈ (kernelRun11_B c i arg1 harg1 arg2 harg2 arg3 harg3 arg4 harg4 arg5 harg5 arg6 harg6 arg7 harg7 arg8 harg8 hc0 x0 x1 x2 x3 x4 x5 xo7).2.1, y ∈ pc.1.set :=
  View.cover_of_tiledL (kernelRun11_B c i arg1 harg1 arg2 harg2 arg3 harg3 arg4 harg4 arg5 harg5 arg6 harg6 arg7 harg7 arg8 harg8 hc0 x0 x1 x2 x3 x4 x5 xo7).2.1 S128x128.size (by sl_kernel_rfl) y

/-- What case B leaves in output 7's staging buffer: its pieces read back over junk. -/
def out11_B_7 (c : Dev nD) (i : grid11.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : ¬cond11_0 i)
    (x0 : Vec F S5000x128 .f32) (x1 : Vec F S1x128 .f32) (x2 : Vec F S1x128 .f32) (x3 : Vec F S1x128 .f32) (x4 : Vec F S1x128 .f32) (x5 : Vec F S5000x1 .i32) (xo7 : Vec F S128x128 .f32) : Vec F S128x128 .f32 :=
  VO11_7.read (Elt F) (VO11_7.writes (Elt F) VO11_7.junk (kernelRun11_B c i arg1 harg1 arg2 harg2 arg3 harg3 arg4 harg4 arg5 harg5 arg6 harg6 arg7 harg7 arg8 harg8 hc0 x0 x1 x2 x3 x4 x5 xo7).2.1)

/-! ## What the outputs hold after each point -/

/-- The two outputs after a first-point body at `t`: case A at the point's memrefs and input blocks. -/
def pt11_A (c : Dev nD) (t : Fin cfg11.N) (h0 : t.val % 10 = 0) : Vec F S5000x128 .f32 × Vec F S128x128 .f32 :=
  (out11_A_6 c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) ((hcond11_0 t).mpr h0) (iblk11 V c 0 t) (iblk11 V c 1 t) (iblk11 V c 2 t) (iblk11 V c 3 t) (iblk11 V c 4 t) (iblk11 V c 5 t),
   out11_A_7 c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) ((hcond11_0 t).mpr h0) (iblk11 V c 0 t) (iblk11 V c 1 t) (iblk11 V c 2 t) (iblk11 V c 3 t) (iblk11 V c 4 t) (iblk11 V c 5 t))

/-- The two outputs after a later-point body at `t`, the pooled-sum block having held `xo7`: case B at the
    point's memrefs and input blocks. -/
def pt11_B (c : Dev nD) (t : Fin cfg11.N) (h0 : ¬t.val % 10 = 0) (xo7 : Vec F S128x128 .f32) : Vec F S5000x128 .f32 × Vec F S128x128 .f32 :=
  (out11_B_6 c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) (fun h => h0 ((hcond11_0 t).mp h)) (iblk11 V c 0 t) (iblk11 V c 1 t) (iblk11 V c 2 t) (iblk11 V c 3 t) (iblk11 V c 4 t) (iblk11 V c 5 t) xo7,
   out11_B_7 c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) (fun h => h0 ((hcond11_0 t).mp h)) (iblk11 V c 0 t) (iblk11 V c 1 t) (iblk11 V c 2 t) (iblk11 V c 3 t) (iblk11 V c 4 t) (iblk11 V c 5 t) xo7)

/-- THE ACCUMULATION. What the two outputs' staging buffers hold after the body at position `n`: the case the
    closed form selects at `n`, the pooled-sum block of a later point taken at what this leaves at `n - 1`
    (its buffer is not written back in between). -/
def outsAt11 (c : Dev nD) : (n : ℕ) → n < cfg11.N → Vec F S5000x128 .f32 × Vec F S128x128 .f32
  | 0, hn => pt11_A V c ⟨0, hn⟩ (Nat.zero_mod _)
  | n + 1, hn =>
    if h0 : (n + 1) % 10 = 0 then pt11_A V c ⟨n + 1, hn⟩ h0
    else pt11_B V c ⟨n + 1, hn⟩ h0 (outsAt11 c n (Nat.lt_of_succ_lt hn)).2

/-- `outsAt11` at a point of case A: that case's contents. -/
theorem outsAt11_A (c : Dev nD) (t : Fin cfg11.N) (h0 : t.val % 10 = 0) :
    outsAt11 V c t.val t.isLt = pt11_A V c t h0 := by
  obtain ⟨n, hn⟩ := t
  cases n with
  | zero => exact rfl
  | succ n => exact (dif_pos h0).trans rfl

/-- `outsAt11` at a point of case B: that case's contents, over what the point before left. -/
theorem outsAt11_B (c : Dev nD) (t : Fin cfg11.N) (h0 : ¬t.val % 10 = 0) :
    outsAt11 V c t.val t.isLt = pt11_B V c t h0 (outsAt11 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans rfl

/-! ## The pipeline's proof data -/

/-- The proof data of the region's pipeline on core `c`: the arrays as the region finds them (`V`); after the body
    at point `t` each input's buffer at its block and the outputs' at `outsAt11`; the invariant the scoped rest
    and the generator register; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => iblk11 V c 5 t
    | ⟨6, _⟩ => (outsAt11 V c t.val t.isLt).1
    | ⟨7, _⟩ => (outsAt11 V c t.val t.isLt).2
  Φ _ := Pipeline.ΦA spec11 c
  q _ := fullShare
  owed _ := 0

/-- The proof data's arrays are the region-entry contents (the definition projected). -/
theorem A_eq11 (c : Dev nD) (w : Fin cfg11.W) : (dat11 V c).A w = V c (Pipeline.arrRef spec11 w) := by
  dsimp only [dat11]

/-- What the body leaves, window by window (the proof data's `match` reduced). -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) : (dat11 V c).after 5 t = iblk11 V c 5 t := by dsimp only [dat11]
theorem after11_6 (c : Dev nD) (t : Fin cfg11.N) : (dat11 V c).after 6 t = (outsAt11 V c t.val t.isLt).1 := by dsimp only [dat11]
theorem after11_7 (c : Dev nD) (t : Fin cfg11.N) : (dat11 V c).after 7 t = (outsAt11 V c t.val t.isLt).2 := by dsimp only [dat11]

/-- Each input's current staging buffer holds its block at every point, fetched there or not. -/
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d
theorem before11_4 (c : Dev nD) (t : Fin cfg11.N) (d) : (dat11 V c).before 4 t d = iblk11 V c 4 t :=
  before11_4_of V (dat11 V c) (A_eq11 V c 4) (after11_4 V c) t d
theorem before11_5 (c : Dev nD) (t : Fin cfg11.N) (d) : (dat11 V c).before 5 t d = iblk11 V c 5 t :=
  before11_5_of V (dat11 V c) (A_eq11 V c 5) (after11_5 V c) t d

/-- At a later point the pooled-sum window's staging buffer holds what the body left at the point before: the point is
    not the first, the buffer was not written back in between (it is written back after the last point only), and the
    window is live and uncut. -/
theorem before11_7_B (c : Dev nD) (t : Fin cfg11.N) (h0 : ¬t.val % 10 = 0) (d) :
    (dat11 V c).before 7 t d = (outsAt11 V c (t.val - 1) (Nat.lt_of_le_of_lt (Nat.sub_le _ _) t.isLt)).2 := by
  have hN : t.val < 10 := lt_of_lt_of_eq t.isLt (show cfg11.N = 10 from N_11)
  rw [Dat.before_out_kept _ 7 rfl t (by omega) (Bool.eq_false_iff.mpr fun h => by have := (flush11_7 _).mp h; dsimp only at this; omega)
    (fun _ => rfl) (fun _ _ => rfl)]
  dsimp only [dat11]

/-! ## The body obligation, at a generic point -/

/-- What the body is called with at point `t`: the invariant, what the core owes, and every window's current staging
    buffer at what the proof data say it holds before the body; -/
def bodyPre11 (c : Dev nD) (t : Fin cfg11.N) : sProp 𝕄 :=
  iprop((dat11 V c).Φ t.castSucc ∗ (dat11 V c).owesAt () t.castSucc
    ∗ (∃ d, owns (c : Thread nD τ) (ms11_0 t) fullShare ((dat11 V c).before 0 t d))
    ∗ (∃ d, owns (c : Thread nD τ) (ms11_1 t) fullShare ((dat11 V c).before 1 t d))
    ∗ (∃ d, owns (c : Thread nD τ) (ms11_2 t) fullShare ((dat11 V c).before 2 t d))
    ∗ (∃ d, owns (c : Thread nD τ) (ms11_3 t) fullShare ((dat11 V c).before 3 t d))
    ∗ (∃ d, owns (c : Thread nD τ) (ms11_4 t) fullShare ((dat11 V c).before 4 t d))
    ∗ (∃ d, owns (c : Thread nD τ) (ms11_5 t) fullShare ((dat11 V c).before 5 t d))
    ∗ (∃ d, owns (c : Thread nD τ) (ms11_6 t) fullShare ((dat11 V c).before 6 t d))
    ∗ (∃ d, owns (c : Thread nD τ) (ms11_7 t) fullShare ((dat11 V c).before 7 t d)))

/-- and what it returns: the same with every buffer at what the data say the body leaves. -/
def bodyPost11 (c : Dev nD) (t : Fin cfg11.N) : sProp 𝕄 :=
  iprop((dat11 V c).Φ t.succ ∗ (dat11 V c).owesAt () t.succ
    ∗ owns (c : Thread nD τ) (ms11_0 t) fullShare ((dat11 V c).after 0 t)
    ∗ owns (c : Thread nD τ) (ms11_1 t) fullShare ((dat11 V c).after 1 t)
    ∗ owns (c : Thread nD τ) (ms11_2 t) fullShare ((dat11 V c).after 2 t)
    ∗ owns (c : Thread nD τ) (ms11_3 t) fullShare ((dat11 V c).after 3 t)
    ∗ owns (c : Thread nD τ) (ms11_4 t) fullShare ((dat11 V c).after 4 t)
    ∗ owns (c : Thread nD τ) (ms11_5 t) fullShare ((dat11 V c).after 5 t)
    ∗ owns (c : Thread nD τ) (ms11_6 t) fullShare ((dat11 V c).after 6 t)
    ∗ owns (c : Thread nD τ) (ms11_7 t) fullShare ((dat11 V c).after 7 t))

set_option maxHeartbeats 1600000 in
/-- The body at any point: the inputs' memrefs hold their blocks; the closed form of the condition says which case
    the point is in; in case B the pooled-sum buffer holds what the point before left; so the case's run applies, and
    a covering list of pieces reads back the same through any view. The invariant and what the core owes pass
    through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3, before11_4, before11_5]
  rw [show (dat11 V c).Φ t.succ = (dat11 V c).Φ t.castSucc from rfl,
    show (dat11 V c).owesAt () t.succ = (dat11 V c).owesAt () t.castSucc from rfl,
    after11_0, after11_1, after11_2, after11_3, after11_4, after11_5, after11_6, after11_7]
  have hN : t.val < 10 := lt_of_lt_of_eq t.isLt (show cfg11.N = 10 from N_11)
  by_cases h0 : t.val % 10 = 0
  · rw [outsAt11_A V c t h0]
    dsimp only [pt11_A]
    unfold out11_A_6 out11_A_7
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun11_A c (grid11.coords t) _ _ _ _ _ _ _ _ _ _ _ _ _ _ _ _ ((hcond11_0 t).mpr h0) (iblk11 V c 0 t) (iblk11 V c 1 t) (iblk11 V c 2 t) (iblk11 V c 3 t) (iblk11 V c 4 t) (iblk11 V c 5 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    iintro ⟨H0, H1, H2, H3, H4, H5, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover11_A_6 c _ _ _ _ _ _ _ _ _ _ _ _ _ _ _ _ _ _ _ _ _ _ _ _)
    unfold owns; iexists _; isplitr
    swap; · iexact H7
    ipureintro; exact View.read_writes_of_cover _ _ _ _ _ (cover11_A_7 c _ _ _ _ _ _ _ _ _ _ _ _ _ _ _ _ _ _ _ _ _ _ _ _)
  · rw [outsAt11_B V c t h0]
    simp only [before11_7_B V c t h0]
    dsimp only [pt11_B]
    unfold out11_B_6 out11_B_7
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun11_B c (grid11.coords t) _ _ _ _ _ _ _ _ _ _ _ _ _ _ _ _ (fun h => h0 ((hcond11_0 t).mp h)) (iblk11 V c 0 t) (iblk11 V c 1 t) (iblk11 V c 2 t) (iblk11 V c 3 t) (iblk11 V c 4 t) (iblk11 V c 5 t) _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    iintro ⟨H0, H1, H2, H3, H4, H5, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover11_B_6 c _ _ _ _ _ _ _ _ _ _ _ _ _ _ _ _ _ _ _ _ _ _ _ _ _)
    unfold owns; iexists _; isplitr
    swap; · iexact H7
    ipureintro; exact View.read_writes_of_cover _ _ _ _ _ (cover11_B_7 c _ _ _ _ _ _ _ _ _ _ _ _ _ _ _ _ _ _ _ _ _ _ _ _ _)

/-- The body obligation, at every point. -/
theorem body_obligation11 (c : Dev nD) : BodyObligation (dat11 (F := F) V c) (defs₀ (F := F)) Variants.none () Set.univ := fun t => by
  rw [bigSep_W11, bigSep_W11]
  exact sound_body11 V c t

/-- info: 'Cert.Kernel.Reg.body_obligation11' depends on axioms: [propext, Classical.choice, Quot.sound] -/
#guard_msgs in #print axioms body_obligation11

end Cert.Kernel.Reg

end
-- ==== Proof.K.FrameOf.lean ====
/- The kernel program's frame: the twelve regions' halves (Proof/K/Reg0.lean … Reg11.lean) put into the assembly of
   Proof/K/AsmFrame.lean. Each half's proof data has the class invariant, full shares and nothing owed by definition. -/
import proofs.«144276_j65051574665788_2_alg».proof.Proof.K.AsmFrame
import proofs.«144276_j65051574665788_2_alg».proof.Proof.K.Reg0
import proofs.«144276_j65051574665788_2_alg».proof.Proof.K.Reg1
import proofs.«144276_j65051574665788_2_alg».proof.Proof.K.Reg2
import proofs.«144276_j65051574665788_2_alg».proof.Proof.K.Reg3
import proofs.«144276_j65051574665788_2_alg».proof.Proof.K.Reg4
import proofs.«144276_j65051574665788_2_alg».proof.Proof.K.Reg5
import proofs.«144276_j65051574665788_2_alg».proof.Proof.K.Reg6
import proofs.«144276_j65051574665788_2_alg».proof.Proof.K.Reg7
import proofs.«144276_j65051574665788_2_alg».proof.Proof.K.Reg8
import proofs.«144276_j65051574665788_2_alg».proof.Proof.K.Reg9
import proofs.«144276_j65051574665788_2_alg».proof.Proof.K.Reg10
import proofs.«144276_j65051574665788_2_alg».proof.Proof.K.Reg11

noncomputable section

namespace Cert.Kernel.Asm

open Cert.Kernel Cert.Kernel.Gen Idealize.ShloMosaic Idealize.ShloMosaic.TcCoe Idealize.SL.Sem

variable {F : FTy → Type} [FloatOps F]

/-- Region 0's half. -/
def half0 : Half0 F where
  after V c := (Cert.Kernel.Reg.dat0 V c).after
  hb V c := Cert.Kernel.Reg.body_obligation0 V c
/-- Region 1's half. -/
def half1 : Half1 F where
  after V c := (Cert.Kernel.Reg.dat1 V c).after
  hb V c := Cert.Kernel.Reg.body_obligation1 V c
/-- Region 2's half. -/
def half2 : Half2 F where
  after V c := (Cert.Kernel.Reg.dat2 V c).after
  hb V c := Cert.Kernel.Reg.body_obligation2 V c
/-- Region 3's half. -/
def half3 : Half3 F where
  after V c := (Cert.Kernel.Reg.dat3 V c).after
  hb V c := Cert.Kernel.Reg.body_obligation3 V c
/-- Region 4's half. -/
def half4 : Half4 F where
  after V c := (Cert.Kernel.Reg.dat4 V c).after
  hb V c := Cert.Kernel.Reg.body_obligation4 V c
/-- Region 5's half. -/
def half5 : Half5 F where
  after V c := (Cert.Kernel.Reg.dat5 V c).after
  hb V c := Cert.Kernel.Reg.body_obligation5 V c
/-- Region 6's half. -/
def half6 : Half6 F where
  after V c := (Cert.Kernel.Reg.dat6 V c).after
  hb V c := Cert.Kernel.Reg.body_obligation6 V c
/-- Region 7's half. -/
def half7 : Half7 F where
  after V c := (Cert.Kernel.Reg.dat7 V c).after
  hb V c := Cert.Kernel.Reg.body_obligation7 V c
/-- Region 8's half. -/
def half8 : Half8 F where
  after V c := (Cert.Kernel.Reg.dat8 V c).after
  hb V c := Cert.Kernel.Reg.body_obligation8 V c
/-- Region 9's half. -/
def half9 : Half9 F where
  after V c := (Cert.Kernel.Reg.dat9 V c).after
  hb V c := Cert.Kernel.Reg.body_obligation9 V c
/-- Region 10's half. -/
def half10 : Half10 F where
  after V c := (Cert.Kernel.Reg.dat10 V c).after
  hb V c := Cert.Kernel.Reg.body_obligation10 V c
/-- Region 11's half. -/
def half11 : Half11 F where
  after V c := (Cert.Kernel.Reg.dat11 V c).after
  hb V c := Cert.Kernel.Reg.body_obligation11 V c

/-- The kernel program's frame, at any float values. -/
theorem frame_all (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame m half0 half1 half2 half3 half4 half5 half6 half7 half8 half9 half10 half11 ρ

end Cert.Kernel.Asm

end
-- ==== Proof.KI.AsmRun.lean ====
/- The kernel program's run with every buffer named. The same segments as the frame's, read at the end in full: every weakly
   fair execution of @main terminates, and every unscoped buffer of every core ends holding the chain's last contents —
   the thirteenth stretch's operations applied to what region 11 leaves. The results of the program are two of these
   buffers. -/
import proofs.«144276_j65051574665788_2_alg».proof.Proof.KI.AsmFrame

set_option maxRecDepth 16384

noncomputable section

namespace Cert.KernelIdeal.Asm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg Cfg Window BodyObligation cellOf)

variable {F : FTy → Type} [FloatOps F]

local notation "𝕄" => MT nD τ sig Unit (Elt F) ℕ (UR sig nD τ) ℕ

variable (m : (ℓ : Loc nD τ sig) → Buf (Elt F) ℓ) (H0 : Half0 F) (H1 : Half1 F) (H2 : Half2 F) (H3 : Half3 F) (H4 : Half4 F) (H5 : Half5 F) (H6 : Half6 F) (H7 : Half7 F) (H8 : Half8 F) (H9 : Half9 F) (H10 : Half10 F) (H11 : Half11 F)

/-- The riding state under a name of its own (the launch step joins it to the buffers as one conjunct). -/
def RstO (c : Dev nD) : sProp 𝕄 := Rst c

include H0 H1 H2 H3 H4 H5 H6 H7 H8 H9 H10 H11 in
set_option backward.isDefEq.respectTransparency.types false in
/-- Every weakly fair execution of @main terminates, and every unscoped buffer ends at the chain's last contents. -/
theorem run_buffers (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = W25 m H0 H1 H2 H3 H4 H5 H6 H7 H8 H9 H10 H11 c b) := by
  have hE0 : iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L lv)
      ⊢ (|={Set.univ}=> bigSep Finset.univ (fun c : Dev nD => RstO c) : sProp 𝕄) := by
    refine Pipeline.initEach L lv fun c => ?_
    show _ ⊢ |={Set.univ}=> Rst c
    iintro ⟨⟨-, HO, -, Hp, -⟩, -⟩
    imodintro
    isplitl [Hp]; · iexists _; iexact Hp
    iexists ∅; iexact HO
  refine Pipeline.θ_run_regions_kit_dev (pcfgs (F := F)) adm (pdats m H0 H1 H2 H3 H4 H5 H6 H7 H8 H9 H10 H11) () cellOf_inj emb₁ defs₀ 𝒱₀ L lv m ρ main
    (Gen.segs m (outs m H0 H1 H2 H3 H4 H5 H6 H7 H8 H9 H10 H11) 𝒱₀ L lv (fun _ c => RstO c) () (pdats m H0 H1 H2 H3 H4 H5 H6 H7 H8 H9 H10 H11) (reg0 m H0 H1 H2 H3 H4 H5 H6 H7 H8 H9 H10 H11) (reg1 m H0 H1 H2 H3 H4 H5 H6 H7 H8 H9 H10 H11) (reg2 m H0 H1 H2 H3 H4 H5 H6 H7 H8 H9 H10 H11) (reg3 m H0 H1 H2 H3 H4 H5 H6 H7 H8 H9 H10 H11) (reg4 m H0 H1 H2 H3 H4 H5 H6 H7 H8 H9 H10 H11) (reg5 m H0 H1 H2 H3 H4 H5 H6 H7 H8 H9 H10 H11) (reg6 m H0 H1 H2 H3 H4 H5 H6 H7 H8 H9 H10 H11) (reg7 m H0 H1 H2 H3 H4 H5 H6 H7 H8 H9 H10 H11) (reg8 m H0 H1 H2 H3 H4 H5 H6 H7 H8 H9 H10 H11) (reg9 m H0 H1 H2 H3 H4 H5 H6 H7 H8 H9 H10 H11) (reg10 m H0 H1 H2 H3 H4 H5 H6 H7 H8 H9 H10 H11) (reg11 m H0 H1 H2 H3 H4 H5 H6 H7 H8 H9 H10 H11))
    (fun c Q => by
      rewrite [main_chain c, Seg.run_eq_chain,
        show (Gen.segs m (outs m H0 H1 H2 H3 H4 H5 H6 H7 H8 H9 H10 H11) 𝒱₀ L lv (fun _ c => RstO c) () (pdats m H0 H1 H2 H3 H4 H5 H6 H7 H8 H9 H10 H11) (reg0 m H0 H1 H2 H3 H4 H5 H6 H7 H8 H9 H10 H11) (reg1 m H0 H1 H2 H3 H4 H5 H6 H7 H8 H9 H10 H11) (reg2 m H0 H1 H2 H3 H4 H5 H6 H7 H8 H9 H10 H11) (reg3 m H0 H1 H2 H3 H4 H5 H6 H7 H8 H9 H10 H11) (reg4 m H0 H1 H2 H3 H4 H5 H6 H7 H8 H9 H10 H11) (reg5 m H0 H1 H2 H3 H4 H5 H6 H7 H8 H9 H10 H11) (reg6 m H0 H1 H2 H3 H4 H5 H6 H7 H8 H9 H10 H11) (reg7 m H0 H1 H2 H3 H4 H5 H6 H7 H8 H9 H10 H11) (reg8 m H0 H1 H2 H3 H4 H5 H6 H7 H8 H9 H10 H11) (reg9 m H0 H1 H2 H3 H4 H5 H6 H7 H8 H9 H10 H11) (reg10 m H0 H1 H2 H3 H4 H5 H6 H7 H8 H9 H10 H11) (reg11 m H0 H1 H2 H3 H4 H5 H6 H7 H8 H9 H10 H11) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()),
          StableHlo.seq hostOps10,
          Prog.lift (.customCall (Pipeline.entry 10) ()),
          StableHlo.seq hostOps11,
          Prog.lift (.customCall (Pipeline.entry 11) ()),
          StableHlo.seq hostOps12 ] from rfl]
      exact .rfl)
    (fun c => by simp only [Gen.segs, Seg.pipes_host, Seg.pipes_region, Seg.pipes_nil]; decide) 0 (fun _ _ => rfl) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ RstO c))
    (Tₙ := fun c => StableHlo.held (c : Thread nD τ) (Pipeline.ucRefs τ sig) (Gen.V25 m (outs m H0 H1 H2 H3 H4 H5 H6 H7 H8 H9 H10 H11) c))
    (hch := fun c => ⟨.rfl,
      (show (iprop(StableHlo.held (c : Thread nD τ) (Pipeline.ucRefs τ sig) (Gen.V1 m c) ∗ RstO c) : sProp 𝕄) ⊢ (reg0 m H0 H1 H2 H3 H4 H5 H6 H7 H8 H9 H10 H11).pre c from by
        rw [V1_eq m c]; exact .rfl),
      (show (reg0 m H0 H1 H2 H3 H4 H5 H6 H7 H8 H9 H10 H11).post c ⊢ (iprop(StableHlo.held (c : Thread nD τ) (Pipeline.ucRefs τ sig) (Gen.V2 m (outs m H0 H1 H2 H3 H4 H5 H6 H7 H8 H9 H10 H11) c) ∗ RstO c) : sProp 𝕄) from by
        rw [V2_eq m H0 H1 H2 H3 H4 H5 H6 H7 H8 H9 H10 H11 c]; exact .rfl),
      (show (iprop(StableHlo.held (c : Thread nD τ) (Pipeline.ucRefs τ sig) (Gen.V3 m (outs m H0 H1 H2 H3 H4 H5 H6 H7 H8 H9 H10 H11) c) ∗ RstO c) : sProp 𝕄) ⊢ (reg1 m H0 H1 H2 H3 H4 H5 H6 H7 H8 H9 H10 H11).pre c from by
        rw [V3_eq m H0 H1 H2 H3 H4 H5 H6 H7 H8 H9 H10 H11 c]; exact .rfl),
      (show (reg1 m H0 H1 H2 H3 H4 H5 H6 H7 H8 H9 H10 H11).post c ⊢ (iprop(StableHlo.held (c : Thread nD τ) (Pipeline.ucRefs τ sig) (Gen.V4 m (outs m H0 H1 H2 H3 H4 H5 H6 H7 H8 H9 H10 H11) c) ∗ RstO c) : sProp 𝕄) from by
        rw [V4_eq m H0 H1 H2 H3 H4 H5 H6 H7 H8 H9 H10 H11 c]; exact .rfl),
      (show (iprop(StableHlo.held (c : Thread nD τ) (Pipeline.ucRefs τ sig) (Gen.V5 m (outs m H0 H1 H2 H3 H4 H5 H6 H7 H8 H9 H10 H11) c) ∗ RstO c) : sProp 𝕄) ⊢ (reg2 m H0 H1 H2 H3 H4 H5 H6 H7 H8 H9 H10 H11).pre c from by
        rw [V5_eq m H0 H1 H2 H3 H4 H5 H6 H7 H8 H9 H10 H11 c]; exact .rfl),
      (show (reg2 m H0 H1 H2 H3 H4 H5 H6 H7 H8 H9 H10 H11).post c ⊢ (iprop(StableHlo.held (c : Thread nD τ) (Pipeline.ucRefs τ sig) (Gen.V6 m (outs m H0 H1 H2 H3 H4 H5 H6 H7 H8 H9 H10 H11) c) ∗ RstO c) : sProp 𝕄) from by
        rw [V6_eq m H0 H1 H2 H3 H4 H5 H6 H7 H8 H9 H10 H11 c]; exact .rfl),
      (show (iprop(StableHlo.held (c : Thread nD τ) (Pipeline.ucRefs τ sig) (Gen.V7 m (outs m H0 H1 H2 H3 H4 H5 H6 H7 H8 H9 H10 H11) c) ∗ RstO c) : sProp 𝕄) ⊢ (reg3 m H0 H1 H2 H3 H4 H5 H6 H7 H8 H9 H10 H11).pre c from by
        rw [V7_eq m H0 H1 H2 H3 H4 H5 H6 H7 H8 H9 H10 H11 c]; exact .rfl),
      (show (reg3 m H0 H1 H2 H3 H4 H5 H6 H7 H8 H9 H10 H11).post c ⊢ (iprop(StableHlo.held (c : Thread nD τ) (Pipeline.ucRefs τ sig) (Gen.V8 m (outs m H0 H1 H2 H3 H4 H5 H6 H7 H8 H9 H10 H11) c) ∗ RstO c) : sProp 𝕄) from by
        rw [V8_eq m H0 H1 H2 H3 H4 H5 H6 H7 H8 H9 H10 H11 c]; exact .rfl),
      (show (iprop(StableHlo.held (c : Thread nD τ) (Pipeline.ucRefs τ sig) (Gen.V9 m (outs m H0 H1 H2 H3 H4 H5 H6 H7 H8 H9 H10 H11) c) ∗ RstO c) : sProp 𝕄) ⊢ (reg4 m H0 H1 H2 H3 H4 H5 H6 H7 H8 H9 H10 H11).pre c from by
        rw [V9_eq m H0 H1 H2 H3 H4 H5 H6 H7 H8 H9 H10 H11 c]; exact .rfl),
      (show (reg4 m H0 H1 H2 H3 H4 H5 H6 H7 H8 H9 H10 H11).post c ⊢ (iprop(StableHlo.held (c : Thread nD τ) (Pipeline.ucRefs τ sig) (Gen.V10 m (outs m H0 H1 H2 H3 H4 H5 H6 H7 H8 H9 H10 H11) c) ∗ RstO c) : sProp 𝕄) from by
        rw [V10_eq m H0 H1 H2 H3 H4 H5 H6 H7 H8 H9 H10 H11 c]; exact .rfl),
      (show (iprop(StableHlo.held (c : Thread nD τ) (Pipeline.ucRefs τ sig) (Gen.V11 m (outs m H0 H1 H2 H3 H4 H5 H6 H7 H8 H9 H10 H11) c) ∗ RstO c) : sProp 𝕄) ⊢ (reg5 m H0 H1 H2 H3 H4 H5 H6 H7 H8 H9 H10 H11).pre c from by
        rw [V11_eq m H0 H1 H2 H3 H4 H5 H6 H7 H8 H9 H10 H11 c]; exact .rfl),
      (show (reg5 m H0 H1 H2 H3 H4 H5 H6 H7 H8 H9 H10 H11).post c ⊢ (iprop(StableHlo.held (c : Thread nD τ) (Pipeline.ucRefs τ sig) (Gen.V12 m (outs m H0 H1 H2 H3 H4 H5 H6 H7 H8 H9 H10 H11) c) ∗ RstO c) : sProp 𝕄) from by
        rw [V12_eq m H0 H1 H2 H3 H4 H5 H6 H7 H8 H9 H10 H11 c]; exact .rfl),
      (show (iprop(StableHlo.held (c : Thread nD τ) (Pipeline.ucRefs τ sig) (Gen.V13 m (outs m H0 H1 H2 H3 H4 H5 H6 H7 H8 H9 H10 H11) c) ∗ RstO c) : sProp 𝕄) ⊢ (reg6 m H0 H1 H2 H3 H4 H5 H6 H7 H8 H9 H10 H11).pre c from by
        rw [V13_eq m H0 H1 H2 H3 H4 H5 H6 H7 H8 H9 H10 H11 c]; exact .rfl),
      (show (reg6 m H0 H1 H2 H3 H4 H5 H6 H7 H8 H9 H10 H11).post c ⊢ (iprop(StableHlo.held (c : Thread nD τ) (Pipeline.ucRefs τ sig) (Gen.V14 m (outs m H0 H1 H2 H3 H4 H5 H6 H7 H8 H9 H10 H11) c) ∗ RstO c) : sProp 𝕄) from by
        rw [V14_eq m H0 H1 H2 H3 H4 H5 H6 H7 H8 H9 H10 H11 c]; exact .rfl),
      (show (iprop(StableHlo.held (c : Thread nD τ) (Pipeline.ucRefs τ sig) (Gen.V15 m (outs m H0 H1 H2 H3 H4 H5 H6 H7 H8 H9 H10 H11) c) ∗ RstO c) : sProp 𝕄) ⊢ (reg7 m H0 H1 H2 H3 H4 H5 H6 H7 H8 H9 H10 H11).pre c from by
        rw [V15_eq m H0 H1 H2 H3 H4 H5 H6 H7 H8 H9 H10 H11 c]; exact .rfl),
      (show (reg7 m H0 H1 H2 H3 H4 H5 H6 H7 H8 H9 H10 H11).post c ⊢ (iprop(StableHlo.held (c : Thread nD τ) (Pipeline.ucRefs τ sig) (Gen.V16 m (outs m H0 H1 H2 H3 H4 H5 H6 H7 H8 H9 H10 H11) c) ∗ RstO c) : sProp 𝕄) from by
        rw [V16_eq m H0 H1 H2 H3 H4 H5 H6 H7 H8 H9 H10 H11 c]; exact .rfl),
      (show (iprop(StableHlo.held (c : Thread nD τ) (Pipeline.ucRefs τ sig) (Gen.V17 m (outs m H0 H1 H2 H3 H4 H5 H6 H7 H8 H9 H10 H11) c) ∗ RstO c) : sProp 𝕄) ⊢ (reg8 m H0 H1 H2 H3 H4 H5 H6 H7 H8 H9 H10 H11).pre c from by
        rw [V17_eq m H0 H1 H2 H3 H4 H5 H6 H7 H8 H9 H10 H11 c]; exact .rfl),
      (show (reg8 m H0 H1 H2 H3 H4 H5 H6 H7 H8 H9 H10 H11).post c ⊢ (iprop(StableHlo.held (c : Thread nD τ) (Pipeline.ucRefs τ sig) (Gen.V18 m (outs m H0 H1 H2 H3 H4 H5 H6 H7 H8 H9 H10 H11) c) ∗ RstO c) : sProp 𝕄) from by
        rw [V18_eq m H0 H1 H2 H3 H4 H5 H6 H7 H8 H9 H10 H11 c]; exact .rfl),
      (show (iprop(StableHlo.held (c : Thread nD τ) (Pipeline.ucRefs τ sig) (Gen.V19 m (outs m H0 H1 H2 H3 H4 H5 H6 H7 H8 H9 H10 H11) c) ∗ RstO c) : sProp 𝕄) ⊢ (reg9 m H0 H1 H2 H3 H4 H5 H6 H7 H8 H9 H10 H11).pre c from by
        rw [V19_eq m H0 H1 H2 H3 H4 H5 H6 H7 H8 H9 H10 H11 c]; exact .rfl),
      (show (reg9 m H0 H1 H2 H3 H4 H5 H6 H7 H8 H9 H10 H11).post c ⊢ (iprop(StableHlo.held (c : Thread nD τ) (Pipeline.ucRefs τ sig) (Gen.V20 m (outs m H0 H1 H2 H3 H4 H5 H6 H7 H8 H9 H10 H11) c) ∗ RstO c) : sProp 𝕄) from by
        rw [V20_eq m H0 H1 H2 H3 H4 H5 H6 H7 H8 H9 H10 H11 c]; exact .rfl),
      (show (iprop(StableHlo.held (c : Thread nD τ) (Pipeline.ucRefs τ sig) (Gen.V21 m (outs m H0 H1 H2 H3 H4 H5 H6 H7 H8 H9 H10 H11) c) ∗ RstO c) : sProp 𝕄) ⊢ (reg10 m H0 H1 H2 H3 H4 H5 H6 H7 H8 H9 H10 H11).pre c from by
        rw [V21_eq m H0 H1 H2 H3 H4 H5 H6 H7 H8 H9 H10 H11 c]; exact .rfl),
      (show (reg10 m H0 H1 H2 H3 H4 H5 H6 H7 H8 H9 H10 H11).post c ⊢ (iprop(StableHlo.held (c : Thread nD τ) (Pipeline.ucRefs τ sig) (Gen.V22 m (outs m H0 H1 H2 H3 H4 H5 H6 H7 H8 H9 H10 H11) c) ∗ RstO c) : sProp 𝕄) from by
        rw [V22_eq m H0 H1 H2 H3 H4 H5 H6 H7 H8 H9 H10 H11 c]; exact .rfl),
      (show (iprop(StableHlo.held (c : Thread nD τ) (Pipeline.ucRefs τ sig) (Gen.V23 m (outs m H0 H1 H2 H3 H4 H5 H6 H7 H8 H9 H10 H11) c) ∗ RstO c) : sProp 𝕄) ⊢ (reg11 m H0 H1 H2 H3 H4 H5 H6 H7 H8 H9 H10 H11).pre c from by
        rw [V23_eq m H0 H1 H2 H3 H4 H5 H6 H7 H8 H9 H10 H11 c]; exact .rfl),
      (show (reg11 m H0 H1 H2 H3 H4 H5 H6 H7 H8 H9 H10 H11).post c ⊢ (iprop(StableHlo.held (c : Thread nD τ) (Pipeline.ucRefs τ sig) (Gen.V24 m (outs m H0 H1 H2 H3 H4 H5 H6 H7 H8 H9 H10 H11) c) ∗ RstO c) : sProp 𝕄) from by
        rw [V24_eq m H0 H1 H2 H3 H4 H5 H6 H7 H8 H9 H10 H11 c]; exact .rfl),
      sep_mono .rfl (show Rst c ⊢ _ from by iintro ⟨-, HO⟩; iexact HO)⟩)
    (hinit := ?_) (QY := fun c s => ∀ b ∈ Pipeline.ucRefs τ sig, s.mem ((c : Thread nD τ).1, b) = W25 m H0 H1 H2 H3 H4 H5 H6 H7 H8 H9 H10 H11 c b)
    (hfin := fun c s' => ?_) (hQ := fun _ h => h)
  · -- the launch: the unscoped buffers are held at the launch contents; the rest makes the riding state on every core at once
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (iprop(emp) : sProp 𝕄)))
        ⊢ (iprop((bigSep Finset.univ fun c : Dev nD => StableHlo.held (c : Thread nD τ) (Pipeline.ucRefs τ sig) (Gen.V0 m c))
            ∗ bigSep Finset.univ fun c : Dev nD => iprop(unscopedSems0 c ∗ owes (c : Thread nD τ) ((0 : Dev nD → CellTallies nD τ sig Unit) c) ∅
              ∗ Pipeline.launchCred (0 : Dev nD → CellTallies nD τ sig Unit) c ∗ prngReg c (ρ c) ∗ (iprop(emp) : sProp 𝕄)))
            : sProp 𝕄) := by
      rw [← bigSep_sep']
      exact bigSep_mono fun c _ => by rw [← Pipeline.unscopedBufs_held (Ix := Unit) (Name := ℕ) (U := UR sig nD τ) (Lvl := ℕ) c (Gen.V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    rw [V25_eq m H0 H1 H2 H3 H4 H5 H6 H7 H8 H9 H10 H11 c]
    unfold StableHlo.held
    iintro ⟨Hh, HSI⟩
    ihave Hr := (pointsTo_read_all (Pipeline.ucRefs τ sig) (fun b => ((c : Thread nD τ).1, b)) (W25 m H0 H1 H2 H3 H4 H5 H6 H7 H8 H9 H10 H11 c) s') $$ [Hh HSI]
    · isplitl [Hh] <;> iassumption
    icases Hr with ⟨%h, HSI⟩
    imodintro
    isplitr
    · ipureintro; exact h
    · iexact HSI

end Cert.KernelIdeal.Asm

end
-- ==== Proof.KI.LibBlockOps.lean ====
/-
  Blocks of extended reals read at an entry.

  Three facts about rank-2 blocks over the extended reals, each at an entry (p, q):
  the product of an M×K block by a K×N block accumulated into the zero block is Σ_{k < K} a[p, k] · w[k, q];
  a row [1, N] stretched over M rows is the row's entry q; a column [M, 1] stretched over N columns is the
  column's entry p.
-/
import Idealize.ShloMosaic.PureOps.Ideal.Laws
import Idealize.ShloMosaic.Lib.ValueIdx
import Idealize.ShloMosaic.Lib.Pipeline.Value

noncomputable section

namespace Cert.LibBlockOps

open Idealize.ShloMosaic Idealize.ShloMosaic.ValueIdx

/-- The two zero offsets of a rank-2 rectangle, as the constant function. -/
theorem offsets_zero2 : (![0, 0] : Fin 2 → Nat) = fun _ => 0 := funext fun a => by fin_cases a <;> rfl

/-- Over the extended reals, the product of an M×K block by a K×N block accumulated into the zero block has at
    entry (p, n) the value Σ_{k < K} a[p, k] · w[k, n], whatever precision the operation names. The dimension record
    is any one equal to the plain one (contract the left operand's axis 1 with the right operand's axis 0, no batch
    axis). -/
theorem matmul_zero_apply {M K N : Nat} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (n : Fin N) :
    matmul D prec a w (constant (F := Ideal) ⟨2, ![M, N]⟩ .f32 0x00000000#32) (ix2 p n) = ∑ k : Fin K, a (ix2 p k) * w (ix2 k n) := by
  subst hD
  show FloatOps.matmul (DotDims.plain M K N) prec a w (constant ⟨2, ![M, N]⟩ .f32 0x00000000#32) (ix2 p n) = _
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p n) ((contrEquiv1 (DotDims.plain M K N) K rfl rfl).symm k) = ix2 p k :=
    funext fun ax => Fin.ext (by
      match ax with
      | ⟨0, _⟩ => rfl
      | ⟨1, _⟩ => exact ((DotDims.plain M K N).lhsIdx_val_of_single rfl _ _).trans hk)
  have er : (DotDims.plain M K N).rhsIdx (ix2 p n) ((contrEquiv1 (DotDims.plain M K N) K rfl rfl).symm k) = ix2 k n :=
    funext fun ax => Fin.ext (by
      match ax with
      | ⟨0, _⟩ => exact ((DotDims.plain M K N).rhsIdx_val_of_single rfl _ _).trans hk
      | ⟨1, _⟩ => rfl)
  rw [el, er]

/-- A row [1, N] stretched over M rows reads, at (p, q), the row's entry q. -/
theorem broadcast_row_apply {M N : Nat} {α : Type} (x : (⟨2, ![1, N]⟩ : Shape).Idx → α)
    (h : (⟨2, ![1, N]⟩ : Shape).Broadcasts ⟨2, ![M, N]⟩) (hN : N ≠ 1) (p : Fin M) (q : Fin N) :
    broadcastTo ⟨2, ![M, N]⟩ x h (ix2 p q) = x (ix2 (0 : Fin 1) q) :=
  broadcastTo_apply x h (ix2 p q) (ix2 (0 : Fin 1) q) (fun a => by
    match a with
    | ⟨0, _⟩ => exact (if_pos rfl).symm
    | ⟨1, _⟩ => exact (if_neg hN).symm)

/-- A column [M, 1] stretched over N columns reads, at (p, q), the column's entry p. -/
theorem broadcast_col_apply {M N : Nat} {α : Type} (x : (⟨2, ![M, 1]⟩ : Shape).Idx → α)
    (h : (⟨2, ![M, 1]⟩ : Shape).Broadcasts ⟨2, ![M, N]⟩) (hM : M ≠ 1) (p : Fin M) (q : Fin N) :
    broadcastTo ⟨2, ![M, N]⟩ x h (ix2 p q) = x (ix2 p (0 : Fin 1)) :=
  broadcastTo_apply x h (ix2 p q) (ix2 p (0 : Fin 1)) (fun a => by
    match a with
    | ⟨0, _⟩ => exact (if_neg hM).symm
    | ⟨1, _⟩ => exact (if_pos rfl).symm)

end Cert.LibBlockOps

end
-- ==== Proof.KI.Val0.lean ====
import proofs.«144276_j65051574665788_2_alg».proof.Proof.KI.Reg0
import proofs.«144276_j65051574665788_2_alg».proof.Proof.KI.LibBlockOps
import Idealize.ShloMosaic.Lib.Pipeline.Value
import Idealize.ShloMosaic.PureOps.Ideal.Laws
import Idealize.ShloMosaic.Lib.ValueIdx

set_option maxRecDepth 16384

noncomputable section

namespace Cert.KernelIdeal.Reg

open Cert.KernelIdeal Cert.KernelIdeal.Gen Cert.LibBlockOps
open Idealize.ShloMosaic Idealize.ShloMosaic.TcCoe Idealize.ShloMosaic.ValueIdx Idealize.SL.Sem
open Idealize.ShloMosaic.Pipeline (Dat)

-- what the TensorCore's buffers hold, as extended reals, when the region is entered
variable (V : (c : Dev nD) → (b : Ref sig .tc) → Buf (Elt Ideal) ((c : Thread nD τ).loc b))

/-! # Region 0 read as one array: `o[r, n] = Σ_{k < 48} x[r, k] · W[k, n] + b[0, n]` for all 50000 rows

The grid's ten points write the ten blocks of 5000 rows of the output array. Point `t` writes block `t`, computed from
block `t` of `x` and from the whole of `W` and `b`; row `r` lies in the block of point `r / 5000`. -/

/-- The atom encoder on whole arrays of extended reals: entry (r, n) is `Σ_{k < 48} x[r, k] · W[k, n] + b[0, n]`. -/
def encAtoms (x : S50000x48.Idx → EReal) (W : S48x128.Idx → EReal) (b : S1x128.Idx → EReal) : S50000x128.Idx → EReal :=
  fun i => (∑ k : Fin 48, x (ix2 (i 0) k) * W (ix2 k (i 1))) + b (ix2 (0 : Fin 1) (i 1))

theorem encAtoms_apply (x : S50000x48.Idx → EReal) (W : S48x128.Idx → EReal) (b : S1x128.Idx → EReal) (i : S50000x128.Idx) :
    encAtoms x W b i = (∑ k : Fin 48, x (ix2 (i 0) k) * W (ix2 k (i 1))) + b (ix2 (0 : Fin 1) (i 1)) := rfl

/-- The payload at row `p`, column `q` of a block. The two narrowings to the short float format are the identity
    on extended reals; the product into the zero block is the sum over the 48 columns; the bias row is stretched
    over the 5000 rows. -/
theorem pay0_apply (x : Vec Ideal S5000x48 .f32) (W : Vec Ideal S48x128 .f32) (b : Vec Ideal S1x128 .f32)
    (p : Fin 5000) (q : Fin 128) :
    k0_pay1 x W b (ix2 p q) = (∑ k : Fin 48, x (ix2 p k) * W (ix2 k q)) + b (ix2 (0 : Fin 1) q) := by
  unfold k0_pay1
  rw [addf_apply, matmul_zero_apply dot_S5000x48_S48x128_S5000x128_1_0_0_1_n_n rfl, shapeCast_self,
    broadcast_row_apply _ _ (by decide)]
  rfl

/-- The block indices at every grid point: the rows `x` and the output move together, block `t` at point `t`;
    every other block index is 0. Decided over the ten points. -/
theorem idx_facts0 : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

set_option maxHeartbeats 1000000 in
/-- What point `t` writes back is block `t` of the encoder of the three arrays as the region finds them. -/
theorem flushed0_eq (c : Dev nD) (t : Fin cfg0.N) :
    (dat0 (F := Ideal) V c).flushed 3 t
      = ((cfg0.win 3).blk t).view.read (Elt Ideal) (encAtoms (V c main_arg1) (V c main_arg5) (V c main_v4)) := by
  show (cfg0.win 3).cut (grid0.coords t) ((dat0 V c).after 3 t) = _
  rw [after0_3]
  unfold out0_3
  rw [View.canon_unit_zero offsets_zero2]
  simp only [View.ld_unit_zero (S := S5000x48) offsets_zero2, View.ld_unit_zero (S := S48x128) offsets_zero2,
    View.ld_unit_zero (S := S1x128) offsets_zero2]
  obtain ⟨e00, e01, e10, e11, e20, e21, e30, e31⟩ := idx_facts0 t
  funext j
  obtain ⟨p, q, rfl⟩ : ∃ (p : Fin 5000) (q : Fin 128), j = ix2 p q := ⟨j 0, j 1, eq_ix2 j⟩
  show k0_pay1 (iblk0 V c 0 t) (iblk0 V c 1 t) (iblk0 V c 2 t) (ix2 p q)
    = encAtoms (V c main_arg1) (V c main_arg5) (V c main_v4) (((cfg0.win 3).blk t).view.emb (ix2 p q))
  rw [pay0_apply, encAtoms_apply]
  have h0 : ∀ k : Fin 48, ((cfg0.win 0).blk t).view.emb (ix2 p k) = ix2 ((((cfg0.win 3).blk t).view.emb (ix2 p q)) 0) k := by
    intro k; funext a; apply Fin.ext
    match a with
    | ⟨0, _⟩ => show win0_0.index t (0 : Fin 2) * 5000 + 1 * p.val = win0_3.index t (0 : Fin 2) * 5000 + 1 * p.val; omega
    | ⟨1, _⟩ => show win0_0.index t (1 : Fin 2) * 48 + 1 * k.val = k.val; omega
  have h1 : ∀ k : Fin 48, ((cfg0.win 1).blk t).view.emb (ix2 k q) = ix2 k ((((cfg0.win 3).blk t).view.emb (ix2 p q)) 1) := by
    intro k; funext a; apply Fin.ext
    match a with
    | ⟨0, _⟩ => show win0_1.index t (0 : Fin 2) * 48 + 1 * k.val = k.val; omega
    | ⟨1, _⟩ => show win0_1.index t (1 : Fin 2) * 128 + 1 * q.val = win0_3.index t (1 : Fin 2) * 128 + 1 * q.val; omega
  have h2 : ((cfg0.win 2).blk t).view.emb (ix2 (0 : Fin 1) q) = ix2 (0 : Fin 1) ((((cfg0.win 3).blk t).view.emb (ix2 p q)) 1) := by
    funext a; apply Fin.ext
    match a with
    | ⟨0, _⟩ => show win0_2.index t (0 : Fin 2) * 1 + 1 * 0 = 0; omega
    | ⟨1, _⟩ => show win0_2.index t (1 : Fin 2) * 128 + 1 * q.val = win0_3.index t (1 : Fin 2) * 128 + 1 * q.val; omega
  have hx : ∀ k : Fin 48, iblk0 V c 0 t (ix2 p k) = V c main_arg1 (ix2 ((((cfg0.win 3).blk t).view.emb (ix2 p q)) 0) k) :=
    fun k => congrArg (V c main_arg1) (h0 k)
  have hW : ∀ k : Fin 48, iblk0 V c 1 t (ix2 k q) = V c main_arg5 (ix2 k ((((cfg0.win 3).blk t).view.emb (ix2 p q)) 1)) :=
    fun k => congrArg (V c main_arg5) (h1 k)
  have hb : iblk0 V c 2 t (ix2 (0 : Fin 1) q) = V c main_v4 (ix2 (0 : Fin 1) ((((cfg0.win 3).blk t).view.emb (ix2 p q)) 1)) :=
    congrArg (V c main_v4) h2
  rw [hb]
  exact congrArg (· + _) (Finset.sum_congr rfl fun k _ => by rw [hx k, hW k])

/-- An index of the output array lies in point `t`'s block when each coordinate lies in the block's range on its axis. -/
theorem mem_blk0 (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v5).slice (win0_3.rect t)).set ↔ _
  rw [View.set_slice_whole, Rect.mem_set_unit]
  exact Iff.rfl

/-- Every index of the output array lies in some point's block: row `r` in the block of point `r / 5000`. -/
theorem cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  have ht : (i 0).val / 5000 < cfg0.N := by rw [hN]; omega
  obtain ⟨e00, e01, e10, e11, e20, e21, e30, e31⟩ := idx_facts0 ⟨(i 0).val / 5000, ht⟩
  refine ⟨⟨(i 0).val / 5000, ht⟩, flush0_3 _, ?_⟩
  rw [mem_blk0]
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    rw [e30]; show (i 0).val / 5000 * 5000 ≤ (i 0).val ∧ (i 0).val < (i 0).val / 5000 * 5000 + 5000; omega
  | ⟨1, _⟩ =>
    show win0_3.index ⟨(i 0).val / 5000, ht⟩ (1 : Fin 2) * 128 ≤ (i 1).val
      ∧ (i 1).val < win0_3.index ⟨(i 0).val / 5000, ht⟩ (1 : Fin 2) * 128 + 128
    rw [e31]; omega

/-- The output array after the region is the encoder of the three arrays the region read: entry (r, n) is
    `Σ_{k < 48} x[r, k] · W[k, n] + b[0, n]`. -/
theorem value0 (V : (c : Dev nD) → (b : Ref sig .tc) → Buf (Elt Ideal) ((c : Thread nD τ).loc b)) (c : Dev nD) :
    (dat0 (F := Ideal) V c).arrAt 3 cfg0.N = encAtoms (V c main_arg1) (V c main_arg5) (V c main_v4) :=
  (dat0 (F := Ideal) V c).arrAt_eq_of_cover 3 _ (fun t _ => flushed0_eq V c t) cover0

end Cert.KernelIdeal.Reg
-- ==== Proof.KI.Val1.lean ====
import proofs.«144276_j65051574665788_2_alg».proof.Proof.KI.Reg1
import proofs.«144276_j65051574665788_2_alg».proof.Proof.KI.LibBlockOps
import Idealize.ShloMosaic.Lib.Pipeline.Value
import Idealize.ShloMosaic.PureOps.Ideal.Laws
import Idealize.ShloMosaic.Lib.ValueIdx

set_option maxRecDepth 16384

noncomputable section

namespace Cert.KernelIdeal.Reg

open Cert.KernelIdeal Cert.KernelIdeal.Gen Cert.LibBlockOps
open Idealize.ShloMosaic Idealize.ShloMosaic.TcCoe Idealize.ShloMosaic.ValueIdx Idealize.SL.Sem
open Idealize.ShloMosaic.Pipeline (Dat)

-- what the TensorCore's buffers hold, as extended reals, when the region is entered
variable (V : (c : Dev nD) → (b : Ref sig .tc) → Buf (Elt Ideal) ((c : Thread nD τ).loc b))

/-! # Region 1 read as one array: `o[r, n] = (Σ_{k < 11} ea[r, k] · W[k, n] + ew[r, 0] · b[0, n]) / dn[r, 0]` for all 50000 rows

The grid's ten points write the ten blocks of 5000 rows of the output array. Point `t` writes block `t`, computed from
block `t` of `ea`, of `ew` and of `dn` and from the whole of `W` and `b`; row `r` lies in the block of point
`r / 5000`. -/

/-- The edge-attribute projection on whole arrays of extended reals: entry (r, n) is
    `(Σ_{k < 11} ea[r, k] · W[k, n] + ew[r, 0] · b[0, n]) / dn[r, 0]`, the quotient the ideal division. -/
def projEdges (ea : S50000x11.Idx → EReal) (W : S11x128.Idx → EReal) (ew : S50000x1.Idx → EReal) (b : S1x128.Idx → EReal)
    (dn : S50000x1.Idx → EReal) : S50000x128.Idx → EReal :=
  fun i => Ideal.div ((∑ k : Fin 11, ea (ix2 (i 0) k) * W (ix2 k (i 1))) + ew (ix2 (i 0) (0 : Fin 1)) * b (ix2 (0 : Fin 1) (i 1)))
    (dn (ix2 (i 0) (0 : Fin 1)))

theorem projEdges_apply (ea : S50000x11.Idx → EReal) (W : S11x128.Idx → EReal) (ew : S50000x1.Idx → EReal)
    (b : S1x128.Idx → EReal) (dn : S50000x1.Idx → EReal) (i : S50000x128.Idx) :
    projEdges ea W ew b dn i
      = Ideal.div ((∑ k : Fin 11, ea (ix2 (i 0) k) * W (ix2 k (i 1))) + ew (ix2 (i 0) (0 : Fin 1)) * b (ix2 (0 : Fin 1) (i 1)))
          (dn (ix2 (i 0) (0 : Fin 1))) := rfl

/-- The payload at row `p`, column `q` of a block. The two narrowings to the short float format are the identity
    on extended reals; the product into the zero block is the sum over the 11 columns; the columns `ew`, `dn` are
    stretched over the 128 columns and the row `b` over the 5000 rows. -/
theorem pay1_apply (ea : Vec Ideal S5000x11 .f32) (W : Vec Ideal S11x128 .f32) (ew : Vec Ideal S5000x1 .f32)
    (b : Vec Ideal S1x128 .f32) (dn : Vec Ideal S5000x1 .f32) (p : Fin 5000) (q : Fin 128) :
    k1_pay1 ea W ew b dn (ix2 p q)
      = Ideal.div ((∑ k : Fin 11, ea (ix2 p k) * W (ix2 k q)) + ew (ix2 p (0 : Fin 1)) * b (ix2 (0 : Fin 1) q))
          (dn (ix2 p (0 : Fin 1))) := by
  unfold k1_pay1
  rw [divf_apply, addf_apply, mulf_apply, matmul_zero_apply dot_S5000x11_S11x128_S5000x128_1_0_0_1_n_n rfl]
  simp only [shapeCast_self]
  rw [broadcast_col_apply _ _ (by decide), broadcast_row_apply _ _ (by decide), broadcast_col_apply _ _ (by decide)]
  rfl

/-- The block indices at every grid point: the row windows `ea`, `ew`, `dn` and the output move together, block `t`
    at point `t`; every other block index is 0. Decided over the ten points. -/
theorem idx_facts1 : ∀ t : Fin cfg1.N, win1_0.index t (0 : Fin 2) = win1_5.index t (0 : Fin 2)
    ∧ win1_0.index t (1 : Fin 2) = 0
    ∧ win1_1.index t (0 : Fin 2) = 0 ∧ win1_1.index t (1 : Fin 2) = 0
    ∧ win1_2.index t (0 : Fin 2) = win1_5.index t (0 : Fin 2) ∧ win1_2.index t (1 : Fin 2) = 0
    ∧ win1_3.index t (0 : Fin 2) = 0 ∧ win1_3.index t (1 : Fin 2) = 0
    ∧ win1_4.index t (0 : Fin 2) = win1_5.index t (0 : Fin 2) ∧ win1_4.index t (1 : Fin 2) = 0
    ∧ win1_5.index t (0 : Fin 2) = t.val ∧ win1_5.index t (1 : Fin 2) = 0 :=
  (by decide +kernel : ∀ t : Fin grid1.N, _)

set_option maxHeartbeats 1000000 in
/-- What point `t` writes back is block `t` of the projection of the five arrays as the region finds them. -/
theorem flushed1_eq (c : Dev nD) (t : Fin cfg1.N) :
    (dat1 (F := Ideal) V c).flushed 5 t
      = ((cfg1.win 5).blk t).view.read (Elt Ideal)
          (projEdges (V c main_v22) (V c main_arg7) (V c main_v16) (V c main_v23) (V c main_v12)) := by
  show (cfg1.win 5).cut (grid1.coords t) ((dat1 V c).after 5 t) = _
  rw [after1_5]
  unfold out1_5
  rw [View.canon_unit_zero offsets_zero2]
  simp only [View.ld_unit_zero (S := S5000x11) offsets_zero2, View.ld_unit_zero (S := S11x128) offsets_zero2,
    View.ld_unit_zero (S := S5000x1) offsets_zero2, View.ld_unit_zero (S := S1x128) offsets_zero2]
  obtain ⟨e00, e01, e10, e11, e20, e21, e30, e31, e40, e41, e50, e51⟩ := idx_facts1 t
  funext j
  obtain ⟨p, q, rfl⟩ : ∃ (p : Fin 5000) (q : Fin 128), j = ix2 p q := ⟨j 0, j 1, eq_ix2 j⟩
  show k1_pay1 (iblk1 V c 0 t) (iblk1 V c 1 t) (iblk1 V c 2 t) (iblk1 V c 3 t) (iblk1 V c 4 t) (ix2 p q)
    = projEdges (V c main_v22) (V c main_arg7) (V c main_v16) (V c main_v23) (V c main_v12)
        (((cfg1.win 5).blk t).view.emb (ix2 p q))
  rw [pay1_apply, projEdges_apply]
  have h0 : ∀ k : Fin 11, ((cfg1.win 0).blk t).view.emb (ix2 p k) = ix2 ((((cfg1.win 5).blk t).view.emb (ix2 p q)) 0) k := by
    intro k; funext a; apply Fin.ext
    match a with
    | ⟨0, _⟩ => show win1_0.index t (0 : Fin 2) * 5000 + 1 * p.val = win1_5.index t (0 : Fin 2) * 5000 + 1 * p.val; omega
    | ⟨1, _⟩ => show win1_0.index t (1 : Fin 2) * 11 + 1 * k.val = k.val; omega
  have h1 : ∀ k : Fin 11, ((cfg1.win 1).blk t).view.emb (ix2 k q) = ix2 k ((((cfg1.win 5).blk t).view.emb (ix2 p q)) 1) := by
    intro k; funext a; apply Fin.ext
    match a with
    | ⟨0, _⟩ => show win1_1.index t (0 : Fin 2) * 11 + 1 * k.val = k.val; omega
    | ⟨1, _⟩ => show win1_1.index t (1 : Fin 2) * 128 + 1 * q.val = win1_5.index t (1 : Fin 2) * 128 + 1 * q.val; omega
  have h2 : ((cfg1.win 2).blk t).view.emb (ix2 p (0 : Fin 1)) = ix2 ((((cfg1.win 5).blk t).view.emb (ix2 p q)) 0) (0 : Fin 1) := by
    funext a; apply Fin.ext
    match a with
    | ⟨0, _⟩ => show win1_2.index t (0 : Fin 2) * 5000 + 1 * p.val = win1_5.index t (0 : Fin 2) * 5000 + 1 * p.val; omega
    | ⟨1, _⟩ => show win1_2.index t (1 : Fin 2) * 1 + 1 * 0 = 0; omega
  have h3 : ((cfg1.win 3).blk t).view.emb (ix2 (0 : Fin 1) q) = ix2 (0 : Fin 1) ((((cfg1.win 5).blk t).view.emb (ix2 p q)) 1) := by
    funext a; apply Fin.ext
    match a with
    | ⟨0, _⟩ => show win1_3.index t (0 : Fin 2) * 1 + 1 * 0 = 0; omega
    | ⟨1, _⟩ => show win1_3.index t (1 : Fin 2) * 128 + 1 * q.val = win1_5.index t (1 : Fin 2) * 128 + 1 * q.val; omega
  have h4 : ((cfg1.win 4).blk t).view.emb (ix2 p (0 : Fin 1)) = ix2 ((((cfg1.win 5).blk t).view.emb (ix2 p q)) 0) (0 : Fin 1) := by
    funext a; apply Fin.ext
    match a with
    | ⟨0, _⟩ => show win1_4.index t (0 : Fin 2) * 5000 + 1 * p.val = win1_5.index t (0 : Fin 2) * 5000 + 1 * p.val; omega
    | ⟨1, _⟩ => show win1_4.index t (1 : Fin 2) * 1 + 1 * 0 = 0; omega
  have hea : ∀ k : Fin 11, iblk1 V c 0 t (ix2 p k) = V c main_v22 (ix2 ((((cfg1.win 5).blk t).view.emb (ix2 p q)) 0) k) :=
    fun k => congrArg (V c main_v22) (h0 k)
  have hW : ∀ k : Fin 11, iblk1 V c 1 t (ix2 k q) = V c main_arg7 (ix2 k ((((cfg1.win 5).blk t).view.emb (ix2 p q)) 1)) :=
    fun k => congrArg (V c main_arg7) (h1 k)
  have hew : iblk1 V c 2 t (ix2 p (0 : Fin 1)) = V c main_v16 (ix2 ((((cfg1.win 5).blk t).view.emb (ix2 p q)) 0) (0 : Fin 1)) :=
    congrArg (V c main_v16) h2
  have hb : iblk1 V c 3 t (ix2 (0 : Fin 1) q) = V c main_v23 (ix2 (0 : Fin 1) ((((cfg1.win 5).blk t).view.emb (ix2 p q)) 1)) :=
    congrArg (V c main_v23) h3
  have hdn : iblk1 V c 4 t (ix2 p (0 : Fin 1)) = V c main_v12 (ix2 ((((cfg1.win 5).blk t).view.emb (ix2 p q)) 0) (0 : Fin 1)) :=
    congrArg (V c main_v12) h4
  rw [hew, hb, hdn]
  exact congrArg (fun s => Ideal.div (s + _) _) (Finset.sum_congr rfl fun k _ => by rw [hea k, hW k])

/-- An index of the output array lies in point `t`'s block when each coordinate lies in the block's range on its axis. -/
theorem mem_blk1 (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v24).slice (win1_5.rect t)).set ↔ _
  rw [View.set_slice_whole, Rect.mem_set_unit]
  exact Iff.rfl

/-- Every index of the output array lies in some point's block: row `r` in the block of point `r / 5000`. -/
theorem cover1 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 10 := N_1
  have ht : (i 0).val / 5000 < cfg1.N := by rw [hN]; omega
  obtain ⟨e00, e01, e10, e11, e20, e21, e30, e31, e40, e41, e50, e51⟩ := idx_facts1 ⟨(i 0).val / 5000, ht⟩
  refine ⟨⟨(i 0).val / 5000, ht⟩, flush1_5 _, ?_⟩
  rw [mem_blk1]
  intro a
  match a with
  | ⟨0, _⟩ =>
    show win1_5.index ⟨(i 0).val / 5000, ht⟩ (0 : Fin 2) * 5000 ≤ (i 0).val
      ∧ (i 0).val < win1_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win1_5.index ⟨(i 0).val / 5000, ht⟩ (1 : Fin 2) * 128 ≤ (i 1).val
      ∧ (i 1).val < win1_5.index ⟨(i 0).val / 5000, ht⟩ (1 : Fin 2) * 128 + 128
    rw [e51]; omega

/-- The output array after the region is the projection of the five arrays the region read: entry (r, n) is
    `(Σ_{k < 11} ea[r, k] · W[k, n] + ew[r, 0] · b[0, n]) / dn[r, 0]`. -/
theorem value1 (V : (c : Dev nD) → (b : Ref sig .tc) → Buf (Elt Ideal) ((c : Thread nD τ).loc b)) (c : Dev nD) :
    (dat1 (F := Ideal) V c).arrAt 5 cfg1.N
      = projEdges (V c main_v22) (V c main_arg7) (V c main_v16) (V c main_v23) (V c main_v12) :=
  (dat1 (F := Ideal) V c).arrAt_eq_of_cover 5 _ (fun t _ => flushed1_eq V c t) cover1

end Cert.KernelIdeal.Reg
-- ==== Proof.KI.Val2.lean ====
import proofs.«144276_j65051574665788_2_alg».proof.Proof.KI.Reg2
import proofs.«144276_j65051574665788_2_alg».proof.Proof.KI.LibBlockOps
import proofs.«144276_j65051574665788_2_alg».proof.Proof.LibOneHotPool
import Idealize.ShloMosaic.Lib.Pipeline.Value
import Idealize.ShloMosaic.PureOps.Ideal.Laws
import Idealize.ShloMosaic.Lib.ValueIdx
import Idealize.ShloMosaic.Lib.Tactic

set_option maxRecDepth 16384

noncomputable section

namespace Cert.KernelIdeal.Reg

open Cert.KernelIdeal Cert.KernelIdeal.Gen Cert.LibBlockOps
open Idealize.ShloMosaic Idealize.ShloMosaic.TcCoe Idealize.ShloMosaic.ValueIdx Idealize.ShloMosaic.Tactic Idealize.SL.Sem
open Idealize.ShloMosaic.Pipeline (Dat)

open Finset

/-! # The layer transform on whole arrays of extended reals -/

/-- Entry (r, n) of the transform: `(Σ_k agg[r, k] · Wl[k, n] + Σ_k h[r, k] · Wr[k, n]) + bl[0, n]`. -/
def ltOut (agg h : S50000x128.Idx → EReal) (Wl Wr : S128x128.Idx → EReal) (bl : S1x128.Idx → EReal) : S50000x128.Idx → EReal :=
  fun i => (∑ k : Fin 128, agg (ix2 (i 0) k) * Wl (ix2 k (i 1)) + ∑ k : Fin 128, h (ix2 (i 0) k) * Wr (ix2 k (i 1))) + bl (ix2 (0 : Fin 1) (i 1))
/-- The column sums of an array of 50000 rows. -/
def ltSum (z : S50000x128.Idx → EReal) : S1x128.Idx → EReal := fun i => ∑ n : Fin 50000, z (ix2 n (i 1))
/-- The column sums of its squares. -/
def ltSumSq (z : S50000x128.Idx → EReal) : S1x128.Idx → EReal := fun i => ∑ n : Fin 50000, z (ix2 n (i 1)) * z (ix2 n (i 1))

theorem ltOut_ix2 (agg h : S50000x128.Idx → EReal) (Wl Wr : S128x128.Idx → EReal) (bl : S1x128.Idx → EReal) (r : Fin 50000) (q : Fin 128) :
    ltOut agg h Wl Wr bl (ix2 r q)
      = (∑ k : Fin 128, agg (ix2 r k) * Wl (ix2 k q) + ∑ k : Fin 128, h (ix2 r k) * Wr (ix2 k q)) + bl (ix2 (0 : Fin 1) q) := rfl

/-- Row `p` of tile `t` of ten tiles of 5000 rows. -/
def tileRow (t : Fin 10) (p : Fin 5000) : Fin 50000 := ⟨p.val + 5000 * t.val, by have := t.isLt; have := p.isLt; omega⟩

/-- A sum over the 50000 rows, tile by tile. -/
theorem sum_rows (f : Fin 50000 → EReal) : ∑ n : Fin 50000, f n = ∑ t : Fin 10, ∑ p : Fin 5000, f (tileRow t p) :=
  Cert.Lib.sum_tiles 10 5000 f

/-- The sum of `g` over the rows of tile `t` (zero past the tenth tile). -/
def tileSum (g : Fin 50000 → EReal) (t : ℕ) : EReal := if h : t < 10 then ∑ p : Fin 5000, g (tileRow ⟨t, h⟩ p) else 0

theorem tileSum_of_lt (g : Fin 50000 → EReal) (t : ℕ) (h : t < 10) : tileSum g t = ∑ p : Fin 5000, g (tileRow ⟨t, h⟩ p) := dif_pos h

/-- The ten tiles' sums add up to the sum over all rows. -/
theorem sum_range_tiles (g : Fin 50000 → EReal) : ∑ t ∈ Finset.range 10, tileSum g t = ∑ n : Fin 50000, g n := by
  rw [Finset.sum_range, sum_rows]
  exact Finset.sum_congr rfl fun t _ => tileSum_of_lt g t.val t.isLt

/-- A column sum of a block of 5000 rows, read at column `q`. -/
theorem colsum_apply (src : FVec Ideal S5000x128 .f32) (hφ : FKind.Formats FTy.f32) (hacc : (0x00000000#32 : BitVec 32) = 0x00000000#32) (q : Fin 128) :
    multiReduction (F := Ideal) .add [0] S128 src 0x00000000#32 reduces_S5000x128_S128 hφ hacc (ix1 q) = ∑ p : Fin 5000, src (ix2 p q) := by
  refine (Ideal.multiReduction_add_single src 0x00000000#32 reduces_S5000x128_S128 hφ hacc (ix1 q)).trans ?_
  exact Finset.sum_congr rfl fun p _ => congrArg src (funext fun a => Fin.ext (by
    match a with
    | ⟨0, _⟩ => rfl
    | ⟨1, _⟩ => rfl))

/-- A [128] vector recast as a [1, 128] row, read at column `q`. -/
theorem rowcast_apply {α : Type} (v : S128.Idx → α) (q : Fin 128) :
    shapeCast S1x128 v shapeCasts_S128_S1x128 (ix2 (0 : Fin 1) q) = v (ix1 q) := by
  refine (shapeCast_addUnit_apply ![128] v shapeCasts_S128_S1x128 (ix2 (0 : Fin 1) q)).trans ?_
  exact congrArg v (funext fun a => by
    match a with
    | ⟨0, _⟩ => rfl)

theorem triple_ext {α β γ : Type} {a a' : α} {b b' : β} {c c' : γ} (ha : a = a') (hb : b = b') (hc : c = c') :
    (a, b, c) = (a', b', c') := by subst ha hb hc; rfl

/-! # Region 2: what the found pieces are, at any float instance -/

section Pieces
variable {F : FTy → Type} [FloatOps F]

theorem pieceA2_5 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : cond2_0 i)
    (x0 x1 : Vec F S5000x128 .f32) (x2 x3 : Vec F S128x128 .f32) (x4 : Vec F S1x128 .f32) :
    VO2_5.read (Elt F) (VO2_5.writes (Elt F) VO2_5.junk (kernelRun2_A c i arg1 harg1 arg2 harg2 arg3 harg3 arg4 harg4 arg5 harg5 arg6 harg6 arg7 harg7 arg8 harg8 hc0 x0 x1 x2 x3 x4).1) = k2_pay4 x0 x1 x2 x3 x4 := by
  rw [View.read_writes_junk_eq_canon]
  unfold kernelRun2_A
  dsimp only
  sl_unfold_words
  rw [View.canon_unit_zero offsets_zero2]
  simp only [View.readAt_eq_ld, harg1.read_unread, harg2.read_unread, harg3.read_unread, harg4.read_unread, harg5.read_unread,
    View.ld_unit_zero (S := S5000x128) offsets_zero2, View.ld_unit_zero (S := S128x128) offsets_zero2,
    View.ld_unit_zero (S := S1x128) offsets_zero2]

theorem pieceA2_6 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : cond2_0 i)
    (x0 x1 : Vec F S5000x128 .f32) (x2 x3 : Vec F S128x128 .f32) (x4 : Vec F S1x128 .f32) :
    VO2_6.read (Elt F) (VO2_6.writes (Elt F) VO2_6.junk (kernelRun2_A c i arg1 harg1 arg2 harg2 arg3 harg3 arg4 harg4 arg5 harg5 arg6 harg6 arg7 harg7 arg8 harg8 hc0 x0 x1 x2 x3 x4).2.1) = k2_pay5 x0 x1 x2 x3 x4 (k2_pay2 (F := F)) := by
  rw [View.read_writes_junk_eq_canon]
  unfold kernelRun2_A
  dsimp only
  sl_unfold_words
  rw [View.canon_cons_unit_zero (S := S1x128) offsets_zero2, View.readCov_unit_zero (S := S1x128) _ offsets_zero2]
  simp only [View.readAt_eq_ld, harg1.read_unread, harg2.read_unread, harg3.read_unread, harg4.read_unread, harg5.read_unread,
    View.ld_unit_zero (S := S5000x128) offsets_zero2, View.ld_unit_zero (S := S128x128) offsets_zero2,
    View.ld_unit_zero (S := S1x128) offsets_zero2]

theorem pieceA2_7 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : cond2_0 i)
    (x0 x1 : Vec F S5000x128 .f32) (x2 x3 : Vec F S128x128 .f32) (x4 : Vec F S1x128 .f32) :
    VO2_7.read (Elt F) (VO2_7.writes (Elt F) VO2_7.junk (kernelRun2_A c i arg1 harg1 arg2 harg2 arg3 harg3 arg4 harg4 arg5 harg5 arg6 harg6 arg7 harg7 arg8 harg8 hc0 x0 x1 x2 x3 x4).2.2.1) = k2_pay1 (k2_pay6 (k2_pay3 (F := F))) (k2_pay7 x0 x1 x2 x3 x4) := by
  rw [View.read_writes_junk_eq_canon]
  unfold kernelRun2_A
  dsimp only
  sl_unfold_words
  rw [View.canon_cons_unit_zero (S := S1x128) offsets_zero2, View.readCov_unit_zero (S := S1x128) _ offsets_zero2]
  simp only [View.readAt_eq_ld, harg1.read_unread, harg2.read_unread, harg3.read_unread, harg4.read_unread, harg5.read_unread,
    View.ld_unit_zero (S := S5000x128) offsets_zero2, View.ld_unit_zero (S := S128x128) offsets_zero2,
    View.ld_unit_zero (S := S1x128) offsets_zero2]

theorem pieceB2_5 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i)
    (x0 x1 : Vec F S5000x128 .f32) (x2 x3 : Vec F S128x128 .f32) (x4 : Vec F S1x128 .f32) (xo6 xo7 : Vec F S1x128 .f32) :
    VO2_5.read (Elt F) (VO2_5.writes (Elt F) VO2_5.junk (kernelRun2_B c i arg1 harg1 arg2 harg2 arg3 harg3 arg4 harg4 arg5 harg5 arg6 harg6 arg7 harg7 arg8 harg8 hc0 x0 x1 x2 x3 x4 xo6 xo7).1) = k2_pay4 x0 x1 x2 x3 x4 := by
  rw [View.read_writes_junk_eq_canon]
  unfold kernelRun2_B
  dsimp only
  sl_unfold_words
  rw [View.canon_unit_zero offsets_zero2]
  simp only [View.readAt_eq_ld, harg1.read_unread, harg2.read_unread, harg3.read_unread, harg4.read_unread, harg5.read_unread, harg7.read_unread, harg8.read_unread,
    View.ld_unit_zero (S := S5000x128) offsets_zero2, View.ld_unit_zero (S := S128x128) offsets_zero2,
    View.ld_unit_zero (S := S1x128) offsets_zero2]

theorem pieceB2_6 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i)
    (x0 x1 : Vec F S5000x128 .f32) (x2 x3 : Vec F S128x128 .f32) (x4 : Vec F S1x128 .f32) (xo6 xo7 : Vec F S1x128 .f32) :
    VO2_6.read (Elt F) (VO2_6.writes (Elt F) VO2_6.junk (kernelRun2_B c i arg1 harg1 arg2 harg2 arg3 harg3 arg4 harg4 arg5 harg5 arg6 harg6 arg7 harg7 arg8 harg8 hc0 x0 x1 x2 x3 x4 xo6 xo7).2.1) = k2_pay5 x0 x1 x2 x3 x4 xo6 := by
  rw [View.read_writes_junk_eq_canon]
  unfold kernelRun2_B
  dsimp only
  sl_unfold_words
  rw [View.canon_unit_zero offsets_zero2]
  simp only [View.readAt_eq_ld, harg1.read_unread, harg2.read_unread, harg3.read_unread, harg4.read_unread, harg5.read_unread, harg7.read_unread, harg8.read_unread,
    View.ld_unit_zero (S := S5000x128) offsets_zero2, View.ld_unit_zero (S := S128x128) offsets_zero2,
    View.ld_unit_zero (S := S1x128) offsets_zero2]

theorem pieceB2_7 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : ¬cond2_0 i)
    (x0 x1 : Vec F S5000x128 .f32) (x2 x3 : Vec F S128x128 .f32) (x4 : Vec F S1x128 .f32) (xo6 xo7 : Vec F S1x128 .f32) :
    VO2_7.read (Elt F) (VO2_7.writes (Elt F) VO2_7.junk (kernelRun2_B c i arg1 harg1 arg2 harg2 arg3 harg3 arg4 harg4 arg5 harg5 arg6 harg6 arg7 harg7 arg8 harg8 hc0 x0 x1 x2 x3 x4 xo6 xo7).2.2.1) = k2_pay1 (k2_pay6 xo7) (k2_pay7 x0 x1 x2 x3 x4) := by
  rw [View.read_writes_junk_eq_canon]
  unfold kernelRun2_B
  dsimp only
  sl_unfold_words
  rw [View.canon_unit_zero offsets_zero2]
  simp only [View.readAt_eq_ld, harg1.read_unread, harg2.read_unread, harg3.read_unread, harg4.read_unread, harg5.read_unread, harg7.read_unread, harg8.read_unread,
    View.ld_unit_zero (S := S5000x128) offsets_zero2, View.ld_unit_zero (S := S128x128) offsets_zero2,
    View.ld_unit_zero (S := S1x128) offsets_zero2]

variable (V : (c : Dev nD) → (b : Ref sig .tc) → Buf (Elt F) ((c : Thread nD τ).loc b))

/-- The two running accumulators after position `n`: started from the zero rows at the first point, then each point's
    contribution added to what the point before left. -/
def acc2 (c : Dev nD) : (n : ℕ) → n < cfg2.N → Vec F S1x128 .f32 × Vec F S1x128 .f32
  | 0, h => (k2_pay5 (iblk2 V c 0 ⟨0, h⟩) (iblk2 V c 1 ⟨0, h⟩) (iblk2 V c 2 ⟨0, h⟩) (iblk2 V c 3 ⟨0, h⟩) (iblk2 V c 4 ⟨0, h⟩) (k2_pay2 (F := F)),
      k2_pay1 (k2_pay6 (k2_pay3 (F := F))) (k2_pay7 (iblk2 V c 0 ⟨0, h⟩) (iblk2 V c 1 ⟨0, h⟩) (iblk2 V c 2 ⟨0, h⟩) (iblk2 V c 3 ⟨0, h⟩) (iblk2 V c 4 ⟨0, h⟩)))
  | n + 1, h => (k2_pay5 (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (acc2 c n (Nat.lt_of_succ_lt h)).1,
      k2_pay1 (k2_pay6 (acc2 c n (Nat.lt_of_succ_lt h)).2) (k2_pay7 (iblk2 V c 0 ⟨n + 1, h⟩) (iblk2 V c 1 ⟨n + 1, h⟩) (iblk2 V c 2 ⟨n + 1, h⟩) (iblk2 V c 3 ⟨n + 1, h⟩) (iblk2 V c 4 ⟨n + 1, h⟩)))

/-- What the three outputs' staging buffers hold after position `n`: the point's block of the transform and the two
    running accumulators. By induction on the point. -/
theorem outsAt2_eq (c : Dev nD) : ∀ (n : ℕ) (h : n < cfg2.N),
    outsAt2 V c n h = (k2_pay4 (iblk2 V c 0 ⟨n, h⟩) (iblk2 V c 1 ⟨n, h⟩) (iblk2 V c 2 ⟨n, h⟩) (iblk2 V c 3 ⟨n, h⟩) (iblk2 V c 4 ⟨n, h⟩), (acc2 V c n h).1, (acc2 V c n h).2)
  | 0, h => by
    refine (outsAt2_A V c ⟨0, h⟩ (Nat.zero_mod _)).trans ?_
    unfold outsA2
    exact triple_ext (pieceA2_5 c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩) (ms2_4 ⟨0, h⟩) (hs2_4 ⟨0, h⟩) (ms2_5 ⟨0, h⟩) (hs2_5 ⟨0, h⟩) (ms2_6 ⟨0, h⟩) (hs2_6 ⟨0, h⟩) (ms2_7 ⟨0, h⟩) (hs2_7 ⟨0, h⟩) ((hcond2_0 ⟨0, h⟩).mpr (Nat.zero_mod _)) (iblk2 V c 0 ⟨0, h⟩) (iblk2 V c 1 ⟨0, h⟩) (iblk2 V c 2 ⟨0, h⟩) (iblk2 V c 3 ⟨0, h⟩) (iblk2 V c 4 ⟨0, h⟩))
      (pieceA2_6 c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩) (ms2_4 ⟨0, h⟩) (hs2_4 ⟨0, h⟩) (ms2_5 ⟨0, h⟩) (hs2_5 ⟨0, h⟩) (ms2_6 ⟨0, h⟩) (hs2_6 ⟨0, h⟩) (ms2_7 ⟨0, h⟩) (hs2_7 ⟨0, h⟩) ((hcond2_0 ⟨0, h⟩).mpr (Nat.zero_mod _)) (iblk2 V c 0 ⟨0, h⟩) (iblk2 V c 1 ⟨0, h⟩) (iblk2 V c 2 ⟨0, h⟩) (iblk2 V c 3 ⟨0, h⟩) (iblk2 V c 4 ⟨0, h⟩))
      (pieceA2_7 c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩) (ms2_4 ⟨0, h⟩) (hs2_4 ⟨0, h⟩) (ms2_5 ⟨0, h⟩) (hs2_5 ⟨0, h⟩) (ms2_6 ⟨0, h⟩) (hs2_6 ⟨0, h⟩) (ms2_7 ⟨0, h⟩) (hs2_7 ⟨0, h⟩) ((hcond2_0 ⟨0, h⟩).mpr (Nat.zero_mod _)) (iblk2 V c 0 ⟨0, h⟩) (iblk2 V c 1 ⟨0, h⟩) (iblk2 V c 2 ⟨0, h⟩) (iblk2 V c 3 ⟨0, h⟩) (iblk2 V c 4 ⟨0, h⟩))
  | n + 1, h => by
    have hN : cfg2.N = 10 := N_2
    have hB : ¬(⟨n + 1, h⟩ : Fin cfg2.N).val % 10 = 0 := by dsimp only; omega
    refine (outsAt2_B V c ⟨n + 1, h⟩ hB).trans ?_
    show outsB2 V c ⟨n + 1, h⟩ hB (outsAt2 V c n _).2.1 (outsAt2 V c n _).2.2 = _
    rw [outsAt2_eq c n]
    unfold outsB2
    exact triple_ext (pieceB2_5 c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) (ms2_5 ⟨n + 1, h⟩) (hs2_5 ⟨n + 1, h⟩) (ms2_6 ⟨n + 1, h⟩) (hs2_6 ⟨n + 1, h⟩) (ms2_7 ⟨n + 1, h⟩) (hs2_7 ⟨n + 1, h⟩) (fun hc => hB ((hcond2_0 ⟨n + 1, h⟩).mp hc)) (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) _ _)
      (pieceB2_6 c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) (ms2_5 ⟨n + 1, h⟩) (hs2_5 ⟨n + 1, h⟩) (ms2_6 ⟨n + 1, h⟩) (hs2_6 ⟨n + 1, h⟩) (ms2_7 ⟨n + 1, h⟩) (hs2_7 ⟨n + 1, h⟩) (fun hc => hB ((hcond2_0 ⟨n + 1, h⟩).mp hc)) (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) _ _)
      (pieceB2_7 c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) (ms2_5 ⟨n + 1, h⟩) (hs2_5 ⟨n + 1, h⟩) (ms2_6 ⟨n + 1, h⟩) (hs2_6 ⟨n + 1, h⟩) (ms2_7 ⟨n + 1, h⟩) (hs2_7 ⟨n + 1, h⟩) (fun hc => hB ((hcond2_0 ⟨n + 1, h⟩).mp hc)) (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) _ _)

end Pieces

/-! # Region 2: the payloads at an entry, over the extended reals -/

/-- The transform's block at row `p`, column `q`. The narrowings to the short float format are the identity on
    extended reals; each product into the zero block is the sum over the 128 columns; the bias row is stretched over
    the rows. -/
theorem pay2_4_apply (x0 x1 : Vec Ideal S5000x128 .f32) (x2 x3 : Vec Ideal S128x128 .f32) (x4 : Vec Ideal S1x128 .f32) (p : Fin 5000) (q : Fin 128) :
    k2_pay4 x0 x1 x2 x3 x4 (ix2 p q)
      = (∑ k : Fin 128, x0 (ix2 p k) * x2 (ix2 k q) + ∑ k : Fin 128, x1 (ix2 p k) * x3 (ix2 k q)) + x4 (ix2 (0 : Fin 1) q) := by
  unfold k2_pay4
  rw [addf_apply, addf_apply, matmul_zero_apply dot_S5000x128_S128x128_S5000x128_1_0_0_1_n_n rfl,
    matmul_zero_apply dot_S5000x128_S128x128_S5000x128_1_0_0_1_n_n rfl, broadcast_row_apply _ _ (by decide)]
  simp only [shapeCast_self]
  rfl

/-- The sum accumulator's update: what it held plus the block's column sum. -/
theorem pay2_5_apply (x0 x1 : Vec Ideal S5000x128 .f32) (x2 x3 : Vec Ideal S128x128 .f32) (x4 : Vec Ideal S1x128 .f32) (v : Vec Ideal S1x128 .f32) (q : Fin 128) :
    k2_pay5 x0 x1 x2 x3 x4 v (ix2 (0 : Fin 1) q) = v (ix2 (0 : Fin 1) q) + ∑ p : Fin 5000, k2_pay4 x0 x1 x2 x3 x4 (ix2 p q) := by
  unfold k2_pay5
  rw [addf_apply, shapeCast_self]
  exact congrArg (v (ix2 (0 : Fin 1) q) + ·) ((rowcast_apply _ q).trans (colsum_apply _ _ _ q))

/-- The sum-of-squares accumulator's update: what it held plus the column sum of the block's squares. -/
theorem pay2_1_apply (x0 x1 : Vec Ideal S5000x128 .f32) (x2 x3 : Vec Ideal S128x128 .f32) (x4 : Vec Ideal S1x128 .f32) (v : Vec Ideal S1x128 .f32) (q : Fin 128) :
    k2_pay1 (k2_pay6 v) (k2_pay7 x0 x1 x2 x3 x4) (ix2 (0 : Fin 1) q)
      = v (ix2 (0 : Fin 1) q) + ∑ p : Fin 5000, k2_pay4 x0 x1 x2 x3 x4 (ix2 p q) * k2_pay4 x0 x1 x2 x3 x4 (ix2 p q) := by
  unfold k2_pay1 k2_pay6 k2_pay7
  rw [addf_apply, shapeCast_self]
  exact congrArg (v (ix2 (0 : Fin 1) q) + ·) ((rowcast_apply _ q).trans (colsum_apply _ _ _ q))

/-- The zero rows the first point stores. -/
theorem pay2_2_apply (j : S1x128.Idx) : k2_pay2 (F := Ideal) j = 0 := by
  unfold k2_pay2
  rw [broadcast_apply]
  exact Ideal.ofBits_zero_f32
theorem pay2_3_apply (j : S1x128.Idx) : k2_pay3 (F := Ideal) j = 0 := by
  unfold k2_pay3
  rw [broadcast_apply]
  exact Ideal.ofBits_zero_f32

/-! # Region 2: from blocks to arrays -/

section Arrays
-- what the TensorCore's buffers hold, as extended reals, when the region is entered
variable (V : (c : Dev nD) → (b : Ref sig .tc) → Buf (Elt Ideal) ((c : Thread nD τ).loc b))

/-- The block indices at every grid point: the two row-blocked inputs and the first output are at block `t` at point
    `t`; every other block index is 0. Decided over the ten points. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0 :=
  (by decide +kernel : ∀ t : Fin grid2.N, _)

/-- Point `t` as one of the ten tiles. -/
def tileOf2 (t : Fin cfg2.N) : Fin 10 := ⟨t.val, lt_of_lt_of_eq t.isLt N_2⟩

set_option maxHeartbeats 1000000 in
/-- Point `t`'s block of the transform, at row `p` and column `q`, is the whole-array transform of the arrays the
    region finds at row `p` of tile `t`. -/
theorem blk2_eq (c : Dev nD) (t : Fin cfg2.N) (p : Fin 5000) (q : Fin 128) :
    k2_pay4 (iblk2 V c 0 t) (iblk2 V c 1 t) (iblk2 V c 2 t) (iblk2 V c 3 t) (iblk2 V c 4 t) (ix2 p q) = (ltOut (V c main_v41) (V c main_v5) (V c main_v43) (V c main_v45) (V c main_v48)) (ix2 (tileRow (tileOf2 t) p) q) := by
  obtain ⟨e00, e01, e10, e11, e20, e21, e30, e31, e40, e41, e50, e51, e60, e61, e70, e71⟩ := idx_facts2 t
  rw [pay2_4_apply, ltOut_ix2]
  have h0 : ∀ k : Fin 128, ((cfg2.win 0).blk t).view.emb (ix2 p k) = ix2 (tileRow (tileOf2 t) p) k := by
    intro k; funext a; apply Fin.ext
    match a with
    | ⟨0, _⟩ => show win2_0.index t (0 : Fin 2) * 5000 + 1 * p.val = p.val + 5000 * t.val; omega
    | ⟨1, _⟩ => show win2_0.index t (1 : Fin 2) * 128 + 1 * k.val = k.val; omega
  have h1 : ∀ k : Fin 128, ((cfg2.win 1).blk t).view.emb (ix2 p k) = ix2 (tileRow (tileOf2 t) p) k := by
    intro k; funext a; apply Fin.ext
    match a with
    | ⟨0, _⟩ => show win2_1.index t (0 : Fin 2) * 5000 + 1 * p.val = p.val + 5000 * t.val; omega
    | ⟨1, _⟩ => show win2_1.index t (1 : Fin 2) * 128 + 1 * k.val = k.val; omega
  have h2 : ∀ k : Fin 128, ((cfg2.win 2).blk t).view.emb (ix2 k q) = ix2 k q := by
    intro k; funext a; apply Fin.ext
    match a with
    | ⟨0, _⟩ => show win2_2.index t (0 : Fin 2) * 128 + 1 * k.val = k.val; omega
    | ⟨1, _⟩ => show win2_2.index t (1 : Fin 2) * 128 + 1 * q.val = q.val; omega
  have h3 : ∀ k : Fin 128, ((cfg2.win 3).blk t).view.emb (ix2 k q) = ix2 k q := by
    intro k; funext a; apply Fin.ext
    match a with
    | ⟨0, _⟩ => show win2_3.index t (0 : Fin 2) * 128 + 1 * k.val = k.val; omega
    | ⟨1, _⟩ => show win2_3.index t (1 : Fin 2) * 128 + 1 * q.val = q.val; omega
  have h4 : ((cfg2.win 4).blk t).view.emb (ix2 (0 : Fin 1) q) = ix2 (0 : Fin 1) q := by
    funext a; apply Fin.ext
    match a with
    | ⟨0, _⟩ => show win2_4.index t (0 : Fin 2) * 1 + 1 * 0 = 0; omega
    | ⟨1, _⟩ => show win2_4.index t (1 : Fin 2) * 128 + 1 * q.val = q.val; omega
  have hx0 : ∀ k : Fin 128, iblk2 V c 0 t (ix2 p k) = V c main_v41 (ix2 (tileRow (tileOf2 t) p) k) :=
    fun k => congrArg (V c main_v41) (h0 k)
  have hx1 : ∀ k : Fin 128, iblk2 V c 1 t (ix2 p k) = V c main_v5 (ix2 (tileRow (tileOf2 t) p) k) :=
    fun k => congrArg (V c main_v5) (h1 k)
  have hx2 : ∀ k : Fin 128, iblk2 V c 2 t (ix2 k q) = V c main_v43 (ix2 k q) :=
    fun k => congrArg (V c main_v43) (h2 k)
  have hx3 : ∀ k : Fin 128, iblk2 V c 3 t (ix2 k q) = V c main_v45 (ix2 k q) :=
    fun k => congrArg (V c main_v45) (h3 k)
  have hx4 : iblk2 V c 4 t (ix2 (0 : Fin 1) q) = V c main_v48 (ix2 (0 : Fin 1) q) :=
    congrArg (V c main_v48) h4
  rw [hx4]
  exact congrArg (· + _) (congrArg₂ (· + ·) (Finset.sum_congr rfl fun k _ => by rw [hx0 k, hx2 k])
    (Finset.sum_congr rfl fun k _ => by rw [hx1 k, hx3 k]))

/-- The sum accumulator after position `n`, at column `q`: the column sums of the transform over the first `n + 1` tiles. -/
theorem acc2_sum (c : Dev nD) (q : Fin 128) : ∀ (n : ℕ) (h : n < cfg2.N),
    (acc2 V c n h).1 (ix2 (0 : Fin 1) q) = ∑ t ∈ Finset.range (n + 1), tileSum (fun r => (ltOut (V c main_v41) (V c main_v5) (V c main_v43) (V c main_v45) (V c main_v48)) (ix2 r q)) t
  | 0, h => by
    have hN : cfg2.N = 10 := N_2
    show k2_pay5 (iblk2 V c 0 ⟨0, h⟩) (iblk2 V c 1 ⟨0, h⟩) (iblk2 V c 2 ⟨0, h⟩) (iblk2 V c 3 ⟨0, h⟩) (iblk2 V c 4 ⟨0, h⟩) (k2_pay2 (F := Ideal)) (ix2 (0 : Fin 1) q) = _
    rw [pay2_5_apply, pay2_2_apply, zero_add, Finset.sum_range_one, tileSum_of_lt _ 0 (by omega)]
    exact Finset.sum_congr rfl fun p _ => blk2_eq V c ⟨0, h⟩ p q
  | n + 1, h => by
    have hN : cfg2.N = 10 := N_2
    show k2_pay5 (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (acc2 V c n _).1 (ix2 (0 : Fin 1) q) = _
    rw [pay2_5_apply, acc2_sum c q n, Finset.sum_range_succ _ (n + 1), tileSum_of_lt _ (n + 1) (by omega)]
    exact congrArg (_ + ·) (Finset.sum_congr rfl fun p _ => blk2_eq V c ⟨n + 1, h⟩ p q)

/-- The sum-of-squares accumulator after position `n`, at column `q`. -/
theorem acc2_sumsq (c : Dev nD) (q : Fin 128) : ∀ (n : ℕ) (h : n < cfg2.N),
    (acc2 V c n h).2 (ix2 (0 : Fin 1) q)
      = ∑ t ∈ Finset.range (n + 1), tileSum (fun r => (ltOut (V c main_v41) (V c main_v5) (V c main_v43) (V c main_v45) (V c main_v48)) (ix2 r q) * (ltOut (V c main_v41) (V c main_v5) (V c main_v43) (V c main_v45) (V c main_v48)) (ix2 r q)) t
  | 0, h => by
    have hN : cfg2.N = 10 := N_2
    show k2_pay1 (k2_pay6 (k2_pay3 (F := Ideal))) (k2_pay7 (iblk2 V c 0 ⟨0, h⟩) (iblk2 V c 1 ⟨0, h⟩) (iblk2 V c 2 ⟨0, h⟩) (iblk2 V c 3 ⟨0, h⟩) (iblk2 V c 4 ⟨0, h⟩)) (ix2 (0 : Fin 1) q) = _
    rw [pay2_1_apply, pay2_3_apply, zero_add, Finset.sum_range_one, tileSum_of_lt _ 0 (by omega)]
    exact Finset.sum_congr rfl fun p _ => by rw [blk2_eq V c ⟨0, h⟩ p q]; rfl
  | n + 1, h => by
    have hN : cfg2.N = 10 := N_2
    show k2_pay1 (k2_pay6 (acc2 V c n _).2) (k2_pay7 (iblk2 V c 0 ⟨n + 1, h⟩) (iblk2 V c 1 ⟨n + 1, h⟩) (iblk2 V c 2 ⟨n + 1, h⟩) (iblk2 V c 3 ⟨n + 1, h⟩) (iblk2 V c 4 ⟨n + 1, h⟩)) (ix2 (0 : Fin 1) q) = _
    rw [pay2_1_apply, acc2_sumsq c q n, Finset.sum_range_succ _ (n + 1), tileSum_of_lt _ (n + 1) (by omega)]
    exact congrArg (_ + ·) (Finset.sum_congr rfl fun p _ => by rw [blk2_eq V c ⟨n + 1, h⟩ p q]; rfl)

set_option maxHeartbeats 1000000 in
/-- What point `t` writes back of the first output is block `t` of the whole-array transform. -/
theorem flushed2_5_eq (c : Dev nD) (t : Fin cfg2.N) :
    (dat2 (F := Ideal) V c).flushed 5 t = ((cfg2.win 5).blk t).view.read (Elt Ideal) (ltOut (V c main_v41) (V c main_v5) (V c main_v43) (V c main_v45) (V c main_v48)) := by
  show (cfg2.win 5).cut (grid2.coords t) ((dat2 V c).after 5 t) = _
  rw [after2_5, outsAt2_eq]
  obtain ⟨e00, e01, e10, e11, e20, e21, e30, e31, e40, e41, e50, e51, e60, e61, e70, e71⟩ := idx_facts2 t
  funext j
  obtain ⟨p, q, rfl⟩ : ∃ (p : Fin 5000) (q : Fin 128), j = ix2 p q := ⟨j 0, j 1, eq_ix2 j⟩
  show k2_pay4 (iblk2 V c 0 t) (iblk2 V c 1 t) (iblk2 V c 2 t) (iblk2 V c 3 t) (iblk2 V c 4 t) (ix2 p q) = (ltOut (V c main_v41) (V c main_v5) (V c main_v43) (V c main_v45) (V c main_v48)) (((cfg2.win 5).blk t).view.emb (ix2 p q))
  rw [blk2_eq V c t p q]
  refine congrArg (ltOut (V c main_v41) (V c main_v5) (V c main_v43) (V c main_v45) (V c main_v48)) (funext fun a => Fin.ext ?_)
  match a with
  | ⟨0, _⟩ => show p.val + 5000 * t.val = win2_5.index t (0 : Fin 2) * 5000 + 1 * p.val; omega
  | ⟨1, _⟩ => show q.val = win2_5.index t (1 : Fin 2) * 128 + 1 * q.val; omega

/-- An index of the first output array lies in point `t`'s block when each coordinate lies in the block's range. -/
theorem mem_blk2_5 (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v49_0).slice (win2_5.rect t)).set ↔ _
  rw [View.set_slice_whole, Rect.mem_set_unit]
  exact Iff.rfl

/-- Every index of the first output array lies in some point's block: row `r` in the block of point `r / 5000`. -/
theorem cover2_5 (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  have hN : cfg2.N = 10 := N_2
  have ht : (i 0).val / 5000 < cfg2.N := by rw [hN]; omega
  obtain ⟨e00, e01, e10, e11, e20, e21, e30, e31, e40, e41, e50, e51, e60, e61, e70, e71⟩ := idx_facts2 ⟨(i 0).val / 5000, ht⟩
  refine ⟨⟨(i 0).val / 5000, ht⟩, flush2_5 _, ?_⟩
  rw [mem_blk2_5]
  intro a
  match a with
  | ⟨0, _⟩ =>
    show win2_5.index ⟨(i 0).val / 5000, ht⟩ (0 : Fin 2) * 5000 ≤ (i 0).val
      ∧ (i 0).val < win2_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win2_5.index ⟨(i 0).val / 5000, ht⟩ (1 : Fin 2) * 128 ≤ (i 1).val
      ∧ (i 1).val < win2_5.index ⟨(i 0).val / 5000, ht⟩ (1 : Fin 2) * 128 + 128
    rw [e51]; omega

/-- The first output array after the region is the transform of the five arrays the region read. -/
theorem value2_o (V : (c : Dev nD) → (b : Ref sig .tc) → Buf (Elt Ideal) ((c : Thread nD τ).loc b)) (c : Dev nD) :
    (dat2 (F := Ideal) V c).arrAt 5 cfg2.N = ltOut (V c main_v41) (V c main_v5) (V c main_v43) (V c main_v45) (V c main_v48) :=
  (dat2 (F := Ideal) V c).arrAt_eq_of_cover 5 _ (fun t _ => flushed2_5_eq V c t) cover2_5

set_option maxHeartbeats 1000000 in
/-- The one write-back of output 6, at the last point, writes the column sums of the whole-array transform. -/
theorem flushed2_6_eq (c : Dev nD) (t : Fin cfg2.N) (hf : (cfg2.win 6).flush t = true) :
    (dat2 (F := Ideal) V c).flushed 6 t = ((cfg2.win 6).blk t).view.read (Elt Ideal) (ltSum (ltOut (V c main_v41) (V c main_v5) (V c main_v43) (V c main_v45) (V c main_v48))) := by
  have hN : cfg2.N = 10 := N_2
  have h9 : t.val = 9 := by have := (flush2_6 t).mp hf; have := t.isLt; omega
  obtain ⟨e00, e01, e10, e11, e20, e21, e30, e31, e40, e41, e50, e51, e60, e61, e70, e71⟩ := idx_facts2 t
  have hacc : (acc2 V c t.val t.isLt).1 = ltSum (ltOut (V c main_v41) (V c main_v5) (V c main_v43) (V c main_v45) (V c main_v48)) := by
    funext j
    obtain ⟨p, q, rfl⟩ : ∃ (p : Fin 1) (q : Fin 128), j = ix2 p q := ⟨j 0, j 1, eq_ix2 j⟩
    obtain rfl : p = 0 := Subsingleton.elim _ _
    rw [acc2_sum V c q t.val t.isLt, h9]
    exact sum_range_tiles (fun r => (ltOut (V c main_v41) (V c main_v5) (V c main_v43) (V c main_v45) (V c main_v48)) (ix2 r q))
  show (cfg2.win 6).cut (grid2.coords t) ((dat2 V c).after 6 t) = _
  rw [after2_6, outsAt2_eq]
  (try dsimp only)
  rw [hacc]
  have hz' : (fun a => win2_6.index t a * main_v49_1.ty.shape.size a) = fun _ => 0 := funext fun a => by
    match a with
    | ⟨0, _⟩ => show win2_6.index t (0 : Fin 2) * 1 = 0; omega
    | ⟨1, _⟩ => show win2_6.index t (1 : Fin 2) * 128 = 0; omega
  exact (Memref.read_access_unit_zero (Elt Ideal) main_v49_1 hz' (fun a => by rw [congrFun hz' a]; simp) (ltSum (ltOut (V c main_v41) (V c main_v5) (V c main_v43) (V c main_v45) (V c main_v48)))).symm

/-- An index of output 6's array lies in point `t`'s block when each coordinate lies in the block's range. -/
theorem mem_blk2_6 (t : Fin cfg2.N) (i : S1x128.Idx) :
    i ∈ ((cfg2.win 6).blk t).view.set ↔ ∀ a : Fin 2, win2_6.index t a * S1x128.size a ≤ (i a).val ∧ (i a).val < win2_6.index t a * S1x128.size a + S1x128.size a := by
  show i ∈ ((View.whole main_v49_1).slice (win2_6.rect t)).set ↔ _
  rw [View.set_slice_whole, Rect.mem_set_unit]
  exact Iff.rfl

/-- The last point's block is the whole of output 6's array. -/
theorem cover2_6 (i : S1x128.Idx) :
    ∃ t : Fin cfg2.N, (cfg2.win 6).flush t = true ∧ i ∈ ((cfg2.win 6).blk t).view.set := by
  have hi0 : (i 0).val < 1 := (i 0).isLt
  have hi1 : (i 1).val < 128 := (i 1).isLt
  obtain ⟨e00, e01, e10, e11, e20, e21, e30, e31, e40, e41, e50, e51, e60, e61, e70, e71⟩ := idx_facts2 t2_9
  refine ⟨t2_9, (flush2_6 t2_9).mpr rfl, ?_⟩
  rw [mem_blk2_6]
  intro a
  match a with
  | ⟨0, _⟩ =>
    show win2_6.index t2_9 (0 : Fin 2) * 1 ≤ (i 0).val ∧ (i 0).val < win2_6.index t2_9 (0 : Fin 2) * 1 + 1
    omega
  | ⟨1, _⟩ =>
    show win2_6.index t2_9 (1 : Fin 2) * 128 ≤ (i 1).val ∧ (i 1).val < win2_6.index t2_9 (1 : Fin 2) * 128 + 128
    omega

/-- Output 6's array after the region: the column sums of the transform of the five arrays the region read. -/
theorem value2_sum (V : (c : Dev nD) → (b : Ref sig .tc) → Buf (Elt Ideal) ((c : Thread nD τ).loc b)) (c : Dev nD) :
    (dat2 (F := Ideal) V c).arrAt 6 cfg2.N = ltSum (ltOut (V c main_v41) (V c main_v5) (V c main_v43) (V c main_v45) (V c main_v48)) :=
  (dat2 (F := Ideal) V c).arrAt_eq_of_cover 6 _ (flushed2_6_eq V c) cover2_6

set_option maxHeartbeats 1000000 in
/-- The one write-back of output 7, at the last point, writes the column sums of squares of the whole-array transform. -/
theorem flushed2_7_eq (c : Dev nD) (t : Fin cfg2.N) (hf : (cfg2.win 7).flush t = true) :
    (dat2 (F := Ideal) V c).flushed 7 t = ((cfg2.win 7).blk t).view.read (Elt Ideal) (ltSumSq (ltOut (V c main_v41) (V c main_v5) (V c main_v43) (V c main_v45) (V c main_v48))) := by
  have hN : cfg2.N = 10 := N_2
  have h9 : t.val = 9 := by have := (flush2_7 t).mp hf; have := t.isLt; omega
  obtain ⟨e00, e01, e10, e11, e20, e21, e30, e31, e40, e41, e50, e51, e60, e61, e70, e71⟩ := idx_facts2 t
  have hacc : (acc2 V c t.val t.isLt).2 = ltSumSq (ltOut (V c main_v41) (V c main_v5) (V c main_v43) (V c main_v45) (V c main_v48)) := by
    funext j
    obtain ⟨p, q, rfl⟩ : ∃ (p : Fin 1) (q : Fin 128), j = ix2 p q := ⟨j 0, j 1, eq_ix2 j⟩
    obtain rfl : p = 0 := Subsingleton.elim _ _
    rw [acc2_sumsq V c q t.val t.isLt, h9]
    exact sum_range_tiles (fun r => (ltOut (V c main_v41) (V c main_v5) (V c main_v43) (V c main_v45) (V c main_v48)) (ix2 r q) * (ltOut (V c main_v41) (V c main_v5) (V c main_v43) (V c main_v45) (V c main_v48)) (ix2 r q))
  show (cfg2.win 7).cut (grid2.coords t) ((dat2 V c).after 7 t) = _
  rw [after2_7, outsAt2_eq]
  (try dsimp only)
  rw [hacc]
  have hz' : (fun a => win2_7.index t a * main_v49_2.ty.shape.size a) = fun _ => 0 := funext fun a => by
    match a with
    | ⟨0, _⟩ => show win2_7.index t (0 : Fin 2) * 1 = 0; omega
    | ⟨1, _⟩ => show win2_7.index t (1 : Fin 2) * 128 = 0; omega
  exact (Memref.read_access_unit_zero (Elt Ideal) main_v49_2 hz' (fun a => by rw [congrFun hz' a]; simp) (ltSumSq (ltOut (V c main_v41) (V c main_v5) (V c main_v43) (V c main_v45) (V c main_v48)))).symm

/-- An index of output 7's array lies in point `t`'s block when each coordinate lies in the block's range. -/
theorem mem_blk2_7 (t : Fin cfg2.N) (i : S1x128.Idx) :
    i ∈ ((cfg2.win 7).blk t).view.set ↔ ∀ a : Fin 2, win2_7.index t a * S1x128.size a ≤ (i a).val ∧ (i a).val < win2_7.index t a * S1x128.size a + S1x128.size a := by
  show i ∈ ((View.whole main_v49_2).slice (win2_7.rect t)).set ↔ _
  rw [View.set_slice_whole, Rect.mem_set_unit]
  exact Iff.rfl

/-- The last point's block is the whole of output 7's array. -/
theorem cover2_7 (i : S1x128.Idx) :
    ∃ t : Fin cfg2.N, (cfg2.win 7).flush t = true ∧ i ∈ ((cfg2.win 7).blk t).view.set := by
  have hi0 : (i 0).val < 1 := (i 0).isLt
  have hi1 : (i 1).val < 128 := (i 1).isLt
  obtain ⟨e00, e01, e10, e11, e20, e21, e30, e31, e40, e41, e50, e51, e60, e61, e70, e71⟩ := idx_facts2 t2_9
  refine ⟨t2_9, (flush2_7 t2_9).mpr rfl, ?_⟩
  rw [mem_blk2_7]
  intro a
  match a with
  | ⟨0, _⟩ =>
    show win2_7.index t2_9 (0 : Fin 2) * 1 ≤ (i 0).val ∧ (i 0).val < win2_7.index t2_9 (0 : Fin 2) * 1 + 1
    omega
  | ⟨1, _⟩ =>
    show win2_7.index t2_9 (1 : Fin 2) * 128 ≤ (i 1).val ∧ (i 1).val < win2_7.index t2_9 (1 : Fin 2) * 128 + 128
    omega

/-- Output 7's array after the region: the column sums of squares of the transform of the five arrays the region read. -/
theorem value2_sumsq (V : (c : Dev nD) → (b : Ref sig .tc) → Buf (Elt Ideal) ((c : Thread nD τ).loc b)) (c : Dev nD) :
    (dat2 (F := Ideal) V c).arrAt 7 cfg2.N = ltSumSq (ltOut (V c main_v41) (V c main_v5) (V c main_v43) (V c main_v45) (V c main_v48)) :=
  (dat2 (F := Ideal) V c).arrAt_eq_of_cover 7 _ (flushed2_7_eq V c) cover2_7

end Arrays

end Cert.KernelIdeal.Reg

end
-- ==== Proof.KI.LibBnPool.lean ====
/-
  The normalisation and pooling call on whole arrays of extended reals.

  The normalised array: entry (n, j) is  γ[j] · (h[n, j] − μ[j]) · rsqrt(σ²[j] + ε) + β[j],  clamped below at 0 in
  every layer but the last. The pooled array: entry (g, j) is the sum of the normalised rows n whose graph number
  is g — written as a product with the one-hot matrix of the graph numbers, the test being an equality of 32-bit
  words between the row's graph number and the word of g.

  The 50000 rows are ten tiles of 5000 rows, row p of tile t being row p + 5000·t; the pooled sum over all rows is
  the sum over the tiles of the sums over each tile's rows, which is how the grid accumulates it.
-/
import proofs.«144276_j65051574665788_2_alg».proof.Proof.Gen.KernelIdeal
import proofs.«144276_j65051574665788_2_alg».proof.Proof.KI.LibBlockOps
import proofs.«144276_j65051574665788_2_alg».proof.Proof.LibOneHotPool
import Idealize.ShloMosaic.PureOps.Ideal.Laws
import Idealize.ShloMosaic.Lib.ValueIdx
import Idealize.ShloMosaic.Lib.Pipeline.Value

set_option maxRecDepth 16384

noncomputable section

namespace Cert.KernelIdeal.Reg

open Cert.KernelIdeal Cert.KernelIdeal.Facts₀ Cert.LibBlockOps
open Idealize.ShloMosaic Idealize.ShloMosaic.ValueIdx

/-! ## The two arrays -/

/-- The normalised array of the last layer: entry (n, j) is γ[j] · (h[n, j] − μ[j]) · rsqrt(σ²[j] + ε) + β[j]. -/
def bnOutLast (h : S50000x128.Idx → EReal) (mu var g b : S1x128.Idx → EReal) : S50000x128.Idx → EReal :=
  fun i => g (ix2 (0 : Fin 1) (i 1)) * (h i - mu (ix2 (0 : Fin 1) (i 1))) * Ideal.rsqrt (var (ix2 (0 : Fin 1) (i 1)) + Ideal.ofBits .f32 0x3727C5AC#32) + b (ix2 (0 : Fin 1) (i 1))

/-- The normalised array of the other layers: the same, clamped below at 0. -/
def bnOut (h : S50000x128.Idx → EReal) (mu var g b : S1x128.Idx → EReal) : S50000x128.Idx → EReal :=
  fun i => max (g (ix2 (0 : Fin 1) (i 1)) * (h i - mu (ix2 (0 : Fin 1) (i 1))) * Ideal.rsqrt (var (ix2 (0 : Fin 1) (i 1)) + Ideal.ofBits .f32 0x3727C5AC#32) + b (ix2 (0 : Fin 1) (i 1))) 0

/-- The pooled array: entry (g, j) is Σ over the rows n of [graph number of n is the word of g] · y[n, j]. -/
def bnPool (batch2 : IVec S50000x1 32) (y : S50000x128.Idx → EReal) : S128x128.Idx → EReal :=
  fun i => ∑ n : Fin 50000, (if batch2 (ix2 n (0 : Fin 1)) = BitVec.ofNat 32 (i 0).val then (1 : EReal) else 0) * y (ix2 n (i 1))

theorem bnOutLast_apply (h : S50000x128.Idx → EReal) (mu var g b : S1x128.Idx → EReal) (n : Fin 50000) (j : Fin 128) :
    bnOutLast h mu var g b (ix2 n j) = g (ix2 (0 : Fin 1) j) * (h (ix2 n j) - mu (ix2 (0 : Fin 1) j)) * Ideal.rsqrt (var (ix2 (0 : Fin 1) j) + Ideal.ofBits .f32 0x3727C5AC#32) + b (ix2 (0 : Fin 1) j) := rfl

theorem bnOut_apply (h : S50000x128.Idx → EReal) (mu var g b : S1x128.Idx → EReal) (n : Fin 50000) (j : Fin 128) :
    bnOut h mu var g b (ix2 n j) = max (g (ix2 (0 : Fin 1) j) * (h (ix2 n j) - mu (ix2 (0 : Fin 1) j)) * Ideal.rsqrt (var (ix2 (0 : Fin 1) j) + Ideal.ofBits .f32 0x3727C5AC#32) + b (ix2 (0 : Fin 1) j)) 0 := rfl

/-! ## Tiles of rows -/

/-- Row `p` of tile `t`: row p + 5000·t of the array. -/
def tileRowG (t : Fin 10) (p : Fin 5000) : Fin 50000 := ⟨p.val + 5000 * t.val, by have := t.isLt; have := p.isLt; omega⟩

theorem tileRowG_val (t : Fin 10) (p : Fin 5000) : (tileRowG t p).val = p.val + 5000 * t.val := rfl

/-- A sum over the 50000 rows is the sum over the ten tiles of the sums over each tile's 5000 rows. -/
theorem sum_rows_tiles (f : Fin 50000 → EReal) : ∑ n : Fin 50000, f n = ∑ t : Fin 10, ∑ p : Fin 5000, f (tileRowG t p) :=
  Cert.Lib.sum_tiles 10 5000 f

/-- Tile `t`'s share of the pooled array: the one-hot product over the tile's rows. -/
def tilePool (batch2 : IVec S50000x1 32) (y : S50000x128.Idx → EReal) (t : Fin 10) : S128x128.Idx → EReal :=
  fun i => ∑ p : Fin 5000, (if batch2 (ix2 (tileRowG t p) (0 : Fin 1)) = BitVec.ofNat 32 (i 0).val then (1 : EReal) else 0) * y (ix2 (tileRowG t p) (i 1))

/-- The pooled array is the sum of the ten tiles' shares. -/
theorem bnPool_eq_tiles (batch2 : IVec S50000x1 32) (y : S50000x128.Idx → EReal) (i : S128x128.Idx) :
    bnPool batch2 y i = ∑ t : Fin 10, tilePool batch2 y t i :=
  sum_rows_tiles fun n => (if batch2 (ix2 n (0 : Fin 1)) = BitVec.ofNat 32 (i 0).val then (1 : EReal) else 0) * y (ix2 n (i 1))

/-- The share of tile number `t`, nothing for a number that is no tile's. -/
def tilePoolN (batch2 : IVec S50000x1 32) (y : S50000x128.Idx → EReal) (t : ℕ) (i : S128x128.Idx) : EReal :=
  if h : t < 10 then tilePool batch2 y ⟨t, h⟩ i else 0

/-- The pooled array is the running sum of the shares after the tenth tile. -/
theorem bnPool_eq_range (batch2 : IVec S50000x1 32) (y : S50000x128.Idx → EReal) (i : S128x128.Idx) :
    bnPool batch2 y i = ∑ t ∈ Finset.range 10, tilePoolN batch2 y t i := by
  rw [bnPool_eq_tiles, Finset.sum_range]
  exact Finset.sum_congr rfl fun t _ => by unfold tilePoolN; rw [dif_pos t.isLt]

/-! ## The one-hot bit as an extended real -/

/-- The comparison bit of two 32-bit words, widened to 32 bits and read as a signed integer, is 1 where the words
    are equal and 0 where they differ. -/
theorem onehot_word (a b : BitVec 32) :
    FloatOps.sitofp (F := Ideal) .f32 ((IntOp.cmpi .eq a b).setWidth 32) = if a = b then (1 : EReal) else 0 := by
  by_cases h : a = b
  · subst h
    rw [if_pos rfl]
    have e : (IntOp.cmpi .eq a a).setWidth 32 = 1#32 := by simp [IntOp.cmpi]
    rw [e]
    show (((1#32 : BitVec 32).toInt : ℝ) : EReal) = 1
    rw [show (1#32 : BitVec 32).toInt = 1 from by decide]; simp
  · rw [if_neg h]
    have hb : (a == b) = false := by simpa using h
    have e : (IntOp.cmpi .eq a b).setWidth 32 = 0#32 := by simp [IntOp.cmpi, hb]
    rw [e]
    show (((0#32 : BitVec 32).toInt : ℝ) : EReal) = 0
    rw [show (0#32 : BitVec 32).toInt = 0 from by decide]; simp

/-- A comparison of integer blocks at an entry compares the entries. -/
theorem cmpi_apply {s : Shape} {w : Nat} (p : CmpIPredicate) (x y : IVec s w) (i : s.Idx) : cmpi p x y i = IntOp.cmpi p (x i) (y i) := rfl

/-- The one-hot block of a tile at entry (p, g): the tile's column of graph numbers stretched over 128 columns, compared
    for equality with the column number, the bit widened and read as a float (the narrowing to the short float format
    is the identity on extended reals): 1 where row p's graph number is the word of g, else 0. -/
theorem onehot_blk_apply (bt : IVec S5000x1 32) (p : Fin 5000) (g : Fin 128) :
    (truncf .bf16 (sitofp (F := Ideal) .f32 (extui 32 (cmpi .eq (broadcastTo S5000x128 (shapeCast S5000x1 bt shapeCasts_S5000x1_S5000x1) broadcasts_S5000x1_S5000x128) (iota .tc S5000x128 32 [1] iota_S5000x128_d1_w32)) natLt_1_32)) bitsLt_bf16_f32 : FVec Ideal S5000x128 .bf16) (ix2 p g)
      = if bt (ix2 p (0 : Fin 1)) = BitVec.ofNat 32 g.val then (1 : EReal) else 0 := by
  rw [truncf_apply, sitofp_apply, extui_apply, cmpi_apply, broadcast_col_apply _ _ (by decide), shapeCast_self, iota_single_apply, onehot_word]

/-! ## The contraction of the row axes of two blocks -/

/-- Over the extended reals, the product contracting the ROW axes of two 5000×128 blocks into the zero block has at
    entry (g, j) the value Σ_{p < 5000} a[p, g] · w[p, j]. -/
theorem matmul_rows_zero_apply {φ₁ φ₂ : FTy} (prec : Option ContractPrecision)
    (a : FVec Ideal S5000x128 φ₁) (w : FVec Ideal S5000x128 φ₂) (g j : Fin 128) :
    matmul dot_S5000x128_S5000x128_S128x128_0_0_1_1_n_n prec a w (constant (F := Ideal) S128x128 .f32 0x00000000#32) (ix2 g j)
      = ∑ p : Fin 5000, a (ix2 p g) * w (ix2 p j) := by
  show FloatOps.matmul dot_S5000x128_S5000x128_S128x128_0_0_1_1_n_n prec a w (constant S128x128 .f32 0x00000000#32) (ix2 g j) = _
  rw [Ideal.matmul_constant_zero_apply, ← Equiv.sum_comp (contrEquiv1 dot_S5000x128_S5000x128_S128x128_0_0_1_1_n_n 5000 rfl rfl).symm]
  refine Finset.sum_congr rfl fun p _ => ?_
  have hp := contrEquiv1_symm_val dot_S5000x128_S5000x128_S128x128_0_0_1_1_n_n 5000 rfl rfl p
  have el : dot_S5000x128_S5000x128_S128x128_0_0_1_1_n_n.lhsIdx (ix2 g j) ((contrEquiv1 dot_S5000x128_S5000x128_S128x128_0_0_1_1_n_n 5000 rfl rfl).symm p) = ix2 p g :=
    funext fun ax => Fin.ext (by
      match ax with
      | ⟨0, _⟩ => exact (dot_S5000x128_S5000x128_S128x128_0_0_1_1_n_n.lhsIdx_val_of_single rfl _ _).trans hp
      | ⟨1, _⟩ => rfl)
  have er : dot_S5000x128_S5000x128_S128x128_0_0_1_1_n_n.rhsIdx (ix2 g j) ((contrEquiv1 dot_S5000x128_S5000x128_S128x128_0_0_1_1_n_n 5000 rfl rfl).symm p) = ix2 p j :=
    funext fun ax => Fin.ext (by
      match ax with
      | ⟨0, _⟩ => exact (dot_S5000x128_S5000x128_S128x128_0_0_1_1_n_n.rhsIdx_val_of_single rfl _ _).trans hp
      | ⟨1, _⟩ => rfl)
  rw [el, er]

end Cert.KernelIdeal.Reg

end
-- ==== Proof.KI.Val3.lean ====
import proofs.«144276_j65051574665788_2_alg».proof.Proof.KI.Reg3
import proofs.«144276_j65051574665788_2_alg».proof.Proof.KI.LibBnPool
import Idealize.ShloMosaic.Lib.Pipeline.Value
import Idealize.ShloMosaic.PureOps.Ideal.Laws
import Idealize.ShloMosaic.Lib.ValueIdx
import Idealize.ShloMosaic.Lib.Tactic

/-! # Region 3 read as two arrays

After the region its first output array is the normalised array of the region's entry arrays, entry (n, j) being
γ[j] · (h[n, j] − μ[j]) · rsqrt(σ²[j] + ε) + β[j] clamped below at 0, and its second output array is the pooled array: entry (g, j) the
sum of the normalised rows whose graph number is the word of g.

The ten grid points write the ten tiles of 5000 rows of the first array, point `t` tile `t`. The second array is one block,
revisited at every point: zeroed and added tile 0's share at the first point, added tile `t`'s share at point `t`, written
back after the last. So what its buffer holds after point `n` is the running sum of the shares of tiles 0 … n, by induction
on the point, and after the tenth tile that is the sum over all rows. -/

set_option maxRecDepth 16384

noncomputable section

namespace Cert.KernelIdeal.Reg

open Cert.KernelIdeal Cert.KernelIdeal.Gen Cert.LibBlockOps
open Idealize.ShloMosaic Idealize.ShloMosaic.TcCoe Idealize.ShloMosaic.Tactic Idealize.ShloMosaic.ValueIdx Idealize.SL.Sem
open Idealize.ShloMosaic.Pipeline (Dat)

/-! ## What each case's stores leave, as payloads of the blocks -/

section Pieces
variable {F : FTy → Type} [FloatOps F]

/-- Case A leaves in output 6 its one covering store's payload: the normalised block of the input blocks. -/
theorem out3_A_6_eq (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : cond3_0 i)
    (x0 : Vec F S5000x128 .f32) (x1 : Vec F S1x128 .f32) (x2 : Vec F S1x128 .f32) (x3 : Vec F S1x128 .f32) (x4 : Vec F S1x128 .f32) (x5 : Vec F S5000x1 .i32) :
    out3_A_6 c i arg1 harg1 arg2 harg2 arg3 harg3 arg4 harg4 arg5 harg5 arg6 harg6 arg7 harg7 arg8 harg8 hc0 x0 x1 x2 x3 x4 x5 = k3_pay3 x2 x3 x0 x1 x4 := by
  unfold out3_A_6
  rw [View.read_writes_eq_canon _ _ _ (cover3_A_6 c i arg1 harg1 arg2 harg2 arg3 harg3 arg4 harg4 arg5 harg5 arg6 harg6 arg7 harg7 arg8 harg8 hc0 x0 x1 x2 x3 x4 x5)]
  unfold kernelRun3_A
  dsimp only
  try sl_unfold_words
  rw [View.canon_unit_zero offsets_zero2]
  simp only [View.readAt_eq_ld, harg1.read_unread, harg2.read_unread, harg3.read_unread, harg4.read_unread, harg5.read_unread, harg6.read_unread, harg8.read_unread, View.ld_unit_zero (S := S5000x128) offsets_zero2, View.ld_unit_zero (S := S1x128) offsets_zero2, View.ld_unit_zero (S := S5000x1) offsets_zero2, View.ld_unit_zero (S := S128x128) offsets_zero2]

/-- Case B leaves the same there. -/
theorem out3_B_6_eq (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : ¬cond3_0 i)
    (x0 : Vec F S5000x128 .f32) (x1 : Vec F S1x128 .f32) (x2 : Vec F S1x128 .f32) (x3 : Vec F S1x128 .f32) (x4 : Vec F S1x128 .f32) (x5 : Vec F S5000x1 .i32) (xo7 : Vec F S128x128 .f32) :
    out3_B_6 c i arg1 harg1 arg2 harg2 arg3 harg3 arg4 harg4 arg5 harg5 arg6 harg6 arg7 harg7 arg8 harg8 hc0 x0 x1 x2 x3 x4 x5 xo7 = k3_pay3 x2 x3 x0 x1 x4 := by
  unfold out3_B_6
  rw [View.read_writes_eq_canon _ _ _ (cover3_B_6 c i arg1 harg1 arg2 harg2 arg3 harg3 arg4 harg4 arg5 harg5 arg6 harg6 arg7 harg7 arg8 harg8 hc0 x0 x1 x2 x3 x4 x5 xo7)]
  unfold kernelRun3_B
  dsimp only
  try sl_unfold_words
  rw [View.canon_unit_zero offsets_zero2]
  simp only [View.readAt_eq_ld, harg1.read_unread, harg2.read_unread, harg3.read_unread, harg4.read_unread, harg5.read_unread, harg6.read_unread, harg8.read_unread, View.ld_unit_zero (S := S5000x128) offsets_zero2, View.ld_unit_zero (S := S1x128) offsets_zero2, View.ld_unit_zero (S := S5000x1) offsets_zero2, View.ld_unit_zero (S := S128x128) offsets_zero2]

/-- Case A leaves in output 7 the tile's share added to the zero block it has just stored and read back. -/
theorem out3_A_7_eq (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : cond3_0 i)
    (x0 : Vec F S5000x128 .f32) (x1 : Vec F S1x128 .f32) (x2 : Vec F S1x128 .f32) (x3 : Vec F S1x128 .f32) (x4 : Vec F S1x128 .f32) (x5 : Vec F S5000x1 .i32) :
    out3_A_7 c i arg1 harg1 arg2 harg2 arg3 harg3 arg4 harg4 arg5 harg5 arg6 harg6 arg7 harg7 arg8 harg8 hc0 x0 x1 x2 x3 x4 x5 = k3_pay1 (k3_pay4 x2 x3 x0 x1 x4 x5) (k3_pay2 (F := F)) := by
  unfold out3_A_7
  rw [View.read_writes_eq_canon _ _ _ (cover3_A_7 c i arg1 harg1 arg2 harg2 arg3 harg3 arg4 harg4 arg5 harg5 arg6 harg6 arg7 harg7 arg8 harg8 hc0 x0 x1 x2 x3 x4 x5)]
  unfold kernelRun3_A
  dsimp only
  sl_unfold_words
  rw [View.canon_cons_unit_zero (S := S128x128) offsets_zero2, View.readCov_unit_zero (S := S128x128) _ offsets_zero2]
  simp only [View.readAt_eq_ld, harg1.read_unread, harg2.read_unread, harg3.read_unread, harg4.read_unread, harg5.read_unread, harg6.read_unread, harg8.read_unread, View.ld_unit_zero (S := S5000x128) offsets_zero2, View.ld_unit_zero (S := S1x128) offsets_zero2, View.ld_unit_zero (S := S5000x1) offsets_zero2, View.ld_unit_zero (S := S128x128) offsets_zero2]

/-- Case B leaves there the tile's share added to what the buffer held. -/
theorem out3_B_7_eq (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : ¬cond3_0 i)
    (x0 : Vec F S5000x128 .f32) (x1 : Vec F S1x128 .f32) (x2 : Vec F S1x128 .f32) (x3 : Vec F S1x128 .f32) (x4 : Vec F S1x128 .f32) (x5 : Vec F S5000x1 .i32) (xo7 : Vec F S128x128 .f32) :
    out3_B_7 c i arg1 harg1 arg2 harg2 arg3 harg3 arg4 harg4 arg5 harg5 arg6 harg6 arg7 harg7 arg8 harg8 hc0 x0 x1 x2 x3 x4 x5 xo7 = k3_pay1 (k3_pay4 x2 x3 x0 x1 x4 x5) xo7 := by
  unfold out3_B_7
  rw [View.read_writes_eq_canon _ _ _ (cover3_B_7 c i arg1 harg1 arg2 harg2 arg3 harg3 arg4 harg4 arg5 harg5 arg6 harg6 arg7 harg7 arg8 harg8 hc0 x0 x1 x2 x3 x4 x5 xo7)]
  unfold kernelRun3_B
  dsimp only
  sl_unfold_words
  rw [View.canon_unit_zero offsets_zero2]
  simp only [View.readAt_eq_ld, harg1.read_unread, harg2.read_unread, harg3.read_unread, harg4.read_unread, harg5.read_unread, harg6.read_unread, harg8.read_unread, View.ld_unit_zero (S := S5000x128) offsets_zero2, View.ld_unit_zero (S := S1x128) offsets_zero2, View.ld_unit_zero (S := S5000x1) offsets_zero2, View.ld_unit_zero (S := S128x128) offsets_zero2]

end Pieces

/-! ## The payloads at an entry, over the extended reals -/

/-- The normalised block at row `p`, column `q`: the four rows [1, 128] are stretched over the 5000 rows. -/
theorem bpay3_3_apply (var g : Vec Ideal S1x128 .f32) (h : Vec Ideal S5000x128 .f32) (mu b : Vec Ideal S1x128 .f32)
    (p : Fin 5000) (q : Fin 128) :
    k3_pay3 var g h mu b (ix2 p q)
      = max (g (ix2 (0 : Fin 1) q) * (h (ix2 p q) - mu (ix2 (0 : Fin 1) q)) * Ideal.rsqrt (var (ix2 (0 : Fin 1) q) + Ideal.ofBits .f32 0x3727C5AC#32) + b (ix2 (0 : Fin 1) q)) 0 := by
  unfold k3_pay3
  simp only [shapeCast_self]
  rw [maximumf_apply, addf_apply, mulf_apply, mulf_apply, subf_apply,
    broadcast_row_apply _ _ (by decide), broadcast_row_apply _ _ (by decide), broadcast_row_apply _ _ (by decide), broadcast_row_apply _ _ (by decide)]
  rw [broadcast_apply, ← Ideal.ofBits_zero_f32]
  rfl

/-- A tile's share at entry (g, q): the one-hot block contracted with the normalised block along the rows. -/
theorem bpay4_3_apply (var g : Vec Ideal S1x128 .f32) (h : Vec Ideal S5000x128 .f32) (mu b : Vec Ideal S1x128 .f32)
    (bt : Vec Ideal S5000x1 .i32) (gn q : Fin 128) :
    k3_pay4 var g h mu b bt (ix2 gn q)
      = ∑ p : Fin 5000, (if bt (ix2 p (0 : Fin 1)) = BitVec.ofNat 32 gn.val then (1 : EReal) else 0) * k3_pay3 var g h mu b (ix2 p q) := by
  unfold k3_pay4
  rw [matmul_rows_zero_apply]
  refine Finset.sum_congr rfl fun p _ => ?_
  rw [onehot_blk_apply, truncf_apply]

/-- The accumulating store's payload at an entry: what the buffer held plus the share. -/
theorem bpay1_3_apply (s acc : Vec Ideal S128x128 .f32) (gn q : Fin 128) :
    k3_pay1 s acc (ix2 gn q) = acc (ix2 gn q) + s (ix2 gn q) := by
  unfold k3_pay1
  rw [addf_apply, shapeCast_self]

/-- The zero block at an entry. -/
theorem bpay2_3_apply (gn q : Fin 128) : k3_pay2 (F := Ideal) (ix2 gn q) = 0 := by
  unfold k3_pay2
  rw [broadcast_apply]
  exact Ideal.ofBits_zero_f32

/-! ## The blocks the windows read -/

-- what the core's buffers hold, as extended reals, when the region is entered
variable (V : (c : Dev nD) → (b : Ref sig .tc) → Buf (Elt Ideal) ((c : Thread nD τ).loc b))

/-- The block indices at every grid point: the rows `h`, the graph numbers and the first output move together, block
    `t` at point `t`; every other block index is 0. Decided over the ten points. -/
theorem idx_facts3 : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = t.val
    ∧ win3_5.index t (1 : Fin 2) = 0
    ∧ win3_6.index t (0 : Fin 2) = t.val
    ∧ win3_6.index t (1 : Fin 2) = 0
    ∧ win3_7.index t (0 : Fin 2) = 0
    ∧ win3_7.index t (1 : Fin 2) = 0 :=
  (by decide +kernel : ∀ t : Fin grid3.N, _)

/-- Point `t` as a tile number. -/
def tile3 (t : Fin cfg3.N) : Fin 10 := ⟨t.val, lt_of_lt_of_eq t.isLt N_3⟩

/-- Window 0's block at point `t`, row `p`: row `p` of tile `t` of the array. -/
theorem blk3_h (c : Dev nD) (t : Fin cfg3.N) (p : Fin 5000) (q : Fin 128) :
    iblk3 V c 0 t (ix2 p q) = V c main_v49_0 (ix2 (tileRowG (tile3 t) p) q) := by
  obtain ⟨e00, e01, e10, e11, e20, e21, e30, e31, e40, e41, e50, e51, e60, e61, e70, e71⟩ := idx_facts3 t
  refine congrArg (V c main_v49_0) ?_
  funext a; apply Fin.ext
  match a with
  | ⟨0, _⟩ => show win3_0.index t (0 : Fin 2) * 5000 + 1 * p.val = p.val + 5000 * t.val; omega
  | ⟨1, _⟩ => show win3_0.index t (1 : Fin 2) * 128 + 1 * q.val = q.val; omega

/-- Window 1's block at point `t`, at its one row: the array's row. -/
theorem blk3_mu (c : Dev nD) (t : Fin cfg3.N) (q : Fin 128) :
    iblk3 V c 1 t (ix2 (0 : Fin 1) q) = V c main_v51 (ix2 (0 : Fin 1) q) := by
  obtain ⟨e00, e01, e10, e11, e20, e21, e30, e31, e40, e41, e50, e51, e60, e61, e70, e71⟩ := idx_facts3 t
  refine congrArg (V c main_v51) ?_
  funext a; apply Fin.ext
  match a with
  | ⟨0, _⟩ => show win3_1.index t (0 : Fin 2) * 1 + 1 * 0 = 0; omega
  | ⟨1, _⟩ => show win3_1.index t (1 : Fin 2) * 128 + 1 * q.val = q.val; omega

/-- Window 2's block at point `t`, at its one row: the array's row. -/
theorem blk3_var (c : Dev nD) (t : Fin cfg3.N) (q : Fin 128) :
    iblk3 V c 2 t (ix2 (0 : Fin 1) q) = V c main_v55 (ix2 (0 : Fin 1) q) := by
  obtain ⟨e00, e01, e10, e11, e20, e21, e30, e31, e40, e41, e50, e51, e60, e61, e70, e71⟩ := idx_facts3 t
  refine congrArg (V c main_v55) ?_
  funext a; apply Fin.ext
  match a with
  | ⟨0, _⟩ => show win3_2.index t (0 : Fin 2) * 1 + 1 * 0 = 0; omega
  | ⟨1, _⟩ => show win3_2.index t (1 : Fin 2) * 128 + 1 * q.val = q.val; omega

/-- Window 3's block at point `t`, at its one row: the array's row. -/
theorem blk3_g (c : Dev nD) (t : Fin cfg3.N) (q : Fin 128) :
    iblk3 V c 3 t (ix2 (0 : Fin 1) q) = V c main_v60 (ix2 (0 : Fin 1) q) := by
  obtain ⟨e00, e01, e10, e11, e20, e21, e30, e31, e40, e41, e50, e51, e60, e61, e70, e71⟩ := idx_facts3 t
  refine congrArg (V c main_v60) ?_
  funext a; apply Fin.ext
  match a with
  | ⟨0, _⟩ => show win3_3.index t (0 : Fin 2) * 1 + 1 * 0 = 0; omega
  | ⟨1, _⟩ => show win3_3.index t (1 : Fin 2) * 128 + 1 * q.val = q.val; omega

/-- Window 4's block at point `t`, at its one row: the array's row. -/
theorem blk3_b (c : Dev nD) (t : Fin cfg3.N) (q : Fin 128) :
    iblk3 V c 4 t (ix2 (0 : Fin 1) q) = V c main_v61 (ix2 (0 : Fin 1) q) := by
  obtain ⟨e00, e01, e10, e11, e20, e21, e30, e31, e40, e41, e50, e51, e60, e61, e70, e71⟩ := idx_facts3 t
  refine congrArg (V c main_v61) ?_
  funext a; apply Fin.ext
  match a with
  | ⟨0, _⟩ => show win3_4.index t (0 : Fin 2) * 1 + 1 * 0 = 0; omega
  | ⟨1, _⟩ => show win3_4.index t (1 : Fin 2) * 128 + 1 * q.val = q.val; omega

/-- Window 5's block at point `t`, row `p`: the graph number of row `p` of tile `t`. -/
theorem blk3_bt (c : Dev nD) (t : Fin cfg3.N) (p : Fin 5000) :
    iblk3 V c 5 t (ix2 p (0 : Fin 1)) = V c main_v25 (ix2 (tileRowG (tile3 t) p) (0 : Fin 1)) := by
  obtain ⟨e00, e01, e10, e11, e20, e21, e30, e31, e40, e41, e50, e51, e60, e61, e70, e71⟩ := idx_facts3 t
  refine congrArg (V c main_v25) ?_
  funext a; apply Fin.ext
  match a with
  | ⟨0, _⟩ => show win3_5.index t (0 : Fin 2) * 5000 + 1 * p.val = p.val + 5000 * t.val; omega
  | ⟨1, _⟩ => show win3_5.index t (1 : Fin 2) * 1 + 1 * 0 = 0; omega

/-- The normalised block of point `t`'s input blocks, at row `p`: row `p` of tile `t` of the normalised array. -/
theorem pay3_3_blk (c : Dev nD) (t : Fin cfg3.N) (p : Fin 5000) (q : Fin 128) :
    k3_pay3 (iblk3 V c 2 t) (iblk3 V c 3 t) (iblk3 V c 0 t) (iblk3 V c 1 t) (iblk3 V c 4 t) (ix2 p q)
      = bnOut (V c main_v49_0) (V c main_v51) (V c main_v55) (V c main_v60) (V c main_v61) (ix2 (tileRowG (tile3 t) p) q) := by
  rw [bpay3_3_apply, bnOut_apply, blk3_h, blk3_mu, blk3_var, blk3_g, blk3_b]

/-- Point `t`'s share of the pooled array, from its input blocks. -/
def share3 (c : Dev nD) (t : Fin cfg3.N) : Vec Ideal S128x128 .f32 :=
  k3_pay4 (iblk3 V c 2 t) (iblk3 V c 3 t) (iblk3 V c 0 t) (iblk3 V c 1 t) (iblk3 V c 4 t) (iblk3 V c 5 t)

/-- It is tile `t`'s share of the pooled array of the region's entry arrays. -/
theorem share3_apply (c : Dev nD) (t : Fin cfg3.N) (gn q : Fin 128) :
    share3 V c t (ix2 gn q) = tilePool (V c main_v25) (bnOut (V c main_v49_0) (V c main_v51) (V c main_v55) (V c main_v60) (V c main_v61)) (tile3 t) (ix2 gn q) := by
  unfold share3
  rw [bpay4_3_apply]
  refine Finset.sum_congr rfl fun p _ => ?_
  rw [pay3_3_blk, blk3_bt]

/-! ## What the outputs hold after each point -/

set_option maxHeartbeats 1000000 in
theorem pt3_A_fst (c : Dev nD) (t : Fin cfg3.N) (h0 : t.val % 10 = 0) :
    (pt3_A V c t h0).1 = k3_pay3 (iblk3 V c 2 t) (iblk3 V c 3 t) (iblk3 V c 0 t) (iblk3 V c 1 t) (iblk3 V c 4 t) := by
  dsimp only [pt3_A]
  exact out3_A_6_eq (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) ((hcond3_0 t).mpr h0) (iblk3 V c 0 t) (iblk3 V c 1 t) (iblk3 V c 2 t) (iblk3 V c 3 t) (iblk3 V c 4 t) (iblk3 V c 5 t)

set_option maxHeartbeats 1000000 in
theorem pt3_B_fst (c : Dev nD) (t : Fin cfg3.N) (h0 : ¬t.val % 10 = 0) (xo7 : Vec Ideal S128x128 .f32) :
    (pt3_B V c t h0 xo7).1 = k3_pay3 (iblk3 V c 2 t) (iblk3 V c 3 t) (iblk3 V c 0 t) (iblk3 V c 1 t) (iblk3 V c 4 t) := by
  dsimp only [pt3_B]
  exact out3_B_6_eq (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (fun h => h0 ((hcond3_0 t).mp h)) (iblk3 V c 0 t) (iblk3 V c 1 t) (iblk3 V c 2 t) (iblk3 V c 3 t) (iblk3 V c 4 t) (iblk3 V c 5 t) xo7

set_option maxHeartbeats 1000000 in
theorem pt3_A_snd (c : Dev nD) (t : Fin cfg3.N) (h0 : t.val % 10 = 0) :
    (pt3_A V c t h0).2 = k3_pay1 (F := Ideal) (share3 V c t) (k3_pay2 (F := Ideal)) := by
  dsimp only [pt3_A]
  exact out3_A_7_eq (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) ((hcond3_0 t).mpr h0) (iblk3 V c 0 t) (iblk3 V c 1 t) (iblk3 V c 2 t) (iblk3 V c 3 t) (iblk3 V c 4 t) (iblk3 V c 5 t)

set_option maxHeartbeats 1000000 in
theorem pt3_B_snd (c : Dev nD) (t : Fin cfg3.N) (h0 : ¬t.val % 10 = 0) (xo7 : Vec Ideal S128x128 .f32) :
    (pt3_B V c t h0 xo7).2 = k3_pay1 (F := Ideal) (share3 V c t) (xo7) := by
  dsimp only [pt3_B]
  exact out3_B_7_eq (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (fun h => h0 ((hcond3_0 t).mp h)) (iblk3 V c 0 t) (iblk3 V c 1 t) (iblk3 V c 2 t) (iblk3 V c 3 t) (iblk3 V c 4 t) (iblk3 V c 5 t) xo7

/-- After every point the first output's buffer holds the normalised block of the point's input blocks. -/
theorem outsAt3_fst (c : Dev nD) (t : Fin cfg3.N) :
    (outsAt3 V c t.val t.isLt).1 = k3_pay3 (iblk3 V c 2 t) (iblk3 V c 3 t) (iblk3 V c 0 t) (iblk3 V c 1 t) (iblk3 V c 4 t) := by
  by_cases h0 : t.val % 10 = 0
  · rw [outsAt3_A V c t h0]; exact pt3_A_fst V c t h0
  · rw [outsAt3_B V c t h0]; exact pt3_B_fst V c t h0 _

/-- After point `n` the second output's buffer holds the running sum of the shares of tiles 0 … n: by induction on the
    point; the first point starts from the zero block (0 + x = x), a later point adds to what the point before left. -/
theorem outsAt3_snd (c : Dev nD) : ∀ (n : ℕ) (h : n < cfg3.N) (gn q : Fin 128),
    (outsAt3 V c n h).2 (ix2 gn q) = ∑ t ∈ Finset.range (n + 1), tilePoolN (V c main_v25) (bnOut (V c main_v49_0) (V c main_v51) (V c main_v55) (V c main_v60) (V c main_v61)) t (ix2 gn q)
  | 0, h, gn, q => by
    rw [outsAt3_A V c ⟨0, h⟩ (Nat.zero_mod _), pt3_A_snd, bpay1_3_apply, bpay2_3_apply, zero_add, Finset.sum_range_one, share3_apply]
    unfold tilePoolN
    rw [dif_pos (by decide)]
    rfl
  | n + 1, h, gn, q => by
    have hN : cfg3.N = 10 := N_3
    have hB : ¬(⟨n + 1, h⟩ : Fin cfg3.N).val % 10 = 0 := by dsimp only; omega
    rw [outsAt3_B V c ⟨n + 1, h⟩ hB, pt3_B_snd, bpay1_3_apply, Finset.sum_range_succ, share3_apply]
    have ih := outsAt3_snd c n (Nat.lt_of_succ_lt h) gn q
    refine congrArg₂ (· + ·) ih ?_
    unfold tilePoolN
    rw [dif_pos (by omega)]
    rfl

/-! ## The first output array -/

set_option maxHeartbeats 1000000 in
/-- What point `t` writes back into the first output is tile `t` of the normalised array of the entry arrays. -/
theorem flushed3_6_eq (c : Dev nD) (t : Fin cfg3.N) :
    (dat3 (F := Ideal) V c).flushed 6 t = ((cfg3.win 6).blk t).view.read (Elt Ideal) (bnOut (V c main_v49_0) (V c main_v51) (V c main_v55) (V c main_v60) (V c main_v61)) := by
  show (cfg3.win 6).cut (grid3.coords t) ((dat3 V c).after 6 t) = _
  rw [after3_6, outsAt3_fst]
  obtain ⟨e00, e01, e10, e11, e20, e21, e30, e31, e40, e41, e50, e51, e60, e61, e70, e71⟩ := idx_facts3 t
  funext j
  obtain ⟨p, q, rfl⟩ : ∃ (p : Fin 5000) (q : Fin 128), j = ix2 p q := ⟨j 0, j 1, eq_ix2 j⟩
  show k3_pay3 (iblk3 V c 2 t) (iblk3 V c 3 t) (iblk3 V c 0 t) (iblk3 V c 1 t) (iblk3 V c 4 t) (ix2 p q)
    = bnOut (V c main_v49_0) (V c main_v51) (V c main_v55) (V c main_v60) (V c main_v61) (((cfg3.win 6).blk t).view.emb (ix2 p q))
  rw [pay3_3_blk]
  refine congrArg (bnOut (V c main_v49_0) (V c main_v51) (V c main_v55) (V c main_v60) (V c main_v61)) ?_
  funext a; apply Fin.ext
  match a with
  | ⟨0, _⟩ => show p.val + 5000 * t.val = win3_6.index t (0 : Fin 2) * 5000 + 1 * p.val; omega
  | ⟨1, _⟩ => show q.val = win3_6.index t (1 : Fin 2) * 128 + 1 * q.val; omega

/-- An index of the first output array lies in point `t`'s block when each coordinate lies in the block's range. -/
theorem mem_blk3_6 (t : Fin cfg3.N) (i : S50000x128.Idx) :
    i ∈ ((cfg3.win 6).blk t).view.set ↔ ∀ a : Fin 2, win3_6.index t a * S5000x128.size a ≤ (i a).val ∧ (i a).val < win3_6.index t a * S5000x128.size a + S5000x128.size a := by
  show i ∈ ((View.whole main_v62_0).slice (win3_6.rect t)).set ↔ _
  rw [View.set_slice_whole, Rect.mem_set_unit]
  exact Iff.rfl

/-- Every index of the first output array lies in some point's block: row `r` in the block of point `r / 5000`. -/
theorem cover3_6 (i : S50000x128.Idx) :
    ∃ t : Fin cfg3.N, (cfg3.win 6).flush t = true ∧ i ∈ ((cfg3.win 6).blk t).view.set := by
  have hi0 : (i 0).val < 50000 := (i 0).isLt
  have hi1 : (i 1).val < 128 := (i 1).isLt
  have hN : cfg3.N = 10 := N_3
  have ht : (i 0).val / 5000 < cfg3.N := by rw [hN]; omega
  obtain ⟨e00, e01, e10, e11, e20, e21, e30, e31, e40, e41, e50, e51, e60, e61, e70, e71⟩ := idx_facts3 ⟨(i 0).val / 5000, ht⟩
  refine ⟨⟨(i 0).val / 5000, ht⟩, flush3_6 _, ?_⟩
  rw [mem_blk3_6]
  intro a
  match a with
  | ⟨0, _⟩ =>
    show win3_6.index ⟨(i 0).val / 5000, ht⟩ (0 : Fin 2) * 5000 ≤ (i 0).val
      ∧ (i 0).val < win3_6.index ⟨(i 0).val / 5000, ht⟩ (0 : Fin 2) * 5000 + 5000
    rw [e60]; show (i 0).val / 5000 * 5000 ≤ (i 0).val ∧ (i 0).val < (i 0).val / 5000 * 5000 + 5000; omega
  | ⟨1, _⟩ =>
    show win3_6.index ⟨(i 0).val / 5000, ht⟩ (1 : Fin 2) * 128 ≤ (i 1).val
      ∧ (i 1).val < win3_6.index ⟨(i 0).val / 5000, ht⟩ (1 : Fin 2) * 128 + 128
    rw [e61]; omega

/-- After the region the first output array is the normalised array of the arrays the region read. -/
theorem value3_y (V : (c : Dev nD) → (b : Ref sig .tc) → Buf (Elt Ideal) ((c : Thread nD τ).loc b)) (c : Dev nD) :
    (dat3 (F := Ideal) V c).arrAt 6 cfg3.N = bnOut (V c main_v49_0) (V c main_v51) (V c main_v55) (V c main_v60) (V c main_v61) :=
  (dat3 (F := Ideal) V c).arrAt_eq_of_cover 6 _ (fun t _ => flushed3_6_eq V c t) cover3_6

/-! ## The second output array -/

set_option maxHeartbeats 1000000 in
/-- The one write-back of the second output, after the last point, writes the pooled array: its one block is the whole
    array, and the running sum after the tenth tile is the sum over all rows. -/
theorem flushed3_7_eq (c : Dev nD) (t : Fin cfg3.N) (hf : (cfg3.win 7).flush t = true) :
    (dat3 (F := Ideal) V c).flushed 7 t
      = ((cfg3.win 7).blk t).view.read (Elt Ideal) (bnPool (V c main_v25) (bnOut (V c main_v49_0) (V c main_v51) (V c main_v55) (V c main_v60) (V c main_v61))) := by
  have hN : cfg3.N = 10 := N_3
  have h9 : t.val + 1 = 10 := by have := (flush3_7 t).mp hf; have := t.isLt; omega
  show (cfg3.win 7).cut (grid3.coords t) ((dat3 V c).after 7 t) = _
  rw [after3_7]
  obtain ⟨e00, e01, e10, e11, e20, e21, e30, e31, e40, e41, e50, e51, e60, e61, e70, e71⟩ := idx_facts3 t
  generalize hG : bnPool (V c main_v25) (bnOut (V c main_v49_0) (V c main_v51) (V c main_v55) (V c main_v60) (V c main_v61)) = G
  funext j
  obtain ⟨gn, q, rfl⟩ : ∃ (gn : Fin 128) (q : Fin 128), j = ix2 gn q := ⟨j 0, j 1, eq_ix2 j⟩
  show (outsAt3 V c t.val t.isLt).2 (ix2 gn q) = G (((cfg3.win 7).blk t).view.emb (ix2 gn q))
  have he : ((cfg3.win 7).blk t).view.emb (ix2 gn q) = ix2 gn q := by
    funext a; apply Fin.ext
    match a with
    | ⟨0, _⟩ => show win3_7.index t (0 : Fin 2) * 128 + 1 * gn.val = gn.val; omega
    | ⟨1, _⟩ => show win3_7.index t (1 : Fin 2) * 128 + 1 * q.val = q.val; omega
  rw [he, ← hG, outsAt3_snd V c t.val t.isLt gn q, bnPool_eq_range, h9]

/-- An index of the second output array lies in point `t`'s block when each coordinate lies in the block's range. -/
theorem mem_blk3_7 (t : Fin cfg3.N) (i : S128x128.Idx) :
    i ∈ ((cfg3.win 7).blk t).view.set ↔ ∀ a : Fin 2, win3_7.index t a * S128x128.size a ≤ (i a).val ∧ (i a).val < win3_7.index t a * S128x128.size a + S128x128.size a := by
  show i ∈ ((View.whole main_v62_1).slice (win3_7.rect t)).set ↔ _
  rw [View.set_slice_whole, Rect.mem_set_unit]
  exact Iff.rfl

/-- Every index of the second output array lies in the last point's block, the one that is written back. -/
theorem cover3_7 (i : S128x128.Idx) :
    ∃ t : Fin cfg3.N, (cfg3.win 7).flush t = true ∧ i ∈ ((cfg3.win 7).blk t).view.set := by
  have hi0 : (i 0).val < 128 := (i 0).isLt
  have hi1 : (i 1).val < 128 := (i 1).isLt
  have ht : 9 < cfg3.N := by rw [show cfg3.N = 10 from N_3]; decide
  obtain ⟨e00, e01, e10, e11, e20, e21, e30, e31, e40, e41, e50, e51, e60, e61, e70, e71⟩ := idx_facts3 ⟨9, ht⟩
  refine ⟨⟨9, ht⟩, (flush3_7 _).mpr rfl, ?_⟩
  rw [mem_blk3_7]
  intro a
  match a with
  | ⟨0, _⟩ =>
    show win3_7.index ⟨9, ht⟩ (0 : Fin 2) * 128 ≤ (i 0).val ∧ (i 0).val < win3_7.index ⟨9, ht⟩ (0 : Fin 2) * 128 + 128
    rw [e70]; omega
  | ⟨1, _⟩ =>
    show win3_7.index ⟨9, ht⟩ (1 : Fin 2) * 128 ≤ (i 1).val ∧ (i 1).val < win3_7.index ⟨9, ht⟩ (1 : Fin 2) * 128 + 128
    rw [e71]; omega

/-- After the region the second output array is the pooled array of the graph numbers and the normalised array. -/
theorem value3_pool (V : (c : Dev nD) → (b : Ref sig .tc) → Buf (Elt Ideal) ((c : Thread nD τ).loc b)) (c : Dev nD) :
    (dat3 (F := Ideal) V c).arrAt 7 cfg3.N = bnPool (V c main_v25) (bnOut (V c main_v49_0) (V c main_v51) (V c main_v55) (V c main_v60) (V c main_v61)) :=
  (dat3 (F := Ideal) V c).arrAt_eq_of_cover 7 _ (fun t hf => flushed3_7_eq V c t hf) cover3_7

end Cert.KernelIdeal.Reg

end
-- ==== Proof.KI.Val4.lean ====
import proofs.«144276_j65051574665788_2_alg».proof.Proof.KI.Reg4
import proofs.«144276_j65051574665788_2_alg».proof.Proof.KI.LibBlockOps
import proofs.«144276_j65051574665788_2_alg».proof.Proof.LibOneHotPool
import Idealize.ShloMosaic.Lib.Pipeline.Value
import Idealize.ShloMosaic.PureOps.Ideal.Laws
import Idealize.ShloMosaic.Lib.ValueIdx
import Idealize.ShloMosaic.Lib.Tactic
import proofs.«144276_j65051574665788_2_alg».proof.Proof.KI.Val2

set_option maxRecDepth 16384

noncomputable section

namespace Cert.KernelIdeal.Reg

open Cert.KernelIdeal Cert.KernelIdeal.Gen Cert.LibBlockOps
open Idealize.ShloMosaic Idealize.ShloMosaic.TcCoe Idealize.ShloMosaic.ValueIdx Idealize.ShloMosaic.Tactic Idealize.SL.Sem
open Idealize.ShloMosaic.Pipeline (Dat)

open Finset

/-! # Region 4: what the found pieces are, at any float instance -/

section Pieces
variable {F : FTy → Type} [FloatOps F]

theorem pieceA4_5 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : cond4_0 i)
    (x0 x1 : Vec F S5000x128 .f32) (x2 x3 : Vec F S128x128 .f32) (x4 : Vec F S1x128 .f32) :
    VO4_5.read (Elt F) (VO4_5.writes (Elt F) VO4_5.junk (kernelRun4_A c i arg1 harg1 arg2 harg2 arg3 harg3 arg4 harg4 arg5 harg5 arg6 harg6 arg7 harg7 arg8 harg8 hc0 x0 x1 x2 x3 x4).1) = k4_pay4 x0 x1 x2 x3 x4 := by
  rw [View.read_writes_junk_eq_canon]
  unfold kernelRun4_A
  dsimp only
  sl_unfold_words
  rw [View.canon_unit_zero offsets_zero2]
  simp only [View.readAt_eq_ld, harg1.read_unread, harg2.read_unread, harg3.read_unread, harg4.read_unread, harg5.read_unread,
    View.ld_unit_zero (S := S5000x128) offsets_zero2, View.ld_unit_zero (S := S128x128) offsets_zero2,
    View.ld_unit_zero (S := S1x128) offsets_zero2]

theorem pieceA4_6 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : cond4_0 i)
    (x0 x1 : Vec F S5000x128 .f32) (x2 x3 : Vec F S128x128 .f32) (x4 : Vec F S1x128 .f32) :
    VO4_6.read (Elt F) (VO4_6.writes (Elt F) VO4_6.junk (kernelRun4_A c i arg1 harg1 arg2 harg2 arg3 harg3 arg4 harg4 arg5 harg5 arg6 harg6 arg7 harg7 arg8 harg8 hc0 x0 x1 x2 x3 x4).2.1) = k4_pay5 x0 x1 x2 x3 x4 (k4_pay2 (F := F)) := by
  rw [View.read_writes_junk_eq_canon]
  unfold kernelRun4_A
  dsimp only
  sl_unfold_words
  rw [View.canon_cons_unit_zero (S := S1x128) offsets_zero2, View.readCov_unit_zero (S := S1x128) _ offsets_zero2]
  simp only [View.readAt_eq_ld, harg1.read_unread, harg2.read_unread, harg3.read_unread, harg4.read_unread, harg5.read_unread,
    View.ld_unit_zero (S := S5000x128) offsets_zero2, View.ld_unit_zero (S := S128x128) offsets_zero2,
    View.ld_unit_zero (S := S1x128) offsets_zero2]

theorem pieceA4_7 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : cond4_0 i)
    (x0 x1 : Vec F S5000x128 .f32) (x2 x3 : Vec F S128x128 .f32) (x4 : Vec F S1x128 .f32) :
    VO4_7.read (Elt F) (VO4_7.writes (Elt F) VO4_7.junk (kernelRun4_A c i arg1 harg1 arg2 harg2 arg3 harg3 arg4 harg4 arg5 harg5 arg6 harg6 arg7 harg7 arg8 harg8 hc0 x0 x1 x2 x3 x4).2.2.1) = k4_pay1 (k4_pay6 (k4_pay3 (F := F))) (k4_pay7 x0 x1 x2 x3 x4) := by
  rw [View.read_writes_junk_eq_canon]
  unfold kernelRun4_A
  dsimp only
  sl_unfold_words
  rw [View.canon_cons_unit_zero (S := S1x128) offsets_zero2, View.readCov_unit_zero (S := S1x128) _ offsets_zero2]
  simp only [View.readAt_eq_ld, harg1.read_unread, harg2.read_unread, harg3.read_unread, harg4.read_unread, harg5.read_unread,
    View.ld_unit_zero (S := S5000x128) offsets_zero2, View.ld_unit_zero (S := S128x128) offsets_zero2,
    View.ld_unit_zero (S := S1x128) offsets_zero2]

theorem pieceB4_5 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i)
    (x0 x1 : Vec F S5000x128 .f32) (x2 x3 : Vec F S128x128 .f32) (x4 : Vec F S1x128 .f32) (xo6 xo7 : Vec F S1x128 .f32) :
    VO4_5.read (Elt F) (VO4_5.writes (Elt F) VO4_5.junk (kernelRun4_B c i arg1 harg1 arg2 harg2 arg3 harg3 arg4 harg4 arg5 harg5 arg6 harg6 arg7 harg7 arg8 harg8 hc0 x0 x1 x2 x3 x4 xo6 xo7).1) = k4_pay4 x0 x1 x2 x3 x4 := by
  rw [View.read_writes_junk_eq_canon]
  unfold kernelRun4_B
  dsimp only
  sl_unfold_words
  rw [View.canon_unit_zero offsets_zero2]
  simp only [View.readAt_eq_ld, harg1.read_unread, harg2.read_unread, harg3.read_unread, harg4.read_unread, harg5.read_unread, harg7.read_unread, harg8.read_unread,
    View.ld_unit_zero (S := S5000x128) offsets_zero2, View.ld_unit_zero (S := S128x128) offsets_zero2,
    View.ld_unit_zero (S := S1x128) offsets_zero2]

theorem pieceB4_6 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i)
    (x0 x1 : Vec F S5000x128 .f32) (x2 x3 : Vec F S128x128 .f32) (x4 : Vec F S1x128 .f32) (xo6 xo7 : Vec F S1x128 .f32) :
    VO4_6.read (Elt F) (VO4_6.writes (Elt F) VO4_6.junk (kernelRun4_B c i arg1 harg1 arg2 harg2 arg3 harg3 arg4 harg4 arg5 harg5 arg6 harg6 arg7 harg7 arg8 harg8 hc0 x0 x1 x2 x3 x4 xo6 xo7).2.1) = k4_pay5 x0 x1 x2 x3 x4 xo6 := by
  rw [View.read_writes_junk_eq_canon]
  unfold kernelRun4_B
  dsimp only
  sl_unfold_words
  rw [View.canon_unit_zero offsets_zero2]
  simp only [View.readAt_eq_ld, harg1.read_unread, harg2.read_unread, harg3.read_unread, harg4.read_unread, harg5.read_unread, harg7.read_unread, harg8.read_unread,
    View.ld_unit_zero (S := S5000x128) offsets_zero2, View.ld_unit_zero (S := S128x128) offsets_zero2,
    View.ld_unit_zero (S := S1x128) offsets_zero2]

theorem pieceB4_7 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : ¬cond4_0 i)
    (x0 x1 : Vec F S5000x128 .f32) (x2 x3 : Vec F S128x128 .f32) (x4 : Vec F S1x128 .f32) (xo6 xo7 : Vec F S1x128 .f32) :
    VO4_7.read (Elt F) (VO4_7.writes (Elt F) VO4_7.junk (kernelRun4_B c i arg1 harg1 arg2 harg2 arg3 harg3 arg4 harg4 arg5 harg5 arg6 harg6 arg7 harg7 arg8 harg8 hc0 x0 x1 x2 x3 x4 xo6 xo7).2.2.1) = k4_pay1 (k4_pay6 xo7) (k4_pay7 x0 x1 x2 x3 x4) := by
  rw [View.read_writes_junk_eq_canon]
  unfold kernelRun4_B
  dsimp only
  sl_unfold_words
  rw [View.canon_unit_zero offsets_zero2]
  simp only [View.readAt_eq_ld, harg1.read_unread, harg2.read_unread, harg3.read_unread, harg4.read_unread, harg5.read_unread, harg7.read_unread, harg8.read_unread,
    View.ld_unit_zero (S := S5000x128) offsets_zero2, View.ld_unit_zero (S := S128x128) offsets_zero2,
    View.ld_unit_zero (S := S1x128) offsets_zero2]

variable (V : (c : Dev nD) → (b : Ref sig .tc) → Buf (Elt F) ((c : Thread nD τ).loc b))

/-- The two running accumulators after position `n`: started from the zero rows at the first point, then each point's
    contribution added to what the point before left. -/
def acc4 (c : Dev nD) : (n : ℕ) → n < cfg4.N → Vec F S1x128 .f32 × Vec F S1x128 .f32
  | 0, h => (k4_pay5 (iblk4 V c 0 ⟨0, h⟩) (iblk4 V c 1 ⟨0, h⟩) (iblk4 V c 2 ⟨0, h⟩) (iblk4 V c 3 ⟨0, h⟩) (iblk4 V c 4 ⟨0, h⟩) (k4_pay2 (F := F)),
      k4_pay1 (k4_pay6 (k4_pay3 (F := F))) (k4_pay7 (iblk4 V c 0 ⟨0, h⟩) (iblk4 V c 1 ⟨0, h⟩) (iblk4 V c 2 ⟨0, h⟩) (iblk4 V c 3 ⟨0, h⟩) (iblk4 V c 4 ⟨0, h⟩)))
  | n + 1, h => (k4_pay5 (iblk4 V c 0 ⟨n + 1, h⟩) (iblk4 V c 1 ⟨n + 1, h⟩) (iblk4 V c 2 ⟨n + 1, h⟩) (iblk4 V c 3 ⟨n + 1, h⟩) (iblk4 V c 4 ⟨n + 1, h⟩) (acc4 c n (Nat.lt_of_succ_lt h)).1,
      k4_pay1 (k4_pay6 (acc4 c n (Nat.lt_of_succ_lt h)).2) (k4_pay7 (iblk4 V c 0 ⟨n + 1, h⟩) (iblk4 V c 1 ⟨n + 1, h⟩) (iblk4 V c 2 ⟨n + 1, h⟩) (iblk4 V c 3 ⟨n + 1, h⟩) (iblk4 V c 4 ⟨n + 1, h⟩)))

/-- What the three outputs' staging buffers hold after position `n`: the point's block of the transform and the two
    running accumulators. By induction on the point. -/
theorem outsAt4_eq (c : Dev nD) : ∀ (n : ℕ) (h : n < cfg4.N),
    outsAt4 V c n h = (k4_pay4 (iblk4 V c 0 ⟨n, h⟩) (iblk4 V c 1 ⟨n, h⟩) (iblk4 V c 2 ⟨n, h⟩) (iblk4 V c 3 ⟨n, h⟩) (iblk4 V c 4 ⟨n, h⟩), (acc4 V c n h).1, (acc4 V c n h).2)
  | 0, h => by
    refine (outsAt4_A V c ⟨0, h⟩ (Nat.zero_mod _)).trans ?_
    unfold outsA4
    exact triple_ext (pieceA4_5 c (grid4.coords ⟨0, h⟩) (ms4_0 ⟨0, h⟩) (hs4_0 ⟨0, h⟩) (ms4_1 ⟨0, h⟩) (hs4_1 ⟨0, h⟩) (ms4_2 ⟨0, h⟩) (hs4_2 ⟨0, h⟩) (ms4_3 ⟨0, h⟩) (hs4_3 ⟨0, h⟩) (ms4_4 ⟨0, h⟩) (hs4_4 ⟨0, h⟩) (ms4_5 ⟨0, h⟩) (hs4_5 ⟨0, h⟩) (ms4_6 ⟨0, h⟩) (hs4_6 ⟨0, h⟩) (ms4_7 ⟨0, h⟩) (hs4_7 ⟨0, h⟩) ((hcond4_0 ⟨0, h⟩).mpr (Nat.zero_mod _)) (iblk4 V c 0 ⟨0, h⟩) (iblk4 V c 1 ⟨0, h⟩) (iblk4 V c 2 ⟨0, h⟩) (iblk4 V c 3 ⟨0, h⟩) (iblk4 V c 4 ⟨0, h⟩))
      (pieceA4_6 c (grid4.coords ⟨0, h⟩) (ms4_0 ⟨0, h⟩) (hs4_0 ⟨0, h⟩) (ms4_1 ⟨0, h⟩) (hs4_1 ⟨0, h⟩) (ms4_2 ⟨0, h⟩) (hs4_2 ⟨0, h⟩) (ms4_3 ⟨0, h⟩) (hs4_3 ⟨0, h⟩) (ms4_4 ⟨0, h⟩) (hs4_4 ⟨0, h⟩) (ms4_5 ⟨0, h⟩) (hs4_5 ⟨0, h⟩) (ms4_6 ⟨0, h⟩) (hs4_6 ⟨0, h⟩) (ms4_7 ⟨0, h⟩) (hs4_7 ⟨0, h⟩) ((hcond4_0 ⟨0, h⟩).mpr (Nat.zero_mod _)) (iblk4 V c 0 ⟨0, h⟩) (iblk4 V c 1 ⟨0, h⟩) (iblk4 V c 2 ⟨0, h⟩) (iblk4 V c 3 ⟨0, h⟩) (iblk4 V c 4 ⟨0, h⟩))
      (pieceA4_7 c (grid4.coords ⟨0, h⟩) (ms4_0 ⟨0, h⟩) (hs4_0 ⟨0, h⟩) (ms4_1 ⟨0, h⟩) (hs4_1 ⟨0, h⟩) (ms4_2 ⟨0, h⟩) (hs4_2 ⟨0, h⟩) (ms4_3 ⟨0, h⟩) (hs4_3 ⟨0, h⟩) (ms4_4 ⟨0, h⟩) (hs4_4 ⟨0, h⟩) (ms4_5 ⟨0, h⟩) (hs4_5 ⟨0, h⟩) (ms4_6 ⟨0, h⟩) (hs4_6 ⟨0, h⟩) (ms4_7 ⟨0, h⟩) (hs4_7 ⟨0, h⟩) ((hcond4_0 ⟨0, h⟩).mpr (Nat.zero_mod _)) (iblk4 V c 0 ⟨0, h⟩) (iblk4 V c 1 ⟨0, h⟩) (iblk4 V c 2 ⟨0, h⟩) (iblk4 V c 3 ⟨0, h⟩) (iblk4 V c 4 ⟨0, h⟩))
  | n + 1, h => by
    have hN : cfg4.N = 10 := N_4
    have hB : ¬(⟨n + 1, h⟩ : Fin cfg4.N).val % 10 = 0 := by dsimp only; omega
    refine (outsAt4_B V c ⟨n + 1, h⟩ hB).trans ?_
    show outsB4 V c ⟨n + 1, h⟩ hB (outsAt4 V c n _).2.1 (outsAt4 V c n _).2.2 = _
    rw [outsAt4_eq c n]
    unfold outsB4
    exact triple_ext (pieceB4_5 c (grid4.coords ⟨n + 1, h⟩) (ms4_0 ⟨n + 1, h⟩) (hs4_0 ⟨n + 1, h⟩) (ms4_1 ⟨n + 1, h⟩) (hs4_1 ⟨n + 1, h⟩) (ms4_2 ⟨n + 1, h⟩) (hs4_2 ⟨n + 1, h⟩) (ms4_3 ⟨n + 1, h⟩) (hs4_3 ⟨n + 1, h⟩) (ms4_4 ⟨n + 1, h⟩) (hs4_4 ⟨n + 1, h⟩) (ms4_5 ⟨n + 1, h⟩) (hs4_5 ⟨n + 1, h⟩) (ms4_6 ⟨n + 1, h⟩) (hs4_6 ⟨n + 1, h⟩) (ms4_7 ⟨n + 1, h⟩) (hs4_7 ⟨n + 1, h⟩) (fun hc => hB ((hcond4_0 ⟨n + 1, h⟩).mp hc)) (iblk4 V c 0 ⟨n + 1, h⟩) (iblk4 V c 1 ⟨n + 1, h⟩) (iblk4 V c 2 ⟨n + 1, h⟩) (iblk4 V c 3 ⟨n + 1, h⟩) (iblk4 V c 4 ⟨n + 1, h⟩) _ _)
      (pieceB4_6 c (grid4.coords ⟨n + 1, h⟩) (ms4_0 ⟨n + 1, h⟩) (hs4_0 ⟨n + 1, h⟩) (ms4_1 ⟨n + 1, h⟩) (hs4_1 ⟨n + 1, h⟩) (ms4_2 ⟨n + 1, h⟩) (hs4_2 ⟨n + 1, h⟩) (ms4_3 ⟨n + 1, h⟩) (hs4_3 ⟨n + 1, h⟩) (ms4_4 ⟨n + 1, h⟩) (hs4_4 ⟨n + 1, h⟩) (ms4_5 ⟨n + 1, h⟩) (hs4_5 ⟨n + 1, h⟩) (ms4_6 ⟨n + 1, h⟩) (hs4_6 ⟨n + 1, h⟩) (ms4_7 ⟨n + 1, h⟩) (hs4_7 ⟨n + 1, h⟩) (fun hc => hB ((hcond4_0 ⟨n + 1, h⟩).mp hc)) (iblk4 V c 0 ⟨n + 1, h⟩) (iblk4 V c 1 ⟨n + 1, h⟩) (iblk4 V c 2 ⟨n + 1, h⟩) (iblk4 V c 3 ⟨n + 1, h⟩) (iblk4 V c 4 ⟨n + 1, h⟩) _ _)
      (pieceB4_7 c (grid4.coords ⟨n + 1, h⟩) (ms4_0 ⟨n + 1, h⟩) (hs4_0 ⟨n + 1, h⟩) (ms4_1 ⟨n + 1, h⟩) (hs4_1 ⟨n + 1, h⟩) (ms4_2 ⟨n + 1, h⟩) (hs4_2 ⟨n + 1, h⟩) (ms4_3 ⟨n + 1, h⟩) (hs4_3 ⟨n + 1, h⟩) (ms4_4 ⟨n + 1, h⟩) (hs4_4 ⟨n + 1, h⟩) (ms4_5 ⟨n + 1, h⟩) (hs4_5 ⟨n + 1, h⟩) (ms4_6 ⟨n + 1, h⟩) (hs4_6 ⟨n + 1, h⟩) (ms4_7 ⟨n + 1, h⟩) (hs4_7 ⟨n + 1, h⟩) (fun hc => hB ((hcond4_0 ⟨n + 1, h⟩).mp hc)) (iblk4 V c 0 ⟨n + 1, h⟩) (iblk4 V c 1 ⟨n + 1, h⟩) (iblk4 V c 2 ⟨n + 1, h⟩) (iblk4 V c 3 ⟨n + 1, h⟩) (iblk4 V c 4 ⟨n + 1, h⟩) _ _)

end Pieces

/-! # Region 4: the payloads at an entry, over the extended reals -/

/-- The transform's block at row `p`, column `q`. The narrowings to the short float format are the identity on
    extended reals; each product into the zero block is the sum over the 128 columns; the bias row is stretched over
    the rows. -/
theorem pay4_4_apply (x0 x1 : Vec Ideal S5000x128 .f32) (x2 x3 : Vec Ideal S128x128 .f32) (x4 : Vec Ideal S1x128 .f32) (p : Fin 5000) (q : Fin 128) :
    k4_pay4 x0 x1 x2 x3 x4 (ix2 p q)
      = (∑ k : Fin 128, x0 (ix2 p k) * x2 (ix2 k q) + ∑ k : Fin 128, x1 (ix2 p k) * x3 (ix2 k q)) + x4 (ix2 (0 : Fin 1) q) := by
  unfold k4_pay4
  rw [addf_apply, addf_apply, matmul_zero_apply dot_S5000x128_S128x128_S5000x128_1_0_0_1_n_n rfl,
    matmul_zero_apply dot_S5000x128_S128x128_S5000x128_1_0_0_1_n_n rfl, broadcast_row_apply _ _ (by decide)]
  simp only [shapeCast_self]
  rfl

/-- The sum accumulator's update: what it held plus the block's column sum. -/
theorem pay4_5_apply (x0 x1 : Vec Ideal S5000x128 .f32) (x2 x3 : Vec Ideal S128x128 .f32) (x4 : Vec Ideal S1x128 .f32) (v : Vec Ideal S1x128 .f32) (q : Fin 128) :
    k4_pay5 x0 x1 x2 x3 x4 v (ix2 (0 : Fin 1) q) = v (ix2 (0 : Fin 1) q) + ∑ p : Fin 5000, k4_pay4 x0 x1 x2 x3 x4 (ix2 p q) := by
  unfold k4_pay5
  rw [addf_apply, shapeCast_self]
  exact congrArg (v (ix2 (0 : Fin 1) q) + ·) ((rowcast_apply _ q).trans (colsum_apply _ _ _ q))

/-- The sum-of-squares accumulator's update: what it held plus the column sum of the block's squares. -/
theorem pay4_1_apply (x0 x1 : Vec Ideal S5000x128 .f32) (x2 x3 : Vec Ideal S128x128 .f32) (x4 : Vec Ideal S1x128 .f32) (v : Vec Ideal S1x128 .f32) (q : Fin 128) :
    k4_pay1 (k4_pay6 v) (k4_pay7 x0 x1 x2 x3 x4) (ix2 (0 : Fin 1) q)
      = v (ix2 (0 : Fin 1) q) + ∑ p : Fin 5000, k4_pay4 x0 x1 x2 x3 x4 (ix2 p q) * k4_pay4 x0 x1 x2 x3 x4 (ix2 p q) := by
  unfold k4_pay1 k4_pay6 k4_pay7
  rw [addf_apply, shapeCast_self]
  exact congrArg (v (ix2 (0 : Fin 1) q) + ·) ((rowcast_apply _ q).trans (colsum_apply _ _ _ q))

/-- The zero rows the first point stores. -/
theorem pay4_2_apply (j : S1x128.Idx) : k4_pay2 (F := Ideal) j = 0 := by
  unfold k4_pay2
  rw [broadcast_apply]
  exact Ideal.ofBits_zero_f32
theorem pay4_3_apply (j : S1x128.Idx) : k4_pay3 (F := Ideal) j = 0 := by
  unfold k4_pay3
  rw [broadcast_apply]
  exact Ideal.ofBits_zero_f32

/-! # Region 4: from blocks to arrays -/

section Arrays
-- what the TensorCore's buffers hold, as extended reals, when the region is entered
variable (V : (c : Dev nD) → (b : Ref sig .tc) → Buf (Elt Ideal) ((c : Thread nD τ).loc b))

/-- The block indices at every grid point: the two row-blocked inputs and the first output are at block `t` at point
    `t`; every other block index is 0. Decided over the ten points. -/
theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0
    ∧ win4_6.index t (0 : Fin 2) = 0 ∧ win4_6.index t (1 : Fin 2) = 0
    ∧ win4_7.index t (0 : Fin 2) = 0 ∧ win4_7.index t (1 : Fin 2) = 0 :=
  (by decide +kernel : ∀ t : Fin grid4.N, _)

/-- Point `t` as one of the ten tiles. -/
def tileOf4 (t : Fin cfg4.N) : Fin 10 := ⟨t.val, lt_of_lt_of_eq t.isLt N_4⟩

set_option maxHeartbeats 1000000 in
/-- Point `t`'s block of the transform, at row `p` and column `q`, is the whole-array transform of the arrays the
    region finds at row `p` of tile `t`. -/
theorem blk4_eq (c : Dev nD) (t : Fin cfg4.N) (p : Fin 5000) (q : Fin 128) :
    k4_pay4 (iblk4 V c 0 t) (iblk4 V c 1 t) (iblk4 V c 2 t) (iblk4 V c 3 t) (iblk4 V c 4 t) (ix2 p q) = (ltOut (V c main_v78) (V c main_v62_0) (V c main_v80) (V c main_v82) (V c main_v85)) (ix2 (tileRow (tileOf4 t) p) q) := by
  obtain ⟨e00, e01, e10, e11, e20, e21, e30, e31, e40, e41, e50, e51, e60, e61, e70, e71⟩ := idx_facts4 t
  rw [pay4_4_apply, ltOut_ix2]
  have h0 : ∀ k : Fin 128, ((cfg4.win 0).blk t).view.emb (ix2 p k) = ix2 (tileRow (tileOf4 t) p) k := by
    intro k; funext a; apply Fin.ext
    match a with
    | ⟨0, _⟩ => show win4_0.index t (0 : Fin 2) * 5000 + 1 * p.val = p.val + 5000 * t.val; omega
    | ⟨1, _⟩ => show win4_0.index t (1 : Fin 2) * 128 + 1 * k.val = k.val; omega
  have h1 : ∀ k : Fin 128, ((cfg4.win 1).blk t).view.emb (ix2 p k) = ix2 (tileRow (tileOf4 t) p) k := by
    intro k; funext a; apply Fin.ext
    match a with
    | ⟨0, _⟩ => show win4_1.index t (0 : Fin 2) * 5000 + 1 * p.val = p.val + 5000 * t.val; omega
    | ⟨1, _⟩ => show win4_1.index t (1 : Fin 2) * 128 + 1 * k.val = k.val; omega
  have h2 : ∀ k : Fin 128, ((cfg4.win 2).blk t).view.emb (ix2 k q) = ix2 k q := by
    intro k; funext a; apply Fin.ext
    match a with
    | ⟨0, _⟩ => show win4_2.index t (0 : Fin 2) * 128 + 1 * k.val = k.val; omega
    | ⟨1, _⟩ => show win4_2.index t (1 : Fin 2) * 128 + 1 * q.val = q.val; omega
  have h3 : ∀ k : Fin 128, ((cfg4.win 3).blk t).view.emb (ix2 k q) = ix2 k q := by
    intro k; funext a; apply Fin.ext
    match a with
    | ⟨0, _⟩ => show win4_3.index t (0 : Fin 2) * 128 + 1 * k.val = k.val; omega
    | ⟨1, _⟩ => show win4_3.index t (1 : Fin 2) * 128 + 1 * q.val = q.val; omega
  have h4 : ((cfg4.win 4).blk t).view.emb (ix2 (0 : Fin 1) q) = ix2 (0 : Fin 1) q := by
    funext a; apply Fin.ext
    match a with
    | ⟨0, _⟩ => show win4_4.index t (0 : Fin 2) * 1 + 1 * 0 = 0; omega
    | ⟨1, _⟩ => show win4_4.index t (1 : Fin 2) * 128 + 1 * q.val = q.val; omega
  have hx0 : ∀ k : Fin 128, iblk4 V c 0 t (ix2 p k) = V c main_v78 (ix2 (tileRow (tileOf4 t) p) k) :=
    fun k => congrArg (V c main_v78) (h0 k)
  have hx1 : ∀ k : Fin 128, iblk4 V c 1 t (ix2 p k) = V c main_v62_0 (ix2 (tileRow (tileOf4 t) p) k) :=
    fun k => congrArg (V c main_v62_0) (h1 k)
  have hx2 : ∀ k : Fin 128, iblk4 V c 2 t (ix2 k q) = V c main_v80 (ix2 k q) :=
    fun k => congrArg (V c main_v80) (h2 k)
  have hx3 : ∀ k : Fin 128, iblk4 V c 3 t (ix2 k q) = V c main_v82 (ix2 k q) :=
    fun k => congrArg (V c main_v82) (h3 k)
  have hx4 : iblk4 V c 4 t (ix2 (0 : Fin 1) q) = V c main_v85 (ix2 (0 : Fin 1) q) :=
    congrArg (V c main_v85) h4
  rw [hx4]
  exact congrArg (· + _) (congrArg₂ (· + ·) (Finset.sum_congr rfl fun k _ => by rw [hx0 k, hx2 k])
    (Finset.sum_congr rfl fun k _ => by rw [hx1 k, hx3 k]))

/-- The sum accumulator after position `n`, at column `q`: the column sums of the transform over the first `n + 1` tiles. -/
theorem acc4_sum (c : Dev nD) (q : Fin 128) : ∀ (n : ℕ) (h : n < cfg4.N),
    (acc4 V c n h).1 (ix2 (0 : Fin 1) q) = ∑ t ∈ Finset.range (n + 1), tileSum (fun r => (ltOut (V c main_v78) (V c main_v62_0) (V c main_v80) (V c main_v82) (V c main_v85)) (ix2 r q)) t
  | 0, h => by
    have hN : cfg4.N = 10 := N_4
    show k4_pay5 (iblk4 V c 0 ⟨0, h⟩) (iblk4 V c 1 ⟨0, h⟩) (iblk4 V c 2 ⟨0, h⟩) (iblk4 V c 3 ⟨0, h⟩) (iblk4 V c 4 ⟨0, h⟩) (k4_pay2 (F := Ideal)) (ix2 (0 : Fin 1) q) = _
    rw [pay4_5_apply, pay4_2_apply, zero_add, Finset.sum_range_one, tileSum_of_lt _ 0 (by omega)]
    exact Finset.sum_congr rfl fun p _ => blk4_eq V c ⟨0, h⟩ p q
  | n + 1, h => by
    have hN : cfg4.N = 10 := N_4
    show k4_pay5 (iblk4 V c 0 ⟨n + 1, h⟩) (iblk4 V c 1 ⟨n + 1, h⟩) (iblk4 V c 2 ⟨n + 1, h⟩) (iblk4 V c 3 ⟨n + 1, h⟩) (iblk4 V c 4 ⟨n + 1, h⟩) (acc4 V c n _).1 (ix2 (0 : Fin 1) q) = _
    rw [pay4_5_apply, acc4_sum c q n, Finset.sum_range_succ _ (n + 1), tileSum_of_lt _ (n + 1) (by omega)]
    exact congrArg (_ + ·) (Finset.sum_congr rfl fun p _ => blk4_eq V c ⟨n + 1, h⟩ p q)

/-- The sum-of-squares accumulator after position `n`, at column `q`. -/
theorem acc4_sumsq (c : Dev nD) (q : Fin 128) : ∀ (n : ℕ) (h : n < cfg4.N),
    (acc4 V c n h).2 (ix2 (0 : Fin 1) q)
      = ∑ t ∈ Finset.range (n + 1), tileSum (fun r => (ltOut (V c main_v78) (V c main_v62_0) (V c main_v80) (V c main_v82) (V c main_v85)) (ix2 r q) * (ltOut (V c main_v78) (V c main_v62_0) (V c main_v80) (V c main_v82) (V c main_v85)) (ix2 r q)) t
  | 0, h => by
    have hN : cfg4.N = 10 := N_4
    show k4_pay1 (k4_pay6 (k4_pay3 (F := Ideal))) (k4_pay7 (iblk4 V c 0 ⟨0, h⟩) (iblk4 V c 1 ⟨0, h⟩) (iblk4 V c 2 ⟨0, h⟩) (iblk4 V c 3 ⟨0, h⟩) (iblk4 V c 4 ⟨0, h⟩)) (ix2 (0 : Fin 1) q) = _
    rw [pay4_1_apply, pay4_3_apply, zero_add, Finset.sum_range_one, tileSum_of_lt _ 0 (by omega)]
    exact Finset.sum_congr rfl fun p _ => by rw [blk4_eq V c ⟨0, h⟩ p q]; rfl
  | n + 1, h => by
    have hN : cfg4.N = 10 := N_4
    show k4_pay1 (k4_pay6 (acc4 V c n _).2) (k4_pay7 (iblk4 V c 0 ⟨n + 1, h⟩) (iblk4 V c 1 ⟨n + 1, h⟩) (iblk4 V c 2 ⟨n + 1, h⟩) (iblk4 V c 3 ⟨n + 1, h⟩) (iblk4 V c 4 ⟨n + 1, h⟩)) (ix2 (0 : Fin 1) q) = _
    rw [pay4_1_apply, acc4_sumsq c q n, Finset.sum_range_succ _ (n + 1), tileSum_of_lt _ (n + 1) (by omega)]
    exact congrArg (_ + ·) (Finset.sum_congr rfl fun p _ => by rw [blk4_eq V c ⟨n + 1, h⟩ p q]; rfl)

set_option maxHeartbeats 1000000 in
/-- What point `t` writes back of the first output is block `t` of the whole-array transform. -/
theorem flushed4_5_eq (c : Dev nD) (t : Fin cfg4.N) :
    (dat4 (F := Ideal) V c).flushed 5 t = ((cfg4.win 5).blk t).view.read (Elt Ideal) (ltOut (V c main_v78) (V c main_v62_0) (V c main_v80) (V c main_v82) (V c main_v85)) := by
  show (cfg4.win 5).cut (grid4.coords t) ((dat4 V c).after 5 t) = _
  rw [after4_5, outsAt4_eq]
  obtain ⟨e00, e01, e10, e11, e20, e21, e30, e31, e40, e41, e50, e51, e60, e61, e70, e71⟩ := idx_facts4 t
  funext j
  obtain ⟨p, q, rfl⟩ : ∃ (p : Fin 5000) (q : Fin 128), j = ix2 p q := ⟨j 0, j 1, eq_ix2 j⟩
  show k4_pay4 (iblk4 V c 0 t) (iblk4 V c 1 t) (iblk4 V c 2 t) (iblk4 V c 3 t) (iblk4 V c 4 t) (ix2 p q) = (ltOut (V c main_v78) (V c main_v62_0) (V c main_v80) (V c main_v82) (V c main_v85)) (((cfg4.win 5).blk t).view.emb (ix2 p q))
  rw [blk4_eq V c t p q]
  refine congrArg (ltOut (V c main_v78) (V c main_v62_0) (V c main_v80) (V c main_v82) (V c main_v85)) (funext fun a => Fin.ext ?_)
  match a with
  | ⟨0, _⟩ => show p.val + 5000 * t.val = win4_5.index t (0 : Fin 2) * 5000 + 1 * p.val; omega
  | ⟨1, _⟩ => show q.val = win4_5.index t (1 : Fin 2) * 128 + 1 * q.val; omega

/-- An index of the first output array lies in point `t`'s block when each coordinate lies in the block's range. -/
theorem mem_blk4_5 (t : Fin cfg4.N) (i : S50000x128.Idx) :
    i ∈ ((cfg4.win 5).blk t).view.set ↔ ∀ a : Fin 2, win4_5.index t a * S5000x128.size a ≤ (i a).val ∧ (i a).val < win4_5.index t a * S5000x128.size a + S5000x128.size a := by
  show i ∈ ((View.whole main_v86_0).slice (win4_5.rect t)).set ↔ _
  rw [View.set_slice_whole, Rect.mem_set_unit]
  exact Iff.rfl

/-- Every index of the first output array lies in some point's block: row `r` in the block of point `r / 5000`. -/
theorem cover4_5 (i : S50000x128.Idx) :
    ∃ t : Fin cfg4.N, (cfg4.win 5).flush t = true ∧ i ∈ ((cfg4.win 5).blk t).view.set := by
  have hi0 : (i 0).val < 50000 := (i 0).isLt
  have hi1 : (i 1).val < 128 := (i 1).isLt
  have hN : cfg4.N = 10 := N_4
  have ht : (i 0).val / 5000 < cfg4.N := by rw [hN]; omega
  obtain ⟨e00, e01, e10, e11, e20, e21, e30, e31, e40, e41, e50, e51, e60, e61, e70, e71⟩ := idx_facts4 ⟨(i 0).val / 5000, ht⟩
  refine ⟨⟨(i 0).val / 5000, ht⟩, flush4_5 _, ?_⟩
  rw [mem_blk4_5]
  intro a
  match a with
  | ⟨0, _⟩ =>
    show win4_5.index ⟨(i 0).val / 5000, ht⟩ (0 : Fin 2) * 5000 ≤ (i 0).val
      ∧ (i 0).val < win4_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win4_5.index ⟨(i 0).val / 5000, ht⟩ (1 : Fin 2) * 128 ≤ (i 1).val
      ∧ (i 1).val < win4_5.index ⟨(i 0).val / 5000, ht⟩ (1 : Fin 2) * 128 + 128
    rw [e51]; omega

/-- The first output array after the region is the transform of the five arrays the region read. -/
theorem value4_o (V : (c : Dev nD) → (b : Ref sig .tc) → Buf (Elt Ideal) ((c : Thread nD τ).loc b)) (c : Dev nD) :
    (dat4 (F := Ideal) V c).arrAt 5 cfg4.N = ltOut (V c main_v78) (V c main_v62_0) (V c main_v80) (V c main_v82) (V c main_v85) :=
  (dat4 (F := Ideal) V c).arrAt_eq_of_cover 5 _ (fun t _ => flushed4_5_eq V c t) cover4_5

set_option maxHeartbeats 1000000 in
/-- The one write-back of output 6, at the last point, writes the column sums of the whole-array transform. -/
theorem flushed4_6_eq (c : Dev nD) (t : Fin cfg4.N) (hf : (cfg4.win 6).flush t = true) :
    (dat4 (F := Ideal) V c).flushed 6 t = ((cfg4.win 6).blk t).view.read (Elt Ideal) (ltSum (ltOut (V c main_v78) (V c main_v62_0) (V c main_v80) (V c main_v82) (V c main_v85))) := by
  have hN : cfg4.N = 10 := N_4
  have h9 : t.val = 9 := by have := (flush4_6 t).mp hf; have := t.isLt; omega
  obtain ⟨e00, e01, e10, e11, e20, e21, e30, e31, e40, e41, e50, e51, e60, e61, e70, e71⟩ := idx_facts4 t
  have hacc : (acc4 V c t.val t.isLt).1 = ltSum (ltOut (V c main_v78) (V c main_v62_0) (V c main_v80) (V c main_v82) (V c main_v85)) := by
    funext j
    obtain ⟨p, q, rfl⟩ : ∃ (p : Fin 1) (q : Fin 128), j = ix2 p q := ⟨j 0, j 1, eq_ix2 j⟩
    obtain rfl : p = 0 := Subsingleton.elim _ _
    rw [acc4_sum V c q t.val t.isLt, h9]
    exact sum_range_tiles (fun r => (ltOut (V c main_v78) (V c main_v62_0) (V c main_v80) (V c main_v82) (V c main_v85)) (ix2 r q))
  show (cfg4.win 6).cut (grid4.coords t) ((dat4 V c).after 6 t) = _
  rw [after4_6, outsAt4_eq]
  (try dsimp only)
  rw [hacc]
  have hz' : (fun a => win4_6.index t a * main_v86_1.ty.shape.size a) = fun _ => 0 := funext fun a => by
    match a with
    | ⟨0, _⟩ => show win4_6.index t (0 : Fin 2) * 1 = 0; omega
    | ⟨1, _⟩ => show win4_6.index t (1 : Fin 2) * 128 = 0; omega
  exact (Memref.read_access_unit_zero (Elt Ideal) main_v86_1 hz' (fun a => by rw [congrFun hz' a]; simp) (ltSum (ltOut (V c main_v78) (V c main_v62_0) (V c main_v80) (V c main_v82) (V c main_v85)))).symm

/-- An index of output 6's array lies in point `t`'s block when each coordinate lies in the block's range. -/
theorem mem_blk4_6 (t : Fin cfg4.N) (i : S1x128.Idx) :
    i ∈ ((cfg4.win 6).blk t).view.set ↔ ∀ a : Fin 2, win4_6.index t a * S1x128.size a ≤ (i a).val ∧ (i a).val < win4_6.index t a * S1x128.size a + S1x128.size a := by
  show i ∈ ((View.whole main_v86_1).slice (win4_6.rect t)).set ↔ _
  rw [View.set_slice_whole, Rect.mem_set_unit]
  exact Iff.rfl

/-- The last point's block is the whole of output 6's array. -/
theorem cover4_6 (i : S1x128.Idx) :
    ∃ t : Fin cfg4.N, (cfg4.win 6).flush t = true ∧ i ∈ ((cfg4.win 6).blk t).view.set := by
  have hi0 : (i 0).val < 1 := (i 0).isLt
  have hi1 : (i 1).val < 128 := (i 1).isLt
  obtain ⟨e00, e01, e10, e11, e20, e21, e30, e31, e40, e41, e50, e51, e60, e61, e70, e71⟩ := idx_facts4 t4_9
  refine ⟨t4_9, (flush4_6 t4_9).mpr rfl, ?_⟩
  rw [mem_blk4_6]
  intro a
  match a with
  | ⟨0, _⟩ =>
    show win4_6.index t4_9 (0 : Fin 2) * 1 ≤ (i 0).val ∧ (i 0).val < win4_6.index t4_9 (0 : Fin 2) * 1 + 1
    omega
  | ⟨1, _⟩ =>
    show win4_6.index t4_9 (1 : Fin 2) * 128 ≤ (i 1).val ∧ (i 1).val < win4_6.index t4_9 (1 : Fin 2) * 128 + 128
    omega

/-- Output 6's array after the region: the column sums of the transform of the five arrays the region read. -/
theorem value4_sum (V : (c : Dev nD) → (b : Ref sig .tc) → Buf (Elt Ideal) ((c : Thread nD τ).loc b)) (c : Dev nD) :
    (dat4 (F := Ideal) V c).arrAt 6 cfg4.N = ltSum (ltOut (V c main_v78) (V c main_v62_0) (V c main_v80) (V c main_v82) (V c main_v85)) :=
  (dat4 (F := Ideal) V c).arrAt_eq_of_cover 6 _ (flushed4_6_eq V c) cover4_6

set_option maxHeartbeats 1000000 in
/-- The one write-back of output 7, at the last point, writes the column sums of squares of the whole-array transform. -/
theorem flushed4_7_eq (c : Dev nD) (t : Fin cfg4.N) (hf : (cfg4.win 7).flush t = true) :
    (dat4 (F := Ideal) V c).flushed 7 t = ((cfg4.win 7).blk t).view.read (Elt Ideal) (ltSumSq (ltOut (V c main_v78) (V c main_v62_0) (V c main_v80) (V c main_v82) (V c main_v85))) := by
  have hN : cfg4.N = 10 := N_4
  have h9 : t.val = 9 := by have := (flush4_7 t).mp hf; have := t.isLt; omega
  obtain ⟨e00, e01, e10, e11, e20, e21, e30, e31, e40, e41, e50, e51, e60, e61, e70, e71⟩ := idx_facts4 t
  have hacc : (acc4 V c t.val t.isLt).2 = ltSumSq (ltOut (V c main_v78) (V c main_v62_0) (V c main_v80) (V c main_v82) (V c main_v85)) := by
    funext j
    obtain ⟨p, q, rfl⟩ : ∃ (p : Fin 1) (q : Fin 128), j = ix2 p q := ⟨j 0, j 1, eq_ix2 j⟩
    obtain rfl : p = 0 := Subsingleton.elim _ _
    rw [acc4_sumsq V c q t.val t.isLt, h9]
    exact sum_range_tiles (fun r => (ltOut (V c main_v78) (V c main_v62_0) (V c main_v80) (V c main_v82) (V c main_v85)) (ix2 r q) * (ltOut (V c main_v78) (V c main_v62_0) (V c main_v80) (V c main_v82) (V c main_v85)) (ix2 r q))
  show (cfg4.win 7).cut (grid4.coords t) ((dat4 V c).after 7 t) = _
  rw [after4_7, outsAt4_eq]
  (try dsimp only)
  rw [hacc]
  have hz' : (fun a => win4_7.index t a * main_v86_2.ty.shape.size a) = fun _ => 0 := funext fun a => by
    match a with
    | ⟨0, _⟩ => show win4_7.index t (0 : Fin 2) * 1 = 0; omega
    | ⟨1, _⟩ => show win4_7.index t (1 : Fin 2) * 128 = 0; omega
  exact (Memref.read_access_unit_zero (Elt Ideal) main_v86_2 hz' (fun a => by rw [congrFun hz' a]; simp) (ltSumSq (ltOut (V c main_v78) (V c main_v62_0) (V c main_v80) (V c main_v82) (V c main_v85)))).symm

/-- An index of output 7's array lies in point `t`'s block when each coordinate lies in the block's range. -/
theorem mem_blk4_7 (t : Fin cfg4.N) (i : S1x128.Idx) :
    i ∈ ((cfg4.win 7).blk t).view.set ↔ ∀ a : Fin 2, win4_7.index t a * S1x128.size a ≤ (i a).val ∧ (i a).val < win4_7.index t a * S1x128.size a + S1x128.size a := by
  show i ∈ ((View.whole main_v86_2).slice (win4_7.rect t)).set ↔ _
  rw [View.set_slice_whole, Rect.mem_set_unit]
  exact Iff.rfl

/-- The last point's block is the whole of output 7's array. -/
theorem cover4_7 (i : S1x128.Idx) :
    ∃ t : Fin cfg4.N, (cfg4.win 7).flush t = true ∧ i ∈ ((cfg4.win 7).blk t).view.set := by
  have hi0 : (i 0).val < 1 := (i 0).isLt
  have hi1 : (i 1).val < 128 := (i 1).isLt
  obtain ⟨e00, e01, e10, e11, e20, e21, e30, e31, e40, e41, e50, e51, e60, e61, e70, e71⟩ := idx_facts4 t4_9
  refine ⟨t4_9, (flush4_7 t4_9).mpr rfl, ?_⟩
  rw [mem_blk4_7]
  intro a
  match a with
  | ⟨0, _⟩ =>
    show win4_7.index t4_9 (0 : Fin 2) * 1 ≤ (i 0).val ∧ (i 0).val < win4_7.index t4_9 (0 : Fin 2) * 1 + 1
    omega
  | ⟨1, _⟩ =>
    show win4_7.index t4_9 (1 : Fin 2) * 128 ≤ (i 1).val ∧ (i 1).val < win4_7.index t4_9 (1 : Fin 2) * 128 + 128
    omega

/-- Output 7's array after the region: the column sums of squares of the transform of the five arrays the region read. -/
theorem value4_sumsq (V : (c : Dev nD) → (b : Ref sig .tc) → Buf (Elt Ideal) ((c : Thread nD τ).loc b)) (c : Dev nD) :
    (dat4 (F := Ideal) V c).arrAt 7 cfg4.N = ltSumSq (ltOut (V c main_v78) (V c main_v62_0) (V c main_v80) (V c main_v82) (V c main_v85)) :=
  (dat4 (F := Ideal) V c).arrAt_eq_of_cover 7 _ (flushed4_7_eq V c) cover4_7

end Arrays

end Cert.KernelIdeal.Reg

end
-- ==== Proof.KI.Val5.lean ====
import proofs.«144276_j65051574665788_2_alg».proof.Proof.KI.Reg5
import proofs.«144276_j65051574665788_2_alg».proof.Proof.KI.LibBnPool
import Idealize.ShloMosaic.Lib.Pipeline.Value
import Idealize.ShloMosaic.PureOps.Ideal.Laws
import Idealize.ShloMosaic.Lib.ValueIdx
import Idealize.ShloMosaic.Lib.Tactic

/-! # Region 5 read as two arrays

After the region its first output array is the normalised array of the region's entry arrays, entry (n, j) being
γ[j] · (h[n, j] − μ[j]) · rsqrt(σ²[j] + ε) + β[j] clamped below at 0, and its second output array is the pooled array: entry (g, j) the
sum of the normalised rows whose graph number is the word of g.

The ten grid points write the ten tiles of 5000 rows of the first array, point `t` tile `t`. The second array is one block,
revisited at every point: zeroed and added tile 0's share at the first point, added tile `t`'s share at point `t`, written
back after the last. So what its buffer holds after point `n` is the running sum of the shares of tiles 0 … n, by induction
on the point, and after the tenth tile that is the sum over all rows. -/

set_option maxRecDepth 16384

noncomputable section

namespace Cert.KernelIdeal.Reg

open Cert.KernelIdeal Cert.KernelIdeal.Gen Cert.LibBlockOps
open Idealize.ShloMosaic Idealize.ShloMosaic.TcCoe Idealize.ShloMosaic.Tactic Idealize.ShloMosaic.ValueIdx Idealize.SL.Sem
open Idealize.ShloMosaic.Pipeline (Dat)

/-! ## What each case's stores leave, as payloads of the blocks -/

section Pieces
variable {F : FTy → Type} [FloatOps F]

/-- Case A leaves in output 6 its one covering store's payload: the normalised block of the input blocks. -/
theorem out5_A_6_eq (c : Dev nD) (i : grid5.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : cond5_0 i)
    (x0 : Vec F S5000x128 .f32) (x1 : Vec F S1x128 .f32) (x2 : Vec F S1x128 .f32) (x3 : Vec F S1x128 .f32) (x4 : Vec F S1x128 .f32) (x5 : Vec F S5000x1 .i32) :
    out5_A_6 c i arg1 harg1 arg2 harg2 arg3 harg3 arg4 harg4 arg5 harg5 arg6 harg6 arg7 harg7 arg8 harg8 hc0 x0 x1 x2 x3 x4 x5 = k5_pay3 x2 x3 x0 x1 x4 := by
  unfold out5_A_6
  rw [View.read_writes_eq_canon _ _ _ (cover5_A_6 c i arg1 harg1 arg2 harg2 arg3 harg3 arg4 harg4 arg5 harg5 arg6 harg6 arg7 harg7 arg8 harg8 hc0 x0 x1 x2 x3 x4 x5)]
  unfold kernelRun5_A
  dsimp only
  try sl_unfold_words
  rw [View.canon_unit_zero offsets_zero2]
  simp only [View.readAt_eq_ld, harg1.read_unread, harg2.read_unread, harg3.read_unread, harg4.read_unread, harg5.read_unread, harg6.read_unread, harg8.read_unread, View.ld_unit_zero (S := S5000x128) offsets_zero2, View.ld_unit_zero (S := S1x128) offsets_zero2, View.ld_unit_zero (S := S5000x1) offsets_zero2, View.ld_unit_zero (S := S128x128) offsets_zero2]

/-- Case B leaves the same there. -/
theorem out5_B_6_eq (c : Dev nD) (i : grid5.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : ¬cond5_0 i)
    (x0 : Vec F S5000x128 .f32) (x1 : Vec F S1x128 .f32) (x2 : Vec F S1x128 .f32) (x3 : Vec F S1x128 .f32) (x4 : Vec F S1x128 .f32) (x5 : Vec F S5000x1 .i32) (xo7 : Vec F S128x128 .f32) :
    out5_B_6 c i arg1 harg1 arg2 harg2 arg3 harg3 arg4 harg4 arg5 harg5 arg6 harg6 arg7 harg7 arg8 harg8 hc0 x0 x1 x2 x3 x4 x5 xo7 = k5_pay3 x2 x3 x0 x1 x4 := by
  unfold out5_B_6
  rw [View.read_writes_eq_canon _ _ _ (cover5_B_6 c i arg1 harg1 arg2 harg2 arg3 harg3 arg4 harg4 arg5 harg5 arg6 harg6 arg7 harg7 arg8 harg8 hc0 x0 x1 x2 x3 x4 x5 xo7)]
  unfold kernelRun5_B
  dsimp only
  try sl_unfold_words
  rw [View.canon_unit_zero offsets_zero2]
  simp only [View.readAt_eq_ld, harg1.read_unread, harg2.read_unread, harg3.read_unread, harg4.read_unread, harg5.read_unread, harg6.read_unread, harg8.read_unread, View.ld_unit_zero (S := S5000x128) offsets_zero2, View.ld_unit_zero (S := S1x128) offsets_zero2, View.ld_unit_zero (S := S5000x1) offsets_zero2, View.ld_unit_zero (S := S128x128) offsets_zero2]

/-- Case A leaves in output 7 the tile's share added to the zero block it has just stored and read back. -/
theorem out5_A_7_eq (c : Dev nD) (i : grid5.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : cond5_0 i)
    (x0 : Vec F S5000x128 .f32) (x1 : Vec F S1x128 .f32) (x2 : Vec F S1x128 .f32) (x3 : Vec F S1x128 .f32) (x4 : Vec F S1x128 .f32) (x5 : Vec F S5000x1 .i32) :
    out5_A_7 c i arg1 harg1 arg2 harg2 arg3 harg3 arg4 harg4 arg5 harg5 arg6 harg6 arg7 harg7 arg8 harg8 hc0 x0 x1 x2 x3 x4 x5 = k5_pay1 (k5_pay4 x2 x3 x0 x1 x4 x5) (k5_pay2 (F := F)) := by
  unfold out5_A_7
  rw [View.read_writes_eq_canon _ _ _ (cover5_A_7 c i arg1 harg1 arg2 harg2 arg3 harg3 arg4 harg4 arg5 harg5 arg6 harg6 arg7 harg7 arg8 harg8 hc0 x0 x1 x2 x3 x4 x5)]
  unfold kernelRun5_A
  dsimp only
  sl_unfold_words
  rw [View.canon_cons_unit_zero (S := S128x128) offsets_zero2, View.readCov_unit_zero (S := S128x128) _ offsets_zero2]
  simp only [View.readAt_eq_ld, harg1.read_unread, harg2.read_unread, harg3.read_unread, harg4.read_unread, harg5.read_unread, harg6.read_unread, harg8.read_unread, View.ld_unit_zero (S := S5000x128) offsets_zero2, View.ld_unit_zero (S := S1x128) offsets_zero2, View.ld_unit_zero (S := S5000x1) offsets_zero2, View.ld_unit_zero (S := S128x128) offsets_zero2]

/-- Case B leaves there the tile's share added to what the buffer held. -/
theorem out5_B_7_eq (c : Dev nD) (i : grid5.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : ¬cond5_0 i)
    (x0 : Vec F S5000x128 .f32) (x1 : Vec F S1x128 .f32) (x2 : Vec F S1x128 .f32) (x3 : Vec F S1x128 .f32) (x4 : Vec F S1x128 .f32) (x5 : Vec F S5000x1 .i32) (xo7 : Vec F S128x128 .f32) :
    out5_B_7 c i arg1 harg1 arg2 harg2 arg3 harg3 arg4 harg4 arg5 harg5 arg6 harg6 arg7 harg7 arg8 harg8 hc0 x0 x1 x2 x3 x4 x5 xo7 = k5_pay1 (k5_pay4 x2 x3 x0 x1 x4 x5) xo7 := by
  unfold out5_B_7
  rw [View.read_writes_eq_canon _ _ _ (cover5_B_7 c i arg1 harg1 arg2 harg2 arg3 harg3 arg4 harg4 arg5 harg5 arg6 harg6 arg7 harg7 arg8 harg8 hc0 x0 x1 x2 x3 x4 x5 xo7)]
  unfold kernelRun5_B
  dsimp only
  sl_unfold_words
  rw [View.canon_unit_zero offsets_zero2]
  simp only [View.readAt_eq_ld, harg1.read_unread, harg2.read_unread, harg3.read_unread, harg4.read_unread, harg5.read_unread, harg6.read_unread, harg8.read_unread, View.ld_unit_zero (S := S5000x128) offsets_zero2, View.ld_unit_zero (S := S1x128) offsets_zero2, View.ld_unit_zero (S := S5000x1) offsets_zero2, View.ld_unit_zero (S := S128x128) offsets_zero2]

end Pieces

/-! ## The payloads at an entry, over the extended reals -/

/-- The normalised block at row `p`, column `q`: the four rows [1, 128] are stretched over the 5000 rows. -/
theorem bpay3_5_apply (var g : Vec Ideal S1x128 .f32) (h : Vec Ideal S5000x128 .f32) (mu b : Vec Ideal S1x128 .f32)
    (p : Fin 5000) (q : Fin 128) :
    k5_pay3 var g h mu b (ix2 p q)
      = max (g (ix2 (0 : Fin 1) q) * (h (ix2 p q) - mu (ix2 (0 : Fin 1) q)) * Ideal.rsqrt (var (ix2 (0 : Fin 1) q) + Ideal.ofBits .f32 0x3727C5AC#32) + b (ix2 (0 : Fin 1) q)) 0 := by
  unfold k5_pay3
  simp only [shapeCast_self]
  rw [maximumf_apply, addf_apply, mulf_apply, mulf_apply, subf_apply,
    broadcast_row_apply _ _ (by decide), broadcast_row_apply _ _ (by decide), broadcast_row_apply _ _ (by decide), broadcast_row_apply _ _ (by decide)]
  rw [broadcast_apply, ← Ideal.ofBits_zero_f32]
  rfl

/-- A tile's share at entry (g, q): the one-hot block contracted with the normalised block along the rows. -/
theorem bpay4_5_apply (var g : Vec Ideal S1x128 .f32) (h : Vec Ideal S5000x128 .f32) (mu b : Vec Ideal S1x128 .f32)
    (bt : Vec Ideal S5000x1 .i32) (gn q : Fin 128) :
    k5_pay4 var g h mu b bt (ix2 gn q)
      = ∑ p : Fin 5000, (if bt (ix2 p (0 : Fin 1)) = BitVec.ofNat 32 gn.val then (1 : EReal) else 0) * k5_pay3 var g h mu b (ix2 p q) := by
  unfold k5_pay4
  rw [matmul_rows_zero_apply]
  refine Finset.sum_congr rfl fun p _ => ?_
  rw [onehot_blk_apply, truncf_apply]

/-- The accumulating store's payload at an entry: what the buffer held plus the share. -/
theorem bpay1_5_apply (s acc : Vec Ideal S128x128 .f32) (gn q : Fin 128) :
    k5_pay1 s acc (ix2 gn q) = acc (ix2 gn q) + s (ix2 gn q) := by
  unfold k5_pay1
  rw [addf_apply, shapeCast_self]

/-- The zero block at an entry. -/
theorem bpay2_5_apply (gn q : Fin 128) : k5_pay2 (F := Ideal) (ix2 gn q) = 0 := by
  unfold k5_pay2
  rw [broadcast_apply]
  exact Ideal.ofBits_zero_f32

/-! ## The blocks the windows read -/

-- what the core's buffers hold, as extended reals, when the region is entered
variable (V : (c : Dev nD) → (b : Ref sig .tc) → Buf (Elt Ideal) ((c : Thread nD τ).loc b))

/-- The block indices at every grid point: the rows `h`, the graph numbers and the first output move together, block
    `t` at point `t`; every other block index is 0. Decided over the ten points. -/
theorem idx_facts5 : ∀ t : Fin cfg5.N, win5_0.index t (0 : Fin 2) = t.val
    ∧ win5_0.index t (1 : Fin 2) = 0
    ∧ win5_1.index t (0 : Fin 2) = 0
    ∧ win5_1.index t (1 : Fin 2) = 0
    ∧ win5_2.index t (0 : Fin 2) = 0
    ∧ win5_2.index t (1 : Fin 2) = 0
    ∧ win5_3.index t (0 : Fin 2) = 0
    ∧ win5_3.index t (1 : Fin 2) = 0
    ∧ win5_4.index t (0 : Fin 2) = 0
    ∧ win5_4.index t (1 : Fin 2) = 0
    ∧ win5_5.index t (0 : Fin 2) = t.val
    ∧ win5_5.index t (1 : Fin 2) = 0
    ∧ win5_6.index t (0 : Fin 2) = t.val
    ∧ win5_6.index t (1 : Fin 2) = 0
    ∧ win5_7.index t (0 : Fin 2) = 0
    ∧ win5_7.index t (1 : Fin 2) = 0 :=
  (by decide +kernel : ∀ t : Fin grid5.N, _)

/-- Point `t` as a tile number. -/
def tile5 (t : Fin cfg5.N) : Fin 10 := ⟨t.val, lt_of_lt_of_eq t.isLt N_5⟩

/-- Window 0's block at point `t`, row `p`: row `p` of tile `t` of the array. -/
theorem blk5_h (c : Dev nD) (t : Fin cfg5.N) (p : Fin 5000) (q : Fin 128) :
    iblk5 V c 0 t (ix2 p q) = V c main_v86_0 (ix2 (tileRowG (tile5 t) p) q) := by
  obtain ⟨e00, e01, e10, e11, e20, e21, e30, e31, e40, e41, e50, e51, e60, e61, e70, e71⟩ := idx_facts5 t
  refine congrArg (V c main_v86_0) ?_
  funext a; apply Fin.ext
  match a with
  | ⟨0, _⟩ => show win5_0.index t (0 : Fin 2) * 5000 + 1 * p.val = p.val + 5000 * t.val; omega
  | ⟨1, _⟩ => show win5_0.index t (1 : Fin 2) * 128 + 1 * q.val = q.val; omega

/-- Window 1's block at point `t`, at its one row: the array's row. -/
theorem blk5_mu (c : Dev nD) (t : Fin cfg5.N) (q : Fin 128) :
    iblk5 V c 1 t (ix2 (0 : Fin 1) q) = V c main_v88 (ix2 (0 : Fin 1) q) := by
  obtain ⟨e00, e01, e10, e11, e20, e21, e30, e31, e40, e41, e50, e51, e60, e61, e70, e71⟩ := idx_facts5 t
  refine congrArg (V c main_v88) ?_
  funext a; apply Fin.ext
  match a with
  | ⟨0, _⟩ => show win5_1.index t (0 : Fin 2) * 1 + 1 * 0 = 0; omega
  | ⟨1, _⟩ => show win5_1.index t (1 : Fin 2) * 128 + 1 * q.val = q.val; omega

/-- Window 2's block at point `t`, at its one row: the array's row. -/
theorem blk5_var (c : Dev nD) (t : Fin cfg5.N) (q : Fin 128) :
    iblk5 V c 2 t (ix2 (0 : Fin 1) q) = V c main_v92 (ix2 (0 : Fin 1) q) := by
  obtain ⟨e00, e01, e10, e11, e20, e21, e30, e31, e40, e41, e50, e51, e60, e61, e70, e71⟩ := idx_facts5 t
  refine congrArg (V c main_v92) ?_
  funext a; apply Fin.ext
  match a with
  | ⟨0, _⟩ => show win5_2.index t (0 : Fin 2) * 1 + 1 * 0 = 0; omega
  | ⟨1, _⟩ => show win5_2.index t (1 : Fin 2) * 128 + 1 * q.val = q.val; omega

/-- Window 3's block at point `t`, at its one row: the array's row. -/
theorem blk5_g (c : Dev nD) (t : Fin cfg5.N) (q : Fin 128) :
    iblk5 V c 3 t (ix2 (0 : Fin 1) q) = V c main_v97 (ix2 (0 : Fin 1) q) := by
  obtain ⟨e00, e01, e10, e11, e20, e21, e30, e31, e40, e41, e50, e51, e60, e61, e70, e71⟩ := idx_facts5 t
  refine congrArg (V c main_v97) ?_
  funext a; apply Fin.ext
  match a with
  | ⟨0, _⟩ => show win5_3.index t (0 : Fin 2) * 1 + 1 * 0 = 0; omega
  | ⟨1, _⟩ => show win5_3.index t (1 : Fin 2) * 128 + 1 * q.val = q.val; omega

/-- Window 4's block at point `t`, at its one row: the array's row. -/
theorem blk5_b (c : Dev nD) (t : Fin cfg5.N) (q : Fin 128) :
    iblk5 V c 4 t (ix2 (0 : Fin 1) q) = V c main_v98 (ix2 (0 : Fin 1) q) := by
  obtain ⟨e00, e01, e10, e11, e20, e21, e30, e31, e40, e41, e50, e51, e60, e61, e70, e71⟩ := idx_facts5 t
  refine congrArg (V c main_v98) ?_
  funext a; apply Fin.ext
  match a with
  | ⟨0, _⟩ => show win5_4.index t (0 : Fin 2) * 1 + 1 * 0 = 0; omega
  | ⟨1, _⟩ => show win5_4.index t (1 : Fin 2) * 128 + 1 * q.val = q.val; omega

/-- Window 5's block at point `t`, row `p`: the graph number of row `p` of tile `t`. -/
theorem blk5_bt (c : Dev nD) (t : Fin cfg5.N) (p : Fin 5000) :
    iblk5 V c 5 t (ix2 p (0 : Fin 1)) = V c main_v25 (ix2 (tileRowG (tile5 t) p) (0 : Fin 1)) := by
  obtain ⟨e00, e01, e10, e11, e20, e21, e30, e31, e40, e41, e50, e51, e60, e61, e70, e71⟩ := idx_facts5 t
  refine congrArg (V c main_v25) ?_
  funext a; apply Fin.ext
  match a with
  | ⟨0, _⟩ => show win5_5.index t (0 : Fin 2) * 5000 + 1 * p.val = p.val + 5000 * t.val; omega
  | ⟨1, _⟩ => show win5_5.index t (1 : Fin 2) * 1 + 1 * 0 = 0; omega

/-- The normalised block of point `t`'s input blocks, at row `p`: row `p` of tile `t` of the normalised array. -/
theorem pay3_5_blk (c : Dev nD) (t : Fin cfg5.N) (p : Fin 5000) (q : Fin 128) :
    k5_pay3 (iblk5 V c 2 t) (iblk5 V c 3 t) (iblk5 V c 0 t) (iblk5 V c 1 t) (iblk5 V c 4 t) (ix2 p q)
      = bnOut (V c main_v86_0) (V c main_v88) (V c main_v92) (V c main_v97) (V c main_v98) (ix2 (tileRowG (tile5 t) p) q) := by
  rw [bpay3_5_apply, bnOut_apply, blk5_h, blk5_mu, blk5_var, blk5_g, blk5_b]

/-- Point `t`'s share of the pooled array, from its input blocks. -/
def share5 (c : Dev nD) (t : Fin cfg5.N) : Vec Ideal S128x128 .f32 :=
  k5_pay4 (iblk5 V c 2 t) (iblk5 V c 3 t) (iblk5 V c 0 t) (iblk5 V c 1 t) (iblk5 V c 4 t) (iblk5 V c 5 t)

/-- It is tile `t`'s share of the pooled array of the region's entry arrays. -/
theorem share5_apply (c : Dev nD) (t : Fin cfg5.N) (gn q : Fin 128) :
    share5 V c t (ix2 gn q) = tilePool (V c main_v25) (bnOut (V c main_v86_0) (V c main_v88) (V c main_v92) (V c main_v97) (V c main_v98)) (tile5 t) (ix2 gn q) := by
  unfold share5
  rw [bpay4_5_apply]
  refine Finset.sum_congr rfl fun p _ => ?_
  rw [pay3_5_blk, blk5_bt]

/-! ## What the outputs hold after each point -/

set_option maxHeartbeats 1000000 in
theorem pt5_A_fst (c : Dev nD) (t : Fin cfg5.N) (h0 : t.val % 10 = 0) :
    (pt5_A V c t h0).1 = k5_pay3 (iblk5 V c 2 t) (iblk5 V c 3 t) (iblk5 V c 0 t) (iblk5 V c 1 t) (iblk5 V c 4 t) := by
  dsimp only [pt5_A]
  exact out5_A_6_eq (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) ((hcond5_0 t).mpr h0) (iblk5 V c 0 t) (iblk5 V c 1 t) (iblk5 V c 2 t) (iblk5 V c 3 t) (iblk5 V c 4 t) (iblk5 V c 5 t)

set_option maxHeartbeats 1000000 in
theorem pt5_B_fst (c : Dev nD) (t : Fin cfg5.N) (h0 : ¬t.val % 10 = 0) (xo7 : Vec Ideal S128x128 .f32) :
    (pt5_B V c t h0 xo7).1 = k5_pay3 (iblk5 V c 2 t) (iblk5 V c 3 t) (iblk5 V c 0 t) (iblk5 V c 1 t) (iblk5 V c 4 t) := by
  dsimp only [pt5_B]
  exact out5_B_6_eq (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (fun h => h0 ((hcond5_0 t).mp h)) (iblk5 V c 0 t) (iblk5 V c 1 t) (iblk5 V c 2 t) (iblk5 V c 3 t) (iblk5 V c 4 t) (iblk5 V c 5 t) xo7

set_option maxHeartbeats 1000000 in
theorem pt5_A_snd (c : Dev nD) (t : Fin cfg5.N) (h0 : t.val % 10 = 0) :
    (pt5_A V c t h0).2 = k5_pay1 (F := Ideal) (share5 V c t) (k5_pay2 (F := Ideal)) := by
  dsimp only [pt5_A]
  exact out5_A_7_eq (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) ((hcond5_0 t).mpr h0) (iblk5 V c 0 t) (iblk5 V c 1 t) (iblk5 V c 2 t) (iblk5 V c 3 t) (iblk5 V c 4 t) (iblk5 V c 5 t)

set_option maxHeartbeats 1000000 in
theorem pt5_B_snd (c : Dev nD) (t : Fin cfg5.N) (h0 : ¬t.val % 10 = 0) (xo7 : Vec Ideal S128x128 .f32) :
    (pt5_B V c t h0 xo7).2 = k5_pay1 (F := Ideal) (share5 V c t) (xo7) := by
  dsimp only [pt5_B]
  exact out5_B_7_eq (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (fun h => h0 ((hcond5_0 t).mp h)) (iblk5 V c 0 t) (iblk5 V c 1 t) (iblk5 V c 2 t) (iblk5 V c 3 t) (iblk5 V c 4 t) (iblk5 V c 5 t) xo7

/-- After every point the first output's buffer holds the normalised block of the point's input blocks. -/
theorem outsAt5_fst (c : Dev nD) (t : Fin cfg5.N) :
    (outsAt5 V c t.val t.isLt).1 = k5_pay3 (iblk5 V c 2 t) (iblk5 V c 3 t) (iblk5 V c 0 t) (iblk5 V c 1 t) (iblk5 V c 4 t) := by
  by_cases h0 : t.val % 10 = 0
  · rw [outsAt5_A V c t h0]; exact pt5_A_fst V c t h0
  · rw [outsAt5_B V c t h0]; exact pt5_B_fst V c t h0 _

/-- After point `n` the second output's buffer holds the running sum of the shares of tiles 0 … n: by induction on the
    point; the first point starts from the zero block (0 + x = x), a later point adds to what the point before left. -/
theorem outsAt5_snd (c : Dev nD) : ∀ (n : ℕ) (h : n < cfg5.N) (gn q : Fin 128),
    (outsAt5 V c n h).2 (ix2 gn q) = ∑ t ∈ Finset.range (n + 1), tilePoolN (V c main_v25) (bnOut (V c main_v86_0) (V c main_v88) (V c main_v92) (V c main_v97) (V c main_v98)) t (ix2 gn q)
  | 0, h, gn, q => by
    rw [outsAt5_A V c ⟨0, h⟩ (Nat.zero_mod _), pt5_A_snd, bpay1_5_apply, bpay2_5_apply, zero_add, Finset.sum_range_one, share5_apply]
    unfold tilePoolN
    rw [dif_pos (by decide)]
    rfl
  | n + 1, h, gn, q => by
    have hN : cfg5.N = 10 := N_5
    have hB : ¬(⟨n + 1, h⟩ : Fin cfg5.N).val % 10 = 0 := by dsimp only; omega
    rw [outsAt5_B V c ⟨n + 1, h⟩ hB, pt5_B_snd, bpay1_5_apply, Finset.sum_range_succ, share5_apply]
    have ih := outsAt5_snd c n (Nat.lt_of_succ_lt h) gn q
    refine congrArg₂ (· + ·) ih ?_
    unfold tilePoolN
    rw [dif_pos (by omega)]
    rfl

/-! ## The first output array -/

set_option maxHeartbeats 1000000 in
/-- What point `t` writes back into the first output is tile `t` of the normalised array of the entry arrays. -/
theorem flushed5_6_eq (c : Dev nD) (t : Fin cfg5.N) :
    (dat5 (F := Ideal) V c).flushed 6 t = ((cfg5.win 6).blk t).view.read (Elt Ideal) (bnOut (V c main_v86_0) (V c main_v88) (V c main_v92) (V c main_v97) (V c main_v98)) := by
  show (cfg5.win 6).cut (grid5.coords t) ((dat5 V c).after 6 t) = _
  rw [after5_6, outsAt5_fst]
  obtain ⟨e00, e01, e10, e11, e20, e21, e30, e31, e40, e41, e50, e51, e60, e61, e70, e71⟩ := idx_facts5 t
  funext j
  obtain ⟨p, q, rfl⟩ : ∃ (p : Fin 5000) (q : Fin 128), j = ix2 p q := ⟨j 0, j 1, eq_ix2 j⟩
  show k5_pay3 (iblk5 V c 2 t) (iblk5 V c 3 t) (iblk5 V c 0 t) (iblk5 V c 1 t) (iblk5 V c 4 t) (ix2 p q)
    = bnOut (V c main_v86_0) (V c main_v88) (V c main_v92) (V c main_v97) (V c main_v98) (((cfg5.win 6).blk t).view.emb (ix2 p q))
  rw [pay3_5_blk]
  refine congrArg (bnOut (V c main_v86_0) (V c main_v88) (V c main_v92) (V c main_v97) (V c main_v98)) ?_
  funext a; apply Fin.ext
  match a with
  | ⟨0, _⟩ => show p.val + 5000 * t.val = win5_6.index t (0 : Fin 2) * 5000 + 1 * p.val; omega
  | ⟨1, _⟩ => show q.val = win5_6.index t (1 : Fin 2) * 128 + 1 * q.val; omega

/-- An index of the first output array lies in point `t`'s block when each coordinate lies in the block's range. -/
theorem mem_blk5_6 (t : Fin cfg5.N) (i : S50000x128.Idx) :
    i ∈ ((cfg5.win 6).blk t).view.set ↔ ∀ a : Fin 2, win5_6.index t a * S5000x128.size a ≤ (i a).val ∧ (i a).val < win5_6.index t a * S5000x128.size a + S5000x128.size a := by
  show i ∈ ((View.whole main_v99_0).slice (win5_6.rect t)).set ↔ _
  rw [View.set_slice_whole, Rect.mem_set_unit]
  exact Iff.rfl

/-- Every index of the first output array lies in some point's block: row `r` in the block of point `r / 5000`. -/
theorem cover5_6 (i : S50000x128.Idx) :
    ∃ t : Fin cfg5.N, (cfg5.win 6).flush t = true ∧ i ∈ ((cfg5.win 6).blk t).view.set := by
  have hi0 : (i 0).val < 50000 := (i 0).isLt
  have hi1 : (i 1).val < 128 := (i 1).isLt
  have hN : cfg5.N = 10 := N_5
  have ht : (i 0).val / 5000 < cfg5.N := by rw [hN]; omega
  obtain ⟨e00, e01, e10, e11, e20, e21, e30, e31, e40, e41, e50, e51, e60, e61, e70, e71⟩ := idx_facts5 ⟨(i 0).val / 5000, ht⟩
  refine ⟨⟨(i 0).val / 5000, ht⟩, flush5_6 _, ?_⟩
  rw [mem_blk5_6]
  intro a
  match a with
  | ⟨0, _⟩ =>
    show win5_6.index ⟨(i 0).val / 5000, ht⟩ (0 : Fin 2) * 5000 ≤ (i 0).val
      ∧ (i 0).val < win5_6.index ⟨(i 0).val / 5000, ht⟩ (0 : Fin 2) * 5000 + 5000
    rw [e60]; show (i 0).val / 5000 * 5000 ≤ (i 0).val ∧ (i 0).val < (i 0).val / 5000 * 5000 + 5000; omega
  | ⟨1, _⟩ =>
    show win5_6.index ⟨(i 0).val / 5000, ht⟩ (1 : Fin 2) * 128 ≤ (i 1).val
      ∧ (i 1).val < win5_6.index ⟨(i 0).val / 5000, ht⟩ (1 : Fin 2) * 128 + 128
    rw [e61]; omega

/-- After the region the first output array is the normalised array of the arrays the region read. -/
theorem value5_y (V : (c : Dev nD) → (b : Ref sig .tc) → Buf (Elt Ideal) ((c : Thread nD τ).loc b)) (c : Dev nD) :
    (dat5 (F := Ideal) V c).arrAt 6 cfg5.N = bnOut (V c main_v86_0) (V c main_v88) (V c main_v92) (V c main_v97) (V c main_v98) :=
  (dat5 (F := Ideal) V c).arrAt_eq_of_cover 6 _ (fun t _ => flushed5_6_eq V c t) cover5_6

/-! ## The second output array -/

set_option maxHeartbeats 1000000 in
/-- The one write-back of the second output, after the last point, writes the pooled array: its one block is the whole
    array, and the running sum after the tenth tile is the sum over all rows. -/
theorem flushed5_7_eq (c : Dev nD) (t : Fin cfg5.N) (hf : (cfg5.win 7).flush t = true) :
    (dat5 (F := Ideal) V c).flushed 7 t
      = ((cfg5.win 7).blk t).view.read (Elt Ideal) (bnPool (V c main_v25) (bnOut (V c main_v86_0) (V c main_v88) (V c main_v92) (V c main_v97) (V c main_v98))) := by
  have hN : cfg5.N = 10 := N_5
  have h9 : t.val + 1 = 10 := by have := (flush5_7 t).mp hf; have := t.isLt; omega
  show (cfg5.win 7).cut (grid5.coords t) ((dat5 V c).after 7 t) = _
  rw [after5_7]
  obtain ⟨e00, e01, e10, e11, e20, e21, e30, e31, e40, e41, e50, e51, e60, e61, e70, e71⟩ := idx_facts5 t
  generalize hG : bnPool (V c main_v25) (bnOut (V c main_v86_0) (V c main_v88) (V c main_v92) (V c main_v97) (V c main_v98)) = G
  funext j
  obtain ⟨gn, q, rfl⟩ : ∃ (gn : Fin 128) (q : Fin 128), j = ix2 gn q := ⟨j 0, j 1, eq_ix2 j⟩
  show (outsAt5 V c t.val t.isLt).2 (ix2 gn q) = G (((cfg5.win 7).blk t).view.emb (ix2 gn q))
  have he : ((cfg5.win 7).blk t).view.emb (ix2 gn q) = ix2 gn q := by
    funext a; apply Fin.ext
    match a with
    | ⟨0, _⟩ => show win5_7.index t (0 : Fin 2) * 128 + 1 * gn.val = gn.val; omega
    | ⟨1, _⟩ => show win5_7.index t (1 : Fin 2) * 128 + 1 * q.val = q.val; omega
  rw [he, ← hG, outsAt5_snd V c t.val t.isLt gn q, bnPool_eq_range, h9]

/-- An index of the second output array lies in point `t`'s block when each coordinate lies in the block's range. -/
theorem mem_blk5_7 (t : Fin cfg5.N) (i : S128x128.Idx) :
    i ∈ ((cfg5.win 7).blk t).view.set ↔ ∀ a : Fin 2, win5_7.index t a * S128x128.size a ≤ (i a).val ∧ (i a).val < win5_7.index t a * S128x128.size a + S128x128.size a := by
  show i ∈ ((View.whole main_v99_1).slice (win5_7.rect t)).set ↔ _
  rw [View.set_slice_whole, Rect.mem_set_unit]
  exact Iff.rfl

/-- Every index of the second output array lies in the last point's block, the one that is written back. -/
theorem cover5_7 (i : S128x128.Idx) :
    ∃ t : Fin cfg5.N, (cfg5.win 7).flush t = true ∧ i ∈ ((cfg5.win 7).blk t).view.set := by
  have hi0 : (i 0).val < 128 := (i 0).isLt
  have hi1 : (i 1).val < 128 := (i 1).isLt
  have ht : 9 < cfg5.N := by rw [show cfg5.N = 10 from N_5]; decide
  obtain ⟨e00, e01, e10, e11, e20, e21, e30, e31, e40, e41, e50, e51, e60, e61, e70, e71⟩ := idx_facts5 ⟨9, ht⟩
  refine ⟨⟨9, ht⟩, (flush5_7 _).mpr rfl, ?_⟩
  rw [mem_blk5_7]
  intro a
  match a with
  | ⟨0, _⟩ =>
    show win5_7.index ⟨9, ht⟩ (0 : Fin 2) * 128 ≤ (i 0).val ∧ (i 0).val < win5_7.index ⟨9, ht⟩ (0 : Fin 2) * 128 + 128
    rw [e70]; omega
  | ⟨1, _⟩ =>
    show win5_7.index ⟨9, ht⟩ (1 : Fin 2) * 128 ≤ (i 1).val ∧ (i 1).val < win5_7.index ⟨9, ht⟩ (1 : Fin 2) * 128 + 128
    rw [e71]; omega

/-- After the region the second output array is the pooled array of the graph numbers and the normalised array. -/
theorem value5_pool (V : (c : Dev nD) → (b : Ref sig .tc) → Buf (Elt Ideal) ((c : Thread nD τ).loc b)) (c : Dev nD) :
    (dat5 (F := Ideal) V c).arrAt 7 cfg5.N = bnPool (V c main_v25) (bnOut (V c main_v86_0) (V c main_v88) (V c main_v92) (V c main_v97) (V c main_v98)) :=
  (dat5 (F := Ideal) V c).arrAt_eq_of_cover 7 _ (fun t hf => flushed5_7_eq V c t hf) cover5_7

end Cert.KernelIdeal.Reg

end
-- ==== Proof.KI.Val6.lean ====
import proofs.«144276_j65051574665788_2_alg».proof.Proof.KI.Reg6
import proofs.«144276_j65051574665788_2_alg».proof.Proof.KI.LibBlockOps
import proofs.«144276_j65051574665788_2_alg».proof.Proof.LibOneHotPool
import Idealize.ShloMosaic.Lib.Pipeline.Value
import Idealize.ShloMosaic.PureOps.Ideal.Laws
import Idealize.ShloMosaic.Lib.ValueIdx
import Idealize.ShloMosaic.Lib.Tactic
import proofs.«144276_j65051574665788_2_alg».proof.Proof.KI.Val2

set_option maxRecDepth 16384

noncomputable section

namespace Cert.KernelIdeal.Reg

open Cert.KernelIdeal Cert.KernelIdeal.Gen Cert.LibBlockOps
open Idealize.ShloMosaic Idealize.ShloMosaic.TcCoe Idealize.ShloMosaic.ValueIdx Idealize.ShloMosaic.Tactic Idealize.SL.Sem
open Idealize.ShloMosaic.Pipeline (Dat)

open Finset

/-! # Region 6: what the found pieces are, at any float instance -/

section Pieces
variable {F : FTy → Type} [FloatOps F]

theorem pieceA6_5 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : cond6_0 i)
    (x0 x1 : Vec F S5000x128 .f32) (x2 x3 : Vec F S128x128 .f32) (x4 : Vec F S1x128 .f32) :
    VO6_5.read (Elt F) (VO6_5.writes (Elt F) VO6_5.junk (kernelRun6_A c i arg1 harg1 arg2 harg2 arg3 harg3 arg4 harg4 arg5 harg5 arg6 harg6 arg7 harg7 arg8 harg8 hc0 x0 x1 x2 x3 x4).1) = k6_pay4 x0 x1 x2 x3 x4 := by
  rw [View.read_writes_junk_eq_canon]
  unfold kernelRun6_A
  dsimp only
  sl_unfold_words
  rw [View.canon_unit_zero offsets_zero2]
  simp only [View.readAt_eq_ld, harg1.read_unread, harg2.read_unread, harg3.read_unread, harg4.read_unread, harg5.read_unread,
    View.ld_unit_zero (S := S5000x128) offsets_zero2, View.ld_unit_zero (S := S128x128) offsets_zero2,
    View.ld_unit_zero (S := S1x128) offsets_zero2]

theorem pieceA6_6 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : cond6_0 i)
    (x0 x1 : Vec F S5000x128 .f32) (x2 x3 : Vec F S128x128 .f32) (x4 : Vec F S1x128 .f32) :
    VO6_6.read (Elt F) (VO6_6.writes (Elt F) VO6_6.junk (kernelRun6_A c i arg1 harg1 arg2 harg2 arg3 harg3 arg4 harg4 arg5 harg5 arg6 harg6 arg7 harg7 arg8 harg8 hc0 x0 x1 x2 x3 x4).2.1) = k6_pay5 x0 x1 x2 x3 x4 (k6_pay2 (F := F)) := by
  rw [View.read_writes_junk_eq_canon]
  unfold kernelRun6_A
  dsimp only
  sl_unfold_words
  rw [View.canon_cons_unit_zero (S := S1x128) offsets_zero2, View.readCov_unit_zero (S := S1x128) _ offsets_zero2]
  simp only [View.readAt_eq_ld, harg1.read_unread, harg2.read_unread, harg3.read_unread, harg4.read_unread, harg5.read_unread,
    View.ld_unit_zero (S := S5000x128) offsets_zero2, View.ld_unit_zero (S := S128x128) offsets_zero2,
    View.ld_unit_zero (S := S1x128) offsets_zero2]

theorem pieceA6_7 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : cond6_0 i)
    (x0 x1 : Vec F S5000x128 .f32) (x2 x3 : Vec F S128x128 .f32) (x4 : Vec F S1x128 .f32) :
    VO6_7.read (Elt F) (VO6_7.writes (Elt F) VO6_7.junk (kernelRun6_A c i arg1 harg1 arg2 harg2 arg3 harg3 arg4 harg4 arg5 harg5 arg6 harg6 arg7 harg7 arg8 harg8 hc0 x0 x1 x2 x3 x4).2.2.1) = k6_pay1 (k6_pay6 (k6_pay3 (F := F))) (k6_pay7 x0 x1 x2 x3 x4) := by
  rw [View.read_writes_junk_eq_canon]
  unfold kernelRun6_A
  dsimp only
  sl_unfold_words
  rw [View.canon_cons_unit_zero (S := S1x128) offsets_zero2, View.readCov_unit_zero (S := S1x128) _ offsets_zero2]
  simp only [View.readAt_eq_ld, harg1.read_unread, harg2.read_unread, harg3.read_unread, harg4.read_unread, harg5.read_unread,
    View.ld_unit_zero (S := S5000x128) offsets_zero2, View.ld_unit_zero (S := S128x128) offsets_zero2,
    View.ld_unit_zero (S := S1x128) offsets_zero2]

theorem pieceB6_5 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i)
    (x0 x1 : Vec F S5000x128 .f32) (x2 x3 : Vec F S128x128 .f32) (x4 : Vec F S1x128 .f32) (xo6 xo7 : Vec F S1x128 .f32) :
    VO6_5.read (Elt F) (VO6_5.writes (Elt F) VO6_5.junk (kernelRun6_B c i arg1 harg1 arg2 harg2 arg3 harg3 arg4 harg4 arg5 harg5 arg6 harg6 arg7 harg7 arg8 harg8 hc0 x0 x1 x2 x3 x4 xo6 xo7).1) = k6_pay4 x0 x1 x2 x3 x4 := by
  rw [View.read_writes_junk_eq_canon]
  unfold kernelRun6_B
  dsimp only
  sl_unfold_words
  rw [View.canon_unit_zero offsets_zero2]
  simp only [View.readAt_eq_ld, harg1.read_unread, harg2.read_unread, harg3.read_unread, harg4.read_unread, harg5.read_unread, harg7.read_unread, harg8.read_unread,
    View.ld_unit_zero (S := S5000x128) offsets_zero2, View.ld_unit_zero (S := S128x128) offsets_zero2,
    View.ld_unit_zero (S := S1x128) offsets_zero2]

theorem pieceB6_6 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i)
    (x0 x1 : Vec F S5000x128 .f32) (x2 x3 : Vec F S128x128 .f32) (x4 : Vec F S1x128 .f32) (xo6 xo7 : Vec F S1x128 .f32) :
    VO6_6.read (Elt F) (VO6_6.writes (Elt F) VO6_6.junk (kernelRun6_B c i arg1 harg1 arg2 harg2 arg3 harg3 arg4 harg4 arg5 harg5 arg6 harg6 arg7 harg7 arg8 harg8 hc0 x0 x1 x2 x3 x4 xo6 xo7).2.1) = k6_pay5 x0 x1 x2 x3 x4 xo6 := by
  rw [View.read_writes_junk_eq_canon]
  unfold kernelRun6_B
  dsimp only
  sl_unfold_words
  rw [View.canon_unit_zero offsets_zero2]
  simp only [View.readAt_eq_ld, harg1.read_unread, harg2.read_unread, harg3.read_unread, harg4.read_unread, harg5.read_unread, harg7.read_unread, harg8.read_unread,
    View.ld_unit_zero (S := S5000x128) offsets_zero2, View.ld_unit_zero (S := S128x128) offsets_zero2,
    View.ld_unit_zero (S := S1x128) offsets_zero2]

theorem pieceB6_7 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i)
    (x0 x1 : Vec F S5000x128 .f32) (x2 x3 : Vec F S128x128 .f32) (x4 : Vec F S1x128 .f32) (xo6 xo7 : Vec F S1x128 .f32) :
    VO6_7.read (Elt F) (VO6_7.writes (Elt F) VO6_7.junk (kernelRun6_B c i arg1 harg1 arg2 harg2 arg3 harg3 arg4 harg4 arg5 harg5 arg6 harg6 arg7 harg7 arg8 harg8 hc0 x0 x1 x2 x3 x4 xo6 xo7).2.2.1) = k6_pay1 (k6_pay6 xo7) (k6_pay7 x0 x1 x2 x3 x4) := by
  rw [View.read_writes_junk_eq_canon]
  unfold kernelRun6_B
  dsimp only
  sl_unfold_words
  rw [View.canon_unit_zero offsets_zero2]
  simp only [View.readAt_eq_ld, harg1.read_unread, harg2.read_unread, harg3.read_unread, harg4.read_unread, harg5.read_unread, harg7.read_unread, harg8.read_unread,
    View.ld_unit_zero (S := S5000x128) offsets_zero2, View.ld_unit_zero (S := S128x128) offsets_zero2,
    View.ld_unit_zero (S := S1x128) offsets_zero2]

variable (V : (c : Dev nD) → (b : Ref sig .tc) → Buf (Elt F) ((c : Thread nD τ).loc b))

/-- The two running accumulators after position `n`: started from the zero rows at the first point, then each point's
    contribution added to what the point before left. -/
def acc6 (c : Dev nD) : (n : ℕ) → n < cfg6.N → Vec F S1x128 .f32 × Vec F S1x128 .f32
  | 0, h => (k6_pay5 (iblk6 V c 0 ⟨0, h⟩) (iblk6 V c 1 ⟨0, h⟩) (iblk6 V c 2 ⟨0, h⟩) (iblk6 V c 3 ⟨0, h⟩) (iblk6 V c 4 ⟨0, h⟩) (k6_pay2 (F := F)),
      k6_pay1 (k6_pay6 (k6_pay3 (F := F))) (k6_pay7 (iblk6 V c 0 ⟨0, h⟩) (iblk6 V c 1 ⟨0, h⟩) (iblk6 V c 2 ⟨0, h⟩) (iblk6 V c 3 ⟨0, h⟩) (iblk6 V c 4 ⟨0, h⟩)))
  | n + 1, h => (k6_pay5 (iblk6 V c 0 ⟨n + 1, h⟩) (iblk6 V c 1 ⟨n + 1, h⟩) (iblk6 V c 2 ⟨n + 1, h⟩) (iblk6 V c 3 ⟨n + 1, h⟩) (iblk6 V c 4 ⟨n + 1, h⟩) (acc6 c n (Nat.lt_of_succ_lt h)).1,
      k6_pay1 (k6_pay6 (acc6 c n (Nat.lt_of_succ_lt h)).2) (k6_pay7 (iblk6 V c 0 ⟨n + 1, h⟩) (iblk6 V c 1 ⟨n + 1, h⟩) (iblk6 V c 2 ⟨n + 1, h⟩) (iblk6 V c 3 ⟨n + 1, h⟩) (iblk6 V c 4 ⟨n + 1, h⟩)))

/-- What the three outputs' staging buffers hold after position `n`: the point's block of the transform and the two
    running accumulators. By induction on the point. -/
theorem outsAt6_eq (c : Dev nD) : ∀ (n : ℕ) (h : n < cfg6.N),
    outsAt6 V c n h = (k6_pay4 (iblk6 V c 0 ⟨n, h⟩) (iblk6 V c 1 ⟨n, h⟩) (iblk6 V c 2 ⟨n, h⟩) (iblk6 V c 3 ⟨n, h⟩) (iblk6 V c 4 ⟨n, h⟩), (acc6 V c n h).1, (acc6 V c n h).2)
  | 0, h => by
    refine (outsAt6_A V c ⟨0, h⟩ (Nat.zero_mod _)).trans ?_
    unfold outsA6
    exact triple_ext (pieceA6_5 c (grid6.coords ⟨0, h⟩) (ms6_0 ⟨0, h⟩) (hs6_0 ⟨0, h⟩) (ms6_1 ⟨0, h⟩) (hs6_1 ⟨0, h⟩) (ms6_2 ⟨0, h⟩) (hs6_2 ⟨0, h⟩) (ms6_3 ⟨0, h⟩) (hs6_3 ⟨0, h⟩) (ms6_4 ⟨0, h⟩) (hs6_4 ⟨0, h⟩) (ms6_5 ⟨0, h⟩) (hs6_5 ⟨0, h⟩) (ms6_6 ⟨0, h⟩) (hs6_6 ⟨0, h⟩) (ms6_7 ⟨0, h⟩) (hs6_7 ⟨0, h⟩) ((hcond6_0 ⟨0, h⟩).mpr (Nat.zero_mod _)) (iblk6 V c 0 ⟨0, h⟩) (iblk6 V c 1 ⟨0, h⟩) (iblk6 V c 2 ⟨0, h⟩) (iblk6 V c 3 ⟨0, h⟩) (iblk6 V c 4 ⟨0, h⟩))
      (pieceA6_6 c (grid6.coords ⟨0, h⟩) (ms6_0 ⟨0, h⟩) (hs6_0 ⟨0, h⟩) (ms6_1 ⟨0, h⟩) (hs6_1 ⟨0, h⟩) (ms6_2 ⟨0, h⟩) (hs6_2 ⟨0, h⟩) (ms6_3 ⟨0, h⟩) (hs6_3 ⟨0, h⟩) (ms6_4 ⟨0, h⟩) (hs6_4 ⟨0, h⟩) (ms6_5 ⟨0, h⟩) (hs6_5 ⟨0, h⟩) (ms6_6 ⟨0, h⟩) (hs6_6 ⟨0, h⟩) (ms6_7 ⟨0, h⟩) (hs6_7 ⟨0, h⟩) ((hcond6_0 ⟨0, h⟩).mpr (Nat.zero_mod _)) (iblk6 V c 0 ⟨0, h⟩) (iblk6 V c 1 ⟨0, h⟩) (iblk6 V c 2 ⟨0, h⟩) (iblk6 V c 3 ⟨0, h⟩) (iblk6 V c 4 ⟨0, h⟩))
      (pieceA6_7 c (grid6.coords ⟨0, h⟩) (ms6_0 ⟨0, h⟩) (hs6_0 ⟨0, h⟩) (ms6_1 ⟨0, h⟩) (hs6_1 ⟨0, h⟩) (ms6_2 ⟨0, h⟩) (hs6_2 ⟨0, h⟩) (ms6_3 ⟨0, h⟩) (hs6_3 ⟨0, h⟩) (ms6_4 ⟨0, h⟩) (hs6_4 ⟨0, h⟩) (ms6_5 ⟨0, h⟩) (hs6_5 ⟨0, h⟩) (ms6_6 ⟨0, h⟩) (hs6_6 ⟨0, h⟩) (ms6_7 ⟨0, h⟩) (hs6_7 ⟨0, h⟩) ((hcond6_0 ⟨0, h⟩).mpr (Nat.zero_mod _)) (iblk6 V c 0 ⟨0, h⟩) (iblk6 V c 1 ⟨0, h⟩) (iblk6 V c 2 ⟨0, h⟩) (iblk6 V c 3 ⟨0, h⟩) (iblk6 V c 4 ⟨0, h⟩))
  | n + 1, h => by
    have hN : cfg6.N = 10 := N_6
    have hB : ¬(⟨n + 1, h⟩ : Fin cfg6.N).val % 10 = 0 := by dsimp only; omega
    refine (outsAt6_B V c ⟨n + 1, h⟩ hB).trans ?_
    show outsB6 V c ⟨n + 1, h⟩ hB (outsAt6 V c n _).2.1 (outsAt6 V c n _).2.2 = _
    rw [outsAt6_eq c n]
    unfold outsB6
    exact triple_ext (pieceB6_5 c (grid6.coords ⟨n + 1, h⟩) (ms6_0 ⟨n + 1, h⟩) (hs6_0 ⟨n + 1, h⟩) (ms6_1 ⟨n + 1, h⟩) (hs6_1 ⟨n + 1, h⟩) (ms6_2 ⟨n + 1, h⟩) (hs6_2 ⟨n + 1, h⟩) (ms6_3 ⟨n + 1, h⟩) (hs6_3 ⟨n + 1, h⟩) (ms6_4 ⟨n + 1, h⟩) (hs6_4 ⟨n + 1, h⟩) (ms6_5 ⟨n + 1, h⟩) (hs6_5 ⟨n + 1, h⟩) (ms6_6 ⟨n + 1, h⟩) (hs6_6 ⟨n + 1, h⟩) (ms6_7 ⟨n + 1, h⟩) (hs6_7 ⟨n + 1, h⟩) (fun hc => hB ((hcond6_0 ⟨n + 1, h⟩).mp hc)) (iblk6 V c 0 ⟨n + 1, h⟩) (iblk6 V c 1 ⟨n + 1, h⟩) (iblk6 V c 2 ⟨n + 1, h⟩) (iblk6 V c 3 ⟨n + 1, h⟩) (iblk6 V c 4 ⟨n + 1, h⟩) _ _)
      (pieceB6_6 c (grid6.coords ⟨n + 1, h⟩) (ms6_0 ⟨n + 1, h⟩) (hs6_0 ⟨n + 1, h⟩) (ms6_1 ⟨n + 1, h⟩) (hs6_1 ⟨n + 1, h⟩) (ms6_2 ⟨n + 1, h⟩) (hs6_2 ⟨n + 1, h⟩) (ms6_3 ⟨n + 1, h⟩) (hs6_3 ⟨n + 1, h⟩) (ms6_4 ⟨n + 1, h⟩) (hs6_4 ⟨n + 1, h⟩) (ms6_5 ⟨n + 1, h⟩) (hs6_5 ⟨n + 1, h⟩) (ms6_6 ⟨n + 1, h⟩) (hs6_6 ⟨n + 1, h⟩) (ms6_7 ⟨n + 1, h⟩) (hs6_7 ⟨n + 1, h⟩) (fun hc => hB ((hcond6_0 ⟨n + 1, h⟩).mp hc)) (iblk6 V c 0 ⟨n + 1, h⟩) (iblk6 V c 1 ⟨n + 1, h⟩) (iblk6 V c 2 ⟨n + 1, h⟩) (iblk6 V c 3 ⟨n + 1, h⟩) (iblk6 V c 4 ⟨n + 1, h⟩) _ _)
      (pieceB6_7 c (grid6.coords ⟨n + 1, h⟩) (ms6_0 ⟨n + 1, h⟩) (hs6_0 ⟨n + 1, h⟩) (ms6_1 ⟨n + 1, h⟩) (hs6_1 ⟨n + 1, h⟩) (ms6_2 ⟨n + 1, h⟩) (hs6_2 ⟨n + 1, h⟩) (ms6_3 ⟨n + 1, h⟩) (hs6_3 ⟨n + 1, h⟩) (ms6_4 ⟨n + 1, h⟩) (hs6_4 ⟨n + 1, h⟩) (ms6_5 ⟨n + 1, h⟩) (hs6_5 ⟨n + 1, h⟩) (ms6_6 ⟨n + 1, h⟩) (hs6_6 ⟨n + 1, h⟩) (ms6_7 ⟨n + 1, h⟩) (hs6_7 ⟨n + 1, h⟩) (fun hc => hB ((hcond6_0 ⟨n + 1, h⟩).mp hc)) (iblk6 V c 0 ⟨n + 1, h⟩) (iblk6 V c 1 ⟨n + 1, h⟩) (iblk6 V c 2 ⟨n + 1, h⟩) (iblk6 V c 3 ⟨n + 1, h⟩) (iblk6 V c 4 ⟨n + 1, h⟩) _ _)

end Pieces

/-! # Region 6: the payloads at an entry, over the extended reals -/

/-- The transform's block at row `p`, column `q`. The narrowings to the short float format are the identity on
    extended reals; each product into the zero block is the sum over the 128 columns; the bias row is stretched over
    the rows. -/
theorem pay6_4_apply (x0 x1 : Vec Ideal S5000x128 .f32) (x2 x3 : Vec Ideal S128x128 .f32) (x4 : Vec Ideal S1x128 .f32) (p : Fin 5000) (q : Fin 128) :
    k6_pay4 x0 x1 x2 x3 x4 (ix2 p q)
      = (∑ k : Fin 128, x0 (ix2 p k) * x2 (ix2 k q) + ∑ k : Fin 128, x1 (ix2 p k) * x3 (ix2 k q)) + x4 (ix2 (0 : Fin 1) q) := by
  unfold k6_pay4
  rw [addf_apply, addf_apply, matmul_zero_apply dot_S5000x128_S128x128_S5000x128_1_0_0_1_n_n rfl,
    matmul_zero_apply dot_S5000x128_S128x128_S5000x128_1_0_0_1_n_n rfl, broadcast_row_apply _ _ (by decide)]
  simp only [shapeCast_self]
  rfl

/-- The sum accumulator's update: what it held plus the block's column sum. -/
theorem pay6_5_apply (x0 x1 : Vec Ideal S5000x128 .f32) (x2 x3 : Vec Ideal S128x128 .f32) (x4 : Vec Ideal S1x128 .f32) (v : Vec Ideal S1x128 .f32) (q : Fin 128) :
    k6_pay5 x0 x1 x2 x3 x4 v (ix2 (0 : Fin 1) q) = v (ix2 (0 : Fin 1) q) + ∑ p : Fin 5000, k6_pay4 x0 x1 x2 x3 x4 (ix2 p q) := by
  unfold k6_pay5
  rw [addf_apply, shapeCast_self]
  exact congrArg (v (ix2 (0 : Fin 1) q) + ·) ((rowcast_apply _ q).trans (colsum_apply _ _ _ q))

/-- The sum-of-squares accumulator's update: what it held plus the column sum of the block's squares. -/
theorem pay6_1_apply (x0 x1 : Vec Ideal S5000x128 .f32) (x2 x3 : Vec Ideal S128x128 .f32) (x4 : Vec Ideal S1x128 .f32) (v : Vec Ideal S1x128 .f32) (q : Fin 128) :
    k6_pay1 (k6_pay6 v) (k6_pay7 x0 x1 x2 x3 x4) (ix2 (0 : Fin 1) q)
      = v (ix2 (0 : Fin 1) q) + ∑ p : Fin 5000, k6_pay4 x0 x1 x2 x3 x4 (ix2 p q) * k6_pay4 x0 x1 x2 x3 x4 (ix2 p q) := by
  unfold k6_pay1 k6_pay6 k6_pay7
  rw [addf_apply, shapeCast_self]
  exact congrArg (v (ix2 (0 : Fin 1) q) + ·) ((rowcast_apply _ q).trans (colsum_apply _ _ _ q))

/-- The zero rows the first point stores. -/
theorem pay6_2_apply (j : S1x128.Idx) : k6_pay2 (F := Ideal) j = 0 := by
  unfold k6_pay2
  rw [broadcast_apply]
  exact Ideal.ofBits_zero_f32
theorem pay6_3_apply (j : S1x128.Idx) : k6_pay3 (F := Ideal) j = 0 := by
  unfold k6_pay3
  rw [broadcast_apply]
  exact Ideal.ofBits_zero_f32

/-! # Region 6: from blocks to arrays -/

section Arrays
-- what the TensorCore's buffers hold, as extended reals, when the region is entered
variable (V : (c : Dev nD) → (b : Ref sig .tc) → Buf (Elt Ideal) ((c : Thread nD τ).loc b))

/-- The block indices at every grid point: the two row-blocked inputs and the first output are at block `t` at point
    `t`; every other block index is 0. Decided over the ten points. -/
theorem idx_facts6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0
    ∧ win6_6.index t (0 : Fin 2) = 0 ∧ win6_6.index t (1 : Fin 2) = 0
    ∧ win6_7.index t (0 : Fin 2) = 0 ∧ win6_7.index t (1 : Fin 2) = 0 :=
  (by decide +kernel : ∀ t : Fin grid6.N, _)

/-- Point `t` as one of the ten tiles. -/
def tileOf6 (t : Fin cfg6.N) : Fin 10 := ⟨t.val, lt_of_lt_of_eq t.isLt N_6⟩

set_option maxHeartbeats 1000000 in
/-- Point `t`'s block of the transform, at row `p` and column `q`, is the whole-array transform of the arrays the
    region finds at row `p` of tile `t`. -/
theorem blk6_eq (c : Dev nD) (t : Fin cfg6.N) (p : Fin 5000) (q : Fin 128) :
    k6_pay4 (iblk6 V c 0 t) (iblk6 V c 1 t) (iblk6 V c 2 t) (iblk6 V c 3 t) (iblk6 V c 4 t) (ix2 p q) = (ltOut (V c main_v115) (V c main_v99_0) (V c main_v117) (V c main_v119) (V c main_v122)) (ix2 (tileRow (tileOf6 t) p) q) := by
  obtain ⟨e00, e01, e10, e11, e20, e21, e30, e31, e40, e41, e50, e51, e60, e61, e70, e71⟩ := idx_facts6 t
  rw [pay6_4_apply, ltOut_ix2]
  have h0 : ∀ k : Fin 128, ((cfg6.win 0).blk t).view.emb (ix2 p k) = ix2 (tileRow (tileOf6 t) p) k := by
    intro k; funext a; apply Fin.ext
    match a with
    | ⟨0, _⟩ => show win6_0.index t (0 : Fin 2) * 5000 + 1 * p.val = p.val + 5000 * t.val; omega
    | ⟨1, _⟩ => show win6_0.index t (1 : Fin 2) * 128 + 1 * k.val = k.val; omega
  have h1 : ∀ k : Fin 128, ((cfg6.win 1).blk t).view.emb (ix2 p k) = ix2 (tileRow (tileOf6 t) p) k := by
    intro k; funext a; apply Fin.ext
    match a with
    | ⟨0, _⟩ => show win6_1.index t (0 : Fin 2) * 5000 + 1 * p.val = p.val + 5000 * t.val; omega
    | ⟨1, _⟩ => show win6_1.index t (1 : Fin 2) * 128 + 1 * k.val = k.val; omega
  have h2 : ∀ k : Fin 128, ((cfg6.win 2).blk t).view.emb (ix2 k q) = ix2 k q := by
    intro k; funext a; apply Fin.ext
    match a with
    | ⟨0, _⟩ => show win6_2.index t (0 : Fin 2) * 128 + 1 * k.val = k.val; omega
    | ⟨1, _⟩ => show win6_2.index t (1 : Fin 2) * 128 + 1 * q.val = q.val; omega
  have h3 : ∀ k : Fin 128, ((cfg6.win 3).blk t).view.emb (ix2 k q) = ix2 k q := by
    intro k; funext a; apply Fin.ext
    match a with
    | ⟨0, _⟩ => show win6_3.index t (0 : Fin 2) * 128 + 1 * k.val = k.val; omega
    | ⟨1, _⟩ => show win6_3.index t (1 : Fin 2) * 128 + 1 * q.val = q.val; omega
  have h4 : ((cfg6.win 4).blk t).view.emb (ix2 (0 : Fin 1) q) = ix2 (0 : Fin 1) q := by
    funext a; apply Fin.ext
    match a with
    | ⟨0, _⟩ => show win6_4.index t (0 : Fin 2) * 1 + 1 * 0 = 0; omega
    | ⟨1, _⟩ => show win6_4.index t (1 : Fin 2) * 128 + 1 * q.val = q.val; omega
  have hx0 : ∀ k : Fin 128, iblk6 V c 0 t (ix2 p k) = V c main_v115 (ix2 (tileRow (tileOf6 t) p) k) :=
    fun k => congrArg (V c main_v115) (h0 k)
  have hx1 : ∀ k : Fin 128, iblk6 V c 1 t (ix2 p k) = V c main_v99_0 (ix2 (tileRow (tileOf6 t) p) k) :=
    fun k => congrArg (V c main_v99_0) (h1 k)
  have hx2 : ∀ k : Fin 128, iblk6 V c 2 t (ix2 k q) = V c main_v117 (ix2 k q) :=
    fun k => congrArg (V c main_v117) (h2 k)
  have hx3 : ∀ k : Fin 128, iblk6 V c 3 t (ix2 k q) = V c main_v119 (ix2 k q) :=
    fun k => congrArg (V c main_v119) (h3 k)
  have hx4 : iblk6 V c 4 t (ix2 (0 : Fin 1) q) = V c main_v122 (ix2 (0 : Fin 1) q) :=
    congrArg (V c main_v122) h4
  rw [hx4]
  exact congrArg (· + _) (congrArg₂ (· + ·) (Finset.sum_congr rfl fun k _ => by rw [hx0 k, hx2 k])
    (Finset.sum_congr rfl fun k _ => by rw [hx1 k, hx3 k]))

/-- The sum accumulator after position `n`, at column `q`: the column sums of the transform over the first `n + 1` tiles. -/
theorem acc6_sum (c : Dev nD) (q : Fin 128) : ∀ (n : ℕ) (h : n < cfg6.N),
    (acc6 V c n h).1 (ix2 (0 : Fin 1) q) = ∑ t ∈ Finset.range (n + 1), tileSum (fun r => (ltOut (V c main_v115) (V c main_v99_0) (V c main_v117) (V c main_v119) (V c main_v122)) (ix2 r q)) t
  | 0, h => by
    have hN : cfg6.N = 10 := N_6
    show k6_pay5 (iblk6 V c 0 ⟨0, h⟩) (iblk6 V c 1 ⟨0, h⟩) (iblk6 V c 2 ⟨0, h⟩) (iblk6 V c 3 ⟨0, h⟩) (iblk6 V c 4 ⟨0, h⟩) (k6_pay2 (F := Ideal)) (ix2 (0 : Fin 1) q) = _
    rw [pay6_5_apply, pay6_2_apply, zero_add, Finset.sum_range_one, tileSum_of_lt _ 0 (by omega)]
    exact Finset.sum_congr rfl fun p _ => blk6_eq V c ⟨0, h⟩ p q
  | n + 1, h => by
    have hN : cfg6.N = 10 := N_6
    show k6_pay5 (iblk6 V c 0 ⟨n + 1, h⟩) (iblk6 V c 1 ⟨n + 1, h⟩) (iblk6 V c 2 ⟨n + 1, h⟩) (iblk6 V c 3 ⟨n + 1, h⟩) (iblk6 V c 4 ⟨n + 1, h⟩) (acc6 V c n _).1 (ix2 (0 : Fin 1) q) = _
    rw [pay6_5_apply, acc6_sum c q n, Finset.sum_range_succ _ (n + 1), tileSum_of_lt _ (n + 1) (by omega)]
    exact congrArg (_ + ·) (Finset.sum_congr rfl fun p _ => blk6_eq V c ⟨n + 1, h⟩ p q)

/-- The sum-of-squares accumulator after position `n`, at column `q`. -/
theorem acc6_sumsq (c : Dev nD) (q : Fin 128) : ∀ (n : ℕ) (h : n < cfg6.N),
    (acc6 V c n h).2 (ix2 (0 : Fin 1) q)
      = ∑ t ∈ Finset.range (n + 1), tileSum (fun r => (ltOut (V c main_v115) (V c main_v99_0) (V c main_v117) (V c main_v119) (V c main_v122)) (ix2 r q) * (ltOut (V c main_v115) (V c main_v99_0) (V c main_v117) (V c main_v119) (V c main_v122)) (ix2 r q)) t
  | 0, h => by
    have hN : cfg6.N = 10 := N_6
    show k6_pay1 (k6_pay6 (k6_pay3 (F := Ideal))) (k6_pay7 (iblk6 V c 0 ⟨0, h⟩) (iblk6 V c 1 ⟨0, h⟩) (iblk6 V c 2 ⟨0, h⟩) (iblk6 V c 3 ⟨0, h⟩) (iblk6 V c 4 ⟨0, h⟩)) (ix2 (0 : Fin 1) q) = _
    rw [pay6_1_apply, pay6_3_apply, zero_add, Finset.sum_range_one, tileSum_of_lt _ 0 (by omega)]
    exact Finset.sum_congr rfl fun p _ => by rw [blk6_eq V c ⟨0, h⟩ p q]; rfl
  | n + 1, h => by
    have hN : cfg6.N = 10 := N_6
    show k6_pay1 (k6_pay6 (acc6 V c n _).2) (k6_pay7 (iblk6 V c 0 ⟨n + 1, h⟩) (iblk6 V c 1 ⟨n + 1, h⟩) (iblk6 V c 2 ⟨n + 1, h⟩) (iblk6 V c 3 ⟨n + 1, h⟩) (iblk6 V c 4 ⟨n + 1, h⟩)) (ix2 (0 : Fin 1) q) = _
    rw [pay6_1_apply, acc6_sumsq c q n, Finset.sum_range_succ _ (n + 1), tileSum_of_lt _ (n + 1) (by omega)]
    exact congrArg (_ + ·) (Finset.sum_congr rfl fun p _ => by rw [blk6_eq V c ⟨n + 1, h⟩ p q]; rfl)

set_option maxHeartbeats 1000000 in
/-- What point `t` writes back of the first output is block `t` of the whole-array transform. -/
theorem flushed6_5_eq (c : Dev nD) (t : Fin cfg6.N) :
    (dat6 (F := Ideal) V c).flushed 5 t = ((cfg6.win 5).blk t).view.read (Elt Ideal) (ltOut (V c main_v115) (V c main_v99_0) (V c main_v117) (V c main_v119) (V c main_v122)) := by
  show (cfg6.win 5).cut (grid6.coords t) ((dat6 V c).after 5 t) = _
  rw [after6_5, outsAt6_eq]
  obtain ⟨e00, e01, e10, e11, e20, e21, e30, e31, e40, e41, e50, e51, e60, e61, e70, e71⟩ := idx_facts6 t
  funext j
  obtain ⟨p, q, rfl⟩ : ∃ (p : Fin 5000) (q : Fin 128), j = ix2 p q := ⟨j 0, j 1, eq_ix2 j⟩
  show k6_pay4 (iblk6 V c 0 t) (iblk6 V c 1 t) (iblk6 V c 2 t) (iblk6 V c 3 t) (iblk6 V c 4 t) (ix2 p q) = (ltOut (V c main_v115) (V c main_v99_0) (V c main_v117) (V c main_v119) (V c main_v122)) (((cfg6.win 5).blk t).view.emb (ix2 p q))
  rw [blk6_eq V c t p q]
  refine congrArg (ltOut (V c main_v115) (V c main_v99_0) (V c main_v117) (V c main_v119) (V c main_v122)) (funext fun a => Fin.ext ?_)
  match a with
  | ⟨0, _⟩ => show p.val + 5000 * t.val = win6_5.index t (0 : Fin 2) * 5000 + 1 * p.val; omega
  | ⟨1, _⟩ => show q.val = win6_5.index t (1 : Fin 2) * 128 + 1 * q.val; omega

/-- An index of the first output array lies in point `t`'s block when each coordinate lies in the block's range. -/
theorem mem_blk6_5 (t : Fin cfg6.N) (i : S50000x128.Idx) :
    i ∈ ((cfg6.win 5).blk t).view.set ↔ ∀ a : Fin 2, win6_5.index t a * S5000x128.size a ≤ (i a).val ∧ (i a).val < win6_5.index t a * S5000x128.size a + S5000x128.size a := by
  show i ∈ ((View.whole main_v123_0).slice (win6_5.rect t)).set ↔ _
  rw [View.set_slice_whole, Rect.mem_set_unit]
  exact Iff.rfl

/-- Every index of the first output array lies in some point's block: row `r` in the block of point `r / 5000`. -/
theorem cover6_5 (i : S50000x128.Idx) :
    ∃ t : Fin cfg6.N, (cfg6.win 5).flush t = true ∧ i ∈ ((cfg6.win 5).blk t).view.set := by
  have hi0 : (i 0).val < 50000 := (i 0).isLt
  have hi1 : (i 1).val < 128 := (i 1).isLt
  have hN : cfg6.N = 10 := N_6
  have ht : (i 0).val / 5000 < cfg6.N := by rw [hN]; omega
  obtain ⟨e00, e01, e10, e11, e20, e21, e30, e31, e40, e41, e50, e51, e60, e61, e70, e71⟩ := idx_facts6 ⟨(i 0).val / 5000, ht⟩
  refine ⟨⟨(i 0).val / 5000, ht⟩, flush6_5 _, ?_⟩
  rw [mem_blk6_5]
  intro a
  match a with
  | ⟨0, _⟩ =>
    show win6_5.index ⟨(i 0).val / 5000, ht⟩ (0 : Fin 2) * 5000 ≤ (i 0).val
      ∧ (i 0).val < win6_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win6_5.index ⟨(i 0).val / 5000, ht⟩ (1 : Fin 2) * 128 ≤ (i 1).val
      ∧ (i 1).val < win6_5.index ⟨(i 0).val / 5000, ht⟩ (1 : Fin 2) * 128 + 128
    rw [e51]; omega

/-- The first output array after the region is the transform of the five arrays the region read. -/
theorem value6_o (V : (c : Dev nD) → (b : Ref sig .tc) → Buf (Elt Ideal) ((c : Thread nD τ).loc b)) (c : Dev nD) :
    (dat6 (F := Ideal) V c).arrAt 5 cfg6.N = ltOut (V c main_v115) (V c main_v99_0) (V c main_v117) (V c main_v119) (V c main_v122) :=
  (dat6 (F := Ideal) V c).arrAt_eq_of_cover 5 _ (fun t _ => flushed6_5_eq V c t) cover6_5

set_option maxHeartbeats 1000000 in
/-- The one write-back of output 6, at the last point, writes the column sums of the whole-array transform. -/
theorem flushed6_6_eq (c : Dev nD) (t : Fin cfg6.N) (hf : (cfg6.win 6).flush t = true) :
    (dat6 (F := Ideal) V c).flushed 6 t = ((cfg6.win 6).blk t).view.read (Elt Ideal) (ltSum (ltOut (V c main_v115) (V c main_v99_0) (V c main_v117) (V c main_v119) (V c main_v122))) := by
  have hN : cfg6.N = 10 := N_6
  have h9 : t.val = 9 := by have := (flush6_6 t).mp hf; have := t.isLt; omega
  obtain ⟨e00, e01, e10, e11, e20, e21, e30, e31, e40, e41, e50, e51, e60, e61, e70, e71⟩ := idx_facts6 t
  have hacc : (acc6 V c t.val t.isLt).1 = ltSum (ltOut (V c main_v115) (V c main_v99_0) (V c main_v117) (V c main_v119) (V c main_v122)) := by
    funext j
    obtain ⟨p, q, rfl⟩ : ∃ (p : Fin 1) (q : Fin 128), j = ix2 p q := ⟨j 0, j 1, eq_ix2 j⟩
    obtain rfl : p = 0 := Subsingleton.elim _ _
    rw [acc6_sum V c q t.val t.isLt, h9]
    exact sum_range_tiles (fun r => (ltOut (V c main_v115) (V c main_v99_0) (V c main_v117) (V c main_v119) (V c main_v122)) (ix2 r q))
  show (cfg6.win 6).cut (grid6.coords t) ((dat6 V c).after 6 t) = _
  rw [after6_6, outsAt6_eq]
  (try dsimp only)
  rw [hacc]
  have hz' : (fun a => win6_6.index t a * main_v123_1.ty.shape.size a) = fun _ => 0 := funext fun a => by
    match a with
    | ⟨0, _⟩ => show win6_6.index t (0 : Fin 2) * 1 = 0; omega
    | ⟨1, _⟩ => show win6_6.index t (1 : Fin 2) * 128 = 0; omega
  exact (Memref.read_access_unit_zero (Elt Ideal) main_v123_1 hz' (fun a => by rw [congrFun hz' a]; simp) (ltSum (ltOut (V c main_v115) (V c main_v99_0) (V c main_v117) (V c main_v119) (V c main_v122)))).symm

/-- An index of output 6's array lies in point `t`'s block when each coordinate lies in the block's range. -/
theorem mem_blk6_6 (t : Fin cfg6.N) (i : S1x128.Idx) :
    i ∈ ((cfg6.win 6).blk t).view.set ↔ ∀ a : Fin 2, win6_6.index t a * S1x128.size a ≤ (i a).val ∧ (i a).val < win6_6.index t a * S1x128.size a + S1x128.size a := by
  show i ∈ ((View.whole main_v123_1).slice (win6_6.rect t)).set ↔ _
  rw [View.set_slice_whole, Rect.mem_set_unit]
  exact Iff.rfl

/-- The last point's block is the whole of output 6's array. -/
theorem cover6_6 (i : S1x128.Idx) :
    ∃ t : Fin cfg6.N, (cfg6.win 6).flush t = true ∧ i ∈ ((cfg6.win 6).blk t).view.set := by
  have hi0 : (i 0).val < 1 := (i 0).isLt
  have hi1 : (i 1).val < 128 := (i 1).isLt
  obtain ⟨e00, e01, e10, e11, e20, e21, e30, e31, e40, e41, e50, e51, e60, e61, e70, e71⟩ := idx_facts6 t6_9
  refine ⟨t6_9, (flush6_6 t6_9).mpr rfl, ?_⟩
  rw [mem_blk6_6]
  intro a
  match a with
  | ⟨0, _⟩ =>
    show win6_6.index t6_9 (0 : Fin 2) * 1 ≤ (i 0).val ∧ (i 0).val < win6_6.index t6_9 (0 : Fin 2) * 1 + 1
    omega
  | ⟨1, _⟩ =>
    show win6_6.index t6_9 (1 : Fin 2) * 128 ≤ (i 1).val ∧ (i 1).val < win6_6.index t6_9 (1 : Fin 2) * 128 + 128
    omega

/-- Output 6's array after the region: the column sums of the transform of the five arrays the region read. -/
theorem value6_sum (V : (c : Dev nD) → (b : Ref sig .tc) → Buf (Elt Ideal) ((c : Thread nD τ).loc b)) (c : Dev nD) :
    (dat6 (F := Ideal) V c).arrAt 6 cfg6.N = ltSum (ltOut (V c main_v115) (V c main_v99_0) (V c main_v117) (V c main_v119) (V c main_v122)) :=
  (dat6 (F := Ideal) V c).arrAt_eq_of_cover 6 _ (flushed6_6_eq V c) cover6_6

set_option maxHeartbeats 1000000 in
/-- The one write-back of output 7, at the last point, writes the column sums of squares of the whole-array transform. -/
theorem flushed6_7_eq (c : Dev nD) (t : Fin cfg6.N) (hf : (cfg6.win 7).flush t = true) :
    (dat6 (F := Ideal) V c).flushed 7 t = ((cfg6.win 7).blk t).view.read (Elt Ideal) (ltSumSq (ltOut (V c main_v115) (V c main_v99_0) (V c main_v117) (V c main_v119) (V c main_v122))) := by
  have hN : cfg6.N = 10 := N_6
  have h9 : t.val = 9 := by have := (flush6_7 t).mp hf; have := t.isLt; omega
  obtain ⟨e00, e01, e10, e11, e20, e21, e30, e31, e40, e41, e50, e51, e60, e61, e70, e71⟩ := idx_facts6 t
  have hacc : (acc6 V c t.val t.isLt).2 = ltSumSq (ltOut (V c main_v115) (V c main_v99_0) (V c main_v117) (V c main_v119) (V c main_v122)) := by
    funext j
    obtain ⟨p, q, rfl⟩ : ∃ (p : Fin 1) (q : Fin 128), j = ix2 p q := ⟨j 0, j 1, eq_ix2 j⟩
    obtain rfl : p = 0 := Subsingleton.elim _ _
    rw [acc6_sumsq V c q t.val t.isLt, h9]
    exact sum_range_tiles (fun r => (ltOut (V c main_v115) (V c main_v99_0) (V c main_v117) (V c main_v119) (V c main_v122)) (ix2 r q) * (ltOut (V c main_v115) (V c main_v99_0) (V c main_v117) (V c main_v119) (V c main_v122)) (ix2 r q))
  show (cfg6.win 7).cut (grid6.coords t) ((dat6 V c).after 7 t) = _
  rw [after6_7, outsAt6_eq]
  (try dsimp only)
  rw [hacc]
  have hz' : (fun a => win6_7.index t a * main_v123_2.ty.shape.size a) = fun _ => 0 := funext fun a => by
    match a with
    | ⟨0, _⟩ => show win6_7.index t (0 : Fin 2) * 1 = 0; omega
    | ⟨1, _⟩ => show win6_7.index t (1 : Fin 2) * 128 = 0; omega
  exact (Memref.read_access_unit_zero (Elt Ideal) main_v123_2 hz' (fun a => by rw [congrFun hz' a]; simp) (ltSumSq (ltOut (V c main_v115) (V c main_v99_0) (V c main_v117) (V c main_v119) (V c main_v122)))).symm

/-- An index of output 7's array lies in point `t`'s block when each coordinate lies in the block's range. -/
theorem mem_blk6_7 (t : Fin cfg6.N) (i : S1x128.Idx) :
    i ∈ ((cfg6.win 7).blk t).view.set ↔ ∀ a : Fin 2, win6_7.index t a * S1x128.size a ≤ (i a).val ∧ (i a).val < win6_7.index t a * S1x128.size a + S1x128.size a := by
  show i ∈ ((View.whole main_v123_2).slice (win6_7.rect t)).set ↔ _
  rw [View.set_slice_whole, Rect.mem_set_unit]
  exact Iff.rfl

/-- The last point's block is the whole of output 7's array. -/
theorem cover6_7 (i : S1x128.Idx) :
    ∃ t : Fin cfg6.N, (cfg6.win 7).flush t = true ∧ i ∈ ((cfg6.win 7).blk t).view.set := by
  have hi0 : (i 0).val < 1 := (i 0).isLt
  have hi1 : (i 1).val < 128 := (i 1).isLt
  obtain ⟨e00, e01, e10, e11, e20, e21, e30, e31, e40, e41, e50, e51, e60, e61, e70, e71⟩ := idx_facts6 t6_9
  refine ⟨t6_9, (flush6_7 t6_9).mpr rfl, ?_⟩
  rw [mem_blk6_7]
  intro a
  match a with
  | ⟨0, _⟩ =>
    show win6_7.index t6_9 (0 : Fin 2) * 1 ≤ (i 0).val ∧ (i 0).val < win6_7.index t6_9 (0 : Fin 2) * 1 + 1
    omega
  | ⟨1, _⟩ =>
    show win6_7.index t6_9 (1 : Fin 2) * 128 ≤ (i 1).val ∧ (i 1).val < win6_7.index t6_9 (1 : Fin 2) * 128 + 128
    omega

/-- Output 7's array after the region: the column sums of squares of the transform of the five arrays the region read. -/
theorem value6_sumsq (V : (c : Dev nD) → (b : Ref sig .tc) → Buf (Elt Ideal) ((c : Thread nD τ).loc b)) (c : Dev nD) :
    (dat6 (F := Ideal) V c).arrAt 7 cfg6.N = ltSumSq (ltOut (V c main_v115) (V c main_v99_0) (V c main_v117) (V c main_v119) (V c main_v122)) :=
  (dat6 (F := Ideal) V c).arrAt_eq_of_cover 7 _ (flushed6_7_eq V c) cover6_7

end Arrays

end Cert.KernelIdeal.Reg

end
-- ==== Proof.KI.Val7.lean ====
import proofs.«144276_j65051574665788_2_alg».proof.Proof.KI.Reg7
import proofs.«144276_j65051574665788_2_alg».proof.Proof.KI.LibBnPool
import Idealize.ShloMosaic.Lib.Pipeline.Value
import Idealize.ShloMosaic.PureOps.Ideal.Laws
import Idealize.ShloMosaic.Lib.ValueIdx
import Idealize.ShloMosaic.Lib.Tactic

/-! # Region 7 read as two arrays

After the region its first output array is the normalised array of the region's entry arrays, entry (n, j) being
γ[j] · (h[n, j] − μ[j]) · rsqrt(σ²[j] + ε) + β[j] clamped below at 0, and its second output array is the pooled array: entry (g, j) the
sum of the normalised rows whose graph number is the word of g.

The ten grid points write the ten tiles of 5000 rows of the first array, point `t` tile `t`. The second array is one block,
revisited at every point: zeroed and added tile 0's share at the first point, added tile `t`'s share at point `t`, written
back after the last. So what its buffer holds after point `n` is the running sum of the shares of tiles 0 … n, by induction
on the point, and after the tenth tile that is the sum over all rows. -/

set_option maxRecDepth 16384

noncomputable section

namespace Cert.KernelIdeal.Reg

open Cert.KernelIdeal Cert.KernelIdeal.Gen Cert.LibBlockOps
open Idealize.ShloMosaic Idealize.ShloMosaic.TcCoe Idealize.ShloMosaic.Tactic Idealize.ShloMosaic.ValueIdx Idealize.SL.Sem
open Idealize.ShloMosaic.Pipeline (Dat)

/-! ## What each case's stores leave, as payloads of the blocks -/

section Pieces
variable {F : FTy → Type} [FloatOps F]

/-- Case A leaves in output 6 its one covering store's payload: the normalised block of the input blocks. -/
theorem out7_A_6_eq (c : Dev nD) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : cond7_0 i)
    (x0 : Vec F S5000x128 .f32) (x1 : Vec F S1x128 .f32) (x2 : Vec F S1x128 .f32) (x3 : Vec F S1x128 .f32) (x4 : Vec F S1x128 .f32) (x5 : Vec F S5000x1 .i32) :
    out7_A_6 c i arg1 harg1 arg2 harg2 arg3 harg3 arg4 harg4 arg5 harg5 arg6 harg6 arg7 harg7 arg8 harg8 hc0 x0 x1 x2 x3 x4 x5 = k7_pay3 x2 x3 x0 x1 x4 := by
  unfold out7_A_6
  rw [View.read_writes_eq_canon _ _ _ (cover7_A_6 c i arg1 harg1 arg2 harg2 arg3 harg3 arg4 harg4 arg5 harg5 arg6 harg6 arg7 harg7 arg8 harg8 hc0 x0 x1 x2 x3 x4 x5)]
  unfold kernelRun7_A
  dsimp only
  try sl_unfold_words
  rw [View.canon_unit_zero offsets_zero2]
  simp only [View.readAt_eq_ld, harg1.read_unread, harg2.read_unread, harg3.read_unread, harg4.read_unread, harg5.read_unread, harg6.read_unread, harg8.read_unread, View.ld_unit_zero (S := S5000x128) offsets_zero2, View.ld_unit_zero (S := S1x128) offsets_zero2, View.ld_unit_zero (S := S5000x1) offsets_zero2, View.ld_unit_zero (S := S128x128) offsets_zero2]

/-- Case B leaves the same there. -/
theorem out7_B_6_eq (c : Dev nD) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : ¬cond7_0 i)
    (x0 : Vec F S5000x128 .f32) (x1 : Vec F S1x128 .f32) (x2 : Vec F S1x128 .f32) (x3 : Vec F S1x128 .f32) (x4 : Vec F S1x128 .f32) (x5 : Vec F S5000x1 .i32) (xo7 : Vec F S128x128 .f32) :
    out7_B_6 c i arg1 harg1 arg2 harg2 arg3 harg3 arg4 harg4 arg5 harg5 arg6 harg6 arg7 harg7 arg8 harg8 hc0 x0 x1 x2 x3 x4 x5 xo7 = k7_pay3 x2 x3 x0 x1 x4 := by
  unfold out7_B_6
  rw [View.read_writes_eq_canon _ _ _ (cover7_B_6 c i arg1 harg1 arg2 harg2 arg3 harg3 arg4 harg4 arg5 harg5 arg6 harg6 arg7 harg7 arg8 harg8 hc0 x0 x1 x2 x3 x4 x5 xo7)]
  unfold kernelRun7_B
  dsimp only
  try sl_unfold_words
  rw [View.canon_unit_zero offsets_zero2]
  simp only [View.readAt_eq_ld, harg1.read_unread, harg2.read_unread, harg3.read_unread, harg4.read_unread, harg5.read_unread, harg6.read_unread, harg8.read_unread, View.ld_unit_zero (S := S5000x128) offsets_zero2, View.ld_unit_zero (S := S1x128) offsets_zero2, View.ld_unit_zero (S := S5000x1) offsets_zero2, View.ld_unit_zero (S := S128x128) offsets_zero2]

/-- Case A leaves in output 7 the tile's share added to the zero block it has just stored and read back. -/
theorem out7_A_7_eq (c : Dev nD) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : cond7_0 i)
    (x0 : Vec F S5000x128 .f32) (x1 : Vec F S1x128 .f32) (x2 : Vec F S1x128 .f32) (x3 : Vec F S1x128 .f32) (x4 : Vec F S1x128 .f32) (x5 : Vec F S5000x1 .i32) :
    out7_A_7 c i arg1 harg1 arg2 harg2 arg3 harg3 arg4 harg4 arg5 harg5 arg6 harg6 arg7 harg7 arg8 harg8 hc0 x0 x1 x2 x3 x4 x5 = k7_pay1 (k7_pay4 x2 x3 x0 x1 x4 x5) (k7_pay2 (F := F)) := by
  unfold out7_A_7
  rw [View.read_writes_eq_canon _ _ _ (cover7_A_7 c i arg1 harg1 arg2 harg2 arg3 harg3 arg4 harg4 arg5 harg5 arg6 harg6 arg7 harg7 arg8 harg8 hc0 x0 x1 x2 x3 x4 x5)]
  unfold kernelRun7_A
  dsimp only
  sl_unfold_words
  rw [View.canon_cons_unit_zero (S := S128x128) offsets_zero2, View.readCov_unit_zero (S := S128x128) _ offsets_zero2]
  simp only [View.readAt_eq_ld, harg1.read_unread, harg2.read_unread, harg3.read_unread, harg4.read_unread, harg5.read_unread, harg6.read_unread, harg8.read_unread, View.ld_unit_zero (S := S5000x128) offsets_zero2, View.ld_unit_zero (S := S1x128) offsets_zero2, View.ld_unit_zero (S := S5000x1) offsets_zero2, View.ld_unit_zero (S := S128x128) offsets_zero2]

/-- Case B leaves there the tile's share added to what the buffer held. -/
theorem out7_B_7_eq (c : Dev nD) (i : grid7.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : ¬cond7_0 i)
    (x0 : Vec F S5000x128 .f32) (x1 : Vec F S1x128 .f32) (x2 : Vec F S1x128 .f32) (x3 : Vec F S1x128 .f32) (x4 : Vec F S1x128 .f32) (x5 : Vec F S5000x1 .i32) (xo7 : Vec F S128x128 .f32) :
    out7_B_7 c i arg1 harg1 arg2 harg2 arg3 harg3 arg4 harg4 arg5 harg5 arg6 harg6 arg7 harg7 arg8 harg8 hc0 x0 x1 x2 x3 x4 x5 xo7 = k7_pay1 (k7_pay4 x2 x3 x0 x1 x4 x5) xo7 := by
  unfold out7_B_7
  rw [View.read_writes_eq_canon _ _ _ (cover7_B_7 c i arg1 harg1 arg2 harg2 arg3 harg3 arg4 harg4 arg5 harg5 arg6 harg6 arg7 harg7 arg8 harg8 hc0 x0 x1 x2 x3 x4 x5 xo7)]
  unfold kernelRun7_B
  dsimp only
  sl_unfold_words
  rw [View.canon_unit_zero offsets_zero2]
  simp only [View.readAt_eq_ld, harg1.read_unread, harg2.read_unread, harg3.read_unread, harg4.read_unread, harg5.read_unread, harg6.read_unread, harg8.read_unread, View.ld_unit_zero (S := S5000x128) offsets_zero2, View.ld_unit_zero (S := S1x128) offsets_zero2, View.ld_unit_zero (S := S5000x1) offsets_zero2, View.ld_unit_zero (S := S128x128) offsets_zero2]

end Pieces

/-! ## The payloads at an entry, over the extended reals -/

/-- The normalised block at row `p`, column `q`: the four rows [1, 128] are stretched over the 5000 rows. -/
theorem bpay3_7_apply (var g : Vec Ideal S1x128 .f32) (h : Vec Ideal S5000x128 .f32) (mu b : Vec Ideal S1x128 .f32)
    (p : Fin 5000) (q : Fin 128) :
    k7_pay3 var g h mu b (ix2 p q)
      = max (g (ix2 (0 : Fin 1) q) * (h (ix2 p q) - mu (ix2 (0 : Fin 1) q)) * Ideal.rsqrt (var (ix2 (0 : Fin 1) q) + Ideal.ofBits .f32 0x3727C5AC#32) + b (ix2 (0 : Fin 1) q)) 0 := by
  unfold k7_pay3
  simp only [shapeCast_self]
  rw [maximumf_apply, addf_apply, mulf_apply, mulf_apply, subf_apply,
    broadcast_row_apply _ _ (by decide), broadcast_row_apply _ _ (by decide), broadcast_row_apply _ _ (by decide), broadcast_row_apply _ _ (by decide)]
  rw [broadcast_apply, ← Ideal.ofBits_zero_f32]
  rfl

/-- A tile's share at entry (g, q): the one-hot block contracted with the normalised block along the rows. -/
theorem bpay4_7_apply (var g : Vec Ideal S1x128 .f32) (h : Vec Ideal S5000x128 .f32) (mu b : Vec Ideal S1x128 .f32)
    (bt : Vec Ideal S5000x1 .i32) (gn q : Fin 128) :
    k7_pay4 var g h mu b bt (ix2 gn q)
      = ∑ p : Fin 5000, (if bt (ix2 p (0 : Fin 1)) = BitVec.ofNat 32 gn.val then (1 : EReal) else 0) * k7_pay3 var g h mu b (ix2 p q) := by
  unfold k7_pay4
  rw [matmul_rows_zero_apply]
  refine Finset.sum_congr rfl fun p _ => ?_
  rw [onehot_blk_apply, truncf_apply]

/-- The accumulating store's payload at an entry: what the buffer held plus the share. -/
theorem bpay1_7_apply (s acc : Vec Ideal S128x128 .f32) (gn q : Fin 128) :
    k7_pay1 s acc (ix2 gn q) = acc (ix2 gn q) + s (ix2 gn q) := by
  unfold k7_pay1
  rw [addf_apply, shapeCast_self]

/-- The zero block at an entry. -/
theorem bpay2_7_apply (gn q : Fin 128) : k7_pay2 (F := Ideal) (ix2 gn q) = 0 := by
  unfold k7_pay2
  rw [broadcast_apply]
  exact Ideal.ofBits_zero_f32

/-! ## The blocks the windows read -/

-- what the core's buffers hold, as extended reals, when the region is entered
variable (V : (c : Dev nD) → (b : Ref sig .tc) → Buf (Elt Ideal) ((c : Thread nD τ).loc b))

/-- The block indices at every grid point: the rows `h`, the graph numbers and the first output move together, block
    `t` at point `t`; every other block index is 0. Decided over the ten points. -/
theorem idx_facts7 : ∀ t : Fin cfg7.N, win7_0.index t (0 : Fin 2) = t.val
    ∧ win7_0.index t (1 : Fin 2) = 0
    ∧ win7_1.index t (0 : Fin 2) = 0
    ∧ win7_1.index t (1 : Fin 2) = 0
    ∧ win7_2.index t (0 : Fin 2) = 0
    ∧ win7_2.index t (1 : Fin 2) = 0
    ∧ win7_3.index t (0 : Fin 2) = 0
    ∧ win7_3.index t (1 : Fin 2) = 0
    ∧ win7_4.index t (0 : Fin 2) = 0
    ∧ win7_4.index t (1 : Fin 2) = 0
    ∧ win7_5.index t (0 : Fin 2) = t.val
    ∧ win7_5.index t (1 : Fin 2) = 0
    ∧ win7_6.index t (0 : Fin 2) = t.val
    ∧ win7_6.index t (1 : Fin 2) = 0
    ∧ win7_7.index t (0 : Fin 2) = 0
    ∧ win7_7.index t (1 : Fin 2) = 0 :=
  (by decide +kernel : ∀ t : Fin grid7.N, _)

/-- Point `t` as a tile number. -/
def tile7 (t : Fin cfg7.N) : Fin 10 := ⟨t.val, lt_of_lt_of_eq t.isLt N_7⟩

/-- Window 0's block at point `t`, row `p`: row `p` of tile `t` of the array. -/
theorem blk7_h (c : Dev nD) (t : Fin cfg7.N) (p : Fin 5000) (q : Fin 128) :
    iblk7 V c 0 t (ix2 p q) = V c main_v123_0 (ix2 (tileRowG (tile7 t) p) q) := by
  obtain ⟨e00, e01, e10, e11, e20, e21, e30, e31, e40, e41, e50, e51, e60, e61, e70, e71⟩ := idx_facts7 t
  refine congrArg (V c main_v123_0) ?_
  funext a; apply Fin.ext
  match a with
  | ⟨0, _⟩ => show win7_0.index t (0 : Fin 2) * 5000 + 1 * p.val = p.val + 5000 * t.val; omega
  | ⟨1, _⟩ => show win7_0.index t (1 : Fin 2) * 128 + 1 * q.val = q.val; omega

/-- Window 1's block at point `t`, at its one row: the array's row. -/
theorem blk7_mu (c : Dev nD) (t : Fin cfg7.N) (q : Fin 128) :
    iblk7 V c 1 t (ix2 (0 : Fin 1) q) = V c main_v125 (ix2 (0 : Fin 1) q) := by
  obtain ⟨e00, e01, e10, e11, e20, e21, e30, e31, e40, e41, e50, e51, e60, e61, e70, e71⟩ := idx_facts7 t
  refine congrArg (V c main_v125) ?_
  funext a; apply Fin.ext
  match a with
  | ⟨0, _⟩ => show win7_1.index t (0 : Fin 2) * 1 + 1 * 0 = 0; omega
  | ⟨1, _⟩ => show win7_1.index t (1 : Fin 2) * 128 + 1 * q.val = q.val; omega

/-- Window 2's block at point `t`, at its one row: the array's row. -/
theorem blk7_var (c : Dev nD) (t : Fin cfg7.N) (q : Fin 128) :
    iblk7 V c 2 t (ix2 (0 : Fin 1) q) = V c main_v129 (ix2 (0 : Fin 1) q) := by
  obtain ⟨e00, e01, e10, e11, e20, e21, e30, e31, e40, e41, e50, e51, e60, e61, e70, e71⟩ := idx_facts7 t
  refine congrArg (V c main_v129) ?_
  funext a; apply Fin.ext
  match a with
  | ⟨0, _⟩ => show win7_2.index t (0 : Fin 2) * 1 + 1 * 0 = 0; omega
  | ⟨1, _⟩ => show win7_2.index t (1 : Fin 2) * 128 + 1 * q.val = q.val; omega

/-- Window 3's block at point `t`, at its one row: the array's row. -/
theorem blk7_g (c : Dev nD) (t : Fin cfg7.N) (q : Fin 128) :
    iblk7 V c 3 t (ix2 (0 : Fin 1) q) = V c main_v134 (ix2 (0 : Fin 1) q) := by
  obtain ⟨e00, e01, e10, e11, e20, e21, e30, e31, e40, e41, e50, e51, e60, e61, e70, e71⟩ := idx_facts7 t
  refine congrArg (V c main_v134) ?_
  funext a; apply Fin.ext
  match a with
  | ⟨0, _⟩ => show win7_3.index t (0 : Fin 2) * 1 + 1 * 0 = 0; omega
  | ⟨1, _⟩ => show win7_3.index t (1 : Fin 2) * 128 + 1 * q.val = q.val; omega

/-- Window 4's block at point `t`, at its one row: the array's row. -/
theorem blk7_b (c : Dev nD) (t : Fin cfg7.N) (q : Fin 128) :
    iblk7 V c 4 t (ix2 (0 : Fin 1) q) = V c main_v135 (ix2 (0 : Fin 1) q) := by
  obtain ⟨e00, e01, e10, e11, e20, e21, e30, e31, e40, e41, e50, e51, e60, e61, e70, e71⟩ := idx_facts7 t
  refine congrArg (V c main_v135) ?_
  funext a; apply Fin.ext
  match a with
  | ⟨0, _⟩ => show win7_4.index t (0 : Fin 2) * 1 + 1 * 0 = 0; omega
  | ⟨1, _⟩ => show win7_4.index t (1 : Fin 2) * 128 + 1 * q.val = q.val; omega

/-- Window 5's block at point `t`, row `p`: the graph number of row `p` of tile `t`. -/
theorem blk7_bt (c : Dev nD) (t : Fin cfg7.N) (p : Fin 5000) :
    iblk7 V c 5 t (ix2 p (0 : Fin 1)) = V c main_v25 (ix2 (tileRowG (tile7 t) p) (0 : Fin 1)) := by
  obtain ⟨e00, e01, e10, e11, e20, e21, e30, e31, e40, e41, e50, e51, e60, e61, e70, e71⟩ := idx_facts7 t
  refine congrArg (V c main_v25) ?_
  funext a; apply Fin.ext
  match a with
  | ⟨0, _⟩ => show win7_5.index t (0 : Fin 2) * 5000 + 1 * p.val = p.val + 5000 * t.val; omega
  | ⟨1, _⟩ => show win7_5.index t (1 : Fin 2) * 1 + 1 * 0 = 0; omega

/-- The normalised block of point `t`'s input blocks, at row `p`: row `p` of tile `t` of the normalised array. -/
theorem pay3_7_blk (c : Dev nD) (t : Fin cfg7.N) (p : Fin 5000) (q : Fin 128) :
    k7_pay3 (iblk7 V c 2 t) (iblk7 V c 3 t) (iblk7 V c 0 t) (iblk7 V c 1 t) (iblk7 V c 4 t) (ix2 p q)
      = bnOut (V c main_v123_0) (V c main_v125) (V c main_v129) (V c main_v134) (V c main_v135) (ix2 (tileRowG (tile7 t) p) q) := by
  rw [bpay3_7_apply, bnOut_apply, blk7_h, blk7_mu, blk7_var, blk7_g, blk7_b]

/-- Point `t`'s share of the pooled array, from its input blocks. -/
def share7 (c : Dev nD) (t : Fin cfg7.N) : Vec Ideal S128x128 .f32 :=
  k7_pay4 (iblk7 V c 2 t) (iblk7 V c 3 t) (iblk7 V c 0 t) (iblk7 V c 1 t) (iblk7 V c 4 t) (iblk7 V c 5 t)

/-- It is tile `t`'s share of the pooled array of the region's entry arrays. -/
theorem share7_apply (c : Dev nD) (t : Fin cfg7.N) (gn q : Fin 128) :
    share7 V c t (ix2 gn q) = tilePool (V c main_v25) (bnOut (V c main_v123_0) (V c main_v125) (V c main_v129) (V c main_v134) (V c main_v135)) (tile7 t) (ix2 gn q) := by
  unfold share7
  rw [bpay4_7_apply]
  refine Finset.sum_congr rfl fun p _ => ?_
  rw [pay3_7_blk, blk7_bt]

/-! ## What the outputs hold after each point -/

set_option maxHeartbeats 1000000 in
theorem pt7_A_fst (c : Dev nD) (t : Fin cfg7.N) (h0 : t.val % 10 = 0) :
    (pt7_A V c t h0).1 = k7_pay3 (iblk7 V c 2 t) (iblk7 V c 3 t) (iblk7 V c 0 t) (iblk7 V c 1 t) (iblk7 V c 4 t) := by
  dsimp only [pt7_A]
  exact out7_A_6_eq (F := Ideal) c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) ((hcond7_0 t).mpr h0) (iblk7 V c 0 t) (iblk7 V c 1 t) (iblk7 V c 2 t) (iblk7 V c 3 t) (iblk7 V c 4 t) (iblk7 V c 5 t)

set_option maxHeartbeats 1000000 in
theorem pt7_B_fst (c : Dev nD) (t : Fin cfg7.N) (h0 : ¬t.val % 10 = 0) (xo7 : Vec Ideal S128x128 .f32) :
    (pt7_B V c t h0 xo7).1 = k7_pay3 (iblk7 V c 2 t) (iblk7 V c 3 t) (iblk7 V c 0 t) (iblk7 V c 1 t) (iblk7 V c 4 t) := by
  dsimp only [pt7_B]
  exact out7_B_6_eq (F := Ideal) c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (fun h => h0 ((hcond7_0 t).mp h)) (iblk7 V c 0 t) (iblk7 V c 1 t) (iblk7 V c 2 t) (iblk7 V c 3 t) (iblk7 V c 4 t) (iblk7 V c 5 t) xo7

set_option maxHeartbeats 1000000 in
theorem pt7_A_snd (c : Dev nD) (t : Fin cfg7.N) (h0 : t.val % 10 = 0) :
    (pt7_A V c t h0).2 = k7_pay1 (F := Ideal) (share7 V c t) (k7_pay2 (F := Ideal)) := by
  dsimp only [pt7_A]
  exact out7_A_7_eq (F := Ideal) c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) ((hcond7_0 t).mpr h0) (iblk7 V c 0 t) (iblk7 V c 1 t) (iblk7 V c 2 t) (iblk7 V c 3 t) (iblk7 V c 4 t) (iblk7 V c 5 t)

set_option maxHeartbeats 1000000 in
theorem pt7_B_snd (c : Dev nD) (t : Fin cfg7.N) (h0 : ¬t.val % 10 = 0) (xo7 : Vec Ideal S128x128 .f32) :
    (pt7_B V c t h0 xo7).2 = k7_pay1 (F := Ideal) (share7 V c t) (xo7) := by
  dsimp only [pt7_B]
  exact out7_B_7_eq (F := Ideal) c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (fun h => h0 ((hcond7_0 t).mp h)) (iblk7 V c 0 t) (iblk7 V c 1 t) (iblk7 V c 2 t) (iblk7 V c 3 t) (iblk7 V c 4 t) (iblk7 V c 5 t) xo7

/-- After every point the first output's buffer holds the normalised block of the point's input blocks. -/
theorem outsAt7_fst (c : Dev nD) (t : Fin cfg7.N) :
    (outsAt7 V c t.val t.isLt).1 = k7_pay3 (iblk7 V c 2 t) (iblk7 V c 3 t) (iblk7 V c 0 t) (iblk7 V c 1 t) (iblk7 V c 4 t) := by
  by_cases h0 : t.val % 10 = 0
  · rw [outsAt7_A V c t h0]; exact pt7_A_fst V c t h0
  · rw [outsAt7_B V c t h0]; exact pt7_B_fst V c t h0 _

/-- After point `n` the second output's buffer holds the running sum of the shares of tiles 0 … n: by induction on the
    point; the first point starts from the zero block (0 + x = x), a later point adds to what the point before left. -/
theorem outsAt7_snd (c : Dev nD) : ∀ (n : ℕ) (h : n < cfg7.N) (gn q : Fin 128),
    (outsAt7 V c n h).2 (ix2 gn q) = ∑ t ∈ Finset.range (n + 1), tilePoolN (V c main_v25) (bnOut (V c main_v123_0) (V c main_v125) (V c main_v129) (V c main_v134) (V c main_v135)) t (ix2 gn q)
  | 0, h, gn, q => by
    rw [outsAt7_A V c ⟨0, h⟩ (Nat.zero_mod _), pt7_A_snd, bpay1_7_apply, bpay2_7_apply, zero_add, Finset.sum_range_one, share7_apply]
    unfold tilePoolN
    rw [dif_pos (by decide)]
    rfl
  | n + 1, h, gn, q => by
    have hN : cfg7.N = 10 := N_7
    have hB : ¬(⟨n + 1, h⟩ : Fin cfg7.N).val % 10 = 0 := by dsimp only; omega
    rw [outsAt7_B V c ⟨n + 1, h⟩ hB, pt7_B_snd, bpay1_7_apply, Finset.sum_range_succ, share7_apply]
    have ih := outsAt7_snd c n (Nat.lt_of_succ_lt h) gn q
    refine congrArg₂ (· + ·) ih ?_
    unfold tilePoolN
    rw [dif_pos (by omega)]
    rfl

/-! ## The first output array -/

set_option maxHeartbeats 1000000 in
/-- What point `t` writes back into the first output is tile `t` of the normalised array of the entry arrays. -/
theorem flushed7_6_eq (c : Dev nD) (t : Fin cfg7.N) :
    (dat7 (F := Ideal) V c).flushed 6 t = ((cfg7.win 6).blk t).view.read (Elt Ideal) (bnOut (V c main_v123_0) (V c main_v125) (V c main_v129) (V c main_v134) (V c main_v135)) := by
  show (cfg7.win 6).cut (grid7.coords t) ((dat7 V c).after 6 t) = _
  rw [after7_6, outsAt7_fst]
  obtain ⟨e00, e01, e10, e11, e20, e21, e30, e31, e40, e41, e50, e51, e60, e61, e70, e71⟩ := idx_facts7 t
  funext j
  obtain ⟨p, q, rfl⟩ : ∃ (p : Fin 5000) (q : Fin 128), j = ix2 p q := ⟨j 0, j 1, eq_ix2 j⟩
  show k7_pay3 (iblk7 V c 2 t) (iblk7 V c 3 t) (iblk7 V c 0 t) (iblk7 V c 1 t) (iblk7 V c 4 t) (ix2 p q)
    = bnOut (V c main_v123_0) (V c main_v125) (V c main_v129) (V c main_v134) (V c main_v135) (((cfg7.win 6).blk t).view.emb (ix2 p q))
  rw [pay3_7_blk]
  refine congrArg (bnOut (V c main_v123_0) (V c main_v125) (V c main_v129) (V c main_v134) (V c main_v135)) ?_
  funext a; apply Fin.ext
  match a with
  | ⟨0, _⟩ => show p.val + 5000 * t.val = win7_6.index t (0 : Fin 2) * 5000 + 1 * p.val; omega
  | ⟨1, _⟩ => show q.val = win7_6.index t (1 : Fin 2) * 128 + 1 * q.val; omega

/-- An index of the first output array lies in point `t`'s block when each coordinate lies in the block's range. -/
theorem mem_blk7_6 (t : Fin cfg7.N) (i : S50000x128.Idx) :
    i ∈ ((cfg7.win 6).blk t).view.set ↔ ∀ a : Fin 2, win7_6.index t a * S5000x128.size a ≤ (i a).val ∧ (i a).val < win7_6.index t a * S5000x128.size a + S5000x128.size a := by
  show i ∈ ((View.whole main_v136_0).slice (win7_6.rect t)).set ↔ _
  rw [View.set_slice_whole, Rect.mem_set_unit]
  exact Iff.rfl

/-- Every index of the first output array lies in some point's block: row `r` in the block of point `r / 5000`. -/
theorem cover7_6 (i : S50000x128.Idx) :
    ∃ t : Fin cfg7.N, (cfg7.win 6).flush t = true ∧ i ∈ ((cfg7.win 6).blk t).view.set := by
  have hi0 : (i 0).val < 50000 := (i 0).isLt
  have hi1 : (i 1).val < 128 := (i 1).isLt
  have hN : cfg7.N = 10 := N_7
  have ht : (i 0).val / 5000 < cfg7.N := by rw [hN]; omega
  obtain ⟨e00, e01, e10, e11, e20, e21, e30, e31, e40, e41, e50, e51, e60, e61, e70, e71⟩ := idx_facts7 ⟨(i 0).val / 5000, ht⟩
  refine ⟨⟨(i 0).val / 5000, ht⟩, flush7_6 _, ?_⟩
  rw [mem_blk7_6]
  intro a
  match a with
  | ⟨0, _⟩ =>
    show win7_6.index ⟨(i 0).val / 5000, ht⟩ (0 : Fin 2) * 5000 ≤ (i 0).val
      ∧ (i 0).val < win7_6.index ⟨(i 0).val / 5000, ht⟩ (0 : Fin 2) * 5000 + 5000
    rw [e60]; show (i 0).val / 5000 * 5000 ≤ (i 0).val ∧ (i 0).val < (i 0).val / 5000 * 5000 + 5000; omega
  | ⟨1, _⟩ =>
    show win7_6.index ⟨(i 0).val / 5000, ht⟩ (1 : Fin 2) * 128 ≤ (i 1).val
      ∧ (i 1).val < win7_6.index ⟨(i 0).val / 5000, ht⟩ (1 : Fin 2) * 128 + 128
    rw [e61]; omega

/-- After the region the first output array is the normalised array of the arrays the region read. -/
theorem value7_y (V : (c : Dev nD) → (b : Ref sig .tc) → Buf (Elt Ideal) ((c : Thread nD τ).loc b)) (c : Dev nD) :
    (dat7 (F := Ideal) V c).arrAt 6 cfg7.N = bnOut (V c main_v123_0) (V c main_v125) (V c main_v129) (V c main_v134) (V c main_v135) :=
  (dat7 (F := Ideal) V c).arrAt_eq_of_cover 6 _ (fun t _ => flushed7_6_eq V c t) cover7_6

/-! ## The second output array -/

set_option maxHeartbeats 1000000 in
/-- The one write-back of the second output, after the last point, writes the pooled array: its one block is the whole
    array, and the running sum after the tenth tile is the sum over all rows. -/
theorem flushed7_7_eq (c : Dev nD) (t : Fin cfg7.N) (hf : (cfg7.win 7).flush t = true) :
    (dat7 (F := Ideal) V c).flushed 7 t
      = ((cfg7.win 7).blk t).view.read (Elt Ideal) (bnPool (V c main_v25) (bnOut (V c main_v123_0) (V c main_v125) (V c main_v129) (V c main_v134) (V c main_v135))) := by
  have hN : cfg7.N = 10 := N_7
  have h9 : t.val + 1 = 10 := by have := (flush7_7 t).mp hf; have := t.isLt; omega
  show (cfg7.win 7).cut (grid7.coords t) ((dat7 V c).after 7 t) = _
  rw [after7_7]
  obtain ⟨e00, e01, e10, e11, e20, e21, e30, e31, e40, e41, e50, e51, e60, e61, e70, e71⟩ := idx_facts7 t
  generalize hG : bnPool (V c main_v25) (bnOut (V c main_v123_0) (V c main_v125) (V c main_v129) (V c main_v134) (V c main_v135)) = G
  funext j
  obtain ⟨gn, q, rfl⟩ : ∃ (gn : Fin 128) (q : Fin 128), j = ix2 gn q := ⟨j 0, j 1, eq_ix2 j⟩
  show (outsAt7 V c t.val t.isLt).2 (ix2 gn q) = G (((cfg7.win 7).blk t).view.emb (ix2 gn q))
  have he : ((cfg7.win 7).blk t).view.emb (ix2 gn q) = ix2 gn q := by
    funext a; apply Fin.ext
    match a with
    | ⟨0, _⟩ => show win7_7.index t (0 : Fin 2) * 128 + 1 * gn.val = gn.val; omega
    | ⟨1, _⟩ => show win7_7.index t (1 : Fin 2) * 128 + 1 * q.val = q.val; omega
  rw [he, ← hG, outsAt7_snd V c t.val t.isLt gn q, bnPool_eq_range, h9]

/-- An index of the second output array lies in point `t`'s block when each coordinate lies in the block's range. -/
theorem mem_blk7_7 (t : Fin cfg7.N) (i : S128x128.Idx) :
    i ∈ ((cfg7.win 7).blk t).view.set ↔ ∀ a : Fin 2, win7_7.index t a * S128x128.size a ≤ (i a).val ∧ (i a).val < win7_7.index t a * S128x128.size a + S128x128.size a := by
  show i ∈ ((View.whole main_v136_1).slice (win7_7.rect t)).set ↔ _
  rw [View.set_slice_whole, Rect.mem_set_unit]
  exact Iff.rfl

/-- Every index of the second output array lies in the last point's block, the one that is written back. -/
theorem cover7_7 (i : S128x128.Idx) :
    ∃ t : Fin cfg7.N, (cfg7.win 7).flush t = true ∧ i ∈ ((cfg7.win 7).blk t).view.set := by
  have hi0 : (i 0).val < 128 := (i 0).isLt
  have hi1 : (i 1).val < 128 := (i 1).isLt
  have ht : 9 < cfg7.N := by rw [show cfg7.N = 10 from N_7]; decide
  obtain ⟨e00, e01, e10, e11, e20, e21, e30, e31, e40, e41, e50, e51, e60, e61, e70, e71⟩ := idx_facts7 ⟨9, ht⟩
  refine ⟨⟨9, ht⟩, (flush7_7 _).mpr rfl, ?_⟩
  rw [mem_blk7_7]
  intro a
  match a with
  | ⟨0, _⟩ =>
    show win7_7.index ⟨9, ht⟩ (0 : Fin 2) * 128 ≤ (i 0).val ∧ (i 0).val < win7_7.index ⟨9, ht⟩ (0 : Fin 2) * 128 + 128
    rw [e70]; omega
  | ⟨1, _⟩ =>
    show win7_7.index ⟨9, ht⟩ (1 : Fin 2) * 128 ≤ (i 1).val ∧ (i 1).val < win7_7.index ⟨9, ht⟩ (1 : Fin 2) * 128 + 128
    rw [e71]; omega

/-- After the region the second output array is the pooled array of the graph numbers and the normalised array. -/
theorem value7_pool (V : (c : Dev nD) → (b : Ref sig .tc) → Buf (Elt Ideal) ((c : Thread nD τ).loc b)) (c : Dev nD) :
    (dat7 (F := Ideal) V c).arrAt 7 cfg7.N = bnPool (V c main_v25) (bnOut (V c main_v123_0) (V c main_v125) (V c main_v129) (V c main_v134) (V c main_v135)) :=
  (dat7 (F := Ideal) V c).arrAt_eq_of_cover 7 _ (fun t hf => flushed7_7_eq V c t hf) cover7_7

end Cert.KernelIdeal.Reg

end
-- ==== Proof.KI.Val8.lean ====
import proofs.«144276_j65051574665788_2_alg».proof.Proof.KI.Reg8
import proofs.«144276_j65051574665788_2_alg».proof.Proof.KI.LibBlockOps
import proofs.«144276_j65051574665788_2_alg».proof.Proof.LibOneHotPool
import Idealize.ShloMosaic.Lib.Pipeline.Value
import Idealize.ShloMosaic.PureOps.Ideal.Laws
import Idealize.ShloMosaic.Lib.ValueIdx
import Idealize.ShloMosaic.Lib.Tactic
import proofs.«144276_j65051574665788_2_alg».proof.Proof.KI.Val2

set_option maxRecDepth 16384

noncomputable section

namespace Cert.KernelIdeal.Reg

open Cert.KernelIdeal Cert.KernelIdeal.Gen Cert.LibBlockOps
open Idealize.ShloMosaic Idealize.ShloMosaic.TcCoe Idealize.ShloMosaic.ValueIdx Idealize.ShloMosaic.Tactic Idealize.SL.Sem
open Idealize.ShloMosaic.Pipeline (Dat)

open Finset

/-! # Region 8: what the found pieces are, at any float instance -/

section Pieces
variable {F : FTy → Type} [FloatOps F]

theorem pieceA8_5 (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : cond8_0 i)
    (x0 x1 : Vec F S5000x128 .f32) (x2 x3 : Vec F S128x128 .f32) (x4 : Vec F S1x128 .f32) :
    VO8_5.read (Elt F) (VO8_5.writes (Elt F) VO8_5.junk (kernelRun8_A c i arg1 harg1 arg2 harg2 arg3 harg3 arg4 harg4 arg5 harg5 arg6 harg6 arg7 harg7 arg8 harg8 hc0 x0 x1 x2 x3 x4).1) = k8_pay4 x0 x1 x2 x3 x4 := by
  rw [View.read_writes_junk_eq_canon]
  unfold kernelRun8_A
  dsimp only
  sl_unfold_words
  rw [View.canon_unit_zero offsets_zero2]
  simp only [View.readAt_eq_ld, harg1.read_unread, harg2.read_unread, harg3.read_unread, harg4.read_unread, harg5.read_unread,
    View.ld_unit_zero (S := S5000x128) offsets_zero2, View.ld_unit_zero (S := S128x128) offsets_zero2,
    View.ld_unit_zero (S := S1x128) offsets_zero2]

theorem pieceA8_6 (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : cond8_0 i)
    (x0 x1 : Vec F S5000x128 .f32) (x2 x3 : Vec F S128x128 .f32) (x4 : Vec F S1x128 .f32) :
    VO8_6.read (Elt F) (VO8_6.writes (Elt F) VO8_6.junk (kernelRun8_A c i arg1 harg1 arg2 harg2 arg3 harg3 arg4 harg4 arg5 harg5 arg6 harg6 arg7 harg7 arg8 harg8 hc0 x0 x1 x2 x3 x4).2.1) = k8_pay5 x0 x1 x2 x3 x4 (k8_pay2 (F := F)) := by
  rw [View.read_writes_junk_eq_canon]
  unfold kernelRun8_A
  dsimp only
  sl_unfold_words
  rw [View.canon_cons_unit_zero (S := S1x128) offsets_zero2, View.readCov_unit_zero (S := S1x128) _ offsets_zero2]
  simp only [View.readAt_eq_ld, harg1.read_unread, harg2.read_unread, harg3.read_unread, harg4.read_unread, harg5.read_unread,
    View.ld_unit_zero (S := S5000x128) offsets_zero2, View.ld_unit_zero (S := S128x128) offsets_zero2,
    View.ld_unit_zero (S := S1x128) offsets_zero2]

theorem pieceA8_7 (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : cond8_0 i)
    (x0 x1 : Vec F S5000x128 .f32) (x2 x3 : Vec F S128x128 .f32) (x4 : Vec F S1x128 .f32) :
    VO8_7.read (Elt F) (VO8_7.writes (Elt F) VO8_7.junk (kernelRun8_A c i arg1 harg1 arg2 harg2 arg3 harg3 arg4 harg4 arg5 harg5 arg6 harg6 arg7 harg7 arg8 harg8 hc0 x0 x1 x2 x3 x4).2.2.1) = k8_pay1 (k8_pay6 (k8_pay3 (F := F))) (k8_pay7 x0 x1 x2 x3 x4) := by
  rw [View.read_writes_junk_eq_canon]
  unfold kernelRun8_A
  dsimp only
  sl_unfold_words
  rw [View.canon_cons_unit_zero (S := S1x128) offsets_zero2, View.readCov_unit_zero (S := S1x128) _ offsets_zero2]
  simp only [View.readAt_eq_ld, harg1.read_unread, harg2.read_unread, harg3.read_unread, harg4.read_unread, harg5.read_unread,
    View.ld_unit_zero (S := S5000x128) offsets_zero2, View.ld_unit_zero (S := S128x128) offsets_zero2,
    View.ld_unit_zero (S := S1x128) offsets_zero2]

theorem pieceB8_5 (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : ¬cond8_0 i)
    (x0 x1 : Vec F S5000x128 .f32) (x2 x3 : Vec F S128x128 .f32) (x4 : Vec F S1x128 .f32) (xo6 xo7 : Vec F S1x128 .f32) :
    VO8_5.read (Elt F) (VO8_5.writes (Elt F) VO8_5.junk (kernelRun8_B c i arg1 harg1 arg2 harg2 arg3 harg3 arg4 harg4 arg5 harg5 arg6 harg6 arg7 harg7 arg8 harg8 hc0 x0 x1 x2 x3 x4 xo6 xo7).1) = k8_pay4 x0 x1 x2 x3 x4 := by
  rw [View.read_writes_junk_eq_canon]
  unfold kernelRun8_B
  dsimp only
  sl_unfold_words
  rw [View.canon_unit_zero offsets_zero2]
  simp only [View.readAt_eq_ld, harg1.read_unread, harg2.read_unread, harg3.read_unread, harg4.read_unread, harg5.read_unread, harg7.read_unread, harg8.read_unread,
    View.ld_unit_zero (S := S5000x128) offsets_zero2, View.ld_unit_zero (S := S128x128) offsets_zero2,
    View.ld_unit_zero (S := S1x128) offsets_zero2]

theorem pieceB8_6 (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : ¬cond8_0 i)
    (x0 x1 : Vec F S5000x128 .f32) (x2 x3 : Vec F S128x128 .f32) (x4 : Vec F S1x128 .f32) (xo6 xo7 : Vec F S1x128 .f32) :
    VO8_6.read (Elt F) (VO8_6.writes (Elt F) VO8_6.junk (kernelRun8_B c i arg1 harg1 arg2 harg2 arg3 harg3 arg4 harg4 arg5 harg5 arg6 harg6 arg7 harg7 arg8 harg8 hc0 x0 x1 x2 x3 x4 xo6 xo7).2.1) = k8_pay5 x0 x1 x2 x3 x4 xo6 := by
  rw [View.read_writes_junk_eq_canon]
  unfold kernelRun8_B
  dsimp only
  sl_unfold_words
  rw [View.canon_unit_zero offsets_zero2]
  simp only [View.readAt_eq_ld, harg1.read_unread, harg2.read_unread, harg3.read_unread, harg4.read_unread, harg5.read_unread, harg7.read_unread, harg8.read_unread,
    View.ld_unit_zero (S := S5000x128) offsets_zero2, View.ld_unit_zero (S := S128x128) offsets_zero2,
    View.ld_unit_zero (S := S1x128) offsets_zero2]

theorem pieceB8_7 (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : ¬cond8_0 i)
    (x0 x1 : Vec F S5000x128 .f32) (x2 x3 : Vec F S128x128 .f32) (x4 : Vec F S1x128 .f32) (xo6 xo7 : Vec F S1x128 .f32) :
    VO8_7.read (Elt F) (VO8_7.writes (Elt F) VO8_7.junk (kernelRun8_B c i arg1 harg1 arg2 harg2 arg3 harg3 arg4 harg4 arg5 harg5 arg6 harg6 arg7 harg7 arg8 harg8 hc0 x0 x1 x2 x3 x4 xo6 xo7).2.2.1) = k8_pay1 (k8_pay6 xo7) (k8_pay7 x0 x1 x2 x3 x4) := by
  rw [View.read_writes_junk_eq_canon]
  unfold kernelRun8_B
  dsimp only
  sl_unfold_words
  rw [View.canon_unit_zero offsets_zero2]
  simp only [View.readAt_eq_ld, harg1.read_unread, harg2.read_unread, harg3.read_unread, harg4.read_unread, harg5.read_unread, harg7.read_unread, harg8.read_unread,
    View.ld_unit_zero (S := S5000x128) offsets_zero2, View.ld_unit_zero (S := S128x128) offsets_zero2,
    View.ld_unit_zero (S := S1x128) offsets_zero2]

variable (V : (c : Dev nD) → (b : Ref sig .tc) → Buf (Elt F) ((c : Thread nD τ).loc b))

/-- The two running accumulators after position `n`: started from the zero rows at the first point, then each point's
    contribution added to what the point before left. -/
def acc8 (c : Dev nD) : (n : ℕ) → n < cfg8.N → Vec F S1x128 .f32 × Vec F S1x128 .f32
  | 0, h => (k8_pay5 (iblk8 V c 0 ⟨0, h⟩) (iblk8 V c 1 ⟨0, h⟩) (iblk8 V c 2 ⟨0, h⟩) (iblk8 V c 3 ⟨0, h⟩) (iblk8 V c 4 ⟨0, h⟩) (k8_pay2 (F := F)),
      k8_pay1 (k8_pay6 (k8_pay3 (F := F))) (k8_pay7 (iblk8 V c 0 ⟨0, h⟩) (iblk8 V c 1 ⟨0, h⟩) (iblk8 V c 2 ⟨0, h⟩) (iblk8 V c 3 ⟨0, h⟩) (iblk8 V c 4 ⟨0, h⟩)))
  | n + 1, h => (k8_pay5 (iblk8 V c 0 ⟨n + 1, h⟩) (iblk8 V c 1 ⟨n + 1, h⟩) (iblk8 V c 2 ⟨n + 1, h⟩) (iblk8 V c 3 ⟨n + 1, h⟩) (iblk8 V c 4 ⟨n + 1, h⟩) (acc8 c n (Nat.lt_of_succ_lt h)).1,
      k8_pay1 (k8_pay6 (acc8 c n (Nat.lt_of_succ_lt h)).2) (k8_pay7 (iblk8 V c 0 ⟨n + 1, h⟩) (iblk8 V c 1 ⟨n + 1, h⟩) (iblk8 V c 2 ⟨n + 1, h⟩) (iblk8 V c 3 ⟨n + 1, h⟩) (iblk8 V c 4 ⟨n + 1, h⟩)))

/-- What the three outputs' staging buffers hold after position `n`: the point's block of the transform and the two
    running accumulators. By induction on the point. -/
theorem outsAt8_eq (c : Dev nD) : ∀ (n : ℕ) (h : n < cfg8.N),
    outsAt8 V c n h = (k8_pay4 (iblk8 V c 0 ⟨n, h⟩) (iblk8 V c 1 ⟨n, h⟩) (iblk8 V c 2 ⟨n, h⟩) (iblk8 V c 3 ⟨n, h⟩) (iblk8 V c 4 ⟨n, h⟩), (acc8 V c n h).1, (acc8 V c n h).2)
  | 0, h => by
    refine (outsAt8_A V c ⟨0, h⟩ (Nat.zero_mod _)).trans ?_
    unfold outsA8
    exact triple_ext (pieceA8_5 c (grid8.coords ⟨0, h⟩) (ms8_0 ⟨0, h⟩) (hs8_0 ⟨0, h⟩) (ms8_1 ⟨0, h⟩) (hs8_1 ⟨0, h⟩) (ms8_2 ⟨0, h⟩) (hs8_2 ⟨0, h⟩) (ms8_3 ⟨0, h⟩) (hs8_3 ⟨0, h⟩) (ms8_4 ⟨0, h⟩) (hs8_4 ⟨0, h⟩) (ms8_5 ⟨0, h⟩) (hs8_5 ⟨0, h⟩) (ms8_6 ⟨0, h⟩) (hs8_6 ⟨0, h⟩) (ms8_7 ⟨0, h⟩) (hs8_7 ⟨0, h⟩) ((hcond8_0 ⟨0, h⟩).mpr (Nat.zero_mod _)) (iblk8 V c 0 ⟨0, h⟩) (iblk8 V c 1 ⟨0, h⟩) (iblk8 V c 2 ⟨0, h⟩) (iblk8 V c 3 ⟨0, h⟩) (iblk8 V c 4 ⟨0, h⟩))
      (pieceA8_6 c (grid8.coords ⟨0, h⟩) (ms8_0 ⟨0, h⟩) (hs8_0 ⟨0, h⟩) (ms8_1 ⟨0, h⟩) (hs8_1 ⟨0, h⟩) (ms8_2 ⟨0, h⟩) (hs8_2 ⟨0, h⟩) (ms8_3 ⟨0, h⟩) (hs8_3 ⟨0, h⟩) (ms8_4 ⟨0, h⟩) (hs8_4 ⟨0, h⟩) (ms8_5 ⟨0, h⟩) (hs8_5 ⟨0, h⟩) (ms8_6 ⟨0, h⟩) (hs8_6 ⟨0, h⟩) (ms8_7 ⟨0, h⟩) (hs8_7 ⟨0, h⟩) ((hcond8_0 ⟨0, h⟩).mpr (Nat.zero_mod _)) (iblk8 V c 0 ⟨0, h⟩) (iblk8 V c 1 ⟨0, h⟩) (iblk8 V c 2 ⟨0, h⟩) (iblk8 V c 3 ⟨0, h⟩) (iblk8 V c 4 ⟨0, h⟩))
      (pieceA8_7 c (grid8.coords ⟨0, h⟩) (ms8_0 ⟨0, h⟩) (hs8_0 ⟨0, h⟩) (ms8_1 ⟨0, h⟩) (hs8_1 ⟨0, h⟩) (ms8_2 ⟨0, h⟩) (hs8_2 ⟨0, h⟩) (ms8_3 ⟨0, h⟩) (hs8_3 ⟨0, h⟩) (ms8_4 ⟨0, h⟩) (hs8_4 ⟨0, h⟩) (ms8_5 ⟨0, h⟩) (hs8_5 ⟨0, h⟩) (ms8_6 ⟨0, h⟩) (hs8_6 ⟨0, h⟩) (ms8_7 ⟨0, h⟩) (hs8_7 ⟨0, h⟩) ((hcond8_0 ⟨0, h⟩).mpr (Nat.zero_mod _)) (iblk8 V c 0 ⟨0, h⟩) (iblk8 V c 1 ⟨0, h⟩) (iblk8 V c 2 ⟨0, h⟩) (iblk8 V c 3 ⟨0, h⟩) (iblk8 V c 4 ⟨0, h⟩))
  | n + 1, h => by
    have hN : cfg8.N = 10 := N_8
    have hB : ¬(⟨n + 1, h⟩ : Fin cfg8.N).val % 10 = 0 := by dsimp only; omega
    refine (outsAt8_B V c ⟨n + 1, h⟩ hB).trans ?_
    show outsB8 V c ⟨n + 1, h⟩ hB (outsAt8 V c n _).2.1 (outsAt8 V c n _).2.2 = _
    rw [outsAt8_eq c n]
    unfold outsB8
    exact triple_ext (pieceB8_5 c (grid8.coords ⟨n + 1, h⟩) (ms8_0 ⟨n + 1, h⟩) (hs8_0 ⟨n + 1, h⟩) (ms8_1 ⟨n + 1, h⟩) (hs8_1 ⟨n + 1, h⟩) (ms8_2 ⟨n + 1, h⟩) (hs8_2 ⟨n + 1, h⟩) (ms8_3 ⟨n + 1, h⟩) (hs8_3 ⟨n + 1, h⟩) (ms8_4 ⟨n + 1, h⟩) (hs8_4 ⟨n + 1, h⟩) (ms8_5 ⟨n + 1, h⟩) (hs8_5 ⟨n + 1, h⟩) (ms8_6 ⟨n + 1, h⟩) (hs8_6 ⟨n + 1, h⟩) (ms8_7 ⟨n + 1, h⟩) (hs8_7 ⟨n + 1, h⟩) (fun hc => hB ((hcond8_0 ⟨n + 1, h⟩).mp hc)) (iblk8 V c 0 ⟨n + 1, h⟩) (iblk8 V c 1 ⟨n + 1, h⟩) (iblk8 V c 2 ⟨n + 1, h⟩) (iblk8 V c 3 ⟨n + 1, h⟩) (iblk8 V c 4 ⟨n + 1, h⟩) _ _)
      (pieceB8_6 c (grid8.coords ⟨n + 1, h⟩) (ms8_0 ⟨n + 1, h⟩) (hs8_0 ⟨n + 1, h⟩) (ms8_1 ⟨n + 1, h⟩) (hs8_1 ⟨n + 1, h⟩) (ms8_2 ⟨n + 1, h⟩) (hs8_2 ⟨n + 1, h⟩) (ms8_3 ⟨n + 1, h⟩) (hs8_3 ⟨n + 1, h⟩) (ms8_4 ⟨n + 1, h⟩) (hs8_4 ⟨n + 1, h⟩) (ms8_5 ⟨n + 1, h⟩) (hs8_5 ⟨n + 1, h⟩) (ms8_6 ⟨n + 1, h⟩) (hs8_6 ⟨n + 1, h⟩) (ms8_7 ⟨n + 1, h⟩) (hs8_7 ⟨n + 1, h⟩) (fun hc => hB ((hcond8_0 ⟨n + 1, h⟩).mp hc)) (iblk8 V c 0 ⟨n + 1, h⟩) (iblk8 V c 1 ⟨n + 1, h⟩) (iblk8 V c 2 ⟨n + 1, h⟩) (iblk8 V c 3 ⟨n + 1, h⟩) (iblk8 V c 4 ⟨n + 1, h⟩) _ _)
      (pieceB8_7 c (grid8.coords ⟨n + 1, h⟩) (ms8_0 ⟨n + 1, h⟩) (hs8_0 ⟨n + 1, h⟩) (ms8_1 ⟨n + 1, h⟩) (hs8_1 ⟨n + 1, h⟩) (ms8_2 ⟨n + 1, h⟩) (hs8_2 ⟨n + 1, h⟩) (ms8_3 ⟨n + 1, h⟩) (hs8_3 ⟨n + 1, h⟩) (ms8_4 ⟨n + 1, h⟩) (hs8_4 ⟨n + 1, h⟩) (ms8_5 ⟨n + 1, h⟩) (hs8_5 ⟨n + 1, h⟩) (ms8_6 ⟨n + 1, h⟩) (hs8_6 ⟨n + 1, h⟩) (ms8_7 ⟨n + 1, h⟩) (hs8_7 ⟨n + 1, h⟩) (fun hc => hB ((hcond8_0 ⟨n + 1, h⟩).mp hc)) (iblk8 V c 0 ⟨n + 1, h⟩) (iblk8 V c 1 ⟨n + 1, h⟩) (iblk8 V c 2 ⟨n + 1, h⟩) (iblk8 V c 3 ⟨n + 1, h⟩) (iblk8 V c 4 ⟨n + 1, h⟩) _ _)

end Pieces

/-! # Region 8: the payloads at an entry, over the extended reals -/

/-- The transform's block at row `p`, column `q`. The narrowings to the short float format are the identity on
    extended reals; each product into the zero block is the sum over the 128 columns; the bias row is stretched over
    the rows. -/
theorem pay8_4_apply (x0 x1 : Vec Ideal S5000x128 .f32) (x2 x3 : Vec Ideal S128x128 .f32) (x4 : Vec Ideal S1x128 .f32) (p : Fin 5000) (q : Fin 128) :
    k8_pay4 x0 x1 x2 x3 x4 (ix2 p q)
      = (∑ k : Fin 128, x0 (ix2 p k) * x2 (ix2 k q) + ∑ k : Fin 128, x1 (ix2 p k) * x3 (ix2 k q)) + x4 (ix2 (0 : Fin 1) q) := by
  unfold k8_pay4
  rw [addf_apply, addf_apply, matmul_zero_apply dot_S5000x128_S128x128_S5000x128_1_0_0_1_n_n rfl,
    matmul_zero_apply dot_S5000x128_S128x128_S5000x128_1_0_0_1_n_n rfl, broadcast_row_apply _ _ (by decide)]
  simp only [shapeCast_self]
  rfl

/-- The sum accumulator's update: what it held plus the block's column sum. -/
theorem pay8_5_apply (x0 x1 : Vec Ideal S5000x128 .f32) (x2 x3 : Vec Ideal S128x128 .f32) (x4 : Vec Ideal S1x128 .f32) (v : Vec Ideal S1x128 .f32) (q : Fin 128) :
    k8_pay5 x0 x1 x2 x3 x4 v (ix2 (0 : Fin 1) q) = v (ix2 (0 : Fin 1) q) + ∑ p : Fin 5000, k8_pay4 x0 x1 x2 x3 x4 (ix2 p q) := by
  unfold k8_pay5
  rw [addf_apply, shapeCast_self]
  exact congrArg (v (ix2 (0 : Fin 1) q) + ·) ((rowcast_apply _ q).trans (colsum_apply _ _ _ q))

/-- The sum-of-squares accumulator's update: what it held plus the column sum of the block's squares. -/
theorem pay8_1_apply (x0 x1 : Vec Ideal S5000x128 .f32) (x2 x3 : Vec Ideal S128x128 .f32) (x4 : Vec Ideal S1x128 .f32) (v : Vec Ideal S1x128 .f32) (q : Fin 128) :
    k8_pay1 (k8_pay6 v) (k8_pay7 x0 x1 x2 x3 x4) (ix2 (0 : Fin 1) q)
      = v (ix2 (0 : Fin 1) q) + ∑ p : Fin 5000, k8_pay4 x0 x1 x2 x3 x4 (ix2 p q) * k8_pay4 x0 x1 x2 x3 x4 (ix2 p q) := by
  unfold k8_pay1 k8_pay6 k8_pay7
  rw [addf_apply, shapeCast_self]
  exact congrArg (v (ix2 (0 : Fin 1) q) + ·) ((rowcast_apply _ q).trans (colsum_apply _ _ _ q))

/-- The zero rows the first point stores. -/
theorem pay8_2_apply (j : S1x128.Idx) : k8_pay2 (F := Ideal) j = 0 := by
  unfold k8_pay2
  rw [broadcast_apply]
  exact Ideal.ofBits_zero_f32
theorem pay8_3_apply (j : S1x128.Idx) : k8_pay3 (F := Ideal) j = 0 := by
  unfold k8_pay3
  rw [broadcast_apply]
  exact Ideal.ofBits_zero_f32

/-! # Region 8: from blocks to arrays -/

section Arrays
-- what the TensorCore's buffers hold, as extended reals, when the region is entered
variable (V : (c : Dev nD) → (b : Ref sig .tc) → Buf (Elt Ideal) ((c : Thread nD τ).loc b))

/-- The block indices at every grid point: the two row-blocked inputs and the first output are at block `t` at point
    `t`; every other block index is 0. Decided over the ten points. -/
theorem idx_facts8 : ∀ t : Fin cfg8.N,
    win8_0.index t (0 : Fin 2) = t.val ∧ win8_0.index t (1 : Fin 2) = 0
    ∧ win8_1.index t (0 : Fin 2) = t.val ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = t.val ∧ win8_5.index t (1 : Fin 2) = 0
    ∧ win8_6.index t (0 : Fin 2) = 0 ∧ win8_6.index t (1 : Fin 2) = 0
    ∧ win8_7.index t (0 : Fin 2) = 0 ∧ win8_7.index t (1 : Fin 2) = 0 :=
  (by decide +kernel : ∀ t : Fin grid8.N, _)

/-- Point `t` as one of the ten tiles. -/
def tileOf8 (t : Fin cfg8.N) : Fin 10 := ⟨t.val, lt_of_lt_of_eq t.isLt N_8⟩

set_option maxHeartbeats 1000000 in
/-- Point `t`'s block of the transform, at row `p` and column `q`, is the whole-array transform of the arrays the
    region finds at row `p` of tile `t`. -/
theorem blk8_eq (c : Dev nD) (t : Fin cfg8.N) (p : Fin 5000) (q : Fin 128) :
    k8_pay4 (iblk8 V c 0 t) (iblk8 V c 1 t) (iblk8 V c 2 t) (iblk8 V c 3 t) (iblk8 V c 4 t) (ix2 p q) = (ltOut (V c main_v152) (V c main_v136_0) (V c main_v154) (V c main_v156) (V c main_v159)) (ix2 (tileRow (tileOf8 t) p) q) := by
  obtain ⟨e00, e01, e10, e11, e20, e21, e30, e31, e40, e41, e50, e51, e60, e61, e70, e71⟩ := idx_facts8 t
  rw [pay8_4_apply, ltOut_ix2]
  have h0 : ∀ k : Fin 128, ((cfg8.win 0).blk t).view.emb (ix2 p k) = ix2 (tileRow (tileOf8 t) p) k := by
    intro k; funext a; apply Fin.ext
    match a with
    | ⟨0, _⟩ => show win8_0.index t (0 : Fin 2) * 5000 + 1 * p.val = p.val + 5000 * t.val; omega
    | ⟨1, _⟩ => show win8_0.index t (1 : Fin 2) * 128 + 1 * k.val = k.val; omega
  have h1 : ∀ k : Fin 128, ((cfg8.win 1).blk t).view.emb (ix2 p k) = ix2 (tileRow (tileOf8 t) p) k := by
    intro k; funext a; apply Fin.ext
    match a with
    | ⟨0, _⟩ => show win8_1.index t (0 : Fin 2) * 5000 + 1 * p.val = p.val + 5000 * t.val; omega
    | ⟨1, _⟩ => show win8_1.index t (1 : Fin 2) * 128 + 1 * k.val = k.val; omega
  have h2 : ∀ k : Fin 128, ((cfg8.win 2).blk t).view.emb (ix2 k q) = ix2 k q := by
    intro k; funext a; apply Fin.ext
    match a with
    | ⟨0, _⟩ => show win8_2.index t (0 : Fin 2) * 128 + 1 * k.val = k.val; omega
    | ⟨1, _⟩ => show win8_2.index t (1 : Fin 2) * 128 + 1 * q.val = q.val; omega
  have h3 : ∀ k : Fin 128, ((cfg8.win 3).blk t).view.emb (ix2 k q) = ix2 k q := by
    intro k; funext a; apply Fin.ext
    match a with
    | ⟨0, _⟩ => show win8_3.index t (0 : Fin 2) * 128 + 1 * k.val = k.val; omega
    | ⟨1, _⟩ => show win8_3.index t (1 : Fin 2) * 128 + 1 * q.val = q.val; omega
  have h4 : ((cfg8.win 4).blk t).view.emb (ix2 (0 : Fin 1) q) = ix2 (0 : Fin 1) q := by
    funext a; apply Fin.ext
    match a with
    | ⟨0, _⟩ => show win8_4.index t (0 : Fin 2) * 1 + 1 * 0 = 0; omega
    | ⟨1, _⟩ => show win8_4.index t (1 : Fin 2) * 128 + 1 * q.val = q.val; omega
  have hx0 : ∀ k : Fin 128, iblk8 V c 0 t (ix2 p k) = V c main_v152 (ix2 (tileRow (tileOf8 t) p) k) :=
    fun k => congrArg (V c main_v152) (h0 k)
  have hx1 : ∀ k : Fin 128, iblk8 V c 1 t (ix2 p k) = V c main_v136_0 (ix2 (tileRow (tileOf8 t) p) k) :=
    fun k => congrArg (V c main_v136_0) (h1 k)
  have hx2 : ∀ k : Fin 128, iblk8 V c 2 t (ix2 k q) = V c main_v154 (ix2 k q) :=
    fun k => congrArg (V c main_v154) (h2 k)
  have hx3 : ∀ k : Fin 128, iblk8 V c 3 t (ix2 k q) = V c main_v156 (ix2 k q) :=
    fun k => congrArg (V c main_v156) (h3 k)
  have hx4 : iblk8 V c 4 t (ix2 (0 : Fin 1) q) = V c main_v159 (ix2 (0 : Fin 1) q) :=
    congrArg (V c main_v159) h4
  rw [hx4]
  exact congrArg (· + _) (congrArg₂ (· + ·) (Finset.sum_congr rfl fun k _ => by rw [hx0 k, hx2 k])
    (Finset.sum_congr rfl fun k _ => by rw [hx1 k, hx3 k]))

/-- The sum accumulator after position `n`, at column `q`: the column sums of the transform over the first `n + 1` tiles. -/
theorem acc8_sum (c : Dev nD) (q : Fin 128) : ∀ (n : ℕ) (h : n < cfg8.N),
    (acc8 V c n h).1 (ix2 (0 : Fin 1) q) = ∑ t ∈ Finset.range (n + 1), tileSum (fun r => (ltOut (V c main_v152) (V c main_v136_0) (V c main_v154) (V c main_v156) (V c main_v159)) (ix2 r q)) t
  | 0, h => by
    have hN : cfg8.N = 10 := N_8
    show k8_pay5 (iblk8 V c 0 ⟨0, h⟩) (iblk8 V c 1 ⟨0, h⟩) (iblk8 V c 2 ⟨0, h⟩) (iblk8 V c 3 ⟨0, h⟩) (iblk8 V c 4 ⟨0, h⟩) (k8_pay2 (F := Ideal)) (ix2 (0 : Fin 1) q) = _
    rw [pay8_5_apply, pay8_2_apply, zero_add, Finset.sum_range_one, tileSum_of_lt _ 0 (by omega)]
    exact Finset.sum_congr rfl fun p _ => blk8_eq V c ⟨0, h⟩ p q
  | n + 1, h => by
    have hN : cfg8.N = 10 := N_8
    show k8_pay5 (iblk8 V c 0 ⟨n + 1, h⟩) (iblk8 V c 1 ⟨n + 1, h⟩) (iblk8 V c 2 ⟨n + 1, h⟩) (iblk8 V c 3 ⟨n + 1, h⟩) (iblk8 V c 4 ⟨n + 1, h⟩) (acc8 V c n _).1 (ix2 (0 : Fin 1) q) = _
    rw [pay8_5_apply, acc8_sum c q n, Finset.sum_range_succ _ (n + 1), tileSum_of_lt _ (n + 1) (by omega)]
    exact congrArg (_ + ·) (Finset.sum_congr rfl fun p _ => blk8_eq V c ⟨n + 1, h⟩ p q)

/-- The sum-of-squares accumulator after position `n`, at column `q`. -/
theorem acc8_sumsq (c : Dev nD) (q : Fin 128) : ∀ (n : ℕ) (h : n < cfg8.N),
    (acc8 V c n h).2 (ix2 (0 : Fin 1) q)
      = ∑ t ∈ Finset.range (n + 1), tileSum (fun r => (ltOut (V c main_v152) (V c main_v136_0) (V c main_v154) (V c main_v156) (V c main_v159)) (ix2 r q) * (ltOut (V c main_v152) (V c main_v136_0) (V c main_v154) (V c main_v156) (V c main_v159)) (ix2 r q)) t
  | 0, h => by
    have hN : cfg8.N = 10 := N_8
    show k8_pay1 (k8_pay6 (k8_pay3 (F := Ideal))) (k8_pay7 (iblk8 V c 0 ⟨0, h⟩) (iblk8 V c 1 ⟨0, h⟩) (iblk8 V c 2 ⟨0, h⟩) (iblk8 V c 3 ⟨0, h⟩) (iblk8 V c 4 ⟨0, h⟩)) (ix2 (0 : Fin 1) q) = _
    rw [pay8_1_apply, pay8_3_apply, zero_add, Finset.sum_range_one, tileSum_of_lt _ 0 (by omega)]
    exact Finset.sum_congr rfl fun p _ => by rw [blk8_eq V c ⟨0, h⟩ p q]; rfl
  | n + 1, h => by
    have hN : cfg8.N = 10 := N_8
    show k8_pay1 (k8_pay6 (acc8 V c n _).2) (k8_pay7 (iblk8 V c 0 ⟨n + 1, h⟩) (iblk8 V c 1 ⟨n + 1, h⟩) (iblk8 V c 2 ⟨n + 1, h⟩) (iblk8 V c 3 ⟨n + 1, h⟩) (iblk8 V c 4 ⟨n + 1, h⟩)) (ix2 (0 : Fin 1) q) = _
    rw [pay8_1_apply, acc8_sumsq c q n, Finset.sum_range_succ _ (n + 1), tileSum_of_lt _ (n + 1) (by omega)]
    exact congrArg (_ + ·) (Finset.sum_congr rfl fun p _ => by rw [blk8_eq V c ⟨n + 1, h⟩ p q]; rfl)

set_option maxHeartbeats 1000000 in
/-- What point `t` writes back of the first output is block `t` of the whole-array transform. -/
theorem flushed8_5_eq (c : Dev nD) (t : Fin cfg8.N) :
    (dat8 (F := Ideal) V c).flushed 5 t = ((cfg8.win 5).blk t).view.read (Elt Ideal) (ltOut (V c main_v152) (V c main_v136_0) (V c main_v154) (V c main_v156) (V c main_v159)) := by
  show (cfg8.win 5).cut (grid8.coords t) ((dat8 V c).after 5 t) = _
  rw [after8_5, outsAt8_eq]
  obtain ⟨e00, e01, e10, e11, e20, e21, e30, e31, e40, e41, e50, e51, e60, e61, e70, e71⟩ := idx_facts8 t
  funext j
  obtain ⟨p, q, rfl⟩ : ∃ (p : Fin 5000) (q : Fin 128), j = ix2 p q := ⟨j 0, j 1, eq_ix2 j⟩
  show k8_pay4 (iblk8 V c 0 t) (iblk8 V c 1 t) (iblk8 V c 2 t) (iblk8 V c 3 t) (iblk8 V c 4 t) (ix2 p q) = (ltOut (V c main_v152) (V c main_v136_0) (V c main_v154) (V c main_v156) (V c main_v159)) (((cfg8.win 5).blk t).view.emb (ix2 p q))
  rw [blk8_eq V c t p q]
  refine congrArg (ltOut (V c main_v152) (V c main_v136_0) (V c main_v154) (V c main_v156) (V c main_v159)) (funext fun a => Fin.ext ?_)
  match a with
  | ⟨0, _⟩ => show p.val + 5000 * t.val = win8_5.index t (0 : Fin 2) * 5000 + 1 * p.val; omega
  | ⟨1, _⟩ => show q.val = win8_5.index t (1 : Fin 2) * 128 + 1 * q.val; omega

/-- An index of the first output array lies in point `t`'s block when each coordinate lies in the block's range. -/
theorem mem_blk8_5 (t : Fin cfg8.N) (i : S50000x128.Idx) :
    i ∈ ((cfg8.win 5).blk t).view.set ↔ ∀ a : Fin 2, win8_5.index t a * S5000x128.size a ≤ (i a).val ∧ (i a).val < win8_5.index t a * S5000x128.size a + S5000x128.size a := by
  show i ∈ ((View.whole main_v160_0).slice (win8_5.rect t)).set ↔ _
  rw [View.set_slice_whole, Rect.mem_set_unit]
  exact Iff.rfl

/-- Every index of the first output array lies in some point's block: row `r` in the block of point `r / 5000`. -/
theorem cover8_5 (i : S50000x128.Idx) :
    ∃ t : Fin cfg8.N, (cfg8.win 5).flush t = true ∧ i ∈ ((cfg8.win 5).blk t).view.set := by
  have hi0 : (i 0).val < 50000 := (i 0).isLt
  have hi1 : (i 1).val < 128 := (i 1).isLt
  have hN : cfg8.N = 10 := N_8
  have ht : (i 0).val / 5000 < cfg8.N := by rw [hN]; omega
  obtain ⟨e00, e01, e10, e11, e20, e21, e30, e31, e40, e41, e50, e51, e60, e61, e70, e71⟩ := idx_facts8 ⟨(i 0).val / 5000, ht⟩
  refine ⟨⟨(i 0).val / 5000, ht⟩, flush8_5 _, ?_⟩
  rw [mem_blk8_5]
  intro a
  match a with
  | ⟨0, _⟩ =>
    show win8_5.index ⟨(i 0).val / 5000, ht⟩ (0 : Fin 2) * 5000 ≤ (i 0).val
      ∧ (i 0).val < win8_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win8_5.index ⟨(i 0).val / 5000, ht⟩ (1 : Fin 2) * 128 ≤ (i 1).val
      ∧ (i 1).val < win8_5.index ⟨(i 0).val / 5000, ht⟩ (1 : Fin 2) * 128 + 128
    rw [e51]; omega

/-- The first output array after the region is the transform of the five arrays the region read. -/
theorem value8_o (V : (c : Dev nD) → (b : Ref sig .tc) → Buf (Elt Ideal) ((c : Thread nD τ).loc b)) (c : Dev nD) :
    (dat8 (F := Ideal) V c).arrAt 5 cfg8.N = ltOut (V c main_v152) (V c main_v136_0) (V c main_v154) (V c main_v156) (V c main_v159) :=
  (dat8 (F := Ideal) V c).arrAt_eq_of_cover 5 _ (fun t _ => flushed8_5_eq V c t) cover8_5

set_option maxHeartbeats 1000000 in
/-- The one write-back of output 6, at the last point, writes the column sums of the whole-array transform. -/
theorem flushed8_6_eq (c : Dev nD) (t : Fin cfg8.N) (hf : (cfg8.win 6).flush t = true) :
    (dat8 (F := Ideal) V c).flushed 6 t = ((cfg8.win 6).blk t).view.read (Elt Ideal) (ltSum (ltOut (V c main_v152) (V c main_v136_0) (V c main_v154) (V c main_v156) (V c main_v159))) := by
  have hN : cfg8.N = 10 := N_8
  have h9 : t.val = 9 := by have := (flush8_6 t).mp hf; have := t.isLt; omega
  obtain ⟨e00, e01, e10, e11, e20, e21, e30, e31, e40, e41, e50, e51, e60, e61, e70, e71⟩ := idx_facts8 t
  have hacc : (acc8 V c t.val t.isLt).1 = ltSum (ltOut (V c main_v152) (V c main_v136_0) (V c main_v154) (V c main_v156) (V c main_v159)) := by
    funext j
    obtain ⟨p, q, rfl⟩ : ∃ (p : Fin 1) (q : Fin 128), j = ix2 p q := ⟨j 0, j 1, eq_ix2 j⟩
    obtain rfl : p = 0 := Subsingleton.elim _ _
    rw [acc8_sum V c q t.val t.isLt, h9]
    exact sum_range_tiles (fun r => (ltOut (V c main_v152) (V c main_v136_0) (V c main_v154) (V c main_v156) (V c main_v159)) (ix2 r q))
  show (cfg8.win 6).cut (grid8.coords t) ((dat8 V c).after 6 t) = _
  rw [after8_6, outsAt8_eq]
  (try dsimp only)
  rw [hacc]
  have hz' : (fun a => win8_6.index t a * main_v160_1.ty.shape.size a) = fun _ => 0 := funext fun a => by
    match a with
    | ⟨0, _⟩ => show win8_6.index t (0 : Fin 2) * 1 = 0; omega
    | ⟨1, _⟩ => show win8_6.index t (1 : Fin 2) * 128 = 0; omega
  exact (Memref.read_access_unit_zero (Elt Ideal) main_v160_1 hz' (fun a => by rw [congrFun hz' a]; simp) (ltSum (ltOut (V c main_v152) (V c main_v136_0) (V c main_v154) (V c main_v156) (V c main_v159)))).symm

/-- An index of output 6's array lies in point `t`'s block when each coordinate lies in the block's range. -/
theorem mem_blk8_6 (t : Fin cfg8.N) (i : S1x128.Idx) :
    i ∈ ((cfg8.win 6).blk t).view.set ↔ ∀ a : Fin 2, win8_6.index t a * S1x128.size a ≤ (i a).val ∧ (i a).val < win8_6.index t a * S1x128.size a + S1x128.size a := by
  show i ∈ ((View.whole main_v160_1).slice (win8_6.rect t)).set ↔ _
  rw [View.set_slice_whole, Rect.mem_set_unit]
  exact Iff.rfl

/-- The last point's block is the whole of output 6's array. -/
theorem cover8_6 (i : S1x128.Idx) :
    ∃ t : Fin cfg8.N, (cfg8.win 6).flush t = true ∧ i ∈ ((cfg8.win 6).blk t).view.set := by
  have hi0 : (i 0).val < 1 := (i 0).isLt
  have hi1 : (i 1).val < 128 := (i 1).isLt
  obtain ⟨e00, e01, e10, e11, e20, e21, e30, e31, e40, e41, e50, e51, e60, e61, e70, e71⟩ := idx_facts8 t8_9
  refine ⟨t8_9, (flush8_6 t8_9).mpr rfl, ?_⟩
  rw [mem_blk8_6]
  intro a
  match a with
  | ⟨0, _⟩ =>
    show win8_6.index t8_9 (0 : Fin 2) * 1 ≤ (i 0).val ∧ (i 0).val < win8_6.index t8_9 (0 : Fin 2) * 1 + 1
    omega
  | ⟨1, _⟩ =>
    show win8_6.index t8_9 (1 : Fin 2) * 128 ≤ (i 1).val ∧ (i 1).val < win8_6.index t8_9 (1 : Fin 2) * 128 + 128
    omega

/-- Output 6's array after the region: the column sums of the transform of the five arrays the region read. -/
theorem value8_sum (V : (c : Dev nD) → (b : Ref sig .tc) → Buf (Elt Ideal) ((c : Thread nD τ).loc b)) (c : Dev nD) :
    (dat8 (F := Ideal) V c).arrAt 6 cfg8.N = ltSum (ltOut (V c main_v152) (V c main_v136_0) (V c main_v154) (V c main_v156) (V c main_v159)) :=
  (dat8 (F := Ideal) V c).arrAt_eq_of_cover 6 _ (flushed8_6_eq V c) cover8_6

set_option maxHeartbeats 1000000 in
/-- The one write-back of output 7, at the last point, writes the column sums of squares of the whole-array transform. -/
theorem flushed8_7_eq (c : Dev nD) (t : Fin cfg8.N) (hf : (cfg8.win 7).flush t = true) :
    (dat8 (F := Ideal) V c).flushed 7 t = ((cfg8.win 7).blk t).view.read (Elt Ideal) (ltSumSq (ltOut (V c main_v152) (V c main_v136_0) (V c main_v154) (V c main_v156) (V c main_v159))) := by
  have hN : cfg8.N = 10 := N_8
  have h9 : t.val = 9 := by have := (flush8_7 t).mp hf; have := t.isLt; omega
  obtain ⟨e00, e01, e10, e11, e20, e21, e30, e31, e40, e41, e50, e51, e60, e61, e70, e71⟩ := idx_facts8 t
  have hacc : (acc8 V c t.val t.isLt).2 = ltSumSq (ltOut (V c main_v152) (V c main_v136_0) (V c main_v154) (V c main_v156) (V c main_v159)) := by
    funext j
    obtain ⟨p, q, rfl⟩ : ∃ (p : Fin 1) (q : Fin 128), j = ix2 p q := ⟨j 0, j 1, eq_ix2 j⟩
    obtain rfl : p = 0 := Subsingleton.elim _ _
    rw [acc8_sumsq V c q t.val t.isLt, h9]
    exact sum_range_tiles (fun r => (ltOut (V c main_v152) (V c main_v136_0) (V c main_v154) (V c main_v156) (V c main_v159)) (ix2 r q) * (ltOut (V c main_v152) (V c main_v136_0) (V c main_v154) (V c main_v156) (V c main_v159)) (ix2 r q))
  show (cfg8.win 7).cut (grid8.coords t) ((dat8 V c).after 7 t) = _
  rw [after8_7, outsAt8_eq]
  (try dsimp only)
  rw [hacc]
  have hz' : (fun a => win8_7.index t a * main_v160_2.ty.shape.size a) = fun _ => 0 := funext fun a => by
    match a with
    | ⟨0, _⟩ => show win8_7.index t (0 : Fin 2) * 1 = 0; omega
    | ⟨1, _⟩ => show win8_7.index t (1 : Fin 2) * 128 = 0; omega
  exact (Memref.read_access_unit_zero (Elt Ideal) main_v160_2 hz' (fun a => by rw [congrFun hz' a]; simp) (ltSumSq (ltOut (V c main_v152) (V c main_v136_0) (V c main_v154) (V c main_v156) (V c main_v159)))).symm

/-- An index of output 7's array lies in point `t`'s block when each coordinate lies in the block's range. -/
theorem mem_blk8_7 (t : Fin cfg8.N) (i : S1x128.Idx) :
    i ∈ ((cfg8.win 7).blk t).view.set ↔ ∀ a : Fin 2, win8_7.index t a * S1x128.size a ≤ (i a).val ∧ (i a).val < win8_7.index t a * S1x128.size a + S1x128.size a := by
  show i ∈ ((View.whole main_v160_2).slice (win8_7.rect t)).set ↔ _
  rw [View.set_slice_whole, Rect.mem_set_unit]
  exact Iff.rfl

/-- The last point's block is the whole of output 7's array. -/
theorem cover8_7 (i : S1x128.Idx) :
    ∃ t : Fin cfg8.N, (cfg8.win 7).flush t = true ∧ i ∈ ((cfg8.win 7).blk t).view.set := by
  have hi0 : (i 0).val < 1 := (i 0).isLt
  have hi1 : (i 1).val < 128 := (i 1).isLt
  obtain ⟨e00, e01, e10, e11, e20, e21, e30, e31, e40, e41, e50, e51, e60, e61, e70, e71⟩ := idx_facts8 t8_9
  refine ⟨t8_9, (flush8_7 t8_9).mpr rfl, ?_⟩
  rw [mem_blk8_7]
  intro a
  match a with
  | ⟨0, _⟩ =>
    show win8_7.index t8_9 (0 : Fin 2) * 1 ≤ (i 0).val ∧ (i 0).val < win8_7.index t8_9 (0 : Fin 2) * 1 + 1
    omega
  | ⟨1, _⟩ =>
    show win8_7.index t8_9 (1 : Fin 2) * 128 ≤ (i 1).val ∧ (i 1).val < win8_7.index t8_9 (1 : Fin 2) * 128 + 128
    omega

/-- Output 7's array after the region: the column sums of squares of the transform of the five arrays the region read. -/
theorem value8_sumsq (V : (c : Dev nD) → (b : Ref sig .tc) → Buf (Elt Ideal) ((c : Thread nD τ).loc b)) (c : Dev nD) :
    (dat8 (F := Ideal) V c).arrAt 7 cfg8.N = ltSumSq (ltOut (V c main_v152) (V c main_v136_0) (V c main_v154) (V c main_v156) (V c main_v159)) :=
  (dat8 (F := Ideal) V c).arrAt_eq_of_cover 7 _ (flushed8_7_eq V c) cover8_7

end Arrays

end Cert.KernelIdeal.Reg

end
-- ==== Proof.KI.Val9.lean ====
import proofs.«144276_j65051574665788_2_alg».proof.Proof.KI.Reg9
import proofs.«144276_j65051574665788_2_alg».proof.Proof.KI.LibBnPool
import Idealize.ShloMosaic.Lib.Pipeline.Value
import Idealize.ShloMosaic.PureOps.Ideal.Laws
import Idealize.ShloMosaic.Lib.ValueIdx
import Idealize.ShloMosaic.Lib.Tactic

/-! # Region 9 read as two arrays

After the region its first output array is the normalised array of the region's entry arrays, entry (n, j) being
γ[j] · (h[n, j] − μ[j]) · rsqrt(σ²[j] + ε) + β[j] clamped below at 0, and its second output array is the pooled array: entry (g, j) the
sum of the normalised rows whose graph number is the word of g.

The ten grid points write the ten tiles of 5000 rows of the first array, point `t` tile `t`. The second array is one block,
revisited at every point: zeroed and added tile 0's share at the first point, added tile `t`'s share at point `t`, written
back after the last. So what its buffer holds after point `n` is the running sum of the shares of tiles 0 … n, by induction
on the point, and after the tenth tile that is the sum over all rows. -/

set_option maxRecDepth 16384

noncomputable section

namespace Cert.KernelIdeal.Reg

open Cert.KernelIdeal Cert.KernelIdeal.Gen Cert.LibBlockOps
open Idealize.ShloMosaic Idealize.ShloMosaic.TcCoe Idealize.ShloMosaic.Tactic Idealize.ShloMosaic.ValueIdx Idealize.SL.Sem
open Idealize.ShloMosaic.Pipeline (Dat)

/-! ## What each case's stores leave, as payloads of the blocks -/

section Pieces
variable {F : FTy → Type} [FloatOps F]

/-- Case A leaves in output 6 its one covering store's payload: the normalised block of the input blocks. -/
theorem out9_A_6_eq (c : Dev nD) (i : grid9.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : cond9_0 i)
    (x0 : Vec F S5000x128 .f32) (x1 : Vec F S1x128 .f32) (x2 : Vec F S1x128 .f32) (x3 : Vec F S1x128 .f32) (x4 : Vec F S1x128 .f32) (x5 : Vec F S5000x1 .i32) :
    out9_A_6 c i arg1 harg1 arg2 harg2 arg3 harg3 arg4 harg4 arg5 harg5 arg6 harg6 arg7 harg7 arg8 harg8 hc0 x0 x1 x2 x3 x4 x5 = k9_pay3 x2 x3 x0 x1 x4 := by
  unfold out9_A_6
  rw [View.read_writes_eq_canon _ _ _ (cover9_A_6 c i arg1 harg1 arg2 harg2 arg3 harg3 arg4 harg4 arg5 harg5 arg6 harg6 arg7 harg7 arg8 harg8 hc0 x0 x1 x2 x3 x4 x5)]
  unfold kernelRun9_A
  dsimp only
  try sl_unfold_words
  rw [View.canon_unit_zero offsets_zero2]
  simp only [View.readAt_eq_ld, harg1.read_unread, harg2.read_unread, harg3.read_unread, harg4.read_unread, harg5.read_unread, harg6.read_unread, harg8.read_unread, View.ld_unit_zero (S := S5000x128) offsets_zero2, View.ld_unit_zero (S := S1x128) offsets_zero2, View.ld_unit_zero (S := S5000x1) offsets_zero2, View.ld_unit_zero (S := S128x128) offsets_zero2]

/-- Case B leaves the same there. -/
theorem out9_B_6_eq (c : Dev nD) (i : grid9.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : ¬cond9_0 i)
    (x0 : Vec F S5000x128 .f32) (x1 : Vec F S1x128 .f32) (x2 : Vec F S1x128 .f32) (x3 : Vec F S1x128 .f32) (x4 : Vec F S1x128 .f32) (x5 : Vec F S5000x1 .i32) (xo7 : Vec F S128x128 .f32) :
    out9_B_6 c i arg1 harg1 arg2 harg2 arg3 harg3 arg4 harg4 arg5 harg5 arg6 harg6 arg7 harg7 arg8 harg8 hc0 x0 x1 x2 x3 x4 x5 xo7 = k9_pay3 x2 x3 x0 x1 x4 := by
  unfold out9_B_6
  rw [View.read_writes_eq_canon _ _ _ (cover9_B_6 c i arg1 harg1 arg2 harg2 arg3 harg3 arg4 harg4 arg5 harg5 arg6 harg6 arg7 harg7 arg8 harg8 hc0 x0 x1 x2 x3 x4 x5 xo7)]
  unfold kernelRun9_B
  dsimp only
  try sl_unfold_words
  rw [View.canon_unit_zero offsets_zero2]
  simp only [View.readAt_eq_ld, harg1.read_unread, harg2.read_unread, harg3.read_unread, harg4.read_unread, harg5.read_unread, harg6.read_unread, harg8.read_unread, View.ld_unit_zero (S := S5000x128) offsets_zero2, View.ld_unit_zero (S := S1x128) offsets_zero2, View.ld_unit_zero (S := S5000x1) offsets_zero2, View.ld_unit_zero (S := S128x128) offsets_zero2]

/-- Case A leaves in output 7 the tile's share added to the zero block it has just stored and read back. -/
theorem out9_A_7_eq (c : Dev nD) (i : grid9.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : cond9_0 i)
    (x0 : Vec F S5000x128 .f32) (x1 : Vec F S1x128 .f32) (x2 : Vec F S1x128 .f32) (x3 : Vec F S1x128 .f32) (x4 : Vec F S1x128 .f32) (x5 : Vec F S5000x1 .i32) :
    out9_A_7 c i arg1 harg1 arg2 harg2 arg3 harg3 arg4 harg4 arg5 harg5 arg6 harg6 arg7 harg7 arg8 harg8 hc0 x0 x1 x2 x3 x4 x5 = k9_pay1 (k9_pay4 x2 x3 x0 x1 x4 x5) (k9_pay2 (F := F)) := by
  unfold out9_A_7
  rw [View.read_writes_eq_canon _ _ _ (cover9_A_7 c i arg1 harg1 arg2 harg2 arg3 harg3 arg4 harg4 arg5 harg5 arg6 harg6 arg7 harg7 arg8 harg8 hc0 x0 x1 x2 x3 x4 x5)]
  unfold kernelRun9_A
  dsimp only
  sl_unfold_words
  rw [View.canon_cons_unit_zero (S := S128x128) offsets_zero2, View.readCov_unit_zero (S := S128x128) _ offsets_zero2]
  simp only [View.readAt_eq_ld, harg1.read_unread, harg2.read_unread, harg3.read_unread, harg4.read_unread, harg5.read_unread, harg6.read_unread, harg8.read_unread, View.ld_unit_zero (S := S5000x128) offsets_zero2, View.ld_unit_zero (S := S1x128) offsets_zero2, View.ld_unit_zero (S := S5000x1) offsets_zero2, View.ld_unit_zero (S := S128x128) offsets_zero2]

/-- Case B leaves there the tile's share added to what the buffer held. -/
theorem out9_B_7_eq (c : Dev nD) (i : grid9.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : ¬cond9_0 i)
    (x0 : Vec F S5000x128 .f32) (x1 : Vec F S1x128 .f32) (x2 : Vec F S1x128 .f32) (x3 : Vec F S1x128 .f32) (x4 : Vec F S1x128 .f32) (x5 : Vec F S5000x1 .i32) (xo7 : Vec F S128x128 .f32) :
    out9_B_7 c i arg1 harg1 arg2 harg2 arg3 harg3 arg4 harg4 arg5 harg5 arg6 harg6 arg7 harg7 arg8 harg8 hc0 x0 x1 x2 x3 x4 x5 xo7 = k9_pay1 (k9_pay4 x2 x3 x0 x1 x4 x5) xo7 := by
  unfold out9_B_7
  rw [View.read_writes_eq_canon _ _ _ (cover9_B_7 c i arg1 harg1 arg2 harg2 arg3 harg3 arg4 harg4 arg5 harg5 arg6 harg6 arg7 harg7 arg8 harg8 hc0 x0 x1 x2 x3 x4 x5 xo7)]
  unfold kernelRun9_B
  dsimp only
  sl_unfold_words
  rw [View.canon_unit_zero offsets_zero2]
  simp only [View.readAt_eq_ld, harg1.read_unread, harg2.read_unread, harg3.read_unread, harg4.read_unread, harg5.read_unread, harg6.read_unread, harg8.read_unread, View.ld_unit_zero (S := S5000x128) offsets_zero2, View.ld_unit_zero (S := S1x128) offsets_zero2, View.ld_unit_zero (S := S5000x1) offsets_zero2, View.ld_unit_zero (S := S128x128) offsets_zero2]

end Pieces

/-! ## The payloads at an entry, over the extended reals -/

/-- The normalised block at row `p`, column `q`: the four rows [1, 128] are stretched over the 5000 rows. -/
theorem bpay3_9_apply (var g : Vec Ideal S1x128 .f32) (h : Vec Ideal S5000x128 .f32) (mu b : Vec Ideal S1x128 .f32)
    (p : Fin 5000) (q : Fin 128) :
    k9_pay3 var g h mu b (ix2 p q)
      = max (g (ix2 (0 : Fin 1) q) * (h (ix2 p q) - mu (ix2 (0 : Fin 1) q)) * Ideal.rsqrt (var (ix2 (0 : Fin 1) q) + Ideal.ofBits .f32 0x3727C5AC#32) + b (ix2 (0 : Fin 1) q)) 0 := by
  unfold k9_pay3
  simp only [shapeCast_self]
  rw [maximumf_apply, addf_apply, mulf_apply, mulf_apply, subf_apply,
    broadcast_row_apply _ _ (by decide), broadcast_row_apply _ _ (by decide), broadcast_row_apply _ _ (by decide), broadcast_row_apply _ _ (by decide)]
  rw [broadcast_apply, ← Ideal.ofBits_zero_f32]
  rfl

/-- A tile's share at entry (g, q): the one-hot block contracted with the normalised block along the rows. -/
theorem bpay4_9_apply (var g : Vec Ideal S1x128 .f32) (h : Vec Ideal S5000x128 .f32) (mu b : Vec Ideal S1x128 .f32)
    (bt : Vec Ideal S5000x1 .i32) (gn q : Fin 128) :
    k9_pay4 var g h mu b bt (ix2 gn q)
      = ∑ p : Fin 5000, (if bt (ix2 p (0 : Fin 1)) = BitVec.ofNat 32 gn.val then (1 : EReal) else 0) * k9_pay3 var g h mu b (ix2 p q) := by
  unfold k9_pay4
  rw [matmul_rows_zero_apply]
  refine Finset.sum_congr rfl fun p _ => ?_
  rw [onehot_blk_apply, truncf_apply]

/-- The accumulating store's payload at an entry: what the buffer held plus the share. -/
theorem bpay1_9_apply (s acc : Vec Ideal S128x128 .f32) (gn q : Fin 128) :
    k9_pay1 s acc (ix2 gn q) = acc (ix2 gn q) + s (ix2 gn q) := by
  unfold k9_pay1
  rw [addf_apply, shapeCast_self]

/-- The zero block at an entry. -/
theorem bpay2_9_apply (gn q : Fin 128) : k9_pay2 (F := Ideal) (ix2 gn q) = 0 := by
  unfold k9_pay2
  rw [broadcast_apply]
  exact Ideal.ofBits_zero_f32

/-! ## The blocks the windows read -/

-- what the core's buffers hold, as extended reals, when the region is entered
variable (V : (c : Dev nD) → (b : Ref sig .tc) → Buf (Elt Ideal) ((c : Thread nD τ).loc b))

/-- The block indices at every grid point: the rows `h`, the graph numbers and the first output move together, block
    `t` at point `t`; every other block index is 0. Decided over the ten points. -/
theorem idx_facts9 : ∀ t : Fin cfg9.N, win9_0.index t (0 : Fin 2) = t.val
    ∧ win9_0.index t (1 : Fin 2) = 0
    ∧ win9_1.index t (0 : Fin 2) = 0
    ∧ win9_1.index t (1 : Fin 2) = 0
    ∧ win9_2.index t (0 : Fin 2) = 0
    ∧ win9_2.index t (1 : Fin 2) = 0
    ∧ win9_3.index t (0 : Fin 2) = 0
    ∧ win9_3.index t (1 : Fin 2) = 0
    ∧ win9_4.index t (0 : Fin 2) = 0
    ∧ win9_4.index t (1 : Fin 2) = 0
    ∧ win9_5.index t (0 : Fin 2) = t.val
    ∧ win9_5.index t (1 : Fin 2) = 0
    ∧ win9_6.index t (0 : Fin 2) = t.val
    ∧ win9_6.index t (1 : Fin 2) = 0
    ∧ win9_7.index t (0 : Fin 2) = 0
    ∧ win9_7.index t (1 : Fin 2) = 0 :=
  (by decide +kernel : ∀ t : Fin grid9.N, _)

/-- Point `t` as a tile number. -/
def tile9 (t : Fin cfg9.N) : Fin 10 := ⟨t.val, lt_of_lt_of_eq t.isLt N_9⟩

/-- Window 0's block at point `t`, row `p`: row `p` of tile `t` of the array. -/
theorem blk9_h (c : Dev nD) (t : Fin cfg9.N) (p : Fin 5000) (q : Fin 128) :
    iblk9 V c 0 t (ix2 p q) = V c main_v160_0 (ix2 (tileRowG (tile9 t) p) q) := by
  obtain ⟨e00, e01, e10, e11, e20, e21, e30, e31, e40, e41, e50, e51, e60, e61, e70, e71⟩ := idx_facts9 t
  refine congrArg (V c main_v160_0) ?_
  funext a; apply Fin.ext
  match a with
  | ⟨0, _⟩ => show win9_0.index t (0 : Fin 2) * 5000 + 1 * p.val = p.val + 5000 * t.val; omega
  | ⟨1, _⟩ => show win9_0.index t (1 : Fin 2) * 128 + 1 * q.val = q.val; omega

/-- Window 1's block at point `t`, at its one row: the array's row. -/
theorem blk9_mu (c : Dev nD) (t : Fin cfg9.N) (q : Fin 128) :
    iblk9 V c 1 t (ix2 (0 : Fin 1) q) = V c main_v162 (ix2 (0 : Fin 1) q) := by
  obtain ⟨e00, e01, e10, e11, e20, e21, e30, e31, e40, e41, e50, e51, e60, e61, e70, e71⟩ := idx_facts9 t
  refine congrArg (V c main_v162) ?_
  funext a; apply Fin.ext
  match a with
  | ⟨0, _⟩ => show win9_1.index t (0 : Fin 2) * 1 + 1 * 0 = 0; omega
  | ⟨1, _⟩ => show win9_1.index t (1 : Fin 2) * 128 + 1 * q.val = q.val; omega

/-- Window 2's block at point `t`, at its one row: the array's row. -/
theorem blk9_var (c : Dev nD) (t : Fin cfg9.N) (q : Fin 128) :
    iblk9 V c 2 t (ix2 (0 : Fin 1) q) = V c main_v166 (ix2 (0 : Fin 1) q) := by
  obtain ⟨e00, e01, e10, e11, e20, e21, e30, e31, e40, e41, e50, e51, e60, e61, e70, e71⟩ := idx_facts9 t
  refine congrArg (V c main_v166) ?_
  funext a; apply Fin.ext
  match a with
  | ⟨0, _⟩ => show win9_2.index t (0 : Fin 2) * 1 + 1 * 0 = 0; omega
  | ⟨1, _⟩ => show win9_2.index t (1 : Fin 2) * 128 + 1 * q.val = q.val; omega

/-- Window 3's block at point `t`, at its one row: the array's row. -/
theorem blk9_g (c : Dev nD) (t : Fin cfg9.N) (q : Fin 128) :
    iblk9 V c 3 t (ix2 (0 : Fin 1) q) = V c main_v171 (ix2 (0 : Fin 1) q) := by
  obtain ⟨e00, e01, e10, e11, e20, e21, e30, e31, e40, e41, e50, e51, e60, e61, e70, e71⟩ := idx_facts9 t
  refine congrArg (V c main_v171) ?_
  funext a; apply Fin.ext
  match a with
  | ⟨0, _⟩ => show win9_3.index t (0 : Fin 2) * 1 + 1 * 0 = 0; omega
  | ⟨1, _⟩ => show win9_3.index t (1 : Fin 2) * 128 + 1 * q.val = q.val; omega

/-- Window 4's block at point `t`, at its one row: the array's row. -/
theorem blk9_b (c : Dev nD) (t : Fin cfg9.N) (q : Fin 128) :
    iblk9 V c 4 t (ix2 (0 : Fin 1) q) = V c main_v172 (ix2 (0 : Fin 1) q) := by
  obtain ⟨e00, e01, e10, e11, e20, e21, e30, e31, e40, e41, e50, e51, e60, e61, e70, e71⟩ := idx_facts9 t
  refine congrArg (V c main_v172) ?_
  funext a; apply Fin.ext
  match a with
  | ⟨0, _⟩ => show win9_4.index t (0 : Fin 2) * 1 + 1 * 0 = 0; omega
  | ⟨1, _⟩ => show win9_4.index t (1 : Fin 2) * 128 + 1 * q.val = q.val; omega

/-- Window 5's block at point `t`, row `p`: the graph number of row `p` of tile `t`. -/
theorem blk9_bt (c : Dev nD) (t : Fin cfg9.N) (p : Fin 5000) :
    iblk9 V c 5 t (ix2 p (0 : Fin 1)) = V c main_v25 (ix2 (tileRowG (tile9 t) p) (0 : Fin 1)) := by
  obtain ⟨e00, e01, e10, e11, e20, e21, e30, e31, e40, e41, e50, e51, e60, e61, e70, e71⟩ := idx_facts9 t
  refine congrArg (V c main_v25) ?_
  funext a; apply Fin.ext
  match a with
  | ⟨0, _⟩ => show win9_5.index t (0 : Fin 2) * 5000 + 1 * p.val = p.val + 5000 * t.val; omega
  | ⟨1, _⟩ => show win9_5.index t (1 : Fin 2) * 1 + 1 * 0 = 0; omega

/-- The normalised block of point `t`'s input blocks, at row `p`: row `p` of tile `t` of the normalised array. -/
theorem pay3_9_blk (c : Dev nD) (t : Fin cfg9.N) (p : Fin 5000) (q : Fin 128) :
    k9_pay3 (iblk9 V c 2 t) (iblk9 V c 3 t) (iblk9 V c 0 t) (iblk9 V c 1 t) (iblk9 V c 4 t) (ix2 p q)
      = bnOut (V c main_v160_0) (V c main_v162) (V c main_v166) (V c main_v171) (V c main_v172) (ix2 (tileRowG (tile9 t) p) q) := by
  rw [bpay3_9_apply, bnOut_apply, blk9_h, blk9_mu, blk9_var, blk9_g, blk9_b]

/-- Point `t`'s share of the pooled array, from its input blocks. -/
def share9 (c : Dev nD) (t : Fin cfg9.N) : Vec Ideal S128x128 .f32 :=
  k9_pay4 (iblk9 V c 2 t) (iblk9 V c 3 t) (iblk9 V c 0 t) (iblk9 V c 1 t) (iblk9 V c 4 t) (iblk9 V c 5 t)

/-- It is tile `t`'s share of the pooled array of the region's entry arrays. -/
theorem share9_apply (c : Dev nD) (t : Fin cfg9.N) (gn q : Fin 128) :
    share9 V c t (ix2 gn q) = tilePool (V c main_v25) (bnOut (V c main_v160_0) (V c main_v162) (V c main_v166) (V c main_v171) (V c main_v172)) (tile9 t) (ix2 gn q) := by
  unfold share9
  rw [bpay4_9_apply]
  refine Finset.sum_congr rfl fun p _ => ?_
  rw [pay3_9_blk, blk9_bt]

/-! ## What the outputs hold after each point -/

set_option maxHeartbeats 1000000 in
theorem pt9_A_fst (c : Dev nD) (t : Fin cfg9.N) (h0 : t.val % 10 = 0) :
    (pt9_A V c t h0).1 = k9_pay3 (iblk9 V c 2 t) (iblk9 V c 3 t) (iblk9 V c 0 t) (iblk9 V c 1 t) (iblk9 V c 4 t) := by
  dsimp only [pt9_A]
  exact out9_A_6_eq (F := Ideal) c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) (ms9_7 t) (hs9_7 t) ((hcond9_0 t).mpr h0) (iblk9 V c 0 t) (iblk9 V c 1 t) (iblk9 V c 2 t) (iblk9 V c 3 t) (iblk9 V c 4 t) (iblk9 V c 5 t)

set_option maxHeartbeats 1000000 in
theorem pt9_B_fst (c : Dev nD) (t : Fin cfg9.N) (h0 : ¬t.val % 10 = 0) (xo7 : Vec Ideal S128x128 .f32) :
    (pt9_B V c t h0 xo7).1 = k9_pay3 (iblk9 V c 2 t) (iblk9 V c 3 t) (iblk9 V c 0 t) (iblk9 V c 1 t) (iblk9 V c 4 t) := by
  dsimp only [pt9_B]
  exact out9_B_6_eq (F := Ideal) c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) (ms9_7 t) (hs9_7 t) (fun h => h0 ((hcond9_0 t).mp h)) (iblk9 V c 0 t) (iblk9 V c 1 t) (iblk9 V c 2 t) (iblk9 V c 3 t) (iblk9 V c 4 t) (iblk9 V c 5 t) xo7

set_option maxHeartbeats 1000000 in
theorem pt9_A_snd (c : Dev nD) (t : Fin cfg9.N) (h0 : t.val % 10 = 0) :
    (pt9_A V c t h0).2 = k9_pay1 (F := Ideal) (share9 V c t) (k9_pay2 (F := Ideal)) := by
  dsimp only [pt9_A]
  exact out9_A_7_eq (F := Ideal) c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) (ms9_7 t) (hs9_7 t) ((hcond9_0 t).mpr h0) (iblk9 V c 0 t) (iblk9 V c 1 t) (iblk9 V c 2 t) (iblk9 V c 3 t) (iblk9 V c 4 t) (iblk9 V c 5 t)

set_option maxHeartbeats 1000000 in
theorem pt9_B_snd (c : Dev nD) (t : Fin cfg9.N) (h0 : ¬t.val % 10 = 0) (xo7 : Vec Ideal S128x128 .f32) :
    (pt9_B V c t h0 xo7).2 = k9_pay1 (F := Ideal) (share9 V c t) (xo7) := by
  dsimp only [pt9_B]
  exact out9_B_7_eq (F := Ideal) c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) (ms9_7 t) (hs9_7 t) (fun h => h0 ((hcond9_0 t).mp h)) (iblk9 V c 0 t) (iblk9 V c 1 t) (iblk9 V c 2 t) (iblk9 V c 3 t) (iblk9 V c 4 t) (iblk9 V c 5 t) xo7

/-- After every point the first output's buffer holds the normalised block of the point's input blocks. -/
theorem outsAt9_fst (c : Dev nD) (t : Fin cfg9.N) :
    (outsAt9 V c t.val t.isLt).1 = k9_pay3 (iblk9 V c 2 t) (iblk9 V c 3 t) (iblk9 V c 0 t) (iblk9 V c 1 t) (iblk9 V c 4 t) := by
  by_cases h0 : t.val % 10 = 0
  · rw [outsAt9_A V c t h0]; exact pt9_A_fst V c t h0
  · rw [outsAt9_B V c t h0]; exact pt9_B_fst V c t h0 _

/-- After point `n` the second output's buffer holds the running sum of the shares of tiles 0 … n: by induction on the
    point; the first point starts from the zero block (0 + x = x), a later point adds to what the point before left. -/
theorem outsAt9_snd (c : Dev nD) : ∀ (n : ℕ) (h : n < cfg9.N) (gn q : Fin 128),
    (outsAt9 V c n h).2 (ix2 gn q) = ∑ t ∈ Finset.range (n + 1), tilePoolN (V c main_v25) (bnOut (V c main_v160_0) (V c main_v162) (V c main_v166) (V c main_v171) (V c main_v172)) t (ix2 gn q)
  | 0, h, gn, q => by
    rw [outsAt9_A V c ⟨0, h⟩ (Nat.zero_mod _), pt9_A_snd, bpay1_9_apply, bpay2_9_apply, zero_add, Finset.sum_range_one, share9_apply]
    unfold tilePoolN
    rw [dif_pos (by decide)]
    rfl
  | n + 1, h, gn, q => by
    have hN : cfg9.N = 10 := N_9
    have hB : ¬(⟨n + 1, h⟩ : Fin cfg9.N).val % 10 = 0 := by dsimp only; omega
    rw [outsAt9_B V c ⟨n + 1, h⟩ hB, pt9_B_snd, bpay1_9_apply, Finset.sum_range_succ, share9_apply]
    have ih := outsAt9_snd c n (Nat.lt_of_succ_lt h) gn q
    refine congrArg₂ (· + ·) ih ?_
    unfold tilePoolN
    rw [dif_pos (by omega)]
    rfl

/-! ## The first output array -/

set_option maxHeartbeats 1000000 in
/-- What point `t` writes back into the first output is tile `t` of the normalised array of the entry arrays. -/
theorem flushed9_6_eq (c : Dev nD) (t : Fin cfg9.N) :
    (dat9 (F := Ideal) V c).flushed 6 t = ((cfg9.win 6).blk t).view.read (Elt Ideal) (bnOut (V c main_v160_0) (V c main_v162) (V c main_v166) (V c main_v171) (V c main_v172)) := by
  show (cfg9.win 6).cut (grid9.coords t) ((dat9 V c).after 6 t) = _
  rw [after9_6, outsAt9_fst]
  obtain ⟨e00, e01, e10, e11, e20, e21, e30, e31, e40, e41, e50, e51, e60, e61, e70, e71⟩ := idx_facts9 t
  funext j
  obtain ⟨p, q, rfl⟩ : ∃ (p : Fin 5000) (q : Fin 128), j = ix2 p q := ⟨j 0, j 1, eq_ix2 j⟩
  show k9_pay3 (iblk9 V c 2 t) (iblk9 V c 3 t) (iblk9 V c 0 t) (iblk9 V c 1 t) (iblk9 V c 4 t) (ix2 p q)
    = bnOut (V c main_v160_0) (V c main_v162) (V c main_v166) (V c main_v171) (V c main_v172) (((cfg9.win 6).blk t).view.emb (ix2 p q))
  rw [pay3_9_blk]
  refine congrArg (bnOut (V c main_v160_0) (V c main_v162) (V c main_v166) (V c main_v171) (V c main_v172)) ?_
  funext a; apply Fin.ext
  match a with
  | ⟨0, _⟩ => show p.val + 5000 * t.val = win9_6.index t (0 : Fin 2) * 5000 + 1 * p.val; omega
  | ⟨1, _⟩ => show q.val = win9_6.index t (1 : Fin 2) * 128 + 1 * q.val; omega

/-- An index of the first output array lies in point `t`'s block when each coordinate lies in the block's range. -/
theorem mem_blk9_6 (t : Fin cfg9.N) (i : S50000x128.Idx) :
    i ∈ ((cfg9.win 6).blk t).view.set ↔ ∀ a : Fin 2, win9_6.index t a * S5000x128.size a ≤ (i a).val ∧ (i a).val < win9_6.index t a * S5000x128.size a + S5000x128.size a := by
  show i ∈ ((View.whole main_v173_0).slice (win9_6.rect t)).set ↔ _
  rw [View.set_slice_whole, Rect.mem_set_unit]
  exact Iff.rfl

/-- Every index of the first output array lies in some point's block: row `r` in the block of point `r / 5000`. -/
theorem cover9_6 (i : S50000x128.Idx) :
    ∃ t : Fin cfg9.N, (cfg9.win 6).flush t = true ∧ i ∈ ((cfg9.win 6).blk t).view.set := by
  have hi0 : (i 0).val < 50000 := (i 0).isLt
  have hi1 : (i 1).val < 128 := (i 1).isLt
  have hN : cfg9.N = 10 := N_9
  have ht : (i 0).val / 5000 < cfg9.N := by rw [hN]; omega
  obtain ⟨e00, e01, e10, e11, e20, e21, e30, e31, e40, e41, e50, e51, e60, e61, e70, e71⟩ := idx_facts9 ⟨(i 0).val / 5000, ht⟩
  refine ⟨⟨(i 0).val / 5000, ht⟩, flush9_6 _, ?_⟩
  rw [mem_blk9_6]
  intro a
  match a with
  | ⟨0, _⟩ =>
    show win9_6.index ⟨(i 0).val / 5000, ht⟩ (0 : Fin 2) * 5000 ≤ (i 0).val
      ∧ (i 0).val < win9_6.index ⟨(i 0).val / 5000, ht⟩ (0 : Fin 2) * 5000 + 5000
    rw [e60]; show (i 0).val / 5000 * 5000 ≤ (i 0).val ∧ (i 0).val < (i 0).val / 5000 * 5000 + 5000; omega
  | ⟨1, _⟩ =>
    show win9_6.index ⟨(i 0).val / 5000, ht⟩ (1 : Fin 2) * 128 ≤ (i 1).val
      ∧ (i 1).val < win9_6.index ⟨(i 0).val / 5000, ht⟩ (1 : Fin 2) * 128 + 128
    rw [e61]; omega

/-- After the region the first output array is the normalised array of the arrays the region read. -/
theorem value9_y (V : (c : Dev nD) → (b : Ref sig .tc) → Buf (Elt Ideal) ((c : Thread nD τ).loc b)) (c : Dev nD) :
    (dat9 (F := Ideal) V c).arrAt 6 cfg9.N = bnOut (V c main_v160_0) (V c main_v162) (V c main_v166) (V c main_v171) (V c main_v172) :=
  (dat9 (F := Ideal) V c).arrAt_eq_of_cover 6 _ (fun t _ => flushed9_6_eq V c t) cover9_6

/-! ## The second output array -/

set_option maxHeartbeats 1000000 in
/-- The one write-back of the second output, after the last point, writes the pooled array: its one block is the whole
    array, and the running sum after the tenth tile is the sum over all rows. -/
theorem flushed9_7_eq (c : Dev nD) (t : Fin cfg9.N) (hf : (cfg9.win 7).flush t = true) :
    (dat9 (F := Ideal) V c).flushed 7 t
      = ((cfg9.win 7).blk t).view.read (Elt Ideal) (bnPool (V c main_v25) (bnOut (V c main_v160_0) (V c main_v162) (V c main_v166) (V c main_v171) (V c main_v172))) := by
  have hN : cfg9.N = 10 := N_9
  have h9 : t.val + 1 = 10 := by have := (flush9_7 t).mp hf; have := t.isLt; omega
  show (cfg9.win 7).cut (grid9.coords t) ((dat9 V c).after 7 t) = _
  rw [after9_7]
  obtain ⟨e00, e01, e10, e11, e20, e21, e30, e31, e40, e41, e50, e51, e60, e61, e70, e71⟩ := idx_facts9 t
  generalize hG : bnPool (V c main_v25) (bnOut (V c main_v160_0) (V c main_v162) (V c main_v166) (V c main_v171) (V c main_v172)) = G
  funext j
  obtain ⟨gn, q, rfl⟩ : ∃ (gn : Fin 128) (q : Fin 128), j = ix2 gn q := ⟨j 0, j 1, eq_ix2 j⟩
  show (outsAt9 V c t.val t.isLt).2 (ix2 gn q) = G (((cfg9.win 7).blk t).view.emb (ix2 gn q))
  have he : ((cfg9.win 7).blk t).view.emb (ix2 gn q) = ix2 gn q := by
    funext a; apply Fin.ext
    match a with
    | ⟨0, _⟩ => show win9_7.index t (0 : Fin 2) * 128 + 1 * gn.val = gn.val; omega
    | ⟨1, _⟩ => show win9_7.index t (1 : Fin 2) * 128 + 1 * q.val = q.val; omega
  rw [he, ← hG, outsAt9_snd V c t.val t.isLt gn q, bnPool_eq_range, h9]

/-- An index of the second output array lies in point `t`'s block when each coordinate lies in the block's range. -/
theorem mem_blk9_7 (t : Fin cfg9.N) (i : S128x128.Idx) :
    i ∈ ((cfg9.win 7).blk t).view.set ↔ ∀ a : Fin 2, win9_7.index t a * S128x128.size a ≤ (i a).val ∧ (i a).val < win9_7.index t a * S128x128.size a + S128x128.size a := by
  show i ∈ ((View.whole main_v173_1).slice (win9_7.rect t)).set ↔ _
  rw [View.set_slice_whole, Rect.mem_set_unit]
  exact Iff.rfl

/-- Every index of the second output array lies in the last point's block, the one that is written back. -/
theorem cover9_7 (i : S128x128.Idx) :
    ∃ t : Fin cfg9.N, (cfg9.win 7).flush t = true ∧ i ∈ ((cfg9.win 7).blk t).view.set := by
  have hi0 : (i 0).val < 128 := (i 0).isLt
  have hi1 : (i 1).val < 128 := (i 1).isLt
  have ht : 9 < cfg9.N := by rw [show cfg9.N = 10 from N_9]; decide
  obtain ⟨e00, e01, e10, e11, e20, e21, e30, e31, e40, e41, e50, e51, e60, e61, e70, e71⟩ := idx_facts9 ⟨9, ht⟩
  refine ⟨⟨9, ht⟩, (flush9_7 _).mpr rfl, ?_⟩
  rw [mem_blk9_7]
  intro a
  match a with
  | ⟨0, _⟩ =>
    show win9_7.index ⟨9, ht⟩ (0 : Fin 2) * 128 ≤ (i 0).val ∧ (i 0).val < win9_7.index ⟨9, ht⟩ (0 : Fin 2) * 128 + 128
    rw [e70]; omega
  | ⟨1, _⟩ =>
    show win9_7.index ⟨9, ht⟩ (1 : Fin 2) * 128 ≤ (i 1).val ∧ (i 1).val < win9_7.index ⟨9, ht⟩ (1 : Fin 2) * 128 + 128
    rw [e71]; omega

/-- After the region the second output array is the pooled array of the graph numbers and the normalised array. -/
theorem value9_pool (V : (c : Dev nD) → (b : Ref sig .tc) → Buf (Elt Ideal) ((c : Thread nD τ).loc b)) (c : Dev nD) :
    (dat9 (F := Ideal) V c).arrAt 7 cfg9.N = bnPool (V c main_v25) (bnOut (V c main_v160_0) (V c main_v162) (V c main_v166) (V c main_v171) (V c main_v172)) :=
  (dat9 (F := Ideal) V c).arrAt_eq_of_cover 7 _ (fun t hf => flushed9_7_eq V c t hf) cover9_7

end Cert.KernelIdeal.Reg

end
-- ==== Proof.KI.Val10.lean ====
import proofs.«144276_j65051574665788_2_alg».proof.Proof.KI.Reg10
import proofs.«144276_j65051574665788_2_alg».proof.Proof.KI.LibBlockOps
import proofs.«144276_j65051574665788_2_alg».proof.Proof.LibOneHotPool
import Idealize.ShloMosaic.Lib.Pipeline.Value
import Idealize.ShloMosaic.PureOps.Ideal.Laws
import Idealize.ShloMosaic.Lib.ValueIdx
import Idealize.ShloMosaic.Lib.Tactic
import proofs.«144276_j65051574665788_2_alg».proof.Proof.KI.Val2

set_option maxRecDepth 16384

noncomputable section

namespace Cert.KernelIdeal.Reg

open Cert.KernelIdeal Cert.KernelIdeal.Gen Cert.LibBlockOps
open Idealize.ShloMosaic Idealize.ShloMosaic.TcCoe Idealize.ShloMosaic.ValueIdx Idealize.ShloMosaic.Tactic Idealize.SL.Sem
open Idealize.ShloMosaic.Pipeline (Dat)

open Finset

/-! # Region 10: what the found pieces are, at any float instance -/

section Pieces
variable {F : FTy → Type} [FloatOps F]

theorem pieceA10_5 (c : Dev nD) (i : grid10.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : cond10_0 i)
    (x0 x1 : Vec F S5000x128 .f32) (x2 x3 : Vec F S128x128 .f32) (x4 : Vec F S1x128 .f32) :
    VO10_5.read (Elt F) (VO10_5.writes (Elt F) VO10_5.junk (kernelRun10_A c i arg1 harg1 arg2 harg2 arg3 harg3 arg4 harg4 arg5 harg5 arg6 harg6 arg7 harg7 arg8 harg8 hc0 x0 x1 x2 x3 x4).1) = k10_pay4 x0 x1 x2 x3 x4 := by
  rw [View.read_writes_junk_eq_canon]
  unfold kernelRun10_A
  dsimp only
  sl_unfold_words
  rw [View.canon_unit_zero offsets_zero2]
  simp only [View.readAt_eq_ld, harg1.read_unread, harg2.read_unread, harg3.read_unread, harg4.read_unread, harg5.read_unread,
    View.ld_unit_zero (S := S5000x128) offsets_zero2, View.ld_unit_zero (S := S128x128) offsets_zero2,
    View.ld_unit_zero (S := S1x128) offsets_zero2]

theorem pieceA10_6 (c : Dev nD) (i : grid10.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : cond10_0 i)
    (x0 x1 : Vec F S5000x128 .f32) (x2 x3 : Vec F S128x128 .f32) (x4 : Vec F S1x128 .f32) :
    VO10_6.read (Elt F) (VO10_6.writes (Elt F) VO10_6.junk (kernelRun10_A c i arg1 harg1 arg2 harg2 arg3 harg3 arg4 harg4 arg5 harg5 arg6 harg6 arg7 harg7 arg8 harg8 hc0 x0 x1 x2 x3 x4).2.1) = k10_pay5 x0 x1 x2 x3 x4 (k10_pay2 (F := F)) := by
  rw [View.read_writes_junk_eq_canon]
  unfold kernelRun10_A
  dsimp only
  sl_unfold_words
  rw [View.canon_cons_unit_zero (S := S1x128) offsets_zero2, View.readCov_unit_zero (S := S1x128) _ offsets_zero2]
  simp only [View.readAt_eq_ld, harg1.read_unread, harg2.read_unread, harg3.read_unread, harg4.read_unread, harg5.read_unread,
    View.ld_unit_zero (S := S5000x128) offsets_zero2, View.ld_unit_zero (S := S128x128) offsets_zero2,
    View.ld_unit_zero (S := S1x128) offsets_zero2]

theorem pieceA10_7 (c : Dev nD) (i : grid10.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : cond10_0 i)
    (x0 x1 : Vec F S5000x128 .f32) (x2 x3 : Vec F S128x128 .f32) (x4 : Vec F S1x128 .f32) :
    VO10_7.read (Elt F) (VO10_7.writes (Elt F) VO10_7.junk (kernelRun10_A c i arg1 harg1 arg2 harg2 arg3 harg3 arg4 harg4 arg5 harg5 arg6 harg6 arg7 harg7 arg8 harg8 hc0 x0 x1 x2 x3 x4).2.2.1) = k10_pay1 (k10_pay6 (k10_pay3 (F := F))) (k10_pay7 x0 x1 x2 x3 x4) := by
  rw [View.read_writes_junk_eq_canon]
  unfold kernelRun10_A
  dsimp only
  sl_unfold_words
  rw [View.canon_cons_unit_zero (S := S1x128) offsets_zero2, View.readCov_unit_zero (S := S1x128) _ offsets_zero2]
  simp only [View.readAt_eq_ld, harg1.read_unread, harg2.read_unread, harg3.read_unread, harg4.read_unread, harg5.read_unread,
    View.ld_unit_zero (S := S5000x128) offsets_zero2, View.ld_unit_zero (S := S128x128) offsets_zero2,
    View.ld_unit_zero (S := S1x128) offsets_zero2]

theorem pieceB10_5 (c : Dev nD) (i : grid10.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : ¬cond10_0 i)
    (x0 x1 : Vec F S5000x128 .f32) (x2 x3 : Vec F S128x128 .f32) (x4 : Vec F S1x128 .f32) (xo6 xo7 : Vec F S1x128 .f32) :
    VO10_5.read (Elt F) (VO10_5.writes (Elt F) VO10_5.junk (kernelRun10_B c i arg1 harg1 arg2 harg2 arg3 harg3 arg4 harg4 arg5 harg5 arg6 harg6 arg7 harg7 arg8 harg8 hc0 x0 x1 x2 x3 x4 xo6 xo7).1) = k10_pay4 x0 x1 x2 x3 x4 := by
  rw [View.read_writes_junk_eq_canon]
  unfold kernelRun10_B
  dsimp only
  sl_unfold_words
  rw [View.canon_unit_zero offsets_zero2]
  simp only [View.readAt_eq_ld, harg1.read_unread, harg2.read_unread, harg3.read_unread, harg4.read_unread, harg5.read_unread, harg7.read_unread, harg8.read_unread,
    View.ld_unit_zero (S := S5000x128) offsets_zero2, View.ld_unit_zero (S := S128x128) offsets_zero2,
    View.ld_unit_zero (S := S1x128) offsets_zero2]

theorem pieceB10_6 (c : Dev nD) (i : grid10.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : ¬cond10_0 i)
    (x0 x1 : Vec F S5000x128 .f32) (x2 x3 : Vec F S128x128 .f32) (x4 : Vec F S1x128 .f32) (xo6 xo7 : Vec F S1x128 .f32) :
    VO10_6.read (Elt F) (VO10_6.writes (Elt F) VO10_6.junk (kernelRun10_B c i arg1 harg1 arg2 harg2 arg3 harg3 arg4 harg4 arg5 harg5 arg6 harg6 arg7 harg7 arg8 harg8 hc0 x0 x1 x2 x3 x4 xo6 xo7).2.1) = k10_pay5 x0 x1 x2 x3 x4 xo6 := by
  rw [View.read_writes_junk_eq_canon]
  unfold kernelRun10_B
  dsimp only
  sl_unfold_words
  rw [View.canon_unit_zero offsets_zero2]
  simp only [View.readAt_eq_ld, harg1.read_unread, harg2.read_unread, harg3.read_unread, harg4.read_unread, harg5.read_unread, harg7.read_unread, harg8.read_unread,
    View.ld_unit_zero (S := S5000x128) offsets_zero2, View.ld_unit_zero (S := S128x128) offsets_zero2,
    View.ld_unit_zero (S := S1x128) offsets_zero2]

theorem pieceB10_7 (c : Dev nD) (i : grid10.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : ¬cond10_0 i)
    (x0 x1 : Vec F S5000x128 .f32) (x2 x3 : Vec F S128x128 .f32) (x4 : Vec F S1x128 .f32) (xo6 xo7 : Vec F S1x128 .f32) :
    VO10_7.read (Elt F) (VO10_7.writes (Elt F) VO10_7.junk (kernelRun10_B c i arg1 harg1 arg2 harg2 arg3 harg3 arg4 harg4 arg5 harg5 arg6 harg6 arg7 harg7 arg8 harg8 hc0 x0 x1 x2 x3 x4 xo6 xo7).2.2.1) = k10_pay1 (k10_pay6 xo7) (k10_pay7 x0 x1 x2 x3 x4) := by
  rw [View.read_writes_junk_eq_canon]
  unfold kernelRun10_B
  dsimp only
  sl_unfold_words
  rw [View.canon_unit_zero offsets_zero2]
  simp only [View.readAt_eq_ld, harg1.read_unread, harg2.read_unread, harg3.read_unread, harg4.read_unread, harg5.read_unread, harg7.read_unread, harg8.read_unread,
    View.ld_unit_zero (S := S5000x128) offsets_zero2, View.ld_unit_zero (S := S128x128) offsets_zero2,
    View.ld_unit_zero (S := S1x128) offsets_zero2]

variable (V : (c : Dev nD) → (b : Ref sig .tc) → Buf (Elt F) ((c : Thread nD τ).loc b))

/-- The two running accumulators after position `n`: started from the zero rows at the first point, then each point's
    contribution added to what the point before left. -/
def acc10 (c : Dev nD) : (n : ℕ) → n < cfg10.N → Vec F S1x128 .f32 × Vec F S1x128 .f32
  | 0, h => (k10_pay5 (iblk10 V c 0 ⟨0, h⟩) (iblk10 V c 1 ⟨0, h⟩) (iblk10 V c 2 ⟨0, h⟩) (iblk10 V c 3 ⟨0, h⟩) (iblk10 V c 4 ⟨0, h⟩) (k10_pay2 (F := F)),
      k10_pay1 (k10_pay6 (k10_pay3 (F := F))) (k10_pay7 (iblk10 V c 0 ⟨0, h⟩) (iblk10 V c 1 ⟨0, h⟩) (iblk10 V c 2 ⟨0, h⟩) (iblk10 V c 3 ⟨0, h⟩) (iblk10 V c 4 ⟨0, h⟩)))
  | n + 1, h => (k10_pay5 (iblk10 V c 0 ⟨n + 1, h⟩) (iblk10 V c 1 ⟨n + 1, h⟩) (iblk10 V c 2 ⟨n + 1, h⟩) (iblk10 V c 3 ⟨n + 1, h⟩) (iblk10 V c 4 ⟨n + 1, h⟩) (acc10 c n (Nat.lt_of_succ_lt h)).1,
      k10_pay1 (k10_pay6 (acc10 c n (Nat.lt_of_succ_lt h)).2) (k10_pay7 (iblk10 V c 0 ⟨n + 1, h⟩) (iblk10 V c 1 ⟨n + 1, h⟩) (iblk10 V c 2 ⟨n + 1, h⟩) (iblk10 V c 3 ⟨n + 1, h⟩) (iblk10 V c 4 ⟨n + 1, h⟩)))

/-- What the three outputs' staging buffers hold after position `n`: the point's block of the transform and the two
    running accumulators. By induction on the point. -/
theorem outsAt10_eq (c : Dev nD) : ∀ (n : ℕ) (h : n < cfg10.N),
    outsAt10 V c n h = (k10_pay4 (iblk10 V c 0 ⟨n, h⟩) (iblk10 V c 1 ⟨n, h⟩) (iblk10 V c 2 ⟨n, h⟩) (iblk10 V c 3 ⟨n, h⟩) (iblk10 V c 4 ⟨n, h⟩), (acc10 V c n h).1, (acc10 V c n h).2)
  | 0, h => by
    refine (outsAt10_A V c ⟨0, h⟩ (Nat.zero_mod _)).trans ?_
    unfold outsA10
    exact triple_ext (pieceA10_5 c (grid10.coords ⟨0, h⟩) (ms10_0 ⟨0, h⟩) (hs10_0 ⟨0, h⟩) (ms10_1 ⟨0, h⟩) (hs10_1 ⟨0, h⟩) (ms10_2 ⟨0, h⟩) (hs10_2 ⟨0, h⟩) (ms10_3 ⟨0, h⟩) (hs10_3 ⟨0, h⟩) (ms10_4 ⟨0, h⟩) (hs10_4 ⟨0, h⟩) (ms10_5 ⟨0, h⟩) (hs10_5 ⟨0, h⟩) (ms10_6 ⟨0, h⟩) (hs10_6 ⟨0, h⟩) (ms10_7 ⟨0, h⟩) (hs10_7 ⟨0, h⟩) ((hcond10_0 ⟨0, h⟩).mpr (Nat.zero_mod _)) (iblk10 V c 0 ⟨0, h⟩) (iblk10 V c 1 ⟨0, h⟩) (iblk10 V c 2 ⟨0, h⟩) (iblk10 V c 3 ⟨0, h⟩) (iblk10 V c 4 ⟨0, h⟩))
      (pieceA10_6 c (grid10.coords ⟨0, h⟩) (ms10_0 ⟨0, h⟩) (hs10_0 ⟨0, h⟩) (ms10_1 ⟨0, h⟩) (hs10_1 ⟨0, h⟩) (ms10_2 ⟨0, h⟩) (hs10_2 ⟨0, h⟩) (ms10_3 ⟨0, h⟩) (hs10_3 ⟨0, h⟩) (ms10_4 ⟨0, h⟩) (hs10_4 ⟨0, h⟩) (ms10_5 ⟨0, h⟩) (hs10_5 ⟨0, h⟩) (ms10_6 ⟨0, h⟩) (hs10_6 ⟨0, h⟩) (ms10_7 ⟨0, h⟩) (hs10_7 ⟨0, h⟩) ((hcond10_0 ⟨0, h⟩).mpr (Nat.zero_mod _)) (iblk10 V c 0 ⟨0, h⟩) (iblk10 V c 1 ⟨0, h⟩) (iblk10 V c 2 ⟨0, h⟩) (iblk10 V c 3 ⟨0, h⟩) (iblk10 V c 4 ⟨0, h⟩))
      (pieceA10_7 c (grid10.coords ⟨0, h⟩) (ms10_0 ⟨0, h⟩) (hs10_0 ⟨0, h⟩) (ms10_1 ⟨0, h⟩) (hs10_1 ⟨0, h⟩) (ms10_2 ⟨0, h⟩) (hs10_2 ⟨0, h⟩) (ms10_3 ⟨0, h⟩) (hs10_3 ⟨0, h⟩) (ms10_4 ⟨0, h⟩) (hs10_4 ⟨0, h⟩) (ms10_5 ⟨0, h⟩) (hs10_5 ⟨0, h⟩) (ms10_6 ⟨0, h⟩) (hs10_6 ⟨0, h⟩) (ms10_7 ⟨0, h⟩) (hs10_7 ⟨0, h⟩) ((hcond10_0 ⟨0, h⟩).mpr (Nat.zero_mod _)) (iblk10 V c 0 ⟨0, h⟩) (iblk10 V c 1 ⟨0, h⟩) (iblk10 V c 2 ⟨0, h⟩) (iblk10 V c 3 ⟨0, h⟩) (iblk10 V c 4 ⟨0, h⟩))
  | n + 1, h => by
    have hN : cfg10.N = 10 := N_10
    have hB : ¬(⟨n + 1, h⟩ : Fin cfg10.N).val % 10 = 0 := by dsimp only; omega
    refine (outsAt10_B V c ⟨n + 1, h⟩ hB).trans ?_
    show outsB10 V c ⟨n + 1, h⟩ hB (outsAt10 V c n _).2.1 (outsAt10 V c n _).2.2 = _
    rw [outsAt10_eq c n]
    unfold outsB10
    exact triple_ext (pieceB10_5 c (grid10.coords ⟨n + 1, h⟩) (ms10_0 ⟨n + 1, h⟩) (hs10_0 ⟨n + 1, h⟩) (ms10_1 ⟨n + 1, h⟩) (hs10_1 ⟨n + 1, h⟩) (ms10_2 ⟨n + 1, h⟩) (hs10_2 ⟨n + 1, h⟩) (ms10_3 ⟨n + 1, h⟩) (hs10_3 ⟨n + 1, h⟩) (ms10_4 ⟨n + 1, h⟩) (hs10_4 ⟨n + 1, h⟩) (ms10_5 ⟨n + 1, h⟩) (hs10_5 ⟨n + 1, h⟩) (ms10_6 ⟨n + 1, h⟩) (hs10_6 ⟨n + 1, h⟩) (ms10_7 ⟨n + 1, h⟩) (hs10_7 ⟨n + 1, h⟩) (fun hc => hB ((hcond10_0 ⟨n + 1, h⟩).mp hc)) (iblk10 V c 0 ⟨n + 1, h⟩) (iblk10 V c 1 ⟨n + 1, h⟩) (iblk10 V c 2 ⟨n + 1, h⟩) (iblk10 V c 3 ⟨n + 1, h⟩) (iblk10 V c 4 ⟨n + 1, h⟩) _ _)
      (pieceB10_6 c (grid10.coords ⟨n + 1, h⟩) (ms10_0 ⟨n + 1, h⟩) (hs10_0 ⟨n + 1, h⟩) (ms10_1 ⟨n + 1, h⟩) (hs10_1 ⟨n + 1, h⟩) (ms10_2 ⟨n + 1, h⟩) (hs10_2 ⟨n + 1, h⟩) (ms10_3 ⟨n + 1, h⟩) (hs10_3 ⟨n + 1, h⟩) (ms10_4 ⟨n + 1, h⟩) (hs10_4 ⟨n + 1, h⟩) (ms10_5 ⟨n + 1, h⟩) (hs10_5 ⟨n + 1, h⟩) (ms10_6 ⟨n + 1, h⟩) (hs10_6 ⟨n + 1, h⟩) (ms10_7 ⟨n + 1, h⟩) (hs10_7 ⟨n + 1, h⟩) (fun hc => hB ((hcond10_0 ⟨n + 1, h⟩).mp hc)) (iblk10 V c 0 ⟨n + 1, h⟩) (iblk10 V c 1 ⟨n + 1, h⟩) (iblk10 V c 2 ⟨n + 1, h⟩) (iblk10 V c 3 ⟨n + 1, h⟩) (iblk10 V c 4 ⟨n + 1, h⟩) _ _)
      (pieceB10_7 c (grid10.coords ⟨n + 1, h⟩) (ms10_0 ⟨n + 1, h⟩) (hs10_0 ⟨n + 1, h⟩) (ms10_1 ⟨n + 1, h⟩) (hs10_1 ⟨n + 1, h⟩) (ms10_2 ⟨n + 1, h⟩) (hs10_2 ⟨n + 1, h⟩) (ms10_3 ⟨n + 1, h⟩) (hs10_3 ⟨n + 1, h⟩) (ms10_4 ⟨n + 1, h⟩) (hs10_4 ⟨n + 1, h⟩) (ms10_5 ⟨n + 1, h⟩) (hs10_5 ⟨n + 1, h⟩) (ms10_6 ⟨n + 1, h⟩) (hs10_6 ⟨n + 1, h⟩) (ms10_7 ⟨n + 1, h⟩) (hs10_7 ⟨n + 1, h⟩) (fun hc => hB ((hcond10_0 ⟨n + 1, h⟩).mp hc)) (iblk10 V c 0 ⟨n + 1, h⟩) (iblk10 V c 1 ⟨n + 1, h⟩) (iblk10 V c 2 ⟨n + 1, h⟩) (iblk10 V c 3 ⟨n + 1, h⟩) (iblk10 V c 4 ⟨n + 1, h⟩) _ _)

end Pieces

/-! # Region 10: the payloads at an entry, over the extended reals -/

/-- The transform's block at row `p`, column `q`. The narrowings to the short float format are the identity on
    extended reals; each product into the zero block is the sum over the 128 columns; the bias row is stretched over
    the rows. -/
theorem pay10_4_apply (x0 x1 : Vec Ideal S5000x128 .f32) (x2 x3 : Vec Ideal S128x128 .f32) (x4 : Vec Ideal S1x128 .f32) (p : Fin 5000) (q : Fin 128) :
    k10_pay4 x0 x1 x2 x3 x4 (ix2 p q)
      = (∑ k : Fin 128, x0 (ix2 p k) * x2 (ix2 k q) + ∑ k : Fin 128, x1 (ix2 p k) * x3 (ix2 k q)) + x4 (ix2 (0 : Fin 1) q) := by
  unfold k10_pay4
  rw [addf_apply, addf_apply, matmul_zero_apply dot_S5000x128_S128x128_S5000x128_1_0_0_1_n_n rfl,
    matmul_zero_apply dot_S5000x128_S128x128_S5000x128_1_0_0_1_n_n rfl, broadcast_row_apply _ _ (by decide)]
  simp only [shapeCast_self]
  rfl

/-- The sum accumulator's update: what it held plus the block's column sum. -/
theorem pay10_5_apply (x0 x1 : Vec Ideal S5000x128 .f32) (x2 x3 : Vec Ideal S128x128 .f32) (x4 : Vec Ideal S1x128 .f32) (v : Vec Ideal S1x128 .f32) (q : Fin 128) :
    k10_pay5 x0 x1 x2 x3 x4 v (ix2 (0 : Fin 1) q) = v (ix2 (0 : Fin 1) q) + ∑ p : Fin 5000, k10_pay4 x0 x1 x2 x3 x4 (ix2 p q) := by
  unfold k10_pay5
  rw [addf_apply, shapeCast_self]
  exact congrArg (v (ix2 (0 : Fin 1) q) + ·) ((rowcast_apply _ q).trans (colsum_apply _ _ _ q))

/-- The sum-of-squares accumulator's update: what it held plus the column sum of the block's squares. -/
theorem pay10_1_apply (x0 x1 : Vec Ideal S5000x128 .f32) (x2 x3 : Vec Ideal S128x128 .f32) (x4 : Vec Ideal S1x128 .f32) (v : Vec Ideal S1x128 .f32) (q : Fin 128) :
    k10_pay1 (k10_pay6 v) (k10_pay7 x0 x1 x2 x3 x4) (ix2 (0 : Fin 1) q)
      = v (ix2 (0 : Fin 1) q) + ∑ p : Fin 5000, k10_pay4 x0 x1 x2 x3 x4 (ix2 p q) * k10_pay4 x0 x1 x2 x3 x4 (ix2 p q) := by
  unfold k10_pay1 k10_pay6 k10_pay7
  rw [addf_apply, shapeCast_self]
  exact congrArg (v (ix2 (0 : Fin 1) q) + ·) ((rowcast_apply _ q).trans (colsum_apply _ _ _ q))

/-- The zero rows the first point stores. -/
theorem pay10_2_apply (j : S1x128.Idx) : k10_pay2 (F := Ideal) j = 0 := by
  unfold k10_pay2
  rw [broadcast_apply]
  exact Ideal.ofBits_zero_f32
theorem pay10_3_apply (j : S1x128.Idx) : k10_pay3 (F := Ideal) j = 0 := by
  unfold k10_pay3
  rw [broadcast_apply]
  exact Ideal.ofBits_zero_f32

/-! # Region 10: from blocks to arrays -/

section Arrays
-- what the TensorCore's buffers hold, as extended reals, when the region is entered
variable (V : (c : Dev nD) → (b : Ref sig .tc) → Buf (Elt Ideal) ((c : Thread nD τ).loc b))

/-- The block indices at every grid point: the two row-blocked inputs and the first output are at block `t` at point
    `t`; every other block index is 0. Decided over the ten points. -/
theorem idx_facts10 : ∀ t : Fin cfg10.N,
    win10_0.index t (0 : Fin 2) = t.val ∧ win10_0.index t (1 : Fin 2) = 0
    ∧ win10_1.index t (0 : Fin 2) = t.val ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0
    ∧ win10_5.index t (0 : Fin 2) = t.val ∧ win10_5.index t (1 : Fin 2) = 0
    ∧ win10_6.index t (0 : Fin 2) = 0 ∧ win10_6.index t (1 : Fin 2) = 0
    ∧ win10_7.index t (0 : Fin 2) = 0 ∧ win10_7.index t (1 : Fin 2) = 0 :=
  (by decide +kernel : ∀ t : Fin grid10.N, _)

/-- Point `t` as one of the ten tiles. -/
def tileOf10 (t : Fin cfg10.N) : Fin 10 := ⟨t.val, lt_of_lt_of_eq t.isLt N_10⟩

set_option maxHeartbeats 1000000 in
/-- Point `t`'s block of the transform, at row `p` and column `q`, is the whole-array transform of the arrays the
    region finds at row `p` of tile `t`. -/
theorem blk10_eq (c : Dev nD) (t : Fin cfg10.N) (p : Fin 5000) (q : Fin 128) :
    k10_pay4 (iblk10 V c 0 t) (iblk10 V c 1 t) (iblk10 V c 2 t) (iblk10 V c 3 t) (iblk10 V c 4 t) (ix2 p q) = (ltOut (V c main_v189) (V c main_v173_0) (V c main_v191) (V c main_v193) (V c main_v196)) (ix2 (tileRow (tileOf10 t) p) q) := by
  obtain ⟨e00, e01, e10, e11, e20, e21, e30, e31, e40, e41, e50, e51, e60, e61, e70, e71⟩ := idx_facts10 t
  rw [pay10_4_apply, ltOut_ix2]
  have h0 : ∀ k : Fin 128, ((cfg10.win 0).blk t).view.emb (ix2 p k) = ix2 (tileRow (tileOf10 t) p) k := by
    intro k; funext a; apply Fin.ext
    match a with
    | ⟨0, _⟩ => show win10_0.index t (0 : Fin 2) * 5000 + 1 * p.val = p.val + 5000 * t.val; omega
    | ⟨1, _⟩ => show win10_0.index t (1 : Fin 2) * 128 + 1 * k.val = k.val; omega
  have h1 : ∀ k : Fin 128, ((cfg10.win 1).blk t).view.emb (ix2 p k) = ix2 (tileRow (tileOf10 t) p) k := by
    intro k; funext a; apply Fin.ext
    match a with
    | ⟨0, _⟩ => show win10_1.index t (0 : Fin 2) * 5000 + 1 * p.val = p.val + 5000 * t.val; omega
    | ⟨1, _⟩ => show win10_1.index t (1 : Fin 2) * 128 + 1 * k.val = k.val; omega
  have h2 : ∀ k : Fin 128, ((cfg10.win 2).blk t).view.emb (ix2 k q) = ix2 k q := by
    intro k; funext a; apply Fin.ext
    match a with
    | ⟨0, _⟩ => show win10_2.index t (0 : Fin 2) * 128 + 1 * k.val = k.val; omega
    | ⟨1, _⟩ => show win10_2.index t (1 : Fin 2) * 128 + 1 * q.val = q.val; omega
  have h3 : ∀ k : Fin 128, ((cfg10.win 3).blk t).view.emb (ix2 k q) = ix2 k q := by
    intro k; funext a; apply Fin.ext
    match a with
    | ⟨0, _⟩ => show win10_3.index t (0 : Fin 2) * 128 + 1 * k.val = k.val; omega
    | ⟨1, _⟩ => show win10_3.index t (1 : Fin 2) * 128 + 1 * q.val = q.val; omega
  have h4 : ((cfg10.win 4).blk t).view.emb (ix2 (0 : Fin 1) q) = ix2 (0 : Fin 1) q := by
    funext a; apply Fin.ext
    match a with
    | ⟨0, _⟩ => show win10_4.index t (0 : Fin 2) * 1 + 1 * 0 = 0; omega
    | ⟨1, _⟩ => show win10_4.index t (1 : Fin 2) * 128 + 1 * q.val = q.val; omega
  have hx0 : ∀ k : Fin 128, iblk10 V c 0 t (ix2 p k) = V c main_v189 (ix2 (tileRow (tileOf10 t) p) k) :=
    fun k => congrArg (V c main_v189) (h0 k)
  have hx1 : ∀ k : Fin 128, iblk10 V c 1 t (ix2 p k) = V c main_v173_0 (ix2 (tileRow (tileOf10 t) p) k) :=
    fun k => congrArg (V c main_v173_0) (h1 k)
  have hx2 : ∀ k : Fin 128, iblk10 V c 2 t (ix2 k q) = V c main_v191 (ix2 k q) :=
    fun k => congrArg (V c main_v191) (h2 k)
  have hx3 : ∀ k : Fin 128, iblk10 V c 3 t (ix2 k q) = V c main_v193 (ix2 k q) :=
    fun k => congrArg (V c main_v193) (h3 k)
  have hx4 : iblk10 V c 4 t (ix2 (0 : Fin 1) q) = V c main_v196 (ix2 (0 : Fin 1) q) :=
    congrArg (V c main_v196) h4
  rw [hx4]
  exact congrArg (· + _) (congrArg₂ (· + ·) (Finset.sum_congr rfl fun k _ => by rw [hx0 k, hx2 k])
    (Finset.sum_congr rfl fun k _ => by rw [hx1 k, hx3 k]))

/-- The sum accumulator after position `n`, at column `q`: the column sums of the transform over the first `n + 1` tiles. -/
theorem acc10_sum (c : Dev nD) (q : Fin 128) : ∀ (n : ℕ) (h : n < cfg10.N),
    (acc10 V c n h).1 (ix2 (0 : Fin 1) q) = ∑ t ∈ Finset.range (n + 1), tileSum (fun r => (ltOut (V c main_v189) (V c main_v173_0) (V c main_v191) (V c main_v193) (V c main_v196)) (ix2 r q)) t
  | 0, h => by
    have hN : cfg10.N = 10 := N_10
    show k10_pay5 (iblk10 V c 0 ⟨0, h⟩) (iblk10 V c 1 ⟨0, h⟩) (iblk10 V c 2 ⟨0, h⟩) (iblk10 V c 3 ⟨0, h⟩) (iblk10 V c 4 ⟨0, h⟩) (k10_pay2 (F := Ideal)) (ix2 (0 : Fin 1) q) = _
    rw [pay10_5_apply, pay10_2_apply, zero_add, Finset.sum_range_one, tileSum_of_lt _ 0 (by omega)]
    exact Finset.sum_congr rfl fun p _ => blk10_eq V c ⟨0, h⟩ p q
  | n + 1, h => by
    have hN : cfg10.N = 10 := N_10
    show k10_pay5 (iblk10 V c 0 ⟨n + 1, h⟩) (iblk10 V c 1 ⟨n + 1, h⟩) (iblk10 V c 2 ⟨n + 1, h⟩) (iblk10 V c 3 ⟨n + 1, h⟩) (iblk10 V c 4 ⟨n + 1, h⟩) (acc10 V c n _).1 (ix2 (0 : Fin 1) q) = _
    rw [pay10_5_apply, acc10_sum c q n, Finset.sum_range_succ _ (n + 1), tileSum_of_lt _ (n + 1) (by omega)]
    exact congrArg (_ + ·) (Finset.sum_congr rfl fun p _ => blk10_eq V c ⟨n + 1, h⟩ p q)

/-- The sum-of-squares accumulator after position `n`, at column `q`. -/
theorem acc10_sumsq (c : Dev nD) (q : Fin 128) : ∀ (n : ℕ) (h : n < cfg10.N),
    (acc10 V c n h).2 (ix2 (0 : Fin 1) q)
      = ∑ t ∈ Finset.range (n + 1), tileSum (fun r => (ltOut (V c main_v189) (V c main_v173_0) (V c main_v191) (V c main_v193) (V c main_v196)) (ix2 r q) * (ltOut (V c main_v189) (V c main_v173_0) (V c main_v191) (V c main_v193) (V c main_v196)) (ix2 r q)) t
  | 0, h => by
    have hN : cfg10.N = 10 := N_10
    show k10_pay1 (k10_pay6 (k10_pay3 (F := Ideal))) (k10_pay7 (iblk10 V c 0 ⟨0, h⟩) (iblk10 V c 1 ⟨0, h⟩) (iblk10 V c 2 ⟨0, h⟩) (iblk10 V c 3 ⟨0, h⟩) (iblk10 V c 4 ⟨0, h⟩)) (ix2 (0 : Fin 1) q) = _
    rw [pay10_1_apply, pay10_3_apply, zero_add, Finset.sum_range_one, tileSum_of_lt _ 0 (by omega)]
    exact Finset.sum_congr rfl fun p _ => by rw [blk10_eq V c ⟨0, h⟩ p q]; rfl
  | n + 1, h => by
    have hN : cfg10.N = 10 := N_10
    show k10_pay1 (k10_pay6 (acc10 V c n _).2) (k10_pay7 (iblk10 V c 0 ⟨n + 1, h⟩) (iblk10 V c 1 ⟨n + 1, h⟩) (iblk10 V c 2 ⟨n + 1, h⟩) (iblk10 V c 3 ⟨n + 1, h⟩) (iblk10 V c 4 ⟨n + 1, h⟩)) (ix2 (0 : Fin 1) q) = _
    rw [pay10_1_apply, acc10_sumsq c q n, Finset.sum_range_succ _ (n + 1), tileSum_of_lt _ (n + 1) (by omega)]
    exact congrArg (_ + ·) (Finset.sum_congr rfl fun p _ => by rw [blk10_eq V c ⟨n + 1, h⟩ p q]; rfl)

set_option maxHeartbeats 1000000 in
/-- What point `t` writes back of the first output is block `t` of the whole-array transform. -/
theorem flushed10_5_eq (c : Dev nD) (t : Fin cfg10.N) :
    (dat10 (F := Ideal) V c).flushed 5 t = ((cfg10.win 5).blk t).view.read (Elt Ideal) (ltOut (V c main_v189) (V c main_v173_0) (V c main_v191) (V c main_v193) (V c main_v196)) := by
  show (cfg10.win 5).cut (grid10.coords t) ((dat10 V c).after 5 t) = _
  rw [after10_5, outsAt10_eq]
  obtain ⟨e00, e01, e10, e11, e20, e21, e30, e31, e40, e41, e50, e51, e60, e61, e70, e71⟩ := idx_facts10 t
  funext j
  obtain ⟨p, q, rfl⟩ : ∃ (p : Fin 5000) (q : Fin 128), j = ix2 p q := ⟨j 0, j 1, eq_ix2 j⟩
  show k10_pay4 (iblk10 V c 0 t) (iblk10 V c 1 t) (iblk10 V c 2 t) (iblk10 V c 3 t) (iblk10 V c 4 t) (ix2 p q) = (ltOut (V c main_v189) (V c main_v173_0) (V c main_v191) (V c main_v193) (V c main_v196)) (((cfg10.win 5).blk t).view.emb (ix2 p q))
  rw [blk10_eq V c t p q]
  refine congrArg (ltOut (V c main_v189) (V c main_v173_0) (V c main_v191) (V c main_v193) (V c main_v196)) (funext fun a => Fin.ext ?_)
  match a with
  | ⟨0, _⟩ => show p.val + 5000 * t.val = win10_5.index t (0 : Fin 2) * 5000 + 1 * p.val; omega
  | ⟨1, _⟩ => show q.val = win10_5.index t (1 : Fin 2) * 128 + 1 * q.val; omega

/-- An index of the first output array lies in point `t`'s block when each coordinate lies in the block's range. -/
theorem mem_blk10_5 (t : Fin cfg10.N) (i : S50000x128.Idx) :
    i ∈ ((cfg10.win 5).blk t).view.set ↔ ∀ a : Fin 2, win10_5.index t a * S5000x128.size a ≤ (i a).val ∧ (i a).val < win10_5.index t a * S5000x128.size a + S5000x128.size a := by
  show i ∈ ((View.whole main_v197_0).slice (win10_5.rect t)).set ↔ _
  rw [View.set_slice_whole, Rect.mem_set_unit]
  exact Iff.rfl

/-- Every index of the first output array lies in some point's block: row `r` in the block of point `r / 5000`. -/
theorem cover10_5 (i : S50000x128.Idx) :
    ∃ t : Fin cfg10.N, (cfg10.win 5).flush t = true ∧ i ∈ ((cfg10.win 5).blk t).view.set := by
  have hi0 : (i 0).val < 50000 := (i 0).isLt
  have hi1 : (i 1).val < 128 := (i 1).isLt
  have hN : cfg10.N = 10 := N_10
  have ht : (i 0).val / 5000 < cfg10.N := by rw [hN]; omega
  obtain ⟨e00, e01, e10, e11, e20, e21, e30, e31, e40, e41, e50, e51, e60, e61, e70, e71⟩ := idx_facts10 ⟨(i 0).val / 5000, ht⟩
  refine ⟨⟨(i 0).val / 5000, ht⟩, flush10_5 _, ?_⟩
  rw [mem_blk10_5]
  intro a
  match a with
  | ⟨0, _⟩ =>
    show win10_5.index ⟨(i 0).val / 5000, ht⟩ (0 : Fin 2) * 5000 ≤ (i 0).val
      ∧ (i 0).val < win10_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win10_5.index ⟨(i 0).val / 5000, ht⟩ (1 : Fin 2) * 128 ≤ (i 1).val
      ∧ (i 1).val < win10_5.index ⟨(i 0).val / 5000, ht⟩ (1 : Fin 2) * 128 + 128
    rw [e51]; omega

/-- The first output array after the region is the transform of the five arrays the region read. -/
theorem value10_o (V : (c : Dev nD) → (b : Ref sig .tc) → Buf (Elt Ideal) ((c : Thread nD τ).loc b)) (c : Dev nD) :
    (dat10 (F := Ideal) V c).arrAt 5 cfg10.N = ltOut (V c main_v189) (V c main_v173_0) (V c main_v191) (V c main_v193) (V c main_v196) :=
  (dat10 (F := Ideal) V c).arrAt_eq_of_cover 5 _ (fun t _ => flushed10_5_eq V c t) cover10_5

set_option maxHeartbeats 1000000 in
/-- The one write-back of output 6, at the last point, writes the column sums of the whole-array transform. -/
theorem flushed10_6_eq (c : Dev nD) (t : Fin cfg10.N) (hf : (cfg10.win 6).flush t = true) :
    (dat10 (F := Ideal) V c).flushed 6 t = ((cfg10.win 6).blk t).view.read (Elt Ideal) (ltSum (ltOut (V c main_v189) (V c main_v173_0) (V c main_v191) (V c main_v193) (V c main_v196))) := by
  have hN : cfg10.N = 10 := N_10
  have h9 : t.val = 9 := by have := (flush10_6 t).mp hf; have := t.isLt; omega
  obtain ⟨e00, e01, e10, e11, e20, e21, e30, e31, e40, e41, e50, e51, e60, e61, e70, e71⟩ := idx_facts10 t
  have hacc : (acc10 V c t.val t.isLt).1 = ltSum (ltOut (V c main_v189) (V c main_v173_0) (V c main_v191) (V c main_v193) (V c main_v196)) := by
    funext j
    obtain ⟨p, q, rfl⟩ : ∃ (p : Fin 1) (q : Fin 128), j = ix2 p q := ⟨j 0, j 1, eq_ix2 j⟩
    obtain rfl : p = 0 := Subsingleton.elim _ _
    rw [acc10_sum V c q t.val t.isLt, h9]
    exact sum_range_tiles (fun r => (ltOut (V c main_v189) (V c main_v173_0) (V c main_v191) (V c main_v193) (V c main_v196)) (ix2 r q))
  show (cfg10.win 6).cut (grid10.coords t) ((dat10 V c).after 6 t) = _
  rw [after10_6, outsAt10_eq]
  (try dsimp only)
  rw [hacc]
  have hz' : (fun a => win10_6.index t a * main_v197_1.ty.shape.size a) = fun _ => 0 := funext fun a => by
    match a with
    | ⟨0, _⟩ => show win10_6.index t (0 : Fin 2) * 1 = 0; omega
    | ⟨1, _⟩ => show win10_6.index t (1 : Fin 2) * 128 = 0; omega
  exact (Memref.read_access_unit_zero (Elt Ideal) main_v197_1 hz' (fun a => by rw [congrFun hz' a]; simp) (ltSum (ltOut (V c main_v189) (V c main_v173_0) (V c main_v191) (V c main_v193) (V c main_v196)))).symm

/-- An index of output 6's array lies in point `t`'s block when each coordinate lies in the block's range. -/
theorem mem_blk10_6 (t : Fin cfg10.N) (i : S1x128.Idx) :
    i ∈ ((cfg10.win 6).blk t).view.set ↔ ∀ a : Fin 2, win10_6.index t a * S1x128.size a ≤ (i a).val ∧ (i a).val < win10_6.index t a * S1x128.size a + S1x128.size a := by
  show i ∈ ((View.whole main_v197_1).slice (win10_6.rect t)).set ↔ _
  rw [View.set_slice_whole, Rect.mem_set_unit]
  exact Iff.rfl

/-- The last point's block is the whole of output 6's array. -/
theorem cover10_6 (i : S1x128.Idx) :
    ∃ t : Fin cfg10.N, (cfg10.win 6).flush t = true ∧ i ∈ ((cfg10.win 6).blk t).view.set := by
  have hi0 : (i 0).val < 1 := (i 0).isLt
  have hi1 : (i 1).val < 128 := (i 1).isLt
  obtain ⟨e00, e01, e10, e11, e20, e21, e30, e31, e40, e41, e50, e51, e60, e61, e70, e71⟩ := idx_facts10 t10_9
  refine ⟨t10_9, (flush10_6 t10_9).mpr rfl, ?_⟩
  rw [mem_blk10_6]
  intro a
  match a with
  | ⟨0, _⟩ =>
    show win10_6.index t10_9 (0 : Fin 2) * 1 ≤ (i 0).val ∧ (i 0).val < win10_6.index t10_9 (0 : Fin 2) * 1 + 1
    omega
  | ⟨1, _⟩ =>
    show win10_6.index t10_9 (1 : Fin 2) * 128 ≤ (i 1).val ∧ (i 1).val < win10_6.index t10_9 (1 : Fin 2) * 128 + 128
    omega

/-- Output 6's array after the region: the column sums of the transform of the five arrays the region read. -/
theorem value10_sum (V : (c : Dev nD) → (b : Ref sig .tc) → Buf (Elt Ideal) ((c : Thread nD τ).loc b)) (c : Dev nD) :
    (dat10 (F := Ideal) V c).arrAt 6 cfg10.N = ltSum (ltOut (V c main_v189) (V c main_v173_0) (V c main_v191) (V c main_v193) (V c main_v196)) :=
  (dat10 (F := Ideal) V c).arrAt_eq_of_cover 6 _ (flushed10_6_eq V c) cover10_6

set_option maxHeartbeats 1000000 in
/-- The one write-back of output 7, at the last point, writes the column sums of squares of the whole-array transform. -/
theorem flushed10_7_eq (c : Dev nD) (t : Fin cfg10.N) (hf : (cfg10.win 7).flush t = true) :
    (dat10 (F := Ideal) V c).flushed 7 t = ((cfg10.win 7).blk t).view.read (Elt Ideal) (ltSumSq (ltOut (V c main_v189) (V c main_v173_0) (V c main_v191) (V c main_v193) (V c main_v196))) := by
  have hN : cfg10.N = 10 := N_10
  have h9 : t.val = 9 := by have := (flush10_7 t).mp hf; have := t.isLt; omega
  obtain ⟨e00, e01, e10, e11, e20, e21, e30, e31, e40, e41, e50, e51, e60, e61, e70, e71⟩ := idx_facts10 t
  have hacc : (acc10 V c t.val t.isLt).2 = ltSumSq (ltOut (V c main_v189) (V c main_v173_0) (V c main_v191) (V c main_v193) (V c main_v196)) := by
    funext j
    obtain ⟨p, q, rfl⟩ : ∃ (p : Fin 1) (q : Fin 128), j = ix2 p q := ⟨j 0, j 1, eq_ix2 j⟩
    obtain rfl : p = 0 := Subsingleton.elim _ _
    rw [acc10_sumsq V c q t.val t.isLt, h9]
    exact sum_range_tiles (fun r => (ltOut (V c main_v189) (V c main_v173_0) (V c main_v191) (V c main_v193) (V c main_v196)) (ix2 r q) * (ltOut (V c main_v189) (V c main_v173_0) (V c main_v191) (V c main_v193) (V c main_v196)) (ix2 r q))
  show (cfg10.win 7).cut (grid10.coords t) ((dat10 V c).after 7 t) = _
  rw [after10_7, outsAt10_eq]
  (try dsimp only)
  rw [hacc]
  have hz' : (fun a => win10_7.index t a * main_v197_2.ty.shape.size a) = fun _ => 0 := funext fun a => by
    match a with
    | ⟨0, _⟩ => show win10_7.index t (0 : Fin 2) * 1 = 0; omega
    | ⟨1, _⟩ => show win10_7.index t (1 : Fin 2) * 128 = 0; omega
  exact (Memref.read_access_unit_zero (Elt Ideal) main_v197_2 hz' (fun a => by rw [congrFun hz' a]; simp) (ltSumSq (ltOut (V c main_v189) (V c main_v173_0) (V c main_v191) (V c main_v193) (V c main_v196)))).symm

/-- An index of output 7's array lies in point `t`'s block when each coordinate lies in the block's range. -/
theorem mem_blk10_7 (t : Fin cfg10.N) (i : S1x128.Idx) :
    i ∈ ((cfg10.win 7).blk t).view.set ↔ ∀ a : Fin 2, win10_7.index t a * S1x128.size a ≤ (i a).val ∧ (i a).val < win10_7.index t a * S1x128.size a + S1x128.size a := by
  show i ∈ ((View.whole main_v197_2).slice (win10_7.rect t)).set ↔ _
  rw [View.set_slice_whole, Rect.mem_set_unit]
  exact Iff.rfl

/-- The last point's block is the whole of output 7's array. -/
theorem cover10_7 (i : S1x128.Idx) :
    ∃ t : Fin cfg10.N, (cfg10.win 7).flush t = true ∧ i ∈ ((cfg10.win 7).blk t).view.set := by
  have hi0 : (i 0).val < 1 := (i 0).isLt
  have hi1 : (i 1).val < 128 := (i 1).isLt
  obtain ⟨e00, e01, e10, e11, e20, e21, e30, e31, e40, e41, e50, e51, e60, e61, e70, e71⟩ := idx_facts10 t10_9
  refine ⟨t10_9, (flush10_7 t10_9).mpr rfl, ?_⟩
  rw [mem_blk10_7]
  intro a
  match a with
  | ⟨0, _⟩ =>
    show win10_7.index t10_9 (0 : Fin 2) * 1 ≤ (i 0).val ∧ (i 0).val < win10_7.index t10_9 (0 : Fin 2) * 1 + 1
    omega
  | ⟨1, _⟩ =>
    show win10_7.index t10_9 (1 : Fin 2) * 128 ≤ (i 1).val ∧ (i 1).val < win10_7.index t10_9 (1 : Fin 2) * 128 + 128
    omega

/-- Output 7's array after the region: the column sums of squares of the transform of the five arrays the region read. -/
theorem value10_sumsq (V : (c : Dev nD) → (b : Ref sig .tc) → Buf (Elt Ideal) ((c : Thread nD τ).loc b)) (c : Dev nD) :
    (dat10 (F := Ideal) V c).arrAt 7 cfg10.N = ltSumSq (ltOut (V c main_v189) (V c main_v173_0) (V c main_v191) (V c main_v193) (V c main_v196)) :=
  (dat10 (F := Ideal) V c).arrAt_eq_of_cover 7 _ (flushed10_7_eq V c) cover10_7

end Arrays

end Cert.KernelIdeal.Reg

end
-- ==== Proof.KI.Val11.lean ====
import proofs.«144276_j65051574665788_2_alg».proof.Proof.KI.Reg11
import proofs.«144276_j65051574665788_2_alg».proof.Proof.KI.LibBnPool
import Idealize.ShloMosaic.Lib.Pipeline.Value
import Idealize.ShloMosaic.PureOps.Ideal.Laws
import Idealize.ShloMosaic.Lib.ValueIdx
import Idealize.ShloMosaic.Lib.Tactic

/-! # Region 11 read as two arrays

After the region its first output array is the normalised array of the region's entry arrays, entry (n, j) being
γ[j] · (h[n, j] − μ[j]) · rsqrt(σ²[j] + ε) + β[j], and its second output array is the pooled array: entry (g, j) the
sum of the normalised rows whose graph number is the word of g.

The ten grid points write the ten tiles of 5000 rows of the first array, point `t` tile `t`. The second array is one block,
revisited at every point: zeroed and added tile 0's share at the first point, added tile `t`'s share at point `t`, written
back after the last. So what its buffer holds after point `n` is the running sum of the shares of tiles 0 … n, by induction
on the point, and after the tenth tile that is the sum over all rows. -/

set_option maxRecDepth 16384

noncomputable section

namespace Cert.KernelIdeal.Reg

open Cert.KernelIdeal Cert.KernelIdeal.Gen Cert.LibBlockOps
open Idealize.ShloMosaic Idealize.ShloMosaic.TcCoe Idealize.ShloMosaic.Tactic Idealize.ShloMosaic.ValueIdx Idealize.SL.Sem
open Idealize.ShloMosaic.Pipeline (Dat)

/-! ## What each case's stores leave, as payloads of the blocks -/

section Pieces
variable {F : FTy → Type} [FloatOps F]

/-- Case A leaves in output 6 its one covering store's payload: the normalised block of the input blocks. -/
theorem out11_A_6_eq (c : Dev nD) (i : grid11.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : cond11_0 i)
    (x0 : Vec F S5000x128 .f32) (x1 : Vec F S1x128 .f32) (x2 : Vec F S1x128 .f32) (x3 : Vec F S1x128 .f32) (x4 : Vec F S1x128 .f32) (x5 : Vec F S5000x1 .i32) :
    out11_A_6 c i arg1 harg1 arg2 harg2 arg3 harg3 arg4 harg4 arg5 harg5 arg6 harg6 arg7 harg7 arg8 harg8 hc0 x0 x1 x2 x3 x4 x5 = k11_pay3 x2 x3 x0 x1 x4 := by
  unfold out11_A_6
  rw [View.read_writes_eq_canon _ _ _ (cover11_A_6 c i arg1 harg1 arg2 harg2 arg3 harg3 arg4 harg4 arg5 harg5 arg6 harg6 arg7 harg7 arg8 harg8 hc0 x0 x1 x2 x3 x4 x5)]
  unfold kernelRun11_A
  dsimp only
  try sl_unfold_words
  rw [View.canon_unit_zero offsets_zero2]
  simp only [View.readAt_eq_ld, harg1.read_unread, harg2.read_unread, harg3.read_unread, harg4.read_unread, harg5.read_unread, harg6.read_unread, harg8.read_unread, View.ld_unit_zero (S := S5000x128) offsets_zero2, View.ld_unit_zero (S := S1x128) offsets_zero2, View.ld_unit_zero (S := S5000x1) offsets_zero2, View.ld_unit_zero (S := S128x128) offsets_zero2]

/-- Case B leaves the same there. -/
theorem out11_B_6_eq (c : Dev nD) (i : grid11.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : ¬cond11_0 i)
    (x0 : Vec F S5000x128 .f32) (x1 : Vec F S1x128 .f32) (x2 : Vec F S1x128 .f32) (x3 : Vec F S1x128 .f32) (x4 : Vec F S1x128 .f32) (x5 : Vec F S5000x1 .i32) (xo7 : Vec F S128x128 .f32) :
    out11_B_6 c i arg1 harg1 arg2 harg2 arg3 harg3 arg4 harg4 arg5 harg5 arg6 harg6 arg7 harg7 arg8 harg8 hc0 x0 x1 x2 x3 x4 x5 xo7 = k11_pay3 x2 x3 x0 x1 x4 := by
  unfold out11_B_6
  rw [View.read_writes_eq_canon _ _ _ (cover11_B_6 c i arg1 harg1 arg2 harg2 arg3 harg3 arg4 harg4 arg5 harg5 arg6 harg6 arg7 harg7 arg8 harg8 hc0 x0 x1 x2 x3 x4 x5 xo7)]
  unfold kernelRun11_B
  dsimp only
  try sl_unfold_words
  rw [View.canon_unit_zero offsets_zero2]
  simp only [View.readAt_eq_ld, harg1.read_unread, harg2.read_unread, harg3.read_unread, harg4.read_unread, harg5.read_unread, harg6.read_unread, harg8.read_unread, View.ld_unit_zero (S := S5000x128) offsets_zero2, View.ld_unit_zero (S := S1x128) offsets_zero2, View.ld_unit_zero (S := S5000x1) offsets_zero2, View.ld_unit_zero (S := S128x128) offsets_zero2]

/-- Case A leaves in output 7 the tile's share added to the zero block it has just stored and read back. -/
theorem out11_A_7_eq (c : Dev nD) (i : grid11.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : cond11_0 i)
    (x0 : Vec F S5000x128 .f32) (x1 : Vec F S1x128 .f32) (x2 : Vec F S1x128 .f32) (x3 : Vec F S1x128 .f32) (x4 : Vec F S1x128 .f32) (x5 : Vec F S5000x1 .i32) :
    out11_A_7 c i arg1 harg1 arg2 harg2 arg3 harg3 arg4 harg4 arg5 harg5 arg6 harg6 arg7 harg7 arg8 harg8 hc0 x0 x1 x2 x3 x4 x5 = k11_pay1 (k11_pay4 x2 x3 x0 x1 x4 x5) (k11_pay5 (k11_pay2 (F := F))) := by
  unfold out11_A_7
  rw [View.read_writes_eq_canon _ _ _ (cover11_A_7 c i arg1 harg1 arg2 harg2 arg3 harg3 arg4 harg4 arg5 harg5 arg6 harg6 arg7 harg7 arg8 harg8 hc0 x0 x1 x2 x3 x4 x5)]
  unfold kernelRun11_A
  dsimp only
  sl_unfold_words
  rw [View.canon_cons_unit_zero (S := S128x128) offsets_zero2, View.readCov_unit_zero (S := S128x128) _ offsets_zero2]
  simp only [View.readAt_eq_ld, harg1.read_unread, harg2.read_unread, harg3.read_unread, harg4.read_unread, harg5.read_unread, harg6.read_unread, harg8.read_unread, View.ld_unit_zero (S := S5000x128) offsets_zero2, View.ld_unit_zero (S := S1x128) offsets_zero2, View.ld_unit_zero (S := S5000x1) offsets_zero2, View.ld_unit_zero (S := S128x128) offsets_zero2]

/-- Case B leaves there the tile's share added to what the buffer held. -/
theorem out11_B_7_eq (c : Dev nD) (i : grid11.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x1 .i32) (harg6 : arg6.IsWhole) (arg7 : Memref sig .tc .vmem S5000x128 .f32) (harg7 : arg7.IsWhole) (arg8 : Memref sig .tc .vmem S128x128 .f32) (harg8 : arg8.IsWhole) (hc0 : ¬cond11_0 i)
    (x0 : Vec F S5000x128 .f32) (x1 : Vec F S1x128 .f32) (x2 : Vec F S1x128 .f32) (x3 : Vec F S1x128 .f32) (x4 : Vec F S1x128 .f32) (x5 : Vec F S5000x1 .i32) (xo7 : Vec F S128x128 .f32) :
    out11_B_7 c i arg1 harg1 arg2 harg2 arg3 harg3 arg4 harg4 arg5 harg5 arg6 harg6 arg7 harg7 arg8 harg8 hc0 x0 x1 x2 x3 x4 x5 xo7 = k11_pay1 (k11_pay4 x2 x3 x0 x1 x4 x5) (k11_pay5 xo7) := by
  unfold out11_B_7
  rw [View.read_writes_eq_canon _ _ _ (cover11_B_7 c i arg1 harg1 arg2 harg2 arg3 harg3 arg4 harg4 arg5 harg5 arg6 harg6 arg7 harg7 arg8 harg8 hc0 x0 x1 x2 x3 x4 x5 xo7)]
  unfold kernelRun11_B
  dsimp only
  sl_unfold_words
  rw [View.canon_unit_zero offsets_zero2]
  simp only [View.readAt_eq_ld, harg1.read_unread, harg2.read_unread, harg3.read_unread, harg4.read_unread, harg5.read_unread, harg6.read_unread, harg8.read_unread, View.ld_unit_zero (S := S5000x128) offsets_zero2, View.ld_unit_zero (S := S1x128) offsets_zero2, View.ld_unit_zero (S := S5000x1) offsets_zero2, View.ld_unit_zero (S := S128x128) offsets_zero2]

end Pieces

/-! ## The payloads at an entry, over the extended reals -/

/-- The normalised block at row `p`, column `q`: the four rows [1, 128] are stretched over the 5000 rows. -/
theorem bpay3_11_apply (var g : Vec Ideal S1x128 .f32) (h : Vec Ideal S5000x128 .f32) (mu b : Vec Ideal S1x128 .f32)
    (p : Fin 5000) (q : Fin 128) :
    k11_pay3 var g h mu b (ix2 p q)
      = g (ix2 (0 : Fin 1) q) * (h (ix2 p q) - mu (ix2 (0 : Fin 1) q)) * Ideal.rsqrt (var (ix2 (0 : Fin 1) q) + Ideal.ofBits .f32 0x3727C5AC#32) + b (ix2 (0 : Fin 1) q) := by
  unfold k11_pay3
  simp only [shapeCast_self]
  rw [addf_apply, mulf_apply, mulf_apply, subf_apply,
    broadcast_row_apply _ _ (by decide), broadcast_row_apply _ _ (by decide), broadcast_row_apply _ _ (by decide), broadcast_row_apply _ _ (by decide)]
  rfl

/-- A tile's share at entry (g, q): the one-hot block contracted with the normalised block along the rows. -/
theorem bpay4_11_apply (var g : Vec Ideal S1x128 .f32) (h : Vec Ideal S5000x128 .f32) (mu b : Vec Ideal S1x128 .f32)
    (bt : Vec Ideal S5000x1 .i32) (gn q : Fin 128) :
    k11_pay4 var g h mu b bt (ix2 gn q)
      = ∑ p : Fin 5000, (if bt (ix2 p (0 : Fin 1)) = BitVec.ofNat 32 gn.val then (1 : EReal) else 0) * k11_pay3 var g h mu b (ix2 p q) := by
  unfold k11_pay4
  rw [matmul_rows_zero_apply]
  refine Finset.sum_congr rfl fun p _ => ?_
  rw [onehot_blk_apply, truncf_apply]

/-- The accumulating store's payload at an entry: what the buffer held plus the share. -/
theorem bpay1_11_apply (s acc : FVec Ideal S128x128 .f32) (gn q : Fin 128) :
    k11_pay1 (F := Ideal) s acc (ix2 gn q) = acc (ix2 gn q) + s (ix2 gn q) := by
  unfold k11_pay1
  rw [addf_apply]

/-- The zero block at an entry. -/
theorem bpay2_11_apply (gn q : Fin 128) : k11_pay2 (F := Ideal) (ix2 gn q) = 0 := by
  unfold k11_pay2
  rw [broadcast_apply]
  exact Ideal.ofBits_zero_f32

/-- The read-back of the buffer, re-shaped to its own shape, is itself. -/
theorem pay5_11_eq (acc : Vec Ideal S128x128 .f32) : k11_pay5 acc = acc := by
  unfold k11_pay5
  rw [shapeCast_self]

/-! ## The blocks the windows read -/

-- what the core's buffers hold, as extended reals, when the region is entered
variable (V : (c : Dev nD) → (b : Ref sig .tc) → Buf (Elt Ideal) ((c : Thread nD τ).loc b))

/-- The block indices at every grid point: the rows `h`, the graph numbers and the first output move together, block
    `t` at point `t`; every other block index is 0. Decided over the ten points. -/
theorem idx_facts11 : ∀ t : Fin cfg11.N, win11_0.index t (0 : Fin 2) = t.val
    ∧ win11_0.index t (1 : Fin 2) = 0
    ∧ win11_1.index t (0 : Fin 2) = 0
    ∧ win11_1.index t (1 : Fin 2) = 0
    ∧ win11_2.index t (0 : Fin 2) = 0
    ∧ win11_2.index t (1 : Fin 2) = 0
    ∧ win11_3.index t (0 : Fin 2) = 0
    ∧ win11_3.index t (1 : Fin 2) = 0
    ∧ win11_4.index t (0 : Fin 2) = 0
    ∧ win11_4.index t (1 : Fin 2) = 0
    ∧ win11_5.index t (0 : Fin 2) = t.val
    ∧ win11_5.index t (1 : Fin 2) = 0
    ∧ win11_6.index t (0 : Fin 2) = t.val
    ∧ win11_6.index t (1 : Fin 2) = 0
    ∧ win11_7.index t (0 : Fin 2) = 0
    ∧ win11_7.index t (1 : Fin 2) = 0 :=
  (by decide +kernel : ∀ t : Fin grid11.N, _)

/-- Point `t` as a tile number. -/
def tile11 (t : Fin cfg11.N) : Fin 10 := ⟨t.val, lt_of_lt_of_eq t.isLt N_11⟩

/-- Window 0's block at point `t`, row `p`: row `p` of tile `t` of the array. -/
theorem blk11_h (c : Dev nD) (t : Fin cfg11.N) (p : Fin 5000) (q : Fin 128) :
    iblk11 V c 0 t (ix2 p q) = V c main_v197_0 (ix2 (tileRowG (tile11 t) p) q) := by
  obtain ⟨e00, e01, e10, e11, e20, e21, e30, e31, e40, e41, e50, e51, e60, e61, e70, e71⟩ := idx_facts11 t
  refine congrArg (V c main_v197_0) ?_
  funext a; apply Fin.ext
  match a with
  | ⟨0, _⟩ => show win11_0.index t (0 : Fin 2) * 5000 + 1 * p.val = p.val + 5000 * t.val; omega
  | ⟨1, _⟩ => show win11_0.index t (1 : Fin 2) * 128 + 1 * q.val = q.val; omega

/-- Window 1's block at point `t`, at its one row: the array's row. -/
theorem blk11_mu (c : Dev nD) (t : Fin cfg11.N) (q : Fin 128) :
    iblk11 V c 1 t (ix2 (0 : Fin 1) q) = V c main_v199 (ix2 (0 : Fin 1) q) := by
  obtain ⟨e00, e01, e10, e11, e20, e21, e30, e31, e40, e41, e50, e51, e60, e61, e70, e71⟩ := idx_facts11 t
  refine congrArg (V c main_v199) ?_
  funext a; apply Fin.ext
  match a with
  | ⟨0, _⟩ => show win11_1.index t (0 : Fin 2) * 1 + 1 * 0 = 0; omega
  | ⟨1, _⟩ => show win11_1.index t (1 : Fin 2) * 128 + 1 * q.val = q.val; omega

/-- Window 2's block at point `t`, at its one row: the array's row. -/
theorem blk11_var (c : Dev nD) (t : Fin cfg11.N) (q : Fin 128) :
    iblk11 V c 2 t (ix2 (0 : Fin 1) q) = V c main_v203 (ix2 (0 : Fin 1) q) := by
  obtain ⟨e00, e01, e10, e11, e20, e21, e30, e31, e40, e41, e50, e51, e60, e61, e70, e71⟩ := idx_facts11 t
  refine congrArg (V c main_v203) ?_
  funext a; apply Fin.ext
  match a with
  | ⟨0, _⟩ => show win11_2.index t (0 : Fin 2) * 1 + 1 * 0 = 0; omega
  | ⟨1, _⟩ => show win11_2.index t (1 : Fin 2) * 128 + 1 * q.val = q.val; omega

/-- Window 3's block at point `t`, at its one row: the array's row. -/
theorem blk11_g (c : Dev nD) (t : Fin cfg11.N) (q : Fin 128) :
    iblk11 V c 3 t (ix2 (0 : Fin 1) q) = V c main_v208 (ix2 (0 : Fin 1) q) := by
  obtain ⟨e00, e01, e10, e11, e20, e21, e30, e31, e40, e41, e50, e51, e60, e61, e70, e71⟩ := idx_facts11 t
  refine congrArg (V c main_v208) ?_
  funext a; apply Fin.ext
  match a with
  | ⟨0, _⟩ => show win11_3.index t (0 : Fin 2) * 1 + 1 * 0 = 0; omega
  | ⟨1, _⟩ => show win11_3.index t (1 : Fin 2) * 128 + 1 * q.val = q.val; omega

/-- Window 4's block at point `t`, at its one row: the array's row. -/
theorem blk11_b (c : Dev nD) (t : Fin cfg11.N) (q : Fin 128) :
    iblk11 V c 4 t (ix2 (0 : Fin 1) q) = V c main_v209 (ix2 (0 : Fin 1) q) := by
  obtain ⟨e00, e01, e10, e11, e20, e21, e30, e31, e40, e41, e50, e51, e60, e61, e70, e71⟩ := idx_facts11 t
  refine congrArg (V c main_v209) ?_
  funext a; apply Fin.ext
  match a with
  | ⟨0, _⟩ => show win11_4.index t (0 : Fin 2) * 1 + 1 * 0 = 0; omega
  | ⟨1, _⟩ => show win11_4.index t (1 : Fin 2) * 128 + 1 * q.val = q.val; omega

/-- Window 5's block at point `t`, row `p`: the graph number of row `p` of tile `t`. -/
theorem blk11_bt (c : Dev nD) (t : Fin cfg11.N) (p : Fin 5000) :
    iblk11 V c 5 t (ix2 p (0 : Fin 1)) = V c main_v25 (ix2 (tileRowG (tile11 t) p) (0 : Fin 1)) := by
  obtain ⟨e00, e01, e10, e11, e20, e21, e30, e31, e40, e41, e50, e51, e60, e61, e70, e71⟩ := idx_facts11 t
  refine congrArg (V c main_v25) ?_
  funext a; apply Fin.ext
  match a with
  | ⟨0, _⟩ => show win11_5.index t (0 : Fin 2) * 5000 + 1 * p.val = p.val + 5000 * t.val; omega
  | ⟨1, _⟩ => show win11_5.index t (1 : Fin 2) * 1 + 1 * 0 = 0; omega

/-- The normalised block of point `t`'s input blocks, at row `p`: row `p` of tile `t` of the normalised array. -/
theorem pay3_11_blk (c : Dev nD) (t : Fin cfg11.N) (p : Fin 5000) (q : Fin 128) :
    k11_pay3 (iblk11 V c 2 t) (iblk11 V c 3 t) (iblk11 V c 0 t) (iblk11 V c 1 t) (iblk11 V c 4 t) (ix2 p q)
      = bnOutLast (V c main_v197_0) (V c main_v199) (V c main_v203) (V c main_v208) (V c main_v209) (ix2 (tileRowG (tile11 t) p) q) := by
  rw [bpay3_11_apply, bnOutLast_apply, blk11_h, blk11_mu, blk11_var, blk11_g, blk11_b]

/-- Point `t`'s share of the pooled array, from its input blocks. -/
def share11 (c : Dev nD) (t : Fin cfg11.N) : Vec Ideal S128x128 .f32 :=
  k11_pay4 (iblk11 V c 2 t) (iblk11 V c 3 t) (iblk11 V c 0 t) (iblk11 V c 1 t) (iblk11 V c 4 t) (iblk11 V c 5 t)

/-- It is tile `t`'s share of the pooled array of the region's entry arrays. -/
theorem share11_apply (c : Dev nD) (t : Fin cfg11.N) (gn q : Fin 128) :
    share11 V c t (ix2 gn q) = tilePool (V c main_v25) (bnOutLast (V c main_v197_0) (V c main_v199) (V c main_v203) (V c main_v208) (V c main_v209)) (tile11 t) (ix2 gn q) := by
  unfold share11
  rw [bpay4_11_apply]
  refine Finset.sum_congr rfl fun p _ => ?_
  rw [pay3_11_blk, blk11_bt]

/-! ## What the outputs hold after each point -/

set_option maxHeartbeats 1000000 in
theorem pt11_A_fst (c : Dev nD) (t : Fin cfg11.N) (h0 : t.val % 10 = 0) :
    (pt11_A V c t h0).1 = k11_pay3 (iblk11 V c 2 t) (iblk11 V c 3 t) (iblk11 V c 0 t) (iblk11 V c 1 t) (iblk11 V c 4 t) := by
  dsimp only [pt11_A]
  exact out11_A_6_eq (F := Ideal) c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) ((hcond11_0 t).mpr h0) (iblk11 V c 0 t) (iblk11 V c 1 t) (iblk11 V c 2 t) (iblk11 V c 3 t) (iblk11 V c 4 t) (iblk11 V c 5 t)

set_option maxHeartbeats 1000000 in
theorem pt11_B_fst (c : Dev nD) (t : Fin cfg11.N) (h0 : ¬t.val % 10 = 0) (xo7 : Vec Ideal S128x128 .f32) :
    (pt11_B V c t h0 xo7).1 = k11_pay3 (iblk11 V c 2 t) (iblk11 V c 3 t) (iblk11 V c 0 t) (iblk11 V c 1 t) (iblk11 V c 4 t) := by
  dsimp only [pt11_B]
  exact out11_B_6_eq (F := Ideal) c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) (fun h => h0 ((hcond11_0 t).mp h)) (iblk11 V c 0 t) (iblk11 V c 1 t) (iblk11 V c 2 t) (iblk11 V c 3 t) (iblk11 V c 4 t) (iblk11 V c 5 t) xo7

set_option maxHeartbeats 1000000 in
theorem pt11_A_snd (c : Dev nD) (t : Fin cfg11.N) (h0 : t.val % 10 = 0) :
    (pt11_A V c t h0).2 = k11_pay1 (F := Ideal) (share11 V c t) (k11_pay5 (k11_pay2 (F := Ideal))) := by
  dsimp only [pt11_A]
  exact out11_A_7_eq (F := Ideal) c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) ((hcond11_0 t).mpr h0) (iblk11 V c 0 t) (iblk11 V c 1 t) (iblk11 V c 2 t) (iblk11 V c 3 t) (iblk11 V c 4 t) (iblk11 V c 5 t)

set_option maxHeartbeats 1000000 in
theorem pt11_B_snd (c : Dev nD) (t : Fin cfg11.N) (h0 : ¬t.val % 10 = 0) (xo7 : Vec Ideal S128x128 .f32) :
    (pt11_B V c t h0 xo7).2 = k11_pay1 (F := Ideal) (share11 V c t) (k11_pay5 xo7) := by
  dsimp only [pt11_B]
  exact out11_B_7_eq (F := Ideal) c (grid11.coords t) (ms11_0 t) (hs11_0 t) (ms11_1 t) (hs11_1 t) (ms11_2 t) (hs11_2 t) (ms11_3 t) (hs11_3 t) (ms11_4 t) (hs11_4 t) (ms11_5 t) (hs11_5 t) (ms11_6 t) (hs11_6 t) (ms11_7 t) (hs11_7 t) (fun h => h0 ((hcond11_0 t).mp h)) (iblk11 V c 0 t) (iblk11 V c 1 t) (iblk11 V c 2 t) (iblk11 V c 3 t) (iblk11 V c 4 t) (iblk11 V c 5 t) xo7

/-- After every point the first output's buffer holds the normalised block of the point's input blocks. -/
theorem outsAt11_fst (c : Dev nD) (t : Fin cfg11.N) :
    (outsAt11 V c t.val t.isLt).1 = k11_pay3 (iblk11 V c 2 t) (iblk11 V c 3 t) (iblk11 V c 0 t) (iblk11 V c 1 t) (iblk11 V c 4 t) := by
  by_cases h0 : t.val % 10 = 0
  · rw [outsAt11_A V c t h0]; exact pt11_A_fst V c t h0
  · rw [outsAt11_B V c t h0]; exact pt11_B_fst V c t h0 _

/-- After point `n` the second output's buffer holds the running sum of the shares of tiles 0 … n: by induction on the
    point; the first point starts from the zero block (0 + x = x), a later point adds to what the point before left. -/
theorem outsAt11_snd (c : Dev nD) : ∀ (n : ℕ) (h : n < cfg11.N) (gn q : Fin 128),
    (outsAt11 V c n h).2 (ix2 gn q) = ∑ t ∈ Finset.range (n + 1), tilePoolN (V c main_v25) (bnOutLast (V c main_v197_0) (V c main_v199) (V c main_v203) (V c main_v208) (V c main_v209)) t (ix2 gn q)
  | 0, h, gn, q => by
    rw [outsAt11_A V c ⟨0, h⟩ (Nat.zero_mod _), pt11_A_snd, bpay1_11_apply, pay5_11_eq, bpay2_11_apply, zero_add, Finset.sum_range_one, share11_apply]
    unfold tilePoolN
    rw [dif_pos (by decide)]
    rfl
  | n + 1, h, gn, q => by
    have hN : cfg11.N = 10 := N_11
    have hB : ¬(⟨n + 1, h⟩ : Fin cfg11.N).val % 10 = 0 := by dsimp only; omega
    rw [outsAt11_B V c ⟨n + 1, h⟩ hB, pt11_B_snd, bpay1_11_apply, pay5_11_eq, Finset.sum_range_succ, share11_apply]
    have ih := outsAt11_snd c n (Nat.lt_of_succ_lt h) gn q
    refine congrArg₂ (· + ·) ih ?_
    unfold tilePoolN
    rw [dif_pos (by omega)]
    rfl

/-! ## The first output array -/

set_option maxHeartbeats 1000000 in
/-- What point `t` writes back into the first output is tile `t` of the normalised array of the entry arrays. -/
theorem flushed11_6_eq (c : Dev nD) (t : Fin cfg11.N) :
    (dat11 (F := Ideal) V c).flushed 6 t = ((cfg11.win 6).blk t).view.read (Elt Ideal) (bnOutLast (V c main_v197_0) (V c main_v199) (V c main_v203) (V c main_v208) (V c main_v209)) := by
  show (cfg11.win 6).cut (grid11.coords t) ((dat11 V c).after 6 t) = _
  rw [after11_6, outsAt11_fst]
  obtain ⟨e00, e01, e10, e11, e20, e21, e30, e31, e40, e41, e50, e51, e60, e61, e70, e71⟩ := idx_facts11 t
  funext j
  obtain ⟨p, q, rfl⟩ : ∃ (p : Fin 5000) (q : Fin 128), j = ix2 p q := ⟨j 0, j 1, eq_ix2 j⟩
  show k11_pay3 (iblk11 V c 2 t) (iblk11 V c 3 t) (iblk11 V c 0 t) (iblk11 V c 1 t) (iblk11 V c 4 t) (ix2 p q)
    = bnOutLast (V c main_v197_0) (V c main_v199) (V c main_v203) (V c main_v208) (V c main_v209) (((cfg11.win 6).blk t).view.emb (ix2 p q))
  rw [pay3_11_blk]
  refine congrArg (bnOutLast (V c main_v197_0) (V c main_v199) (V c main_v203) (V c main_v208) (V c main_v209)) ?_
  funext a; apply Fin.ext
  match a with
  | ⟨0, _⟩ => show p.val + 5000 * t.val = win11_6.index t (0 : Fin 2) * 5000 + 1 * p.val; omega
  | ⟨1, _⟩ => show q.val = win11_6.index t (1 : Fin 2) * 128 + 1 * q.val; omega

/-- An index of the first output array lies in point `t`'s block when each coordinate lies in the block's range. -/
theorem mem_blk11_6 (t : Fin cfg11.N) (i : S50000x128.Idx) :
    i ∈ ((cfg11.win 6).blk t).view.set ↔ ∀ a : Fin 2, win11_6.index t a * S5000x128.size a ≤ (i a).val ∧ (i a).val < win11_6.index t a * S5000x128.size a + S5000x128.size a := by
  show i ∈ ((View.whole main_v210_0).slice (win11_6.rect t)).set ↔ _
  rw [View.set_slice_whole, Rect.mem_set_unit]
  exact Iff.rfl

/-- Every index of the first output array lies in some point's block: row `r` in the block of point `r / 5000`. -/
theorem cover11_6 (i : S50000x128.Idx) :
    ∃ t : Fin cfg11.N, (cfg11.win 6).flush t = true ∧ i ∈ ((cfg11.win 6).blk t).view.set := by
  have hi0 : (i 0).val < 50000 := (i 0).isLt
  have hi1 : (i 1).val < 128 := (i 1).isLt
  have hN : cfg11.N = 10 := N_11
  have ht : (i 0).val / 5000 < cfg11.N := by rw [hN]; omega
  obtain ⟨e00, e01, e10, e11, e20, e21, e30, e31, e40, e41, e50, e51, e60, e61, e70, e71⟩ := idx_facts11 ⟨(i 0).val / 5000, ht⟩
  refine ⟨⟨(i 0).val / 5000, ht⟩, flush11_6 _, ?_⟩
  rw [mem_blk11_6]
  intro a
  match a with
  | ⟨0, _⟩ =>
    show win11_6.index ⟨(i 0).val / 5000, ht⟩ (0 : Fin 2) * 5000 ≤ (i 0).val
      ∧ (i 0).val < win11_6.index ⟨(i 0).val / 5000, ht⟩ (0 : Fin 2) * 5000 + 5000
    rw [e60]; show (i 0).val / 5000 * 5000 ≤ (i 0).val ∧ (i 0).val < (i 0).val / 5000 * 5000 + 5000; omega
  | ⟨1, _⟩ =>
    show win11_6.index ⟨(i 0).val / 5000, ht⟩ (1 : Fin 2) * 128 ≤ (i 1).val
      ∧ (i 1).val < win11_6.index ⟨(i 0).val / 5000, ht⟩ (1 : Fin 2) * 128 + 128
    rw [e61]; omega

/-- After the region the first output array is the normalised array of the arrays the region read. -/
theorem value11_y (V : (c : Dev nD) → (b : Ref sig .tc) → Buf (Elt Ideal) ((c : Thread nD τ).loc b)) (c : Dev nD) :
    (dat11 (F := Ideal) V c).arrAt 6 cfg11.N = bnOutLast (V c main_v197_0) (V c main_v199) (V c main_v203) (V c main_v208) (V c main_v209) :=
  (dat11 (F := Ideal) V c).arrAt_eq_of_cover 6 _ (fun t _ => flushed11_6_eq V c t) cover11_6

/-! ## The second output array -/

set_option maxHeartbeats 1000000 in
/-- The one write-back of the second output, after the last point, writes the pooled array: its one block is the whole
    array, and the running sum after the tenth tile is the sum over all rows. -/
theorem flushed11_7_eq (c : Dev nD) (t : Fin cfg11.N) (hf : (cfg11.win 7).flush t = true) :
    (dat11 (F := Ideal) V c).flushed 7 t
      = ((cfg11.win 7).blk t).view.read (Elt Ideal) (bnPool (V c main_v25) (bnOutLast (V c main_v197_0) (V c main_v199) (V c main_v203) (V c main_v208) (V c main_v209))) := by
  have hN : cfg11.N = 10 := N_11
  have h9 : t.val + 1 = 10 := by have := (flush11_7 t).mp hf; have := t.isLt; omega
  show (cfg11.win 7).cut (grid11.coords t) ((dat11 V c).after 7 t) = _
  rw [after11_7]
  obtain ⟨e00, e01, e10, e11, e20, e21, e30, e31, e40, e41, e50, e51, e60, e61, e70, e71⟩ := idx_facts11 t
  generalize hG : bnPool (V c main_v25) (bnOutLast (V c main_v197_0) (V c main_v199) (V c main_v203) (V c main_v208) (V c main_v209)) = G
  funext j
  obtain ⟨gn, q, rfl⟩ : ∃ (gn : Fin 128) (q : Fin 128), j = ix2 gn q := ⟨j 0, j 1, eq_ix2 j⟩
  show (outsAt11 V c t.val t.isLt).2 (ix2 gn q) = G (((cfg11.win 7).blk t).view.emb (ix2 gn q))
  have he : ((cfg11.win 7).blk t).view.emb (ix2 gn q) = ix2 gn q := by
    funext a; apply Fin.ext
    match a with
    | ⟨0, _⟩ => show win11_7.index t (0 : Fin 2) * 128 + 1 * gn.val = gn.val; omega
    | ⟨1, _⟩ => show win11_7.index t (1 : Fin 2) * 128 + 1 * q.val = q.val; omega
  rw [he, ← hG, outsAt11_snd V c t.val t.isLt gn q, bnPool_eq_range, h9]

/-- An index of the second output array lies in point `t`'s block when each coordinate lies in the block's range. -/
theorem mem_blk11_7 (t : Fin cfg11.N) (i : S128x128.Idx) :
    i ∈ ((cfg11.win 7).blk t).view.set ↔ ∀ a : Fin 2, win11_7.index t a * S128x128.size a ≤ (i a).val ∧ (i a).val < win11_7.index t a * S128x128.size a + S128x128.size a := by
  show i ∈ ((View.whole main_v210_1).slice (win11_7.rect t)).set ↔ _
  rw [View.set_slice_whole, Rect.mem_set_unit]
  exact Iff.rfl

/-- Every index of the second output array lies in the last point's block, the one that is written back. -/
theorem cover11_7 (i : S128x128.Idx) :
    ∃ t : Fin cfg11.N, (cfg11.win 7).flush t = true ∧ i ∈ ((cfg11.win 7).blk t).view.set := by
  have hi0 : (i 0).val < 128 := (i 0).isLt
  have hi1 : (i 1).val < 128 := (i 1).isLt
  have ht : 9 < cfg11.N := by rw [show cfg11.N = 10 from N_11]; decide
  obtain ⟨e00, e01, e10, e11, e20, e21, e30, e31, e40, e41, e50, e51, e60, e61, e70, e71⟩ := idx_facts11 ⟨9, ht⟩
  refine ⟨⟨9, ht⟩, (flush11_7 _).mpr rfl, ?_⟩
  rw [mem_blk11_7]
  intro a
  match a with
  | ⟨0, _⟩ =>
    show win11_7.index ⟨9, ht⟩ (0 : Fin 2) * 128 ≤ (i 0).val ∧ (i 0).val < win11_7.index ⟨9, ht⟩ (0 : Fin 2) * 128 + 128
    rw [e70]; omega
  | ⟨1, _⟩ =>
    show win11_7.index ⟨9, ht⟩ (1 : Fin 2) * 128 ≤ (i 1).val ∧ (i 1).val < win11_7.index ⟨9, ht⟩ (1 : Fin 2) * 128 + 128
    rw [e71]; omega

/-- After the region the second output array is the pooled array of the graph numbers and the normalised array. -/
theorem value11_pool (V : (c : Dev nD) → (b : Ref sig .tc) → Buf (Elt Ideal) ((c : Thread nD τ).loc b)) (c : Dev nD) :
    (dat11 (F := Ideal) V c).arrAt 7 cfg11.N = bnPool (V c main_v25) (bnOutLast (V c main_v197_0) (V c main_v199) (V c main_v203) (V c main_v208) (V c main_v209)) :=
  (dat11 (F := Ideal) V c).arrAt_eq_of_cover 7 _ (fun t hf => flushed11_7_eq V c t hf) cover11_7

end Cert.KernelIdeal.Reg

end
-- ==== Proof.KI.Stretch.lean ====
/- The kernel program's host stretches read back. For any contents W of the buffers before a stretch, what the stretch
   leaves in each buffer a later region or stretch reads is one composed function of the buffers the stretch reads from
   outside it: the index rows and the bias rows; the denominator column max(in-degree, 1), the edge weights and the weighted
   edge attributes summed by destination; a layer's aggregated message and its slices of the stacked parameters; the
   column means and variances from the column sums; the five per-graph sums joined side by side. A stretch writes only
   its listed buffers, so every other buffer passes through. -/
import proofs.«144276_j65051574665788_2_alg».proof.Proof.Gen.KernelIdeal.Regions

noncomputable section

namespace Cert.KernelIdeal.Reg

open Cert.KernelIdeal Cert.KernelIdeal.Gen Idealize.ShloMosaic Idealize.ShloMosaic.TcCoe Idealize.SL.Sem Idealize.ShloMosaic.StableHlo

variable {F : FTy → Type} [FloatOps F]

/-! ## Stretch 0: the edge list's two rows and the atom encoder's bias row -/

/-- A buffer stretch 0 does not write passes through it. -/
theorem hostOps0_keep (W : Valuation τ sig (Elt F)) (r : Ref sig .tc) (h : r ∉ hostOps0_W) :
    after hostOps0 W (Proc.devRef .tc r) = W (Proc.devRef .tc r) := after_of_writes_sub hostOps0 W hostOps0_writes h

/-- The source row of the edge list. -/
def srcRow (ei : (main_arg2 : Ref sig .tc).ty.Contents (Elt F)) :
    (main_v1 : Ref sig .tc).ty.Contents (Elt F) :=
  let v0 : (main_v0 : Ref sig .tc).ty.Contents (Elt F) := (((extractStridedSlice S1x600000 ![0, 0] · slices_S2x600000_S1x600000_0_0) : (⟨S2x600000, .i32⟩ : BufTy).Contents (Elt F) → (⟨S1x600000, .i32⟩ : BufTy).Contents (Elt F))) ei
  let v1 : (main_v1 : Ref sig .tc).ty.Contents (Elt F) := shapeCast (main_v1 : Ref sig .tc).ty.shape v0 shapeCasts_S1x600000_S600000
  v1

set_option maxRecDepth 16384 in
set_option maxHeartbeats 4000000 in
theorem stretch0_v1 (W : Valuation τ sig (Elt F)) :
    after hostOps0 W (Proc.devRef .tc main_v1)
      = srcRow (W (Proc.devRef .tc main_arg2)) := by
  simp only [hostOps0]
  after_results_simp
  rfl

/-- The destination row of the edge list. -/
def dstRow (ei : (main_arg2 : Ref sig .tc).ty.Contents (Elt F)) :
    (main_v3 : Ref sig .tc).ty.Contents (Elt F) :=
  let v2 : (main_v2 : Ref sig .tc).ty.Contents (Elt F) := (((extractStridedSlice S1x600000 ![1, 0] · slices_S2x600000_S1x600000_1_0) : (⟨S2x600000, .i32⟩ : BufTy).Contents (Elt F) → (⟨S1x600000, .i32⟩ : BufTy).Contents (Elt F))) ei
  let v3 : (main_v3 : Ref sig .tc).ty.Contents (Elt F) := shapeCast (main_v3 : Ref sig .tc).ty.shape v2 shapeCasts_S1x600000_S600000
  v3

set_option maxRecDepth 16384 in
set_option maxHeartbeats 4000000 in
theorem stretch0_v3 (W : Valuation τ sig (Elt F)) :
    after hostOps0 W (Proc.devRef .tc main_v3)
      = dstRow (W (Proc.devRef .tc main_arg2)) := by
  simp only [hostOps0]
  after_results_simp
  rfl

/-- The atom encoder's bias as a row [1, 128]. -/
def atomBiasRow (batom : (main_arg6 : Ref sig .tc).ty.Contents (Elt F)) :
    (main_v4 : Ref sig .tc).ty.Contents (Elt F) :=
  let v4 : (main_v4 : Ref sig .tc).ty.Contents (Elt F) := shapeCast (main_v4 : Ref sig .tc).ty.shape batom shapeCasts_S128_S1x128
  v4

set_option maxRecDepth 16384 in
set_option maxHeartbeats 4000000 in
theorem stretch0_v4 (W : Valuation τ sig (Elt F)) :
    after hostOps0 W (Proc.devRef .tc main_v4)
      = atomBiasRow (W (Proc.devRef .tc main_arg6)) := by
  simp only [hostOps0]
  after_results_simp
  rfl

/-! ## Stretch 1: the denominator column, the sums by destination, the bond encoder's bias row -/

/-- A buffer stretch 1 does not write passes through it. -/
theorem hostOps1_keep (W : Valuation τ sig (Elt F)) (r : Ref sig .tc) (h : r ∉ hostOps1_W) :
    after hostOps1 W (Proc.devRef .tc r) = W (Proc.devRef .tc r) := after_of_writes_sub hostOps1 W hostOps1_writes h

/-- The denominator column: the in-degree (a scatter-add of ones by destination), at least 1. -/
def denomCol (dst : (main_v3 : Ref sig .tc).ty.Contents (Elt F)) :
    (main_v12 : Ref sig .tc).ty.Contents (Elt F) :=
  let cst : (main_cst : Ref sig .tc).ty.Contents (Elt F) := (constant S_ .f32 0x3F800000#32)
  let v6 : (main_v6 : Ref sig .tc).ty.Contents (Elt F) := ((broadcastInDim S600000 ![] bcast_S_S600000 : (⟨S_, .f32⟩ : BufTy).Contents (Elt F) → (⟨S600000, .f32⟩ : BufTy).Contents (Elt F))) cst
  let cst_0 : (main_cst_0 : Ref sig .tc).ty.Contents (Elt F) := (constant S_ .f32 0x00000000#32)
  let v7 : (main_v7 : Ref sig .tc).ty.Contents (Elt F) := ((broadcastInDim S50000 ![] bcast_S_S50000 : (⟨S_, .f32⟩ : BufTy).Contents (Elt F) → (⟨S50000, .f32⟩ : BufTy).Contents (Elt F))) cst_0
  let v8 : (main_v8 : Ref sig .tc).ty.Contents (Elt F) := ((broadcastInDim S600000x1 ![0] bcast_S600000_S600000x1_0 : (⟨S600000, .i32⟩ : BufTy).Contents (Elt F) → (⟨S600000x1, .i32⟩ : BufTy).Contents (Elt F))) dst
  let v9 : (main_v9 : Ref sig .tc).ty.Contents (Elt F) := (((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F))) v7 v8 v6
  let cst_1 : (main_cst_1 : Ref sig .tc).ty.Contents (Elt F) := (constant S_ .f32 0x3F800000#32)
  let v10 : (main_v10 : Ref sig .tc).ty.Contents (Elt F) := ((broadcastInDim S50000 ![] bcast_S_S50000 : (⟨S_, .f32⟩ : BufTy).Contents (Elt F) → (⟨S50000, .f32⟩ : BufTy).Contents (Elt F))) cst_1
  let v11 : (main_v11 : Ref sig .tc).ty.Contents (Elt F) := ((maximumf : (⟨S50000, .f32⟩ : BufTy).Contents (Elt F) → (⟨S50000, .f32⟩ : BufTy).Contents (Elt F) → (⟨S50000, .f32⟩ : BufTy).Contents (Elt F))) v9 v10
  let v12 : (main_v12 : Ref sig .tc).ty.Contents (Elt F) := shapeCast (main_v12 : Ref sig .tc).ty.shape v11 shapeCasts_S50000_S50000x1
  v12

set_option maxRecDepth 16384 in
set_option maxHeartbeats 4000000 in
theorem stretch1_v12 (W : Valuation τ sig (Elt F)) :
    after hostOps1 W (Proc.devRef .tc main_v12)
      = denomCol (W (Proc.devRef .tc main_v3)) := by
  simp only [hostOps1]
  after_results_simp
  rfl

/-- The edge weights summed by destination, as a column. -/
def ewSumCol (dst : (main_v3 : Ref sig .tc).ty.Contents (Elt F)) (ew : (main_arg4 : Ref sig .tc).ty.Contents (Elt F)) :
    (main_v16 : Ref sig .tc).ty.Contents (Elt F) :=
  let cst_2 : (main_cst_2 : Ref sig .tc).ty.Contents (Elt F) := (constant S_ .f32 0x00000000#32)
  let v13 : (main_v13 : Ref sig .tc).ty.Contents (Elt F) := ((broadcastInDim S50000 ![] bcast_S_S50000 : (⟨S_, .f32⟩ : BufTy).Contents (Elt F) → (⟨S50000, .f32⟩ : BufTy).Contents (Elt F))) cst_2
  let v14 : (main_v14 : Ref sig .tc).ty.Contents (Elt F) := ((broadcastInDim S600000x1 ![0] bcast_S600000_S600000x1_0 : (⟨S600000, .i32⟩ : BufTy).Contents (Elt F) → (⟨S600000x1, .i32⟩ : BufTy).Contents (Elt F))) dst
  let v15 : (main_v15 : Ref sig .tc).ty.Contents (Elt F) := (((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F))) v13 v14 ew
  let v16 : (main_v16 : Ref sig .tc).ty.Contents (Elt F) := shapeCast (main_v16 : Ref sig .tc).ty.shape v15 shapeCasts_S50000_S50000x1
  v16

set_option maxRecDepth 16384 in
set_option maxHeartbeats 4000000 in
theorem stretch1_v16 (W : Valuation τ sig (Elt F)) :
    after hostOps1 W (Proc.devRef .tc main_v16)
      = ewSumCol (W (Proc.devRef .tc main_v3)) (W (Proc.devRef .tc main_arg4)) := by
  simp only [hostOps1]
  after_results_simp
  rfl

/-- The weighted edge attributes summed by destination: a scatter-add of edge_attr · ew. -/
def eaSum (dst : (main_v3 : Ref sig .tc).ty.Contents (Elt F)) (eattr : (main_arg3 : Ref sig .tc).ty.Contents (Elt F)) (ew : (main_arg4 : Ref sig .tc).ty.Contents (Elt F)) :
    (main_v22 : Ref sig .tc).ty.Contents (Elt F) :=
  let v17 : (main_v17 : Ref sig .tc).ty.Contents (Elt F) := ((broadcastInDim S600000x1 ![0] bcast_S600000_S600000x1_0 : (⟨S600000, .f32⟩ : BufTy).Contents (Elt F) → (⟨S600000x1, .f32⟩ : BufTy).Contents (Elt F))) ew
  let v18 : (main_v18 : Ref sig .tc).ty.Contents (Elt F) := ((broadcastInDim S600000x11 ![0, 1] bcast_S600000x1_S600000x11_0_1 : (⟨S600000x1, .f32⟩ : BufTy).Contents (Elt F) → (⟨S600000x11, .f32⟩ : BufTy).Contents (Elt F))) v17
  let v19 : (main_v19 : Ref sig .tc).ty.Contents (Elt F) := ((mulf : (⟨S600000x11, .f32⟩ : BufTy).Contents (Elt F) → (⟨S600000x11, .f32⟩ : BufTy).Contents (Elt F) → (⟨S600000x11, .f32⟩ : BufTy).Contents (Elt F))) eattr v18
  let cst_3 : (main_cst_3 : Ref sig .tc).ty.Contents (Elt F) := (constant S_ .f32 0x00000000#32)
  let v20 : (main_v20 : Ref sig .tc).ty.Contents (Elt F) := ((broadcastInDim S50000x11 ![] bcast_S_S50000x11 : (⟨S_, .f32⟩ : BufTy).Contents (Elt F) → (⟨S50000x11, .f32⟩ : BufTy).Contents (Elt F))) cst_3
  let v21 : (main_v21 : Ref sig .tc).ty.Contents (Elt F) := ((broadcastInDim S600000x1 ![0] bcast_S600000_S600000x1_0 : (⟨S600000, .i32⟩ : BufTy).Contents (Elt F) → (⟨S600000x1, .i32⟩ : BufTy).Contents (Elt F))) dst
  let v22 : (main_v22 : Ref sig .tc).ty.Contents (Elt F) := (((fun x i u => Host.scatterAdd scatter_S50000x11_S600000x1_S600000x11_1_0_0_1 x i u) : (⟨S50000x11, .f32⟩ : BufTy).Contents (Elt F) → (⟨S600000x1, .i32⟩ : BufTy).Contents (Elt F) → (⟨S600000x11, .f32⟩ : BufTy).Contents (Elt F) → (⟨S50000x11, .f32⟩ : BufTy).Contents (Elt F))) v20 v21 v19
  v22

set_option maxRecDepth 16384 in
set_option maxHeartbeats 4000000 in
theorem stretch1_v22 (W : Valuation τ sig (Elt F)) :
    after hostOps1 W (Proc.devRef .tc main_v22)
      = eaSum (W (Proc.devRef .tc main_v3)) (W (Proc.devRef .tc main_arg3)) (W (Proc.devRef .tc main_arg4)) := by
  simp only [hostOps1]
  after_results_simp
  rfl

/-- The bond encoder's bias as a row [1, 128]. -/
def bondBiasRow (bbond : (main_arg8 : Ref sig .tc).ty.Contents (Elt F)) :
    (main_v23 : Ref sig .tc).ty.Contents (Elt F) :=
  let v23 : (main_v23 : Ref sig .tc).ty.Contents (Elt F) := shapeCast (main_v23 : Ref sig .tc).ty.shape bbond shapeCasts_S128_S1x128
  v23

set_option maxRecDepth 16384 in
set_option maxHeartbeats 4000000 in
theorem stretch1_v23 (W : Valuation τ sig (Elt F)) :
    after hostOps1 W (Proc.devRef .tc main_v23)
      = bondBiasRow (W (Proc.devRef .tc main_arg8)) := by
  simp only [hostOps1]
  after_results_simp
  rfl

/-! ## Stretch 2: layer 1's aggregated message and parameter slices -/

/-- A buffer stretch 2 does not write passes through it. -/
theorem hostOps2_keep (W : Valuation τ sig (Elt F)) (r : Ref sig .tc) (h : r ∉ hostOps2_W) :
    after hostOps2 W (Proc.devRef .tc r) = W (Proc.devRef .tc r) := after_of_writes_sub hostOps2 W hostOps2_writes h

/-- The graph numbers as a column. -/
def graphCol (batch : (main_arg0 : Ref sig .tc).ty.Contents (Elt F)) :
    (main_v25 : Ref sig .tc).ty.Contents (Elt F) :=
  let v25 : (main_v25 : Ref sig .tc).ty.Contents (Elt F) := shapeCast (main_v25 : Ref sig .tc).ty.shape batch shapeCasts_S50000_S50000x1
  v25

set_option maxRecDepth 16384 in
set_option maxHeartbeats 4000000 in
theorem stretch2_v25 (W : Valuation τ sig (Elt F)) :
    after hostOps2 W (Proc.devRef .tc main_v25)
      = graphCol (W (Proc.devRef .tc main_arg0)) := by
  simp only [hostOps2]
  after_results_simp
  rfl

/-- A layer's aggregated message: the source rows of h gathered, weighted, scatter-added by destination and divided by the denominator column, plus the projected edge term. -/
def aggMsg (src : (main_v1 : Ref sig .tc).ty.Contents (Elt F)) (dst : (main_v3 : Ref sig .tc).ty.Contents (Elt F)) (h : (main_v5 : Ref sig .tc).ty.Contents (Elt F)) (ew : (main_arg4 : Ref sig .tc).ty.Contents (Elt F)) (denom : (main_v12 : Ref sig .tc).ty.Contents (Elt F)) (eproj : (main_v24 : Ref sig .tc).ty.Contents (Elt F)) :
    (main_v41 : Ref sig .tc).ty.Contents (Elt F) :=
  let c : (main_c : Ref sig .tc).ty.Contents (Elt F) := (constantI S_ 32 0#32)
  let v26 : (main_v26 : Ref sig .tc).ty.Contents (Elt F) := ((broadcastInDim S600000 ![] bcast_S_S600000 : (⟨S_, .i32⟩ : BufTy).Contents (Elt F) → (⟨S600000, .i32⟩ : BufTy).Contents (Elt F))) c
  let v27 : (main_v27 : Ref sig .tc).ty.Contents (Elt F) := ((cmpi .slt : (⟨S600000, .i32⟩ : BufTy).Contents (Elt F) → (⟨S600000, .i32⟩ : BufTy).Contents (Elt F) → (⟨S600000, .i1⟩ : BufTy).Contents (Elt F))) src v26
  let c_4 : (main_c_4 : Ref sig .tc).ty.Contents (Elt F) := (constantI S_ 32 50000#32)
  let v28 : (main_v28 : Ref sig .tc).ty.Contents (Elt F) := ((broadcastInDim S600000 ![] bcast_S_S600000 : (⟨S_, .i32⟩ : BufTy).Contents (Elt F) → (⟨S600000, .i32⟩ : BufTy).Contents (Elt F))) c_4
  let v29 : (main_v29 : Ref sig .tc).ty.Contents (Elt F) := ((addi : (⟨S600000, .i32⟩ : BufTy).Contents (Elt F) → (⟨S600000, .i32⟩ : BufTy).Contents (Elt F) → (⟨S600000, .i32⟩ : BufTy).Contents (Elt F))) src v28
  let v30 : (main_v30 : Ref sig .tc).ty.Contents (Elt F) := ((select : (⟨S600000, .i1⟩ : BufTy).Contents (Elt F) → (⟨S600000, .i32⟩ : BufTy).Contents (Elt F) → (⟨S600000, .i32⟩ : BufTy).Contents (Elt F) → (⟨S600000, .i32⟩ : BufTy).Contents (Elt F))) v27 v29 src
  let v31 : (main_v31 : Ref sig .tc).ty.Contents (Elt F) := ((broadcastInDim S600000x1 ![0] bcast_S600000_S600000x1_0 : (⟨S600000, .i32⟩ : BufTy).Contents (Elt F) → (⟨S600000x1, .i32⟩ : BufTy).Contents (Elt F))) v30
  let v32 : (main_v32 : Ref sig .tc).ty.Contents (Elt F) := (((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F))) h v31
  let v33 : (main_v33 : Ref sig .tc).ty.Contents (Elt F) := ((broadcastInDim S600000x1 ![0] bcast_S600000_S600000x1_0 : (⟨S600000, .f32⟩ : BufTy).Contents (Elt F) → (⟨S600000x1, .f32⟩ : BufTy).Contents (Elt F))) ew
  let v34 : (main_v34 : Ref sig .tc).ty.Contents (Elt F) := ((broadcastInDim S600000x128 ![0, 1] bcast_S600000x1_S600000x128_0_1 : (⟨S600000x1, .f32⟩ : BufTy).Contents (Elt F) → (⟨S600000x128, .f32⟩ : BufTy).Contents (Elt F))) v33
  let v35 : (main_v35 : Ref sig .tc).ty.Contents (Elt F) := ((mulf : (⟨S600000x128, .f32⟩ : BufTy).Contents (Elt F) → (⟨S600000x128, .f32⟩ : BufTy).Contents (Elt F) → (⟨S600000x128, .f32⟩ : BufTy).Contents (Elt F))) v32 v34
  let cst_5 : (main_cst_5 : Ref sig .tc).ty.Contents (Elt F) := (constant S_ .f32 0x00000000#32)
  let v36 : (main_v36 : Ref sig .tc).ty.Contents (Elt F) := ((broadcastInDim S50000x128 ![] bcast_S_S50000x128 : (⟨S_, .f32⟩ : BufTy).Contents (Elt F) → (⟨S50000x128, .f32⟩ : BufTy).Contents (Elt F))) cst_5
  let v37 : (main_v37 : Ref sig .tc).ty.Contents (Elt F) := ((broadcastInDim S600000x1 ![0] bcast_S600000_S600000x1_0 : (⟨S600000, .i32⟩ : BufTy).Contents (Elt F) → (⟨S600000x1, .i32⟩ : BufTy).Contents (Elt F))) dst
  let v38 : (main_v38 : Ref sig .tc).ty.Contents (Elt F) := (((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F))) v36 v37 v35
  let v39 : (main_v39 : Ref sig .tc).ty.Contents (Elt F) := ((broadcastInDim S50000x128 ![0, 1] bcast_S50000x1_S50000x128_0_1 : (⟨S50000x1, .f32⟩ : BufTy).Contents (Elt F) → (⟨S50000x128, .f32⟩ : BufTy).Contents (Elt F))) denom
  let v40 : (main_v40 : Ref sig .tc).ty.Contents (Elt F) := ((Host.divf : (⟨S50000x128, .f32⟩ : BufTy).Contents (Elt F) → (⟨S50000x128, .f32⟩ : BufTy).Contents (Elt F) → (⟨S50000x128, .f32⟩ : BufTy).Contents (Elt F))) v38 v39
  let v41 : (main_v41 : Ref sig .tc).ty.Contents (Elt F) := ((addf : (⟨S50000x128, .f32⟩ : BufTy).Contents (Elt F) → (⟨S50000x128, .f32⟩ : BufTy).Contents (Elt F) → (⟨S50000x128, .f32⟩ : BufTy).Contents (Elt F))) v40 eproj
  v41

set_option maxRecDepth 16384 in
set_option maxHeartbeats 4000000 in
theorem stretch2_v41 (W : Valuation τ sig (Elt F)) :
    after hostOps2 W (Proc.devRef .tc main_v41)
      = aggMsg (W (Proc.devRef .tc main_v1)) (W (Proc.devRef .tc main_v3)) (W (Proc.devRef .tc main_v5)) (W (Proc.devRef .tc main_arg4)) (W (Proc.devRef .tc main_v12)) (W (Proc.devRef .tc main_v24)) := by
  simp only [hostOps2]
  after_results_simp
  rfl

/-- Layer 1's left weight matrix: slice 0 of the stacked array. -/
def leftW0 (Wl : (main_arg9 : Ref sig .tc).ty.Contents (Elt F)) :
    (main_v43 : Ref sig .tc).ty.Contents (Elt F) :=
  let v42 : (main_v42 : Ref sig .tc).ty.Contents (Elt F) := (((extractStridedSlice S1x128x128 ![0, 0, 0] · slices_S5x128x128_S1x128x128_0_0_0) : (⟨S5x128x128, .f32⟩ : BufTy).Contents (Elt F) → (⟨S1x128x128, .f32⟩ : BufTy).Contents (Elt F))) Wl
  let v43 : (main_v43 : Ref sig .tc).ty.Contents (Elt F) := shapeCast (main_v43 : Ref sig .tc).ty.shape v42 shapeCasts_S1x128x128_S128x128
  v43

set_option maxRecDepth 16384 in
set_option maxHeartbeats 4000000 in
theorem stretch2_v43 (W : Valuation τ sig (Elt F)) :
    after hostOps2 W (Proc.devRef .tc main_v43)
      = leftW0 (W (Proc.devRef .tc main_arg9)) := by
  simp only [hostOps2]
  after_results_simp
  rfl

/-- Layer 1's right weight matrix: slice 0 of the stacked array. -/
def rightW0 (Wr : (main_arg11 : Ref sig .tc).ty.Contents (Elt F)) :
    (main_v45 : Ref sig .tc).ty.Contents (Elt F) :=
  let v44 : (main_v44 : Ref sig .tc).ty.Contents (Elt F) := (((extractStridedSlice S1x128x128 ![0, 0, 0] · slices_S5x128x128_S1x128x128_0_0_0) : (⟨S5x128x128, .f32⟩ : BufTy).Contents (Elt F) → (⟨S1x128x128, .f32⟩ : BufTy).Contents (Elt F))) Wr
  let v45 : (main_v45 : Ref sig .tc).ty.Contents (Elt F) := shapeCast (main_v45 : Ref sig .tc).ty.shape v44 shapeCasts_S1x128x128_S128x128
  v45

set_option maxRecDepth 16384 in
set_option maxHeartbeats 4000000 in
theorem stretch2_v45 (W : Valuation τ sig (Elt F)) :
    after hostOps2 W (Proc.devRef .tc main_v45)
      = rightW0 (W (Proc.devRef .tc main_arg11)) := by
  simp only [hostOps2]
  after_results_simp
  rfl

/-- Layer 1's bias as a row: slice 0 of the stacked array. -/
def leftBias0 (bl : (main_arg10 : Ref sig .tc).ty.Contents (Elt F)) :
    (main_v48 : Ref sig .tc).ty.Contents (Elt F) :=
  let v46 : (main_v46 : Ref sig .tc).ty.Contents (Elt F) := (((extractStridedSlice S1x128 ![0, 0] · slices_S5x128_S1x128_0_0) : (⟨S5x128, .f32⟩ : BufTy).Contents (Elt F) → (⟨S1x128, .f32⟩ : BufTy).Contents (Elt F))) bl
  let v47 : (main_v47 : Ref sig .tc).ty.Contents (Elt F) := shapeCast (main_v47 : Ref sig .tc).ty.shape v46 shapeCasts_S1x128_S128
  let v48 : (main_v48 : Ref sig .tc).ty.Contents (Elt F) := shapeCast (main_v48 : Ref sig .tc).ty.shape v47 shapeCasts_S128_S1x128
  v48

set_option maxRecDepth 16384 in
set_option maxHeartbeats 4000000 in
theorem stretch2_v48 (W : Valuation τ sig (Elt F)) :
    after hostOps2 W (Proc.devRef .tc main_v48)
      = leftBias0 (W (Proc.devRef .tc main_arg10)) := by
  simp only [hostOps2]
  after_results_simp
  rfl

/-! ## Stretch 3: layer 1's column means and variances, its gamma and beta rows -/

/-- A buffer stretch 3 does not write passes through it. -/
theorem hostOps3_keep (W : Valuation τ sig (Elt F)) (r : Ref sig .tc) (h : r ∉ hostOps3_W) :
    after hostOps3 W (Proc.devRef .tc r) = W (Proc.devRef .tc r) := after_of_writes_sub hostOps3 W hostOps3_writes h

/-- The column means: the column sums divided by 50000. -/
def colMean (s1 : (main_v49_1 : Ref sig .tc).ty.Contents (Elt F)) :
    (main_v51 : Ref sig .tc).ty.Contents (Elt F) :=
  let cst_6 : (main_cst_6 : Ref sig .tc).ty.Contents (Elt F) := (constant S_ .f32 0x47435000#32)
  let v50 : (main_v50 : Ref sig .tc).ty.Contents (Elt F) := ((broadcastInDim S1x128 ![] bcast_S_S1x128 : (⟨S_, .f32⟩ : BufTy).Contents (Elt F) → (⟨S1x128, .f32⟩ : BufTy).Contents (Elt F))) cst_6
  let v51 : (main_v51 : Ref sig .tc).ty.Contents (Elt F) := ((Host.divf : (⟨S1x128, .f32⟩ : BufTy).Contents (Elt F) → (⟨S1x128, .f32⟩ : BufTy).Contents (Elt F) → (⟨S1x128, .f32⟩ : BufTy).Contents (Elt F))) s1 v50
  v51

set_option maxRecDepth 16384 in
set_option maxHeartbeats 4000000 in
theorem stretch3_v51 (W : Valuation τ sig (Elt F)) :
    after hostOps3 W (Proc.devRef .tc main_v51)
      = colMean (W (Proc.devRef .tc main_v49_1)) := by
  simp only [hostOps3]
  after_results_simp
  rfl

/-- The column variances: the column sums of squares divided by 50000, less the squared means. -/
def colVar (s1 : (main_v49_1 : Ref sig .tc).ty.Contents (Elt F)) (s2 : (main_v49_2 : Ref sig .tc).ty.Contents (Elt F)) :
    (main_v55 : Ref sig .tc).ty.Contents (Elt F) :=
  let cst_6 : (main_cst_6 : Ref sig .tc).ty.Contents (Elt F) := (constant S_ .f32 0x47435000#32)
  let v50 : (main_v50 : Ref sig .tc).ty.Contents (Elt F) := ((broadcastInDim S1x128 ![] bcast_S_S1x128 : (⟨S_, .f32⟩ : BufTy).Contents (Elt F) → (⟨S1x128, .f32⟩ : BufTy).Contents (Elt F))) cst_6
  let v51 : (main_v51 : Ref sig .tc).ty.Contents (Elt F) := ((Host.divf : (⟨S1x128, .f32⟩ : BufTy).Contents (Elt F) → (⟨S1x128, .f32⟩ : BufTy).Contents (Elt F) → (⟨S1x128, .f32⟩ : BufTy).Contents (Elt F))) s1 v50
  let cst_7 : (main_cst_7 : Ref sig .tc).ty.Contents (Elt F) := (constant S_ .f32 0x47435000#32)
  let v52 : (main_v52 : Ref sig .tc).ty.Contents (Elt F) := ((broadcastInDim S1x128 ![] bcast_S_S1x128 : (⟨S_, .f32⟩ : BufTy).Contents (Elt F) → (⟨S1x128, .f32⟩ : BufTy).Contents (Elt F))) cst_7
  let v53 : (main_v53 : Ref sig .tc).ty.Contents (Elt F) := ((Host.divf : (⟨S1x128, .f32⟩ : BufTy).Contents (Elt F) → (⟨S1x128, .f32⟩ : BufTy).Contents (Elt F) → (⟨S1x128, .f32⟩ : BufTy).Contents (Elt F))) s2 v52
  let v54 : (main_v54 : Ref sig .tc).ty.Contents (Elt F) := ((mulf : (⟨S1x128, .f32⟩ : BufTy).Contents (Elt F) → (⟨S1x128, .f32⟩ : BufTy).Contents (Elt F) → (⟨S1x128, .f32⟩ : BufTy).Contents (Elt F))) v51 v51
  let v55 : (main_v55 : Ref sig .tc).ty.Contents (Elt F) := ((subf : (⟨S1x128, .f32⟩ : BufTy).Contents (Elt F) → (⟨S1x128, .f32⟩ : BufTy).Contents (Elt F) → (⟨S1x128, .f32⟩ : BufTy).Contents (Elt F))) v53 v54
  v55

set_option maxRecDepth 16384 in
set_option maxHeartbeats 4000000 in
theorem stretch3_v55 (W : Valuation τ sig (Elt F)) :
    after hostOps3 W (Proc.devRef .tc main_v55)
      = colVar (W (Proc.devRef .tc main_v49_1)) (W (Proc.devRef .tc main_v49_2)) := by
  simp only [hostOps3]
  after_results_simp
  rfl

/-- Layer 1's gamma as a row: slice 0 of the stacked array. -/
def gammaRow0 (gamma : (main_arg12 : Ref sig .tc).ty.Contents (Elt F)) :
    (main_v60 : Ref sig .tc).ty.Contents (Elt F) :=
  let v56 : (main_v56 : Ref sig .tc).ty.Contents (Elt F) := (((extractStridedSlice S1x128 ![0, 0] · slices_S5x128_S1x128_0_0) : (⟨S5x128, .f32⟩ : BufTy).Contents (Elt F) → (⟨S1x128, .f32⟩ : BufTy).Contents (Elt F))) gamma
  let v57 : (main_v57 : Ref sig .tc).ty.Contents (Elt F) := shapeCast (main_v57 : Ref sig .tc).ty.shape v56 shapeCasts_S1x128_S128
  let v60 : (main_v60 : Ref sig .tc).ty.Contents (Elt F) := shapeCast (main_v60 : Ref sig .tc).ty.shape v57 shapeCasts_S128_S1x128
  v60

set_option maxRecDepth 16384 in
set_option maxHeartbeats 4000000 in
theorem stretch3_v60 (W : Valuation τ sig (Elt F)) :
    after hostOps3 W (Proc.devRef .tc main_v60)
      = gammaRow0 (W (Proc.devRef .tc main_arg12)) := by
  simp only [hostOps3]
  after_results_simp
  rfl

/-- Layer 1's beta as a row: slice 0 of the stacked array. -/
def betaRow0 (beta : (main_arg13 : Ref sig .tc).ty.Contents (Elt F)) :
    (main_v61 : Ref sig .tc).ty.Contents (Elt F) :=
  let v58 : (main_v58 : Ref sig .tc).ty.Contents (Elt F) := (((extractStridedSlice S1x128 ![0, 0] · slices_S5x128_S1x128_0_0) : (⟨S5x128, .f32⟩ : BufTy).Contents (Elt F) → (⟨S1x128, .f32⟩ : BufTy).Contents (Elt F))) beta
  let v59 : (main_v59 : Ref sig .tc).ty.Contents (Elt F) := shapeCast (main_v59 : Ref sig .tc).ty.shape v58 shapeCasts_S1x128_S128
  let v61 : (main_v61 : Ref sig .tc).ty.Contents (Elt F) := shapeCast (main_v61 : Ref sig .tc).ty.shape v59 shapeCasts_S128_S1x128
  v61

set_option maxRecDepth 16384 in
set_option maxHeartbeats 4000000 in
theorem stretch3_v61 (W : Valuation τ sig (Elt F)) :
    after hostOps3 W (Proc.devRef .tc main_v61)
      = betaRow0 (W (Proc.devRef .tc main_arg13)) := by
  simp only [hostOps3]
  after_results_simp
  rfl

/-! ## Stretch 12: the five per-graph sums side by side -/

/-- A buffer stretch 12 does not write passes through it. -/
theorem hostOps12_keep (W : Valuation τ sig (Elt F)) (r : Ref sig .tc) (h : r ∉ hostOps12_W) :
    after hostOps12 W (Proc.devRef .tc r) = W (Proc.devRef .tc r) := after_of_writes_sub hostOps12 W hostOps12_writes h

/-- The five layers' per-graph sums joined along the columns. -/
def pooledJoin (p0 : (main_v62_1 : Ref sig .tc).ty.Contents (Elt F)) (p1 : (main_v99_1 : Ref sig .tc).ty.Contents (Elt F)) (p2 : (main_v136_1 : Ref sig .tc).ty.Contents (Elt F)) (p3 : (main_v173_1 : Ref sig .tc).ty.Contents (Elt F)) (p4 : (main_v210_1 : Ref sig .tc).ty.Contents (Elt F)) :
    (main_v211 : Ref sig .tc).ty.Contents (Elt F) :=
  let v211 : (main_v211 : Ref sig .tc).ty.Contents (Elt F) := concatenate S128x640 1 [⟨S128x128, p0⟩, ⟨S128x128, p1⟩, ⟨S128x128, p2⟩, ⟨S128x128, p3⟩, ⟨S128x128, p4⟩] concatenates_S128x128_S128x128_S128x128_S128x128_S128x128_S128x640_d1
  v211

set_option maxRecDepth 16384 in
set_option maxHeartbeats 4000000 in
theorem stretch12_v211 (W : Valuation τ sig (Elt F)) :
    after hostOps12 W (Proc.devRef .tc main_v211)
      = pooledJoin (W (Proc.devRef .tc main_v62_1)) (W (Proc.devRef .tc main_v99_1)) (W (Proc.devRef .tc main_v136_1)) (W (Proc.devRef .tc main_v173_1)) (W (Proc.devRef .tc main_v210_1)) := by
  simp only [hostOps12]
  after_results_simp
  rfl

end Cert.KernelIdeal.Reg

end
-- ==== Proof.KI.StretchRest.lean ====
/- The kernel program's host stretches 4 to 11 read back: the stretches of layers 2 to 5. A stretch before a layer's
   first region leaves the layer's aggregated message, the same function as in layer 1 of that layer's input, and the
   layer's slices of the stacked weights and bias; a stretch between its two regions leaves the column means and
   variances, the same functions of the column sums, and the layer's gamma and beta rows. -/
import proofs.«144276_j65051574665788_2_alg».proof.Proof.Gen.KernelIdeal.Regions
import proofs.«144276_j65051574665788_2_alg».proof.Proof.KI.Stretch

noncomputable section

namespace Cert.KernelIdeal.Reg

open Cert.KernelIdeal Cert.KernelIdeal.Gen Idealize.ShloMosaic Idealize.ShloMosaic.TcCoe Idealize.SL.Sem Idealize.ShloMosaic.StableHlo

variable {F : FTy → Type} [FloatOps F]

/-! ## Stretch 4: layer 2's aggregated message and parameter slices -/

/-- A buffer stretch 4 does not write passes through it. -/
theorem hostOps4_keep (W : Valuation τ sig (Elt F)) (r : Ref sig .tc) (h : r ∉ hostOps4_W) :
    after hostOps4 W (Proc.devRef .tc r) = W (Proc.devRef .tc r) := after_of_writes_sub hostOps4 W hostOps4_writes h

set_option maxRecDepth 16384 in
set_option maxHeartbeats 4000000 in
theorem stretch4_v78 (W : Valuation τ sig (Elt F)) :
    after hostOps4 W (Proc.devRef .tc main_v78)
      = aggMsg (W (Proc.devRef .tc main_v1)) (W (Proc.devRef .tc main_v3)) (W (Proc.devRef .tc main_v62_0)) (W (Proc.devRef .tc main_arg4)) (W (Proc.devRef .tc main_v12)) (W (Proc.devRef .tc main_v24)) := by
  simp only [hostOps4]
  after_results_simp
  rfl

/-- Layer 2's left weight matrix: slice 1 of the stacked array. -/
def leftW1 (Wl : (main_arg9 : Ref sig .tc).ty.Contents (Elt F)) :
    (main_v80 : Ref sig .tc).ty.Contents (Elt F) :=
  let v79 : (main_v79 : Ref sig .tc).ty.Contents (Elt F) := (((extractStridedSlice S1x128x128 ![1, 0, 0] · slices_S5x128x128_S1x128x128_1_0_0) : (⟨S5x128x128, .f32⟩ : BufTy).Contents (Elt F) → (⟨S1x128x128, .f32⟩ : BufTy).Contents (Elt F))) Wl
  let v80 : (main_v80 : Ref sig .tc).ty.Contents (Elt F) := shapeCast (main_v80 : Ref sig .tc).ty.shape v79 shapeCasts_S1x128x128_S128x128
  v80

set_option maxRecDepth 16384 in
set_option maxHeartbeats 4000000 in
theorem stretch4_v80 (W : Valuation τ sig (Elt F)) :
    after hostOps4 W (Proc.devRef .tc main_v80)
      = leftW1 (W (Proc.devRef .tc main_arg9)) := by
  simp only [hostOps4]
  after_results_simp
  rfl

/-- Layer 2's right weight matrix: slice 1 of the stacked array. -/
def rightW1 (Wr : (main_arg11 : Ref sig .tc).ty.Contents (Elt F)) :
    (main_v82 : Ref sig .tc).ty.Contents (Elt F) :=
  let v81 : (main_v81 : Ref sig .tc).ty.Contents (Elt F) := (((extractStridedSlice S1x128x128 ![1, 0, 0] · slices_S5x128x128_S1x128x128_1_0_0) : (⟨S5x128x128, .f32⟩ : BufTy).Contents (Elt F) → (⟨S1x128x128, .f32⟩ : BufTy).Contents (Elt F))) Wr
  let v82 : (main_v82 : Ref sig .tc).ty.Contents (Elt F) := shapeCast (main_v82 : Ref sig .tc).ty.shape v81 shapeCasts_S1x128x128_S128x128
  v82

set_option maxRecDepth 16384 in
set_option maxHeartbeats 4000000 in
theorem stretch4_v82 (W : Valuation τ sig (Elt F)) :
    after hostOps4 W (Proc.devRef .tc main_v82)
      = rightW1 (W (Proc.devRef .tc main_arg11)) := by
  simp only [hostOps4]
  after_results_simp
  rfl

/-- Layer 2's bias as a row: slice 1 of the stacked array. -/
def leftBias1 (bl : (main_arg10 : Ref sig .tc).ty.Contents (Elt F)) :
    (main_v85 : Ref sig .tc).ty.Contents (Elt F) :=
  let v83 : (main_v83 : Ref sig .tc).ty.Contents (Elt F) := (((extractStridedSlice S1x128 ![1, 0] · slices_S5x128_S1x128_1_0) : (⟨S5x128, .f32⟩ : BufTy).Contents (Elt F) → (⟨S1x128, .f32⟩ : BufTy).Contents (Elt F))) bl
  let v84 : (main_v84 : Ref sig .tc).ty.Contents (Elt F) := shapeCast (main_v84 : Ref sig .tc).ty.shape v83 shapeCasts_S1x128_S128
  let v85 : (main_v85 : Ref sig .tc).ty.Contents (Elt F) := shapeCast (main_v85 : Ref sig .tc).ty.shape v84 shapeCasts_S128_S1x128
  v85

set_option maxRecDepth 16384 in
set_option maxHeartbeats 4000000 in
theorem stretch4_v85 (W : Valuation τ sig (Elt F)) :
    after hostOps4 W (Proc.devRef .tc main_v85)
      = leftBias1 (W (Proc.devRef .tc main_arg10)) := by
  simp only [hostOps4]
  after_results_simp
  rfl

/-! ## Stretch 5: layer 2's column means and variances, its gamma and beta rows -/

/-- A buffer stretch 5 does not write passes through it. -/
theorem hostOps5_keep (W : Valuation τ sig (Elt F)) (r : Ref sig .tc) (h : r ∉ hostOps5_W) :
    after hostOps5 W (Proc.devRef .tc r) = W (Proc.devRef .tc r) := after_of_writes_sub hostOps5 W hostOps5_writes h

set_option maxRecDepth 16384 in
set_option maxHeartbeats 4000000 in
theorem stretch5_v88 (W : Valuation τ sig (Elt F)) :
    after hostOps5 W (Proc.devRef .tc main_v88)
      = colMean (W (Proc.devRef .tc main_v86_1)) := by
  simp only [hostOps5]
  after_results_simp
  rfl

set_option maxRecDepth 16384 in
set_option maxHeartbeats 4000000 in
theorem stretch5_v92 (W : Valuation τ sig (Elt F)) :
    after hostOps5 W (Proc.devRef .tc main_v92)
      = colVar (W (Proc.devRef .tc main_v86_1)) (W (Proc.devRef .tc main_v86_2)) := by
  simp only [hostOps5]
  after_results_simp
  rfl

/-- Layer 2's gamma as a row: slice 1 of the stacked array. -/
def gammaRow1 (gamma : (main_arg12 : Ref sig .tc).ty.Contents (Elt F)) :
    (main_v97 : Ref sig .tc).ty.Contents (Elt F) :=
  let v93 : (main_v93 : Ref sig .tc).ty.Contents (Elt F) := (((extractStridedSlice S1x128 ![1, 0] · slices_S5x128_S1x128_1_0) : (⟨S5x128, .f32⟩ : BufTy).Contents (Elt F) → (⟨S1x128, .f32⟩ : BufTy).Contents (Elt F))) gamma
  let v94 : (main_v94 : Ref sig .tc).ty.Contents (Elt F) := shapeCast (main_v94 : Ref sig .tc).ty.shape v93 shapeCasts_S1x128_S128
  let v97 : (main_v97 : Ref sig .tc).ty.Contents (Elt F) := shapeCast (main_v97 : Ref sig .tc).ty.shape v94 shapeCasts_S128_S1x128
  v97

set_option maxRecDepth 16384 in
set_option maxHeartbeats 4000000 in
theorem stretch5_v97 (W : Valuation τ sig (Elt F)) :
    after hostOps5 W (Proc.devRef .tc main_v97)
      = gammaRow1 (W (Proc.devRef .tc main_arg12)) := by
  simp only [hostOps5]
  after_results_simp
  rfl

/-- Layer 2's beta as a row: slice 1 of the stacked array. -/
def betaRow1 (beta : (main_arg13 : Ref sig .tc).ty.Contents (Elt F)) :
    (main_v98 : Ref sig .tc).ty.Contents (Elt F) :=
  let v95 : (main_v95 : Ref sig .tc).ty.Contents (Elt F) := (((extractStridedSlice S1x128 ![1, 0] · slices_S5x128_S1x128_1_0) : (⟨S5x128, .f32⟩ : BufTy).Contents (Elt F) → (⟨S1x128, .f32⟩ : BufTy).Contents (Elt F))) beta
  let v96 : (main_v96 : Ref sig .tc).ty.Contents (Elt F) := shapeCast (main_v96 : Ref sig .tc).ty.shape v95 shapeCasts_S1x128_S128
  let v98 : (main_v98 : Ref sig .tc).ty.Contents (Elt F) := shapeCast (main_v98 : Ref sig .tc).ty.shape v96 shapeCasts_S128_S1x128
  v98

set_option maxRecDepth 16384 in
set_option maxHeartbeats 4000000 in
theorem stretch5_v98 (W : Valuation τ sig (Elt F)) :
    after hostOps5 W (Proc.devRef .tc main_v98)
      = betaRow1 (W (Proc.devRef .tc main_arg13)) := by
  simp only [hostOps5]
  after_results_simp
  rfl

/-! ## Stretch 6: layer 3's aggregated message and parameter slices -/

/-- A buffer stretch 6 does not write passes through it. -/
theorem hostOps6_keep (W : Valuation τ sig (Elt F)) (r : Ref sig .tc) (h : r ∉ hostOps6_W) :
    after hostOps6 W (Proc.devRef .tc r) = W (Proc.devRef .tc r) := after_of_writes_sub hostOps6 W hostOps6_writes h

set_option maxRecDepth 16384 in
set_option maxHeartbeats 4000000 in
theorem stretch6_v115 (W : Valuation τ sig (Elt F)) :
    after hostOps6 W (Proc.devRef .tc main_v115)
      = aggMsg (W (Proc.devRef .tc main_v1)) (W (Proc.devRef .tc main_v3)) (W (Proc.devRef .tc main_v99_0)) (W (Proc.devRef .tc main_arg4)) (W (Proc.devRef .tc main_v12)) (W (Proc.devRef .tc main_v24)) := by
  simp only [hostOps6]
  after_results_simp
  rfl

/-- Layer 3's left weight matrix: slice 2 of the stacked array. -/
def leftW2 (Wl : (main_arg9 : Ref sig .tc).ty.Contents (Elt F)) :
    (main_v117 : Ref sig .tc).ty.Contents (Elt F) :=
  let v116 : (main_v116 : Ref sig .tc).ty.Contents (Elt F) := (((extractStridedSlice S1x128x128 ![2, 0, 0] · slices_S5x128x128_S1x128x128_2_0_0) : (⟨S5x128x128, .f32⟩ : BufTy).Contents (Elt F) → (⟨S1x128x128, .f32⟩ : BufTy).Contents (Elt F))) Wl
  let v117 : (main_v117 : Ref sig .tc).ty.Contents (Elt F) := shapeCast (main_v117 : Ref sig .tc).ty.shape v116 shapeCasts_S1x128x128_S128x128
  v117

set_option maxRecDepth 16384 in
set_option maxHeartbeats 4000000 in
theorem stretch6_v117 (W : Valuation τ sig (Elt F)) :
    after hostOps6 W (Proc.devRef .tc main_v117)
      = leftW2 (W (Proc.devRef .tc main_arg9)) := by
  simp only [hostOps6]
  after_results_simp
  rfl

/-- Layer 3's right weight matrix: slice 2 of the stacked array. -/
def rightW2 (Wr : (main_arg11 : Ref sig .tc).ty.Contents (Elt F)) :
    (main_v119 : Ref sig .tc).ty.Contents (Elt F) :=
  let v118 : (main_v118 : Ref sig .tc).ty.Contents (Elt F) := (((extractStridedSlice S1x128x128 ![2, 0, 0] · slices_S5x128x128_S1x128x128_2_0_0) : (⟨S5x128x128, .f32⟩ : BufTy).Contents (Elt F) → (⟨S1x128x128, .f32⟩ : BufTy).Contents (Elt F))) Wr
  let v119 : (main_v119 : Ref sig .tc).ty.Contents (Elt F) := shapeCast (main_v119 : Ref sig .tc).ty.shape v118 shapeCasts_S1x128x128_S128x128
  v119

set_option maxRecDepth 16384 in
set_option maxHeartbeats 4000000 in
theorem stretch6_v119 (W : Valuation τ sig (Elt F)) :
    after hostOps6 W (Proc.devRef .tc main_v119)
      = rightW2 (W (Proc.devRef .tc main_arg11)) := by
  simp only [hostOps6]
  after_results_simp
  rfl

/-- Layer 3's bias as a row: slice 2 of the stacked array. -/
def leftBias2 (bl : (main_arg10 : Ref sig .tc).ty.Contents (Elt F)) :
    (main_v122 : Ref sig .tc).ty.Contents (Elt F) :=
  let v120 : (main_v120 : Ref sig .tc).ty.Contents (Elt F) := (((extractStridedSlice S1x128 ![2, 0] · slices_S5x128_S1x128_2_0) : (⟨S5x128, .f32⟩ : BufTy).Contents (Elt F) → (⟨S1x128, .f32⟩ : BufTy).Contents (Elt F))) bl
  let v121 : (main_v121 : Ref sig .tc).ty.Contents (Elt F) := shapeCast (main_v121 : Ref sig .tc).ty.shape v120 shapeCasts_S1x128_S128
  let v122 : (main_v122 : Ref sig .tc).ty.Contents (Elt F) := shapeCast (main_v122 : Ref sig .tc).ty.shape v121 shapeCasts_S128_S1x128
  v122

set_option maxRecDepth 16384 in
set_option maxHeartbeats 4000000 in
theorem stretch6_v122 (W : Valuation τ sig (Elt F)) :
    after hostOps6 W (Proc.devRef .tc main_v122)
      = leftBias2 (W (Proc.devRef .tc main_arg10)) := by
  simp only [hostOps6]
  after_results_simp
  rfl

/-! ## Stretch 7: layer 3's column means and variances, its gamma and beta rows -/

/-- A buffer stretch 7 does not write passes through it. -/
theorem hostOps7_keep (W : Valuation τ sig (Elt F)) (r : Ref sig .tc) (h : r ∉ hostOps7_W) :
    after hostOps7 W (Proc.devRef .tc r) = W (Proc.devRef .tc r) := after_of_writes_sub hostOps7 W hostOps7_writes h

set_option maxRecDepth 16384 in
set_option maxHeartbeats 4000000 in
theorem stretch7_v125 (W : Valuation τ sig (Elt F)) :
    after hostOps7 W (Proc.devRef .tc main_v125)
      = colMean (W (Proc.devRef .tc main_v123_1)) := by
  simp only [hostOps7]
  after_results_simp
  rfl

set_option maxRecDepth 16384 in
set_option maxHeartbeats 4000000 in
theorem stretch7_v129 (W : Valuation τ sig (Elt F)) :
    after hostOps7 W (Proc.devRef .tc main_v129)
      = colVar (W (Proc.devRef .tc main_v123_1)) (W (Proc.devRef .tc main_v123_2)) := by
  simp only [hostOps7]
  after_results_simp
  rfl

/-- Layer 3's gamma as a row: slice 2 of the stacked array. -/
def gammaRow2 (gamma : (main_arg12 : Ref sig .tc).ty.Contents (Elt F)) :
    (main_v134 : Ref sig .tc).ty.Contents (Elt F) :=
  let v130 : (main_v130 : Ref sig .tc).ty.Contents (Elt F) := (((extractStridedSlice S1x128 ![2, 0] · slices_S5x128_S1x128_2_0) : (⟨S5x128, .f32⟩ : BufTy).Contents (Elt F) → (⟨S1x128, .f32⟩ : BufTy).Contents (Elt F))) gamma
  let v131 : (main_v131 : Ref sig .tc).ty.Contents (Elt F) := shapeCast (main_v131 : Ref sig .tc).ty.shape v130 shapeCasts_S1x128_S128
  let v134 : (main_v134 : Ref sig .tc).ty.Contents (Elt F) := shapeCast (main_v134 : Ref sig .tc).ty.shape v131 shapeCasts_S128_S1x128
  v134

set_option maxRecDepth 16384 in
set_option maxHeartbeats 4000000 in
theorem stretch7_v134 (W : Valuation τ sig (Elt F)) :
    after hostOps7 W (Proc.devRef .tc main_v134)
      = gammaRow2 (W (Proc.devRef .tc main_arg12)) := by
  simp only [hostOps7]
  after_results_simp
  rfl

/-- Layer 3's beta as a row: slice 2 of the stacked array. -/
def betaRow2 (beta : (main_arg13 : Ref sig .tc).ty.Contents (Elt F)) :
    (main_v135 : Ref sig .tc).ty.Contents (Elt F) :=
  let v132 : (main_v132 : Ref sig .tc).ty.Contents (Elt F) := (((extractStridedSlice S1x128 ![2, 0] · slices_S5x128_S1x128_2_0) : (⟨S5x128, .f32⟩ : BufTy).Contents (Elt F) → (⟨S1x128, .f32⟩ : BufTy).Contents (Elt F))) beta
  let v133 : (main_v133 : Ref sig .tc).ty.Contents (Elt F) := shapeCast (main_v133 : Ref sig .tc).ty.shape v132 shapeCasts_S1x128_S128
  let v135 : (main_v135 : Ref sig .tc).ty.Contents (Elt F) := shapeCast (main_v135 : Ref sig .tc).ty.shape v133 shapeCasts_S128_S1x128
  v135

set_option maxRecDepth 16384 in
set_option maxHeartbeats 4000000 in
theorem stretch7_v135 (W : Valuation τ sig (Elt F)) :
    after hostOps7 W (Proc.devRef .tc main_v135)
      = betaRow2 (W (Proc.devRef .tc main_arg13)) := by
  simp only [hostOps7]
  after_results_simp
  rfl

/-! ## Stretch 8: layer 4's aggregated message and parameter slices -/

/-- A buffer stretch 8 does not write passes through it. -/
theorem hostOps8_keep (W : Valuation τ sig (Elt F)) (r : Ref sig .tc) (h : r ∉ hostOps8_W) :
    after hostOps8 W (Proc.devRef .tc r) = W (Proc.devRef .tc r) := after_of_writes_sub hostOps8 W hostOps8_writes h

set_option maxRecDepth 16384 in
set_option maxHeartbeats 4000000 in
theorem stretch8_v152 (W : Valuation τ sig (Elt F)) :
    after hostOps8 W (Proc.devRef .tc main_v152)
      = aggMsg (W (Proc.devRef .tc main_v1)) (W (Proc.devRef .tc main_v3)) (W (Proc.devRef .tc main_v136_0)) (W (Proc.devRef .tc main_arg4)) (W (Proc.devRef .tc main_v12)) (W (Proc.devRef .tc main_v24)) := by
  simp only [hostOps8]
  after_results_simp
  rfl

/-- Layer 4's left weight matrix: slice 3 of the stacked array. -/
def leftW3 (Wl : (main_arg9 : Ref sig .tc).ty.Contents (Elt F)) :
    (main_v154 : Ref sig .tc).ty.Contents (Elt F) :=
  let v153 : (main_v153 : Ref sig .tc).ty.Contents (Elt F) := (((extractStridedSlice S1x128x128 ![3, 0, 0] · slices_S5x128x128_S1x128x128_3_0_0) : (⟨S5x128x128, .f32⟩ : BufTy).Contents (Elt F) → (⟨S1x128x128, .f32⟩ : BufTy).Contents (Elt F))) Wl
  let v154 : (main_v154 : Ref sig .tc).ty.Contents (Elt F) := shapeCast (main_v154 : Ref sig .tc).ty.shape v153 shapeCasts_S1x128x128_S128x128
  v154

set_option maxRecDepth 16384 in
set_option maxHeartbeats 4000000 in
theorem stretch8_v154 (W : Valuation τ sig (Elt F)) :
    after hostOps8 W (Proc.devRef .tc main_v154)
      = leftW3 (W (Proc.devRef .tc main_arg9)) := by
  simp only [hostOps8]
  after_results_simp
  rfl

/-- Layer 4's right weight matrix: slice 3 of the stacked array. -/
def rightW3 (Wr : (main_arg11 : Ref sig .tc).ty.Contents (Elt F)) :
    (main_v156 : Ref sig .tc).ty.Contents (Elt F) :=
  let v155 : (main_v155 : Ref sig .tc).ty.Contents (Elt F) := (((extractStridedSlice S1x128x128 ![3, 0, 0] · slices_S5x128x128_S1x128x128_3_0_0) : (⟨S5x128x128, .f32⟩ : BufTy).Contents (Elt F) → (⟨S1x128x128, .f32⟩ : BufTy).Contents (Elt F))) Wr
  let v156 : (main_v156 : Ref sig .tc).ty.Contents (Elt F) := shapeCast (main_v156 : Ref sig .tc).ty.shape v155 shapeCasts_S1x128x128_S128x128
  v156

set_option maxRecDepth 16384 in
set_option maxHeartbeats 4000000 in
theorem stretch8_v156 (W : Valuation τ sig (Elt F)) :
    after hostOps8 W (Proc.devRef .tc main_v156)
      = rightW3 (W (Proc.devRef .tc main_arg11)) := by
  simp only [hostOps8]
  after_results_simp
  rfl

/-- Layer 4's bias as a row: slice 3 of the stacked array. -/
def leftBias3 (bl : (main_arg10 : Ref sig .tc).ty.Contents (Elt F)) :
    (main_v159 : Ref sig .tc).ty.Contents (Elt F) :=
  let v157 : (main_v157 : Ref sig .tc).ty.Contents (Elt F) := (((extractStridedSlice S1x128 ![3, 0] · slices_S5x128_S1x128_3_0) : (⟨S5x128, .f32⟩ : BufTy).Contents (Elt F) → (⟨S1x128, .f32⟩ : BufTy).Contents (Elt F))) bl
  let v158 : (main_v158 : Ref sig .tc).ty.Contents (Elt F) := shapeCast (main_v158 : Ref sig .tc).ty.shape v157 shapeCasts_S1x128_S128
  let v159 : (main_v159 : Ref sig .tc).ty.Contents (Elt F) := shapeCast (main_v159 : Ref sig .tc).ty.shape v158 shapeCasts_S128_S1x128
  v159

set_option maxRecDepth 16384 in
set_option maxHeartbeats 4000000 in
theorem stretch8_v159 (W : Valuation τ sig (Elt F)) :
    after hostOps8 W (Proc.devRef .tc main_v159)
      = leftBias3 (W (Proc.devRef .tc main_arg10)) := by
  simp only [hostOps8]
  after_results_simp
  rfl

/-! ## Stretch 9: layer 4's column means and variances, its gamma and beta rows -/

/-- A buffer stretch 9 does not write passes through it. -/
theorem hostOps9_keep (W : Valuation τ sig (Elt F)) (r : Ref sig .tc) (h : r ∉ hostOps9_W) :
    after hostOps9 W (Proc.devRef .tc r) = W (Proc.devRef .tc r) := after_of_writes_sub hostOps9 W hostOps9_writes h

set_option maxRecDepth 16384 in
set_option maxHeartbeats 4000000 in
theorem stretch9_v162 (W : Valuation τ sig (Elt F)) :
    after hostOps9 W (Proc.devRef .tc main_v162)
      = colMean (W (Proc.devRef .tc main_v160_1)) := by
  simp only [hostOps9]
  after_results_simp
  rfl

set_option maxRecDepth 16384 in
set_option maxHeartbeats 4000000 in
theorem stretch9_v166 (W : Valuation τ sig (Elt F)) :
    after hostOps9 W (Proc.devRef .tc main_v166)
      = colVar (W (Proc.devRef .tc main_v160_1)) (W (Proc.devRef .tc main_v160_2)) := by
  simp only [hostOps9]
  after_results_simp
  rfl

/-- Layer 4's gamma as a row: slice 3 of the stacked array. -/
def gammaRow3 (gamma : (main_arg12 : Ref sig .tc).ty.Contents (Elt F)) :
    (main_v171 : Ref sig .tc).ty.Contents (Elt F) :=
  let v167 : (main_v167 : Ref sig .tc).ty.Contents (Elt F) := (((extractStridedSlice S1x128 ![3, 0] · slices_S5x128_S1x128_3_0) : (⟨S5x128, .f32⟩ : BufTy).Contents (Elt F) → (⟨S1x128, .f32⟩ : BufTy).Contents (Elt F))) gamma
  let v168 : (main_v168 : Ref sig .tc).ty.Contents (Elt F) := shapeCast (main_v168 : Ref sig .tc).ty.shape v167 shapeCasts_S1x128_S128
  let v171 : (main_v171 : Ref sig .tc).ty.Contents (Elt F) := shapeCast (main_v171 : Ref sig .tc).ty.shape v168 shapeCasts_S128_S1x128
  v171

set_option maxRecDepth 16384 in
set_option maxHeartbeats 4000000 in
theorem stretch9_v171 (W : Valuation τ sig (Elt F)) :
    after hostOps9 W (Proc.devRef .tc main_v171)
      = gammaRow3 (W (Proc.devRef .tc main_arg12)) := by
  simp only [hostOps9]
  after_results_simp
  rfl

/-- Layer 4's beta as a row: slice 3 of the stacked array. -/
def betaRow3 (beta : (main_arg13 : Ref sig .tc).ty.Contents (Elt F)) :
    (main_v172 : Ref sig .tc).ty.Contents (Elt F) :=
  let v169 : (main_v169 : Ref sig .tc).ty.Contents (Elt F) := (((extractStridedSlice S1x128 ![3, 0] · slices_S5x128_S1x128_3_0) : (⟨S5x128, .f32⟩ : BufTy).Contents (Elt F) → (⟨S1x128, .f32⟩ : BufTy).Contents (Elt F))) beta
  let v170 : (main_v170 : Ref sig .tc).ty.Contents (Elt F) := shapeCast (main_v170 : Ref sig .tc).ty.shape v169 shapeCasts_S1x128_S128
  let v172 : (main_v172 : Ref sig .tc).ty.Contents (Elt F) := shapeCast (main_v172 : Ref sig .tc).ty.shape v170 shapeCasts_S128_S1x128
  v172

set_option maxRecDepth 16384 in
set_option maxHeartbeats 4000000 in
theorem stretch9_v172 (W : Valuation τ sig (Elt F)) :
    after hostOps9 W (Proc.devRef .tc main_v172)
      = betaRow3 (W (Proc.devRef .tc main_arg13)) := by
  simp only [hostOps9]
  after_results_simp
  rfl

/-! ## Stretch 10: layer 5's aggregated message and parameter slices -/

/-- A buffer stretch 10 does not write passes through it. -/
theorem hostOps10_keep (W : Valuation τ sig (Elt F)) (r : Ref sig .tc) (h : r ∉ hostOps10_W) :
    after hostOps10 W (Proc.devRef .tc r) = W (Proc.devRef .tc r) := after_of_writes_sub hostOps10 W hostOps10_writes h

set_option maxRecDepth 16384 in
set_option maxHeartbeats 4000000 in
theorem stretch10_v189 (W : Valuation τ sig (Elt F)) :
    after hostOps10 W (Proc.devRef .tc main_v189)
      = aggMsg (W (Proc.devRef .tc main_v1)) (W (Proc.devRef .tc main_v3)) (W (Proc.devRef .tc main_v173_0)) (W (Proc.devRef .tc main_arg4)) (W (Proc.devRef .tc main_v12)) (W (Proc.devRef .tc main_v24)) := by
  simp only [hostOps10]
  after_results_simp
  rfl

/-- Layer 5's left weight matrix: slice 4 of the stacked array. -/
def leftW4 (Wl : (main_arg9 : Ref sig .tc).ty.Contents (Elt F)) :
    (main_v191 : Ref sig .tc).ty.Contents (Elt F) :=
  let v190 : (main_v190 : Ref sig .tc).ty.Contents (Elt F) := (((extractStridedSlice S1x128x128 ![4, 0, 0] · slices_S5x128x128_S1x128x128_4_0_0) : (⟨S5x128x128, .f32⟩ : BufTy).Contents (Elt F) → (⟨S1x128x128, .f32⟩ : BufTy).Contents (Elt F))) Wl
  let v191 : (main_v191 : Ref sig .tc).ty.Contents (Elt F) := shapeCast (main_v191 : Ref sig .tc).ty.shape v190 shapeCasts_S1x128x128_S128x128
  v191

set_option maxRecDepth 16384 in
set_option maxHeartbeats 4000000 in
theorem stretch10_v191 (W : Valuation τ sig (Elt F)) :
    after hostOps10 W (Proc.devRef .tc main_v191)
      = leftW4 (W (Proc.devRef .tc main_arg9)) := by
  simp only [hostOps10]
  after_results_simp
  rfl

/-- Layer 5's right weight matrix: slice 4 of the stacked array. -/
def rightW4 (Wr : (main_arg11 : Ref sig .tc).ty.Contents (Elt F)) :
    (main_v193 : Ref sig .tc).ty.Contents (Elt F) :=
  let v192 : (main_v192 : Ref sig .tc).ty.Contents (Elt F) := (((extractStridedSlice S1x128x128 ![4, 0, 0] · slices_S5x128x128_S1x128x128_4_0_0) : (⟨S5x128x128, .f32⟩ : BufTy).Contents (Elt F) → (⟨S1x128x128, .f32⟩ : BufTy).Contents (Elt F))) Wr
  let v193 : (main_v193 : Ref sig .tc).ty.Contents (Elt F) := shapeCast (main_v193 : Ref sig .tc).ty.shape v192 shapeCasts_S1x128x128_S128x128
  v193

set_option maxRecDepth 16384 in
set_option maxHeartbeats 4000000 in
theorem stretch10_v193 (W : Valuation τ sig (Elt F)) :
    after hostOps10 W (Proc.devRef .tc main_v193)
      = rightW4 (W (Proc.devRef .tc main_arg11)) := by
  simp only [hostOps10]
  after_results_simp
  rfl

/-- Layer 5's bias as a row: slice 4 of the stacked array. -/
def leftBias4 (bl : (main_arg10 : Ref sig .tc).ty.Contents (Elt F)) :
    (main_v196 : Ref sig .tc).ty.Contents (Elt F) :=
  let v194 : (main_v194 : Ref sig .tc).ty.Contents (Elt F) := (((extractStridedSlice S1x128 ![4, 0] · slices_S5x128_S1x128_4_0) : (⟨S5x128, .f32⟩ : BufTy).Contents (Elt F) → (⟨S1x128, .f32⟩ : BufTy).Contents (Elt F))) bl
  let v195 : (main_v195 : Ref sig .tc).ty.Contents (Elt F) := shapeCast (main_v195 : Ref sig .tc).ty.shape v194 shapeCasts_S1x128_S128
  let v196 : (main_v196 : Ref sig .tc).ty.Contents (Elt F) := shapeCast (main_v196 : Ref sig .tc).ty.shape v195 shapeCasts_S128_S1x128
  v196

set_option maxRecDepth 16384 in
set_option maxHeartbeats 4000000 in
theorem stretch10_v196 (W : Valuation τ sig (Elt F)) :
    after hostOps10 W (Proc.devRef .tc main_v196)
      = leftBias4 (W (Proc.devRef .tc main_arg10)) := by
  simp only [hostOps10]
  after_results_simp
  rfl

/-! ## Stretch 11: layer 5's column means and variances, its gamma and beta rows -/

/-- A buffer stretch 11 does not write passes through it. -/
theorem hostOps11_keep (W : Valuation τ sig (Elt F)) (r : Ref sig .tc) (h : r ∉ hostOps11_W) :
    after hostOps11 W (Proc.devRef .tc r) = W (Proc.devRef .tc r) := after_of_writes_sub hostOps11 W hostOps11_writes h

set_option maxRecDepth 16384 in
set_option maxHeartbeats 4000000 in
theorem stretch11_v199 (W : Valuation τ sig (Elt F)) :
    after hostOps11 W (Proc.devRef .tc main_v199)
      = colMean (W (Proc.devRef .tc main_v197_1)) := by
  simp only [hostOps11]
  after_results_simp
  rfl

set_option maxRecDepth 16384 in
set_option maxHeartbeats 4000000 in
theorem stretch11_v203 (W : Valuation τ sig (Elt F)) :
    after hostOps11 W (Proc.devRef .tc main_v203)
      = colVar (W (Proc.devRef .tc main_v197_1)) (W (Proc.devRef .tc main_v197_2)) := by
  simp only [hostOps11]
  after_results_simp
  rfl

/-- Layer 5's gamma as a row: slice 4 of the stacked array. -/
def gammaRow4 (gamma : (main_arg12 : Ref sig .tc).ty.Contents (Elt F)) :
    (main_v208 : Ref sig .tc).ty.Contents (Elt F) :=
  let v204 : (main_v204 : Ref sig .tc).ty.Contents (Elt F) := (((extractStridedSlice S1x128 ![4, 0] · slices_S5x128_S1x128_4_0) : (⟨S5x128, .f32⟩ : BufTy).Contents (Elt F) → (⟨S1x128, .f32⟩ : BufTy).Contents (Elt F))) gamma
  let v205 : (main_v205 : Ref sig .tc).ty.Contents (Elt F) := shapeCast (main_v205 : Ref sig .tc).ty.shape v204 shapeCasts_S1x128_S128
  let v208 : (main_v208 : Ref sig .tc).ty.Contents (Elt F) := shapeCast (main_v208 : Ref sig .tc).ty.shape v205 shapeCasts_S128_S1x128
  v208

set_option maxRecDepth 16384 in
set_option maxHeartbeats 4000000 in
theorem stretch11_v208 (W : Valuation τ sig (Elt F)) :
    after hostOps11 W (Proc.devRef .tc main_v208)
      = gammaRow4 (W (Proc.devRef .tc main_arg12)) := by
  simp only [hostOps11]
  after_results_simp
  rfl

/-- Layer 5's beta as a row: slice 4 of the stacked array. -/
def betaRow4 (beta : (main_arg13 : Ref sig .tc).ty.Contents (Elt F)) :
    (main_v209 : Ref sig .tc).ty.Contents (Elt F) :=
  let v206 : (main_v206 : Ref sig .tc).ty.Contents (Elt F) := (((extractStridedSlice S1x128 ![4, 0] · slices_S5x128_S1x128_4_0) : (⟨S5x128, .f32⟩ : BufTy).Contents (Elt F) → (⟨S1x128, .f32⟩ : BufTy).Contents (Elt F))) beta
  let v207 : (main_v207 : Ref sig .tc).ty.Contents (Elt F) := shapeCast (main_v207 : Ref sig .tc).ty.shape v206 shapeCasts_S1x128_S128
  let v209 : (main_v209 : Ref sig .tc).ty.Contents (Elt F) := shapeCast (main_v209 : Ref sig .tc).ty.shape v207 shapeCasts_S128_S1x128
  v209

set_option maxRecDepth 16384 in
set_option maxHeartbeats 4000000 in
theorem stretch11_v209 (W : Valuation τ sig (Elt F)) :
    after hostOps11 W (Proc.devRef .tc main_v209)
      = betaRow4 (W (Proc.devRef .tc main_arg13)) := by
  simp only [hostOps11]
  after_results_simp
  rfl

end Cert.KernelIdeal.Reg

end
-- ==== Proof.KI.KChain.lean ====
/- The idealized kernel program's buffers as functions of the launch contents. Following the chain item by item: a stretch
   leaves in each buffer it writes the stretch's function of the buffers it reads (Proof/KI/Stretch.lean, StretchRest.lean)
   and every other buffer as it was; a region leaves in each output array that array's whole-array function of its entry
   arrays (Proof/KI/Val0.lean … Val11.lean) and every other buffer — its input arrays too — as it was. Composed: the encoded
   nodes, the edge projection, and per layer the aggregated message, the node array before the batch norm with its two column
   sums, the column statistics, the normalised array and its per-graph sums, all as nested functions of the arguments; the
   program's results are the last layer's normalised array and the five arrays of per-graph sums joined. -/
import proofs.«144276_j65051574665788_2_alg».proof.Proof.KI.Val0
import proofs.«144276_j65051574665788_2_alg».proof.Proof.KI.Val1
import proofs.«144276_j65051574665788_2_alg».proof.Proof.KI.Val2
import proofs.«144276_j65051574665788_2_alg».proof.Proof.KI.Val3
import proofs.«144276_j65051574665788_2_alg».proof.Proof.KI.Val4
import proofs.«144276_j65051574665788_2_alg».proof.Proof.KI.Val5
import proofs.«144276_j65051574665788_2_alg».proof.Proof.KI.Val6
import proofs.«144276_j65051574665788_2_alg».proof.Proof.KI.Val7
import proofs.«144276_j65051574665788_2_alg».proof.Proof.KI.Val8
import proofs.«144276_j65051574665788_2_alg».proof.Proof.KI.Val9
import proofs.«144276_j65051574665788_2_alg».proof.Proof.KI.Val10
import proofs.«144276_j65051574665788_2_alg».proof.Proof.KI.Val11
import proofs.«144276_j65051574665788_2_alg».proof.Proof.KI.Stretch
import proofs.«144276_j65051574665788_2_alg».proof.Proof.KI.StretchRest
import proofs.«144276_j65051574665788_2_alg».proof.Proof.KI.FrameOf

set_option maxRecDepth 16384

noncomputable section

namespace Cert.KernelIdeal.Asm

open Cert.KernelIdeal Cert.KernelIdeal.Gen Cert.KernelIdeal.Reg
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (c : Dev nD)

/-- A buffer that is no output array of region 0 holds after the region what it held before. -/
theorem keepR0 (r : Ref sig .tc) (h : ∀ w, (cfg0.win w).isOut = true → Pipeline.arrRef spec0 w ≠ r) :
    W2 m half0 c (Proc.devRef .tc r) = W1 m c (Proc.devRef .tc r) := by
  by_cases hr : ∃ w, Pipeline.arrRef spec0 w = r
  · obtain ⟨w, rfl⟩ := hr
    have hw : (cfg0.win w).isOut = false := by
      cases hio : (cfg0.win w).isOut with
      | false => rfl
      | true => exact absurd rfl (h w hio)
    exact W2_in m half0 c w hw
  · exact W2_of_ne m half0 c r (fun w e => hr ⟨w, e⟩)
/-- The half's proof data is the region's. -/
theorem half0_dat (V : Contents Ideal) : half0.dat V c = Cert.KernelIdeal.Reg.dat0 (F := Ideal) V c := rfl
/-- A buffer that is no output array of region 1 holds after the region what it held before. -/
theorem keepR1 (r : Ref sig .tc) (h : ∀ w, (cfg1.win w).isOut = true → Pipeline.arrRef spec1 w ≠ r) :
    W4 m half0 half1 c (Proc.devRef .tc r) = W3 m half0 c (Proc.devRef .tc r) := by
  by_cases hr : ∃ w, Pipeline.arrRef spec1 w = r
  · obtain ⟨w, rfl⟩ := hr
    have hw : (cfg1.win w).isOut = false := by
      cases hio : (cfg1.win w).isOut with
      | false => rfl
      | true => exact absurd rfl (h w hio)
    exact W4_in m half0 half1 c w hw
  · exact W4_of_ne m half0 half1 c r (fun w e => hr ⟨w, e⟩)
/-- The half's proof data is the region's. -/
theorem half1_dat (V : Contents Ideal) : half1.dat V c = Cert.KernelIdeal.Reg.dat1 (F := Ideal) V c := rfl
/-- A buffer that is no output array of region 2 holds after the region what it held before. -/
theorem keepR2 (r : Ref sig .tc) (h : ∀ w, (cfg2.win w).isOut = true → Pipeline.arrRef spec2 w ≠ r) :
    W6 m half0 half1 half2 c (Proc.devRef .tc r) = W5 m half0 half1 c (Proc.devRef .tc r) := by
  by_cases hr : ∃ w, Pipeline.arrRef spec2 w = r
  · obtain ⟨w, rfl⟩ := hr
    have hw : (cfg2.win w).isOut = false := by
      cases hio : (cfg2.win w).isOut with
      | false => rfl
      | true => exact absurd rfl (h w hio)
    exact W6_in m half0 half1 half2 c w hw
  · exact W6_of_ne m half0 half1 half2 c r (fun w e => hr ⟨w, e⟩)
/-- The half's proof data is the region's. -/
theorem half2_dat (V : Contents Ideal) : half2.dat V c = Cert.KernelIdeal.Reg.dat2 (F := Ideal) V c := rfl
/-- A buffer that is no output array of region 3 holds after the region what it held before. -/
theorem keepR3 (r : Ref sig .tc) (h : ∀ w, (cfg3.win w).isOut = true → Pipeline.arrRef spec3 w ≠ r) :
    W8 m half0 half1 half2 half3 c (Proc.devRef .tc r) = W7 m half0 half1 half2 c (Proc.devRef .tc r) := by
  by_cases hr : ∃ w, Pipeline.arrRef spec3 w = r
  · obtain ⟨w, rfl⟩ := hr
    have hw : (cfg3.win w).isOut = false := by
      cases hio : (cfg3.win w).isOut with
      | false => rfl
      | true => exact absurd rfl (h w hio)
    exact W8_in m half0 half1 half2 half3 c w hw
  · exact W8_of_ne m half0 half1 half2 half3 c r (fun w e => hr ⟨w, e⟩)
/-- The half's proof data is the region's. -/
theorem half3_dat (V : Contents Ideal) : half3.dat V c = Cert.KernelIdeal.Reg.dat3 (F := Ideal) V c := rfl
/-- A buffer that is no output array of region 4 holds after the region what it held before. -/
theorem keepR4 (r : Ref sig .tc) (h : ∀ w, (cfg4.win w).isOut = true → Pipeline.arrRef spec4 w ≠ r) :
    W10 m half0 half1 half2 half3 half4 c (Proc.devRef .tc r) = W9 m half0 half1 half2 half3 c (Proc.devRef .tc r) := by
  by_cases hr : ∃ w, Pipeline.arrRef spec4 w = r
  · obtain ⟨w, rfl⟩ := hr
    have hw : (cfg4.win w).isOut = false := by
      cases hio : (cfg4.win w).isOut with
      | false => rfl
      | true => exact absurd rfl (h w hio)
    exact W10_in m half0 half1 half2 half3 half4 c w hw
  · exact W10_of_ne m half0 half1 half2 half3 half4 c r (fun w e => hr ⟨w, e⟩)
/-- The half's proof data is the region's. -/
theorem half4_dat (V : Contents Ideal) : half4.dat V c = Cert.KernelIdeal.Reg.dat4 (F := Ideal) V c := rfl
/-- A buffer that is no output array of region 5 holds after the region what it held before. -/
theorem keepR5 (r : Ref sig .tc) (h : ∀ w, (cfg5.win w).isOut = true → Pipeline.arrRef spec5 w ≠ r) :
    W12 m half0 half1 half2 half3 half4 half5 c (Proc.devRef .tc r) = W11 m half0 half1 half2 half3 half4 c (Proc.devRef .tc r) := by
  by_cases hr : ∃ w, Pipeline.arrRef spec5 w = r
  · obtain ⟨w, rfl⟩ := hr
    have hw : (cfg5.win w).isOut = false := by
      cases hio : (cfg5.win w).isOut with
      | false => rfl
      | true => exact absurd rfl (h w hio)
    exact W12_in m half0 half1 half2 half3 half4 half5 c w hw
  · exact W12_of_ne m half0 half1 half2 half3 half4 half5 c r (fun w e => hr ⟨w, e⟩)
/-- The half's proof data is the region's. -/
theorem half5_dat (V : Contents Ideal) : half5.dat V c = Cert.KernelIdeal.Reg.dat5 (F := Ideal) V c := rfl
/-- A buffer that is no output array of region 6 holds after the region what it held before. -/
theorem keepR6 (r : Ref sig .tc) (h : ∀ w, (cfg6.win w).isOut = true → Pipeline.arrRef spec6 w ≠ r) :
    W14 m half0 half1 half2 half3 half4 half5 half6 c (Proc.devRef .tc r) = W13 m half0 half1 half2 half3 half4 half5 c (Proc.devRef .tc r) := by
  by_cases hr : ∃ w, Pipeline.arrRef spec6 w = r
  · obtain ⟨w, rfl⟩ := hr
    have hw : (cfg6.win w).isOut = false := by
      cases hio : (cfg6.win w).isOut with
      | false => rfl
      | true => exact absurd rfl (h w hio)
    exact W14_in m half0 half1 half2 half3 half4 half5 half6 c w hw
  · exact W14_of_ne m half0 half1 half2 half3 half4 half5 half6 c r (fun w e => hr ⟨w, e⟩)
/-- The half's proof data is the region's. -/
theorem half6_dat (V : Contents Ideal) : half6.dat V c = Cert.KernelIdeal.Reg.dat6 (F := Ideal) V c := rfl
/-- A buffer that is no output array of region 7 holds after the region what it held before. -/
theorem keepR7 (r : Ref sig .tc) (h : ∀ w, (cfg7.win w).isOut = true → Pipeline.arrRef spec7 w ≠ r) :
    W16 m half0 half1 half2 half3 half4 half5 half6 half7 c (Proc.devRef .tc r) = W15 m half0 half1 half2 half3 half4 half5 half6 c (Proc.devRef .tc r) := by
  by_cases hr : ∃ w, Pipeline.arrRef spec7 w = r
  · obtain ⟨w, rfl⟩ := hr
    have hw : (cfg7.win w).isOut = false := by
      cases hio : (cfg7.win w).isOut with
      | false => rfl
      | true => exact absurd rfl (h w hio)
    exact W16_in m half0 half1 half2 half3 half4 half5 half6 half7 c w hw
  · exact W16_of_ne m half0 half1 half2 half3 half4 half5 half6 half7 c r (fun w e => hr ⟨w, e⟩)
/-- The half's proof data is the region's. -/
theorem half7_dat (V : Contents Ideal) : half7.dat V c = Cert.KernelIdeal.Reg.dat7 (F := Ideal) V c := rfl
/-- A buffer that is no output array of region 8 holds after the region what it held before. -/
theorem keepR8 (r : Ref sig .tc) (h : ∀ w, (cfg8.win w).isOut = true → Pipeline.arrRef spec8 w ≠ r) :
    W18 m half0 half1 half2 half3 half4 half5 half6 half7 half8 c (Proc.devRef .tc r) = W17 m half0 half1 half2 half3 half4 half5 half6 half7 c (Proc.devRef .tc r) := by
  by_cases hr : ∃ w, Pipeline.arrRef spec8 w = r
  · obtain ⟨w, rfl⟩ := hr
    have hw : (cfg8.win w).isOut = false := by
      cases hio : (cfg8.win w).isOut with
      | false => rfl
      | true => exact absurd rfl (h w hio)
    exact W18_in m half0 half1 half2 half3 half4 half5 half6 half7 half8 c w hw
  · exact W18_of_ne m half0 half1 half2 half3 half4 half5 half6 half7 half8 c r (fun w e => hr ⟨w, e⟩)
/-- The half's proof data is the region's. -/
theorem half8_dat (V : Contents Ideal) : half8.dat V c = Cert.KernelIdeal.Reg.dat8 (F := Ideal) V c := rfl
/-- A buffer that is no output array of region 9 holds after the region what it held before. -/
theorem keepR9 (r : Ref sig .tc) (h : ∀ w, (cfg9.win w).isOut = true → Pipeline.arrRef spec9 w ≠ r) :
    W20 m half0 half1 half2 half3 half4 half5 half6 half7 half8 half9 c (Proc.devRef .tc r) = W19 m half0 half1 half2 half3 half4 half5 half6 half7 half8 c (Proc.devRef .tc r) := by
  by_cases hr : ∃ w, Pipeline.arrRef spec9 w = r
  · obtain ⟨w, rfl⟩ := hr
    have hw : (cfg9.win w).isOut = false := by
      cases hio : (cfg9.win w).isOut with
      | false => rfl
      | true => exact absurd rfl (h w hio)
    exact W20_in m half0 half1 half2 half3 half4 half5 half6 half7 half8 half9 c w hw
  · exact W20_of_ne m half0 half1 half2 half3 half4 half5 half6 half7 half8 half9 c r (fun w e => hr ⟨w, e⟩)
/-- The half's proof data is the region's. -/
theorem half9_dat (V : Contents Ideal) : half9.dat V c = Cert.KernelIdeal.Reg.dat9 (F := Ideal) V c := rfl
/-- A buffer that is no output array of region 10 holds after the region what it held before. -/
theorem keepR10 (r : Ref sig .tc) (h : ∀ w, (cfg10.win w).isOut = true → Pipeline.arrRef spec10 w ≠ r) :
    W22 m half0 half1 half2 half3 half4 half5 half6 half7 half8 half9 half10 c (Proc.devRef .tc r) = W21 m half0 half1 half2 half3 half4 half5 half6 half7 half8 half9 c (Proc.devRef .tc r) := by
  by_cases hr : ∃ w, Pipeline.arrRef spec10 w = r
  · obtain ⟨w, rfl⟩ := hr
    have hw : (cfg10.win w).isOut = false := by
      cases hio : (cfg10.win w).isOut with
      | false => rfl
      | true => exact absurd rfl (h w hio)
    exact W22_in m half0 half1 half2 half3 half4 half5 half6 half7 half8 half9 half10 c w hw
  · exact W22_of_ne m half0 half1 half2 half3 half4 half5 half6 half7 half8 half9 half10 c r (fun w e => hr ⟨w, e⟩)
/-- The half's proof data is the region's. -/
theorem half10_dat (V : Contents Ideal) : half10.dat V c = Cert.KernelIdeal.Reg.dat10 (F := Ideal) V c := rfl
/-- A buffer that is no output array of region 11 holds after the region what it held before. -/
theorem keepR11 (r : Ref sig .tc) (h : ∀ w, (cfg11.win w).isOut = true → Pipeline.arrRef spec11 w ≠ r) :
    W24 m half0 half1 half2 half3 half4 half5 half6 half7 half8 half9 half10 half11 c (Proc.devRef .tc r) = W23 m half0 half1 half2 half3 half4 half5 half6 half7 half8 half9 half10 c (Proc.devRef .tc r) := by
  by_cases hr : ∃ w, Pipeline.arrRef spec11 w = r
  · obtain ⟨w, rfl⟩ := hr
    have hw : (cfg11.win w).isOut = false := by
      cases hio : (cfg11.win w).isOut with
      | false => rfl
      | true => exact absurd rfl (h w hio)
    exact W24_in m half0 half1 half2 half3 half4 half5 half6 half7 half8 half9 half10 half11 c w hw
  · exact W24_of_ne m half0 half1 half2 half3 half4 half5 half6 half7 half8 half9 half10 half11 c r (fun w e => hr ⟨w, e⟩)
/-- The half's proof data is the region's. -/
theorem half11_dat (V : Contents Ideal) : half11.dat V c = Cert.KernelIdeal.Reg.dat11 (F := Ideal) V c := rfl

/-! ## The nested functions of the launch contents -/

def kSrc : (main_v1 : Ref sig .tc).ty.Contents (Elt Ideal) := srcRow (F := Ideal) (W0 m c (Proc.devRef .tc main_arg2))
def kDst : (main_v3 : Ref sig .tc).ty.Contents (Elt Ideal) := dstRow (F := Ideal) (W0 m c (Proc.devRef .tc main_arg2))
def kBa : (main_v4 : Ref sig .tc).ty.Contents (Elt Ideal) := atomBiasRow (F := Ideal) (W0 m c (Proc.devRef .tc main_arg6))
def kH0 : (main_v5 : Ref sig .tc).ty.Contents (Elt Ideal) := encAtoms (W0 m c (Proc.devRef .tc main_arg1)) (W0 m c (Proc.devRef .tc main_arg5)) (kBa m c)
def kDen : (main_v12 : Ref sig .tc).ty.Contents (Elt Ideal) := denomCol (F := Ideal) (kDst m c)
def kEw : (main_v16 : Ref sig .tc).ty.Contents (Elt Ideal) := ewSumCol (F := Ideal) (kDst m c) (W0 m c (Proc.devRef .tc main_arg4))
def kEa : (main_v22 : Ref sig .tc).ty.Contents (Elt Ideal) := eaSum (F := Ideal) (kDst m c) (W0 m c (Proc.devRef .tc main_arg3)) (W0 m c (Proc.devRef .tc main_arg4))
def kBb : (main_v23 : Ref sig .tc).ty.Contents (Elt Ideal) := bondBiasRow (F := Ideal) (W0 m c (Proc.devRef .tc main_arg8))
def kAggE : (main_v24 : Ref sig .tc).ty.Contents (Elt Ideal) := projEdges (kEa m c) (W0 m c (Proc.devRef .tc main_arg7)) (kEw m c) (kBb m c) (kDen m c)
def kBatch : (main_v25 : Ref sig .tc).ty.Contents (Elt Ideal) := graphCol (F := Ideal) (W0 m c (Proc.devRef .tc main_arg0))
def kAgg0 : (main_v41 : Ref sig .tc).ty.Contents (Elt Ideal) := aggMsg (F := Ideal) (kSrc m c) (kDst m c) (kH0 m c) (W0 m c (Proc.devRef .tc main_arg4)) (kDen m c) (kAggE m c)
def kWl0 : (main_v43 : Ref sig .tc).ty.Contents (Elt Ideal) := leftW0 (F := Ideal) (W0 m c (Proc.devRef .tc main_arg9))
def kWr0 : (main_v45 : Ref sig .tc).ty.Contents (Elt Ideal) := rightW0 (F := Ideal) (W0 m c (Proc.devRef .tc main_arg11))
def kBl0 : (main_v48 : Ref sig .tc).ty.Contents (Elt Ideal) := leftBias0 (F := Ideal) (W0 m c (Proc.devRef .tc main_arg10))
def kZ0 : (main_v49_0 : Ref sig .tc).ty.Contents (Elt Ideal) := ltOut (kAgg0 m c) (kH0 m c) (kWl0 m c) (kWr0 m c) (kBl0 m c)
def kMu0 : (main_v51 : Ref sig .tc).ty.Contents (Elt Ideal) := colMean (F := Ideal) (ltSum (kZ0 m c))
def kVar0 : (main_v55 : Ref sig .tc).ty.Contents (Elt Ideal) := colVar (F := Ideal) (ltSum (kZ0 m c)) (ltSumSq (kZ0 m c))
def kG0 : (main_v60 : Ref sig .tc).ty.Contents (Elt Ideal) := gammaRow0 (F := Ideal) (W0 m c (Proc.devRef .tc main_arg12))
def kBt0 : (main_v61 : Ref sig .tc).ty.Contents (Elt Ideal) := betaRow0 (F := Ideal) (W0 m c (Proc.devRef .tc main_arg13))
def kH1 : (main_v62_0 : Ref sig .tc).ty.Contents (Elt Ideal) := bnOut (kZ0 m c) (kMu0 m c) (kVar0 m c) (kG0 m c) (kBt0 m c)
def kPool0 : (main_v62_1 : Ref sig .tc).ty.Contents (Elt Ideal) := bnPool (kBatch m c) (kH1 m c)
def kAgg1 : (main_v78 : Ref sig .tc).ty.Contents (Elt Ideal) := aggMsg (F := Ideal) (kSrc m c) (kDst m c) (kH1 m c) (W0 m c (Proc.devRef .tc main_arg4)) (kDen m c) (kAggE m c)
def kWl1 : (main_v80 : Ref sig .tc).ty.Contents (Elt Ideal) := leftW1 (F := Ideal) (W0 m c (Proc.devRef .tc main_arg9))
def kWr1 : (main_v82 : Ref sig .tc).ty.Contents (Elt Ideal) := rightW1 (F := Ideal) (W0 m c (Proc.devRef .tc main_arg11))
def kBl1 : (main_v85 : Ref sig .tc).ty.Contents (Elt Ideal) := leftBias1 (F := Ideal) (W0 m c (Proc.devRef .tc main_arg10))
def kZ1 : (main_v86_0 : Ref sig .tc).ty.Contents (Elt Ideal) := ltOut (kAgg1 m c) (kH1 m c) (kWl1 m c) (kWr1 m c) (kBl1 m c)
def kMu1 : (main_v88 : Ref sig .tc).ty.Contents (Elt Ideal) := colMean (F := Ideal) (ltSum (kZ1 m c))
def kVar1 : (main_v92 : Ref sig .tc).ty.Contents (Elt Ideal) := colVar (F := Ideal) (ltSum (kZ1 m c)) (ltSumSq (kZ1 m c))
def kG1 : (main_v97 : Ref sig .tc).ty.Contents (Elt Ideal) := gammaRow1 (F := Ideal) (W0 m c (Proc.devRef .tc main_arg12))
def kBt1 : (main_v98 : Ref sig .tc).ty.Contents (Elt Ideal) := betaRow1 (F := Ideal) (W0 m c (Proc.devRef .tc main_arg13))
def kH2 : (main_v99_0 : Ref sig .tc).ty.Contents (Elt Ideal) := bnOut (kZ1 m c) (kMu1 m c) (kVar1 m c) (kG1 m c) (kBt1 m c)
def kPool1 : (main_v99_1 : Ref sig .tc).ty.Contents (Elt Ideal) := bnPool (kBatch m c) (kH2 m c)
def kAgg2 : (main_v115 : Ref sig .tc).ty.Contents (Elt Ideal) := aggMsg (F := Ideal) (kSrc m c) (kDst m c) (kH2 m c) (W0 m c (Proc.devRef .tc main_arg4)) (kDen m c) (kAggE m c)
def kWl2 : (main_v117 : Ref sig .tc).ty.Contents (Elt Ideal) := leftW2 (F := Ideal) (W0 m c (Proc.devRef .tc main_arg9))
def kWr2 : (main_v119 : Ref sig .tc).ty.Contents (Elt Ideal) := rightW2 (F := Ideal) (W0 m c (Proc.devRef .tc main_arg11))
def kBl2 : (main_v122 : Ref sig .tc).ty.Contents (Elt Ideal) := leftBias2 (F := Ideal) (W0 m c (Proc.devRef .tc main_arg10))
def kZ2 : (main_v123_0 : Ref sig .tc).ty.Contents (Elt Ideal) := ltOut (kAgg2 m c) (kH2 m c) (kWl2 m c) (kWr2 m c) (kBl2 m c)
def kMu2 : (main_v125 : Ref sig .tc).ty.Contents (Elt Ideal) := colMean (F := Ideal) (ltSum (kZ2 m c))
def kVar2 : (main_v129 : Ref sig .tc).ty.Contents (Elt Ideal) := colVar (F := Ideal) (ltSum (kZ2 m c)) (ltSumSq (kZ2 m c))
def kG2 : (main_v134 : Ref sig .tc).ty.Contents (Elt Ideal) := gammaRow2 (F := Ideal) (W0 m c (Proc.devRef .tc main_arg12))
def kBt2 : (main_v135 : Ref sig .tc).ty.Contents (Elt Ideal) := betaRow2 (F := Ideal) (W0 m c (Proc.devRef .tc main_arg13))
def kH3 : (main_v136_0 : Ref sig .tc).ty.Contents (Elt Ideal) := bnOut (kZ2 m c) (kMu2 m c) (kVar2 m c) (kG2 m c) (kBt2 m c)
def kPool2 : (main_v136_1 : Ref sig .tc).ty.Contents (Elt Ideal) := bnPool (kBatch m c) (kH3 m c)
def kAgg3 : (main_v152 : Ref sig .tc).ty.Contents (Elt Ideal) := aggMsg (F := Ideal) (kSrc m c) (kDst m c) (kH3 m c) (W0 m c (Proc.devRef .tc main_arg4)) (kDen m c) (kAggE m c)
def kWl3 : (main_v154 : Ref sig .tc).ty.Contents (Elt Ideal) := leftW3 (F := Ideal) (W0 m c (Proc.devRef .tc main_arg9))
def kWr3 : (main_v156 : Ref sig .tc).ty.Contents (Elt Ideal) := rightW3 (F := Ideal) (W0 m c (Proc.devRef .tc main_arg11))
def kBl3 : (main_v159 : Ref sig .tc).ty.Contents (Elt Ideal) := leftBias3 (F := Ideal) (W0 m c (Proc.devRef .tc main_arg10))
def kZ3 : (main_v160_0 : Ref sig .tc).ty.Contents (Elt Ideal) := ltOut (kAgg3 m c) (kH3 m c) (kWl3 m c) (kWr3 m c) (kBl3 m c)
def kMu3 : (main_v162 : Ref sig .tc).ty.Contents (Elt Ideal) := colMean (F := Ideal) (ltSum (kZ3 m c))
def kVar3 : (main_v166 : Ref sig .tc).ty.Contents (Elt Ideal) := colVar (F := Ideal) (ltSum (kZ3 m c)) (ltSumSq (kZ3 m c))
def kG3 : (main_v171 : Ref sig .tc).ty.Contents (Elt Ideal) := gammaRow3 (F := Ideal) (W0 m c (Proc.devRef .tc main_arg12))
def kBt3 : (main_v172 : Ref sig .tc).ty.Contents (Elt Ideal) := betaRow3 (F := Ideal) (W0 m c (Proc.devRef .tc main_arg13))
def kH4 : (main_v173_0 : Ref sig .tc).ty.Contents (Elt Ideal) := bnOut (kZ3 m c) (kMu3 m c) (kVar3 m c) (kG3 m c) (kBt3 m c)
def kPool3 : (main_v173_1 : Ref sig .tc).ty.Contents (Elt Ideal) := bnPool (kBatch m c) (kH4 m c)
def kAgg4 : (main_v189 : Ref sig .tc).ty.Contents (Elt Ideal) := aggMsg (F := Ideal) (kSrc m c) (kDst m c) (kH4 m c) (W0 m c (Proc.devRef .tc main_arg4)) (kDen m c) (kAggE m c)
def kWl4 : (main_v191 : Ref sig .tc).ty.Contents (Elt Ideal) := leftW4 (F := Ideal) (W0 m c (Proc.devRef .tc main_arg9))
def kWr4 : (main_v193 : Ref sig .tc).ty.Contents (Elt Ideal) := rightW4 (F := Ideal) (W0 m c (Proc.devRef .tc main_arg11))
def kBl4 : (main_v196 : Ref sig .tc).ty.Contents (Elt Ideal) := leftBias4 (F := Ideal) (W0 m c (Proc.devRef .tc main_arg10))
def kZ4 : (main_v197_0 : Ref sig .tc).ty.Contents (Elt Ideal) := ltOut (kAgg4 m c) (kH4 m c) (kWl4 m c) (kWr4 m c) (kBl4 m c)
def kMu4 : (main_v199 : Ref sig .tc).ty.Contents (Elt Ideal) := colMean (F := Ideal) (ltSum (kZ4 m c))
def kVar4 : (main_v203 : Ref sig .tc).ty.Contents (Elt Ideal) := colVar (F := Ideal) (ltSum (kZ4 m c)) (ltSumSq (kZ4 m c))
def kG4 : (main_v208 : Ref sig .tc).ty.Contents (Elt Ideal) := gammaRow4 (F := Ideal) (W0 m c (Proc.devRef .tc main_arg12))
def kBt4 : (main_v209 : Ref sig .tc).ty.Contents (Elt Ideal) := betaRow4 (F := Ideal) (W0 m c (Proc.devRef .tc main_arg13))
def kH5 : (main_v210_0 : Ref sig .tc).ty.Contents (Elt Ideal) := bnOutLast (kZ4 m c) (kMu4 m c) (kVar4 m c) (kG4 m c) (kBt4 m c)
def kPool4 : (main_v210_1 : Ref sig .tc).ty.Contents (Elt Ideal) := bnPool (kBatch m c) (kH5 m c)

/-! ## The chain, item by item -/

theorem k1_arg0 : W1 m c (Proc.devRef .tc main_arg0) = W0 m c (Proc.devRef .tc main_arg0) := (hostOps0_keep (W0 m c) main_arg0 (by decide)).trans rfl
theorem k1_arg1 : W1 m c (Proc.devRef .tc main_arg1) = W0 m c (Proc.devRef .tc main_arg1) := (hostOps0_keep (W0 m c) main_arg1 (by decide)).trans rfl
theorem k1_arg3 : W1 m c (Proc.devRef .tc main_arg3) = W0 m c (Proc.devRef .tc main_arg3) := (hostOps0_keep (W0 m c) main_arg3 (by decide)).trans rfl
theorem k1_arg4 : W1 m c (Proc.devRef .tc main_arg4) = W0 m c (Proc.devRef .tc main_arg4) := (hostOps0_keep (W0 m c) main_arg4 (by decide)).trans rfl
theorem k1_arg5 : W1 m c (Proc.devRef .tc main_arg5) = W0 m c (Proc.devRef .tc main_arg5) := (hostOps0_keep (W0 m c) main_arg5 (by decide)).trans rfl
theorem k1_arg7 : W1 m c (Proc.devRef .tc main_arg7) = W0 m c (Proc.devRef .tc main_arg7) := (hostOps0_keep (W0 m c) main_arg7 (by decide)).trans rfl
theorem k1_arg8 : W1 m c (Proc.devRef .tc main_arg8) = W0 m c (Proc.devRef .tc main_arg8) := (hostOps0_keep (W0 m c) main_arg8 (by decide)).trans rfl
theorem k1_arg9 : W1 m c (Proc.devRef .tc main_arg9) = W0 m c (Proc.devRef .tc main_arg9) := (hostOps0_keep (W0 m c) main_arg9 (by decide)).trans rfl
theorem k1_arg10 : W1 m c (Proc.devRef .tc main_arg10) = W0 m c (Proc.devRef .tc main_arg10) := (hostOps0_keep (W0 m c) main_arg10 (by decide)).trans rfl
theorem k1_arg11 : W1 m c (Proc.devRef .tc main_arg11) = W0 m c (Proc.devRef .tc main_arg11) := (hostOps0_keep (W0 m c) main_arg11 (by decide)).trans rfl
theorem k1_arg12 : W1 m c (Proc.devRef .tc main_arg12) = W0 m c (Proc.devRef .tc main_arg12) := (hostOps0_keep (W0 m c) main_arg12 (by decide)).trans rfl
theorem k1_arg13 : W1 m c (Proc.devRef .tc main_arg13) = W0 m c (Proc.devRef .tc main_arg13) := (hostOps0_keep (W0 m c) main_arg13 (by decide)).trans rfl
theorem k1_v1 : W1 m c (Proc.devRef .tc main_v1) = kSrc m c := by
  have h := stretch0_v1 (W0 m c)
  exact h
theorem k1_v3 : W1 m c (Proc.devRef .tc main_v3) = kDst m c := by
  have h := stretch0_v3 (W0 m c)
  exact h
theorem k1_v4 : W1 m c (Proc.devRef .tc main_v4) = kBa m c := by
  have h := stretch0_v4 (W0 m c)
  exact h
theorem k2_arg0 : W2 m half0 c (Proc.devRef .tc main_arg0) = W0 m c (Proc.devRef .tc main_arg0) := (keepR0 m c main_arg0 (by decide)).trans (k1_arg0 m c)
theorem k2_arg3 : W2 m half0 c (Proc.devRef .tc main_arg3) = W0 m c (Proc.devRef .tc main_arg3) := (keepR0 m c main_arg3 (by decide)).trans (k1_arg3 m c)
theorem k2_arg4 : W2 m half0 c (Proc.devRef .tc main_arg4) = W0 m c (Proc.devRef .tc main_arg4) := (keepR0 m c main_arg4 (by decide)).trans (k1_arg4 m c)
theorem k2_arg7 : W2 m half0 c (Proc.devRef .tc main_arg7) = W0 m c (Proc.devRef .tc main_arg7) := (keepR0 m c main_arg7 (by decide)).trans (k1_arg7 m c)
theorem k2_arg8 : W2 m half0 c (Proc.devRef .tc main_arg8) = W0 m c (Proc.devRef .tc main_arg8) := (keepR0 m c main_arg8 (by decide)).trans (k1_arg8 m c)
theorem k2_arg9 : W2 m half0 c (Proc.devRef .tc main_arg9) = W0 m c (Proc.devRef .tc main_arg9) := (keepR0 m c main_arg9 (by decide)).trans (k1_arg9 m c)
theorem k2_arg10 : W2 m half0 c (Proc.devRef .tc main_arg10) = W0 m c (Proc.devRef .tc main_arg10) := (keepR0 m c main_arg10 (by decide)).trans (k1_arg10 m c)
theorem k2_arg11 : W2 m half0 c (Proc.devRef .tc main_arg11) = W0 m c (Proc.devRef .tc main_arg11) := (keepR0 m c main_arg11 (by decide)).trans (k1_arg11 m c)
theorem k2_arg12 : W2 m half0 c (Proc.devRef .tc main_arg12) = W0 m c (Proc.devRef .tc main_arg12) := (keepR0 m c main_arg12 (by decide)).trans (k1_arg12 m c)
theorem k2_arg13 : W2 m half0 c (Proc.devRef .tc main_arg13) = W0 m c (Proc.devRef .tc main_arg13) := (keepR0 m c main_arg13 (by decide)).trans (k1_arg13 m c)
theorem k2_v1 : W2 m half0 c (Proc.devRef .tc main_v1) = kSrc m c := (keepR0 m c main_v1 (by decide)).trans (k1_v1 m c)
theorem k2_v3 : W2 m half0 c (Proc.devRef .tc main_v3) = kDst m c := (keepR0 m c main_v3 (by decide)).trans (k1_v3 m c)
theorem k2_v5 : W2 m half0 c (Proc.devRef .tc main_v5) = kH0 m c := by
  have h0 := W2_arr m half0 c ⟨3, by decide⟩
  rw [half0_dat c] at h0
  have h := h0.trans (value0 (X1 m) c)
  simp only [X1] at h
  rw [k1_arg1 m c, k1_arg5 m c, k1_v4 m c] at h
  exact h
theorem k3_arg0 : W3 m half0 c (Proc.devRef .tc main_arg0) = W0 m c (Proc.devRef .tc main_arg0) := (hostOps1_keep (W2 m half0 c) main_arg0 (by decide)).trans (k2_arg0 m c)
theorem k3_arg4 : W3 m half0 c (Proc.devRef .tc main_arg4) = W0 m c (Proc.devRef .tc main_arg4) := (hostOps1_keep (W2 m half0 c) main_arg4 (by decide)).trans (k2_arg4 m c)
theorem k3_arg7 : W3 m half0 c (Proc.devRef .tc main_arg7) = W0 m c (Proc.devRef .tc main_arg7) := (hostOps1_keep (W2 m half0 c) main_arg7 (by decide)).trans (k2_arg7 m c)
theorem k3_arg9 : W3 m half0 c (Proc.devRef .tc main_arg9) = W0 m c (Proc.devRef .tc main_arg9) := (hostOps1_keep (W2 m half0 c) main_arg9 (by decide)).trans (k2_arg9 m c)
theorem k3_arg10 : W3 m half0 c (Proc.devRef .tc main_arg10) = W0 m c (Proc.devRef .tc main_arg10) := (hostOps1_keep (W2 m half0 c) main_arg10 (by decide)).trans (k2_arg10 m c)
theorem k3_arg11 : W3 m half0 c (Proc.devRef .tc main_arg11) = W0 m c (Proc.devRef .tc main_arg11) := (hostOps1_keep (W2 m half0 c) main_arg11 (by decide)).trans (k2_arg11 m c)
theorem k3_arg12 : W3 m half0 c (Proc.devRef .tc main_arg12) = W0 m c (Proc.devRef .tc main_arg12) := (hostOps1_keep (W2 m half0 c) main_arg12 (by decide)).trans (k2_arg12 m c)
theorem k3_arg13 : W3 m half0 c (Proc.devRef .tc main_arg13) = W0 m c (Proc.devRef .tc main_arg13) := (hostOps1_keep (W2 m half0 c) main_arg13 (by decide)).trans (k2_arg13 m c)
theorem k3_v1 : W3 m half0 c (Proc.devRef .tc main_v1) = kSrc m c := (hostOps1_keep (W2 m half0 c) main_v1 (by decide)).trans (k2_v1 m c)
theorem k3_v3 : W3 m half0 c (Proc.devRef .tc main_v3) = kDst m c := (hostOps1_keep (W2 m half0 c) main_v3 (by decide)).trans (k2_v3 m c)
theorem k3_v5 : W3 m half0 c (Proc.devRef .tc main_v5) = kH0 m c := (hostOps1_keep (W2 m half0 c) main_v5 (by decide)).trans (k2_v5 m c)
theorem k3_v12 : W3 m half0 c (Proc.devRef .tc main_v12) = kDen m c := by
  have h := stretch1_v12 (W2 m half0 c)
  rw [k2_v3 m c] at h
  exact h
theorem k3_v16 : W3 m half0 c (Proc.devRef .tc main_v16) = kEw m c := by
  have h := stretch1_v16 (W2 m half0 c)
  rw [k2_v3 m c, k2_arg4 m c] at h
  exact h
theorem k3_v22 : W3 m half0 c (Proc.devRef .tc main_v22) = kEa m c := by
  have h := stretch1_v22 (W2 m half0 c)
  rw [k2_v3 m c, k2_arg3 m c, k2_arg4 m c] at h
  exact h
theorem k3_v23 : W3 m half0 c (Proc.devRef .tc main_v23) = kBb m c := by
  have h := stretch1_v23 (W2 m half0 c)
  rw [k2_arg8 m c] at h
  exact h
theorem k4_arg0 : W4 m half0 half1 c (Proc.devRef .tc main_arg0) = W0 m c (Proc.devRef .tc main_arg0) := (keepR1 m c main_arg0 (by decide)).trans (k3_arg0 m c)
theorem k4_arg4 : W4 m half0 half1 c (Proc.devRef .tc main_arg4) = W0 m c (Proc.devRef .tc main_arg4) := (keepR1 m c main_arg4 (by decide)).trans (k3_arg4 m c)
theorem k4_arg9 : W4 m half0 half1 c (Proc.devRef .tc main_arg9) = W0 m c (Proc.devRef .tc main_arg9) := (keepR1 m c main_arg9 (by decide)).trans (k3_arg9 m c)
theorem k4_arg10 : W4 m half0 half1 c (Proc.devRef .tc main_arg10) = W0 m c (Proc.devRef .tc main_arg10) := (keepR1 m c main_arg10 (by decide)).trans (k3_arg10 m c)
theorem k4_arg11 : W4 m half0 half1 c (Proc.devRef .tc main_arg11) = W0 m c (Proc.devRef .tc main_arg11) := (keepR1 m c main_arg11 (by decide)).trans (k3_arg11 m c)
theorem k4_arg12 : W4 m half0 half1 c (Proc.devRef .tc main_arg12) = W0 m c (Proc.devRef .tc main_arg12) := (keepR1 m c main_arg12 (by decide)).trans (k3_arg12 m c)
theorem k4_arg13 : W4 m half0 half1 c (Proc.devRef .tc main_arg13) = W0 m c (Proc.devRef .tc main_arg13) := (keepR1 m c main_arg13 (by decide)).trans (k3_arg13 m c)
theorem k4_v1 : W4 m half0 half1 c (Proc.devRef .tc main_v1) = kSrc m c := (keepR1 m c main_v1 (by decide)).trans (k3_v1 m c)
theorem k4_v3 : W4 m half0 half1 c (Proc.devRef .tc main_v3) = kDst m c := (keepR1 m c main_v3 (by decide)).trans (k3_v3 m c)
theorem k4_v5 : W4 m half0 half1 c (Proc.devRef .tc main_v5) = kH0 m c := (keepR1 m c main_v5 (by decide)).trans (k3_v5 m c)
theorem k4_v12 : W4 m half0 half1 c (Proc.devRef .tc main_v12) = kDen m c := (keepR1 m c main_v12 (by decide)).trans (k3_v12 m c)
theorem k4_v24 : W4 m half0 half1 c (Proc.devRef .tc main_v24) = kAggE m c := by
  have h0 := W4_arr m half0 half1 c ⟨5, by decide⟩
  rw [half1_dat c] at h0
  have h := h0.trans (value1 (X3 m half0) c)
  simp only [X3] at h
  rw [k3_v22 m c, k3_arg7 m c, k3_v16 m c, k3_v23 m c, k3_v12 m c] at h
  exact h
theorem k5_arg4 : W5 m half0 half1 c (Proc.devRef .tc main_arg4) = W0 m c (Proc.devRef .tc main_arg4) := (hostOps2_keep (W4 m half0 half1 c) main_arg4 (by decide)).trans (k4_arg4 m c)
theorem k5_arg9 : W5 m half0 half1 c (Proc.devRef .tc main_arg9) = W0 m c (Proc.devRef .tc main_arg9) := (hostOps2_keep (W4 m half0 half1 c) main_arg9 (by decide)).trans (k4_arg9 m c)
theorem k5_arg10 : W5 m half0 half1 c (Proc.devRef .tc main_arg10) = W0 m c (Proc.devRef .tc main_arg10) := (hostOps2_keep (W4 m half0 half1 c) main_arg10 (by decide)).trans (k4_arg10 m c)
theorem k5_arg11 : W5 m half0 half1 c (Proc.devRef .tc main_arg11) = W0 m c (Proc.devRef .tc main_arg11) := (hostOps2_keep (W4 m half0 half1 c) main_arg11 (by decide)).trans (k4_arg11 m c)
theorem k5_arg12 : W5 m half0 half1 c (Proc.devRef .tc main_arg12) = W0 m c (Proc.devRef .tc main_arg12) := (hostOps2_keep (W4 m half0 half1 c) main_arg12 (by decide)).trans (k4_arg12 m c)
theorem k5_arg13 : W5 m half0 half1 c (Proc.devRef .tc main_arg13) = W0 m c (Proc.devRef .tc main_arg13) := (hostOps2_keep (W4 m half0 half1 c) main_arg13 (by decide)).trans (k4_arg13 m c)
theorem k5_v1 : W5 m half0 half1 c (Proc.devRef .tc main_v1) = kSrc m c := (hostOps2_keep (W4 m half0 half1 c) main_v1 (by decide)).trans (k4_v1 m c)
theorem k5_v3 : W5 m half0 half1 c (Proc.devRef .tc main_v3) = kDst m c := (hostOps2_keep (W4 m half0 half1 c) main_v3 (by decide)).trans (k4_v3 m c)
theorem k5_v5 : W5 m half0 half1 c (Proc.devRef .tc main_v5) = kH0 m c := (hostOps2_keep (W4 m half0 half1 c) main_v5 (by decide)).trans (k4_v5 m c)
theorem k5_v12 : W5 m half0 half1 c (Proc.devRef .tc main_v12) = kDen m c := (hostOps2_keep (W4 m half0 half1 c) main_v12 (by decide)).trans (k4_v12 m c)
theorem k5_v24 : W5 m half0 half1 c (Proc.devRef .tc main_v24) = kAggE m c := (hostOps2_keep (W4 m half0 half1 c) main_v24 (by decide)).trans (k4_v24 m c)
theorem k5_v25 : W5 m half0 half1 c (Proc.devRef .tc main_v25) = kBatch m c := by
  have h := stretch2_v25 (W4 m half0 half1 c)
  rw [k4_arg0 m c] at h
  exact h
theorem k5_v41 : W5 m half0 half1 c (Proc.devRef .tc main_v41) = kAgg0 m c := by
  have h := stretch2_v41 (W4 m half0 half1 c)
  rw [k4_v1 m c, k4_v3 m c, k4_v5 m c, k4_arg4 m c, k4_v12 m c, k4_v24 m c] at h
  exact h
theorem k5_v43 : W5 m half0 half1 c (Proc.devRef .tc main_v43) = kWl0 m c := by
  have h := stretch2_v43 (W4 m half0 half1 c)
  rw [k4_arg9 m c] at h
  exact h
theorem k5_v45 : W5 m half0 half1 c (Proc.devRef .tc main_v45) = kWr0 m c := by
  have h := stretch2_v45 (W4 m half0 half1 c)
  rw [k4_arg11 m c] at h
  exact h
theorem k5_v48 : W5 m half0 half1 c (Proc.devRef .tc main_v48) = kBl0 m c := by
  have h := stretch2_v48 (W4 m half0 half1 c)
  rw [k4_arg10 m c] at h
  exact h
theorem k6_arg4 : W6 m half0 half1 half2 c (Proc.devRef .tc main_arg4) = W0 m c (Proc.devRef .tc main_arg4) := (keepR2 m c main_arg4 (by decide)).trans (k5_arg4 m c)
theorem k6_arg9 : W6 m half0 half1 half2 c (Proc.devRef .tc main_arg9) = W0 m c (Proc.devRef .tc main_arg9) := (keepR2 m c main_arg9 (by decide)).trans (k5_arg9 m c)
theorem k6_arg10 : W6 m half0 half1 half2 c (Proc.devRef .tc main_arg10) = W0 m c (Proc.devRef .tc main_arg10) := (keepR2 m c main_arg10 (by decide)).trans (k5_arg10 m c)
theorem k6_arg11 : W6 m half0 half1 half2 c (Proc.devRef .tc main_arg11) = W0 m c (Proc.devRef .tc main_arg11) := (keepR2 m c main_arg11 (by decide)).trans (k5_arg11 m c)
theorem k6_arg12 : W6 m half0 half1 half2 c (Proc.devRef .tc main_arg12) = W0 m c (Proc.devRef .tc main_arg12) := (keepR2 m c main_arg12 (by decide)).trans (k5_arg12 m c)
theorem k6_arg13 : W6 m half0 half1 half2 c (Proc.devRef .tc main_arg13) = W0 m c (Proc.devRef .tc main_arg13) := (keepR2 m c main_arg13 (by decide)).trans (k5_arg13 m c)
theorem k6_v1 : W6 m half0 half1 half2 c (Proc.devRef .tc main_v1) = kSrc m c := (keepR2 m c main_v1 (by decide)).trans (k5_v1 m c)
theorem k6_v3 : W6 m half0 half1 half2 c (Proc.devRef .tc main_v3) = kDst m c := (keepR2 m c main_v3 (by decide)).trans (k5_v3 m c)
theorem k6_v12 : W6 m half0 half1 half2 c (Proc.devRef .tc main_v12) = kDen m c := (keepR2 m c main_v12 (by decide)).trans (k5_v12 m c)
theorem k6_v24 : W6 m half0 half1 half2 c (Proc.devRef .tc main_v24) = kAggE m c := (keepR2 m c main_v24 (by decide)).trans (k5_v24 m c)
theorem k6_v25 : W6 m half0 half1 half2 c (Proc.devRef .tc main_v25) = kBatch m c := (keepR2 m c main_v25 (by decide)).trans (k5_v25 m c)
theorem k6_v49_0 : W6 m half0 half1 half2 c (Proc.devRef .tc main_v49_0) = kZ0 m c := by
  have h0 := W6_arr m half0 half1 half2 c ⟨5, by decide⟩
  rw [half2_dat c] at h0
  have h := h0.trans (value2_o (X5 m half0 half1) c)
  simp only [X5] at h
  rw [k5_v41 m c, k5_v5 m c, k5_v43 m c, k5_v45 m c, k5_v48 m c] at h
  exact h
theorem k6_v49_1 : W6 m half0 half1 half2 c (Proc.devRef .tc main_v49_1) = ltSum (kZ0 m c) := by
  have h0 := W6_arr m half0 half1 half2 c ⟨6, by decide⟩
  rw [half2_dat c] at h0
  have h := h0.trans (value2_sum (X5 m half0 half1) c)
  simp only [X5] at h
  rw [k5_v41 m c, k5_v5 m c, k5_v43 m c, k5_v45 m c, k5_v48 m c] at h
  exact h
theorem k6_v49_2 : W6 m half0 half1 half2 c (Proc.devRef .tc main_v49_2) = ltSumSq (kZ0 m c) := by
  have h0 := W6_arr m half0 half1 half2 c ⟨7, by decide⟩
  rw [half2_dat c] at h0
  have h := h0.trans (value2_sumsq (X5 m half0 half1) c)
  simp only [X5] at h
  rw [k5_v41 m c, k5_v5 m c, k5_v43 m c, k5_v45 m c, k5_v48 m c] at h
  exact h
theorem k7_arg4 : W7 m half0 half1 half2 c (Proc.devRef .tc main_arg4) = W0 m c (Proc.devRef .tc main_arg4) := (hostOps3_keep (W6 m half0 half1 half2 c) main_arg4 (by decide)).trans (k6_arg4 m c)
theorem k7_arg9 : W7 m half0 half1 half2 c (Proc.devRef .tc main_arg9) = W0 m c (Proc.devRef .tc main_arg9) := (hostOps3_keep (W6 m half0 half1 half2 c) main_arg9 (by decide)).trans (k6_arg9 m c)
theorem k7_arg10 : W7 m half0 half1 half2 c (Proc.devRef .tc main_arg10) = W0 m c (Proc.devRef .tc main_arg10) := (hostOps3_keep (W6 m half0 half1 half2 c) main_arg10 (by decide)).trans (k6_arg10 m c)
theorem k7_arg11 : W7 m half0 half1 half2 c (Proc.devRef .tc main_arg11) = W0 m c (Proc.devRef .tc main_arg11) := (hostOps3_keep (W6 m half0 half1 half2 c) main_arg11 (by decide)).trans (k6_arg11 m c)
theorem k7_arg12 : W7 m half0 half1 half2 c (Proc.devRef .tc main_arg12) = W0 m c (Proc.devRef .tc main_arg12) := (hostOps3_keep (W6 m half0 half1 half2 c) main_arg12 (by decide)).trans (k6_arg12 m c)
theorem k7_arg13 : W7 m half0 half1 half2 c (Proc.devRef .tc main_arg13) = W0 m c (Proc.devRef .tc main_arg13) := (hostOps3_keep (W6 m half0 half1 half2 c) main_arg13 (by decide)).trans (k6_arg13 m c)
theorem k7_v1 : W7 m half0 half1 half2 c (Proc.devRef .tc main_v1) = kSrc m c := (hostOps3_keep (W6 m half0 half1 half2 c) main_v1 (by decide)).trans (k6_v1 m c)
theorem k7_v3 : W7 m half0 half1 half2 c (Proc.devRef .tc main_v3) = kDst m c := (hostOps3_keep (W6 m half0 half1 half2 c) main_v3 (by decide)).trans (k6_v3 m c)
theorem k7_v12 : W7 m half0 half1 half2 c (Proc.devRef .tc main_v12) = kDen m c := (hostOps3_keep (W6 m half0 half1 half2 c) main_v12 (by decide)).trans (k6_v12 m c)
theorem k7_v24 : W7 m half0 half1 half2 c (Proc.devRef .tc main_v24) = kAggE m c := (hostOps3_keep (W6 m half0 half1 half2 c) main_v24 (by decide)).trans (k6_v24 m c)
theorem k7_v25 : W7 m half0 half1 half2 c (Proc.devRef .tc main_v25) = kBatch m c := (hostOps3_keep (W6 m half0 half1 half2 c) main_v25 (by decide)).trans (k6_v25 m c)
theorem k7_v49_0 : W7 m half0 half1 half2 c (Proc.devRef .tc main_v49_0) = kZ0 m c := (hostOps3_keep (W6 m half0 half1 half2 c) main_v49_0 (by decide)).trans (k6_v49_0 m c)
theorem k7_v51 : W7 m half0 half1 half2 c (Proc.devRef .tc main_v51) = kMu0 m c := by
  have h := stretch3_v51 (W6 m half0 half1 half2 c)
  rw [k6_v49_1 m c] at h
  exact h
theorem k7_v55 : W7 m half0 half1 half2 c (Proc.devRef .tc main_v55) = kVar0 m c := by
  have h := stretch3_v55 (W6 m half0 half1 half2 c)
  rw [k6_v49_1 m c, k6_v49_2 m c] at h
  exact h
theorem k7_v60 : W7 m half0 half1 half2 c (Proc.devRef .tc main_v60) = kG0 m c := by
  have h := stretch3_v60 (W6 m half0 half1 half2 c)
  rw [k6_arg12 m c] at h
  exact h
theorem k7_v61 : W7 m half0 half1 half2 c (Proc.devRef .tc main_v61) = kBt0 m c := by
  have h := stretch3_v61 (W6 m half0 half1 half2 c)
  rw [k6_arg13 m c] at h
  exact h
theorem k8_arg4 : W8 m half0 half1 half2 half3 c (Proc.devRef .tc main_arg4) = W0 m c (Proc.devRef .tc main_arg4) := (keepR3 m c main_arg4 (by decide)).trans (k7_arg4 m c)
theorem k8_arg9 : W8 m half0 half1 half2 half3 c (Proc.devRef .tc main_arg9) = W0 m c (Proc.devRef .tc main_arg9) := (keepR3 m c main_arg9 (by decide)).trans (k7_arg9 m c)
theorem k8_arg10 : W8 m half0 half1 half2 half3 c (Proc.devRef .tc main_arg10) = W0 m c (Proc.devRef .tc main_arg10) := (keepR3 m c main_arg10 (by decide)).trans (k7_arg10 m c)
theorem k8_arg11 : W8 m half0 half1 half2 half3 c (Proc.devRef .tc main_arg11) = W0 m c (Proc.devRef .tc main_arg11) := (keepR3 m c main_arg11 (by decide)).trans (k7_arg11 m c)
theorem k8_arg12 : W8 m half0 half1 half2 half3 c (Proc.devRef .tc main_arg12) = W0 m c (Proc.devRef .tc main_arg12) := (keepR3 m c main_arg12 (by decide)).trans (k7_arg12 m c)
theorem k8_arg13 : W8 m half0 half1 half2 half3 c (Proc.devRef .tc main_arg13) = W0 m c (Proc.devRef .tc main_arg13) := (keepR3 m c main_arg13 (by decide)).trans (k7_arg13 m c)
theorem k8_v1 : W8 m half0 half1 half2 half3 c (Proc.devRef .tc main_v1) = kSrc m c := (keepR3 m c main_v1 (by decide)).trans (k7_v1 m c)
theorem k8_v3 : W8 m half0 half1 half2 half3 c (Proc.devRef .tc main_v3) = kDst m c := (keepR3 m c main_v3 (by decide)).trans (k7_v3 m c)
theorem k8_v12 : W8 m half0 half1 half2 half3 c (Proc.devRef .tc main_v12) = kDen m c := (keepR3 m c main_v12 (by decide)).trans (k7_v12 m c)
theorem k8_v24 : W8 m half0 half1 half2 half3 c (Proc.devRef .tc main_v24) = kAggE m c := (keepR3 m c main_v24 (by decide)).trans (k7_v24 m c)
theorem k8_v25 : W8 m half0 half1 half2 half3 c (Proc.devRef .tc main_v25) = kBatch m c := (keepR3 m c main_v25 (by decide)).trans (k7_v25 m c)
theorem k8_v62_0 : W8 m half0 half1 half2 half3 c (Proc.devRef .tc main_v62_0) = kH1 m c := by
  have h0 := W8_arr m half0 half1 half2 half3 c ⟨6, by decide⟩
  rw [half3_dat c] at h0
  have h := h0.trans (value3_y (X7 m half0 half1 half2) c)
  simp only [X7] at h
  rw [k7_v49_0 m c, k7_v51 m c, k7_v55 m c, k7_v60 m c, k7_v61 m c] at h
  exact h
theorem k8_v62_1 : W8 m half0 half1 half2 half3 c (Proc.devRef .tc main_v62_1) = kPool0 m c := by
  have h0 := W8_arr m half0 half1 half2 half3 c ⟨7, by decide⟩
  rw [half3_dat c] at h0
  have h := h0.trans (value3_pool (X7 m half0 half1 half2) c)
  simp only [X7] at h
  rw [k7_v25 m c, k7_v49_0 m c, k7_v51 m c, k7_v55 m c, k7_v60 m c, k7_v61 m c] at h
  exact h
theorem k9_arg4 : W9 m half0 half1 half2 half3 c (Proc.devRef .tc main_arg4) = W0 m c (Proc.devRef .tc main_arg4) := (hostOps4_keep (W8 m half0 half1 half2 half3 c) main_arg4 (by decide)).trans (k8_arg4 m c)
theorem k9_arg9 : W9 m half0 half1 half2 half3 c (Proc.devRef .tc main_arg9) = W0 m c (Proc.devRef .tc main_arg9) := (hostOps4_keep (W8 m half0 half1 half2 half3 c) main_arg9 (by decide)).trans (k8_arg9 m c)
theorem k9_arg10 : W9 m half0 half1 half2 half3 c (Proc.devRef .tc main_arg10) = W0 m c (Proc.devRef .tc main_arg10) := (hostOps4_keep (W8 m half0 half1 half2 half3 c) main_arg10 (by decide)).trans (k8_arg10 m c)
theorem k9_arg11 : W9 m half0 half1 half2 half3 c (Proc.devRef .tc main_arg11) = W0 m c (Proc.devRef .tc main_arg11) := (hostOps4_keep (W8 m half0 half1 half2 half3 c) main_arg11 (by decide)).trans (k8_arg11 m c)
theorem k9_arg12 : W9 m half0 half1 half2 half3 c (Proc.devRef .tc main_arg12) = W0 m c (Proc.devRef .tc main_arg12) := (hostOps4_keep (W8 m half0 half1 half2 half3 c) main_arg12 (by decide)).trans (k8_arg12 m c)
theorem k9_arg13 : W9 m half0 half1 half2 half3 c (Proc.devRef .tc main_arg13) = W0 m c (Proc.devRef .tc main_arg13) := (hostOps4_keep (W8 m half0 half1 half2 half3 c) main_arg13 (by decide)).trans (k8_arg13 m c)
theorem k9_v1 : W9 m half0 half1 half2 half3 c (Proc.devRef .tc main_v1) = kSrc m c := (hostOps4_keep (W8 m half0 half1 half2 half3 c) main_v1 (by decide)).trans (k8_v1 m c)
theorem k9_v3 : W9 m half0 half1 half2 half3 c (Proc.devRef .tc main_v3) = kDst m c := (hostOps4_keep (W8 m half0 half1 half2 half3 c) main_v3 (by decide)).trans (k8_v3 m c)
theorem k9_v12 : W9 m half0 half1 half2 half3 c (Proc.devRef .tc main_v12) = kDen m c := (hostOps4_keep (W8 m half0 half1 half2 half3 c) main_v12 (by decide)).trans (k8_v12 m c)
theorem k9_v24 : W9 m half0 half1 half2 half3 c (Proc.devRef .tc main_v24) = kAggE m c := (hostOps4_keep (W8 m half0 half1 half2 half3 c) main_v24 (by decide)).trans (k8_v24 m c)
theorem k9_v25 : W9 m half0 half1 half2 half3 c (Proc.devRef .tc main_v25) = kBatch m c := (hostOps4_keep (W8 m half0 half1 half2 half3 c) main_v25 (by decide)).trans (k8_v25 m c)
theorem k9_v62_0 : W9 m half0 half1 half2 half3 c (Proc.devRef .tc main_v62_0) = kH1 m c := (hostOps4_keep (W8 m half0 half1 half2 half3 c) main_v62_0 (by decide)).trans (k8_v62_0 m c)
theorem k9_v62_1 : W9 m half0 half1 half2 half3 c (Proc.devRef .tc main_v62_1) = kPool0 m c := (hostOps4_keep (W8 m half0 half1 half2 half3 c) main_v62_1 (by decide)).trans (k8_v62_1 m c)
theorem k9_v78 : W9 m half0 half1 half2 half3 c (Proc.devRef .tc main_v78) = kAgg1 m c := by
  have h := stretch4_v78 (W8 m half0 half1 half2 half3 c)
  rw [k8_v1 m c, k8_v3 m c, k8_v62_0 m c, k8_arg4 m c, k8_v12 m c, k8_v24 m c] at h
  exact h
theorem k9_v80 : W9 m half0 half1 half2 half3 c (Proc.devRef .tc main_v80) = kWl1 m c := by
  have h := stretch4_v80 (W8 m half0 half1 half2 half3 c)
  rw [k8_arg9 m c] at h
  exact h
theorem k9_v82 : W9 m half0 half1 half2 half3 c (Proc.devRef .tc main_v82) = kWr1 m c := by
  have h := stretch4_v82 (W8 m half0 half1 half2 half3 c)
  rw [k8_arg11 m c] at h
  exact h
theorem k9_v85 : W9 m half0 half1 half2 half3 c (Proc.devRef .tc main_v85) = kBl1 m c := by
  have h := stretch4_v85 (W8 m half0 half1 half2 half3 c)
  rw [k8_arg10 m c] at h
  exact h
theorem k10_arg4 : W10 m half0 half1 half2 half3 half4 c (Proc.devRef .tc main_arg4) = W0 m c (Proc.devRef .tc main_arg4) := (keepR4 m c main_arg4 (by decide)).trans (k9_arg4 m c)
theorem k10_arg9 : W10 m half0 half1 half2 half3 half4 c (Proc.devRef .tc main_arg9) = W0 m c (Proc.devRef .tc main_arg9) := (keepR4 m c main_arg9 (by decide)).trans (k9_arg9 m c)
theorem k10_arg10 : W10 m half0 half1 half2 half3 half4 c (Proc.devRef .tc main_arg10) = W0 m c (Proc.devRef .tc main_arg10) := (keepR4 m c main_arg10 (by decide)).trans (k9_arg10 m c)
theorem k10_arg11 : W10 m half0 half1 half2 half3 half4 c (Proc.devRef .tc main_arg11) = W0 m c (Proc.devRef .tc main_arg11) := (keepR4 m c main_arg11 (by decide)).trans (k9_arg11 m c)
theorem k10_arg12 : W10 m half0 half1 half2 half3 half4 c (Proc.devRef .tc main_arg12) = W0 m c (Proc.devRef .tc main_arg12) := (keepR4 m c main_arg12 (by decide)).trans (k9_arg12 m c)
theorem k10_arg13 : W10 m half0 half1 half2 half3 half4 c (Proc.devRef .tc main_arg13) = W0 m c (Proc.devRef .tc main_arg13) := (keepR4 m c main_arg13 (by decide)).trans (k9_arg13 m c)
theorem k10_v1 : W10 m half0 half1 half2 half3 half4 c (Proc.devRef .tc main_v1) = kSrc m c := (keepR4 m c main_v1 (by decide)).trans (k9_v1 m c)
theorem k10_v3 : W10 m half0 half1 half2 half3 half4 c (Proc.devRef .tc main_v3) = kDst m c := (keepR4 m c main_v3 (by decide)).trans (k9_v3 m c)
theorem k10_v12 : W10 m half0 half1 half2 half3 half4 c (Proc.devRef .tc main_v12) = kDen m c := (keepR4 m c main_v12 (by decide)).trans (k9_v12 m c)
theorem k10_v24 : W10 m half0 half1 half2 half3 half4 c (Proc.devRef .tc main_v24) = kAggE m c := (keepR4 m c main_v24 (by decide)).trans (k9_v24 m c)
theorem k10_v25 : W10 m half0 half1 half2 half3 half4 c (Proc.devRef .tc main_v25) = kBatch m c := (keepR4 m c main_v25 (by decide)).trans (k9_v25 m c)
theorem k10_v62_1 : W10 m half0 half1 half2 half3 half4 c (Proc.devRef .tc main_v62_1) = kPool0 m c := (keepR4 m c main_v62_1 (by decide)).trans (k9_v62_1 m c)
theorem k10_v86_0 : W10 m half0 half1 half2 half3 half4 c (Proc.devRef .tc main_v86_0) = kZ1 m c := by
  have h0 := W10_arr m half0 half1 half2 half3 half4 c ⟨5, by decide⟩
  rw [half4_dat c] at h0
  have h := h0.trans (value4_o (X9 m half0 half1 half2 half3) c)
  simp only [X9] at h
  rw [k9_v78 m c, k9_v62_0 m c, k9_v80 m c, k9_v82 m c, k9_v85 m c] at h
  exact h
theorem k10_v86_1 : W10 m half0 half1 half2 half3 half4 c (Proc.devRef .tc main_v86_1) = ltSum (kZ1 m c) := by
  have h0 := W10_arr m half0 half1 half2 half3 half4 c ⟨6, by decide⟩
  rw [half4_dat c] at h0
  have h := h0.trans (value4_sum (X9 m half0 half1 half2 half3) c)
  simp only [X9] at h
  rw [k9_v78 m c, k9_v62_0 m c, k9_v80 m c, k9_v82 m c, k9_v85 m c] at h
  exact h
theorem k10_v86_2 : W10 m half0 half1 half2 half3 half4 c (Proc.devRef .tc main_v86_2) = ltSumSq (kZ1 m c) := by
  have h0 := W10_arr m half0 half1 half2 half3 half4 c ⟨7, by decide⟩
  rw [half4_dat c] at h0
  have h := h0.trans (value4_sumsq (X9 m half0 half1 half2 half3) c)
  simp only [X9] at h
  rw [k9_v78 m c, k9_v62_0 m c, k9_v80 m c, k9_v82 m c, k9_v85 m c] at h
  exact h
theorem k11_arg4 : W11 m half0 half1 half2 half3 half4 c (Proc.devRef .tc main_arg4) = W0 m c (Proc.devRef .tc main_arg4) := (hostOps5_keep (W10 m half0 half1 half2 half3 half4 c) main_arg4 (by decide)).trans (k10_arg4 m c)
theorem k11_arg9 : W11 m half0 half1 half2 half3 half4 c (Proc.devRef .tc main_arg9) = W0 m c (Proc.devRef .tc main_arg9) := (hostOps5_keep (W10 m half0 half1 half2 half3 half4 c) main_arg9 (by decide)).trans (k10_arg9 m c)
theorem k11_arg10 : W11 m half0 half1 half2 half3 half4 c (Proc.devRef .tc main_arg10) = W0 m c (Proc.devRef .tc main_arg10) := (hostOps5_keep (W10 m half0 half1 half2 half3 half4 c) main_arg10 (by decide)).trans (k10_arg10 m c)
theorem k11_arg11 : W11 m half0 half1 half2 half3 half4 c (Proc.devRef .tc main_arg11) = W0 m c (Proc.devRef .tc main_arg11) := (hostOps5_keep (W10 m half0 half1 half2 half3 half4 c) main_arg11 (by decide)).trans (k10_arg11 m c)
theorem k11_arg12 : W11 m half0 half1 half2 half3 half4 c (Proc.devRef .tc main_arg12) = W0 m c (Proc.devRef .tc main_arg12) := (hostOps5_keep (W10 m half0 half1 half2 half3 half4 c) main_arg12 (by decide)).trans (k10_arg12 m c)
theorem k11_arg13 : W11 m half0 half1 half2 half3 half4 c (Proc.devRef .tc main_arg13) = W0 m c (Proc.devRef .tc main_arg13) := (hostOps5_keep (W10 m half0 half1 half2 half3 half4 c) main_arg13 (by decide)).trans (k10_arg13 m c)
theorem k11_v1 : W11 m half0 half1 half2 half3 half4 c (Proc.devRef .tc main_v1) = kSrc m c := (hostOps5_keep (W10 m half0 half1 half2 half3 half4 c) main_v1 (by decide)).trans (k10_v1 m c)
theorem k11_v3 : W11 m half0 half1 half2 half3 half4 c (Proc.devRef .tc main_v3) = kDst m c := (hostOps5_keep (W10 m half0 half1 half2 half3 half4 c) main_v3 (by decide)).trans (k10_v3 m c)
theorem k11_v12 : W11 m half0 half1 half2 half3 half4 c (Proc.devRef .tc main_v12) = kDen m c := (hostOps5_keep (W10 m half0 half1 half2 half3 half4 c) main_v12 (by decide)).trans (k10_v12 m c)
theorem k11_v24 : W11 m half0 half1 half2 half3 half4 c (Proc.devRef .tc main_v24) = kAggE m c := (hostOps5_keep (W10 m half0 half1 half2 half3 half4 c) main_v24 (by decide)).trans (k10_v24 m c)
theorem k11_v25 : W11 m half0 half1 half2 half3 half4 c (Proc.devRef .tc main_v25) = kBatch m c := (hostOps5_keep (W10 m half0 half1 half2 half3 half4 c) main_v25 (by decide)).trans (k10_v25 m c)
theorem k11_v62_1 : W11 m half0 half1 half2 half3 half4 c (Proc.devRef .tc main_v62_1) = kPool0 m c := (hostOps5_keep (W10 m half0 half1 half2 half3 half4 c) main_v62_1 (by decide)).trans (k10_v62_1 m c)
theorem k11_v86_0 : W11 m half0 half1 half2 half3 half4 c (Proc.devRef .tc main_v86_0) = kZ1 m c := (hostOps5_keep (W10 m half0 half1 half2 half3 half4 c) main_v86_0 (by decide)).trans (k10_v86_0 m c)
theorem k11_v88 : W11 m half0 half1 half2 half3 half4 c (Proc.devRef .tc main_v88) = kMu1 m c := by
  have h := stretch5_v88 (W10 m half0 half1 half2 half3 half4 c)
  rw [k10_v86_1 m c] at h
  exact h
theorem k11_v92 : W11 m half0 half1 half2 half3 half4 c (Proc.devRef .tc main_v92) = kVar1 m c := by
  have h := stretch5_v92 (W10 m half0 half1 half2 half3 half4 c)
  rw [k10_v86_1 m c, k10_v86_2 m c] at h
  exact h
theorem k11_v97 : W11 m half0 half1 half2 half3 half4 c (Proc.devRef .tc main_v97) = kG1 m c := by
  have h := stretch5_v97 (W10 m half0 half1 half2 half3 half4 c)
  rw [k10_arg12 m c] at h
  exact h
theorem k11_v98 : W11 m half0 half1 half2 half3 half4 c (Proc.devRef .tc main_v98) = kBt1 m c := by
  have h := stretch5_v98 (W10 m half0 half1 half2 half3 half4 c)
  rw [k10_arg13 m c] at h
  exact h
theorem k12_arg4 : W12 m half0 half1 half2 half3 half4 half5 c (Proc.devRef .tc main_arg4) = W0 m c (Proc.devRef .tc main_arg4) := (keepR5 m c main_arg4 (by decide)).trans (k11_arg4 m c)
theorem k12_arg9 : W12 m half0 half1 half2 half3 half4 half5 c (Proc.devRef .tc main_arg9) = W0 m c (Proc.devRef .tc main_arg9) := (keepR5 m c main_arg9 (by decide)).trans (k11_arg9 m c)
theorem k12_arg10 : W12 m half0 half1 half2 half3 half4 half5 c (Proc.devRef .tc main_arg10) = W0 m c (Proc.devRef .tc main_arg10) := (keepR5 m c main_arg10 (by decide)).trans (k11_arg10 m c)
theorem k12_arg11 : W12 m half0 half1 half2 half3 half4 half5 c (Proc.devRef .tc main_arg11) = W0 m c (Proc.devRef .tc main_arg11) := (keepR5 m c main_arg11 (by decide)).trans (k11_arg11 m c)
theorem k12_arg12 : W12 m half0 half1 half2 half3 half4 half5 c (Proc.devRef .tc main_arg12) = W0 m c (Proc.devRef .tc main_arg12) := (keepR5 m c main_arg12 (by decide)).trans (k11_arg12 m c)
theorem k12_arg13 : W12 m half0 half1 half2 half3 half4 half5 c (Proc.devRef .tc main_arg13) = W0 m c (Proc.devRef .tc main_arg13) := (keepR5 m c main_arg13 (by decide)).trans (k11_arg13 m c)
theorem k12_v1 : W12 m half0 half1 half2 half3 half4 half5 c (Proc.devRef .tc main_v1) = kSrc m c := (keepR5 m c main_v1 (by decide)).trans (k11_v1 m c)
theorem k12_v3 : W12 m half0 half1 half2 half3 half4 half5 c (Proc.devRef .tc main_v3) = kDst m c := (keepR5 m c main_v3 (by decide)).trans (k11_v3 m c)
theorem k12_v12 : W12 m half0 half1 half2 half3 half4 half5 c (Proc.devRef .tc main_v12) = kDen m c := (keepR5 m c main_v12 (by decide)).trans (k11_v12 m c)
theorem k12_v24 : W12 m half0 half1 half2 half3 half4 half5 c (Proc.devRef .tc main_v24) = kAggE m c := (keepR5 m c main_v24 (by decide)).trans (k11_v24 m c)
theorem k12_v25 : W12 m half0 half1 half2 half3 half4 half5 c (Proc.devRef .tc main_v25) = kBatch m c := (keepR5 m c main_v25 (by decide)).trans (k11_v25 m c)
theorem k12_v62_1 : W12 m half0 half1 half2 half3 half4 half5 c (Proc.devRef .tc main_v62_1) = kPool0 m c := (keepR5 m c main_v62_1 (by decide)).trans (k11_v62_1 m c)
theorem k12_v99_0 : W12 m half0 half1 half2 half3 half4 half5 c (Proc.devRef .tc main_v99_0) = kH2 m c := by
  have h0 := W12_arr m half0 half1 half2 half3 half4 half5 c ⟨6, by decide⟩
  rw [half5_dat c] at h0
  have h := h0.trans (value5_y (X11 m half0 half1 half2 half3 half4) c)
  simp only [X11] at h
  rw [k11_v86_0 m c, k11_v88 m c, k11_v92 m c, k11_v97 m c, k11_v98 m c] at h
  exact h
theorem k12_v99_1 : W12 m half0 half1 half2 half3 half4 half5 c (Proc.devRef .tc main_v99_1) = kPool1 m c := by
  have h0 := W12_arr m half0 half1 half2 half3 half4 half5 c ⟨7, by decide⟩
  rw [half5_dat c] at h0
  have h := h0.trans (value5_pool (X11 m half0 half1 half2 half3 half4) c)
  simp only [X11] at h
  rw [k11_v25 m c, k11_v86_0 m c, k11_v88 m c, k11_v92 m c, k11_v97 m c, k11_v98 m c] at h
  exact h
theorem k13_arg4 : W13 m half0 half1 half2 half3 half4 half5 c (Proc.devRef .tc main_arg4) = W0 m c (Proc.devRef .tc main_arg4) := (hostOps6_keep (W12 m half0 half1 half2 half3 half4 half5 c) main_arg4 (by decide)).trans (k12_arg4 m c)
theorem k13_arg9 : W13 m half0 half1 half2 half3 half4 half5 c (Proc.devRef .tc main_arg9) = W0 m c (Proc.devRef .tc main_arg9) := (hostOps6_keep (W12 m half0 half1 half2 half3 half4 half5 c) main_arg9 (by decide)).trans (k12_arg9 m c)
theorem k13_arg10 : W13 m half0 half1 half2 half3 half4 half5 c (Proc.devRef .tc main_arg10) = W0 m c (Proc.devRef .tc main_arg10) := (hostOps6_keep (W12 m half0 half1 half2 half3 half4 half5 c) main_arg10 (by decide)).trans (k12_arg10 m c)
theorem k13_arg11 : W13 m half0 half1 half2 half3 half4 half5 c (Proc.devRef .tc main_arg11) = W0 m c (Proc.devRef .tc main_arg11) := (hostOps6_keep (W12 m half0 half1 half2 half3 half4 half5 c) main_arg11 (by decide)).trans (k12_arg11 m c)
theorem k13_arg12 : W13 m half0 half1 half2 half3 half4 half5 c (Proc.devRef .tc main_arg12) = W0 m c (Proc.devRef .tc main_arg12) := (hostOps6_keep (W12 m half0 half1 half2 half3 half4 half5 c) main_arg12 (by decide)).trans (k12_arg12 m c)
theorem k13_arg13 : W13 m half0 half1 half2 half3 half4 half5 c (Proc.devRef .tc main_arg13) = W0 m c (Proc.devRef .tc main_arg13) := (hostOps6_keep (W12 m half0 half1 half2 half3 half4 half5 c) main_arg13 (by decide)).trans (k12_arg13 m c)
theorem k13_v1 : W13 m half0 half1 half2 half3 half4 half5 c (Proc.devRef .tc main_v1) = kSrc m c := (hostOps6_keep (W12 m half0 half1 half2 half3 half4 half5 c) main_v1 (by decide)).trans (k12_v1 m c)
theorem k13_v3 : W13 m half0 half1 half2 half3 half4 half5 c (Proc.devRef .tc main_v3) = kDst m c := (hostOps6_keep (W12 m half0 half1 half2 half3 half4 half5 c) main_v3 (by decide)).trans (k12_v3 m c)
theorem k13_v12 : W13 m half0 half1 half2 half3 half4 half5 c (Proc.devRef .tc main_v12) = kDen m c := (hostOps6_keep (W12 m half0 half1 half2 half3 half4 half5 c) main_v12 (by decide)).trans (k12_v12 m c)
theorem k13_v24 : W13 m half0 half1 half2 half3 half4 half5 c (Proc.devRef .tc main_v24) = kAggE m c := (hostOps6_keep (W12 m half0 half1 half2 half3 half4 half5 c) main_v24 (by decide)).trans (k12_v24 m c)
theorem k13_v25 : W13 m half0 half1 half2 half3 half4 half5 c (Proc.devRef .tc main_v25) = kBatch m c := (hostOps6_keep (W12 m half0 half1 half2 half3 half4 half5 c) main_v25 (by decide)).trans (k12_v25 m c)
theorem k13_v62_1 : W13 m half0 half1 half2 half3 half4 half5 c (Proc.devRef .tc main_v62_1) = kPool0 m c := (hostOps6_keep (W12 m half0 half1 half2 half3 half4 half5 c) main_v62_1 (by decide)).trans (k12_v62_1 m c)
theorem k13_v99_0 : W13 m half0 half1 half2 half3 half4 half5 c (Proc.devRef .tc main_v99_0) = kH2 m c := (hostOps6_keep (W12 m half0 half1 half2 half3 half4 half5 c) main_v99_0 (by decide)).trans (k12_v99_0 m c)
theorem k13_v99_1 : W13 m half0 half1 half2 half3 half4 half5 c (Proc.devRef .tc main_v99_1) = kPool1 m c := (hostOps6_keep (W12 m half0 half1 half2 half3 half4 half5 c) main_v99_1 (by decide)).trans (k12_v99_1 m c)
theorem k13_v115 : W13 m half0 half1 half2 half3 half4 half5 c (Proc.devRef .tc main_v115) = kAgg2 m c := by
  have h := stretch6_v115 (W12 m half0 half1 half2 half3 half4 half5 c)
  rw [k12_v1 m c, k12_v3 m c, k12_v99_0 m c, k12_arg4 m c, k12_v12 m c, k12_v24 m c] at h
  exact h
theorem k13_v117 : W13 m half0 half1 half2 half3 half4 half5 c (Proc.devRef .tc main_v117) = kWl2 m c := by
  have h := stretch6_v117 (W12 m half0 half1 half2 half3 half4 half5 c)
  rw [k12_arg9 m c] at h
  exact h
theorem k13_v119 : W13 m half0 half1 half2 half3 half4 half5 c (Proc.devRef .tc main_v119) = kWr2 m c := by
  have h := stretch6_v119 (W12 m half0 half1 half2 half3 half4 half5 c)
  rw [k12_arg11 m c] at h
  exact h
theorem k13_v122 : W13 m half0 half1 half2 half3 half4 half5 c (Proc.devRef .tc main_v122) = kBl2 m c := by
  have h := stretch6_v122 (W12 m half0 half1 half2 half3 half4 half5 c)
  rw [k12_arg10 m c] at h
  exact h
theorem k14_arg4 : W14 m half0 half1 half2 half3 half4 half5 half6 c (Proc.devRef .tc main_arg4) = W0 m c (Proc.devRef .tc main_arg4) := (keepR6 m c main_arg4 (by decide)).trans (k13_arg4 m c)
theorem k14_arg9 : W14 m half0 half1 half2 half3 half4 half5 half6 c (Proc.devRef .tc main_arg9) = W0 m c (Proc.devRef .tc main_arg9) := (keepR6 m c main_arg9 (by decide)).trans (k13_arg9 m c)
theorem k14_arg10 : W14 m half0 half1 half2 half3 half4 half5 half6 c (Proc.devRef .tc main_arg10) = W0 m c (Proc.devRef .tc main_arg10) := (keepR6 m c main_arg10 (by decide)).trans (k13_arg10 m c)
theorem k14_arg11 : W14 m half0 half1 half2 half3 half4 half5 half6 c (Proc.devRef .tc main_arg11) = W0 m c (Proc.devRef .tc main_arg11) := (keepR6 m c main_arg11 (by decide)).trans (k13_arg11 m c)
theorem k14_arg12 : W14 m half0 half1 half2 half3 half4 half5 half6 c (Proc.devRef .tc main_arg12) = W0 m c (Proc.devRef .tc main_arg12) := (keepR6 m c main_arg12 (by decide)).trans (k13_arg12 m c)
theorem k14_arg13 : W14 m half0 half1 half2 half3 half4 half5 half6 c (Proc.devRef .tc main_arg13) = W0 m c (Proc.devRef .tc main_arg13) := (keepR6 m c main_arg13 (by decide)).trans (k13_arg13 m c)
theorem k14_v1 : W14 m half0 half1 half2 half3 half4 half5 half6 c (Proc.devRef .tc main_v1) = kSrc m c := (keepR6 m c main_v1 (by decide)).trans (k13_v1 m c)
theorem k14_v3 : W14 m half0 half1 half2 half3 half4 half5 half6 c (Proc.devRef .tc main_v3) = kDst m c := (keepR6 m c main_v3 (by decide)).trans (k13_v3 m c)
theorem k14_v12 : W14 m half0 half1 half2 half3 half4 half5 half6 c (Proc.devRef .tc main_v12) = kDen m c := (keepR6 m c main_v12 (by decide)).trans (k13_v12 m c)
theorem k14_v24 : W14 m half0 half1 half2 half3 half4 half5 half6 c (Proc.devRef .tc main_v24) = kAggE m c := (keepR6 m c main_v24 (by decide)).trans (k13_v24 m c)
theorem k14_v25 : W14 m half0 half1 half2 half3 half4 half5 half6 c (Proc.devRef .tc main_v25) = kBatch m c := (keepR6 m c main_v25 (by decide)).trans (k13_v25 m c)
theorem k14_v62_1 : W14 m half0 half1 half2 half3 half4 half5 half6 c (Proc.devRef .tc main_v62_1) = kPool0 m c := (keepR6 m c main_v62_1 (by decide)).trans (k13_v62_1 m c)
theorem k14_v99_1 : W14 m half0 half1 half2 half3 half4 half5 half6 c (Proc.devRef .tc main_v99_1) = kPool1 m c := (keepR6 m c main_v99_1 (by decide)).trans (k13_v99_1 m c)
theorem k14_v123_0 : W14 m half0 half1 half2 half3 half4 half5 half6 c (Proc.devRef .tc main_v123_0) = kZ2 m c := by
  have h0 := W14_arr m half0 half1 half2 half3 half4 half5 half6 c ⟨5, by decide⟩
  rw [half6_dat c] at h0
  have h := h0.trans (value6_o (X13 m half0 half1 half2 half3 half4 half5) c)
  simp only [X13] at h
  rw [k13_v115 m c, k13_v99_0 m c, k13_v117 m c, k13_v119 m c, k13_v122 m c] at h
  exact h
theorem k14_v123_1 : W14 m half0 half1 half2 half3 half4 half5 half6 c (Proc.devRef .tc main_v123_1) = ltSum (kZ2 m c) := by
  have h0 := W14_arr m half0 half1 half2 half3 half4 half5 half6 c ⟨6, by decide⟩
  rw [half6_dat c] at h0
  have h := h0.trans (value6_sum (X13 m half0 half1 half2 half3 half4 half5) c)
  simp only [X13] at h
  rw [k13_v115 m c, k13_v99_0 m c, k13_v117 m c, k13_v119 m c, k13_v122 m c] at h
  exact h
theorem k14_v123_2 : W14 m half0 half1 half2 half3 half4 half5 half6 c (Proc.devRef .tc main_v123_2) = ltSumSq (kZ2 m c) := by
  have h0 := W14_arr m half0 half1 half2 half3 half4 half5 half6 c ⟨7, by decide⟩
  rw [half6_dat c] at h0
  have h := h0.trans (value6_sumsq (X13 m half0 half1 half2 half3 half4 half5) c)
  simp only [X13] at h
  rw [k13_v115 m c, k13_v99_0 m c, k13_v117 m c, k13_v119 m c, k13_v122 m c] at h
  exact h
theorem k15_arg4 : W15 m half0 half1 half2 half3 half4 half5 half6 c (Proc.devRef .tc main_arg4) = W0 m c (Proc.devRef .tc main_arg4) := (hostOps7_keep (W14 m half0 half1 half2 half3 half4 half5 half6 c) main_arg4 (by decide)).trans (k14_arg4 m c)
theorem k15_arg9 : W15 m half0 half1 half2 half3 half4 half5 half6 c (Proc.devRef .tc main_arg9) = W0 m c (Proc.devRef .tc main_arg9) := (hostOps7_keep (W14 m half0 half1 half2 half3 half4 half5 half6 c) main_arg9 (by decide)).trans (k14_arg9 m c)
theorem k15_arg10 : W15 m half0 half1 half2 half3 half4 half5 half6 c (Proc.devRef .tc main_arg10) = W0 m c (Proc.devRef .tc main_arg10) := (hostOps7_keep (W14 m half0 half1 half2 half3 half4 half5 half6 c) main_arg10 (by decide)).trans (k14_arg10 m c)
theorem k15_arg11 : W15 m half0 half1 half2 half3 half4 half5 half6 c (Proc.devRef .tc main_arg11) = W0 m c (Proc.devRef .tc main_arg11) := (hostOps7_keep (W14 m half0 half1 half2 half3 half4 half5 half6 c) main_arg11 (by decide)).trans (k14_arg11 m c)
theorem k15_arg12 : W15 m half0 half1 half2 half3 half4 half5 half6 c (Proc.devRef .tc main_arg12) = W0 m c (Proc.devRef .tc main_arg12) := (hostOps7_keep (W14 m half0 half1 half2 half3 half4 half5 half6 c) main_arg12 (by decide)).trans (k14_arg12 m c)
theorem k15_arg13 : W15 m half0 half1 half2 half3 half4 half5 half6 c (Proc.devRef .tc main_arg13) = W0 m c (Proc.devRef .tc main_arg13) := (hostOps7_keep (W14 m half0 half1 half2 half3 half4 half5 half6 c) main_arg13 (by decide)).trans (k14_arg13 m c)
theorem k15_v1 : W15 m half0 half1 half2 half3 half4 half5 half6 c (Proc.devRef .tc main_v1) = kSrc m c := (hostOps7_keep (W14 m half0 half1 half2 half3 half4 half5 half6 c) main_v1 (by decide)).trans (k14_v1 m c)
theorem k15_v3 : W15 m half0 half1 half2 half3 half4 half5 half6 c (Proc.devRef .tc main_v3) = kDst m c := (hostOps7_keep (W14 m half0 half1 half2 half3 half4 half5 half6 c) main_v3 (by decide)).trans (k14_v3 m c)
theorem k15_v12 : W15 m half0 half1 half2 half3 half4 half5 half6 c (Proc.devRef .tc main_v12) = kDen m c := (hostOps7_keep (W14 m half0 half1 half2 half3 half4 half5 half6 c) main_v12 (by decide)).trans (k14_v12 m c)
theorem k15_v24 : W15 m half0 half1 half2 half3 half4 half5 half6 c (Proc.devRef .tc main_v24) = kAggE m c := (hostOps7_keep (W14 m half0 half1 half2 half3 half4 half5 half6 c) main_v24 (by decide)).trans (k14_v24 m c)
theorem k15_v25 : W15 m half0 half1 half2 half3 half4 half5 half6 c (Proc.devRef .tc main_v25) = kBatch m c := (hostOps7_keep (W14 m half0 half1 half2 half3 half4 half5 half6 c) main_v25 (by decide)).trans (k14_v25 m c)
theorem k15_v62_1 : W15 m half0 half1 half2 half3 half4 half5 half6 c (Proc.devRef .tc main_v62_1) = kPool0 m c := (hostOps7_keep (W14 m half0 half1 half2 half3 half4 half5 half6 c) main_v62_1 (by decide)).trans (k14_v62_1 m c)
theorem k15_v99_1 : W15 m half0 half1 half2 half3 half4 half5 half6 c (Proc.devRef .tc main_v99_1) = kPool1 m c := (hostOps7_keep (W14 m half0 half1 half2 half3 half4 half5 half6 c) main_v99_1 (by decide)).trans (k14_v99_1 m c)
theorem k15_v123_0 : W15 m half0 half1 half2 half3 half4 half5 half6 c (Proc.devRef .tc main_v123_0) = kZ2 m c := (hostOps7_keep (W14 m half0 half1 half2 half3 half4 half5 half6 c) main_v123_0 (by decide)).trans (k14_v123_0 m c)
theorem k15_v125 : W15 m half0 half1 half2 half3 half4 half5 half6 c (Proc.devRef .tc main_v125) = kMu2 m c := by
  have h := stretch7_v125 (W14 m half0 half1 half2 half3 half4 half5 half6 c)
  rw [k14_v123_1 m c] at h
  exact h
theorem k15_v129 : W15 m half0 half1 half2 half3 half4 half5 half6 c (Proc.devRef .tc main_v129) = kVar2 m c := by
  have h := stretch7_v129 (W14 m half0 half1 half2 half3 half4 half5 half6 c)
  rw [k14_v123_1 m c, k14_v123_2 m c] at h
  exact h
theorem k15_v134 : W15 m half0 half1 half2 half3 half4 half5 half6 c (Proc.devRef .tc main_v134) = kG2 m c := by
  have h := stretch7_v134 (W14 m half0 half1 half2 half3 half4 half5 half6 c)
  rw [k14_arg12 m c] at h
  exact h
theorem k15_v135 : W15 m half0 half1 half2 half3 half4 half5 half6 c (Proc.devRef .tc main_v135) = kBt2 m c := by
  have h := stretch7_v135 (W14 m half0 half1 half2 half3 half4 half5 half6 c)
  rw [k14_arg13 m c] at h
  exact h
theorem k16_arg4 : W16 m half0 half1 half2 half3 half4 half5 half6 half7 c (Proc.devRef .tc main_arg4) = W0 m c (Proc.devRef .tc main_arg4) := (keepR7 m c main_arg4 (by decide)).trans (k15_arg4 m c)
theorem k16_arg9 : W16 m half0 half1 half2 half3 half4 half5 half6 half7 c (Proc.devRef .tc main_arg9) = W0 m c (Proc.devRef .tc main_arg9) := (keepR7 m c main_arg9 (by decide)).trans (k15_arg9 m c)
theorem k16_arg10 : W16 m half0 half1 half2 half3 half4 half5 half6 half7 c (Proc.devRef .tc main_arg10) = W0 m c (Proc.devRef .tc main_arg10) := (keepR7 m c main_arg10 (by decide)).trans (k15_arg10 m c)
theorem k16_arg11 : W16 m half0 half1 half2 half3 half4 half5 half6 half7 c (Proc.devRef .tc main_arg11) = W0 m c (Proc.devRef .tc main_arg11) := (keepR7 m c main_arg11 (by decide)).trans (k15_arg11 m c)
theorem k16_arg12 : W16 m half0 half1 half2 half3 half4 half5 half6 half7 c (Proc.devRef .tc main_arg12) = W0 m c (Proc.devRef .tc main_arg12) := (keepR7 m c main_arg12 (by decide)).trans (k15_arg12 m c)
theorem k16_arg13 : W16 m half0 half1 half2 half3 half4 half5 half6 half7 c (Proc.devRef .tc main_arg13) = W0 m c (Proc.devRef .tc main_arg13) := (keepR7 m c main_arg13 (by decide)).trans (k15_arg13 m c)
theorem k16_v1 : W16 m half0 half1 half2 half3 half4 half5 half6 half7 c (Proc.devRef .tc main_v1) = kSrc m c := (keepR7 m c main_v1 (by decide)).trans (k15_v1 m c)
theorem k16_v3 : W16 m half0 half1 half2 half3 half4 half5 half6 half7 c (Proc.devRef .tc main_v3) = kDst m c := (keepR7 m c main_v3 (by decide)).trans (k15_v3 m c)
theorem k16_v12 : W16 m half0 half1 half2 half3 half4 half5 half6 half7 c (Proc.devRef .tc main_v12) = kDen m c := (keepR7 m c main_v12 (by decide)).trans (k15_v12 m c)
theorem k16_v24 : W16 m half0 half1 half2 half3 half4 half5 half6 half7 c (Proc.devRef .tc main_v24) = kAggE m c := (keepR7 m c main_v24 (by decide)).trans (k15_v24 m c)
theorem k16_v25 : W16 m half0 half1 half2 half3 half4 half5 half6 half7 c (Proc.devRef .tc main_v25) = kBatch m c := (keepR7 m c main_v25 (by decide)).trans (k15_v25 m c)
theorem k16_v62_1 : W16 m half0 half1 half2 half3 half4 half5 half6 half7 c (Proc.devRef .tc main_v62_1) = kPool0 m c := (keepR7 m c main_v62_1 (by decide)).trans (k15_v62_1 m c)
theorem k16_v99_1 : W16 m half0 half1 half2 half3 half4 half5 half6 half7 c (Proc.devRef .tc main_v99_1) = kPool1 m c := (keepR7 m c main_v99_1 (by decide)).trans (k15_v99_1 m c)
theorem k16_v136_0 : W16 m half0 half1 half2 half3 half4 half5 half6 half7 c (Proc.devRef .tc main_v136_0) = kH3 m c := by
  have h0 := W16_arr m half0 half1 half2 half3 half4 half5 half6 half7 c ⟨6, by decide⟩
  rw [half7_dat c] at h0
  have h := h0.trans (value7_y (X15 m half0 half1 half2 half3 half4 half5 half6) c)
  simp only [X15] at h
  rw [k15_v123_0 m c, k15_v125 m c, k15_v129 m c, k15_v134 m c, k15_v135 m c] at h
  exact h
theorem k16_v136_1 : W16 m half0 half1 half2 half3 half4 half5 half6 half7 c (Proc.devRef .tc main_v136_1) = kPool2 m c := by
  have h0 := W16_arr m half0 half1 half2 half3 half4 half5 half6 half7 c ⟨7, by decide⟩
  rw [half7_dat c] at h0
  have h := h0.trans (value7_pool (X15 m half0 half1 half2 half3 half4 half5 half6) c)
  simp only [X15] at h
  rw [k15_v25 m c, k15_v123_0 m c, k15_v125 m c, k15_v129 m c, k15_v134 m c, k15_v135 m c] at h
  exact h
theorem k17_arg4 : W17 m half0 half1 half2 half3 half4 half5 half6 half7 c (Proc.devRef .tc main_arg4) = W0 m c (Proc.devRef .tc main_arg4) := (hostOps8_keep (W16 m half0 half1 half2 half3 half4 half5 half6 half7 c) main_arg4 (by decide)).trans (k16_arg4 m c)
theorem k17_arg9 : W17 m half0 half1 half2 half3 half4 half5 half6 half7 c (Proc.devRef .tc main_arg9) = W0 m c (Proc.devRef .tc main_arg9) := (hostOps8_keep (W16 m half0 half1 half2 half3 half4 half5 half6 half7 c) main_arg9 (by decide)).trans (k16_arg9 m c)
theorem k17_arg10 : W17 m half0 half1 half2 half3 half4 half5 half6 half7 c (Proc.devRef .tc main_arg10) = W0 m c (Proc.devRef .tc main_arg10) := (hostOps8_keep (W16 m half0 half1 half2 half3 half4 half5 half6 half7 c) main_arg10 (by decide)).trans (k16_arg10 m c)
theorem k17_arg11 : W17 m half0 half1 half2 half3 half4 half5 half6 half7 c (Proc.devRef .tc main_arg11) = W0 m c (Proc.devRef .tc main_arg11) := (hostOps8_keep (W16 m half0 half1 half2 half3 half4 half5 half6 half7 c) main_arg11 (by decide)).trans (k16_arg11 m c)
theorem k17_arg12 : W17 m half0 half1 half2 half3 half4 half5 half6 half7 c (Proc.devRef .tc main_arg12) = W0 m c (Proc.devRef .tc main_arg12) := (hostOps8_keep (W16 m half0 half1 half2 half3 half4 half5 half6 half7 c) main_arg12 (by decide)).trans (k16_arg12 m c)
theorem k17_arg13 : W17 m half0 half1 half2 half3 half4 half5 half6 half7 c (Proc.devRef .tc main_arg13) = W0 m c (Proc.devRef .tc main_arg13) := (hostOps8_keep (W16 m half0 half1 half2 half3 half4 half5 half6 half7 c) main_arg13 (by decide)).trans (k16_arg13 m c)
theorem k17_v1 : W17 m half0 half1 half2 half3 half4 half5 half6 half7 c (Proc.devRef .tc main_v1) = kSrc m c := (hostOps8_keep (W16 m half0 half1 half2 half3 half4 half5 half6 half7 c) main_v1 (by decide)).trans (k16_v1 m c)
theorem k17_v3 : W17 m half0 half1 half2 half3 half4 half5 half6 half7 c (Proc.devRef .tc main_v3) = kDst m c := (hostOps8_keep (W16 m half0 half1 half2 half3 half4 half5 half6 half7 c) main_v3 (by decide)).trans (k16_v3 m c)
theorem k17_v12 : W17 m half0 half1 half2 half3 half4 half5 half6 half7 c (Proc.devRef .tc main_v12) = kDen m c := (hostOps8_keep (W16 m half0 half1 half2 half3 half4 half5 half6 half7 c) main_v12 (by decide)).trans (k16_v12 m c)
theorem k17_v24 : W17 m half0 half1 half2 half3 half4 half5 half6 half7 c (Proc.devRef .tc main_v24) = kAggE m c := (hostOps8_keep (W16 m half0 half1 half2 half3 half4 half5 half6 half7 c) main_v24 (by decide)).trans (k16_v24 m c)
theorem k17_v25 : W17 m half0 half1 half2 half3 half4 half5 half6 half7 c (Proc.devRef .tc main_v25) = kBatch m c := (hostOps8_keep (W16 m half0 half1 half2 half3 half4 half5 half6 half7 c) main_v25 (by decide)).trans (k16_v25 m c)
theorem k17_v62_1 : W17 m half0 half1 half2 half3 half4 half5 half6 half7 c (Proc.devRef .tc main_v62_1) = kPool0 m c := (hostOps8_keep (W16 m half0 half1 half2 half3 half4 half5 half6 half7 c) main_v62_1 (by decide)).trans (k16_v62_1 m c)
theorem k17_v99_1 : W17 m half0 half1 half2 half3 half4 half5 half6 half7 c (Proc.devRef .tc main_v99_1) = kPool1 m c := (hostOps8_keep (W16 m half0 half1 half2 half3 half4 half5 half6 half7 c) main_v99_1 (by decide)).trans (k16_v99_1 m c)
theorem k17_v136_0 : W17 m half0 half1 half2 half3 half4 half5 half6 half7 c (Proc.devRef .tc main_v136_0) = kH3 m c := (hostOps8_keep (W16 m half0 half1 half2 half3 half4 half5 half6 half7 c) main_v136_0 (by decide)).trans (k16_v136_0 m c)
theorem k17_v136_1 : W17 m half0 half1 half2 half3 half4 half5 half6 half7 c (Proc.devRef .tc main_v136_1) = kPool2 m c := (hostOps8_keep (W16 m half0 half1 half2 half3 half4 half5 half6 half7 c) main_v136_1 (by decide)).trans (k16_v136_1 m c)
theorem k17_v152 : W17 m half0 half1 half2 half3 half4 half5 half6 half7 c (Proc.devRef .tc main_v152) = kAgg3 m c := by
  have h := stretch8_v152 (W16 m half0 half1 half2 half3 half4 half5 half6 half7 c)
  rw [k16_v1 m c, k16_v3 m c, k16_v136_0 m c, k16_arg4 m c, k16_v12 m c, k16_v24 m c] at h
  exact h
theorem k17_v154 : W17 m half0 half1 half2 half3 half4 half5 half6 half7 c (Proc.devRef .tc main_v154) = kWl3 m c := by
  have h := stretch8_v154 (W16 m half0 half1 half2 half3 half4 half5 half6 half7 c)
  rw [k16_arg9 m c] at h
  exact h
theorem k17_v156 : W17 m half0 half1 half2 half3 half4 half5 half6 half7 c (Proc.devRef .tc main_v156) = kWr3 m c := by
  have h := stretch8_v156 (W16 m half0 half1 half2 half3 half4 half5 half6 half7 c)
  rw [k16_arg11 m c] at h
  exact h
theorem k17_v159 : W17 m half0 half1 half2 half3 half4 half5 half6 half7 c (Proc.devRef .tc main_v159) = kBl3 m c := by
  have h := stretch8_v159 (W16 m half0 half1 half2 half3 half4 half5 half6 half7 c)
  rw [k16_arg10 m c] at h
  exact h
theorem k18_arg4 : W18 m half0 half1 half2 half3 half4 half5 half6 half7 half8 c (Proc.devRef .tc main_arg4) = W0 m c (Proc.devRef .tc main_arg4) := (keepR8 m c main_arg4 (by decide)).trans (k17_arg4 m c)
theorem k18_arg9 : W18 m half0 half1 half2 half3 half4 half5 half6 half7 half8 c (Proc.devRef .tc main_arg9) = W0 m c (Proc.devRef .tc main_arg9) := (keepR8 m c main_arg9 (by decide)).trans (k17_arg9 m c)
theorem k18_arg10 : W18 m half0 half1 half2 half3 half4 half5 half6 half7 half8 c (Proc.devRef .tc main_arg10) = W0 m c (Proc.devRef .tc main_arg10) := (keepR8 m c main_arg10 (by decide)).trans (k17_arg10 m c)
theorem k18_arg11 : W18 m half0 half1 half2 half3 half4 half5 half6 half7 half8 c (Proc.devRef .tc main_arg11) = W0 m c (Proc.devRef .tc main_arg11) := (keepR8 m c main_arg11 (by decide)).trans (k17_arg11 m c)
theorem k18_arg12 : W18 m half0 half1 half2 half3 half4 half5 half6 half7 half8 c (Proc.devRef .tc main_arg12) = W0 m c (Proc.devRef .tc main_arg12) := (keepR8 m c main_arg12 (by decide)).trans (k17_arg12 m c)
theorem k18_arg13 : W18 m half0 half1 half2 half3 half4 half5 half6 half7 half8 c (Proc.devRef .tc main_arg13) = W0 m c (Proc.devRef .tc main_arg13) := (keepR8 m c main_arg13 (by decide)).trans (k17_arg13 m c)
theorem k18_v1 : W18 m half0 half1 half2 half3 half4 half5 half6 half7 half8 c (Proc.devRef .tc main_v1) = kSrc m c := (keepR8 m c main_v1 (by decide)).trans (k17_v1 m c)
theorem k18_v3 : W18 m half0 half1 half2 half3 half4 half5 half6 half7 half8 c (Proc.devRef .tc main_v3) = kDst m c := (keepR8 m c main_v3 (by decide)).trans (k17_v3 m c)
theorem k18_v12 : W18 m half0 half1 half2 half3 half4 half5 half6 half7 half8 c (Proc.devRef .tc main_v12) = kDen m c := (keepR8 m c main_v12 (by decide)).trans (k17_v12 m c)
theorem k18_v24 : W18 m half0 half1 half2 half3 half4 half5 half6 half7 half8 c (Proc.devRef .tc main_v24) = kAggE m c := (keepR8 m c main_v24 (by decide)).trans (k17_v24 m c)
theorem k18_v25 : W18 m half0 half1 half2 half3 half4 half5 half6 half7 half8 c (Proc.devRef .tc main_v25) = kBatch m c := (keepR8 m c main_v25 (by decide)).trans (k17_v25 m c)
theorem k18_v62_1 : W18 m half0 half1 half2 half3 half4 half5 half6 half7 half8 c (Proc.devRef .tc main_v62_1) = kPool0 m c := (keepR8 m c main_v62_1 (by decide)).trans (k17_v62_1 m c)
theorem k18_v99_1 : W18 m half0 half1 half2 half3 half4 half5 half6 half7 half8 c (Proc.devRef .tc main_v99_1) = kPool1 m c := (keepR8 m c main_v99_1 (by decide)).trans (k17_v99_1 m c)
theorem k18_v136_1 : W18 m half0 half1 half2 half3 half4 half5 half6 half7 half8 c (Proc.devRef .tc main_v136_1) = kPool2 m c := (keepR8 m c main_v136_1 (by decide)).trans (k17_v136_1 m c)
theorem k18_v160_0 : W18 m half0 half1 half2 half3 half4 half5 half6 half7 half8 c (Proc.devRef .tc main_v160_0) = kZ3 m c := by
  have h0 := W18_arr m half0 half1 half2 half3 half4 half5 half6 half7 half8 c ⟨5, by decide⟩
  rw [half8_dat c] at h0
  have h := h0.trans (value8_o (X17 m half0 half1 half2 half3 half4 half5 half6 half7) c)
  simp only [X17] at h
  rw [k17_v152 m c, k17_v136_0 m c, k17_v154 m c, k17_v156 m c, k17_v159 m c] at h
  exact h
theorem k18_v160_1 : W18 m half0 half1 half2 half3 half4 half5 half6 half7 half8 c (Proc.devRef .tc main_v160_1) = ltSum (kZ3 m c) := by
  have h0 := W18_arr m half0 half1 half2 half3 half4 half5 half6 half7 half8 c ⟨6, by decide⟩
  rw [half8_dat c] at h0
  have h := h0.trans (value8_sum (X17 m half0 half1 half2 half3 half4 half5 half6 half7) c)
  simp only [X17] at h
  rw [k17_v152 m c, k17_v136_0 m c, k17_v154 m c, k17_v156 m c, k17_v159 m c] at h
  exact h
theorem k18_v160_2 : W18 m half0 half1 half2 half3 half4 half5 half6 half7 half8 c (Proc.devRef .tc main_v160_2) = ltSumSq (kZ3 m c) := by
  have h0 := W18_arr m half0 half1 half2 half3 half4 half5 half6 half7 half8 c ⟨7, by decide⟩
  rw [half8_dat c] at h0
  have h := h0.trans (value8_sumsq (X17 m half0 half1 half2 half3 half4 half5 half6 half7) c)
  simp only [X17] at h
  rw [k17_v152 m c, k17_v136_0 m c, k17_v154 m c, k17_v156 m c, k17_v159 m c] at h
  exact h
theorem k19_arg4 : W19 m half0 half1 half2 half3 half4 half5 half6 half7 half8 c (Proc.devRef .tc main_arg4) = W0 m c (Proc.devRef .tc main_arg4) := (hostOps9_keep (W18 m half0 half1 half2 half3 half4 half5 half6 half7 half8 c) main_arg4 (by decide)).trans (k18_arg4 m c)
theorem k19_arg9 : W19 m half0 half1 half2 half3 half4 half5 half6 half7 half8 c (Proc.devRef .tc main_arg9) = W0 m c (Proc.devRef .tc main_arg9) := (hostOps9_keep (W18 m half0 half1 half2 half3 half4 half5 half6 half7 half8 c) main_arg9 (by decide)).trans (k18_arg9 m c)
theorem k19_arg10 : W19 m half0 half1 half2 half3 half4 half5 half6 half7 half8 c (Proc.devRef .tc main_arg10) = W0 m c (Proc.devRef .tc main_arg10) := (hostOps9_keep (W18 m half0 half1 half2 half3 half4 half5 half6 half7 half8 c) main_arg10 (by decide)).trans (k18_arg10 m c)
theorem k19_arg11 : W19 m half0 half1 half2 half3 half4 half5 half6 half7 half8 c (Proc.devRef .tc main_arg11) = W0 m c (Proc.devRef .tc main_arg11) := (hostOps9_keep (W18 m half0 half1 half2 half3 half4 half5 half6 half7 half8 c) main_arg11 (by decide)).trans (k18_arg11 m c)
theorem k19_arg12 : W19 m half0 half1 half2 half3 half4 half5 half6 half7 half8 c (Proc.devRef .tc main_arg12) = W0 m c (Proc.devRef .tc main_arg12) := (hostOps9_keep (W18 m half0 half1 half2 half3 half4 half5 half6 half7 half8 c) main_arg12 (by decide)).trans (k18_arg12 m c)
theorem k19_arg13 : W19 m half0 half1 half2 half3 half4 half5 half6 half7 half8 c (Proc.devRef .tc main_arg13) = W0 m c (Proc.devRef .tc main_arg13) := (hostOps9_keep (W18 m half0 half1 half2 half3 half4 half5 half6 half7 half8 c) main_arg13 (by decide)).trans (k18_arg13 m c)
theorem k19_v1 : W19 m half0 half1 half2 half3 half4 half5 half6 half7 half8 c (Proc.devRef .tc main_v1) = kSrc m c := (hostOps9_keep (W18 m half0 half1 half2 half3 half4 half5 half6 half7 half8 c) main_v1 (by decide)).trans (k18_v1 m c)
theorem k19_v3 : W19 m half0 half1 half2 half3 half4 half5 half6 half7 half8 c (Proc.devRef .tc main_v3) = kDst m c := (hostOps9_keep (W18 m half0 half1 half2 half3 half4 half5 half6 half7 half8 c) main_v3 (by decide)).trans (k18_v3 m c)
theorem k19_v12 : W19 m half0 half1 half2 half3 half4 half5 half6 half7 half8 c (Proc.devRef .tc main_v12) = kDen m c := (hostOps9_keep (W18 m half0 half1 half2 half3 half4 half5 half6 half7 half8 c) main_v12 (by decide)).trans (k18_v12 m c)
theorem k19_v24 : W19 m half0 half1 half2 half3 half4 half5 half6 half7 half8 c (Proc.devRef .tc main_v24) = kAggE m c := (hostOps9_keep (W18 m half0 half1 half2 half3 half4 half5 half6 half7 half8 c) main_v24 (by decide)).trans (k18_v24 m c)
theorem k19_v25 : W19 m half0 half1 half2 half3 half4 half5 half6 half7 half8 c (Proc.devRef .tc main_v25) = kBatch m c := (hostOps9_keep (W18 m half0 half1 half2 half3 half4 half5 half6 half7 half8 c) main_v25 (by decide)).trans (k18_v25 m c)
theorem k19_v62_1 : W19 m half0 half1 half2 half3 half4 half5 half6 half7 half8 c (Proc.devRef .tc main_v62_1) = kPool0 m c := (hostOps9_keep (W18 m half0 half1 half2 half3 half4 half5 half6 half7 half8 c) main_v62_1 (by decide)).trans (k18_v62_1 m c)
theorem k19_v99_1 : W19 m half0 half1 half2 half3 half4 half5 half6 half7 half8 c (Proc.devRef .tc main_v99_1) = kPool1 m c := (hostOps9_keep (W18 m half0 half1 half2 half3 half4 half5 half6 half7 half8 c) main_v99_1 (by decide)).trans (k18_v99_1 m c)
theorem k19_v136_1 : W19 m half0 half1 half2 half3 half4 half5 half6 half7 half8 c (Proc.devRef .tc main_v136_1) = kPool2 m c := (hostOps9_keep (W18 m half0 half1 half2 half3 half4 half5 half6 half7 half8 c) main_v136_1 (by decide)).trans (k18_v136_1 m c)
theorem k19_v160_0 : W19 m half0 half1 half2 half3 half4 half5 half6 half7 half8 c (Proc.devRef .tc main_v160_0) = kZ3 m c := (hostOps9_keep (W18 m half0 half1 half2 half3 half4 half5 half6 half7 half8 c) main_v160_0 (by decide)).trans (k18_v160_0 m c)
theorem k19_v162 : W19 m half0 half1 half2 half3 half4 half5 half6 half7 half8 c (Proc.devRef .tc main_v162) = kMu3 m c := by
  have h := stretch9_v162 (W18 m half0 half1 half2 half3 half4 half5 half6 half7 half8 c)
  rw [k18_v160_1 m c] at h
  exact h
theorem k19_v166 : W19 m half0 half1 half2 half3 half4 half5 half6 half7 half8 c (Proc.devRef .tc main_v166) = kVar3 m c := by
  have h := stretch9_v166 (W18 m half0 half1 half2 half3 half4 half5 half6 half7 half8 c)
  rw [k18_v160_1 m c, k18_v160_2 m c] at h
  exact h
theorem k19_v171 : W19 m half0 half1 half2 half3 half4 half5 half6 half7 half8 c (Proc.devRef .tc main_v171) = kG3 m c := by
  have h := stretch9_v171 (W18 m half0 half1 half2 half3 half4 half5 half6 half7 half8 c)
  rw [k18_arg12 m c] at h
  exact h
theorem k19_v172 : W19 m half0 half1 half2 half3 half4 half5 half6 half7 half8 c (Proc.devRef .tc main_v172) = kBt3 m c := by
  have h := stretch9_v172 (W18 m half0 half1 half2 half3 half4 half5 half6 half7 half8 c)
  rw [k18_arg13 m c] at h
  exact h
theorem k20_arg4 : W20 m half0 half1 half2 half3 half4 half5 half6 half7 half8 half9 c (Proc.devRef .tc main_arg4) = W0 m c (Proc.devRef .tc main_arg4) := (keepR9 m c main_arg4 (by decide)).trans (k19_arg4 m c)
theorem k20_arg9 : W20 m half0 half1 half2 half3 half4 half5 half6 half7 half8 half9 c (Proc.devRef .tc main_arg9) = W0 m c (Proc.devRef .tc main_arg9) := (keepR9 m c main_arg9 (by decide)).trans (k19_arg9 m c)
theorem k20_arg10 : W20 m half0 half1 half2 half3 half4 half5 half6 half7 half8 half9 c (Proc.devRef .tc main_arg10) = W0 m c (Proc.devRef .tc main_arg10) := (keepR9 m c main_arg10 (by decide)).trans (k19_arg10 m c)
theorem k20_arg11 : W20 m half0 half1 half2 half3 half4 half5 half6 half7 half8 half9 c (Proc.devRef .tc main_arg11) = W0 m c (Proc.devRef .tc main_arg11) := (keepR9 m c main_arg11 (by decide)).trans (k19_arg11 m c)
theorem k20_arg12 : W20 m half0 half1 half2 half3 half4 half5 half6 half7 half8 half9 c (Proc.devRef .tc main_arg12) = W0 m c (Proc.devRef .tc main_arg12) := (keepR9 m c main_arg12 (by decide)).trans (k19_arg12 m c)
theorem k20_arg13 : W20 m half0 half1 half2 half3 half4 half5 half6 half7 half8 half9 c (Proc.devRef .tc main_arg13) = W0 m c (Proc.devRef .tc main_arg13) := (keepR9 m c main_arg13 (by decide)).trans (k19_arg13 m c)
theorem k20_v1 : W20 m half0 half1 half2 half3 half4 half5 half6 half7 half8 half9 c (Proc.devRef .tc main_v1) = kSrc m c := (keepR9 m c main_v1 (by decide)).trans (k19_v1 m c)
theorem k20_v3 : W20 m half0 half1 half2 half3 half4 half5 half6 half7 half8 half9 c (Proc.devRef .tc main_v3) = kDst m c := (keepR9 m c main_v3 (by decide)).trans (k19_v3 m c)
theorem k20_v12 : W20 m half0 half1 half2 half3 half4 half5 half6 half7 half8 half9 c (Proc.devRef .tc main_v12) = kDen m c := (keepR9 m c main_v12 (by decide)).trans (k19_v12 m c)
theorem k20_v24 : W20 m half0 half1 half2 half3 half4 half5 half6 half7 half8 half9 c (Proc.devRef .tc main_v24) = kAggE m c := (keepR9 m c main_v24 (by decide)).trans (k19_v24 m c)
theorem k20_v25 : W20 m half0 half1 half2 half3 half4 half5 half6 half7 half8 half9 c (Proc.devRef .tc main_v25) = kBatch m c := (keepR9 m c main_v25 (by decide)).trans (k19_v25 m c)
theorem k20_v62_1 : W20 m half0 half1 half2 half3 half4 half5 half6 half7 half8 half9 c (Proc.devRef .tc main_v62_1) = kPool0 m c := (keepR9 m c main_v62_1 (by decide)).trans (k19_v62_1 m c)
theorem k20_v99_1 : W20 m half0 half1 half2 half3 half4 half5 half6 half7 half8 half9 c (Proc.devRef .tc main_v99_1) = kPool1 m c := (keepR9 m c main_v99_1 (by decide)).trans (k19_v99_1 m c)
theorem k20_v136_1 : W20 m half0 half1 half2 half3 half4 half5 half6 half7 half8 half9 c (Proc.devRef .tc main_v136_1) = kPool2 m c := (keepR9 m c main_v136_1 (by decide)).trans (k19_v136_1 m c)
theorem k20_v173_0 : W20 m half0 half1 half2 half3 half4 half5 half6 half7 half8 half9 c (Proc.devRef .tc main_v173_0) = kH4 m c := by
  have h0 := W20_arr m half0 half1 half2 half3 half4 half5 half6 half7 half8 half9 c ⟨6, by decide⟩
  rw [half9_dat c] at h0
  have h := h0.trans (value9_y (X19 m half0 half1 half2 half3 half4 half5 half6 half7 half8) c)
  simp only [X19] at h
  rw [k19_v160_0 m c, k19_v162 m c, k19_v166 m c, k19_v171 m c, k19_v172 m c] at h
  exact h
theorem k20_v173_1 : W20 m half0 half1 half2 half3 half4 half5 half6 half7 half8 half9 c (Proc.devRef .tc main_v173_1) = kPool3 m c := by
  have h0 := W20_arr m half0 half1 half2 half3 half4 half5 half6 half7 half8 half9 c ⟨7, by decide⟩
  rw [half9_dat c] at h0
  have h := h0.trans (value9_pool (X19 m half0 half1 half2 half3 half4 half5 half6 half7 half8) c)
  simp only [X19] at h
  rw [k19_v25 m c, k19_v160_0 m c, k19_v162 m c, k19_v166 m c, k19_v171 m c, k19_v172 m c] at h
  exact h
theorem k21_arg12 : W21 m half0 half1 half2 half3 half4 half5 half6 half7 half8 half9 c (Proc.devRef .tc main_arg12) = W0 m c (Proc.devRef .tc main_arg12) := (hostOps10_keep (W20 m half0 half1 half2 half3 half4 half5 half6 half7 half8 half9 c) main_arg12 (by decide)).trans (k20_arg12 m c)
theorem k21_arg13 : W21 m half0 half1 half2 half3 half4 half5 half6 half7 half8 half9 c (Proc.devRef .tc main_arg13) = W0 m c (Proc.devRef .tc main_arg13) := (hostOps10_keep (W20 m half0 half1 half2 half3 half4 half5 half6 half7 half8 half9 c) main_arg13 (by decide)).trans (k20_arg13 m c)
theorem k21_v25 : W21 m half0 half1 half2 half3 half4 half5 half6 half7 half8 half9 c (Proc.devRef .tc main_v25) = kBatch m c := (hostOps10_keep (W20 m half0 half1 half2 half3 half4 half5 half6 half7 half8 half9 c) main_v25 (by decide)).trans (k20_v25 m c)
theorem k21_v62_1 : W21 m half0 half1 half2 half3 half4 half5 half6 half7 half8 half9 c (Proc.devRef .tc main_v62_1) = kPool0 m c := (hostOps10_keep (W20 m half0 half1 half2 half3 half4 half5 half6 half7 half8 half9 c) main_v62_1 (by decide)).trans (k20_v62_1 m c)
theorem k21_v99_1 : W21 m half0 half1 half2 half3 half4 half5 half6 half7 half8 half9 c (Proc.devRef .tc main_v99_1) = kPool1 m c := (hostOps10_keep (W20 m half0 half1 half2 half3 half4 half5 half6 half7 half8 half9 c) main_v99_1 (by decide)).trans (k20_v99_1 m c)
theorem k21_v136_1 : W21 m half0 half1 half2 half3 half4 half5 half6 half7 half8 half9 c (Proc.devRef .tc main_v136_1) = kPool2 m c := (hostOps10_keep (W20 m half0 half1 half2 half3 half4 half5 half6 half7 half8 half9 c) main_v136_1 (by decide)).trans (k20_v136_1 m c)
theorem k21_v173_0 : W21 m half0 half1 half2 half3 half4 half5 half6 half7 half8 half9 c (Proc.devRef .tc main_v173_0) = kH4 m c := (hostOps10_keep (W20 m half0 half1 half2 half3 half4 half5 half6 half7 half8 half9 c) main_v173_0 (by decide)).trans (k20_v173_0 m c)
theorem k21_v173_1 : W21 m half0 half1 half2 half3 half4 half5 half6 half7 half8 half9 c (Proc.devRef .tc main_v173_1) = kPool3 m c := (hostOps10_keep (W20 m half0 half1 half2 half3 half4 half5 half6 half7 half8 half9 c) main_v173_1 (by decide)).trans (k20_v173_1 m c)
theorem k21_v189 : W21 m half0 half1 half2 half3 half4 half5 half6 half7 half8 half9 c (Proc.devRef .tc main_v189) = kAgg4 m c := by
  have h := stretch10_v189 (W20 m half0 half1 half2 half3 half4 half5 half6 half7 half8 half9 c)
  rw [k20_v1 m c, k20_v3 m c, k20_v173_0 m c, k20_arg4 m c, k20_v12 m c, k20_v24 m c] at h
  exact h
theorem k21_v191 : W21 m half0 half1 half2 half3 half4 half5 half6 half7 half8 half9 c (Proc.devRef .tc main_v191) = kWl4 m c := by
  have h := stretch10_v191 (W20 m half0 half1 half2 half3 half4 half5 half6 half7 half8 half9 c)
  rw [k20_arg9 m c] at h
  exact h
theorem k21_v193 : W21 m half0 half1 half2 half3 half4 half5 half6 half7 half8 half9 c (Proc.devRef .tc main_v193) = kWr4 m c := by
  have h := stretch10_v193 (W20 m half0 half1 half2 half3 half4 half5 half6 half7 half8 half9 c)
  rw [k20_arg11 m c] at h
  exact h
theorem k21_v196 : W21 m half0 half1 half2 half3 half4 half5 half6 half7 half8 half9 c (Proc.devRef .tc main_v196) = kBl4 m c := by
  have h := stretch10_v196 (W20 m half0 half1 half2 half3 half4 half5 half6 half7 half8 half9 c)
  rw [k20_arg10 m c] at h
  exact h
theorem k22_arg12 : W22 m half0 half1 half2 half3 half4 half5 half6 half7 half8 half9 half10 c (Proc.devRef .tc main_arg12) = W0 m c (Proc.devRef .tc main_arg12) := (keepR10 m c main_arg12 (by decide)).trans (k21_arg12 m c)
theorem k22_arg13 : W22 m half0 half1 half2 half3 half4 half5 half6 half7 half8 half9 half10 c (Proc.devRef .tc main_arg13) = W0 m c (Proc.devRef .tc main_arg13) := (keepR10 m c main_arg13 (by decide)).trans (k21_arg13 m c)
theorem k22_v25 : W22 m half0 half1 half2 half3 half4 half5 half6 half7 half8 half9 half10 c (Proc.devRef .tc main_v25) = kBatch m c := (keepR10 m c main_v25 (by decide)).trans (k21_v25 m c)
theorem k22_v62_1 : W22 m half0 half1 half2 half3 half4 half5 half6 half7 half8 half9 half10 c (Proc.devRef .tc main_v62_1) = kPool0 m c := (keepR10 m c main_v62_1 (by decide)).trans (k21_v62_1 m c)
theorem k22_v99_1 : W22 m half0 half1 half2 half3 half4 half5 half6 half7 half8 half9 half10 c (Proc.devRef .tc main_v99_1) = kPool1 m c := (keepR10 m c main_v99_1 (by decide)).trans (k21_v99_1 m c)
theorem k22_v136_1 : W22 m half0 half1 half2 half3 half4 half5 half6 half7 half8 half9 half10 c (Proc.devRef .tc main_v136_1) = kPool2 m c := (keepR10 m c main_v136_1 (by decide)).trans (k21_v136_1 m c)
theorem k22_v173_1 : W22 m half0 half1 half2 half3 half4 half5 half6 half7 half8 half9 half10 c (Proc.devRef .tc main_v173_1) = kPool3 m c := (keepR10 m c main_v173_1 (by decide)).trans (k21_v173_1 m c)
theorem k22_v197_0 : W22 m half0 half1 half2 half3 half4 half5 half6 half7 half8 half9 half10 c (Proc.devRef .tc main_v197_0) = kZ4 m c := by
  have h0 := W22_arr m half0 half1 half2 half3 half4 half5 half6 half7 half8 half9 half10 c ⟨5, by decide⟩
  rw [half10_dat c] at h0
  have h := h0.trans (value10_o (X21 m half0 half1 half2 half3 half4 half5 half6 half7 half8 half9) c)
  simp only [X21] at h
  rw [k21_v189 m c, k21_v173_0 m c, k21_v191 m c, k21_v193 m c, k21_v196 m c] at h
  exact h
theorem k22_v197_1 : W22 m half0 half1 half2 half3 half4 half5 half6 half7 half8 half9 half10 c (Proc.devRef .tc main_v197_1) = ltSum (kZ4 m c) := by
  have h0 := W22_arr m half0 half1 half2 half3 half4 half5 half6 half7 half8 half9 half10 c ⟨6, by decide⟩
  rw [half10_dat c] at h0
  have h := h0.trans (value10_sum (X21 m half0 half1 half2 half3 half4 half5 half6 half7 half8 half9) c)
  simp only [X21] at h
  rw [k21_v189 m c, k21_v173_0 m c, k21_v191 m c, k21_v193 m c, k21_v196 m c] at h
  exact h
theorem k22_v197_2 : W22 m half0 half1 half2 half3 half4 half5 half6 half7 half8 half9 half10 c (Proc.devRef .tc main_v197_2) = ltSumSq (kZ4 m c) := by
  have h0 := W22_arr m half0 half1 half2 half3 half4 half5 half6 half7 half8 half9 half10 c ⟨7, by decide⟩
  rw [half10_dat c] at h0
  have h := h0.trans (value10_sumsq (X21 m half0 half1 half2 half3 half4 half5 half6 half7 half8 half9) c)
  simp only [X21] at h
  rw [k21_v189 m c, k21_v173_0 m c, k21_v191 m c, k21_v193 m c, k21_v196 m c] at h
  exact h
theorem k23_v25 : W23 m half0 half1 half2 half3 half4 half5 half6 half7 half8 half9 half10 c (Proc.devRef .tc main_v25) = kBatch m c := (hostOps11_keep (W22 m half0 half1 half2 half3 half4 half5 half6 half7 half8 half9 half10 c) main_v25 (by decide)).trans (k22_v25 m c)
theorem k23_v62_1 : W23 m half0 half1 half2 half3 half4 half5 half6 half7 half8 half9 half10 c (Proc.devRef .tc main_v62_1) = kPool0 m c := (hostOps11_keep (W22 m half0 half1 half2 half3 half4 half5 half6 half7 half8 half9 half10 c) main_v62_1 (by decide)).trans (k22_v62_1 m c)
theorem k23_v99_1 : W23 m half0 half1 half2 half3 half4 half5 half6 half7 half8 half9 half10 c (Proc.devRef .tc main_v99_1) = kPool1 m c := (hostOps11_keep (W22 m half0 half1 half2 half3 half4 half5 half6 half7 half8 half9 half10 c) main_v99_1 (by decide)).trans (k22_v99_1 m c)
theorem k23_v136_1 : W23 m half0 half1 half2 half3 half4 half5 half6 half7 half8 half9 half10 c (Proc.devRef .tc main_v136_1) = kPool2 m c := (hostOps11_keep (W22 m half0 half1 half2 half3 half4 half5 half6 half7 half8 half9 half10 c) main_v136_1 (by decide)).trans (k22_v136_1 m c)
theorem k23_v173_1 : W23 m half0 half1 half2 half3 half4 half5 half6 half7 half8 half9 half10 c (Proc.devRef .tc main_v173_1) = kPool3 m c := (hostOps11_keep (W22 m half0 half1 half2 half3 half4 half5 half6 half7 half8 half9 half10 c) main_v173_1 (by decide)).trans (k22_v173_1 m c)
theorem k23_v197_0 : W23 m half0 half1 half2 half3 half4 half5 half6 half7 half8 half9 half10 c (Proc.devRef .tc main_v197_0) = kZ4 m c := (hostOps11_keep (W22 m half0 half1 half2 half3 half4 half5 half6 half7 half8 half9 half10 c) main_v197_0 (by decide)).trans (k22_v197_0 m c)
theorem k23_v199 : W23 m half0 half1 half2 half3 half4 half5 half6 half7 half8 half9 half10 c (Proc.devRef .tc main_v199) = kMu4 m c := by
  have h := stretch11_v199 (W22 m half0 half1 half2 half3 half4 half5 half6 half7 half8 half9 half10 c)
  rw [k22_v197_1 m c] at h
  exact h
theorem k23_v203 : W23 m half0 half1 half2 half3 half4 half5 half6 half7 half8 half9 half10 c (Proc.devRef .tc main_v203) = kVar4 m c := by
  have h := stretch11_v203 (W22 m half0 half1 half2 half3 half4 half5 half6 half7 half8 half9 half10 c)
  rw [k22_v197_1 m c, k22_v197_2 m c] at h
  exact h
theorem k23_v208 : W23 m half0 half1 half2 half3 half4 half5 half6 half7 half8 half9 half10 c (Proc.devRef .tc main_v208) = kG4 m c := by
  have h := stretch11_v208 (W22 m half0 half1 half2 half3 half4 half5 half6 half7 half8 half9 half10 c)
  rw [k22_arg12 m c] at h
  exact h
theorem k23_v209 : W23 m half0 half1 half2 half3 half4 half5 half6 half7 half8 half9 half10 c (Proc.devRef .tc main_v209) = kBt4 m c := by
  have h := stretch11_v209 (W22 m half0 half1 half2 half3 half4 half5 half6 half7 half8 half9 half10 c)
  rw [k22_arg13 m c] at h
  exact h
theorem k24_v62_1 : W24 m half0 half1 half2 half3 half4 half5 half6 half7 half8 half9 half10 half11 c (Proc.devRef .tc main_v62_1) = kPool0 m c := (keepR11 m c main_v62_1 (by decide)).trans (k23_v62_1 m c)
theorem k24_v99_1 : W24 m half0 half1 half2 half3 half4 half5 half6 half7 half8 half9 half10 half11 c (Proc.devRef .tc main_v99_1) = kPool1 m c := (keepR11 m c main_v99_1 (by decide)).trans (k23_v99_1 m c)
theorem k24_v136_1 : W24 m half0 half1 half2 half3 half4 half5 half6 half7 half8 half9 half10 half11 c (Proc.devRef .tc main_v136_1) = kPool2 m c := (keepR11 m c main_v136_1 (by decide)).trans (k23_v136_1 m c)
theorem k24_v173_1 : W24 m half0 half1 half2 half3 half4 half5 half6 half7 half8 half9 half10 half11 c (Proc.devRef .tc main_v173_1) = kPool3 m c := (keepR11 m c main_v173_1 (by decide)).trans (k23_v173_1 m c)
theorem k24_v210_0 : W24 m half0 half1 half2 half3 half4 half5 half6 half7 half8 half9 half10 half11 c (Proc.devRef .tc main_v210_0) = kH5 m c := by
  have h0 := W24_arr m half0 half1 half2 half3 half4 half5 half6 half7 half8 half9 half10 half11 c ⟨6, by decide⟩
  rw [half11_dat c] at h0
  have h := h0.trans (value11_y (X23 m half0 half1 half2 half3 half4 half5 half6 half7 half8 half9 half10) c)
  simp only [X23] at h
  rw [k23_v197_0 m c, k23_v199 m c, k23_v203 m c, k23_v208 m c, k23_v209 m c] at h
  exact h
theorem k24_v210_1 : W24 m half0 half1 half2 half3 half4 half5 half6 half7 half8 half9 half10 half11 c (Proc.devRef .tc main_v210_1) = kPool4 m c := by
  have h0 := W24_arr m half0 half1 half2 half3 half4 half5 half6 half7 half8 half9 half10 half11 c ⟨7, by decide⟩
  rw [half11_dat c] at h0
  have h := h0.trans (value11_pool (X23 m half0 half1 half2 half3 half4 half5 half6 half7 half8 half9 half10) c)
  simp only [X23] at h
  rw [k23_v25 m c, k23_v197_0 m c, k23_v199 m c, k23_v203 m c, k23_v208 m c, k23_v209 m c] at h
  exact h
theorem k25_v210_0 : W25 m half0 half1 half2 half3 half4 half5 half6 half7 half8 half9 half10 half11 c (Proc.devRef .tc main_v210_0) = kH5 m c := (hostOps12_keep (W24 m half0 half1 half2 half3 half4 half5 half6 half7 half8 half9 half10 half11 c) main_v210_0 (by decide)).trans (k24_v210_0 m c)
theorem k25_v211 : W25 m half0 half1 half2 half3 half4 half5 half6 half7 half8 half9 half10 half11 c (Proc.devRef .tc main_v211) = pooledJoin (F := Ideal) (kPool0 m c) (kPool1 m c) (kPool2 m c) (kPool3 m c) (kPool4 m c) := by
  have h := stretch12_v211 (W24 m half0 half1 half2 half3 half4 half5 half6 half7 half8 half9 half10 half11 c)
  rw [k24_v62_1 m c, k24_v99_1 m c, k24_v136_1 m c, k24_v173_1 m c, k24_v210_1 m c] at h
  exact h

/-- The program's two results after all of @main. -/
theorem result_h : W25 m half0 half1 half2 half3 half4 half5 half6 half7 half8 half9 half10 half11 c (Proc.devRef .tc main_v210_0) = kH5 m c := k25_v210_0 m c
theorem result_pool : W25 m half0 half1 half2 half3 half4 half5 half6 half7 half8 half9 half10 half11 c (Proc.devRef .tc main_v211)
    = pooledJoin (F := Ideal) (kPool0 m c) (kPool1 m c) (kPool2 m c) (kPool3 m c) (kPool4 m c) := k25_v211 m c

end Cert.KernelIdeal.Asm

end
-- ==== Proof.KI.Val3Real.lean ====
/-
  The normalisation and pooling call over real arrays.

  When every entry of the region's entry arrays is a real number and the variance row is not negative, the sum
  `variance + ε` is a positive real, its reciprocal square root is a real number, and so the normalised array is the
  coercion of a real array — with or without the clamp at 0, the coercion being monotone. The pooled array of a coerced
  real array is the coercion of the real sum over the rows a graph owns: a one-hot weight is 1 or 0, and the coercion
  commutes with finite sums. The body's test of a row's graph number against a column g < 128 — an equality of 32-bit
  words — is the equality of the number read as a signed integer with g.
-/
import proofs.«144276_j65051574665788_2_alg».proof.Proof.KI.LibBnPool
import proofs.«144276_j65051574665788_2_alg».proof.Proof.RealLayer
import proofs.«144276_j65051574665788_2_alg».proof.Proof.LibEdgeSumLinear

set_option maxRecDepth 16384

noncomputable section

namespace Cert.KernelIdeal.Reg

open Cert.KernelIdeal
open Idealize.ShloMosaic Idealize.ShloMosaic.ValueIdx
open Cert.ReferenceIdeal.RealLayer (epsR epsR_pos ofBits_eps)

/-- For a column number g below 128 the word of g, read as a signed integer, is g. -/
theorem toInt_word_small (g : ℕ) (hg : g < 128) : (BitVec.ofNat 32 g).toInt = (g : Int) := by
  have hp : (2 : ℕ) ^ 32 = 4294967296 := by norm_num
  have h2 : (BitVec.ofNat 32 g).toNat = g := by rw [BitVec.toNat_ofNat]; exact Nat.mod_eq_of_lt (by omega)
  unfold BitVec.toInt
  rw [h2, if_pos (by omega)]

/-- So a 32-bit word equals the word of a column number g below 128 exactly when, read as a signed integer, it is g. -/
theorem word_eq_iff_toInt (w : BitVec 32) (g : ℕ) (hg : g < 128) : w = BitVec.ofNat 32 g ↔ w.toInt = (g : Int) :=
  ⟨fun h => h ▸ toInt_word_small g hg, fun h => BitVec.eq_of_toInt_eq (h.trans (toInt_word_small g hg).symm)⟩

section Real
variable (zR : Fin 50000 → Fin 128 → ℝ) (muR varR gR btR : Fin 128 → ℝ)

/-- The normalised array of the last layer over real arrays with a non-negative variance row is the coercion of the
    real formula. -/
theorem bnOutLast_coe (hvar : ∀ f, 0 ≤ varR f) :
    bnOutLast (fun i => ((zR (i 0) (i 1) : ℝ) : EReal)) (fun i => ((muR (i 1) : ℝ) : EReal)) (fun i => ((varR (i 1) : ℝ) : EReal))
        (fun i => ((gR (i 1) : ℝ) : EReal)) (fun i => ((btR (i 1) : ℝ) : EReal))
      = fun i => ((gR (i 1) * (zR (i 0) (i 1) - muR (i 1)) * (Real.sqrt (varR (i 1) + epsR))⁻¹ + btR (i 1) : ℝ) : EReal) := by
  funext i
  show ((gR (i 1) : ℝ) : EReal) * (((zR (i 0) (i 1) : ℝ) : EReal) - ((muR (i 1) : ℝ) : EReal))
      * Ideal.rsqrt (((varR (i 1) : ℝ) : EReal) + Ideal.ofBits .f32 0x3727C5AC#32) + ((btR (i 1) : ℝ) : EReal) = _
  have hpos : 0 < varR (i 1) + epsR := add_pos_of_nonneg_of_pos (hvar (i 1)) epsR_pos
  rw [ofBits_eps, ← EReal.coe_add, Ideal.rsqrt_coe, if_neg (not_lt.mpr hpos.le), if_neg hpos.ne']
  simp only [← EReal.coe_sub, ← EReal.coe_mul, ← EReal.coe_add]

/-- With the clamp: the maximum of that real number with 0. -/
theorem bnOut_coe (hvar : ∀ f, 0 ≤ varR f) :
    bnOut (fun i => ((zR (i 0) (i 1) : ℝ) : EReal)) (fun i => ((muR (i 1) : ℝ) : EReal)) (fun i => ((varR (i 1) : ℝ) : EReal))
        (fun i => ((gR (i 1) : ℝ) : EReal)) (fun i => ((btR (i 1) : ℝ) : EReal))
      = fun i => ((max (gR (i 1) * (zR (i 0) (i 1) - muR (i 1)) * (Real.sqrt (varR (i 1) + epsR))⁻¹ + btR (i 1)) 0 : ℝ) : EReal) := by
  funext i
  show max (bnOutLast (fun i => ((zR (i 0) (i 1) : ℝ) : EReal)) (fun i => ((muR (i 1) : ℝ) : EReal)) (fun i => ((varR (i 1) : ℝ) : EReal))
        (fun i => ((gR (i 1) : ℝ) : EReal)) (fun i => ((btR (i 1) : ℝ) : EReal)) i) 0 = _
  rw [bnOutLast_coe zR muR varR gR btR hvar, ← EReal.coe_zero]
  exact (EReal.coe_strictMono.monotone.map_max).symm

end Real

/-- The pooled array of a coerced real array: entry (g, j) is the coercion of the real sum of column j over the rows
    whose graph number, read as a signed integer, is g. -/
theorem bnPool_coe (batch2 : IVec S50000x1 32) (yR : Fin 50000 → Fin 128 → ℝ) :
    bnPool batch2 (fun i => ((yR (i 0) (i 1) : ℝ) : EReal))
      = fun i => ((∑ n ∈ Finset.univ.filter (fun n : Fin 50000 => (batch2 (ix2 n (0 : Fin 1))).toInt = ((i 0).val : Int)), yR n (i 1) : ℝ) : EReal) := by
  funext i
  have hi : (i 0).val < 128 := (i 0).isLt
  show ∑ n : Fin 50000, (if batch2 (ix2 n (0 : Fin 1)) = BitVec.ofNat 32 (i 0).val then (1 : EReal) else 0) * ((yR n (i 1) : ℝ) : EReal) = _
  rw [Cert.Lib.onehot_sum (fun n : Fin 50000 => batch2 (ix2 n (0 : Fin 1)) = BitVec.ofNat 32 (i 0).val) (fun n => ((yR n (i 1) : ℝ) : EReal)),
    Cert.Lib.coe_sum]
  refine Finset.sum_congr ?_ fun _ _ => rfl
  ext n
  simp only [Finset.mem_filter, Finset.mem_univ, true_and]
  exact word_eq_iff_toInt _ _ hi

end Cert.KernelIdeal.Reg

end
-- ==== Proof.KI.Val2Real.lean ====
import proofs.«144276_j65051574665788_2_alg».proof.Proof.KI.Val2
import proofs.«144276_j65051574665788_2_alg».proof.Proof.LibEdgeSumLinear

/-! # The layer transform of real arrays

When the five arrays hold real numbers, the whole-array transform `ltOut` over the extended reals is the coercion of
the real transform `(Σ_k agg[n, k] · Wl[k, f] + Σ_k h[n, k] · Wr[k, f]) + bl[f]`, and its column sums and column sums of
squares are the coercions of the real column sums: the coercion of the reals into the extended reals commutes with
products, sums of two and finite sums. -/

noncomputable section

namespace Cert.KernelIdeal.Reg

open Cert.KernelIdeal Cert.Lib
open Idealize.ShloMosaic Idealize.ShloMosaic.ValueIdx
open Finset

variable (aggR hR : Fin 50000 → Fin 128 → ℝ) (WlR WrR : Fin 128 → Fin 128 → ℝ) (blR : Fin 128 → ℝ)

/-- The transform over the reals, at node `n` and feature `f`. -/
def ltZR (n : Fin 50000) (f : Fin 128) : ℝ :=
  (∑ k : Fin 128, aggR n k * WlR k f + ∑ k : Fin 128, hR n k * WrR k f) + blR f

theorem ltZR_def (n : Fin 50000) (f : Fin 128) :
    ltZR aggR hR WlR WrR blR n f = (∑ k : Fin 128, aggR n k * WlR k f + ∑ k : Fin 128, hR n k * WrR k f) + blR f := rfl

/-- The transform of coerced real arrays is the coerced real transform. -/
theorem ltOut_coe :
    ltOut (fun i => ((aggR (i 0) (i 1) : ℝ) : EReal)) (fun i => ((hR (i 0) (i 1) : ℝ) : EReal))
        (fun i => ((WlR (i 0) (i 1) : ℝ) : EReal)) (fun i => ((WrR (i 0) (i 1) : ℝ) : EReal)) (fun i => ((blR (i 1) : ℝ) : EReal))
      = fun i => ((ltZR aggR hR WlR WrR blR (i 0) (i 1) : ℝ) : EReal) := by
  funext i
  obtain ⟨n, f, rfl⟩ : ∃ (n : Fin 50000) (f : Fin 128), i = ix2 n f := ⟨i 0, i 1, eq_ix2 i⟩
  rw [ltOut_ix2]
  simp only [← EReal.coe_mul, ← coe_sum, ← EReal.coe_add]
  rfl

/-- The column sums of a coerced real array are the coerced real column sums. -/
theorem ltSum_coe (zR : Fin 50000 → Fin 128 → ℝ) :
    ltSum (fun i => ((zR (i 0) (i 1) : ℝ) : EReal)) = fun i => ((∑ n : Fin 50000, zR n (i 1) : ℝ) : EReal) := by
  funext i
  show ∑ n : Fin 50000, ((zR n (i 1) : ℝ) : EReal) = _
  exact (coe_sum Finset.univ fun n => zR n (i 1)).symm

/-- The column sums of its squares are the coerced real column sums of squares. -/
theorem ltSumSq_coe (zR : Fin 50000 → Fin 128 → ℝ) :
    ltSumSq (fun i => ((zR (i 0) (i 1) : ℝ) : EReal)) = fun i => ((∑ n : Fin 50000, zR n (i 1) * zR n (i 1) : ℝ) : EReal) := by
  funext i
  show ∑ n : Fin 50000, ((zR n (i 1) : ℝ) : EReal) * ((zR n (i 1) : ℝ) : EReal) = _
  simp only [← EReal.coe_mul]
  exact (coe_sum Finset.univ fun n => zR n (i 1) * zR n (i 1)).symm

/-- So the three outputs of the layer transform of coerced real arrays, in one statement each. -/
theorem ltSum_ltOut_coe :
    ltSum (ltOut (fun i => ((aggR (i 0) (i 1) : ℝ) : EReal)) (fun i => ((hR (i 0) (i 1) : ℝ) : EReal))
        (fun i => ((WlR (i 0) (i 1) : ℝ) : EReal)) (fun i => ((WrR (i 0) (i 1) : ℝ) : EReal)) (fun i => ((blR (i 1) : ℝ) : EReal)))
      = fun i => ((∑ n : Fin 50000, ltZR aggR hR WlR WrR blR n (i 1) : ℝ) : EReal) := by
  rw [ltOut_coe]
  exact ltSum_coe (ltZR aggR hR WlR WrR blR)

theorem ltSumSq_ltOut_coe :
    ltSumSq (ltOut (fun i => ((aggR (i 0) (i 1) : ℝ) : EReal)) (fun i => ((hR (i 0) (i 1) : ℝ) : EReal))
        (fun i => ((WlR (i 0) (i 1) : ℝ) : EReal)) (fun i => ((WrR (i 0) (i 1) : ℝ) : EReal)) (fun i => ((blR (i 1) : ℝ) : EReal)))
      = fun i => ((∑ n : Fin 50000, ltZR aggR hR WlR WrR blR n (i 1) * ltZR aggR hR WlR WrR blR n (i 1) : ℝ) : EReal) := by
  rw [ltOut_coe]
  exact ltSumSq_coe (ltZR aggR hR WlR WrR blR)

end Cert.KernelIdeal.Reg

end
-- ==== Proof.KI.StretchReal.lean ====
/- The kernel program's host functions read at an index, over the extended reals. The edge weights and the weighted edge
   attributes summed by destination are real sums over the edges landing on a node; the bias rows and the graph numbers'
   column are their vectors; the column means and variances are quotients by 50000. -/
import proofs.«144276_j65051574665788_2_alg».proof.Proof.KI.Stretch
import proofs.«144276_j65051574665788_2_alg».proof.Proof.RealLayer
import Idealize.ShloMosaic.Lib.ValueLayout

noncomputable section

namespace Cert.KernelIdeal.Reg

open Cert.KernelIdeal Cert.KernelIdeal.Gen Idealize.ShloMosaic Idealize.ShloMosaic.TcCoe Idealize.ShloMosaic.ValueIdx
open Cert.ReferenceIdeal.AggRead Cert.ReferenceIdeal.RealLayer Cert.ReferenceIdeal.BnRead Cert.LibRowScatterSum Cert.Lib
open Cert.LibRowGatherScatter Cert.LibColumnLayout Cert.LibColumnHost Cert.LibRowBroadcast Cert.LibScatterHoist

/-! ## The program's scatters are the general ones at its extents -/

private theorem kscatter1_eq : scatter_S50000_S600000x1_S600000_n_0_0_1
    = eltsScatter 50000 600000 scatter_S50000_S600000x1_S600000_n_0_0_1_wf := rfl
private theorem kscatter11_eq : scatter_S50000x11_S600000x1_S600000x11_1_0_0_1
    = rowsScatter 50000 600000 11 scatter_S50000x11_S600000x1_S600000x11_1_0_0_1_wf := rfl

/-- A zero splat is zero everywhere, whatever its shape. -/
private theorem zero_splat_apply {t : Shape} (dims : Fin 0 → Fin t.rank) (h : (⟨0, ![]⟩ : Shape).BroadcastsInDim t dims) (i : t.Idx) :
    broadcastInDim t dims h (constant (F := Ideal) ⟨0, ![]⟩ .f32 0x00000000#32) i = 0 := by
  rw [broadcastInDim_scalar_apply, constant_apply]
  exact Ideal.ofBits_zero_f32

/-! ## Stretch 1 -/

/-- The edge weights summed by destination, at node `n`: the real sum over the edges landing on `n`. -/
theorem ewSumCol_real (dst : IVec S600000 32) (wR : Fin 600000 → ℝ) (n : Fin 50000) :
    ewSumCol (F := Ideal) dst (fun i => ((wR (i 0) : ℝ) : EReal)) (ix2 n (0 : Fin 1))
      = ((∑ e ∈ landing 50000 (dstCol dst) n, wR e : ℝ) : EReal) := by
  show shapeCast S50000x1
      (Host.scatterAdd scatter_S50000_S600000x1_S600000_n_0_0_1
        (broadcastInDim S50000 ![] bcast_S_S50000 (constant (F := Ideal) S_ .f32 0x00000000#32)) (dstCol dst)
        (fun i : S600000.Idx => ((wR (i 0) : ℝ) : EReal)))
      shapeCasts_S50000_S50000x1 (ix2 n (0 : Fin 1)) = _
  rw [shapeCast_a_a1_apply]
  have hz : (broadcastInDim S50000 ![] bcast_S_S50000 (constant (F := Ideal) S_ .f32 0x00000000#32) : S50000.Idx → EReal)
      = fun _ => 0 := funext fun i => zero_splat_apply _ _ i
  show Ideal.hostScatterAdd scatter_S50000_S600000x1_S600000_n_0_0_1 _ (dstCol dst) _ (ix1 n) = _
  rw [hz, kscatter1_eq]
  exact scatterAdd_elts_coe scatter_S50000_S600000x1_S600000_n_0_0_1_wf (dstCol dst) (fun j => wR (j 0)) n

/-- The weighted edge attributes summed by destination, at node `n` and attribute `k`: the real sum over the edges
    landing on `n` of the attribute times the edge's weight. -/
theorem eaSum_real (dst : IVec S600000 32) (aR : Fin 600000 → Fin 11 → ℝ) (wR : Fin 600000 → ℝ) (n : Fin 50000) (k : Fin 11) :
    eaSum (F := Ideal) dst (fun i => ((aR (i 0) (i 1) : ℝ) : EReal)) (fun i => ((wR (i 0) : ℝ) : EReal)) (ix2 n k)
      = ((∑ e ∈ landing 50000 (dstCol dst) n, aR e k * wR e : ℝ) : EReal) := by
  show Host.scatterAdd scatter_S50000x11_S600000x1_S600000x11_1_0_0_1
      (broadcastInDim S50000x11 ![] bcast_S_S50000x11 (constant (F := Ideal) S_ .f32 0x00000000#32)) (dstCol dst)
      (mulf (fun i : S600000x11.Idx => ((aR (i 0) (i 1) : ℝ) : EReal))
        (broadcastInDim S600000x11 ![0, 1] bcast_S600000x1_S600000x11_0_1
          (broadcastInDim S600000x1 ![0] bcast_S600000_S600000x1_0 (fun i : S600000.Idx => ((wR (i 0) : ℝ) : EReal)))))
      (ix2 n k) = _
  have hz : (broadcastInDim S50000x11 ![] bcast_S_S50000x11 (constant (F := Ideal) S_ .f32 0x00000000#32) : S50000x11.Idx → EReal)
      = fun _ => 0 := funext fun i => zero_splat_apply _ _ i
  have hm : (mulf (F := Ideal) (φ := .f32) (fun i : S600000x11.Idx => ((aR (i 0) (i 1) : ℝ) : EReal))
        (broadcastInDim S600000x11 ![0, 1] bcast_S600000x1_S600000x11_0_1
          (broadcastInDim S600000x1 ![0] bcast_S600000_S600000x1_0 (fun i : S600000.Idx => ((wR (i 0) : ℝ) : EReal))))
        : S600000x11.Idx → EReal)
      = fun j => ((aR (j 0) (j 1) * wR (j 0) : ℝ) : EReal) := by
    funext j
    obtain ⟨e, q, rfl⟩ : ∃ (e : Fin 600000) (q : Fin 11), j = ix2 e q := ⟨j 0, j 1, eq_ix2 j⟩
    rw [mulf_apply, broadcastInDim_a1_ab_apply _ rfl rfl, broadcastInDim_a_a1_apply _ rfl]
    exact (EReal.coe_mul _ _).symm
  show Ideal.hostScatterAdd scatter_S50000x11_S600000x1_S600000x11_1_0_0_1 _ (dstCol dst) _ (ix2 n k) = _
  rw [hz, hm, kscatter11_eq]
  exact scatterAdd_rows_coe scatter_S50000x11_S600000x1_S600000x11_1_0_0_1_wf (dstCol dst) (fun j => aR (j 0) (j 1) * wR (j 0)) n k

/-- The bond encoder's bias row at (0, f) is the bias at f. -/
theorem bondBiasRow_apply (b : S128.Idx → EReal) (f : Fin 128) :
    bondBiasRow (F := Ideal) b (ix2 (0 : Fin 1) f) = b (ix1 f) := by
  show shapeCast S1x128 b shapeCasts_S128_S1x128 (ix2 (0 : Fin 1) f) = _
  rw [shapeCast_a_1a_apply]

/-! ## Stretch 0 -/

/-- The atom encoder's bias row at (0, f) is the bias at f. -/
theorem atomBiasRow_apply (b : S128.Idx → EReal) (f : Fin 128) :
    atomBiasRow (F := Ideal) b (ix2 (0 : Fin 1) f) = b (ix1 f) := by
  show shapeCast S1x128 b shapeCasts_S128_S1x128 (ix2 (0 : Fin 1) f) = _
  rw [shapeCast_a_1a_apply]

/-! ## Stretch 2 and its repeats -/

/-- The graph numbers' column at (n, 0) is the graph number of node n. -/
theorem graphCol_apply (batch : IVec S50000 32) (n : Fin 50000) :
    graphCol (F := Ideal) batch (ix2 n (0 : Fin 1)) = batch (ix1 n) := by
  show shapeCast S50000x1 batch shapeCasts_S50000_S50000x1 (ix2 n (0 : Fin 1)) = _
  rw [shapeCast_a_a1_apply]

/-! ## Stretch 3 and its repeats -/

/-- A column mean: the column sum divided by 50000. -/
theorem colMean_apply (s : S1x128.Idx → EReal) (f : Fin 128) :
    colMean (F := Ideal) s (ix2 (0 : Fin 1) f) = Ideal.div (s (ix2 (0 : Fin 1) f)) ((50000 : ℝ) : EReal) := by
  show Ideal.div (s (ix2 (0 : Fin 1) f))
      (broadcastInDim S1x128 ![] bcast_S_S1x128 (constant (F := Ideal) S_ .f32 0x47435000#32) (ix2 (0 : Fin 1) f)) = _
  rw [broadcastInDim_scalar_apply, constant_apply, ofBits_50000]

/-- A column variance: the column sum of squares divided by 50000, less the square of the column mean. -/
theorem colVar_apply (s q : S1x128.Idx → EReal) (f : Fin 128) :
    colVar (F := Ideal) s q (ix2 (0 : Fin 1) f)
      = Ideal.div (q (ix2 (0 : Fin 1) f)) ((50000 : ℝ) : EReal)
        - Ideal.div (s (ix2 (0 : Fin 1) f)) ((50000 : ℝ) : EReal) * Ideal.div (s (ix2 (0 : Fin 1) f)) ((50000 : ℝ) : EReal) := by
  show Ideal.div (q (ix2 (0 : Fin 1) f))
        (broadcastInDim S1x128 ![] bcast_S_S1x128 (constant (F := Ideal) S_ .f32 0x47435000#32) (ix2 (0 : Fin 1) f))
      - Ideal.div (s (ix2 (0 : Fin 1) f))
          (broadcastInDim S1x128 ![] bcast_S_S1x128 (constant (F := Ideal) S_ .f32 0x47435000#32) (ix2 (0 : Fin 1) f))
        * Ideal.div (s (ix2 (0 : Fin 1) f))
          (broadcastInDim S1x128 ![] bcast_S_S1x128 (constant (F := Ideal) S_ .f32 0x47435000#32) (ix2 (0 : Fin 1) f)) = _
  rw [broadcastInDim_scalar_apply, constant_apply, ofBits_50000]

end Cert.KernelIdeal.Reg

end
-- ==== Proof.KI.StretchAgg.lean ====
/- A layer's aggregated message in the kernel program, read at an index over the extended reals. The denominator column is
   the real number max(in-degree, 1). The message at node `n` and column `f` is the exact scatter-add by destination of the
   gathered weighted rows of `h`, divided by the node's denominator, plus the projected edge term; over real node features
   and edge weights it is the mean over the edges landing on `n` of the gathered weighted rows, plus that term. The source
   numbers are wrapped and laid out by the same operations as in the reference. -/
import proofs.«144276_j65051574665788_2_alg».proof.Proof.KI.Stretch
import proofs.«144276_j65051574665788_2_alg».proof.Proof.RealLayer
import Idealize.ShloMosaic.Lib.ValueLayout

noncomputable section

namespace Cert.KernelIdeal.Reg

open Cert.KernelIdeal Cert.KernelIdeal.Gen Idealize.ShloMosaic Idealize.ShloMosaic.TcCoe Idealize.ShloMosaic.ValueIdx
open Cert.ReferenceIdeal.AggRead Cert.ReferenceIdeal.RealLayer Cert.ReferenceIdeal.BnRead Cert.LibRowScatterSum Cert.Lib
open Cert.LibRowGatherScatter Cert.LibColumnLayout Cert.LibColumnHost Cert.LibRowBroadcast Cert.LibScatterHoist

/-! ## The program's scatters and gather are the general ones at its extents -/

private theorem kscatter1_eq : scatter_S50000_S600000x1_S600000_n_0_0_1
    = eltsScatter 50000 600000 scatter_S50000_S600000x1_S600000_n_0_0_1_wf := rfl
private theorem kscatter128_eq : scatter_S50000x128_S600000x1_S600000x128_1_0_0_1
    = rowsScatter 50000 600000 128 scatter_S50000x128_S600000x1_S600000x128_1_0_0_1_wf := rfl
private theorem kgather128_eq : gather_S50000x128_S600000x1_S600000x128_1_0_n_n_0_1_1128
    = rowsDims 50000 600000 128 gather_S50000x128_S600000x1_S600000x128_1_0_n_n_0_1_1128_wf := rfl

/-- A zero splat is zero everywhere, whatever its shape. -/
private theorem zero_splat_apply {t : Shape} (dims : Fin 0 → Fin t.rank) (h : (⟨0, ![]⟩ : Shape).BroadcastsInDim t dims) (i : t.Idx) :
    broadcastInDim t dims h (constant (F := Ideal) ⟨0, ![]⟩ .f32 0x00000000#32) i = 0 := by
  rw [broadcastInDim_scalar_apply, constant_apply]
  exact Ideal.ofBits_zero_f32

/-- The denominator column at node `n` is the real number max(in-degree, 1). -/
theorem denomCol_real (dst : IVec S600000 32) (n : Fin 50000) :
    denomCol (F := Ideal) dst (ix2 n (0 : Fin 1)) = ((denomR dst n : ℝ) : EReal) := by
  show shapeCast S50000x1
      (maximumf
        (Host.scatterAdd scatter_S50000_S600000x1_S600000_n_0_0_1
          (broadcastInDim S50000 ![] bcast_S_S50000 (constant (F := Ideal) S_ .f32 0x00000000#32)) (dstCol dst)
          (broadcastInDim S600000 ![] bcast_S_S600000 (constant (F := Ideal) S_ .f32 0x3F800000#32)))
        (broadcastInDim S50000 ![] bcast_S_S50000 (constant (F := Ideal) S_ .f32 0x3F800000#32)))
      shapeCasts_S50000_S50000x1 (ix2 n (0 : Fin 1)) = _
  rw [shapeCast_a_a1_apply, maximumf_apply, broadcastInDim_scalar_apply, constant_apply, ofBits_one]
  show max (Ideal.hostScatterAdd scatter_S50000_S600000x1_S600000_n_0_0_1 _ (dstCol dst) _ (ix1 n)) 1 = _
  rw [kscatter1_eq, scatterAdd_elts_apply, zero_splat_apply, zero_add]
  have hs : ∑ e ∈ landing 50000 (dstCol dst) n,
      broadcastInDim S600000 ![] bcast_S_S600000 (constant (F := Ideal) S_ .f32 0x3F800000#32) (ix1 e)
        = (((landing 50000 (dstCol dst) n).card : ℝ) : EReal) := by
    rw [Finset.sum_congr rfl fun e _ => by rw [broadcastInDim_scalar_apply, constant_apply, ofBits_one]]
    rw [Finset.sum_const, nsmul_one]
    norm_cast
  rw [hs]
  unfold denomR
  rw [← EReal.coe_one]
  exact (EReal.coe_strictMono.monotone.map_max).symm

/-- The kernel program wraps and lays out the source numbers by the same operations as the reference. -/
theorem srcCol_eq (src : IVec S600000 32) :
    (broadcastInDim S600000x1 ![0] bcast_S600000_S600000x1_0
        (select (cmpi .slt src (broadcastInDim S600000 ![] bcast_S_S600000 (constantI S_ 32 0#32)))
          (addi src (broadcastInDim S600000 ![] bcast_S_S600000 (constantI S_ 32 50000#32))) src) : IVec S600000x1 32)
      = Cert.ReferenceIdeal.RefRun.srcRows (F := Ideal) src := rfl

/-- The per-edge weighted row at (e, f): the gathered row of `h` times the edge's weight. -/
theorem wrow_apply (h : FVec Ideal S50000x128 .f32) (ew : FVec Ideal S600000 .f32) (src : IVec S600000 32)
    (e : Fin 600000) (f : Fin 128) :
    mulf (Host.gather gather_S50000x128_S600000x1_S600000x128_1_0_n_n_0_1_1128 h (Cert.ReferenceIdeal.RefRun.srcRows (F := Ideal) src))
        (broadcastInDim S600000x128 ![0, 1] bcast_S600000x1_S600000x128_0_1 (broadcastInDim S600000x1 ![0] bcast_S600000_S600000x1_0 ew))
        (ix2 e f)
      = h (ix2 (Cert.ReferenceIdeal.AggRead.srcRow src e) f) * ew (ix1 e) := by
  rw [mulf_apply, kgather128_eq, gather_rows_apply (by norm_num), broadcastInDim_a1_ab_apply _ rfl rfl,
    broadcastInDim_a_a1_apply _ rfl]
  rfl

/-- A layer's aggregated message at (n, f), over any operands: the exact scatter-add by destination of the gathered
    weighted rows, divided by the node's denominator, plus the projected edge term there. -/
theorem aggMsg_apply (src dst : IVec S600000 32) (h : FVec Ideal S50000x128 .f32) (ew : FVec Ideal S600000 .f32)
    (denom : FVec Ideal S50000x1 .f32) (ea : FVec Ideal S50000x128 .f32) (n : Fin 50000) (f : Fin 128) :
    aggMsg (F := Ideal) src dst h ew denom ea (ix2 n f)
      = Ideal.div
          (Ideal.hostScatterAdd (rowsScatter 50000 600000 128 scatter_S50000x128_S600000x1_S600000x128_1_0_0_1_wf) (fun _ => 0) (dstCol dst)
            (fun j => h (ix2 (Cert.ReferenceIdeal.AggRead.srcRow src (j 0)) (j 1)) * ew (ix1 (j 0))) (ix2 n f))
          (denom (ix2 n 0))
        + ea (ix2 n f) := by
  show addf (Host.divf
      (Host.scatterAdd scatter_S50000x128_S600000x1_S600000x128_1_0_0_1
        (broadcastInDim S50000x128 ![] bcast_S_S50000x128 (constant (F := Ideal) S_ .f32 0x00000000#32)) (dstCol dst)
        (mulf (Host.gather gather_S50000x128_S600000x1_S600000x128_1_0_n_n_0_1_1128 h (Cert.ReferenceIdeal.RefRun.srcRows (F := Ideal) src))
          (broadcastInDim S600000x128 ![0, 1] bcast_S600000x1_S600000x128_0_1 (broadcastInDim S600000x1 ![0] bcast_S600000_S600000x1_0 ew))))
      (broadcastInDim S50000x128 ![0, 1] bcast_S50000x1_S50000x128_0_1 denom)) ea (ix2 n f) = _
  rw [addf_apply]
  refine congrArg (· + ea (ix2 n f)) ?_
  have hz : (broadcastInDim S50000x128 ![] bcast_S_S50000x128 (constant (F := Ideal) S_ .f32 0x00000000#32) : S50000x128.Idx → EReal)
      = fun _ => 0 := funext fun i => zero_splat_apply _ _ i
  have hm : (mulf (Host.gather gather_S50000x128_S600000x1_S600000x128_1_0_n_n_0_1_1128 h (Cert.ReferenceIdeal.RefRun.srcRows (F := Ideal) src))
        (broadcastInDim S600000x128 ![0, 1] bcast_S600000x1_S600000x128_0_1 (broadcastInDim S600000x1 ![0] bcast_S600000_S600000x1_0 ew))
        : S600000x128.Idx → EReal)
      = fun j => h (ix2 (Cert.ReferenceIdeal.AggRead.srcRow src (j 0)) (j 1)) * ew (ix1 (j 0)) := by
    funext j
    obtain ⟨e, q, rfl⟩ : ∃ (e : Fin 600000) (q : Fin 128), j = ix2 e q := ⟨j 0, j 1, eq_ix2 j⟩
    exact wrow_apply h ew src e q
  show Ideal.div
      (Ideal.hostScatterAdd scatter_S50000x128_S600000x1_S600000x128_1_0_0_1 _ (dstCol dst) _ (ix2 n f))
      (broadcastInDim S50000x128 ![0, 1] bcast_S50000x1_S50000x128_0_1 denom (ix2 n f)) = _
  rw [hz, hm, broadcastInDim_a1_ab_apply _ rfl rfl, kscatter128_eq]

/-- A layer's aggregated message over real node features and edge weights, with the denominator column of the same
    destinations: at node `n` and column `f`, the mean over the edges landing on `n` of the gathered weighted rows of
    `h`, plus the projected edge term there. -/
theorem aggMsg_real (src dst : IVec S600000 32) (hR : Fin 50000 → Fin 128 → ℝ) (wR : Fin 600000 → ℝ)
    (ea : S50000x128.Idx → EReal) (n : Fin 50000) (f : Fin 128) :
    aggMsg (F := Ideal) src dst (fun i => ((hR (i 0) (i 1) : ℝ) : EReal)) (fun i => ((wR (i 0) : ℝ) : EReal))
        (denomCol (F := Ideal) dst) ea (ix2 n f)
      = ((aggHR hR wR src dst n f : ℝ) : EReal) + ea (ix2 n f) := by
  rw [aggMsg_apply, denomCol_real]
  refine congrArg (· + ea (ix2 n f)) ?_
  have hm : (fun j : S600000x128.Idx =>
        (((hR ((ix2 (Cert.ReferenceIdeal.AggRead.srcRow src (j 0)) (j 1) : S50000x128.Idx) 0)
            ((ix2 (Cert.ReferenceIdeal.AggRead.srcRow src (j 0)) (j 1) : S50000x128.Idx) 1) : ℝ) : EReal)
          * ((wR ((ix1 (j 0) : S600000.Idx) 0) : ℝ) : EReal)))
      = fun j => ((hR (Cert.ReferenceIdeal.AggRead.srcRow src (j 0)) (j 1) * wR (j 0) : ℝ) : EReal) :=
    funext fun j => (EReal.coe_mul _ _).symm
  exact (congrArg (fun u : S600000x128.Idx → EReal =>
      Ideal.div (Ideal.hostScatterAdd (rowsScatter 50000 600000 128 scatter_S50000x128_S600000x1_S600000x128_1_0_0_1_wf) (fun _ => 0) (dstCol dst) u (ix2 n f))
        ((denomR dst n : ℝ) : EReal)) hm).trans (by
    rw [scatterAdd_rows_coe scatter_S50000x128_S600000x1_S600000x128_1_0_0_1_wf (dstCol dst)
        (fun j => hR (Cert.ReferenceIdeal.AggRead.srcRow src (j 0)) (j 1) * wR (j 0)) n f,
      Ideal.div_coe (denomR_ne_zero dst n), ← EReal.coe_mul]
    rfl)

end Cert.KernelIdeal.Reg

end
-- ==== Proof.KI.KLayerReal.lean ====
/-
  One layer of the kernel program over real inputs.

  For real node features, edge data and parameters every stage of the kernel program's layer is the coercion of a real
  array, with the same real formulas as the reference's layer in the kernel's arrangement: the projected edge term is the
  edge encoder applied once to a node's summed weighted attributes and summed weights, over the node's denominator; the
  node array before the normalisation is the transform of the aggregated message and of the node features, the bias added
  last; its column mean and variance are the real mean and the mean of the squares less the squared mean; and the
  normalised array is the real formula, clamped at 0 in every layer but the last. The variance is not negative, so
  `variance + ε` is a positive real and its reciprocal square root a real number.
-/
import proofs.«144276_j65051574665788_2_alg».proof.Proof.KI.Val3Real
import proofs.«144276_j65051574665788_2_alg».proof.Proof.KI.Val2Real
import proofs.«144276_j65051574665788_2_alg».proof.Proof.KI.Val1
import proofs.«144276_j65051574665788_2_alg».proof.Proof.KI.StretchReal
import proofs.«144276_j65051574665788_2_alg».proof.Proof.KI.StretchAgg
import proofs.«144276_j65051574665788_2_alg».proof.Proof.RealLayer

set_option maxRecDepth 16384

noncomputable section

namespace Cert.KernelIdeal.Reg

open Cert.KernelIdeal Cert.Lib
open Idealize.ShloMosaic Idealize.ShloMosaic.ValueIdx
open Cert.ReferenceIdeal.AggRead (denomR denomR_ne_zero)
open Cert.ReferenceIdeal.RealLayer (aggHR aggEaR aggR zR muR varR yR epsR varR_nonneg)

variable (hR : Fin 50000 → Fin 128 → ℝ) (aR : Fin 600000 → Fin 11 → ℝ) (WbR : Fin 11 → Fin 128 → ℝ) (bbR : Fin 128 → ℝ)
  (wR : Fin 600000 → ℝ) (src dst : IVec S600000 32) (WlR WrR : Fin 128 → Fin 128 → ℝ) (blR gR btR : Fin 128 → ℝ)

/-- Every index of a one-row array is (0, f). -/
theorem row_idx (i : S1x128.Idx) : ∃ f : Fin 128, i = ix2 (0 : Fin 1) f := by
  obtain ⟨z, f, rfl⟩ : ∃ (z : Fin 1) (f : Fin 128), i = ix2 z f := ⟨i 0, i 1, eq_ix2 i⟩
  obtain rfl : z = 0 := Subsingleton.elim _ _
  exact ⟨f, rfl⟩

/-! ## The projected edge term -/

/-- The edge projection at node `n`, column `f`. -/
theorem projEdges_ix2 (ea : S50000x11.Idx → EReal) (W : S11x128.Idx → EReal) (ew : S50000x1.Idx → EReal) (b : S1x128.Idx → EReal)
    (dn : S50000x1.Idx → EReal) (n : Fin 50000) (f : Fin 128) :
    projEdges ea W ew b dn (ix2 n f)
      = Ideal.div ((∑ k : Fin 11, ea (ix2 n k) * W (ix2 k f)) + ew (ix2 n (0 : Fin 1)) * b (ix2 (0 : Fin 1) f)) (dn (ix2 n (0 : Fin 1))) := rfl

/-- The projected edge term of the kernel program over real edge data: the projection of the summed weighted attributes
    and of the summed weights, over the denominator column. -/
def kAggEa : S50000x128.Idx → EReal :=
  projEdges (eaSum (F := Ideal) dst (fun i => ((aR (i 0) (i 1) : ℝ) : EReal)) (fun i => ((wR (i 0) : ℝ) : EReal))) (fun i => ((WbR (i 0) (i 1) : ℝ) : EReal))
    (ewSumCol (F := Ideal) dst (fun i => ((wR (i 0) : ℝ) : EReal))) (fun i => ((bbR (i 1) : ℝ) : EReal)) (denomCol (F := Ideal) dst)

/-- It is the real edge term: the sums are real sums over the edges landing on the node, and the denominator is a
    non-zero real, so the ideal quotient is the product with its reciprocal. -/
theorem kAggEa_real (n : Fin 50000) (f : Fin 128) :
    kAggEa aR WbR bbR wR dst (ix2 n f) = ((aggEaR aR WbR bbR wR dst n f : ℝ) : EReal) := by
  unfold kAggEa
  rw [projEdges_ix2]
  rw [denomCol_real, ewSumCol_real, Ideal.div_coe (denomR_ne_zero dst n)]
  simp only [eaSum_real, ← EReal.coe_mul, ← coe_sum, ← EReal.coe_add]
  rfl

/-! ## The node array before the normalisation -/

/-- The node array of the kernel program over real inputs: the layer transform of the aggregated message (the mean of
    the gathered weighted rows plus the projected edge term) and of the node features. -/
def kZ : S50000x128.Idx → EReal :=
  ltOut (aggMsg (F := Ideal) src dst (fun i => ((hR (i 0) (i 1) : ℝ) : EReal)) (fun i => ((wR (i 0) : ℝ) : EReal)) (denomCol (F := Ideal) dst) (kAggEa aR WbR bbR wR dst))
    (fun i => ((hR (i 0) (i 1) : ℝ) : EReal)) (fun i => ((WlR (i 0) (i 1) : ℝ) : EReal)) (fun i => ((WrR (i 0) (i 1) : ℝ) : EReal)) (fun i => ((blR (i 1) : ℝ) : EReal))

/-- The aggregated message is the real aggregated message. -/
theorem kAggMsg_real :
    (aggMsg (F := Ideal) src dst (fun i => ((hR (i 0) (i 1) : ℝ) : EReal)) (fun i => ((wR (i 0) : ℝ) : EReal)) (denomCol (F := Ideal) dst) (kAggEa aR WbR bbR wR dst) : S50000x128.Idx → EReal)
      = fun i : S50000x128.Idx => ((aggR hR aR WbR bbR wR src dst (i 0) (i 1) : ℝ) : EReal) := by
  funext i
  obtain ⟨n, f, rfl⟩ : ∃ (n : Fin 50000) (f : Fin 128), i = ix2 n f := ⟨i 0, i 1, eq_ix2 i⟩
  rw [aggMsg_real, kAggEa_real, ← EReal.coe_add]
  rfl

/-- So the node array is the real node array, the bias added last. -/
theorem kZ_real : kZ hR aR WbR bbR wR src dst WlR WrR blR = fun i => ((zR hR aR WbR bbR wR src dst WlR WrR blR (i 0) (i 1) : ℝ) : EReal) := by
  unfold kZ
  rw [kAggMsg_real, ltOut_coe (aggR hR aR WbR bbR wR src dst) hR WlR WrR blR]
  rfl

/-! ## Its column mean and variance -/

/-- The column mean of the node array is the real mean. -/
theorem kMean_real : colMean (F := Ideal) (ltSum (kZ hR aR WbR bbR wR src dst WlR WrR blR)) = fun i : S1x128.Idx => ((muR hR aR WbR bbR wR src dst WlR WrR blR (i 1) : ℝ) : EReal) := by
  rw [kZ_real, ltSum_coe (zR hR aR WbR bbR wR src dst WlR WrR blR)]
  funext i
  obtain ⟨f, rfl⟩ := row_idx i
  rw [colMean_apply, Ideal.div_coe (by norm_num : (50000 : ℝ) ≠ 0), ← EReal.coe_mul]
  rfl

/-- The column variance, the mean of the squares less the squared mean, is the real variance. -/
theorem kVar_real : colVar (F := Ideal) (ltSum (kZ hR aR WbR bbR wR src dst WlR WrR blR)) (ltSumSq (kZ hR aR WbR bbR wR src dst WlR WrR blR)) = fun i : S1x128.Idx => ((varR hR aR WbR bbR wR src dst WlR WrR blR (i 1) : ℝ) : EReal) := by
  rw [kZ_real, ltSum_coe (zR hR aR WbR bbR wR src dst WlR WrR blR), ltSumSq_coe (zR hR aR WbR bbR wR src dst WlR WrR blR)]
  funext i
  obtain ⟨f, rfl⟩ := row_idx i
  rw [colVar_apply, Ideal.div_coe (by norm_num : (50000 : ℝ) ≠ 0), Ideal.div_coe (by norm_num : (50000 : ℝ) ≠ 0)]
  simp only [← EReal.coe_mul, ← EReal.coe_sub]
  rfl

/-! ## The layer -/

/-- The layer of the kernel program over real inputs, with the clamp: the maximum of the real formula with 0. -/
theorem kLayer_real :
    bnOut (kZ hR aR WbR bbR wR src dst WlR WrR blR) (colMean (F := Ideal) (ltSum (kZ hR aR WbR bbR wR src dst WlR WrR blR))) (colVar (F := Ideal) (ltSum (kZ hR aR WbR bbR wR src dst WlR WrR blR)) (ltSumSq (kZ hR aR WbR bbR wR src dst WlR WrR blR))) (fun i => ((gR (i 1) : ℝ) : EReal)) (fun i => ((btR (i 1) : ℝ) : EReal))
      = fun i => ((max (yR hR aR WbR bbR wR src dst WlR WrR blR gR btR (i 0) (i 1)) 0 : ℝ) : EReal) := by
  rw [kMean_real, kVar_real, kZ_real]
  exact bnOut_coe (zR hR aR WbR bbR wR src dst WlR WrR blR) (muR hR aR WbR bbR wR src dst WlR WrR blR) (varR hR aR WbR bbR wR src dst WlR WrR blR) gR btR (varR_nonneg hR aR WbR bbR wR src dst WlR WrR blR)

/-- The last layer, without the clamp: the real formula. -/
theorem kLayerLast_real :
    bnOutLast (kZ hR aR WbR bbR wR src dst WlR WrR blR) (colMean (F := Ideal) (ltSum (kZ hR aR WbR bbR wR src dst WlR WrR blR))) (colVar (F := Ideal) (ltSum (kZ hR aR WbR bbR wR src dst WlR WrR blR)) (ltSumSq (kZ hR aR WbR bbR wR src dst WlR WrR blR))) (fun i => ((gR (i 1) : ℝ) : EReal)) (fun i => ((btR (i 1) : ℝ) : EReal))
      = fun i => ((yR hR aR WbR bbR wR src dst WlR WrR blR gR btR (i 0) (i 1) : ℝ) : EReal) := by
  rw [kMean_real, kVar_real, kZ_real]
  exact bnOutLast_coe (zR hR aR WbR bbR wR src dst WlR WrR blR) (muR hR aR WbR bbR wR src dst WlR WrR blR) (varR hR aR WbR bbR wR src dst WlR WrR blR) gR btR (varR_nonneg hR aR WbR bbR wR src dst WlR WrR blR)

end Cert.KernelIdeal.Reg

end
-- ==== Proof.KI.StretchSlices.lean ====
/- The matrices and rows the kernel program cuts from the stacked parameter arrays, read at an index: each is the stacked
   array at the layer's number. Layer 1 here; layers 2 to 5 beside the stretches that cut them. -/
import proofs.«144276_j65051574665788_2_alg».proof.Proof.KI.Stretch
import Idealize.ShloMosaic.Lib.ValueLayout
import Idealize.ShloMosaic.Lib.Pipeline.Value

noncomputable section

namespace Cert.KernelIdeal.Reg

open Cert.KernelIdeal Cert.KernelIdeal.Gen Idealize.ShloMosaic Idealize.ShloMosaic.TcCoe Idealize.ShloMosaic.ValueIdx

/-! ## The slices of the stacked parameter arrays -/

/-- Slice `k` of a [5, 128, 128] array at (u, p, q): the array at (k, p, q). -/
theorem stack3_slice_apply {α : Type} (k : Fin 5) (off : Fin 3 → ℕ) (h0 : off 0 = k.val) (h1 : off 1 = 0) (h2 : off 2 = 0)
    (X : S5x128x128.Idx → α) (w : S5x128x128.Slices off S1x128x128) (u : Fin 1) (p q : Fin 128) :
    extractStridedSlice S1x128x128 off X w (ix3 u p q) = X (ix3 k p q) := by
  refine extractStridedSlice_apply off X w (ix3 u p q) (ix3 k p q) fun a => ?_
  match a with
  | ⟨0, _⟩ => show k.val = off 0 + u.val; have := u.isLt; omega
  | ⟨1, _⟩ => show p.val = off 1 + p.val; omega
  | ⟨2, _⟩ => show q.val = off 2 + q.val; omega

/-- Slice `k` of a [5, 128] array at (u, q): the array at (k, q). -/
theorem stack2_slice_apply {α : Type} (k : Fin 5) (off : Fin 2 → ℕ) (h0 : off 0 = k.val) (h1 : off 1 = 0)
    (X : S5x128.Idx → α) (w : S5x128.Slices off S1x128) (u : Fin 1) (q : Fin 128) :
    extractStridedSlice S1x128 off X w (ix2 u q) = X (ix2 k q) := by
  refine extractStridedSlice_apply off X w (ix2 u q) (ix2 k q) fun a => ?_
  match a with
  | ⟨0, _⟩ => show k.val = off 0 + u.val; have := u.isLt; omega
  | ⟨1, _⟩ => show q.val = off 1 + q.val; omega

/-- Layer 1's left weight matrix at (p, q) is the stacked array at (0, p, q). -/
theorem leftW0_apply (X : S5x128x128.Idx → EReal) (p q : Fin 128) :
    leftW0 (F := Ideal) X (ix2 p q) = X (ix3 (0 : Fin 5) p q) := by
  show shapeCast S128x128 (extractStridedSlice S1x128x128 ![0, 0, 0] X slices_S5x128x128_S1x128x128_0_0_0)
      shapeCasts_S1x128x128_S128x128 (ix2 p q) = _
  rw [shapeCast_1ab_ab_apply]
  exact stack3_slice_apply 0 _ rfl rfl rfl X _ 0 p q

/-- Layer 1's right weight matrix at (p, q) is the stacked array at (0, p, q). -/
theorem rightW0_apply (X : S5x128x128.Idx → EReal) (p q : Fin 128) :
    rightW0 (F := Ideal) X (ix2 p q) = X (ix3 (0 : Fin 5) p q) := by
  show shapeCast S128x128 (extractStridedSlice S1x128x128 ![0, 0, 0] X slices_S5x128x128_S1x128x128_0_0_0)
      shapeCasts_S1x128x128_S128x128 (ix2 p q) = _
  rw [shapeCast_1ab_ab_apply]
  exact stack3_slice_apply 0 _ rfl rfl rfl X _ 0 p q

/-- Layer 1's bias row at (0, q) is the stacked array at (0, q). -/
theorem leftBias0_apply (X : S5x128.Idx → EReal) (q : Fin 128) :
    leftBias0 (F := Ideal) X (ix2 (0 : Fin 1) q) = X (ix2 (0 : Fin 5) q) := by
  show shapeCast S1x128 (shapeCast S128 (extractStridedSlice S1x128 ![0, 0] X slices_S5x128_S1x128_0_0) shapeCasts_S1x128_S128)
      shapeCasts_S128_S1x128 (ix2 (0 : Fin 1) q) = _
  rw [shapeCast_a_1a_apply, shapeCast_1a_a_apply]
  exact stack2_slice_apply 0 _ rfl rfl X _ 0 q

/-- Layer 1's gamma row at (0, q) is the stacked array at (0, q). -/
theorem gammaRow0_apply (X : S5x128.Idx → EReal) (q : Fin 128) :
    gammaRow0 (F := Ideal) X (ix2 (0 : Fin 1) q) = X (ix2 (0 : Fin 5) q) := by
  show shapeCast S1x128 (shapeCast S128 (extractStridedSlice S1x128 ![0, 0] X slices_S5x128_S1x128_0_0) shapeCasts_S1x128_S128)
      shapeCasts_S128_S1x128 (ix2 (0 : Fin 1) q) = _
  rw [shapeCast_a_1a_apply, shapeCast_1a_a_apply]
  exact stack2_slice_apply 0 _ rfl rfl X _ 0 q

/-- Layer 1's beta row at (0, q) is the stacked array at (0, q). -/
theorem betaRow0_apply (X : S5x128.Idx → EReal) (q : Fin 128) :
    betaRow0 (F := Ideal) X (ix2 (0 : Fin 1) q) = X (ix2 (0 : Fin 5) q) := by
  show shapeCast S1x128 (shapeCast S128 (extractStridedSlice S1x128 ![0, 0] X slices_S5x128_S1x128_0_0) shapeCasts_S1x128_S128)
      shapeCasts_S128_S1x128 (ix2 (0 : Fin 1) q) = _
  rw [shapeCast_a_1a_apply, shapeCast_1a_a_apply]
  exact stack2_slice_apply 0 _ rfl rfl X _ 0 q

end Cert.KernelIdeal.Reg

end
-- ==== Proof.KI.StretchRestReal.lean ====
/- The slices of the stacked parameter arrays for layers 2 to 5, read at an index: each is the stacked array at the
   layer's number. -/
import proofs.«144276_j65051574665788_2_alg».proof.Proof.KI.StretchSlices
import proofs.«144276_j65051574665788_2_alg».proof.Proof.KI.StretchRest

noncomputable section

namespace Cert.KernelIdeal.Reg

open Cert.KernelIdeal Cert.KernelIdeal.Gen Idealize.ShloMosaic Idealize.ShloMosaic.TcCoe Idealize.ShloMosaic.ValueIdx

/-- Layer 2's left weight matrix at (p, q) is the stacked array at (1, p, q). -/
theorem leftW1_apply (X : S5x128x128.Idx → EReal) (p q : Fin 128) :
    leftW1 (F := Ideal) X (ix2 p q) = X (ix3 (1 : Fin 5) p q) := by
  show shapeCast S128x128 (extractStridedSlice S1x128x128 ![1, 0, 0] X slices_S5x128x128_S1x128x128_1_0_0)
      shapeCasts_S1x128x128_S128x128 (ix2 p q) = _
  rw [shapeCast_1ab_ab_apply]
  exact stack3_slice_apply 1 _ rfl rfl rfl X _ 0 p q

/-- Layer 2's right weight matrix at (p, q) is the stacked array at (1, p, q). -/
theorem rightW1_apply (X : S5x128x128.Idx → EReal) (p q : Fin 128) :
    rightW1 (F := Ideal) X (ix2 p q) = X (ix3 (1 : Fin 5) p q) := by
  show shapeCast S128x128 (extractStridedSlice S1x128x128 ![1, 0, 0] X slices_S5x128x128_S1x128x128_1_0_0)
      shapeCasts_S1x128x128_S128x128 (ix2 p q) = _
  rw [shapeCast_1ab_ab_apply]
  exact stack3_slice_apply 1 _ rfl rfl rfl X _ 0 p q

/-- Layer 2's bias row at (0, q) is the stacked array at (1, q). -/
theorem leftBias1_apply (X : S5x128.Idx → EReal) (q : Fin 128) :
    leftBias1 (F := Ideal) X (ix2 (0 : Fin 1) q) = X (ix2 (1 : Fin 5) q) := by
  show shapeCast S1x128 (shapeCast S128 (extractStridedSlice S1x128 ![1, 0] X slices_S5x128_S1x128_1_0) shapeCasts_S1x128_S128)
      shapeCasts_S128_S1x128 (ix2 (0 : Fin 1) q) = _
  rw [shapeCast_a_1a_apply, shapeCast_1a_a_apply]
  exact stack2_slice_apply 1 _ rfl rfl X _ 0 q

/-- Layer 2's gamma row at (0, q) is the stacked array at (1, q). -/
theorem gammaRow1_apply (X : S5x128.Idx → EReal) (q : Fin 128) :
    gammaRow1 (F := Ideal) X (ix2 (0 : Fin 1) q) = X (ix2 (1 : Fin 5) q) := by
  show shapeCast S1x128 (shapeCast S128 (extractStridedSlice S1x128 ![1, 0] X slices_S5x128_S1x128_1_0) shapeCasts_S1x128_S128)
      shapeCasts_S128_S1x128 (ix2 (0 : Fin 1) q) = _
  rw [shapeCast_a_1a_apply, shapeCast_1a_a_apply]
  exact stack2_slice_apply 1 _ rfl rfl X _ 0 q

/-- Layer 2's beta row at (0, q) is the stacked array at (1, q). -/
theorem betaRow1_apply (X : S5x128.Idx → EReal) (q : Fin 128) :
    betaRow1 (F := Ideal) X (ix2 (0 : Fin 1) q) = X (ix2 (1 : Fin 5) q) := by
  show shapeCast S1x128 (shapeCast S128 (extractStridedSlice S1x128 ![1, 0] X slices_S5x128_S1x128_1_0) shapeCasts_S1x128_S128)
      shapeCasts_S128_S1x128 (ix2 (0 : Fin 1) q) = _
  rw [shapeCast_a_1a_apply, shapeCast_1a_a_apply]
  exact stack2_slice_apply 1 _ rfl rfl X _ 0 q

/-- Layer 3's left weight matrix at (p, q) is the stacked array at (2, p, q). -/
theorem leftW2_apply (X : S5x128x128.Idx → EReal) (p q : Fin 128) :
    leftW2 (F := Ideal) X (ix2 p q) = X (ix3 (2 : Fin 5) p q) := by
  show shapeCast S128x128 (extractStridedSlice S1x128x128 ![2, 0, 0] X slices_S5x128x128_S1x128x128_2_0_0)
      shapeCasts_S1x128x128_S128x128 (ix2 p q) = _
  rw [shapeCast_1ab_ab_apply]
  exact stack3_slice_apply 2 _ rfl rfl rfl X _ 0 p q

/-- Layer 3's right weight matrix at (p, q) is the stacked array at (2, p, q). -/
theorem rightW2_apply (X : S5x128x128.Idx → EReal) (p q : Fin 128) :
    rightW2 (F := Ideal) X (ix2 p q) = X (ix3 (2 : Fin 5) p q) := by
  show shapeCast S128x128 (extractStridedSlice S1x128x128 ![2, 0, 0] X slices_S5x128x128_S1x128x128_2_0_0)
      shapeCasts_S1x128x128_S128x128 (ix2 p q) = _
  rw [shapeCast_1ab_ab_apply]
  exact stack3_slice_apply 2 _ rfl rfl rfl X _ 0 p q

/-- Layer 3's bias row at (0, q) is the stacked array at (2, q). -/
theorem leftBias2_apply (X : S5x128.Idx → EReal) (q : Fin 128) :
    leftBias2 (F := Ideal) X (ix2 (0 : Fin 1) q) = X (ix2 (2 : Fin 5) q) := by
  show shapeCast S1x128 (shapeCast S128 (extractStridedSlice S1x128 ![2, 0] X slices_S5x128_S1x128_2_0) shapeCasts_S1x128_S128)
      shapeCasts_S128_S1x128 (ix2 (0 : Fin 1) q) = _
  rw [shapeCast_a_1a_apply, shapeCast_1a_a_apply]
  exact stack2_slice_apply 2 _ rfl rfl X _ 0 q

/-- Layer 3's gamma row at (0, q) is the stacked array at (2, q). -/
theorem gammaRow2_apply (X : S5x128.Idx → EReal) (q : Fin 128) :
    gammaRow2 (F := Ideal) X (ix2 (0 : Fin 1) q) = X (ix2 (2 : Fin 5) q) := by
  show shapeCast S1x128 (shapeCast S128 (extractStridedSlice S1x128 ![2, 0] X slices_S5x128_S1x128_2_0) shapeCasts_S1x128_S128)
      shapeCasts_S128_S1x128 (ix2 (0 : Fin 1) q) = _
  rw [shapeCast_a_1a_apply, shapeCast_1a_a_apply]
  exact stack2_slice_apply 2 _ rfl rfl X _ 0 q

/-- Layer 3's beta row at (0, q) is the stacked array at (2, q). -/
theorem betaRow2_apply (X : S5x128.Idx → EReal) (q : Fin 128) :
    betaRow2 (F := Ideal) X (ix2 (0 : Fin 1) q) = X (ix2 (2 : Fin 5) q) := by
  show shapeCast S1x128 (shapeCast S128 (extractStridedSlice S1x128 ![2, 0] X slices_S5x128_S1x128_2_0) shapeCasts_S1x128_S128)
      shapeCasts_S128_S1x128 (ix2 (0 : Fin 1) q) = _
  rw [shapeCast_a_1a_apply, shapeCast_1a_a_apply]
  exact stack2_slice_apply 2 _ rfl rfl X _ 0 q

/-- Layer 4's left weight matrix at (p, q) is the stacked array at (3, p, q). -/
theorem leftW3_apply (X : S5x128x128.Idx → EReal) (p q : Fin 128) :
    leftW3 (F := Ideal) X (ix2 p q) = X (ix3 (3 : Fin 5) p q) := by
  show shapeCast S128x128 (extractStridedSlice S1x128x128 ![3, 0, 0] X slices_S5x128x128_S1x128x128_3_0_0)
      shapeCasts_S1x128x128_S128x128 (ix2 p q) = _
  rw [shapeCast_1ab_ab_apply]
  exact stack3_slice_apply 3 _ rfl rfl rfl X _ 0 p q

/-- Layer 4's right weight matrix at (p, q) is the stacked array at (3, p, q). -/
theorem rightW3_apply (X : S5x128x128.Idx → EReal) (p q : Fin 128) :
    rightW3 (F := Ideal) X (ix2 p q) = X (ix3 (3 : Fin 5) p q) := by
  show shapeCast S128x128 (extractStridedSlice S1x128x128 ![3, 0, 0] X slices_S5x128x128_S1x128x128_3_0_0)
      shapeCasts_S1x128x128_S128x128 (ix2 p q) = _
  rw [shapeCast_1ab_ab_apply]
  exact stack3_slice_apply 3 _ rfl rfl rfl X _ 0 p q

/-- Layer 4's bias row at (0, q) is the stacked array at (3, q). -/
theorem leftBias3_apply (X : S5x128.Idx → EReal) (q : Fin 128) :
    leftBias3 (F := Ideal) X (ix2 (0 : Fin 1) q) = X (ix2 (3 : Fin 5) q) := by
  show shapeCast S1x128 (shapeCast S128 (extractStridedSlice S1x128 ![3, 0] X slices_S5x128_S1x128_3_0) shapeCasts_S1x128_S128)
      shapeCasts_S128_S1x128 (ix2 (0 : Fin 1) q) = _
  rw [shapeCast_a_1a_apply, shapeCast_1a_a_apply]
  exact stack2_slice_apply 3 _ rfl rfl X _ 0 q

/-- Layer 4's gamma row at (0, q) is the stacked array at (3, q). -/
theorem gammaRow3_apply (X : S5x128.Idx → EReal) (q : Fin 128) :
    gammaRow3 (F := Ideal) X (ix2 (0 : Fin 1) q) = X (ix2 (3 : Fin 5) q) := by
  show shapeCast S1x128 (shapeCast S128 (extractStridedSlice S1x128 ![3, 0] X slices_S5x128_S1x128_3_0) shapeCasts_S1x128_S128)
      shapeCasts_S128_S1x128 (ix2 (0 : Fin 1) q) = _
  rw [shapeCast_a_1a_apply, shapeCast_1a_a_apply]
  exact stack2_slice_apply 3 _ rfl rfl X _ 0 q

/-- Layer 4's beta row at (0, q) is the stacked array at (3, q). -/
theorem betaRow3_apply (X : S5x128.Idx → EReal) (q : Fin 128) :
    betaRow3 (F := Ideal) X (ix2 (0 : Fin 1) q) = X (ix2 (3 : Fin 5) q) := by
  show shapeCast S1x128 (shapeCast S128 (extractStridedSlice S1x128 ![3, 0] X slices_S5x128_S1x128_3_0) shapeCasts_S1x128_S128)
      shapeCasts_S128_S1x128 (ix2 (0 : Fin 1) q) = _
  rw [shapeCast_a_1a_apply, shapeCast_1a_a_apply]
  exact stack2_slice_apply 3 _ rfl rfl X _ 0 q

/-- Layer 5's left weight matrix at (p, q) is the stacked array at (4, p, q). -/
theorem leftW4_apply (X : S5x128x128.Idx → EReal) (p q : Fin 128) :
    leftW4 (F := Ideal) X (ix2 p q) = X (ix3 (4 : Fin 5) p q) := by
  show shapeCast S128x128 (extractStridedSlice S1x128x128 ![4, 0, 0] X slices_S5x128x128_S1x128x128_4_0_0)
      shapeCasts_S1x128x128_S128x128 (ix2 p q) = _
  rw [shapeCast_1ab_ab_apply]
  exact stack3_slice_apply 4 _ rfl rfl rfl X _ 0 p q

/-- Layer 5's right weight matrix at (p, q) is the stacked array at (4, p, q). -/
theorem rightW4_apply (X : S5x128x128.Idx → EReal) (p q : Fin 128) :
    rightW4 (F := Ideal) X (ix2 p q) = X (ix3 (4 : Fin 5) p q) := by
  show shapeCast S128x128 (extractStridedSlice S1x128x128 ![4, 0, 0] X slices_S5x128x128_S1x128x128_4_0_0)
      shapeCasts_S1x128x128_S128x128 (ix2 p q) = _
  rw [shapeCast_1ab_ab_apply]
  exact stack3_slice_apply 4 _ rfl rfl rfl X _ 0 p q

/-- Layer 5's bias row at (0, q) is the stacked array at (4, q). -/
theorem leftBias4_apply (X : S5x128.Idx → EReal) (q : Fin 128) :
    leftBias4 (F := Ideal) X (ix2 (0 : Fin 1) q) = X (ix2 (4 : Fin 5) q) := by
  show shapeCast S1x128 (shapeCast S128 (extractStridedSlice S1x128 ![4, 0] X slices_S5x128_S1x128_4_0) shapeCasts_S1x128_S128)
      shapeCasts_S128_S1x128 (ix2 (0 : Fin 1) q) = _
  rw [shapeCast_a_1a_apply, shapeCast_1a_a_apply]
  exact stack2_slice_apply 4 _ rfl rfl X _ 0 q

/-- Layer 5's gamma row at (0, q) is the stacked array at (4, q). -/
theorem gammaRow4_apply (X : S5x128.Idx → EReal) (q : Fin 128) :
    gammaRow4 (F := Ideal) X (ix2 (0 : Fin 1) q) = X (ix2 (4 : Fin 5) q) := by
  show shapeCast S1x128 (shapeCast S128 (extractStridedSlice S1x128 ![4, 0] X slices_S5x128_S1x128_4_0) shapeCasts_S1x128_S128)
      shapeCasts_S128_S1x128 (ix2 (0 : Fin 1) q) = _
  rw [shapeCast_a_1a_apply, shapeCast_1a_a_apply]
  exact stack2_slice_apply 4 _ rfl rfl X _ 0 q

/-- Layer 5's beta row at (0, q) is the stacked array at (4, q). -/
theorem betaRow4_apply (X : S5x128.Idx → EReal) (q : Fin 128) :
    betaRow4 (F := Ideal) X (ix2 (0 : Fin 1) q) = X (ix2 (4 : Fin 5) q) := by
  show shapeCast S1x128 (shapeCast S128 (extractStridedSlice S1x128 ![4, 0] X slices_S5x128_S1x128_4_0) shapeCasts_S1x128_S128)
      shapeCasts_S128_S1x128 (ix2 (0 : Fin 1) q) = _
  rw [shapeCast_a_1a_apply, shapeCast_1a_a_apply]
  exact stack2_slice_apply 4 _ rfl rfl X _ 0 q

end Cert.KernelIdeal.Reg

end
-- ==== Proof.KI.KNetReal.lean ====
/-
  The kernel program's whole network over real arguments.

  If the twelve float argument arrays hold real numbers then so does every array of the kernel program's chain: the
  encoded nodes are the real array x · W_atom + b_atom; the projected edge term is the real edge term; each layer maps the
  real iterate before it to the real formula of one layer over that layer's slices of the stacked parameters, followed on all
  layers but the last by the maximum with 0; and each layer's per-graph sums are the coercions of real sums over the
  graph's nodes. The two integer index rows and the graph numbers enter only through which edges land on a node, which row
  an edge gathers, and which nodes a graph holds.
-/
import proofs.«144276_j65051574665788_2_alg».proof.Proof.KI.KChain
import proofs.«144276_j65051574665788_2_alg».proof.Proof.KI.KLayerReal
import proofs.«144276_j65051574665788_2_alg».proof.Proof.KI.Val3Real
import proofs.«144276_j65051574665788_2_alg».proof.Proof.KI.StretchReal
import proofs.«144276_j65051574665788_2_alg».proof.Proof.KI.StretchAgg
import proofs.«144276_j65051574665788_2_alg».proof.Proof.KI.StretchSlices
import proofs.«144276_j65051574665788_2_alg».proof.Proof.KI.StretchRestReal
import proofs.«144276_j65051574665788_2_alg».proof.Proof.KI.Val0
import proofs.«144276_j65051574665788_2_alg».proof.Proof.RefReal

set_option maxRecDepth 16384

noncomputable section

namespace Cert.KernelIdeal.Asm

open Cert.KernelIdeal Cert.KernelIdeal.Gen Cert.KernelIdeal.Reg Cert.Lib
open Idealize.ShloMosaic Idealize.ShloMosaic.TcCoe Idealize.ShloMosaic.ValueIdx Idealize.SL.Sem Idealize.ShloMosaic.StableHlo
open Cert.ReferenceIdeal.RealLayer (yR)

variable (m : (ℓ : Loc nD τ sig) → Buf (Elt Ideal) ℓ) (c : Dev nD)
  (xR : Fin 50000 → Fin 48 → ℝ) (WaR : Fin 48 → Fin 128 → ℝ) (baR : Fin 128 → ℝ)
  (aR : Fin 600000 → Fin 11 → ℝ) (WbR : Fin 11 → Fin 128 → ℝ) (bbR : Fin 128 → ℝ) (wR : Fin 600000 → ℝ)
  (WlAll WrAll : Fin 5 → Fin 128 → Fin 128 → ℝ) (blAll gAll btAll : Fin 5 → Fin 128 → ℝ)

/-- The float arguments in the launch contents are these real arrays. -/
structure KRealArgs : Prop where
  hx : W0 m c (Proc.devRef .tc main_arg1) = (fun i : S50000x48.Idx => ((xR (i 0) (i 1) : ℝ) : EReal))
  ha : W0 m c (Proc.devRef .tc main_arg3) = (fun i : S600000x11.Idx => ((aR (i 0) (i 1) : ℝ) : EReal))
  hw : W0 m c (Proc.devRef .tc main_arg4) = (fun i : S600000.Idx => ((wR (i 0) : ℝ) : EReal))
  hWa : W0 m c (Proc.devRef .tc main_arg5) = (fun i : S48x128.Idx => ((WaR (i 0) (i 1) : ℝ) : EReal))
  hba : W0 m c (Proc.devRef .tc main_arg6) = (fun i : S128.Idx => ((baR (i 0) : ℝ) : EReal))
  hWb : W0 m c (Proc.devRef .tc main_arg7) = (fun i : S11x128.Idx => ((WbR (i 0) (i 1) : ℝ) : EReal))
  hbb : W0 m c (Proc.devRef .tc main_arg8) = (fun i : S128.Idx => ((bbR (i 0) : ℝ) : EReal))
  hWl : W0 m c (Proc.devRef .tc main_arg9) = (fun i : S5x128x128.Idx => ((WlAll (i 0) (i 1) (i 2) : ℝ) : EReal))
  hbl : W0 m c (Proc.devRef .tc main_arg10) = (fun i : S5x128.Idx => ((blAll (i 0) (i 1) : ℝ) : EReal))
  hWr : W0 m c (Proc.devRef .tc main_arg11) = (fun i : S5x128x128.Idx => ((WrAll (i 0) (i 1) (i 2) : ℝ) : EReal))
  hg : W0 m c (Proc.devRef .tc main_arg12) = (fun i : S5x128.Idx => ((gAll (i 0) (i 1) : ℝ) : EReal))
  hbt : W0 m c (Proc.devRef .tc main_arg13) = (fun i : S5x128.Idx => ((btAll (i 0) (i 1) : ℝ) : EReal))

/-- The real iterates, over any source and destination rows. -/
def KH1R (src dst : IVec S600000 32) (n : Fin 50000) (f : Fin 128) : ℝ := max (yR (Cert.ReferenceIdeal.RealNet.H0R xR WaR baR) aR WbR bbR wR src dst (WlAll 0) (WrAll 0) (blAll 0) (gAll 0) (btAll 0) n f) 0
def KH2R (src dst : IVec S600000 32) (n : Fin 50000) (f : Fin 128) : ℝ := max (yR (KH1R xR WaR baR aR WbR bbR wR WlAll WrAll blAll gAll btAll src dst) aR WbR bbR wR src dst (WlAll 1) (WrAll 1) (blAll 1) (gAll 1) (btAll 1) n f) 0
def KH3R (src dst : IVec S600000 32) (n : Fin 50000) (f : Fin 128) : ℝ := max (yR (KH2R xR WaR baR aR WbR bbR wR WlAll WrAll blAll gAll btAll src dst) aR WbR bbR wR src dst (WlAll 2) (WrAll 2) (blAll 2) (gAll 2) (btAll 2) n f) 0
def KH4R (src dst : IVec S600000 32) (n : Fin 50000) (f : Fin 128) : ℝ := max (yR (KH3R xR WaR baR aR WbR bbR wR WlAll WrAll blAll gAll btAll src dst) aR WbR bbR wR src dst (WlAll 3) (WrAll 3) (blAll 3) (gAll 3) (btAll 3) n f) 0
def KH5R (src dst : IVec S600000 32) (n : Fin 50000) (f : Fin 128) : ℝ := yR (KH4R xR WaR baR aR WbR bbR wR WlAll WrAll blAll gAll btAll src dst) aR WbR bbR wR src dst (WlAll 4) (WrAll 4) (blAll 4) (gAll 4) (btAll 4) n f

/-- The atom encoder at node `n`, column `f`. -/
theorem encAtoms_ix2 (x : S50000x48.Idx → EReal) (W : S48x128.Idx → EReal) (b : S1x128.Idx → EReal) (n : Fin 50000) (f : Fin 128) :
    encAtoms x W b (ix2 n f) = (∑ k : Fin 48, x (ix2 n k) * W (ix2 k f)) + b (ix2 (0 : Fin 1) f) := rfl

/-! ## The per-graph sums of a real array -/

/-- The pooled array of a coerced real array, with the graph numbers as a column: entry (g, j) is the coercion of the
    real sum of column j over the nodes whose graph number, read signed, is g. -/
theorem pool_real_of (HkR : Fin 50000 → Fin 128 → ℝ) :
    bnPool (kBatch m c) (fun i : S50000x128.Idx => ((HkR (i 0) (i 1) : ℝ) : EReal))
      = fun i : S128x128.Idx => ((Cert.ReferenceIdeal.RefReal.poolR (W0 m c (Proc.devRef .tc main_arg0)) HkR (i 0) (i 1) : ℝ) : EReal) := by
  rw [bnPool_coe (kBatch m c) HkR]
  funext i
  refine congrArg Real.toEReal ?_
  unfold Cert.ReferenceIdeal.RefReal.poolR
  refine Finset.sum_congr ?_ fun _ _ => rfl
  ext n
  simp only [Finset.mem_filter, Finset.mem_univ, true_and]
  unfold Cert.ReferenceIdeal.PoolRead.inGraph kBatch
  rw [graphCol_apply]

variable (hK : KRealArgs m c xR WaR baR aR WbR bbR wR WlAll WrAll blAll gAll btAll)
include hK

/-! ## The encoded nodes and the projected edge term -/

/-- The encoded nodes are the real array `H₀`. -/
theorem kH0_real : kH0 m c = fun i : S50000x128.Idx => ((Cert.ReferenceIdeal.RealNet.H0R xR WaR baR (i 0) (i 1) : ℝ) : EReal) := by
  funext i
  obtain ⟨n, f, rfl⟩ : ∃ (n : Fin 50000) (f : Fin 128), i = ix2 n f := ⟨i 0, i 1, eq_ix2 i⟩
  unfold kH0 kBa
  rw [hK.hx, hK.hWa, hK.hba, encAtoms_ix2, atomBiasRow_apply]
  simp only [← EReal.coe_mul, ← coe_sum, ← EReal.coe_add]
  rfl

/-- The bond bias as a row is the real bias row. -/
theorem kBb_real : kBb m c = fun i : S1x128.Idx => ((bbR (i 1) : ℝ) : EReal) := by
  funext i
  obtain ⟨q, rfl⟩ := row_idx i
  unfold kBb
  rw [hK.hbb, bondBiasRow_apply]
  all_goals rfl

/-- The projected edge term of the chain is the one of the real edge data. -/
theorem kAggE_real : kAggE m c = kAggEa aR WbR bbR wR (kDst m c) := by
  unfold kAggE kEa kEw kDen kAggEa
  rw [hK.ha, hK.hw, hK.hWb, kBb_real m c xR WaR baR aR WbR bbR wR WlAll WrAll blAll gAll btAll hK]
  all_goals rfl

/-! ## The layers' parameters -/

/-- Layer 1's parameters, cut from the stacked real arrays. -/
theorem kWl0_real : kWl0 m c = fun i : S128x128.Idx => ((WlAll 0 (i 0) (i 1) : ℝ) : EReal) := by
  funext i
  obtain ⟨p, q, rfl⟩ : ∃ (p q : Fin 128), i = ix2 p q := ⟨i 0, i 1, eq_ix2 i⟩
  unfold kWl0
  rw [hK.hWl, leftW0_apply]
  all_goals rfl
theorem kWr0_real : kWr0 m c = fun i : S128x128.Idx => ((WrAll 0 (i 0) (i 1) : ℝ) : EReal) := by
  funext i
  obtain ⟨p, q, rfl⟩ : ∃ (p q : Fin 128), i = ix2 p q := ⟨i 0, i 1, eq_ix2 i⟩
  unfold kWr0
  rw [hK.hWr, rightW0_apply]
  all_goals rfl
theorem kBl0_real : kBl0 m c = fun i : S1x128.Idx => ((blAll 0 (i 1) : ℝ) : EReal) := by
  funext i
  obtain ⟨q, rfl⟩ := row_idx i
  unfold kBl0
  rw [hK.hbl, leftBias0_apply]
  all_goals rfl
theorem kG0_real : kG0 m c = fun i : S1x128.Idx => ((gAll 0 (i 1) : ℝ) : EReal) := by
  funext i
  obtain ⟨q, rfl⟩ := row_idx i
  unfold kG0
  rw [hK.hg, gammaRow0_apply]
  all_goals rfl
theorem kBt0_real : kBt0 m c = fun i : S1x128.Idx => ((btAll 0 (i 1) : ℝ) : EReal) := by
  funext i
  obtain ⟨q, rfl⟩ := row_idx i
  unfold kBt0
  rw [hK.hbt, betaRow0_apply]
  all_goals rfl

/-- Layer 2's parameters, cut from the stacked real arrays. -/
theorem kWl1_real : kWl1 m c = fun i : S128x128.Idx => ((WlAll 1 (i 0) (i 1) : ℝ) : EReal) := by
  funext i
  obtain ⟨p, q, rfl⟩ : ∃ (p q : Fin 128), i = ix2 p q := ⟨i 0, i 1, eq_ix2 i⟩
  unfold kWl1
  rw [hK.hWl, leftW1_apply]
  all_goals rfl
theorem kWr1_real : kWr1 m c = fun i : S128x128.Idx => ((WrAll 1 (i 0) (i 1) : ℝ) : EReal) := by
  funext i
  obtain ⟨p, q, rfl⟩ : ∃ (p q : Fin 128), i = ix2 p q := ⟨i 0, i 1, eq_ix2 i⟩
  unfold kWr1
  rw [hK.hWr, rightW1_apply]
  all_goals rfl
theorem kBl1_real : kBl1 m c = fun i : S1x128.Idx => ((blAll 1 (i 1) : ℝ) : EReal) := by
  funext i
  obtain ⟨q, rfl⟩ := row_idx i
  unfold kBl1
  rw [hK.hbl, leftBias1_apply]
  all_goals rfl
theorem kG1_real : kG1 m c = fun i : S1x128.Idx => ((gAll 1 (i 1) : ℝ) : EReal) := by
  funext i
  obtain ⟨q, rfl⟩ := row_idx i
  unfold kG1
  rw [hK.hg, gammaRow1_apply]
  all_goals rfl
theorem kBt1_real : kBt1 m c = fun i : S1x128.Idx => ((btAll 1 (i 1) : ℝ) : EReal) := by
  funext i
  obtain ⟨q, rfl⟩ := row_idx i
  unfold kBt1
  rw [hK.hbt, betaRow1_apply]
  all_goals rfl

/-- Layer 3's parameters, cut from the stacked real arrays. -/
theorem kWl2_real : kWl2 m c = fun i : S128x128.Idx => ((WlAll 2 (i 0) (i 1) : ℝ) : EReal) := by
  funext i
  obtain ⟨p, q, rfl⟩ : ∃ (p q : Fin 128), i = ix2 p q := ⟨i 0, i 1, eq_ix2 i⟩
  unfold kWl2
  rw [hK.hWl, leftW2_apply]
  all_goals rfl
theorem kWr2_real : kWr2 m c = fun i : S128x128.Idx => ((WrAll 2 (i 0) (i 1) : ℝ) : EReal) := by
  funext i
  obtain ⟨p, q, rfl⟩ : ∃ (p q : Fin 128), i = ix2 p q := ⟨i 0, i 1, eq_ix2 i⟩
  unfold kWr2
  rw [hK.hWr, rightW2_apply]
  all_goals rfl
theorem kBl2_real : kBl2 m c = fun i : S1x128.Idx => ((blAll 2 (i 1) : ℝ) : EReal) := by
  funext i
  obtain ⟨q, rfl⟩ := row_idx i
  unfold kBl2
  rw [hK.hbl, leftBias2_apply]
  all_goals rfl
theorem kG2_real : kG2 m c = fun i : S1x128.Idx => ((gAll 2 (i 1) : ℝ) : EReal) := by
  funext i
  obtain ⟨q, rfl⟩ := row_idx i
  unfold kG2
  rw [hK.hg, gammaRow2_apply]
  all_goals rfl
theorem kBt2_real : kBt2 m c = fun i : S1x128.Idx => ((btAll 2 (i 1) : ℝ) : EReal) := by
  funext i
  obtain ⟨q, rfl⟩ := row_idx i
  unfold kBt2
  rw [hK.hbt, betaRow2_apply]
  all_goals rfl

/-- Layer 4's parameters, cut from the stacked real arrays. -/
theorem kWl3_real : kWl3 m c = fun i : S128x128.Idx => ((WlAll 3 (i 0) (i 1) : ℝ) : EReal) := by
  funext i
  obtain ⟨p, q, rfl⟩ : ∃ (p q : Fin 128), i = ix2 p q := ⟨i 0, i 1, eq_ix2 i⟩
  unfold kWl3
  rw [hK.hWl, leftW3_apply]
  all_goals rfl
theorem kWr3_real : kWr3 m c = fun i : S128x128.Idx => ((WrAll 3 (i 0) (i 1) : ℝ) : EReal) := by
  funext i
  obtain ⟨p, q, rfl⟩ : ∃ (p q : Fin 128), i = ix2 p q := ⟨i 0, i 1, eq_ix2 i⟩
  unfold kWr3
  rw [hK.hWr, rightW3_apply]
  all_goals rfl
theorem kBl3_real : kBl3 m c = fun i : S1x128.Idx => ((blAll 3 (i 1) : ℝ) : EReal) := by
  funext i
  obtain ⟨q, rfl⟩ := row_idx i
  unfold kBl3
  rw [hK.hbl, leftBias3_apply]
  all_goals rfl
theorem kG3_real : kG3 m c = fun i : S1x128.Idx => ((gAll 3 (i 1) : ℝ) : EReal) := by
  funext i
  obtain ⟨q, rfl⟩ := row_idx i
  unfold kG3
  rw [hK.hg, gammaRow3_apply]
  all_goals rfl
theorem kBt3_real : kBt3 m c = fun i : S1x128.Idx => ((btAll 3 (i 1) : ℝ) : EReal) := by
  funext i
  obtain ⟨q, rfl⟩ := row_idx i
  unfold kBt3
  rw [hK.hbt, betaRow3_apply]
  all_goals rfl

/-- Layer 5's parameters, cut from the stacked real arrays. -/
theorem kWl4_real : kWl4 m c = fun i : S128x128.Idx => ((WlAll 4 (i 0) (i 1) : ℝ) : EReal) := by
  funext i
  obtain ⟨p, q, rfl⟩ : ∃ (p q : Fin 128), i = ix2 p q := ⟨i 0, i 1, eq_ix2 i⟩
  unfold kWl4
  rw [hK.hWl, leftW4_apply]
  all_goals rfl
theorem kWr4_real : kWr4 m c = fun i : S128x128.Idx => ((WrAll 4 (i 0) (i 1) : ℝ) : EReal) := by
  funext i
  obtain ⟨p, q, rfl⟩ : ∃ (p q : Fin 128), i = ix2 p q := ⟨i 0, i 1, eq_ix2 i⟩
  unfold kWr4
  rw [hK.hWr, rightW4_apply]
  all_goals rfl
theorem kBl4_real : kBl4 m c = fun i : S1x128.Idx => ((blAll 4 (i 1) : ℝ) : EReal) := by
  funext i
  obtain ⟨q, rfl⟩ := row_idx i
  unfold kBl4
  rw [hK.hbl, leftBias4_apply]
  all_goals rfl
theorem kG4_real : kG4 m c = fun i : S1x128.Idx => ((gAll 4 (i 1) : ℝ) : EReal) := by
  funext i
  obtain ⟨q, rfl⟩ := row_idx i
  unfold kG4
  rw [hK.hg, gammaRow4_apply]
  all_goals rfl
theorem kBt4_real : kBt4 m c = fun i : S1x128.Idx => ((btAll 4 (i 1) : ℝ) : EReal) := by
  funext i
  obtain ⟨q, rfl⟩ := row_idx i
  unfold kBt4
  rw [hK.hbt, betaRow4_apply]
  all_goals rfl

/-! ## One layer of the chain over a real iterate -/

/-- A layer of the chain with the clamp, over a real iterate and real parameters: the maximum of the real formula with 0. -/
theorem layer_real_of (HkR : Fin 50000 → Fin 128 → ℝ) (WlR WrR : Fin 128 → Fin 128 → ℝ) (blR gR btR : Fin 128 → ℝ) :
    bnOut (ltOut (aggMsg (F := Ideal) (kSrc m c) (kDst m c) (fun i : S50000x128.Idx => ((HkR (i 0) (i 1) : ℝ) : EReal)) (W0 m c (Proc.devRef .tc main_arg4)) (kDen m c) (kAggE m c)) (fun i : S50000x128.Idx => ((HkR (i 0) (i 1) : ℝ) : EReal)) (fun i : S128x128.Idx => ((WlR (i 0) (i 1) : ℝ) : EReal)) (fun i : S128x128.Idx => ((WrR (i 0) (i 1) : ℝ) : EReal)) (fun i : S1x128.Idx => ((blR (i 1) : ℝ) : EReal)))
      (colMean (F := Ideal) (ltSum (ltOut (aggMsg (F := Ideal) (kSrc m c) (kDst m c) (fun i : S50000x128.Idx => ((HkR (i 0) (i 1) : ℝ) : EReal)) (W0 m c (Proc.devRef .tc main_arg4)) (kDen m c) (kAggE m c)) (fun i : S50000x128.Idx => ((HkR (i 0) (i 1) : ℝ) : EReal)) (fun i : S128x128.Idx => ((WlR (i 0) (i 1) : ℝ) : EReal)) (fun i : S128x128.Idx => ((WrR (i 0) (i 1) : ℝ) : EReal)) (fun i : S1x128.Idx => ((blR (i 1) : ℝ) : EReal)))))
      (colVar (F := Ideal) (ltSum (ltOut (aggMsg (F := Ideal) (kSrc m c) (kDst m c) (fun i : S50000x128.Idx => ((HkR (i 0) (i 1) : ℝ) : EReal)) (W0 m c (Proc.devRef .tc main_arg4)) (kDen m c) (kAggE m c)) (fun i : S50000x128.Idx => ((HkR (i 0) (i 1) : ℝ) : EReal)) (fun i : S128x128.Idx => ((WlR (i 0) (i 1) : ℝ) : EReal)) (fun i : S128x128.Idx => ((WrR (i 0) (i 1) : ℝ) : EReal)) (fun i : S1x128.Idx => ((blR (i 1) : ℝ) : EReal)))) (ltSumSq (ltOut (aggMsg (F := Ideal) (kSrc m c) (kDst m c) (fun i : S50000x128.Idx => ((HkR (i 0) (i 1) : ℝ) : EReal)) (W0 m c (Proc.devRef .tc main_arg4)) (kDen m c) (kAggE m c)) (fun i : S50000x128.Idx => ((HkR (i 0) (i 1) : ℝ) : EReal)) (fun i : S128x128.Idx => ((WlR (i 0) (i 1) : ℝ) : EReal)) (fun i : S128x128.Idx => ((WrR (i 0) (i 1) : ℝ) : EReal)) (fun i : S1x128.Idx => ((blR (i 1) : ℝ) : EReal)))))
      (fun i : S1x128.Idx => ((gR (i 1) : ℝ) : EReal)) (fun i : S1x128.Idx => ((btR (i 1) : ℝ) : EReal))
      = fun i : S50000x128.Idx => ((max (yR HkR aR WbR bbR wR (kSrc m c) (kDst m c) WlR WrR blR gR btR (i 0) (i 1)) 0 : ℝ) : EReal) := by
  rw [hK.hw, kAggE_real m c xR WaR baR aR WbR bbR wR WlAll WrAll blAll gAll btAll hK]
  unfold kDen
  exact kLayer_real HkR aR WbR bbR wR (kSrc m c) (kDst m c) WlR WrR blR gR btR

/-- The last layer, without the clamp: the real formula. -/
theorem layerLast_real_of (HkR : Fin 50000 → Fin 128 → ℝ) (WlR WrR : Fin 128 → Fin 128 → ℝ) (blR gR btR : Fin 128 → ℝ) :
    bnOutLast (ltOut (aggMsg (F := Ideal) (kSrc m c) (kDst m c) (fun i : S50000x128.Idx => ((HkR (i 0) (i 1) : ℝ) : EReal)) (W0 m c (Proc.devRef .tc main_arg4)) (kDen m c) (kAggE m c)) (fun i : S50000x128.Idx => ((HkR (i 0) (i 1) : ℝ) : EReal)) (fun i : S128x128.Idx => ((WlR (i 0) (i 1) : ℝ) : EReal)) (fun i : S128x128.Idx => ((WrR (i 0) (i 1) : ℝ) : EReal)) (fun i : S1x128.Idx => ((blR (i 1) : ℝ) : EReal)))
      (colMean (F := Ideal) (ltSum (ltOut (aggMsg (F := Ideal) (kSrc m c) (kDst m c) (fun i : S50000x128.Idx => ((HkR (i 0) (i 1) : ℝ) : EReal)) (W0 m c (Proc.devRef .tc main_arg4)) (kDen m c) (kAggE m c)) (fun i : S50000x128.Idx => ((HkR (i 0) (i 1) : ℝ) : EReal)) (fun i : S128x128.Idx => ((WlR (i 0) (i 1) : ℝ) : EReal)) (fun i : S128x128.Idx => ((WrR (i 0) (i 1) : ℝ) : EReal)) (fun i : S1x128.Idx => ((blR (i 1) : ℝ) : EReal)))))
      (colVar (F := Ideal) (ltSum (ltOut (aggMsg (F := Ideal) (kSrc m c) (kDst m c) (fun i : S50000x128.Idx => ((HkR (i 0) (i 1) : ℝ) : EReal)) (W0 m c (Proc.devRef .tc main_arg4)) (kDen m c) (kAggE m c)) (fun i : S50000x128.Idx => ((HkR (i 0) (i 1) : ℝ) : EReal)) (fun i : S128x128.Idx => ((WlR (i 0) (i 1) : ℝ) : EReal)) (fun i : S128x128.Idx => ((WrR (i 0) (i 1) : ℝ) : EReal)) (fun i : S1x128.Idx => ((blR (i 1) : ℝ) : EReal)))) (ltSumSq (ltOut (aggMsg (F := Ideal) (kSrc m c) (kDst m c) (fun i : S50000x128.Idx => ((HkR (i 0) (i 1) : ℝ) : EReal)) (W0 m c (Proc.devRef .tc main_arg4)) (kDen m c) (kAggE m c)) (fun i : S50000x128.Idx => ((HkR (i 0) (i 1) : ℝ) : EReal)) (fun i : S128x128.Idx => ((WlR (i 0) (i 1) : ℝ) : EReal)) (fun i : S128x128.Idx => ((WrR (i 0) (i 1) : ℝ) : EReal)) (fun i : S1x128.Idx => ((blR (i 1) : ℝ) : EReal)))))
      (fun i : S1x128.Idx => ((gR (i 1) : ℝ) : EReal)) (fun i : S1x128.Idx => ((btR (i 1) : ℝ) : EReal))
      = fun i : S50000x128.Idx => ((yR HkR aR WbR bbR wR (kSrc m c) (kDst m c) WlR WrR blR gR btR (i 0) (i 1) : ℝ) : EReal) := by
  rw [hK.hw, kAggE_real m c xR WaR baR aR WbR bbR wR WlAll WrAll blAll gAll btAll hK]
  unfold kDen
  exact kLayerLast_real HkR aR WbR bbR wR (kSrc m c) (kDst m c) WlR WrR blR gR btR

/-! ## The iterates and their per-graph sums -/

/-- The iterate after layer 1 is real: the layer of the kernel program maps the real iterate before it to the real
    formula, then the maximum with 0. -/
theorem kH1_real : kH1 m c = fun i : S50000x128.Idx => ((KH1R xR WaR baR aR WbR bbR wR WlAll WrAll blAll gAll btAll (kSrc m c) (kDst m c) (i 0) (i 1) : ℝ) : EReal) := by
  unfold kH1 kMu0 kVar0 kZ0 kAgg0
  rw [kH0_real m c xR WaR baR aR WbR bbR wR WlAll WrAll blAll gAll btAll hK, kWl0_real m c xR WaR baR aR WbR bbR wR WlAll WrAll blAll gAll btAll hK, kWr0_real m c xR WaR baR aR WbR bbR wR WlAll WrAll blAll gAll btAll hK, kBl0_real m c xR WaR baR aR WbR bbR wR WlAll WrAll blAll gAll btAll hK, kG0_real m c xR WaR baR aR WbR bbR wR WlAll WrAll blAll gAll btAll hK, kBt0_real m c xR WaR baR aR WbR bbR wR WlAll WrAll blAll gAll btAll hK]
  exact layer_real_of m c xR WaR baR aR WbR bbR wR WlAll WrAll blAll gAll btAll hK (Cert.ReferenceIdeal.RealNet.H0R xR WaR baR) (WlAll 0) (WrAll 0) (blAll 0) (gAll 0) (btAll 0)

/-- Its per-graph sums are real sums over each graph's nodes. -/
theorem kPool0_real : kPool0 m c = fun i : S128x128.Idx => ((Cert.ReferenceIdeal.RefReal.poolR (W0 m c (Proc.devRef .tc main_arg0)) (KH1R xR WaR baR aR WbR bbR wR WlAll WrAll blAll gAll btAll (kSrc m c) (kDst m c)) (i 0) (i 1) : ℝ) : EReal) := by
  unfold kPool0
  rw [kH1_real m c xR WaR baR aR WbR bbR wR WlAll WrAll blAll gAll btAll hK]
  exact pool_real_of m c (KH1R xR WaR baR aR WbR bbR wR WlAll WrAll blAll gAll btAll (kSrc m c) (kDst m c))

/-- The iterate after layer 2 is real: the layer of the kernel program maps the real iterate before it to the real
    formula, then the maximum with 0. -/
theorem kH2_real : kH2 m c = fun i : S50000x128.Idx => ((KH2R xR WaR baR aR WbR bbR wR WlAll WrAll blAll gAll btAll (kSrc m c) (kDst m c) (i 0) (i 1) : ℝ) : EReal) := by
  unfold kH2 kMu1 kVar1 kZ1 kAgg1
  rw [kH1_real m c xR WaR baR aR WbR bbR wR WlAll WrAll blAll gAll btAll hK, kWl1_real m c xR WaR baR aR WbR bbR wR WlAll WrAll blAll gAll btAll hK, kWr1_real m c xR WaR baR aR WbR bbR wR WlAll WrAll blAll gAll btAll hK, kBl1_real m c xR WaR baR aR WbR bbR wR WlAll WrAll blAll gAll btAll hK, kG1_real m c xR WaR baR aR WbR bbR wR WlAll WrAll blAll gAll btAll hK, kBt1_real m c xR WaR baR aR WbR bbR wR WlAll WrAll blAll gAll btAll hK]
  exact layer_real_of m c xR WaR baR aR WbR bbR wR WlAll WrAll blAll gAll btAll hK (KH1R xR WaR baR aR WbR bbR wR WlAll WrAll blAll gAll btAll (kSrc m c) (kDst m c)) (WlAll 1) (WrAll 1) (blAll 1) (gAll 1) (btAll 1)

/-- Its per-graph sums are real sums over each graph's nodes. -/
theorem kPool1_real : kPool1 m c = fun i : S128x128.Idx => ((Cert.ReferenceIdeal.RefReal.poolR (W0 m c (Proc.devRef .tc main_arg0)) (KH2R xR WaR baR aR WbR bbR wR WlAll WrAll blAll gAll btAll (kSrc m c) (kDst m c)) (i 0) (i 1) : ℝ) : EReal) := by
  unfold kPool1
  rw [kH2_real m c xR WaR baR aR WbR bbR wR WlAll WrAll blAll gAll btAll hK]
  exact pool_real_of m c (KH2R xR WaR baR aR WbR bbR wR WlAll WrAll blAll gAll btAll (kSrc m c) (kDst m c))

/-- The iterate after layer 3 is real: the layer of the kernel program maps the real iterate before it to the real
    formula, then the maximum with 0. -/
theorem kH3_real : kH3 m c = fun i : S50000x128.Idx => ((KH3R xR WaR baR aR WbR bbR wR WlAll WrAll blAll gAll btAll (kSrc m c) (kDst m c) (i 0) (i 1) : ℝ) : EReal) := by
  unfold kH3 kMu2 kVar2 kZ2 kAgg2
  rw [kH2_real m c xR WaR baR aR WbR bbR wR WlAll WrAll blAll gAll btAll hK, kWl2_real m c xR WaR baR aR WbR bbR wR WlAll WrAll blAll gAll btAll hK, kWr2_real m c xR WaR baR aR WbR bbR wR WlAll WrAll blAll gAll btAll hK, kBl2_real m c xR WaR baR aR WbR bbR wR WlAll WrAll blAll gAll btAll hK, kG2_real m c xR WaR baR aR WbR bbR wR WlAll WrAll blAll gAll btAll hK, kBt2_real m c xR WaR baR aR WbR bbR wR WlAll WrAll blAll gAll btAll hK]
  exact layer_real_of m c xR WaR baR aR WbR bbR wR WlAll WrAll blAll gAll btAll hK (KH2R xR WaR baR aR WbR bbR wR WlAll WrAll blAll gAll btAll (kSrc m c) (kDst m c)) (WlAll 2) (WrAll 2) (blAll 2) (gAll 2) (btAll 2)

/-- Its per-graph sums are real sums over each graph's nodes. -/
theorem kPool2_real : kPool2 m c = fun i : S128x128.Idx => ((Cert.ReferenceIdeal.RefReal.poolR (W0 m c (Proc.devRef .tc main_arg0)) (KH3R xR WaR baR aR WbR bbR wR WlAll WrAll blAll gAll btAll (kSrc m c) (kDst m c)) (i 0) (i 1) : ℝ) : EReal) := by
  unfold kPool2
  rw [kH3_real m c xR WaR baR aR WbR bbR wR WlAll WrAll blAll gAll btAll hK]
  exact pool_real_of m c (KH3R xR WaR baR aR WbR bbR wR WlAll WrAll blAll gAll btAll (kSrc m c) (kDst m c))

/-- The iterate after layer 4 is real: the layer of the kernel program maps the real iterate before it to the real
    formula, then the maximum with 0. -/
theorem kH4_real : kH4 m c = fun i : S50000x128.Idx => ((KH4R xR WaR baR aR WbR bbR wR WlAll WrAll blAll gAll btAll (kSrc m c) (kDst m c) (i 0) (i 1) : ℝ) : EReal) := by
  unfold kH4 kMu3 kVar3 kZ3 kAgg3
  rw [kH3_real m c xR WaR baR aR WbR bbR wR WlAll WrAll blAll gAll btAll hK, kWl3_real m c xR WaR baR aR WbR bbR wR WlAll WrAll blAll gAll btAll hK, kWr3_real m c xR WaR baR aR WbR bbR wR WlAll WrAll blAll gAll btAll hK, kBl3_real m c xR WaR baR aR WbR bbR wR WlAll WrAll blAll gAll btAll hK, kG3_real m c xR WaR baR aR WbR bbR wR WlAll WrAll blAll gAll btAll hK, kBt3_real m c xR WaR baR aR WbR bbR wR WlAll WrAll blAll gAll btAll hK]
  exact layer_real_of m c xR WaR baR aR WbR bbR wR WlAll WrAll blAll gAll btAll hK (KH3R xR WaR baR aR WbR bbR wR WlAll WrAll blAll gAll btAll (kSrc m c) (kDst m c)) (WlAll 3) (WrAll 3) (blAll 3) (gAll 3) (btAll 3)

/-- Its per-graph sums are real sums over each graph's nodes. -/
theorem kPool3_real : kPool3 m c = fun i : S128x128.Idx => ((Cert.ReferenceIdeal.RefReal.poolR (W0 m c (Proc.devRef .tc main_arg0)) (KH4R xR WaR baR aR WbR bbR wR WlAll WrAll blAll gAll btAll (kSrc m c) (kDst m c)) (i 0) (i 1) : ℝ) : EReal) := by
  unfold kPool3
  rw [kH4_real m c xR WaR baR aR WbR bbR wR WlAll WrAll blAll gAll btAll hK]
  exact pool_real_of m c (KH4R xR WaR baR aR WbR bbR wR WlAll WrAll blAll gAll btAll (kSrc m c) (kDst m c))

/-- The iterate after layer 5 is real: the layer of the kernel program maps the real iterate before it to the real
    formula. -/
theorem kH5_real : kH5 m c = fun i : S50000x128.Idx => ((KH5R xR WaR baR aR WbR bbR wR WlAll WrAll blAll gAll btAll (kSrc m c) (kDst m c) (i 0) (i 1) : ℝ) : EReal) := by
  unfold kH5 kMu4 kVar4 kZ4 kAgg4
  rw [kH4_real m c xR WaR baR aR WbR bbR wR WlAll WrAll blAll gAll btAll hK, kWl4_real m c xR WaR baR aR WbR bbR wR WlAll WrAll blAll gAll btAll hK, kWr4_real m c xR WaR baR aR WbR bbR wR WlAll WrAll blAll gAll btAll hK, kBl4_real m c xR WaR baR aR WbR bbR wR WlAll WrAll blAll gAll btAll hK, kG4_real m c xR WaR baR aR WbR bbR wR WlAll WrAll blAll gAll btAll hK, kBt4_real m c xR WaR baR aR WbR bbR wR WlAll WrAll blAll gAll btAll hK]
  exact layerLast_real_of m c xR WaR baR aR WbR bbR wR WlAll WrAll blAll gAll btAll hK (KH4R xR WaR baR aR WbR bbR wR WlAll WrAll blAll gAll btAll (kSrc m c) (kDst m c)) (WlAll 4) (WrAll 4) (blAll 4) (gAll 4) (btAll 4)

/-- Its per-graph sums are real sums over each graph's nodes. -/
theorem kPool4_real : kPool4 m c = fun i : S128x128.Idx => ((Cert.ReferenceIdeal.RefReal.poolR (W0 m c (Proc.devRef .tc main_arg0)) (KH5R xR WaR baR aR WbR bbR wR WlAll WrAll blAll gAll btAll (kSrc m c) (kDst m c)) (i 0) (i 1) : ℝ) : EReal) := by
  unfold kPool4
  rw [kH5_real m c xR WaR baR aR WbR bbR wR WlAll WrAll blAll gAll btAll hK]
  exact pool_real_of m c (KH5R xR WaR baR aR WbR bbR wR WlAll WrAll blAll gAll btAll (kSrc m c) (kDst m c))

end Cert.KernelIdeal.Asm

end
-- ==== Proof.Algebraic.lean ====
/- The idealized kernel against the reference. Under the precondition the float arguments are real arrays; the two memories
   agree on the arguments. The kernel program's run ends with every buffer at the chain's last contents, its two results the
   nested functions of Proof/KI/KChain.lean, which over real arguments are the real arrays of the kernel's arrangement
   (Proof/KI/KNetReal.lean); the reference's run ends with its two results at the same real arrays (Proof/RealNet.lean:
   the hoisted aggregation, the variance from the two sums, the one-hot sums ARE what the reference computes). The index
   rows and the graph numbers are the same functions of the same integer arguments in both programs. -/
import proofs.«144276_j65051574665788_2_alg».proof.Defs
import proofs.«144276_j65051574665788_2_alg».proof.Proof.RefReal
import proofs.«144276_j65051574665788_2_alg».proof.Proof.KI.AsmRun
import proofs.«144276_j65051574665788_2_alg».proof.Proof.KI.KChain
import proofs.«144276_j65051574665788_2_alg».proof.Proof.KI.KNetReal

set_option maxRecDepth 16384

noncomputable section

namespace Cert.Alg

open Idealize.ShloMosaic Idealize.ShloMosaic.TcCoe Idealize.SL.Sem Idealize.ShloMosaic.ValueIdx Idealize.ShloMosaic.StableHlo
open Cert.KernelIdeal.Asm Cert.ReferenceIdeal.RefRun Cert.ReferenceIdeal.RealNet Cert.ReferenceIdeal.RefReal

/-- An unscoped TensorCore buffer of the kernel program is among those the run reads back. -/
theorem mem_uc (b : Ref Cert.KernelIdeal.sig .tc) (h : ¬ (Proc.devRef .tc b : DevRef Cert.KernelIdeal.τ Cert.KernelIdeal.sig).isScoped) :
    Proc.devRef .tc b ∈ Pipeline.ucRefs Cert.KernelIdeal.τ Cert.KernelIdeal.sig :=
  Finset.mem_filter.mpr ⟨StableHlo.devRef_mem_tcRefs b, h⟩

/-- The kernel chain's last contents at an argument are the launch contents. -/
theorem W25_arg [Cert.KernelIdeal.Facts] (m : (ℓ : Loc Cert.KernelIdeal.nD Cert.KernelIdeal.τ Cert.KernelIdeal.sig) → Buf (Elt Ideal) ℓ)
    (c : Dev Cert.KernelIdeal.nD) (r : Ref Cert.KernelIdeal.sig .tc)
    (h : Cert.KernelIdeal.Gen.V25 m (outs m half0 half1 half2 half3 half4 half5 half6 half7 half8 half9 half10 half11) c r = m ((c : Thread Cert.KernelIdeal.nD Cert.KernelIdeal.τ).loc r)) :
    W25 m half0 half1 half2 half3 half4 half5 half6 half7 half8 half9 half10 half11 c (Proc.devRef .tc r) = m ((c : Thread Cert.KernelIdeal.nD Cert.KernelIdeal.τ).loc r) := by
  rw [← V25_eq m half0 half1 half2 half3 half4 half5 half6 half7 half8 half9 half10 half11 c]; exact h

theorem algebraic [Cert.KernelIdeal.Facts] [Cert.ReferenceIdeal.Facts] [Cert.Pre_finite_inputs.Facts] :
    Cert.algebraic_KernelIdeal_ReferenceIdeal := by
  intro m g m' g' hpre hagree
  refine ⟨fun c => W25 m half0 half1 half2 half3 half4 half5 half6 half7 half8 half9 half10 half11 c (Proc.devRef .tc Cert.KernelIdeal.main_v211),
    fun c => W25 m half0 half1 half2 half3 half4 half5 half6 half7 half8 half9 half10 half11 c (Proc.devRef .tc Cert.KernelIdeal.main_v210_0), ?_, ?_⟩
  · -- the kernel program: every buffer read back at the chain's last contents
    refine (θ_run _ _ _).mono (fun r h c => ?_) (run_buffers m half0 half1 half2 half3 half4 half5 half6 half7 half8 half9 half10 half11 g)
    exact ⟨h c _ (mem_uc _ (by decide)), h c _ (mem_uc _ (by decide)),
      (h c _ (mem_uc Cert.KernelIdeal.main_arg0 (by decide))).trans (W25_arg m c Cert.KernelIdeal.main_arg0 (Cert.KernelIdeal.Gen.V25_main_arg0 m _ c)),
      (h c _ (mem_uc Cert.KernelIdeal.main_arg1 (by decide))).trans (W25_arg m c Cert.KernelIdeal.main_arg1 (Cert.KernelIdeal.Gen.V25_main_arg1 m _ c)),
      (h c _ (mem_uc Cert.KernelIdeal.main_arg2 (by decide))).trans (W25_arg m c Cert.KernelIdeal.main_arg2 (Cert.KernelIdeal.Gen.V25_main_arg2 m _ c)),
      (h c _ (mem_uc Cert.KernelIdeal.main_arg3 (by decide))).trans (W25_arg m c Cert.KernelIdeal.main_arg3 (Cert.KernelIdeal.Gen.V25_main_arg3 m _ c)),
      (h c _ (mem_uc Cert.KernelIdeal.main_arg4 (by decide))).trans (W25_arg m c Cert.KernelIdeal.main_arg4 (Cert.KernelIdeal.Gen.V25_main_arg4 m _ c)),
      (h c _ (mem_uc Cert.KernelIdeal.main_arg5 (by decide))).trans (W25_arg m c Cert.KernelIdeal.main_arg5 (Cert.KernelIdeal.Gen.V25_main_arg5 m _ c)),
      (h c _ (mem_uc Cert.KernelIdeal.main_arg6 (by decide))).trans (W25_arg m c Cert.KernelIdeal.main_arg6 (Cert.KernelIdeal.Gen.V25_main_arg6 m _ c)),
      (h c _ (mem_uc Cert.KernelIdeal.main_arg7 (by decide))).trans (W25_arg m c Cert.KernelIdeal.main_arg7 (Cert.KernelIdeal.Gen.V25_main_arg7 m _ c)),
      (h c _ (mem_uc Cert.KernelIdeal.main_arg8 (by decide))).trans (W25_arg m c Cert.KernelIdeal.main_arg8 (Cert.KernelIdeal.Gen.V25_main_arg8 m _ c)),
      (h c _ (mem_uc Cert.KernelIdeal.main_arg9 (by decide))).trans (W25_arg m c Cert.KernelIdeal.main_arg9 (Cert.KernelIdeal.Gen.V25_main_arg9 m _ c)),
      (h c _ (mem_uc Cert.KernelIdeal.main_arg10 (by decide))).trans (W25_arg m c Cert.KernelIdeal.main_arg10 (Cert.KernelIdeal.Gen.V25_main_arg10 m _ c)),
      (h c _ (mem_uc Cert.KernelIdeal.main_arg11 (by decide))).trans (W25_arg m c Cert.KernelIdeal.main_arg11 (Cert.KernelIdeal.Gen.V25_main_arg11 m _ c)),
      (h c _ (mem_uc Cert.KernelIdeal.main_arg12 (by decide))).trans (W25_arg m c Cert.KernelIdeal.main_arg12 (Cert.KernelIdeal.Gen.V25_main_arg12 m _ c)),
      (h c _ (mem_uc Cert.KernelIdeal.main_arg13 (by decide))).trans (W25_arg m c Cert.KernelIdeal.main_arg13 (Cert.KernelIdeal.Gen.V25_main_arg13 m _ c))⟩
  · -- the reference: its 450 operations, and the two results equal to the kernel's
    refine (θ_run _ _ _).mono (fun r h c => ?_) (run_main (F := Ideal) m' g')
    -- the real arrays, read off the kernel's memory, which the precondition is stated of
    obtain ⟨h1, h3, h4, h5, h6, h7, h8, h9, h10, h11, h12, h13⟩ := Cert.Pre_finite_inputs.PreReal.real_of_pre
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (hpre c)
    choose xR' exR using h1
    choose aR' eaR using h3
    choose wR' ewR using h4
    choose WaR' eWaR using h5
    choose baR' ebaR using h6
    choose WbR' eWbR using h7
    choose bbR' ebbR using h8
    choose WlAll' eWlAll using h9
    choose blAll' eblAll using h10
    choose WrAll' eWrAll using h11
    choose gAll' egAll using h12
    choose btAll' ebtAll using h13
    obtain ⟨g0, g1, g2, g3, g4, g5, g6, g7, g8, g9, g10, g11, g12, g13⟩ := hagree c
    have hK : KRealArgs m c (fun p q => xR' (ix2 p q)) (fun p q => WaR' (ix2 p q)) (fun p => baR' (ix1 p)) (fun p q => aR' (ix2 p q)) (fun p q => WbR' (ix2 p q)) (fun p => bbR' (ix1 p)) (fun p => wR' (ix1 p)) (fun p q s => WlAll' (ix3 p q s)) (fun p q s => WrAll' (ix3 p q s)) (fun p q => blAll' (ix2 p q)) (fun p q => gAll' (ix2 p q)) (fun p q => btAll' (ix2 p q)) :=
      ⟨funext fun i => (exR i).trans (by rw [eq_ix2 i]; rfl),
        funext fun i => (eaR i).trans (by rw [eq_ix2 i]; rfl),
        funext fun i => (ewR i).trans (by rw [eq_ix1 i]; rfl),
        funext fun i => (eWaR i).trans (by rw [eq_ix2 i]; rfl),
        funext fun i => (ebaR i).trans (by rw [eq_ix1 i]; rfl),
        funext fun i => (eWbR i).trans (by rw [eq_ix2 i]; rfl),
        funext fun i => (ebbR i).trans (by rw [eq_ix1 i]; rfl),
        funext fun i => (eWlAll i).trans (by rw [eq_ix3 i]; rfl),
        funext fun i => (eblAll i).trans (by rw [eq_ix2 i]; rfl),
        funext fun i => (eWrAll i).trans (by rw [eq_ix3 i]; rfl),
        funext fun i => (egAll i).trans (by rw [eq_ix2 i]; rfl),
        funext fun i => (ebtAll i).trans (by rw [eq_ix2 i]; rfl)⟩
    have hV : RealArgs (launchContents m' c) (fun p q => xR' (ix2 p q)) (fun p q => WaR' (ix2 p q)) (fun p => baR' (ix1 p)) (fun p q => aR' (ix2 p q)) (fun p q => WbR' (ix2 p q)) (fun p => bbR' (ix1 p)) (fun p => wR' (ix1 p)) (fun p q s => WlAll' (ix3 p q s)) (fun p q s => WrAll' (ix3 p q s)) (fun p q => blAll' (ix2 p q)) (fun p q => gAll' (ix2 p q)) (fun p q => btAll' (ix2 p q)) :=
      ⟨(show launchContents m' c (Proc.devRef .tc Cert.ReferenceIdeal.main_arg1) = _ from g1.trans (hK.hx)),
        (show launchContents m' c (Proc.devRef .tc Cert.ReferenceIdeal.main_arg3) = _ from g3.trans (hK.ha)),
        (show launchContents m' c (Proc.devRef .tc Cert.ReferenceIdeal.main_arg4) = _ from g4.trans (hK.hw)),
        (show launchContents m' c (Proc.devRef .tc Cert.ReferenceIdeal.main_arg5) = _ from g5.trans (hK.hWa)),
        (show launchContents m' c (Proc.devRef .tc Cert.ReferenceIdeal.main_arg6) = _ from g6.trans (hK.hba)),
        (show launchContents m' c (Proc.devRef .tc Cert.ReferenceIdeal.main_arg7) = _ from g7.trans (hK.hWb)),
        (show launchContents m' c (Proc.devRef .tc Cert.ReferenceIdeal.main_arg8) = _ from g8.trans (hK.hbb)),
        (show launchContents m' c (Proc.devRef .tc Cert.ReferenceIdeal.main_arg9) = _ from g9.trans (hK.hWl)),
        (show launchContents m' c (Proc.devRef .tc Cert.ReferenceIdeal.main_arg10) = _ from g10.trans (hK.hbl)),
        (show launchContents m' c (Proc.devRef .tc Cert.ReferenceIdeal.main_arg11) = _ from g11.trans (hK.hWr)),
        (show launchContents m' c (Proc.devRef .tc Cert.ReferenceIdeal.main_arg12) = _ from g12.trans (hK.hg)),
        (show launchContents m' c (Proc.devRef .tc Cert.ReferenceIdeal.main_arg13) = _ from g13.trans (hK.hbt))⟩
    -- the index rows and the graph numbers agree: the same functions of the same integer arguments
    have hsrc : refSrc (launchContents m' c) = kSrc m c := by
      unfold refSrc kSrc; rw [show launchContents m' c (Proc.devRef .tc Cert.ReferenceIdeal.main_arg2) = W0 m c (Proc.devRef .tc Cert.KernelIdeal.main_arg2) from g2]; rfl
    have hdst : refDst (launchContents m' c) = kDst m c := by
      unfold refDst kDst; rw [show launchContents m' c (Proc.devRef .tc Cert.ReferenceIdeal.main_arg2) = W0 m c (Proc.devRef .tc Cert.KernelIdeal.main_arg2) from g2]; rfl
    have hbatch : launchContents m' c (Proc.devRef .tc Cert.ReferenceIdeal.main_arg0) = W0 m c (Proc.devRef .tc Cert.KernelIdeal.main_arg0) := g0
    refine ⟨?_, ?_, (h c Cert.ReferenceIdeal.main_arg0).trans (kept (launchContents m' c) Cert.ReferenceIdeal.main_arg0 (by decide) (by decide) (by decide) (by decide) (by decide) (by decide)),
      (h c Cert.ReferenceIdeal.main_arg1).trans (kept (launchContents m' c) Cert.ReferenceIdeal.main_arg1 (by decide) (by decide) (by decide) (by decide) (by decide) (by decide)),
      (h c Cert.ReferenceIdeal.main_arg2).trans (kept (launchContents m' c) Cert.ReferenceIdeal.main_arg2 (by decide) (by decide) (by decide) (by decide) (by decide) (by decide)),
      (h c Cert.ReferenceIdeal.main_arg3).trans (kept (launchContents m' c) Cert.ReferenceIdeal.main_arg3 (by decide) (by decide) (by decide) (by decide) (by decide) (by decide)),
      (h c Cert.ReferenceIdeal.main_arg4).trans (kept (launchContents m' c) Cert.ReferenceIdeal.main_arg4 (by decide) (by decide) (by decide) (by decide) (by decide) (by decide)),
      (h c Cert.ReferenceIdeal.main_arg5).trans (kept (launchContents m' c) Cert.ReferenceIdeal.main_arg5 (by decide) (by decide) (by decide) (by decide) (by decide) (by decide)),
      (h c Cert.ReferenceIdeal.main_arg6).trans (kept (launchContents m' c) Cert.ReferenceIdeal.main_arg6 (by decide) (by decide) (by decide) (by decide) (by decide) (by decide)),
      (h c Cert.ReferenceIdeal.main_arg7).trans (kept (launchContents m' c) Cert.ReferenceIdeal.main_arg7 (by decide) (by decide) (by decide) (by decide) (by decide) (by decide)),
      (h c Cert.ReferenceIdeal.main_arg8).trans (kept (launchContents m' c) Cert.ReferenceIdeal.main_arg8 (by decide) (by decide) (by decide) (by decide) (by decide) (by decide)),
      (h c Cert.ReferenceIdeal.main_arg9).trans (kept (launchContents m' c) Cert.ReferenceIdeal.main_arg9 (by decide) (by decide) (by decide) (by decide) (by decide) (by decide)),
      (h c Cert.ReferenceIdeal.main_arg10).trans (kept (launchContents m' c) Cert.ReferenceIdeal.main_arg10 (by decide) (by decide) (by decide) (by decide) (by decide) (by decide)),
      (h c Cert.ReferenceIdeal.main_arg11).trans (kept (launchContents m' c) Cert.ReferenceIdeal.main_arg11 (by decide) (by decide) (by decide) (by decide) (by decide) (by decide)),
      (h c Cert.ReferenceIdeal.main_arg12).trans (kept (launchContents m' c) Cert.ReferenceIdeal.main_arg12 (by decide) (by decide) (by decide) (by decide) (by decide) (by decide)),
      (h c Cert.ReferenceIdeal.main_arg13).trans (kept (launchContents m' c) Cert.ReferenceIdeal.main_arg13 (by decide) (by decide) (by decide) (by decide) (by decide) (by decide))⟩
    · -- the joined per-graph sums
      show r.2.mem ((c.tc : Thread Cert.ReferenceIdeal.nD Cert.ReferenceIdeal.τ).loc Cert.ReferenceIdeal.main_v293)
        = W25 m half0 half1 half2 half3 half4 half5 half6 half7 half8 half9 half10 half11 c (Proc.devRef .tc Cert.KernelIdeal.main_v211)
      rw [h c Cert.ReferenceIdeal.main_v293, ref_pool, result_pool,
        refH1_real _ _ _ _ _ _ _ _ _ _ _ _ _ wf11 hV, refH2_real _ _ _ _ _ _ _ _ _ _ _ _ _ wf11 hV, refH3_real _ _ _ _ _ _ _ _ _ _ _ _ _ wf11 hV,
        refH4_real _ _ _ _ _ _ _ _ _ _ _ _ _ wf11 hV, refH5_real _ _ _ _ _ _ _ _ _ _ _ _ _ wf11 hV,
        kPool0_real m c _ _ _ _ _ _ _ _ _ _ _ _ hK, kPool1_real m c _ _ _ _ _ _ _ _ _ _ _ _ hK, kPool2_real m c _ _ _ _ _ _ _ _ _ _ _ _ hK,
        kPool3_real m c _ _ _ _ _ _ _ _ _ _ _ _ hK, kPool4_real m c _ _ _ _ _ _ _ _ _ _ _ _ hK,
        poolOf_coe, poolOf_coe, poolOf_coe, poolOf_coe, poolOf_coe, ← hsrc, ← hdst, ← hbatch]
      rfl
    · -- the last layer's node array
      show r.2.mem ((c.tc : Thread Cert.ReferenceIdeal.nD Cert.ReferenceIdeal.τ).loc Cert.ReferenceIdeal.main_v277)
        = W25 m half0 half1 half2 half3 half4 half5 half6 half7 half8 half9 half10 half11 c (Proc.devRef .tc Cert.KernelIdeal.main_v210_0)
      rw [h c Cert.ReferenceIdeal.main_v277, ref_h, result_h, refH5_real _ _ _ _ _ _ _ _ _ _ _ _ _ wf11 hV, kH5_real m c _ _ _ _ _ _ _ _ _ _ _ _ hK, ← hsrc, ← hdst]
      rfl

end Cert.Alg

end
-- ==== Proof.lean ====
/- The certificate of a five-layer message-passing network against its plain reference.

   Both programs compute, per layer, `h ↦ BN(agg(h) · Wl + bl + h · Wr)` with `agg(h)` the mean over incoming edges of
   `(h[src] + ea) · ew`, `ea = edge_attr · W_bond + b_bond`, batch norm over the 50000 nodes, a relu on all layers but
   the last, and a per-graph sum of every layer's output. The reference forms `ea` per edge and sums; the kernel sums
   `edge_attr · ew` and `ew` over each node's incoming edges first and applies `W_bond`, `b_bond` once per node, takes
   the variance as mean of squares minus squared mean, and the per-graph sums as products with one-hot rows, tile by tile.

   Proved here. The reference's side, whole: its 450 host operations run to the end with the arguments unchanged
   (Proof/RefOps.lean, Proof/RefRun.lean: the reference's frame); both of its results are named as functions of the launch
   contents — five iterated layer maps and their per-graph sums (Proof/RefLayers.lean, Proof/RefValue.lean,
   Proof/RefResult.lean, Proof/RefTail.lean); every stage of a layer is read at an index (Proof/AggRead.lean,
   Proof/BnRead.lean, Proof/NormRead.lean, Proof/PoolRead.lean over the general lemmas Proof/Lib*.lean); over real
   inputs one whole layer of the reference IS the kernel's arrangement (Proof/RealLayer.lean: the hoisted aggregation by
   linearity of a sum over a node's incoming edges, the bias added last, the variance from the two sums and not negative,
   the same normalisation), its per-graph sums the one-hot products tile by tile; and the precondition makes the argument
   arrays real (Proof/PreReal.lean), so every execution of the reference ends at the real arrays of the kernel's
   arrangement, five layers deep (Proof/RealNet.lean, Proof/RefReal.lean `run_real`). The idealization rewrote nothing.
   The kernel's side. The two kernel programs' frames go through the conditional frame of @main's list of thirteen host
   stretches and twelve kernel regions (`Gen.frame_cond`): each of the twelve kernel regions has its proof data
   and body obligation (Proof/KI/Reg0.lean … Reg11.lean; ten of them carry an accumulator across the ten grid points, with one
   whole-body run per control case), the buffers are followed through @main as a chain of valuations and the regions made
   segments (Proof/KI/AsmChain.lean, AsmFrame.lean, FrameOf.lean; the word-level program's copies under Proof/K/). The same
   segments read in full at the end give the idealized kernel's run with every buffer named (Proof/KI/AsmRun.lean); every
   region's output arrays are whole-array functions of its entry arrays (Proof/KI/Val0.lean … Val11.lean: blocks to arrays,
   the accumulators by induction on the grid point), every host stretch a function of the buffers it reads
   (Proof/KI/Stretch.lean, StretchRest.lean), so the two results are nested functions of the arguments (Proof/KI/KChain.lean),
   which over real arguments are the very real arrays the reference ends at (Proof/KI/StretchAgg.lean, StretchReal.lean,
   KLayerReal.lean, KNetReal.lean). Proof/Algebraic.lean joins the two runs: the precondition gives real arguments, the two
   memories agree on them, the index rows and graph numbers are the same functions of the same integer arguments. -/
import proofs.«144276_j65051574665788_2_alg».proof.Defs
import proofs.«144276_j65051574665788_2_alg».proof.Proof.Gen.Kernel
import proofs.«144276_j65051574665788_2_alg».proof.Proof.Gen.Kernel.Regions
import proofs.«144276_j65051574665788_2_alg».proof.Proof.Gen.KernelIdeal
import proofs.«144276_j65051574665788_2_alg».proof.Proof.Gen.KernelIdeal.Regions
import proofs.«144276_j65051574665788_2_alg».proof.Proof.Gen.ReferenceIdeal
import proofs.«144276_j65051574665788_2_alg».proof.Proof.Gen.Pre_finite_inputs
import proofs.«144276_j65051574665788_2_alg».proof.Proof.RefRun
import proofs.«144276_j65051574665788_2_alg».proof.Proof.RefReal
import proofs.«144276_j65051574665788_2_alg».proof.Proof.KI.FrameOf
import proofs.«144276_j65051574665788_2_alg».proof.Proof.K.FrameOf
import proofs.«144276_j65051574665788_2_alg».proof.Proof.Algebraic
import Idealize.ShloMosaic.Adequacy
import Idealize.ShloMosaic.Init

noncomputable section

namespace Cert.Proof

open Idealize.ShloMosaic Idealize.SL.Sem

/-- The reference's frame: its straight line of host operations ends, and writes no argument. -/
theorem frame_ri [Cert.ReferenceIdeal.Facts] [Cert.Pre_finite_inputs.Facts] : Cert.frame_ReferenceIdeal :=
  fun m ρ _ => Cert.ReferenceIdeal.RefRun.frame (F := Ideal) m ρ

/-- The kernel program's frame, word-level and idealized: twelve kernel regions, each with its proof data and body obligation
    (Proof/K/Reg0.lean … Reg11.lean, Proof/KI/Reg0.lean … Reg11.lean), chained through the generated conditional frame
    (Proof/K/AsmChain.lean, AsmFrame.lean, FrameOf.lean and the same under Proof/KI/). -/
theorem frame_k [Cert.Kernel.Facts] [Cert.Pre_finite_inputs.Facts] : Cert.frame_Kernel :=
  fun m ρ _ => Cert.Kernel.Asm.frame_all (F := Bits) m ρ
theorem frame_ki [Cert.KernelIdeal.Facts] [Cert.Pre_finite_inputs.Facts] : Cert.frame_KernelIdeal :=
  fun m ρ _ => Cert.KernelIdeal.Asm.frame_all (F := Ideal) m ρ

/-- The idealized kernel is the kernel's own text read over the extended reals: no operation was rewritten. -/
theorem preserves : Cert.preserves_Kernel_KernelIdeal := trivial

theorem claim : Cert.Claim := ⟨Cert.Kernel.Gen.facts, Cert.KernelIdeal.Gen.facts, Cert.ReferenceIdeal.Gen.facts, Cert.Pre_finite_inputs.Gen.facts, by
  exact ⟨frame_k, frame_ki, frame_ri, preserves, Cert.Alg.algebraic⟩⟩

end Cert.Proof

end
